-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2181) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16x1x512x512 : Shape := ⟨4, ![16, 1, 512, 512]⟩
abbrev S16x4x1x512x512 : Shape := ⟨5, ![16, 4, 1, 512, 512]⟩
abbrev S16x4x2 : Shape := ⟨3, ![16, 4, 2]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  bcast_S_S16x4x1x512x512 : S_.BroadcastsInDim S16x4x1x512x512 (![] : Fin 0 → Fin S16x4x1x512x512.rank)
  reducesTo_S16x4x1x512x512_S_d0_1_2_3_4 : S16x4x1x512x512.ReducesTo [0, 1, 2, 3, 4] S_
  bcast_S_S16x4x2 : S_.BroadcastsInDim S16x4x2 (![] : Fin 0 → Fin S16x4x2.rank)
  reducesTo_S16x4x2_S_d0_1_2 : S16x4x2.ReducesTo [0, 1, 2] S_

variable [Facts]

def fn {F : FTy → Type} [FloatOps F] (main_arg0 : FVec F S16x1x512x512 .f32) (main_arg1 : FVec F S16x4x1x512x512 .f32) (main_arg2 : IVec S16x4x2 32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x4x1x512x512 .f32 := Host.absf main_arg1
  let main_cst_0 : FVec F S_ .f32 := constant S_ .f32 0x7F800000#32
  let main_v5 : FVec F S16x4x1x512x512 .f32 := broadcastInDim S16x4x1x512x512 ![] bcast_S_S16x4x1x512x512 main_cst_0
  let main_v6 : IVec S16x4x1x512x512 1 := cmpf .olt main_v4 main_v5
  let main_c_1 : IVec S_ 1 := constantI S_ 1 1#1
  let main_v7 : IVec S_ 1 := (fun x v => Host.reduce IntOp.andi x v reducesTo_S16x4x1x512x512_S_d0_1_2_3_4 h_S_) main_v6 main_c_1
  let main_v8 : IVec S_ 1 := andi main_v3 main_v7
  let main_c_2 : IVec S_ 32 := constantI S_ 32 0#32
  let main_v9 : IVec S16x4x2 32 := broadcastInDim S16x4x2 ![] bcast_S_S16x4x2 main_c_2
  let main_v10 : IVec S16x4x2 1 := cmpi .sge main_arg2 main_v9
  let main_c_3 : IVec S_ 32 := constantI S_ 32 1#32
  let main_v11 : IVec S16x4x2 32 := broadcastInDim S16x4x2 ![] bcast_S_S16x4x2 main_c_3
  let main_v12 : IVec S16x4x2 1 := cmpi .sle main_arg2 main_v11
  let main_v13 : IVec S16x4x2 1 := andi main_v10 main_v12
  let main_c_4 : IVec S_ 1 := constantI S_ 1 1#1
  let main_v14 : IVec S_ 1 := (fun x v => Host.reduce IntOp.andi x v reducesTo_S16x4x2_S_d0_1_2 h_S_) main_v13 main_c_4
  let main_v15 : IVec S_ 1 := andi main_v8 main_v14
  main_v15
-- ==== Kernel.lean ====
abbrev S16x1x512x512 : Shape := ⟨4, ![16, 1, 512, 512]⟩
abbrev S16x4x1x512x512 : Shape := ⟨5, ![16, 4, 1, 512, 512]⟩
abbrev S16x4x2 : Shape := ⟨3, ![16, 4, 2]⟩
abbrev S128 : Shape := ⟨1, ![128]⟩
abbrev S16 : Shape := ⟨1, ![16]⟩
abbrev S128x128 : Shape := ⟨2, ![128, 128]⟩
abbrev S_ : Shape := ⟨0, ![]⟩
abbrev S1 : Shape := ⟨1, ![1]⟩
abbrev S1x1x1x128x128 : Shape := ⟨5, ![1, 1, 1, 128, 128]⟩
abbrev S1x1x128x128 : Shape := ⟨4, ![1, 1, 128, 128]⟩
abbrev S1x16 : Shape := ⟨2, ![1, 16]⟩

abbrev nBuf : Table → Nat
  | .hbm => 5
  | .local .scVector .vmem => 7
  | _ => 0

abbrev bufTy : (tb : Table) → Fin (nBuf tb) → BufTy
  | .hbm, ⟨0, _⟩ => ⟨S16x1x512x512, .f32⟩
  | .hbm, ⟨1, _⟩ => ⟨S16x4x1x512x512, .f32⟩
  | .hbm, ⟨2, _⟩ => ⟨S16x4x2, .i32⟩
  | .hbm, ⟨3, _⟩ => ⟨S128, .i32⟩
  | .hbm, ⟨4, _⟩ => ⟨S16x1x512x512, .f32⟩
  | .local .scVector .vmem, ⟨0, _⟩ => ⟨S16, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S128x128, .f32⟩
  | _, _ => ⟨S16x1x512x512, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 3, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_11 : BitVec 32 := 0#32
  let v31 : BitVec 1 := Scalar.cmpi .sgt v19 c0_i32_11
  let v32 : BitVec 32 := Scalar.extui v31
  let c0_i32_12 : BitVec 32 := 0#32
  let v33 : BitVec 1 := Scalar.cmpi .slt v19 c0_i32_12
  let v34 : BitVec 32 := Scalar.extui v33
  let v35 : BitVec 32 := Scalar.subi v32 v34
  let c2_i32_10 : BitVec 32 := 2#32
  let c0_i32_13 : BitVec 32 := 0#32
  let v36 : BitVec 1 := Scalar.cmpi .sgt c2_i32_10 c0_i32_13
  let v37 : BitVec 32 := Scalar.extui v36
  let c0_i32_14 : BitVec 32 := 0#32
  let v38 : BitVec 1 := Scalar.cmpi .slt c2_i32_10 c0_i32_14
  let v39 : BitVec 32 := Scalar.extui v38
  let v40 : BitVec 32 := Scalar.subi v37 v39
  let v41 : BitVec 1 := Scalar.cmpi .ne v35 v40
  let v42 : BitVec 32 := Scalar.remsi v19 c2_i32_10
  let c0_i32_15 : BitVec 32 := 0#32
  let v43 : BitVec 1 := Scalar.cmpi .ne v42 c0_i32_15
  let v44 : BitVec 1 := Scalar.andi v41 v43
  let v30 : BitVec 32 := Scalar.divsi v19 c2_i32_10
  let c1_i32_16 : BitVec 32 := 1#32
  let v45 : BitVec 32 := Scalar.subi v30 c1_i32_16
  let v46 : BitVec 32 := Scalar.select v44 v45 v30
  let c16_i32_17 : BitVec 32 := 16#32
  let v47 : BitVec 32 := Scalar.muli v46 c16_i32_17
  ![v47.toNat]
def k0_off2 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_41 : BitVec 32 := 0#32
  let v117 : BitVec 32 := Scalar.addi v29 c0_i32_41
  let c0_i32_42 : BitVec 32 := 0#32
  let v119 : BitVec 1 := Scalar.cmpi .sgt v117 c0_i32_42
  let v120 : BitVec 32 := Scalar.extui v119
  let c0_i32_43 : BitVec 32 := 0#32
  let v121 : BitVec 1 := Scalar.cmpi .slt v117 c0_i32_43
  let v122 : BitVec 32 := Scalar.extui v121
  let v123 : BitVec 32 := Scalar.subi v120 v122
  let c4_i32 : BitVec 32 := 4#32
  let c0_i32_44 : BitVec 32 := 0#32
  let v124 : BitVec 1 := Scalar.cmpi .sgt c4_i32 c0_i32_44
  let v125 : BitVec 32 := Scalar.extui v124
  let c0_i32_45 : BitVec 32 := 0#32
  let v126 : BitVec 1 := Scalar.cmpi .slt c4_i32 c0_i32_45
  let v127 : BitVec 32 := Scalar.extui v126
  let v128 : BitVec 32 := Scalar.subi v125 v127
  let v129 : BitVec 1 := Scalar.cmpi .ne v123 v128
  let v130 : BitVec 32 := Scalar.remsi v117 c4_i32
  let c0_i32_46 : BitVec 32 := 0#32
  let v131 : BitVec 1 := Scalar.cmpi .ne v130 c0_i32_46
  let v132 : BitVec 1 := Scalar.andi v129 v131
  let v118 : BitVec 32 := Scalar.divsi v117 c4_i32
  let c1_i32_47 : BitVec 32 := 1#32
  let v133 : BitVec 32 := Scalar.subi v118 c1_i32_47
  let v134 : BitVec 32 := Scalar.select v132 v133 v118
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v175 : BitVec 1 := Scalar.cmpi .sge v134 v88
  let c3_i32_62 : BitVec 32 := 3#32
  let v176 : BitVec 32 := Scalar.addi v88 c3_i32_62
  let v177 : BitVec 1 := Scalar.cmpi .slt v134 v176
  let v178 : BitVec 1 := Scalar.andi v175 v177
  let c4_i32_48 : BitVec 32 := 4#32
  let c0_i32_49 : BitVec 32 := 0#32
  let v135 : BitVec 1 := Scalar.cmpi .eq c4_i32_48 c0_i32_49
  let c1_i32_50 : BitVec 32 := 1#32
  let v136 : BitVec 32 := Scalar.select v135 c1_i32_50 c4_i32_48
  let v137 : BitVec 32 := Scalar.remsi v117 v136
  let c0_i32_52 : BitVec 32 := 0#32
  let v139 : BitVec 1 := Scalar.cmpi .slt v137 c0_i32_52
  let c0_i32_53 : BitVec 32 := 0#32
  let v140 : BitVec 1 := Scalar.cmpi .slt v136 c0_i32_53
  let v141 : BitVec 1 := Scalar.xori v139 v140
  let c0_i32_51 : BitVec 32 := 0#32
  let v138 : BitVec 1 := Scalar.cmpi .ne v137 c0_i32_51
  let v142 : BitVec 1 := Scalar.andi v141 v138
  let v143 : BitVec 32 := Scalar.addi v137 v136
  let v144 : BitVec 32 := Scalar.select v142 v143 v137
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v179 : BitVec 1 := Scalar.cmpi .sge v144 v116
  let v180 : BitVec 1 := Scalar.andi v178 v179
  let c3_i32_63 : BitVec 32 := 3#32
  let v181 : BitVec 32 := Scalar.addi v116 c3_i32_63
  let v182 : BitVec 1 := Scalar.cmpi .slt v144 v181
  let v183 : BitVec 1 := Scalar.andi v180 v182
  let c3_i32_64 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v165 : BitVec 1 := Scalar.cmpi .sge v134 v81
  let c3_i32_59 : BitVec 32 := 3#32
  let v166 : BitVec 32 := Scalar.addi v81 c3_i32_59
  let v167 : BitVec 1 := Scalar.cmpi .slt v134 v166
  let v168 : BitVec 1 := Scalar.andi v165 v167
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v169 : BitVec 1 := Scalar.cmpi .sge v144 v109
  let v170 : BitVec 1 := Scalar.andi v168 v169
  let c3_i32_60 : BitVec 32 := 3#32
  let v171 : BitVec 32 := Scalar.addi v109 c3_i32_60
  let v172 : BitVec 1 := Scalar.cmpi .slt v144 v171
  let v173 : BitVec 1 := Scalar.andi v170 v172
  let c2_i32_61 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v155 : BitVec 1 := Scalar.cmpi .sge v134 v74
  let c3_i32_56 : BitVec 32 := 3#32
  let v156 : BitVec 32 := Scalar.addi v74 c3_i32_56
  let v157 : BitVec 1 := Scalar.cmpi .slt v134 v156
  let v158 : BitVec 1 := Scalar.andi v155 v157
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v159 : BitVec 1 := Scalar.cmpi .sge v144 v102
  let v160 : BitVec 1 := Scalar.andi v158 v159
  let c3_i32_57 : BitVec 32 := 3#32
  let v161 : BitVec 32 := Scalar.addi v102 c3_i32_57
  let v162 : BitVec 1 := Scalar.cmpi .slt v144 v161
  let v163 : BitVec 1 := Scalar.andi v160 v162
  let c1_i32_58 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v145 : BitVec 1 := Scalar.cmpi .sge v134 v67
  let c3_i32 : BitVec 32 := 3#32
  let v146 : BitVec 32 := Scalar.addi v67 c3_i32
  let v147 : BitVec 1 := Scalar.cmpi .slt v134 v146
  let v148 : BitVec 1 := Scalar.andi v145 v147
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v149 : BitVec 1 := Scalar.cmpi .sge v144 v95
  let v150 : BitVec 1 := Scalar.andi v148 v149
  let c3_i32_54 : BitVec 32 := 3#32
  let v151 : BitVec 32 := Scalar.addi v95 c3_i32_54
  let v152 : BitVec 1 := Scalar.cmpi .slt v144 v151
  let v153 : BitVec 1 := Scalar.andi v150 v152
  let c0_i32_55 : BitVec 32 := 0#32
  let c_m1_i32 : BitVec 32 := 4294967295#32
  let v154 : BitVec 32 := Scalar.select v153 c0_i32_55 c_m1_i32
  let v164 : BitVec 32 := Scalar.select v163 c1_i32_58 v154
  let v174 : BitVec 32 := Scalar.select v173 c2_i32_61 v164
  let v184 : BitVec 32 := Scalar.select v183 c3_i32_64 v174
  let c0_i32_865 : BitVec 32 := 0#32
  let c128_i32 : BitVec 32 := 128#32
  let v185 : BitVec 32 := Scalar.muli v134 c128_i32
  let c128_i32_65 : BitVec 32 := 128#32
  let v186 : BitVec 32 := Scalar.muli v144 c128_i32_65
  ![v19.toNat, v184.toNat, 0, v185.toNat, v186.toNat]
def k0_cond1 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_41 : BitVec 32 := 0#32
  let v117 : BitVec 32 := Scalar.addi v29 c0_i32_41
  let c0_i32_42 : BitVec 32 := 0#32
  let v119 : BitVec 1 := Scalar.cmpi .sgt v117 c0_i32_42
  let v120 : BitVec 32 := Scalar.extui v119
  let c0_i32_43 : BitVec 32 := 0#32
  let v121 : BitVec 1 := Scalar.cmpi .slt v117 c0_i32_43
  let v122 : BitVec 32 := Scalar.extui v121
  let v123 : BitVec 32 := Scalar.subi v120 v122
  let c4_i32 : BitVec 32 := 4#32
  let c0_i32_44 : BitVec 32 := 0#32
  let v124 : BitVec 1 := Scalar.cmpi .sgt c4_i32 c0_i32_44
  let v125 : BitVec 32 := Scalar.extui v124
  let c0_i32_45 : BitVec 32 := 0#32
  let v126 : BitVec 1 := Scalar.cmpi .slt c4_i32 c0_i32_45
  let v127 : BitVec 32 := Scalar.extui v126
  let v128 : BitVec 32 := Scalar.subi v125 v127
  let v129 : BitVec 1 := Scalar.cmpi .ne v123 v128
  let v130 : BitVec 32 := Scalar.remsi v117 c4_i32
  let c0_i32_46 : BitVec 32 := 0#32
  let v131 : BitVec 1 := Scalar.cmpi .ne v130 c0_i32_46
  let v132 : BitVec 1 := Scalar.andi v129 v131
  let v118 : BitVec 32 := Scalar.divsi v117 c4_i32
  let c1_i32_47 : BitVec 32 := 1#32
  let v133 : BitVec 32 := Scalar.subi v118 c1_i32_47
  let v134 : BitVec 32 := Scalar.select v132 v133 v118
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v175 : BitVec 1 := Scalar.cmpi .sge v134 v88
  let c3_i32_62 : BitVec 32 := 3#32
  let v176 : BitVec 32 := Scalar.addi v88 c3_i32_62
  let v177 : BitVec 1 := Scalar.cmpi .slt v134 v176
  let v178 : BitVec 1 := Scalar.andi v175 v177
  let c4_i32_48 : BitVec 32 := 4#32
  let c0_i32_49 : BitVec 32 := 0#32
  let v135 : BitVec 1 := Scalar.cmpi .eq c4_i32_48 c0_i32_49
  let c1_i32_50 : BitVec 32 := 1#32
  let v136 : BitVec 32 := Scalar.select v135 c1_i32_50 c4_i32_48
  let v137 : BitVec 32 := Scalar.remsi v117 v136
  let c0_i32_52 : BitVec 32 := 0#32
  let v139 : BitVec 1 := Scalar.cmpi .slt v137 c0_i32_52
  let c0_i32_53 : BitVec 32 := 0#32
  let v140 : BitVec 1 := Scalar.cmpi .slt v136 c0_i32_53
  let v141 : BitVec 1 := Scalar.xori v139 v140
  let c0_i32_51 : BitVec 32 := 0#32
  let v138 : BitVec 1 := Scalar.cmpi .ne v137 c0_i32_51
  let v142 : BitVec 1 := Scalar.andi v141 v138
  let v143 : BitVec 32 := Scalar.addi v137 v136
  let v144 : BitVec 32 := Scalar.select v142 v143 v137
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v179 : BitVec 1 := Scalar.cmpi .sge v144 v116
  let v180 : BitVec 1 := Scalar.andi v178 v179
  let c3_i32_63 : BitVec 32 := 3#32
  let v181 : BitVec 32 := Scalar.addi v116 c3_i32_63
  let v182 : BitVec 1 := Scalar.cmpi .slt v144 v181
  let v183 : BitVec 1 := Scalar.andi v180 v182
  let c3_i32_64 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v165 : BitVec 1 := Scalar.cmpi .sge v134 v81
  let c3_i32_59 : BitVec 32 := 3#32
  let v166 : BitVec 32 := Scalar.addi v81 c3_i32_59
  let v167 : BitVec 1 := Scalar.cmpi .slt v134 v166
  let v168 : BitVec 1 := Scalar.andi v165 v167
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v169 : BitVec 1 := Scalar.cmpi .sge v144 v109
  let v170 : BitVec 1 := Scalar.andi v168 v169
  let c3_i32_60 : BitVec 32 := 3#32
  let v171 : BitVec 32 := Scalar.addi v109 c3_i32_60
  let v172 : BitVec 1 := Scalar.cmpi .slt v144 v171
  let v173 : BitVec 1 := Scalar.andi v170 v172
  let c2_i32_61 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v155 : BitVec 1 := Scalar.cmpi .sge v134 v74
  let c3_i32_56 : BitVec 32 := 3#32
  let v156 : BitVec 32 := Scalar.addi v74 c3_i32_56
  let v157 : BitVec 1 := Scalar.cmpi .slt v134 v156
  let v158 : BitVec 1 := Scalar.andi v155 v157
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v159 : BitVec 1 := Scalar.cmpi .sge v144 v102
  let v160 : BitVec 1 := Scalar.andi v158 v159
  let c3_i32_57 : BitVec 32 := 3#32
  let v161 : BitVec 32 := Scalar.addi v102 c3_i32_57
  let v162 : BitVec 1 := Scalar.cmpi .slt v144 v161
  let v163 : BitVec 1 := Scalar.andi v160 v162
  let c1_i32_58 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v145 : BitVec 1 := Scalar.cmpi .sge v134 v67
  let c3_i32 : BitVec 32 := 3#32
  let v146 : BitVec 32 := Scalar.addi v67 c3_i32
  let v147 : BitVec 1 := Scalar.cmpi .slt v134 v146
  let v148 : BitVec 1 := Scalar.andi v145 v147
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v149 : BitVec 1 := Scalar.cmpi .sge v144 v95
  let v150 : BitVec 1 := Scalar.andi v148 v149
  let c3_i32_54 : BitVec 32 := 3#32
  let v151 : BitVec 32 := Scalar.addi v95 c3_i32_54
  let v152 : BitVec 1 := Scalar.cmpi .slt v144 v151
  let v153 : BitVec 1 := Scalar.andi v150 v152
  let c0_i32_55 : BitVec 32 := 0#32
  let c_m1_i32 : BitVec 32 := 4294967295#32
  let v154 : BitVec 32 := Scalar.select v153 c0_i32_55 c_m1_i32
  let v164 : BitVec 32 := Scalar.select v163 c1_i32_58 v154
  let v174 : BitVec 32 := Scalar.select v173 c2_i32_61 v164
  let v184 : BitVec 32 := Scalar.select v183 c3_i32_64 v174
  let c0_i32_66 : BitVec 32 := 0#32
  let v187 : BitVec 1 := Scalar.cmpi .sge v184 c0_i32_66
  let v188 : BitVec 32 := Scalar.extui v187
  let c0_i32_67 : BitVec 32 := 0#32
  let v189 : BitVec 1 := Scalar.cmpi .ne v188 c0_i32_67
  v189

def k0_off3 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c0_i32_41 : BitVec 32 := 0#32
  let v117 : BitVec 32 := Scalar.addi v29 c0_i32_41
  let c0_i32_42 : BitVec 32 := 0#32
  let v119 : BitVec 1 := Scalar.cmpi .sgt v117 c0_i32_42
  let v120 : BitVec 32 := Scalar.extui v119
  let c0_i32_43 : BitVec 32 := 0#32
  let v121 : BitVec 1 := Scalar.cmpi .slt v117 c0_i32_43
  let v122 : BitVec 32 := Scalar.extui v121
  let v123 : BitVec 32 := Scalar.subi v120 v122
  let c4_i32 : BitVec 32 := 4#32
  let c0_i32_44 : BitVec 32 := 0#32
  let v124 : BitVec 1 := Scalar.cmpi .sgt c4_i32 c0_i32_44
  let v125 : BitVec 32 := Scalar.extui v124
  let c0_i32_45 : BitVec 32 := 0#32
  let v126 : BitVec 1 := Scalar.cmpi .slt c4_i32 c0_i32_45
  let v127 : BitVec 32 := Scalar.extui v126
  let v128 : BitVec 32 := Scalar.subi v125 v127
  let v129 : BitVec 1 := Scalar.cmpi .ne v123 v128
  let v130 : BitVec 32 := Scalar.remsi v117 c4_i32
  let c0_i32_46 : BitVec 32 := 0#32
  let v131 : BitVec 1 := Scalar.cmpi .ne v130 c0_i32_46
  let v132 : BitVec 1 := Scalar.andi v129 v131
  let v118 : BitVec 32 := Scalar.divsi v117 c4_i32
  let c1_i32_47 : BitVec 32 := 1#32
  let v133 : BitVec 32 := Scalar.subi v118 c1_i32_47
  let v134 : BitVec 32 := Scalar.select v132 v133 v118
  let c128_i32 : BitVec 32 := 128#32
  let v185 : BitVec 32 := Scalar.muli v134 c128_i32
  let c4_i32_48 : BitVec 32 := 4#32
  let c0_i32_49 : BitVec 32 := 0#32
  let v135 : BitVec 1 := Scalar.cmpi .eq c4_i32_48 c0_i32_49
  let c1_i32_50 : BitVec 32 := 1#32
  let v136 : BitVec 32 := Scalar.select v135 c1_i32_50 c4_i32_48
  let v137 : BitVec 32 := Scalar.remsi v117 v136
  let c0_i32_52 : BitVec 32 := 0#32
  let v139 : BitVec 1 := Scalar.cmpi .slt v137 c0_i32_52
  let c0_i32_53 : BitVec 32 := 0#32
  let v140 : BitVec 1 := Scalar.cmpi .slt v136 c0_i32_53
  let v141 : BitVec 1 := Scalar.xori v139 v140
  let c0_i32_51 : BitVec 32 := 0#32
  let v138 : BitVec 1 := Scalar.cmpi .ne v137 c0_i32_51
  let v142 : BitVec 1 := Scalar.andi v141 v138
  let v143 : BitVec 32 := Scalar.addi v137 v136
  let v144 : BitVec 32 := Scalar.select v142 v143 v137
  let c128_i32_65 : BitVec 32 := 128#32
  let v186 : BitVec 32 := Scalar.muli v144 c128_i32_65
  ![v19.toNat, 0, v185.toNat, v186.toNat]
def k0_off4 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c1_i32_70 : BitVec 32 := 1#32
  let v193 : BitVec 32 := Scalar.addi v29 c1_i32_70
  let c0_i32_72 : BitVec 32 := 0#32
  let v195 : BitVec 1 := Scalar.cmpi .sgt v193 c0_i32_72
  let v196 : BitVec 32 := Scalar.extui v195
  let c0_i32_73 : BitVec 32 := 0#32
  let v197 : BitVec 1 := Scalar.cmpi .slt v193 c0_i32_73
  let v198 : BitVec 32 := Scalar.extui v197
  let v199 : BitVec 32 := Scalar.subi v196 v198
  let c4_i32_71 : BitVec 32 := 4#32
  let c0_i32_74 : BitVec 32 := 0#32
  let v200 : BitVec 1 := Scalar.cmpi .sgt c4_i32_71 c0_i32_74
  let v201 : BitVec 32 := Scalar.extui v200
  let c0_i32_75 : BitVec 32 := 0#32
  let v202 : BitVec 1 := Scalar.cmpi .slt c4_i32_71 c0_i32_75
  let v203 : BitVec 32 := Scalar.extui v202
  let v204 : BitVec 32 := Scalar.subi v201 v203
  let v205 : BitVec 1 := Scalar.cmpi .ne v199 v204
  let v206 : BitVec 32 := Scalar.remsi v193 c4_i32_71
  let c0_i32_76 : BitVec 32 := 0#32
  let v207 : BitVec 1 := Scalar.cmpi .ne v206 c0_i32_76
  let v208 : BitVec 1 := Scalar.andi v205 v207
  let v194 : BitVec 32 := Scalar.divsi v193 c4_i32_71
  let c1_i32_77 : BitVec 32 := 1#32
  let v209 : BitVec 32 := Scalar.subi v194 c1_i32_77
  let v210 : BitVec 32 := Scalar.select v208 v209 v194
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v251 : BitVec 1 := Scalar.cmpi .sge v210 v88
  let c3_i32_94 : BitVec 32 := 3#32
  let v252 : BitVec 32 := Scalar.addi v88 c3_i32_94
  let v253 : BitVec 1 := Scalar.cmpi .slt v210 v252
  let v254 : BitVec 1 := Scalar.andi v251 v253
  let c4_i32_78 : BitVec 32 := 4#32
  let c0_i32_79 : BitVec 32 := 0#32
  let v211 : BitVec 1 := Scalar.cmpi .eq c4_i32_78 c0_i32_79
  let c1_i32_80 : BitVec 32 := 1#32
  let v212 : BitVec 32 := Scalar.select v211 c1_i32_80 c4_i32_78
  let v213 : BitVec 32 := Scalar.remsi v193 v212
  let c0_i32_82 : BitVec 32 := 0#32
  let v215 : BitVec 1 := Scalar.cmpi .slt v213 c0_i32_82
  let c0_i32_83 : BitVec 32 := 0#32
  let v216 : BitVec 1 := Scalar.cmpi .slt v212 c0_i32_83
  let v217 : BitVec 1 := Scalar.xori v215 v216
  let c0_i32_81 : BitVec 32 := 0#32
  let v214 : BitVec 1 := Scalar.cmpi .ne v213 c0_i32_81
  let v218 : BitVec 1 := Scalar.andi v217 v214
  let v219 : BitVec 32 := Scalar.addi v213 v212
  let v220 : BitVec 32 := Scalar.select v218 v219 v213
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v255 : BitVec 1 := Scalar.cmpi .sge v220 v116
  let v256 : BitVec 1 := Scalar.andi v254 v255
  let c3_i32_95 : BitVec 32 := 3#32
  let v257 : BitVec 32 := Scalar.addi v116 c3_i32_95
  let v258 : BitVec 1 := Scalar.cmpi .slt v220 v257
  let v259 : BitVec 1 := Scalar.andi v256 v258
  let c3_i32_96 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v241 : BitVec 1 := Scalar.cmpi .sge v210 v81
  let c3_i32_91 : BitVec 32 := 3#32
  let v242 : BitVec 32 := Scalar.addi v81 c3_i32_91
  let v243 : BitVec 1 := Scalar.cmpi .slt v210 v242
  let v244 : BitVec 1 := Scalar.andi v241 v243
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v245 : BitVec 1 := Scalar.cmpi .sge v220 v109
  let v246 : BitVec 1 := Scalar.andi v244 v245
  let c3_i32_92 : BitVec 32 := 3#32
  let v247 : BitVec 32 := Scalar.addi v109 c3_i32_92
  let v248 : BitVec 1 := Scalar.cmpi .slt v220 v247
  let v249 : BitVec 1 := Scalar.andi v246 v248
  let c2_i32_93 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v231 : BitVec 1 := Scalar.cmpi .sge v210 v74
  let c3_i32_88 : BitVec 32 := 3#32
  let v232 : BitVec 32 := Scalar.addi v74 c3_i32_88
  let v233 : BitVec 1 := Scalar.cmpi .slt v210 v232
  let v234 : BitVec 1 := Scalar.andi v231 v233
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v235 : BitVec 1 := Scalar.cmpi .sge v220 v102
  let v236 : BitVec 1 := Scalar.andi v234 v235
  let c3_i32_89 : BitVec 32 := 3#32
  let v237 : BitVec 32 := Scalar.addi v102 c3_i32_89
  let v238 : BitVec 1 := Scalar.cmpi .slt v220 v237
  let v239 : BitVec 1 := Scalar.andi v236 v238
  let c1_i32_90 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v221 : BitVec 1 := Scalar.cmpi .sge v210 v67
  let c3_i32_84 : BitVec 32 := 3#32
  let v222 : BitVec 32 := Scalar.addi v67 c3_i32_84
  let v223 : BitVec 1 := Scalar.cmpi .slt v210 v222
  let v224 : BitVec 1 := Scalar.andi v221 v223
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v225 : BitVec 1 := Scalar.cmpi .sge v220 v95
  let v226 : BitVec 1 := Scalar.andi v224 v225
  let c3_i32_85 : BitVec 32 := 3#32
  let v227 : BitVec 32 := Scalar.addi v95 c3_i32_85
  let v228 : BitVec 1 := Scalar.cmpi .slt v220 v227
  let v229 : BitVec 1 := Scalar.andi v226 v228
  let c0_i32_86 : BitVec 32 := 0#32
  let c_m1_i32_87 : BitVec 32 := 4294967295#32
  let v230 : BitVec 32 := Scalar.select v229 c0_i32_86 c_m1_i32_87
  let v240 : BitVec 32 := Scalar.select v239 c1_i32_90 v230
  let v250 : BitVec 32 := Scalar.select v249 c2_i32_93 v240
  let v260 : BitVec 32 := Scalar.select v259 c3_i32_96 v250
  let c0_i32_865 : BitVec 32 := 0#32
  let c128_i32_97 : BitVec 32 := 128#32
  let v261 : BitVec 32 := Scalar.muli v210 c128_i32_97
  let c128_i32_98 : BitVec 32 := 128#32
  let v262 : BitVec 32 := Scalar.muli v220 c128_i32_98
  ![v19.toNat, v260.toNat, 0, v261.toNat, v262.toNat]
def k0_cond3 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c1_i32_70 : BitVec 32 := 1#32
  let v193 : BitVec 32 := Scalar.addi v29 c1_i32_70
  let c0_i32_72 : BitVec 32 := 0#32
  let v195 : BitVec 1 := Scalar.cmpi .sgt v193 c0_i32_72
  let v196 : BitVec 32 := Scalar.extui v195
  let c0_i32_73 : BitVec 32 := 0#32
  let v197 : BitVec 1 := Scalar.cmpi .slt v193 c0_i32_73
  let v198 : BitVec 32 := Scalar.extui v197
  let v199 : BitVec 32 := Scalar.subi v196 v198
  let c4_i32_71 : BitVec 32 := 4#32
  let c0_i32_74 : BitVec 32 := 0#32
  let v200 : BitVec 1 := Scalar.cmpi .sgt c4_i32_71 c0_i32_74
  let v201 : BitVec 32 := Scalar.extui v200
  let c0_i32_75 : BitVec 32 := 0#32
  let v202 : BitVec 1 := Scalar.cmpi .slt c4_i32_71 c0_i32_75
  let v203 : BitVec 32 := Scalar.extui v202
  let v204 : BitVec 32 := Scalar.subi v201 v203
  let v205 : BitVec 1 := Scalar.cmpi .ne v199 v204
  let v206 : BitVec 32 := Scalar.remsi v193 c4_i32_71
  let c0_i32_76 : BitVec 32 := 0#32
  let v207 : BitVec 1 := Scalar.cmpi .ne v206 c0_i32_76
  let v208 : BitVec 1 := Scalar.andi v205 v207
  let v194 : BitVec 32 := Scalar.divsi v193 c4_i32_71
  let c1_i32_77 : BitVec 32 := 1#32
  let v209 : BitVec 32 := Scalar.subi v194 c1_i32_77
  let v210 : BitVec 32 := Scalar.select v208 v209 v194
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v251 : BitVec 1 := Scalar.cmpi .sge v210 v88
  let c3_i32_94 : BitVec 32 := 3#32
  let v252 : BitVec 32 := Scalar.addi v88 c3_i32_94
  let v253 : BitVec 1 := Scalar.cmpi .slt v210 v252
  let v254 : BitVec 1 := Scalar.andi v251 v253
  let c4_i32_78 : BitVec 32 := 4#32
  let c0_i32_79 : BitVec 32 := 0#32
  let v211 : BitVec 1 := Scalar.cmpi .eq c4_i32_78 c0_i32_79
  let c1_i32_80 : BitVec 32 := 1#32
  let v212 : BitVec 32 := Scalar.select v211 c1_i32_80 c4_i32_78
  let v213 : BitVec 32 := Scalar.remsi v193 v212
  let c0_i32_82 : BitVec 32 := 0#32
  let v215 : BitVec 1 := Scalar.cmpi .slt v213 c0_i32_82
  let c0_i32_83 : BitVec 32 := 0#32
  let v216 : BitVec 1 := Scalar.cmpi .slt v212 c0_i32_83
  let v217 : BitVec 1 := Scalar.xori v215 v216
  let c0_i32_81 : BitVec 32 := 0#32
  let v214 : BitVec 1 := Scalar.cmpi .ne v213 c0_i32_81
  let v218 : BitVec 1 := Scalar.andi v217 v214
  let v219 : BitVec 32 := Scalar.addi v213 v212
  let v220 : BitVec 32 := Scalar.select v218 v219 v213
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v255 : BitVec 1 := Scalar.cmpi .sge v220 v116
  let v256 : BitVec 1 := Scalar.andi v254 v255
  let c3_i32_95 : BitVec 32 := 3#32
  let v257 : BitVec 32 := Scalar.addi v116 c3_i32_95
  let v258 : BitVec 1 := Scalar.cmpi .slt v220 v257
  let v259 : BitVec 1 := Scalar.andi v256 v258
  let c3_i32_96 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v241 : BitVec 1 := Scalar.cmpi .sge v210 v81
  let c3_i32_91 : BitVec 32 := 3#32
  let v242 : BitVec 32 := Scalar.addi v81 c3_i32_91
  let v243 : BitVec 1 := Scalar.cmpi .slt v210 v242
  let v244 : BitVec 1 := Scalar.andi v241 v243
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v245 : BitVec 1 := Scalar.cmpi .sge v220 v109
  let v246 : BitVec 1 := Scalar.andi v244 v245
  let c3_i32_92 : BitVec 32 := 3#32
  let v247 : BitVec 32 := Scalar.addi v109 c3_i32_92
  let v248 : BitVec 1 := Scalar.cmpi .slt v220 v247
  let v249 : BitVec 1 := Scalar.andi v246 v248
  let c2_i32_93 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v231 : BitVec 1 := Scalar.cmpi .sge v210 v74
  let c3_i32_88 : BitVec 32 := 3#32
  let v232 : BitVec 32 := Scalar.addi v74 c3_i32_88
  let v233 : BitVec 1 := Scalar.cmpi .slt v210 v232
  let v234 : BitVec 1 := Scalar.andi v231 v233
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v235 : BitVec 1 := Scalar.cmpi .sge v220 v102
  let v236 : BitVec 1 := Scalar.andi v234 v235
  let c3_i32_89 : BitVec 32 := 3#32
  let v237 : BitVec 32 := Scalar.addi v102 c3_i32_89
  let v238 : BitVec 1 := Scalar.cmpi .slt v220 v237
  let v239 : BitVec 1 := Scalar.andi v236 v238
  let c1_i32_90 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v221 : BitVec 1 := Scalar.cmpi .sge v210 v67
  let c3_i32_84 : BitVec 32 := 3#32
  let v222 : BitVec 32 := Scalar.addi v67 c3_i32_84
  let v223 : BitVec 1 := Scalar.cmpi .slt v210 v222
  let v224 : BitVec 1 := Scalar.andi v221 v223
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v225 : BitVec 1 := Scalar.cmpi .sge v220 v95
  let v226 : BitVec 1 := Scalar.andi v224 v225
  let c3_i32_85 : BitVec 32 := 3#32
  let v227 : BitVec 32 := Scalar.addi v95 c3_i32_85
  let v228 : BitVec 1 := Scalar.cmpi .slt v220 v227
  let v229 : BitVec 1 := Scalar.andi v226 v228
  let c0_i32_86 : BitVec 32 := 0#32
  let c_m1_i32_87 : BitVec 32 := 4294967295#32
  let v230 : BitVec 32 := Scalar.select v229 c0_i32_86 c_m1_i32_87
  let v240 : BitVec 32 := Scalar.select v239 c1_i32_90 v230
  let v250 : BitVec 32 := Scalar.select v249 c2_i32_93 v240
  let v260 : BitVec 32 := Scalar.select v259 c3_i32_96 v250
  let c0_i32_99 : BitVec 32 := 0#32
  let v263 : BitVec 1 := Scalar.cmpi .sge v260 c0_i32_99
  let v264 : BitVec 32 := Scalar.extui v263
  let c0_i32_100 : BitVec 32 := 0#32
  let v265 : BitVec 1 := Scalar.cmpi .ne v264 c0_i32_100
  v265

def k0_off5 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c1_i32_70 : BitVec 32 := 1#32
  let v193 : BitVec 32 := Scalar.addi v29 c1_i32_70
  let c0_i32_72 : BitVec 32 := 0#32
  let v195 : BitVec 1 := Scalar.cmpi .sgt v193 c0_i32_72
  let v196 : BitVec 32 := Scalar.extui v195
  let c0_i32_73 : BitVec 32 := 0#32
  let v197 : BitVec 1 := Scalar.cmpi .slt v193 c0_i32_73
  let v198 : BitVec 32 := Scalar.extui v197
  let v199 : BitVec 32 := Scalar.subi v196 v198
  let c4_i32_71 : BitVec 32 := 4#32
  let c0_i32_74 : BitVec 32 := 0#32
  let v200 : BitVec 1 := Scalar.cmpi .sgt c4_i32_71 c0_i32_74
  let v201 : BitVec 32 := Scalar.extui v200
  let c0_i32_75 : BitVec 32 := 0#32
  let v202 : BitVec 1 := Scalar.cmpi .slt c4_i32_71 c0_i32_75
  let v203 : BitVec 32 := Scalar.extui v202
  let v204 : BitVec 32 := Scalar.subi v201 v203
  let v205 : BitVec 1 := Scalar.cmpi .ne v199 v204
  let v206 : BitVec 32 := Scalar.remsi v193 c4_i32_71
  let c0_i32_76 : BitVec 32 := 0#32
  let v207 : BitVec 1 := Scalar.cmpi .ne v206 c0_i32_76
  let v208 : BitVec 1 := Scalar.andi v205 v207
  let v194 : BitVec 32 := Scalar.divsi v193 c4_i32_71
  let c1_i32_77 : BitVec 32 := 1#32
  let v209 : BitVec 32 := Scalar.subi v194 c1_i32_77
  let v210 : BitVec 32 := Scalar.select v208 v209 v194
  let c128_i32_97 : BitVec 32 := 128#32
  let v261 : BitVec 32 := Scalar.muli v210 c128_i32_97
  let c4_i32_78 : BitVec 32 := 4#32
  let c0_i32_79 : BitVec 32 := 0#32
  let v211 : BitVec 1 := Scalar.cmpi .eq c4_i32_78 c0_i32_79
  let c1_i32_80 : BitVec 32 := 1#32
  let v212 : BitVec 32 := Scalar.select v211 c1_i32_80 c4_i32_78
  let v213 : BitVec 32 := Scalar.remsi v193 v212
  let c0_i32_82 : BitVec 32 := 0#32
  let v215 : BitVec 1 := Scalar.cmpi .slt v213 c0_i32_82
  let c0_i32_83 : BitVec 32 := 0#32
  let v216 : BitVec 1 := Scalar.cmpi .slt v212 c0_i32_83
  let v217 : BitVec 1 := Scalar.xori v215 v216
  let c0_i32_81 : BitVec 32 := 0#32
  let v214 : BitVec 1 := Scalar.cmpi .ne v213 c0_i32_81
  let v218 : BitVec 1 := Scalar.andi v217 v214
  let v219 : BitVec 32 := Scalar.addi v213 v212
  let v220 : BitVec 32 := Scalar.select v218 v219 v213
  let c128_i32_98 : BitVec 32 := 128#32
  let v262 : BitVec 32 := Scalar.muli v220 c128_i32_98
  ![v19.toNat, 0, v261.toNat, v262.toNat]
def k0_off6 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c2_i32_103 : BitVec 32 := 2#32
  let v269 : BitVec 32 := Scalar.addi v29 c2_i32_103
  let c0_i32_105 : BitVec 32 := 0#32
  let v271 : BitVec 1 := Scalar.cmpi .sgt v269 c0_i32_105
  let v272 : BitVec 32 := Scalar.extui v271
  let c0_i32_106 : BitVec 32 := 0#32
  let v273 : BitVec 1 := Scalar.cmpi .slt v269 c0_i32_106
  let v274 : BitVec 32 := Scalar.extui v273
  let v275 : BitVec 32 := Scalar.subi v272 v274
  let c4_i32_104 : BitVec 32 := 4#32
  let c0_i32_107 : BitVec 32 := 0#32
  let v276 : BitVec 1 := Scalar.cmpi .sgt c4_i32_104 c0_i32_107
  let v277 : BitVec 32 := Scalar.extui v276
  let c0_i32_108 : BitVec 32 := 0#32
  let v278 : BitVec 1 := Scalar.cmpi .slt c4_i32_104 c0_i32_108
  let v279 : BitVec 32 := Scalar.extui v278
  let v280 : BitVec 32 := Scalar.subi v277 v279
  let v281 : BitVec 1 := Scalar.cmpi .ne v275 v280
  let v282 : BitVec 32 := Scalar.remsi v269 c4_i32_104
  let c0_i32_109 : BitVec 32 := 0#32
  let v283 : BitVec 1 := Scalar.cmpi .ne v282 c0_i32_109
  let v284 : BitVec 1 := Scalar.andi v281 v283
  let v270 : BitVec 32 := Scalar.divsi v269 c4_i32_104
  let c1_i32_110 : BitVec 32 := 1#32
  let v285 : BitVec 32 := Scalar.subi v270 c1_i32_110
  let v286 : BitVec 32 := Scalar.select v284 v285 v270
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v327 : BitVec 1 := Scalar.cmpi .sge v286 v88
  let c3_i32_127 : BitVec 32 := 3#32
  let v328 : BitVec 32 := Scalar.addi v88 c3_i32_127
  let v329 : BitVec 1 := Scalar.cmpi .slt v286 v328
  let v330 : BitVec 1 := Scalar.andi v327 v329
  let c4_i32_111 : BitVec 32 := 4#32
  let c0_i32_112 : BitVec 32 := 0#32
  let v287 : BitVec 1 := Scalar.cmpi .eq c4_i32_111 c0_i32_112
  let c1_i32_113 : BitVec 32 := 1#32
  let v288 : BitVec 32 := Scalar.select v287 c1_i32_113 c4_i32_111
  let v289 : BitVec 32 := Scalar.remsi v269 v288
  let c0_i32_115 : BitVec 32 := 0#32
  let v291 : BitVec 1 := Scalar.cmpi .slt v289 c0_i32_115
  let c0_i32_116 : BitVec 32 := 0#32
  let v292 : BitVec 1 := Scalar.cmpi .slt v288 c0_i32_116
  let v293 : BitVec 1 := Scalar.xori v291 v292
  let c0_i32_114 : BitVec 32 := 0#32
  let v290 : BitVec 1 := Scalar.cmpi .ne v289 c0_i32_114
  let v294 : BitVec 1 := Scalar.andi v293 v290
  let v295 : BitVec 32 := Scalar.addi v289 v288
  let v296 : BitVec 32 := Scalar.select v294 v295 v289
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v331 : BitVec 1 := Scalar.cmpi .sge v296 v116
  let v332 : BitVec 1 := Scalar.andi v330 v331
  let c3_i32_128 : BitVec 32 := 3#32
  let v333 : BitVec 32 := Scalar.addi v116 c3_i32_128
  let v334 : BitVec 1 := Scalar.cmpi .slt v296 v333
  let v335 : BitVec 1 := Scalar.andi v332 v334
  let c3_i32_129 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v317 : BitVec 1 := Scalar.cmpi .sge v286 v81
  let c3_i32_124 : BitVec 32 := 3#32
  let v318 : BitVec 32 := Scalar.addi v81 c3_i32_124
  let v319 : BitVec 1 := Scalar.cmpi .slt v286 v318
  let v320 : BitVec 1 := Scalar.andi v317 v319
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v321 : BitVec 1 := Scalar.cmpi .sge v296 v109
  let v322 : BitVec 1 := Scalar.andi v320 v321
  let c3_i32_125 : BitVec 32 := 3#32
  let v323 : BitVec 32 := Scalar.addi v109 c3_i32_125
  let v324 : BitVec 1 := Scalar.cmpi .slt v296 v323
  let v325 : BitVec 1 := Scalar.andi v322 v324
  let c2_i32_126 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v307 : BitVec 1 := Scalar.cmpi .sge v286 v74
  let c3_i32_121 : BitVec 32 := 3#32
  let v308 : BitVec 32 := Scalar.addi v74 c3_i32_121
  let v309 : BitVec 1 := Scalar.cmpi .slt v286 v308
  let v310 : BitVec 1 := Scalar.andi v307 v309
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v311 : BitVec 1 := Scalar.cmpi .sge v296 v102
  let v312 : BitVec 1 := Scalar.andi v310 v311
  let c3_i32_122 : BitVec 32 := 3#32
  let v313 : BitVec 32 := Scalar.addi v102 c3_i32_122
  let v314 : BitVec 1 := Scalar.cmpi .slt v296 v313
  let v315 : BitVec 1 := Scalar.andi v312 v314
  let c1_i32_123 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v297 : BitVec 1 := Scalar.cmpi .sge v286 v67
  let c3_i32_117 : BitVec 32 := 3#32
  let v298 : BitVec 32 := Scalar.addi v67 c3_i32_117
  let v299 : BitVec 1 := Scalar.cmpi .slt v286 v298
  let v300 : BitVec 1 := Scalar.andi v297 v299
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v301 : BitVec 1 := Scalar.cmpi .sge v296 v95
  let v302 : BitVec 1 := Scalar.andi v300 v301
  let c3_i32_118 : BitVec 32 := 3#32
  let v303 : BitVec 32 := Scalar.addi v95 c3_i32_118
  let v304 : BitVec 1 := Scalar.cmpi .slt v296 v303
  let v305 : BitVec 1 := Scalar.andi v302 v304
  let c0_i32_119 : BitVec 32 := 0#32
  let c_m1_i32_120 : BitVec 32 := 4294967295#32
  let v306 : BitVec 32 := Scalar.select v305 c0_i32_119 c_m1_i32_120
  let v316 : BitVec 32 := Scalar.select v315 c1_i32_123 v306
  let v326 : BitVec 32 := Scalar.select v325 c2_i32_126 v316
  let v336 : BitVec 32 := Scalar.select v335 c3_i32_129 v326
  let c0_i32_865 : BitVec 32 := 0#32
  let c128_i32_130 : BitVec 32 := 128#32
  let v337 : BitVec 32 := Scalar.muli v286 c128_i32_130
  let c128_i32_131 : BitVec 32 := 128#32
  let v338 : BitVec 32 := Scalar.muli v296 c128_i32_131
  ![v19.toNat, v336.toNat, 0, v337.toNat, v338.toNat]
def k0_cond5 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c2_i32_103 : BitVec 32 := 2#32
  let v269 : BitVec 32 := Scalar.addi v29 c2_i32_103
  let c0_i32_105 : BitVec 32 := 0#32
  let v271 : BitVec 1 := Scalar.cmpi .sgt v269 c0_i32_105
  let v272 : BitVec 32 := Scalar.extui v271
  let c0_i32_106 : BitVec 32 := 0#32
  let v273 : BitVec 1 := Scalar.cmpi .slt v269 c0_i32_106
  let v274 : BitVec 32 := Scalar.extui v273
  let v275 : BitVec 32 := Scalar.subi v272 v274
  let c4_i32_104 : BitVec 32 := 4#32
  let c0_i32_107 : BitVec 32 := 0#32
  let v276 : BitVec 1 := Scalar.cmpi .sgt c4_i32_104 c0_i32_107
  let v277 : BitVec 32 := Scalar.extui v276
  let c0_i32_108 : BitVec 32 := 0#32
  let v278 : BitVec 1 := Scalar.cmpi .slt c4_i32_104 c0_i32_108
  let v279 : BitVec 32 := Scalar.extui v278
  let v280 : BitVec 32 := Scalar.subi v277 v279
  let v281 : BitVec 1 := Scalar.cmpi .ne v275 v280
  let v282 : BitVec 32 := Scalar.remsi v269 c4_i32_104
  let c0_i32_109 : BitVec 32 := 0#32
  let v283 : BitVec 1 := Scalar.cmpi .ne v282 c0_i32_109
  let v284 : BitVec 1 := Scalar.andi v281 v283
  let v270 : BitVec 32 := Scalar.divsi v269 c4_i32_104
  let c1_i32_110 : BitVec 32 := 1#32
  let v285 : BitVec 32 := Scalar.subi v270 c1_i32_110
  let v286 : BitVec 32 := Scalar.select v284 v285 v270
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v327 : BitVec 1 := Scalar.cmpi .sge v286 v88
  let c3_i32_127 : BitVec 32 := 3#32
  let v328 : BitVec 32 := Scalar.addi v88 c3_i32_127
  let v329 : BitVec 1 := Scalar.cmpi .slt v286 v328
  let v330 : BitVec 1 := Scalar.andi v327 v329
  let c4_i32_111 : BitVec 32 := 4#32
  let c0_i32_112 : BitVec 32 := 0#32
  let v287 : BitVec 1 := Scalar.cmpi .eq c4_i32_111 c0_i32_112
  let c1_i32_113 : BitVec 32 := 1#32
  let v288 : BitVec 32 := Scalar.select v287 c1_i32_113 c4_i32_111
  let v289 : BitVec 32 := Scalar.remsi v269 v288
  let c0_i32_115 : BitVec 32 := 0#32
  let v291 : BitVec 1 := Scalar.cmpi .slt v289 c0_i32_115
  let c0_i32_116 : BitVec 32 := 0#32
  let v292 : BitVec 1 := Scalar.cmpi .slt v288 c0_i32_116
  let v293 : BitVec 1 := Scalar.xori v291 v292
  let c0_i32_114 : BitVec 32 := 0#32
  let v290 : BitVec 1 := Scalar.cmpi .ne v289 c0_i32_114
  let v294 : BitVec 1 := Scalar.andi v293 v290
  let v295 : BitVec 32 := Scalar.addi v289 v288
  let v296 : BitVec 32 := Scalar.select v294 v295 v289
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v331 : BitVec 1 := Scalar.cmpi .sge v296 v116
  let v332 : BitVec 1 := Scalar.andi v330 v331
  let c3_i32_128 : BitVec 32 := 3#32
  let v333 : BitVec 32 := Scalar.addi v116 c3_i32_128
  let v334 : BitVec 1 := Scalar.cmpi .slt v296 v333
  let v335 : BitVec 1 := Scalar.andi v332 v334
  let c3_i32_129 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v317 : BitVec 1 := Scalar.cmpi .sge v286 v81
  let c3_i32_124 : BitVec 32 := 3#32
  let v318 : BitVec 32 := Scalar.addi v81 c3_i32_124
  let v319 : BitVec 1 := Scalar.cmpi .slt v286 v318
  let v320 : BitVec 1 := Scalar.andi v317 v319
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v321 : BitVec 1 := Scalar.cmpi .sge v296 v109
  let v322 : BitVec 1 := Scalar.andi v320 v321
  let c3_i32_125 : BitVec 32 := 3#32
  let v323 : BitVec 32 := Scalar.addi v109 c3_i32_125
  let v324 : BitVec 1 := Scalar.cmpi .slt v296 v323
  let v325 : BitVec 1 := Scalar.andi v322 v324
  let c2_i32_126 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v307 : BitVec 1 := Scalar.cmpi .sge v286 v74
  let c3_i32_121 : BitVec 32 := 3#32
  let v308 : BitVec 32 := Scalar.addi v74 c3_i32_121
  let v309 : BitVec 1 := Scalar.cmpi .slt v286 v308
  let v310 : BitVec 1 := Scalar.andi v307 v309
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v311 : BitVec 1 := Scalar.cmpi .sge v296 v102
  let v312 : BitVec 1 := Scalar.andi v310 v311
  let c3_i32_122 : BitVec 32 := 3#32
  let v313 : BitVec 32 := Scalar.addi v102 c3_i32_122
  let v314 : BitVec 1 := Scalar.cmpi .slt v296 v313
  let v315 : BitVec 1 := Scalar.andi v312 v314
  let c1_i32_123 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v297 : BitVec 1 := Scalar.cmpi .sge v286 v67
  let c3_i32_117 : BitVec 32 := 3#32
  let v298 : BitVec 32 := Scalar.addi v67 c3_i32_117
  let v299 : BitVec 1 := Scalar.cmpi .slt v286 v298
  let v300 : BitVec 1 := Scalar.andi v297 v299
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v301 : BitVec 1 := Scalar.cmpi .sge v296 v95
  let v302 : BitVec 1 := Scalar.andi v300 v301
  let c3_i32_118 : BitVec 32 := 3#32
  let v303 : BitVec 32 := Scalar.addi v95 c3_i32_118
  let v304 : BitVec 1 := Scalar.cmpi .slt v296 v303
  let v305 : BitVec 1 := Scalar.andi v302 v304
  let c0_i32_119 : BitVec 32 := 0#32
  let c_m1_i32_120 : BitVec 32 := 4294967295#32
  let v306 : BitVec 32 := Scalar.select v305 c0_i32_119 c_m1_i32_120
  let v316 : BitVec 32 := Scalar.select v315 c1_i32_123 v306
  let v326 : BitVec 32 := Scalar.select v325 c2_i32_126 v316
  let v336 : BitVec 32 := Scalar.select v335 c3_i32_129 v326
  let c0_i32_132 : BitVec 32 := 0#32
  let v339 : BitVec 1 := Scalar.cmpi .sge v336 c0_i32_132
  let v340 : BitVec 32 := Scalar.extui v339
  let c0_i32_133 : BitVec 32 := 0#32
  let v341 : BitVec 1 := Scalar.cmpi .ne v340 c0_i32_133
  v341

def k0_off7 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c2_i32_103 : BitVec 32 := 2#32
  let v269 : BitVec 32 := Scalar.addi v29 c2_i32_103
  let c0_i32_105 : BitVec 32 := 0#32
  let v271 : BitVec 1 := Scalar.cmpi .sgt v269 c0_i32_105
  let v272 : BitVec 32 := Scalar.extui v271
  let c0_i32_106 : BitVec 32 := 0#32
  let v273 : BitVec 1 := Scalar.cmpi .slt v269 c0_i32_106
  let v274 : BitVec 32 := Scalar.extui v273
  let v275 : BitVec 32 := Scalar.subi v272 v274
  let c4_i32_104 : BitVec 32 := 4#32
  let c0_i32_107 : BitVec 32 := 0#32
  let v276 : BitVec 1 := Scalar.cmpi .sgt c4_i32_104 c0_i32_107
  let v277 : BitVec 32 := Scalar.extui v276
  let c0_i32_108 : BitVec 32 := 0#32
  let v278 : BitVec 1 := Scalar.cmpi .slt c4_i32_104 c0_i32_108
  let v279 : BitVec 32 := Scalar.extui v278
  let v280 : BitVec 32 := Scalar.subi v277 v279
  let v281 : BitVec 1 := Scalar.cmpi .ne v275 v280
  let v282 : BitVec 32 := Scalar.remsi v269 c4_i32_104
  let c0_i32_109 : BitVec 32 := 0#32
  let v283 : BitVec 1 := Scalar.cmpi .ne v282 c0_i32_109
  let v284 : BitVec 1 := Scalar.andi v281 v283
  let v270 : BitVec 32 := Scalar.divsi v269 c4_i32_104
  let c1_i32_110 : BitVec 32 := 1#32
  let v285 : BitVec 32 := Scalar.subi v270 c1_i32_110
  let v286 : BitVec 32 := Scalar.select v284 v285 v270
  let c128_i32_130 : BitVec 32 := 128#32
  let v337 : BitVec 32 := Scalar.muli v286 c128_i32_130
  let c4_i32_111 : BitVec 32 := 4#32
  let c0_i32_112 : BitVec 32 := 0#32
  let v287 : BitVec 1 := Scalar.cmpi .eq c4_i32_111 c0_i32_112
  let c1_i32_113 : BitVec 32 := 1#32
  let v288 : BitVec 32 := Scalar.select v287 c1_i32_113 c4_i32_111
  let v289 : BitVec 32 := Scalar.remsi v269 v288
  let c0_i32_115 : BitVec 32 := 0#32
  let v291 : BitVec 1 := Scalar.cmpi .slt v289 c0_i32_115
  let c0_i32_116 : BitVec 32 := 0#32
  let v292 : BitVec 1 := Scalar.cmpi .slt v288 c0_i32_116
  let v293 : BitVec 1 := Scalar.xori v291 v292
  let c0_i32_114 : BitVec 32 := 0#32
  let v290 : BitVec 1 := Scalar.cmpi .ne v289 c0_i32_114
  let v294 : BitVec 1 := Scalar.andi v293 v290
  let v295 : BitVec 32 := Scalar.addi v289 v288
  let v296 : BitVec 32 := Scalar.select v294 v295 v289
  let c128_i32_131 : BitVec 32 := 128#32
  let v338 : BitVec 32 := Scalar.muli v296 c128_i32_131
  ![v19.toNat, 0, v337.toNat, v338.toNat]
@[reducible] def k0_t1_loop : Scf.Loop 32 :=
  let c0_i32_143 : BitVec 32 := 0#32
  let c64_i32 : BitVec 32 := 64#32
  let v349 : BitVec 32 := Scalar.addi c0_i32_143 c64_i32
  let c1_i32_144 : BitVec 32 := 1#32
  ⟨c0_i32_143, v349, c1_i32_144⟩
def k0_off8 (k0_t1 : Fin k0_t1_loop.trips) (c0_i32_866 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off9 (k0_t1 : Fin k0_t1_loop.trips) (c0_i32_872 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off10 (k0_t1 : Fin k0_t1_loop.trips) (c0_i32_878 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off11 (k0_t1 : Fin k0_t1_loop.trips) (c0_i32_884 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off12 (k0_t1 : Fin k0_t1_loop.trips) (c0_i32_890 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off13 (k0_t1 : Fin k0_t1_loop.trips) (c0_i32_896 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off14 (k0_t1 : Fin k0_t1_loop.trips) (c0_i32_902 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off15 (k0_t1 : Fin k0_t1_loop.trips) (c0_i32_908 : BitVec 32) : Fin 2 → Nat :=
  let c0_i32_143 : BitVec 32 := 0#32
  let c1_i32_144 : BitVec 32 := 1#32
  let arg19 : BitVec 32 := Scf.iv c0_i32_143 c1_i32_144 k0_t1
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
def k0_off16 (i : grid0.Coords) (c0_i32_146 : BitVec 32) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_175 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let v350 : BitVec 32 := Scalar.addi v29 c0_i32_146
  let c0_i32_148 : BitVec 32 := 0#32
  let v352 : BitVec 1 := Scalar.cmpi .sgt v350 c0_i32_148
  let v353 : BitVec 32 := Scalar.extui v352
  let c0_i32_149 : BitVec 32 := 0#32
  let v354 : BitVec 1 := Scalar.cmpi .slt v350 c0_i32_149
  let v355 : BitVec 32 := Scalar.extui v354
  let v356 : BitVec 32 := Scalar.subi v353 v355
  let c4_i32_147 : BitVec 32 := 4#32
  let c0_i32_150 : BitVec 32 := 0#32
  let v357 : BitVec 1 := Scalar.cmpi .sgt c4_i32_147 c0_i32_150
  let v358 : BitVec 32 := Scalar.extui v357
  let c0_i32_151 : BitVec 32 := 0#32
  let v359 : BitVec 1 := Scalar.cmpi .slt c4_i32_147 c0_i32_151
  let v360 : BitVec 32 := Scalar.extui v359
  let v361 : BitVec 32 := Scalar.subi v358 v360
  let v362 : BitVec 1 := Scalar.cmpi .ne v356 v361
  let v363 : BitVec 32 := Scalar.remsi v350 c4_i32_147
  let c0_i32_152 : BitVec 32 := 0#32
  let v364 : BitVec 1 := Scalar.cmpi .ne v363 c0_i32_152
  let v365 : BitVec 1 := Scalar.andi v362 v364
  let v351 : BitVec 32 := Scalar.divsi v350 c4_i32_147
  let c1_i32_153 : BitVec 32 := 1#32
  let v366 : BitVec 32 := Scalar.subi v351 c1_i32_153
  let v367 : BitVec 32 := Scalar.select v365 v366 v351
  let c128_i32_173 : BitVec 32 := 128#32
  let v418 : BitVec 32 := Scalar.muli v367 c128_i32_173
  let c4_i32_154 : BitVec 32 := 4#32
  let c0_i32_155 : BitVec 32 := 0#32
  let v368 : BitVec 1 := Scalar.cmpi .eq c4_i32_154 c0_i32_155
  let c1_i32_156 : BitVec 32 := 1#32
  let v369 : BitVec 32 := Scalar.select v368 c1_i32_156 c4_i32_154
  let v370 : BitVec 32 := Scalar.remsi v350 v369
  let c0_i32_158 : BitVec 32 := 0#32
  let v372 : BitVec 1 := Scalar.cmpi .slt v370 c0_i32_158
  let c0_i32_159 : BitVec 32 := 0#32
  let v373 : BitVec 1 := Scalar.cmpi .slt v369 c0_i32_159
  let v374 : BitVec 1 := Scalar.xori v372 v373
  let c0_i32_157 : BitVec 32 := 0#32
  let v371 : BitVec 1 := Scalar.cmpi .ne v370 c0_i32_157
  let v375 : BitVec 1 := Scalar.andi v374 v371
  let v376 : BitVec 32 := Scalar.addi v370 v369
  let v377 : BitVec 32 := Scalar.select v375 v376 v370
  let c128_i32_174 : BitVec 32 := 128#32
  let v419 : BitVec 32 := Scalar.muli v377 c128_i32_174
  ![v19.toNat, 0, v418.toNat, v419.toNat]
def k0_off17 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c3_i32_176 : BitVec 32 := 3#32
  let v424 : BitVec 32 := Scalar.addi v29 c3_i32_176
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v482 : BitVec 1 := Scalar.cmpi .sge v441 v88
  let c3_i32_200 : BitVec 32 := 3#32
  let v483 : BitVec 32 := Scalar.addi v88 c3_i32_200
  let v484 : BitVec 1 := Scalar.cmpi .slt v441 v483
  let v485 : BitVec 1 := Scalar.andi v482 v484
  let c4_i32_184 : BitVec 32 := 4#32
  let c0_i32_185 : BitVec 32 := 0#32
  let v442 : BitVec 1 := Scalar.cmpi .eq c4_i32_184 c0_i32_185
  let c1_i32_186 : BitVec 32 := 1#32
  let v443 : BitVec 32 := Scalar.select v442 c1_i32_186 c4_i32_184
  let v444 : BitVec 32 := Scalar.remsi v424 v443
  let c0_i32_188 : BitVec 32 := 0#32
  let v446 : BitVec 1 := Scalar.cmpi .slt v444 c0_i32_188
  let c0_i32_189 : BitVec 32 := 0#32
  let v447 : BitVec 1 := Scalar.cmpi .slt v443 c0_i32_189
  let v448 : BitVec 1 := Scalar.xori v446 v447
  let c0_i32_187 : BitVec 32 := 0#32
  let v445 : BitVec 1 := Scalar.cmpi .ne v444 c0_i32_187
  let v449 : BitVec 1 := Scalar.andi v448 v445
  let v450 : BitVec 32 := Scalar.addi v444 v443
  let v451 : BitVec 32 := Scalar.select v449 v450 v444
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v486 : BitVec 1 := Scalar.cmpi .sge v451 v116
  let v487 : BitVec 1 := Scalar.andi v485 v486
  let c3_i32_201 : BitVec 32 := 3#32
  let v488 : BitVec 32 := Scalar.addi v116 c3_i32_201
  let v489 : BitVec 1 := Scalar.cmpi .slt v451 v488
  let v490 : BitVec 1 := Scalar.andi v487 v489
  let c3_i32_202 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v472 : BitVec 1 := Scalar.cmpi .sge v441 v81
  let c3_i32_197 : BitVec 32 := 3#32
  let v473 : BitVec 32 := Scalar.addi v81 c3_i32_197
  let v474 : BitVec 1 := Scalar.cmpi .slt v441 v473
  let v475 : BitVec 1 := Scalar.andi v472 v474
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v476 : BitVec 1 := Scalar.cmpi .sge v451 v109
  let v477 : BitVec 1 := Scalar.andi v475 v476
  let c3_i32_198 : BitVec 32 := 3#32
  let v478 : BitVec 32 := Scalar.addi v109 c3_i32_198
  let v479 : BitVec 1 := Scalar.cmpi .slt v451 v478
  let v480 : BitVec 1 := Scalar.andi v477 v479
  let c2_i32_199 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v462 : BitVec 1 := Scalar.cmpi .sge v441 v74
  let c3_i32_194 : BitVec 32 := 3#32
  let v463 : BitVec 32 := Scalar.addi v74 c3_i32_194
  let v464 : BitVec 1 := Scalar.cmpi .slt v441 v463
  let v465 : BitVec 1 := Scalar.andi v462 v464
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v466 : BitVec 1 := Scalar.cmpi .sge v451 v102
  let v467 : BitVec 1 := Scalar.andi v465 v466
  let c3_i32_195 : BitVec 32 := 3#32
  let v468 : BitVec 32 := Scalar.addi v102 c3_i32_195
  let v469 : BitVec 1 := Scalar.cmpi .slt v451 v468
  let v470 : BitVec 1 := Scalar.andi v467 v469
  let c1_i32_196 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v452 : BitVec 1 := Scalar.cmpi .sge v441 v67
  let c3_i32_190 : BitVec 32 := 3#32
  let v453 : BitVec 32 := Scalar.addi v67 c3_i32_190
  let v454 : BitVec 1 := Scalar.cmpi .slt v441 v453
  let v455 : BitVec 1 := Scalar.andi v452 v454
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v456 : BitVec 1 := Scalar.cmpi .sge v451 v95
  let v457 : BitVec 1 := Scalar.andi v455 v456
  let c3_i32_191 : BitVec 32 := 3#32
  let v458 : BitVec 32 := Scalar.addi v95 c3_i32_191
  let v459 : BitVec 1 := Scalar.cmpi .slt v451 v458
  let v460 : BitVec 1 := Scalar.andi v457 v459
  let c0_i32_192 : BitVec 32 := 0#32
  let c_m1_i32_193 : BitVec 32 := 4294967295#32
  let v461 : BitVec 32 := Scalar.select v460 c0_i32_192 c_m1_i32_193
  let v471 : BitVec 32 := Scalar.select v470 c1_i32_196 v461
  let v481 : BitVec 32 := Scalar.select v480 c2_i32_199 v471
  let v491 : BitVec 32 := Scalar.select v490 c3_i32_202 v481
  let c0_i32_865 : BitVec 32 := 0#32
  let c128_i32_203 : BitVec 32 := 128#32
  let v492 : BitVec 32 := Scalar.muli v441 c128_i32_203
  let c128_i32_204 : BitVec 32 := 128#32
  let v493 : BitVec 32 := Scalar.muli v451 c128_i32_204
  ![v19.toNat, v491.toNat, 0, v492.toNat, v493.toNat]
def k0_cond7 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c3_i32_176 : BitVec 32 := 3#32
  let v424 : BitVec 32 := Scalar.addi v29 c3_i32_176
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v482 : BitVec 1 := Scalar.cmpi .sge v441 v88
  let c3_i32_200 : BitVec 32 := 3#32
  let v483 : BitVec 32 := Scalar.addi v88 c3_i32_200
  let v484 : BitVec 1 := Scalar.cmpi .slt v441 v483
  let v485 : BitVec 1 := Scalar.andi v482 v484
  let c4_i32_184 : BitVec 32 := 4#32
  let c0_i32_185 : BitVec 32 := 0#32
  let v442 : BitVec 1 := Scalar.cmpi .eq c4_i32_184 c0_i32_185
  let c1_i32_186 : BitVec 32 := 1#32
  let v443 : BitVec 32 := Scalar.select v442 c1_i32_186 c4_i32_184
  let v444 : BitVec 32 := Scalar.remsi v424 v443
  let c0_i32_188 : BitVec 32 := 0#32
  let v446 : BitVec 1 := Scalar.cmpi .slt v444 c0_i32_188
  let c0_i32_189 : BitVec 32 := 0#32
  let v447 : BitVec 1 := Scalar.cmpi .slt v443 c0_i32_189
  let v448 : BitVec 1 := Scalar.xori v446 v447
  let c0_i32_187 : BitVec 32 := 0#32
  let v445 : BitVec 1 := Scalar.cmpi .ne v444 c0_i32_187
  let v449 : BitVec 1 := Scalar.andi v448 v445
  let v450 : BitVec 32 := Scalar.addi v444 v443
  let v451 : BitVec 32 := Scalar.select v449 v450 v444
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v486 : BitVec 1 := Scalar.cmpi .sge v451 v116
  let v487 : BitVec 1 := Scalar.andi v485 v486
  let c3_i32_201 : BitVec 32 := 3#32
  let v488 : BitVec 32 := Scalar.addi v116 c3_i32_201
  let v489 : BitVec 1 := Scalar.cmpi .slt v451 v488
  let v490 : BitVec 1 := Scalar.andi v487 v489
  let c3_i32_202 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v472 : BitVec 1 := Scalar.cmpi .sge v441 v81
  let c3_i32_197 : BitVec 32 := 3#32
  let v473 : BitVec 32 := Scalar.addi v81 c3_i32_197
  let v474 : BitVec 1 := Scalar.cmpi .slt v441 v473
  let v475 : BitVec 1 := Scalar.andi v472 v474
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v476 : BitVec 1 := Scalar.cmpi .sge v451 v109
  let v477 : BitVec 1 := Scalar.andi v475 v476
  let c3_i32_198 : BitVec 32 := 3#32
  let v478 : BitVec 32 := Scalar.addi v109 c3_i32_198
  let v479 : BitVec 1 := Scalar.cmpi .slt v451 v478
  let v480 : BitVec 1 := Scalar.andi v477 v479
  let c2_i32_199 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v462 : BitVec 1 := Scalar.cmpi .sge v441 v74
  let c3_i32_194 : BitVec 32 := 3#32
  let v463 : BitVec 32 := Scalar.addi v74 c3_i32_194
  let v464 : BitVec 1 := Scalar.cmpi .slt v441 v463
  let v465 : BitVec 1 := Scalar.andi v462 v464
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v466 : BitVec 1 := Scalar.cmpi .sge v451 v102
  let v467 : BitVec 1 := Scalar.andi v465 v466
  let c3_i32_195 : BitVec 32 := 3#32
  let v468 : BitVec 32 := Scalar.addi v102 c3_i32_195
  let v469 : BitVec 1 := Scalar.cmpi .slt v451 v468
  let v470 : BitVec 1 := Scalar.andi v467 v469
  let c1_i32_196 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v452 : BitVec 1 := Scalar.cmpi .sge v441 v67
  let c3_i32_190 : BitVec 32 := 3#32
  let v453 : BitVec 32 := Scalar.addi v67 c3_i32_190
  let v454 : BitVec 1 := Scalar.cmpi .slt v441 v453
  let v455 : BitVec 1 := Scalar.andi v452 v454
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v456 : BitVec 1 := Scalar.cmpi .sge v451 v95
  let v457 : BitVec 1 := Scalar.andi v455 v456
  let c3_i32_191 : BitVec 32 := 3#32
  let v458 : BitVec 32 := Scalar.addi v95 c3_i32_191
  let v459 : BitVec 1 := Scalar.cmpi .slt v451 v458
  let v460 : BitVec 1 := Scalar.andi v457 v459
  let c0_i32_192 : BitVec 32 := 0#32
  let c_m1_i32_193 : BitVec 32 := 4294967295#32
  let v461 : BitVec 32 := Scalar.select v460 c0_i32_192 c_m1_i32_193
  let v471 : BitVec 32 := Scalar.select v470 c1_i32_196 v461
  let v481 : BitVec 32 := Scalar.select v480 c2_i32_199 v471
  let v491 : BitVec 32 := Scalar.select v490 c3_i32_202 v481
  let c0_i32_205 : BitVec 32 := 0#32
  let v494 : BitVec 1 := Scalar.cmpi .sge v491 c0_i32_205
  let v495 : BitVec 32 := Scalar.extui v494
  let c0_i32_206 : BitVec 32 := 0#32
  let v496 : BitVec 1 := Scalar.cmpi .ne v495 c0_i32_206
  v496

def k0_off18 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c3_i32_176 : BitVec 32 := 3#32
  let v424 : BitVec 32 := Scalar.addi v29 c3_i32_176
  let c0_i32_178 : BitVec 32 := 0#32
  let v426 : BitVec 1 := Scalar.cmpi .sgt v424 c0_i32_178
  let v427 : BitVec 32 := Scalar.extui v426
  let c0_i32_179 : BitVec 32 := 0#32
  let v428 : BitVec 1 := Scalar.cmpi .slt v424 c0_i32_179
  let v429 : BitVec 32 := Scalar.extui v428
  let v430 : BitVec 32 := Scalar.subi v427 v429
  let c4_i32_177 : BitVec 32 := 4#32
  let c0_i32_180 : BitVec 32 := 0#32
  let v431 : BitVec 1 := Scalar.cmpi .sgt c4_i32_177 c0_i32_180
  let v432 : BitVec 32 := Scalar.extui v431
  let c0_i32_181 : BitVec 32 := 0#32
  let v433 : BitVec 1 := Scalar.cmpi .slt c4_i32_177 c0_i32_181
  let v434 : BitVec 32 := Scalar.extui v433
  let v435 : BitVec 32 := Scalar.subi v432 v434
  let v436 : BitVec 1 := Scalar.cmpi .ne v430 v435
  let v437 : BitVec 32 := Scalar.remsi v424 c4_i32_177
  let c0_i32_182 : BitVec 32 := 0#32
  let v438 : BitVec 1 := Scalar.cmpi .ne v437 c0_i32_182
  let v439 : BitVec 1 := Scalar.andi v436 v438
  let v425 : BitVec 32 := Scalar.divsi v424 c4_i32_177
  let c1_i32_183 : BitVec 32 := 1#32
  let v440 : BitVec 32 := Scalar.subi v425 c1_i32_183
  let v441 : BitVec 32 := Scalar.select v439 v440 v425
  let c128_i32_203 : BitVec 32 := 128#32
  let v492 : BitVec 32 := Scalar.muli v441 c128_i32_203
  let c4_i32_184 : BitVec 32 := 4#32
  let c0_i32_185 : BitVec 32 := 0#32
  let v442 : BitVec 1 := Scalar.cmpi .eq c4_i32_184 c0_i32_185
  let c1_i32_186 : BitVec 32 := 1#32
  let v443 : BitVec 32 := Scalar.select v442 c1_i32_186 c4_i32_184
  let v444 : BitVec 32 := Scalar.remsi v424 v443
  let c0_i32_188 : BitVec 32 := 0#32
  let v446 : BitVec 1 := Scalar.cmpi .slt v444 c0_i32_188
  let c0_i32_189 : BitVec 32 := 0#32
  let v447 : BitVec 1 := Scalar.cmpi .slt v443 c0_i32_189
  let v448 : BitVec 1 := Scalar.xori v446 v447
  let c0_i32_187 : BitVec 32 := 0#32
  let v445 : BitVec 1 := Scalar.cmpi .ne v444 c0_i32_187
  let v449 : BitVec 1 := Scalar.andi v448 v445
  let v450 : BitVec 32 := Scalar.addi v444 v443
  let v451 : BitVec 32 := Scalar.select v449 v450 v444
  let c128_i32_204 : BitVec 32 := 128#32
  let v493 : BitVec 32 := Scalar.muli v451 c128_i32_204
  ![v19.toNat, 0, v492.toNat, v493.toNat]
@[reducible] def k0_t2_loop : Scf.Loop 32 :=
  let c0_i32_216 : BitVec 32 := 0#32
  let c64_i32_217 : BitVec 32 := 64#32
  let v504 : BitVec 32 := Scalar.addi c0_i32_216 c64_i32_217
  let c1_i32_218 : BitVec 32 := 1#32
  ⟨c0_i32_216, v504, c1_i32_218⟩
def k0_off19 (k0_t2 : Fin k0_t2_loop.trips) (c0_i32_866 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off20 (k0_t2 : Fin k0_t2_loop.trips) (c0_i32_872 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off21 (k0_t2 : Fin k0_t2_loop.trips) (c0_i32_878 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off22 (k0_t2 : Fin k0_t2_loop.trips) (c0_i32_884 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off23 (k0_t2 : Fin k0_t2_loop.trips) (c0_i32_890 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off24 (k0_t2 : Fin k0_t2_loop.trips) (c0_i32_896 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off25 (k0_t2 : Fin k0_t2_loop.trips) (c0_i32_902 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off26 (k0_t2 : Fin k0_t2_loop.trips) (c0_i32_908 : BitVec 32) : Fin 2 → Nat :=
  let c0_i32_216 : BitVec 32 := 0#32
  let c1_i32_218 : BitVec 32 := 1#32
  let arg19 : BitVec 32 := Scf.iv c0_i32_216 c1_i32_218 k0_t2
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
def k0_off27 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c4_i32_250 : BitVec 32 := 4#32
  let v579 : BitVec 32 := Scalar.addi v29 c4_i32_250
  let c0_i32_252 : BitVec 32 := 0#32
  let v581 : BitVec 1 := Scalar.cmpi .sgt v579 c0_i32_252
  let v582 : BitVec 32 := Scalar.extui v581
  let c0_i32_253 : BitVec 32 := 0#32
  let v583 : BitVec 1 := Scalar.cmpi .slt v579 c0_i32_253
  let v584 : BitVec 32 := Scalar.extui v583
  let v585 : BitVec 32 := Scalar.subi v582 v584
  let c4_i32_251 : BitVec 32 := 4#32
  let c0_i32_254 : BitVec 32 := 0#32
  let v586 : BitVec 1 := Scalar.cmpi .sgt c4_i32_251 c0_i32_254
  let v587 : BitVec 32 := Scalar.extui v586
  let c0_i32_255 : BitVec 32 := 0#32
  let v588 : BitVec 1 := Scalar.cmpi .slt c4_i32_251 c0_i32_255
  let v589 : BitVec 32 := Scalar.extui v588
  let v590 : BitVec 32 := Scalar.subi v587 v589
  let v591 : BitVec 1 := Scalar.cmpi .ne v585 v590
  let v592 : BitVec 32 := Scalar.remsi v579 c4_i32_251
  let c0_i32_256 : BitVec 32 := 0#32
  let v593 : BitVec 1 := Scalar.cmpi .ne v592 c0_i32_256
  let v594 : BitVec 1 := Scalar.andi v591 v593
  let v580 : BitVec 32 := Scalar.divsi v579 c4_i32_251
  let c1_i32_257 : BitVec 32 := 1#32
  let v595 : BitVec 32 := Scalar.subi v580 c1_i32_257
  let v596 : BitVec 32 := Scalar.select v594 v595 v580
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v637 : BitVec 1 := Scalar.cmpi .sge v596 v88
  let c3_i32_274 : BitVec 32 := 3#32
  let v638 : BitVec 32 := Scalar.addi v88 c3_i32_274
  let v639 : BitVec 1 := Scalar.cmpi .slt v596 v638
  let v640 : BitVec 1 := Scalar.andi v637 v639
  let c4_i32_258 : BitVec 32 := 4#32
  let c0_i32_259 : BitVec 32 := 0#32
  let v597 : BitVec 1 := Scalar.cmpi .eq c4_i32_258 c0_i32_259
  let c1_i32_260 : BitVec 32 := 1#32
  let v598 : BitVec 32 := Scalar.select v597 c1_i32_260 c4_i32_258
  let v599 : BitVec 32 := Scalar.remsi v579 v598
  let c0_i32_262 : BitVec 32 := 0#32
  let v601 : BitVec 1 := Scalar.cmpi .slt v599 c0_i32_262
  let c0_i32_263 : BitVec 32 := 0#32
  let v602 : BitVec 1 := Scalar.cmpi .slt v598 c0_i32_263
  let v603 : BitVec 1 := Scalar.xori v601 v602
  let c0_i32_261 : BitVec 32 := 0#32
  let v600 : BitVec 1 := Scalar.cmpi .ne v599 c0_i32_261
  let v604 : BitVec 1 := Scalar.andi v603 v600
  let v605 : BitVec 32 := Scalar.addi v599 v598
  let v606 : BitVec 32 := Scalar.select v604 v605 v599
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v641 : BitVec 1 := Scalar.cmpi .sge v606 v116
  let v642 : BitVec 1 := Scalar.andi v640 v641
  let c3_i32_275 : BitVec 32 := 3#32
  let v643 : BitVec 32 := Scalar.addi v116 c3_i32_275
  let v644 : BitVec 1 := Scalar.cmpi .slt v606 v643
  let v645 : BitVec 1 := Scalar.andi v642 v644
  let c3_i32_276 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v627 : BitVec 1 := Scalar.cmpi .sge v596 v81
  let c3_i32_271 : BitVec 32 := 3#32
  let v628 : BitVec 32 := Scalar.addi v81 c3_i32_271
  let v629 : BitVec 1 := Scalar.cmpi .slt v596 v628
  let v630 : BitVec 1 := Scalar.andi v627 v629
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v631 : BitVec 1 := Scalar.cmpi .sge v606 v109
  let v632 : BitVec 1 := Scalar.andi v630 v631
  let c3_i32_272 : BitVec 32 := 3#32
  let v633 : BitVec 32 := Scalar.addi v109 c3_i32_272
  let v634 : BitVec 1 := Scalar.cmpi .slt v606 v633
  let v635 : BitVec 1 := Scalar.andi v632 v634
  let c2_i32_273 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v617 : BitVec 1 := Scalar.cmpi .sge v596 v74
  let c3_i32_268 : BitVec 32 := 3#32
  let v618 : BitVec 32 := Scalar.addi v74 c3_i32_268
  let v619 : BitVec 1 := Scalar.cmpi .slt v596 v618
  let v620 : BitVec 1 := Scalar.andi v617 v619
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v621 : BitVec 1 := Scalar.cmpi .sge v606 v102
  let v622 : BitVec 1 := Scalar.andi v620 v621
  let c3_i32_269 : BitVec 32 := 3#32
  let v623 : BitVec 32 := Scalar.addi v102 c3_i32_269
  let v624 : BitVec 1 := Scalar.cmpi .slt v606 v623
  let v625 : BitVec 1 := Scalar.andi v622 v624
  let c1_i32_270 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v607 : BitVec 1 := Scalar.cmpi .sge v596 v67
  let c3_i32_264 : BitVec 32 := 3#32
  let v608 : BitVec 32 := Scalar.addi v67 c3_i32_264
  let v609 : BitVec 1 := Scalar.cmpi .slt v596 v608
  let v610 : BitVec 1 := Scalar.andi v607 v609
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v611 : BitVec 1 := Scalar.cmpi .sge v606 v95
  let v612 : BitVec 1 := Scalar.andi v610 v611
  let c3_i32_265 : BitVec 32 := 3#32
  let v613 : BitVec 32 := Scalar.addi v95 c3_i32_265
  let v614 : BitVec 1 := Scalar.cmpi .slt v606 v613
  let v615 : BitVec 1 := Scalar.andi v612 v614
  let c0_i32_266 : BitVec 32 := 0#32
  let c_m1_i32_267 : BitVec 32 := 4294967295#32
  let v616 : BitVec 32 := Scalar.select v615 c0_i32_266 c_m1_i32_267
  let v626 : BitVec 32 := Scalar.select v625 c1_i32_270 v616
  let v636 : BitVec 32 := Scalar.select v635 c2_i32_273 v626
  let v646 : BitVec 32 := Scalar.select v645 c3_i32_276 v636
  let c0_i32_865 : BitVec 32 := 0#32
  let c128_i32_277 : BitVec 32 := 128#32
  let v647 : BitVec 32 := Scalar.muli v596 c128_i32_277
  let c128_i32_278 : BitVec 32 := 128#32
  let v648 : BitVec 32 := Scalar.muli v606 c128_i32_278
  ![v19.toNat, v646.toNat, 0, v647.toNat, v648.toNat]
def k0_cond9 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c4_i32_250 : BitVec 32 := 4#32
  let v579 : BitVec 32 := Scalar.addi v29 c4_i32_250
  let c0_i32_252 : BitVec 32 := 0#32
  let v581 : BitVec 1 := Scalar.cmpi .sgt v579 c0_i32_252
  let v582 : BitVec 32 := Scalar.extui v581
  let c0_i32_253 : BitVec 32 := 0#32
  let v583 : BitVec 1 := Scalar.cmpi .slt v579 c0_i32_253
  let v584 : BitVec 32 := Scalar.extui v583
  let v585 : BitVec 32 := Scalar.subi v582 v584
  let c4_i32_251 : BitVec 32 := 4#32
  let c0_i32_254 : BitVec 32 := 0#32
  let v586 : BitVec 1 := Scalar.cmpi .sgt c4_i32_251 c0_i32_254
  let v587 : BitVec 32 := Scalar.extui v586
  let c0_i32_255 : BitVec 32 := 0#32
  let v588 : BitVec 1 := Scalar.cmpi .slt c4_i32_251 c0_i32_255
  let v589 : BitVec 32 := Scalar.extui v588
  let v590 : BitVec 32 := Scalar.subi v587 v589
  let v591 : BitVec 1 := Scalar.cmpi .ne v585 v590
  let v592 : BitVec 32 := Scalar.remsi v579 c4_i32_251
  let c0_i32_256 : BitVec 32 := 0#32
  let v593 : BitVec 1 := Scalar.cmpi .ne v592 c0_i32_256
  let v594 : BitVec 1 := Scalar.andi v591 v593
  let v580 : BitVec 32 := Scalar.divsi v579 c4_i32_251
  let c1_i32_257 : BitVec 32 := 1#32
  let v595 : BitVec 32 := Scalar.subi v580 c1_i32_257
  let v596 : BitVec 32 := Scalar.select v594 v595 v580
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v637 : BitVec 1 := Scalar.cmpi .sge v596 v88
  let c3_i32_274 : BitVec 32 := 3#32
  let v638 : BitVec 32 := Scalar.addi v88 c3_i32_274
  let v639 : BitVec 1 := Scalar.cmpi .slt v596 v638
  let v640 : BitVec 1 := Scalar.andi v637 v639
  let c4_i32_258 : BitVec 32 := 4#32
  let c0_i32_259 : BitVec 32 := 0#32
  let v597 : BitVec 1 := Scalar.cmpi .eq c4_i32_258 c0_i32_259
  let c1_i32_260 : BitVec 32 := 1#32
  let v598 : BitVec 32 := Scalar.select v597 c1_i32_260 c4_i32_258
  let v599 : BitVec 32 := Scalar.remsi v579 v598
  let c0_i32_262 : BitVec 32 := 0#32
  let v601 : BitVec 1 := Scalar.cmpi .slt v599 c0_i32_262
  let c0_i32_263 : BitVec 32 := 0#32
  let v602 : BitVec 1 := Scalar.cmpi .slt v598 c0_i32_263
  let v603 : BitVec 1 := Scalar.xori v601 v602
  let c0_i32_261 : BitVec 32 := 0#32
  let v600 : BitVec 1 := Scalar.cmpi .ne v599 c0_i32_261
  let v604 : BitVec 1 := Scalar.andi v603 v600
  let v605 : BitVec 32 := Scalar.addi v599 v598
  let v606 : BitVec 32 := Scalar.select v604 v605 v599
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v641 : BitVec 1 := Scalar.cmpi .sge v606 v116
  let v642 : BitVec 1 := Scalar.andi v640 v641
  let c3_i32_275 : BitVec 32 := 3#32
  let v643 : BitVec 32 := Scalar.addi v116 c3_i32_275
  let v644 : BitVec 1 := Scalar.cmpi .slt v606 v643
  let v645 : BitVec 1 := Scalar.andi v642 v644
  let c3_i32_276 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v627 : BitVec 1 := Scalar.cmpi .sge v596 v81
  let c3_i32_271 : BitVec 32 := 3#32
  let v628 : BitVec 32 := Scalar.addi v81 c3_i32_271
  let v629 : BitVec 1 := Scalar.cmpi .slt v596 v628
  let v630 : BitVec 1 := Scalar.andi v627 v629
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v631 : BitVec 1 := Scalar.cmpi .sge v606 v109
  let v632 : BitVec 1 := Scalar.andi v630 v631
  let c3_i32_272 : BitVec 32 := 3#32
  let v633 : BitVec 32 := Scalar.addi v109 c3_i32_272
  let v634 : BitVec 1 := Scalar.cmpi .slt v606 v633
  let v635 : BitVec 1 := Scalar.andi v632 v634
  let c2_i32_273 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v617 : BitVec 1 := Scalar.cmpi .sge v596 v74
  let c3_i32_268 : BitVec 32 := 3#32
  let v618 : BitVec 32 := Scalar.addi v74 c3_i32_268
  let v619 : BitVec 1 := Scalar.cmpi .slt v596 v618
  let v620 : BitVec 1 := Scalar.andi v617 v619
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v621 : BitVec 1 := Scalar.cmpi .sge v606 v102
  let v622 : BitVec 1 := Scalar.andi v620 v621
  let c3_i32_269 : BitVec 32 := 3#32
  let v623 : BitVec 32 := Scalar.addi v102 c3_i32_269
  let v624 : BitVec 1 := Scalar.cmpi .slt v606 v623
  let v625 : BitVec 1 := Scalar.andi v622 v624
  let c1_i32_270 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v607 : BitVec 1 := Scalar.cmpi .sge v596 v67
  let c3_i32_264 : BitVec 32 := 3#32
  let v608 : BitVec 32 := Scalar.addi v67 c3_i32_264
  let v609 : BitVec 1 := Scalar.cmpi .slt v596 v608
  let v610 : BitVec 1 := Scalar.andi v607 v609
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v611 : BitVec 1 := Scalar.cmpi .sge v606 v95
  let v612 : BitVec 1 := Scalar.andi v610 v611
  let c3_i32_265 : BitVec 32 := 3#32
  let v613 : BitVec 32 := Scalar.addi v95 c3_i32_265
  let v614 : BitVec 1 := Scalar.cmpi .slt v606 v613
  let v615 : BitVec 1 := Scalar.andi v612 v614
  let c0_i32_266 : BitVec 32 := 0#32
  let c_m1_i32_267 : BitVec 32 := 4294967295#32
  let v616 : BitVec 32 := Scalar.select v615 c0_i32_266 c_m1_i32_267
  let v626 : BitVec 32 := Scalar.select v625 c1_i32_270 v616
  let v636 : BitVec 32 := Scalar.select v635 c2_i32_273 v626
  let v646 : BitVec 32 := Scalar.select v645 c3_i32_276 v636
  let c0_i32_279 : BitVec 32 := 0#32
  let v649 : BitVec 1 := Scalar.cmpi .sge v646 c0_i32_279
  let v650 : BitVec 32 := Scalar.extui v649
  let c0_i32_280 : BitVec 32 := 0#32
  let v651 : BitVec 1 := Scalar.cmpi .ne v650 c0_i32_280
  v651

def k0_off28 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c4_i32_250 : BitVec 32 := 4#32
  let v579 : BitVec 32 := Scalar.addi v29 c4_i32_250
  let c0_i32_252 : BitVec 32 := 0#32
  let v581 : BitVec 1 := Scalar.cmpi .sgt v579 c0_i32_252
  let v582 : BitVec 32 := Scalar.extui v581
  let c0_i32_253 : BitVec 32 := 0#32
  let v583 : BitVec 1 := Scalar.cmpi .slt v579 c0_i32_253
  let v584 : BitVec 32 := Scalar.extui v583
  let v585 : BitVec 32 := Scalar.subi v582 v584
  let c4_i32_251 : BitVec 32 := 4#32
  let c0_i32_254 : BitVec 32 := 0#32
  let v586 : BitVec 1 := Scalar.cmpi .sgt c4_i32_251 c0_i32_254
  let v587 : BitVec 32 := Scalar.extui v586
  let c0_i32_255 : BitVec 32 := 0#32
  let v588 : BitVec 1 := Scalar.cmpi .slt c4_i32_251 c0_i32_255
  let v589 : BitVec 32 := Scalar.extui v588
  let v590 : BitVec 32 := Scalar.subi v587 v589
  let v591 : BitVec 1 := Scalar.cmpi .ne v585 v590
  let v592 : BitVec 32 := Scalar.remsi v579 c4_i32_251
  let c0_i32_256 : BitVec 32 := 0#32
  let v593 : BitVec 1 := Scalar.cmpi .ne v592 c0_i32_256
  let v594 : BitVec 1 := Scalar.andi v591 v593
  let v580 : BitVec 32 := Scalar.divsi v579 c4_i32_251
  let c1_i32_257 : BitVec 32 := 1#32
  let v595 : BitVec 32 := Scalar.subi v580 c1_i32_257
  let v596 : BitVec 32 := Scalar.select v594 v595 v580
  let c128_i32_277 : BitVec 32 := 128#32
  let v647 : BitVec 32 := Scalar.muli v596 c128_i32_277
  let c4_i32_258 : BitVec 32 := 4#32
  let c0_i32_259 : BitVec 32 := 0#32
  let v597 : BitVec 1 := Scalar.cmpi .eq c4_i32_258 c0_i32_259
  let c1_i32_260 : BitVec 32 := 1#32
  let v598 : BitVec 32 := Scalar.select v597 c1_i32_260 c4_i32_258
  let v599 : BitVec 32 := Scalar.remsi v579 v598
  let c0_i32_262 : BitVec 32 := 0#32
  let v601 : BitVec 1 := Scalar.cmpi .slt v599 c0_i32_262
  let c0_i32_263 : BitVec 32 := 0#32
  let v602 : BitVec 1 := Scalar.cmpi .slt v598 c0_i32_263
  let v603 : BitVec 1 := Scalar.xori v601 v602
  let c0_i32_261 : BitVec 32 := 0#32
  let v600 : BitVec 1 := Scalar.cmpi .ne v599 c0_i32_261
  let v604 : BitVec 1 := Scalar.andi v603 v600
  let v605 : BitVec 32 := Scalar.addi v599 v598
  let v606 : BitVec 32 := Scalar.select v604 v605 v599
  let c128_i32_278 : BitVec 32 := 128#32
  let v648 : BitVec 32 := Scalar.muli v606 c128_i32_278
  ![v19.toNat, 0, v647.toNat, v648.toNat]
@[reducible] def k0_t3_loop : Scf.Loop 32 :=
  let c0_i32_290 : BitVec 32 := 0#32
  let c64_i32_291 : BitVec 32 := 64#32
  let v659 : BitVec 32 := Scalar.addi c0_i32_290 c64_i32_291
  let c1_i32_292 : BitVec 32 := 1#32
  ⟨c0_i32_290, v659, c1_i32_292⟩
def k0_off29 (k0_t3 : Fin k0_t3_loop.trips) (c0_i32_866 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off30 (k0_t3 : Fin k0_t3_loop.trips) (c0_i32_872 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off31 (k0_t3 : Fin k0_t3_loop.trips) (c0_i32_878 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off32 (k0_t3 : Fin k0_t3_loop.trips) (c0_i32_884 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off33 (k0_t3 : Fin k0_t3_loop.trips) (c0_i32_890 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off34 (k0_t3 : Fin k0_t3_loop.trips) (c0_i32_896 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off35 (k0_t3 : Fin k0_t3_loop.trips) (c0_i32_902 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off36 (k0_t3 : Fin k0_t3_loop.trips) (c0_i32_908 : BitVec 32) : Fin 2 → Nat :=
  let c0_i32_290 : BitVec 32 := 0#32
  let c1_i32_292 : BitVec 32 := 1#32
  let arg19 : BitVec 32 := Scf.iv c0_i32_290 c1_i32_292 k0_t3
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
def k0_off37 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c5_i32 : BitVec 32 := 5#32
  let v734 : BitVec 32 := Scalar.addi v29 c5_i32
  let c0_i32_325 : BitVec 32 := 0#32
  let v736 : BitVec 1 := Scalar.cmpi .sgt v734 c0_i32_325
  let v737 : BitVec 32 := Scalar.extui v736
  let c0_i32_326 : BitVec 32 := 0#32
  let v738 : BitVec 1 := Scalar.cmpi .slt v734 c0_i32_326
  let v739 : BitVec 32 := Scalar.extui v738
  let v740 : BitVec 32 := Scalar.subi v737 v739
  let c4_i32_324 : BitVec 32 := 4#32
  let c0_i32_327 : BitVec 32 := 0#32
  let v741 : BitVec 1 := Scalar.cmpi .sgt c4_i32_324 c0_i32_327
  let v742 : BitVec 32 := Scalar.extui v741
  let c0_i32_328 : BitVec 32 := 0#32
  let v743 : BitVec 1 := Scalar.cmpi .slt c4_i32_324 c0_i32_328
  let v744 : BitVec 32 := Scalar.extui v743
  let v745 : BitVec 32 := Scalar.subi v742 v744
  let v746 : BitVec 1 := Scalar.cmpi .ne v740 v745
  let v747 : BitVec 32 := Scalar.remsi v734 c4_i32_324
  let c0_i32_329 : BitVec 32 := 0#32
  let v748 : BitVec 1 := Scalar.cmpi .ne v747 c0_i32_329
  let v749 : BitVec 1 := Scalar.andi v746 v748
  let v735 : BitVec 32 := Scalar.divsi v734 c4_i32_324
  let c1_i32_330 : BitVec 32 := 1#32
  let v750 : BitVec 32 := Scalar.subi v735 c1_i32_330
  let v751 : BitVec 32 := Scalar.select v749 v750 v735
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v792 : BitVec 1 := Scalar.cmpi .sge v751 v88
  let c3_i32_347 : BitVec 32 := 3#32
  let v793 : BitVec 32 := Scalar.addi v88 c3_i32_347
  let v794 : BitVec 1 := Scalar.cmpi .slt v751 v793
  let v795 : BitVec 1 := Scalar.andi v792 v794
  let c4_i32_331 : BitVec 32 := 4#32
  let c0_i32_332 : BitVec 32 := 0#32
  let v752 : BitVec 1 := Scalar.cmpi .eq c4_i32_331 c0_i32_332
  let c1_i32_333 : BitVec 32 := 1#32
  let v753 : BitVec 32 := Scalar.select v752 c1_i32_333 c4_i32_331
  let v754 : BitVec 32 := Scalar.remsi v734 v753
  let c0_i32_335 : BitVec 32 := 0#32
  let v756 : BitVec 1 := Scalar.cmpi .slt v754 c0_i32_335
  let c0_i32_336 : BitVec 32 := 0#32
  let v757 : BitVec 1 := Scalar.cmpi .slt v753 c0_i32_336
  let v758 : BitVec 1 := Scalar.xori v756 v757
  let c0_i32_334 : BitVec 32 := 0#32
  let v755 : BitVec 1 := Scalar.cmpi .ne v754 c0_i32_334
  let v759 : BitVec 1 := Scalar.andi v758 v755
  let v760 : BitVec 32 := Scalar.addi v754 v753
  let v761 : BitVec 32 := Scalar.select v759 v760 v754
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v796 : BitVec 1 := Scalar.cmpi .sge v761 v116
  let v797 : BitVec 1 := Scalar.andi v795 v796
  let c3_i32_348 : BitVec 32 := 3#32
  let v798 : BitVec 32 := Scalar.addi v116 c3_i32_348
  let v799 : BitVec 1 := Scalar.cmpi .slt v761 v798
  let v800 : BitVec 1 := Scalar.andi v797 v799
  let c3_i32_349 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v782 : BitVec 1 := Scalar.cmpi .sge v751 v81
  let c3_i32_344 : BitVec 32 := 3#32
  let v783 : BitVec 32 := Scalar.addi v81 c3_i32_344
  let v784 : BitVec 1 := Scalar.cmpi .slt v751 v783
  let v785 : BitVec 1 := Scalar.andi v782 v784
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v786 : BitVec 1 := Scalar.cmpi .sge v761 v109
  let v787 : BitVec 1 := Scalar.andi v785 v786
  let c3_i32_345 : BitVec 32 := 3#32
  let v788 : BitVec 32 := Scalar.addi v109 c3_i32_345
  let v789 : BitVec 1 := Scalar.cmpi .slt v761 v788
  let v790 : BitVec 1 := Scalar.andi v787 v789
  let c2_i32_346 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v772 : BitVec 1 := Scalar.cmpi .sge v751 v74
  let c3_i32_341 : BitVec 32 := 3#32
  let v773 : BitVec 32 := Scalar.addi v74 c3_i32_341
  let v774 : BitVec 1 := Scalar.cmpi .slt v751 v773
  let v775 : BitVec 1 := Scalar.andi v772 v774
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v776 : BitVec 1 := Scalar.cmpi .sge v761 v102
  let v777 : BitVec 1 := Scalar.andi v775 v776
  let c3_i32_342 : BitVec 32 := 3#32
  let v778 : BitVec 32 := Scalar.addi v102 c3_i32_342
  let v779 : BitVec 1 := Scalar.cmpi .slt v761 v778
  let v780 : BitVec 1 := Scalar.andi v777 v779
  let c1_i32_343 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v762 : BitVec 1 := Scalar.cmpi .sge v751 v67
  let c3_i32_337 : BitVec 32 := 3#32
  let v763 : BitVec 32 := Scalar.addi v67 c3_i32_337
  let v764 : BitVec 1 := Scalar.cmpi .slt v751 v763
  let v765 : BitVec 1 := Scalar.andi v762 v764
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v766 : BitVec 1 := Scalar.cmpi .sge v761 v95
  let v767 : BitVec 1 := Scalar.andi v765 v766
  let c3_i32_338 : BitVec 32 := 3#32
  let v768 : BitVec 32 := Scalar.addi v95 c3_i32_338
  let v769 : BitVec 1 := Scalar.cmpi .slt v761 v768
  let v770 : BitVec 1 := Scalar.andi v767 v769
  let c0_i32_339 : BitVec 32 := 0#32
  let c_m1_i32_340 : BitVec 32 := 4294967295#32
  let v771 : BitVec 32 := Scalar.select v770 c0_i32_339 c_m1_i32_340
  let v781 : BitVec 32 := Scalar.select v780 c1_i32_343 v771
  let v791 : BitVec 32 := Scalar.select v790 c2_i32_346 v781
  let v801 : BitVec 32 := Scalar.select v800 c3_i32_349 v791
  let c0_i32_865 : BitVec 32 := 0#32
  let c128_i32_350 : BitVec 32 := 128#32
  let v802 : BitVec 32 := Scalar.muli v751 c128_i32_350
  let c128_i32_351 : BitVec 32 := 128#32
  let v803 : BitVec 32 := Scalar.muli v761 c128_i32_351
  ![v19.toNat, v801.toNat, 0, v802.toNat, v803.toNat]
def k0_cond11 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c5_i32 : BitVec 32 := 5#32
  let v734 : BitVec 32 := Scalar.addi v29 c5_i32
  let c0_i32_325 : BitVec 32 := 0#32
  let v736 : BitVec 1 := Scalar.cmpi .sgt v734 c0_i32_325
  let v737 : BitVec 32 := Scalar.extui v736
  let c0_i32_326 : BitVec 32 := 0#32
  let v738 : BitVec 1 := Scalar.cmpi .slt v734 c0_i32_326
  let v739 : BitVec 32 := Scalar.extui v738
  let v740 : BitVec 32 := Scalar.subi v737 v739
  let c4_i32_324 : BitVec 32 := 4#32
  let c0_i32_327 : BitVec 32 := 0#32
  let v741 : BitVec 1 := Scalar.cmpi .sgt c4_i32_324 c0_i32_327
  let v742 : BitVec 32 := Scalar.extui v741
  let c0_i32_328 : BitVec 32 := 0#32
  let v743 : BitVec 1 := Scalar.cmpi .slt c4_i32_324 c0_i32_328
  let v744 : BitVec 32 := Scalar.extui v743
  let v745 : BitVec 32 := Scalar.subi v742 v744
  let v746 : BitVec 1 := Scalar.cmpi .ne v740 v745
  let v747 : BitVec 32 := Scalar.remsi v734 c4_i32_324
  let c0_i32_329 : BitVec 32 := 0#32
  let v748 : BitVec 1 := Scalar.cmpi .ne v747 c0_i32_329
  let v749 : BitVec 1 := Scalar.andi v746 v748
  let v735 : BitVec 32 := Scalar.divsi v734 c4_i32_324
  let c1_i32_330 : BitVec 32 := 1#32
  let v750 : BitVec 32 := Scalar.subi v735 c1_i32_330
  let v751 : BitVec 32 := Scalar.select v749 v750 v735
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v792 : BitVec 1 := Scalar.cmpi .sge v751 v88
  let c3_i32_347 : BitVec 32 := 3#32
  let v793 : BitVec 32 := Scalar.addi v88 c3_i32_347
  let v794 : BitVec 1 := Scalar.cmpi .slt v751 v793
  let v795 : BitVec 1 := Scalar.andi v792 v794
  let c4_i32_331 : BitVec 32 := 4#32
  let c0_i32_332 : BitVec 32 := 0#32
  let v752 : BitVec 1 := Scalar.cmpi .eq c4_i32_331 c0_i32_332
  let c1_i32_333 : BitVec 32 := 1#32
  let v753 : BitVec 32 := Scalar.select v752 c1_i32_333 c4_i32_331
  let v754 : BitVec 32 := Scalar.remsi v734 v753
  let c0_i32_335 : BitVec 32 := 0#32
  let v756 : BitVec 1 := Scalar.cmpi .slt v754 c0_i32_335
  let c0_i32_336 : BitVec 32 := 0#32
  let v757 : BitVec 1 := Scalar.cmpi .slt v753 c0_i32_336
  let v758 : BitVec 1 := Scalar.xori v756 v757
  let c0_i32_334 : BitVec 32 := 0#32
  let v755 : BitVec 1 := Scalar.cmpi .ne v754 c0_i32_334
  let v759 : BitVec 1 := Scalar.andi v758 v755
  let v760 : BitVec 32 := Scalar.addi v754 v753
  let v761 : BitVec 32 := Scalar.select v759 v760 v754
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v796 : BitVec 1 := Scalar.cmpi .sge v761 v116
  let v797 : BitVec 1 := Scalar.andi v795 v796
  let c3_i32_348 : BitVec 32 := 3#32
  let v798 : BitVec 32 := Scalar.addi v116 c3_i32_348
  let v799 : BitVec 1 := Scalar.cmpi .slt v761 v798
  let v800 : BitVec 1 := Scalar.andi v797 v799
  let c3_i32_349 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v782 : BitVec 1 := Scalar.cmpi .sge v751 v81
  let c3_i32_344 : BitVec 32 := 3#32
  let v783 : BitVec 32 := Scalar.addi v81 c3_i32_344
  let v784 : BitVec 1 := Scalar.cmpi .slt v751 v783
  let v785 : BitVec 1 := Scalar.andi v782 v784
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v786 : BitVec 1 := Scalar.cmpi .sge v761 v109
  let v787 : BitVec 1 := Scalar.andi v785 v786
  let c3_i32_345 : BitVec 32 := 3#32
  let v788 : BitVec 32 := Scalar.addi v109 c3_i32_345
  let v789 : BitVec 1 := Scalar.cmpi .slt v761 v788
  let v790 : BitVec 1 := Scalar.andi v787 v789
  let c2_i32_346 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v772 : BitVec 1 := Scalar.cmpi .sge v751 v74
  let c3_i32_341 : BitVec 32 := 3#32
  let v773 : BitVec 32 := Scalar.addi v74 c3_i32_341
  let v774 : BitVec 1 := Scalar.cmpi .slt v751 v773
  let v775 : BitVec 1 := Scalar.andi v772 v774
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v776 : BitVec 1 := Scalar.cmpi .sge v761 v102
  let v777 : BitVec 1 := Scalar.andi v775 v776
  let c3_i32_342 : BitVec 32 := 3#32
  let v778 : BitVec 32 := Scalar.addi v102 c3_i32_342
  let v779 : BitVec 1 := Scalar.cmpi .slt v761 v778
  let v780 : BitVec 1 := Scalar.andi v777 v779
  let c1_i32_343 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v762 : BitVec 1 := Scalar.cmpi .sge v751 v67
  let c3_i32_337 : BitVec 32 := 3#32
  let v763 : BitVec 32 := Scalar.addi v67 c3_i32_337
  let v764 : BitVec 1 := Scalar.cmpi .slt v751 v763
  let v765 : BitVec 1 := Scalar.andi v762 v764
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v766 : BitVec 1 := Scalar.cmpi .sge v761 v95
  let v767 : BitVec 1 := Scalar.andi v765 v766
  let c3_i32_338 : BitVec 32 := 3#32
  let v768 : BitVec 32 := Scalar.addi v95 c3_i32_338
  let v769 : BitVec 1 := Scalar.cmpi .slt v761 v768
  let v770 : BitVec 1 := Scalar.andi v767 v769
  let c0_i32_339 : BitVec 32 := 0#32
  let c_m1_i32_340 : BitVec 32 := 4294967295#32
  let v771 : BitVec 32 := Scalar.select v770 c0_i32_339 c_m1_i32_340
  let v781 : BitVec 32 := Scalar.select v780 c1_i32_343 v771
  let v791 : BitVec 32 := Scalar.select v790 c2_i32_346 v781
  let v801 : BitVec 32 := Scalar.select v800 c3_i32_349 v791
  let c0_i32_352 : BitVec 32 := 0#32
  let v804 : BitVec 1 := Scalar.cmpi .sge v801 c0_i32_352
  let v805 : BitVec 32 := Scalar.extui v804
  let c0_i32_353 : BitVec 32 := 0#32
  let v806 : BitVec 1 := Scalar.cmpi .ne v805 c0_i32_353
  v806

def k0_off38 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c5_i32 : BitVec 32 := 5#32
  let v734 : BitVec 32 := Scalar.addi v29 c5_i32
  let c0_i32_325 : BitVec 32 := 0#32
  let v736 : BitVec 1 := Scalar.cmpi .sgt v734 c0_i32_325
  let v737 : BitVec 32 := Scalar.extui v736
  let c0_i32_326 : BitVec 32 := 0#32
  let v738 : BitVec 1 := Scalar.cmpi .slt v734 c0_i32_326
  let v739 : BitVec 32 := Scalar.extui v738
  let v740 : BitVec 32 := Scalar.subi v737 v739
  let c4_i32_324 : BitVec 32 := 4#32
  let c0_i32_327 : BitVec 32 := 0#32
  let v741 : BitVec 1 := Scalar.cmpi .sgt c4_i32_324 c0_i32_327
  let v742 : BitVec 32 := Scalar.extui v741
  let c0_i32_328 : BitVec 32 := 0#32
  let v743 : BitVec 1 := Scalar.cmpi .slt c4_i32_324 c0_i32_328
  let v744 : BitVec 32 := Scalar.extui v743
  let v745 : BitVec 32 := Scalar.subi v742 v744
  let v746 : BitVec 1 := Scalar.cmpi .ne v740 v745
  let v747 : BitVec 32 := Scalar.remsi v734 c4_i32_324
  let c0_i32_329 : BitVec 32 := 0#32
  let v748 : BitVec 1 := Scalar.cmpi .ne v747 c0_i32_329
  let v749 : BitVec 1 := Scalar.andi v746 v748
  let v735 : BitVec 32 := Scalar.divsi v734 c4_i32_324
  let c1_i32_330 : BitVec 32 := 1#32
  let v750 : BitVec 32 := Scalar.subi v735 c1_i32_330
  let v751 : BitVec 32 := Scalar.select v749 v750 v735
  let c128_i32_350 : BitVec 32 := 128#32
  let v802 : BitVec 32 := Scalar.muli v751 c128_i32_350
  let c4_i32_331 : BitVec 32 := 4#32
  let c0_i32_332 : BitVec 32 := 0#32
  let v752 : BitVec 1 := Scalar.cmpi .eq c4_i32_331 c0_i32_332
  let c1_i32_333 : BitVec 32 := 1#32
  let v753 : BitVec 32 := Scalar.select v752 c1_i32_333 c4_i32_331
  let v754 : BitVec 32 := Scalar.remsi v734 v753
  let c0_i32_335 : BitVec 32 := 0#32
  let v756 : BitVec 1 := Scalar.cmpi .slt v754 c0_i32_335
  let c0_i32_336 : BitVec 32 := 0#32
  let v757 : BitVec 1 := Scalar.cmpi .slt v753 c0_i32_336
  let v758 : BitVec 1 := Scalar.xori v756 v757
  let c0_i32_334 : BitVec 32 := 0#32
  let v755 : BitVec 1 := Scalar.cmpi .ne v754 c0_i32_334
  let v759 : BitVec 1 := Scalar.andi v758 v755
  let v760 : BitVec 32 := Scalar.addi v754 v753
  let v761 : BitVec 32 := Scalar.select v759 v760 v754
  let c128_i32_351 : BitVec 32 := 128#32
  let v803 : BitVec 32 := Scalar.muli v761 c128_i32_351
  ![v19.toNat, 0, v802.toNat, v803.toNat]
@[reducible] def k0_t4_loop : Scf.Loop 32 :=
  let c0_i32_393 : BitVec 32 := 0#32
  let c64_i32_394 : BitVec 32 := 64#32
  let v888 : BitVec 32 := Scalar.addi c0_i32_393 c64_i32_394
  let c1_i32_395 : BitVec 32 := 1#32
  ⟨c0_i32_393, v888, c1_i32_395⟩
def k0_off39 (k0_t4 : Fin k0_t4_loop.trips) (c0_i32_866 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off40 (k0_t4 : Fin k0_t4_loop.trips) (c0_i32_872 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off41 (k0_t4 : Fin k0_t4_loop.trips) (c0_i32_878 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off42 (k0_t4 : Fin k0_t4_loop.trips) (c0_i32_884 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off43 (k0_t4 : Fin k0_t4_loop.trips) (c0_i32_890 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off44 (k0_t4 : Fin k0_t4_loop.trips) (c0_i32_896 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off45 (k0_t4 : Fin k0_t4_loop.trips) (c0_i32_902 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off46 (k0_t4 : Fin k0_t4_loop.trips) (c0_i32_908 : BitVec 32) : Fin 2 → Nat :=
  let c0_i32_393 : BitVec 32 := 0#32
  let c1_i32_395 : BitVec 32 := 1#32
  let arg19 : BitVec 32 := Scf.iv c0_i32_393 c1_i32_395 k0_t4
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
def k0_off47 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c6_i32 : BitVec 32 := 6#32
  let v963 : BitVec 32 := Scalar.addi v29 c6_i32
  let c0_i32_428 : BitVec 32 := 0#32
  let v965 : BitVec 1 := Scalar.cmpi .sgt v963 c0_i32_428
  let v966 : BitVec 32 := Scalar.extui v965
  let c0_i32_429 : BitVec 32 := 0#32
  let v967 : BitVec 1 := Scalar.cmpi .slt v963 c0_i32_429
  let v968 : BitVec 32 := Scalar.extui v967
  let v969 : BitVec 32 := Scalar.subi v966 v968
  let c4_i32_427 : BitVec 32 := 4#32
  let c0_i32_430 : BitVec 32 := 0#32
  let v970 : BitVec 1 := Scalar.cmpi .sgt c4_i32_427 c0_i32_430
  let v971 : BitVec 32 := Scalar.extui v970
  let c0_i32_431 : BitVec 32 := 0#32
  let v972 : BitVec 1 := Scalar.cmpi .slt c4_i32_427 c0_i32_431
  let v973 : BitVec 32 := Scalar.extui v972
  let v974 : BitVec 32 := Scalar.subi v971 v973
  let v975 : BitVec 1 := Scalar.cmpi .ne v969 v974
  let v976 : BitVec 32 := Scalar.remsi v963 c4_i32_427
  let c0_i32_432 : BitVec 32 := 0#32
  let v977 : BitVec 1 := Scalar.cmpi .ne v976 c0_i32_432
  let v978 : BitVec 1 := Scalar.andi v975 v977
  let v964 : BitVec 32 := Scalar.divsi v963 c4_i32_427
  let c1_i32_433 : BitVec 32 := 1#32
  let v979 : BitVec 32 := Scalar.subi v964 c1_i32_433
  let v980 : BitVec 32 := Scalar.select v978 v979 v964
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v1021 : BitVec 1 := Scalar.cmpi .sge v980 v88
  let c3_i32_450 : BitVec 32 := 3#32
  let v1022 : BitVec 32 := Scalar.addi v88 c3_i32_450
  let v1023 : BitVec 1 := Scalar.cmpi .slt v980 v1022
  let v1024 : BitVec 1 := Scalar.andi v1021 v1023
  let c4_i32_434 : BitVec 32 := 4#32
  let c0_i32_435 : BitVec 32 := 0#32
  let v981 : BitVec 1 := Scalar.cmpi .eq c4_i32_434 c0_i32_435
  let c1_i32_436 : BitVec 32 := 1#32
  let v982 : BitVec 32 := Scalar.select v981 c1_i32_436 c4_i32_434
  let v983 : BitVec 32 := Scalar.remsi v963 v982
  let c0_i32_438 : BitVec 32 := 0#32
  let v985 : BitVec 1 := Scalar.cmpi .slt v983 c0_i32_438
  let c0_i32_439 : BitVec 32 := 0#32
  let v986 : BitVec 1 := Scalar.cmpi .slt v982 c0_i32_439
  let v987 : BitVec 1 := Scalar.xori v985 v986
  let c0_i32_437 : BitVec 32 := 0#32
  let v984 : BitVec 1 := Scalar.cmpi .ne v983 c0_i32_437
  let v988 : BitVec 1 := Scalar.andi v987 v984
  let v989 : BitVec 32 := Scalar.addi v983 v982
  let v990 : BitVec 32 := Scalar.select v988 v989 v983
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v1025 : BitVec 1 := Scalar.cmpi .sge v990 v116
  let v1026 : BitVec 1 := Scalar.andi v1024 v1025
  let c3_i32_451 : BitVec 32 := 3#32
  let v1027 : BitVec 32 := Scalar.addi v116 c3_i32_451
  let v1028 : BitVec 1 := Scalar.cmpi .slt v990 v1027
  let v1029 : BitVec 1 := Scalar.andi v1026 v1028
  let c3_i32_452 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v1011 : BitVec 1 := Scalar.cmpi .sge v980 v81
  let c3_i32_447 : BitVec 32 := 3#32
  let v1012 : BitVec 32 := Scalar.addi v81 c3_i32_447
  let v1013 : BitVec 1 := Scalar.cmpi .slt v980 v1012
  let v1014 : BitVec 1 := Scalar.andi v1011 v1013
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v1015 : BitVec 1 := Scalar.cmpi .sge v990 v109
  let v1016 : BitVec 1 := Scalar.andi v1014 v1015
  let c3_i32_448 : BitVec 32 := 3#32
  let v1017 : BitVec 32 := Scalar.addi v109 c3_i32_448
  let v1018 : BitVec 1 := Scalar.cmpi .slt v990 v1017
  let v1019 : BitVec 1 := Scalar.andi v1016 v1018
  let c2_i32_449 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v1001 : BitVec 1 := Scalar.cmpi .sge v980 v74
  let c3_i32_444 : BitVec 32 := 3#32
  let v1002 : BitVec 32 := Scalar.addi v74 c3_i32_444
  let v1003 : BitVec 1 := Scalar.cmpi .slt v980 v1002
  let v1004 : BitVec 1 := Scalar.andi v1001 v1003
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v1005 : BitVec 1 := Scalar.cmpi .sge v990 v102
  let v1006 : BitVec 1 := Scalar.andi v1004 v1005
  let c3_i32_445 : BitVec 32 := 3#32
  let v1007 : BitVec 32 := Scalar.addi v102 c3_i32_445
  let v1008 : BitVec 1 := Scalar.cmpi .slt v990 v1007
  let v1009 : BitVec 1 := Scalar.andi v1006 v1008
  let c1_i32_446 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v991 : BitVec 1 := Scalar.cmpi .sge v980 v67
  let c3_i32_440 : BitVec 32 := 3#32
  let v992 : BitVec 32 := Scalar.addi v67 c3_i32_440
  let v993 : BitVec 1 := Scalar.cmpi .slt v980 v992
  let v994 : BitVec 1 := Scalar.andi v991 v993
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v995 : BitVec 1 := Scalar.cmpi .sge v990 v95
  let v996 : BitVec 1 := Scalar.andi v994 v995
  let c3_i32_441 : BitVec 32 := 3#32
  let v997 : BitVec 32 := Scalar.addi v95 c3_i32_441
  let v998 : BitVec 1 := Scalar.cmpi .slt v990 v997
  let v999 : BitVec 1 := Scalar.andi v996 v998
  let c0_i32_442 : BitVec 32 := 0#32
  let c_m1_i32_443 : BitVec 32 := 4294967295#32
  let v1000 : BitVec 32 := Scalar.select v999 c0_i32_442 c_m1_i32_443
  let v1010 : BitVec 32 := Scalar.select v1009 c1_i32_446 v1000
  let v1020 : BitVec 32 := Scalar.select v1019 c2_i32_449 v1010
  let v1030 : BitVec 32 := Scalar.select v1029 c3_i32_452 v1020
  let c0_i32_865 : BitVec 32 := 0#32
  let c128_i32_453 : BitVec 32 := 128#32
  let v1031 : BitVec 32 := Scalar.muli v980 c128_i32_453
  let c128_i32_454 : BitVec 32 := 128#32
  let v1032 : BitVec 32 := Scalar.muli v990 c128_i32_454
  ![v19.toNat, v1030.toNat, 0, v1031.toNat, v1032.toNat]
def k0_cond13 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c6_i32 : BitVec 32 := 6#32
  let v963 : BitVec 32 := Scalar.addi v29 c6_i32
  let c0_i32_428 : BitVec 32 := 0#32
  let v965 : BitVec 1 := Scalar.cmpi .sgt v963 c0_i32_428
  let v966 : BitVec 32 := Scalar.extui v965
  let c0_i32_429 : BitVec 32 := 0#32
  let v967 : BitVec 1 := Scalar.cmpi .slt v963 c0_i32_429
  let v968 : BitVec 32 := Scalar.extui v967
  let v969 : BitVec 32 := Scalar.subi v966 v968
  let c4_i32_427 : BitVec 32 := 4#32
  let c0_i32_430 : BitVec 32 := 0#32
  let v970 : BitVec 1 := Scalar.cmpi .sgt c4_i32_427 c0_i32_430
  let v971 : BitVec 32 := Scalar.extui v970
  let c0_i32_431 : BitVec 32 := 0#32
  let v972 : BitVec 1 := Scalar.cmpi .slt c4_i32_427 c0_i32_431
  let v973 : BitVec 32 := Scalar.extui v972
  let v974 : BitVec 32 := Scalar.subi v971 v973
  let v975 : BitVec 1 := Scalar.cmpi .ne v969 v974
  let v976 : BitVec 32 := Scalar.remsi v963 c4_i32_427
  let c0_i32_432 : BitVec 32 := 0#32
  let v977 : BitVec 1 := Scalar.cmpi .ne v976 c0_i32_432
  let v978 : BitVec 1 := Scalar.andi v975 v977
  let v964 : BitVec 32 := Scalar.divsi v963 c4_i32_427
  let c1_i32_433 : BitVec 32 := 1#32
  let v979 : BitVec 32 := Scalar.subi v964 c1_i32_433
  let v980 : BitVec 32 := Scalar.select v978 v979 v964
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v1021 : BitVec 1 := Scalar.cmpi .sge v980 v88
  let c3_i32_450 : BitVec 32 := 3#32
  let v1022 : BitVec 32 := Scalar.addi v88 c3_i32_450
  let v1023 : BitVec 1 := Scalar.cmpi .slt v980 v1022
  let v1024 : BitVec 1 := Scalar.andi v1021 v1023
  let c4_i32_434 : BitVec 32 := 4#32
  let c0_i32_435 : BitVec 32 := 0#32
  let v981 : BitVec 1 := Scalar.cmpi .eq c4_i32_434 c0_i32_435
  let c1_i32_436 : BitVec 32 := 1#32
  let v982 : BitVec 32 := Scalar.select v981 c1_i32_436 c4_i32_434
  let v983 : BitVec 32 := Scalar.remsi v963 v982
  let c0_i32_438 : BitVec 32 := 0#32
  let v985 : BitVec 1 := Scalar.cmpi .slt v983 c0_i32_438
  let c0_i32_439 : BitVec 32 := 0#32
  let v986 : BitVec 1 := Scalar.cmpi .slt v982 c0_i32_439
  let v987 : BitVec 1 := Scalar.xori v985 v986
  let c0_i32_437 : BitVec 32 := 0#32
  let v984 : BitVec 1 := Scalar.cmpi .ne v983 c0_i32_437
  let v988 : BitVec 1 := Scalar.andi v987 v984
  let v989 : BitVec 32 := Scalar.addi v983 v982
  let v990 : BitVec 32 := Scalar.select v988 v989 v983
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v1025 : BitVec 1 := Scalar.cmpi .sge v990 v116
  let v1026 : BitVec 1 := Scalar.andi v1024 v1025
  let c3_i32_451 : BitVec 32 := 3#32
  let v1027 : BitVec 32 := Scalar.addi v116 c3_i32_451
  let v1028 : BitVec 1 := Scalar.cmpi .slt v990 v1027
  let v1029 : BitVec 1 := Scalar.andi v1026 v1028
  let c3_i32_452 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v1011 : BitVec 1 := Scalar.cmpi .sge v980 v81
  let c3_i32_447 : BitVec 32 := 3#32
  let v1012 : BitVec 32 := Scalar.addi v81 c3_i32_447
  let v1013 : BitVec 1 := Scalar.cmpi .slt v980 v1012
  let v1014 : BitVec 1 := Scalar.andi v1011 v1013
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v1015 : BitVec 1 := Scalar.cmpi .sge v990 v109
  let v1016 : BitVec 1 := Scalar.andi v1014 v1015
  let c3_i32_448 : BitVec 32 := 3#32
  let v1017 : BitVec 32 := Scalar.addi v109 c3_i32_448
  let v1018 : BitVec 1 := Scalar.cmpi .slt v990 v1017
  let v1019 : BitVec 1 := Scalar.andi v1016 v1018
  let c2_i32_449 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v1001 : BitVec 1 := Scalar.cmpi .sge v980 v74
  let c3_i32_444 : BitVec 32 := 3#32
  let v1002 : BitVec 32 := Scalar.addi v74 c3_i32_444
  let v1003 : BitVec 1 := Scalar.cmpi .slt v980 v1002
  let v1004 : BitVec 1 := Scalar.andi v1001 v1003
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v1005 : BitVec 1 := Scalar.cmpi .sge v990 v102
  let v1006 : BitVec 1 := Scalar.andi v1004 v1005
  let c3_i32_445 : BitVec 32 := 3#32
  let v1007 : BitVec 32 := Scalar.addi v102 c3_i32_445
  let v1008 : BitVec 1 := Scalar.cmpi .slt v990 v1007
  let v1009 : BitVec 1 := Scalar.andi v1006 v1008
  let c1_i32_446 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v991 : BitVec 1 := Scalar.cmpi .sge v980 v67
  let c3_i32_440 : BitVec 32 := 3#32
  let v992 : BitVec 32 := Scalar.addi v67 c3_i32_440
  let v993 : BitVec 1 := Scalar.cmpi .slt v980 v992
  let v994 : BitVec 1 := Scalar.andi v991 v993
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v995 : BitVec 1 := Scalar.cmpi .sge v990 v95
  let v996 : BitVec 1 := Scalar.andi v994 v995
  let c3_i32_441 : BitVec 32 := 3#32
  let v997 : BitVec 32 := Scalar.addi v95 c3_i32_441
  let v998 : BitVec 1 := Scalar.cmpi .slt v990 v997
  let v999 : BitVec 1 := Scalar.andi v996 v998
  let c0_i32_442 : BitVec 32 := 0#32
  let c_m1_i32_443 : BitVec 32 := 4294967295#32
  let v1000 : BitVec 32 := Scalar.select v999 c0_i32_442 c_m1_i32_443
  let v1010 : BitVec 32 := Scalar.select v1009 c1_i32_446 v1000
  let v1020 : BitVec 32 := Scalar.select v1019 c2_i32_449 v1010
  let v1030 : BitVec 32 := Scalar.select v1029 c3_i32_452 v1020
  let c0_i32_455 : BitVec 32 := 0#32
  let v1033 : BitVec 1 := Scalar.cmpi .sge v1030 c0_i32_455
  let v1034 : BitVec 32 := Scalar.extui v1033
  let c0_i32_456 : BitVec 32 := 0#32
  let v1035 : BitVec 1 := Scalar.cmpi .ne v1034 c0_i32_456
  v1035

def k0_off48 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c6_i32 : BitVec 32 := 6#32
  let v963 : BitVec 32 := Scalar.addi v29 c6_i32
  let c0_i32_428 : BitVec 32 := 0#32
  let v965 : BitVec 1 := Scalar.cmpi .sgt v963 c0_i32_428
  let v966 : BitVec 32 := Scalar.extui v965
  let c0_i32_429 : BitVec 32 := 0#32
  let v967 : BitVec 1 := Scalar.cmpi .slt v963 c0_i32_429
  let v968 : BitVec 32 := Scalar.extui v967
  let v969 : BitVec 32 := Scalar.subi v966 v968
  let c4_i32_427 : BitVec 32 := 4#32
  let c0_i32_430 : BitVec 32 := 0#32
  let v970 : BitVec 1 := Scalar.cmpi .sgt c4_i32_427 c0_i32_430
  let v971 : BitVec 32 := Scalar.extui v970
  let c0_i32_431 : BitVec 32 := 0#32
  let v972 : BitVec 1 := Scalar.cmpi .slt c4_i32_427 c0_i32_431
  let v973 : BitVec 32 := Scalar.extui v972
  let v974 : BitVec 32 := Scalar.subi v971 v973
  let v975 : BitVec 1 := Scalar.cmpi .ne v969 v974
  let v976 : BitVec 32 := Scalar.remsi v963 c4_i32_427
  let c0_i32_432 : BitVec 32 := 0#32
  let v977 : BitVec 1 := Scalar.cmpi .ne v976 c0_i32_432
  let v978 : BitVec 1 := Scalar.andi v975 v977
  let v964 : BitVec 32 := Scalar.divsi v963 c4_i32_427
  let c1_i32_433 : BitVec 32 := 1#32
  let v979 : BitVec 32 := Scalar.subi v964 c1_i32_433
  let v980 : BitVec 32 := Scalar.select v978 v979 v964
  let c128_i32_453 : BitVec 32 := 128#32
  let v1031 : BitVec 32 := Scalar.muli v980 c128_i32_453
  let c4_i32_434 : BitVec 32 := 4#32
  let c0_i32_435 : BitVec 32 := 0#32
  let v981 : BitVec 1 := Scalar.cmpi .eq c4_i32_434 c0_i32_435
  let c1_i32_436 : BitVec 32 := 1#32
  let v982 : BitVec 32 := Scalar.select v981 c1_i32_436 c4_i32_434
  let v983 : BitVec 32 := Scalar.remsi v963 v982
  let c0_i32_438 : BitVec 32 := 0#32
  let v985 : BitVec 1 := Scalar.cmpi .slt v983 c0_i32_438
  let c0_i32_439 : BitVec 32 := 0#32
  let v986 : BitVec 1 := Scalar.cmpi .slt v982 c0_i32_439
  let v987 : BitVec 1 := Scalar.xori v985 v986
  let c0_i32_437 : BitVec 32 := 0#32
  let v984 : BitVec 1 := Scalar.cmpi .ne v983 c0_i32_437
  let v988 : BitVec 1 := Scalar.andi v987 v984
  let v989 : BitVec 32 := Scalar.addi v983 v982
  let v990 : BitVec 32 := Scalar.select v988 v989 v983
  let c128_i32_454 : BitVec 32 := 128#32
  let v1032 : BitVec 32 := Scalar.muli v990 c128_i32_454
  ![v19.toNat, 0, v1031.toNat, v1032.toNat]
@[reducible] def k0_t5_loop : Scf.Loop 32 :=
  let c0_i32_496 : BitVec 32 := 0#32
  let c64_i32_497 : BitVec 32 := 64#32
  let v1117 : BitVec 32 := Scalar.addi c0_i32_496 c64_i32_497
  let c1_i32_498 : BitVec 32 := 1#32
  ⟨c0_i32_496, v1117, c1_i32_498⟩
def k0_off49 (k0_t5 : Fin k0_t5_loop.trips) (c0_i32_866 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off50 (k0_t5 : Fin k0_t5_loop.trips) (c0_i32_872 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off51 (k0_t5 : Fin k0_t5_loop.trips) (c0_i32_878 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off52 (k0_t5 : Fin k0_t5_loop.trips) (c0_i32_884 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off53 (k0_t5 : Fin k0_t5_loop.trips) (c0_i32_890 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off54 (k0_t5 : Fin k0_t5_loop.trips) (c0_i32_896 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off55 (k0_t5 : Fin k0_t5_loop.trips) (c0_i32_902 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off56 (k0_t5 : Fin k0_t5_loop.trips) (c0_i32_908 : BitVec 32) : Fin 2 → Nat :=
  let c0_i32_496 : BitVec 32 := 0#32
  let c1_i32_498 : BitVec 32 := 1#32
  let arg19 : BitVec 32 := Scf.iv c0_i32_496 c1_i32_498 k0_t5
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
def k0_off57 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Fin 5 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c7_i32 : BitVec 32 := 7#32
  let v1192 : BitVec 32 := Scalar.addi v29 c7_i32
  let c0_i32_531 : BitVec 32 := 0#32
  let v1194 : BitVec 1 := Scalar.cmpi .sgt v1192 c0_i32_531
  let v1195 : BitVec 32 := Scalar.extui v1194
  let c0_i32_532 : BitVec 32 := 0#32
  let v1196 : BitVec 1 := Scalar.cmpi .slt v1192 c0_i32_532
  let v1197 : BitVec 32 := Scalar.extui v1196
  let v1198 : BitVec 32 := Scalar.subi v1195 v1197
  let c4_i32_530 : BitVec 32 := 4#32
  let c0_i32_533 : BitVec 32 := 0#32
  let v1199 : BitVec 1 := Scalar.cmpi .sgt c4_i32_530 c0_i32_533
  let v1200 : BitVec 32 := Scalar.extui v1199
  let c0_i32_534 : BitVec 32 := 0#32
  let v1201 : BitVec 1 := Scalar.cmpi .slt c4_i32_530 c0_i32_534
  let v1202 : BitVec 32 := Scalar.extui v1201
  let v1203 : BitVec 32 := Scalar.subi v1200 v1202
  let v1204 : BitVec 1 := Scalar.cmpi .ne v1198 v1203
  let v1205 : BitVec 32 := Scalar.remsi v1192 c4_i32_530
  let c0_i32_535 : BitVec 32 := 0#32
  let v1206 : BitVec 1 := Scalar.cmpi .ne v1205 c0_i32_535
  let v1207 : BitVec 1 := Scalar.andi v1204 v1206
  let v1193 : BitVec 32 := Scalar.divsi v1192 c4_i32_530
  let c1_i32_536 : BitVec 32 := 1#32
  let v1208 : BitVec 32 := Scalar.subi v1193 c1_i32_536
  let v1209 : BitVec 32 := Scalar.select v1207 v1208 v1193
  let c1_i32_32 : BitVec 32 := 1#32
  let c0_i32_31 : BitVec 32 := 0#32
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v1250 : BitVec 1 := Scalar.cmpi .sge v1209 v88
  let c3_i32_553 : BitVec 32 := 3#32
  let v1251 : BitVec 32 := Scalar.addi v88 c3_i32_553
  let v1252 : BitVec 1 := Scalar.cmpi .slt v1209 v1251
  let v1253 : BitVec 1 := Scalar.andi v1250 v1252
  let c4_i32_537 : BitVec 32 := 4#32
  let c0_i32_538 : BitVec 32 := 0#32
  let v1210 : BitVec 1 := Scalar.cmpi .eq c4_i32_537 c0_i32_538
  let c1_i32_539 : BitVec 32 := 1#32
  let v1211 : BitVec 32 := Scalar.select v1210 c1_i32_539 c4_i32_537
  let v1212 : BitVec 32 := Scalar.remsi v1192 v1211
  let c0_i32_541 : BitVec 32 := 0#32
  let v1214 : BitVec 1 := Scalar.cmpi .slt v1212 c0_i32_541
  let c0_i32_542 : BitVec 32 := 0#32
  let v1215 : BitVec 1 := Scalar.cmpi .slt v1211 c0_i32_542
  let v1216 : BitVec 1 := Scalar.xori v1214 v1215
  let c0_i32_540 : BitVec 32 := 0#32
  let v1213 : BitVec 1 := Scalar.cmpi .ne v1212 c0_i32_540
  let v1217 : BitVec 1 := Scalar.andi v1216 v1213
  let v1218 : BitVec 32 := Scalar.addi v1212 v1211
  let v1219 : BitVec 32 := Scalar.select v1217 v1218 v1212
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v1254 : BitVec 1 := Scalar.cmpi .sge v1219 v116
  let v1255 : BitVec 1 := Scalar.andi v1253 v1254
  let c3_i32_554 : BitVec 32 := 3#32
  let v1256 : BitVec 32 := Scalar.addi v116 c3_i32_554
  let v1257 : BitVec 1 := Scalar.cmpi .slt v1219 v1256
  let v1258 : BitVec 1 := Scalar.andi v1255 v1257
  let c3_i32_555 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v1240 : BitVec 1 := Scalar.cmpi .sge v1209 v81
  let c3_i32_550 : BitVec 32 := 3#32
  let v1241 : BitVec 32 := Scalar.addi v81 c3_i32_550
  let v1242 : BitVec 1 := Scalar.cmpi .slt v1209 v1241
  let v1243 : BitVec 1 := Scalar.andi v1240 v1242
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v1244 : BitVec 1 := Scalar.cmpi .sge v1219 v109
  let v1245 : BitVec 1 := Scalar.andi v1243 v1244
  let c3_i32_551 : BitVec 32 := 3#32
  let v1246 : BitVec 32 := Scalar.addi v109 c3_i32_551
  let v1247 : BitVec 1 := Scalar.cmpi .slt v1219 v1246
  let v1248 : BitVec 1 := Scalar.andi v1245 v1247
  let c2_i32_552 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v1230 : BitVec 1 := Scalar.cmpi .sge v1209 v74
  let c3_i32_547 : BitVec 32 := 3#32
  let v1231 : BitVec 32 := Scalar.addi v74 c3_i32_547
  let v1232 : BitVec 1 := Scalar.cmpi .slt v1209 v1231
  let v1233 : BitVec 1 := Scalar.andi v1230 v1232
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v1234 : BitVec 1 := Scalar.cmpi .sge v1219 v102
  let v1235 : BitVec 1 := Scalar.andi v1233 v1234
  let c3_i32_548 : BitVec 32 := 3#32
  let v1236 : BitVec 32 := Scalar.addi v102 c3_i32_548
  let v1237 : BitVec 1 := Scalar.cmpi .slt v1219 v1236
  let v1238 : BitVec 1 := Scalar.andi v1235 v1237
  let c1_i32_549 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v1220 : BitVec 1 := Scalar.cmpi .sge v1209 v67
  let c3_i32_543 : BitVec 32 := 3#32
  let v1221 : BitVec 32 := Scalar.addi v67 c3_i32_543
  let v1222 : BitVec 1 := Scalar.cmpi .slt v1209 v1221
  let v1223 : BitVec 1 := Scalar.andi v1220 v1222
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v1224 : BitVec 1 := Scalar.cmpi .sge v1219 v95
  let v1225 : BitVec 1 := Scalar.andi v1223 v1224
  let c3_i32_544 : BitVec 32 := 3#32
  let v1226 : BitVec 32 := Scalar.addi v95 c3_i32_544
  let v1227 : BitVec 1 := Scalar.cmpi .slt v1219 v1226
  let v1228 : BitVec 1 := Scalar.andi v1225 v1227
  let c0_i32_545 : BitVec 32 := 0#32
  let c_m1_i32_546 : BitVec 32 := 4294967295#32
  let v1229 : BitVec 32 := Scalar.select v1228 c0_i32_545 c_m1_i32_546
  let v1239 : BitVec 32 := Scalar.select v1238 c1_i32_549 v1229
  let v1249 : BitVec 32 := Scalar.select v1248 c2_i32_552 v1239
  let v1259 : BitVec 32 := Scalar.select v1258 c3_i32_555 v1249
  let c0_i32_865 : BitVec 32 := 0#32
  let c128_i32_556 : BitVec 32 := 128#32
  let v1260 : BitVec 32 := Scalar.muli v1209 c128_i32_556
  let c128_i32_557 : BitVec 32 := 128#32
  let v1261 : BitVec 32 := Scalar.muli v1219 c128_i32_557
  ![v19.toNat, v1259.toNat, 0, v1260.toNat, v1261.toNat]
def k0_cond15 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c7_i32 : BitVec 32 := 7#32
  let v1192 : BitVec 32 := Scalar.addi v29 c7_i32
  let c0_i32_531 : BitVec 32 := 0#32
  let v1194 : BitVec 1 := Scalar.cmpi .sgt v1192 c0_i32_531
  let v1195 : BitVec 32 := Scalar.extui v1194
  let c0_i32_532 : BitVec 32 := 0#32
  let v1196 : BitVec 1 := Scalar.cmpi .slt v1192 c0_i32_532
  let v1197 : BitVec 32 := Scalar.extui v1196
  let v1198 : BitVec 32 := Scalar.subi v1195 v1197
  let c4_i32_530 : BitVec 32 := 4#32
  let c0_i32_533 : BitVec 32 := 0#32
  let v1199 : BitVec 1 := Scalar.cmpi .sgt c4_i32_530 c0_i32_533
  let v1200 : BitVec 32 := Scalar.extui v1199
  let c0_i32_534 : BitVec 32 := 0#32
  let v1201 : BitVec 1 := Scalar.cmpi .slt c4_i32_530 c0_i32_534
  let v1202 : BitVec 32 := Scalar.extui v1201
  let v1203 : BitVec 32 := Scalar.subi v1200 v1202
  let v1204 : BitVec 1 := Scalar.cmpi .ne v1198 v1203
  let v1205 : BitVec 32 := Scalar.remsi v1192 c4_i32_530
  let c0_i32_535 : BitVec 32 := 0#32
  let v1206 : BitVec 1 := Scalar.cmpi .ne v1205 c0_i32_535
  let v1207 : BitVec 1 := Scalar.andi v1204 v1206
  let v1193 : BitVec 32 := Scalar.divsi v1192 c4_i32_530
  let c1_i32_536 : BitVec 32 := 1#32
  let v1208 : BitVec 32 := Scalar.subi v1193 c1_i32_536
  let v1209 : BitVec 32 := Scalar.select v1207 v1208 v1193
  let c1_i32_32 : BitVec 32 := 1#32
  let c0_i32_31 : BitVec 32 := 0#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c2_i32_18 : BitVec 32 := 2#32
  let c0_i32_19 : BitVec 32 := 0#32
  let v50 : BitVec 1 := Scalar.cmpi .eq c2_i32_18 c0_i32_19
  let c1_i32_20 : BitVec 32 := 1#32
  let v51 : BitVec 32 := Scalar.select v50 c1_i32_20 c2_i32_18
  let v52 : BitVec 32 := Scalar.remsi v19 v51
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let c0_i32_21 : BitVec 32 := 0#32
  let v53 : BitVec 1 := Scalar.cmpi .ne v52 c0_i32_21
  let v57 : BitVec 1 := Scalar.andi v56 v53
  let v58 : BitVec 32 := Scalar.addi v52 v51
  let v59 : BitVec 32 := Scalar.select v57 v58 v52
  let c1_i32_24 : BitVec 32 := 1#32
  let v60 : BitVec 1 := Scalar.cmpi .eq v59 c1_i32_24
  let v86 : BitVec 32 := Scalar.select v60 v83 v85
  let v87 : BitVec 32 := Scalar.maxsi c0_i32_31 v86
  let v88 : BitVec 32 := Scalar.minsi c1_i32_32 v87
  let v1250 : BitVec 1 := Scalar.cmpi .sge v1209 v88
  let c3_i32_553 : BitVec 32 := 3#32
  let v1251 : BitVec 32 := Scalar.addi v88 c3_i32_553
  let v1252 : BitVec 1 := Scalar.cmpi .slt v1209 v1251
  let v1253 : BitVec 1 := Scalar.andi v1250 v1252
  let c4_i32_537 : BitVec 32 := 4#32
  let c0_i32_538 : BitVec 32 := 0#32
  let v1210 : BitVec 1 := Scalar.cmpi .eq c4_i32_537 c0_i32_538
  let c1_i32_539 : BitVec 32 := 1#32
  let v1211 : BitVec 32 := Scalar.select v1210 c1_i32_539 c4_i32_537
  let v1212 : BitVec 32 := Scalar.remsi v1192 v1211
  let c0_i32_541 : BitVec 32 := 0#32
  let v1214 : BitVec 1 := Scalar.cmpi .slt v1212 c0_i32_541
  let c0_i32_542 : BitVec 32 := 0#32
  let v1215 : BitVec 1 := Scalar.cmpi .slt v1211 c0_i32_542
  let v1216 : BitVec 1 := Scalar.xori v1214 v1215
  let c0_i32_540 : BitVec 32 := 0#32
  let v1213 : BitVec 1 := Scalar.cmpi .ne v1212 c0_i32_540
  let v1217 : BitVec 1 := Scalar.andi v1216 v1213
  let v1218 : BitVec 32 := Scalar.addi v1212 v1211
  let v1219 : BitVec 32 := Scalar.select v1217 v1218 v1212
  let c1_i32_40 : BitVec 32 := 1#32
  let c0_i32_39 : BitVec 32 := 0#32
  let v114 : BitVec 32 := Scalar.select v60 v111 v113
  let v115 : BitVec 32 := Scalar.maxsi c0_i32_39 v114
  let v116 : BitVec 32 := Scalar.minsi c1_i32_40 v115
  let v1254 : BitVec 1 := Scalar.cmpi .sge v1219 v116
  let v1255 : BitVec 1 := Scalar.andi v1253 v1254
  let c3_i32_554 : BitVec 32 := 3#32
  let v1256 : BitVec 32 := Scalar.addi v116 c3_i32_554
  let v1257 : BitVec 1 := Scalar.cmpi .slt v1219 v1256
  let v1258 : BitVec 1 := Scalar.andi v1255 v1257
  let c3_i32_555 : BitVec 32 := 3#32
  let c1_i32_30 : BitVec 32 := 1#32
  let c0_i32_29 : BitVec 32 := 0#32
  let v79 : BitVec 32 := Scalar.select v60 v76 v78
  let v80 : BitVec 32 := Scalar.maxsi c0_i32_29 v79
  let v81 : BitVec 32 := Scalar.minsi c1_i32_30 v80
  let v1240 : BitVec 1 := Scalar.cmpi .sge v1209 v81
  let c3_i32_550 : BitVec 32 := 3#32
  let v1241 : BitVec 32 := Scalar.addi v81 c3_i32_550
  let v1242 : BitVec 1 := Scalar.cmpi .slt v1209 v1241
  let v1243 : BitVec 1 := Scalar.andi v1240 v1242
  let c1_i32_38 : BitVec 32 := 1#32
  let c0_i32_37 : BitVec 32 := 0#32
  let v107 : BitVec 32 := Scalar.select v60 v104 v106
  let v108 : BitVec 32 := Scalar.maxsi c0_i32_37 v107
  let v109 : BitVec 32 := Scalar.minsi c1_i32_38 v108
  let v1244 : BitVec 1 := Scalar.cmpi .sge v1219 v109
  let v1245 : BitVec 1 := Scalar.andi v1243 v1244
  let c3_i32_551 : BitVec 32 := 3#32
  let v1246 : BitVec 32 := Scalar.addi v109 c3_i32_551
  let v1247 : BitVec 1 := Scalar.cmpi .slt v1219 v1246
  let v1248 : BitVec 1 := Scalar.andi v1245 v1247
  let c2_i32_552 : BitVec 32 := 2#32
  let c1_i32_28 : BitVec 32 := 1#32
  let c0_i32_27 : BitVec 32 := 0#32
  let v72 : BitVec 32 := Scalar.select v60 v69 v71
  let v73 : BitVec 32 := Scalar.maxsi c0_i32_27 v72
  let v74 : BitVec 32 := Scalar.minsi c1_i32_28 v73
  let v1230 : BitVec 1 := Scalar.cmpi .sge v1209 v74
  let c3_i32_547 : BitVec 32 := 3#32
  let v1231 : BitVec 32 := Scalar.addi v74 c3_i32_547
  let v1232 : BitVec 1 := Scalar.cmpi .slt v1209 v1231
  let v1233 : BitVec 1 := Scalar.andi v1230 v1232
  let c1_i32_36 : BitVec 32 := 1#32
  let c0_i32_35 : BitVec 32 := 0#32
  let v100 : BitVec 32 := Scalar.select v60 v97 v99
  let v101 : BitVec 32 := Scalar.maxsi c0_i32_35 v100
  let v102 : BitVec 32 := Scalar.minsi c1_i32_36 v101
  let v1234 : BitVec 1 := Scalar.cmpi .sge v1219 v102
  let v1235 : BitVec 1 := Scalar.andi v1233 v1234
  let c3_i32_548 : BitVec 32 := 3#32
  let v1236 : BitVec 32 := Scalar.addi v102 c3_i32_548
  let v1237 : BitVec 1 := Scalar.cmpi .slt v1219 v1236
  let v1238 : BitVec 1 := Scalar.andi v1235 v1237
  let c1_i32_549 : BitVec 32 := 1#32
  let c1_i32_26 : BitVec 32 := 1#32
  let c0_i32_25 : BitVec 32 := 0#32
  let v65 : BitVec 32 := Scalar.select v60 v62 v64
  let v66 : BitVec 32 := Scalar.maxsi c0_i32_25 v65
  let v67 : BitVec 32 := Scalar.minsi c1_i32_26 v66
  let v1220 : BitVec 1 := Scalar.cmpi .sge v1209 v67
  let c3_i32_543 : BitVec 32 := 3#32
  let v1221 : BitVec 32 := Scalar.addi v67 c3_i32_543
  let v1222 : BitVec 1 := Scalar.cmpi .slt v1209 v1221
  let v1223 : BitVec 1 := Scalar.andi v1220 v1222
  let c1_i32_34 : BitVec 32 := 1#32
  let c0_i32_33 : BitVec 32 := 0#32
  let v93 : BitVec 32 := Scalar.select v60 v90 v92
  let v94 : BitVec 32 := Scalar.maxsi c0_i32_33 v93
  let v95 : BitVec 32 := Scalar.minsi c1_i32_34 v94
  let v1224 : BitVec 1 := Scalar.cmpi .sge v1219 v95
  let v1225 : BitVec 1 := Scalar.andi v1223 v1224
  let c3_i32_544 : BitVec 32 := 3#32
  let v1226 : BitVec 32 := Scalar.addi v95 c3_i32_544
  let v1227 : BitVec 1 := Scalar.cmpi .slt v1219 v1226
  let v1228 : BitVec 1 := Scalar.andi v1225 v1227
  let c0_i32_545 : BitVec 32 := 0#32
  let c_m1_i32_546 : BitVec 32 := 4294967295#32
  let v1229 : BitVec 32 := Scalar.select v1228 c0_i32_545 c_m1_i32_546
  let v1239 : BitVec 32 := Scalar.select v1238 c1_i32_549 v1229
  let v1249 : BitVec 32 := Scalar.select v1248 c2_i32_552 v1239
  let v1259 : BitVec 32 := Scalar.select v1258 c3_i32_555 v1249
  let c0_i32_558 : BitVec 32 := 0#32
  let v1262 : BitVec 1 := Scalar.cmpi .sge v1259 c0_i32_558
  let v1263 : BitVec 32 := Scalar.extui v1262
  let c0_i32_559 : BitVec 32 := 0#32
  let v1264 : BitVec 1 := Scalar.cmpi .ne v1263 c0_i32_559
  v1264

def k0_chk1 (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : Prop :=
  (∀ (k0_h1 : k0_cond1 i v62 v64 v69 v71 v76 v78 v83 v85 v90 v92 v97 v99 v104 v106 v111 v113 = 1#1), ∀ a, (k0_off2 i v62 v64 v69 v71 v76 v78 v83 v85 v90 v92 v97 v99 v104 v106 v111 v113) a + S1x1x1x128x128.size a ≤ S16x4x1x512x512.size a) ∧
  (∀ (k0_h3 : k0_cond3 i v62 v64 v69 v71 v76 v78 v83 v85 v90 v92 v97 v99 v104 v106 v111 v113 = 1#1), ∀ a, (k0_off4 i v62 v64 v69 v71 v76 v78 v83 v85 v90 v92 v97 v99 v104 v106 v111 v113) a + S1x1x1x128x128.size a ≤ S16x4x1x512x512.size a) ∧
  (∀ (k0_h5 : k0_cond5 i v62 v64 v69 v71 v76 v78 v83 v85 v90 v92 v97 v99 v104 v106 v111 v113 = 1#1), ∀ a, (k0_off6 i v62 v64 v69 v71 v76 v78 v83 v85 v90 v92 v97 v99 v104 v106 v111 v113) a + S1x1x1x128x128.size a ≤ S16x4x1x512x512.size a) ∧
  (∀ (k0_h7 : k0_cond7 i v62 v64 v69 v71 v76 v78 v83 v85 v90 v92 v97 v99 v104 v106 v111 v113 = 1#1), ∀ a, (k0_off17 i v62 v64 v69 v71 v76 v78 v83 v85 v90 v92 v97 v99 v104 v106 v111 v113) a + S1x1x1x128x128.size a ≤ S16x4x1x512x512.size a) ∧
  (∀ (k0_h9 : k0_cond9 i v62 v64 v69 v71 v76 v78 v83 v85 v90 v92 v97 v99 v104 v106 v111 v113 = 1#1), ∀ a, (k0_off27 i v62 v64 v69 v71 v76 v78 v83 v85 v90 v92 v97 v99 v104 v106 v111 v113) a + S1x1x1x128x128.size a ≤ S16x4x1x512x512.size a) ∧
  (∀ (k0_h11 : k0_cond11 i v62 v64 v69 v71 v76 v78 v83 v85 v90 v92 v97 v99 v104 v106 v111 v113 = 1#1), ∀ a, (k0_off37 i v62 v64 v69 v71 v76 v78 v83 v85 v90 v92 v97 v99 v104 v106 v111 v113) a + S1x1x1x128x128.size a ≤ S16x4x1x512x512.size a) ∧
  (∀ (k0_h13 : k0_cond13 i v62 v64 v69 v71 v76 v78 v83 v85 v90 v92 v97 v99 v104 v106 v111 v113 = 1#1), ∀ a, (k0_off47 i v62 v64 v69 v71 v76 v78 v83 v85 v90 v92 v97 v99 v104 v106 v111 v113) a + S1x1x1x128x128.size a ≤ S16x4x1x512x512.size a) ∧
  (∀ (k0_h15 : k0_cond15 i v62 v64 v69 v71 v76 v78 v83 v85 v90 v92 v97 v99 v104 v106 v111 v113 = 1#1), ∀ a, (k0_off57 i v62 v64 v69 v71 v76 v78 v83 v85 v90 v92 v97 v99 v104 v106 v111 v113) a + S1x1x1x128x128.size a ≤ S16x4x1x512x512.size a)
instance k0_chk1.dec : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32), Decidable (k0_chk1 i v62 v64 v69 v71 v76 v78 v83 v85 v90 v92 v97 v99 v104 v106 v111 v113) := fun i v62 v64 v69 v71 v76 v78 v83 v85 v90 v92 v97 v99 v104 v106 v111 v113 => decidable_of_iff' _ (Iff.of_eq (k0_chk1.eq_1 i v62 v64 v69 v71 v76 v78 v83 v85 v90 v92 v97 v99 v104 v106 v111 v113))
theorem k0_off2_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h1 : k0_cond1 i v62 v64 v69 v71 v76 v78 v83 v85 v90 v92 v97 v99 v104 v106 v111 v113 = 1#1), ∀ a, (k0_off2 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h1 => k0_hw1.1 k0_h1
theorem k0_off4_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h3 : k0_cond3 i v62 v64 v69 v71 v76 v78 v83 v85 v90 v92 v97 v99 v104 v106 v111 v113 = 1#1), ∀ a, (k0_off4 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h3 => k0_hw1.2.1 k0_h3
theorem k0_off6_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h5 : k0_cond5 i v62 v64 v69 v71 v76 v78 v83 v85 v90 v92 v97 v99 v104 v106 v111 v113 = 1#1), ∀ a, (k0_off6 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h5 => k0_hw1.2.2.1 k0_h5
theorem k0_off17_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h7 : k0_cond7 i v62 v64 v69 v71 v76 v78 v83 v85 v90 v92 v97 v99 v104 v106 v111 v113 = 1#1), ∀ a, (k0_off17 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h7 => k0_hw1.2.2.2.1 k0_h7
theorem k0_off27_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h9 : k0_cond9 i v62 v64 v69 v71 v76 v78 v83 v85 v90 v92 v97 v99 v104 v106 v111 v113 = 1#1), ∀ a, (k0_off27 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h9 => k0_hw1.2.2.2.2.1 k0_h9
theorem k0_off37_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h11 : k0_cond11 i v62 v64 v69 v71 v76 v78 v83 v85 v90 v92 v97 v99 v104 v106 v111 v113 = 1#1), ∀ a, (k0_off37 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h11 => k0_hw1.2.2.2.2.2.1 k0_h11
theorem k0_off47_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h13 : k0_cond13 i v62 v64 v69 v71 v76 v78 v83 v85 v90 v92 v97 v99 v104 v106 v111 v113 = 1#1), ∀ a, (k0_off47 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h13 => k0_hw1.2.2.2.2.2.2.1 k0_h13
theorem k0_off57_inb : ∀ (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (k0_hw1 : k0_chk1 i v62 v64 v69 v71 v76 v78 v83 v85 v90 v92 v97 v99 v104 v106 v111 v113), ∀ (k0_h15 : k0_cond15 i v62 v64 v69 v71 v76 v78 v83 v85 v90 v92 v97 v99 v104 v106 v111 v113 = 1#1), ∀ a, (k0_off57 i v62 v64 v69 v71 v76 v78 v83 v85 v90 v92 v97 v99 v104 v106 v111 v113) a + S1x1x1x128x128.size a ≤ S16x4x1x512x512.size a := fun i v62 v64 v69 v71 v76 v78 v83 v85 v90 v92 v97 v99 v104 v106 v111 v113 k0_hw1 k0_h15 => k0_hw1.2.2.2.2.2.2.2 k0_h15

def k0_off58 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c16_i32 : BitVec 32 := 16#32
  let c0_i32_1 : BitVec 32 := 0#32
  let v9 : BitVec 1 := Scalar.cmpi .sgt c16_i32 c0_i32_1
  let v10 : BitVec 32 := Scalar.extui v9
  let c0_i32_2 : BitVec 32 := 0#32
  let v11 : BitVec 1 := Scalar.cmpi .slt c16_i32 c0_i32_2
  let v12 : BitVec 32 := Scalar.extui v11
  let v13 : BitVec 32 := Scalar.subi v10 v12
  let v14 : BitVec 1 := Scalar.cmpi .ne v8 v13
  let v15 : BitVec 32 := Scalar.remsi v2 c16_i32
  let c0_i32_3 : BitVec 32 := 0#32
  let v16 : BitVec 1 := Scalar.cmpi .ne v15 c0_i32_3
  let v17 : BitVec 1 := Scalar.andi v14 v16
  let v3 : BitVec 32 := Scalar.divsi v2 c16_i32
  let c1_i32 : BitVec 32 := 1#32
  let v18 : BitVec 32 := Scalar.subi v3 c1_i32
  let v19 : BitVec 32 := Scalar.select v17 v18 v3
  let c0_i32_865 : BitVec 32 := 0#32
  let c16_i32_4 : BitVec 32 := 16#32
  let c0_i32_5 : BitVec 32 := 0#32
  let v20 : BitVec 1 := Scalar.cmpi .eq c16_i32_4 c0_i32_5
  let c1_i32_6 : BitVec 32 := 1#32
  let v21 : BitVec 32 := Scalar.select v20 c1_i32_6 c16_i32_4
  let v22 : BitVec 32 := Scalar.remsi v2 v21
  let c0_i32_8 : BitVec 32 := 0#32
  let v24 : BitVec 1 := Scalar.cmpi .slt v22 c0_i32_8
  let c0_i32_9 : BitVec 32 := 0#32
  let v25 : BitVec 1 := Scalar.cmpi .slt v21 c0_i32_9
  let v26 : BitVec 1 := Scalar.xori v24 v25
  let c0_i32_7 : BitVec 32 := 0#32
  let v23 : BitVec 1 := Scalar.cmpi .ne v22 c0_i32_7
  let v27 : BitVec 1 := Scalar.andi v26 v23
  let v28 : BitVec 32 := Scalar.addi v22 v21
  let v29 : BitVec 32 := Scalar.select v27 v28 v22
  let c7_i32 : BitVec 32 := 7#32
  let v1192 : BitVec 32 := Scalar.addi v29 c7_i32
  let c0_i32_531 : BitVec 32 := 0#32
  let v1194 : BitVec 1 := Scalar.cmpi .sgt v1192 c0_i32_531
  let v1195 : BitVec 32 := Scalar.extui v1194
  let c0_i32_532 : BitVec 32 := 0#32
  let v1196 : BitVec 1 := Scalar.cmpi .slt v1192 c0_i32_532
  let v1197 : BitVec 32 := Scalar.extui v1196
  let v1198 : BitVec 32 := Scalar.subi v1195 v1197
  let c4_i32_530 : BitVec 32 := 4#32
  let c0_i32_533 : BitVec 32 := 0#32
  let v1199 : BitVec 1 := Scalar.cmpi .sgt c4_i32_530 c0_i32_533
  let v1200 : BitVec 32 := Scalar.extui v1199
  let c0_i32_534 : BitVec 32 := 0#32
  let v1201 : BitVec 1 := Scalar.cmpi .slt c4_i32_530 c0_i32_534
  let v1202 : BitVec 32 := Scalar.extui v1201
  let v1203 : BitVec 32 := Scalar.subi v1200 v1202
  let v1204 : BitVec 1 := Scalar.cmpi .ne v1198 v1203
  let v1205 : BitVec 32 := Scalar.remsi v1192 c4_i32_530
  let c0_i32_535 : BitVec 32 := 0#32
  let v1206 : BitVec 1 := Scalar.cmpi .ne v1205 c0_i32_535
  let v1207 : BitVec 1 := Scalar.andi v1204 v1206
  let v1193 : BitVec 32 := Scalar.divsi v1192 c4_i32_530
  let c1_i32_536 : BitVec 32 := 1#32
  let v1208 : BitVec 32 := Scalar.subi v1193 c1_i32_536
  let v1209 : BitVec 32 := Scalar.select v1207 v1208 v1193
  let c128_i32_556 : BitVec 32 := 128#32
  let v1260 : BitVec 32 := Scalar.muli v1209 c128_i32_556
  let c4_i32_537 : BitVec 32 := 4#32
  let c0_i32_538 : BitVec 32 := 0#32
  let v1210 : BitVec 1 := Scalar.cmpi .eq c4_i32_537 c0_i32_538
  let c1_i32_539 : BitVec 32 := 1#32
  let v1211 : BitVec 32 := Scalar.select v1210 c1_i32_539 c4_i32_537
  let v1212 : BitVec 32 := Scalar.remsi v1192 v1211
  let c0_i32_541 : BitVec 32 := 0#32
  let v1214 : BitVec 1 := Scalar.cmpi .slt v1212 c0_i32_541
  let c0_i32_542 : BitVec 32 := 0#32
  let v1215 : BitVec 1 := Scalar.cmpi .slt v1211 c0_i32_542
  let v1216 : BitVec 1 := Scalar.xori v1214 v1215
  let c0_i32_540 : BitVec 32 := 0#32
  let v1213 : BitVec 1 := Scalar.cmpi .ne v1212 c0_i32_540
  let v1217 : BitVec 1 := Scalar.andi v1216 v1213
  let v1218 : BitVec 32 := Scalar.addi v1212 v1211
  let v1219 : BitVec 32 := Scalar.select v1217 v1218 v1212
  let c128_i32_557 : BitVec 32 := 128#32
  let v1261 : BitVec 32 := Scalar.muli v1219 c128_i32_557
  ![v19.toNat, 0, v1260.toNat, v1261.toNat]
@[reducible] def k0_t6_loop : Scf.Loop 32 :=
  let c0_i32_599 : BitVec 32 := 0#32
  let c64_i32_600 : BitVec 32 := 64#32
  let v1346 : BitVec 32 := Scalar.addi c0_i32_599 c64_i32_600
  let c1_i32_601 : BitVec 32 := 1#32
  ⟨c0_i32_599, v1346, c1_i32_601⟩
def k0_off59 (k0_t6 : Fin k0_t6_loop.trips) (c0_i32_866 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off60 (k0_t6 : Fin k0_t6_loop.trips) (c0_i32_872 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off61 (k0_t6 : Fin k0_t6_loop.trips) (c0_i32_878 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off62 (k0_t6 : Fin k0_t6_loop.trips) (c0_i32_884 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off63 (k0_t6 : Fin k0_t6_loop.trips) (c0_i32_890 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off64 (k0_t6 : Fin k0_t6_loop.trips) (c0_i32_896 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off65 (k0_t6 : Fin k0_t6_loop.trips) (c0_i32_902 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off66 (k0_t6 : Fin k0_t6_loop.trips) (c0_i32_908 : BitVec 32) : Fin 2 → Nat :=
  let c0_i32_599 : BitVec 32 := 0#32
  let c1_i32_601 : BitVec 32 := 1#32
  let arg19 : BitVec 32 := Scf.iv c0_i32_599 c1_i32_601 k0_t6
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
@[reducible] def k0_t7_loop : Scf.Loop 32 :=
  let c0_i32_670 : BitVec 32 := 0#32
  let c64_i32_671 : BitVec 32 := 64#32
  let v1499 : BitVec 32 := Scalar.addi c0_i32_670 c64_i32_671
  let c1_i32_672 : BitVec 32 := 1#32
  ⟨c0_i32_670, v1499, c1_i32_672⟩
def k0_off67 (k0_t7 : Fin k0_t7_loop.trips) (c0_i32_866 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off68 (k0_t7 : Fin k0_t7_loop.trips) (c0_i32_872 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off69 (k0_t7 : Fin k0_t7_loop.trips) (c0_i32_878 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off70 (k0_t7 : Fin k0_t7_loop.trips) (c0_i32_884 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off71 (k0_t7 : Fin k0_t7_loop.trips) (c0_i32_890 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off72 (k0_t7 : Fin k0_t7_loop.trips) (c0_i32_896 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off73 (k0_t7 : Fin k0_t7_loop.trips) (c0_i32_902 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off74 (k0_t7 : Fin k0_t7_loop.trips) (c0_i32_908 : BitVec 32) : Fin 2 → Nat :=
  let c0_i32_670 : BitVec 32 := 0#32
  let c1_i32_672 : BitVec 32 := 1#32
  let arg19 : BitVec 32 := Scf.iv c0_i32_670 c1_i32_672 k0_t7
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
@[reducible] def k0_t8_loop : Scf.Loop 32 :=
  let c0_i32_741 : BitVec 32 := 0#32
  let c64_i32_742 : BitVec 32 := 64#32
  let v1652 : BitVec 32 := Scalar.addi c0_i32_741 c64_i32_742
  let c1_i32_743 : BitVec 32 := 1#32
  ⟨c0_i32_741, v1652, c1_i32_743⟩
def k0_off75 (k0_t8 : Fin k0_t8_loop.trips) (c0_i32_866 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v1950 : BitVec 32 := Scalar.addi v1949 c0_i32_866
  let v1951 : Index := Scalar.indexCast v1950
  let c0_867 : Index := 0#32
  ![v1951.toNat, 0]
def k0_off76 (k0_t8 : Fin k0_t8_loop.trips) (c0_i32_872 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v1966 : BitVec 32 := Scalar.addi v1949 c0_i32_872
  let v1967 : Index := Scalar.indexCast v1966
  let c16 : Index := 16#32
  ![v1967.toNat, 16]
def k0_off77 (k0_t8 : Fin k0_t8_loop.trips) (c0_i32_878 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v1982 : BitVec 32 := Scalar.addi v1949 c0_i32_878
  let v1983 : Index := Scalar.indexCast v1982
  let c32 : Index := 32#32
  ![v1983.toNat, 32]
def k0_off78 (k0_t8 : Fin k0_t8_loop.trips) (c0_i32_884 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v1998 : BitVec 32 := Scalar.addi v1949 c0_i32_884
  let v1999 : Index := Scalar.indexCast v1998
  let c48 : Index := 48#32
  ![v1999.toNat, 48]
def k0_off79 (k0_t8 : Fin k0_t8_loop.trips) (c0_i32_890 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v2014 : BitVec 32 := Scalar.addi v1949 c0_i32_890
  let v2015 : Index := Scalar.indexCast v2014
  let c64 : Index := 64#32
  ![v2015.toNat, 64]
def k0_off80 (k0_t8 : Fin k0_t8_loop.trips) (c0_i32_896 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v2030 : BitVec 32 := Scalar.addi v1949 c0_i32_896
  let v2031 : Index := Scalar.indexCast v2030
  let c80 : Index := 80#32
  ![v2031.toNat, 80]
def k0_off81 (k0_t8 : Fin k0_t8_loop.trips) (c0_i32_902 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v2046 : BitVec 32 := Scalar.addi v1949 c0_i32_902
  let v2047 : Index := Scalar.indexCast v2046
  let c96 : Index := 96#32
  ![v2047.toNat, 96]
def k0_off82 (k0_t8 : Fin k0_t8_loop.trips) (c0_i32_908 : BitVec 32) : Fin 2 → Nat :=
  let c0_i32_741 : BitVec 32 := 0#32
  let c1_i32_743 : BitVec 32 := 1#32
  let arg19 : BitVec 32 := Scf.iv c0_i32_741 c1_i32_743 k0_t8
  let c2_i32_865 : BitVec 32 := 2#32
  let v1949 : BitVec 32 := Scalar.muli arg19 c2_i32_865
  let v2062 : BitVec 32 := Scalar.addi v1949 c0_i32_908
  let v2063 : Index := Scalar.indexCast v2062
  let c112 : Index := 112#32
  ![v2063.toNat, 112]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S16x4x2_S128 : S16x4x2.ShapeCasts S128
  inb_S16_S16_0 : ∀ a, (![0] : Fin 1 → Nat) a + S16.size a ≤ S16.size a
  h_S16 : 0 < S16.numel
  shapeCasts_S16_S16 : S16.ShapeCasts S16
  slices_S16_o8_S1 : S16.Slices ![8] S1
  inpos_S1_p0 : ∀ a, (![0] : Fin 1 → Nat) a < S1.size a
  slices_S16_o0_S1 : S16.Slices ![0] S1
  slices_S16_o10_S1 : S16.Slices ![10] S1
  slices_S16_o2_S1 : S16.Slices ![2] S1
  slices_S16_o12_S1 : S16.Slices ![12] S1
  slices_S16_o4_S1 : S16.Slices ![4] S1
  slices_S16_o14_S1 : S16.Slices ![14] S1
  slices_S16_o6_S1 : S16.Slices ![6] S1
  slices_S16_o9_S1 : S16.Slices ![9] S1
  slices_S16_o1_S1 : S16.Slices ![1] S1
  slices_S16_o11_S1 : S16.Slices ![11] S1
  slices_S16_o3_S1 : S16.Slices ![3] S1
  slices_S16_o13_S1 : S16.Slices ![13] S1
  slices_S16_o5_S1 : S16.Slices ![5] S1
  slices_S16_o15_S1 : S16.Slices ![15] S1
  slices_S16_o7_S1 : S16.Slices ![7] S1
  squeezes_S1x1x1x128x128_S128x128 : S1x1x1x128x128.Squeezes S128x128
  squeezes_S1x1x128x128_S128x128 : S1x1x128x128.Squeezes S128x128
  inb_S16x1x512x512_S1x1x128x128_0_0_0_0 : ∀ a, (![0, 0, 0, 0] : Fin 4 → Nat) a + S1x1x128x128.size a ≤ S16x1x512x512.size a
  h_S1x16 : 0 < S1x16.numel
  shapeCasts_S1x16_S16 : S1x16.ShapeCasts S16
  shapeCasts_S16_S1x16 : S16.ShapeCasts S1x16
  hcc0_scratch7 : 0 + S_.numel ≤ 7
  hcc0_scratch8 : 1 + S_.numel ≤ 7
  hcc0_scratch9 : 2 + S_.numel ≤ 7
  hcc0_scratch10 : 3 + S_.numel ≤ 7
  hcc0_scratch11 : 4 + S_.numel ≤ 7
  hcc0_scratch12 : 5 + S_.numel ≤ 7
  hcc0_scoped0 : 6 + S_.numel ≤ 7
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S16.size a ≤ S128.size a
  k0_off3_inb : ∀ i : grid0.Coords, ∀ a, (k0_off3 i) a + S1x1x128x128.size a ≤ S16x1x512x512.size a
  k0_off5_inb : ∀ i : grid0.Coords, ∀ a, (k0_off5 i) a + S1x1x128x128.size a ≤ S16x1x512x512.size a
  k0_off7_inb : ∀ i : grid0.Coords, ∀ a, (k0_off7 i) a + S1x1x128x128.size a ≤ S16x1x512x512.size a
  k0_t1_ok : k0_t1_loop.OK
  k0_off8_inb : ∀ k0_t1 : Fin k0_t1_loop.trips, ∀ (r : Fin 2), ∀ a, (k0_off8 k0_t1 (BitVec.ofNat 32 r.val)) a + S1x16.size a ≤ S128x128.size a
  k0_off9_inb : ∀ k0_t1 : Fin k0_t1_loop.trips, ∀ (r : Fin 2), ∀ a, (k0_off9 k0_t1 (BitVec.ofNat 32 r.val)) a + S1x16.size a ≤ S128x128.size a
  k0_off10_inb : ∀ k0_t1 : Fin k0_t1_loop.trips, ∀ (r : Fin 2), ∀ a, (k0_off10 k0_t1 (BitVec.ofNat 32 r.val)) a + S1x16.size a ≤ S128x128.size a
  k0_off11_inb : ∀ k0_t1 : Fin k0_t1_loop.trips, ∀ (r : Fin 2), ∀ a, (k0_off11 k0_t1 (BitVec.ofNat 32 r.val)) a + S1x16.size a ≤ S128x128.size a
  k0_off12_inb : ∀ k0_t1 : Fin k0_t1_loop.trips, ∀ (r : Fin 2), ∀ a, (k0_off12 k0_t1 (BitVec.ofNat 32 r.val)) a + S1x16.size a ≤ S128x128.size a
  k0_off13_inb : ∀ k0_t1 : Fin k0_t1_loop.trips, ∀ (r : Fin 2), ∀ a, (k0_off13 k0_t1 (BitVec.ofNat 32 r.val)) a + S1x16.size a ≤ S128x128.size a
  k0_off14_inb : ∀ k0_t1 : Fin k0_t1_loop.trips, ∀ (r : Fin 2), ∀ a, (k0_off14 k0_t1 (BitVec.ofNat 32 r.val)) a + S1x16.size a ≤ S128x128.size a
  k0_off15_inb : ∀ k0_t1 : Fin k0_t1_loop.trips, ∀ (r : Fin 2), ∀ a, (k0_off15 k0_t1 (BitVec.ofNat 32 r.val)) a + S1x16.size a ≤ S128x128.size a
  k0_off16_inb : ∀ i : grid0.Coords, ∀ (r : Fin 8), ∀ a, (k0_off16 i (BitVec.ofNat 32 r.val)) a + S1x1x128x128.size a ≤ S16x1x512x512.size a
  k0_off18_inb : ∀ i : grid0.Coords, ∀ a, (k0_off18 i) a + S1x1x128x128.size a ≤ S16x1x512x512.size a
  k0_t2_ok : k0_t2_loop.OK
  k0_off19_inb : ∀ k0_t2 : Fin k0_t2_loop.trips, ∀ (r : Fin 2), ∀ a, (k0_off19 k0_t2 (BitVec.ofNat 32 r.val)) a + S1x16.size a ≤ S128x128.size a
  k0_off20_inb : ∀ k0_t2 : Fin k0_t2_loop.trips, ∀ (r : Fin 2), ∀ a, (k0_off20 k0_t2 (BitVec.ofNat 32 r.val)) a + S1x16.size a ≤ S128x128.size a
  k0_off21_inb : ∀ k0_t2 : Fin k0_t2_loop.trips, ∀ (r : Fin 2), ∀ a, (k0_off21 k0_t2 (BitVec.ofNat 32 r.val)) a + S1x16.size a ≤ S128x128.size a
  k0_off22_inb : ∀ k0_t2 : Fin k0_t2_loop.trips, ∀ (r : Fin 2), ∀ a, (k0_off22 k0_t2 (BitVec.ofNat 32 r.val)) a + S1x16.size a ≤ S128x128.size a
  k0_off23_inb : ∀ k0_t2 : Fin k0_t2_loop.trips, ∀ (r : Fin 2), ∀ a, (k0_off23 k0_t2 (BitVec.ofNat 32 r.val)) a + S1x16.size a ≤ S128x128.size a
  k0_off24_inb : ∀ k0_t2 : Fin k0_t2_loop.trips, ∀ (r : Fin 2), ∀ a, (k0_off24 k0_t2 (BitVec.ofNat 32 r.val)) a + S1x16.size a ≤ S128x128.size a
  k0_off25_inb : ∀ k0_t2 : Fin k0_t2_loop.trips, ∀ (r : Fin 2), ∀ a, (k0_off25 k0_t2 (BitVec.ofNat 32 r.val)) a + S1x16.size a ≤ S128x128.size a
  k0_off26_inb : ∀ k0_t2 : Fin k0_t2_loop.trips, ∀ (r : Fin 2), ∀ a, (k0_off26 k0_t2 (BitVec.ofNat 32 r.val)) a + S1x16.size a ≤ S128x128.size a
  k0_off28_inb : ∀ i : grid0.Coords, ∀ a, (k0_off28 i) a + S1x1x128x128.size a ≤ S16x1x512x512.size a
  k0_t3_ok : k0_t3_loop.OK
  k0_off29_inb : ∀ k0_t3 : Fin k0_t3_loop.trips, ∀ (r : Fin 2), ∀ a, (k0_off29 k0_t3 (BitVec.ofNat 32 r.val)) a + S1x16.size a ≤ S128x128.size a
  k0_off30_inb : ∀ k0_t3 : Fin k0_t3_loop.trips, ∀ (r : Fin 2), ∀ a, (k0_off30 k0_t3 (BitVec.ofNat 32 r.val)) a + S1x16.size a ≤ S128x128.size a
  k0_off31_inb : ∀ k0_t3 : Fin k0_t3_loop.trips, ∀ (r : Fin 2), ∀ a, (k0_off31 k0_t3 (BitVec.ofNat 32 r.val)) a + S1x16.size a ≤ S128x128.size a
  k0_off32_inb : ∀ k0_t3 : Fin k0_t3_loop.trips, ∀ (r : Fin 2), ∀ a, (k0_off32 k0_t3 (BitVec.ofNat 32 r.val)) a + S1x16.size a ≤ S128x128.size a
  k0_off33_inb : ∀ k0_t3 : Fin k0_t3_loop.trips, ∀ (r : Fin 2), ∀ a, (k0_off33 k0_t3 (BitVec.ofNat 32 r.val)) a + S1x16.size a ≤ S128x128.size a
  k0_off34_inb : ∀ k0_t3 : Fin k0_t3_loop.trips, ∀ (r : Fin 2), ∀ a, (k0_off34 k0_t3 (BitVec.ofNat 32 r.val)) a + S1x16.size a ≤ S128x128.size a
  k0_off35_inb : ∀ k0_t3 : Fin k0_t3_loop.trips, ∀ (r : Fin 2), ∀ a, (k0_off35 k0_t3 (BitVec.ofNat 32 r.val)) a + S1x16.size a ≤ S128x128.size a
  k0_off36_inb : ∀ k0_t3 : Fin k0_t3_loop.trips, ∀ (r : Fin 2), ∀ a, (k0_off36 k0_t3 (BitVec.ofNat 32 r.val)) a + S1x16.size a ≤ S128x128.size a
  k0_off38_inb : ∀ i : grid0.Coords, ∀ a, (k0_off38 i) a + S1x1x128x128.size a ≤ S16x1x512x512.size a
  k0_t4_ok : k0_t4_loop.OK
  k0_off39_inb : ∀ k0_t4 : Fin k0_t4_loop.trips, ∀ (r : Fin 2), ∀ a, (k0_off39 k0_t4 (BitVec.ofNat 32 r.val)) a + S1x16.size a ≤ S128x128.size a
  k0_off40_inb : ∀ k0_t4 : Fin k0_t4_loop.trips, ∀ (r : Fin 2), ∀ a, (k0_off40 k0_t4 (BitVec.ofNat 32 r.val)) a + S1x16.size a ≤ S128x128.size a
  k0_off41_inb : ∀ k0_t4 : Fin k0_t4_loop.trips, ∀ (r : Fin 2), ∀ a, (k0_off41 k0_t4 (BitVec.ofNat 32 r.val)) a + S1x16.size a ≤ S128x128.size a
  k0_off42_inb : ∀ k0_t4 : Fin k0_t4_loop.trips, ∀ (r : Fin 2), ∀ a, (k0_off42 k0_t4 (BitVec.ofNat 32 r.val)) a + S1x16.size a ≤ S128x128.size a
  k0_off43_inb : ∀ k0_t4 : Fin k0_t4_loop.trips, ∀ (r : Fin 2), ∀ a, (k0_off43 k0_t4 (BitVec.ofNat 32 r.val)) a + S1x16.size a ≤ S128x128.size a
  k0_off44_inb : ∀ k0_t4 : Fin k0_t4_loop.trips, ∀ (r : Fin 2), ∀ a, (k0_off44 k0_t4 (BitVec.ofNat 32 r.val)) a + S1x16.size a ≤ S128x128.size a
  k0_off45_inb : ∀ k0_t4 : Fin k0_t4_loop.trips, ∀ (r : Fin 2), ∀ a, (k0_off45 k0_t4 (BitVec.ofNat 32 r.val)) a + S1x16.size a ≤ S128x128.size a
  k0_off46_inb : ∀ k0_t4 : Fin k0_t4_loop.trips, ∀ (r : Fin 2), ∀ a, (k0_off46 k0_t4 (BitVec.ofNat 32 r.val)) a + S1x16.size a ≤ S128x128.size a
  k0_off48_inb : ∀ i : grid0.Coords, ∀ a, (k0_off48 i) a + S1x1x128x128.size a ≤ S16x1x512x512.size a
  k0_t5_ok : k0_t5_loop.OK
  k0_off49_inb : ∀ k0_t5 : Fin k0_t5_loop.trips, ∀ (r : Fin 2), ∀ a, (k0_off49 k0_t5 (BitVec.ofNat 32 r.val)) a + S1x16.size a ≤ S128x128.size a
  k0_off50_inb : ∀ k0_t5 : Fin k0_t5_loop.trips, ∀ (r : Fin 2), ∀ a, (k0_off50 k0_t5 (BitVec.ofNat 32 r.val)) a + S1x16.size a ≤ S128x128.size a
  k0_off51_inb : ∀ k0_t5 : Fin k0_t5_loop.trips, ∀ (r : Fin 2), ∀ a, (k0_off51 k0_t5 (BitVec.ofNat 32 r.val)) a + S1x16.size a ≤ S128x128.size a
  k0_off52_inb : ∀ k0_t5 : Fin k0_t5_loop.trips, ∀ (r : Fin 2), ∀ a, (k0_off52 k0_t5 (BitVec.ofNat 32 r.val)) a + S1x16.size a ≤ S128x128.size a
  k0_off53_inb : ∀ k0_t5 : Fin k0_t5_loop.trips, ∀ (r : Fin 2), ∀ a, (k0_off53 k0_t5 (BitVec.ofNat 32 r.val)) a + S1x16.size a ≤ S128x128.size a
  k0_off54_inb : ∀ k0_t5 : Fin k0_t5_loop.trips, ∀ (r : Fin 2), ∀ a, (k0_off54 k0_t5 (BitVec.ofNat 32 r.val)) a + S1x16.size a ≤ S128x128.size a
  k0_off55_inb : ∀ k0_t5 : Fin k0_t5_loop.trips, ∀ (r : Fin 2), ∀ a, (k0_off55 k0_t5 (BitVec.ofNat 32 r.val)) a + S1x16.size a ≤ S128x128.size a
  k0_off56_inb : ∀ k0_t5 : Fin k0_t5_loop.trips, ∀ (r : Fin 2), ∀ a, (k0_off56 k0_t5 (BitVec.ofNat 32 r.val)) a + S1x16.size a ≤ S128x128.size a
  k0_off58_inb : ∀ i : grid0.Coords, ∀ a, (k0_off58 i) a + S1x1x128x128.size a ≤ S16x1x512x512.size a
  k0_t6_ok : k0_t6_loop.OK
  k0_off59_inb : ∀ k0_t6 : Fin k0_t6_loop.trips, ∀ (r : Fin 2), ∀ a, (k0_off59 k0_t6 (BitVec.ofNat 32 r.val)) a + S1x16.size a ≤ S128x128.size a
  k0_off60_inb : ∀ k0_t6 : Fin k0_t6_loop.trips, ∀ (r : Fin 2), ∀ a, (k0_off60 k0_t6 (BitVec.ofNat 32 r.val)) a + S1x16.size a ≤ S128x128.size a
  k0_off61_inb : ∀ k0_t6 : Fin k0_t6_loop.trips, ∀ (r : Fin 2), ∀ a, (k0_off61 k0_t6 (BitVec.ofNat 32 r.val)) a + S1x16.size a ≤ S128x128.size a
  k0_off62_inb : ∀ k0_t6 : Fin k0_t6_loop.trips, ∀ (r : Fin 2), ∀ a, (k0_off62 k0_t6 (BitVec.ofNat 32 r.val)) a + S1x16.size a ≤ S128x128.size a
  k0_off63_inb : ∀ k0_t6 : Fin k0_t6_loop.trips, ∀ (r : Fin 2), ∀ a, (k0_off63 k0_t6 (BitVec.ofNat 32 r.val)) a + S1x16.size a ≤ S128x128.size a
  k0_off64_inb : ∀ k0_t6 : Fin k0_t6_loop.trips, ∀ (r : Fin 2), ∀ a, (k0_off64 k0_t6 (BitVec.ofNat 32 r.val)) a + S1x16.size a ≤ S128x128.size a
  k0_off65_inb : ∀ k0_t6 : Fin k0_t6_loop.trips, ∀ (r : Fin 2), ∀ a, (k0_off65 k0_t6 (BitVec.ofNat 32 r.val)) a + S1x16.size a ≤ S128x128.size a
  k0_off66_inb : ∀ k0_t6 : Fin k0_t6_loop.trips, ∀ (r : Fin 2), ∀ a, (k0_off66 k0_t6 (BitVec.ofNat 32 r.val)) a + S1x16.size a ≤ S128x128.size a
  k0_t7_ok : k0_t7_loop.OK
  k0_off67_inb : ∀ k0_t7 : Fin k0_t7_loop.trips, ∀ (r : Fin 2), ∀ a, (k0_off67 k0_t7 (BitVec.ofNat 32 r.val)) a + S1x16.size a ≤ S128x128.size a
  k0_off68_inb : ∀ k0_t7 : Fin k0_t7_loop.trips, ∀ (r : Fin 2), ∀ a, (k0_off68 k0_t7 (BitVec.ofNat 32 r.val)) a + S1x16.size a ≤ S128x128.size a
  k0_off69_inb : ∀ k0_t7 : Fin k0_t7_loop.trips, ∀ (r : Fin 2), ∀ a, (k0_off69 k0_t7 (BitVec.ofNat 32 r.val)) a + S1x16.size a ≤ S128x128.size a
  k0_off70_inb : ∀ k0_t7 : Fin k0_t7_loop.trips, ∀ (r : Fin 2), ∀ a, (k0_off70 k0_t7 (BitVec.ofNat 32 r.val)) a + S1x16.size a ≤ S128x128.size a
  k0_off71_inb : ∀ k0_t7 : Fin k0_t7_loop.trips, ∀ (r : Fin 2), ∀ a, (k0_off71 k0_t7 (BitVec.ofNat 32 r.val)) a + S1x16.size a ≤ S128x128.size a
  k0_off72_inb : ∀ k0_t7 : Fin k0_t7_loop.trips, ∀ (r : Fin 2), ∀ a, (k0_off72 k0_t7 (BitVec.ofNat 32 r.val)) a + S1x16.size a ≤ S128x128.size a
  k0_off73_inb : ∀ k0_t7 : Fin k0_t7_loop.trips, ∀ (r : Fin 2), ∀ a, (k0_off73 k0_t7 (BitVec.ofNat 32 r.val)) a + S1x16.size a ≤ S128x128.size a
  k0_off74_inb : ∀ k0_t7 : Fin k0_t7_loop.trips, ∀ (r : Fin 2), ∀ a, (k0_off74 k0_t7 (BitVec.ofNat 32 r.val)) a + S1x16.size a ≤ S128x128.size a
  k0_t8_ok : k0_t8_loop.OK
  k0_off75_inb : ∀ k0_t8 : Fin k0_t8_loop.trips, ∀ (r : Fin 2), ∀ a, (k0_off75 k0_t8 (BitVec.ofNat 32 r.val)) a + S1x16.size a ≤ S128x128.size a
  k0_off76_inb : ∀ k0_t8 : Fin k0_t8_loop.trips, ∀ (r : Fin 2), ∀ a, (k0_off76 k0_t8 (BitVec.ofNat 32 r.val)) a + S1x16.size a ≤ S128x128.size a
  k0_off77_inb : ∀ k0_t8 : Fin k0_t8_loop.trips, ∀ (r : Fin 2), ∀ a, (k0_off77 k0_t8 (BitVec.ofNat 32 r.val)) a + S1x16.size a ≤ S128x128.size a
  k0_off78_inb : ∀ k0_t8 : Fin k0_t8_loop.trips, ∀ (r : Fin 2), ∀ a, (k0_off78 k0_t8 (BitVec.ofNat 32 r.val)) a + S1x16.size a ≤ S128x128.size a
  k0_off79_inb : ∀ k0_t8 : Fin k0_t8_loop.trips, ∀ (r : Fin 2), ∀ a, (k0_off79 k0_t8 (BitVec.ofNat 32 r.val)) a + S1x16.size a ≤ S128x128.size a
  k0_off80_inb : ∀ k0_t8 : Fin k0_t8_loop.trips, ∀ (r : Fin 2), ∀ a, (k0_off80 k0_t8 (BitVec.ofNat 32 r.val)) a + S1x16.size a ≤ S128x128.size a
  k0_off81_inb : ∀ k0_t8 : Fin k0_t8_loop.trips, ∀ (r : Fin 2), ∀ a, (k0_off81 k0_t8 (BitVec.ofNat 32 r.val)) a + S1x16.size a ≤ S128x128.size a
  k0_off82_inb : ∀ k0_t8 : Fin k0_t8_loop.trips, ∀ (r : Fin 2), ∀ a, (k0_off82 k0_t8 (BitVec.ofNat 32 r.val)) a + S1x16.size a ≤ S128x128.size a

variable [Facts₀]

abbrev cc0_scratch7 : DmaSems sig S_ := SemArray.consecutive 0 S_ hcc0_scratch7
abbrev cc0_scratch8 : DmaSems sig S_ := SemArray.consecutive 1 S_ hcc0_scratch8
abbrev cc0_scratch9 : DmaSems sig S_ := SemArray.consecutive 2 S_ hcc0_scratch9
abbrev cc0_scratch10 : DmaSems sig S_ := SemArray.consecutive 3 S_ hcc0_scratch10
abbrev cc0_scratch11 : DmaSems sig S_ := SemArray.consecutive 4 S_ hcc0_scratch11
abbrev cc0_scratch12 : DmaSems sig S_ := SemArray.consecutive 5 S_ hcc0_scratch12
abbrev cc0_scoped0 : DmaSems sig S_ := SemArray.consecutive 6 S_ hcc0_scoped0

class Facts : Prop extends Facts₀ where

variable [Facts]
-- ==== ReferenceIdeal.lean ====
abbrev S16x1x512x512 : Shape := ⟨4, ![16, 1, 512, 512]⟩
abbrev S16x4x1x512x512 : Shape := ⟨5, ![16, 4, 1, 512, 512]⟩
abbrev S16x4x2 : Shape := ⟨3, ![16, 4, 2]⟩
abbrev S1x1x1 : Shape := ⟨3, ![1, 1, 1]⟩
abbrev S_ : Shape := ⟨0, ![]⟩
abbrev S1x1x1x512x512 : Shape := ⟨5, ![1, 1, 1, 512, 512]⟩
abbrev S1x512x512 : Shape := ⟨3, ![1, 512, 512]⟩
abbrev S1x384x384 : Shape := ⟨3, ![1, 384, 384]⟩
abbrev S1x1x384x384 : Shape := ⟨4, ![1, 1, 384, 384]⟩

abbrev nBuf : Space → Nat
  | .hbm => 4427
  | .vmem => 0
  | .smem => 0
  | _ => 0

abbrev hbmTy0_0 (i : Nat) : BufTy := match i % 128 with
  | 0 => ⟨S16x1x512x512, .f32⟩
  | 1 => ⟨S16x4x1x512x512, .f32⟩
  | 2 => ⟨S16x4x2, .i32⟩
  | 3 => ⟨S1x1x1, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S1x1x1, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S1x1x1x512x512, .f32⟩
  | 24 => ⟨S1x512x512, .f32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S1x384x384, .f32⟩
  | 44 => ⟨S1x1x384x384, .f32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S16x1x512x512, .f32⟩
  | 72 => ⟨S1x1x1, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S1x1x1, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S1x1x1x512x512, .f32⟩
  | 93 => ⟨S1x512x512, .f32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S1x384x384, .f32⟩
  | 113 => ⟨S1x1x384x384, .f32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16x1x512x512, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S16x1x512x512, .f32⟩
  | 13 => ⟨S1x1x1, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S1x1x1, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S1x1x1x512x512, .f32⟩
  | 34 => ⟨S1x512x512, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S1x384x384, .f32⟩
  | 54 => ⟨S1x1x384x384, .f32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S16x1x512x512, .f32⟩
  | 82 => ⟨S1x1x1, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S1x1x1, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S1x1x1x512x512, .f32⟩
  | 103 => ⟨S1x512x512, .f32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S1x384x384, .f32⟩
  | 123 => ⟨S1x1x384x384, .f32⟩
  | 124 => ⟨S_, .i32⟩
  | 125 => ⟨S_, .i32⟩
  | 126 => ⟨S_, .i1⟩
  | 127 => ⟨S_, .i32⟩
  | _ => ⟨S16x1x512x512, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S16x1x512x512, .f32⟩
  | 23 => ⟨S1x1x1, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S1x1x1, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S1x1x1x512x512, .f32⟩
  | 44 => ⟨S1x512x512, .f32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S1x384x384, .f32⟩
  | 64 => ⟨S1x1x384x384, .f32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S16x1x512x512, .f32⟩
  | 92 => ⟨S1x1x1, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S1x1x1, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S1x1x1x512x512, .f32⟩
  | 113 => ⟨S1x512x512, .f32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S16x1x512x512, .f32⟩

abbrev hbmTy0_3 (i : Nat) : BufTy := match i % 128 with
  | 0 => ⟨S_, .i1⟩
  | 1 => ⟨S_, .i32⟩
  | 2 => ⟨S_, .i32⟩
  | 3 => ⟨S_, .i32⟩
  | 4 => ⟨S1x384x384, .f32⟩
  | 5 => ⟨S1x1x384x384, .f32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S16x1x512x512, .f32⟩
  | 33 => ⟨S1x1x1, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S1x1x1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S1x1x1x512x512, .f32⟩
  | 54 => ⟨S1x512x512, .f32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S1x384x384, .f32⟩
  | 74 => ⟨S1x1x384x384, .f32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S16x1x512x512, .f32⟩
  | 102 => ⟨S1x1x1, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S1x1x1, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S1x1x1x512x512, .f32⟩
  | 123 => ⟨S1x512x512, .f32⟩
  | 124 => ⟨S_, .i32⟩
  | 125 => ⟨S_, .i32⟩
  | 126 => ⟨S_, .i1⟩
  | 127 => ⟨S_, .i32⟩
  | _ => ⟨S16x1x512x512, .f32⟩

abbrev hbmTy0_4 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S1x384x384, .f32⟩
  | 15 => ⟨S1x1x384x384, .f32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S16x1x512x512, .f32⟩
  | 43 => ⟨S1x1x1, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S1x1x1, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S1x1x1x512x512, .f32⟩
  | 64 => ⟨S1x512x512, .f32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S1x384x384, .f32⟩
  | 84 => ⟨S1x1x384x384, .f32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S16x1x512x512, .f32⟩
  | 112 => ⟨S1x1x1, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S1x1x1, .i32⟩
  | 123 => ⟨S_, .i32⟩
  | 124 => ⟨S_, .i32⟩
  | 125 => ⟨S_, .i32⟩
  | 126 => ⟨S_, .i32⟩
  | 127 => ⟨S_, .i32⟩
  | _ => ⟨S16x1x512x512, .f32⟩

abbrev hbmTy0_5 (i : Nat) : BufTy := match i % 128 with
  | 0 => ⟨S_, .i32⟩
  | 1 => ⟨S_, .i32⟩
  | 2 => ⟨S_, .i32⟩
  | 3 => ⟨S_, .i32⟩
  | 4 => ⟨S1x1x1x512x512, .f32⟩
  | 5 => ⟨S1x512x512, .f32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S1x384x384, .f32⟩
  | 25 => ⟨S1x1x384x384, .f32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S16x1x512x512, .f32⟩
  | 53 => ⟨S1x1x1, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S1x1x1, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S1x1x1x512x512, .f32⟩
  | 74 => ⟨S1x512x512, .f32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S1x384x384, .f32⟩
  | 94 => ⟨S1x1x384x384, .f32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S16x1x512x512, .f32⟩
  | 122 => ⟨S1x1x1, .i32⟩
  | 123 => ⟨S_, .i32⟩
  | 124 => ⟨S_, .i32⟩
  | 125 => ⟨S_, .i32⟩
  | 126 => ⟨S_, .i32⟩
  | 127 => ⟨S_, .i32⟩
  | _ => ⟨S16x1x512x512, .f32⟩

abbrev hbmTy0_6 (i : Nat) : BufTy := match i % 128 with
  | 0 => ⟨S_, .i32⟩
  | 1 => ⟨S_, .i32⟩
  | 2 => ⟨S_, .i32⟩
  | 3 => ⟨S_, .i32⟩
  | 4 => ⟨S1x1x1, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S1x1x1x512x512, .f32⟩
  | 15 => ⟨S1x512x512, .f32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S1x384x384, .f32⟩
  | 35 => ⟨S1x1x384x384, .f32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S16x1x512x512, .f32⟩
  | 63 => ⟨S1x1x1, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S1x1x1, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x1x1x512x512, .f32⟩
  | 84 => ⟨S1x512x512, .f32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1x384x384, .f32⟩
  | 104 => ⟨S1x1x384x384, .f32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S_, .i32⟩
  | 127 => ⟨S_, .i1⟩
  | _ => ⟨S16x1x512x512, .f32⟩

abbrev hbmTy0_7 (i : Nat) : BufTy := match i % 128 with
  | 0 => ⟨S_, .i32⟩
  | 1 => ⟨S_, .i32⟩
  | 2 => ⟨S_, .i32⟩
  | 3 => ⟨S16x1x512x512, .f32⟩
  | 4 => ⟨S1x1x1, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S1x1x1, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x1x1x512x512, .f32⟩
  | 25 => ⟨S1x512x512, .f32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1x384x384, .f32⟩
  | 45 => ⟨S1x1x384x384, .f32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S16x1x512x512, .f32⟩
  | 73 => ⟨S1x1x1, .i32⟩
  | 74 => ⟨S_, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S1x1x1, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S1x1x1x512x512, .f32⟩
  | 94 => ⟨S1x512x512, .f32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S1x384x384, .f32⟩
  | 114 => ⟨S1x1x384x384, .f32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S16x1x512x512, .f32⟩

abbrev hbmTy0_8 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S16x1x512x512, .f32⟩
  | 14 => ⟨S1x1x1, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x1x1, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S1x1x1x512x512, .f32⟩
  | 35 => ⟨S1x512x512, .f32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S1x384x384, .f32⟩
  | 55 => ⟨S1x1x384x384, .f32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S16x1x512x512, .f32⟩
  | 83 => ⟨S1x1x1, .i32⟩
  | 84 => ⟨S_, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S1x1x1, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S1x1x1x512x512, .f32⟩
  | 104 => ⟨S1x512x512, .f32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S1x384x384, .f32⟩
  | 124 => ⟨S1x1x384x384, .f32⟩
  | 125 => ⟨S_, .i32⟩
  | 126 => ⟨S_, .i32⟩
  | 127 => ⟨S_, .i1⟩
  | _ => ⟨S16x1x512x512, .f32⟩

abbrev hbmTy0_9 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S16x1x512x512, .f32⟩
  | 24 => ⟨S1x1x1, .i32⟩
  | 25 => ⟨S_, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S1x1x1, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x1x1x512x512, .f32⟩
  | 45 => ⟨S1x512x512, .f32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S1x384x384, .f32⟩
  | 65 => ⟨S1x1x384x384, .f32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S16x1x512x512, .f32⟩
  | 93 => ⟨S1x1x1, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S1x1x1, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S1x1x1x512x512, .f32⟩
  | 114 => ⟨S1x512x512, .f32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16x1x512x512, .f32⟩

abbrev hbmTy0_10 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1x384x384, .f32⟩
  | 6 => ⟨S1x1x384x384, .f32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S16x1x512x512, .f32⟩
  | 34 => ⟨S1x1x1, .i32⟩
  | 35 => ⟨S_, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S1x1x1, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S1x1x1x512x512, .f32⟩
  | 55 => ⟨S1x512x512, .f32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S1x384x384, .f32⟩
  | 75 => ⟨S1x1x384x384, .f32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S16x1x512x512, .f32⟩
  | 103 => ⟨S1x1x1, .i32⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S1x1x1, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S1x1x1x512x512, .f32⟩
  | 124 => ⟨S1x512x512, .f32⟩
  | 125 => ⟨S_, .i32⟩
  | 126 => ⟨S_, .i32⟩
  | 127 => ⟨S_, .i1⟩
  | _ => ⟨S16x1x512x512, .f32⟩

abbrev hbmTy0_11 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1x384x384, .f32⟩
  | 16 => ⟨S1x1x384x384, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S16x1x512x512, .f32⟩
  | 44 => ⟨S1x1x1, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S1x1x1, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x1x1x512x512, .f32⟩
  | 65 => ⟨S1x512x512, .f32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S1x384x384, .f32⟩
  | 85 => ⟨S1x1x384x384, .f32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S16x1x512x512, .f32⟩
  | 113 => ⟨S1x1x1, .i32⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S1x1x1, .i32⟩
  | 124 => ⟨S_, .i32⟩
  | 125 => ⟨S_, .i32⟩
  | 126 => ⟨S_, .i32⟩
  | 127 => ⟨S_, .i32⟩
  | _ => ⟨S16x1x512x512, .f32⟩

abbrev hbmTy0_12 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x1x1x512x512, .f32⟩
  | 6 => ⟨S1x512x512, .f32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S1x384x384, .f32⟩
  | 26 => ⟨S1x1x384x384, .f32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S16x1x512x512, .f32⟩
  | 54 => ⟨S1x1x1, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S1x1x1, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x1x1x512x512, .f32⟩
  | 75 => ⟨S1x512x512, .f32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S1x384x384, .f32⟩
  | 95 => ⟨S1x1x384x384, .f32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S16x1x512x512, .f32⟩
  | 123 => ⟨S1x1x1, .i32⟩
  | 124 => ⟨S_, .i32⟩
  | 125 => ⟨S_, .i32⟩
  | 126 => ⟨S_, .i32⟩
  | 127 => ⟨S_, .i32⟩
  | _ => ⟨S16x1x512x512, .f32⟩

abbrev hbmTy0_13 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1x1x1, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S1x1x1x512x512, .f32⟩
  | 16 => ⟨S1x512x512, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S1x384x384, .f32⟩
  | 36 => ⟨S1x1x384x384, .f32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S16x1x512x512, .f32⟩
  | 64 => ⟨S1x1x1, .i32⟩
  | 65 => ⟨S_, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S1x1x1, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S1x1x1x512x512, .f32⟩
  | 85 => ⟨S1x512x512, .f32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S1x384x384, .f32⟩
  | 105 => ⟨S1x1x384x384, .f32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i1⟩
  | 124 => ⟨S_, .i32⟩
  | 125 => ⟨S_, .i32⟩
  | 126 => ⟨S_, .i32⟩
  | 127 => ⟨S_, .i32⟩
  | _ => ⟨S16x1x512x512, .f32⟩

abbrev hbmTy0_14 (i : Nat) : BufTy := match i % 128 with
  | 0 => ⟨S_, .i1⟩
  | 1 => ⟨S_, .i32⟩
  | 2 => ⟨S_, .i32⟩
  | 3 => ⟨S_, .i32⟩
  | 4 => ⟨S16x1x512x512, .f32⟩
  | 5 => ⟨S1x1x1, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S1x1x1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S1x1x1x512x512, .f32⟩
  | 26 => ⟨S1x512x512, .f32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S1x384x384, .f32⟩
  | 46 => ⟨S1x1x384x384, .f32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S16x1x512x512, .f32⟩
  | 74 => ⟨S1x1x1, .i32⟩
  | 75 => ⟨S_, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S1x1x1, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S1x1x1x512x512, .f32⟩
  | 95 => ⟨S1x512x512, .f32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S1x384x384, .f32⟩
  | 115 => ⟨S1x1x384x384, .f32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S16x1x512x512, .f32⟩

abbrev hbmTy0_15 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S16x1x512x512, .f32⟩
  | 15 => ⟨S1x1x1, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S1x1x1, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S1x1x1x512x512, .f32⟩
  | 36 => ⟨S1x512x512, .f32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S1x384x384, .f32⟩
  | 56 => ⟨S1x1x384x384, .f32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S16x1x512x512, .f32⟩
  | 84 => ⟨S1x1x1, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S1x1x1, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S1x1x1x512x512, .f32⟩
  | 105 => ⟨S1x512x512, .f32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S1x384x384, .f32⟩
  | 125 => ⟨S1x1x384x384, .f32⟩
  | 126 => ⟨S_, .i32⟩
  | 127 => ⟨S_, .i32⟩
  | _ => ⟨S16x1x512x512, .f32⟩

abbrev hbmTy0_16 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S16x1x512x512, .f32⟩
  | 25 => ⟨S1x1x1, .i32⟩
  | 26 => ⟨S_, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S1x1x1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S1x1x1x512x512, .f32⟩
  | 46 => ⟨S1x512x512, .f32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S1x384x384, .f32⟩
  | 66 => ⟨S1x1x384x384, .f32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S16x1x512x512, .f32⟩
  | 94 => ⟨S1x1x1, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S1x1x1, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S1x1x1x512x512, .f32⟩
  | 115 => ⟨S1x512x512, .f32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S16x1x512x512, .f32⟩

abbrev hbmTy0_17 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S1x384x384, .f32⟩
  | 7 => ⟨S1x1x384x384, .f32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S16x1x512x512, .f32⟩
  | 35 => ⟨S1x1x1, .i32⟩
  | 36 => ⟨S_, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S1x1x1, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1x1x1x512x512, .f32⟩
  | 56 => ⟨S1x512x512, .f32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S1x384x384, .f32⟩
  | 76 => ⟨S1x1x384x384, .f32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S16x1x512x512, .f32⟩
  | 104 => ⟨S1x1x1, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S1x1x1, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S1x1x1x512x512, .f32⟩
  | 125 => ⟨S1x512x512, .f32⟩
  | 126 => ⟨S_, .i32⟩
  | 127 => ⟨S_, .i32⟩
  | _ => ⟨S16x1x512x512, .f32⟩

abbrev hbmTy0_18 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S1x384x384, .f32⟩
  | 17 => ⟨S1x1x384x384, .f32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S16x1x512x512, .f32⟩
  | 45 => ⟨S1x1x1, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S1x1x1, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S1x1x1x512x512, .f32⟩
  | 66 => ⟨S1x512x512, .f32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S1x384x384, .f32⟩
  | 86 => ⟨S1x1x384x384, .f32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S16x1x512x512, .f32⟩
  | 114 => ⟨S1x1x1, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S1x1x1, .i32⟩
  | 125 => ⟨S_, .i32⟩
  | 126 => ⟨S_, .i32⟩
  | 127 => ⟨S_, .i32⟩
  | _ => ⟨S16x1x512x512, .f32⟩

abbrev hbmTy0_19 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S1x1x1x512x512, .f32⟩
  | 7 => ⟨S1x512x512, .f32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S1x384x384, .f32⟩
  | 27 => ⟨S1x1x384x384, .f32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S16x1x512x512, .f32⟩
  | 55 => ⟨S1x1x1, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S1x1x1, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x1x1x512x512, .f32⟩
  | 76 => ⟨S1x512x512, .f32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S1x384x384, .f32⟩
  | 96 => ⟨S1x1x384x384, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S16x1x512x512, .f32⟩
  | 124 => ⟨S1x1x1, .i32⟩
  | 125 => ⟨S_, .i32⟩
  | 126 => ⟨S_, .i32⟩
  | 127 => ⟨S_, .i32⟩
  | _ => ⟨S16x1x512x512, .f32⟩

abbrev hbmTy0_20 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S1x1x1, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S1x1x1x512x512, .f32⟩
  | 17 => ⟨S1x512x512, .f32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S1x384x384, .f32⟩
  | 37 => ⟨S1x1x384x384, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S16x1x512x512, .f32⟩
  | 65 => ⟨S1x1x1, .i32⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S1x1x1, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S1x1x1x512x512, .f32⟩
  | 86 => ⟨S1x512x512, .f32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S1x384x384, .f32⟩
  | 106 => ⟨S1x1x384x384, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S16x1x512x512, .f32⟩

abbrev hbmTy0_21 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S16x1x512x512, .f32⟩
  | 6 => ⟨S1x1x1, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S1x1x1, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S1x1x1x512x512, .f32⟩
  | 27 => ⟨S1x512x512, .f32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S1x384x384, .f32⟩
  | 47 => ⟨S1x1x384x384, .f32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S16x1x512x512, .f32⟩
  | 75 => ⟨S1x1x1, .i32⟩
  | 76 => ⟨S_, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S1x1x1, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S1x1x1x512x512, .f32⟩
  | 96 => ⟨S1x512x512, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S1x384x384, .f32⟩
  | 116 => ⟨S1x1x384x384, .f32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S16x1x512x512, .f32⟩

abbrev hbmTy0_22 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S16x1x512x512, .f32⟩
  | 16 => ⟨S1x1x1, .i32⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S1x1x1, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S1x1x1x512x512, .f32⟩
  | 37 => ⟨S1x512x512, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S1x384x384, .f32⟩
  | 57 => ⟨S1x1x384x384, .f32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S16x1x512x512, .f32⟩
  | 85 => ⟨S1x1x1, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S1x1x1, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S1x1x1x512x512, .f32⟩
  | 106 => ⟨S1x512x512, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S1x384x384, .f32⟩
  | 126 => ⟨S1x1x384x384, .f32⟩
  | 127 => ⟨S_, .i32⟩
  | _ => ⟨S16x1x512x512, .f32⟩

abbrev hbmTy0_23 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S16x1x512x512, .f32⟩
  | 26 => ⟨S1x1x1, .i32⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S1x1x1, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S1x1x1x512x512, .f32⟩
  | 47 => ⟨S1x512x512, .f32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S1x384x384, .f32⟩
  | 67 => ⟨S1x1x384x384, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S16x1x512x512, .f32⟩
  | 95 => ⟨S1x1x1, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S1x1x1, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S1x1x1x512x512, .f32⟩
  | 116 => ⟨S1x512x512, .f32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S_, .i1⟩
  | 127 => ⟨S_, .i32⟩
  | _ => ⟨S16x1x512x512, .f32⟩

abbrev hbmTy0_24 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S1x384x384, .f32⟩
  | 8 => ⟨S1x1x384x384, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S16x1x512x512, .f32⟩
  | 36 => ⟨S1x1x1, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S1x1x1, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S1x1x1x512x512, .f32⟩
  | 57 => ⟨S1x512x512, .f32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S_, .i1⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S1x384x384, .f32⟩
  | 77 => ⟨S1x1x384x384, .f32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S16x1x512x512, .f32⟩
  | 105 => ⟨S1x1x1, .i32⟩
  | 106 => ⟨S_, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S1x1x1, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S1x1x1x512x512, .f32⟩
  | 126 => ⟨S1x512x512, .f32⟩
  | 127 => ⟨S_, .i32⟩
  | _ => ⟨S16x1x512x512, .f32⟩

abbrev hbmTy0_25 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S_, .i1⟩
  | 9 => ⟨S_, .i32⟩
  | 10 => ⟨S_, .i32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1x384x384, .f32⟩
  | 18 => ⟨S1x1x384x384, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S16x1x512x512, .f32⟩
  | 46 => ⟨S1x1x1, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S1x1x1, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x1x1x512x512, .f32⟩
  | 67 => ⟨S1x512x512, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S1x384x384, .f32⟩
  | 87 => ⟨S1x1x384x384, .f32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S16x1x512x512, .f32⟩
  | 115 => ⟨S1x1x1, .i32⟩
  | 116 => ⟨S_, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S1x1x1, .i32⟩
  | 126 => ⟨S_, .i32⟩
  | 127 => ⟨S_, .i32⟩
  | _ => ⟨S16x1x512x512, .f32⟩

abbrev hbmTy0_26 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1x1x1x512x512, .f32⟩
  | 8 => ⟨S1x512x512, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1x384x384, .f32⟩
  | 28 => ⟨S1x1x384x384, .f32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i1⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S16x1x512x512, .f32⟩
  | 56 => ⟨S1x1x1, .i32⟩
  | 57 => ⟨S_, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S1x1x1, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S1x1x1x512x512, .f32⟩
  | 77 => ⟨S1x512x512, .f32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S_, .i32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S_, .i32⟩
  | 96 => ⟨S1x384x384, .f32⟩
  | 97 => ⟨S1x1x384x384, .f32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S16x1x512x512, .f32⟩
  | 125 => ⟨S1x1x1, .i32⟩
  | 126 => ⟨S_, .i32⟩
  | 127 => ⟨S_, .i32⟩
  | _ => ⟨S16x1x512x512, .f32⟩

abbrev hbmTy0_27 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S1x1x1, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S1x1x1x512x512, .f32⟩
  | 18 => ⟨S1x512x512, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S1x384x384, .f32⟩
  | 38 => ⟨S1x1x384x384, .f32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S16x1x512x512, .f32⟩
  | 66 => ⟨S1x1x1, .i32⟩
  | 67 => ⟨S_, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S1x1x1, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S1x1x1x512x512, .f32⟩
  | 87 => ⟨S1x512x512, .f32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i1⟩
  | 103 => ⟨S_, .i32⟩
  | 104 => ⟨S_, .i32⟩
  | 105 => ⟨S_, .i32⟩
  | 106 => ⟨S1x384x384, .f32⟩
  | 107 => ⟨S1x1x384x384, .f32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S16x1x512x512, .f32⟩

abbrev hbmTy0_28 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S16x1x512x512, .f32⟩
  | 7 => ⟨S1x1x1, .i32⟩
  | 8 => ⟨S_, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S1x1x1, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S1x1x1x512x512, .f32⟩
  | 28 => ⟨S1x512x512, .f32⟩
  | 29 => ⟨S_, .i32⟩
  | 30 => ⟨S_, .i32⟩
  | 31 => ⟨S_, .i1⟩
  | 32 => ⟨S_, .i32⟩
  | 33 => ⟨S_, .i32⟩
  | 34 => ⟨S_, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S1x384x384, .f32⟩
  | 48 => ⟨S1x1x384x384, .f32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S16x1x512x512, .f32⟩
  | 76 => ⟨S1x1x1, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S1x1x1, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S1x1x1x512x512, .f32⟩
  | 97 => ⟨S1x512x512, .f32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S_, .i32⟩
  | 116 => ⟨S1x384x384, .f32⟩
  | 117 => ⟨S1x1x384x384, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S16x1x512x512, .f32⟩

abbrev hbmTy0_29 (i : Nat) : BufTy := match i % 128 with
  | 0 => ⟨S_, .i1⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S16x1x512x512, .f32⟩
  | 17 => ⟨S1x1x1, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S1x1x1, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S1x1x1x512x512, .f32⟩
  | 38 => ⟨S1x512x512, .f32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S_, .i32⟩
  | 47 => ⟨S_, .i32⟩
  | 48 => ⟨S_, .i1⟩
  | 49 => ⟨S_, .i32⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S1x384x384, .f32⟩
  | 58 => ⟨S1x1x384x384, .f32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S16x1x512x512, .f32⟩
  | 86 => ⟨S1x1x1, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S1x1x1, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S1x1x1x512x512, .f32⟩
  | 107 => ⟨S1x512x512, .f32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i1⟩
  | 123 => ⟨S_, .i32⟩
  | 124 => ⟨S_, .i32⟩
  | 125 => ⟨S_, .i32⟩
  | 126 => ⟨S1x384x384, .f32⟩
  | 127 => ⟨S1x1x384x384, .f32⟩
  | _ => ⟨S16x1x512x512, .f32⟩

abbrev hbmTy0_30 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S16x1x512x512, .f32⟩
  | 27 => ⟨S1x1x1, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S1x1x1, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S1x1x1x512x512, .f32⟩
  | 48 => ⟨S1x512x512, .f32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1x384x384, .f32⟩
  | 68 => ⟨S1x1x384x384, .f32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S_, .i32⟩
  | 83 => ⟨S_, .i32⟩
  | 84 => ⟨S_, .i32⟩
  | 85 => ⟨S_, .i32⟩
  | 86 => ⟨S_, .i1⟩
  | 87 => ⟨S_, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S16x1x512x512, .f32⟩
  | 96 => ⟨S1x1x1, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S1x1x1, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S1x1x1x512x512, .f32⟩
  | 117 => ⟨S1x512x512, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S_, .i32⟩
  | 125 => ⟨S_, .i32⟩
  | 126 => ⟨S_, .i32⟩
  | 127 => ⟨S_, .i1⟩
  | _ => ⟨S16x1x512x512, .f32⟩

abbrev hbmTy0_31 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S1x384x384, .f32⟩
  | 9 => ⟨S1x1x384x384, .f32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S_, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S16x1x512x512, .f32⟩
  | 37 => ⟨S1x1x1, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S1x1x1, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x1x1x512x512, .f32⟩
  | 58 => ⟨S1x512x512, .f32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S_, .i32⟩
  | 77 => ⟨S1x384x384, .f32⟩
  | 78 => ⟨S1x1x384x384, .f32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S16x1x512x512, .f32⟩
  | 106 => ⟨S1x1x1, .i32⟩
  | 107 => ⟨S_, .i32⟩
  | 108 => ⟨S_, .i32⟩
  | 109 => ⟨S_, .i32⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S1x1x1, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S1x1x1x512x512, .f32⟩
  | 127 => ⟨S1x512x512, .f32⟩
  | _ => ⟨S16x1x512x512, .f32⟩

abbrev hbmTy0_32 (i : Nat) : BufTy := match i % 128 with
  | 0 => ⟨S_, .i32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S_, .i32⟩
  | 18 => ⟨S1x384x384, .f32⟩
  | 19 => ⟨S1x1x384x384, .f32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S16x1x512x512, .f32⟩
  | 47 => ⟨S1x1x1, .i32⟩
  | 48 => ⟨S_, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S1x1x1, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S1x1x1x512x512, .f32⟩
  | 68 => ⟨S1x512x512, .f32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S1x384x384, .f32⟩
  | 88 => ⟨S1x1x384x384, .f32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S16x1x512x512, .f32⟩
  | 116 => ⟨S1x1x1, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S_, .i32⟩
  | 125 => ⟨S_, .i32⟩
  | 126 => ⟨S1x1x1, .i32⟩
  | 127 => ⟨S_, .i32⟩
  | _ => ⟨S16x1x512x512, .f32⟩

abbrev hbmTy0_33 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S1x1x1x512x512, .f32⟩
  | 9 => ⟨S1x512x512, .f32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S1x384x384, .f32⟩
  | 29 => ⟨S1x1x384x384, .f32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S_, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S_, .i32⟩
  | 56 => ⟨S16x1x512x512, .f32⟩
  | 57 => ⟨S1x1x1, .i32⟩
  | 58 => ⟨S_, .i32⟩
  | 59 => ⟨S_, .i32⟩
  | 60 => ⟨S_, .i32⟩
  | 61 => ⟨S_, .i32⟩
  | 62 => ⟨S_, .i32⟩
  | 63 => ⟨S_, .i32⟩
  | 64 => ⟨S_, .i32⟩
  | 65 => ⟨S_, .i32⟩
  | 66 => ⟨S_, .i32⟩
  | 67 => ⟨S1x1x1, .i32⟩
  | 68 => ⟨S_, .i32⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S_, .i32⟩
  | 76 => ⟨S_, .i32⟩
  | 77 => ⟨S1x1x1x512x512, .f32⟩
  | 78 => ⟨S1x512x512, .f32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S1x384x384, .f32⟩
  | 98 => ⟨S1x1x384x384, .f32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S_, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S16x1x512x512, .f32⟩
  | 126 => ⟨S1x1x1, .i32⟩
  | 127 => ⟨S_, .i32⟩
  | _ => ⟨S16x1x512x512, .f32⟩

abbrev hbmTy0_34 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S1x1x1, .i32⟩
  | 9 => ⟨S_, .i32⟩
  | 10 => ⟨S_, .i32⟩
  | 11 => ⟨S_, .i32⟩
  | 12 => ⟨S_, .i32⟩
  | 13 => ⟨S_, .i32⟩
  | 14 => ⟨S_, .i32⟩
  | 15 => ⟨S_, .i32⟩
  | 16 => ⟨S_, .i32⟩
  | 17 => ⟨S_, .i32⟩
  | 18 => ⟨S1x1x1x512x512, .f32⟩
  | 19 => ⟨S1x512x512, .f32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S1x384x384, .f32⟩
  | 39 => ⟨S1x1x384x384, .f32⟩
  | 40 => ⟨S_, .i32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S16x1x512x512, .f32⟩
  | 67 => ⟨S16x1x512x512, .f32⟩
  | 68 => ⟨S16x1x512x512, .f32⟩
  | 69 => ⟨S_, .f32⟩
  | 70 => ⟨S16x1x512x512, .f32⟩
  | 71 => ⟨S16x1x512x512, .f32⟩
  | 72 => ⟨S_, .f32⟩
  | 73 => ⟨S16x1x512x512, .f32⟩
  | 74 => ⟨S16x1x512x512, .f32⟩
  | _ => ⟨S16x1x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_c_4 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_5 : Ref sig .tc := ⟨.hbm, 25, rfl⟩
abbrev main_c_6 : Ref sig .tc := ⟨.hbm, 26, rfl⟩
abbrev main_v10 : Ref sig .tc := ⟨.hbm, 27, rfl⟩
abbrev main_c_7 : Ref sig .tc := ⟨.hbm, 28, rfl⟩
abbrev main_c_8 : Ref sig .tc := ⟨.hbm, 29, rfl⟩
abbrev main_v11 : Ref sig .tc := ⟨.hbm, 30, rfl⟩
abbrev main_c_9 : Ref sig .tc := ⟨.hbm, 31, rfl⟩
abbrev main_v12 : Ref sig .tc := ⟨.hbm, 32, rfl⟩
abbrev main_c_10 : Ref sig .tc := ⟨.hbm, 33, rfl⟩
abbrev main_v13 : Ref sig .tc := ⟨.hbm, 34, rfl⟩
abbrev main_c_11 : Ref sig .tc := ⟨.hbm, 35, rfl⟩
abbrev main_v14 : Ref sig .tc := ⟨.hbm, 36, rfl⟩
abbrev main_v15 : Ref sig .tc := ⟨.hbm, 37, rfl⟩
abbrev main_c_12 : Ref sig .tc := ⟨.hbm, 38, rfl⟩
abbrev main_v16 : Ref sig .tc := ⟨.hbm, 39, rfl⟩
abbrev main_c_13 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_14 : Ref sig .tc := ⟨.hbm, 45, rfl⟩
abbrev main_c_15 : Ref sig .tc := ⟨.hbm, 46, rfl⟩
abbrev main_v21 : Ref sig .tc := ⟨.hbm, 47, rfl⟩
abbrev main_c_16 : Ref sig .tc := ⟨.hbm, 48, rfl⟩
abbrev main_c_17 : Ref sig .tc := ⟨.hbm, 49, rfl⟩
abbrev main_v22 : Ref sig .tc := ⟨.hbm, 50, rfl⟩
abbrev main_c_18 : Ref sig .tc := ⟨.hbm, 51, rfl⟩
abbrev main_v23 : Ref sig .tc := ⟨.hbm, 52, rfl⟩
abbrev main_c_19 : Ref sig .tc := ⟨.hbm, 53, rfl⟩
abbrev main_c_20 : Ref sig .tc := ⟨.hbm, 54, rfl⟩
abbrev main_v24 : Ref sig .tc := ⟨.hbm, 55, rfl⟩
abbrev main_c_21 : Ref sig .tc := ⟨.hbm, 56, rfl⟩
abbrev main_c_22 : Ref sig .tc := ⟨.hbm, 57, rfl⟩
abbrev main_v25 : Ref sig .tc := ⟨.hbm, 58, rfl⟩
abbrev main_c_23 : Ref sig .tc := ⟨.hbm, 59, rfl⟩
abbrev main_v26 : Ref sig .tc := ⟨.hbm, 60, rfl⟩
abbrev main_c_24 : Ref sig .tc := ⟨.hbm, 61, rfl⟩
abbrev main_v27 : Ref sig .tc := ⟨.hbm, 62, rfl⟩
abbrev main_c_25 : Ref sig .tc := ⟨.hbm, 63, rfl⟩
abbrev main_v28 : Ref sig .tc := ⟨.hbm, 64, rfl⟩
abbrev main_v29 : Ref sig .tc := ⟨.hbm, 65, rfl⟩
abbrev main_c_26 : Ref sig .tc := ⟨.hbm, 66, rfl⟩
abbrev main_v30 : Ref sig .tc := ⟨.hbm, 67, rfl⟩
abbrev main_c_27 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_c_28 : Ref sig .tc := ⟨.hbm, 74, rfl⟩
abbrev main_v36 : Ref sig .tc := ⟨.hbm, 75, rfl⟩
abbrev main_c_29 : Ref sig .tc := ⟨.hbm, 76, rfl⟩
abbrev main_c_30 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_c_31 : Ref sig .tc := ⟨.hbm, 84, rfl⟩
abbrev main_v40 : Ref sig .tc := ⟨.hbm, 85, rfl⟩
abbrev main_c_32 : Ref sig .tc := ⟨.hbm, 86, rfl⟩
abbrev main_c_33 : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_c_34 : Ref sig .tc := ⟨.hbm, 94, rfl⟩
abbrev main_c_35 : Ref sig .tc := ⟨.hbm, 95, rfl⟩
abbrev main_v44 : Ref sig .tc := ⟨.hbm, 96, rfl⟩
abbrev main_c_36 : Ref sig .tc := ⟨.hbm, 97, rfl⟩
abbrev main_c_37 : Ref sig .tc := ⟨.hbm, 98, rfl⟩
abbrev main_v45 : Ref sig .tc := ⟨.hbm, 99, rfl⟩
abbrev main_c_38 : Ref sig .tc := ⟨.hbm, 100, rfl⟩
abbrev main_v46 : Ref sig .tc := ⟨.hbm, 101, rfl⟩
abbrev main_c_39 : Ref sig .tc := ⟨.hbm, 102, rfl⟩
abbrev main_v47 : Ref sig .tc := ⟨.hbm, 103, rfl⟩
abbrev main_c_40 : Ref sig .tc := ⟨.hbm, 104, rfl⟩
abbrev main_v48 : Ref sig .tc := ⟨.hbm, 105, rfl⟩
abbrev main_v49 : Ref sig .tc := ⟨.hbm, 106, rfl⟩
abbrev main_c_41 : Ref sig .tc := ⟨.hbm, 107, rfl⟩
abbrev main_v50 : Ref sig .tc := ⟨.hbm, 108, rfl⟩
abbrev main_c_42 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_c_43 : Ref sig .tc := ⟨.hbm, 114, rfl⟩
abbrev main_c_44 : Ref sig .tc := ⟨.hbm, 115, rfl⟩
abbrev main_v55 : Ref sig .tc := ⟨.hbm, 116, rfl⟩
abbrev main_c_45 : Ref sig .tc := ⟨.hbm, 117, rfl⟩
abbrev main_c_46 : Ref sig .tc := ⟨.hbm, 118, rfl⟩
abbrev main_v56 : Ref sig .tc := ⟨.hbm, 119, rfl⟩
abbrev main_c_47 : Ref sig .tc := ⟨.hbm, 120, rfl⟩
abbrev main_v57 : Ref sig .tc := ⟨.hbm, 121, rfl⟩
abbrev main_c_48 : Ref sig .tc := ⟨.hbm, 122, rfl⟩
abbrev main_c_49 : Ref sig .tc := ⟨.hbm, 123, rfl⟩
abbrev main_v58 : Ref sig .tc := ⟨.hbm, 124, rfl⟩
abbrev main_c_50 : Ref sig .tc := ⟨.hbm, 125, rfl⟩
abbrev main_c_51 : Ref sig .tc := ⟨.hbm, 126, rfl⟩
abbrev main_v59 : Ref sig .tc := ⟨.hbm, 127, rfl⟩
abbrev main_c_52 : Ref sig .tc := ⟨.hbm, 128, rfl⟩
abbrev main_v60 : Ref sig .tc := ⟨.hbm, 129, rfl⟩
abbrev main_c_53 : Ref sig .tc := ⟨.hbm, 130, rfl⟩
abbrev main_v61 : Ref sig .tc := ⟨.hbm, 131, rfl⟩
abbrev main_c_54 : Ref sig .tc := ⟨.hbm, 132, rfl⟩
abbrev main_v62 : Ref sig .tc := ⟨.hbm, 133, rfl⟩
abbrev main_v63 : Ref sig .tc := ⟨.hbm, 134, rfl⟩
abbrev main_c_55 : Ref sig .tc := ⟨.hbm, 135, rfl⟩
abbrev main_v64 : Ref sig .tc := ⟨.hbm, 136, rfl⟩
abbrev main_c_56 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_c_57 : Ref sig .tc := ⟨.hbm, 143, rfl⟩
abbrev main_v70 : Ref sig .tc := ⟨.hbm, 144, rfl⟩
abbrev main_c_58 : Ref sig .tc := ⟨.hbm, 145, rfl⟩
abbrev main_c_59 : Ref sig .tc := ⟨.hbm, 146, rfl⟩
abbrev main_call4_v0 : Ref sig .tc := ⟨.hbm, 147, rfl⟩
abbrev main_call4_v1 : Ref sig .tc := ⟨.hbm, 148, rfl⟩
abbrev main_call4_v2 : Ref sig .tc := ⟨.hbm, 149, rfl⟩
abbrev main_v71 : Ref sig .tc := ⟨.hbm, 150, rfl⟩
abbrev main_v72 : Ref sig .tc := ⟨.hbm, 151, rfl⟩
abbrev main_v73 : Ref sig .tc := ⟨.hbm, 152, rfl⟩
abbrev main_c_60 : Ref sig .tc := ⟨.hbm, 153, rfl⟩
abbrev main_v74 : Ref sig .tc := ⟨.hbm, 154, rfl⟩
abbrev main_c_61 : Ref sig .tc := ⟨.hbm, 155, rfl⟩
abbrev main_c_62 : Ref sig .tc := ⟨.hbm, 156, rfl⟩
abbrev main_call5_v0 : Ref sig .tc := ⟨.hbm, 157, rfl⟩
abbrev main_call5_v1 : Ref sig .tc := ⟨.hbm, 158, rfl⟩
abbrev main_call5_v2 : Ref sig .tc := ⟨.hbm, 159, rfl⟩
abbrev main_v75 : Ref sig .tc := ⟨.hbm, 160, rfl⟩
abbrev main_v76 : Ref sig .tc := ⟨.hbm, 161, rfl⟩
abbrev main_v77 : Ref sig .tc := ⟨.hbm, 162, rfl⟩
abbrev main_c_63 : Ref sig .tc := ⟨.hbm, 163, rfl⟩
abbrev main_c_64 : Ref sig .tc := ⟨.hbm, 164, rfl⟩
abbrev main_v78 : Ref sig .tc := ⟨.hbm, 165, rfl⟩
abbrev main_c_65 : Ref sig .tc := ⟨.hbm, 166, rfl⟩
abbrev main_c_66 : Ref sig .tc := ⟨.hbm, 167, rfl⟩
abbrev main_v79 : Ref sig .tc := ⟨.hbm, 168, rfl⟩
abbrev main_c_67 : Ref sig .tc := ⟨.hbm, 169, rfl⟩
abbrev main_v80 : Ref sig .tc := ⟨.hbm, 170, rfl⟩
abbrev main_c_68 : Ref sig .tc := ⟨.hbm, 171, rfl⟩
abbrev main_v81 : Ref sig .tc := ⟨.hbm, 172, rfl⟩
abbrev main_c_69 : Ref sig .tc := ⟨.hbm, 173, rfl⟩
abbrev main_v82 : Ref sig .tc := ⟨.hbm, 174, rfl⟩
abbrev main_v83 : Ref sig .tc := ⟨.hbm, 175, rfl⟩
abbrev main_c_70 : Ref sig .tc := ⟨.hbm, 176, rfl⟩
abbrev main_v84 : Ref sig .tc := ⟨.hbm, 177, rfl⟩
abbrev main_c_71 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_c_72 : Ref sig .tc := ⟨.hbm, 183, rfl⟩
abbrev main_c_73 : Ref sig .tc := ⟨.hbm, 184, rfl⟩
abbrev main_v89 : Ref sig .tc := ⟨.hbm, 185, rfl⟩
abbrev main_c_74 : Ref sig .tc := ⟨.hbm, 186, rfl⟩
abbrev main_c_75 : Ref sig .tc := ⟨.hbm, 187, rfl⟩
abbrev main_v90 : Ref sig .tc := ⟨.hbm, 188, rfl⟩
abbrev main_c_76 : Ref sig .tc := ⟨.hbm, 189, rfl⟩
abbrev main_v91 : Ref sig .tc := ⟨.hbm, 190, rfl⟩
abbrev main_c_77 : Ref sig .tc := ⟨.hbm, 191, rfl⟩
abbrev main_c_78 : Ref sig .tc := ⟨.hbm, 192, rfl⟩
abbrev main_v92 : Ref sig .tc := ⟨.hbm, 193, rfl⟩
abbrev main_c_79 : Ref sig .tc := ⟨.hbm, 194, rfl⟩
abbrev main_c_80 : Ref sig .tc := ⟨.hbm, 195, rfl⟩
abbrev main_v93 : Ref sig .tc := ⟨.hbm, 196, rfl⟩
abbrev main_c_81 : Ref sig .tc := ⟨.hbm, 197, rfl⟩
abbrev main_v94 : Ref sig .tc := ⟨.hbm, 198, rfl⟩
abbrev main_c_82 : Ref sig .tc := ⟨.hbm, 199, rfl⟩
abbrev main_v95 : Ref sig .tc := ⟨.hbm, 200, rfl⟩
abbrev main_c_83 : Ref sig .tc := ⟨.hbm, 201, rfl⟩
abbrev main_v96 : Ref sig .tc := ⟨.hbm, 202, rfl⟩
abbrev main_v97 : Ref sig .tc := ⟨.hbm, 203, rfl⟩
abbrev main_c_84 : Ref sig .tc := ⟨.hbm, 204, rfl⟩
abbrev main_v98 : Ref sig .tc := ⟨.hbm, 205, rfl⟩
abbrev main_c_85 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_c_86 : Ref sig .tc := ⟨.hbm, 212, rfl⟩
abbrev main_v104 : Ref sig .tc := ⟨.hbm, 213, rfl⟩
abbrev main_c_87 : Ref sig .tc := ⟨.hbm, 214, rfl⟩
abbrev main_c_88 : Ref sig .tc := ⟨.hbm, 215, rfl⟩
abbrev main_call6_v0 : Ref sig .tc := ⟨.hbm, 216, rfl⟩
abbrev main_call6_v1 : Ref sig .tc := ⟨.hbm, 217, rfl⟩
abbrev main_call6_v2 : Ref sig .tc := ⟨.hbm, 218, rfl⟩
abbrev main_v105 : Ref sig .tc := ⟨.hbm, 219, rfl⟩
abbrev main_v106 : Ref sig .tc := ⟨.hbm, 220, rfl⟩
abbrev main_v107 : Ref sig .tc := ⟨.hbm, 221, rfl⟩
abbrev main_c_89 : Ref sig .tc := ⟨.hbm, 222, rfl⟩
abbrev main_v108 : Ref sig .tc := ⟨.hbm, 223, rfl⟩
abbrev main_c_90 : Ref sig .tc := ⟨.hbm, 224, rfl⟩
abbrev main_c_91 : Ref sig .tc := ⟨.hbm, 225, rfl⟩
abbrev main_call7_v0 : Ref sig .tc := ⟨.hbm, 226, rfl⟩
abbrev main_call7_v1 : Ref sig .tc := ⟨.hbm, 227, rfl⟩
abbrev main_call7_v2 : Ref sig .tc := ⟨.hbm, 228, rfl⟩
abbrev main_v109 : Ref sig .tc := ⟨.hbm, 229, rfl⟩
abbrev main_v110 : Ref sig .tc := ⟨.hbm, 230, rfl⟩
abbrev main_v111 : Ref sig .tc := ⟨.hbm, 231, rfl⟩
abbrev main_c_92 : Ref sig .tc := ⟨.hbm, 232, rfl⟩
abbrev main_c_93 : Ref sig .tc := ⟨.hbm, 233, rfl⟩
abbrev main_v112 : Ref sig .tc := ⟨.hbm, 234, rfl⟩
abbrev main_c_94 : Ref sig .tc := ⟨.hbm, 235, rfl⟩
abbrev main_c_95 : Ref sig .tc := ⟨.hbm, 236, rfl⟩
abbrev main_v113 : Ref sig .tc := ⟨.hbm, 237, rfl⟩
abbrev main_c_96 : Ref sig .tc := ⟨.hbm, 238, rfl⟩
abbrev main_v114 : Ref sig .tc := ⟨.hbm, 239, rfl⟩
abbrev main_c_97 : Ref sig .tc := ⟨.hbm, 240, rfl⟩
abbrev main_v115 : Ref sig .tc := ⟨.hbm, 241, rfl⟩
abbrev main_c_98 : Ref sig .tc := ⟨.hbm, 242, rfl⟩
abbrev main_v116 : Ref sig .tc := ⟨.hbm, 243, rfl⟩
abbrev main_v117 : Ref sig .tc := ⟨.hbm, 244, rfl⟩
abbrev main_c_99 : Ref sig .tc := ⟨.hbm, 245, rfl⟩
abbrev main_v118 : Ref sig .tc := ⟨.hbm, 246, rfl⟩
abbrev main_c_100 : Ref sig .tc := ⟨.hbm, 247, rfl⟩
abbrev main_v119 : Ref sig .tc := ⟨.hbm, 248, rfl⟩
abbrev main_v120 : Ref sig .tc := ⟨.hbm, 249, rfl⟩
abbrev main_v121 : Ref sig .tc := ⟨.hbm, 250, rfl⟩
abbrev main_v122 : Ref sig .tc := ⟨.hbm, 251, rfl⟩
abbrev main_c_101 : Ref sig .tc := ⟨.hbm, 252, rfl⟩
abbrev main_c_102 : Ref sig .tc := ⟨.hbm, 253, rfl⟩
abbrev main_v123 : Ref sig .tc := ⟨.hbm, 254, rfl⟩
abbrev main_c_103 : Ref sig .tc := ⟨.hbm, 255, rfl⟩
abbrev main_c_104 : Ref sig .tc := ⟨.hbm, 256, rfl⟩
abbrev main_v124 : Ref sig .tc := ⟨.hbm, 257, rfl⟩
abbrev main_c_105 : Ref sig .tc := ⟨.hbm, 258, rfl⟩
abbrev main_v125 : Ref sig .tc := ⟨.hbm, 259, rfl⟩
abbrev main_c_106 : Ref sig .tc := ⟨.hbm, 260, rfl⟩
abbrev main_c_107 : Ref sig .tc := ⟨.hbm, 261, rfl⟩
abbrev main_v126 : Ref sig .tc := ⟨.hbm, 262, rfl⟩
abbrev main_c_108 : Ref sig .tc := ⟨.hbm, 263, rfl⟩
abbrev main_c_109 : Ref sig .tc := ⟨.hbm, 264, rfl⟩
abbrev main_v127 : Ref sig .tc := ⟨.hbm, 265, rfl⟩
abbrev main_c_110 : Ref sig .tc := ⟨.hbm, 266, rfl⟩
abbrev main_v128 : Ref sig .tc := ⟨.hbm, 267, rfl⟩
abbrev main_c_111 : Ref sig .tc := ⟨.hbm, 268, rfl⟩
abbrev main_v129 : Ref sig .tc := ⟨.hbm, 269, rfl⟩
abbrev main_c_112 : Ref sig .tc := ⟨.hbm, 270, rfl⟩
abbrev main_v130 : Ref sig .tc := ⟨.hbm, 271, rfl⟩
abbrev main_v131 : Ref sig .tc := ⟨.hbm, 272, rfl⟩
abbrev main_c_113 : Ref sig .tc := ⟨.hbm, 273, rfl⟩
abbrev main_v132 : Ref sig .tc := ⟨.hbm, 274, rfl⟩
abbrev main_c_114 : Ref sig .tc := ⟨.hbm, 275, rfl⟩
abbrev main_v133 : Ref sig .tc := ⟨.hbm, 276, rfl⟩
abbrev main_v134 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_c_115 : Ref sig .tc := ⟨.hbm, 281, rfl⟩
abbrev main_v138 : Ref sig .tc := ⟨.hbm, 282, rfl⟩
abbrev main_c_116 : Ref sig .tc := ⟨.hbm, 283, rfl⟩
abbrev main_c_117 : Ref sig .tc := ⟨.hbm, 284, rfl⟩
abbrev main_call8_v0 : Ref sig .tc := ⟨.hbm, 285, rfl⟩
abbrev main_call8_v1 : Ref sig .tc := ⟨.hbm, 286, rfl⟩
abbrev main_call8_v2 : Ref sig .tc := ⟨.hbm, 287, rfl⟩
abbrev main_v139 : Ref sig .tc := ⟨.hbm, 288, rfl⟩
abbrev main_v140 : Ref sig .tc := ⟨.hbm, 289, rfl⟩
abbrev main_v141 : Ref sig .tc := ⟨.hbm, 290, rfl⟩
abbrev main_c_118 : Ref sig .tc := ⟨.hbm, 291, rfl⟩
abbrev main_v142 : Ref sig .tc := ⟨.hbm, 292, rfl⟩
abbrev main_c_119 : Ref sig .tc := ⟨.hbm, 293, rfl⟩
abbrev main_c_120 : Ref sig .tc := ⟨.hbm, 294, rfl⟩
abbrev main_call9_v0 : Ref sig .tc := ⟨.hbm, 295, rfl⟩
abbrev main_call9_v1 : Ref sig .tc := ⟨.hbm, 296, rfl⟩
abbrev main_call9_v2 : Ref sig .tc := ⟨.hbm, 297, rfl⟩
abbrev main_v143 : Ref sig .tc := ⟨.hbm, 298, rfl⟩
abbrev main_v144 : Ref sig .tc := ⟨.hbm, 299, rfl⟩
abbrev main_v145 : Ref sig .tc := ⟨.hbm, 300, rfl⟩
abbrev main_c_121 : Ref sig .tc := ⟨.hbm, 301, rfl⟩
abbrev main_c_122 : Ref sig .tc := ⟨.hbm, 302, rfl⟩
abbrev main_v146 : Ref sig .tc := ⟨.hbm, 303, rfl⟩
abbrev main_c_123 : Ref sig .tc := ⟨.hbm, 304, rfl⟩
abbrev main_c_124 : Ref sig .tc := ⟨.hbm, 305, rfl⟩
abbrev main_v147 : Ref sig .tc := ⟨.hbm, 306, rfl⟩
abbrev main_c_125 : Ref sig .tc := ⟨.hbm, 307, rfl⟩
abbrev main_v148 : Ref sig .tc := ⟨.hbm, 308, rfl⟩
abbrev main_c_126 : Ref sig .tc := ⟨.hbm, 309, rfl⟩
abbrev main_v149 : Ref sig .tc := ⟨.hbm, 310, rfl⟩
abbrev main_c_127 : Ref sig .tc := ⟨.hbm, 311, rfl⟩
abbrev main_v150 : Ref sig .tc := ⟨.hbm, 312, rfl⟩
abbrev main_v151 : Ref sig .tc := ⟨.hbm, 313, rfl⟩
abbrev main_c_128 : Ref sig .tc := ⟨.hbm, 314, rfl⟩
abbrev main_v152 : Ref sig .tc := ⟨.hbm, 315, rfl⟩
abbrev main_c_129 : Ref sig .tc := ⟨.hbm, 316, rfl⟩
abbrev main_v153 : Ref sig .tc := ⟨.hbm, 317, rfl⟩
abbrev main_v154 : Ref sig .tc := ⟨.hbm, 318, rfl⟩
abbrev main_v155 : Ref sig .tc := ⟨.hbm, 319, rfl⟩
abbrev main_v156 : Ref sig .tc := ⟨.hbm, 320, rfl⟩
abbrev main_c_130 : Ref sig .tc := ⟨.hbm, 321, rfl⟩
abbrev main_c_131 : Ref sig .tc := ⟨.hbm, 322, rfl⟩
abbrev main_v157 : Ref sig .tc := ⟨.hbm, 323, rfl⟩
abbrev main_c_132 : Ref sig .tc := ⟨.hbm, 324, rfl⟩
abbrev main_c_133 : Ref sig .tc := ⟨.hbm, 325, rfl⟩
abbrev main_v158 : Ref sig .tc := ⟨.hbm, 326, rfl⟩
abbrev main_c_134 : Ref sig .tc := ⟨.hbm, 327, rfl⟩
abbrev main_v159 : Ref sig .tc := ⟨.hbm, 328, rfl⟩
abbrev main_c_135 : Ref sig .tc := ⟨.hbm, 329, rfl⟩
abbrev main_c_136 : Ref sig .tc := ⟨.hbm, 330, rfl⟩
abbrev main_v160 : Ref sig .tc := ⟨.hbm, 331, rfl⟩
abbrev main_c_137 : Ref sig .tc := ⟨.hbm, 332, rfl⟩
abbrev main_c_138 : Ref sig .tc := ⟨.hbm, 333, rfl⟩
abbrev main_v161 : Ref sig .tc := ⟨.hbm, 334, rfl⟩
abbrev main_c_139 : Ref sig .tc := ⟨.hbm, 335, rfl⟩
abbrev main_v162 : Ref sig .tc := ⟨.hbm, 336, rfl⟩
abbrev main_c_140 : Ref sig .tc := ⟨.hbm, 337, rfl⟩
abbrev main_v163 : Ref sig .tc := ⟨.hbm, 338, rfl⟩
abbrev main_c_141 : Ref sig .tc := ⟨.hbm, 339, rfl⟩
abbrev main_v164 : Ref sig .tc := ⟨.hbm, 340, rfl⟩
abbrev main_v165 : Ref sig .tc := ⟨.hbm, 341, rfl⟩
abbrev main_c_142 : Ref sig .tc := ⟨.hbm, 342, rfl⟩
abbrev main_v166 : Ref sig .tc := ⟨.hbm, 343, rfl⟩
abbrev main_c_143 : Ref sig .tc := ⟨.hbm, 344, rfl⟩
abbrev main_v167 : Ref sig .tc := ⟨.hbm, 345, rfl⟩
abbrev main_v168 : Ref sig .tc := ⟨.hbm, 346, rfl⟩
abbrev main_v169 : Ref sig .tc := ⟨.hbm, 347, rfl⟩
abbrev main_v170 : Ref sig .tc := ⟨.hbm, 348, rfl⟩
abbrev main_v171 : Ref sig .tc := ⟨.hbm, 349, rfl⟩
abbrev main_c_144 : Ref sig .tc := ⟨.hbm, 350, rfl⟩
abbrev main_v172 : Ref sig .tc := ⟨.hbm, 351, rfl⟩
abbrev main_c_145 : Ref sig .tc := ⟨.hbm, 352, rfl⟩
abbrev main_c_146 : Ref sig .tc := ⟨.hbm, 353, rfl⟩
abbrev main_call10_v0 : Ref sig .tc := ⟨.hbm, 354, rfl⟩
abbrev main_call10_v1 : Ref sig .tc := ⟨.hbm, 355, rfl⟩
abbrev main_call10_v2 : Ref sig .tc := ⟨.hbm, 356, rfl⟩
abbrev main_v173 : Ref sig .tc := ⟨.hbm, 357, rfl⟩
abbrev main_v174 : Ref sig .tc := ⟨.hbm, 358, rfl⟩
abbrev main_v175 : Ref sig .tc := ⟨.hbm, 359, rfl⟩
abbrev main_c_147 : Ref sig .tc := ⟨.hbm, 360, rfl⟩
abbrev main_v176 : Ref sig .tc := ⟨.hbm, 361, rfl⟩
abbrev main_c_148 : Ref sig .tc := ⟨.hbm, 362, rfl⟩
abbrev main_c_149 : Ref sig .tc := ⟨.hbm, 363, rfl⟩
abbrev main_call11_v0 : Ref sig .tc := ⟨.hbm, 364, rfl⟩
abbrev main_call11_v1 : Ref sig .tc := ⟨.hbm, 365, rfl⟩
abbrev main_call11_v2 : Ref sig .tc := ⟨.hbm, 366, rfl⟩
abbrev main_v177 : Ref sig .tc := ⟨.hbm, 367, rfl⟩
abbrev main_v178 : Ref sig .tc := ⟨.hbm, 368, rfl⟩
abbrev main_v179 : Ref sig .tc := ⟨.hbm, 369, rfl⟩
abbrev main_c_150 : Ref sig .tc := ⟨.hbm, 370, rfl⟩
abbrev main_c_151 : Ref sig .tc := ⟨.hbm, 371, rfl⟩
abbrev main_v180 : Ref sig .tc := ⟨.hbm, 372, rfl⟩
abbrev main_c_152 : Ref sig .tc := ⟨.hbm, 373, rfl⟩
abbrev main_c_153 : Ref sig .tc := ⟨.hbm, 374, rfl⟩
abbrev main_v181 : Ref sig .tc := ⟨.hbm, 375, rfl⟩
abbrev main_c_154 : Ref sig .tc := ⟨.hbm, 376, rfl⟩
abbrev main_v182 : Ref sig .tc := ⟨.hbm, 377, rfl⟩
abbrev main_c_155 : Ref sig .tc := ⟨.hbm, 378, rfl⟩
abbrev main_v183 : Ref sig .tc := ⟨.hbm, 379, rfl⟩
abbrev main_c_156 : Ref sig .tc := ⟨.hbm, 380, rfl⟩
abbrev main_v184 : Ref sig .tc := ⟨.hbm, 381, rfl⟩
abbrev main_v185 : Ref sig .tc := ⟨.hbm, 382, rfl⟩
abbrev main_c_157 : Ref sig .tc := ⟨.hbm, 383, rfl⟩
abbrev main_v186 : Ref sig .tc := ⟨.hbm, 384, rfl⟩
abbrev main_c_158 : Ref sig .tc := ⟨.hbm, 385, rfl⟩
abbrev main_v187 : Ref sig .tc := ⟨.hbm, 386, rfl⟩
abbrev main_v188 : Ref sig .tc := ⟨.hbm, 387, rfl⟩
abbrev main_v189 : Ref sig .tc := ⟨.hbm, 388, rfl⟩
abbrev main_v190 : Ref sig .tc := ⟨.hbm, 389, rfl⟩
abbrev main_c_159 : Ref sig .tc := ⟨.hbm, 390, rfl⟩
abbrev main_c_160 : Ref sig .tc := ⟨.hbm, 391, rfl⟩
abbrev main_v191 : Ref sig .tc := ⟨.hbm, 392, rfl⟩
abbrev main_c_161 : Ref sig .tc := ⟨.hbm, 393, rfl⟩
abbrev main_c_162 : Ref sig .tc := ⟨.hbm, 394, rfl⟩
abbrev main_v192 : Ref sig .tc := ⟨.hbm, 395, rfl⟩
abbrev main_c_163 : Ref sig .tc := ⟨.hbm, 396, rfl⟩
abbrev main_v193 : Ref sig .tc := ⟨.hbm, 397, rfl⟩
abbrev main_c_164 : Ref sig .tc := ⟨.hbm, 398, rfl⟩
abbrev main_c_165 : Ref sig .tc := ⟨.hbm, 399, rfl⟩
abbrev main_v194 : Ref sig .tc := ⟨.hbm, 400, rfl⟩
abbrev main_c_166 : Ref sig .tc := ⟨.hbm, 401, rfl⟩
abbrev main_c_167 : Ref sig .tc := ⟨.hbm, 402, rfl⟩
abbrev main_v195 : Ref sig .tc := ⟨.hbm, 403, rfl⟩
abbrev main_c_168 : Ref sig .tc := ⟨.hbm, 404, rfl⟩
abbrev main_v196 : Ref sig .tc := ⟨.hbm, 405, rfl⟩
abbrev main_c_169 : Ref sig .tc := ⟨.hbm, 406, rfl⟩
abbrev main_v197 : Ref sig .tc := ⟨.hbm, 407, rfl⟩
abbrev main_c_170 : Ref sig .tc := ⟨.hbm, 408, rfl⟩
abbrev main_v198 : Ref sig .tc := ⟨.hbm, 409, rfl⟩
abbrev main_v199 : Ref sig .tc := ⟨.hbm, 410, rfl⟩
abbrev main_c_171 : Ref sig .tc := ⟨.hbm, 411, rfl⟩
abbrev main_v200 : Ref sig .tc := ⟨.hbm, 412, rfl⟩
abbrev main_c_172 : Ref sig .tc := ⟨.hbm, 413, rfl⟩
abbrev main_v201 : Ref sig .tc := ⟨.hbm, 414, rfl⟩
abbrev main_v202 : Ref sig .tc := ⟨.hbm, 415, rfl⟩
abbrev main_v203 : Ref sig .tc := ⟨.hbm, 416, rfl⟩
abbrev main_v204 : Ref sig .tc := ⟨.hbm, 417, rfl⟩
abbrev main_v205 : Ref sig .tc := ⟨.hbm, 418, rfl⟩
abbrev main_c_173 : Ref sig .tc := ⟨.hbm, 419, rfl⟩
abbrev main_v206 : Ref sig .tc := ⟨.hbm, 420, rfl⟩
abbrev main_c_174 : Ref sig .tc := ⟨.hbm, 421, rfl⟩
abbrev main_c_175 : Ref sig .tc := ⟨.hbm, 422, rfl⟩
abbrev main_call12_v0 : Ref sig .tc := ⟨.hbm, 423, rfl⟩
abbrev main_call12_v1 : Ref sig .tc := ⟨.hbm, 424, rfl⟩
abbrev main_call12_v2 : Ref sig .tc := ⟨.hbm, 425, rfl⟩
abbrev main_v207 : Ref sig .tc := ⟨.hbm, 426, rfl⟩
abbrev main_v208 : Ref sig .tc := ⟨.hbm, 427, rfl⟩
abbrev main_v209 : Ref sig .tc := ⟨.hbm, 428, rfl⟩
abbrev main_c_176 : Ref sig .tc := ⟨.hbm, 429, rfl⟩
abbrev main_v210 : Ref sig .tc := ⟨.hbm, 430, rfl⟩
abbrev main_c_177 : Ref sig .tc := ⟨.hbm, 431, rfl⟩
abbrev main_c_178 : Ref sig .tc := ⟨.hbm, 432, rfl⟩
abbrev main_call13_v0 : Ref sig .tc := ⟨.hbm, 433, rfl⟩
abbrev main_call13_v1 : Ref sig .tc := ⟨.hbm, 434, rfl⟩
abbrev main_call13_v2 : Ref sig .tc := ⟨.hbm, 435, rfl⟩
abbrev main_v211 : Ref sig .tc := ⟨.hbm, 436, rfl⟩
abbrev main_v212 : Ref sig .tc := ⟨.hbm, 437, rfl⟩
abbrev main_v213 : Ref sig .tc := ⟨.hbm, 438, rfl⟩
abbrev main_c_179 : Ref sig .tc := ⟨.hbm, 439, rfl⟩
abbrev main_c_180 : Ref sig .tc := ⟨.hbm, 440, rfl⟩
abbrev main_v214 : Ref sig .tc := ⟨.hbm, 441, rfl⟩
abbrev main_c_181 : Ref sig .tc := ⟨.hbm, 442, rfl⟩
abbrev main_c_182 : Ref sig .tc := ⟨.hbm, 443, rfl⟩
abbrev main_v215 : Ref sig .tc := ⟨.hbm, 444, rfl⟩
abbrev main_c_183 : Ref sig .tc := ⟨.hbm, 445, rfl⟩
abbrev main_v216 : Ref sig .tc := ⟨.hbm, 446, rfl⟩
abbrev main_c_184 : Ref sig .tc := ⟨.hbm, 447, rfl⟩
abbrev main_v217 : Ref sig .tc := ⟨.hbm, 448, rfl⟩
abbrev main_c_185 : Ref sig .tc := ⟨.hbm, 449, rfl⟩
abbrev main_v218 : Ref sig .tc := ⟨.hbm, 450, rfl⟩
abbrev main_v219 : Ref sig .tc := ⟨.hbm, 451, rfl⟩
abbrev main_c_186 : Ref sig .tc := ⟨.hbm, 452, rfl⟩
abbrev main_v220 : Ref sig .tc := ⟨.hbm, 453, rfl⟩
abbrev main_c_187 : Ref sig .tc := ⟨.hbm, 454, rfl⟩
abbrev main_v221 : Ref sig .tc := ⟨.hbm, 455, rfl⟩
abbrev main_v222 : Ref sig .tc := ⟨.hbm, 456, rfl⟩
abbrev main_v223 : Ref sig .tc := ⟨.hbm, 457, rfl⟩
abbrev main_v224 : Ref sig .tc := ⟨.hbm, 458, rfl⟩
abbrev main_c_188 : Ref sig .tc := ⟨.hbm, 459, rfl⟩
abbrev main_c_189 : Ref sig .tc := ⟨.hbm, 460, rfl⟩
abbrev main_v225 : Ref sig .tc := ⟨.hbm, 461, rfl⟩
abbrev main_c_190 : Ref sig .tc := ⟨.hbm, 462, rfl⟩
abbrev main_c_191 : Ref sig .tc := ⟨.hbm, 463, rfl⟩
abbrev main_v226 : Ref sig .tc := ⟨.hbm, 464, rfl⟩
abbrev main_c_192 : Ref sig .tc := ⟨.hbm, 465, rfl⟩
abbrev main_v227 : Ref sig .tc := ⟨.hbm, 466, rfl⟩
abbrev main_c_193 : Ref sig .tc := ⟨.hbm, 467, rfl⟩
abbrev main_c_194 : Ref sig .tc := ⟨.hbm, 468, rfl⟩
abbrev main_v228 : Ref sig .tc := ⟨.hbm, 469, rfl⟩
abbrev main_c_195 : Ref sig .tc := ⟨.hbm, 470, rfl⟩
abbrev main_c_196 : Ref sig .tc := ⟨.hbm, 471, rfl⟩
abbrev main_v229 : Ref sig .tc := ⟨.hbm, 472, rfl⟩
abbrev main_c_197 : Ref sig .tc := ⟨.hbm, 473, rfl⟩
abbrev main_v230 : Ref sig .tc := ⟨.hbm, 474, rfl⟩
abbrev main_c_198 : Ref sig .tc := ⟨.hbm, 475, rfl⟩
abbrev main_v231 : Ref sig .tc := ⟨.hbm, 476, rfl⟩
abbrev main_c_199 : Ref sig .tc := ⟨.hbm, 477, rfl⟩
abbrev main_v232 : Ref sig .tc := ⟨.hbm, 478, rfl⟩
abbrev main_v233 : Ref sig .tc := ⟨.hbm, 479, rfl⟩
abbrev main_c_200 : Ref sig .tc := ⟨.hbm, 480, rfl⟩
abbrev main_v234 : Ref sig .tc := ⟨.hbm, 481, rfl⟩
abbrev main_c_201 : Ref sig .tc := ⟨.hbm, 482, rfl⟩
abbrev main_v235 : Ref sig .tc := ⟨.hbm, 483, rfl⟩
abbrev main_v236 : Ref sig .tc := ⟨.hbm, 484, rfl⟩
abbrev main_v237 : Ref sig .tc := ⟨.hbm, 485, rfl⟩
abbrev main_v238 : Ref sig .tc := ⟨.hbm, 486, rfl⟩
abbrev main_v239 : Ref sig .tc := ⟨.hbm, 487, rfl⟩
abbrev main_c_202 : Ref sig .tc := ⟨.hbm, 488, rfl⟩
abbrev main_v240 : Ref sig .tc := ⟨.hbm, 489, rfl⟩
abbrev main_c_203 : Ref sig .tc := ⟨.hbm, 490, rfl⟩
abbrev main_c_204 : Ref sig .tc := ⟨.hbm, 491, rfl⟩
abbrev main_call14_v0 : Ref sig .tc := ⟨.hbm, 492, rfl⟩
abbrev main_call14_v1 : Ref sig .tc := ⟨.hbm, 493, rfl⟩
abbrev main_call14_v2 : Ref sig .tc := ⟨.hbm, 494, rfl⟩
abbrev main_v241 : Ref sig .tc := ⟨.hbm, 495, rfl⟩
abbrev main_v242 : Ref sig .tc := ⟨.hbm, 496, rfl⟩
abbrev main_v243 : Ref sig .tc := ⟨.hbm, 497, rfl⟩
abbrev main_c_205 : Ref sig .tc := ⟨.hbm, 498, rfl⟩
abbrev main_v244 : Ref sig .tc := ⟨.hbm, 499, rfl⟩
abbrev main_c_206 : Ref sig .tc := ⟨.hbm, 500, rfl⟩
abbrev main_c_207 : Ref sig .tc := ⟨.hbm, 501, rfl⟩
abbrev main_call15_v0 : Ref sig .tc := ⟨.hbm, 502, rfl⟩
abbrev main_call15_v1 : Ref sig .tc := ⟨.hbm, 503, rfl⟩
abbrev main_call15_v2 : Ref sig .tc := ⟨.hbm, 504, rfl⟩
abbrev main_v245 : Ref sig .tc := ⟨.hbm, 505, rfl⟩
abbrev main_v246 : Ref sig .tc := ⟨.hbm, 506, rfl⟩
abbrev main_v247 : Ref sig .tc := ⟨.hbm, 507, rfl⟩
abbrev main_c_208 : Ref sig .tc := ⟨.hbm, 508, rfl⟩
abbrev main_c_209 : Ref sig .tc := ⟨.hbm, 509, rfl⟩
abbrev main_v248 : Ref sig .tc := ⟨.hbm, 510, rfl⟩
abbrev main_c_210 : Ref sig .tc := ⟨.hbm, 511, rfl⟩
abbrev main_c_211 : Ref sig .tc := ⟨.hbm, 512, rfl⟩
abbrev main_v249 : Ref sig .tc := ⟨.hbm, 513, rfl⟩
abbrev main_c_212 : Ref sig .tc := ⟨.hbm, 514, rfl⟩
abbrev main_v250 : Ref sig .tc := ⟨.hbm, 515, rfl⟩
abbrev main_c_213 : Ref sig .tc := ⟨.hbm, 516, rfl⟩
abbrev main_v251 : Ref sig .tc := ⟨.hbm, 517, rfl⟩
abbrev main_c_214 : Ref sig .tc := ⟨.hbm, 518, rfl⟩
abbrev main_v252 : Ref sig .tc := ⟨.hbm, 519, rfl⟩
abbrev main_v253 : Ref sig .tc := ⟨.hbm, 520, rfl⟩
abbrev main_c_215 : Ref sig .tc := ⟨.hbm, 521, rfl⟩
abbrev main_v254 : Ref sig .tc := ⟨.hbm, 522, rfl⟩
abbrev main_c_216 : Ref sig .tc := ⟨.hbm, 523, rfl⟩
abbrev main_v255 : Ref sig .tc := ⟨.hbm, 524, rfl⟩
abbrev main_v256 : Ref sig .tc := ⟨.hbm, 525, rfl⟩
abbrev main_v257 : Ref sig .tc := ⟨.hbm, 526, rfl⟩
abbrev main_v258 : Ref sig .tc := ⟨.hbm, 527, rfl⟩
abbrev main_c_217 : Ref sig .tc := ⟨.hbm, 528, rfl⟩
abbrev main_c_218 : Ref sig .tc := ⟨.hbm, 529, rfl⟩
abbrev main_v259 : Ref sig .tc := ⟨.hbm, 530, rfl⟩
abbrev main_c_219 : Ref sig .tc := ⟨.hbm, 531, rfl⟩
abbrev main_c_220 : Ref sig .tc := ⟨.hbm, 532, rfl⟩
abbrev main_v260 : Ref sig .tc := ⟨.hbm, 533, rfl⟩
abbrev main_c_221 : Ref sig .tc := ⟨.hbm, 534, rfl⟩
abbrev main_v261 : Ref sig .tc := ⟨.hbm, 535, rfl⟩
abbrev main_c_222 : Ref sig .tc := ⟨.hbm, 536, rfl⟩
abbrev main_c_223 : Ref sig .tc := ⟨.hbm, 537, rfl⟩
abbrev main_v262 : Ref sig .tc := ⟨.hbm, 538, rfl⟩
abbrev main_c_224 : Ref sig .tc := ⟨.hbm, 539, rfl⟩
abbrev main_c_225 : Ref sig .tc := ⟨.hbm, 540, rfl⟩
abbrev main_v263 : Ref sig .tc := ⟨.hbm, 541, rfl⟩
abbrev main_c_226 : Ref sig .tc := ⟨.hbm, 542, rfl⟩
abbrev main_v264 : Ref sig .tc := ⟨.hbm, 543, rfl⟩
abbrev main_c_227 : Ref sig .tc := ⟨.hbm, 544, rfl⟩
abbrev main_v265 : Ref sig .tc := ⟨.hbm, 545, rfl⟩
abbrev main_c_228 : Ref sig .tc := ⟨.hbm, 546, rfl⟩
abbrev main_v266 : Ref sig .tc := ⟨.hbm, 547, rfl⟩
abbrev main_v267 : Ref sig .tc := ⟨.hbm, 548, rfl⟩
abbrev main_c_229 : Ref sig .tc := ⟨.hbm, 549, rfl⟩
abbrev main_v268 : Ref sig .tc := ⟨.hbm, 550, rfl⟩
abbrev main_c_230 : Ref sig .tc := ⟨.hbm, 551, rfl⟩
abbrev main_v269 : Ref sig .tc := ⟨.hbm, 552, rfl⟩
abbrev main_v270 : Ref sig .tc := ⟨.hbm, 553, rfl⟩
abbrev main_v271 : Ref sig .tc := ⟨.hbm, 554, rfl⟩
abbrev main_v272 : Ref sig .tc := ⟨.hbm, 555, rfl⟩
abbrev main_v273 : Ref sig .tc := ⟨.hbm, 556, rfl⟩
abbrev main_c_231 : Ref sig .tc := ⟨.hbm, 557, rfl⟩
abbrev main_v274 : Ref sig .tc := ⟨.hbm, 558, rfl⟩
abbrev main_c_232 : Ref sig .tc := ⟨.hbm, 559, rfl⟩
abbrev main_c_233 : Ref sig .tc := ⟨.hbm, 560, rfl⟩
abbrev main_call16_v0 : Ref sig .tc := ⟨.hbm, 561, rfl⟩
abbrev main_call16_v1 : Ref sig .tc := ⟨.hbm, 562, rfl⟩
abbrev main_call16_v2 : Ref sig .tc := ⟨.hbm, 563, rfl⟩
abbrev main_v275 : Ref sig .tc := ⟨.hbm, 564, rfl⟩
abbrev main_v276 : Ref sig .tc := ⟨.hbm, 565, rfl⟩
abbrev main_v277 : Ref sig .tc := ⟨.hbm, 566, rfl⟩
abbrev main_c_234 : Ref sig .tc := ⟨.hbm, 567, rfl⟩
abbrev main_v278 : Ref sig .tc := ⟨.hbm, 568, rfl⟩
abbrev main_c_235 : Ref sig .tc := ⟨.hbm, 569, rfl⟩
abbrev main_c_236 : Ref sig .tc := ⟨.hbm, 570, rfl⟩
abbrev main_call17_v0 : Ref sig .tc := ⟨.hbm, 571, rfl⟩
abbrev main_call17_v1 : Ref sig .tc := ⟨.hbm, 572, rfl⟩
abbrev main_call17_v2 : Ref sig .tc := ⟨.hbm, 573, rfl⟩
abbrev main_v279 : Ref sig .tc := ⟨.hbm, 574, rfl⟩
abbrev main_v280 : Ref sig .tc := ⟨.hbm, 575, rfl⟩
abbrev main_v281 : Ref sig .tc := ⟨.hbm, 576, rfl⟩
abbrev main_c_237 : Ref sig .tc := ⟨.hbm, 577, rfl⟩
abbrev main_c_238 : Ref sig .tc := ⟨.hbm, 578, rfl⟩
abbrev main_v282 : Ref sig .tc := ⟨.hbm, 579, rfl⟩
abbrev main_c_239 : Ref sig .tc := ⟨.hbm, 580, rfl⟩
abbrev main_c_240 : Ref sig .tc := ⟨.hbm, 581, rfl⟩
abbrev main_v283 : Ref sig .tc := ⟨.hbm, 582, rfl⟩
abbrev main_c_241 : Ref sig .tc := ⟨.hbm, 583, rfl⟩
abbrev main_v284 : Ref sig .tc := ⟨.hbm, 584, rfl⟩
abbrev main_c_242 : Ref sig .tc := ⟨.hbm, 585, rfl⟩
abbrev main_v285 : Ref sig .tc := ⟨.hbm, 586, rfl⟩
abbrev main_c_243 : Ref sig .tc := ⟨.hbm, 587, rfl⟩
abbrev main_v286 : Ref sig .tc := ⟨.hbm, 588, rfl⟩
abbrev main_v287 : Ref sig .tc := ⟨.hbm, 589, rfl⟩
abbrev main_c_244 : Ref sig .tc := ⟨.hbm, 590, rfl⟩
abbrev main_v288 : Ref sig .tc := ⟨.hbm, 591, rfl⟩
abbrev main_c_245 : Ref sig .tc := ⟨.hbm, 592, rfl⟩
abbrev main_v289 : Ref sig .tc := ⟨.hbm, 593, rfl⟩
abbrev main_v290 : Ref sig .tc := ⟨.hbm, 594, rfl⟩
abbrev main_v291 : Ref sig .tc := ⟨.hbm, 595, rfl⟩
abbrev main_v292 : Ref sig .tc := ⟨.hbm, 596, rfl⟩
abbrev main_c_246 : Ref sig .tc := ⟨.hbm, 597, rfl⟩
abbrev main_c_247 : Ref sig .tc := ⟨.hbm, 598, rfl⟩
abbrev main_v293 : Ref sig .tc := ⟨.hbm, 599, rfl⟩
abbrev main_c_248 : Ref sig .tc := ⟨.hbm, 600, rfl⟩
abbrev main_c_249 : Ref sig .tc := ⟨.hbm, 601, rfl⟩
abbrev main_v294 : Ref sig .tc := ⟨.hbm, 602, rfl⟩
abbrev main_c_250 : Ref sig .tc := ⟨.hbm, 603, rfl⟩
abbrev main_v295 : Ref sig .tc := ⟨.hbm, 604, rfl⟩
abbrev main_c_251 : Ref sig .tc := ⟨.hbm, 605, rfl⟩
abbrev main_c_252 : Ref sig .tc := ⟨.hbm, 606, rfl⟩
abbrev main_v296 : Ref sig .tc := ⟨.hbm, 607, rfl⟩
abbrev main_c_253 : Ref sig .tc := ⟨.hbm, 608, rfl⟩
abbrev main_c_254 : Ref sig .tc := ⟨.hbm, 609, rfl⟩
abbrev main_v297 : Ref sig .tc := ⟨.hbm, 610, rfl⟩
abbrev main_c_255 : Ref sig .tc := ⟨.hbm, 611, rfl⟩
abbrev main_v298 : Ref sig .tc := ⟨.hbm, 612, rfl⟩
abbrev main_c_256 : Ref sig .tc := ⟨.hbm, 613, rfl⟩
abbrev main_v299 : Ref sig .tc := ⟨.hbm, 614, rfl⟩
abbrev main_c_257 : Ref sig .tc := ⟨.hbm, 615, rfl⟩
abbrev main_v300 : Ref sig .tc := ⟨.hbm, 616, rfl⟩
abbrev main_v301 : Ref sig .tc := ⟨.hbm, 617, rfl⟩
abbrev main_c_258 : Ref sig .tc := ⟨.hbm, 618, rfl⟩
abbrev main_v302 : Ref sig .tc := ⟨.hbm, 619, rfl⟩
abbrev main_c_259 : Ref sig .tc := ⟨.hbm, 620, rfl⟩
abbrev main_v303 : Ref sig .tc := ⟨.hbm, 621, rfl⟩
abbrev main_v304 : Ref sig .tc := ⟨.hbm, 622, rfl⟩
abbrev main_v305 : Ref sig .tc := ⟨.hbm, 623, rfl⟩
abbrev main_v306 : Ref sig .tc := ⟨.hbm, 624, rfl⟩
abbrev main_v307 : Ref sig .tc := ⟨.hbm, 625, rfl⟩
abbrev main_c_260 : Ref sig .tc := ⟨.hbm, 626, rfl⟩
abbrev main_v308 : Ref sig .tc := ⟨.hbm, 627, rfl⟩
abbrev main_c_261 : Ref sig .tc := ⟨.hbm, 628, rfl⟩
abbrev main_c_262 : Ref sig .tc := ⟨.hbm, 629, rfl⟩
abbrev main_call18_v0 : Ref sig .tc := ⟨.hbm, 630, rfl⟩
abbrev main_call18_v1 : Ref sig .tc := ⟨.hbm, 631, rfl⟩
abbrev main_call18_v2 : Ref sig .tc := ⟨.hbm, 632, rfl⟩
abbrev main_v309 : Ref sig .tc := ⟨.hbm, 633, rfl⟩
abbrev main_v310 : Ref sig .tc := ⟨.hbm, 634, rfl⟩
abbrev main_v311 : Ref sig .tc := ⟨.hbm, 635, rfl⟩
abbrev main_c_263 : Ref sig .tc := ⟨.hbm, 636, rfl⟩
abbrev main_v312 : Ref sig .tc := ⟨.hbm, 637, rfl⟩
abbrev main_c_264 : Ref sig .tc := ⟨.hbm, 638, rfl⟩
abbrev main_c_265 : Ref sig .tc := ⟨.hbm, 639, rfl⟩
abbrev main_call19_v0 : Ref sig .tc := ⟨.hbm, 640, rfl⟩
abbrev main_call19_v1 : Ref sig .tc := ⟨.hbm, 641, rfl⟩
abbrev main_call19_v2 : Ref sig .tc := ⟨.hbm, 642, rfl⟩
abbrev main_v313 : Ref sig .tc := ⟨.hbm, 643, rfl⟩
abbrev main_v314 : Ref sig .tc := ⟨.hbm, 644, rfl⟩
abbrev main_v315 : Ref sig .tc := ⟨.hbm, 645, rfl⟩
abbrev main_c_266 : Ref sig .tc := ⟨.hbm, 646, rfl⟩
abbrev main_c_267 : Ref sig .tc := ⟨.hbm, 647, rfl⟩
abbrev main_v316 : Ref sig .tc := ⟨.hbm, 648, rfl⟩
abbrev main_c_268 : Ref sig .tc := ⟨.hbm, 649, rfl⟩
abbrev main_c_269 : Ref sig .tc := ⟨.hbm, 650, rfl⟩
abbrev main_v317 : Ref sig .tc := ⟨.hbm, 651, rfl⟩
abbrev main_c_270 : Ref sig .tc := ⟨.hbm, 652, rfl⟩
abbrev main_v318 : Ref sig .tc := ⟨.hbm, 653, rfl⟩
abbrev main_c_271 : Ref sig .tc := ⟨.hbm, 654, rfl⟩
abbrev main_v319 : Ref sig .tc := ⟨.hbm, 655, rfl⟩
abbrev main_c_272 : Ref sig .tc := ⟨.hbm, 656, rfl⟩
abbrev main_v320 : Ref sig .tc := ⟨.hbm, 657, rfl⟩
abbrev main_v321 : Ref sig .tc := ⟨.hbm, 658, rfl⟩
abbrev main_c_273 : Ref sig .tc := ⟨.hbm, 659, rfl⟩
abbrev main_v322 : Ref sig .tc := ⟨.hbm, 660, rfl⟩
abbrev main_c_274 : Ref sig .tc := ⟨.hbm, 661, rfl⟩
abbrev main_v323 : Ref sig .tc := ⟨.hbm, 662, rfl⟩
abbrev main_v324 : Ref sig .tc := ⟨.hbm, 663, rfl⟩
abbrev main_v325 : Ref sig .tc := ⟨.hbm, 664, rfl⟩
abbrev main_v326 : Ref sig .tc := ⟨.hbm, 665, rfl⟩
abbrev main_c_275 : Ref sig .tc := ⟨.hbm, 666, rfl⟩
abbrev main_c_276 : Ref sig .tc := ⟨.hbm, 667, rfl⟩
abbrev main_v327 : Ref sig .tc := ⟨.hbm, 668, rfl⟩
abbrev main_c_277 : Ref sig .tc := ⟨.hbm, 669, rfl⟩
abbrev main_c_278 : Ref sig .tc := ⟨.hbm, 670, rfl⟩
abbrev main_v328 : Ref sig .tc := ⟨.hbm, 671, rfl⟩
abbrev main_c_279 : Ref sig .tc := ⟨.hbm, 672, rfl⟩
abbrev main_v329 : Ref sig .tc := ⟨.hbm, 673, rfl⟩
abbrev main_c_280 : Ref sig .tc := ⟨.hbm, 674, rfl⟩
abbrev main_c_281 : Ref sig .tc := ⟨.hbm, 675, rfl⟩
abbrev main_v330 : Ref sig .tc := ⟨.hbm, 676, rfl⟩
abbrev main_c_282 : Ref sig .tc := ⟨.hbm, 677, rfl⟩
abbrev main_c_283 : Ref sig .tc := ⟨.hbm, 678, rfl⟩
abbrev main_v331 : Ref sig .tc := ⟨.hbm, 679, rfl⟩
abbrev main_c_284 : Ref sig .tc := ⟨.hbm, 680, rfl⟩
abbrev main_v332 : Ref sig .tc := ⟨.hbm, 681, rfl⟩
abbrev main_c_285 : Ref sig .tc := ⟨.hbm, 682, rfl⟩
abbrev main_v333 : Ref sig .tc := ⟨.hbm, 683, rfl⟩
abbrev main_c_286 : Ref sig .tc := ⟨.hbm, 684, rfl⟩
abbrev main_v334 : Ref sig .tc := ⟨.hbm, 685, rfl⟩
abbrev main_v335 : Ref sig .tc := ⟨.hbm, 686, rfl⟩
abbrev main_c_287 : Ref sig .tc := ⟨.hbm, 687, rfl⟩
abbrev main_v336 : Ref sig .tc := ⟨.hbm, 688, rfl⟩
abbrev main_c_288 : Ref sig .tc := ⟨.hbm, 689, rfl⟩
abbrev main_v337 : Ref sig .tc := ⟨.hbm, 690, rfl⟩
abbrev main_v338 : Ref sig .tc := ⟨.hbm, 691, rfl⟩
abbrev main_v339 : Ref sig .tc := ⟨.hbm, 692, rfl⟩
abbrev main_v340 : Ref sig .tc := ⟨.hbm, 693, rfl⟩
abbrev main_v341 : Ref sig .tc := ⟨.hbm, 694, rfl⟩
abbrev main_c_289 : Ref sig .tc := ⟨.hbm, 695, rfl⟩
abbrev main_v342 : Ref sig .tc := ⟨.hbm, 696, rfl⟩
abbrev main_c_290 : Ref sig .tc := ⟨.hbm, 697, rfl⟩
abbrev main_c_291 : Ref sig .tc := ⟨.hbm, 698, rfl⟩
abbrev main_call20_v0 : Ref sig .tc := ⟨.hbm, 699, rfl⟩
abbrev main_call20_v1 : Ref sig .tc := ⟨.hbm, 700, rfl⟩
abbrev main_call20_v2 : Ref sig .tc := ⟨.hbm, 701, rfl⟩
abbrev main_v343 : Ref sig .tc := ⟨.hbm, 702, rfl⟩
abbrev main_v344 : Ref sig .tc := ⟨.hbm, 703, rfl⟩
abbrev main_v345 : Ref sig .tc := ⟨.hbm, 704, rfl⟩
abbrev main_c_292 : Ref sig .tc := ⟨.hbm, 705, rfl⟩
abbrev main_v346 : Ref sig .tc := ⟨.hbm, 706, rfl⟩
abbrev main_c_293 : Ref sig .tc := ⟨.hbm, 707, rfl⟩
abbrev main_c_294 : Ref sig .tc := ⟨.hbm, 708, rfl⟩
abbrev main_call21_v0 : Ref sig .tc := ⟨.hbm, 709, rfl⟩
abbrev main_call21_v1 : Ref sig .tc := ⟨.hbm, 710, rfl⟩
abbrev main_call21_v2 : Ref sig .tc := ⟨.hbm, 711, rfl⟩
abbrev main_v347 : Ref sig .tc := ⟨.hbm, 712, rfl⟩
abbrev main_v348 : Ref sig .tc := ⟨.hbm, 713, rfl⟩
abbrev main_v349 : Ref sig .tc := ⟨.hbm, 714, rfl⟩
abbrev main_c_295 : Ref sig .tc := ⟨.hbm, 715, rfl⟩
abbrev main_c_296 : Ref sig .tc := ⟨.hbm, 716, rfl⟩
abbrev main_v350 : Ref sig .tc := ⟨.hbm, 717, rfl⟩
abbrev main_c_297 : Ref sig .tc := ⟨.hbm, 718, rfl⟩
abbrev main_c_298 : Ref sig .tc := ⟨.hbm, 719, rfl⟩
abbrev main_v351 : Ref sig .tc := ⟨.hbm, 720, rfl⟩
abbrev main_c_299 : Ref sig .tc := ⟨.hbm, 721, rfl⟩
abbrev main_v352 : Ref sig .tc := ⟨.hbm, 722, rfl⟩
abbrev main_c_300 : Ref sig .tc := ⟨.hbm, 723, rfl⟩
abbrev main_v353 : Ref sig .tc := ⟨.hbm, 724, rfl⟩
abbrev main_c_301 : Ref sig .tc := ⟨.hbm, 725, rfl⟩
abbrev main_v354 : Ref sig .tc := ⟨.hbm, 726, rfl⟩
abbrev main_v355 : Ref sig .tc := ⟨.hbm, 727, rfl⟩
abbrev main_c_302 : Ref sig .tc := ⟨.hbm, 728, rfl⟩
abbrev main_v356 : Ref sig .tc := ⟨.hbm, 729, rfl⟩
abbrev main_c_303 : Ref sig .tc := ⟨.hbm, 730, rfl⟩
abbrev main_v357 : Ref sig .tc := ⟨.hbm, 731, rfl⟩
abbrev main_v358 : Ref sig .tc := ⟨.hbm, 732, rfl⟩
abbrev main_v359 : Ref sig .tc := ⟨.hbm, 733, rfl⟩
abbrev main_v360 : Ref sig .tc := ⟨.hbm, 734, rfl⟩
abbrev main_c_304 : Ref sig .tc := ⟨.hbm, 735, rfl⟩
abbrev main_c_305 : Ref sig .tc := ⟨.hbm, 736, rfl⟩
abbrev main_v361 : Ref sig .tc := ⟨.hbm, 737, rfl⟩
abbrev main_c_306 : Ref sig .tc := ⟨.hbm, 738, rfl⟩
abbrev main_c_307 : Ref sig .tc := ⟨.hbm, 739, rfl⟩
abbrev main_v362 : Ref sig .tc := ⟨.hbm, 740, rfl⟩
abbrev main_c_308 : Ref sig .tc := ⟨.hbm, 741, rfl⟩
abbrev main_v363 : Ref sig .tc := ⟨.hbm, 742, rfl⟩
abbrev main_c_309 : Ref sig .tc := ⟨.hbm, 743, rfl⟩
abbrev main_c_310 : Ref sig .tc := ⟨.hbm, 744, rfl⟩
abbrev main_v364 : Ref sig .tc := ⟨.hbm, 745, rfl⟩
abbrev main_c_311 : Ref sig .tc := ⟨.hbm, 746, rfl⟩
abbrev main_c_312 : Ref sig .tc := ⟨.hbm, 747, rfl⟩
abbrev main_v365 : Ref sig .tc := ⟨.hbm, 748, rfl⟩
abbrev main_c_313 : Ref sig .tc := ⟨.hbm, 749, rfl⟩
abbrev main_v366 : Ref sig .tc := ⟨.hbm, 750, rfl⟩
abbrev main_c_314 : Ref sig .tc := ⟨.hbm, 751, rfl⟩
abbrev main_v367 : Ref sig .tc := ⟨.hbm, 752, rfl⟩
abbrev main_c_315 : Ref sig .tc := ⟨.hbm, 753, rfl⟩
abbrev main_v368 : Ref sig .tc := ⟨.hbm, 754, rfl⟩
abbrev main_v369 : Ref sig .tc := ⟨.hbm, 755, rfl⟩
abbrev main_c_316 : Ref sig .tc := ⟨.hbm, 756, rfl⟩
abbrev main_v370 : Ref sig .tc := ⟨.hbm, 757, rfl⟩
abbrev main_c_317 : Ref sig .tc := ⟨.hbm, 758, rfl⟩
abbrev main_v371 : Ref sig .tc := ⟨.hbm, 759, rfl⟩
abbrev main_v372 : Ref sig .tc := ⟨.hbm, 760, rfl⟩
abbrev main_v373 : Ref sig .tc := ⟨.hbm, 761, rfl⟩
abbrev main_v374 : Ref sig .tc := ⟨.hbm, 762, rfl⟩
abbrev main_v375 : Ref sig .tc := ⟨.hbm, 763, rfl⟩
abbrev main_c_318 : Ref sig .tc := ⟨.hbm, 764, rfl⟩
abbrev main_v376 : Ref sig .tc := ⟨.hbm, 765, rfl⟩
abbrev main_c_319 : Ref sig .tc := ⟨.hbm, 766, rfl⟩
abbrev main_c_320 : Ref sig .tc := ⟨.hbm, 767, rfl⟩
abbrev main_call22_v0 : Ref sig .tc := ⟨.hbm, 768, rfl⟩
abbrev main_call22_v1 : Ref sig .tc := ⟨.hbm, 769, rfl⟩
abbrev main_call22_v2 : Ref sig .tc := ⟨.hbm, 770, rfl⟩
abbrev main_v377 : Ref sig .tc := ⟨.hbm, 771, rfl⟩
abbrev main_v378 : Ref sig .tc := ⟨.hbm, 772, rfl⟩
abbrev main_v379 : Ref sig .tc := ⟨.hbm, 773, rfl⟩
abbrev main_c_321 : Ref sig .tc := ⟨.hbm, 774, rfl⟩
abbrev main_v380 : Ref sig .tc := ⟨.hbm, 775, rfl⟩
abbrev main_c_322 : Ref sig .tc := ⟨.hbm, 776, rfl⟩
abbrev main_c_323 : Ref sig .tc := ⟨.hbm, 777, rfl⟩
abbrev main_call23_v0 : Ref sig .tc := ⟨.hbm, 778, rfl⟩
abbrev main_call23_v1 : Ref sig .tc := ⟨.hbm, 779, rfl⟩
abbrev main_call23_v2 : Ref sig .tc := ⟨.hbm, 780, rfl⟩
abbrev main_v381 : Ref sig .tc := ⟨.hbm, 781, rfl⟩
abbrev main_v382 : Ref sig .tc := ⟨.hbm, 782, rfl⟩
abbrev main_v383 : Ref sig .tc := ⟨.hbm, 783, rfl⟩
abbrev main_c_324 : Ref sig .tc := ⟨.hbm, 784, rfl⟩
abbrev main_c_325 : Ref sig .tc := ⟨.hbm, 785, rfl⟩
abbrev main_v384 : Ref sig .tc := ⟨.hbm, 786, rfl⟩
abbrev main_c_326 : Ref sig .tc := ⟨.hbm, 787, rfl⟩
abbrev main_c_327 : Ref sig .tc := ⟨.hbm, 788, rfl⟩
abbrev main_v385 : Ref sig .tc := ⟨.hbm, 789, rfl⟩
abbrev main_c_328 : Ref sig .tc := ⟨.hbm, 790, rfl⟩
abbrev main_v386 : Ref sig .tc := ⟨.hbm, 791, rfl⟩
abbrev main_c_329 : Ref sig .tc := ⟨.hbm, 792, rfl⟩
abbrev main_v387 : Ref sig .tc := ⟨.hbm, 793, rfl⟩
abbrev main_c_330 : Ref sig .tc := ⟨.hbm, 794, rfl⟩
abbrev main_v388 : Ref sig .tc := ⟨.hbm, 795, rfl⟩
abbrev main_v389 : Ref sig .tc := ⟨.hbm, 796, rfl⟩
abbrev main_c_331 : Ref sig .tc := ⟨.hbm, 797, rfl⟩
abbrev main_v390 : Ref sig .tc := ⟨.hbm, 798, rfl⟩
abbrev main_c_332 : Ref sig .tc := ⟨.hbm, 799, rfl⟩
abbrev main_v391 : Ref sig .tc := ⟨.hbm, 800, rfl⟩
abbrev main_v392 : Ref sig .tc := ⟨.hbm, 801, rfl⟩
abbrev main_v393 : Ref sig .tc := ⟨.hbm, 802, rfl⟩
abbrev main_v394 : Ref sig .tc := ⟨.hbm, 803, rfl⟩
abbrev main_c_333 : Ref sig .tc := ⟨.hbm, 804, rfl⟩
abbrev main_c_334 : Ref sig .tc := ⟨.hbm, 805, rfl⟩
abbrev main_v395 : Ref sig .tc := ⟨.hbm, 806, rfl⟩
abbrev main_c_335 : Ref sig .tc := ⟨.hbm, 807, rfl⟩
abbrev main_c_336 : Ref sig .tc := ⟨.hbm, 808, rfl⟩
abbrev main_v396 : Ref sig .tc := ⟨.hbm, 809, rfl⟩
abbrev main_c_337 : Ref sig .tc := ⟨.hbm, 810, rfl⟩
abbrev main_v397 : Ref sig .tc := ⟨.hbm, 811, rfl⟩
abbrev main_c_338 : Ref sig .tc := ⟨.hbm, 812, rfl⟩
abbrev main_c_339 : Ref sig .tc := ⟨.hbm, 813, rfl⟩
abbrev main_v398 : Ref sig .tc := ⟨.hbm, 814, rfl⟩
abbrev main_c_340 : Ref sig .tc := ⟨.hbm, 815, rfl⟩
abbrev main_c_341 : Ref sig .tc := ⟨.hbm, 816, rfl⟩
abbrev main_v399 : Ref sig .tc := ⟨.hbm, 817, rfl⟩
abbrev main_c_342 : Ref sig .tc := ⟨.hbm, 818, rfl⟩
abbrev main_v400 : Ref sig .tc := ⟨.hbm, 819, rfl⟩
abbrev main_c_343 : Ref sig .tc := ⟨.hbm, 820, rfl⟩
abbrev main_v401 : Ref sig .tc := ⟨.hbm, 821, rfl⟩
abbrev main_c_344 : Ref sig .tc := ⟨.hbm, 822, rfl⟩
abbrev main_v402 : Ref sig .tc := ⟨.hbm, 823, rfl⟩
abbrev main_v403 : Ref sig .tc := ⟨.hbm, 824, rfl⟩
abbrev main_c_345 : Ref sig .tc := ⟨.hbm, 825, rfl⟩
abbrev main_v404 : Ref sig .tc := ⟨.hbm, 826, rfl⟩
abbrev main_c_346 : Ref sig .tc := ⟨.hbm, 827, rfl⟩
abbrev main_v405 : Ref sig .tc := ⟨.hbm, 828, rfl⟩
abbrev main_v406 : Ref sig .tc := ⟨.hbm, 829, rfl⟩
abbrev main_v407 : Ref sig .tc := ⟨.hbm, 830, rfl⟩
abbrev main_v408 : Ref sig .tc := ⟨.hbm, 831, rfl⟩
abbrev main_v409 : Ref sig .tc := ⟨.hbm, 832, rfl⟩
abbrev main_c_347 : Ref sig .tc := ⟨.hbm, 833, rfl⟩
abbrev main_v410 : Ref sig .tc := ⟨.hbm, 834, rfl⟩
abbrev main_c_348 : Ref sig .tc := ⟨.hbm, 835, rfl⟩
abbrev main_c_349 : Ref sig .tc := ⟨.hbm, 836, rfl⟩
abbrev main_call24_v0 : Ref sig .tc := ⟨.hbm, 837, rfl⟩
abbrev main_call24_v1 : Ref sig .tc := ⟨.hbm, 838, rfl⟩
abbrev main_call24_v2 : Ref sig .tc := ⟨.hbm, 839, rfl⟩
abbrev main_v411 : Ref sig .tc := ⟨.hbm, 840, rfl⟩
abbrev main_v412 : Ref sig .tc := ⟨.hbm, 841, rfl⟩
abbrev main_v413 : Ref sig .tc := ⟨.hbm, 842, rfl⟩
abbrev main_c_350 : Ref sig .tc := ⟨.hbm, 843, rfl⟩
abbrev main_v414 : Ref sig .tc := ⟨.hbm, 844, rfl⟩
abbrev main_c_351 : Ref sig .tc := ⟨.hbm, 845, rfl⟩
abbrev main_c_352 : Ref sig .tc := ⟨.hbm, 846, rfl⟩
abbrev main_call25_v0 : Ref sig .tc := ⟨.hbm, 847, rfl⟩
abbrev main_call25_v1 : Ref sig .tc := ⟨.hbm, 848, rfl⟩
abbrev main_call25_v2 : Ref sig .tc := ⟨.hbm, 849, rfl⟩
abbrev main_v415 : Ref sig .tc := ⟨.hbm, 850, rfl⟩
abbrev main_v416 : Ref sig .tc := ⟨.hbm, 851, rfl⟩
abbrev main_v417 : Ref sig .tc := ⟨.hbm, 852, rfl⟩
abbrev main_c_353 : Ref sig .tc := ⟨.hbm, 853, rfl⟩
abbrev main_c_354 : Ref sig .tc := ⟨.hbm, 854, rfl⟩
abbrev main_v418 : Ref sig .tc := ⟨.hbm, 855, rfl⟩
abbrev main_c_355 : Ref sig .tc := ⟨.hbm, 856, rfl⟩
abbrev main_c_356 : Ref sig .tc := ⟨.hbm, 857, rfl⟩
abbrev main_v419 : Ref sig .tc := ⟨.hbm, 858, rfl⟩
abbrev main_c_357 : Ref sig .tc := ⟨.hbm, 859, rfl⟩
abbrev main_v420 : Ref sig .tc := ⟨.hbm, 860, rfl⟩
abbrev main_c_358 : Ref sig .tc := ⟨.hbm, 861, rfl⟩
abbrev main_v421 : Ref sig .tc := ⟨.hbm, 862, rfl⟩
abbrev main_c_359 : Ref sig .tc := ⟨.hbm, 863, rfl⟩
abbrev main_v422 : Ref sig .tc := ⟨.hbm, 864, rfl⟩
abbrev main_v423 : Ref sig .tc := ⟨.hbm, 865, rfl⟩
abbrev main_c_360 : Ref sig .tc := ⟨.hbm, 866, rfl⟩
abbrev main_v424 : Ref sig .tc := ⟨.hbm, 867, rfl⟩
abbrev main_c_361 : Ref sig .tc := ⟨.hbm, 868, rfl⟩
abbrev main_v425 : Ref sig .tc := ⟨.hbm, 869, rfl⟩
abbrev main_v426 : Ref sig .tc := ⟨.hbm, 870, rfl⟩
abbrev main_v427 : Ref sig .tc := ⟨.hbm, 871, rfl⟩
abbrev main_v428 : Ref sig .tc := ⟨.hbm, 872, rfl⟩
abbrev main_c_362 : Ref sig .tc := ⟨.hbm, 873, rfl⟩
abbrev main_c_363 : Ref sig .tc := ⟨.hbm, 874, rfl⟩
abbrev main_v429 : Ref sig .tc := ⟨.hbm, 875, rfl⟩
abbrev main_c_364 : Ref sig .tc := ⟨.hbm, 876, rfl⟩
abbrev main_c_365 : Ref sig .tc := ⟨.hbm, 877, rfl⟩
abbrev main_v430 : Ref sig .tc := ⟨.hbm, 878, rfl⟩
abbrev main_c_366 : Ref sig .tc := ⟨.hbm, 879, rfl⟩
abbrev main_v431 : Ref sig .tc := ⟨.hbm, 880, rfl⟩
abbrev main_c_367 : Ref sig .tc := ⟨.hbm, 881, rfl⟩
abbrev main_c_368 : Ref sig .tc := ⟨.hbm, 882, rfl⟩
abbrev main_v432 : Ref sig .tc := ⟨.hbm, 883, rfl⟩
abbrev main_c_369 : Ref sig .tc := ⟨.hbm, 884, rfl⟩
abbrev main_c_370 : Ref sig .tc := ⟨.hbm, 885, rfl⟩
abbrev main_v433 : Ref sig .tc := ⟨.hbm, 886, rfl⟩
abbrev main_c_371 : Ref sig .tc := ⟨.hbm, 887, rfl⟩
abbrev main_v434 : Ref sig .tc := ⟨.hbm, 888, rfl⟩
abbrev main_c_372 : Ref sig .tc := ⟨.hbm, 889, rfl⟩
abbrev main_v435 : Ref sig .tc := ⟨.hbm, 890, rfl⟩
abbrev main_c_373 : Ref sig .tc := ⟨.hbm, 891, rfl⟩
abbrev main_v436 : Ref sig .tc := ⟨.hbm, 892, rfl⟩
abbrev main_v437 : Ref sig .tc := ⟨.hbm, 893, rfl⟩
abbrev main_c_374 : Ref sig .tc := ⟨.hbm, 894, rfl⟩
abbrev main_v438 : Ref sig .tc := ⟨.hbm, 895, rfl⟩
abbrev main_c_375 : Ref sig .tc := ⟨.hbm, 896, rfl⟩
abbrev main_v439 : Ref sig .tc := ⟨.hbm, 897, rfl⟩
abbrev main_v440 : Ref sig .tc := ⟨.hbm, 898, rfl⟩
abbrev main_v441 : Ref sig .tc := ⟨.hbm, 899, rfl⟩
abbrev main_v442 : Ref sig .tc := ⟨.hbm, 900, rfl⟩
abbrev main_v443 : Ref sig .tc := ⟨.hbm, 901, rfl⟩
abbrev main_c_376 : Ref sig .tc := ⟨.hbm, 902, rfl⟩
abbrev main_v444 : Ref sig .tc := ⟨.hbm, 903, rfl⟩
abbrev main_c_377 : Ref sig .tc := ⟨.hbm, 904, rfl⟩
abbrev main_c_378 : Ref sig .tc := ⟨.hbm, 905, rfl⟩
abbrev main_call26_v0 : Ref sig .tc := ⟨.hbm, 906, rfl⟩
abbrev main_call26_v1 : Ref sig .tc := ⟨.hbm, 907, rfl⟩
abbrev main_call26_v2 : Ref sig .tc := ⟨.hbm, 908, rfl⟩
abbrev main_v445 : Ref sig .tc := ⟨.hbm, 909, rfl⟩
abbrev main_v446 : Ref sig .tc := ⟨.hbm, 910, rfl⟩
abbrev main_v447 : Ref sig .tc := ⟨.hbm, 911, rfl⟩
abbrev main_c_379 : Ref sig .tc := ⟨.hbm, 912, rfl⟩
abbrev main_v448 : Ref sig .tc := ⟨.hbm, 913, rfl⟩
abbrev main_c_380 : Ref sig .tc := ⟨.hbm, 914, rfl⟩
abbrev main_c_381 : Ref sig .tc := ⟨.hbm, 915, rfl⟩
abbrev main_call27_v0 : Ref sig .tc := ⟨.hbm, 916, rfl⟩
abbrev main_call27_v1 : Ref sig .tc := ⟨.hbm, 917, rfl⟩
abbrev main_call27_v2 : Ref sig .tc := ⟨.hbm, 918, rfl⟩
abbrev main_v449 : Ref sig .tc := ⟨.hbm, 919, rfl⟩
abbrev main_v450 : Ref sig .tc := ⟨.hbm, 920, rfl⟩
abbrev main_v451 : Ref sig .tc := ⟨.hbm, 921, rfl⟩
abbrev main_c_382 : Ref sig .tc := ⟨.hbm, 922, rfl⟩
abbrev main_c_383 : Ref sig .tc := ⟨.hbm, 923, rfl⟩
abbrev main_v452 : Ref sig .tc := ⟨.hbm, 924, rfl⟩
abbrev main_c_384 : Ref sig .tc := ⟨.hbm, 925, rfl⟩
abbrev main_c_385 : Ref sig .tc := ⟨.hbm, 926, rfl⟩
abbrev main_v453 : Ref sig .tc := ⟨.hbm, 927, rfl⟩
abbrev main_c_386 : Ref sig .tc := ⟨.hbm, 928, rfl⟩
abbrev main_v454 : Ref sig .tc := ⟨.hbm, 929, rfl⟩
abbrev main_c_387 : Ref sig .tc := ⟨.hbm, 930, rfl⟩
abbrev main_v455 : Ref sig .tc := ⟨.hbm, 931, rfl⟩
abbrev main_c_388 : Ref sig .tc := ⟨.hbm, 932, rfl⟩
abbrev main_v456 : Ref sig .tc := ⟨.hbm, 933, rfl⟩
abbrev main_v457 : Ref sig .tc := ⟨.hbm, 934, rfl⟩
abbrev main_c_389 : Ref sig .tc := ⟨.hbm, 935, rfl⟩
abbrev main_v458 : Ref sig .tc := ⟨.hbm, 936, rfl⟩
abbrev main_c_390 : Ref sig .tc := ⟨.hbm, 937, rfl⟩
abbrev main_v459 : Ref sig .tc := ⟨.hbm, 938, rfl⟩
abbrev main_v460 : Ref sig .tc := ⟨.hbm, 939, rfl⟩
abbrev main_v461 : Ref sig .tc := ⟨.hbm, 940, rfl⟩
abbrev main_v462 : Ref sig .tc := ⟨.hbm, 941, rfl⟩
abbrev main_c_391 : Ref sig .tc := ⟨.hbm, 942, rfl⟩
abbrev main_c_392 : Ref sig .tc := ⟨.hbm, 943, rfl⟩
abbrev main_v463 : Ref sig .tc := ⟨.hbm, 944, rfl⟩
abbrev main_c_393 : Ref sig .tc := ⟨.hbm, 945, rfl⟩
abbrev main_c_394 : Ref sig .tc := ⟨.hbm, 946, rfl⟩
abbrev main_v464 : Ref sig .tc := ⟨.hbm, 947, rfl⟩
abbrev main_c_395 : Ref sig .tc := ⟨.hbm, 948, rfl⟩
abbrev main_v465 : Ref sig .tc := ⟨.hbm, 949, rfl⟩
abbrev main_c_396 : Ref sig .tc := ⟨.hbm, 950, rfl⟩
abbrev main_c_397 : Ref sig .tc := ⟨.hbm, 951, rfl⟩
abbrev main_v466 : Ref sig .tc := ⟨.hbm, 952, rfl⟩
abbrev main_c_398 : Ref sig .tc := ⟨.hbm, 953, rfl⟩
abbrev main_c_399 : Ref sig .tc := ⟨.hbm, 954, rfl⟩
abbrev main_v467 : Ref sig .tc := ⟨.hbm, 955, rfl⟩
abbrev main_c_400 : Ref sig .tc := ⟨.hbm, 956, rfl⟩
abbrev main_v468 : Ref sig .tc := ⟨.hbm, 957, rfl⟩
abbrev main_c_401 : Ref sig .tc := ⟨.hbm, 958, rfl⟩
abbrev main_v469 : Ref sig .tc := ⟨.hbm, 959, rfl⟩
abbrev main_c_402 : Ref sig .tc := ⟨.hbm, 960, rfl⟩
abbrev main_v470 : Ref sig .tc := ⟨.hbm, 961, rfl⟩
abbrev main_v471 : Ref sig .tc := ⟨.hbm, 962, rfl⟩
abbrev main_c_403 : Ref sig .tc := ⟨.hbm, 963, rfl⟩
abbrev main_v472 : Ref sig .tc := ⟨.hbm, 964, rfl⟩
abbrev main_c_404 : Ref sig .tc := ⟨.hbm, 965, rfl⟩
abbrev main_v473 : Ref sig .tc := ⟨.hbm, 966, rfl⟩
abbrev main_v474 : Ref sig .tc := ⟨.hbm, 967, rfl⟩
abbrev main_v475 : Ref sig .tc := ⟨.hbm, 968, rfl⟩
abbrev main_v476 : Ref sig .tc := ⟨.hbm, 969, rfl⟩
abbrev main_v477 : Ref sig .tc := ⟨.hbm, 970, rfl⟩
abbrev main_c_405 : Ref sig .tc := ⟨.hbm, 971, rfl⟩
abbrev main_v478 : Ref sig .tc := ⟨.hbm, 972, rfl⟩
abbrev main_c_406 : Ref sig .tc := ⟨.hbm, 973, rfl⟩
abbrev main_c_407 : Ref sig .tc := ⟨.hbm, 974, rfl⟩
abbrev main_call28_v0 : Ref sig .tc := ⟨.hbm, 975, rfl⟩
abbrev main_call28_v1 : Ref sig .tc := ⟨.hbm, 976, rfl⟩
abbrev main_call28_v2 : Ref sig .tc := ⟨.hbm, 977, rfl⟩
abbrev main_v479 : Ref sig .tc := ⟨.hbm, 978, rfl⟩
abbrev main_v480 : Ref sig .tc := ⟨.hbm, 979, rfl⟩
abbrev main_v481 : Ref sig .tc := ⟨.hbm, 980, rfl⟩
abbrev main_c_408 : Ref sig .tc := ⟨.hbm, 981, rfl⟩
abbrev main_v482 : Ref sig .tc := ⟨.hbm, 982, rfl⟩
abbrev main_c_409 : Ref sig .tc := ⟨.hbm, 983, rfl⟩
abbrev main_c_410 : Ref sig .tc := ⟨.hbm, 984, rfl⟩
abbrev main_call29_v0 : Ref sig .tc := ⟨.hbm, 985, rfl⟩
abbrev main_call29_v1 : Ref sig .tc := ⟨.hbm, 986, rfl⟩
abbrev main_call29_v2 : Ref sig .tc := ⟨.hbm, 987, rfl⟩
abbrev main_v483 : Ref sig .tc := ⟨.hbm, 988, rfl⟩
abbrev main_v484 : Ref sig .tc := ⟨.hbm, 989, rfl⟩
abbrev main_v485 : Ref sig .tc := ⟨.hbm, 990, rfl⟩
abbrev main_c_411 : Ref sig .tc := ⟨.hbm, 991, rfl⟩
abbrev main_c_412 : Ref sig .tc := ⟨.hbm, 992, rfl⟩
abbrev main_v486 : Ref sig .tc := ⟨.hbm, 993, rfl⟩
abbrev main_c_413 : Ref sig .tc := ⟨.hbm, 994, rfl⟩
abbrev main_c_414 : Ref sig .tc := ⟨.hbm, 995, rfl⟩
abbrev main_v487 : Ref sig .tc := ⟨.hbm, 996, rfl⟩
abbrev main_c_415 : Ref sig .tc := ⟨.hbm, 997, rfl⟩
abbrev main_v488 : Ref sig .tc := ⟨.hbm, 998, rfl⟩
abbrev main_c_416 : Ref sig .tc := ⟨.hbm, 999, rfl⟩
abbrev main_v489 : Ref sig .tc := ⟨.hbm, 1000, rfl⟩
abbrev main_c_417 : Ref sig .tc := ⟨.hbm, 1001, rfl⟩
abbrev main_v490 : Ref sig .tc := ⟨.hbm, 1002, rfl⟩
abbrev main_v491 : Ref sig .tc := ⟨.hbm, 1003, rfl⟩
abbrev main_c_418 : Ref sig .tc := ⟨.hbm, 1004, rfl⟩
abbrev main_v492 : Ref sig .tc := ⟨.hbm, 1005, rfl⟩
abbrev main_c_419 : Ref sig .tc := ⟨.hbm, 1006, rfl⟩
abbrev main_v493 : Ref sig .tc := ⟨.hbm, 1007, rfl⟩
abbrev main_v494 : Ref sig .tc := ⟨.hbm, 1008, rfl⟩
abbrev main_v495 : Ref sig .tc := ⟨.hbm, 1009, rfl⟩
abbrev main_v496 : Ref sig .tc := ⟨.hbm, 1010, rfl⟩
abbrev main_c_420 : Ref sig .tc := ⟨.hbm, 1011, rfl⟩
abbrev main_c_421 : Ref sig .tc := ⟨.hbm, 1012, rfl⟩
abbrev main_v497 : Ref sig .tc := ⟨.hbm, 1013, rfl⟩
abbrev main_c_422 : Ref sig .tc := ⟨.hbm, 1014, rfl⟩
abbrev main_c_423 : Ref sig .tc := ⟨.hbm, 1015, rfl⟩
abbrev main_v498 : Ref sig .tc := ⟨.hbm, 1016, rfl⟩
abbrev main_c_424 : Ref sig .tc := ⟨.hbm, 1017, rfl⟩
abbrev main_v499 : Ref sig .tc := ⟨.hbm, 1018, rfl⟩
abbrev main_c_425 : Ref sig .tc := ⟨.hbm, 1019, rfl⟩
abbrev main_c_426 : Ref sig .tc := ⟨.hbm, 1020, rfl⟩
abbrev main_v500 : Ref sig .tc := ⟨.hbm, 1021, rfl⟩
abbrev main_c_427 : Ref sig .tc := ⟨.hbm, 1022, rfl⟩
abbrev main_c_428 : Ref sig .tc := ⟨.hbm, 1023, rfl⟩
abbrev main_v501 : Ref sig .tc := ⟨.hbm, 1024, rfl⟩
abbrev main_c_429 : Ref sig .tc := ⟨.hbm, 1025, rfl⟩
abbrev main_v502 : Ref sig .tc := ⟨.hbm, 1026, rfl⟩
abbrev main_c_430 : Ref sig .tc := ⟨.hbm, 1027, rfl⟩
abbrev main_v503 : Ref sig .tc := ⟨.hbm, 1028, rfl⟩
abbrev main_c_431 : Ref sig .tc := ⟨.hbm, 1029, rfl⟩
abbrev main_v504 : Ref sig .tc := ⟨.hbm, 1030, rfl⟩
abbrev main_v505 : Ref sig .tc := ⟨.hbm, 1031, rfl⟩
abbrev main_c_432 : Ref sig .tc := ⟨.hbm, 1032, rfl⟩
abbrev main_v506 : Ref sig .tc := ⟨.hbm, 1033, rfl⟩
abbrev main_c_433 : Ref sig .tc := ⟨.hbm, 1034, rfl⟩
abbrev main_v507 : Ref sig .tc := ⟨.hbm, 1035, rfl⟩
abbrev main_v508 : Ref sig .tc := ⟨.hbm, 1036, rfl⟩
abbrev main_v509 : Ref sig .tc := ⟨.hbm, 1037, rfl⟩
abbrev main_v510 : Ref sig .tc := ⟨.hbm, 1038, rfl⟩
abbrev main_v511 : Ref sig .tc := ⟨.hbm, 1039, rfl⟩
abbrev main_c_434 : Ref sig .tc := ⟨.hbm, 1040, rfl⟩
abbrev main_v512 : Ref sig .tc := ⟨.hbm, 1041, rfl⟩
abbrev main_c_435 : Ref sig .tc := ⟨.hbm, 1042, rfl⟩
abbrev main_c_436 : Ref sig .tc := ⟨.hbm, 1043, rfl⟩
abbrev main_call30_v0 : Ref sig .tc := ⟨.hbm, 1044, rfl⟩
abbrev main_call30_v1 : Ref sig .tc := ⟨.hbm, 1045, rfl⟩
abbrev main_call30_v2 : Ref sig .tc := ⟨.hbm, 1046, rfl⟩
abbrev main_v513 : Ref sig .tc := ⟨.hbm, 1047, rfl⟩
abbrev main_v514 : Ref sig .tc := ⟨.hbm, 1048, rfl⟩
abbrev main_v515 : Ref sig .tc := ⟨.hbm, 1049, rfl⟩
abbrev main_c_437 : Ref sig .tc := ⟨.hbm, 1050, rfl⟩
abbrev main_v516 : Ref sig .tc := ⟨.hbm, 1051, rfl⟩
abbrev main_c_438 : Ref sig .tc := ⟨.hbm, 1052, rfl⟩
abbrev main_c_439 : Ref sig .tc := ⟨.hbm, 1053, rfl⟩
abbrev main_call31_v0 : Ref sig .tc := ⟨.hbm, 1054, rfl⟩
abbrev main_call31_v1 : Ref sig .tc := ⟨.hbm, 1055, rfl⟩
abbrev main_call31_v2 : Ref sig .tc := ⟨.hbm, 1056, rfl⟩
abbrev main_v517 : Ref sig .tc := ⟨.hbm, 1057, rfl⟩
abbrev main_v518 : Ref sig .tc := ⟨.hbm, 1058, rfl⟩
abbrev main_v519 : Ref sig .tc := ⟨.hbm, 1059, rfl⟩
abbrev main_c_440 : Ref sig .tc := ⟨.hbm, 1060, rfl⟩
abbrev main_c_441 : Ref sig .tc := ⟨.hbm, 1061, rfl⟩
abbrev main_v520 : Ref sig .tc := ⟨.hbm, 1062, rfl⟩
abbrev main_c_442 : Ref sig .tc := ⟨.hbm, 1063, rfl⟩
abbrev main_c_443 : Ref sig .tc := ⟨.hbm, 1064, rfl⟩
abbrev main_v521 : Ref sig .tc := ⟨.hbm, 1065, rfl⟩
abbrev main_c_444 : Ref sig .tc := ⟨.hbm, 1066, rfl⟩
abbrev main_v522 : Ref sig .tc := ⟨.hbm, 1067, rfl⟩
abbrev main_c_445 : Ref sig .tc := ⟨.hbm, 1068, rfl⟩
abbrev main_v523 : Ref sig .tc := ⟨.hbm, 1069, rfl⟩
abbrev main_c_446 : Ref sig .tc := ⟨.hbm, 1070, rfl⟩
abbrev main_v524 : Ref sig .tc := ⟨.hbm, 1071, rfl⟩
abbrev main_v525 : Ref sig .tc := ⟨.hbm, 1072, rfl⟩
abbrev main_c_447 : Ref sig .tc := ⟨.hbm, 1073, rfl⟩
abbrev main_v526 : Ref sig .tc := ⟨.hbm, 1074, rfl⟩
abbrev main_c_448 : Ref sig .tc := ⟨.hbm, 1075, rfl⟩
abbrev main_v527 : Ref sig .tc := ⟨.hbm, 1076, rfl⟩
abbrev main_v528 : Ref sig .tc := ⟨.hbm, 1077, rfl⟩
abbrev main_v529 : Ref sig .tc := ⟨.hbm, 1078, rfl⟩
abbrev main_v530 : Ref sig .tc := ⟨.hbm, 1079, rfl⟩
abbrev main_c_449 : Ref sig .tc := ⟨.hbm, 1080, rfl⟩
abbrev main_c_450 : Ref sig .tc := ⟨.hbm, 1081, rfl⟩
abbrev main_v531 : Ref sig .tc := ⟨.hbm, 1082, rfl⟩
abbrev main_c_451 : Ref sig .tc := ⟨.hbm, 1083, rfl⟩
abbrev main_c_452 : Ref sig .tc := ⟨.hbm, 1084, rfl⟩
abbrev main_v532 : Ref sig .tc := ⟨.hbm, 1085, rfl⟩
abbrev main_c_453 : Ref sig .tc := ⟨.hbm, 1086, rfl⟩
abbrev main_v533 : Ref sig .tc := ⟨.hbm, 1087, rfl⟩
abbrev main_c_454 : Ref sig .tc := ⟨.hbm, 1088, rfl⟩
abbrev main_c_455 : Ref sig .tc := ⟨.hbm, 1089, rfl⟩
abbrev main_v534 : Ref sig .tc := ⟨.hbm, 1090, rfl⟩
abbrev main_c_456 : Ref sig .tc := ⟨.hbm, 1091, rfl⟩
abbrev main_c_457 : Ref sig .tc := ⟨.hbm, 1092, rfl⟩
abbrev main_v535 : Ref sig .tc := ⟨.hbm, 1093, rfl⟩
abbrev main_c_458 : Ref sig .tc := ⟨.hbm, 1094, rfl⟩
abbrev main_v536 : Ref sig .tc := ⟨.hbm, 1095, rfl⟩
abbrev main_c_459 : Ref sig .tc := ⟨.hbm, 1096, rfl⟩
abbrev main_v537 : Ref sig .tc := ⟨.hbm, 1097, rfl⟩
abbrev main_c_460 : Ref sig .tc := ⟨.hbm, 1098, rfl⟩
abbrev main_v538 : Ref sig .tc := ⟨.hbm, 1099, rfl⟩
abbrev main_v539 : Ref sig .tc := ⟨.hbm, 1100, rfl⟩
abbrev main_c_461 : Ref sig .tc := ⟨.hbm, 1101, rfl⟩
abbrev main_v540 : Ref sig .tc := ⟨.hbm, 1102, rfl⟩
abbrev main_c_462 : Ref sig .tc := ⟨.hbm, 1103, rfl⟩
abbrev main_v541 : Ref sig .tc := ⟨.hbm, 1104, rfl⟩
abbrev main_v542 : Ref sig .tc := ⟨.hbm, 1105, rfl⟩
abbrev main_v543 : Ref sig .tc := ⟨.hbm, 1106, rfl⟩
abbrev main_v544 : Ref sig .tc := ⟨.hbm, 1107, rfl⟩
abbrev main_v545 : Ref sig .tc := ⟨.hbm, 1108, rfl⟩
abbrev main_c_463 : Ref sig .tc := ⟨.hbm, 1109, rfl⟩
abbrev main_v546 : Ref sig .tc := ⟨.hbm, 1110, rfl⟩
abbrev main_c_464 : Ref sig .tc := ⟨.hbm, 1111, rfl⟩
abbrev main_c_465 : Ref sig .tc := ⟨.hbm, 1112, rfl⟩
abbrev main_call32_v0 : Ref sig .tc := ⟨.hbm, 1113, rfl⟩
abbrev main_call32_v1 : Ref sig .tc := ⟨.hbm, 1114, rfl⟩
abbrev main_call32_v2 : Ref sig .tc := ⟨.hbm, 1115, rfl⟩
abbrev main_v547 : Ref sig .tc := ⟨.hbm, 1116, rfl⟩
abbrev main_v548 : Ref sig .tc := ⟨.hbm, 1117, rfl⟩
abbrev main_v549 : Ref sig .tc := ⟨.hbm, 1118, rfl⟩
abbrev main_c_466 : Ref sig .tc := ⟨.hbm, 1119, rfl⟩
abbrev main_v550 : Ref sig .tc := ⟨.hbm, 1120, rfl⟩
abbrev main_c_467 : Ref sig .tc := ⟨.hbm, 1121, rfl⟩
abbrev main_c_468 : Ref sig .tc := ⟨.hbm, 1122, rfl⟩
abbrev main_call33_v0 : Ref sig .tc := ⟨.hbm, 1123, rfl⟩
abbrev main_call33_v1 : Ref sig .tc := ⟨.hbm, 1124, rfl⟩
abbrev main_call33_v2 : Ref sig .tc := ⟨.hbm, 1125, rfl⟩
abbrev main_v551 : Ref sig .tc := ⟨.hbm, 1126, rfl⟩
abbrev main_v552 : Ref sig .tc := ⟨.hbm, 1127, rfl⟩
abbrev main_v553 : Ref sig .tc := ⟨.hbm, 1128, rfl⟩
abbrev main_c_469 : Ref sig .tc := ⟨.hbm, 1129, rfl⟩
abbrev main_c_470 : Ref sig .tc := ⟨.hbm, 1130, rfl⟩
abbrev main_v554 : Ref sig .tc := ⟨.hbm, 1131, rfl⟩
abbrev main_c_471 : Ref sig .tc := ⟨.hbm, 1132, rfl⟩
abbrev main_c_472 : Ref sig .tc := ⟨.hbm, 1133, rfl⟩
abbrev main_v555 : Ref sig .tc := ⟨.hbm, 1134, rfl⟩
abbrev main_c_473 : Ref sig .tc := ⟨.hbm, 1135, rfl⟩
abbrev main_v556 : Ref sig .tc := ⟨.hbm, 1136, rfl⟩
abbrev main_c_474 : Ref sig .tc := ⟨.hbm, 1137, rfl⟩
abbrev main_v557 : Ref sig .tc := ⟨.hbm, 1138, rfl⟩
abbrev main_c_475 : Ref sig .tc := ⟨.hbm, 1139, rfl⟩
abbrev main_v558 : Ref sig .tc := ⟨.hbm, 1140, rfl⟩
abbrev main_v559 : Ref sig .tc := ⟨.hbm, 1141, rfl⟩
abbrev main_c_476 : Ref sig .tc := ⟨.hbm, 1142, rfl⟩
abbrev main_v560 : Ref sig .tc := ⟨.hbm, 1143, rfl⟩
abbrev main_c_477 : Ref sig .tc := ⟨.hbm, 1144, rfl⟩
abbrev main_v561 : Ref sig .tc := ⟨.hbm, 1145, rfl⟩
abbrev main_v562 : Ref sig .tc := ⟨.hbm, 1146, rfl⟩
abbrev main_v563 : Ref sig .tc := ⟨.hbm, 1147, rfl⟩
abbrev main_v564 : Ref sig .tc := ⟨.hbm, 1148, rfl⟩
abbrev main_c_478 : Ref sig .tc := ⟨.hbm, 1149, rfl⟩
abbrev main_c_479 : Ref sig .tc := ⟨.hbm, 1150, rfl⟩
abbrev main_v565 : Ref sig .tc := ⟨.hbm, 1151, rfl⟩
abbrev main_c_480 : Ref sig .tc := ⟨.hbm, 1152, rfl⟩
abbrev main_c_481 : Ref sig .tc := ⟨.hbm, 1153, rfl⟩
abbrev main_v566 : Ref sig .tc := ⟨.hbm, 1154, rfl⟩
abbrev main_c_482 : Ref sig .tc := ⟨.hbm, 1155, rfl⟩
abbrev main_v567 : Ref sig .tc := ⟨.hbm, 1156, rfl⟩
abbrev main_c_483 : Ref sig .tc := ⟨.hbm, 1157, rfl⟩
abbrev main_c_484 : Ref sig .tc := ⟨.hbm, 1158, rfl⟩
abbrev main_v568 : Ref sig .tc := ⟨.hbm, 1159, rfl⟩
abbrev main_c_485 : Ref sig .tc := ⟨.hbm, 1160, rfl⟩
abbrev main_c_486 : Ref sig .tc := ⟨.hbm, 1161, rfl⟩
abbrev main_v569 : Ref sig .tc := ⟨.hbm, 1162, rfl⟩
abbrev main_c_487 : Ref sig .tc := ⟨.hbm, 1163, rfl⟩
abbrev main_v570 : Ref sig .tc := ⟨.hbm, 1164, rfl⟩
abbrev main_c_488 : Ref sig .tc := ⟨.hbm, 1165, rfl⟩
abbrev main_v571 : Ref sig .tc := ⟨.hbm, 1166, rfl⟩
abbrev main_c_489 : Ref sig .tc := ⟨.hbm, 1167, rfl⟩
abbrev main_v572 : Ref sig .tc := ⟨.hbm, 1168, rfl⟩
abbrev main_v573 : Ref sig .tc := ⟨.hbm, 1169, rfl⟩
abbrev main_c_490 : Ref sig .tc := ⟨.hbm, 1170, rfl⟩
abbrev main_v574 : Ref sig .tc := ⟨.hbm, 1171, rfl⟩
abbrev main_c_491 : Ref sig .tc := ⟨.hbm, 1172, rfl⟩
abbrev main_v575 : Ref sig .tc := ⟨.hbm, 1173, rfl⟩
abbrev main_v576 : Ref sig .tc := ⟨.hbm, 1174, rfl⟩
abbrev main_v577 : Ref sig .tc := ⟨.hbm, 1175, rfl⟩
abbrev main_v578 : Ref sig .tc := ⟨.hbm, 1176, rfl⟩
abbrev main_v579 : Ref sig .tc := ⟨.hbm, 1177, rfl⟩
abbrev main_c_492 : Ref sig .tc := ⟨.hbm, 1178, rfl⟩
abbrev main_v580 : Ref sig .tc := ⟨.hbm, 1179, rfl⟩
abbrev main_c_493 : Ref sig .tc := ⟨.hbm, 1180, rfl⟩
abbrev main_c_494 : Ref sig .tc := ⟨.hbm, 1181, rfl⟩
abbrev main_call34_v0 : Ref sig .tc := ⟨.hbm, 1182, rfl⟩
abbrev main_call34_v1 : Ref sig .tc := ⟨.hbm, 1183, rfl⟩
abbrev main_call34_v2 : Ref sig .tc := ⟨.hbm, 1184, rfl⟩
abbrev main_v581 : Ref sig .tc := ⟨.hbm, 1185, rfl⟩
abbrev main_v582 : Ref sig .tc := ⟨.hbm, 1186, rfl⟩
abbrev main_v583 : Ref sig .tc := ⟨.hbm, 1187, rfl⟩
abbrev main_c_495 : Ref sig .tc := ⟨.hbm, 1188, rfl⟩
abbrev main_v584 : Ref sig .tc := ⟨.hbm, 1189, rfl⟩
abbrev main_c_496 : Ref sig .tc := ⟨.hbm, 1190, rfl⟩
abbrev main_c_497 : Ref sig .tc := ⟨.hbm, 1191, rfl⟩
abbrev main_call35_v0 : Ref sig .tc := ⟨.hbm, 1192, rfl⟩
abbrev main_call35_v1 : Ref sig .tc := ⟨.hbm, 1193, rfl⟩
abbrev main_call35_v2 : Ref sig .tc := ⟨.hbm, 1194, rfl⟩
abbrev main_v585 : Ref sig .tc := ⟨.hbm, 1195, rfl⟩
abbrev main_v586 : Ref sig .tc := ⟨.hbm, 1196, rfl⟩
abbrev main_v587 : Ref sig .tc := ⟨.hbm, 1197, rfl⟩
abbrev main_c_498 : Ref sig .tc := ⟨.hbm, 1198, rfl⟩
abbrev main_c_499 : Ref sig .tc := ⟨.hbm, 1199, rfl⟩
abbrev main_v588 : Ref sig .tc := ⟨.hbm, 1200, rfl⟩
abbrev main_c_500 : Ref sig .tc := ⟨.hbm, 1201, rfl⟩
abbrev main_c_501 : Ref sig .tc := ⟨.hbm, 1202, rfl⟩
abbrev main_v589 : Ref sig .tc := ⟨.hbm, 1203, rfl⟩
abbrev main_c_502 : Ref sig .tc := ⟨.hbm, 1204, rfl⟩
abbrev main_v590 : Ref sig .tc := ⟨.hbm, 1205, rfl⟩
abbrev main_c_503 : Ref sig .tc := ⟨.hbm, 1206, rfl⟩
abbrev main_v591 : Ref sig .tc := ⟨.hbm, 1207, rfl⟩
abbrev main_c_504 : Ref sig .tc := ⟨.hbm, 1208, rfl⟩
abbrev main_v592 : Ref sig .tc := ⟨.hbm, 1209, rfl⟩
abbrev main_v593 : Ref sig .tc := ⟨.hbm, 1210, rfl⟩
abbrev main_c_505 : Ref sig .tc := ⟨.hbm, 1211, rfl⟩
abbrev main_v594 : Ref sig .tc := ⟨.hbm, 1212, rfl⟩
abbrev main_c_506 : Ref sig .tc := ⟨.hbm, 1213, rfl⟩
abbrev main_v595 : Ref sig .tc := ⟨.hbm, 1214, rfl⟩
abbrev main_v596 : Ref sig .tc := ⟨.hbm, 1215, rfl⟩
abbrev main_v597 : Ref sig .tc := ⟨.hbm, 1216, rfl⟩
abbrev main_v598 : Ref sig .tc := ⟨.hbm, 1217, rfl⟩
abbrev main_c_507 : Ref sig .tc := ⟨.hbm, 1218, rfl⟩
abbrev main_c_508 : Ref sig .tc := ⟨.hbm, 1219, rfl⟩
abbrev main_v599 : Ref sig .tc := ⟨.hbm, 1220, rfl⟩
abbrev main_c_509 : Ref sig .tc := ⟨.hbm, 1221, rfl⟩
abbrev main_c_510 : Ref sig .tc := ⟨.hbm, 1222, rfl⟩
abbrev main_v600 : Ref sig .tc := ⟨.hbm, 1223, rfl⟩
abbrev main_c_511 : Ref sig .tc := ⟨.hbm, 1224, rfl⟩
abbrev main_v601 : Ref sig .tc := ⟨.hbm, 1225, rfl⟩
abbrev main_c_512 : Ref sig .tc := ⟨.hbm, 1226, rfl⟩
abbrev main_c_513 : Ref sig .tc := ⟨.hbm, 1227, rfl⟩
abbrev main_v602 : Ref sig .tc := ⟨.hbm, 1228, rfl⟩
abbrev main_c_514 : Ref sig .tc := ⟨.hbm, 1229, rfl⟩
abbrev main_c_515 : Ref sig .tc := ⟨.hbm, 1230, rfl⟩
abbrev main_v603 : Ref sig .tc := ⟨.hbm, 1231, rfl⟩
abbrev main_c_516 : Ref sig .tc := ⟨.hbm, 1232, rfl⟩
abbrev main_v604 : Ref sig .tc := ⟨.hbm, 1233, rfl⟩
abbrev main_c_517 : Ref sig .tc := ⟨.hbm, 1234, rfl⟩
abbrev main_v605 : Ref sig .tc := ⟨.hbm, 1235, rfl⟩
abbrev main_c_518 : Ref sig .tc := ⟨.hbm, 1236, rfl⟩
abbrev main_v606 : Ref sig .tc := ⟨.hbm, 1237, rfl⟩
abbrev main_v607 : Ref sig .tc := ⟨.hbm, 1238, rfl⟩
abbrev main_c_519 : Ref sig .tc := ⟨.hbm, 1239, rfl⟩
abbrev main_v608 : Ref sig .tc := ⟨.hbm, 1240, rfl⟩
abbrev main_c_520 : Ref sig .tc := ⟨.hbm, 1241, rfl⟩
abbrev main_v609 : Ref sig .tc := ⟨.hbm, 1242, rfl⟩
abbrev main_v610 : Ref sig .tc := ⟨.hbm, 1243, rfl⟩
abbrev main_v611 : Ref sig .tc := ⟨.hbm, 1244, rfl⟩
abbrev main_v612 : Ref sig .tc := ⟨.hbm, 1245, rfl⟩
abbrev main_v613 : Ref sig .tc := ⟨.hbm, 1246, rfl⟩
abbrev main_c_521 : Ref sig .tc := ⟨.hbm, 1247, rfl⟩
abbrev main_v614 : Ref sig .tc := ⟨.hbm, 1248, rfl⟩
abbrev main_c_522 : Ref sig .tc := ⟨.hbm, 1249, rfl⟩
abbrev main_c_523 : Ref sig .tc := ⟨.hbm, 1250, rfl⟩
abbrev main_call36_v0 : Ref sig .tc := ⟨.hbm, 1251, rfl⟩
abbrev main_call36_v1 : Ref sig .tc := ⟨.hbm, 1252, rfl⟩
abbrev main_call36_v2 : Ref sig .tc := ⟨.hbm, 1253, rfl⟩
abbrev main_v615 : Ref sig .tc := ⟨.hbm, 1254, rfl⟩
abbrev main_v616 : Ref sig .tc := ⟨.hbm, 1255, rfl⟩
abbrev main_v617 : Ref sig .tc := ⟨.hbm, 1256, rfl⟩
abbrev main_c_524 : Ref sig .tc := ⟨.hbm, 1257, rfl⟩
abbrev main_v618 : Ref sig .tc := ⟨.hbm, 1258, rfl⟩
abbrev main_c_525 : Ref sig .tc := ⟨.hbm, 1259, rfl⟩
abbrev main_c_526 : Ref sig .tc := ⟨.hbm, 1260, rfl⟩
abbrev main_call37_v0 : Ref sig .tc := ⟨.hbm, 1261, rfl⟩
abbrev main_call37_v1 : Ref sig .tc := ⟨.hbm, 1262, rfl⟩
abbrev main_call37_v2 : Ref sig .tc := ⟨.hbm, 1263, rfl⟩
abbrev main_v619 : Ref sig .tc := ⟨.hbm, 1264, rfl⟩
abbrev main_v620 : Ref sig .tc := ⟨.hbm, 1265, rfl⟩
abbrev main_v621 : Ref sig .tc := ⟨.hbm, 1266, rfl⟩
abbrev main_c_527 : Ref sig .tc := ⟨.hbm, 1267, rfl⟩
abbrev main_c_528 : Ref sig .tc := ⟨.hbm, 1268, rfl⟩
abbrev main_v622 : Ref sig .tc := ⟨.hbm, 1269, rfl⟩
abbrev main_c_529 : Ref sig .tc := ⟨.hbm, 1270, rfl⟩
abbrev main_c_530 : Ref sig .tc := ⟨.hbm, 1271, rfl⟩
abbrev main_v623 : Ref sig .tc := ⟨.hbm, 1272, rfl⟩
abbrev main_c_531 : Ref sig .tc := ⟨.hbm, 1273, rfl⟩
abbrev main_v624 : Ref sig .tc := ⟨.hbm, 1274, rfl⟩
abbrev main_c_532 : Ref sig .tc := ⟨.hbm, 1275, rfl⟩
abbrev main_v625 : Ref sig .tc := ⟨.hbm, 1276, rfl⟩
abbrev main_c_533 : Ref sig .tc := ⟨.hbm, 1277, rfl⟩
abbrev main_v626 : Ref sig .tc := ⟨.hbm, 1278, rfl⟩
abbrev main_v627 : Ref sig .tc := ⟨.hbm, 1279, rfl⟩
abbrev main_c_534 : Ref sig .tc := ⟨.hbm, 1280, rfl⟩
abbrev main_v628 : Ref sig .tc := ⟨.hbm, 1281, rfl⟩
abbrev main_c_535 : Ref sig .tc := ⟨.hbm, 1282, rfl⟩
abbrev main_v629 : Ref sig .tc := ⟨.hbm, 1283, rfl⟩
abbrev main_v630 : Ref sig .tc := ⟨.hbm, 1284, rfl⟩
abbrev main_v631 : Ref sig .tc := ⟨.hbm, 1285, rfl⟩
abbrev main_v632 : Ref sig .tc := ⟨.hbm, 1286, rfl⟩
abbrev main_c_536 : Ref sig .tc := ⟨.hbm, 1287, rfl⟩
abbrev main_c_537 : Ref sig .tc := ⟨.hbm, 1288, rfl⟩
abbrev main_v633 : Ref sig .tc := ⟨.hbm, 1289, rfl⟩
abbrev main_c_538 : Ref sig .tc := ⟨.hbm, 1290, rfl⟩
abbrev main_c_539 : Ref sig .tc := ⟨.hbm, 1291, rfl⟩
abbrev main_v634 : Ref sig .tc := ⟨.hbm, 1292, rfl⟩
abbrev main_c_540 : Ref sig .tc := ⟨.hbm, 1293, rfl⟩
abbrev main_v635 : Ref sig .tc := ⟨.hbm, 1294, rfl⟩
abbrev main_c_541 : Ref sig .tc := ⟨.hbm, 1295, rfl⟩
abbrev main_c_542 : Ref sig .tc := ⟨.hbm, 1296, rfl⟩
abbrev main_v636 : Ref sig .tc := ⟨.hbm, 1297, rfl⟩
abbrev main_c_543 : Ref sig .tc := ⟨.hbm, 1298, rfl⟩
abbrev main_c_544 : Ref sig .tc := ⟨.hbm, 1299, rfl⟩
abbrev main_v637 : Ref sig .tc := ⟨.hbm, 1300, rfl⟩
abbrev main_c_545 : Ref sig .tc := ⟨.hbm, 1301, rfl⟩
abbrev main_v638 : Ref sig .tc := ⟨.hbm, 1302, rfl⟩
abbrev main_c_546 : Ref sig .tc := ⟨.hbm, 1303, rfl⟩
abbrev main_v639 : Ref sig .tc := ⟨.hbm, 1304, rfl⟩
abbrev main_c_547 : Ref sig .tc := ⟨.hbm, 1305, rfl⟩
abbrev main_v640 : Ref sig .tc := ⟨.hbm, 1306, rfl⟩
abbrev main_v641 : Ref sig .tc := ⟨.hbm, 1307, rfl⟩
abbrev main_c_548 : Ref sig .tc := ⟨.hbm, 1308, rfl⟩
abbrev main_v642 : Ref sig .tc := ⟨.hbm, 1309, rfl⟩
abbrev main_c_549 : Ref sig .tc := ⟨.hbm, 1310, rfl⟩
abbrev main_v643 : Ref sig .tc := ⟨.hbm, 1311, rfl⟩
abbrev main_v644 : Ref sig .tc := ⟨.hbm, 1312, rfl⟩
abbrev main_v645 : Ref sig .tc := ⟨.hbm, 1313, rfl⟩
abbrev main_v646 : Ref sig .tc := ⟨.hbm, 1314, rfl⟩
abbrev main_v647 : Ref sig .tc := ⟨.hbm, 1315, rfl⟩
abbrev main_c_550 : Ref sig .tc := ⟨.hbm, 1316, rfl⟩
abbrev main_v648 : Ref sig .tc := ⟨.hbm, 1317, rfl⟩
abbrev main_c_551 : Ref sig .tc := ⟨.hbm, 1318, rfl⟩
abbrev main_c_552 : Ref sig .tc := ⟨.hbm, 1319, rfl⟩
abbrev main_call38_v0 : Ref sig .tc := ⟨.hbm, 1320, rfl⟩
abbrev main_call38_v1 : Ref sig .tc := ⟨.hbm, 1321, rfl⟩
abbrev main_call38_v2 : Ref sig .tc := ⟨.hbm, 1322, rfl⟩
abbrev main_v649 : Ref sig .tc := ⟨.hbm, 1323, rfl⟩
abbrev main_v650 : Ref sig .tc := ⟨.hbm, 1324, rfl⟩
abbrev main_v651 : Ref sig .tc := ⟨.hbm, 1325, rfl⟩
abbrev main_c_553 : Ref sig .tc := ⟨.hbm, 1326, rfl⟩
abbrev main_v652 : Ref sig .tc := ⟨.hbm, 1327, rfl⟩
abbrev main_c_554 : Ref sig .tc := ⟨.hbm, 1328, rfl⟩
abbrev main_c_555 : Ref sig .tc := ⟨.hbm, 1329, rfl⟩
abbrev main_call39_v0 : Ref sig .tc := ⟨.hbm, 1330, rfl⟩
abbrev main_call39_v1 : Ref sig .tc := ⟨.hbm, 1331, rfl⟩
abbrev main_call39_v2 : Ref sig .tc := ⟨.hbm, 1332, rfl⟩
abbrev main_v653 : Ref sig .tc := ⟨.hbm, 1333, rfl⟩
abbrev main_v654 : Ref sig .tc := ⟨.hbm, 1334, rfl⟩
abbrev main_v655 : Ref sig .tc := ⟨.hbm, 1335, rfl⟩
abbrev main_c_556 : Ref sig .tc := ⟨.hbm, 1336, rfl⟩
abbrev main_c_557 : Ref sig .tc := ⟨.hbm, 1337, rfl⟩
abbrev main_v656 : Ref sig .tc := ⟨.hbm, 1338, rfl⟩
abbrev main_c_558 : Ref sig .tc := ⟨.hbm, 1339, rfl⟩
abbrev main_c_559 : Ref sig .tc := ⟨.hbm, 1340, rfl⟩
abbrev main_v657 : Ref sig .tc := ⟨.hbm, 1341, rfl⟩
abbrev main_c_560 : Ref sig .tc := ⟨.hbm, 1342, rfl⟩
abbrev main_v658 : Ref sig .tc := ⟨.hbm, 1343, rfl⟩
abbrev main_c_561 : Ref sig .tc := ⟨.hbm, 1344, rfl⟩
abbrev main_v659 : Ref sig .tc := ⟨.hbm, 1345, rfl⟩
abbrev main_c_562 : Ref sig .tc := ⟨.hbm, 1346, rfl⟩
abbrev main_v660 : Ref sig .tc := ⟨.hbm, 1347, rfl⟩
abbrev main_v661 : Ref sig .tc := ⟨.hbm, 1348, rfl⟩
abbrev main_c_563 : Ref sig .tc := ⟨.hbm, 1349, rfl⟩
abbrev main_v662 : Ref sig .tc := ⟨.hbm, 1350, rfl⟩
abbrev main_c_564 : Ref sig .tc := ⟨.hbm, 1351, rfl⟩
abbrev main_v663 : Ref sig .tc := ⟨.hbm, 1352, rfl⟩
abbrev main_v664 : Ref sig .tc := ⟨.hbm, 1353, rfl⟩
abbrev main_v665 : Ref sig .tc := ⟨.hbm, 1354, rfl⟩
abbrev main_v666 : Ref sig .tc := ⟨.hbm, 1355, rfl⟩
abbrev main_c_565 : Ref sig .tc := ⟨.hbm, 1356, rfl⟩
abbrev main_c_566 : Ref sig .tc := ⟨.hbm, 1357, rfl⟩
abbrev main_v667 : Ref sig .tc := ⟨.hbm, 1358, rfl⟩
abbrev main_c_567 : Ref sig .tc := ⟨.hbm, 1359, rfl⟩
abbrev main_c_568 : Ref sig .tc := ⟨.hbm, 1360, rfl⟩
abbrev main_v668 : Ref sig .tc := ⟨.hbm, 1361, rfl⟩
abbrev main_c_569 : Ref sig .tc := ⟨.hbm, 1362, rfl⟩
abbrev main_v669 : Ref sig .tc := ⟨.hbm, 1363, rfl⟩
abbrev main_c_570 : Ref sig .tc := ⟨.hbm, 1364, rfl⟩
abbrev main_c_571 : Ref sig .tc := ⟨.hbm, 1365, rfl⟩
abbrev main_v670 : Ref sig .tc := ⟨.hbm, 1366, rfl⟩
abbrev main_c_572 : Ref sig .tc := ⟨.hbm, 1367, rfl⟩
abbrev main_c_573 : Ref sig .tc := ⟨.hbm, 1368, rfl⟩
abbrev main_v671 : Ref sig .tc := ⟨.hbm, 1369, rfl⟩
abbrev main_c_574 : Ref sig .tc := ⟨.hbm, 1370, rfl⟩
abbrev main_v672 : Ref sig .tc := ⟨.hbm, 1371, rfl⟩
abbrev main_c_575 : Ref sig .tc := ⟨.hbm, 1372, rfl⟩
abbrev main_v673 : Ref sig .tc := ⟨.hbm, 1373, rfl⟩
abbrev main_c_576 : Ref sig .tc := ⟨.hbm, 1374, rfl⟩
abbrev main_v674 : Ref sig .tc := ⟨.hbm, 1375, rfl⟩
abbrev main_v675 : Ref sig .tc := ⟨.hbm, 1376, rfl⟩
abbrev main_c_577 : Ref sig .tc := ⟨.hbm, 1377, rfl⟩
abbrev main_v676 : Ref sig .tc := ⟨.hbm, 1378, rfl⟩
abbrev main_c_578 : Ref sig .tc := ⟨.hbm, 1379, rfl⟩
abbrev main_v677 : Ref sig .tc := ⟨.hbm, 1380, rfl⟩
abbrev main_v678 : Ref sig .tc := ⟨.hbm, 1381, rfl⟩
abbrev main_v679 : Ref sig .tc := ⟨.hbm, 1382, rfl⟩
abbrev main_v680 : Ref sig .tc := ⟨.hbm, 1383, rfl⟩
abbrev main_v681 : Ref sig .tc := ⟨.hbm, 1384, rfl⟩
abbrev main_c_579 : Ref sig .tc := ⟨.hbm, 1385, rfl⟩
abbrev main_v682 : Ref sig .tc := ⟨.hbm, 1386, rfl⟩
abbrev main_c_580 : Ref sig .tc := ⟨.hbm, 1387, rfl⟩
abbrev main_c_581 : Ref sig .tc := ⟨.hbm, 1388, rfl⟩
abbrev main_call40_v0 : Ref sig .tc := ⟨.hbm, 1389, rfl⟩
abbrev main_call40_v1 : Ref sig .tc := ⟨.hbm, 1390, rfl⟩
abbrev main_call40_v2 : Ref sig .tc := ⟨.hbm, 1391, rfl⟩
abbrev main_v683 : Ref sig .tc := ⟨.hbm, 1392, rfl⟩
abbrev main_v684 : Ref sig .tc := ⟨.hbm, 1393, rfl⟩
abbrev main_v685 : Ref sig .tc := ⟨.hbm, 1394, rfl⟩
abbrev main_c_582 : Ref sig .tc := ⟨.hbm, 1395, rfl⟩
abbrev main_v686 : Ref sig .tc := ⟨.hbm, 1396, rfl⟩
abbrev main_c_583 : Ref sig .tc := ⟨.hbm, 1397, rfl⟩
abbrev main_c_584 : Ref sig .tc := ⟨.hbm, 1398, rfl⟩
abbrev main_call41_v0 : Ref sig .tc := ⟨.hbm, 1399, rfl⟩
abbrev main_call41_v1 : Ref sig .tc := ⟨.hbm, 1400, rfl⟩
abbrev main_call41_v2 : Ref sig .tc := ⟨.hbm, 1401, rfl⟩
abbrev main_v687 : Ref sig .tc := ⟨.hbm, 1402, rfl⟩
abbrev main_v688 : Ref sig .tc := ⟨.hbm, 1403, rfl⟩
abbrev main_v689 : Ref sig .tc := ⟨.hbm, 1404, rfl⟩
abbrev main_c_585 : Ref sig .tc := ⟨.hbm, 1405, rfl⟩
abbrev main_c_586 : Ref sig .tc := ⟨.hbm, 1406, rfl⟩
abbrev main_v690 : Ref sig .tc := ⟨.hbm, 1407, rfl⟩
abbrev main_c_587 : Ref sig .tc := ⟨.hbm, 1408, rfl⟩
abbrev main_c_588 : Ref sig .tc := ⟨.hbm, 1409, rfl⟩
abbrev main_v691 : Ref sig .tc := ⟨.hbm, 1410, rfl⟩
abbrev main_c_589 : Ref sig .tc := ⟨.hbm, 1411, rfl⟩
abbrev main_v692 : Ref sig .tc := ⟨.hbm, 1412, rfl⟩
abbrev main_c_590 : Ref sig .tc := ⟨.hbm, 1413, rfl⟩
abbrev main_v693 : Ref sig .tc := ⟨.hbm, 1414, rfl⟩
abbrev main_c_591 : Ref sig .tc := ⟨.hbm, 1415, rfl⟩
abbrev main_v694 : Ref sig .tc := ⟨.hbm, 1416, rfl⟩
abbrev main_v695 : Ref sig .tc := ⟨.hbm, 1417, rfl⟩
abbrev main_c_592 : Ref sig .tc := ⟨.hbm, 1418, rfl⟩
abbrev main_v696 : Ref sig .tc := ⟨.hbm, 1419, rfl⟩
abbrev main_c_593 : Ref sig .tc := ⟨.hbm, 1420, rfl⟩
abbrev main_v697 : Ref sig .tc := ⟨.hbm, 1421, rfl⟩
abbrev main_v698 : Ref sig .tc := ⟨.hbm, 1422, rfl⟩
abbrev main_v699 : Ref sig .tc := ⟨.hbm, 1423, rfl⟩
abbrev main_v700 : Ref sig .tc := ⟨.hbm, 1424, rfl⟩
abbrev main_c_594 : Ref sig .tc := ⟨.hbm, 1425, rfl⟩
abbrev main_c_595 : Ref sig .tc := ⟨.hbm, 1426, rfl⟩
abbrev main_v701 : Ref sig .tc := ⟨.hbm, 1427, rfl⟩
abbrev main_c_596 : Ref sig .tc := ⟨.hbm, 1428, rfl⟩
abbrev main_c_597 : Ref sig .tc := ⟨.hbm, 1429, rfl⟩
abbrev main_v702 : Ref sig .tc := ⟨.hbm, 1430, rfl⟩
abbrev main_c_598 : Ref sig .tc := ⟨.hbm, 1431, rfl⟩
abbrev main_v703 : Ref sig .tc := ⟨.hbm, 1432, rfl⟩
abbrev main_c_599 : Ref sig .tc := ⟨.hbm, 1433, rfl⟩
abbrev main_c_600 : Ref sig .tc := ⟨.hbm, 1434, rfl⟩
abbrev main_v704 : Ref sig .tc := ⟨.hbm, 1435, rfl⟩
abbrev main_c_601 : Ref sig .tc := ⟨.hbm, 1436, rfl⟩
abbrev main_c_602 : Ref sig .tc := ⟨.hbm, 1437, rfl⟩
abbrev main_v705 : Ref sig .tc := ⟨.hbm, 1438, rfl⟩
abbrev main_c_603 : Ref sig .tc := ⟨.hbm, 1439, rfl⟩
abbrev main_v706 : Ref sig .tc := ⟨.hbm, 1440, rfl⟩
abbrev main_c_604 : Ref sig .tc := ⟨.hbm, 1441, rfl⟩
abbrev main_v707 : Ref sig .tc := ⟨.hbm, 1442, rfl⟩
abbrev main_c_605 : Ref sig .tc := ⟨.hbm, 1443, rfl⟩
abbrev main_v708 : Ref sig .tc := ⟨.hbm, 1444, rfl⟩
abbrev main_v709 : Ref sig .tc := ⟨.hbm, 1445, rfl⟩
abbrev main_c_606 : Ref sig .tc := ⟨.hbm, 1446, rfl⟩
abbrev main_v710 : Ref sig .tc := ⟨.hbm, 1447, rfl⟩
abbrev main_c_607 : Ref sig .tc := ⟨.hbm, 1448, rfl⟩
abbrev main_v711 : Ref sig .tc := ⟨.hbm, 1449, rfl⟩
abbrev main_v712 : Ref sig .tc := ⟨.hbm, 1450, rfl⟩
abbrev main_v713 : Ref sig .tc := ⟨.hbm, 1451, rfl⟩
abbrev main_v714 : Ref sig .tc := ⟨.hbm, 1452, rfl⟩
abbrev main_v715 : Ref sig .tc := ⟨.hbm, 1453, rfl⟩
abbrev main_c_608 : Ref sig .tc := ⟨.hbm, 1454, rfl⟩
abbrev main_v716 : Ref sig .tc := ⟨.hbm, 1455, rfl⟩
abbrev main_c_609 : Ref sig .tc := ⟨.hbm, 1456, rfl⟩
abbrev main_c_610 : Ref sig .tc := ⟨.hbm, 1457, rfl⟩
abbrev main_call42_v0 : Ref sig .tc := ⟨.hbm, 1458, rfl⟩
abbrev main_call42_v1 : Ref sig .tc := ⟨.hbm, 1459, rfl⟩
abbrev main_call42_v2 : Ref sig .tc := ⟨.hbm, 1460, rfl⟩
abbrev main_v717 : Ref sig .tc := ⟨.hbm, 1461, rfl⟩
abbrev main_v718 : Ref sig .tc := ⟨.hbm, 1462, rfl⟩
abbrev main_v719 : Ref sig .tc := ⟨.hbm, 1463, rfl⟩
abbrev main_c_611 : Ref sig .tc := ⟨.hbm, 1464, rfl⟩
abbrev main_v720 : Ref sig .tc := ⟨.hbm, 1465, rfl⟩
abbrev main_c_612 : Ref sig .tc := ⟨.hbm, 1466, rfl⟩
abbrev main_c_613 : Ref sig .tc := ⟨.hbm, 1467, rfl⟩
abbrev main_call43_v0 : Ref sig .tc := ⟨.hbm, 1468, rfl⟩
abbrev main_call43_v1 : Ref sig .tc := ⟨.hbm, 1469, rfl⟩
abbrev main_call43_v2 : Ref sig .tc := ⟨.hbm, 1470, rfl⟩
abbrev main_v721 : Ref sig .tc := ⟨.hbm, 1471, rfl⟩
abbrev main_v722 : Ref sig .tc := ⟨.hbm, 1472, rfl⟩
abbrev main_v723 : Ref sig .tc := ⟨.hbm, 1473, rfl⟩
abbrev main_c_614 : Ref sig .tc := ⟨.hbm, 1474, rfl⟩
abbrev main_c_615 : Ref sig .tc := ⟨.hbm, 1475, rfl⟩
abbrev main_v724 : Ref sig .tc := ⟨.hbm, 1476, rfl⟩
abbrev main_c_616 : Ref sig .tc := ⟨.hbm, 1477, rfl⟩
abbrev main_c_617 : Ref sig .tc := ⟨.hbm, 1478, rfl⟩
abbrev main_v725 : Ref sig .tc := ⟨.hbm, 1479, rfl⟩
abbrev main_c_618 : Ref sig .tc := ⟨.hbm, 1480, rfl⟩
abbrev main_v726 : Ref sig .tc := ⟨.hbm, 1481, rfl⟩
abbrev main_c_619 : Ref sig .tc := ⟨.hbm, 1482, rfl⟩
abbrev main_v727 : Ref sig .tc := ⟨.hbm, 1483, rfl⟩
abbrev main_c_620 : Ref sig .tc := ⟨.hbm, 1484, rfl⟩
abbrev main_v728 : Ref sig .tc := ⟨.hbm, 1485, rfl⟩
abbrev main_v729 : Ref sig .tc := ⟨.hbm, 1486, rfl⟩
abbrev main_c_621 : Ref sig .tc := ⟨.hbm, 1487, rfl⟩
abbrev main_v730 : Ref sig .tc := ⟨.hbm, 1488, rfl⟩
abbrev main_c_622 : Ref sig .tc := ⟨.hbm, 1489, rfl⟩
abbrev main_v731 : Ref sig .tc := ⟨.hbm, 1490, rfl⟩
abbrev main_v732 : Ref sig .tc := ⟨.hbm, 1491, rfl⟩
abbrev main_v733 : Ref sig .tc := ⟨.hbm, 1492, rfl⟩
abbrev main_v734 : Ref sig .tc := ⟨.hbm, 1493, rfl⟩
abbrev main_c_623 : Ref sig .tc := ⟨.hbm, 1494, rfl⟩
abbrev main_c_624 : Ref sig .tc := ⟨.hbm, 1495, rfl⟩
abbrev main_v735 : Ref sig .tc := ⟨.hbm, 1496, rfl⟩
abbrev main_c_625 : Ref sig .tc := ⟨.hbm, 1497, rfl⟩
abbrev main_c_626 : Ref sig .tc := ⟨.hbm, 1498, rfl⟩
abbrev main_v736 : Ref sig .tc := ⟨.hbm, 1499, rfl⟩
abbrev main_c_627 : Ref sig .tc := ⟨.hbm, 1500, rfl⟩
abbrev main_v737 : Ref sig .tc := ⟨.hbm, 1501, rfl⟩
abbrev main_c_628 : Ref sig .tc := ⟨.hbm, 1502, rfl⟩
abbrev main_c_629 : Ref sig .tc := ⟨.hbm, 1503, rfl⟩
abbrev main_v738 : Ref sig .tc := ⟨.hbm, 1504, rfl⟩
abbrev main_c_630 : Ref sig .tc := ⟨.hbm, 1505, rfl⟩
abbrev main_c_631 : Ref sig .tc := ⟨.hbm, 1506, rfl⟩
abbrev main_v739 : Ref sig .tc := ⟨.hbm, 1507, rfl⟩
abbrev main_c_632 : Ref sig .tc := ⟨.hbm, 1508, rfl⟩
abbrev main_v740 : Ref sig .tc := ⟨.hbm, 1509, rfl⟩
abbrev main_c_633 : Ref sig .tc := ⟨.hbm, 1510, rfl⟩
abbrev main_v741 : Ref sig .tc := ⟨.hbm, 1511, rfl⟩
abbrev main_c_634 : Ref sig .tc := ⟨.hbm, 1512, rfl⟩
abbrev main_v742 : Ref sig .tc := ⟨.hbm, 1513, rfl⟩
abbrev main_v743 : Ref sig .tc := ⟨.hbm, 1514, rfl⟩
abbrev main_c_635 : Ref sig .tc := ⟨.hbm, 1515, rfl⟩
abbrev main_v744 : Ref sig .tc := ⟨.hbm, 1516, rfl⟩
abbrev main_c_636 : Ref sig .tc := ⟨.hbm, 1517, rfl⟩
abbrev main_v745 : Ref sig .tc := ⟨.hbm, 1518, rfl⟩
abbrev main_v746 : Ref sig .tc := ⟨.hbm, 1519, rfl⟩
abbrev main_v747 : Ref sig .tc := ⟨.hbm, 1520, rfl⟩
abbrev main_v748 : Ref sig .tc := ⟨.hbm, 1521, rfl⟩
abbrev main_v749 : Ref sig .tc := ⟨.hbm, 1522, rfl⟩
abbrev main_c_637 : Ref sig .tc := ⟨.hbm, 1523, rfl⟩
abbrev main_v750 : Ref sig .tc := ⟨.hbm, 1524, rfl⟩
abbrev main_c_638 : Ref sig .tc := ⟨.hbm, 1525, rfl⟩
abbrev main_c_639 : Ref sig .tc := ⟨.hbm, 1526, rfl⟩
abbrev main_call44_v0 : Ref sig .tc := ⟨.hbm, 1527, rfl⟩
abbrev main_call44_v1 : Ref sig .tc := ⟨.hbm, 1528, rfl⟩
abbrev main_call44_v2 : Ref sig .tc := ⟨.hbm, 1529, rfl⟩
abbrev main_v751 : Ref sig .tc := ⟨.hbm, 1530, rfl⟩
abbrev main_v752 : Ref sig .tc := ⟨.hbm, 1531, rfl⟩
abbrev main_v753 : Ref sig .tc := ⟨.hbm, 1532, rfl⟩
abbrev main_c_640 : Ref sig .tc := ⟨.hbm, 1533, rfl⟩
abbrev main_v754 : Ref sig .tc := ⟨.hbm, 1534, rfl⟩
abbrev main_c_641 : Ref sig .tc := ⟨.hbm, 1535, rfl⟩
abbrev main_c_642 : Ref sig .tc := ⟨.hbm, 1536, rfl⟩
abbrev main_call45_v0 : Ref sig .tc := ⟨.hbm, 1537, rfl⟩
abbrev main_call45_v1 : Ref sig .tc := ⟨.hbm, 1538, rfl⟩
abbrev main_call45_v2 : Ref sig .tc := ⟨.hbm, 1539, rfl⟩
abbrev main_v755 : Ref sig .tc := ⟨.hbm, 1540, rfl⟩
abbrev main_v756 : Ref sig .tc := ⟨.hbm, 1541, rfl⟩
abbrev main_v757 : Ref sig .tc := ⟨.hbm, 1542, rfl⟩
abbrev main_c_643 : Ref sig .tc := ⟨.hbm, 1543, rfl⟩
abbrev main_c_644 : Ref sig .tc := ⟨.hbm, 1544, rfl⟩
abbrev main_v758 : Ref sig .tc := ⟨.hbm, 1545, rfl⟩
abbrev main_c_645 : Ref sig .tc := ⟨.hbm, 1546, rfl⟩
abbrev main_c_646 : Ref sig .tc := ⟨.hbm, 1547, rfl⟩
abbrev main_v759 : Ref sig .tc := ⟨.hbm, 1548, rfl⟩
abbrev main_c_647 : Ref sig .tc := ⟨.hbm, 1549, rfl⟩
abbrev main_v760 : Ref sig .tc := ⟨.hbm, 1550, rfl⟩
abbrev main_c_648 : Ref sig .tc := ⟨.hbm, 1551, rfl⟩
abbrev main_v761 : Ref sig .tc := ⟨.hbm, 1552, rfl⟩
abbrev main_c_649 : Ref sig .tc := ⟨.hbm, 1553, rfl⟩
abbrev main_v762 : Ref sig .tc := ⟨.hbm, 1554, rfl⟩
abbrev main_v763 : Ref sig .tc := ⟨.hbm, 1555, rfl⟩
abbrev main_c_650 : Ref sig .tc := ⟨.hbm, 1556, rfl⟩
abbrev main_v764 : Ref sig .tc := ⟨.hbm, 1557, rfl⟩
abbrev main_c_651 : Ref sig .tc := ⟨.hbm, 1558, rfl⟩
abbrev main_v765 : Ref sig .tc := ⟨.hbm, 1559, rfl⟩
abbrev main_v766 : Ref sig .tc := ⟨.hbm, 1560, rfl⟩
abbrev main_v767 : Ref sig .tc := ⟨.hbm, 1561, rfl⟩
abbrev main_v768 : Ref sig .tc := ⟨.hbm, 1562, rfl⟩
abbrev main_c_652 : Ref sig .tc := ⟨.hbm, 1563, rfl⟩
abbrev main_c_653 : Ref sig .tc := ⟨.hbm, 1564, rfl⟩
abbrev main_v769 : Ref sig .tc := ⟨.hbm, 1565, rfl⟩
abbrev main_c_654 : Ref sig .tc := ⟨.hbm, 1566, rfl⟩
abbrev main_c_655 : Ref sig .tc := ⟨.hbm, 1567, rfl⟩
abbrev main_v770 : Ref sig .tc := ⟨.hbm, 1568, rfl⟩
abbrev main_c_656 : Ref sig .tc := ⟨.hbm, 1569, rfl⟩
abbrev main_v771 : Ref sig .tc := ⟨.hbm, 1570, rfl⟩
abbrev main_c_657 : Ref sig .tc := ⟨.hbm, 1571, rfl⟩
abbrev main_c_658 : Ref sig .tc := ⟨.hbm, 1572, rfl⟩
abbrev main_v772 : Ref sig .tc := ⟨.hbm, 1573, rfl⟩
abbrev main_c_659 : Ref sig .tc := ⟨.hbm, 1574, rfl⟩
abbrev main_c_660 : Ref sig .tc := ⟨.hbm, 1575, rfl⟩
abbrev main_v773 : Ref sig .tc := ⟨.hbm, 1576, rfl⟩
abbrev main_c_661 : Ref sig .tc := ⟨.hbm, 1577, rfl⟩
abbrev main_v774 : Ref sig .tc := ⟨.hbm, 1578, rfl⟩
abbrev main_c_662 : Ref sig .tc := ⟨.hbm, 1579, rfl⟩
abbrev main_v775 : Ref sig .tc := ⟨.hbm, 1580, rfl⟩
abbrev main_c_663 : Ref sig .tc := ⟨.hbm, 1581, rfl⟩
abbrev main_v776 : Ref sig .tc := ⟨.hbm, 1582, rfl⟩
abbrev main_v777 : Ref sig .tc := ⟨.hbm, 1583, rfl⟩
abbrev main_c_664 : Ref sig .tc := ⟨.hbm, 1584, rfl⟩
abbrev main_v778 : Ref sig .tc := ⟨.hbm, 1585, rfl⟩
abbrev main_c_665 : Ref sig .tc := ⟨.hbm, 1586, rfl⟩
abbrev main_v779 : Ref sig .tc := ⟨.hbm, 1587, rfl⟩
abbrev main_v780 : Ref sig .tc := ⟨.hbm, 1588, rfl⟩
abbrev main_v781 : Ref sig .tc := ⟨.hbm, 1589, rfl⟩
abbrev main_v782 : Ref sig .tc := ⟨.hbm, 1590, rfl⟩
abbrev main_v783 : Ref sig .tc := ⟨.hbm, 1591, rfl⟩
abbrev main_c_666 : Ref sig .tc := ⟨.hbm, 1592, rfl⟩
abbrev main_v784 : Ref sig .tc := ⟨.hbm, 1593, rfl⟩
abbrev main_c_667 : Ref sig .tc := ⟨.hbm, 1594, rfl⟩
abbrev main_c_668 : Ref sig .tc := ⟨.hbm, 1595, rfl⟩
abbrev main_call46_v0 : Ref sig .tc := ⟨.hbm, 1596, rfl⟩
abbrev main_call46_v1 : Ref sig .tc := ⟨.hbm, 1597, rfl⟩
abbrev main_call46_v2 : Ref sig .tc := ⟨.hbm, 1598, rfl⟩
abbrev main_v785 : Ref sig .tc := ⟨.hbm, 1599, rfl⟩
abbrev main_v786 : Ref sig .tc := ⟨.hbm, 1600, rfl⟩
abbrev main_v787 : Ref sig .tc := ⟨.hbm, 1601, rfl⟩
abbrev main_c_669 : Ref sig .tc := ⟨.hbm, 1602, rfl⟩
abbrev main_v788 : Ref sig .tc := ⟨.hbm, 1603, rfl⟩
abbrev main_c_670 : Ref sig .tc := ⟨.hbm, 1604, rfl⟩
abbrev main_c_671 : Ref sig .tc := ⟨.hbm, 1605, rfl⟩
abbrev main_call47_v0 : Ref sig .tc := ⟨.hbm, 1606, rfl⟩
abbrev main_call47_v1 : Ref sig .tc := ⟨.hbm, 1607, rfl⟩
abbrev main_call47_v2 : Ref sig .tc := ⟨.hbm, 1608, rfl⟩
abbrev main_v789 : Ref sig .tc := ⟨.hbm, 1609, rfl⟩
abbrev main_v790 : Ref sig .tc := ⟨.hbm, 1610, rfl⟩
abbrev main_v791 : Ref sig .tc := ⟨.hbm, 1611, rfl⟩
abbrev main_c_672 : Ref sig .tc := ⟨.hbm, 1612, rfl⟩
abbrev main_c_673 : Ref sig .tc := ⟨.hbm, 1613, rfl⟩
abbrev main_v792 : Ref sig .tc := ⟨.hbm, 1614, rfl⟩
abbrev main_c_674 : Ref sig .tc := ⟨.hbm, 1615, rfl⟩
abbrev main_c_675 : Ref sig .tc := ⟨.hbm, 1616, rfl⟩
abbrev main_v793 : Ref sig .tc := ⟨.hbm, 1617, rfl⟩
abbrev main_c_676 : Ref sig .tc := ⟨.hbm, 1618, rfl⟩
abbrev main_v794 : Ref sig .tc := ⟨.hbm, 1619, rfl⟩
abbrev main_c_677 : Ref sig .tc := ⟨.hbm, 1620, rfl⟩
abbrev main_v795 : Ref sig .tc := ⟨.hbm, 1621, rfl⟩
abbrev main_c_678 : Ref sig .tc := ⟨.hbm, 1622, rfl⟩
abbrev main_v796 : Ref sig .tc := ⟨.hbm, 1623, rfl⟩
abbrev main_v797 : Ref sig .tc := ⟨.hbm, 1624, rfl⟩
abbrev main_c_679 : Ref sig .tc := ⟨.hbm, 1625, rfl⟩
abbrev main_v798 : Ref sig .tc := ⟨.hbm, 1626, rfl⟩
abbrev main_c_680 : Ref sig .tc := ⟨.hbm, 1627, rfl⟩
abbrev main_v799 : Ref sig .tc := ⟨.hbm, 1628, rfl⟩
abbrev main_v800 : Ref sig .tc := ⟨.hbm, 1629, rfl⟩
abbrev main_v801 : Ref sig .tc := ⟨.hbm, 1630, rfl⟩
abbrev main_v802 : Ref sig .tc := ⟨.hbm, 1631, rfl⟩
abbrev main_c_681 : Ref sig .tc := ⟨.hbm, 1632, rfl⟩
abbrev main_c_682 : Ref sig .tc := ⟨.hbm, 1633, rfl⟩
abbrev main_v803 : Ref sig .tc := ⟨.hbm, 1634, rfl⟩
abbrev main_c_683 : Ref sig .tc := ⟨.hbm, 1635, rfl⟩
abbrev main_c_684 : Ref sig .tc := ⟨.hbm, 1636, rfl⟩
abbrev main_v804 : Ref sig .tc := ⟨.hbm, 1637, rfl⟩
abbrev main_c_685 : Ref sig .tc := ⟨.hbm, 1638, rfl⟩
abbrev main_v805 : Ref sig .tc := ⟨.hbm, 1639, rfl⟩
abbrev main_c_686 : Ref sig .tc := ⟨.hbm, 1640, rfl⟩
abbrev main_c_687 : Ref sig .tc := ⟨.hbm, 1641, rfl⟩
abbrev main_v806 : Ref sig .tc := ⟨.hbm, 1642, rfl⟩
abbrev main_c_688 : Ref sig .tc := ⟨.hbm, 1643, rfl⟩
abbrev main_c_689 : Ref sig .tc := ⟨.hbm, 1644, rfl⟩
abbrev main_v807 : Ref sig .tc := ⟨.hbm, 1645, rfl⟩
abbrev main_c_690 : Ref sig .tc := ⟨.hbm, 1646, rfl⟩
abbrev main_v808 : Ref sig .tc := ⟨.hbm, 1647, rfl⟩
abbrev main_c_691 : Ref sig .tc := ⟨.hbm, 1648, rfl⟩
abbrev main_v809 : Ref sig .tc := ⟨.hbm, 1649, rfl⟩
abbrev main_c_692 : Ref sig .tc := ⟨.hbm, 1650, rfl⟩
abbrev main_v810 : Ref sig .tc := ⟨.hbm, 1651, rfl⟩
abbrev main_v811 : Ref sig .tc := ⟨.hbm, 1652, rfl⟩
abbrev main_c_693 : Ref sig .tc := ⟨.hbm, 1653, rfl⟩
abbrev main_v812 : Ref sig .tc := ⟨.hbm, 1654, rfl⟩
abbrev main_c_694 : Ref sig .tc := ⟨.hbm, 1655, rfl⟩
abbrev main_v813 : Ref sig .tc := ⟨.hbm, 1656, rfl⟩
abbrev main_v814 : Ref sig .tc := ⟨.hbm, 1657, rfl⟩
abbrev main_v815 : Ref sig .tc := ⟨.hbm, 1658, rfl⟩
abbrev main_v816 : Ref sig .tc := ⟨.hbm, 1659, rfl⟩
abbrev main_v817 : Ref sig .tc := ⟨.hbm, 1660, rfl⟩
abbrev main_c_695 : Ref sig .tc := ⟨.hbm, 1661, rfl⟩
abbrev main_v818 : Ref sig .tc := ⟨.hbm, 1662, rfl⟩
abbrev main_c_696 : Ref sig .tc := ⟨.hbm, 1663, rfl⟩
abbrev main_c_697 : Ref sig .tc := ⟨.hbm, 1664, rfl⟩
abbrev main_call48_v0 : Ref sig .tc := ⟨.hbm, 1665, rfl⟩
abbrev main_call48_v1 : Ref sig .tc := ⟨.hbm, 1666, rfl⟩
abbrev main_call48_v2 : Ref sig .tc := ⟨.hbm, 1667, rfl⟩
abbrev main_v819 : Ref sig .tc := ⟨.hbm, 1668, rfl⟩
abbrev main_v820 : Ref sig .tc := ⟨.hbm, 1669, rfl⟩
abbrev main_v821 : Ref sig .tc := ⟨.hbm, 1670, rfl⟩
abbrev main_c_698 : Ref sig .tc := ⟨.hbm, 1671, rfl⟩
abbrev main_v822 : Ref sig .tc := ⟨.hbm, 1672, rfl⟩
abbrev main_c_699 : Ref sig .tc := ⟨.hbm, 1673, rfl⟩
abbrev main_c_700 : Ref sig .tc := ⟨.hbm, 1674, rfl⟩
abbrev main_call49_v0 : Ref sig .tc := ⟨.hbm, 1675, rfl⟩
abbrev main_call49_v1 : Ref sig .tc := ⟨.hbm, 1676, rfl⟩
abbrev main_call49_v2 : Ref sig .tc := ⟨.hbm, 1677, rfl⟩
abbrev main_v823 : Ref sig .tc := ⟨.hbm, 1678, rfl⟩
abbrev main_v824 : Ref sig .tc := ⟨.hbm, 1679, rfl⟩
abbrev main_v825 : Ref sig .tc := ⟨.hbm, 1680, rfl⟩
abbrev main_c_701 : Ref sig .tc := ⟨.hbm, 1681, rfl⟩
abbrev main_c_702 : Ref sig .tc := ⟨.hbm, 1682, rfl⟩
abbrev main_v826 : Ref sig .tc := ⟨.hbm, 1683, rfl⟩
abbrev main_c_703 : Ref sig .tc := ⟨.hbm, 1684, rfl⟩
abbrev main_c_704 : Ref sig .tc := ⟨.hbm, 1685, rfl⟩
abbrev main_v827 : Ref sig .tc := ⟨.hbm, 1686, rfl⟩
abbrev main_c_705 : Ref sig .tc := ⟨.hbm, 1687, rfl⟩
abbrev main_v828 : Ref sig .tc := ⟨.hbm, 1688, rfl⟩
abbrev main_c_706 : Ref sig .tc := ⟨.hbm, 1689, rfl⟩
abbrev main_v829 : Ref sig .tc := ⟨.hbm, 1690, rfl⟩
abbrev main_c_707 : Ref sig .tc := ⟨.hbm, 1691, rfl⟩
abbrev main_v830 : Ref sig .tc := ⟨.hbm, 1692, rfl⟩
abbrev main_v831 : Ref sig .tc := ⟨.hbm, 1693, rfl⟩
abbrev main_c_708 : Ref sig .tc := ⟨.hbm, 1694, rfl⟩
abbrev main_v832 : Ref sig .tc := ⟨.hbm, 1695, rfl⟩
abbrev main_c_709 : Ref sig .tc := ⟨.hbm, 1696, rfl⟩
abbrev main_v833 : Ref sig .tc := ⟨.hbm, 1697, rfl⟩
abbrev main_v834 : Ref sig .tc := ⟨.hbm, 1698, rfl⟩
abbrev main_v835 : Ref sig .tc := ⟨.hbm, 1699, rfl⟩
abbrev main_v836 : Ref sig .tc := ⟨.hbm, 1700, rfl⟩
abbrev main_c_710 : Ref sig .tc := ⟨.hbm, 1701, rfl⟩
abbrev main_c_711 : Ref sig .tc := ⟨.hbm, 1702, rfl⟩
abbrev main_v837 : Ref sig .tc := ⟨.hbm, 1703, rfl⟩
abbrev main_c_712 : Ref sig .tc := ⟨.hbm, 1704, rfl⟩
abbrev main_c_713 : Ref sig .tc := ⟨.hbm, 1705, rfl⟩
abbrev main_v838 : Ref sig .tc := ⟨.hbm, 1706, rfl⟩
abbrev main_c_714 : Ref sig .tc := ⟨.hbm, 1707, rfl⟩
abbrev main_v839 : Ref sig .tc := ⟨.hbm, 1708, rfl⟩
abbrev main_c_715 : Ref sig .tc := ⟨.hbm, 1709, rfl⟩
abbrev main_c_716 : Ref sig .tc := ⟨.hbm, 1710, rfl⟩
abbrev main_v840 : Ref sig .tc := ⟨.hbm, 1711, rfl⟩
abbrev main_c_717 : Ref sig .tc := ⟨.hbm, 1712, rfl⟩
abbrev main_c_718 : Ref sig .tc := ⟨.hbm, 1713, rfl⟩
abbrev main_v841 : Ref sig .tc := ⟨.hbm, 1714, rfl⟩
abbrev main_c_719 : Ref sig .tc := ⟨.hbm, 1715, rfl⟩
abbrev main_v842 : Ref sig .tc := ⟨.hbm, 1716, rfl⟩
abbrev main_c_720 : Ref sig .tc := ⟨.hbm, 1717, rfl⟩
abbrev main_v843 : Ref sig .tc := ⟨.hbm, 1718, rfl⟩
abbrev main_c_721 : Ref sig .tc := ⟨.hbm, 1719, rfl⟩
abbrev main_v844 : Ref sig .tc := ⟨.hbm, 1720, rfl⟩
abbrev main_v845 : Ref sig .tc := ⟨.hbm, 1721, rfl⟩
abbrev main_c_722 : Ref sig .tc := ⟨.hbm, 1722, rfl⟩
abbrev main_v846 : Ref sig .tc := ⟨.hbm, 1723, rfl⟩
abbrev main_c_723 : Ref sig .tc := ⟨.hbm, 1724, rfl⟩
abbrev main_v847 : Ref sig .tc := ⟨.hbm, 1725, rfl⟩
abbrev main_v848 : Ref sig .tc := ⟨.hbm, 1726, rfl⟩
abbrev main_v849 : Ref sig .tc := ⟨.hbm, 1727, rfl⟩
abbrev main_v850 : Ref sig .tc := ⟨.hbm, 1728, rfl⟩
abbrev main_v851 : Ref sig .tc := ⟨.hbm, 1729, rfl⟩
abbrev main_c_724 : Ref sig .tc := ⟨.hbm, 1730, rfl⟩
abbrev main_v852 : Ref sig .tc := ⟨.hbm, 1731, rfl⟩
abbrev main_c_725 : Ref sig .tc := ⟨.hbm, 1732, rfl⟩
abbrev main_c_726 : Ref sig .tc := ⟨.hbm, 1733, rfl⟩
abbrev main_call50_v0 : Ref sig .tc := ⟨.hbm, 1734, rfl⟩
abbrev main_call50_v1 : Ref sig .tc := ⟨.hbm, 1735, rfl⟩
abbrev main_call50_v2 : Ref sig .tc := ⟨.hbm, 1736, rfl⟩
abbrev main_v853 : Ref sig .tc := ⟨.hbm, 1737, rfl⟩
abbrev main_v854 : Ref sig .tc := ⟨.hbm, 1738, rfl⟩
abbrev main_v855 : Ref sig .tc := ⟨.hbm, 1739, rfl⟩
abbrev main_c_727 : Ref sig .tc := ⟨.hbm, 1740, rfl⟩
abbrev main_v856 : Ref sig .tc := ⟨.hbm, 1741, rfl⟩
abbrev main_c_728 : Ref sig .tc := ⟨.hbm, 1742, rfl⟩
abbrev main_c_729 : Ref sig .tc := ⟨.hbm, 1743, rfl⟩
abbrev main_call51_v0 : Ref sig .tc := ⟨.hbm, 1744, rfl⟩
abbrev main_call51_v1 : Ref sig .tc := ⟨.hbm, 1745, rfl⟩
abbrev main_call51_v2 : Ref sig .tc := ⟨.hbm, 1746, rfl⟩
abbrev main_v857 : Ref sig .tc := ⟨.hbm, 1747, rfl⟩
abbrev main_v858 : Ref sig .tc := ⟨.hbm, 1748, rfl⟩
abbrev main_v859 : Ref sig .tc := ⟨.hbm, 1749, rfl⟩
abbrev main_c_730 : Ref sig .tc := ⟨.hbm, 1750, rfl⟩
abbrev main_c_731 : Ref sig .tc := ⟨.hbm, 1751, rfl⟩
abbrev main_v860 : Ref sig .tc := ⟨.hbm, 1752, rfl⟩
abbrev main_c_732 : Ref sig .tc := ⟨.hbm, 1753, rfl⟩
abbrev main_c_733 : Ref sig .tc := ⟨.hbm, 1754, rfl⟩
abbrev main_v861 : Ref sig .tc := ⟨.hbm, 1755, rfl⟩
abbrev main_c_734 : Ref sig .tc := ⟨.hbm, 1756, rfl⟩
abbrev main_v862 : Ref sig .tc := ⟨.hbm, 1757, rfl⟩
abbrev main_c_735 : Ref sig .tc := ⟨.hbm, 1758, rfl⟩
abbrev main_v863 : Ref sig .tc := ⟨.hbm, 1759, rfl⟩
abbrev main_c_736 : Ref sig .tc := ⟨.hbm, 1760, rfl⟩
abbrev main_v864 : Ref sig .tc := ⟨.hbm, 1761, rfl⟩
abbrev main_v865 : Ref sig .tc := ⟨.hbm, 1762, rfl⟩
abbrev main_c_737 : Ref sig .tc := ⟨.hbm, 1763, rfl⟩
abbrev main_v866 : Ref sig .tc := ⟨.hbm, 1764, rfl⟩
abbrev main_c_738 : Ref sig .tc := ⟨.hbm, 1765, rfl⟩
abbrev main_v867 : Ref sig .tc := ⟨.hbm, 1766, rfl⟩
abbrev main_v868 : Ref sig .tc := ⟨.hbm, 1767, rfl⟩
abbrev main_v869 : Ref sig .tc := ⟨.hbm, 1768, rfl⟩
abbrev main_v870 : Ref sig .tc := ⟨.hbm, 1769, rfl⟩
abbrev main_c_739 : Ref sig .tc := ⟨.hbm, 1770, rfl⟩
abbrev main_c_740 : Ref sig .tc := ⟨.hbm, 1771, rfl⟩
abbrev main_v871 : Ref sig .tc := ⟨.hbm, 1772, rfl⟩
abbrev main_c_741 : Ref sig .tc := ⟨.hbm, 1773, rfl⟩
abbrev main_c_742 : Ref sig .tc := ⟨.hbm, 1774, rfl⟩
abbrev main_v872 : Ref sig .tc := ⟨.hbm, 1775, rfl⟩
abbrev main_c_743 : Ref sig .tc := ⟨.hbm, 1776, rfl⟩
abbrev main_v873 : Ref sig .tc := ⟨.hbm, 1777, rfl⟩
abbrev main_c_744 : Ref sig .tc := ⟨.hbm, 1778, rfl⟩
abbrev main_c_745 : Ref sig .tc := ⟨.hbm, 1779, rfl⟩
abbrev main_v874 : Ref sig .tc := ⟨.hbm, 1780, rfl⟩
abbrev main_c_746 : Ref sig .tc := ⟨.hbm, 1781, rfl⟩
abbrev main_c_747 : Ref sig .tc := ⟨.hbm, 1782, rfl⟩
abbrev main_v875 : Ref sig .tc := ⟨.hbm, 1783, rfl⟩
abbrev main_c_748 : Ref sig .tc := ⟨.hbm, 1784, rfl⟩
abbrev main_v876 : Ref sig .tc := ⟨.hbm, 1785, rfl⟩
abbrev main_c_749 : Ref sig .tc := ⟨.hbm, 1786, rfl⟩
abbrev main_v877 : Ref sig .tc := ⟨.hbm, 1787, rfl⟩
abbrev main_c_750 : Ref sig .tc := ⟨.hbm, 1788, rfl⟩
abbrev main_v878 : Ref sig .tc := ⟨.hbm, 1789, rfl⟩
abbrev main_v879 : Ref sig .tc := ⟨.hbm, 1790, rfl⟩
abbrev main_c_751 : Ref sig .tc := ⟨.hbm, 1791, rfl⟩
abbrev main_v880 : Ref sig .tc := ⟨.hbm, 1792, rfl⟩
abbrev main_c_752 : Ref sig .tc := ⟨.hbm, 1793, rfl⟩
abbrev main_v881 : Ref sig .tc := ⟨.hbm, 1794, rfl⟩
abbrev main_v882 : Ref sig .tc := ⟨.hbm, 1795, rfl⟩
abbrev main_v883 : Ref sig .tc := ⟨.hbm, 1796, rfl⟩
abbrev main_v884 : Ref sig .tc := ⟨.hbm, 1797, rfl⟩
abbrev main_v885 : Ref sig .tc := ⟨.hbm, 1798, rfl⟩
abbrev main_c_753 : Ref sig .tc := ⟨.hbm, 1799, rfl⟩
abbrev main_v886 : Ref sig .tc := ⟨.hbm, 1800, rfl⟩
abbrev main_c_754 : Ref sig .tc := ⟨.hbm, 1801, rfl⟩
abbrev main_c_755 : Ref sig .tc := ⟨.hbm, 1802, rfl⟩
abbrev main_call52_v0 : Ref sig .tc := ⟨.hbm, 1803, rfl⟩
abbrev main_call52_v1 : Ref sig .tc := ⟨.hbm, 1804, rfl⟩
abbrev main_call52_v2 : Ref sig .tc := ⟨.hbm, 1805, rfl⟩
abbrev main_v887 : Ref sig .tc := ⟨.hbm, 1806, rfl⟩
abbrev main_v888 : Ref sig .tc := ⟨.hbm, 1807, rfl⟩
abbrev main_v889 : Ref sig .tc := ⟨.hbm, 1808, rfl⟩
abbrev main_c_756 : Ref sig .tc := ⟨.hbm, 1809, rfl⟩
abbrev main_v890 : Ref sig .tc := ⟨.hbm, 1810, rfl⟩
abbrev main_c_757 : Ref sig .tc := ⟨.hbm, 1811, rfl⟩
abbrev main_c_758 : Ref sig .tc := ⟨.hbm, 1812, rfl⟩
abbrev main_call53_v0 : Ref sig .tc := ⟨.hbm, 1813, rfl⟩
abbrev main_call53_v1 : Ref sig .tc := ⟨.hbm, 1814, rfl⟩
abbrev main_call53_v2 : Ref sig .tc := ⟨.hbm, 1815, rfl⟩
abbrev main_v891 : Ref sig .tc := ⟨.hbm, 1816, rfl⟩
abbrev main_v892 : Ref sig .tc := ⟨.hbm, 1817, rfl⟩
abbrev main_v893 : Ref sig .tc := ⟨.hbm, 1818, rfl⟩
abbrev main_c_759 : Ref sig .tc := ⟨.hbm, 1819, rfl⟩
abbrev main_c_760 : Ref sig .tc := ⟨.hbm, 1820, rfl⟩
abbrev main_v894 : Ref sig .tc := ⟨.hbm, 1821, rfl⟩
abbrev main_c_761 : Ref sig .tc := ⟨.hbm, 1822, rfl⟩
abbrev main_c_762 : Ref sig .tc := ⟨.hbm, 1823, rfl⟩
abbrev main_v895 : Ref sig .tc := ⟨.hbm, 1824, rfl⟩
abbrev main_c_763 : Ref sig .tc := ⟨.hbm, 1825, rfl⟩
abbrev main_v896 : Ref sig .tc := ⟨.hbm, 1826, rfl⟩
abbrev main_c_764 : Ref sig .tc := ⟨.hbm, 1827, rfl⟩
abbrev main_v897 : Ref sig .tc := ⟨.hbm, 1828, rfl⟩
abbrev main_c_765 : Ref sig .tc := ⟨.hbm, 1829, rfl⟩
abbrev main_v898 : Ref sig .tc := ⟨.hbm, 1830, rfl⟩
abbrev main_v899 : Ref sig .tc := ⟨.hbm, 1831, rfl⟩
abbrev main_c_766 : Ref sig .tc := ⟨.hbm, 1832, rfl⟩
abbrev main_v900 : Ref sig .tc := ⟨.hbm, 1833, rfl⟩
abbrev main_c_767 : Ref sig .tc := ⟨.hbm, 1834, rfl⟩
abbrev main_v901 : Ref sig .tc := ⟨.hbm, 1835, rfl⟩
abbrev main_v902 : Ref sig .tc := ⟨.hbm, 1836, rfl⟩
abbrev main_v903 : Ref sig .tc := ⟨.hbm, 1837, rfl⟩
abbrev main_v904 : Ref sig .tc := ⟨.hbm, 1838, rfl⟩
abbrev main_c_768 : Ref sig .tc := ⟨.hbm, 1839, rfl⟩
abbrev main_c_769 : Ref sig .tc := ⟨.hbm, 1840, rfl⟩
abbrev main_v905 : Ref sig .tc := ⟨.hbm, 1841, rfl⟩
abbrev main_c_770 : Ref sig .tc := ⟨.hbm, 1842, rfl⟩
abbrev main_c_771 : Ref sig .tc := ⟨.hbm, 1843, rfl⟩
abbrev main_v906 : Ref sig .tc := ⟨.hbm, 1844, rfl⟩
abbrev main_c_772 : Ref sig .tc := ⟨.hbm, 1845, rfl⟩
abbrev main_v907 : Ref sig .tc := ⟨.hbm, 1846, rfl⟩
abbrev main_c_773 : Ref sig .tc := ⟨.hbm, 1847, rfl⟩
abbrev main_c_774 : Ref sig .tc := ⟨.hbm, 1848, rfl⟩
abbrev main_v908 : Ref sig .tc := ⟨.hbm, 1849, rfl⟩
abbrev main_c_775 : Ref sig .tc := ⟨.hbm, 1850, rfl⟩
abbrev main_c_776 : Ref sig .tc := ⟨.hbm, 1851, rfl⟩
abbrev main_v909 : Ref sig .tc := ⟨.hbm, 1852, rfl⟩
abbrev main_c_777 : Ref sig .tc := ⟨.hbm, 1853, rfl⟩
abbrev main_v910 : Ref sig .tc := ⟨.hbm, 1854, rfl⟩
abbrev main_c_778 : Ref sig .tc := ⟨.hbm, 1855, rfl⟩
abbrev main_v911 : Ref sig .tc := ⟨.hbm, 1856, rfl⟩
abbrev main_c_779 : Ref sig .tc := ⟨.hbm, 1857, rfl⟩
abbrev main_v912 : Ref sig .tc := ⟨.hbm, 1858, rfl⟩
abbrev main_v913 : Ref sig .tc := ⟨.hbm, 1859, rfl⟩
abbrev main_c_780 : Ref sig .tc := ⟨.hbm, 1860, rfl⟩
abbrev main_v914 : Ref sig .tc := ⟨.hbm, 1861, rfl⟩
abbrev main_c_781 : Ref sig .tc := ⟨.hbm, 1862, rfl⟩
abbrev main_v915 : Ref sig .tc := ⟨.hbm, 1863, rfl⟩
abbrev main_v916 : Ref sig .tc := ⟨.hbm, 1864, rfl⟩
abbrev main_v917 : Ref sig .tc := ⟨.hbm, 1865, rfl⟩
abbrev main_v918 : Ref sig .tc := ⟨.hbm, 1866, rfl⟩
abbrev main_v919 : Ref sig .tc := ⟨.hbm, 1867, rfl⟩
abbrev main_c_782 : Ref sig .tc := ⟨.hbm, 1868, rfl⟩
abbrev main_v920 : Ref sig .tc := ⟨.hbm, 1869, rfl⟩
abbrev main_c_783 : Ref sig .tc := ⟨.hbm, 1870, rfl⟩
abbrev main_c_784 : Ref sig .tc := ⟨.hbm, 1871, rfl⟩
abbrev main_call54_v0 : Ref sig .tc := ⟨.hbm, 1872, rfl⟩
abbrev main_call54_v1 : Ref sig .tc := ⟨.hbm, 1873, rfl⟩
abbrev main_call54_v2 : Ref sig .tc := ⟨.hbm, 1874, rfl⟩
abbrev main_v921 : Ref sig .tc := ⟨.hbm, 1875, rfl⟩
abbrev main_v922 : Ref sig .tc := ⟨.hbm, 1876, rfl⟩
abbrev main_v923 : Ref sig .tc := ⟨.hbm, 1877, rfl⟩
abbrev main_c_785 : Ref sig .tc := ⟨.hbm, 1878, rfl⟩
abbrev main_v924 : Ref sig .tc := ⟨.hbm, 1879, rfl⟩
abbrev main_c_786 : Ref sig .tc := ⟨.hbm, 1880, rfl⟩
abbrev main_c_787 : Ref sig .tc := ⟨.hbm, 1881, rfl⟩
abbrev main_call55_v0 : Ref sig .tc := ⟨.hbm, 1882, rfl⟩
abbrev main_call55_v1 : Ref sig .tc := ⟨.hbm, 1883, rfl⟩
abbrev main_call55_v2 : Ref sig .tc := ⟨.hbm, 1884, rfl⟩
abbrev main_v925 : Ref sig .tc := ⟨.hbm, 1885, rfl⟩
abbrev main_v926 : Ref sig .tc := ⟨.hbm, 1886, rfl⟩
abbrev main_v927 : Ref sig .tc := ⟨.hbm, 1887, rfl⟩
abbrev main_c_788 : Ref sig .tc := ⟨.hbm, 1888, rfl⟩
abbrev main_c_789 : Ref sig .tc := ⟨.hbm, 1889, rfl⟩
abbrev main_v928 : Ref sig .tc := ⟨.hbm, 1890, rfl⟩
abbrev main_c_790 : Ref sig .tc := ⟨.hbm, 1891, rfl⟩
abbrev main_c_791 : Ref sig .tc := ⟨.hbm, 1892, rfl⟩
abbrev main_v929 : Ref sig .tc := ⟨.hbm, 1893, rfl⟩
abbrev main_c_792 : Ref sig .tc := ⟨.hbm, 1894, rfl⟩
abbrev main_v930 : Ref sig .tc := ⟨.hbm, 1895, rfl⟩
abbrev main_c_793 : Ref sig .tc := ⟨.hbm, 1896, rfl⟩
abbrev main_v931 : Ref sig .tc := ⟨.hbm, 1897, rfl⟩
abbrev main_c_794 : Ref sig .tc := ⟨.hbm, 1898, rfl⟩
abbrev main_v932 : Ref sig .tc := ⟨.hbm, 1899, rfl⟩
abbrev main_v933 : Ref sig .tc := ⟨.hbm, 1900, rfl⟩
abbrev main_c_795 : Ref sig .tc := ⟨.hbm, 1901, rfl⟩
abbrev main_v934 : Ref sig .tc := ⟨.hbm, 1902, rfl⟩
abbrev main_c_796 : Ref sig .tc := ⟨.hbm, 1903, rfl⟩
abbrev main_v935 : Ref sig .tc := ⟨.hbm, 1904, rfl⟩
abbrev main_v936 : Ref sig .tc := ⟨.hbm, 1905, rfl⟩
abbrev main_v937 : Ref sig .tc := ⟨.hbm, 1906, rfl⟩
abbrev main_v938 : Ref sig .tc := ⟨.hbm, 1907, rfl⟩
abbrev main_c_797 : Ref sig .tc := ⟨.hbm, 1908, rfl⟩
abbrev main_c_798 : Ref sig .tc := ⟨.hbm, 1909, rfl⟩
abbrev main_v939 : Ref sig .tc := ⟨.hbm, 1910, rfl⟩
abbrev main_c_799 : Ref sig .tc := ⟨.hbm, 1911, rfl⟩
abbrev main_c_800 : Ref sig .tc := ⟨.hbm, 1912, rfl⟩
abbrev main_v940 : Ref sig .tc := ⟨.hbm, 1913, rfl⟩
abbrev main_c_801 : Ref sig .tc := ⟨.hbm, 1914, rfl⟩
abbrev main_v941 : Ref sig .tc := ⟨.hbm, 1915, rfl⟩
abbrev main_c_802 : Ref sig .tc := ⟨.hbm, 1916, rfl⟩
abbrev main_c_803 : Ref sig .tc := ⟨.hbm, 1917, rfl⟩
abbrev main_v942 : Ref sig .tc := ⟨.hbm, 1918, rfl⟩
abbrev main_c_804 : Ref sig .tc := ⟨.hbm, 1919, rfl⟩
abbrev main_c_805 : Ref sig .tc := ⟨.hbm, 1920, rfl⟩
abbrev main_v943 : Ref sig .tc := ⟨.hbm, 1921, rfl⟩
abbrev main_c_806 : Ref sig .tc := ⟨.hbm, 1922, rfl⟩
abbrev main_v944 : Ref sig .tc := ⟨.hbm, 1923, rfl⟩
abbrev main_c_807 : Ref sig .tc := ⟨.hbm, 1924, rfl⟩
abbrev main_v945 : Ref sig .tc := ⟨.hbm, 1925, rfl⟩
abbrev main_c_808 : Ref sig .tc := ⟨.hbm, 1926, rfl⟩
abbrev main_v946 : Ref sig .tc := ⟨.hbm, 1927, rfl⟩
abbrev main_v947 : Ref sig .tc := ⟨.hbm, 1928, rfl⟩
abbrev main_c_809 : Ref sig .tc := ⟨.hbm, 1929, rfl⟩
abbrev main_v948 : Ref sig .tc := ⟨.hbm, 1930, rfl⟩
abbrev main_c_810 : Ref sig .tc := ⟨.hbm, 1931, rfl⟩
abbrev main_v949 : Ref sig .tc := ⟨.hbm, 1932, rfl⟩
abbrev main_v950 : Ref sig .tc := ⟨.hbm, 1933, rfl⟩
abbrev main_v951 : Ref sig .tc := ⟨.hbm, 1934, rfl⟩
abbrev main_v952 : Ref sig .tc := ⟨.hbm, 1935, rfl⟩
abbrev main_v953 : Ref sig .tc := ⟨.hbm, 1936, rfl⟩
abbrev main_c_811 : Ref sig .tc := ⟨.hbm, 1937, rfl⟩
abbrev main_v954 : Ref sig .tc := ⟨.hbm, 1938, rfl⟩
abbrev main_c_812 : Ref sig .tc := ⟨.hbm, 1939, rfl⟩
abbrev main_c_813 : Ref sig .tc := ⟨.hbm, 1940, rfl⟩
abbrev main_call56_v0 : Ref sig .tc := ⟨.hbm, 1941, rfl⟩
abbrev main_call56_v1 : Ref sig .tc := ⟨.hbm, 1942, rfl⟩
abbrev main_call56_v2 : Ref sig .tc := ⟨.hbm, 1943, rfl⟩
abbrev main_v955 : Ref sig .tc := ⟨.hbm, 1944, rfl⟩
abbrev main_v956 : Ref sig .tc := ⟨.hbm, 1945, rfl⟩
abbrev main_v957 : Ref sig .tc := ⟨.hbm, 1946, rfl⟩
abbrev main_c_814 : Ref sig .tc := ⟨.hbm, 1947, rfl⟩
abbrev main_v958 : Ref sig .tc := ⟨.hbm, 1948, rfl⟩
abbrev main_c_815 : Ref sig .tc := ⟨.hbm, 1949, rfl⟩
abbrev main_c_816 : Ref sig .tc := ⟨.hbm, 1950, rfl⟩
abbrev main_call57_v0 : Ref sig .tc := ⟨.hbm, 1951, rfl⟩
abbrev main_call57_v1 : Ref sig .tc := ⟨.hbm, 1952, rfl⟩
abbrev main_call57_v2 : Ref sig .tc := ⟨.hbm, 1953, rfl⟩
abbrev main_v959 : Ref sig .tc := ⟨.hbm, 1954, rfl⟩
abbrev main_v960 : Ref sig .tc := ⟨.hbm, 1955, rfl⟩
abbrev main_v961 : Ref sig .tc := ⟨.hbm, 1956, rfl⟩
abbrev main_c_817 : Ref sig .tc := ⟨.hbm, 1957, rfl⟩
abbrev main_c_818 : Ref sig .tc := ⟨.hbm, 1958, rfl⟩
abbrev main_v962 : Ref sig .tc := ⟨.hbm, 1959, rfl⟩
abbrev main_c_819 : Ref sig .tc := ⟨.hbm, 1960, rfl⟩
abbrev main_c_820 : Ref sig .tc := ⟨.hbm, 1961, rfl⟩
abbrev main_v963 : Ref sig .tc := ⟨.hbm, 1962, rfl⟩
abbrev main_c_821 : Ref sig .tc := ⟨.hbm, 1963, rfl⟩
abbrev main_v964 : Ref sig .tc := ⟨.hbm, 1964, rfl⟩
abbrev main_c_822 : Ref sig .tc := ⟨.hbm, 1965, rfl⟩
abbrev main_v965 : Ref sig .tc := ⟨.hbm, 1966, rfl⟩
abbrev main_c_823 : Ref sig .tc := ⟨.hbm, 1967, rfl⟩
abbrev main_v966 : Ref sig .tc := ⟨.hbm, 1968, rfl⟩
abbrev main_v967 : Ref sig .tc := ⟨.hbm, 1969, rfl⟩
abbrev main_c_824 : Ref sig .tc := ⟨.hbm, 1970, rfl⟩
abbrev main_v968 : Ref sig .tc := ⟨.hbm, 1971, rfl⟩
abbrev main_c_825 : Ref sig .tc := ⟨.hbm, 1972, rfl⟩
abbrev main_v969 : Ref sig .tc := ⟨.hbm, 1973, rfl⟩
abbrev main_v970 : Ref sig .tc := ⟨.hbm, 1974, rfl⟩
abbrev main_v971 : Ref sig .tc := ⟨.hbm, 1975, rfl⟩
abbrev main_v972 : Ref sig .tc := ⟨.hbm, 1976, rfl⟩
abbrev main_c_826 : Ref sig .tc := ⟨.hbm, 1977, rfl⟩
abbrev main_c_827 : Ref sig .tc := ⟨.hbm, 1978, rfl⟩
abbrev main_v973 : Ref sig .tc := ⟨.hbm, 1979, rfl⟩
abbrev main_c_828 : Ref sig .tc := ⟨.hbm, 1980, rfl⟩
abbrev main_c_829 : Ref sig .tc := ⟨.hbm, 1981, rfl⟩
abbrev main_v974 : Ref sig .tc := ⟨.hbm, 1982, rfl⟩
abbrev main_c_830 : Ref sig .tc := ⟨.hbm, 1983, rfl⟩
abbrev main_v975 : Ref sig .tc := ⟨.hbm, 1984, rfl⟩
abbrev main_c_831 : Ref sig .tc := ⟨.hbm, 1985, rfl⟩
abbrev main_c_832 : Ref sig .tc := ⟨.hbm, 1986, rfl⟩
abbrev main_v976 : Ref sig .tc := ⟨.hbm, 1987, rfl⟩
abbrev main_c_833 : Ref sig .tc := ⟨.hbm, 1988, rfl⟩
abbrev main_c_834 : Ref sig .tc := ⟨.hbm, 1989, rfl⟩
abbrev main_v977 : Ref sig .tc := ⟨.hbm, 1990, rfl⟩
abbrev main_c_835 : Ref sig .tc := ⟨.hbm, 1991, rfl⟩
abbrev main_v978 : Ref sig .tc := ⟨.hbm, 1992, rfl⟩
abbrev main_c_836 : Ref sig .tc := ⟨.hbm, 1993, rfl⟩
abbrev main_v979 : Ref sig .tc := ⟨.hbm, 1994, rfl⟩
abbrev main_c_837 : Ref sig .tc := ⟨.hbm, 1995, rfl⟩
abbrev main_v980 : Ref sig .tc := ⟨.hbm, 1996, rfl⟩
abbrev main_v981 : Ref sig .tc := ⟨.hbm, 1997, rfl⟩
abbrev main_c_838 : Ref sig .tc := ⟨.hbm, 1998, rfl⟩
abbrev main_v982 : Ref sig .tc := ⟨.hbm, 1999, rfl⟩
abbrev main_c_839 : Ref sig .tc := ⟨.hbm, 2000, rfl⟩
abbrev main_v983 : Ref sig .tc := ⟨.hbm, 2001, rfl⟩
abbrev main_v984 : Ref sig .tc := ⟨.hbm, 2002, rfl⟩
abbrev main_v985 : Ref sig .tc := ⟨.hbm, 2003, rfl⟩
abbrev main_v986 : Ref sig .tc := ⟨.hbm, 2004, rfl⟩
abbrev main_v987 : Ref sig .tc := ⟨.hbm, 2005, rfl⟩
abbrev main_c_840 : Ref sig .tc := ⟨.hbm, 2006, rfl⟩
abbrev main_v988 : Ref sig .tc := ⟨.hbm, 2007, rfl⟩
abbrev main_c_841 : Ref sig .tc := ⟨.hbm, 2008, rfl⟩
abbrev main_c_842 : Ref sig .tc := ⟨.hbm, 2009, rfl⟩
abbrev main_call58_v0 : Ref sig .tc := ⟨.hbm, 2010, rfl⟩
abbrev main_call58_v1 : Ref sig .tc := ⟨.hbm, 2011, rfl⟩
abbrev main_call58_v2 : Ref sig .tc := ⟨.hbm, 2012, rfl⟩
abbrev main_v989 : Ref sig .tc := ⟨.hbm, 2013, rfl⟩
abbrev main_v990 : Ref sig .tc := ⟨.hbm, 2014, rfl⟩
abbrev main_v991 : Ref sig .tc := ⟨.hbm, 2015, rfl⟩
abbrev main_c_843 : Ref sig .tc := ⟨.hbm, 2016, rfl⟩
abbrev main_v992 : Ref sig .tc := ⟨.hbm, 2017, rfl⟩
abbrev main_c_844 : Ref sig .tc := ⟨.hbm, 2018, rfl⟩
abbrev main_c_845 : Ref sig .tc := ⟨.hbm, 2019, rfl⟩
abbrev main_call59_v0 : Ref sig .tc := ⟨.hbm, 2020, rfl⟩
abbrev main_call59_v1 : Ref sig .tc := ⟨.hbm, 2021, rfl⟩
abbrev main_call59_v2 : Ref sig .tc := ⟨.hbm, 2022, rfl⟩
abbrev main_v993 : Ref sig .tc := ⟨.hbm, 2023, rfl⟩
abbrev main_v994 : Ref sig .tc := ⟨.hbm, 2024, rfl⟩
abbrev main_v995 : Ref sig .tc := ⟨.hbm, 2025, rfl⟩
abbrev main_c_846 : Ref sig .tc := ⟨.hbm, 2026, rfl⟩
abbrev main_c_847 : Ref sig .tc := ⟨.hbm, 2027, rfl⟩
abbrev main_v996 : Ref sig .tc := ⟨.hbm, 2028, rfl⟩
abbrev main_c_848 : Ref sig .tc := ⟨.hbm, 2029, rfl⟩
abbrev main_c_849 : Ref sig .tc := ⟨.hbm, 2030, rfl⟩
abbrev main_v997 : Ref sig .tc := ⟨.hbm, 2031, rfl⟩
abbrev main_c_850 : Ref sig .tc := ⟨.hbm, 2032, rfl⟩
abbrev main_v998 : Ref sig .tc := ⟨.hbm, 2033, rfl⟩
abbrev main_c_851 : Ref sig .tc := ⟨.hbm, 2034, rfl⟩
abbrev main_v999 : Ref sig .tc := ⟨.hbm, 2035, rfl⟩
abbrev main_c_852 : Ref sig .tc := ⟨.hbm, 2036, rfl⟩
abbrev main_v1000 : Ref sig .tc := ⟨.hbm, 2037, rfl⟩
abbrev main_v1001 : Ref sig .tc := ⟨.hbm, 2038, rfl⟩
abbrev main_c_853 : Ref sig .tc := ⟨.hbm, 2039, rfl⟩
abbrev main_v1002 : Ref sig .tc := ⟨.hbm, 2040, rfl⟩
abbrev main_c_854 : Ref sig .tc := ⟨.hbm, 2041, rfl⟩
abbrev main_v1003 : Ref sig .tc := ⟨.hbm, 2042, rfl⟩
abbrev main_v1004 : Ref sig .tc := ⟨.hbm, 2043, rfl⟩
abbrev main_v1005 : Ref sig .tc := ⟨.hbm, 2044, rfl⟩
abbrev main_v1006 : Ref sig .tc := ⟨.hbm, 2045, rfl⟩
abbrev main_c_855 : Ref sig .tc := ⟨.hbm, 2046, rfl⟩
abbrev main_c_856 : Ref sig .tc := ⟨.hbm, 2047, rfl⟩
abbrev main_v1007 : Ref sig .tc := ⟨.hbm, 2048, rfl⟩
abbrev main_c_857 : Ref sig .tc := ⟨.hbm, 2049, rfl⟩
abbrev main_c_858 : Ref sig .tc := ⟨.hbm, 2050, rfl⟩
abbrev main_v1008 : Ref sig .tc := ⟨.hbm, 2051, rfl⟩
abbrev main_c_859 : Ref sig .tc := ⟨.hbm, 2052, rfl⟩
abbrev main_v1009 : Ref sig .tc := ⟨.hbm, 2053, rfl⟩
abbrev main_c_860 : Ref sig .tc := ⟨.hbm, 2054, rfl⟩
abbrev main_c_861 : Ref sig .tc := ⟨.hbm, 2055, rfl⟩
abbrev main_v1010 : Ref sig .tc := ⟨.hbm, 2056, rfl⟩
abbrev main_c_862 : Ref sig .tc := ⟨.hbm, 2057, rfl⟩
abbrev main_c_863 : Ref sig .tc := ⟨.hbm, 2058, rfl⟩
abbrev main_v1011 : Ref sig .tc := ⟨.hbm, 2059, rfl⟩
abbrev main_c_864 : Ref sig .tc := ⟨.hbm, 2060, rfl⟩
abbrev main_v1012 : Ref sig .tc := ⟨.hbm, 2061, rfl⟩
abbrev main_c_865 : Ref sig .tc := ⟨.hbm, 2062, rfl⟩
abbrev main_v1013 : Ref sig .tc := ⟨.hbm, 2063, rfl⟩
abbrev main_c_866 : Ref sig .tc := ⟨.hbm, 2064, rfl⟩
abbrev main_v1014 : Ref sig .tc := ⟨.hbm, 2065, rfl⟩
abbrev main_v1015 : Ref sig .tc := ⟨.hbm, 2066, rfl⟩
abbrev main_c_867 : Ref sig .tc := ⟨.hbm, 2067, rfl⟩
abbrev main_v1016 : Ref sig .tc := ⟨.hbm, 2068, rfl⟩
abbrev main_c_868 : Ref sig .tc := ⟨.hbm, 2069, rfl⟩
abbrev main_v1017 : Ref sig .tc := ⟨.hbm, 2070, rfl⟩
abbrev main_v1018 : Ref sig .tc := ⟨.hbm, 2071, rfl⟩
abbrev main_v1019 : Ref sig .tc := ⟨.hbm, 2072, rfl⟩
abbrev main_v1020 : Ref sig .tc := ⟨.hbm, 2073, rfl⟩
abbrev main_v1021 : Ref sig .tc := ⟨.hbm, 2074, rfl⟩
abbrev main_c_869 : Ref sig .tc := ⟨.hbm, 2075, rfl⟩
abbrev main_v1022 : Ref sig .tc := ⟨.hbm, 2076, rfl⟩
abbrev main_c_870 : Ref sig .tc := ⟨.hbm, 2077, rfl⟩
abbrev main_c_871 : Ref sig .tc := ⟨.hbm, 2078, rfl⟩
abbrev main_call60_v0 : Ref sig .tc := ⟨.hbm, 2079, rfl⟩
abbrev main_call60_v1 : Ref sig .tc := ⟨.hbm, 2080, rfl⟩
abbrev main_call60_v2 : Ref sig .tc := ⟨.hbm, 2081, rfl⟩
abbrev main_v1023 : Ref sig .tc := ⟨.hbm, 2082, rfl⟩
abbrev main_v1024 : Ref sig .tc := ⟨.hbm, 2083, rfl⟩
abbrev main_v1025 : Ref sig .tc := ⟨.hbm, 2084, rfl⟩
abbrev main_c_872 : Ref sig .tc := ⟨.hbm, 2085, rfl⟩
abbrev main_v1026 : Ref sig .tc := ⟨.hbm, 2086, rfl⟩
abbrev main_c_873 : Ref sig .tc := ⟨.hbm, 2087, rfl⟩
abbrev main_c_874 : Ref sig .tc := ⟨.hbm, 2088, rfl⟩
abbrev main_call61_v0 : Ref sig .tc := ⟨.hbm, 2089, rfl⟩
abbrev main_call61_v1 : Ref sig .tc := ⟨.hbm, 2090, rfl⟩
abbrev main_call61_v2 : Ref sig .tc := ⟨.hbm, 2091, rfl⟩
abbrev main_v1027 : Ref sig .tc := ⟨.hbm, 2092, rfl⟩
abbrev main_v1028 : Ref sig .tc := ⟨.hbm, 2093, rfl⟩
abbrev main_v1029 : Ref sig .tc := ⟨.hbm, 2094, rfl⟩
abbrev main_c_875 : Ref sig .tc := ⟨.hbm, 2095, rfl⟩
abbrev main_c_876 : Ref sig .tc := ⟨.hbm, 2096, rfl⟩
abbrev main_v1030 : Ref sig .tc := ⟨.hbm, 2097, rfl⟩
abbrev main_c_877 : Ref sig .tc := ⟨.hbm, 2098, rfl⟩
abbrev main_c_878 : Ref sig .tc := ⟨.hbm, 2099, rfl⟩
abbrev main_v1031 : Ref sig .tc := ⟨.hbm, 2100, rfl⟩
abbrev main_c_879 : Ref sig .tc := ⟨.hbm, 2101, rfl⟩
abbrev main_v1032 : Ref sig .tc := ⟨.hbm, 2102, rfl⟩
abbrev main_c_880 : Ref sig .tc := ⟨.hbm, 2103, rfl⟩
abbrev main_v1033 : Ref sig .tc := ⟨.hbm, 2104, rfl⟩
abbrev main_c_881 : Ref sig .tc := ⟨.hbm, 2105, rfl⟩
abbrev main_v1034 : Ref sig .tc := ⟨.hbm, 2106, rfl⟩
abbrev main_v1035 : Ref sig .tc := ⟨.hbm, 2107, rfl⟩
abbrev main_c_882 : Ref sig .tc := ⟨.hbm, 2108, rfl⟩
abbrev main_v1036 : Ref sig .tc := ⟨.hbm, 2109, rfl⟩
abbrev main_c_883 : Ref sig .tc := ⟨.hbm, 2110, rfl⟩
abbrev main_v1037 : Ref sig .tc := ⟨.hbm, 2111, rfl⟩
abbrev main_v1038 : Ref sig .tc := ⟨.hbm, 2112, rfl⟩
abbrev main_v1039 : Ref sig .tc := ⟨.hbm, 2113, rfl⟩
abbrev main_v1040 : Ref sig .tc := ⟨.hbm, 2114, rfl⟩
abbrev main_c_884 : Ref sig .tc := ⟨.hbm, 2115, rfl⟩
abbrev main_c_885 : Ref sig .tc := ⟨.hbm, 2116, rfl⟩
abbrev main_v1041 : Ref sig .tc := ⟨.hbm, 2117, rfl⟩
abbrev main_c_886 : Ref sig .tc := ⟨.hbm, 2118, rfl⟩
abbrev main_c_887 : Ref sig .tc := ⟨.hbm, 2119, rfl⟩
abbrev main_v1042 : Ref sig .tc := ⟨.hbm, 2120, rfl⟩
abbrev main_c_888 : Ref sig .tc := ⟨.hbm, 2121, rfl⟩
abbrev main_v1043 : Ref sig .tc := ⟨.hbm, 2122, rfl⟩
abbrev main_c_889 : Ref sig .tc := ⟨.hbm, 2123, rfl⟩
abbrev main_c_890 : Ref sig .tc := ⟨.hbm, 2124, rfl⟩
abbrev main_v1044 : Ref sig .tc := ⟨.hbm, 2125, rfl⟩
abbrev main_c_891 : Ref sig .tc := ⟨.hbm, 2126, rfl⟩
abbrev main_c_892 : Ref sig .tc := ⟨.hbm, 2127, rfl⟩
abbrev main_v1045 : Ref sig .tc := ⟨.hbm, 2128, rfl⟩
abbrev main_c_893 : Ref sig .tc := ⟨.hbm, 2129, rfl⟩
abbrev main_v1046 : Ref sig .tc := ⟨.hbm, 2130, rfl⟩
abbrev main_c_894 : Ref sig .tc := ⟨.hbm, 2131, rfl⟩
abbrev main_v1047 : Ref sig .tc := ⟨.hbm, 2132, rfl⟩
abbrev main_c_895 : Ref sig .tc := ⟨.hbm, 2133, rfl⟩
abbrev main_v1048 : Ref sig .tc := ⟨.hbm, 2134, rfl⟩
abbrev main_v1049 : Ref sig .tc := ⟨.hbm, 2135, rfl⟩
abbrev main_c_896 : Ref sig .tc := ⟨.hbm, 2136, rfl⟩
abbrev main_v1050 : Ref sig .tc := ⟨.hbm, 2137, rfl⟩
abbrev main_c_897 : Ref sig .tc := ⟨.hbm, 2138, rfl⟩
abbrev main_v1051 : Ref sig .tc := ⟨.hbm, 2139, rfl⟩
abbrev main_v1052 : Ref sig .tc := ⟨.hbm, 2140, rfl⟩
abbrev main_v1053 : Ref sig .tc := ⟨.hbm, 2141, rfl⟩
abbrev main_v1054 : Ref sig .tc := ⟨.hbm, 2142, rfl⟩
abbrev main_v1055 : Ref sig .tc := ⟨.hbm, 2143, rfl⟩
abbrev main_c_898 : Ref sig .tc := ⟨.hbm, 2144, rfl⟩
abbrev main_v1056 : Ref sig .tc := ⟨.hbm, 2145, rfl⟩
abbrev main_c_899 : Ref sig .tc := ⟨.hbm, 2146, rfl⟩
abbrev main_c_900 : Ref sig .tc := ⟨.hbm, 2147, rfl⟩
abbrev main_call62_v0 : Ref sig .tc := ⟨.hbm, 2148, rfl⟩
abbrev main_call62_v1 : Ref sig .tc := ⟨.hbm, 2149, rfl⟩
abbrev main_call62_v2 : Ref sig .tc := ⟨.hbm, 2150, rfl⟩
abbrev main_v1057 : Ref sig .tc := ⟨.hbm, 2151, rfl⟩
abbrev main_v1058 : Ref sig .tc := ⟨.hbm, 2152, rfl⟩
abbrev main_v1059 : Ref sig .tc := ⟨.hbm, 2153, rfl⟩
abbrev main_c_901 : Ref sig .tc := ⟨.hbm, 2154, rfl⟩
abbrev main_v1060 : Ref sig .tc := ⟨.hbm, 2155, rfl⟩
abbrev main_c_902 : Ref sig .tc := ⟨.hbm, 2156, rfl⟩
abbrev main_c_903 : Ref sig .tc := ⟨.hbm, 2157, rfl⟩
abbrev main_call63_v0 : Ref sig .tc := ⟨.hbm, 2158, rfl⟩
abbrev main_call63_v1 : Ref sig .tc := ⟨.hbm, 2159, rfl⟩
abbrev main_call63_v2 : Ref sig .tc := ⟨.hbm, 2160, rfl⟩
abbrev main_v1061 : Ref sig .tc := ⟨.hbm, 2161, rfl⟩
abbrev main_v1062 : Ref sig .tc := ⟨.hbm, 2162, rfl⟩
abbrev main_v1063 : Ref sig .tc := ⟨.hbm, 2163, rfl⟩
abbrev main_c_904 : Ref sig .tc := ⟨.hbm, 2164, rfl⟩
abbrev main_c_905 : Ref sig .tc := ⟨.hbm, 2165, rfl⟩
abbrev main_v1064 : Ref sig .tc := ⟨.hbm, 2166, rfl⟩
abbrev main_c_906 : Ref sig .tc := ⟨.hbm, 2167, rfl⟩
abbrev main_c_907 : Ref sig .tc := ⟨.hbm, 2168, rfl⟩
abbrev main_v1065 : Ref sig .tc := ⟨.hbm, 2169, rfl⟩
abbrev main_c_908 : Ref sig .tc := ⟨.hbm, 2170, rfl⟩
abbrev main_v1066 : Ref sig .tc := ⟨.hbm, 2171, rfl⟩
abbrev main_c_909 : Ref sig .tc := ⟨.hbm, 2172, rfl⟩
abbrev main_v1067 : Ref sig .tc := ⟨.hbm, 2173, rfl⟩
abbrev main_c_910 : Ref sig .tc := ⟨.hbm, 2174, rfl⟩
abbrev main_v1068 : Ref sig .tc := ⟨.hbm, 2175, rfl⟩
abbrev main_v1069 : Ref sig .tc := ⟨.hbm, 2176, rfl⟩
abbrev main_c_911 : Ref sig .tc := ⟨.hbm, 2177, rfl⟩
abbrev main_v1070 : Ref sig .tc := ⟨.hbm, 2178, rfl⟩
abbrev main_c_912 : Ref sig .tc := ⟨.hbm, 2179, rfl⟩
abbrev main_v1071 : Ref sig .tc := ⟨.hbm, 2180, rfl⟩
abbrev main_v1072 : Ref sig .tc := ⟨.hbm, 2181, rfl⟩
abbrev main_v1073 : Ref sig .tc := ⟨.hbm, 2182, rfl⟩
abbrev main_v1074 : Ref sig .tc := ⟨.hbm, 2183, rfl⟩
abbrev main_c_913 : Ref sig .tc := ⟨.hbm, 2184, rfl⟩
abbrev main_c_914 : Ref sig .tc := ⟨.hbm, 2185, rfl⟩
abbrev main_v1075 : Ref sig .tc := ⟨.hbm, 2186, rfl⟩
abbrev main_c_915 : Ref sig .tc := ⟨.hbm, 2187, rfl⟩
abbrev main_c_916 : Ref sig .tc := ⟨.hbm, 2188, rfl⟩
abbrev main_v1076 : Ref sig .tc := ⟨.hbm, 2189, rfl⟩
abbrev main_c_917 : Ref sig .tc := ⟨.hbm, 2190, rfl⟩
abbrev main_v1077 : Ref sig .tc := ⟨.hbm, 2191, rfl⟩
abbrev main_c_918 : Ref sig .tc := ⟨.hbm, 2192, rfl⟩
abbrev main_c_919 : Ref sig .tc := ⟨.hbm, 2193, rfl⟩
abbrev main_v1078 : Ref sig .tc := ⟨.hbm, 2194, rfl⟩
abbrev main_c_920 : Ref sig .tc := ⟨.hbm, 2195, rfl⟩
abbrev main_c_921 : Ref sig .tc := ⟨.hbm, 2196, rfl⟩
abbrev main_v1079 : Ref sig .tc := ⟨.hbm, 2197, rfl⟩
abbrev main_c_922 : Ref sig .tc := ⟨.hbm, 2198, rfl⟩
abbrev main_v1080 : Ref sig .tc := ⟨.hbm, 2199, rfl⟩
abbrev main_c_923 : Ref sig .tc := ⟨.hbm, 2200, rfl⟩
abbrev main_v1081 : Ref sig .tc := ⟨.hbm, 2201, rfl⟩
abbrev main_c_924 : Ref sig .tc := ⟨.hbm, 2202, rfl⟩
abbrev main_v1082 : Ref sig .tc := ⟨.hbm, 2203, rfl⟩
abbrev main_v1083 : Ref sig .tc := ⟨.hbm, 2204, rfl⟩
abbrev main_c_925 : Ref sig .tc := ⟨.hbm, 2205, rfl⟩
abbrev main_v1084 : Ref sig .tc := ⟨.hbm, 2206, rfl⟩
abbrev main_c_926 : Ref sig .tc := ⟨.hbm, 2207, rfl⟩
abbrev main_v1085 : Ref sig .tc := ⟨.hbm, 2208, rfl⟩
abbrev main_v1086 : Ref sig .tc := ⟨.hbm, 2209, rfl⟩
abbrev main_v1087 : Ref sig .tc := ⟨.hbm, 2210, rfl⟩
abbrev main_v1088 : Ref sig .tc := ⟨.hbm, 2211, rfl⟩
abbrev main_v1089 : Ref sig .tc := ⟨.hbm, 2212, rfl⟩
abbrev main_c_927 : Ref sig .tc := ⟨.hbm, 2213, rfl⟩
abbrev main_v1090 : Ref sig .tc := ⟨.hbm, 2214, rfl⟩
abbrev main_c_928 : Ref sig .tc := ⟨.hbm, 2215, rfl⟩
abbrev main_c_929 : Ref sig .tc := ⟨.hbm, 2216, rfl⟩
abbrev main_call64_v0 : Ref sig .tc := ⟨.hbm, 2217, rfl⟩
abbrev main_call64_v1 : Ref sig .tc := ⟨.hbm, 2218, rfl⟩
abbrev main_call64_v2 : Ref sig .tc := ⟨.hbm, 2219, rfl⟩
abbrev main_v1091 : Ref sig .tc := ⟨.hbm, 2220, rfl⟩
abbrev main_v1092 : Ref sig .tc := ⟨.hbm, 2221, rfl⟩
abbrev main_v1093 : Ref sig .tc := ⟨.hbm, 2222, rfl⟩
abbrev main_c_930 : Ref sig .tc := ⟨.hbm, 2223, rfl⟩
abbrev main_v1094 : Ref sig .tc := ⟨.hbm, 2224, rfl⟩
abbrev main_c_931 : Ref sig .tc := ⟨.hbm, 2225, rfl⟩
abbrev main_c_932 : Ref sig .tc := ⟨.hbm, 2226, rfl⟩
abbrev main_call65_v0 : Ref sig .tc := ⟨.hbm, 2227, rfl⟩
abbrev main_call65_v1 : Ref sig .tc := ⟨.hbm, 2228, rfl⟩
abbrev main_call65_v2 : Ref sig .tc := ⟨.hbm, 2229, rfl⟩
abbrev main_v1095 : Ref sig .tc := ⟨.hbm, 2230, rfl⟩
abbrev main_v1096 : Ref sig .tc := ⟨.hbm, 2231, rfl⟩
abbrev main_v1097 : Ref sig .tc := ⟨.hbm, 2232, rfl⟩
abbrev main_c_933 : Ref sig .tc := ⟨.hbm, 2233, rfl⟩
abbrev main_c_934 : Ref sig .tc := ⟨.hbm, 2234, rfl⟩
abbrev main_v1098 : Ref sig .tc := ⟨.hbm, 2235, rfl⟩
abbrev main_c_935 : Ref sig .tc := ⟨.hbm, 2236, rfl⟩
abbrev main_c_936 : Ref sig .tc := ⟨.hbm, 2237, rfl⟩
abbrev main_v1099 : Ref sig .tc := ⟨.hbm, 2238, rfl⟩
abbrev main_c_937 : Ref sig .tc := ⟨.hbm, 2239, rfl⟩
abbrev main_v1100 : Ref sig .tc := ⟨.hbm, 2240, rfl⟩
abbrev main_c_938 : Ref sig .tc := ⟨.hbm, 2241, rfl⟩
abbrev main_v1101 : Ref sig .tc := ⟨.hbm, 2242, rfl⟩
abbrev main_c_939 : Ref sig .tc := ⟨.hbm, 2243, rfl⟩
abbrev main_v1102 : Ref sig .tc := ⟨.hbm, 2244, rfl⟩
abbrev main_v1103 : Ref sig .tc := ⟨.hbm, 2245, rfl⟩
abbrev main_c_940 : Ref sig .tc := ⟨.hbm, 2246, rfl⟩
abbrev main_v1104 : Ref sig .tc := ⟨.hbm, 2247, rfl⟩
abbrev main_c_941 : Ref sig .tc := ⟨.hbm, 2248, rfl⟩
abbrev main_v1105 : Ref sig .tc := ⟨.hbm, 2249, rfl⟩
abbrev main_v1106 : Ref sig .tc := ⟨.hbm, 2250, rfl⟩
abbrev main_v1107 : Ref sig .tc := ⟨.hbm, 2251, rfl⟩
abbrev main_v1108 : Ref sig .tc := ⟨.hbm, 2252, rfl⟩
abbrev main_c_942 : Ref sig .tc := ⟨.hbm, 2253, rfl⟩
abbrev main_c_943 : Ref sig .tc := ⟨.hbm, 2254, rfl⟩
abbrev main_v1109 : Ref sig .tc := ⟨.hbm, 2255, rfl⟩
abbrev main_c_944 : Ref sig .tc := ⟨.hbm, 2256, rfl⟩
abbrev main_c_945 : Ref sig .tc := ⟨.hbm, 2257, rfl⟩
abbrev main_v1110 : Ref sig .tc := ⟨.hbm, 2258, rfl⟩
abbrev main_c_946 : Ref sig .tc := ⟨.hbm, 2259, rfl⟩
abbrev main_v1111 : Ref sig .tc := ⟨.hbm, 2260, rfl⟩
abbrev main_c_947 : Ref sig .tc := ⟨.hbm, 2261, rfl⟩
abbrev main_c_948 : Ref sig .tc := ⟨.hbm, 2262, rfl⟩
abbrev main_v1112 : Ref sig .tc := ⟨.hbm, 2263, rfl⟩
abbrev main_c_949 : Ref sig .tc := ⟨.hbm, 2264, rfl⟩
abbrev main_c_950 : Ref sig .tc := ⟨.hbm, 2265, rfl⟩
abbrev main_v1113 : Ref sig .tc := ⟨.hbm, 2266, rfl⟩
abbrev main_c_951 : Ref sig .tc := ⟨.hbm, 2267, rfl⟩
abbrev main_v1114 : Ref sig .tc := ⟨.hbm, 2268, rfl⟩
abbrev main_c_952 : Ref sig .tc := ⟨.hbm, 2269, rfl⟩
abbrev main_v1115 : Ref sig .tc := ⟨.hbm, 2270, rfl⟩
abbrev main_c_953 : Ref sig .tc := ⟨.hbm, 2271, rfl⟩
abbrev main_v1116 : Ref sig .tc := ⟨.hbm, 2272, rfl⟩
abbrev main_v1117 : Ref sig .tc := ⟨.hbm, 2273, rfl⟩
abbrev main_c_954 : Ref sig .tc := ⟨.hbm, 2274, rfl⟩
abbrev main_v1118 : Ref sig .tc := ⟨.hbm, 2275, rfl⟩
abbrev main_c_955 : Ref sig .tc := ⟨.hbm, 2276, rfl⟩
abbrev main_v1119 : Ref sig .tc := ⟨.hbm, 2277, rfl⟩
abbrev main_v1120 : Ref sig .tc := ⟨.hbm, 2278, rfl⟩
abbrev main_v1121 : Ref sig .tc := ⟨.hbm, 2279, rfl⟩
abbrev main_v1122 : Ref sig .tc := ⟨.hbm, 2280, rfl⟩
abbrev main_v1123 : Ref sig .tc := ⟨.hbm, 2281, rfl⟩
abbrev main_c_956 : Ref sig .tc := ⟨.hbm, 2282, rfl⟩
abbrev main_v1124 : Ref sig .tc := ⟨.hbm, 2283, rfl⟩
abbrev main_c_957 : Ref sig .tc := ⟨.hbm, 2284, rfl⟩
abbrev main_c_958 : Ref sig .tc := ⟨.hbm, 2285, rfl⟩
abbrev main_call66_v0 : Ref sig .tc := ⟨.hbm, 2286, rfl⟩
abbrev main_call66_v1 : Ref sig .tc := ⟨.hbm, 2287, rfl⟩
abbrev main_call66_v2 : Ref sig .tc := ⟨.hbm, 2288, rfl⟩
abbrev main_v1125 : Ref sig .tc := ⟨.hbm, 2289, rfl⟩
abbrev main_v1126 : Ref sig .tc := ⟨.hbm, 2290, rfl⟩
abbrev main_v1127 : Ref sig .tc := ⟨.hbm, 2291, rfl⟩
abbrev main_c_959 : Ref sig .tc := ⟨.hbm, 2292, rfl⟩
abbrev main_v1128 : Ref sig .tc := ⟨.hbm, 2293, rfl⟩
abbrev main_c_960 : Ref sig .tc := ⟨.hbm, 2294, rfl⟩
abbrev main_c_961 : Ref sig .tc := ⟨.hbm, 2295, rfl⟩
abbrev main_call67_v0 : Ref sig .tc := ⟨.hbm, 2296, rfl⟩
abbrev main_call67_v1 : Ref sig .tc := ⟨.hbm, 2297, rfl⟩
abbrev main_call67_v2 : Ref sig .tc := ⟨.hbm, 2298, rfl⟩
abbrev main_v1129 : Ref sig .tc := ⟨.hbm, 2299, rfl⟩
abbrev main_v1130 : Ref sig .tc := ⟨.hbm, 2300, rfl⟩
abbrev main_v1131 : Ref sig .tc := ⟨.hbm, 2301, rfl⟩
abbrev main_c_962 : Ref sig .tc := ⟨.hbm, 2302, rfl⟩
abbrev main_c_963 : Ref sig .tc := ⟨.hbm, 2303, rfl⟩
abbrev main_v1132 : Ref sig .tc := ⟨.hbm, 2304, rfl⟩
abbrev main_c_964 : Ref sig .tc := ⟨.hbm, 2305, rfl⟩
abbrev main_c_965 : Ref sig .tc := ⟨.hbm, 2306, rfl⟩
abbrev main_v1133 : Ref sig .tc := ⟨.hbm, 2307, rfl⟩
abbrev main_c_966 : Ref sig .tc := ⟨.hbm, 2308, rfl⟩
abbrev main_v1134 : Ref sig .tc := ⟨.hbm, 2309, rfl⟩
abbrev main_c_967 : Ref sig .tc := ⟨.hbm, 2310, rfl⟩
abbrev main_v1135 : Ref sig .tc := ⟨.hbm, 2311, rfl⟩
abbrev main_c_968 : Ref sig .tc := ⟨.hbm, 2312, rfl⟩
abbrev main_v1136 : Ref sig .tc := ⟨.hbm, 2313, rfl⟩
abbrev main_v1137 : Ref sig .tc := ⟨.hbm, 2314, rfl⟩
abbrev main_c_969 : Ref sig .tc := ⟨.hbm, 2315, rfl⟩
abbrev main_v1138 : Ref sig .tc := ⟨.hbm, 2316, rfl⟩
abbrev main_c_970 : Ref sig .tc := ⟨.hbm, 2317, rfl⟩
abbrev main_v1139 : Ref sig .tc := ⟨.hbm, 2318, rfl⟩
abbrev main_v1140 : Ref sig .tc := ⟨.hbm, 2319, rfl⟩
abbrev main_v1141 : Ref sig .tc := ⟨.hbm, 2320, rfl⟩
abbrev main_v1142 : Ref sig .tc := ⟨.hbm, 2321, rfl⟩
abbrev main_c_971 : Ref sig .tc := ⟨.hbm, 2322, rfl⟩
abbrev main_c_972 : Ref sig .tc := ⟨.hbm, 2323, rfl⟩
abbrev main_v1143 : Ref sig .tc := ⟨.hbm, 2324, rfl⟩
abbrev main_c_973 : Ref sig .tc := ⟨.hbm, 2325, rfl⟩
abbrev main_c_974 : Ref sig .tc := ⟨.hbm, 2326, rfl⟩
abbrev main_v1144 : Ref sig .tc := ⟨.hbm, 2327, rfl⟩
abbrev main_c_975 : Ref sig .tc := ⟨.hbm, 2328, rfl⟩
abbrev main_v1145 : Ref sig .tc := ⟨.hbm, 2329, rfl⟩
abbrev main_c_976 : Ref sig .tc := ⟨.hbm, 2330, rfl⟩
abbrev main_c_977 : Ref sig .tc := ⟨.hbm, 2331, rfl⟩
abbrev main_v1146 : Ref sig .tc := ⟨.hbm, 2332, rfl⟩
abbrev main_c_978 : Ref sig .tc := ⟨.hbm, 2333, rfl⟩
abbrev main_c_979 : Ref sig .tc := ⟨.hbm, 2334, rfl⟩
abbrev main_v1147 : Ref sig .tc := ⟨.hbm, 2335, rfl⟩
abbrev main_c_980 : Ref sig .tc := ⟨.hbm, 2336, rfl⟩
abbrev main_v1148 : Ref sig .tc := ⟨.hbm, 2337, rfl⟩
abbrev main_c_981 : Ref sig .tc := ⟨.hbm, 2338, rfl⟩
abbrev main_v1149 : Ref sig .tc := ⟨.hbm, 2339, rfl⟩
abbrev main_c_982 : Ref sig .tc := ⟨.hbm, 2340, rfl⟩
abbrev main_v1150 : Ref sig .tc := ⟨.hbm, 2341, rfl⟩
abbrev main_v1151 : Ref sig .tc := ⟨.hbm, 2342, rfl⟩
abbrev main_c_983 : Ref sig .tc := ⟨.hbm, 2343, rfl⟩
abbrev main_v1152 : Ref sig .tc := ⟨.hbm, 2344, rfl⟩
abbrev main_c_984 : Ref sig .tc := ⟨.hbm, 2345, rfl⟩
abbrev main_v1153 : Ref sig .tc := ⟨.hbm, 2346, rfl⟩
abbrev main_v1154 : Ref sig .tc := ⟨.hbm, 2347, rfl⟩
abbrev main_v1155 : Ref sig .tc := ⟨.hbm, 2348, rfl⟩
abbrev main_v1156 : Ref sig .tc := ⟨.hbm, 2349, rfl⟩
abbrev main_v1157 : Ref sig .tc := ⟨.hbm, 2350, rfl⟩
abbrev main_c_985 : Ref sig .tc := ⟨.hbm, 2351, rfl⟩
abbrev main_v1158 : Ref sig .tc := ⟨.hbm, 2352, rfl⟩
abbrev main_c_986 : Ref sig .tc := ⟨.hbm, 2353, rfl⟩
abbrev main_c_987 : Ref sig .tc := ⟨.hbm, 2354, rfl⟩
abbrev main_call68_v0 : Ref sig .tc := ⟨.hbm, 2355, rfl⟩
abbrev main_call68_v1 : Ref sig .tc := ⟨.hbm, 2356, rfl⟩
abbrev main_call68_v2 : Ref sig .tc := ⟨.hbm, 2357, rfl⟩
abbrev main_v1159 : Ref sig .tc := ⟨.hbm, 2358, rfl⟩
abbrev main_v1160 : Ref sig .tc := ⟨.hbm, 2359, rfl⟩
abbrev main_v1161 : Ref sig .tc := ⟨.hbm, 2360, rfl⟩
abbrev main_c_988 : Ref sig .tc := ⟨.hbm, 2361, rfl⟩
abbrev main_v1162 : Ref sig .tc := ⟨.hbm, 2362, rfl⟩
abbrev main_c_989 : Ref sig .tc := ⟨.hbm, 2363, rfl⟩
abbrev main_c_990 : Ref sig .tc := ⟨.hbm, 2364, rfl⟩
abbrev main_call69_v0 : Ref sig .tc := ⟨.hbm, 2365, rfl⟩
abbrev main_call69_v1 : Ref sig .tc := ⟨.hbm, 2366, rfl⟩
abbrev main_call69_v2 : Ref sig .tc := ⟨.hbm, 2367, rfl⟩
abbrev main_v1163 : Ref sig .tc := ⟨.hbm, 2368, rfl⟩
abbrev main_v1164 : Ref sig .tc := ⟨.hbm, 2369, rfl⟩
abbrev main_v1165 : Ref sig .tc := ⟨.hbm, 2370, rfl⟩
abbrev main_c_991 : Ref sig .tc := ⟨.hbm, 2371, rfl⟩
abbrev main_c_992 : Ref sig .tc := ⟨.hbm, 2372, rfl⟩
abbrev main_v1166 : Ref sig .tc := ⟨.hbm, 2373, rfl⟩
abbrev main_c_993 : Ref sig .tc := ⟨.hbm, 2374, rfl⟩
abbrev main_c_994 : Ref sig .tc := ⟨.hbm, 2375, rfl⟩
abbrev main_v1167 : Ref sig .tc := ⟨.hbm, 2376, rfl⟩
abbrev main_c_995 : Ref sig .tc := ⟨.hbm, 2377, rfl⟩
abbrev main_v1168 : Ref sig .tc := ⟨.hbm, 2378, rfl⟩
abbrev main_c_996 : Ref sig .tc := ⟨.hbm, 2379, rfl⟩
abbrev main_v1169 : Ref sig .tc := ⟨.hbm, 2380, rfl⟩
abbrev main_c_997 : Ref sig .tc := ⟨.hbm, 2381, rfl⟩
abbrev main_v1170 : Ref sig .tc := ⟨.hbm, 2382, rfl⟩
abbrev main_v1171 : Ref sig .tc := ⟨.hbm, 2383, rfl⟩
abbrev main_c_998 : Ref sig .tc := ⟨.hbm, 2384, rfl⟩
abbrev main_v1172 : Ref sig .tc := ⟨.hbm, 2385, rfl⟩
abbrev main_c_999 : Ref sig .tc := ⟨.hbm, 2386, rfl⟩
abbrev main_v1173 : Ref sig .tc := ⟨.hbm, 2387, rfl⟩
abbrev main_v1174 : Ref sig .tc := ⟨.hbm, 2388, rfl⟩
abbrev main_v1175 : Ref sig .tc := ⟨.hbm, 2389, rfl⟩
abbrev main_v1176 : Ref sig .tc := ⟨.hbm, 2390, rfl⟩
abbrev main_c_1000 : Ref sig .tc := ⟨.hbm, 2391, rfl⟩
abbrev main_c_1001 : Ref sig .tc := ⟨.hbm, 2392, rfl⟩
abbrev main_v1177 : Ref sig .tc := ⟨.hbm, 2393, rfl⟩
abbrev main_c_1002 : Ref sig .tc := ⟨.hbm, 2394, rfl⟩
abbrev main_c_1003 : Ref sig .tc := ⟨.hbm, 2395, rfl⟩
abbrev main_v1178 : Ref sig .tc := ⟨.hbm, 2396, rfl⟩
abbrev main_c_1004 : Ref sig .tc := ⟨.hbm, 2397, rfl⟩
abbrev main_v1179 : Ref sig .tc := ⟨.hbm, 2398, rfl⟩
abbrev main_c_1005 : Ref sig .tc := ⟨.hbm, 2399, rfl⟩
abbrev main_c_1006 : Ref sig .tc := ⟨.hbm, 2400, rfl⟩
abbrev main_v1180 : Ref sig .tc := ⟨.hbm, 2401, rfl⟩
abbrev main_c_1007 : Ref sig .tc := ⟨.hbm, 2402, rfl⟩
abbrev main_c_1008 : Ref sig .tc := ⟨.hbm, 2403, rfl⟩
abbrev main_v1181 : Ref sig .tc := ⟨.hbm, 2404, rfl⟩
abbrev main_c_1009 : Ref sig .tc := ⟨.hbm, 2405, rfl⟩
abbrev main_v1182 : Ref sig .tc := ⟨.hbm, 2406, rfl⟩
abbrev main_c_1010 : Ref sig .tc := ⟨.hbm, 2407, rfl⟩
abbrev main_v1183 : Ref sig .tc := ⟨.hbm, 2408, rfl⟩
abbrev main_c_1011 : Ref sig .tc := ⟨.hbm, 2409, rfl⟩
abbrev main_v1184 : Ref sig .tc := ⟨.hbm, 2410, rfl⟩
abbrev main_v1185 : Ref sig .tc := ⟨.hbm, 2411, rfl⟩
abbrev main_c_1012 : Ref sig .tc := ⟨.hbm, 2412, rfl⟩
abbrev main_v1186 : Ref sig .tc := ⟨.hbm, 2413, rfl⟩
abbrev main_c_1013 : Ref sig .tc := ⟨.hbm, 2414, rfl⟩
abbrev main_v1187 : Ref sig .tc := ⟨.hbm, 2415, rfl⟩
abbrev main_v1188 : Ref sig .tc := ⟨.hbm, 2416, rfl⟩
abbrev main_v1189 : Ref sig .tc := ⟨.hbm, 2417, rfl⟩
abbrev main_v1190 : Ref sig .tc := ⟨.hbm, 2418, rfl⟩
abbrev main_v1191 : Ref sig .tc := ⟨.hbm, 2419, rfl⟩
abbrev main_c_1014 : Ref sig .tc := ⟨.hbm, 2420, rfl⟩
abbrev main_v1192 : Ref sig .tc := ⟨.hbm, 2421, rfl⟩
abbrev main_c_1015 : Ref sig .tc := ⟨.hbm, 2422, rfl⟩
abbrev main_c_1016 : Ref sig .tc := ⟨.hbm, 2423, rfl⟩
abbrev main_call70_v0 : Ref sig .tc := ⟨.hbm, 2424, rfl⟩
abbrev main_call70_v1 : Ref sig .tc := ⟨.hbm, 2425, rfl⟩
abbrev main_call70_v2 : Ref sig .tc := ⟨.hbm, 2426, rfl⟩
abbrev main_v1193 : Ref sig .tc := ⟨.hbm, 2427, rfl⟩
abbrev main_v1194 : Ref sig .tc := ⟨.hbm, 2428, rfl⟩
abbrev main_v1195 : Ref sig .tc := ⟨.hbm, 2429, rfl⟩
abbrev main_c_1017 : Ref sig .tc := ⟨.hbm, 2430, rfl⟩
abbrev main_v1196 : Ref sig .tc := ⟨.hbm, 2431, rfl⟩
abbrev main_c_1018 : Ref sig .tc := ⟨.hbm, 2432, rfl⟩
abbrev main_c_1019 : Ref sig .tc := ⟨.hbm, 2433, rfl⟩
abbrev main_call71_v0 : Ref sig .tc := ⟨.hbm, 2434, rfl⟩
abbrev main_call71_v1 : Ref sig .tc := ⟨.hbm, 2435, rfl⟩
abbrev main_call71_v2 : Ref sig .tc := ⟨.hbm, 2436, rfl⟩
abbrev main_v1197 : Ref sig .tc := ⟨.hbm, 2437, rfl⟩
abbrev main_v1198 : Ref sig .tc := ⟨.hbm, 2438, rfl⟩
abbrev main_v1199 : Ref sig .tc := ⟨.hbm, 2439, rfl⟩
abbrev main_c_1020 : Ref sig .tc := ⟨.hbm, 2440, rfl⟩
abbrev main_c_1021 : Ref sig .tc := ⟨.hbm, 2441, rfl⟩
abbrev main_v1200 : Ref sig .tc := ⟨.hbm, 2442, rfl⟩
abbrev main_c_1022 : Ref sig .tc := ⟨.hbm, 2443, rfl⟩
abbrev main_c_1023 : Ref sig .tc := ⟨.hbm, 2444, rfl⟩
abbrev main_v1201 : Ref sig .tc := ⟨.hbm, 2445, rfl⟩
abbrev main_c_1024 : Ref sig .tc := ⟨.hbm, 2446, rfl⟩
abbrev main_v1202 : Ref sig .tc := ⟨.hbm, 2447, rfl⟩
abbrev main_c_1025 : Ref sig .tc := ⟨.hbm, 2448, rfl⟩
abbrev main_v1203 : Ref sig .tc := ⟨.hbm, 2449, rfl⟩
abbrev main_c_1026 : Ref sig .tc := ⟨.hbm, 2450, rfl⟩
abbrev main_v1204 : Ref sig .tc := ⟨.hbm, 2451, rfl⟩
abbrev main_v1205 : Ref sig .tc := ⟨.hbm, 2452, rfl⟩
abbrev main_c_1027 : Ref sig .tc := ⟨.hbm, 2453, rfl⟩
abbrev main_v1206 : Ref sig .tc := ⟨.hbm, 2454, rfl⟩
abbrev main_c_1028 : Ref sig .tc := ⟨.hbm, 2455, rfl⟩
abbrev main_v1207 : Ref sig .tc := ⟨.hbm, 2456, rfl⟩
abbrev main_v1208 : Ref sig .tc := ⟨.hbm, 2457, rfl⟩
abbrev main_v1209 : Ref sig .tc := ⟨.hbm, 2458, rfl⟩
abbrev main_v1210 : Ref sig .tc := ⟨.hbm, 2459, rfl⟩
abbrev main_c_1029 : Ref sig .tc := ⟨.hbm, 2460, rfl⟩
abbrev main_c_1030 : Ref sig .tc := ⟨.hbm, 2461, rfl⟩
abbrev main_v1211 : Ref sig .tc := ⟨.hbm, 2462, rfl⟩
abbrev main_c_1031 : Ref sig .tc := ⟨.hbm, 2463, rfl⟩
abbrev main_c_1032 : Ref sig .tc := ⟨.hbm, 2464, rfl⟩
abbrev main_v1212 : Ref sig .tc := ⟨.hbm, 2465, rfl⟩
abbrev main_c_1033 : Ref sig .tc := ⟨.hbm, 2466, rfl⟩
abbrev main_v1213 : Ref sig .tc := ⟨.hbm, 2467, rfl⟩
abbrev main_c_1034 : Ref sig .tc := ⟨.hbm, 2468, rfl⟩
abbrev main_c_1035 : Ref sig .tc := ⟨.hbm, 2469, rfl⟩
abbrev main_v1214 : Ref sig .tc := ⟨.hbm, 2470, rfl⟩
abbrev main_c_1036 : Ref sig .tc := ⟨.hbm, 2471, rfl⟩
abbrev main_c_1037 : Ref sig .tc := ⟨.hbm, 2472, rfl⟩
abbrev main_v1215 : Ref sig .tc := ⟨.hbm, 2473, rfl⟩
abbrev main_c_1038 : Ref sig .tc := ⟨.hbm, 2474, rfl⟩
abbrev main_v1216 : Ref sig .tc := ⟨.hbm, 2475, rfl⟩
abbrev main_c_1039 : Ref sig .tc := ⟨.hbm, 2476, rfl⟩
abbrev main_v1217 : Ref sig .tc := ⟨.hbm, 2477, rfl⟩
abbrev main_c_1040 : Ref sig .tc := ⟨.hbm, 2478, rfl⟩
abbrev main_v1218 : Ref sig .tc := ⟨.hbm, 2479, rfl⟩
abbrev main_v1219 : Ref sig .tc := ⟨.hbm, 2480, rfl⟩
abbrev main_c_1041 : Ref sig .tc := ⟨.hbm, 2481, rfl⟩
abbrev main_v1220 : Ref sig .tc := ⟨.hbm, 2482, rfl⟩
abbrev main_c_1042 : Ref sig .tc := ⟨.hbm, 2483, rfl⟩
abbrev main_v1221 : Ref sig .tc := ⟨.hbm, 2484, rfl⟩
abbrev main_v1222 : Ref sig .tc := ⟨.hbm, 2485, rfl⟩
abbrev main_v1223 : Ref sig .tc := ⟨.hbm, 2486, rfl⟩
abbrev main_v1224 : Ref sig .tc := ⟨.hbm, 2487, rfl⟩
abbrev main_v1225 : Ref sig .tc := ⟨.hbm, 2488, rfl⟩
abbrev main_c_1043 : Ref sig .tc := ⟨.hbm, 2489, rfl⟩
abbrev main_v1226 : Ref sig .tc := ⟨.hbm, 2490, rfl⟩
abbrev main_c_1044 : Ref sig .tc := ⟨.hbm, 2491, rfl⟩
abbrev main_c_1045 : Ref sig .tc := ⟨.hbm, 2492, rfl⟩
abbrev main_call72_v0 : Ref sig .tc := ⟨.hbm, 2493, rfl⟩
abbrev main_call72_v1 : Ref sig .tc := ⟨.hbm, 2494, rfl⟩
abbrev main_call72_v2 : Ref sig .tc := ⟨.hbm, 2495, rfl⟩
abbrev main_v1227 : Ref sig .tc := ⟨.hbm, 2496, rfl⟩
abbrev main_v1228 : Ref sig .tc := ⟨.hbm, 2497, rfl⟩
abbrev main_v1229 : Ref sig .tc := ⟨.hbm, 2498, rfl⟩
abbrev main_c_1046 : Ref sig .tc := ⟨.hbm, 2499, rfl⟩
abbrev main_v1230 : Ref sig .tc := ⟨.hbm, 2500, rfl⟩
abbrev main_c_1047 : Ref sig .tc := ⟨.hbm, 2501, rfl⟩
abbrev main_c_1048 : Ref sig .tc := ⟨.hbm, 2502, rfl⟩
abbrev main_call73_v0 : Ref sig .tc := ⟨.hbm, 2503, rfl⟩
abbrev main_call73_v1 : Ref sig .tc := ⟨.hbm, 2504, rfl⟩
abbrev main_call73_v2 : Ref sig .tc := ⟨.hbm, 2505, rfl⟩
abbrev main_v1231 : Ref sig .tc := ⟨.hbm, 2506, rfl⟩
abbrev main_v1232 : Ref sig .tc := ⟨.hbm, 2507, rfl⟩
abbrev main_v1233 : Ref sig .tc := ⟨.hbm, 2508, rfl⟩
abbrev main_c_1049 : Ref sig .tc := ⟨.hbm, 2509, rfl⟩
abbrev main_c_1050 : Ref sig .tc := ⟨.hbm, 2510, rfl⟩
abbrev main_v1234 : Ref sig .tc := ⟨.hbm, 2511, rfl⟩
abbrev main_c_1051 : Ref sig .tc := ⟨.hbm, 2512, rfl⟩
abbrev main_c_1052 : Ref sig .tc := ⟨.hbm, 2513, rfl⟩
abbrev main_v1235 : Ref sig .tc := ⟨.hbm, 2514, rfl⟩
abbrev main_c_1053 : Ref sig .tc := ⟨.hbm, 2515, rfl⟩
abbrev main_v1236 : Ref sig .tc := ⟨.hbm, 2516, rfl⟩
abbrev main_c_1054 : Ref sig .tc := ⟨.hbm, 2517, rfl⟩
abbrev main_v1237 : Ref sig .tc := ⟨.hbm, 2518, rfl⟩
abbrev main_c_1055 : Ref sig .tc := ⟨.hbm, 2519, rfl⟩
abbrev main_v1238 : Ref sig .tc := ⟨.hbm, 2520, rfl⟩
abbrev main_v1239 : Ref sig .tc := ⟨.hbm, 2521, rfl⟩
abbrev main_c_1056 : Ref sig .tc := ⟨.hbm, 2522, rfl⟩
abbrev main_v1240 : Ref sig .tc := ⟨.hbm, 2523, rfl⟩
abbrev main_c_1057 : Ref sig .tc := ⟨.hbm, 2524, rfl⟩
abbrev main_v1241 : Ref sig .tc := ⟨.hbm, 2525, rfl⟩
abbrev main_v1242 : Ref sig .tc := ⟨.hbm, 2526, rfl⟩
abbrev main_v1243 : Ref sig .tc := ⟨.hbm, 2527, rfl⟩
abbrev main_v1244 : Ref sig .tc := ⟨.hbm, 2528, rfl⟩
abbrev main_c_1058 : Ref sig .tc := ⟨.hbm, 2529, rfl⟩
abbrev main_c_1059 : Ref sig .tc := ⟨.hbm, 2530, rfl⟩
abbrev main_v1245 : Ref sig .tc := ⟨.hbm, 2531, rfl⟩
abbrev main_c_1060 : Ref sig .tc := ⟨.hbm, 2532, rfl⟩
abbrev main_c_1061 : Ref sig .tc := ⟨.hbm, 2533, rfl⟩
abbrev main_v1246 : Ref sig .tc := ⟨.hbm, 2534, rfl⟩
abbrev main_c_1062 : Ref sig .tc := ⟨.hbm, 2535, rfl⟩
abbrev main_v1247 : Ref sig .tc := ⟨.hbm, 2536, rfl⟩
abbrev main_c_1063 : Ref sig .tc := ⟨.hbm, 2537, rfl⟩
abbrev main_c_1064 : Ref sig .tc := ⟨.hbm, 2538, rfl⟩
abbrev main_v1248 : Ref sig .tc := ⟨.hbm, 2539, rfl⟩
abbrev main_c_1065 : Ref sig .tc := ⟨.hbm, 2540, rfl⟩
abbrev main_c_1066 : Ref sig .tc := ⟨.hbm, 2541, rfl⟩
abbrev main_v1249 : Ref sig .tc := ⟨.hbm, 2542, rfl⟩
abbrev main_c_1067 : Ref sig .tc := ⟨.hbm, 2543, rfl⟩
abbrev main_v1250 : Ref sig .tc := ⟨.hbm, 2544, rfl⟩
abbrev main_c_1068 : Ref sig .tc := ⟨.hbm, 2545, rfl⟩
abbrev main_v1251 : Ref sig .tc := ⟨.hbm, 2546, rfl⟩
abbrev main_c_1069 : Ref sig .tc := ⟨.hbm, 2547, rfl⟩
abbrev main_v1252 : Ref sig .tc := ⟨.hbm, 2548, rfl⟩
abbrev main_v1253 : Ref sig .tc := ⟨.hbm, 2549, rfl⟩
abbrev main_c_1070 : Ref sig .tc := ⟨.hbm, 2550, rfl⟩
abbrev main_v1254 : Ref sig .tc := ⟨.hbm, 2551, rfl⟩
abbrev main_c_1071 : Ref sig .tc := ⟨.hbm, 2552, rfl⟩
abbrev main_v1255 : Ref sig .tc := ⟨.hbm, 2553, rfl⟩
abbrev main_v1256 : Ref sig .tc := ⟨.hbm, 2554, rfl⟩
abbrev main_v1257 : Ref sig .tc := ⟨.hbm, 2555, rfl⟩
abbrev main_v1258 : Ref sig .tc := ⟨.hbm, 2556, rfl⟩
abbrev main_v1259 : Ref sig .tc := ⟨.hbm, 2557, rfl⟩
abbrev main_c_1072 : Ref sig .tc := ⟨.hbm, 2558, rfl⟩
abbrev main_v1260 : Ref sig .tc := ⟨.hbm, 2559, rfl⟩
abbrev main_c_1073 : Ref sig .tc := ⟨.hbm, 2560, rfl⟩
abbrev main_c_1074 : Ref sig .tc := ⟨.hbm, 2561, rfl⟩
abbrev main_call74_v0 : Ref sig .tc := ⟨.hbm, 2562, rfl⟩
abbrev main_call74_v1 : Ref sig .tc := ⟨.hbm, 2563, rfl⟩
abbrev main_call74_v2 : Ref sig .tc := ⟨.hbm, 2564, rfl⟩
abbrev main_v1261 : Ref sig .tc := ⟨.hbm, 2565, rfl⟩
abbrev main_v1262 : Ref sig .tc := ⟨.hbm, 2566, rfl⟩
abbrev main_v1263 : Ref sig .tc := ⟨.hbm, 2567, rfl⟩
abbrev main_c_1075 : Ref sig .tc := ⟨.hbm, 2568, rfl⟩
abbrev main_v1264 : Ref sig .tc := ⟨.hbm, 2569, rfl⟩
abbrev main_c_1076 : Ref sig .tc := ⟨.hbm, 2570, rfl⟩
abbrev main_c_1077 : Ref sig .tc := ⟨.hbm, 2571, rfl⟩
abbrev main_call75_v0 : Ref sig .tc := ⟨.hbm, 2572, rfl⟩
abbrev main_call75_v1 : Ref sig .tc := ⟨.hbm, 2573, rfl⟩
abbrev main_call75_v2 : Ref sig .tc := ⟨.hbm, 2574, rfl⟩
abbrev main_v1265 : Ref sig .tc := ⟨.hbm, 2575, rfl⟩
abbrev main_v1266 : Ref sig .tc := ⟨.hbm, 2576, rfl⟩
abbrev main_v1267 : Ref sig .tc := ⟨.hbm, 2577, rfl⟩
abbrev main_c_1078 : Ref sig .tc := ⟨.hbm, 2578, rfl⟩
abbrev main_c_1079 : Ref sig .tc := ⟨.hbm, 2579, rfl⟩
abbrev main_v1268 : Ref sig .tc := ⟨.hbm, 2580, rfl⟩
abbrev main_c_1080 : Ref sig .tc := ⟨.hbm, 2581, rfl⟩
abbrev main_c_1081 : Ref sig .tc := ⟨.hbm, 2582, rfl⟩
abbrev main_v1269 : Ref sig .tc := ⟨.hbm, 2583, rfl⟩
abbrev main_c_1082 : Ref sig .tc := ⟨.hbm, 2584, rfl⟩
abbrev main_v1270 : Ref sig .tc := ⟨.hbm, 2585, rfl⟩
abbrev main_c_1083 : Ref sig .tc := ⟨.hbm, 2586, rfl⟩
abbrev main_v1271 : Ref sig .tc := ⟨.hbm, 2587, rfl⟩
abbrev main_c_1084 : Ref sig .tc := ⟨.hbm, 2588, rfl⟩
abbrev main_v1272 : Ref sig .tc := ⟨.hbm, 2589, rfl⟩
abbrev main_v1273 : Ref sig .tc := ⟨.hbm, 2590, rfl⟩
abbrev main_c_1085 : Ref sig .tc := ⟨.hbm, 2591, rfl⟩
abbrev main_v1274 : Ref sig .tc := ⟨.hbm, 2592, rfl⟩
abbrev main_c_1086 : Ref sig .tc := ⟨.hbm, 2593, rfl⟩
abbrev main_v1275 : Ref sig .tc := ⟨.hbm, 2594, rfl⟩
abbrev main_v1276 : Ref sig .tc := ⟨.hbm, 2595, rfl⟩
abbrev main_v1277 : Ref sig .tc := ⟨.hbm, 2596, rfl⟩
abbrev main_v1278 : Ref sig .tc := ⟨.hbm, 2597, rfl⟩
abbrev main_c_1087 : Ref sig .tc := ⟨.hbm, 2598, rfl⟩
abbrev main_c_1088 : Ref sig .tc := ⟨.hbm, 2599, rfl⟩
abbrev main_v1279 : Ref sig .tc := ⟨.hbm, 2600, rfl⟩
abbrev main_c_1089 : Ref sig .tc := ⟨.hbm, 2601, rfl⟩
abbrev main_c_1090 : Ref sig .tc := ⟨.hbm, 2602, rfl⟩
abbrev main_v1280 : Ref sig .tc := ⟨.hbm, 2603, rfl⟩
abbrev main_c_1091 : Ref sig .tc := ⟨.hbm, 2604, rfl⟩
abbrev main_v1281 : Ref sig .tc := ⟨.hbm, 2605, rfl⟩
abbrev main_c_1092 : Ref sig .tc := ⟨.hbm, 2606, rfl⟩
abbrev main_c_1093 : Ref sig .tc := ⟨.hbm, 2607, rfl⟩
abbrev main_v1282 : Ref sig .tc := ⟨.hbm, 2608, rfl⟩
abbrev main_c_1094 : Ref sig .tc := ⟨.hbm, 2609, rfl⟩
abbrev main_c_1095 : Ref sig .tc := ⟨.hbm, 2610, rfl⟩
abbrev main_v1283 : Ref sig .tc := ⟨.hbm, 2611, rfl⟩
abbrev main_c_1096 : Ref sig .tc := ⟨.hbm, 2612, rfl⟩
abbrev main_v1284 : Ref sig .tc := ⟨.hbm, 2613, rfl⟩
abbrev main_c_1097 : Ref sig .tc := ⟨.hbm, 2614, rfl⟩
abbrev main_v1285 : Ref sig .tc := ⟨.hbm, 2615, rfl⟩
abbrev main_c_1098 : Ref sig .tc := ⟨.hbm, 2616, rfl⟩
abbrev main_v1286 : Ref sig .tc := ⟨.hbm, 2617, rfl⟩
abbrev main_v1287 : Ref sig .tc := ⟨.hbm, 2618, rfl⟩
abbrev main_c_1099 : Ref sig .tc := ⟨.hbm, 2619, rfl⟩
abbrev main_v1288 : Ref sig .tc := ⟨.hbm, 2620, rfl⟩
abbrev main_c_1100 : Ref sig .tc := ⟨.hbm, 2621, rfl⟩
abbrev main_v1289 : Ref sig .tc := ⟨.hbm, 2622, rfl⟩
abbrev main_v1290 : Ref sig .tc := ⟨.hbm, 2623, rfl⟩
abbrev main_v1291 : Ref sig .tc := ⟨.hbm, 2624, rfl⟩
abbrev main_v1292 : Ref sig .tc := ⟨.hbm, 2625, rfl⟩
abbrev main_v1293 : Ref sig .tc := ⟨.hbm, 2626, rfl⟩
abbrev main_c_1101 : Ref sig .tc := ⟨.hbm, 2627, rfl⟩
abbrev main_v1294 : Ref sig .tc := ⟨.hbm, 2628, rfl⟩
abbrev main_c_1102 : Ref sig .tc := ⟨.hbm, 2629, rfl⟩
abbrev main_c_1103 : Ref sig .tc := ⟨.hbm, 2630, rfl⟩
abbrev main_call76_v0 : Ref sig .tc := ⟨.hbm, 2631, rfl⟩
abbrev main_call76_v1 : Ref sig .tc := ⟨.hbm, 2632, rfl⟩
abbrev main_call76_v2 : Ref sig .tc := ⟨.hbm, 2633, rfl⟩
abbrev main_v1295 : Ref sig .tc := ⟨.hbm, 2634, rfl⟩
abbrev main_v1296 : Ref sig .tc := ⟨.hbm, 2635, rfl⟩
abbrev main_v1297 : Ref sig .tc := ⟨.hbm, 2636, rfl⟩
abbrev main_c_1104 : Ref sig .tc := ⟨.hbm, 2637, rfl⟩
abbrev main_v1298 : Ref sig .tc := ⟨.hbm, 2638, rfl⟩
abbrev main_c_1105 : Ref sig .tc := ⟨.hbm, 2639, rfl⟩
abbrev main_c_1106 : Ref sig .tc := ⟨.hbm, 2640, rfl⟩
abbrev main_call77_v0 : Ref sig .tc := ⟨.hbm, 2641, rfl⟩
abbrev main_call77_v1 : Ref sig .tc := ⟨.hbm, 2642, rfl⟩
abbrev main_call77_v2 : Ref sig .tc := ⟨.hbm, 2643, rfl⟩
abbrev main_v1299 : Ref sig .tc := ⟨.hbm, 2644, rfl⟩
abbrev main_v1300 : Ref sig .tc := ⟨.hbm, 2645, rfl⟩
abbrev main_v1301 : Ref sig .tc := ⟨.hbm, 2646, rfl⟩
abbrev main_c_1107 : Ref sig .tc := ⟨.hbm, 2647, rfl⟩
abbrev main_c_1108 : Ref sig .tc := ⟨.hbm, 2648, rfl⟩
abbrev main_v1302 : Ref sig .tc := ⟨.hbm, 2649, rfl⟩
abbrev main_c_1109 : Ref sig .tc := ⟨.hbm, 2650, rfl⟩
abbrev main_c_1110 : Ref sig .tc := ⟨.hbm, 2651, rfl⟩
abbrev main_v1303 : Ref sig .tc := ⟨.hbm, 2652, rfl⟩
abbrev main_c_1111 : Ref sig .tc := ⟨.hbm, 2653, rfl⟩
abbrev main_v1304 : Ref sig .tc := ⟨.hbm, 2654, rfl⟩
abbrev main_c_1112 : Ref sig .tc := ⟨.hbm, 2655, rfl⟩
abbrev main_v1305 : Ref sig .tc := ⟨.hbm, 2656, rfl⟩
abbrev main_c_1113 : Ref sig .tc := ⟨.hbm, 2657, rfl⟩
abbrev main_v1306 : Ref sig .tc := ⟨.hbm, 2658, rfl⟩
abbrev main_v1307 : Ref sig .tc := ⟨.hbm, 2659, rfl⟩
abbrev main_c_1114 : Ref sig .tc := ⟨.hbm, 2660, rfl⟩
abbrev main_v1308 : Ref sig .tc := ⟨.hbm, 2661, rfl⟩
abbrev main_c_1115 : Ref sig .tc := ⟨.hbm, 2662, rfl⟩
abbrev main_v1309 : Ref sig .tc := ⟨.hbm, 2663, rfl⟩
abbrev main_v1310 : Ref sig .tc := ⟨.hbm, 2664, rfl⟩
abbrev main_v1311 : Ref sig .tc := ⟨.hbm, 2665, rfl⟩
abbrev main_v1312 : Ref sig .tc := ⟨.hbm, 2666, rfl⟩
abbrev main_c_1116 : Ref sig .tc := ⟨.hbm, 2667, rfl⟩
abbrev main_c_1117 : Ref sig .tc := ⟨.hbm, 2668, rfl⟩
abbrev main_v1313 : Ref sig .tc := ⟨.hbm, 2669, rfl⟩
abbrev main_c_1118 : Ref sig .tc := ⟨.hbm, 2670, rfl⟩
abbrev main_c_1119 : Ref sig .tc := ⟨.hbm, 2671, rfl⟩
abbrev main_v1314 : Ref sig .tc := ⟨.hbm, 2672, rfl⟩
abbrev main_c_1120 : Ref sig .tc := ⟨.hbm, 2673, rfl⟩
abbrev main_v1315 : Ref sig .tc := ⟨.hbm, 2674, rfl⟩
abbrev main_c_1121 : Ref sig .tc := ⟨.hbm, 2675, rfl⟩
abbrev main_c_1122 : Ref sig .tc := ⟨.hbm, 2676, rfl⟩
abbrev main_v1316 : Ref sig .tc := ⟨.hbm, 2677, rfl⟩
abbrev main_c_1123 : Ref sig .tc := ⟨.hbm, 2678, rfl⟩
abbrev main_c_1124 : Ref sig .tc := ⟨.hbm, 2679, rfl⟩
abbrev main_v1317 : Ref sig .tc := ⟨.hbm, 2680, rfl⟩
abbrev main_c_1125 : Ref sig .tc := ⟨.hbm, 2681, rfl⟩
abbrev main_v1318 : Ref sig .tc := ⟨.hbm, 2682, rfl⟩
abbrev main_c_1126 : Ref sig .tc := ⟨.hbm, 2683, rfl⟩
abbrev main_v1319 : Ref sig .tc := ⟨.hbm, 2684, rfl⟩
abbrev main_c_1127 : Ref sig .tc := ⟨.hbm, 2685, rfl⟩
abbrev main_v1320 : Ref sig .tc := ⟨.hbm, 2686, rfl⟩
abbrev main_v1321 : Ref sig .tc := ⟨.hbm, 2687, rfl⟩
abbrev main_c_1128 : Ref sig .tc := ⟨.hbm, 2688, rfl⟩
abbrev main_v1322 : Ref sig .tc := ⟨.hbm, 2689, rfl⟩
abbrev main_c_1129 : Ref sig .tc := ⟨.hbm, 2690, rfl⟩
abbrev main_v1323 : Ref sig .tc := ⟨.hbm, 2691, rfl⟩
abbrev main_v1324 : Ref sig .tc := ⟨.hbm, 2692, rfl⟩
abbrev main_v1325 : Ref sig .tc := ⟨.hbm, 2693, rfl⟩
abbrev main_v1326 : Ref sig .tc := ⟨.hbm, 2694, rfl⟩
abbrev main_v1327 : Ref sig .tc := ⟨.hbm, 2695, rfl⟩
abbrev main_c_1130 : Ref sig .tc := ⟨.hbm, 2696, rfl⟩
abbrev main_v1328 : Ref sig .tc := ⟨.hbm, 2697, rfl⟩
abbrev main_c_1131 : Ref sig .tc := ⟨.hbm, 2698, rfl⟩
abbrev main_c_1132 : Ref sig .tc := ⟨.hbm, 2699, rfl⟩
abbrev main_call78_v0 : Ref sig .tc := ⟨.hbm, 2700, rfl⟩
abbrev main_call78_v1 : Ref sig .tc := ⟨.hbm, 2701, rfl⟩
abbrev main_call78_v2 : Ref sig .tc := ⟨.hbm, 2702, rfl⟩
abbrev main_v1329 : Ref sig .tc := ⟨.hbm, 2703, rfl⟩
abbrev main_v1330 : Ref sig .tc := ⟨.hbm, 2704, rfl⟩
abbrev main_v1331 : Ref sig .tc := ⟨.hbm, 2705, rfl⟩
abbrev main_c_1133 : Ref sig .tc := ⟨.hbm, 2706, rfl⟩
abbrev main_v1332 : Ref sig .tc := ⟨.hbm, 2707, rfl⟩
abbrev main_c_1134 : Ref sig .tc := ⟨.hbm, 2708, rfl⟩
abbrev main_c_1135 : Ref sig .tc := ⟨.hbm, 2709, rfl⟩
abbrev main_call79_v0 : Ref sig .tc := ⟨.hbm, 2710, rfl⟩
abbrev main_call79_v1 : Ref sig .tc := ⟨.hbm, 2711, rfl⟩
abbrev main_call79_v2 : Ref sig .tc := ⟨.hbm, 2712, rfl⟩
abbrev main_v1333 : Ref sig .tc := ⟨.hbm, 2713, rfl⟩
abbrev main_v1334 : Ref sig .tc := ⟨.hbm, 2714, rfl⟩
abbrev main_v1335 : Ref sig .tc := ⟨.hbm, 2715, rfl⟩
abbrev main_c_1136 : Ref sig .tc := ⟨.hbm, 2716, rfl⟩
abbrev main_c_1137 : Ref sig .tc := ⟨.hbm, 2717, rfl⟩
abbrev main_v1336 : Ref sig .tc := ⟨.hbm, 2718, rfl⟩
abbrev main_c_1138 : Ref sig .tc := ⟨.hbm, 2719, rfl⟩
abbrev main_c_1139 : Ref sig .tc := ⟨.hbm, 2720, rfl⟩
abbrev main_v1337 : Ref sig .tc := ⟨.hbm, 2721, rfl⟩
abbrev main_c_1140 : Ref sig .tc := ⟨.hbm, 2722, rfl⟩
abbrev main_v1338 : Ref sig .tc := ⟨.hbm, 2723, rfl⟩
abbrev main_c_1141 : Ref sig .tc := ⟨.hbm, 2724, rfl⟩
abbrev main_v1339 : Ref sig .tc := ⟨.hbm, 2725, rfl⟩
abbrev main_c_1142 : Ref sig .tc := ⟨.hbm, 2726, rfl⟩
abbrev main_v1340 : Ref sig .tc := ⟨.hbm, 2727, rfl⟩
abbrev main_v1341 : Ref sig .tc := ⟨.hbm, 2728, rfl⟩
abbrev main_c_1143 : Ref sig .tc := ⟨.hbm, 2729, rfl⟩
abbrev main_v1342 : Ref sig .tc := ⟨.hbm, 2730, rfl⟩
abbrev main_c_1144 : Ref sig .tc := ⟨.hbm, 2731, rfl⟩
abbrev main_v1343 : Ref sig .tc := ⟨.hbm, 2732, rfl⟩
abbrev main_v1344 : Ref sig .tc := ⟨.hbm, 2733, rfl⟩
abbrev main_v1345 : Ref sig .tc := ⟨.hbm, 2734, rfl⟩
abbrev main_v1346 : Ref sig .tc := ⟨.hbm, 2735, rfl⟩
abbrev main_c_1145 : Ref sig .tc := ⟨.hbm, 2736, rfl⟩
abbrev main_c_1146 : Ref sig .tc := ⟨.hbm, 2737, rfl⟩
abbrev main_v1347 : Ref sig .tc := ⟨.hbm, 2738, rfl⟩
abbrev main_c_1147 : Ref sig .tc := ⟨.hbm, 2739, rfl⟩
abbrev main_c_1148 : Ref sig .tc := ⟨.hbm, 2740, rfl⟩
abbrev main_v1348 : Ref sig .tc := ⟨.hbm, 2741, rfl⟩
abbrev main_c_1149 : Ref sig .tc := ⟨.hbm, 2742, rfl⟩
abbrev main_v1349 : Ref sig .tc := ⟨.hbm, 2743, rfl⟩
abbrev main_c_1150 : Ref sig .tc := ⟨.hbm, 2744, rfl⟩
abbrev main_c_1151 : Ref sig .tc := ⟨.hbm, 2745, rfl⟩
abbrev main_v1350 : Ref sig .tc := ⟨.hbm, 2746, rfl⟩
abbrev main_c_1152 : Ref sig .tc := ⟨.hbm, 2747, rfl⟩
abbrev main_c_1153 : Ref sig .tc := ⟨.hbm, 2748, rfl⟩
abbrev main_v1351 : Ref sig .tc := ⟨.hbm, 2749, rfl⟩
abbrev main_c_1154 : Ref sig .tc := ⟨.hbm, 2750, rfl⟩
abbrev main_v1352 : Ref sig .tc := ⟨.hbm, 2751, rfl⟩
abbrev main_c_1155 : Ref sig .tc := ⟨.hbm, 2752, rfl⟩
abbrev main_v1353 : Ref sig .tc := ⟨.hbm, 2753, rfl⟩
abbrev main_c_1156 : Ref sig .tc := ⟨.hbm, 2754, rfl⟩
abbrev main_v1354 : Ref sig .tc := ⟨.hbm, 2755, rfl⟩
abbrev main_v1355 : Ref sig .tc := ⟨.hbm, 2756, rfl⟩
abbrev main_c_1157 : Ref sig .tc := ⟨.hbm, 2757, rfl⟩
abbrev main_v1356 : Ref sig .tc := ⟨.hbm, 2758, rfl⟩
abbrev main_c_1158 : Ref sig .tc := ⟨.hbm, 2759, rfl⟩
abbrev main_v1357 : Ref sig .tc := ⟨.hbm, 2760, rfl⟩
abbrev main_v1358 : Ref sig .tc := ⟨.hbm, 2761, rfl⟩
abbrev main_v1359 : Ref sig .tc := ⟨.hbm, 2762, rfl⟩
abbrev main_v1360 : Ref sig .tc := ⟨.hbm, 2763, rfl⟩
abbrev main_v1361 : Ref sig .tc := ⟨.hbm, 2764, rfl⟩
abbrev main_c_1159 : Ref sig .tc := ⟨.hbm, 2765, rfl⟩
abbrev main_v1362 : Ref sig .tc := ⟨.hbm, 2766, rfl⟩
abbrev main_c_1160 : Ref sig .tc := ⟨.hbm, 2767, rfl⟩
abbrev main_c_1161 : Ref sig .tc := ⟨.hbm, 2768, rfl⟩
abbrev main_call80_v0 : Ref sig .tc := ⟨.hbm, 2769, rfl⟩
abbrev main_call80_v1 : Ref sig .tc := ⟨.hbm, 2770, rfl⟩
abbrev main_call80_v2 : Ref sig .tc := ⟨.hbm, 2771, rfl⟩
abbrev main_v1363 : Ref sig .tc := ⟨.hbm, 2772, rfl⟩
abbrev main_v1364 : Ref sig .tc := ⟨.hbm, 2773, rfl⟩
abbrev main_v1365 : Ref sig .tc := ⟨.hbm, 2774, rfl⟩
abbrev main_c_1162 : Ref sig .tc := ⟨.hbm, 2775, rfl⟩
abbrev main_v1366 : Ref sig .tc := ⟨.hbm, 2776, rfl⟩
abbrev main_c_1163 : Ref sig .tc := ⟨.hbm, 2777, rfl⟩
abbrev main_c_1164 : Ref sig .tc := ⟨.hbm, 2778, rfl⟩
abbrev main_call81_v0 : Ref sig .tc := ⟨.hbm, 2779, rfl⟩
abbrev main_call81_v1 : Ref sig .tc := ⟨.hbm, 2780, rfl⟩
abbrev main_call81_v2 : Ref sig .tc := ⟨.hbm, 2781, rfl⟩
abbrev main_v1367 : Ref sig .tc := ⟨.hbm, 2782, rfl⟩
abbrev main_v1368 : Ref sig .tc := ⟨.hbm, 2783, rfl⟩
abbrev main_v1369 : Ref sig .tc := ⟨.hbm, 2784, rfl⟩
abbrev main_c_1165 : Ref sig .tc := ⟨.hbm, 2785, rfl⟩
abbrev main_c_1166 : Ref sig .tc := ⟨.hbm, 2786, rfl⟩
abbrev main_v1370 : Ref sig .tc := ⟨.hbm, 2787, rfl⟩
abbrev main_c_1167 : Ref sig .tc := ⟨.hbm, 2788, rfl⟩
abbrev main_c_1168 : Ref sig .tc := ⟨.hbm, 2789, rfl⟩
abbrev main_v1371 : Ref sig .tc := ⟨.hbm, 2790, rfl⟩
abbrev main_c_1169 : Ref sig .tc := ⟨.hbm, 2791, rfl⟩
abbrev main_v1372 : Ref sig .tc := ⟨.hbm, 2792, rfl⟩
abbrev main_c_1170 : Ref sig .tc := ⟨.hbm, 2793, rfl⟩
abbrev main_v1373 : Ref sig .tc := ⟨.hbm, 2794, rfl⟩
abbrev main_c_1171 : Ref sig .tc := ⟨.hbm, 2795, rfl⟩
abbrev main_v1374 : Ref sig .tc := ⟨.hbm, 2796, rfl⟩
abbrev main_v1375 : Ref sig .tc := ⟨.hbm, 2797, rfl⟩
abbrev main_c_1172 : Ref sig .tc := ⟨.hbm, 2798, rfl⟩
abbrev main_v1376 : Ref sig .tc := ⟨.hbm, 2799, rfl⟩
abbrev main_c_1173 : Ref sig .tc := ⟨.hbm, 2800, rfl⟩
abbrev main_v1377 : Ref sig .tc := ⟨.hbm, 2801, rfl⟩
abbrev main_v1378 : Ref sig .tc := ⟨.hbm, 2802, rfl⟩
abbrev main_v1379 : Ref sig .tc := ⟨.hbm, 2803, rfl⟩
abbrev main_v1380 : Ref sig .tc := ⟨.hbm, 2804, rfl⟩
abbrev main_c_1174 : Ref sig .tc := ⟨.hbm, 2805, rfl⟩
abbrev main_c_1175 : Ref sig .tc := ⟨.hbm, 2806, rfl⟩
abbrev main_v1381 : Ref sig .tc := ⟨.hbm, 2807, rfl⟩
abbrev main_c_1176 : Ref sig .tc := ⟨.hbm, 2808, rfl⟩
abbrev main_c_1177 : Ref sig .tc := ⟨.hbm, 2809, rfl⟩
abbrev main_v1382 : Ref sig .tc := ⟨.hbm, 2810, rfl⟩
abbrev main_c_1178 : Ref sig .tc := ⟨.hbm, 2811, rfl⟩
abbrev main_v1383 : Ref sig .tc := ⟨.hbm, 2812, rfl⟩
abbrev main_c_1179 : Ref sig .tc := ⟨.hbm, 2813, rfl⟩
abbrev main_c_1180 : Ref sig .tc := ⟨.hbm, 2814, rfl⟩
abbrev main_v1384 : Ref sig .tc := ⟨.hbm, 2815, rfl⟩
abbrev main_c_1181 : Ref sig .tc := ⟨.hbm, 2816, rfl⟩
abbrev main_c_1182 : Ref sig .tc := ⟨.hbm, 2817, rfl⟩
abbrev main_v1385 : Ref sig .tc := ⟨.hbm, 2818, rfl⟩
abbrev main_c_1183 : Ref sig .tc := ⟨.hbm, 2819, rfl⟩
abbrev main_v1386 : Ref sig .tc := ⟨.hbm, 2820, rfl⟩
abbrev main_c_1184 : Ref sig .tc := ⟨.hbm, 2821, rfl⟩
abbrev main_v1387 : Ref sig .tc := ⟨.hbm, 2822, rfl⟩
abbrev main_c_1185 : Ref sig .tc := ⟨.hbm, 2823, rfl⟩
abbrev main_v1388 : Ref sig .tc := ⟨.hbm, 2824, rfl⟩
abbrev main_v1389 : Ref sig .tc := ⟨.hbm, 2825, rfl⟩
abbrev main_c_1186 : Ref sig .tc := ⟨.hbm, 2826, rfl⟩
abbrev main_v1390 : Ref sig .tc := ⟨.hbm, 2827, rfl⟩
abbrev main_c_1187 : Ref sig .tc := ⟨.hbm, 2828, rfl⟩
abbrev main_v1391 : Ref sig .tc := ⟨.hbm, 2829, rfl⟩
abbrev main_v1392 : Ref sig .tc := ⟨.hbm, 2830, rfl⟩
abbrev main_v1393 : Ref sig .tc := ⟨.hbm, 2831, rfl⟩
abbrev main_v1394 : Ref sig .tc := ⟨.hbm, 2832, rfl⟩
abbrev main_v1395 : Ref sig .tc := ⟨.hbm, 2833, rfl⟩
abbrev main_c_1188 : Ref sig .tc := ⟨.hbm, 2834, rfl⟩
abbrev main_v1396 : Ref sig .tc := ⟨.hbm, 2835, rfl⟩
abbrev main_c_1189 : Ref sig .tc := ⟨.hbm, 2836, rfl⟩
abbrev main_c_1190 : Ref sig .tc := ⟨.hbm, 2837, rfl⟩
abbrev main_call82_v0 : Ref sig .tc := ⟨.hbm, 2838, rfl⟩
abbrev main_call82_v1 : Ref sig .tc := ⟨.hbm, 2839, rfl⟩
abbrev main_call82_v2 : Ref sig .tc := ⟨.hbm, 2840, rfl⟩
abbrev main_v1397 : Ref sig .tc := ⟨.hbm, 2841, rfl⟩
abbrev main_v1398 : Ref sig .tc := ⟨.hbm, 2842, rfl⟩
abbrev main_v1399 : Ref sig .tc := ⟨.hbm, 2843, rfl⟩
abbrev main_c_1191 : Ref sig .tc := ⟨.hbm, 2844, rfl⟩
abbrev main_v1400 : Ref sig .tc := ⟨.hbm, 2845, rfl⟩
abbrev main_c_1192 : Ref sig .tc := ⟨.hbm, 2846, rfl⟩
abbrev main_c_1193 : Ref sig .tc := ⟨.hbm, 2847, rfl⟩
abbrev main_call83_v0 : Ref sig .tc := ⟨.hbm, 2848, rfl⟩
abbrev main_call83_v1 : Ref sig .tc := ⟨.hbm, 2849, rfl⟩
abbrev main_call83_v2 : Ref sig .tc := ⟨.hbm, 2850, rfl⟩
abbrev main_v1401 : Ref sig .tc := ⟨.hbm, 2851, rfl⟩
abbrev main_v1402 : Ref sig .tc := ⟨.hbm, 2852, rfl⟩
abbrev main_v1403 : Ref sig .tc := ⟨.hbm, 2853, rfl⟩
abbrev main_c_1194 : Ref sig .tc := ⟨.hbm, 2854, rfl⟩
abbrev main_c_1195 : Ref sig .tc := ⟨.hbm, 2855, rfl⟩
abbrev main_v1404 : Ref sig .tc := ⟨.hbm, 2856, rfl⟩
abbrev main_c_1196 : Ref sig .tc := ⟨.hbm, 2857, rfl⟩
abbrev main_c_1197 : Ref sig .tc := ⟨.hbm, 2858, rfl⟩
abbrev main_v1405 : Ref sig .tc := ⟨.hbm, 2859, rfl⟩
abbrev main_c_1198 : Ref sig .tc := ⟨.hbm, 2860, rfl⟩
abbrev main_v1406 : Ref sig .tc := ⟨.hbm, 2861, rfl⟩
abbrev main_c_1199 : Ref sig .tc := ⟨.hbm, 2862, rfl⟩
abbrev main_v1407 : Ref sig .tc := ⟨.hbm, 2863, rfl⟩
abbrev main_c_1200 : Ref sig .tc := ⟨.hbm, 2864, rfl⟩
abbrev main_v1408 : Ref sig .tc := ⟨.hbm, 2865, rfl⟩
abbrev main_v1409 : Ref sig .tc := ⟨.hbm, 2866, rfl⟩
abbrev main_c_1201 : Ref sig .tc := ⟨.hbm, 2867, rfl⟩
abbrev main_v1410 : Ref sig .tc := ⟨.hbm, 2868, rfl⟩
abbrev main_c_1202 : Ref sig .tc := ⟨.hbm, 2869, rfl⟩
abbrev main_v1411 : Ref sig .tc := ⟨.hbm, 2870, rfl⟩
abbrev main_v1412 : Ref sig .tc := ⟨.hbm, 2871, rfl⟩
abbrev main_v1413 : Ref sig .tc := ⟨.hbm, 2872, rfl⟩
abbrev main_v1414 : Ref sig .tc := ⟨.hbm, 2873, rfl⟩
abbrev main_c_1203 : Ref sig .tc := ⟨.hbm, 2874, rfl⟩
abbrev main_c_1204 : Ref sig .tc := ⟨.hbm, 2875, rfl⟩
abbrev main_v1415 : Ref sig .tc := ⟨.hbm, 2876, rfl⟩
abbrev main_c_1205 : Ref sig .tc := ⟨.hbm, 2877, rfl⟩
abbrev main_c_1206 : Ref sig .tc := ⟨.hbm, 2878, rfl⟩
abbrev main_v1416 : Ref sig .tc := ⟨.hbm, 2879, rfl⟩
abbrev main_c_1207 : Ref sig .tc := ⟨.hbm, 2880, rfl⟩
abbrev main_v1417 : Ref sig .tc := ⟨.hbm, 2881, rfl⟩
abbrev main_c_1208 : Ref sig .tc := ⟨.hbm, 2882, rfl⟩
abbrev main_c_1209 : Ref sig .tc := ⟨.hbm, 2883, rfl⟩
abbrev main_v1418 : Ref sig .tc := ⟨.hbm, 2884, rfl⟩
abbrev main_c_1210 : Ref sig .tc := ⟨.hbm, 2885, rfl⟩
abbrev main_c_1211 : Ref sig .tc := ⟨.hbm, 2886, rfl⟩
abbrev main_v1419 : Ref sig .tc := ⟨.hbm, 2887, rfl⟩
abbrev main_c_1212 : Ref sig .tc := ⟨.hbm, 2888, rfl⟩
abbrev main_v1420 : Ref sig .tc := ⟨.hbm, 2889, rfl⟩
abbrev main_c_1213 : Ref sig .tc := ⟨.hbm, 2890, rfl⟩
abbrev main_v1421 : Ref sig .tc := ⟨.hbm, 2891, rfl⟩
abbrev main_c_1214 : Ref sig .tc := ⟨.hbm, 2892, rfl⟩
abbrev main_v1422 : Ref sig .tc := ⟨.hbm, 2893, rfl⟩
abbrev main_v1423 : Ref sig .tc := ⟨.hbm, 2894, rfl⟩
abbrev main_c_1215 : Ref sig .tc := ⟨.hbm, 2895, rfl⟩
abbrev main_v1424 : Ref sig .tc := ⟨.hbm, 2896, rfl⟩
abbrev main_c_1216 : Ref sig .tc := ⟨.hbm, 2897, rfl⟩
abbrev main_v1425 : Ref sig .tc := ⟨.hbm, 2898, rfl⟩
abbrev main_v1426 : Ref sig .tc := ⟨.hbm, 2899, rfl⟩
abbrev main_v1427 : Ref sig .tc := ⟨.hbm, 2900, rfl⟩
abbrev main_v1428 : Ref sig .tc := ⟨.hbm, 2901, rfl⟩
abbrev main_v1429 : Ref sig .tc := ⟨.hbm, 2902, rfl⟩
abbrev main_c_1217 : Ref sig .tc := ⟨.hbm, 2903, rfl⟩
abbrev main_v1430 : Ref sig .tc := ⟨.hbm, 2904, rfl⟩
abbrev main_c_1218 : Ref sig .tc := ⟨.hbm, 2905, rfl⟩
abbrev main_c_1219 : Ref sig .tc := ⟨.hbm, 2906, rfl⟩
abbrev main_call84_v0 : Ref sig .tc := ⟨.hbm, 2907, rfl⟩
abbrev main_call84_v1 : Ref sig .tc := ⟨.hbm, 2908, rfl⟩
abbrev main_call84_v2 : Ref sig .tc := ⟨.hbm, 2909, rfl⟩
abbrev main_v1431 : Ref sig .tc := ⟨.hbm, 2910, rfl⟩
abbrev main_v1432 : Ref sig .tc := ⟨.hbm, 2911, rfl⟩
abbrev main_v1433 : Ref sig .tc := ⟨.hbm, 2912, rfl⟩
abbrev main_c_1220 : Ref sig .tc := ⟨.hbm, 2913, rfl⟩
abbrev main_v1434 : Ref sig .tc := ⟨.hbm, 2914, rfl⟩
abbrev main_c_1221 : Ref sig .tc := ⟨.hbm, 2915, rfl⟩
abbrev main_c_1222 : Ref sig .tc := ⟨.hbm, 2916, rfl⟩
abbrev main_call85_v0 : Ref sig .tc := ⟨.hbm, 2917, rfl⟩
abbrev main_call85_v1 : Ref sig .tc := ⟨.hbm, 2918, rfl⟩
abbrev main_call85_v2 : Ref sig .tc := ⟨.hbm, 2919, rfl⟩
abbrev main_v1435 : Ref sig .tc := ⟨.hbm, 2920, rfl⟩
abbrev main_v1436 : Ref sig .tc := ⟨.hbm, 2921, rfl⟩
abbrev main_v1437 : Ref sig .tc := ⟨.hbm, 2922, rfl⟩
abbrev main_c_1223 : Ref sig .tc := ⟨.hbm, 2923, rfl⟩
abbrev main_c_1224 : Ref sig .tc := ⟨.hbm, 2924, rfl⟩
abbrev main_v1438 : Ref sig .tc := ⟨.hbm, 2925, rfl⟩
abbrev main_c_1225 : Ref sig .tc := ⟨.hbm, 2926, rfl⟩
abbrev main_c_1226 : Ref sig .tc := ⟨.hbm, 2927, rfl⟩
abbrev main_v1439 : Ref sig .tc := ⟨.hbm, 2928, rfl⟩
abbrev main_c_1227 : Ref sig .tc := ⟨.hbm, 2929, rfl⟩
abbrev main_v1440 : Ref sig .tc := ⟨.hbm, 2930, rfl⟩
abbrev main_c_1228 : Ref sig .tc := ⟨.hbm, 2931, rfl⟩
abbrev main_v1441 : Ref sig .tc := ⟨.hbm, 2932, rfl⟩
abbrev main_c_1229 : Ref sig .tc := ⟨.hbm, 2933, rfl⟩
abbrev main_v1442 : Ref sig .tc := ⟨.hbm, 2934, rfl⟩
abbrev main_v1443 : Ref sig .tc := ⟨.hbm, 2935, rfl⟩
abbrev main_c_1230 : Ref sig .tc := ⟨.hbm, 2936, rfl⟩
abbrev main_v1444 : Ref sig .tc := ⟨.hbm, 2937, rfl⟩
abbrev main_c_1231 : Ref sig .tc := ⟨.hbm, 2938, rfl⟩
abbrev main_v1445 : Ref sig .tc := ⟨.hbm, 2939, rfl⟩
abbrev main_v1446 : Ref sig .tc := ⟨.hbm, 2940, rfl⟩
abbrev main_v1447 : Ref sig .tc := ⟨.hbm, 2941, rfl⟩
abbrev main_v1448 : Ref sig .tc := ⟨.hbm, 2942, rfl⟩
abbrev main_c_1232 : Ref sig .tc := ⟨.hbm, 2943, rfl⟩
abbrev main_c_1233 : Ref sig .tc := ⟨.hbm, 2944, rfl⟩
abbrev main_v1449 : Ref sig .tc := ⟨.hbm, 2945, rfl⟩
abbrev main_c_1234 : Ref sig .tc := ⟨.hbm, 2946, rfl⟩
abbrev main_c_1235 : Ref sig .tc := ⟨.hbm, 2947, rfl⟩
abbrev main_v1450 : Ref sig .tc := ⟨.hbm, 2948, rfl⟩
abbrev main_c_1236 : Ref sig .tc := ⟨.hbm, 2949, rfl⟩
abbrev main_v1451 : Ref sig .tc := ⟨.hbm, 2950, rfl⟩
abbrev main_c_1237 : Ref sig .tc := ⟨.hbm, 2951, rfl⟩
abbrev main_c_1238 : Ref sig .tc := ⟨.hbm, 2952, rfl⟩
abbrev main_v1452 : Ref sig .tc := ⟨.hbm, 2953, rfl⟩
abbrev main_c_1239 : Ref sig .tc := ⟨.hbm, 2954, rfl⟩
abbrev main_c_1240 : Ref sig .tc := ⟨.hbm, 2955, rfl⟩
abbrev main_v1453 : Ref sig .tc := ⟨.hbm, 2956, rfl⟩
abbrev main_c_1241 : Ref sig .tc := ⟨.hbm, 2957, rfl⟩
abbrev main_v1454 : Ref sig .tc := ⟨.hbm, 2958, rfl⟩
abbrev main_c_1242 : Ref sig .tc := ⟨.hbm, 2959, rfl⟩
abbrev main_v1455 : Ref sig .tc := ⟨.hbm, 2960, rfl⟩
abbrev main_c_1243 : Ref sig .tc := ⟨.hbm, 2961, rfl⟩
abbrev main_v1456 : Ref sig .tc := ⟨.hbm, 2962, rfl⟩
abbrev main_v1457 : Ref sig .tc := ⟨.hbm, 2963, rfl⟩
abbrev main_c_1244 : Ref sig .tc := ⟨.hbm, 2964, rfl⟩
abbrev main_v1458 : Ref sig .tc := ⟨.hbm, 2965, rfl⟩
abbrev main_c_1245 : Ref sig .tc := ⟨.hbm, 2966, rfl⟩
abbrev main_v1459 : Ref sig .tc := ⟨.hbm, 2967, rfl⟩
abbrev main_v1460 : Ref sig .tc := ⟨.hbm, 2968, rfl⟩
abbrev main_v1461 : Ref sig .tc := ⟨.hbm, 2969, rfl⟩
abbrev main_v1462 : Ref sig .tc := ⟨.hbm, 2970, rfl⟩
abbrev main_v1463 : Ref sig .tc := ⟨.hbm, 2971, rfl⟩
abbrev main_c_1246 : Ref sig .tc := ⟨.hbm, 2972, rfl⟩
abbrev main_v1464 : Ref sig .tc := ⟨.hbm, 2973, rfl⟩
abbrev main_c_1247 : Ref sig .tc := ⟨.hbm, 2974, rfl⟩
abbrev main_c_1248 : Ref sig .tc := ⟨.hbm, 2975, rfl⟩
abbrev main_call86_v0 : Ref sig .tc := ⟨.hbm, 2976, rfl⟩
abbrev main_call86_v1 : Ref sig .tc := ⟨.hbm, 2977, rfl⟩
abbrev main_call86_v2 : Ref sig .tc := ⟨.hbm, 2978, rfl⟩
abbrev main_v1465 : Ref sig .tc := ⟨.hbm, 2979, rfl⟩
abbrev main_v1466 : Ref sig .tc := ⟨.hbm, 2980, rfl⟩
abbrev main_v1467 : Ref sig .tc := ⟨.hbm, 2981, rfl⟩
abbrev main_c_1249 : Ref sig .tc := ⟨.hbm, 2982, rfl⟩
abbrev main_v1468 : Ref sig .tc := ⟨.hbm, 2983, rfl⟩
abbrev main_c_1250 : Ref sig .tc := ⟨.hbm, 2984, rfl⟩
abbrev main_c_1251 : Ref sig .tc := ⟨.hbm, 2985, rfl⟩
abbrev main_call87_v0 : Ref sig .tc := ⟨.hbm, 2986, rfl⟩
abbrev main_call87_v1 : Ref sig .tc := ⟨.hbm, 2987, rfl⟩
abbrev main_call87_v2 : Ref sig .tc := ⟨.hbm, 2988, rfl⟩
abbrev main_v1469 : Ref sig .tc := ⟨.hbm, 2989, rfl⟩
abbrev main_v1470 : Ref sig .tc := ⟨.hbm, 2990, rfl⟩
abbrev main_v1471 : Ref sig .tc := ⟨.hbm, 2991, rfl⟩
abbrev main_c_1252 : Ref sig .tc := ⟨.hbm, 2992, rfl⟩
abbrev main_c_1253 : Ref sig .tc := ⟨.hbm, 2993, rfl⟩
abbrev main_v1472 : Ref sig .tc := ⟨.hbm, 2994, rfl⟩
abbrev main_c_1254 : Ref sig .tc := ⟨.hbm, 2995, rfl⟩
abbrev main_c_1255 : Ref sig .tc := ⟨.hbm, 2996, rfl⟩
abbrev main_v1473 : Ref sig .tc := ⟨.hbm, 2997, rfl⟩
abbrev main_c_1256 : Ref sig .tc := ⟨.hbm, 2998, rfl⟩
abbrev main_v1474 : Ref sig .tc := ⟨.hbm, 2999, rfl⟩
abbrev main_c_1257 : Ref sig .tc := ⟨.hbm, 3000, rfl⟩
abbrev main_v1475 : Ref sig .tc := ⟨.hbm, 3001, rfl⟩
abbrev main_c_1258 : Ref sig .tc := ⟨.hbm, 3002, rfl⟩
abbrev main_v1476 : Ref sig .tc := ⟨.hbm, 3003, rfl⟩
abbrev main_v1477 : Ref sig .tc := ⟨.hbm, 3004, rfl⟩
abbrev main_c_1259 : Ref sig .tc := ⟨.hbm, 3005, rfl⟩
abbrev main_v1478 : Ref sig .tc := ⟨.hbm, 3006, rfl⟩
abbrev main_c_1260 : Ref sig .tc := ⟨.hbm, 3007, rfl⟩
abbrev main_v1479 : Ref sig .tc := ⟨.hbm, 3008, rfl⟩
abbrev main_v1480 : Ref sig .tc := ⟨.hbm, 3009, rfl⟩
abbrev main_v1481 : Ref sig .tc := ⟨.hbm, 3010, rfl⟩
abbrev main_v1482 : Ref sig .tc := ⟨.hbm, 3011, rfl⟩
abbrev main_c_1261 : Ref sig .tc := ⟨.hbm, 3012, rfl⟩
abbrev main_c_1262 : Ref sig .tc := ⟨.hbm, 3013, rfl⟩
abbrev main_v1483 : Ref sig .tc := ⟨.hbm, 3014, rfl⟩
abbrev main_c_1263 : Ref sig .tc := ⟨.hbm, 3015, rfl⟩
abbrev main_c_1264 : Ref sig .tc := ⟨.hbm, 3016, rfl⟩
abbrev main_v1484 : Ref sig .tc := ⟨.hbm, 3017, rfl⟩
abbrev main_c_1265 : Ref sig .tc := ⟨.hbm, 3018, rfl⟩
abbrev main_v1485 : Ref sig .tc := ⟨.hbm, 3019, rfl⟩
abbrev main_c_1266 : Ref sig .tc := ⟨.hbm, 3020, rfl⟩
abbrev main_c_1267 : Ref sig .tc := ⟨.hbm, 3021, rfl⟩
abbrev main_v1486 : Ref sig .tc := ⟨.hbm, 3022, rfl⟩
abbrev main_c_1268 : Ref sig .tc := ⟨.hbm, 3023, rfl⟩
abbrev main_c_1269 : Ref sig .tc := ⟨.hbm, 3024, rfl⟩
abbrev main_v1487 : Ref sig .tc := ⟨.hbm, 3025, rfl⟩
abbrev main_c_1270 : Ref sig .tc := ⟨.hbm, 3026, rfl⟩
abbrev main_v1488 : Ref sig .tc := ⟨.hbm, 3027, rfl⟩
abbrev main_c_1271 : Ref sig .tc := ⟨.hbm, 3028, rfl⟩
abbrev main_v1489 : Ref sig .tc := ⟨.hbm, 3029, rfl⟩
abbrev main_c_1272 : Ref sig .tc := ⟨.hbm, 3030, rfl⟩
abbrev main_v1490 : Ref sig .tc := ⟨.hbm, 3031, rfl⟩
abbrev main_v1491 : Ref sig .tc := ⟨.hbm, 3032, rfl⟩
abbrev main_c_1273 : Ref sig .tc := ⟨.hbm, 3033, rfl⟩
abbrev main_v1492 : Ref sig .tc := ⟨.hbm, 3034, rfl⟩
abbrev main_c_1274 : Ref sig .tc := ⟨.hbm, 3035, rfl⟩
abbrev main_v1493 : Ref sig .tc := ⟨.hbm, 3036, rfl⟩
abbrev main_v1494 : Ref sig .tc := ⟨.hbm, 3037, rfl⟩
abbrev main_v1495 : Ref sig .tc := ⟨.hbm, 3038, rfl⟩
abbrev main_v1496 : Ref sig .tc := ⟨.hbm, 3039, rfl⟩
abbrev main_v1497 : Ref sig .tc := ⟨.hbm, 3040, rfl⟩
abbrev main_c_1275 : Ref sig .tc := ⟨.hbm, 3041, rfl⟩
abbrev main_v1498 : Ref sig .tc := ⟨.hbm, 3042, rfl⟩
abbrev main_c_1276 : Ref sig .tc := ⟨.hbm, 3043, rfl⟩
abbrev main_c_1277 : Ref sig .tc := ⟨.hbm, 3044, rfl⟩
abbrev main_call88_v0 : Ref sig .tc := ⟨.hbm, 3045, rfl⟩
abbrev main_call88_v1 : Ref sig .tc := ⟨.hbm, 3046, rfl⟩
abbrev main_call88_v2 : Ref sig .tc := ⟨.hbm, 3047, rfl⟩
abbrev main_v1499 : Ref sig .tc := ⟨.hbm, 3048, rfl⟩
abbrev main_v1500 : Ref sig .tc := ⟨.hbm, 3049, rfl⟩
abbrev main_v1501 : Ref sig .tc := ⟨.hbm, 3050, rfl⟩
abbrev main_c_1278 : Ref sig .tc := ⟨.hbm, 3051, rfl⟩
abbrev main_v1502 : Ref sig .tc := ⟨.hbm, 3052, rfl⟩
abbrev main_c_1279 : Ref sig .tc := ⟨.hbm, 3053, rfl⟩
abbrev main_c_1280 : Ref sig .tc := ⟨.hbm, 3054, rfl⟩
abbrev main_call89_v0 : Ref sig .tc := ⟨.hbm, 3055, rfl⟩
abbrev main_call89_v1 : Ref sig .tc := ⟨.hbm, 3056, rfl⟩
abbrev main_call89_v2 : Ref sig .tc := ⟨.hbm, 3057, rfl⟩
abbrev main_v1503 : Ref sig .tc := ⟨.hbm, 3058, rfl⟩
abbrev main_v1504 : Ref sig .tc := ⟨.hbm, 3059, rfl⟩
abbrev main_v1505 : Ref sig .tc := ⟨.hbm, 3060, rfl⟩
abbrev main_c_1281 : Ref sig .tc := ⟨.hbm, 3061, rfl⟩
abbrev main_c_1282 : Ref sig .tc := ⟨.hbm, 3062, rfl⟩
abbrev main_v1506 : Ref sig .tc := ⟨.hbm, 3063, rfl⟩
abbrev main_c_1283 : Ref sig .tc := ⟨.hbm, 3064, rfl⟩
abbrev main_c_1284 : Ref sig .tc := ⟨.hbm, 3065, rfl⟩
abbrev main_v1507 : Ref sig .tc := ⟨.hbm, 3066, rfl⟩
abbrev main_c_1285 : Ref sig .tc := ⟨.hbm, 3067, rfl⟩
abbrev main_v1508 : Ref sig .tc := ⟨.hbm, 3068, rfl⟩
abbrev main_c_1286 : Ref sig .tc := ⟨.hbm, 3069, rfl⟩
abbrev main_v1509 : Ref sig .tc := ⟨.hbm, 3070, rfl⟩
abbrev main_c_1287 : Ref sig .tc := ⟨.hbm, 3071, rfl⟩
abbrev main_v1510 : Ref sig .tc := ⟨.hbm, 3072, rfl⟩
abbrev main_v1511 : Ref sig .tc := ⟨.hbm, 3073, rfl⟩
abbrev main_c_1288 : Ref sig .tc := ⟨.hbm, 3074, rfl⟩
abbrev main_v1512 : Ref sig .tc := ⟨.hbm, 3075, rfl⟩
abbrev main_c_1289 : Ref sig .tc := ⟨.hbm, 3076, rfl⟩
abbrev main_v1513 : Ref sig .tc := ⟨.hbm, 3077, rfl⟩
abbrev main_v1514 : Ref sig .tc := ⟨.hbm, 3078, rfl⟩
abbrev main_v1515 : Ref sig .tc := ⟨.hbm, 3079, rfl⟩
abbrev main_v1516 : Ref sig .tc := ⟨.hbm, 3080, rfl⟩
abbrev main_c_1290 : Ref sig .tc := ⟨.hbm, 3081, rfl⟩
abbrev main_c_1291 : Ref sig .tc := ⟨.hbm, 3082, rfl⟩
abbrev main_v1517 : Ref sig .tc := ⟨.hbm, 3083, rfl⟩
abbrev main_c_1292 : Ref sig .tc := ⟨.hbm, 3084, rfl⟩
abbrev main_c_1293 : Ref sig .tc := ⟨.hbm, 3085, rfl⟩
abbrev main_v1518 : Ref sig .tc := ⟨.hbm, 3086, rfl⟩
abbrev main_c_1294 : Ref sig .tc := ⟨.hbm, 3087, rfl⟩
abbrev main_v1519 : Ref sig .tc := ⟨.hbm, 3088, rfl⟩
abbrev main_c_1295 : Ref sig .tc := ⟨.hbm, 3089, rfl⟩
abbrev main_c_1296 : Ref sig .tc := ⟨.hbm, 3090, rfl⟩
abbrev main_v1520 : Ref sig .tc := ⟨.hbm, 3091, rfl⟩
abbrev main_c_1297 : Ref sig .tc := ⟨.hbm, 3092, rfl⟩
abbrev main_c_1298 : Ref sig .tc := ⟨.hbm, 3093, rfl⟩
abbrev main_v1521 : Ref sig .tc := ⟨.hbm, 3094, rfl⟩
abbrev main_c_1299 : Ref sig .tc := ⟨.hbm, 3095, rfl⟩
abbrev main_v1522 : Ref sig .tc := ⟨.hbm, 3096, rfl⟩
abbrev main_c_1300 : Ref sig .tc := ⟨.hbm, 3097, rfl⟩
abbrev main_v1523 : Ref sig .tc := ⟨.hbm, 3098, rfl⟩
abbrev main_c_1301 : Ref sig .tc := ⟨.hbm, 3099, rfl⟩
abbrev main_v1524 : Ref sig .tc := ⟨.hbm, 3100, rfl⟩
abbrev main_v1525 : Ref sig .tc := ⟨.hbm, 3101, rfl⟩
abbrev main_c_1302 : Ref sig .tc := ⟨.hbm, 3102, rfl⟩
abbrev main_v1526 : Ref sig .tc := ⟨.hbm, 3103, rfl⟩
abbrev main_c_1303 : Ref sig .tc := ⟨.hbm, 3104, rfl⟩
abbrev main_v1527 : Ref sig .tc := ⟨.hbm, 3105, rfl⟩
abbrev main_v1528 : Ref sig .tc := ⟨.hbm, 3106, rfl⟩
abbrev main_v1529 : Ref sig .tc := ⟨.hbm, 3107, rfl⟩
abbrev main_v1530 : Ref sig .tc := ⟨.hbm, 3108, rfl⟩
abbrev main_v1531 : Ref sig .tc := ⟨.hbm, 3109, rfl⟩
abbrev main_c_1304 : Ref sig .tc := ⟨.hbm, 3110, rfl⟩
abbrev main_v1532 : Ref sig .tc := ⟨.hbm, 3111, rfl⟩
abbrev main_c_1305 : Ref sig .tc := ⟨.hbm, 3112, rfl⟩
abbrev main_c_1306 : Ref sig .tc := ⟨.hbm, 3113, rfl⟩
abbrev main_call90_v0 : Ref sig .tc := ⟨.hbm, 3114, rfl⟩
abbrev main_call90_v1 : Ref sig .tc := ⟨.hbm, 3115, rfl⟩
abbrev main_call90_v2 : Ref sig .tc := ⟨.hbm, 3116, rfl⟩
abbrev main_v1533 : Ref sig .tc := ⟨.hbm, 3117, rfl⟩
abbrev main_v1534 : Ref sig .tc := ⟨.hbm, 3118, rfl⟩
abbrev main_v1535 : Ref sig .tc := ⟨.hbm, 3119, rfl⟩
abbrev main_c_1307 : Ref sig .tc := ⟨.hbm, 3120, rfl⟩
abbrev main_v1536 : Ref sig .tc := ⟨.hbm, 3121, rfl⟩
abbrev main_c_1308 : Ref sig .tc := ⟨.hbm, 3122, rfl⟩
abbrev main_c_1309 : Ref sig .tc := ⟨.hbm, 3123, rfl⟩
abbrev main_call91_v0 : Ref sig .tc := ⟨.hbm, 3124, rfl⟩
abbrev main_call91_v1 : Ref sig .tc := ⟨.hbm, 3125, rfl⟩
abbrev main_call91_v2 : Ref sig .tc := ⟨.hbm, 3126, rfl⟩
abbrev main_v1537 : Ref sig .tc := ⟨.hbm, 3127, rfl⟩
abbrev main_v1538 : Ref sig .tc := ⟨.hbm, 3128, rfl⟩
abbrev main_v1539 : Ref sig .tc := ⟨.hbm, 3129, rfl⟩
abbrev main_c_1310 : Ref sig .tc := ⟨.hbm, 3130, rfl⟩
abbrev main_c_1311 : Ref sig .tc := ⟨.hbm, 3131, rfl⟩
abbrev main_v1540 : Ref sig .tc := ⟨.hbm, 3132, rfl⟩
abbrev main_c_1312 : Ref sig .tc := ⟨.hbm, 3133, rfl⟩
abbrev main_c_1313 : Ref sig .tc := ⟨.hbm, 3134, rfl⟩
abbrev main_v1541 : Ref sig .tc := ⟨.hbm, 3135, rfl⟩
abbrev main_c_1314 : Ref sig .tc := ⟨.hbm, 3136, rfl⟩
abbrev main_v1542 : Ref sig .tc := ⟨.hbm, 3137, rfl⟩
abbrev main_c_1315 : Ref sig .tc := ⟨.hbm, 3138, rfl⟩
abbrev main_v1543 : Ref sig .tc := ⟨.hbm, 3139, rfl⟩
abbrev main_c_1316 : Ref sig .tc := ⟨.hbm, 3140, rfl⟩
abbrev main_v1544 : Ref sig .tc := ⟨.hbm, 3141, rfl⟩
abbrev main_v1545 : Ref sig .tc := ⟨.hbm, 3142, rfl⟩
abbrev main_c_1317 : Ref sig .tc := ⟨.hbm, 3143, rfl⟩
abbrev main_v1546 : Ref sig .tc := ⟨.hbm, 3144, rfl⟩
abbrev main_c_1318 : Ref sig .tc := ⟨.hbm, 3145, rfl⟩
abbrev main_v1547 : Ref sig .tc := ⟨.hbm, 3146, rfl⟩
abbrev main_v1548 : Ref sig .tc := ⟨.hbm, 3147, rfl⟩
abbrev main_v1549 : Ref sig .tc := ⟨.hbm, 3148, rfl⟩
abbrev main_v1550 : Ref sig .tc := ⟨.hbm, 3149, rfl⟩
abbrev main_c_1319 : Ref sig .tc := ⟨.hbm, 3150, rfl⟩
abbrev main_c_1320 : Ref sig .tc := ⟨.hbm, 3151, rfl⟩
abbrev main_v1551 : Ref sig .tc := ⟨.hbm, 3152, rfl⟩
abbrev main_c_1321 : Ref sig .tc := ⟨.hbm, 3153, rfl⟩
abbrev main_c_1322 : Ref sig .tc := ⟨.hbm, 3154, rfl⟩
abbrev main_v1552 : Ref sig .tc := ⟨.hbm, 3155, rfl⟩
abbrev main_c_1323 : Ref sig .tc := ⟨.hbm, 3156, rfl⟩
abbrev main_v1553 : Ref sig .tc := ⟨.hbm, 3157, rfl⟩
abbrev main_c_1324 : Ref sig .tc := ⟨.hbm, 3158, rfl⟩
abbrev main_c_1325 : Ref sig .tc := ⟨.hbm, 3159, rfl⟩
abbrev main_v1554 : Ref sig .tc := ⟨.hbm, 3160, rfl⟩
abbrev main_c_1326 : Ref sig .tc := ⟨.hbm, 3161, rfl⟩
abbrev main_c_1327 : Ref sig .tc := ⟨.hbm, 3162, rfl⟩
abbrev main_v1555 : Ref sig .tc := ⟨.hbm, 3163, rfl⟩
abbrev main_c_1328 : Ref sig .tc := ⟨.hbm, 3164, rfl⟩
abbrev main_v1556 : Ref sig .tc := ⟨.hbm, 3165, rfl⟩
abbrev main_c_1329 : Ref sig .tc := ⟨.hbm, 3166, rfl⟩
abbrev main_v1557 : Ref sig .tc := ⟨.hbm, 3167, rfl⟩
abbrev main_c_1330 : Ref sig .tc := ⟨.hbm, 3168, rfl⟩
abbrev main_v1558 : Ref sig .tc := ⟨.hbm, 3169, rfl⟩
abbrev main_v1559 : Ref sig .tc := ⟨.hbm, 3170, rfl⟩
abbrev main_c_1331 : Ref sig .tc := ⟨.hbm, 3171, rfl⟩
abbrev main_v1560 : Ref sig .tc := ⟨.hbm, 3172, rfl⟩
abbrev main_c_1332 : Ref sig .tc := ⟨.hbm, 3173, rfl⟩
abbrev main_v1561 : Ref sig .tc := ⟨.hbm, 3174, rfl⟩
abbrev main_v1562 : Ref sig .tc := ⟨.hbm, 3175, rfl⟩
abbrev main_v1563 : Ref sig .tc := ⟨.hbm, 3176, rfl⟩
abbrev main_v1564 : Ref sig .tc := ⟨.hbm, 3177, rfl⟩
abbrev main_v1565 : Ref sig .tc := ⟨.hbm, 3178, rfl⟩
abbrev main_c_1333 : Ref sig .tc := ⟨.hbm, 3179, rfl⟩
abbrev main_v1566 : Ref sig .tc := ⟨.hbm, 3180, rfl⟩
abbrev main_c_1334 : Ref sig .tc := ⟨.hbm, 3181, rfl⟩
abbrev main_c_1335 : Ref sig .tc := ⟨.hbm, 3182, rfl⟩
abbrev main_call92_v0 : Ref sig .tc := ⟨.hbm, 3183, rfl⟩
abbrev main_call92_v1 : Ref sig .tc := ⟨.hbm, 3184, rfl⟩
abbrev main_call92_v2 : Ref sig .tc := ⟨.hbm, 3185, rfl⟩
abbrev main_v1567 : Ref sig .tc := ⟨.hbm, 3186, rfl⟩
abbrev main_v1568 : Ref sig .tc := ⟨.hbm, 3187, rfl⟩
abbrev main_v1569 : Ref sig .tc := ⟨.hbm, 3188, rfl⟩
abbrev main_c_1336 : Ref sig .tc := ⟨.hbm, 3189, rfl⟩
abbrev main_v1570 : Ref sig .tc := ⟨.hbm, 3190, rfl⟩
abbrev main_c_1337 : Ref sig .tc := ⟨.hbm, 3191, rfl⟩
abbrev main_c_1338 : Ref sig .tc := ⟨.hbm, 3192, rfl⟩
abbrev main_call93_v0 : Ref sig .tc := ⟨.hbm, 3193, rfl⟩
abbrev main_call93_v1 : Ref sig .tc := ⟨.hbm, 3194, rfl⟩
abbrev main_call93_v2 : Ref sig .tc := ⟨.hbm, 3195, rfl⟩
abbrev main_v1571 : Ref sig .tc := ⟨.hbm, 3196, rfl⟩
abbrev main_v1572 : Ref sig .tc := ⟨.hbm, 3197, rfl⟩
abbrev main_v1573 : Ref sig .tc := ⟨.hbm, 3198, rfl⟩
abbrev main_c_1339 : Ref sig .tc := ⟨.hbm, 3199, rfl⟩
abbrev main_c_1340 : Ref sig .tc := ⟨.hbm, 3200, rfl⟩
abbrev main_v1574 : Ref sig .tc := ⟨.hbm, 3201, rfl⟩
abbrev main_c_1341 : Ref sig .tc := ⟨.hbm, 3202, rfl⟩
abbrev main_c_1342 : Ref sig .tc := ⟨.hbm, 3203, rfl⟩
abbrev main_v1575 : Ref sig .tc := ⟨.hbm, 3204, rfl⟩
abbrev main_c_1343 : Ref sig .tc := ⟨.hbm, 3205, rfl⟩
abbrev main_v1576 : Ref sig .tc := ⟨.hbm, 3206, rfl⟩
abbrev main_c_1344 : Ref sig .tc := ⟨.hbm, 3207, rfl⟩
abbrev main_v1577 : Ref sig .tc := ⟨.hbm, 3208, rfl⟩
abbrev main_c_1345 : Ref sig .tc := ⟨.hbm, 3209, rfl⟩
abbrev main_v1578 : Ref sig .tc := ⟨.hbm, 3210, rfl⟩
abbrev main_v1579 : Ref sig .tc := ⟨.hbm, 3211, rfl⟩
abbrev main_c_1346 : Ref sig .tc := ⟨.hbm, 3212, rfl⟩
abbrev main_v1580 : Ref sig .tc := ⟨.hbm, 3213, rfl⟩
abbrev main_c_1347 : Ref sig .tc := ⟨.hbm, 3214, rfl⟩
abbrev main_v1581 : Ref sig .tc := ⟨.hbm, 3215, rfl⟩
abbrev main_v1582 : Ref sig .tc := ⟨.hbm, 3216, rfl⟩
abbrev main_v1583 : Ref sig .tc := ⟨.hbm, 3217, rfl⟩
abbrev main_v1584 : Ref sig .tc := ⟨.hbm, 3218, rfl⟩
abbrev main_c_1348 : Ref sig .tc := ⟨.hbm, 3219, rfl⟩
abbrev main_c_1349 : Ref sig .tc := ⟨.hbm, 3220, rfl⟩
abbrev main_v1585 : Ref sig .tc := ⟨.hbm, 3221, rfl⟩
abbrev main_c_1350 : Ref sig .tc := ⟨.hbm, 3222, rfl⟩
abbrev main_c_1351 : Ref sig .tc := ⟨.hbm, 3223, rfl⟩
abbrev main_v1586 : Ref sig .tc := ⟨.hbm, 3224, rfl⟩
abbrev main_c_1352 : Ref sig .tc := ⟨.hbm, 3225, rfl⟩
abbrev main_v1587 : Ref sig .tc := ⟨.hbm, 3226, rfl⟩
abbrev main_c_1353 : Ref sig .tc := ⟨.hbm, 3227, rfl⟩
abbrev main_c_1354 : Ref sig .tc := ⟨.hbm, 3228, rfl⟩
abbrev main_v1588 : Ref sig .tc := ⟨.hbm, 3229, rfl⟩
abbrev main_c_1355 : Ref sig .tc := ⟨.hbm, 3230, rfl⟩
abbrev main_c_1356 : Ref sig .tc := ⟨.hbm, 3231, rfl⟩
abbrev main_v1589 : Ref sig .tc := ⟨.hbm, 3232, rfl⟩
abbrev main_c_1357 : Ref sig .tc := ⟨.hbm, 3233, rfl⟩
abbrev main_v1590 : Ref sig .tc := ⟨.hbm, 3234, rfl⟩
abbrev main_c_1358 : Ref sig .tc := ⟨.hbm, 3235, rfl⟩
abbrev main_v1591 : Ref sig .tc := ⟨.hbm, 3236, rfl⟩
abbrev main_c_1359 : Ref sig .tc := ⟨.hbm, 3237, rfl⟩
abbrev main_v1592 : Ref sig .tc := ⟨.hbm, 3238, rfl⟩
abbrev main_v1593 : Ref sig .tc := ⟨.hbm, 3239, rfl⟩
abbrev main_c_1360 : Ref sig .tc := ⟨.hbm, 3240, rfl⟩
abbrev main_v1594 : Ref sig .tc := ⟨.hbm, 3241, rfl⟩
abbrev main_c_1361 : Ref sig .tc := ⟨.hbm, 3242, rfl⟩
abbrev main_v1595 : Ref sig .tc := ⟨.hbm, 3243, rfl⟩
abbrev main_v1596 : Ref sig .tc := ⟨.hbm, 3244, rfl⟩
abbrev main_v1597 : Ref sig .tc := ⟨.hbm, 3245, rfl⟩
abbrev main_v1598 : Ref sig .tc := ⟨.hbm, 3246, rfl⟩
abbrev main_v1599 : Ref sig .tc := ⟨.hbm, 3247, rfl⟩
abbrev main_c_1362 : Ref sig .tc := ⟨.hbm, 3248, rfl⟩
abbrev main_v1600 : Ref sig .tc := ⟨.hbm, 3249, rfl⟩
abbrev main_c_1363 : Ref sig .tc := ⟨.hbm, 3250, rfl⟩
abbrev main_c_1364 : Ref sig .tc := ⟨.hbm, 3251, rfl⟩
abbrev main_call94_v0 : Ref sig .tc := ⟨.hbm, 3252, rfl⟩
abbrev main_call94_v1 : Ref sig .tc := ⟨.hbm, 3253, rfl⟩
abbrev main_call94_v2 : Ref sig .tc := ⟨.hbm, 3254, rfl⟩
abbrev main_v1601 : Ref sig .tc := ⟨.hbm, 3255, rfl⟩
abbrev main_v1602 : Ref sig .tc := ⟨.hbm, 3256, rfl⟩
abbrev main_v1603 : Ref sig .tc := ⟨.hbm, 3257, rfl⟩
abbrev main_c_1365 : Ref sig .tc := ⟨.hbm, 3258, rfl⟩
abbrev main_v1604 : Ref sig .tc := ⟨.hbm, 3259, rfl⟩
abbrev main_c_1366 : Ref sig .tc := ⟨.hbm, 3260, rfl⟩
abbrev main_c_1367 : Ref sig .tc := ⟨.hbm, 3261, rfl⟩
abbrev main_call95_v0 : Ref sig .tc := ⟨.hbm, 3262, rfl⟩
abbrev main_call95_v1 : Ref sig .tc := ⟨.hbm, 3263, rfl⟩
abbrev main_call95_v2 : Ref sig .tc := ⟨.hbm, 3264, rfl⟩
abbrev main_v1605 : Ref sig .tc := ⟨.hbm, 3265, rfl⟩
abbrev main_v1606 : Ref sig .tc := ⟨.hbm, 3266, rfl⟩
abbrev main_v1607 : Ref sig .tc := ⟨.hbm, 3267, rfl⟩
abbrev main_c_1368 : Ref sig .tc := ⟨.hbm, 3268, rfl⟩
abbrev main_c_1369 : Ref sig .tc := ⟨.hbm, 3269, rfl⟩
abbrev main_v1608 : Ref sig .tc := ⟨.hbm, 3270, rfl⟩
abbrev main_c_1370 : Ref sig .tc := ⟨.hbm, 3271, rfl⟩
abbrev main_c_1371 : Ref sig .tc := ⟨.hbm, 3272, rfl⟩
abbrev main_v1609 : Ref sig .tc := ⟨.hbm, 3273, rfl⟩
abbrev main_c_1372 : Ref sig .tc := ⟨.hbm, 3274, rfl⟩
abbrev main_v1610 : Ref sig .tc := ⟨.hbm, 3275, rfl⟩
abbrev main_c_1373 : Ref sig .tc := ⟨.hbm, 3276, rfl⟩
abbrev main_v1611 : Ref sig .tc := ⟨.hbm, 3277, rfl⟩
abbrev main_c_1374 : Ref sig .tc := ⟨.hbm, 3278, rfl⟩
abbrev main_v1612 : Ref sig .tc := ⟨.hbm, 3279, rfl⟩
abbrev main_v1613 : Ref sig .tc := ⟨.hbm, 3280, rfl⟩
abbrev main_c_1375 : Ref sig .tc := ⟨.hbm, 3281, rfl⟩
abbrev main_v1614 : Ref sig .tc := ⟨.hbm, 3282, rfl⟩
abbrev main_c_1376 : Ref sig .tc := ⟨.hbm, 3283, rfl⟩
abbrev main_v1615 : Ref sig .tc := ⟨.hbm, 3284, rfl⟩
abbrev main_v1616 : Ref sig .tc := ⟨.hbm, 3285, rfl⟩
abbrev main_v1617 : Ref sig .tc := ⟨.hbm, 3286, rfl⟩
abbrev main_v1618 : Ref sig .tc := ⟨.hbm, 3287, rfl⟩
abbrev main_c_1377 : Ref sig .tc := ⟨.hbm, 3288, rfl⟩
abbrev main_c_1378 : Ref sig .tc := ⟨.hbm, 3289, rfl⟩
abbrev main_v1619 : Ref sig .tc := ⟨.hbm, 3290, rfl⟩
abbrev main_c_1379 : Ref sig .tc := ⟨.hbm, 3291, rfl⟩
abbrev main_c_1380 : Ref sig .tc := ⟨.hbm, 3292, rfl⟩
abbrev main_v1620 : Ref sig .tc := ⟨.hbm, 3293, rfl⟩
abbrev main_c_1381 : Ref sig .tc := ⟨.hbm, 3294, rfl⟩
abbrev main_v1621 : Ref sig .tc := ⟨.hbm, 3295, rfl⟩
abbrev main_c_1382 : Ref sig .tc := ⟨.hbm, 3296, rfl⟩
abbrev main_c_1383 : Ref sig .tc := ⟨.hbm, 3297, rfl⟩
abbrev main_v1622 : Ref sig .tc := ⟨.hbm, 3298, rfl⟩
abbrev main_c_1384 : Ref sig .tc := ⟨.hbm, 3299, rfl⟩
abbrev main_c_1385 : Ref sig .tc := ⟨.hbm, 3300, rfl⟩
abbrev main_v1623 : Ref sig .tc := ⟨.hbm, 3301, rfl⟩
abbrev main_c_1386 : Ref sig .tc := ⟨.hbm, 3302, rfl⟩
abbrev main_v1624 : Ref sig .tc := ⟨.hbm, 3303, rfl⟩
abbrev main_c_1387 : Ref sig .tc := ⟨.hbm, 3304, rfl⟩
abbrev main_v1625 : Ref sig .tc := ⟨.hbm, 3305, rfl⟩
abbrev main_c_1388 : Ref sig .tc := ⟨.hbm, 3306, rfl⟩
abbrev main_v1626 : Ref sig .tc := ⟨.hbm, 3307, rfl⟩
abbrev main_v1627 : Ref sig .tc := ⟨.hbm, 3308, rfl⟩
abbrev main_c_1389 : Ref sig .tc := ⟨.hbm, 3309, rfl⟩
abbrev main_v1628 : Ref sig .tc := ⟨.hbm, 3310, rfl⟩
abbrev main_c_1390 : Ref sig .tc := ⟨.hbm, 3311, rfl⟩
abbrev main_v1629 : Ref sig .tc := ⟨.hbm, 3312, rfl⟩
abbrev main_v1630 : Ref sig .tc := ⟨.hbm, 3313, rfl⟩
abbrev main_v1631 : Ref sig .tc := ⟨.hbm, 3314, rfl⟩
abbrev main_v1632 : Ref sig .tc := ⟨.hbm, 3315, rfl⟩
abbrev main_v1633 : Ref sig .tc := ⟨.hbm, 3316, rfl⟩
abbrev main_c_1391 : Ref sig .tc := ⟨.hbm, 3317, rfl⟩
abbrev main_v1634 : Ref sig .tc := ⟨.hbm, 3318, rfl⟩
abbrev main_c_1392 : Ref sig .tc := ⟨.hbm, 3319, rfl⟩
abbrev main_c_1393 : Ref sig .tc := ⟨.hbm, 3320, rfl⟩
abbrev main_call96_v0 : Ref sig .tc := ⟨.hbm, 3321, rfl⟩
abbrev main_call96_v1 : Ref sig .tc := ⟨.hbm, 3322, rfl⟩
abbrev main_call96_v2 : Ref sig .tc := ⟨.hbm, 3323, rfl⟩
abbrev main_v1635 : Ref sig .tc := ⟨.hbm, 3324, rfl⟩
abbrev main_v1636 : Ref sig .tc := ⟨.hbm, 3325, rfl⟩
abbrev main_v1637 : Ref sig .tc := ⟨.hbm, 3326, rfl⟩
abbrev main_c_1394 : Ref sig .tc := ⟨.hbm, 3327, rfl⟩
abbrev main_v1638 : Ref sig .tc := ⟨.hbm, 3328, rfl⟩
abbrev main_c_1395 : Ref sig .tc := ⟨.hbm, 3329, rfl⟩
abbrev main_c_1396 : Ref sig .tc := ⟨.hbm, 3330, rfl⟩
abbrev main_call97_v0 : Ref sig .tc := ⟨.hbm, 3331, rfl⟩
abbrev main_call97_v1 : Ref sig .tc := ⟨.hbm, 3332, rfl⟩
abbrev main_call97_v2 : Ref sig .tc := ⟨.hbm, 3333, rfl⟩
abbrev main_v1639 : Ref sig .tc := ⟨.hbm, 3334, rfl⟩
abbrev main_v1640 : Ref sig .tc := ⟨.hbm, 3335, rfl⟩
abbrev main_v1641 : Ref sig .tc := ⟨.hbm, 3336, rfl⟩
abbrev main_c_1397 : Ref sig .tc := ⟨.hbm, 3337, rfl⟩
abbrev main_c_1398 : Ref sig .tc := ⟨.hbm, 3338, rfl⟩
abbrev main_v1642 : Ref sig .tc := ⟨.hbm, 3339, rfl⟩
abbrev main_c_1399 : Ref sig .tc := ⟨.hbm, 3340, rfl⟩
abbrev main_c_1400 : Ref sig .tc := ⟨.hbm, 3341, rfl⟩
abbrev main_v1643 : Ref sig .tc := ⟨.hbm, 3342, rfl⟩
abbrev main_c_1401 : Ref sig .tc := ⟨.hbm, 3343, rfl⟩
abbrev main_v1644 : Ref sig .tc := ⟨.hbm, 3344, rfl⟩
abbrev main_c_1402 : Ref sig .tc := ⟨.hbm, 3345, rfl⟩
abbrev main_v1645 : Ref sig .tc := ⟨.hbm, 3346, rfl⟩
abbrev main_c_1403 : Ref sig .tc := ⟨.hbm, 3347, rfl⟩
abbrev main_v1646 : Ref sig .tc := ⟨.hbm, 3348, rfl⟩
abbrev main_v1647 : Ref sig .tc := ⟨.hbm, 3349, rfl⟩
abbrev main_c_1404 : Ref sig .tc := ⟨.hbm, 3350, rfl⟩
abbrev main_v1648 : Ref sig .tc := ⟨.hbm, 3351, rfl⟩
abbrev main_c_1405 : Ref sig .tc := ⟨.hbm, 3352, rfl⟩
abbrev main_v1649 : Ref sig .tc := ⟨.hbm, 3353, rfl⟩
abbrev main_v1650 : Ref sig .tc := ⟨.hbm, 3354, rfl⟩
abbrev main_v1651 : Ref sig .tc := ⟨.hbm, 3355, rfl⟩
abbrev main_v1652 : Ref sig .tc := ⟨.hbm, 3356, rfl⟩
abbrev main_c_1406 : Ref sig .tc := ⟨.hbm, 3357, rfl⟩
abbrev main_c_1407 : Ref sig .tc := ⟨.hbm, 3358, rfl⟩
abbrev main_v1653 : Ref sig .tc := ⟨.hbm, 3359, rfl⟩
abbrev main_c_1408 : Ref sig .tc := ⟨.hbm, 3360, rfl⟩
abbrev main_c_1409 : Ref sig .tc := ⟨.hbm, 3361, rfl⟩
abbrev main_v1654 : Ref sig .tc := ⟨.hbm, 3362, rfl⟩
abbrev main_c_1410 : Ref sig .tc := ⟨.hbm, 3363, rfl⟩
abbrev main_v1655 : Ref sig .tc := ⟨.hbm, 3364, rfl⟩
abbrev main_c_1411 : Ref sig .tc := ⟨.hbm, 3365, rfl⟩
abbrev main_c_1412 : Ref sig .tc := ⟨.hbm, 3366, rfl⟩
abbrev main_v1656 : Ref sig .tc := ⟨.hbm, 3367, rfl⟩
abbrev main_c_1413 : Ref sig .tc := ⟨.hbm, 3368, rfl⟩
abbrev main_c_1414 : Ref sig .tc := ⟨.hbm, 3369, rfl⟩
abbrev main_v1657 : Ref sig .tc := ⟨.hbm, 3370, rfl⟩
abbrev main_c_1415 : Ref sig .tc := ⟨.hbm, 3371, rfl⟩
abbrev main_v1658 : Ref sig .tc := ⟨.hbm, 3372, rfl⟩
abbrev main_c_1416 : Ref sig .tc := ⟨.hbm, 3373, rfl⟩
abbrev main_v1659 : Ref sig .tc := ⟨.hbm, 3374, rfl⟩
abbrev main_c_1417 : Ref sig .tc := ⟨.hbm, 3375, rfl⟩
abbrev main_v1660 : Ref sig .tc := ⟨.hbm, 3376, rfl⟩
abbrev main_v1661 : Ref sig .tc := ⟨.hbm, 3377, rfl⟩
abbrev main_c_1418 : Ref sig .tc := ⟨.hbm, 3378, rfl⟩
abbrev main_v1662 : Ref sig .tc := ⟨.hbm, 3379, rfl⟩
abbrev main_c_1419 : Ref sig .tc := ⟨.hbm, 3380, rfl⟩
abbrev main_v1663 : Ref sig .tc := ⟨.hbm, 3381, rfl⟩
abbrev main_v1664 : Ref sig .tc := ⟨.hbm, 3382, rfl⟩
abbrev main_v1665 : Ref sig .tc := ⟨.hbm, 3383, rfl⟩
abbrev main_v1666 : Ref sig .tc := ⟨.hbm, 3384, rfl⟩
abbrev main_v1667 : Ref sig .tc := ⟨.hbm, 3385, rfl⟩
abbrev main_c_1420 : Ref sig .tc := ⟨.hbm, 3386, rfl⟩
abbrev main_v1668 : Ref sig .tc := ⟨.hbm, 3387, rfl⟩
abbrev main_c_1421 : Ref sig .tc := ⟨.hbm, 3388, rfl⟩
abbrev main_c_1422 : Ref sig .tc := ⟨.hbm, 3389, rfl⟩
abbrev main_call98_v0 : Ref sig .tc := ⟨.hbm, 3390, rfl⟩
abbrev main_call98_v1 : Ref sig .tc := ⟨.hbm, 3391, rfl⟩
abbrev main_call98_v2 : Ref sig .tc := ⟨.hbm, 3392, rfl⟩
abbrev main_v1669 : Ref sig .tc := ⟨.hbm, 3393, rfl⟩
abbrev main_v1670 : Ref sig .tc := ⟨.hbm, 3394, rfl⟩
abbrev main_v1671 : Ref sig .tc := ⟨.hbm, 3395, rfl⟩
abbrev main_c_1423 : Ref sig .tc := ⟨.hbm, 3396, rfl⟩
abbrev main_v1672 : Ref sig .tc := ⟨.hbm, 3397, rfl⟩
abbrev main_c_1424 : Ref sig .tc := ⟨.hbm, 3398, rfl⟩
abbrev main_c_1425 : Ref sig .tc := ⟨.hbm, 3399, rfl⟩
abbrev main_call99_v0 : Ref sig .tc := ⟨.hbm, 3400, rfl⟩
abbrev main_call99_v1 : Ref sig .tc := ⟨.hbm, 3401, rfl⟩
abbrev main_call99_v2 : Ref sig .tc := ⟨.hbm, 3402, rfl⟩
abbrev main_v1673 : Ref sig .tc := ⟨.hbm, 3403, rfl⟩
abbrev main_v1674 : Ref sig .tc := ⟨.hbm, 3404, rfl⟩
abbrev main_v1675 : Ref sig .tc := ⟨.hbm, 3405, rfl⟩
abbrev main_c_1426 : Ref sig .tc := ⟨.hbm, 3406, rfl⟩
abbrev main_c_1427 : Ref sig .tc := ⟨.hbm, 3407, rfl⟩
abbrev main_v1676 : Ref sig .tc := ⟨.hbm, 3408, rfl⟩
abbrev main_c_1428 : Ref sig .tc := ⟨.hbm, 3409, rfl⟩
abbrev main_c_1429 : Ref sig .tc := ⟨.hbm, 3410, rfl⟩
abbrev main_v1677 : Ref sig .tc := ⟨.hbm, 3411, rfl⟩
abbrev main_c_1430 : Ref sig .tc := ⟨.hbm, 3412, rfl⟩
abbrev main_v1678 : Ref sig .tc := ⟨.hbm, 3413, rfl⟩
abbrev main_c_1431 : Ref sig .tc := ⟨.hbm, 3414, rfl⟩
abbrev main_v1679 : Ref sig .tc := ⟨.hbm, 3415, rfl⟩
abbrev main_c_1432 : Ref sig .tc := ⟨.hbm, 3416, rfl⟩
abbrev main_v1680 : Ref sig .tc := ⟨.hbm, 3417, rfl⟩
abbrev main_v1681 : Ref sig .tc := ⟨.hbm, 3418, rfl⟩
abbrev main_c_1433 : Ref sig .tc := ⟨.hbm, 3419, rfl⟩
abbrev main_v1682 : Ref sig .tc := ⟨.hbm, 3420, rfl⟩
abbrev main_c_1434 : Ref sig .tc := ⟨.hbm, 3421, rfl⟩
abbrev main_v1683 : Ref sig .tc := ⟨.hbm, 3422, rfl⟩
abbrev main_v1684 : Ref sig .tc := ⟨.hbm, 3423, rfl⟩
abbrev main_v1685 : Ref sig .tc := ⟨.hbm, 3424, rfl⟩
abbrev main_v1686 : Ref sig .tc := ⟨.hbm, 3425, rfl⟩
abbrev main_c_1435 : Ref sig .tc := ⟨.hbm, 3426, rfl⟩
abbrev main_c_1436 : Ref sig .tc := ⟨.hbm, 3427, rfl⟩
abbrev main_v1687 : Ref sig .tc := ⟨.hbm, 3428, rfl⟩
abbrev main_c_1437 : Ref sig .tc := ⟨.hbm, 3429, rfl⟩
abbrev main_c_1438 : Ref sig .tc := ⟨.hbm, 3430, rfl⟩
abbrev main_v1688 : Ref sig .tc := ⟨.hbm, 3431, rfl⟩
abbrev main_c_1439 : Ref sig .tc := ⟨.hbm, 3432, rfl⟩
abbrev main_v1689 : Ref sig .tc := ⟨.hbm, 3433, rfl⟩
abbrev main_c_1440 : Ref sig .tc := ⟨.hbm, 3434, rfl⟩
abbrev main_c_1441 : Ref sig .tc := ⟨.hbm, 3435, rfl⟩
abbrev main_v1690 : Ref sig .tc := ⟨.hbm, 3436, rfl⟩
abbrev main_c_1442 : Ref sig .tc := ⟨.hbm, 3437, rfl⟩
abbrev main_c_1443 : Ref sig .tc := ⟨.hbm, 3438, rfl⟩
abbrev main_v1691 : Ref sig .tc := ⟨.hbm, 3439, rfl⟩
abbrev main_c_1444 : Ref sig .tc := ⟨.hbm, 3440, rfl⟩
abbrev main_v1692 : Ref sig .tc := ⟨.hbm, 3441, rfl⟩
abbrev main_c_1445 : Ref sig .tc := ⟨.hbm, 3442, rfl⟩
abbrev main_v1693 : Ref sig .tc := ⟨.hbm, 3443, rfl⟩
abbrev main_c_1446 : Ref sig .tc := ⟨.hbm, 3444, rfl⟩
abbrev main_v1694 : Ref sig .tc := ⟨.hbm, 3445, rfl⟩
abbrev main_v1695 : Ref sig .tc := ⟨.hbm, 3446, rfl⟩
abbrev main_c_1447 : Ref sig .tc := ⟨.hbm, 3447, rfl⟩
abbrev main_v1696 : Ref sig .tc := ⟨.hbm, 3448, rfl⟩
abbrev main_c_1448 : Ref sig .tc := ⟨.hbm, 3449, rfl⟩
abbrev main_v1697 : Ref sig .tc := ⟨.hbm, 3450, rfl⟩
abbrev main_v1698 : Ref sig .tc := ⟨.hbm, 3451, rfl⟩
abbrev main_v1699 : Ref sig .tc := ⟨.hbm, 3452, rfl⟩
abbrev main_v1700 : Ref sig .tc := ⟨.hbm, 3453, rfl⟩
abbrev main_v1701 : Ref sig .tc := ⟨.hbm, 3454, rfl⟩
abbrev main_c_1449 : Ref sig .tc := ⟨.hbm, 3455, rfl⟩
abbrev main_v1702 : Ref sig .tc := ⟨.hbm, 3456, rfl⟩
abbrev main_c_1450 : Ref sig .tc := ⟨.hbm, 3457, rfl⟩
abbrev main_c_1451 : Ref sig .tc := ⟨.hbm, 3458, rfl⟩
abbrev main_call100_v0 : Ref sig .tc := ⟨.hbm, 3459, rfl⟩
abbrev main_call100_v1 : Ref sig .tc := ⟨.hbm, 3460, rfl⟩
abbrev main_call100_v2 : Ref sig .tc := ⟨.hbm, 3461, rfl⟩
abbrev main_v1703 : Ref sig .tc := ⟨.hbm, 3462, rfl⟩
abbrev main_v1704 : Ref sig .tc := ⟨.hbm, 3463, rfl⟩
abbrev main_v1705 : Ref sig .tc := ⟨.hbm, 3464, rfl⟩
abbrev main_c_1452 : Ref sig .tc := ⟨.hbm, 3465, rfl⟩
abbrev main_v1706 : Ref sig .tc := ⟨.hbm, 3466, rfl⟩
abbrev main_c_1453 : Ref sig .tc := ⟨.hbm, 3467, rfl⟩
abbrev main_c_1454 : Ref sig .tc := ⟨.hbm, 3468, rfl⟩
abbrev main_call101_v0 : Ref sig .tc := ⟨.hbm, 3469, rfl⟩
abbrev main_call101_v1 : Ref sig .tc := ⟨.hbm, 3470, rfl⟩
abbrev main_call101_v2 : Ref sig .tc := ⟨.hbm, 3471, rfl⟩
abbrev main_v1707 : Ref sig .tc := ⟨.hbm, 3472, rfl⟩
abbrev main_v1708 : Ref sig .tc := ⟨.hbm, 3473, rfl⟩
abbrev main_v1709 : Ref sig .tc := ⟨.hbm, 3474, rfl⟩
abbrev main_c_1455 : Ref sig .tc := ⟨.hbm, 3475, rfl⟩
abbrev main_c_1456 : Ref sig .tc := ⟨.hbm, 3476, rfl⟩
abbrev main_v1710 : Ref sig .tc := ⟨.hbm, 3477, rfl⟩
abbrev main_c_1457 : Ref sig .tc := ⟨.hbm, 3478, rfl⟩
abbrev main_c_1458 : Ref sig .tc := ⟨.hbm, 3479, rfl⟩
abbrev main_v1711 : Ref sig .tc := ⟨.hbm, 3480, rfl⟩
abbrev main_c_1459 : Ref sig .tc := ⟨.hbm, 3481, rfl⟩
abbrev main_v1712 : Ref sig .tc := ⟨.hbm, 3482, rfl⟩
abbrev main_c_1460 : Ref sig .tc := ⟨.hbm, 3483, rfl⟩
abbrev main_v1713 : Ref sig .tc := ⟨.hbm, 3484, rfl⟩
abbrev main_c_1461 : Ref sig .tc := ⟨.hbm, 3485, rfl⟩
abbrev main_v1714 : Ref sig .tc := ⟨.hbm, 3486, rfl⟩
abbrev main_v1715 : Ref sig .tc := ⟨.hbm, 3487, rfl⟩
abbrev main_c_1462 : Ref sig .tc := ⟨.hbm, 3488, rfl⟩
abbrev main_v1716 : Ref sig .tc := ⟨.hbm, 3489, rfl⟩
abbrev main_c_1463 : Ref sig .tc := ⟨.hbm, 3490, rfl⟩
abbrev main_v1717 : Ref sig .tc := ⟨.hbm, 3491, rfl⟩
abbrev main_v1718 : Ref sig .tc := ⟨.hbm, 3492, rfl⟩
abbrev main_v1719 : Ref sig .tc := ⟨.hbm, 3493, rfl⟩
abbrev main_v1720 : Ref sig .tc := ⟨.hbm, 3494, rfl⟩
abbrev main_c_1464 : Ref sig .tc := ⟨.hbm, 3495, rfl⟩
abbrev main_c_1465 : Ref sig .tc := ⟨.hbm, 3496, rfl⟩
abbrev main_v1721 : Ref sig .tc := ⟨.hbm, 3497, rfl⟩
abbrev main_c_1466 : Ref sig .tc := ⟨.hbm, 3498, rfl⟩
abbrev main_c_1467 : Ref sig .tc := ⟨.hbm, 3499, rfl⟩
abbrev main_v1722 : Ref sig .tc := ⟨.hbm, 3500, rfl⟩
abbrev main_c_1468 : Ref sig .tc := ⟨.hbm, 3501, rfl⟩
abbrev main_v1723 : Ref sig .tc := ⟨.hbm, 3502, rfl⟩
abbrev main_c_1469 : Ref sig .tc := ⟨.hbm, 3503, rfl⟩
abbrev main_c_1470 : Ref sig .tc := ⟨.hbm, 3504, rfl⟩
abbrev main_v1724 : Ref sig .tc := ⟨.hbm, 3505, rfl⟩
abbrev main_c_1471 : Ref sig .tc := ⟨.hbm, 3506, rfl⟩
abbrev main_c_1472 : Ref sig .tc := ⟨.hbm, 3507, rfl⟩
abbrev main_v1725 : Ref sig .tc := ⟨.hbm, 3508, rfl⟩
abbrev main_c_1473 : Ref sig .tc := ⟨.hbm, 3509, rfl⟩
abbrev main_v1726 : Ref sig .tc := ⟨.hbm, 3510, rfl⟩
abbrev main_c_1474 : Ref sig .tc := ⟨.hbm, 3511, rfl⟩
abbrev main_v1727 : Ref sig .tc := ⟨.hbm, 3512, rfl⟩
abbrev main_c_1475 : Ref sig .tc := ⟨.hbm, 3513, rfl⟩
abbrev main_v1728 : Ref sig .tc := ⟨.hbm, 3514, rfl⟩
abbrev main_v1729 : Ref sig .tc := ⟨.hbm, 3515, rfl⟩
abbrev main_c_1476 : Ref sig .tc := ⟨.hbm, 3516, rfl⟩
abbrev main_v1730 : Ref sig .tc := ⟨.hbm, 3517, rfl⟩
abbrev main_c_1477 : Ref sig .tc := ⟨.hbm, 3518, rfl⟩
abbrev main_v1731 : Ref sig .tc := ⟨.hbm, 3519, rfl⟩
abbrev main_v1732 : Ref sig .tc := ⟨.hbm, 3520, rfl⟩
abbrev main_v1733 : Ref sig .tc := ⟨.hbm, 3521, rfl⟩
abbrev main_v1734 : Ref sig .tc := ⟨.hbm, 3522, rfl⟩
abbrev main_v1735 : Ref sig .tc := ⟨.hbm, 3523, rfl⟩
abbrev main_c_1478 : Ref sig .tc := ⟨.hbm, 3524, rfl⟩
abbrev main_v1736 : Ref sig .tc := ⟨.hbm, 3525, rfl⟩
abbrev main_c_1479 : Ref sig .tc := ⟨.hbm, 3526, rfl⟩
abbrev main_c_1480 : Ref sig .tc := ⟨.hbm, 3527, rfl⟩
abbrev main_call102_v0 : Ref sig .tc := ⟨.hbm, 3528, rfl⟩
abbrev main_call102_v1 : Ref sig .tc := ⟨.hbm, 3529, rfl⟩
abbrev main_call102_v2 : Ref sig .tc := ⟨.hbm, 3530, rfl⟩
abbrev main_v1737 : Ref sig .tc := ⟨.hbm, 3531, rfl⟩
abbrev main_v1738 : Ref sig .tc := ⟨.hbm, 3532, rfl⟩
abbrev main_v1739 : Ref sig .tc := ⟨.hbm, 3533, rfl⟩
abbrev main_c_1481 : Ref sig .tc := ⟨.hbm, 3534, rfl⟩
abbrev main_v1740 : Ref sig .tc := ⟨.hbm, 3535, rfl⟩
abbrev main_c_1482 : Ref sig .tc := ⟨.hbm, 3536, rfl⟩
abbrev main_c_1483 : Ref sig .tc := ⟨.hbm, 3537, rfl⟩
abbrev main_call103_v0 : Ref sig .tc := ⟨.hbm, 3538, rfl⟩
abbrev main_call103_v1 : Ref sig .tc := ⟨.hbm, 3539, rfl⟩
abbrev main_call103_v2 : Ref sig .tc := ⟨.hbm, 3540, rfl⟩
abbrev main_v1741 : Ref sig .tc := ⟨.hbm, 3541, rfl⟩
abbrev main_v1742 : Ref sig .tc := ⟨.hbm, 3542, rfl⟩
abbrev main_v1743 : Ref sig .tc := ⟨.hbm, 3543, rfl⟩
abbrev main_c_1484 : Ref sig .tc := ⟨.hbm, 3544, rfl⟩
abbrev main_c_1485 : Ref sig .tc := ⟨.hbm, 3545, rfl⟩
abbrev main_v1744 : Ref sig .tc := ⟨.hbm, 3546, rfl⟩
abbrev main_c_1486 : Ref sig .tc := ⟨.hbm, 3547, rfl⟩
abbrev main_c_1487 : Ref sig .tc := ⟨.hbm, 3548, rfl⟩
abbrev main_v1745 : Ref sig .tc := ⟨.hbm, 3549, rfl⟩
abbrev main_c_1488 : Ref sig .tc := ⟨.hbm, 3550, rfl⟩
abbrev main_v1746 : Ref sig .tc := ⟨.hbm, 3551, rfl⟩
abbrev main_c_1489 : Ref sig .tc := ⟨.hbm, 3552, rfl⟩
abbrev main_v1747 : Ref sig .tc := ⟨.hbm, 3553, rfl⟩
abbrev main_c_1490 : Ref sig .tc := ⟨.hbm, 3554, rfl⟩
abbrev main_v1748 : Ref sig .tc := ⟨.hbm, 3555, rfl⟩
abbrev main_v1749 : Ref sig .tc := ⟨.hbm, 3556, rfl⟩
abbrev main_c_1491 : Ref sig .tc := ⟨.hbm, 3557, rfl⟩
abbrev main_v1750 : Ref sig .tc := ⟨.hbm, 3558, rfl⟩
abbrev main_c_1492 : Ref sig .tc := ⟨.hbm, 3559, rfl⟩
abbrev main_v1751 : Ref sig .tc := ⟨.hbm, 3560, rfl⟩
abbrev main_v1752 : Ref sig .tc := ⟨.hbm, 3561, rfl⟩
abbrev main_v1753 : Ref sig .tc := ⟨.hbm, 3562, rfl⟩
abbrev main_v1754 : Ref sig .tc := ⟨.hbm, 3563, rfl⟩
abbrev main_c_1493 : Ref sig .tc := ⟨.hbm, 3564, rfl⟩
abbrev main_c_1494 : Ref sig .tc := ⟨.hbm, 3565, rfl⟩
abbrev main_v1755 : Ref sig .tc := ⟨.hbm, 3566, rfl⟩
abbrev main_c_1495 : Ref sig .tc := ⟨.hbm, 3567, rfl⟩
abbrev main_c_1496 : Ref sig .tc := ⟨.hbm, 3568, rfl⟩
abbrev main_v1756 : Ref sig .tc := ⟨.hbm, 3569, rfl⟩
abbrev main_c_1497 : Ref sig .tc := ⟨.hbm, 3570, rfl⟩
abbrev main_v1757 : Ref sig .tc := ⟨.hbm, 3571, rfl⟩
abbrev main_c_1498 : Ref sig .tc := ⟨.hbm, 3572, rfl⟩
abbrev main_c_1499 : Ref sig .tc := ⟨.hbm, 3573, rfl⟩
abbrev main_v1758 : Ref sig .tc := ⟨.hbm, 3574, rfl⟩
abbrev main_c_1500 : Ref sig .tc := ⟨.hbm, 3575, rfl⟩
abbrev main_c_1501 : Ref sig .tc := ⟨.hbm, 3576, rfl⟩
abbrev main_v1759 : Ref sig .tc := ⟨.hbm, 3577, rfl⟩
abbrev main_c_1502 : Ref sig .tc := ⟨.hbm, 3578, rfl⟩
abbrev main_v1760 : Ref sig .tc := ⟨.hbm, 3579, rfl⟩
abbrev main_c_1503 : Ref sig .tc := ⟨.hbm, 3580, rfl⟩
abbrev main_v1761 : Ref sig .tc := ⟨.hbm, 3581, rfl⟩
abbrev main_c_1504 : Ref sig .tc := ⟨.hbm, 3582, rfl⟩
abbrev main_v1762 : Ref sig .tc := ⟨.hbm, 3583, rfl⟩
abbrev main_v1763 : Ref sig .tc := ⟨.hbm, 3584, rfl⟩
abbrev main_c_1505 : Ref sig .tc := ⟨.hbm, 3585, rfl⟩
abbrev main_v1764 : Ref sig .tc := ⟨.hbm, 3586, rfl⟩
abbrev main_c_1506 : Ref sig .tc := ⟨.hbm, 3587, rfl⟩
abbrev main_v1765 : Ref sig .tc := ⟨.hbm, 3588, rfl⟩
abbrev main_v1766 : Ref sig .tc := ⟨.hbm, 3589, rfl⟩
abbrev main_v1767 : Ref sig .tc := ⟨.hbm, 3590, rfl⟩
abbrev main_v1768 : Ref sig .tc := ⟨.hbm, 3591, rfl⟩
abbrev main_v1769 : Ref sig .tc := ⟨.hbm, 3592, rfl⟩
abbrev main_c_1507 : Ref sig .tc := ⟨.hbm, 3593, rfl⟩
abbrev main_v1770 : Ref sig .tc := ⟨.hbm, 3594, rfl⟩
abbrev main_c_1508 : Ref sig .tc := ⟨.hbm, 3595, rfl⟩
abbrev main_c_1509 : Ref sig .tc := ⟨.hbm, 3596, rfl⟩
abbrev main_call104_v0 : Ref sig .tc := ⟨.hbm, 3597, rfl⟩
abbrev main_call104_v1 : Ref sig .tc := ⟨.hbm, 3598, rfl⟩
abbrev main_call104_v2 : Ref sig .tc := ⟨.hbm, 3599, rfl⟩
abbrev main_v1771 : Ref sig .tc := ⟨.hbm, 3600, rfl⟩
abbrev main_v1772 : Ref sig .tc := ⟨.hbm, 3601, rfl⟩
abbrev main_v1773 : Ref sig .tc := ⟨.hbm, 3602, rfl⟩
abbrev main_c_1510 : Ref sig .tc := ⟨.hbm, 3603, rfl⟩
abbrev main_v1774 : Ref sig .tc := ⟨.hbm, 3604, rfl⟩
abbrev main_c_1511 : Ref sig .tc := ⟨.hbm, 3605, rfl⟩
abbrev main_c_1512 : Ref sig .tc := ⟨.hbm, 3606, rfl⟩
abbrev main_call105_v0 : Ref sig .tc := ⟨.hbm, 3607, rfl⟩
abbrev main_call105_v1 : Ref sig .tc := ⟨.hbm, 3608, rfl⟩
abbrev main_call105_v2 : Ref sig .tc := ⟨.hbm, 3609, rfl⟩
abbrev main_v1775 : Ref sig .tc := ⟨.hbm, 3610, rfl⟩
abbrev main_v1776 : Ref sig .tc := ⟨.hbm, 3611, rfl⟩
abbrev main_v1777 : Ref sig .tc := ⟨.hbm, 3612, rfl⟩
abbrev main_c_1513 : Ref sig .tc := ⟨.hbm, 3613, rfl⟩
abbrev main_c_1514 : Ref sig .tc := ⟨.hbm, 3614, rfl⟩
abbrev main_v1778 : Ref sig .tc := ⟨.hbm, 3615, rfl⟩
abbrev main_c_1515 : Ref sig .tc := ⟨.hbm, 3616, rfl⟩
abbrev main_c_1516 : Ref sig .tc := ⟨.hbm, 3617, rfl⟩
abbrev main_v1779 : Ref sig .tc := ⟨.hbm, 3618, rfl⟩
abbrev main_c_1517 : Ref sig .tc := ⟨.hbm, 3619, rfl⟩
abbrev main_v1780 : Ref sig .tc := ⟨.hbm, 3620, rfl⟩
abbrev main_c_1518 : Ref sig .tc := ⟨.hbm, 3621, rfl⟩
abbrev main_v1781 : Ref sig .tc := ⟨.hbm, 3622, rfl⟩
abbrev main_c_1519 : Ref sig .tc := ⟨.hbm, 3623, rfl⟩
abbrev main_v1782 : Ref sig .tc := ⟨.hbm, 3624, rfl⟩
abbrev main_v1783 : Ref sig .tc := ⟨.hbm, 3625, rfl⟩
abbrev main_c_1520 : Ref sig .tc := ⟨.hbm, 3626, rfl⟩
abbrev main_v1784 : Ref sig .tc := ⟨.hbm, 3627, rfl⟩
abbrev main_c_1521 : Ref sig .tc := ⟨.hbm, 3628, rfl⟩
abbrev main_v1785 : Ref sig .tc := ⟨.hbm, 3629, rfl⟩
abbrev main_v1786 : Ref sig .tc := ⟨.hbm, 3630, rfl⟩
abbrev main_v1787 : Ref sig .tc := ⟨.hbm, 3631, rfl⟩
abbrev main_v1788 : Ref sig .tc := ⟨.hbm, 3632, rfl⟩
abbrev main_c_1522 : Ref sig .tc := ⟨.hbm, 3633, rfl⟩
abbrev main_c_1523 : Ref sig .tc := ⟨.hbm, 3634, rfl⟩
abbrev main_v1789 : Ref sig .tc := ⟨.hbm, 3635, rfl⟩
abbrev main_c_1524 : Ref sig .tc := ⟨.hbm, 3636, rfl⟩
abbrev main_c_1525 : Ref sig .tc := ⟨.hbm, 3637, rfl⟩
abbrev main_v1790 : Ref sig .tc := ⟨.hbm, 3638, rfl⟩
abbrev main_c_1526 : Ref sig .tc := ⟨.hbm, 3639, rfl⟩
abbrev main_v1791 : Ref sig .tc := ⟨.hbm, 3640, rfl⟩
abbrev main_c_1527 : Ref sig .tc := ⟨.hbm, 3641, rfl⟩
abbrev main_c_1528 : Ref sig .tc := ⟨.hbm, 3642, rfl⟩
abbrev main_v1792 : Ref sig .tc := ⟨.hbm, 3643, rfl⟩
abbrev main_c_1529 : Ref sig .tc := ⟨.hbm, 3644, rfl⟩
abbrev main_c_1530 : Ref sig .tc := ⟨.hbm, 3645, rfl⟩
abbrev main_v1793 : Ref sig .tc := ⟨.hbm, 3646, rfl⟩
abbrev main_c_1531 : Ref sig .tc := ⟨.hbm, 3647, rfl⟩
abbrev main_v1794 : Ref sig .tc := ⟨.hbm, 3648, rfl⟩
abbrev main_c_1532 : Ref sig .tc := ⟨.hbm, 3649, rfl⟩
abbrev main_v1795 : Ref sig .tc := ⟨.hbm, 3650, rfl⟩
abbrev main_c_1533 : Ref sig .tc := ⟨.hbm, 3651, rfl⟩
abbrev main_v1796 : Ref sig .tc := ⟨.hbm, 3652, rfl⟩
abbrev main_v1797 : Ref sig .tc := ⟨.hbm, 3653, rfl⟩
abbrev main_c_1534 : Ref sig .tc := ⟨.hbm, 3654, rfl⟩
abbrev main_v1798 : Ref sig .tc := ⟨.hbm, 3655, rfl⟩
abbrev main_c_1535 : Ref sig .tc := ⟨.hbm, 3656, rfl⟩
abbrev main_v1799 : Ref sig .tc := ⟨.hbm, 3657, rfl⟩
abbrev main_v1800 : Ref sig .tc := ⟨.hbm, 3658, rfl⟩
abbrev main_v1801 : Ref sig .tc := ⟨.hbm, 3659, rfl⟩
abbrev main_v1802 : Ref sig .tc := ⟨.hbm, 3660, rfl⟩
abbrev main_v1803 : Ref sig .tc := ⟨.hbm, 3661, rfl⟩
abbrev main_c_1536 : Ref sig .tc := ⟨.hbm, 3662, rfl⟩
abbrev main_v1804 : Ref sig .tc := ⟨.hbm, 3663, rfl⟩
abbrev main_c_1537 : Ref sig .tc := ⟨.hbm, 3664, rfl⟩
abbrev main_c_1538 : Ref sig .tc := ⟨.hbm, 3665, rfl⟩
abbrev main_call106_v0 : Ref sig .tc := ⟨.hbm, 3666, rfl⟩
abbrev main_call106_v1 : Ref sig .tc := ⟨.hbm, 3667, rfl⟩
abbrev main_call106_v2 : Ref sig .tc := ⟨.hbm, 3668, rfl⟩
abbrev main_v1805 : Ref sig .tc := ⟨.hbm, 3669, rfl⟩
abbrev main_v1806 : Ref sig .tc := ⟨.hbm, 3670, rfl⟩
abbrev main_v1807 : Ref sig .tc := ⟨.hbm, 3671, rfl⟩
abbrev main_c_1539 : Ref sig .tc := ⟨.hbm, 3672, rfl⟩
abbrev main_v1808 : Ref sig .tc := ⟨.hbm, 3673, rfl⟩
abbrev main_c_1540 : Ref sig .tc := ⟨.hbm, 3674, rfl⟩
abbrev main_c_1541 : Ref sig .tc := ⟨.hbm, 3675, rfl⟩
abbrev main_call107_v0 : Ref sig .tc := ⟨.hbm, 3676, rfl⟩
abbrev main_call107_v1 : Ref sig .tc := ⟨.hbm, 3677, rfl⟩
abbrev main_call107_v2 : Ref sig .tc := ⟨.hbm, 3678, rfl⟩
abbrev main_v1809 : Ref sig .tc := ⟨.hbm, 3679, rfl⟩
abbrev main_v1810 : Ref sig .tc := ⟨.hbm, 3680, rfl⟩
abbrev main_v1811 : Ref sig .tc := ⟨.hbm, 3681, rfl⟩
abbrev main_c_1542 : Ref sig .tc := ⟨.hbm, 3682, rfl⟩
abbrev main_c_1543 : Ref sig .tc := ⟨.hbm, 3683, rfl⟩
abbrev main_v1812 : Ref sig .tc := ⟨.hbm, 3684, rfl⟩
abbrev main_c_1544 : Ref sig .tc := ⟨.hbm, 3685, rfl⟩
abbrev main_c_1545 : Ref sig .tc := ⟨.hbm, 3686, rfl⟩
abbrev main_v1813 : Ref sig .tc := ⟨.hbm, 3687, rfl⟩
abbrev main_c_1546 : Ref sig .tc := ⟨.hbm, 3688, rfl⟩
abbrev main_v1814 : Ref sig .tc := ⟨.hbm, 3689, rfl⟩
abbrev main_c_1547 : Ref sig .tc := ⟨.hbm, 3690, rfl⟩
abbrev main_v1815 : Ref sig .tc := ⟨.hbm, 3691, rfl⟩
abbrev main_c_1548 : Ref sig .tc := ⟨.hbm, 3692, rfl⟩
abbrev main_v1816 : Ref sig .tc := ⟨.hbm, 3693, rfl⟩
abbrev main_v1817 : Ref sig .tc := ⟨.hbm, 3694, rfl⟩
abbrev main_c_1549 : Ref sig .tc := ⟨.hbm, 3695, rfl⟩
abbrev main_v1818 : Ref sig .tc := ⟨.hbm, 3696, rfl⟩
abbrev main_c_1550 : Ref sig .tc := ⟨.hbm, 3697, rfl⟩
abbrev main_v1819 : Ref sig .tc := ⟨.hbm, 3698, rfl⟩
abbrev main_v1820 : Ref sig .tc := ⟨.hbm, 3699, rfl⟩
abbrev main_v1821 : Ref sig .tc := ⟨.hbm, 3700, rfl⟩
abbrev main_v1822 : Ref sig .tc := ⟨.hbm, 3701, rfl⟩
abbrev main_c_1551 : Ref sig .tc := ⟨.hbm, 3702, rfl⟩
abbrev main_c_1552 : Ref sig .tc := ⟨.hbm, 3703, rfl⟩
abbrev main_v1823 : Ref sig .tc := ⟨.hbm, 3704, rfl⟩
abbrev main_c_1553 : Ref sig .tc := ⟨.hbm, 3705, rfl⟩
abbrev main_c_1554 : Ref sig .tc := ⟨.hbm, 3706, rfl⟩
abbrev main_v1824 : Ref sig .tc := ⟨.hbm, 3707, rfl⟩
abbrev main_c_1555 : Ref sig .tc := ⟨.hbm, 3708, rfl⟩
abbrev main_v1825 : Ref sig .tc := ⟨.hbm, 3709, rfl⟩
abbrev main_c_1556 : Ref sig .tc := ⟨.hbm, 3710, rfl⟩
abbrev main_c_1557 : Ref sig .tc := ⟨.hbm, 3711, rfl⟩
abbrev main_v1826 : Ref sig .tc := ⟨.hbm, 3712, rfl⟩
abbrev main_c_1558 : Ref sig .tc := ⟨.hbm, 3713, rfl⟩
abbrev main_c_1559 : Ref sig .tc := ⟨.hbm, 3714, rfl⟩
abbrev main_v1827 : Ref sig .tc := ⟨.hbm, 3715, rfl⟩
abbrev main_c_1560 : Ref sig .tc := ⟨.hbm, 3716, rfl⟩
abbrev main_v1828 : Ref sig .tc := ⟨.hbm, 3717, rfl⟩
abbrev main_c_1561 : Ref sig .tc := ⟨.hbm, 3718, rfl⟩
abbrev main_v1829 : Ref sig .tc := ⟨.hbm, 3719, rfl⟩
abbrev main_c_1562 : Ref sig .tc := ⟨.hbm, 3720, rfl⟩
abbrev main_v1830 : Ref sig .tc := ⟨.hbm, 3721, rfl⟩
abbrev main_v1831 : Ref sig .tc := ⟨.hbm, 3722, rfl⟩
abbrev main_c_1563 : Ref sig .tc := ⟨.hbm, 3723, rfl⟩
abbrev main_v1832 : Ref sig .tc := ⟨.hbm, 3724, rfl⟩
abbrev main_c_1564 : Ref sig .tc := ⟨.hbm, 3725, rfl⟩
abbrev main_v1833 : Ref sig .tc := ⟨.hbm, 3726, rfl⟩
abbrev main_v1834 : Ref sig .tc := ⟨.hbm, 3727, rfl⟩
abbrev main_v1835 : Ref sig .tc := ⟨.hbm, 3728, rfl⟩
abbrev main_v1836 : Ref sig .tc := ⟨.hbm, 3729, rfl⟩
abbrev main_v1837 : Ref sig .tc := ⟨.hbm, 3730, rfl⟩
abbrev main_c_1565 : Ref sig .tc := ⟨.hbm, 3731, rfl⟩
abbrev main_v1838 : Ref sig .tc := ⟨.hbm, 3732, rfl⟩
abbrev main_c_1566 : Ref sig .tc := ⟨.hbm, 3733, rfl⟩
abbrev main_c_1567 : Ref sig .tc := ⟨.hbm, 3734, rfl⟩
abbrev main_call108_v0 : Ref sig .tc := ⟨.hbm, 3735, rfl⟩
abbrev main_call108_v1 : Ref sig .tc := ⟨.hbm, 3736, rfl⟩
abbrev main_call108_v2 : Ref sig .tc := ⟨.hbm, 3737, rfl⟩
abbrev main_v1839 : Ref sig .tc := ⟨.hbm, 3738, rfl⟩
abbrev main_v1840 : Ref sig .tc := ⟨.hbm, 3739, rfl⟩
abbrev main_v1841 : Ref sig .tc := ⟨.hbm, 3740, rfl⟩
abbrev main_c_1568 : Ref sig .tc := ⟨.hbm, 3741, rfl⟩
abbrev main_v1842 : Ref sig .tc := ⟨.hbm, 3742, rfl⟩
abbrev main_c_1569 : Ref sig .tc := ⟨.hbm, 3743, rfl⟩
abbrev main_c_1570 : Ref sig .tc := ⟨.hbm, 3744, rfl⟩
abbrev main_call109_v0 : Ref sig .tc := ⟨.hbm, 3745, rfl⟩
abbrev main_call109_v1 : Ref sig .tc := ⟨.hbm, 3746, rfl⟩
abbrev main_call109_v2 : Ref sig .tc := ⟨.hbm, 3747, rfl⟩
abbrev main_v1843 : Ref sig .tc := ⟨.hbm, 3748, rfl⟩
abbrev main_v1844 : Ref sig .tc := ⟨.hbm, 3749, rfl⟩
abbrev main_v1845 : Ref sig .tc := ⟨.hbm, 3750, rfl⟩
abbrev main_c_1571 : Ref sig .tc := ⟨.hbm, 3751, rfl⟩
abbrev main_c_1572 : Ref sig .tc := ⟨.hbm, 3752, rfl⟩
abbrev main_v1846 : Ref sig .tc := ⟨.hbm, 3753, rfl⟩
abbrev main_c_1573 : Ref sig .tc := ⟨.hbm, 3754, rfl⟩
abbrev main_c_1574 : Ref sig .tc := ⟨.hbm, 3755, rfl⟩
abbrev main_v1847 : Ref sig .tc := ⟨.hbm, 3756, rfl⟩
abbrev main_c_1575 : Ref sig .tc := ⟨.hbm, 3757, rfl⟩
abbrev main_v1848 : Ref sig .tc := ⟨.hbm, 3758, rfl⟩
abbrev main_c_1576 : Ref sig .tc := ⟨.hbm, 3759, rfl⟩
abbrev main_v1849 : Ref sig .tc := ⟨.hbm, 3760, rfl⟩
abbrev main_c_1577 : Ref sig .tc := ⟨.hbm, 3761, rfl⟩
abbrev main_v1850 : Ref sig .tc := ⟨.hbm, 3762, rfl⟩
abbrev main_v1851 : Ref sig .tc := ⟨.hbm, 3763, rfl⟩
abbrev main_c_1578 : Ref sig .tc := ⟨.hbm, 3764, rfl⟩
abbrev main_v1852 : Ref sig .tc := ⟨.hbm, 3765, rfl⟩
abbrev main_c_1579 : Ref sig .tc := ⟨.hbm, 3766, rfl⟩
abbrev main_v1853 : Ref sig .tc := ⟨.hbm, 3767, rfl⟩
abbrev main_v1854 : Ref sig .tc := ⟨.hbm, 3768, rfl⟩
abbrev main_v1855 : Ref sig .tc := ⟨.hbm, 3769, rfl⟩
abbrev main_v1856 : Ref sig .tc := ⟨.hbm, 3770, rfl⟩
abbrev main_c_1580 : Ref sig .tc := ⟨.hbm, 3771, rfl⟩
abbrev main_c_1581 : Ref sig .tc := ⟨.hbm, 3772, rfl⟩
abbrev main_v1857 : Ref sig .tc := ⟨.hbm, 3773, rfl⟩
abbrev main_c_1582 : Ref sig .tc := ⟨.hbm, 3774, rfl⟩
abbrev main_c_1583 : Ref sig .tc := ⟨.hbm, 3775, rfl⟩
abbrev main_v1858 : Ref sig .tc := ⟨.hbm, 3776, rfl⟩
abbrev main_c_1584 : Ref sig .tc := ⟨.hbm, 3777, rfl⟩
abbrev main_v1859 : Ref sig .tc := ⟨.hbm, 3778, rfl⟩
abbrev main_c_1585 : Ref sig .tc := ⟨.hbm, 3779, rfl⟩
abbrev main_c_1586 : Ref sig .tc := ⟨.hbm, 3780, rfl⟩
abbrev main_v1860 : Ref sig .tc := ⟨.hbm, 3781, rfl⟩
abbrev main_c_1587 : Ref sig .tc := ⟨.hbm, 3782, rfl⟩
abbrev main_c_1588 : Ref sig .tc := ⟨.hbm, 3783, rfl⟩
abbrev main_v1861 : Ref sig .tc := ⟨.hbm, 3784, rfl⟩
abbrev main_c_1589 : Ref sig .tc := ⟨.hbm, 3785, rfl⟩
abbrev main_v1862 : Ref sig .tc := ⟨.hbm, 3786, rfl⟩
abbrev main_c_1590 : Ref sig .tc := ⟨.hbm, 3787, rfl⟩
abbrev main_v1863 : Ref sig .tc := ⟨.hbm, 3788, rfl⟩
abbrev main_c_1591 : Ref sig .tc := ⟨.hbm, 3789, rfl⟩
abbrev main_v1864 : Ref sig .tc := ⟨.hbm, 3790, rfl⟩
abbrev main_v1865 : Ref sig .tc := ⟨.hbm, 3791, rfl⟩
abbrev main_c_1592 : Ref sig .tc := ⟨.hbm, 3792, rfl⟩
abbrev main_v1866 : Ref sig .tc := ⟨.hbm, 3793, rfl⟩
abbrev main_c_1593 : Ref sig .tc := ⟨.hbm, 3794, rfl⟩
abbrev main_v1867 : Ref sig .tc := ⟨.hbm, 3795, rfl⟩
abbrev main_v1868 : Ref sig .tc := ⟨.hbm, 3796, rfl⟩
abbrev main_v1869 : Ref sig .tc := ⟨.hbm, 3797, rfl⟩
abbrev main_v1870 : Ref sig .tc := ⟨.hbm, 3798, rfl⟩
abbrev main_v1871 : Ref sig .tc := ⟨.hbm, 3799, rfl⟩
abbrev main_c_1594 : Ref sig .tc := ⟨.hbm, 3800, rfl⟩
abbrev main_v1872 : Ref sig .tc := ⟨.hbm, 3801, rfl⟩
abbrev main_c_1595 : Ref sig .tc := ⟨.hbm, 3802, rfl⟩
abbrev main_c_1596 : Ref sig .tc := ⟨.hbm, 3803, rfl⟩
abbrev main_call110_v0 : Ref sig .tc := ⟨.hbm, 3804, rfl⟩
abbrev main_call110_v1 : Ref sig .tc := ⟨.hbm, 3805, rfl⟩
abbrev main_call110_v2 : Ref sig .tc := ⟨.hbm, 3806, rfl⟩
abbrev main_v1873 : Ref sig .tc := ⟨.hbm, 3807, rfl⟩
abbrev main_v1874 : Ref sig .tc := ⟨.hbm, 3808, rfl⟩
abbrev main_v1875 : Ref sig .tc := ⟨.hbm, 3809, rfl⟩
abbrev main_c_1597 : Ref sig .tc := ⟨.hbm, 3810, rfl⟩
abbrev main_v1876 : Ref sig .tc := ⟨.hbm, 3811, rfl⟩
abbrev main_c_1598 : Ref sig .tc := ⟨.hbm, 3812, rfl⟩
abbrev main_c_1599 : Ref sig .tc := ⟨.hbm, 3813, rfl⟩
abbrev main_call111_v0 : Ref sig .tc := ⟨.hbm, 3814, rfl⟩
abbrev main_call111_v1 : Ref sig .tc := ⟨.hbm, 3815, rfl⟩
abbrev main_call111_v2 : Ref sig .tc := ⟨.hbm, 3816, rfl⟩
abbrev main_v1877 : Ref sig .tc := ⟨.hbm, 3817, rfl⟩
abbrev main_v1878 : Ref sig .tc := ⟨.hbm, 3818, rfl⟩
abbrev main_v1879 : Ref sig .tc := ⟨.hbm, 3819, rfl⟩
abbrev main_c_1600 : Ref sig .tc := ⟨.hbm, 3820, rfl⟩
abbrev main_c_1601 : Ref sig .tc := ⟨.hbm, 3821, rfl⟩
abbrev main_v1880 : Ref sig .tc := ⟨.hbm, 3822, rfl⟩
abbrev main_c_1602 : Ref sig .tc := ⟨.hbm, 3823, rfl⟩
abbrev main_c_1603 : Ref sig .tc := ⟨.hbm, 3824, rfl⟩
abbrev main_v1881 : Ref sig .tc := ⟨.hbm, 3825, rfl⟩
abbrev main_c_1604 : Ref sig .tc := ⟨.hbm, 3826, rfl⟩
abbrev main_v1882 : Ref sig .tc := ⟨.hbm, 3827, rfl⟩
abbrev main_c_1605 : Ref sig .tc := ⟨.hbm, 3828, rfl⟩
abbrev main_v1883 : Ref sig .tc := ⟨.hbm, 3829, rfl⟩
abbrev main_c_1606 : Ref sig .tc := ⟨.hbm, 3830, rfl⟩
abbrev main_v1884 : Ref sig .tc := ⟨.hbm, 3831, rfl⟩
abbrev main_v1885 : Ref sig .tc := ⟨.hbm, 3832, rfl⟩
abbrev main_c_1607 : Ref sig .tc := ⟨.hbm, 3833, rfl⟩
abbrev main_v1886 : Ref sig .tc := ⟨.hbm, 3834, rfl⟩
abbrev main_c_1608 : Ref sig .tc := ⟨.hbm, 3835, rfl⟩
abbrev main_v1887 : Ref sig .tc := ⟨.hbm, 3836, rfl⟩
abbrev main_v1888 : Ref sig .tc := ⟨.hbm, 3837, rfl⟩
abbrev main_v1889 : Ref sig .tc := ⟨.hbm, 3838, rfl⟩
abbrev main_v1890 : Ref sig .tc := ⟨.hbm, 3839, rfl⟩
abbrev main_c_1609 : Ref sig .tc := ⟨.hbm, 3840, rfl⟩
abbrev main_c_1610 : Ref sig .tc := ⟨.hbm, 3841, rfl⟩
abbrev main_v1891 : Ref sig .tc := ⟨.hbm, 3842, rfl⟩
abbrev main_c_1611 : Ref sig .tc := ⟨.hbm, 3843, rfl⟩
abbrev main_c_1612 : Ref sig .tc := ⟨.hbm, 3844, rfl⟩
abbrev main_v1892 : Ref sig .tc := ⟨.hbm, 3845, rfl⟩
abbrev main_c_1613 : Ref sig .tc := ⟨.hbm, 3846, rfl⟩
abbrev main_v1893 : Ref sig .tc := ⟨.hbm, 3847, rfl⟩
abbrev main_c_1614 : Ref sig .tc := ⟨.hbm, 3848, rfl⟩
abbrev main_c_1615 : Ref sig .tc := ⟨.hbm, 3849, rfl⟩
abbrev main_v1894 : Ref sig .tc := ⟨.hbm, 3850, rfl⟩
abbrev main_c_1616 : Ref sig .tc := ⟨.hbm, 3851, rfl⟩
abbrev main_c_1617 : Ref sig .tc := ⟨.hbm, 3852, rfl⟩
abbrev main_v1895 : Ref sig .tc := ⟨.hbm, 3853, rfl⟩
abbrev main_c_1618 : Ref sig .tc := ⟨.hbm, 3854, rfl⟩
abbrev main_v1896 : Ref sig .tc := ⟨.hbm, 3855, rfl⟩
abbrev main_c_1619 : Ref sig .tc := ⟨.hbm, 3856, rfl⟩
abbrev main_v1897 : Ref sig .tc := ⟨.hbm, 3857, rfl⟩
abbrev main_c_1620 : Ref sig .tc := ⟨.hbm, 3858, rfl⟩
abbrev main_v1898 : Ref sig .tc := ⟨.hbm, 3859, rfl⟩
abbrev main_v1899 : Ref sig .tc := ⟨.hbm, 3860, rfl⟩
abbrev main_c_1621 : Ref sig .tc := ⟨.hbm, 3861, rfl⟩
abbrev main_v1900 : Ref sig .tc := ⟨.hbm, 3862, rfl⟩
abbrev main_c_1622 : Ref sig .tc := ⟨.hbm, 3863, rfl⟩
abbrev main_v1901 : Ref sig .tc := ⟨.hbm, 3864, rfl⟩
abbrev main_v1902 : Ref sig .tc := ⟨.hbm, 3865, rfl⟩
abbrev main_v1903 : Ref sig .tc := ⟨.hbm, 3866, rfl⟩
abbrev main_v1904 : Ref sig .tc := ⟨.hbm, 3867, rfl⟩
abbrev main_v1905 : Ref sig .tc := ⟨.hbm, 3868, rfl⟩
abbrev main_c_1623 : Ref sig .tc := ⟨.hbm, 3869, rfl⟩
abbrev main_v1906 : Ref sig .tc := ⟨.hbm, 3870, rfl⟩
abbrev main_c_1624 : Ref sig .tc := ⟨.hbm, 3871, rfl⟩
abbrev main_c_1625 : Ref sig .tc := ⟨.hbm, 3872, rfl⟩
abbrev main_call112_v0 : Ref sig .tc := ⟨.hbm, 3873, rfl⟩
abbrev main_call112_v1 : Ref sig .tc := ⟨.hbm, 3874, rfl⟩
abbrev main_call112_v2 : Ref sig .tc := ⟨.hbm, 3875, rfl⟩
abbrev main_v1907 : Ref sig .tc := ⟨.hbm, 3876, rfl⟩
abbrev main_v1908 : Ref sig .tc := ⟨.hbm, 3877, rfl⟩
abbrev main_v1909 : Ref sig .tc := ⟨.hbm, 3878, rfl⟩
abbrev main_c_1626 : Ref sig .tc := ⟨.hbm, 3879, rfl⟩
abbrev main_v1910 : Ref sig .tc := ⟨.hbm, 3880, rfl⟩
abbrev main_c_1627 : Ref sig .tc := ⟨.hbm, 3881, rfl⟩
abbrev main_c_1628 : Ref sig .tc := ⟨.hbm, 3882, rfl⟩
abbrev main_call113_v0 : Ref sig .tc := ⟨.hbm, 3883, rfl⟩
abbrev main_call113_v1 : Ref sig .tc := ⟨.hbm, 3884, rfl⟩
abbrev main_call113_v2 : Ref sig .tc := ⟨.hbm, 3885, rfl⟩
abbrev main_v1911 : Ref sig .tc := ⟨.hbm, 3886, rfl⟩
abbrev main_v1912 : Ref sig .tc := ⟨.hbm, 3887, rfl⟩
abbrev main_v1913 : Ref sig .tc := ⟨.hbm, 3888, rfl⟩
abbrev main_c_1629 : Ref sig .tc := ⟨.hbm, 3889, rfl⟩
abbrev main_c_1630 : Ref sig .tc := ⟨.hbm, 3890, rfl⟩
abbrev main_v1914 : Ref sig .tc := ⟨.hbm, 3891, rfl⟩
abbrev main_c_1631 : Ref sig .tc := ⟨.hbm, 3892, rfl⟩
abbrev main_c_1632 : Ref sig .tc := ⟨.hbm, 3893, rfl⟩
abbrev main_v1915 : Ref sig .tc := ⟨.hbm, 3894, rfl⟩
abbrev main_c_1633 : Ref sig .tc := ⟨.hbm, 3895, rfl⟩
abbrev main_v1916 : Ref sig .tc := ⟨.hbm, 3896, rfl⟩
abbrev main_c_1634 : Ref sig .tc := ⟨.hbm, 3897, rfl⟩
abbrev main_v1917 : Ref sig .tc := ⟨.hbm, 3898, rfl⟩
abbrev main_c_1635 : Ref sig .tc := ⟨.hbm, 3899, rfl⟩
abbrev main_v1918 : Ref sig .tc := ⟨.hbm, 3900, rfl⟩
abbrev main_v1919 : Ref sig .tc := ⟨.hbm, 3901, rfl⟩
abbrev main_c_1636 : Ref sig .tc := ⟨.hbm, 3902, rfl⟩
abbrev main_v1920 : Ref sig .tc := ⟨.hbm, 3903, rfl⟩
abbrev main_c_1637 : Ref sig .tc := ⟨.hbm, 3904, rfl⟩
abbrev main_v1921 : Ref sig .tc := ⟨.hbm, 3905, rfl⟩
abbrev main_v1922 : Ref sig .tc := ⟨.hbm, 3906, rfl⟩
abbrev main_v1923 : Ref sig .tc := ⟨.hbm, 3907, rfl⟩
abbrev main_v1924 : Ref sig .tc := ⟨.hbm, 3908, rfl⟩
abbrev main_c_1638 : Ref sig .tc := ⟨.hbm, 3909, rfl⟩
abbrev main_c_1639 : Ref sig .tc := ⟨.hbm, 3910, rfl⟩
abbrev main_v1925 : Ref sig .tc := ⟨.hbm, 3911, rfl⟩
abbrev main_c_1640 : Ref sig .tc := ⟨.hbm, 3912, rfl⟩
abbrev main_c_1641 : Ref sig .tc := ⟨.hbm, 3913, rfl⟩
abbrev main_v1926 : Ref sig .tc := ⟨.hbm, 3914, rfl⟩
abbrev main_c_1642 : Ref sig .tc := ⟨.hbm, 3915, rfl⟩
abbrev main_v1927 : Ref sig .tc := ⟨.hbm, 3916, rfl⟩
abbrev main_c_1643 : Ref sig .tc := ⟨.hbm, 3917, rfl⟩
abbrev main_c_1644 : Ref sig .tc := ⟨.hbm, 3918, rfl⟩
abbrev main_v1928 : Ref sig .tc := ⟨.hbm, 3919, rfl⟩
abbrev main_c_1645 : Ref sig .tc := ⟨.hbm, 3920, rfl⟩
abbrev main_c_1646 : Ref sig .tc := ⟨.hbm, 3921, rfl⟩
abbrev main_v1929 : Ref sig .tc := ⟨.hbm, 3922, rfl⟩
abbrev main_c_1647 : Ref sig .tc := ⟨.hbm, 3923, rfl⟩
abbrev main_v1930 : Ref sig .tc := ⟨.hbm, 3924, rfl⟩
abbrev main_c_1648 : Ref sig .tc := ⟨.hbm, 3925, rfl⟩
abbrev main_v1931 : Ref sig .tc := ⟨.hbm, 3926, rfl⟩
abbrev main_c_1649 : Ref sig .tc := ⟨.hbm, 3927, rfl⟩
abbrev main_v1932 : Ref sig .tc := ⟨.hbm, 3928, rfl⟩
abbrev main_v1933 : Ref sig .tc := ⟨.hbm, 3929, rfl⟩
abbrev main_c_1650 : Ref sig .tc := ⟨.hbm, 3930, rfl⟩
abbrev main_v1934 : Ref sig .tc := ⟨.hbm, 3931, rfl⟩
abbrev main_c_1651 : Ref sig .tc := ⟨.hbm, 3932, rfl⟩
abbrev main_v1935 : Ref sig .tc := ⟨.hbm, 3933, rfl⟩
abbrev main_v1936 : Ref sig .tc := ⟨.hbm, 3934, rfl⟩
abbrev main_v1937 : Ref sig .tc := ⟨.hbm, 3935, rfl⟩
abbrev main_v1938 : Ref sig .tc := ⟨.hbm, 3936, rfl⟩
abbrev main_v1939 : Ref sig .tc := ⟨.hbm, 3937, rfl⟩
abbrev main_c_1652 : Ref sig .tc := ⟨.hbm, 3938, rfl⟩
abbrev main_v1940 : Ref sig .tc := ⟨.hbm, 3939, rfl⟩
abbrev main_c_1653 : Ref sig .tc := ⟨.hbm, 3940, rfl⟩
abbrev main_c_1654 : Ref sig .tc := ⟨.hbm, 3941, rfl⟩
abbrev main_call114_v0 : Ref sig .tc := ⟨.hbm, 3942, rfl⟩
abbrev main_call114_v1 : Ref sig .tc := ⟨.hbm, 3943, rfl⟩
abbrev main_call114_v2 : Ref sig .tc := ⟨.hbm, 3944, rfl⟩
abbrev main_v1941 : Ref sig .tc := ⟨.hbm, 3945, rfl⟩
abbrev main_v1942 : Ref sig .tc := ⟨.hbm, 3946, rfl⟩
abbrev main_v1943 : Ref sig .tc := ⟨.hbm, 3947, rfl⟩
abbrev main_c_1655 : Ref sig .tc := ⟨.hbm, 3948, rfl⟩
abbrev main_v1944 : Ref sig .tc := ⟨.hbm, 3949, rfl⟩
abbrev main_c_1656 : Ref sig .tc := ⟨.hbm, 3950, rfl⟩
abbrev main_c_1657 : Ref sig .tc := ⟨.hbm, 3951, rfl⟩
abbrev main_call115_v0 : Ref sig .tc := ⟨.hbm, 3952, rfl⟩
abbrev main_call115_v1 : Ref sig .tc := ⟨.hbm, 3953, rfl⟩
abbrev main_call115_v2 : Ref sig .tc := ⟨.hbm, 3954, rfl⟩
abbrev main_v1945 : Ref sig .tc := ⟨.hbm, 3955, rfl⟩
abbrev main_v1946 : Ref sig .tc := ⟨.hbm, 3956, rfl⟩
abbrev main_v1947 : Ref sig .tc := ⟨.hbm, 3957, rfl⟩
abbrev main_c_1658 : Ref sig .tc := ⟨.hbm, 3958, rfl⟩
abbrev main_c_1659 : Ref sig .tc := ⟨.hbm, 3959, rfl⟩
abbrev main_v1948 : Ref sig .tc := ⟨.hbm, 3960, rfl⟩
abbrev main_c_1660 : Ref sig .tc := ⟨.hbm, 3961, rfl⟩
abbrev main_c_1661 : Ref sig .tc := ⟨.hbm, 3962, rfl⟩
abbrev main_v1949 : Ref sig .tc := ⟨.hbm, 3963, rfl⟩
abbrev main_c_1662 : Ref sig .tc := ⟨.hbm, 3964, rfl⟩
abbrev main_v1950 : Ref sig .tc := ⟨.hbm, 3965, rfl⟩
abbrev main_c_1663 : Ref sig .tc := ⟨.hbm, 3966, rfl⟩
abbrev main_v1951 : Ref sig .tc := ⟨.hbm, 3967, rfl⟩
abbrev main_c_1664 : Ref sig .tc := ⟨.hbm, 3968, rfl⟩
abbrev main_v1952 : Ref sig .tc := ⟨.hbm, 3969, rfl⟩
abbrev main_v1953 : Ref sig .tc := ⟨.hbm, 3970, rfl⟩
abbrev main_c_1665 : Ref sig .tc := ⟨.hbm, 3971, rfl⟩
abbrev main_v1954 : Ref sig .tc := ⟨.hbm, 3972, rfl⟩
abbrev main_c_1666 : Ref sig .tc := ⟨.hbm, 3973, rfl⟩
abbrev main_v1955 : Ref sig .tc := ⟨.hbm, 3974, rfl⟩
abbrev main_v1956 : Ref sig .tc := ⟨.hbm, 3975, rfl⟩
abbrev main_v1957 : Ref sig .tc := ⟨.hbm, 3976, rfl⟩
abbrev main_v1958 : Ref sig .tc := ⟨.hbm, 3977, rfl⟩
abbrev main_c_1667 : Ref sig .tc := ⟨.hbm, 3978, rfl⟩
abbrev main_c_1668 : Ref sig .tc := ⟨.hbm, 3979, rfl⟩
abbrev main_v1959 : Ref sig .tc := ⟨.hbm, 3980, rfl⟩
abbrev main_c_1669 : Ref sig .tc := ⟨.hbm, 3981, rfl⟩
abbrev main_c_1670 : Ref sig .tc := ⟨.hbm, 3982, rfl⟩
abbrev main_v1960 : Ref sig .tc := ⟨.hbm, 3983, rfl⟩
abbrev main_c_1671 : Ref sig .tc := ⟨.hbm, 3984, rfl⟩
abbrev main_v1961 : Ref sig .tc := ⟨.hbm, 3985, rfl⟩
abbrev main_c_1672 : Ref sig .tc := ⟨.hbm, 3986, rfl⟩
abbrev main_c_1673 : Ref sig .tc := ⟨.hbm, 3987, rfl⟩
abbrev main_v1962 : Ref sig .tc := ⟨.hbm, 3988, rfl⟩
abbrev main_c_1674 : Ref sig .tc := ⟨.hbm, 3989, rfl⟩
abbrev main_c_1675 : Ref sig .tc := ⟨.hbm, 3990, rfl⟩
abbrev main_v1963 : Ref sig .tc := ⟨.hbm, 3991, rfl⟩
abbrev main_c_1676 : Ref sig .tc := ⟨.hbm, 3992, rfl⟩
abbrev main_v1964 : Ref sig .tc := ⟨.hbm, 3993, rfl⟩
abbrev main_c_1677 : Ref sig .tc := ⟨.hbm, 3994, rfl⟩
abbrev main_v1965 : Ref sig .tc := ⟨.hbm, 3995, rfl⟩
abbrev main_c_1678 : Ref sig .tc := ⟨.hbm, 3996, rfl⟩
abbrev main_v1966 : Ref sig .tc := ⟨.hbm, 3997, rfl⟩
abbrev main_v1967 : Ref sig .tc := ⟨.hbm, 3998, rfl⟩
abbrev main_c_1679 : Ref sig .tc := ⟨.hbm, 3999, rfl⟩
abbrev main_v1968 : Ref sig .tc := ⟨.hbm, 4000, rfl⟩
abbrev main_c_1680 : Ref sig .tc := ⟨.hbm, 4001, rfl⟩
abbrev main_v1969 : Ref sig .tc := ⟨.hbm, 4002, rfl⟩
abbrev main_v1970 : Ref sig .tc := ⟨.hbm, 4003, rfl⟩
abbrev main_v1971 : Ref sig .tc := ⟨.hbm, 4004, rfl⟩
abbrev main_v1972 : Ref sig .tc := ⟨.hbm, 4005, rfl⟩
abbrev main_v1973 : Ref sig .tc := ⟨.hbm, 4006, rfl⟩
abbrev main_c_1681 : Ref sig .tc := ⟨.hbm, 4007, rfl⟩
abbrev main_v1974 : Ref sig .tc := ⟨.hbm, 4008, rfl⟩
abbrev main_c_1682 : Ref sig .tc := ⟨.hbm, 4009, rfl⟩
abbrev main_c_1683 : Ref sig .tc := ⟨.hbm, 4010, rfl⟩
abbrev main_call116_v0 : Ref sig .tc := ⟨.hbm, 4011, rfl⟩
abbrev main_call116_v1 : Ref sig .tc := ⟨.hbm, 4012, rfl⟩
abbrev main_call116_v2 : Ref sig .tc := ⟨.hbm, 4013, rfl⟩
abbrev main_v1975 : Ref sig .tc := ⟨.hbm, 4014, rfl⟩
abbrev main_v1976 : Ref sig .tc := ⟨.hbm, 4015, rfl⟩
abbrev main_v1977 : Ref sig .tc := ⟨.hbm, 4016, rfl⟩
abbrev main_c_1684 : Ref sig .tc := ⟨.hbm, 4017, rfl⟩
abbrev main_v1978 : Ref sig .tc := ⟨.hbm, 4018, rfl⟩
abbrev main_c_1685 : Ref sig .tc := ⟨.hbm, 4019, rfl⟩
abbrev main_c_1686 : Ref sig .tc := ⟨.hbm, 4020, rfl⟩
abbrev main_call117_v0 : Ref sig .tc := ⟨.hbm, 4021, rfl⟩
abbrev main_call117_v1 : Ref sig .tc := ⟨.hbm, 4022, rfl⟩
abbrev main_call117_v2 : Ref sig .tc := ⟨.hbm, 4023, rfl⟩
abbrev main_v1979 : Ref sig .tc := ⟨.hbm, 4024, rfl⟩
abbrev main_v1980 : Ref sig .tc := ⟨.hbm, 4025, rfl⟩
abbrev main_v1981 : Ref sig .tc := ⟨.hbm, 4026, rfl⟩
abbrev main_c_1687 : Ref sig .tc := ⟨.hbm, 4027, rfl⟩
abbrev main_c_1688 : Ref sig .tc := ⟨.hbm, 4028, rfl⟩
abbrev main_v1982 : Ref sig .tc := ⟨.hbm, 4029, rfl⟩
abbrev main_c_1689 : Ref sig .tc := ⟨.hbm, 4030, rfl⟩
abbrev main_c_1690 : Ref sig .tc := ⟨.hbm, 4031, rfl⟩
abbrev main_v1983 : Ref sig .tc := ⟨.hbm, 4032, rfl⟩
abbrev main_c_1691 : Ref sig .tc := ⟨.hbm, 4033, rfl⟩
abbrev main_v1984 : Ref sig .tc := ⟨.hbm, 4034, rfl⟩
abbrev main_c_1692 : Ref sig .tc := ⟨.hbm, 4035, rfl⟩
abbrev main_v1985 : Ref sig .tc := ⟨.hbm, 4036, rfl⟩
abbrev main_c_1693 : Ref sig .tc := ⟨.hbm, 4037, rfl⟩
abbrev main_v1986 : Ref sig .tc := ⟨.hbm, 4038, rfl⟩
abbrev main_v1987 : Ref sig .tc := ⟨.hbm, 4039, rfl⟩
abbrev main_c_1694 : Ref sig .tc := ⟨.hbm, 4040, rfl⟩
abbrev main_v1988 : Ref sig .tc := ⟨.hbm, 4041, rfl⟩
abbrev main_c_1695 : Ref sig .tc := ⟨.hbm, 4042, rfl⟩
abbrev main_v1989 : Ref sig .tc := ⟨.hbm, 4043, rfl⟩
abbrev main_v1990 : Ref sig .tc := ⟨.hbm, 4044, rfl⟩
abbrev main_v1991 : Ref sig .tc := ⟨.hbm, 4045, rfl⟩
abbrev main_v1992 : Ref sig .tc := ⟨.hbm, 4046, rfl⟩
abbrev main_c_1696 : Ref sig .tc := ⟨.hbm, 4047, rfl⟩
abbrev main_c_1697 : Ref sig .tc := ⟨.hbm, 4048, rfl⟩
abbrev main_v1993 : Ref sig .tc := ⟨.hbm, 4049, rfl⟩
abbrev main_c_1698 : Ref sig .tc := ⟨.hbm, 4050, rfl⟩
abbrev main_c_1699 : Ref sig .tc := ⟨.hbm, 4051, rfl⟩
abbrev main_v1994 : Ref sig .tc := ⟨.hbm, 4052, rfl⟩
abbrev main_c_1700 : Ref sig .tc := ⟨.hbm, 4053, rfl⟩
abbrev main_v1995 : Ref sig .tc := ⟨.hbm, 4054, rfl⟩
abbrev main_c_1701 : Ref sig .tc := ⟨.hbm, 4055, rfl⟩
abbrev main_c_1702 : Ref sig .tc := ⟨.hbm, 4056, rfl⟩
abbrev main_v1996 : Ref sig .tc := ⟨.hbm, 4057, rfl⟩
abbrev main_c_1703 : Ref sig .tc := ⟨.hbm, 4058, rfl⟩
abbrev main_c_1704 : Ref sig .tc := ⟨.hbm, 4059, rfl⟩
abbrev main_v1997 : Ref sig .tc := ⟨.hbm, 4060, rfl⟩
abbrev main_c_1705 : Ref sig .tc := ⟨.hbm, 4061, rfl⟩
abbrev main_v1998 : Ref sig .tc := ⟨.hbm, 4062, rfl⟩
abbrev main_c_1706 : Ref sig .tc := ⟨.hbm, 4063, rfl⟩
abbrev main_v1999 : Ref sig .tc := ⟨.hbm, 4064, rfl⟩
abbrev main_c_1707 : Ref sig .tc := ⟨.hbm, 4065, rfl⟩
abbrev main_v2000 : Ref sig .tc := ⟨.hbm, 4066, rfl⟩
abbrev main_v2001 : Ref sig .tc := ⟨.hbm, 4067, rfl⟩
abbrev main_c_1708 : Ref sig .tc := ⟨.hbm, 4068, rfl⟩
abbrev main_v2002 : Ref sig .tc := ⟨.hbm, 4069, rfl⟩
abbrev main_c_1709 : Ref sig .tc := ⟨.hbm, 4070, rfl⟩
abbrev main_v2003 : Ref sig .tc := ⟨.hbm, 4071, rfl⟩
abbrev main_v2004 : Ref sig .tc := ⟨.hbm, 4072, rfl⟩
abbrev main_v2005 : Ref sig .tc := ⟨.hbm, 4073, rfl⟩
abbrev main_v2006 : Ref sig .tc := ⟨.hbm, 4074, rfl⟩
abbrev main_v2007 : Ref sig .tc := ⟨.hbm, 4075, rfl⟩
abbrev main_c_1710 : Ref sig .tc := ⟨.hbm, 4076, rfl⟩
abbrev main_v2008 : Ref sig .tc := ⟨.hbm, 4077, rfl⟩
abbrev main_c_1711 : Ref sig .tc := ⟨.hbm, 4078, rfl⟩
abbrev main_c_1712 : Ref sig .tc := ⟨.hbm, 4079, rfl⟩
abbrev main_call118_v0 : Ref sig .tc := ⟨.hbm, 4080, rfl⟩
abbrev main_call118_v1 : Ref sig .tc := ⟨.hbm, 4081, rfl⟩
abbrev main_call118_v2 : Ref sig .tc := ⟨.hbm, 4082, rfl⟩
abbrev main_v2009 : Ref sig .tc := ⟨.hbm, 4083, rfl⟩
abbrev main_v2010 : Ref sig .tc := ⟨.hbm, 4084, rfl⟩
abbrev main_v2011 : Ref sig .tc := ⟨.hbm, 4085, rfl⟩
abbrev main_c_1713 : Ref sig .tc := ⟨.hbm, 4086, rfl⟩
abbrev main_v2012 : Ref sig .tc := ⟨.hbm, 4087, rfl⟩
abbrev main_c_1714 : Ref sig .tc := ⟨.hbm, 4088, rfl⟩
abbrev main_c_1715 : Ref sig .tc := ⟨.hbm, 4089, rfl⟩
abbrev main_call119_v0 : Ref sig .tc := ⟨.hbm, 4090, rfl⟩
abbrev main_call119_v1 : Ref sig .tc := ⟨.hbm, 4091, rfl⟩
abbrev main_call119_v2 : Ref sig .tc := ⟨.hbm, 4092, rfl⟩
abbrev main_v2013 : Ref sig .tc := ⟨.hbm, 4093, rfl⟩
abbrev main_v2014 : Ref sig .tc := ⟨.hbm, 4094, rfl⟩
abbrev main_v2015 : Ref sig .tc := ⟨.hbm, 4095, rfl⟩
abbrev main_c_1716 : Ref sig .tc := ⟨.hbm, 4096, rfl⟩
abbrev main_c_1717 : Ref sig .tc := ⟨.hbm, 4097, rfl⟩
abbrev main_v2016 : Ref sig .tc := ⟨.hbm, 4098, rfl⟩
abbrev main_c_1718 : Ref sig .tc := ⟨.hbm, 4099, rfl⟩
abbrev main_c_1719 : Ref sig .tc := ⟨.hbm, 4100, rfl⟩
abbrev main_v2017 : Ref sig .tc := ⟨.hbm, 4101, rfl⟩
abbrev main_c_1720 : Ref sig .tc := ⟨.hbm, 4102, rfl⟩
abbrev main_v2018 : Ref sig .tc := ⟨.hbm, 4103, rfl⟩
abbrev main_c_1721 : Ref sig .tc := ⟨.hbm, 4104, rfl⟩
abbrev main_v2019 : Ref sig .tc := ⟨.hbm, 4105, rfl⟩
abbrev main_c_1722 : Ref sig .tc := ⟨.hbm, 4106, rfl⟩
abbrev main_v2020 : Ref sig .tc := ⟨.hbm, 4107, rfl⟩
abbrev main_v2021 : Ref sig .tc := ⟨.hbm, 4108, rfl⟩
abbrev main_c_1723 : Ref sig .tc := ⟨.hbm, 4109, rfl⟩
abbrev main_v2022 : Ref sig .tc := ⟨.hbm, 4110, rfl⟩
abbrev main_c_1724 : Ref sig .tc := ⟨.hbm, 4111, rfl⟩
abbrev main_v2023 : Ref sig .tc := ⟨.hbm, 4112, rfl⟩
abbrev main_v2024 : Ref sig .tc := ⟨.hbm, 4113, rfl⟩
abbrev main_v2025 : Ref sig .tc := ⟨.hbm, 4114, rfl⟩
abbrev main_v2026 : Ref sig .tc := ⟨.hbm, 4115, rfl⟩
abbrev main_c_1725 : Ref sig .tc := ⟨.hbm, 4116, rfl⟩
abbrev main_c_1726 : Ref sig .tc := ⟨.hbm, 4117, rfl⟩
abbrev main_v2027 : Ref sig .tc := ⟨.hbm, 4118, rfl⟩
abbrev main_c_1727 : Ref sig .tc := ⟨.hbm, 4119, rfl⟩
abbrev main_c_1728 : Ref sig .tc := ⟨.hbm, 4120, rfl⟩
abbrev main_v2028 : Ref sig .tc := ⟨.hbm, 4121, rfl⟩
abbrev main_c_1729 : Ref sig .tc := ⟨.hbm, 4122, rfl⟩
abbrev main_v2029 : Ref sig .tc := ⟨.hbm, 4123, rfl⟩
abbrev main_c_1730 : Ref sig .tc := ⟨.hbm, 4124, rfl⟩
abbrev main_c_1731 : Ref sig .tc := ⟨.hbm, 4125, rfl⟩
abbrev main_v2030 : Ref sig .tc := ⟨.hbm, 4126, rfl⟩
abbrev main_c_1732 : Ref sig .tc := ⟨.hbm, 4127, rfl⟩
abbrev main_c_1733 : Ref sig .tc := ⟨.hbm, 4128, rfl⟩
abbrev main_v2031 : Ref sig .tc := ⟨.hbm, 4129, rfl⟩
abbrev main_c_1734 : Ref sig .tc := ⟨.hbm, 4130, rfl⟩
abbrev main_v2032 : Ref sig .tc := ⟨.hbm, 4131, rfl⟩
abbrev main_c_1735 : Ref sig .tc := ⟨.hbm, 4132, rfl⟩
abbrev main_v2033 : Ref sig .tc := ⟨.hbm, 4133, rfl⟩
abbrev main_c_1736 : Ref sig .tc := ⟨.hbm, 4134, rfl⟩
abbrev main_v2034 : Ref sig .tc := ⟨.hbm, 4135, rfl⟩
abbrev main_v2035 : Ref sig .tc := ⟨.hbm, 4136, rfl⟩
abbrev main_c_1737 : Ref sig .tc := ⟨.hbm, 4137, rfl⟩
abbrev main_v2036 : Ref sig .tc := ⟨.hbm, 4138, rfl⟩
abbrev main_c_1738 : Ref sig .tc := ⟨.hbm, 4139, rfl⟩
abbrev main_v2037 : Ref sig .tc := ⟨.hbm, 4140, rfl⟩
abbrev main_v2038 : Ref sig .tc := ⟨.hbm, 4141, rfl⟩
abbrev main_v2039 : Ref sig .tc := ⟨.hbm, 4142, rfl⟩
abbrev main_v2040 : Ref sig .tc := ⟨.hbm, 4143, rfl⟩
abbrev main_v2041 : Ref sig .tc := ⟨.hbm, 4144, rfl⟩
abbrev main_c_1739 : Ref sig .tc := ⟨.hbm, 4145, rfl⟩
abbrev main_v2042 : Ref sig .tc := ⟨.hbm, 4146, rfl⟩
abbrev main_c_1740 : Ref sig .tc := ⟨.hbm, 4147, rfl⟩
abbrev main_c_1741 : Ref sig .tc := ⟨.hbm, 4148, rfl⟩
abbrev main_call120_v0 : Ref sig .tc := ⟨.hbm, 4149, rfl⟩
abbrev main_call120_v1 : Ref sig .tc := ⟨.hbm, 4150, rfl⟩
abbrev main_call120_v2 : Ref sig .tc := ⟨.hbm, 4151, rfl⟩
abbrev main_v2043 : Ref sig .tc := ⟨.hbm, 4152, rfl⟩
abbrev main_v2044 : Ref sig .tc := ⟨.hbm, 4153, rfl⟩
abbrev main_v2045 : Ref sig .tc := ⟨.hbm, 4154, rfl⟩
abbrev main_c_1742 : Ref sig .tc := ⟨.hbm, 4155, rfl⟩
abbrev main_v2046 : Ref sig .tc := ⟨.hbm, 4156, rfl⟩
abbrev main_c_1743 : Ref sig .tc := ⟨.hbm, 4157, rfl⟩
abbrev main_c_1744 : Ref sig .tc := ⟨.hbm, 4158, rfl⟩
abbrev main_call121_v0 : Ref sig .tc := ⟨.hbm, 4159, rfl⟩
abbrev main_call121_v1 : Ref sig .tc := ⟨.hbm, 4160, rfl⟩
abbrev main_call121_v2 : Ref sig .tc := ⟨.hbm, 4161, rfl⟩
abbrev main_v2047 : Ref sig .tc := ⟨.hbm, 4162, rfl⟩
abbrev main_v2048 : Ref sig .tc := ⟨.hbm, 4163, rfl⟩
abbrev main_v2049 : Ref sig .tc := ⟨.hbm, 4164, rfl⟩
abbrev main_c_1745 : Ref sig .tc := ⟨.hbm, 4165, rfl⟩
abbrev main_c_1746 : Ref sig .tc := ⟨.hbm, 4166, rfl⟩
abbrev main_v2050 : Ref sig .tc := ⟨.hbm, 4167, rfl⟩
abbrev main_c_1747 : Ref sig .tc := ⟨.hbm, 4168, rfl⟩
abbrev main_c_1748 : Ref sig .tc := ⟨.hbm, 4169, rfl⟩
abbrev main_v2051 : Ref sig .tc := ⟨.hbm, 4170, rfl⟩
abbrev main_c_1749 : Ref sig .tc := ⟨.hbm, 4171, rfl⟩
abbrev main_v2052 : Ref sig .tc := ⟨.hbm, 4172, rfl⟩
abbrev main_c_1750 : Ref sig .tc := ⟨.hbm, 4173, rfl⟩
abbrev main_v2053 : Ref sig .tc := ⟨.hbm, 4174, rfl⟩
abbrev main_c_1751 : Ref sig .tc := ⟨.hbm, 4175, rfl⟩
abbrev main_v2054 : Ref sig .tc := ⟨.hbm, 4176, rfl⟩
abbrev main_v2055 : Ref sig .tc := ⟨.hbm, 4177, rfl⟩
abbrev main_c_1752 : Ref sig .tc := ⟨.hbm, 4178, rfl⟩
abbrev main_v2056 : Ref sig .tc := ⟨.hbm, 4179, rfl⟩
abbrev main_c_1753 : Ref sig .tc := ⟨.hbm, 4180, rfl⟩
abbrev main_v2057 : Ref sig .tc := ⟨.hbm, 4181, rfl⟩
abbrev main_v2058 : Ref sig .tc := ⟨.hbm, 4182, rfl⟩
abbrev main_v2059 : Ref sig .tc := ⟨.hbm, 4183, rfl⟩
abbrev main_v2060 : Ref sig .tc := ⟨.hbm, 4184, rfl⟩
abbrev main_c_1754 : Ref sig .tc := ⟨.hbm, 4185, rfl⟩
abbrev main_c_1755 : Ref sig .tc := ⟨.hbm, 4186, rfl⟩
abbrev main_v2061 : Ref sig .tc := ⟨.hbm, 4187, rfl⟩
abbrev main_c_1756 : Ref sig .tc := ⟨.hbm, 4188, rfl⟩
abbrev main_c_1757 : Ref sig .tc := ⟨.hbm, 4189, rfl⟩
abbrev main_v2062 : Ref sig .tc := ⟨.hbm, 4190, rfl⟩
abbrev main_c_1758 : Ref sig .tc := ⟨.hbm, 4191, rfl⟩
abbrev main_v2063 : Ref sig .tc := ⟨.hbm, 4192, rfl⟩
abbrev main_c_1759 : Ref sig .tc := ⟨.hbm, 4193, rfl⟩
abbrev main_c_1760 : Ref sig .tc := ⟨.hbm, 4194, rfl⟩
abbrev main_v2064 : Ref sig .tc := ⟨.hbm, 4195, rfl⟩
abbrev main_c_1761 : Ref sig .tc := ⟨.hbm, 4196, rfl⟩
abbrev main_c_1762 : Ref sig .tc := ⟨.hbm, 4197, rfl⟩
abbrev main_v2065 : Ref sig .tc := ⟨.hbm, 4198, rfl⟩
abbrev main_c_1763 : Ref sig .tc := ⟨.hbm, 4199, rfl⟩
abbrev main_v2066 : Ref sig .tc := ⟨.hbm, 4200, rfl⟩
abbrev main_c_1764 : Ref sig .tc := ⟨.hbm, 4201, rfl⟩
abbrev main_v2067 : Ref sig .tc := ⟨.hbm, 4202, rfl⟩
abbrev main_c_1765 : Ref sig .tc := ⟨.hbm, 4203, rfl⟩
abbrev main_v2068 : Ref sig .tc := ⟨.hbm, 4204, rfl⟩
abbrev main_v2069 : Ref sig .tc := ⟨.hbm, 4205, rfl⟩
abbrev main_c_1766 : Ref sig .tc := ⟨.hbm, 4206, rfl⟩
abbrev main_v2070 : Ref sig .tc := ⟨.hbm, 4207, rfl⟩
abbrev main_c_1767 : Ref sig .tc := ⟨.hbm, 4208, rfl⟩
abbrev main_v2071 : Ref sig .tc := ⟨.hbm, 4209, rfl⟩
abbrev main_v2072 : Ref sig .tc := ⟨.hbm, 4210, rfl⟩
abbrev main_v2073 : Ref sig .tc := ⟨.hbm, 4211, rfl⟩
abbrev main_v2074 : Ref sig .tc := ⟨.hbm, 4212, rfl⟩
abbrev main_v2075 : Ref sig .tc := ⟨.hbm, 4213, rfl⟩
abbrev main_c_1768 : Ref sig .tc := ⟨.hbm, 4214, rfl⟩
abbrev main_v2076 : Ref sig .tc := ⟨.hbm, 4215, rfl⟩
abbrev main_c_1769 : Ref sig .tc := ⟨.hbm, 4216, rfl⟩
abbrev main_c_1770 : Ref sig .tc := ⟨.hbm, 4217, rfl⟩
abbrev main_call122_v0 : Ref sig .tc := ⟨.hbm, 4218, rfl⟩
abbrev main_call122_v1 : Ref sig .tc := ⟨.hbm, 4219, rfl⟩
abbrev main_call122_v2 : Ref sig .tc := ⟨.hbm, 4220, rfl⟩
abbrev main_v2077 : Ref sig .tc := ⟨.hbm, 4221, rfl⟩
abbrev main_v2078 : Ref sig .tc := ⟨.hbm, 4222, rfl⟩
abbrev main_v2079 : Ref sig .tc := ⟨.hbm, 4223, rfl⟩
abbrev main_c_1771 : Ref sig .tc := ⟨.hbm, 4224, rfl⟩
abbrev main_v2080 : Ref sig .tc := ⟨.hbm, 4225, rfl⟩
abbrev main_c_1772 : Ref sig .tc := ⟨.hbm, 4226, rfl⟩
abbrev main_c_1773 : Ref sig .tc := ⟨.hbm, 4227, rfl⟩
abbrev main_call123_v0 : Ref sig .tc := ⟨.hbm, 4228, rfl⟩
abbrev main_call123_v1 : Ref sig .tc := ⟨.hbm, 4229, rfl⟩
abbrev main_call123_v2 : Ref sig .tc := ⟨.hbm, 4230, rfl⟩
abbrev main_v2081 : Ref sig .tc := ⟨.hbm, 4231, rfl⟩
abbrev main_v2082 : Ref sig .tc := ⟨.hbm, 4232, rfl⟩
abbrev main_v2083 : Ref sig .tc := ⟨.hbm, 4233, rfl⟩
abbrev main_c_1774 : Ref sig .tc := ⟨.hbm, 4234, rfl⟩
abbrev main_c_1775 : Ref sig .tc := ⟨.hbm, 4235, rfl⟩
abbrev main_v2084 : Ref sig .tc := ⟨.hbm, 4236, rfl⟩
abbrev main_c_1776 : Ref sig .tc := ⟨.hbm, 4237, rfl⟩
abbrev main_c_1777 : Ref sig .tc := ⟨.hbm, 4238, rfl⟩
abbrev main_v2085 : Ref sig .tc := ⟨.hbm, 4239, rfl⟩
abbrev main_c_1778 : Ref sig .tc := ⟨.hbm, 4240, rfl⟩
abbrev main_v2086 : Ref sig .tc := ⟨.hbm, 4241, rfl⟩
abbrev main_c_1779 : Ref sig .tc := ⟨.hbm, 4242, rfl⟩
abbrev main_v2087 : Ref sig .tc := ⟨.hbm, 4243, rfl⟩
abbrev main_c_1780 : Ref sig .tc := ⟨.hbm, 4244, rfl⟩
abbrev main_v2088 : Ref sig .tc := ⟨.hbm, 4245, rfl⟩
abbrev main_v2089 : Ref sig .tc := ⟨.hbm, 4246, rfl⟩
abbrev main_c_1781 : Ref sig .tc := ⟨.hbm, 4247, rfl⟩
abbrev main_v2090 : Ref sig .tc := ⟨.hbm, 4248, rfl⟩
abbrev main_c_1782 : Ref sig .tc := ⟨.hbm, 4249, rfl⟩
abbrev main_v2091 : Ref sig .tc := ⟨.hbm, 4250, rfl⟩
abbrev main_v2092 : Ref sig .tc := ⟨.hbm, 4251, rfl⟩
abbrev main_v2093 : Ref sig .tc := ⟨.hbm, 4252, rfl⟩
abbrev main_v2094 : Ref sig .tc := ⟨.hbm, 4253, rfl⟩
abbrev main_c_1783 : Ref sig .tc := ⟨.hbm, 4254, rfl⟩
abbrev main_c_1784 : Ref sig .tc := ⟨.hbm, 4255, rfl⟩
abbrev main_v2095 : Ref sig .tc := ⟨.hbm, 4256, rfl⟩
abbrev main_c_1785 : Ref sig .tc := ⟨.hbm, 4257, rfl⟩
abbrev main_c_1786 : Ref sig .tc := ⟨.hbm, 4258, rfl⟩
abbrev main_v2096 : Ref sig .tc := ⟨.hbm, 4259, rfl⟩
abbrev main_c_1787 : Ref sig .tc := ⟨.hbm, 4260, rfl⟩
abbrev main_v2097 : Ref sig .tc := ⟨.hbm, 4261, rfl⟩
abbrev main_c_1788 : Ref sig .tc := ⟨.hbm, 4262, rfl⟩
abbrev main_c_1789 : Ref sig .tc := ⟨.hbm, 4263, rfl⟩
abbrev main_v2098 : Ref sig .tc := ⟨.hbm, 4264, rfl⟩
abbrev main_c_1790 : Ref sig .tc := ⟨.hbm, 4265, rfl⟩
abbrev main_c_1791 : Ref sig .tc := ⟨.hbm, 4266, rfl⟩
abbrev main_v2099 : Ref sig .tc := ⟨.hbm, 4267, rfl⟩
abbrev main_c_1792 : Ref sig .tc := ⟨.hbm, 4268, rfl⟩
abbrev main_v2100 : Ref sig .tc := ⟨.hbm, 4269, rfl⟩
abbrev main_c_1793 : Ref sig .tc := ⟨.hbm, 4270, rfl⟩
abbrev main_v2101 : Ref sig .tc := ⟨.hbm, 4271, rfl⟩
abbrev main_c_1794 : Ref sig .tc := ⟨.hbm, 4272, rfl⟩
abbrev main_v2102 : Ref sig .tc := ⟨.hbm, 4273, rfl⟩
abbrev main_v2103 : Ref sig .tc := ⟨.hbm, 4274, rfl⟩
abbrev main_c_1795 : Ref sig .tc := ⟨.hbm, 4275, rfl⟩
abbrev main_v2104 : Ref sig .tc := ⟨.hbm, 4276, rfl⟩
abbrev main_c_1796 : Ref sig .tc := ⟨.hbm, 4277, rfl⟩
abbrev main_v2105 : Ref sig .tc := ⟨.hbm, 4278, rfl⟩
abbrev main_v2106 : Ref sig .tc := ⟨.hbm, 4279, rfl⟩
abbrev main_v2107 : Ref sig .tc := ⟨.hbm, 4280, rfl⟩
abbrev main_v2108 : Ref sig .tc := ⟨.hbm, 4281, rfl⟩
abbrev main_v2109 : Ref sig .tc := ⟨.hbm, 4282, rfl⟩
abbrev main_c_1797 : Ref sig .tc := ⟨.hbm, 4283, rfl⟩
abbrev main_v2110 : Ref sig .tc := ⟨.hbm, 4284, rfl⟩
abbrev main_c_1798 : Ref sig .tc := ⟨.hbm, 4285, rfl⟩
abbrev main_c_1799 : Ref sig .tc := ⟨.hbm, 4286, rfl⟩
abbrev main_call124_v0 : Ref sig .tc := ⟨.hbm, 4287, rfl⟩
abbrev main_call124_v1 : Ref sig .tc := ⟨.hbm, 4288, rfl⟩
abbrev main_call124_v2 : Ref sig .tc := ⟨.hbm, 4289, rfl⟩
abbrev main_v2111 : Ref sig .tc := ⟨.hbm, 4290, rfl⟩
abbrev main_v2112 : Ref sig .tc := ⟨.hbm, 4291, rfl⟩
abbrev main_v2113 : Ref sig .tc := ⟨.hbm, 4292, rfl⟩
abbrev main_c_1800 : Ref sig .tc := ⟨.hbm, 4293, rfl⟩
abbrev main_v2114 : Ref sig .tc := ⟨.hbm, 4294, rfl⟩
abbrev main_c_1801 : Ref sig .tc := ⟨.hbm, 4295, rfl⟩
abbrev main_c_1802 : Ref sig .tc := ⟨.hbm, 4296, rfl⟩
abbrev main_call125_v0 : Ref sig .tc := ⟨.hbm, 4297, rfl⟩
abbrev main_call125_v1 : Ref sig .tc := ⟨.hbm, 4298, rfl⟩
abbrev main_call125_v2 : Ref sig .tc := ⟨.hbm, 4299, rfl⟩
abbrev main_v2115 : Ref sig .tc := ⟨.hbm, 4300, rfl⟩
abbrev main_v2116 : Ref sig .tc := ⟨.hbm, 4301, rfl⟩
abbrev main_v2117 : Ref sig .tc := ⟨.hbm, 4302, rfl⟩
abbrev main_c_1803 : Ref sig .tc := ⟨.hbm, 4303, rfl⟩
abbrev main_c_1804 : Ref sig .tc := ⟨.hbm, 4304, rfl⟩
abbrev main_v2118 : Ref sig .tc := ⟨.hbm, 4305, rfl⟩
abbrev main_c_1805 : Ref sig .tc := ⟨.hbm, 4306, rfl⟩
abbrev main_c_1806 : Ref sig .tc := ⟨.hbm, 4307, rfl⟩
abbrev main_v2119 : Ref sig .tc := ⟨.hbm, 4308, rfl⟩
abbrev main_c_1807 : Ref sig .tc := ⟨.hbm, 4309, rfl⟩
abbrev main_v2120 : Ref sig .tc := ⟨.hbm, 4310, rfl⟩
abbrev main_c_1808 : Ref sig .tc := ⟨.hbm, 4311, rfl⟩
abbrev main_v2121 : Ref sig .tc := ⟨.hbm, 4312, rfl⟩
abbrev main_c_1809 : Ref sig .tc := ⟨.hbm, 4313, rfl⟩
abbrev main_v2122 : Ref sig .tc := ⟨.hbm, 4314, rfl⟩
abbrev main_v2123 : Ref sig .tc := ⟨.hbm, 4315, rfl⟩
abbrev main_c_1810 : Ref sig .tc := ⟨.hbm, 4316, rfl⟩
abbrev main_v2124 : Ref sig .tc := ⟨.hbm, 4317, rfl⟩
abbrev main_c_1811 : Ref sig .tc := ⟨.hbm, 4318, rfl⟩
abbrev main_v2125 : Ref sig .tc := ⟨.hbm, 4319, rfl⟩
abbrev main_v2126 : Ref sig .tc := ⟨.hbm, 4320, rfl⟩
abbrev main_v2127 : Ref sig .tc := ⟨.hbm, 4321, rfl⟩
abbrev main_v2128 : Ref sig .tc := ⟨.hbm, 4322, rfl⟩
abbrev main_c_1812 : Ref sig .tc := ⟨.hbm, 4323, rfl⟩
abbrev main_c_1813 : Ref sig .tc := ⟨.hbm, 4324, rfl⟩
abbrev main_v2129 : Ref sig .tc := ⟨.hbm, 4325, rfl⟩
abbrev main_c_1814 : Ref sig .tc := ⟨.hbm, 4326, rfl⟩
abbrev main_c_1815 : Ref sig .tc := ⟨.hbm, 4327, rfl⟩
abbrev main_v2130 : Ref sig .tc := ⟨.hbm, 4328, rfl⟩
abbrev main_c_1816 : Ref sig .tc := ⟨.hbm, 4329, rfl⟩
abbrev main_v2131 : Ref sig .tc := ⟨.hbm, 4330, rfl⟩
abbrev main_c_1817 : Ref sig .tc := ⟨.hbm, 4331, rfl⟩
abbrev main_c_1818 : Ref sig .tc := ⟨.hbm, 4332, rfl⟩
abbrev main_v2132 : Ref sig .tc := ⟨.hbm, 4333, rfl⟩
abbrev main_c_1819 : Ref sig .tc := ⟨.hbm, 4334, rfl⟩
abbrev main_c_1820 : Ref sig .tc := ⟨.hbm, 4335, rfl⟩
abbrev main_v2133 : Ref sig .tc := ⟨.hbm, 4336, rfl⟩
abbrev main_c_1821 : Ref sig .tc := ⟨.hbm, 4337, rfl⟩
abbrev main_v2134 : Ref sig .tc := ⟨.hbm, 4338, rfl⟩
abbrev main_c_1822 : Ref sig .tc := ⟨.hbm, 4339, rfl⟩
abbrev main_v2135 : Ref sig .tc := ⟨.hbm, 4340, rfl⟩
abbrev main_c_1823 : Ref sig .tc := ⟨.hbm, 4341, rfl⟩
abbrev main_v2136 : Ref sig .tc := ⟨.hbm, 4342, rfl⟩
abbrev main_v2137 : Ref sig .tc := ⟨.hbm, 4343, rfl⟩
abbrev main_c_1824 : Ref sig .tc := ⟨.hbm, 4344, rfl⟩
abbrev main_v2138 : Ref sig .tc := ⟨.hbm, 4345, rfl⟩
abbrev main_c_1825 : Ref sig .tc := ⟨.hbm, 4346, rfl⟩
abbrev main_v2139 : Ref sig .tc := ⟨.hbm, 4347, rfl⟩
abbrev main_v2140 : Ref sig .tc := ⟨.hbm, 4348, rfl⟩
abbrev main_v2141 : Ref sig .tc := ⟨.hbm, 4349, rfl⟩
abbrev main_v2142 : Ref sig .tc := ⟨.hbm, 4350, rfl⟩
abbrev main_v2143 : Ref sig .tc := ⟨.hbm, 4351, rfl⟩
abbrev main_c_1826 : Ref sig .tc := ⟨.hbm, 4352, rfl⟩
abbrev main_v2144 : Ref sig .tc := ⟨.hbm, 4353, rfl⟩
abbrev main_c_1827 : Ref sig .tc := ⟨.hbm, 4354, rfl⟩
abbrev main_c_1828 : Ref sig .tc := ⟨.hbm, 4355, rfl⟩
abbrev main_call126_v0 : Ref sig .tc := ⟨.hbm, 4356, rfl⟩
abbrev main_call126_v1 : Ref sig .tc := ⟨.hbm, 4357, rfl⟩
abbrev main_call126_v2 : Ref sig .tc := ⟨.hbm, 4358, rfl⟩
abbrev main_v2145 : Ref sig .tc := ⟨.hbm, 4359, rfl⟩
abbrev main_v2146 : Ref sig .tc := ⟨.hbm, 4360, rfl⟩
abbrev main_v2147 : Ref sig .tc := ⟨.hbm, 4361, rfl⟩
abbrev main_c_1829 : Ref sig .tc := ⟨.hbm, 4362, rfl⟩
abbrev main_v2148 : Ref sig .tc := ⟨.hbm, 4363, rfl⟩
abbrev main_c_1830 : Ref sig .tc := ⟨.hbm, 4364, rfl⟩
abbrev main_c_1831 : Ref sig .tc := ⟨.hbm, 4365, rfl⟩
abbrev main_call127_v0 : Ref sig .tc := ⟨.hbm, 4366, rfl⟩
abbrev main_call127_v1 : Ref sig .tc := ⟨.hbm, 4367, rfl⟩
abbrev main_call127_v2 : Ref sig .tc := ⟨.hbm, 4368, rfl⟩
abbrev main_v2149 : Ref sig .tc := ⟨.hbm, 4369, rfl⟩
abbrev main_v2150 : Ref sig .tc := ⟨.hbm, 4370, rfl⟩
abbrev main_v2151 : Ref sig .tc := ⟨.hbm, 4371, rfl⟩
abbrev main_c_1832 : Ref sig .tc := ⟨.hbm, 4372, rfl⟩
abbrev main_c_1833 : Ref sig .tc := ⟨.hbm, 4373, rfl⟩
abbrev main_v2152 : Ref sig .tc := ⟨.hbm, 4374, rfl⟩
abbrev main_c_1834 : Ref sig .tc := ⟨.hbm, 4375, rfl⟩
abbrev main_c_1835 : Ref sig .tc := ⟨.hbm, 4376, rfl⟩
abbrev main_v2153 : Ref sig .tc := ⟨.hbm, 4377, rfl⟩
abbrev main_c_1836 : Ref sig .tc := ⟨.hbm, 4378, rfl⟩
abbrev main_v2154 : Ref sig .tc := ⟨.hbm, 4379, rfl⟩
abbrev main_c_1837 : Ref sig .tc := ⟨.hbm, 4380, rfl⟩
abbrev main_v2155 : Ref sig .tc := ⟨.hbm, 4381, rfl⟩
abbrev main_c_1838 : Ref sig .tc := ⟨.hbm, 4382, rfl⟩
abbrev main_v2156 : Ref sig .tc := ⟨.hbm, 4383, rfl⟩
abbrev main_v2157 : Ref sig .tc := ⟨.hbm, 4384, rfl⟩
abbrev main_c_1839 : Ref sig .tc := ⟨.hbm, 4385, rfl⟩
abbrev main_v2158 : Ref sig .tc := ⟨.hbm, 4386, rfl⟩
abbrev main_c_1840 : Ref sig .tc := ⟨.hbm, 4387, rfl⟩
abbrev main_v2159 : Ref sig .tc := ⟨.hbm, 4388, rfl⟩
abbrev main_v2160 : Ref sig .tc := ⟨.hbm, 4389, rfl⟩
abbrev main_v2161 : Ref sig .tc := ⟨.hbm, 4390, rfl⟩
abbrev main_v2162 : Ref sig .tc := ⟨.hbm, 4391, rfl⟩
abbrev main_c_1841 : Ref sig .tc := ⟨.hbm, 4392, rfl⟩
abbrev main_c_1842 : Ref sig .tc := ⟨.hbm, 4393, rfl⟩
abbrev main_v2163 : Ref sig .tc := ⟨.hbm, 4394, rfl⟩
abbrev main_c_1843 : Ref sig .tc := ⟨.hbm, 4395, rfl⟩
abbrev main_c_1844 : Ref sig .tc := ⟨.hbm, 4396, rfl⟩
abbrev main_v2164 : Ref sig .tc := ⟨.hbm, 4397, rfl⟩
abbrev main_c_1845 : Ref sig .tc := ⟨.hbm, 4398, rfl⟩
abbrev main_v2165 : Ref sig .tc := ⟨.hbm, 4399, rfl⟩
abbrev main_c_1846 : Ref sig .tc := ⟨.hbm, 4400, rfl⟩
abbrev main_c_1847 : Ref sig .tc := ⟨.hbm, 4401, rfl⟩
abbrev main_v2166 : Ref sig .tc := ⟨.hbm, 4402, rfl⟩
abbrev main_c_1848 : Ref sig .tc := ⟨.hbm, 4403, rfl⟩
abbrev main_c_1849 : Ref sig .tc := ⟨.hbm, 4404, rfl⟩
abbrev main_v2167 : Ref sig .tc := ⟨.hbm, 4405, rfl⟩
abbrev main_c_1850 : Ref sig .tc := ⟨.hbm, 4406, rfl⟩
abbrev main_v2168 : Ref sig .tc := ⟨.hbm, 4407, rfl⟩
abbrev main_c_1851 : Ref sig .tc := ⟨.hbm, 4408, rfl⟩
abbrev main_v2169 : Ref sig .tc := ⟨.hbm, 4409, rfl⟩
abbrev main_c_1852 : Ref sig .tc := ⟨.hbm, 4410, rfl⟩
abbrev main_v2170 : Ref sig .tc := ⟨.hbm, 4411, rfl⟩
abbrev main_v2171 : Ref sig .tc := ⟨.hbm, 4412, rfl⟩
abbrev main_c_1853 : Ref sig .tc := ⟨.hbm, 4413, rfl⟩
abbrev main_v2172 : Ref sig .tc := ⟨.hbm, 4414, rfl⟩
abbrev main_c_1854 : Ref sig .tc := ⟨.hbm, 4415, rfl⟩
abbrev main_v2173 : Ref sig .tc := ⟨.hbm, 4416, rfl⟩
abbrev main_v2174 : Ref sig .tc := ⟨.hbm, 4417, rfl⟩
abbrev main_v2175 : Ref sig .tc := ⟨.hbm, 4418, rfl⟩
abbrev main_v2176 : Ref sig .tc := ⟨.hbm, 4419, rfl⟩
abbrev main_v2177 : Ref sig .tc := ⟨.hbm, 4420, rfl⟩
abbrev main_cst : Ref sig .tc := ⟨.hbm, 4421, rfl⟩
abbrev main_v2178 : Ref sig .tc := ⟨.hbm, 4422, rfl⟩
abbrev main_v2179 : Ref sig .tc := ⟨.hbm, 4423, rfl⟩
abbrev main_cst_1855 : Ref sig .tc := ⟨.hbm, 4424, rfl⟩
abbrev main_v2180 : Ref sig .tc := ⟨.hbm, 4425, rfl⟩
abbrev main_v2181 : Ref sig .tc := ⟨.hbm, 4426, rfl⟩

abbrev nD : Nat := 1
abbrev τ : Topo := Topo.v7x

variable {F : FTy → Type} [FloatOps F]

class Facts₀ : Prop where
  slices_S16x4x2_S1x1x1_0_0_0 : S16x4x2.Slices ![0, 0, 0] S1x1x1
  shapeCasts_S1x1x1_S_ : S1x1x1.ShapeCasts S_
  slices_S16x4x2_S1x1x1_0_0_1 : S16x4x2.Slices ![0, 0, 1] S1x1x1
  slices_S16x4x1x512x512_S1x1x1x512x512_0_0_0_0_0 : S16x4x1x512x512.Slices ![0, 0, 0, 0, 0] S1x1x1x512x512
  shapeCasts_S1x1x1x512x512_S1x512x512 : S1x1x1x512x512.ShapeCasts S1x512x512
  sliceFits_S1x512x512_S1x384x384 : S1x512x512.Slices (fun _ => 0) S1x384x384
  h_S_ : 0 < S_.numel
  bcast_S1x384x384_S1x1x384x384_1_2_3 : S1x384x384.BroadcastsInDim S1x1x384x384 (![1, 2, 3] : Fin 3 → Fin S1x1x384x384.rank)
  updateFits_S16x1x512x512_S1x1x384x384 : S16x1x512x512.Slices (fun _ => 0) S1x1x384x384
  slices_S16x4x2_S1x1x1_0_1_0 : S16x4x2.Slices ![0, 1, 0] S1x1x1
  slices_S16x4x2_S1x1x1_0_1_1 : S16x4x2.Slices ![0, 1, 1] S1x1x1
  slices_S16x4x1x512x512_S1x1x1x512x512_0_1_0_0_0 : S16x4x1x512x512.Slices ![0, 1, 0, 0, 0] S1x1x1x512x512
  slices_S16x4x2_S1x1x1_0_2_0 : S16x4x2.Slices ![0, 2, 0] S1x1x1
  slices_S16x4x2_S1x1x1_0_2_1 : S16x4x2.Slices ![0, 2, 1] S1x1x1
  slices_S16x4x1x512x512_S1x1x1x512x512_0_2_0_0_0 : S16x4x1x512x512.Slices ![0, 2, 0, 0, 0] S1x1x1x512x512
  slices_S16x4x2_S1x1x1_0_3_0 : S16x4x2.Slices ![0, 3, 0] S1x1x1
  slices_S16x4x2_S1x1x1_0_3_1 : S16x4x2.Slices ![0, 3, 1] S1x1x1
  slices_S16x4x1x512x512_S1x1x1x512x512_0_3_0_0_0 : S16x4x1x512x512.Slices ![0, 3, 0, 0, 0] S1x1x1x512x512
  slices_S16x4x2_S1x1x1_1_0_0 : S16x4x2.Slices ![1, 0, 0] S1x1x1
  slices_S16x4x2_S1x1x1_1_0_1 : S16x4x2.Slices ![1, 0, 1] S1x1x1
  slices_S16x4x1x512x512_S1x1x1x512x512_1_0_0_0_0 : S16x4x1x512x512.Slices ![1, 0, 0, 0, 0] S1x1x1x512x512
  slices_S16x4x2_S1x1x1_1_1_0 : S16x4x2.Slices ![1, 1, 0] S1x1x1
  slices_S16x4x2_S1x1x1_1_1_1 : S16x4x2.Slices ![1, 1, 1] S1x1x1
  slices_S16x4x1x512x512_S1x1x1x512x512_1_1_0_0_0 : S16x4x1x512x512.Slices ![1, 1, 0, 0, 0] S1x1x1x512x512
  slices_S16x4x2_S1x1x1_1_2_0 : S16x4x2.Slices ![1, 2, 0] S1x1x1
  slices_S16x4x2_S1x1x1_1_2_1 : S16x4x2.Slices ![1, 2, 1] S1x1x1
  slices_S16x4x1x512x512_S1x1x1x512x512_1_2_0_0_0 : S16x4x1x512x512.Slices ![1, 2, 0, 0, 0] S1x1x1x512x512
  slices_S16x4x2_S1x1x1_1_3_0 : S16x4x2.Slices ![1, 3, 0] S1x1x1
  slices_S16x4x2_S1x1x1_1_3_1 : S16x4x2.Slices ![1, 3, 1] S1x1x1
  slices_S16x4x1x512x512_S1x1x1x512x512_1_3_0_0_0 : S16x4x1x512x512.Slices ![1, 3, 0, 0, 0] S1x1x1x512x512
  slices_S16x4x2_S1x1x1_2_0_0 : S16x4x2.Slices ![2, 0, 0] S1x1x1
  slices_S16x4x2_S1x1x1_2_0_1 : S16x4x2.Slices ![2, 0, 1] S1x1x1
  slices_S16x4x1x512x512_S1x1x1x512x512_2_0_0_0_0 : S16x4x1x512x512.Slices ![2, 0, 0, 0, 0] S1x1x1x512x512
  slices_S16x4x2_S1x1x1_2_1_0 : S16x4x2.Slices ![2, 1, 0] S1x1x1
  slices_S16x4x2_S1x1x1_2_1_1 : S16x4x2.Slices ![2, 1, 1] S1x1x1
  slices_S16x4x1x512x512_S1x1x1x512x512_2_1_0_0_0 : S16x4x1x512x512.Slices ![2, 1, 0, 0, 0] S1x1x1x512x512
  slices_S16x4x2_S1x1x1_2_2_0 : S16x4x2.Slices ![2, 2, 0] S1x1x1
  slices_S16x4x2_S1x1x1_2_2_1 : S16x4x2.Slices ![2, 2, 1] S1x1x1
  slices_S16x4x1x512x512_S1x1x1x512x512_2_2_0_0_0 : S16x4x1x512x512.Slices ![2, 2, 0, 0, 0] S1x1x1x512x512
  slices_S16x4x2_S1x1x1_2_3_0 : S16x4x2.Slices ![2, 3, 0] S1x1x1
  slices_S16x4x2_S1x1x1_2_3_1 : S16x4x2.Slices ![2, 3, 1] S1x1x1
  slices_S16x4x1x512x512_S1x1x1x512x512_2_3_0_0_0 : S16x4x1x512x512.Slices ![2, 3, 0, 0, 0] S1x1x1x512x512
  slices_S16x4x2_S1x1x1_3_0_0 : S16x4x2.Slices ![3, 0, 0] S1x1x1
  slices_S16x4x2_S1x1x1_3_0_1 : S16x4x2.Slices ![3, 0, 1] S1x1x1
  slices_S16x4x1x512x512_S1x1x1x512x512_3_0_0_0_0 : S16x4x1x512x512.Slices ![3, 0, 0, 0, 0] S1x1x1x512x512
  slices_S16x4x2_S1x1x1_3_1_0 : S16x4x2.Slices ![3, 1, 0] S1x1x1
  slices_S16x4x2_S1x1x1_3_1_1 : S16x4x2.Slices ![3, 1, 1] S1x1x1
  slices_S16x4x1x512x512_S1x1x1x512x512_3_1_0_0_0 : S16x4x1x512x512.Slices ![3, 1, 0, 0, 0] S1x1x1x512x512
  slices_S16x4x2_S1x1x1_3_2_0 : S16x4x2.Slices ![3, 2, 0] S1x1x1
  slices_S16x4x2_S1x1x1_3_2_1 : S16x4x2.Slices ![3, 2, 1] S1x1x1
  slices_S16x4x1x512x512_S1x1x1x512x512_3_2_0_0_0 : S16x4x1x512x512.Slices ![3, 2, 0, 0, 0] S1x1x1x512x512
  slices_S16x4x2_S1x1x1_3_3_0 : S16x4x2.Slices ![3, 3, 0] S1x1x1
  slices_S16x4x2_S1x1x1_3_3_1 : S16x4x2.Slices ![3, 3, 1] S1x1x1
  slices_S16x4x1x512x512_S1x1x1x512x512_3_3_0_0_0 : S16x4x1x512x512.Slices ![3, 3, 0, 0, 0] S1x1x1x512x512
  slices_S16x4x2_S1x1x1_4_0_0 : S16x4x2.Slices ![4, 0, 0] S1x1x1
  slices_S16x4x2_S1x1x1_4_0_1 : S16x4x2.Slices ![4, 0, 1] S1x1x1
  slices_S16x4x1x512x512_S1x1x1x512x512_4_0_0_0_0 : S16x4x1x512x512.Slices ![4, 0, 0, 0, 0] S1x1x1x512x512
  slices_S16x4x2_S1x1x1_4_1_0 : S16x4x2.Slices ![4, 1, 0] S1x1x1
  slices_S16x4x2_S1x1x1_4_1_1 : S16x4x2.Slices ![4, 1, 1] S1x1x1
  slices_S16x4x1x512x512_S1x1x1x512x512_4_1_0_0_0 : S16x4x1x512x512.Slices ![4, 1, 0, 0, 0] S1x1x1x512x512
  slices_S16x4x2_S1x1x1_4_2_0 : S16x4x2.Slices ![4, 2, 0] S1x1x1
  slices_S16x4x2_S1x1x1_4_2_1 : S16x4x2.Slices ![4, 2, 1] S1x1x1
  slices_S16x4x1x512x512_S1x1x1x512x512_4_2_0_0_0 : S16x4x1x512x512.Slices ![4, 2, 0, 0, 0] S1x1x1x512x512
  slices_S16x4x2_S1x1x1_4_3_0 : S16x4x2.Slices ![4, 3, 0] S1x1x1
  slices_S16x4x2_S1x1x1_4_3_1 : S16x4x2.Slices ![4, 3, 1] S1x1x1
  slices_S16x4x1x512x512_S1x1x1x512x512_4_3_0_0_0 : S16x4x1x512x512.Slices ![4, 3, 0, 0, 0] S1x1x1x512x512
  slices_S16x4x2_S1x1x1_5_0_0 : S16x4x2.Slices ![5, 0, 0] S1x1x1
  slices_S16x4x2_S1x1x1_5_0_1 : S16x4x2.Slices ![5, 0, 1] S1x1x1
  slices_S16x4x1x512x512_S1x1x1x512x512_5_0_0_0_0 : S16x4x1x512x512.Slices ![5, 0, 0, 0, 0] S1x1x1x512x512
  slices_S16x4x2_S1x1x1_5_1_0 : S16x4x2.Slices ![5, 1, 0] S1x1x1
  slices_S16x4x2_S1x1x1_5_1_1 : S16x4x2.Slices ![5, 1, 1] S1x1x1
  slices_S16x4x1x512x512_S1x1x1x512x512_5_1_0_0_0 : S16x4x1x512x512.Slices ![5, 1, 0, 0, 0] S1x1x1x512x512
  slices_S16x4x2_S1x1x1_5_2_0 : S16x4x2.Slices ![5, 2, 0] S1x1x1
  slices_S16x4x2_S1x1x1_5_2_1 : S16x4x2.Slices ![5, 2, 1] S1x1x1
  slices_S16x4x1x512x512_S1x1x1x512x512_5_2_0_0_0 : S16x4x1x512x512.Slices ![5, 2, 0, 0, 0] S1x1x1x512x512
  slices_S16x4x2_S1x1x1_5_3_0 : S16x4x2.Slices ![5, 3, 0] S1x1x1
  slices_S16x4x2_S1x1x1_5_3_1 : S16x4x2.Slices ![5, 3, 1] S1x1x1
  slices_S16x4x1x512x512_S1x1x1x512x512_5_3_0_0_0 : S16x4x1x512x512.Slices ![5, 3, 0, 0, 0] S1x1x1x512x512
  slices_S16x4x2_S1x1x1_6_0_0 : S16x4x2.Slices ![6, 0, 0] S1x1x1
  slices_S16x4x2_S1x1x1_6_0_1 : S16x4x2.Slices ![6, 0, 1] S1x1x1
  slices_S16x4x1x512x512_S1x1x1x512x512_6_0_0_0_0 : S16x4x1x512x512.Slices ![6, 0, 0, 0, 0] S1x1x1x512x512
  slices_S16x4x2_S1x1x1_6_1_0 : S16x4x2.Slices ![6, 1, 0] S1x1x1
  slices_S16x4x2_S1x1x1_6_1_1 : S16x4x2.Slices ![6, 1, 1] S1x1x1
  slices_S16x4x1x512x512_S1x1x1x512x512_6_1_0_0_0 : S16x4x1x512x512.Slices ![6, 1, 0, 0, 0] S1x1x1x512x512
  slices_S16x4x2_S1x1x1_6_2_0 : S16x4x2.Slices ![6, 2, 0] S1x1x1
  slices_S16x4x2_S1x1x1_6_2_1 : S16x4x2.Slices ![6, 2, 1] S1x1x1
  slices_S16x4x1x512x512_S1x1x1x512x512_6_2_0_0_0 : S16x4x1x512x512.Slices ![6, 2, 0, 0, 0] S1x1x1x512x512
  slices_S16x4x2_S1x1x1_6_3_0 : S16x4x2.Slices ![6, 3, 0] S1x1x1
  slices_S16x4x2_S1x1x1_6_3_1 : S16x4x2.Slices ![6, 3, 1] S1x1x1
  slices_S16x4x1x512x512_S1x1x1x512x512_6_3_0_0_0 : S16x4x1x512x512.Slices ![6, 3, 0, 0, 0] S1x1x1x512x512
  slices_S16x4x2_S1x1x1_7_0_0 : S16x4x2.Slices ![7, 0, 0] S1x1x1
  slices_S16x4x2_S1x1x1_7_0_1 : S16x4x2.Slices ![7, 0, 1] S1x1x1
  slices_S16x4x1x512x512_S1x1x1x512x512_7_0_0_0_0 : S16x4x1x512x512.Slices ![7, 0, 0, 0, 0] S1x1x1x512x512
  slices_S16x4x2_S1x1x1_7_1_0 : S16x4x2.Slices ![7, 1, 0] S1x1x1
  slices_S16x4x2_S1x1x1_7_1_1 : S16x4x2.Slices ![7, 1, 1] S1x1x1
  slices_S16x4x1x512x512_S1x1x1x512x512_7_1_0_0_0 : S16x4x1x512x512.Slices ![7, 1, 0, 0, 0] S1x1x1x512x512
  slices_S16x4x2_S1x1x1_7_2_0 : S16x4x2.Slices ![7, 2, 0] S1x1x1
  slices_S16x4x2_S1x1x1_7_2_1 : S16x4x2.Slices ![7, 2, 1] S1x1x1
  slices_S16x4x1x512x512_S1x1x1x512x512_7_2_0_0_0 : S16x4x1x512x512.Slices ![7, 2, 0, 0, 0] S1x1x1x512x512
  slices_S16x4x2_S1x1x1_7_3_0 : S16x4x2.Slices ![7, 3, 0] S1x1x1
  slices_S16x4x2_S1x1x1_7_3_1 : S16x4x2.Slices ![7, 3, 1] S1x1x1
  slices_S16x4x1x512x512_S1x1x1x512x512_7_3_0_0_0 : S16x4x1x512x512.Slices ![7, 3, 0, 0, 0] S1x1x1x512x512
  slices_S16x4x2_S1x1x1_8_0_0 : S16x4x2.Slices ![8, 0, 0] S1x1x1
  slices_S16x4x2_S1x1x1_8_0_1 : S16x4x2.Slices ![8, 0, 1] S1x1x1
  slices_S16x4x1x512x512_S1x1x1x512x512_8_0_0_0_0 : S16x4x1x512x512.Slices ![8, 0, 0, 0, 0] S1x1x1x512x512
  slices_S16x4x2_S1x1x1_8_1_0 : S16x4x2.Slices ![8, 1, 0] S1x1x1
  slices_S16x4x2_S1x1x1_8_1_1 : S16x4x2.Slices ![8, 1, 1] S1x1x1
  slices_S16x4x1x512x512_S1x1x1x512x512_8_1_0_0_0 : S16x4x1x512x512.Slices ![8, 1, 0, 0, 0] S1x1x1x512x512
  slices_S16x4x2_S1x1x1_8_2_0 : S16x4x2.Slices ![8, 2, 0] S1x1x1
  slices_S16x4x2_S1x1x1_8_2_1 : S16x4x2.Slices ![8, 2, 1] S1x1x1
  slices_S16x4x1x512x512_S1x1x1x512x512_8_2_0_0_0 : S16x4x1x512x512.Slices ![8, 2, 0, 0, 0] S1x1x1x512x512
  slices_S16x4x2_S1x1x1_8_3_0 : S16x4x2.Slices ![8, 3, 0] S1x1x1
  slices_S16x4x2_S1x1x1_8_3_1 : S16x4x2.Slices ![8, 3, 1] S1x1x1
  slices_S16x4x1x512x512_S1x1x1x512x512_8_3_0_0_0 : S16x4x1x512x512.Slices ![8, 3, 0, 0, 0] S1x1x1x512x512
  slices_S16x4x2_S1x1x1_9_0_0 : S16x4x2.Slices ![9, 0, 0] S1x1x1
  slices_S16x4x2_S1x1x1_9_0_1 : S16x4x2.Slices ![9, 0, 1] S1x1x1
  slices_S16x4x1x512x512_S1x1x1x512x512_9_0_0_0_0 : S16x4x1x512x512.Slices ![9, 0, 0, 0, 0] S1x1x1x512x512
  slices_S16x4x2_S1x1x1_9_1_0 : S16x4x2.Slices ![9, 1, 0] S1x1x1
  slices_S16x4x2_S1x1x1_9_1_1 : S16x4x2.Slices ![9, 1, 1] S1x1x1
  slices_S16x4x1x512x512_S1x1x1x512x512_9_1_0_0_0 : S16x4x1x512x512.Slices ![9, 1, 0, 0, 0] S1x1x1x512x512
  slices_S16x4x2_S1x1x1_9_2_0 : S16x4x2.Slices ![9, 2, 0] S1x1x1
  slices_S16x4x2_S1x1x1_9_2_1 : S16x4x2.Slices ![9, 2, 1] S1x1x1
  slices_S16x4x1x512x512_S1x1x1x512x512_9_2_0_0_0 : S16x4x1x512x512.Slices ![9, 2, 0, 0, 0] S1x1x1x512x512
  slices_S16x4x2_S1x1x1_9_3_0 : S16x4x2.Slices ![9, 3, 0] S1x1x1
  slices_S16x4x2_S1x1x1_9_3_1 : S16x4x2.Slices ![9, 3, 1] S1x1x1
  slices_S16x4x1x512x512_S1x1x1x512x512_9_3_0_0_0 : S16x4x1x512x512.Slices ![9, 3, 0, 0, 0] S1x1x1x512x512
  slices_S16x4x2_S1x1x1_10_0_0 : S16x4x2.Slices ![10, 0, 0] S1x1x1
  slices_S16x4x2_S1x1x1_10_0_1 : S16x4x2.Slices ![10, 0, 1] S1x1x1
  slices_S16x4x1x512x512_S1x1x1x512x512_10_0_0_0_0 : S16x4x1x512x512.Slices ![10, 0, 0, 0, 0] S1x1x1x512x512
  slices_S16x4x2_S1x1x1_10_1_0 : S16x4x2.Slices ![10, 1, 0] S1x1x1
  slices_S16x4x2_S1x1x1_10_1_1 : S16x4x2.Slices ![10, 1, 1] S1x1x1
  slices_S16x4x1x512x512_S1x1x1x512x512_10_1_0_0_0 : S16x4x1x512x512.Slices ![10, 1, 0, 0, 0] S1x1x1x512x512
  slices_S16x4x2_S1x1x1_10_2_0 : S16x4x2.Slices ![10, 2, 0] S1x1x1
  slices_S16x4x2_S1x1x1_10_2_1 : S16x4x2.Slices ![10, 2, 1] S1x1x1
  slices_S16x4x1x512x512_S1x1x1x512x512_10_2_0_0_0 : S16x4x1x512x512.Slices ![10, 2, 0, 0, 0] S1x1x1x512x512
  slices_S16x4x2_S1x1x1_10_3_0 : S16x4x2.Slices ![10, 3, 0] S1x1x1
  slices_S16x4x2_S1x1x1_10_3_1 : S16x4x2.Slices ![10, 3, 1] S1x1x1
  slices_S16x4x1x512x512_S1x1x1x512x512_10_3_0_0_0 : S16x4x1x512x512.Slices ![10, 3, 0, 0, 0] S1x1x1x512x512
  slices_S16x4x2_S1x1x1_11_0_0 : S16x4x2.Slices ![11, 0, 0] S1x1x1
  slices_S16x4x2_S1x1x1_11_0_1 : S16x4x2.Slices ![11, 0, 1] S1x1x1
  slices_S16x4x1x512x512_S1x1x1x512x512_11_0_0_0_0 : S16x4x1x512x512.Slices ![11, 0, 0, 0, 0] S1x1x1x512x512
  slices_S16x4x2_S1x1x1_11_1_0 : S16x4x2.Slices ![11, 1, 0] S1x1x1
  slices_S16x4x2_S1x1x1_11_1_1 : S16x4x2.Slices ![11, 1, 1] S1x1x1
  slices_S16x4x1x512x512_S1x1x1x512x512_11_1_0_0_0 : S16x4x1x512x512.Slices ![11, 1, 0, 0, 0] S1x1x1x512x512
  slices_S16x4x2_S1x1x1_11_2_0 : S16x4x2.Slices ![11, 2, 0] S1x1x1
  slices_S16x4x2_S1x1x1_11_2_1 : S16x4x2.Slices ![11, 2, 1] S1x1x1
  slices_S16x4x1x512x512_S1x1x1x512x512_11_2_0_0_0 : S16x4x1x512x512.Slices ![11, 2, 0, 0, 0] S1x1x1x512x512
  slices_S16x4x2_S1x1x1_11_3_0 : S16x4x2.Slices ![11, 3, 0] S1x1x1
  slices_S16x4x2_S1x1x1_11_3_1 : S16x4x2.Slices ![11, 3, 1] S1x1x1
  slices_S16x4x1x512x512_S1x1x1x512x512_11_3_0_0_0 : S16x4x1x512x512.Slices ![11, 3, 0, 0, 0] S1x1x1x512x512
  slices_S16x4x2_S1x1x1_12_0_0 : S16x4x2.Slices ![12, 0, 0] S1x1x1
  slices_S16x4x2_S1x1x1_12_0_1 : S16x4x2.Slices ![12, 0, 1] S1x1x1
  slices_S16x4x1x512x512_S1x1x1x512x512_12_0_0_0_0 : S16x4x1x512x512.Slices ![12, 0, 0, 0, 0] S1x1x1x512x512
  slices_S16x4x2_S1x1x1_12_1_0 : S16x4x2.Slices ![12, 1, 0] S1x1x1
  slices_S16x4x2_S1x1x1_12_1_1 : S16x4x2.Slices ![12, 1, 1] S1x1x1
  slices_S16x4x1x512x512_S1x1x1x512x512_12_1_0_0_0 : S16x4x1x512x512.Slices ![12, 1, 0, 0, 0] S1x1x1x512x512
  slices_S16x4x2_S1x1x1_12_2_0 : S16x4x2.Slices ![12, 2, 0] S1x1x1
  slices_S16x4x2_S1x1x1_12_2_1 : S16x4x2.Slices ![12, 2, 1] S1x1x1
  slices_S16x4x1x512x512_S1x1x1x512x512_12_2_0_0_0 : S16x4x1x512x512.Slices ![12, 2, 0, 0, 0] S1x1x1x512x512
  slices_S16x4x2_S1x1x1_12_3_0 : S16x4x2.Slices ![12, 3, 0] S1x1x1
  slices_S16x4x2_S1x1x1_12_3_1 : S16x4x2.Slices ![12, 3, 1] S1x1x1
  slices_S16x4x1x512x512_S1x1x1x512x512_12_3_0_0_0 : S16x4x1x512x512.Slices ![12, 3, 0, 0, 0] S1x1x1x512x512
  slices_S16x4x2_S1x1x1_13_0_0 : S16x4x2.Slices ![13, 0, 0] S1x1x1
  slices_S16x4x2_S1x1x1_13_0_1 : S16x4x2.Slices ![13, 0, 1] S1x1x1
  slices_S16x4x1x512x512_S1x1x1x512x512_13_0_0_0_0 : S16x4x1x512x512.Slices ![13, 0, 0, 0, 0] S1x1x1x512x512
  slices_S16x4x2_S1x1x1_13_1_0 : S16x4x2.Slices ![13, 1, 0] S1x1x1
  slices_S16x4x2_S1x1x1_13_1_1 : S16x4x2.Slices ![13, 1, 1] S1x1x1
  slices_S16x4x1x512x512_S1x1x1x512x512_13_1_0_0_0 : S16x4x1x512x512.Slices ![13, 1, 0, 0, 0] S1x1x1x512x512
  slices_S16x4x2_S1x1x1_13_2_0 : S16x4x2.Slices ![13, 2, 0] S1x1x1
  slices_S16x4x2_S1x1x1_13_2_1 : S16x4x2.Slices ![13, 2, 1] S1x1x1
  slices_S16x4x1x512x512_S1x1x1x512x512_13_2_0_0_0 : S16x4x1x512x512.Slices ![13, 2, 0, 0, 0] S1x1x1x512x512
  slices_S16x4x2_S1x1x1_13_3_0 : S16x4x2.Slices ![13, 3, 0] S1x1x1
  slices_S16x4x2_S1x1x1_13_3_1 : S16x4x2.Slices ![13, 3, 1] S1x1x1
  slices_S16x4x1x512x512_S1x1x1x512x512_13_3_0_0_0 : S16x4x1x512x512.Slices ![13, 3, 0, 0, 0] S1x1x1x512x512
  slices_S16x4x2_S1x1x1_14_0_0 : S16x4x2.Slices ![14, 0, 0] S1x1x1
  slices_S16x4x2_S1x1x1_14_0_1 : S16x4x2.Slices ![14, 0, 1] S1x1x1
  slices_S16x4x1x512x512_S1x1x1x512x512_14_0_0_0_0 : S16x4x1x512x512.Slices ![14, 0, 0, 0, 0] S1x1x1x512x512
  slices_S16x4x2_S1x1x1_14_1_0 : S16x4x2.Slices ![14, 1, 0] S1x1x1
  slices_S16x4x2_S1x1x1_14_1_1 : S16x4x2.Slices ![14, 1, 1] S1x1x1
  slices_S16x4x1x512x512_S1x1x1x512x512_14_1_0_0_0 : S16x4x1x512x512.Slices ![14, 1, 0, 0, 0] S1x1x1x512x512
  slices_S16x4x2_S1x1x1_14_2_0 : S16x4x2.Slices ![14, 2, 0] S1x1x1
  slices_S16x4x2_S1x1x1_14_2_1 : S16x4x2.Slices ![14, 2, 1] S1x1x1
  slices_S16x4x1x512x512_S1x1x1x512x512_14_2_0_0_0 : S16x4x1x512x512.Slices ![14, 2, 0, 0, 0] S1x1x1x512x512
  slices_S16x4x2_S1x1x1_14_3_0 : S16x4x2.Slices ![14, 3, 0] S1x1x1
  slices_S16x4x2_S1x1x1_14_3_1 : S16x4x2.Slices ![14, 3, 1] S1x1x1
  slices_S16x4x1x512x512_S1x1x1x512x512_14_3_0_0_0 : S16x4x1x512x512.Slices ![14, 3, 0, 0, 0] S1x1x1x512x512
  slices_S16x4x2_S1x1x1_15_0_0 : S16x4x2.Slices ![15, 0, 0] S1x1x1
  slices_S16x4x2_S1x1x1_15_0_1 : S16x4x2.Slices ![15, 0, 1] S1x1x1
  slices_S16x4x1x512x512_S1x1x1x512x512_15_0_0_0_0 : S16x4x1x512x512.Slices ![15, 0, 0, 0, 0] S1x1x1x512x512
  slices_S16x4x2_S1x1x1_15_1_0 : S16x4x2.Slices ![15, 1, 0] S1x1x1
  slices_S16x4x2_S1x1x1_15_1_1 : S16x4x2.Slices ![15, 1, 1] S1x1x1
  slices_S16x4x1x512x512_S1x1x1x512x512_15_1_0_0_0 : S16x4x1x512x512.Slices ![15, 1, 0, 0, 0] S1x1x1x512x512
  slices_S16x4x2_S1x1x1_15_2_0 : S16x4x2.Slices ![15, 2, 0] S1x1x1
  slices_S16x4x2_S1x1x1_15_2_1 : S16x4x2.Slices ![15, 2, 1] S1x1x1
  slices_S16x4x1x512x512_S1x1x1x512x512_15_2_0_0_0 : S16x4x1x512x512.Slices ![15, 2, 0, 0, 0] S1x1x1x512x512
  slices_S16x4x2_S1x1x1_15_3_0 : S16x4x2.Slices ![15, 3, 0] S1x1x1
  slices_S16x4x2_S1x1x1_15_3_1 : S16x4x2.Slices ![15, 3, 1] S1x1x1
  slices_S16x4x1x512x512_S1x1x1x512x512_15_3_0_0_0 : S16x4x1x512x512.Slices ![15, 3, 0, 0, 0] S1x1x1x512x512
  bcast_S_S16x1x512x512 : S_.BroadcastsInDim S16x1x512x512 (![] : Fin 0 → Fin S16x1x512x512.rank)

variable [Facts₀]

class Facts : Prop extends Facts₀ where

variable [Facts]
-- ==== Proof.Spec.lean ====
/-
  The mathematics both programs compute, with no program in sight.

  The map is sixteen images of 512 × 512, cut into a 4 × 4 grid of tiles of 128 × 128. For image `b` and window
  `k` (of four), the selection array holds a start tile row and a start tile column, each 0 or 1; window `k` is
  the 3 × 3 block of tiles (384 × 384 elements) that starts there. An element of image `b` takes its value from the
  refined map of the LAST window (largest `k`) whose block covers it, and from the sampling map when no window
  does; the result is the logistic function `1 / (1 + exp (0 - x))` of that value.

  Whether a window covers an element depends only on the element's tile (row / 128, column / 128): the windows are
  unions of whole tiles. That is why a program that decides the source once per tile and one that overwrites
  element by element agree.
-/
import Idealize.ShloMosaic.PureOps.Ideal
import Idealize.ShloMosaic.PureOps.Ideal.Laws
import Idealize.ShloMosaic.Lib.ValueIdx

noncomputable section

namespace Cert.Fuse

open Idealize.ShloMosaic Idealize.ShloMosaic.ValueIdx

/-- The sampling map and the result: sixteen single-channel images. -/
abbrev SMap : Shape := ⟨4, ![16, 1, 512, 512]⟩
/-- The refined maps: four windows' worth per image. -/
abbrev SWin : Shape := ⟨5, ![16, 4, 1, 512, 512]⟩
/-- The selection: per image and window, a start tile row and a start tile column. -/
abbrev SSel : Shape := ⟨3, ![16, 4, 2]⟩

/-- The start tile of window `k` of image `b` along axis `a` (0: rows, 1: columns). -/
def start (sel : SSel.Idx → BitVec 32) (b : Fin 16) (k : Fin 4) (a : Fin 2) : ℕ := (sel (ix3 b k a)).toNat

/-- Window `k` of image `b` covers tile `(ti, tj)`: three tiles from its start, along both axes. -/
def coversTile (sel : SSel.Idx → BitVec 32) (b : Fin 16) (k : Fin 4) (ti tj : ℕ) : Prop :=
  start sel b k 0 ≤ ti ∧ ti < start sel b k 0 + 3 ∧ start sel b k 1 ≤ tj ∧ tj < start sel b k 1 + 3

instance (sel : SSel.Idx → BitVec 32) (b : Fin 16) (k : Fin 4) (ti tj : ℕ) : Decidable (coversTile sel b k ti tj) := by
  unfold coversTile; infer_instance

/-- The source of tile `(ti, tj)` of image `b`: the last window that covers it, if any. -/
def tileSource (sel : SSel.Idx → BitVec 32) (b : Fin 16) (ti tj : ℕ) : Option (Fin 4) :=
  if coversTile sel b 3 ti tj then some 3
  else if coversTile sel b 2 ti tj then some 2
  else if coversTile sel b 1 ti tj then some 1
  else if coversTile sel b 0 ti tj then some 0
  else none

/-- The value element `(b, 0, r, c)` is taken from: its tile's source window's refined map, or the sampling map. -/
def pickAt {α : Type} (smp : SMap.Idx → α) (win : SWin.Idx → α) (sel : SSel.Idx → BitVec 32)
    (b : Fin 16) (r c : Fin 512) : α :=
  match tileSource sel b (r.val / 128) (c.val / 128) with
  | some k => win (ix5 b k (0 : Fin 1) r c)
  | none => smp (ix4 b (0 : Fin 1) r c)

/-- The same at an index of the map. -/
def pick {α : Type} (smp : SMap.Idx → α) (win : SWin.Idx → α) (sel : SSel.Idx → BitVec 32) (i : SMap.Idx) : α :=
  pickAt smp win sel (i 0 : Fin 16) (i 2 : Fin 512) (i 3 : Fin 512)

variable {F : FTy → Type} [FloatOps F]

/-- The logistic function as both programs spell it: one over one plus the exponential of zero minus `x`. -/
def logistic (x : F .f32) : F .f32 :=
  FloatOps.divf (FloatOps.ofBits .f32 0x3F800000#32)
    (FloatOps.addf (FloatOps.ofBits .f32 0x3F800000#32) (FloatOps.exp (FloatOps.subf (FloatOps.ofBits .f32 0x00000000#32) x)))

/-- The result array: the logistic function of each element's chosen source. -/
def fused (smp : SMap.Idx → F .f32) (win : SWin.Idx → F .f32) (sel : SSel.Idx → BitVec 32) : SMap.Idx → F .f32 :=
  fun i => logistic (pick smp win sel i)

/-- On the extended reals zero minus `x` is the negative of `x`, so the logistic function is also
    `1 / (1 + exp (-x))`, the spelling of a program that negates. -/
theorem logistic_neg (x : EReal) :
    logistic (F := Ideal) x
      = Ideal.div (Ideal.ofBits .f32 0x3F800000#32) (Ideal.ofBits .f32 0x3F800000#32 + Ideal.exp (-x)) := by
  unfold logistic
  simp only [Ideal.divf_def, Ideal.addf_def, Ideal.exp_def, Ideal.subf_def, Ideal.ofBits_def]
  rw [Ideal.ofBits_zero_f32, zero_sub]

end Cert.Fuse

end
-- ==== Proof.KISetup.lean ====
/-
  What the parts of the kernel's proof share.

  The map's sixteen images are dealt to the thirty-two vector subcores: subcore `s` of SparseCore `c` works on
  image `s`, tiles `8c … 8c + 7` of its 4 × 4 grid (tile rows `2c` and `2c + 1`). Nothing a subcore reads is
  written by anyone, so the sampling map, the refined maps and the flattened selection go out as READ SHARES of
  the whole arrays: the full share halved once per SparseCore and four more times per subcore. What a subcore
  writes is its own eight tiles of the result, each held outright as the rectangle the subcore's copy-out names.
-/
import proofs.«207346_g72533407695360_cont_9to1_m_270_11_alg».proof.Defs
import proofs.«207346_g72533407695360_cont_9to1_m_270_11_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207346_g72533407695360_cont_9to1_m_270_11_alg».proof.Proof.Gen.KernelIdeal
import proofs.«207346_g72533407695360_cont_9to1_m_270_11_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The sampling map, the refined maps, the selection as given (rank 3) and flattened, the result. -/
abbrev smpLoc (d : Dev nD) : Loc nD τ sig := (SparseCore.T d).loc main_arg0
abbrev winLoc (d : Dev nD) : Loc nD τ sig := (SparseCore.T d).loc main_arg1
abbrev selLoc (d : Dev nD) : Loc nD τ sig := (SparseCore.T d).loc main_arg2
abbrev flatLoc (d : Dev nD) : Loc nD τ sig := (SparseCore.T d).loc main_v0
abbrev outLoc (d : Dev nD) : Loc nD τ sig := (SparseCore.T d).loc main_v1

/-! ## Shares: a share halved `n` times has `2 ^ n` leaves -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The leaves of depth `n + 1` are those of the two halves. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is the separating product of the same points-to at the share's leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of a read-only array, and subcore `i`'s share of that. -/
abbrev coreShare (c : Fin 2) : PosShare TreeShare := leaf 1 fullShare c
abbrev tileShare (c : Fin 2) (i : Fin 16) : PosShare TreeShare := leaf 4 (coreShare c) i

/-! ## The places, and the tiles of the result a subcore owns -/

/-- The grid coordinates of subcore `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

local notation "smpV" => (Memref.whole Cert.KernelIdeal.main_arg0_scv : Memref Cert.KernelIdeal.sig Kind.scVector Space.hbm Cert.KernelIdeal.S16x1x512x512 EltTy.f32)
local notation "winV" => (Memref.whole Cert.KernelIdeal.main_arg1_scv : Memref Cert.KernelIdeal.sig Kind.scVector Space.hbm Cert.KernelIdeal.S16x4x1x512x512 EltTy.f32)
local notation "flatV" => (Memref.whole Cert.KernelIdeal.main_v0_scv : Memref Cert.KernelIdeal.sig Kind.scVector Space.hbm Cert.KernelIdeal.S128 EltTy.i32)
local notation "outV" => (Memref.whole Cert.KernelIdeal.main_v1_scv : Memref Cert.KernelIdeal.sig Kind.scVector Space.hbm Cert.KernelIdeal.S16x1x512x512 EltTy.f32)

/-- Tile `t` (of its eight) of the result as the subcore at `L` names it for its copy-out: the rectangle at the
    offsets the subcore computes, squeezed to a 128 × 128 block. -/
abbrev outTile (L : grid0.Coords) (t : Fin 8) : Memref sig .scVector .hbm S128x128 .f32 :=
  ((outV).slice (Rect.unit (s := S16x1x512x512) (k0_off16 L (BitVec.ofNat 32 t.val)) S1x1x128x128.size (k0_off16_inb L t)) (fun _ => rfl)).squeeze S128x128
    squeezes_S1x1x128x128_S128x128

/-- The elements of that tile. -/
abbrev outSet (L : grid0.Coords) (t : Fin 8) : Finset S16x1x512x512.Idx := (outTile L t).view.set

variable [FloatOps F]

/-! ## What the arrays hold -/

/-- The flattened selection: the host's reshape of the selection as given. -/
def flatOf (sel : IVec S16x4x2 32) : IVec S128 32 := shapeCast S128 sel shapeCasts_S16x4x2_S128

/-- What the result holds at the end: the specification at the launch contents of the three arguments. -/
def fusedOf (d : Dev nD) : Buf (Elt F) (outLoc d) :=
  (Cert.Fuse.fused (F := F) (m (smpLoc d)) (m (winLoc d)) (m (selLoc d)) : FVec F S16x1x512x512 .f32)

end Cert.Proof.KI

end
-- ==== Proof.KIPay.lean ====
/-
  What travels with the handshakes of the one SparseCore call.

  Out: to SparseCore `c` its share of the three read-only arrays and the result tiles of its sixteen subcores; to
  subcore `i` of it, a sixteenth of that share and its own eight tiles, holding what the launch memory held.
  Back: the same shares, and the tiles holding the specification's values.
-/
import proofs.«207346_g72533407695360_cont_9to1_m_270_11_alg».proof.Proof.KISetup

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- Every selection word is 0 or 1: what the certificate's precondition says of the selection, and all the
    value of the result needs of it. -/
def SelOK : Prop := ∀ (d : Dev nD) (j : S16x4x2.Idx), ((m (selLoc d) : IVec S16x4x2 32) j).toNat ≤ 1

theorem bound_zero : grid0.bound 0 = 2 := rfl
theorem bound_one : grid0.bound 1 = 16 := rfl
/-- The SparseCore and the subcore of a place, as plain numbers below 2 and 16. -/
abbrev cL (L : grid0.Coords) : Fin 2 := Fin.cast bound_zero (L 0)
abbrev jL (L : grid0.Coords) : Fin 16 := Fin.cast bound_one (L 1)
/-- The place of subcore `i` of SparseCore `c`. -/
abbrev place (c : Fin 2) (i : Fin 16) : grid0.Coords := coordsV (Fin.cast bound_zero.symm c) (Fin.cast bound_one.symm i)

variable [FloatOps F]

/-- A share of each read-only array at its launch contents (the flattened selection at the host's reshape). -/
abbrev smpSh (d : Dev nD) (q : PosShare TreeShare) : sProp 𝕄 := smpLoc d ↦{q} m (smpLoc d)
abbrev winSh (d : Dev nD) (q : PosShare TreeShare) : sProp 𝕄 := winLoc d ↦{q} m (winLoc d)
abbrev flatSh (d : Dev nD) (q : PosShare TreeShare) : sProp 𝕄 := flatLoc d ↦{q} (flatOf (m (selLoc d)) : IVec S128 32)
abbrev readSh (d : Dev nD) (q : PosShare TreeShare) : sProp 𝕄 := iprop(smpSh m d q ∗ winSh m d q ∗ flatSh m d q)

/-- The eight result tiles of the subcore at `L`, each held outright, all at the contents `f`. -/
abbrev outTiles (d : Dev nD) (L : grid0.Coords) (f : Buf (Elt F) (outLoc d)) : sProp 𝕄 :=
  bigSep Finset.univ fun t : Fin 8 => outLoc d ↦[outSet L t]{fullShare} f

/-- The payloads of the one call. -/
def P : (K (F := F)).Pay (nD := nD) (Val := Elt F) (Name := ℕ) (U := UU) where
  st := fun q d c => match q with
    | 0 => iprop(readSh m d (coreShare (Fin.cast nCore_zero c))
        ∗ bigSep Finset.univ fun i : Fin 16 => outTiles d (place (Fin.cast nCore_zero c) i) (m (outLoc d)))
  dn := fun q d c => match q with
    | 0 => iprop(readSh m d (coreShare (Fin.cast nCore_zero c))
        ∗ bigSep Finset.univ fun i : Fin 16 => outTiles d (place (Fin.cast nCore_zero c) i) (fusedOf m d))
  go := fun q d c i => match q with
    | 0 => iprop(readSh m d (tileShare (Fin.cast nCore_zero c) (Fin.cast nSub_zero i))
        ∗ outTiles d (place (Fin.cast nCore_zero c) (Fin.cast nSub_zero i)) (m (outLoc d)))
  td := fun q d c i => match q with
    | 0 => iprop(readSh m d (tileShare (Fin.cast nCore_zero c) (Fin.cast nSub_zero i))
        ∗ outTiles d (place (Fin.cast nCore_zero c) (Fin.cast nSub_zero i)) (fusedOf m d))
  x := fun _ _ => iprop(emp)

instance P_storable : (P (F := F) m).IsStorable where
  st q d c := match q with
    | 0 => (inferInstance : BI.Storable (upEmb : UEmb _ 𝕄) iprop(readSh m d (coreShare (Fin.cast nCore_zero c))
        ∗ bigSep Finset.univ fun i : Fin 16 => outTiles d (place (Fin.cast nCore_zero c) i) (m (outLoc d))))
  dn q d c := match q with
    | 0 => (inferInstance : BI.Storable (upEmb : UEmb _ 𝕄) iprop(readSh m d (coreShare (Fin.cast nCore_zero c))
        ∗ bigSep Finset.univ fun i : Fin 16 => outTiles d (place (Fin.cast nCore_zero c) i) (fusedOf m d)))
  go q d c i := match q with
    | 0 => (inferInstance : BI.Storable (upEmb : UEmb _ 𝕄) iprop(readSh m d (tileShare (Fin.cast nCore_zero c) (Fin.cast nSub_zero i))
        ∗ outTiles d (place (Fin.cast nCore_zero c) (Fin.cast nSub_zero i)) (m (outLoc d))))
  td q d c i := match q with
    | 0 => (inferInstance : BI.Storable (upEmb : UEmb _ 𝕄) iprop(readSh m d (tileShare (Fin.cast nCore_zero c) (Fin.cast nSub_zero i))
        ∗ outTiles d (place (Fin.cast nCore_zero c) (Fin.cast nSub_zero i)) (fusedOf m d)))

end Cert.Proof.KI

end
-- ==== Proof.KIPart.lean ====
/-
  The result array is the disjoint union of the 256 tiles the subcores own.

  Subcore `i` of SparseCore `c` writes image `i`; its tile `t` is number `8c + t` of the image's 4 × 4 grid of
  128 × 128 tiles, in row-major order: tile row `(8c + t) / 4`, tile column `(8c + t) % 4`. An element of the array
  (image `b`, row `y`, column `x`) lies in exactly one of them: that of image `b`, tile row `y / 128`, tile
  column `x / 128`. So the whole array held outright is the separating product of the tiles held outright.
-/
import proofs.«207346_g72533407695360_cont_9to1_m_270_11_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The offsets of a tile, in closed form -/

/-- The printed chain of a tile's offsets: image `i 1`, tile `8 · i 0 + r` in row-major order. -/
theorem k0_off16_eq : ∀ (i : grid0.Coords) (r : Fin 8),
    k0_off16 i (BitVec.ofNat 32 r.val) = ![(i 1).val, 0, 128 * ((8 * (i 0).val + r.val) / 4), 128 * ((8 * (i 0).val + r.val) % 4)] := by decide +kernel

/-- A tile's elements are those of the rectangle at its offsets. -/
theorem outSet_eq (L : grid0.Coords) (t : Fin 8) :
    outSet L t = (Rect.unit (s := S16x1x512x512) (k0_off16 L (BitVec.ofNat 32 t.val)) S1x1x128x128.size (k0_off16_inb L t)).set := by
  simp only [outSet, outTile, Memref.view_squeeze, View.set_reshape, Memref.view_slice, Memref.view_whole, View.set_slice_whole]

/-- The tile number, in the image's row-major 4 × 4 grid, of tile `t` of a subcore of SparseCore `c`. -/
abbrev tileNo (c : ℕ) (t : ℕ) : ℕ := 8 * c + t

/-- Membership in a tile, by coordinates: the image, and the row and the column in the tile's 128-wide bands. -/
theorem mem_outSet (L : grid0.Coords) (t : Fin 8) (x : S16x1x512x512.Idx) :
    x ∈ outSet L t ↔ ((x 0).val = (L 1).val
      ∧ (128 * (tileNo (L 0).val t.val / 4) ≤ (x 2).val ∧ (x 2).val < 128 * (tileNo (L 0).val t.val / 4) + 128)
      ∧ (128 * (tileNo (L 0).val t.val % 4) ≤ (x 3).val ∧ (x 3).val < 128 * (tileNo (L 0).val t.val % 4) + 128)) := by
  have h1 : (x 1).val < 1 := (x 1).isLt
  rw [outSet_eq, Rect.mem_set_unit, k0_off16_eq]
  constructor
  · intro h
    have h0 := h 0; have h2 := h 2; have h3 := h 3
    simp only [Matrix.cons_val_zero, Matrix.cons_val_two, Matrix.cons_val_three, Matrix.cons_val_one, Matrix.head_cons, Matrix.tail_cons, Matrix.cons_val] at h0 h2 h3
    exact ⟨by omega, h2, h3⟩
  · rintro ⟨e0, h2, h3⟩
    show ∀ a : Fin 4, _
    intro a
    fin_cases a
    · simp only [Fin.zero_eta, Matrix.cons_val_zero]; show _ ≤ _ ∧ _ < _ + 1; omega
    · simp only [Fin.mk_one, Matrix.cons_val_one, Matrix.head_cons, Matrix.cons_val]; show _ ≤ _ ∧ _ < _ + 1; omega
    · simp only [Fin.reduceFinMk, Matrix.cons_val_two, Matrix.cons_val, Matrix.tail_cons, Matrix.head_cons]; exact h2
    · simp only [Fin.reduceFinMk, Matrix.cons_val_three, Matrix.cons_val, Matrix.tail_cons, Matrix.head_cons]; exact h3

/-! ## The places' coordinates -/

theorem place_zero (c : Fin 2) (i : Fin 16) : ((place c i) 0).val = c.val := rfl
theorem place_one (c : Fin 2) (i : Fin 16) : ((place c i) 1).val = i.val := rfl

/-! ## The partition -/

/-- The tiles, indexed by SparseCore, subcore and tile. -/
abbrev tileOf (p : Fin 2 × Fin 16 × Fin 8) : Finset S16x1x512x512.Idx := outSet (place p.1 p.2.1) p.2.2

/-- Two different tiles share no element: a common element fixes the image, hence the subcore, and the tile's row
    and column bands, hence the tile number `8c + t` and with it `c` and `t`. -/
theorem tiles_disjoint (p p' : Fin 2 × Fin 16 × Fin 8) (hne : p ≠ p') : Disjoint (tileOf p) (tileOf p') := by
  refine Finset.disjoint_left.mpr fun x hx hx' => hne ?_
  obtain ⟨c, i, t⟩ := p
  obtain ⟨c', i', t'⟩ := p'
  have h := (mem_outSet _ _ x).mp hx
  have h' := (mem_outSet _ _ x).mp hx'
  simp only [place_zero, place_one, tileNo] at h h'
  have hc := c.isLt; have hc' := c'.isLt; have ht := t.isLt; have ht' := t'.isLt
  have e1 : i = i' := Fin.ext (by omega)
  have e2 : 8 * c.val + t.val = 8 * c'.val + t'.val := by omega
  have e3 : c = c' := Fin.ext (by omega)
  have e4 : t = t' := Fin.ext (by omega)
  rw [e1, e3, e4]

/-- Every element lies in a tile: that of its image, its row band and its column band. -/
theorem tiles_cover : (Finset.univ : Finset S16x1x512x512.Idx) = Finset.univ.biUnion tileOf := by
  refine (Finset.eq_univ_of_forall fun x => ?_).symm
  have h0 : (x 0).val < 16 := (x 0).isLt
  have h2 : (x 2).val < 512 := (x 2).isLt
  have h3 : (x 3).val < 512 := (x 3).isLt
  refine Finset.mem_biUnion.mpr ⟨(⟨(x 2).val / 256, by omega⟩, ⟨(x 0).val, h0⟩, ⟨4 * ((x 2).val / 128 % 2) + (x 3).val / 128, by omega⟩), Finset.mem_univ _, ?_⟩
  refine (mem_outSet _ _ x).mpr ?_
  dsimp only
  simp only [place_zero, place_one, tileNo, true_and]
  omega

/-! ## The whole array as its tiles -/

variable [FloatOps F]

/-- The result array held outright is the separating product, over the two SparseCores and the sixteen subcores of
    each, of the subcore's eight tiles held outright, all at the same contents. -/
theorem out_tiles (d : Dev nD) (f : Buf (Elt F) (outLoc d)) :
    (outLoc d ↦{fullShare} f : sProp 𝕄)
      = bigSep Finset.univ fun c : Fin 2 => bigSep Finset.univ fun i : Fin 16 => outTiles d (place c i) f := by
  have hcov : (Finset.univ : Finset (Idx (outLoc d))) = Finset.univ.biUnion (fun p : Fin 2 × Fin 16 × Fin 8 => (tileOf p : Finset (Idx (outLoc d)))) := tiles_cover
  rw [hcov, pointsTo_biUnion Finset.univ _ (fun p _ p' _ hne => tiles_disjoint p p' hne), bigSep_univ_prod]
  refine bigSep_congr fun c _ => ?_
  rw [bigSep_univ_prod]

end Cert.Proof.KI

end
-- ==== Proof.KILaunch.lean ====
/-
  The launch of the one SparseCore call: from each subcore's body to the run of the whole program.

  The three read-only arrays go out as read shares of the whole arrays — the full share halved once for the two
  SparseCores, four more times for a SparseCore's sixteen subcores — and come back the same way; the result array
  goes out as the 256 tiles the subcores own and comes back as those tiles at the specification's values. Before
  the call the host flattens the selection; after it the four arrays of the claim are held whole again, and the
  final memory agrees with what is held.
-/
import proofs.«207346_g72533407695360_cont_9to1_m_270_11_alg».proof.Proof.KIPart

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The read shares, halved -/

/-- A share of the three read-only arrays is the separating product of its leaves' shares, at any depth. -/
theorem readSh_leaves (d : Dev nD) (n : ℕ) (q : PosShare TreeShare) :
    (readSh m d q : sProp 𝕄) = bigSep Finset.univ fun i : Fin (2 ^ n) => readSh m d (leaf n q i) := by
  show iprop((smpLoc d ↦{q} m (smpLoc d)) ∗ (winLoc d ↦{q} m (winLoc d)) ∗ (flatLoc d ↦{q} (flatOf (m (selLoc d)) : IVec S128 32)))
    = bigSep Finset.univ fun i : Fin (2 ^ n) => iprop((smpLoc d ↦{leaf n q i} m (smpLoc d)) ∗ (winLoc d ↦{leaf n q i} m (winLoc d))
        ∗ (flatLoc d ↦{leaf n q i} (flatOf (m (selLoc d)) : IVec S128 32)))
  rw [bigSep_sep', bigSep_sep', ← pointsTo_leaves, ← pointsTo_leaves, ← pointsTo_leaves]

/-- The whole arrays' shares, dealt to the two SparseCores. -/
theorem readSh_cores (d : Dev nD) : (readSh m d fullShare : sProp 𝕄) = bigSep Finset.univ fun c : Fin 2 => readSh m d (coreShare c) :=
  readSh_leaves m d 1 fullShare

/-- A SparseCore's shares, dealt to its sixteen subcores. -/
theorem readSh_tiles (d : Dev nD) (c : Fin 2) : (readSh m d (coreShare c) : sProp 𝕄) = bigSep Finset.univ fun i : Fin 16 => readSh m d (tileShare c i) :=
  readSh_leaves m d 4 (coreShare c)

/-! ## The payloads, as equations -/

theorem P_st (d : Dev nD) (c : Fin ((K (F := F)).nCore 0)) : (P m).st 0 d c = iprop(readSh m d (coreShare (Fin.cast nCore_zero c))
    ∗ bigSep Finset.univ fun i : Fin 16 => outTiles d (place (Fin.cast nCore_zero c) i) (m (outLoc d))) := rfl
theorem P_dn (d : Dev nD) (c : Fin ((K (F := F)).nCore 0)) : (P m).dn 0 d c = iprop(readSh m d (coreShare (Fin.cast nCore_zero c))
    ∗ bigSep Finset.univ fun i : Fin 16 => outTiles d (place (Fin.cast nCore_zero c) i) (fusedOf m d)) := rfl
theorem P_go (d : Dev nD) (c : Fin ((K (F := F)).nCore 0)) (i : Fin ((K (F := F)).nSub 0)) :
    (P m).go 0 d c i = iprop(readSh m d (tileShare (Fin.cast nCore_zero c) (Fin.cast nSub_zero i))
      ∗ outTiles d (place (Fin.cast nCore_zero c) (Fin.cast nSub_zero i)) (m (outLoc d))) := rfl
theorem P_td (d : Dev nD) (c : Fin ((K (F := F)).nCore 0)) (i : Fin ((K (F := F)).nSub 0)) :
    (P m).td 0 d c i = iprop(readSh m d (tileShare (Fin.cast nCore_zero c) (Fin.cast nSub_zero i))
      ∗ outTiles d (place (Fin.cast nCore_zero c) (Fin.cast nSub_zero i)) (fusedOf m d)) := rfl

/-! ## A SparseCore's operands split among its subcores, and the results gather -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  rw [P_st, (funext fun i => P_go m d c i : (fun i => (P m).go 0 d c i) = _), (funext fun i => P_td m d c i : (fun i => (P m).td 0 d c i) = _), P_dn]
  generalize Fin.cast nCore_zero c = c'
  rw [bigSep_tasks (F := F) (fun i => iprop(readSh m d (tileShare c' i) ∗ outTiles d (place c' i) (m (outLoc d)))),
    bigSep_tasks (F := F) (fun i => iprop(readSh m d (tileShare c' i) ∗ outTiles d (place c' i) (fusedOf m d))),
    bigSep_sep' _ (fun i => readSh m d (tileShare c' i)) (fun i => outTiles d (place c' i) (m (outLoc d))),
    bigSep_sep' _ (fun i => readSh m d (tileShare c' i)) (fun i => outTiles d (place c' i) (fusedOf m d)), ← readSh_tiles]
  iintro ⟨Hr, Ho⟩; imodintro
  isplitl [Hr Ho]
  · isplitl [Hr] <;> iassumption
  iintro ⟨Hr, Ho⟩
  isplitl [Hr] <;> iassumption

/-! ## The launch element of the ghost state: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev sel' : DevRef τ sig := Proc.devRef .tc (main_arg2 : Ref sig .tc)
abbrev flat' : DevRef τ sig := Proc.devRef .tc (main_v0 : Ref sig .tc)
/-- The host's one operation: the selection flattened. -/
abbrev opFlat : HloOp τ sig (Elt F) := StableHlo.reshape main_arg2 main_v0 rfl shapeCasts_S16x4x2_S128

/-- The two arrays the host's operation names. -/
abbrev S2 : Finset (DevRef τ sig) := {sel', flat'}

omit [FloatOps F] in
theorem held_S2 (d : Dev nD) (W : Valuation τ sig (Elt F)) :
    (held (T d) S2 W : sProp 𝕄) = iprop((selLoc d ↦{fullShare} W sel') ∗ (flatLoc d ↦{fullShare} W flat')) := by
  unfold held S2
  rw [SparseCore.bigSep_insert' (by decide), bigSep_singleton]

omit [FloatOps F] in
/-- The TensorCore's unscoped arrays: the three arguments, the flattened selection, the result. -/
theorem unscopedBufs_eq (d : Dev nD) (W : (b : Ref sig .tc) → Buf (Elt F) ((d.tc : Thread nD τ).loc b)) :
    (unscopedBufs d W : sProp 𝕄) = iprop((smpLoc d ↦{fullShare} W main_arg0) ∗ (winLoc d ↦{fullShare} W main_arg1) ∗ (selLoc d ↦{fullShare} W main_arg2)
      ∗ (flatLoc d ↦{fullShare} W main_v0) ∗ (outLoc d ↦{fullShare} W main_v1)) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem hFlat : (opFlat (F := F)).bufs ⊆ S2 := show ({sel', flat'} : Finset (DevRef τ sig)) ⊆ S2 from Finset.Subset.refl _

/-- After the host's operation the selection is as given and the flat array holds it flattened. -/
theorem held_flat (d : Dev nD) :
    (held (T d) S2 ((opFlat (F := F)).result (V0 m d)) : sProp 𝕄)
      = iprop((selLoc d ↦{fullShare} m (selLoc d)) ∗ (flatLoc d ↦{fullShare} (flatOf (m (selLoc d)) : IVec S128 32))) := by
  rw [held_S2, (opFlat (F := F)).result_of_not_mem (V0 m d) (b := sel') (show sel' ∉ ({flat'} : Finset (DevRef τ sig)) by decide),
    show (opFlat (F := F)).result (V0 m d) flat' = _ from StableHlo.reshape_result main_arg2 main_v0 rfl shapeCasts_S16x4x2_S128 ⟨by decide, rfl⟩ ⟨by decide, rfl⟩ (V0 m d)]
  rfl

/-- What the call takes for the two SparseCores: the three read-only arrays and the result array, each whole. -/
theorem st0_eq (d : Dev nD) : (bigSep Finset.univ fun c : Fin ((K (F := F)).nCore 0) => (P m).st 0 d c)
    = iprop(readSh m d fullShare ∗ outLoc d ↦{fullShare} m (outLoc d)) := by
  rw [(funext fun c => P_st m d c : (fun c => (P m).st 0 d c) = _),
    bigSep_cores (F := F) (fun c => iprop(readSh m d (coreShare c) ∗ bigSep Finset.univ fun i : Fin 16 => outTiles d (place c i) (m (outLoc d)))),
    bigSep_sep' _ (fun c => readSh m d (coreShare c)) (fun c => bigSep Finset.univ fun i : Fin 16 => outTiles d (place c i) (m (outLoc d))),
    ← readSh_cores, ← out_tiles]
/-- What it hands back: the same, the result array at the specification. -/
theorem dn0_eq (d : Dev nD) : (bigSep Finset.univ fun c : Fin ((K (F := F)).nCore 0) => (P m).dn 0 d c)
    = iprop(readSh m d fullShare ∗ outLoc d ↦{fullShare} fusedOf m d) := by
  rw [(funext fun c => P_dn m d c : (fun c => (P m).dn 0 d c) = _),
    bigSep_cores (F := F) (fun c => iprop(readSh m d (coreShare c) ∗ bigSep Finset.univ fun i : Fin 16 => outTiles d (place c i) (fusedOf m d))),
    bigSep_sep' _ (fun c => readSh m d (coreShare c)) (fun c => bigSep Finset.univ fun i : Fin 16 => outTiles d (place c i) (fusedOf m d)),
    ← readSh_cores, ← out_tiles]

/-- What @main leaves the claim: the three arguments at their launch contents, the result at the specification. -/
abbrev FIN (d : Dev nD) : sProp 𝕄 :=
  iprop((outLoc d ↦{fullShare} fusedOf m d) ∗ (smpLoc d ↦{fullShare} m (smpLoc d)) ∗ (winLoc d ↦{fullShare} m (winLoc d)) ∗ (selLoc d ↦{fullShare} m (selLoc d)))

/-- @main on device `d`'s TensorCore: the host flattens the selection, then the one call, from the three read-only
    arrays and the result array and back; the selection as given is kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hsmp, Hwin, Hsel, Hflat, Hout⟩, -, -⟩, -⟩
  -- the host's operation, over the selection as given and the flat array
  iapply (wp_hlo_within 𝒱 (SparseCore.T d) none Set.univ (op := opFlat) (S := S2) hFlat (V := V0 m d)) $$ [Hb Hsel Hflat]
  · isplitl [Hb]; · iexact Hb
    rw [held_S2]
    isplitl [Hsel]; · iexact Hsel
    iexact Hflat
  iintro ⟨Hb, Hheld⟩
  ihave Hh := (Entails.of_eq (held_flat (F := F) m d)) $$ Hheld
  icases Hh with ⟨Hsel, Hflat⟩
  rw [wp_ret]; imodintro
  -- the call: the three read-only arrays and the result array to the two SparseCores and back
  iapply ((K (F := F)).wp_run (D (F := F)) 𝒱 (EH := EH) (P := P m) κ d 0) $$ [Hst Hsmp Hwin Hflat Hout Hsel]
  isplitr; · iexact Hctx
  isplitl [Hst]; · iexact Hst
  isplitl [Hsmp Hwin Hflat Hout]
  · rw [st0_eq]
    isplitl [Hsmp Hwin Hflat]
    · isplitl [Hsmp]; · iexact Hsmp
      isplitl [Hwin]; · iexact Hwin
      iexact Hflat
    iexact Hout
  iintro ⟨Hst, Hdn⟩
  ihave Hdn' := (Entails.of_eq (dn0_eq m d)) $$ Hdn
  icases Hdn' with ⟨⟨Hsmp, Hwin, -⟩, Hout⟩
  imodintro
  isplitl [Hst]; · iexact Hst
  isplitl [Hout]; · iexact Hout
  isplitl [Hsmp]; · iexact Hsmp
  isplitl [Hwin]; · iexact Hwin
  iexact Hsel

/-! ## The final memory -/

def fq (d : Dev nD) (s' : Phys nD τ sig (Elt F)) : Prop :=
  s'.mem.mem (outLoc d) = fusedOf m d ∧ s'.mem.mem (smpLoc d) = m (smpLoc d) ∧ s'.mem.mem (winLoc d) = m (winLoc d) ∧ s'.mem.mem (selLoc d) = m (selLoc d)

set_option maxRecDepth 16384 in
/-- The final memory agrees with each array held whole. -/
theorem hfin (d : Dev nD) (s' : Phys nD τ sig (Elt F)) : iprop(FIN m d ∗ SI s') ⊢ (⌜fq m d s'⌝ : sProp 𝕄) := by
  iintro ⟨⟨Ho, Hsmp, Hwin, Hsel⟩, HSI⟩
  ihave H := (persistent_entails_right (SI_pointsTo_agree (st := s') (ℓ := outLoc d) (I := Finset.univ) (q := fullShare) (f := fusedOf m d))) $$ [HSI Ho]
  · isplitl [HSI] <;> iassumption
  icases H with ⟨%h1, HSI, -⟩
  ihave H := (persistent_entails_right (SI_pointsTo_agree (st := s') (ℓ := smpLoc d) (I := Finset.univ) (q := fullShare) (f := m (smpLoc d)))) $$ [HSI Hsmp]
  · isplitl [HSI] <;> iassumption
  icases H with ⟨%h2, HSI, -⟩
  ihave H := (persistent_entails_right (SI_pointsTo_agree (st := s') (ℓ := winLoc d) (I := Finset.univ) (q := fullShare) (f := m (winLoc d)))) $$ [HSI Hwin]
  · isplitl [HSI] <;> iassumption
  icases H with ⟨%h3, HSI, -⟩
  ihave H := (SI_pointsTo_agree (st := s') (ℓ := selLoc d) (I := Finset.univ) (q := fullShare) (f := m (selLoc d))) $$ [HSI Hsel]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-! ## The program's run -/

/-- What the run leaves: the result at the specification, the three arguments unchanged. -/
def QC : PUnit × MemSt nD τ sig (Elt F) → Prop := fun r => ∀ c : Dev nD,
  r.2.mem (outLoc c) = fusedOf m c ∧ r.2.mem (smpLoc c) = m (smpLoc c) ∧ r.2.mem (winLoc c) = m (winLoc c) ∧ r.2.mem (selLoc c) = m (selLoc c)

theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KBSetup.lean ====
/-
  What the parts of the kernel's proof share.

  The map's sixteen images are dealt to the thirty-two vector subcores: subcore `s` of SparseCore `c` works on
  image `s`, tiles `8c … 8c + 7` of its 4 × 4 grid (tile rows `2c` and `2c + 1`). Nothing a subcore reads is
  written by anyone, so the sampling map, the refined maps and the flattened selection go out as READ SHARES of
  the whole arrays: the full share halved once per SparseCore and four more times per subcore. What a subcore
  writes is its own eight tiles of the result, each held outright as the rectangle the subcore's copy-out names.
-/
import proofs.«207346_g72533407695360_cont_9to1_m_270_11_alg».proof.Defs
import proofs.«207346_g72533407695360_cont_9to1_m_270_11_alg».proof.Proof.Spec
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«207346_g72533407695360_cont_9to1_m_270_11_alg».proof.Proof.Gen.Kernel
import proofs.«207346_g72533407695360_cont_9to1_m_270_11_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the arrays -/

variable (m : (ℓ : Loc nD τ sig) → Buf (Elt F) ℓ) (ρ : Dev nD → PrngReg)

/-- The sampling map, the refined maps, the selection as given (rank 3) and flattened, the result. -/
abbrev smpLoc (d : Dev nD) : Loc nD τ sig := (SparseCore.T d).loc main_arg0
abbrev winLoc (d : Dev nD) : Loc nD τ sig := (SparseCore.T d).loc main_arg1
abbrev selLoc (d : Dev nD) : Loc nD τ sig := (SparseCore.T d).loc main_arg2
abbrev flatLoc (d : Dev nD) : Loc nD τ sig := (SparseCore.T d).loc main_v0
abbrev outLoc (d : Dev nD) : Loc nD τ sig := (SparseCore.T d).loc main_v1

/-! ## Shares: a share halved `n` times has `2 ^ n` leaves -/

/-- Leaf `i` of the depth-`n` halving of share `q`. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The leaves of depth `n + 1` are those of the two halves. -/
def sumEquiv (n : ℕ) : Fin (2 ^ n) ⊕ Fin (2 ^ n) ≃ Fin (2 ^ (n + 1)) := finSumFinEquiv.trans (finCongr (by omega))

omit m ρ in
theorem sumEquiv_inl (n : ℕ) (i : Fin (2 ^ n)) : (sumEquiv n (Sum.inl i)).val = i.val := by simp [sumEquiv]
omit m ρ in
theorem sumEquiv_inr (n : ℕ) (i : Fin (2 ^ n)) : (sumEquiv n (Sum.inr i)).val = 2 ^ n + i.val := by simp [sumEquiv]; omega

omit m ρ in
theorem leaf_inl (n : ℕ) (q : PosShare TreeShare) (i : Fin (2 ^ n)) : leaf (n + 1) q (sumEquiv n (Sum.inl i)) = leaf n q.left i := by
  have h : (sumEquiv n (Sum.inl i)).val < 2 ^ n := by rw [sumEquiv_inl]; exact i.isLt
  have e : (⟨(sumEquiv n (Sum.inl i)).val, h⟩ : Fin (2 ^ n)) = i := Fin.ext (sumEquiv_inl n i)
  rw [leaf, dif_pos h, e]
omit m ρ in
theorem leaf_inr (n : ℕ) (q : PosShare TreeShare) (i : Fin (2 ^ n)) : leaf (n + 1) q (sumEquiv n (Sum.inr i)) = leaf n q.right i := by
  have h : ¬(sumEquiv n (Sum.inr i)).val < 2 ^ n := by rw [sumEquiv_inr]; omega
  have e : (⟨(sumEquiv n (Sum.inr i)).val - 2 ^ n, by have := (sumEquiv n (Sum.inr i)).isLt; omega⟩ : Fin (2 ^ n)) = i :=
    Fin.ext (by simp only [sumEquiv_inr]; omega)
  rw [leaf, dif_neg h, e]

omit m ρ in
/-- A points-to at a share is the separating product of the same points-to at the share's leaves. -/
theorem pointsTo_leaves {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (sumEquiv n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- SparseCore `c`'s share of a read-only array, and subcore `i`'s share of that. -/
abbrev coreShare (c : Fin 2) : PosShare TreeShare := leaf 1 fullShare c
abbrev tileShare (c : Fin 2) (i : Fin 16) : PosShare TreeShare := leaf 4 (coreShare c) i

/-! ## The places, and the tiles of the result a subcore owns -/

/-- The grid coordinates of subcore `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

local notation "smpV" => (Memref.whole Cert.Kernel.main_arg0_scv : Memref Cert.Kernel.sig Kind.scVector Space.hbm Cert.Kernel.S16x1x512x512 EltTy.f32)
local notation "winV" => (Memref.whole Cert.Kernel.main_arg1_scv : Memref Cert.Kernel.sig Kind.scVector Space.hbm Cert.Kernel.S16x4x1x512x512 EltTy.f32)
local notation "flatV" => (Memref.whole Cert.Kernel.main_v0_scv : Memref Cert.Kernel.sig Kind.scVector Space.hbm Cert.Kernel.S128 EltTy.i32)
local notation "outV" => (Memref.whole Cert.Kernel.main_v1_scv : Memref Cert.Kernel.sig Kind.scVector Space.hbm Cert.Kernel.S16x1x512x512 EltTy.f32)

/-- Tile `t` (of its eight) of the result as the subcore at `L` names it for its copy-out: the rectangle at the
    offsets the subcore computes, squeezed to a 128 × 128 block. -/
abbrev outTile (L : grid0.Coords) (t : Fin 8) : Memref sig .scVector .hbm S128x128 .f32 :=
  ((outV).slice (Rect.unit (s := S16x1x512x512) (k0_off16 L (BitVec.ofNat 32 t.val)) S1x1x128x128.size (k0_off16_inb L t)) (fun _ => rfl)).squeeze S128x128
    squeezes_S1x1x128x128_S128x128

/-- The elements of that tile. -/
abbrev outSet (L : grid0.Coords) (t : Fin 8) : Finset S16x1x512x512.Idx := (outTile L t).view.set

variable [FloatOps F]

/-! ## What the arrays hold -/

/-- The flattened selection: the host's reshape of the selection as given. -/
def flatOf (sel : IVec S16x4x2 32) : IVec S128 32 := shapeCast S128 sel shapeCasts_S16x4x2_S128

/-- What the result holds at the end: the specification at the launch contents of the three arguments. -/
def fusedOf (d : Dev nD) : Buf (Elt F) (outLoc d) :=
  (Cert.Fuse.fused (F := F) (m (smpLoc d)) (m (winLoc d)) (m (selLoc d)) : FVec F S16x1x512x512 .f32)

end Cert.Proof.KB

end
-- ==== Proof.KBPay.lean ====
/-
  What travels with the handshakes of the one SparseCore call.

  Out: to SparseCore `c` its share of the three read-only arrays and the result tiles of its sixteen subcores; to
  subcore `i` of it, a sixteenth of that share and its own eight tiles, holding what the launch memory held.
  Back: the same shares, and the tiles holding the specification's values.
-/
import proofs.«207346_g72533407695360_cont_9to1_m_270_11_alg».proof.Proof.KBSetup

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-- Every selection word is 0 or 1: what the certificate's precondition says of the selection, and all the
    value of the result needs of it. -/
def SelOK : Prop := ∀ (d : Dev nD) (j : S16x4x2.Idx), ((m (selLoc d) : IVec S16x4x2 32) j).toNat ≤ 1

theorem bound_zero : grid0.bound 0 = 2 := rfl
theorem bound_one : grid0.bound 1 = 16 := rfl
/-- The SparseCore and the subcore of a place, as plain numbers below 2 and 16. -/
abbrev cL (L : grid0.Coords) : Fin 2 := Fin.cast bound_zero (L 0)
abbrev jL (L : grid0.Coords) : Fin 16 := Fin.cast bound_one (L 1)
/-- The place of subcore `i` of SparseCore `c`. -/
abbrev place (c : Fin 2) (i : Fin 16) : grid0.Coords := coordsV (Fin.cast bound_zero.symm c) (Fin.cast bound_one.symm i)

variable [FloatOps F]

/-- A share of each read-only array at its launch contents (the flattened selection at the host's reshape). -/
abbrev smpSh (d : Dev nD) (q : PosShare TreeShare) : sProp 𝕄 := smpLoc d ↦{q} m (smpLoc d)
abbrev winSh (d : Dev nD) (q : PosShare TreeShare) : sProp 𝕄 := winLoc d ↦{q} m (winLoc d)
abbrev flatSh (d : Dev nD) (q : PosShare TreeShare) : sProp 𝕄 := flatLoc d ↦{q} (flatOf (m (selLoc d)) : IVec S128 32)
abbrev readSh (d : Dev nD) (q : PosShare TreeShare) : sProp 𝕄 := iprop(smpSh m d q ∗ winSh m d q ∗ flatSh m d q)

/-- The eight result tiles of the subcore at `L`, each held outright, all at the contents `f`. -/
abbrev outTiles (d : Dev nD) (L : grid0.Coords) (f : Buf (Elt F) (outLoc d)) : sProp 𝕄 :=
  bigSep Finset.univ fun t : Fin 8 => outLoc d ↦[outSet L t]{fullShare} f

/-- The payloads of the one call. -/
def P : (K (F := F)).Pay (nD := nD) (Val := Elt F) (Name := ℕ) (U := UU) where
  st := fun q d c => match q with
    | 0 => iprop(readSh m d (coreShare (Fin.cast nCore_zero c))
        ∗ bigSep Finset.univ fun i : Fin 16 => outTiles d (place (Fin.cast nCore_zero c) i) (m (outLoc d)))
  dn := fun q d c => match q with
    | 0 => iprop(readSh m d (coreShare (Fin.cast nCore_zero c))
        ∗ bigSep Finset.univ fun i : Fin 16 => outTiles d (place (Fin.cast nCore_zero c) i) (fusedOf m d))
  go := fun q d c i => match q with
    | 0 => iprop(readSh m d (tileShare (Fin.cast nCore_zero c) (Fin.cast nSub_zero i))
        ∗ outTiles d (place (Fin.cast nCore_zero c) (Fin.cast nSub_zero i)) (m (outLoc d)))
  td := fun q d c i => match q with
    | 0 => iprop(readSh m d (tileShare (Fin.cast nCore_zero c) (Fin.cast nSub_zero i))
        ∗ outTiles d (place (Fin.cast nCore_zero c) (Fin.cast nSub_zero i)) (fusedOf m d))
  x := fun _ _ => iprop(emp)

instance P_storable : (P (F := F) m).IsStorable where
  st q d c := match q with
    | 0 => (inferInstance : BI.Storable (upEmb : UEmb _ 𝕄) iprop(readSh m d (coreShare (Fin.cast nCore_zero c))
        ∗ bigSep Finset.univ fun i : Fin 16 => outTiles d (place (Fin.cast nCore_zero c) i) (m (outLoc d))))
  dn q d c := match q with
    | 0 => (inferInstance : BI.Storable (upEmb : UEmb _ 𝕄) iprop(readSh m d (coreShare (Fin.cast nCore_zero c))
        ∗ bigSep Finset.univ fun i : Fin 16 => outTiles d (place (Fin.cast nCore_zero c) i) (fusedOf m d)))
  go q d c i := match q with
    | 0 => (inferInstance : BI.Storable (upEmb : UEmb _ 𝕄) iprop(readSh m d (tileShare (Fin.cast nCore_zero c) (Fin.cast nSub_zero i))
        ∗ outTiles d (place (Fin.cast nCore_zero c) (Fin.cast nSub_zero i)) (m (outLoc d))))
  td q d c i := match q with
    | 0 => (inferInstance : BI.Storable (upEmb : UEmb _ 𝕄) iprop(readSh m d (tileShare (Fin.cast nCore_zero c) (Fin.cast nSub_zero i))
        ∗ outTiles d (place (Fin.cast nCore_zero c) (Fin.cast nSub_zero i)) (fusedOf m d)))

end Cert.Proof.KB

end
-- ==== Proof.KBPart.lean ====
/-
  The result array is the disjoint union of the 256 tiles the subcores own.

  Subcore `i` of SparseCore `c` writes image `i`; its tile `t` is number `8c + t` of the image's 4 × 4 grid of
  128 × 128 tiles, in row-major order: tile row `(8c + t) / 4`, tile column `(8c + t) % 4`. An element of the array
  (image `b`, row `y`, column `x`) lies in exactly one of them: that of image `b`, tile row `y / 128`, tile
  column `x / 128`. So the whole array held outright is the separating product of the tiles held outright.
-/
import proofs.«207346_g72533407695360_cont_9to1_m_270_11_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The offsets of a tile, in closed form -/

/-- The printed chain of a tile's offsets: image `i 1`, tile `8 · i 0 + r` in row-major order. -/
theorem k0_off16_eq : ∀ (i : grid0.Coords) (r : Fin 8),
    k0_off16 i (BitVec.ofNat 32 r.val) = ![(i 1).val, 0, 128 * ((8 * (i 0).val + r.val) / 4), 128 * ((8 * (i 0).val + r.val) % 4)] := by decide +kernel

/-- A tile's elements are those of the rectangle at its offsets. -/
theorem outSet_eq (L : grid0.Coords) (t : Fin 8) :
    outSet L t = (Rect.unit (s := S16x1x512x512) (k0_off16 L (BitVec.ofNat 32 t.val)) S1x1x128x128.size (k0_off16_inb L t)).set := by
  simp only [outSet, outTile, Memref.view_squeeze, View.set_reshape, Memref.view_slice, Memref.view_whole, View.set_slice_whole]

/-- The tile number, in the image's row-major 4 × 4 grid, of tile `t` of a subcore of SparseCore `c`. -/
abbrev tileNo (c : ℕ) (t : ℕ) : ℕ := 8 * c + t

/-- Membership in a tile, by coordinates: the image, and the row and the column in the tile's 128-wide bands. -/
theorem mem_outSet (L : grid0.Coords) (t : Fin 8) (x : S16x1x512x512.Idx) :
    x ∈ outSet L t ↔ ((x 0).val = (L 1).val
      ∧ (128 * (tileNo (L 0).val t.val / 4) ≤ (x 2).val ∧ (x 2).val < 128 * (tileNo (L 0).val t.val / 4) + 128)
      ∧ (128 * (tileNo (L 0).val t.val % 4) ≤ (x 3).val ∧ (x 3).val < 128 * (tileNo (L 0).val t.val % 4) + 128)) := by
  have h1 : (x 1).val < 1 := (x 1).isLt
  rw [outSet_eq, Rect.mem_set_unit, k0_off16_eq]
  constructor
  · intro h
    have h0 := h 0; have h2 := h 2; have h3 := h 3
    simp only [Matrix.cons_val_zero, Matrix.cons_val_two, Matrix.cons_val_three, Matrix.cons_val_one, Matrix.head_cons, Matrix.tail_cons, Matrix.cons_val] at h0 h2 h3
    exact ⟨by omega, h2, h3⟩
  · rintro ⟨e0, h2, h3⟩
    show ∀ a : Fin 4, _
    intro a
    fin_cases a
    · simp only [Fin.zero_eta, Matrix.cons_val_zero]; show _ ≤ _ ∧ _ < _ + 1; omega
    · simp only [Fin.mk_one, Matrix.cons_val_one, Matrix.head_cons, Matrix.cons_val]; show _ ≤ _ ∧ _ < _ + 1; omega
    · simp only [Fin.reduceFinMk, Matrix.cons_val_two, Matrix.cons_val, Matrix.tail_cons, Matrix.head_cons]; exact h2
    · simp only [Fin.reduceFinMk, Matrix.cons_val_three, Matrix.cons_val, Matrix.tail_cons, Matrix.head_cons]; exact h3

/-! ## The places' coordinates -/

theorem place_zero (c : Fin 2) (i : Fin 16) : ((place c i) 0).val = c.val := rfl
theorem place_one (c : Fin 2) (i : Fin 16) : ((place c i) 1).val = i.val := rfl

/-! ## The partition -/

/-- The tiles, indexed by SparseCore, subcore and tile. -/
abbrev tileOf (p : Fin 2 × Fin 16 × Fin 8) : Finset S16x1x512x512.Idx := outSet (place p.1 p.2.1) p.2.2

/-- Two different tiles share no element: a common element fixes the image, hence the subcore, and the tile's row
    and column bands, hence the tile number `8c + t` and with it `c` and `t`. -/
theorem tiles_disjoint (p p' : Fin 2 × Fin 16 × Fin 8) (hne : p ≠ p') : Disjoint (tileOf p) (tileOf p') := by
  refine Finset.disjoint_left.mpr fun x hx hx' => hne ?_
  obtain ⟨c, i, t⟩ := p
  obtain ⟨c', i', t'⟩ := p'
  have h := (mem_outSet _ _ x).mp hx
  have h' := (mem_outSet _ _ x).mp hx'
  simp only [place_zero, place_one, tileNo] at h h'
  have hc := c.isLt; have hc' := c'.isLt; have ht := t.isLt; have ht' := t'.isLt
  have e1 : i = i' := Fin.ext (by omega)
  have e2 : 8 * c.val + t.val = 8 * c'.val + t'.val := by omega
  have e3 : c = c' := Fin.ext (by omega)
  have e4 : t = t' := Fin.ext (by omega)
  rw [e1, e3, e4]

/-- Every element lies in a tile: that of its image, its row band and its column band. -/
theorem tiles_cover : (Finset.univ : Finset S16x1x512x512.Idx) = Finset.univ.biUnion tileOf := by
  refine (Finset.eq_univ_of_forall fun x => ?_).symm
  have h0 : (x 0).val < 16 := (x 0).isLt
  have h2 : (x 2).val < 512 := (x 2).isLt
  have h3 : (x 3).val < 512 := (x 3).isLt
  refine Finset.mem_biUnion.mpr ⟨(⟨(x 2).val / 256, by omega⟩, ⟨(x 0).val, h0⟩, ⟨4 * ((x 2).val / 128 % 2) + (x 3).val / 128, by omega⟩), Finset.mem_univ _, ?_⟩
  refine (mem_outSet _ _ x).mpr ?_
  dsimp only
  simp only [place_zero, place_one, tileNo, true_and]
  omega

/-! ## The whole array as its tiles -/

variable [FloatOps F]

/-- The result array held outright is the separating product, over the two SparseCores and the sixteen subcores of
    each, of the subcore's eight tiles held outright, all at the same contents. -/
theorem out_tiles (d : Dev nD) (f : Buf (Elt F) (outLoc d)) :
    (outLoc d ↦{fullShare} f : sProp 𝕄)
      = bigSep Finset.univ fun c : Fin 2 => bigSep Finset.univ fun i : Fin 16 => outTiles d (place c i) f := by
  have hcov : (Finset.univ : Finset (Idx (outLoc d))) = Finset.univ.biUnion (fun p : Fin 2 × Fin 16 × Fin 8 => (tileOf p : Finset (Idx (outLoc d)))) := tiles_cover
  rw [hcov, pointsTo_biUnion Finset.univ _ (fun p _ p' _ hne => tiles_disjoint p p' hne), bigSep_univ_prod]
  refine bigSep_congr fun c _ => ?_
  rw [bigSep_univ_prod]

end Cert.Proof.KB

end
-- ==== Proof.KBLaunch.lean ====
/-
  The launch of the one SparseCore call: from each subcore's body to the run of the whole program.

  The three read-only arrays go out as read shares of the whole arrays — the full share halved once for the two
  SparseCores, four more times for a SparseCore's sixteen subcores — and come back the same way; the result array
  goes out as the 256 tiles the subcores own and comes back as those tiles at the specification's values. Before
  the call the host flattens the selection; after it the four arrays of the claim are held whole again, and the
  final memory agrees with what is held.
-/
import proofs.«207346_g72533407695360_cont_9to1_m_270_11_alg».proof.Proof.KBPart

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

variable [FloatOps F]

/-! ## The read shares, halved -/

/-- A share of the three read-only arrays is the separating product of its leaves' shares, at any depth. -/
theorem readSh_leaves (d : Dev nD) (n : ℕ) (q : PosShare TreeShare) :
    (readSh m d q : sProp 𝕄) = bigSep Finset.univ fun i : Fin (2 ^ n) => readSh m d (leaf n q i) := by
  show iprop((smpLoc d ↦{q} m (smpLoc d)) ∗ (winLoc d ↦{q} m (winLoc d)) ∗ (flatLoc d ↦{q} (flatOf (m (selLoc d)) : IVec S128 32)))
    = bigSep Finset.univ fun i : Fin (2 ^ n) => iprop((smpLoc d ↦{leaf n q i} m (smpLoc d)) ∗ (winLoc d ↦{leaf n q i} m (winLoc d))
        ∗ (flatLoc d ↦{leaf n q i} (flatOf (m (selLoc d)) : IVec S128 32)))
  rw [bigSep_sep', bigSep_sep', ← pointsTo_leaves, ← pointsTo_leaves, ← pointsTo_leaves]

/-- The whole arrays' shares, dealt to the two SparseCores. -/
theorem readSh_cores (d : Dev nD) : (readSh m d fullShare : sProp 𝕄) = bigSep Finset.univ fun c : Fin 2 => readSh m d (coreShare c) :=
  readSh_leaves m d 1 fullShare

/-- A SparseCore's shares, dealt to its sixteen subcores. -/
theorem readSh_tiles (d : Dev nD) (c : Fin 2) : (readSh m d (coreShare c) : sProp 𝕄) = bigSep Finset.univ fun i : Fin 16 => readSh m d (tileShare c i) :=
  readSh_leaves m d 4 (coreShare c)

/-! ## The payloads, as equations -/

theorem P_st (d : Dev nD) (c : Fin ((K (F := F)).nCore 0)) : (P m).st 0 d c = iprop(readSh m d (coreShare (Fin.cast nCore_zero c))
    ∗ bigSep Finset.univ fun i : Fin 16 => outTiles d (place (Fin.cast nCore_zero c) i) (m (outLoc d))) := rfl
theorem P_dn (d : Dev nD) (c : Fin ((K (F := F)).nCore 0)) : (P m).dn 0 d c = iprop(readSh m d (coreShare (Fin.cast nCore_zero c))
    ∗ bigSep Finset.univ fun i : Fin 16 => outTiles d (place (Fin.cast nCore_zero c) i) (fusedOf m d)) := rfl
theorem P_go (d : Dev nD) (c : Fin ((K (F := F)).nCore 0)) (i : Fin ((K (F := F)).nSub 0)) :
    (P m).go 0 d c i = iprop(readSh m d (tileShare (Fin.cast nCore_zero c) (Fin.cast nSub_zero i))
      ∗ outTiles d (place (Fin.cast nCore_zero c) (Fin.cast nSub_zero i)) (m (outLoc d))) := rfl
theorem P_td (d : Dev nD) (c : Fin ((K (F := F)).nCore 0)) (i : Fin ((K (F := F)).nSub 0)) :
    (P m).td 0 d c i = iprop(readSh m d (tileShare (Fin.cast nCore_zero c) (Fin.cast nSub_zero i))
      ∗ outTiles d (place (Fin.cast nCore_zero c) (Fin.cast nSub_zero i)) (fusedOf m d)) := rfl

/-! ## A SparseCore's operands split among its subcores, and the results gather -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  rw [P_st, (funext fun i => P_go m d c i : (fun i => (P m).go 0 d c i) = _), (funext fun i => P_td m d c i : (fun i => (P m).td 0 d c i) = _), P_dn]
  generalize Fin.cast nCore_zero c = c'
  rw [bigSep_tasks (F := F) (fun i => iprop(readSh m d (tileShare c' i) ∗ outTiles d (place c' i) (m (outLoc d)))),
    bigSep_tasks (F := F) (fun i => iprop(readSh m d (tileShare c' i) ∗ outTiles d (place c' i) (fusedOf m d))),
    bigSep_sep' _ (fun i => readSh m d (tileShare c' i)) (fun i => outTiles d (place c' i) (m (outLoc d))),
    bigSep_sep' _ (fun i => readSh m d (tileShare c' i)) (fun i => outTiles d (place c' i) (fusedOf m d)), ← readSh_tiles]
  iintro ⟨Hr, Ho⟩; imodintro
  isplitl [Hr Ho]
  · isplitl [Hr] <;> iassumption
  iintro ⟨Hr, Ho⟩
  isplitl [Hr] <;> iassumption

/-! ## The launch element of the ghost state: the handshakes' rounds; the counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev sel' : DevRef τ sig := Proc.devRef .tc (main_arg2 : Ref sig .tc)
abbrev flat' : DevRef τ sig := Proc.devRef .tc (main_v0 : Ref sig .tc)
/-- The host's one operation: the selection flattened. -/
abbrev opFlat : HloOp τ sig (Elt F) := StableHlo.reshape main_arg2 main_v0 rfl shapeCasts_S16x4x2_S128

/-- The two arrays the host's operation names. -/
abbrev S2 : Finset (DevRef τ sig) := {sel', flat'}

omit [FloatOps F] in
theorem held_S2 (d : Dev nD) (W : Valuation τ sig (Elt F)) :
    (held (T d) S2 W : sProp 𝕄) = iprop((selLoc d ↦{fullShare} W sel') ∗ (flatLoc d ↦{fullShare} W flat')) := by
  unfold held S2
  rw [SparseCore.bigSep_insert' (by decide), bigSep_singleton]

omit [FloatOps F] in
/-- The TensorCore's unscoped arrays: the three arguments, the flattened selection, the result. -/
theorem unscopedBufs_eq (d : Dev nD) (W : (b : Ref sig .tc) → Buf (Elt F) ((d.tc : Thread nD τ).loc b)) :
    (unscopedBufs d W : sProp 𝕄) = iprop((smpLoc d ↦{fullShare} W main_arg0) ∗ (winLoc d ↦{fullShare} W main_arg1) ∗ (selLoc d ↦{fullShare} W main_arg2)
      ∗ (flatLoc d ↦{fullShare} W main_v0) ∗ (outLoc d ↦{fullShare} W main_v1)) := by
  unfold unscopedBufs
  rw [show (Finset.univ.filter fun b : Ref sig .tc => ¬ b.isScoped) = {main_arg0, main_arg1, main_arg2, main_v0, main_v1} by decide,
    SparseCore.bigSep_insert' (by decide), SparseCore.bigSep_insert' (by decide), SparseCore.bigSep_insert' (by decide), SparseCore.bigSep_insert' (by decide), bigSep_singleton]

/-- The launch valuation. -/
def V0 (d : Dev nD) : Valuation τ sig (Elt F) := fun b => m (d, b)

theorem hFlat : (opFlat (F := F)).bufs ⊆ S2 := show ({sel', flat'} : Finset (DevRef τ sig)) ⊆ S2 from Finset.Subset.refl _

/-- After the host's operation the selection is as given and the flat array holds it flattened. -/
theorem held_flat (d : Dev nD) :
    (held (T d) S2 ((opFlat (F := F)).result (V0 m d)) : sProp 𝕄)
      = iprop((selLoc d ↦{fullShare} m (selLoc d)) ∗ (flatLoc d ↦{fullShare} (flatOf (m (selLoc d)) : IVec S128 32))) := by
  rw [held_S2, (opFlat (F := F)).result_of_not_mem (V0 m d) (b := sel') (show sel' ∉ ({flat'} : Finset (DevRef τ sig)) by decide),
    show (opFlat (F := F)).result (V0 m d) flat' = _ from StableHlo.reshape_result main_arg2 main_v0 rfl shapeCasts_S16x4x2_S128 ⟨by decide, rfl⟩ ⟨by decide, rfl⟩ (V0 m d)]
  rfl

/-- What the call takes for the two SparseCores: the three read-only arrays and the result array, each whole. -/
theorem st0_eq (d : Dev nD) : (bigSep Finset.univ fun c : Fin ((K (F := F)).nCore 0) => (P m).st 0 d c)
    = iprop(readSh m d fullShare ∗ outLoc d ↦{fullShare} m (outLoc d)) := by
  rw [(funext fun c => P_st m d c : (fun c => (P m).st 0 d c) = _),
    bigSep_cores (F := F) (fun c => iprop(readSh m d (coreShare c) ∗ bigSep Finset.univ fun i : Fin 16 => outTiles d (place c i) (m (outLoc d)))),
    bigSep_sep' _ (fun c => readSh m d (coreShare c)) (fun c => bigSep Finset.univ fun i : Fin 16 => outTiles d (place c i) (m (outLoc d))),
    ← readSh_cores, ← out_tiles]
/-- What it hands back: the same, the result array at the specification. -/
theorem dn0_eq (d : Dev nD) : (bigSep Finset.univ fun c : Fin ((K (F := F)).nCore 0) => (P m).dn 0 d c)
    = iprop(readSh m d fullShare ∗ outLoc d ↦{fullShare} fusedOf m d) := by
  rw [(funext fun c => P_dn m d c : (fun c => (P m).dn 0 d c) = _),
    bigSep_cores (F := F) (fun c => iprop(readSh m d (coreShare c) ∗ bigSep Finset.univ fun i : Fin 16 => outTiles d (place c i) (fusedOf m d))),
    bigSep_sep' _ (fun c => readSh m d (coreShare c)) (fun c => bigSep Finset.univ fun i : Fin 16 => outTiles d (place c i) (fusedOf m d)),
    ← readSh_cores, ← out_tiles]

/-- What @main leaves the claim: the three arguments at their launch contents, the result at the specification. -/
abbrev FIN (d : Dev nD) : sProp 𝕄 :=
  iprop((outLoc d ↦{fullShare} fusedOf m d) ∗ (smpLoc d ↦{fullShare} m (smpLoc d)) ∗ (winLoc d ↦{fullShare} m (winLoc d)) ∗ (selLoc d ↦{fullShare} m (selLoc d)))

/-- @main on device `d`'s TensorCore: the host flattens the selection, then the one call, from the three read-only
    arrays and the result array and back; the selection as given is kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hsmp, Hwin, Hsel, Hflat, Hout⟩, -, -⟩, -⟩
  -- the host's operation, over the selection as given and the flat array
  iapply (wp_hlo_within 𝒱 (SparseCore.T d) none Set.univ (op := opFlat) (S := S2) hFlat (V := V0 m d)) $$ [Hb Hsel Hflat]
  · isplitl [Hb]; · iexact Hb
    rw [held_S2]
    isplitl [Hsel]; · iexact Hsel
    iexact Hflat
  iintro ⟨Hb, Hheld⟩
  ihave Hh := (Entails.of_eq (held_flat (F := F) m d)) $$ Hheld
  icases Hh with ⟨Hsel, Hflat⟩
  rw [wp_ret]; imodintro
  -- the call: the three read-only arrays and the result array to the two SparseCores and back
  iapply ((K (F := F)).wp_run (D (F := F)) 𝒱 (EH := EH) (P := P m) κ d 0) $$ [Hst Hsmp Hwin Hflat Hout Hsel]
  isplitr; · iexact Hctx
  isplitl [Hst]; · iexact Hst
  isplitl [Hsmp Hwin Hflat Hout]
  · rw [st0_eq]
    isplitl [Hsmp Hwin Hflat]
    · isplitl [Hsmp]; · iexact Hsmp
      isplitl [Hwin]; · iexact Hwin
      iexact Hflat
    iexact Hout
  iintro ⟨Hst, Hdn⟩
  ihave Hdn' := (Entails.of_eq (dn0_eq m d)) $$ Hdn
  icases Hdn' with ⟨⟨Hsmp, Hwin, -⟩, Hout⟩
  imodintro
  isplitl [Hst]; · iexact Hst
  isplitl [Hout]; · iexact Hout
  isplitl [Hsmp]; · iexact Hsmp
  isplitl [Hwin]; · iexact Hwin
  iexact Hsel

/-! ## The final memory -/

def fq (d : Dev nD) (s' : Phys nD τ sig (Elt F)) : Prop :=
  s'.mem.mem (outLoc d) = fusedOf m d ∧ s'.mem.mem (smpLoc d) = m (smpLoc d) ∧ s'.mem.mem (winLoc d) = m (winLoc d) ∧ s'.mem.mem (selLoc d) = m (selLoc d)

set_option maxRecDepth 16384 in
/-- The final memory agrees with each array held whole. -/
theorem hfin (d : Dev nD) (s' : Phys nD τ sig (Elt F)) : iprop(FIN m d ∗ SI s') ⊢ (⌜fq m d s'⌝ : sProp 𝕄) := by
  iintro ⟨⟨Ho, Hsmp, Hwin, Hsel⟩, HSI⟩
  ihave H := (persistent_entails_right (SI_pointsTo_agree (st := s') (ℓ := outLoc d) (I := Finset.univ) (q := fullShare) (f := fusedOf m d))) $$ [HSI Ho]
  · isplitl [HSI] <;> iassumption
  icases H with ⟨%h1, HSI, -⟩
  ihave H := (persistent_entails_right (SI_pointsTo_agree (st := s') (ℓ := smpLoc d) (I := Finset.univ) (q := fullShare) (f := m (smpLoc d)))) $$ [HSI Hsmp]
  · isplitl [HSI] <;> iassumption
  icases H with ⟨%h2, HSI, -⟩
  ihave H := (persistent_entails_right (SI_pointsTo_agree (st := s') (ℓ := winLoc d) (I := Finset.univ) (q := fullShare) (f := m (winLoc d)))) $$ [HSI Hwin]
  · isplitl [HSI] <;> iassumption
  icases H with ⟨%h3, HSI, -⟩
  ihave H := (SI_pointsTo_agree (st := s') (ℓ := selLoc d) (I := Finset.univ) (q := fullShare) (f := m (selLoc d))) $$ [HSI Hsel]
  · isplitl [HSI] <;> iassumption
  icases H with %h4
  ipureintro
  exact ⟨funext fun i => h1 i (Finset.mem_univ i), funext fun i => h2 i (Finset.mem_univ i), funext fun i => h3 i (Finset.mem_univ i), funext fun i => h4 i (Finset.mem_univ i)⟩

/-! ## The program's run -/

/-- What the run leaves: the result at the specification, the three arguments unchanged. -/
def QC : PUnit × MemSt nD τ sig (Elt F) → Prop := fun r => ∀ c : Dev nD,
  r.2.mem (outLoc c) = fusedOf m c ∧ r.2.mem (smpLoc c) = m (smpLoc c) ∧ r.2.mem (winLoc c) = m (winLoc c) ∧ r.2.mem (selLoc c) = m (selLoc c)

theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.SelRange.lean ====
/-
  Under the input precondition every selection word is 0 or 1.

  The precondition ends in three conjunctions of "all" tests; the last one says of every selection word, read as a
  signed number, that it is at least 0 and at most 1. A 32-bit word whose signed reading lies in [0, 1] has the same
  unsigned reading, so as a natural number it is at most 1.
-/
import proofs.«207346_g72533407695360_cont_9to1_m_270_11_alg».proof.Pre_input_domain
import Idealize.ShloMosaic.Lib.ReduceAll

namespace Cert.Fuse

open Idealize.ShloMosaic

/-- The scalar shape has one index. -/
instance : Subsingleton Cert.Pre_input_domain.S_.Idx := ⟨fun _ _ => funext fun d => d.elim0⟩

/-- A 32-bit word whose signed reading is between 0 and 1 is, unsigned, at most 1. -/
theorem toNat_le_one_of_toInt {x : BitVec 32} (h0 : (0 : Int) ≤ x.toInt) (h1 : x.toInt ≤ 1) : x.toNat ≤ 1 := by
  have e := BitVec.toInt_eq_toNat_cond x
  have hlt := x.isLt
  split at e <;> omega

theorem sel_le_one {F : FTy → Type} [FloatOps F] [Cert.Pre_input_domain.Facts]
    (a0 : FVec F Cert.Pre_input_domain.S16x1x512x512 .f32) (a1 : FVec F Cert.Pre_input_domain.S16x4x1x512x512 .f32) (a2 : IVec Cert.Pre_input_domain.S16x4x2 32)
    (h : Cert.Pre_input_domain.fn (F := F) a0 a1 a2 = fun _ => 1#1) : ∀ j, (a2 j).toNat ≤ 1 := by
  intro j
  have h0 := congrFun h (fun a => a.elim0 : Cert.Pre_input_domain.S_.Idx)
  dsimp only [Cert.Pre_input_domain.fn] at h0
  -- the last conjunct: the "all" over the selection array
  have h1 := (IntOp.andi_eq_one.1 h0).2
  -- at the index j: both compares hold
  have h2 := IntOp.andi_eq_one.1 (Host.reduce_andi_all _ _ _ _ _ h1 j)
  have hge : (0#32 : BitVec 32).toInt ≤ (a2 j).toInt := IntOp.cmpi_sge.1 h2.1
  have hle : (a2 j).toInt ≤ (1#32 : BitVec 32).toInt := IntOp.cmpi_sle.1 h2.2
  exact toNat_le_one_of_toInt (by simpa using hge) (by simpa using hle)

end Cert.Fuse
-- ==== Proof.Assemble.lean ====
/-
  The certificate's claim, from the three runs.

  Each printed kernel's run ends with the result at the specification's fusion of the three arguments and the
  arguments unchanged, given the body obligation of one vector subcore; the reference's run ends the same way. The
  precondition says every selection word is 0 or 1, which is all the runs ask of the input. The three frames are the
  runs with the result's value dropped; the two idealized programs agree because both results are the same fusion of
  arguments that agree.
-/
import proofs.«207346_g72533407695360_cont_9to1_m_270_11_alg».proof.Defs
import proofs.«207346_g72533407695360_cont_9to1_m_270_11_alg».proof.Proof.KILaunch
import proofs.«207346_g72533407695360_cont_9to1_m_270_11_alg».proof.Proof.KBLaunch
import proofs.«207346_g72533407695360_cont_9to1_m_270_11_alg».proof.Proof.SelRange
import proofs.«207346_g72533407695360_cont_9to1_m_270_11_alg».proof.Proof.Gen.Pre_input_domain
import proofs.«207346_g72533407695360_cont_9to1_m_270_11_alg».proof.Proof.Gen.ReferenceIdeal

noncomputable section

namespace Cert.Proof.Assemble

open Idealize.ShloMosaic Idealize.SL.Sem

/-- Under the precondition every selection word of the idealized kernel's memory is 0 or 1. -/
theorem selOK_I (m : (ℓ : Loc Cert.KernelIdeal.nD Cert.KernelIdeal.τ Cert.KernelIdeal.sig) → Buf (Elt Ideal) ℓ) (h : Cert.Pre_KernelIdeal m) :
    Cert.Proof.KI.SelOK m := fun d => Cert.Fuse.sel_le_one _ _ _ (h d)

/-- The same of the kernel as printed. -/
theorem selOK_B (m : (ℓ : Loc Cert.Kernel.nD Cert.Kernel.τ Cert.Kernel.sig) → Buf (Elt Bits) ℓ) (h : Cert.Pre_Kernel m) :
    Cert.Proof.KB.SelOK m := fun d => Cert.Fuse.sel_le_one _ _ _ (h d)

theorem claim_of
    (hTI : ∀ (m : (ℓ : Loc Cert.KernelIdeal.nD Cert.KernelIdeal.τ Cert.KernelIdeal.sig) → Buf (Elt Ideal) ℓ), Cert.Proof.KI.SelOK m →
      (Cert.Proof.KI.K (F := Ideal)).TileObl (Cert.Proof.KI.D (F := Ideal)) Cert.Proof.KI.𝒱 (Cert.Proof.KI.P m) Cert.Proof.KI.v₀ 0)
    (hTB : ∀ (m : (ℓ : Loc Cert.Kernel.nD Cert.Kernel.τ Cert.Kernel.sig) → Buf (Elt Bits) ℓ), Cert.Proof.KB.SelOK m →
      (Cert.Proof.KB.K (F := Bits)).TileObl (Cert.Proof.KB.D (F := Bits)) Cert.Proof.KB.𝒱 (Cert.Proof.KB.P m) Cert.Proof.KB.v₀ 0)
    (hR : ∀ (m : (ℓ : Loc Cert.ReferenceIdeal.nD Cert.ReferenceIdeal.τ Cert.ReferenceIdeal.sig) → Buf (Elt Ideal) ℓ) (g : Dev Cert.ReferenceIdeal.nD → PrngReg),
      (∀ (c : Dev Cert.ReferenceIdeal.nD) j, ((m ((c.tc : Thread Cert.ReferenceIdeal.nD Cert.ReferenceIdeal.τ).loc Cert.ReferenceIdeal.main_arg2)) j).toNat ≤ 1) →
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
        r.2.mem ((c.tc : Thread Cert.ReferenceIdeal.nD Cert.ReferenceIdeal.τ).loc Cert.ReferenceIdeal.main_v2181) = Cert.Fuse.fused (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))) :
    Cert.Claim := by
  refine ⟨Cert.Kernel.Gen.facts, Cert.KernelIdeal.Gen.facts, Cert.ReferenceIdeal.Gen.facts, Cert.Pre_input_domain.Gen.facts, ?_, ?_, ?_, trivial, ?_⟩
  · -- the kernel as printed: its run, the result's value dropped
    intro m g hpre
    exact (θ_run _ _ _).mono (fun _ h c => ⟨(h c).2.1, (h c).2.2.1, (h c).2.2.2⟩) (Cert.Proof.KB.run_main (F := Bits) m g (hTB m (selOK_B m hpre)))
  · -- the idealized kernel: the same
    intro m g hpre
    exact (θ_run _ _ _).mono (fun _ h c => ⟨(h c).2.1, (h c).2.2.1, (h c).2.2.2⟩) (Cert.Proof.KI.run_main (F := Ideal) m g (hTI m (selOK_I m hpre)))
  · -- the reference: its run, the result's value dropped
    intro m g hpre
    exact (θ_run _ _ _).mono (fun _ h c => ⟨(h c).2.1, (h c).2.2.1, (h c).2.2.2⟩) (hR m g (fun c => Cert.Fuse.sel_le_one _ _ _ (hpre c)))
  · -- both idealized programs end at the same fusion of the arguments they agree on
    intro m g m' g' hpre hagree
    refine ⟨fun c => Cert.Proof.KI.fusedOf m c, ?_, ?_⟩
    · exact (θ_run _ _ _).mono (fun _ h c => h c) (Cert.Proof.KI.run_main (F := Ideal) m g (hTI m (selOK_I m hpre)))
    · have hsel' : ∀ (c : Dev Cert.ReferenceIdeal.nD) j, ((m' ((c.tc : Thread Cert.ReferenceIdeal.nD Cert.ReferenceIdeal.τ).loc Cert.ReferenceIdeal.main_arg2)) j).toNat ≤ 1 := by
        intro c j
        rw [(hagree c).2.2]
        exact selOK_I m hpre c j
      refine (θ_run _ _ _).mono (fun r h c => ?_) (hR m' g' hsel')
      obtain ⟨h1, h2, h3, h4⟩ := h c
      refine ⟨?_, h2, h3, h4⟩
      rw [h1, (hagree c).1, (hagree c).2.1, (hagree c).2.2]
      rfl

end Cert.Proof.Assemble

end
-- ==== Proof.KITile.lean ====
/-
  A vector subcore's own storage, named piece by piece: its seven DMA semaphores (three for the copies in, three
  for the copies out, one for the fetch of the selection words) and its seven scratch buffers (the sixteen
  selection words, three input slots, three output slots).
-/
import proofs.«207346_g72533407695360_cont_9to1_m_270_11_alg».proof.Proof.KIPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "smpV" => (Memref.whole Cert.KernelIdeal.main_arg0_scv : Memref Cert.KernelIdeal.sig Kind.scVector Space.hbm Cert.KernelIdeal.S16x1x512x512 EltTy.f32)
local notation "winV" => (Memref.whole Cert.KernelIdeal.main_arg1_scv : Memref Cert.KernelIdeal.sig Kind.scVector Space.hbm Cert.KernelIdeal.S16x4x1x512x512 EltTy.f32)
local notation "flatV" => (Memref.whole Cert.KernelIdeal.main_v0_scv : Memref Cert.KernelIdeal.sig Kind.scVector Space.hbm Cert.KernelIdeal.S128 EltTy.i32)
local notation "outV" => (Memref.whole Cert.KernelIdeal.main_v1_scv : Memref Cert.KernelIdeal.sig Kind.scVector Space.hbm Cert.KernelIdeal.S16x1x512x512 EltTy.f32)
local notation "selB" => (Memref.whole Cert.KernelIdeal.cc0_scratch0 : Memref Cert.KernelIdeal.sig Kind.scVector Space.vmem Cert.KernelIdeal.S16 EltTy.i32)
local notation "in0" => (Memref.whole Cert.KernelIdeal.cc0_scratch1 : Memref Cert.KernelIdeal.sig Kind.scVector Space.vmem Cert.KernelIdeal.S128x128 EltTy.f32)
local notation "in1" => (Memref.whole Cert.KernelIdeal.cc0_scratch2 : Memref Cert.KernelIdeal.sig Kind.scVector Space.vmem Cert.KernelIdeal.S128x128 EltTy.f32)
local notation "in2" => (Memref.whole Cert.KernelIdeal.cc0_scratch3 : Memref Cert.KernelIdeal.sig Kind.scVector Space.vmem Cert.KernelIdeal.S128x128 EltTy.f32)
local notation "ob0" => (Memref.whole Cert.KernelIdeal.cc0_scratch4 : Memref Cert.KernelIdeal.sig Kind.scVector Space.vmem Cert.KernelIdeal.S128x128 EltTy.f32)
local notation "ob1" => (Memref.whole Cert.KernelIdeal.cc0_scratch5 : Memref Cert.KernelIdeal.sig Kind.scVector Space.vmem Cert.KernelIdeal.S128x128 EltTy.f32)
local notation "ob2" => (Memref.whole Cert.KernelIdeal.cc0_scratch6 : Memref Cert.KernelIdeal.sig Kind.scVector Space.vmem Cert.KernelIdeal.S128x128 EltTy.f32)

section Tile
variable (d : Dev nD) (L : grid0.Coords)

/-- A DMA semaphore of the subcore at `L`, as a cell of the device. -/
abbrev tcell (s : DmaSems sig S_) : GSem nD τ sig := (V d (cV L) (jV L), .dma s.sem)

omit m ρ in
theorem tcell_ne {a b : DmaSem sig} (h : a ≠ b) : ((V d (cV L) (jV L), SemLoc.dma a) : GSem nD τ sig) ≠ (V d (cV L) (jV L), SemLoc.dma b) :=
  fun e => h (SemLoc.dma.inj (congrArg Prod.snd e))

variable [FloatOps F]

omit [FloatOps F] in
/-- The subcore's own semaphores at zero are its seven DMA semaphores at zero, and the rest. -/
theorem ownSems0_V :
    (ownSems0 (V d (cV L) (jV L)) : sProp 𝕄)
      = iprop(semVal (tcell d L cc0_scratch7) 0 ∗ semVal (tcell d L cc0_scratch8) 0 ∗ semVal (tcell d L cc0_scratch9) 0 ∗ semVal (tcell d L cc0_scratch10) 0 ∗ semVal (tcell d L cc0_scratch11) 0 ∗ semVal (tcell d L cc0_scratch12) 0 ∗ semVal (tcell d L cc0_scoped0) 0
          ∗ bigSep ((((((((ownCells (V d (cV L) (jV L))).erase (tcell d L cc0_scratch7)).erase (tcell d L cc0_scratch8)).erase (tcell d L cc0_scratch9)).erase (tcell d L cc0_scratch10)).erase (tcell d L cc0_scratch11)).erase (tcell d L cc0_scratch12)).erase (tcell d L cc0_scoped0)) fun g => semVal g 0) := by
  unfold SparseCore.Cfg.ownSems0
  rw [SparseCore.bigSep_erase' ((mem_ownCells (g := tcell d L cc0_scratch7)).mpr ⟨rfl, by show (SemLoc.dma cc0_scratch7.sem : SemLoc sig).isScoped .scVector = true; decide⟩),
    SparseCore.bigSep_erase' (Finset.mem_erase.mpr ⟨tcell_ne d L (by decide : (cc0_scratch8.sem : DmaSem sig) ≠ cc0_scratch7.sem), (mem_ownCells (g := tcell d L cc0_scratch8)).mpr ⟨rfl, by show (SemLoc.dma cc0_scratch8.sem : SemLoc sig).isScoped .scVector = true; decide⟩⟩),
    SparseCore.bigSep_erase' (Finset.mem_erase.mpr ⟨tcell_ne d L (by decide : (cc0_scratch9.sem : DmaSem sig) ≠ cc0_scratch8.sem), Finset.mem_erase.mpr ⟨tcell_ne d L (by decide : (cc0_scratch9.sem : DmaSem sig) ≠ cc0_scratch7.sem), (mem_ownCells (g := tcell d L cc0_scratch9)).mpr ⟨rfl, by show (SemLoc.dma cc0_scratch9.sem : SemLoc sig).isScoped .scVector = true; decide⟩⟩⟩),
    SparseCore.bigSep_erase' (Finset.mem_erase.mpr ⟨tcell_ne d L (by decide : (cc0_scratch10.sem : DmaSem sig) ≠ cc0_scratch9.sem), Finset.mem_erase.mpr ⟨tcell_ne d L (by decide : (cc0_scratch10.sem : DmaSem sig) ≠ cc0_scratch8.sem), Finset.mem_erase.mpr ⟨tcell_ne d L (by decide : (cc0_scratch10.sem : DmaSem sig) ≠ cc0_scratch7.sem), (mem_ownCells (g := tcell d L cc0_scratch10)).mpr ⟨rfl, by show (SemLoc.dma cc0_scratch10.sem : SemLoc sig).isScoped .scVector = true; decide⟩⟩⟩⟩),
    SparseCore.bigSep_erase' (Finset.mem_erase.mpr ⟨tcell_ne d L (by decide : (cc0_scratch11.sem : DmaSem sig) ≠ cc0_scratch10.sem), Finset.mem_erase.mpr ⟨tcell_ne d L (by decide : (cc0_scratch11.sem : DmaSem sig) ≠ cc0_scratch9.sem), Finset.mem_erase.mpr ⟨tcell_ne d L (by decide : (cc0_scratch11.sem : DmaSem sig) ≠ cc0_scratch8.sem), Finset.mem_erase.mpr ⟨tcell_ne d L (by decide : (cc0_scratch11.sem : DmaSem sig) ≠ cc0_scratch7.sem), (mem_ownCells (g := tcell d L cc0_scratch11)).mpr ⟨rfl, by show (SemLoc.dma cc0_scratch11.sem : SemLoc sig).isScoped .scVector = true; decide⟩⟩⟩⟩⟩),
    SparseCore.bigSep_erase' (Finset.mem_erase.mpr ⟨tcell_ne d L (by decide : (cc0_scratch12.sem : DmaSem sig) ≠ cc0_scratch11.sem), Finset.mem_erase.mpr ⟨tcell_ne d L (by decide : (cc0_scratch12.sem : DmaSem sig) ≠ cc0_scratch10.sem), Finset.mem_erase.mpr ⟨tcell_ne d L (by decide : (cc0_scratch12.sem : DmaSem sig) ≠ cc0_scratch9.sem), Finset.mem_erase.mpr ⟨tcell_ne d L (by decide : (cc0_scratch12.sem : DmaSem sig) ≠ cc0_scratch8.sem), Finset.mem_erase.mpr ⟨tcell_ne d L (by decide : (cc0_scratch12.sem : DmaSem sig) ≠ cc0_scratch7.sem), (mem_ownCells (g := tcell d L cc0_scratch12)).mpr ⟨rfl, by show (SemLoc.dma cc0_scratch12.sem : SemLoc sig).isScoped .scVector = true; decide⟩⟩⟩⟩⟩⟩),
    SparseCore.bigSep_erase' (Finset.mem_erase.mpr ⟨tcell_ne d L (by decide : (cc0_scoped0.sem : DmaSem sig) ≠ cc0_scratch12.sem), Finset.mem_erase.mpr ⟨tcell_ne d L (by decide : (cc0_scoped0.sem : DmaSem sig) ≠ cc0_scratch11.sem), Finset.mem_erase.mpr ⟨tcell_ne d L (by decide : (cc0_scoped0.sem : DmaSem sig) ≠ cc0_scratch10.sem), Finset.mem_erase.mpr ⟨tcell_ne d L (by decide : (cc0_scoped0.sem : DmaSem sig) ≠ cc0_scratch9.sem), Finset.mem_erase.mpr ⟨tcell_ne d L (by decide : (cc0_scoped0.sem : DmaSem sig) ≠ cc0_scratch8.sem), Finset.mem_erase.mpr ⟨tcell_ne d L (by decide : (cc0_scoped0.sem : DmaSem sig) ≠ cc0_scratch7.sem), (mem_ownCells (g := tcell d L cc0_scoped0)).mpr ⟨rfl, by show (SemLoc.dma cc0_scoped0.sem : SemLoc sig).isScoped .scVector = true; decide⟩⟩⟩⟩⟩⟩⟩)]

omit [FloatOps F] in
/-- The subcore's own buffers are its seven scratch buffers, each whole at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

omit [FloatOps F] m ρ in
/-- An array held whole when a condition holds, and but for a window when it fails, is held but for a hole that is
    the window exactly when the condition fails. -/
theorem guarded_hole {C : Prop} [Decidable C] (ℓ : Loc nD τ sig) (q : PosShare TreeShare) (f : Buf (Elt F) ℓ) (R : ¬C → Finset (Idx ℓ)) :
    (Guarded C (fun _ => (ℓ ↦{q} f : sProp 𝕄)) (fun hn => ℓ ↦[Finset.univ \ R hn]{q} f))
      = ℓ ↦[Finset.univ \ gset (¬C) (fun h => R h)]{q} f := by
  by_cases h : C
  · rw [Guarded.pos h, gset.neg (not_not_intro h), Finset.sdiff_empty]
  · rw [Guarded.neg h, gset.pos h]

omit [FloatOps F] m ρ in
theorem bigSep_fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide),
    bigSep_singleton]

omit [FloatOps F] m ρ in
/-- A read share is three read tokens, one per input semaphore, and what is left. -/
theorem toks3 {ℓ : Loc nD τ sig} (q : PosShare TreeShare) (f : Buf (Elt F) ℓ) :
    (ℓ ↦{q} f : sProp 𝕄) ⊣⊢ iprop((ℓ ↦{Transfers.shareDrop q 3} f) ∗ (ℓ ↦{Transfers.shareTok q 3 0} f) ∗ (ℓ ↦{Transfers.shareTok q 3 1} f)
      ∗ ℓ ↦{Transfers.shareTok q 3 2} f) := by
  have h : (ℓ ↦{q} f : sProp 𝕄) ⊣⊢ _ := Transfers.pointsTo_toks (ℓ := ℓ) (S := Finset.univ) (f := f) q 3
  rw [bigSep_fin3] at h
  exact h
omit [FloatOps F] m ρ in
theorem toks3_split {ℓ : Loc nD τ sig} (q : PosShare TreeShare) (f : Buf (Elt F) ℓ) :
    (ℓ ↦{q} f : sProp 𝕄) ⊢ iprop((ℓ ↦{Transfers.shareDrop q 3} f) ∗ (ℓ ↦{Transfers.shareTok q 3 0} f) ∗ (ℓ ↦{Transfers.shareTok q 3 1} f)
      ∗ ℓ ↦{Transfers.shareTok q 3 2} f) := (toks3 q f).1
omit [FloatOps F] m ρ in
theorem toks3_join {ℓ : Loc nD τ sig} (q : PosShare TreeShare) (f : Buf (Elt F) ℓ) :
    iprop((ℓ ↦{Transfers.shareDrop q 3} f) ∗ (ℓ ↦{Transfers.shareTok q 3 0} f) ∗ (ℓ ↦{Transfers.shareTok q 3 1} f)
      ∗ ℓ ↦{Transfers.shareTok q 3 2} f) ⊢ (ℓ ↦{q} f : sProp 𝕄) := (toks3 q f).2

omit [FloatOps F] m ρ in
/-- After a copy-in's wait. The copy took its block from one of two arrays by a condition nobody decided: what
    the wait hands back is, either way, the slot written and the lent window; put beside what was kept of the two
    arrays, the slot holds the one or the other contents and both arrays are whole again. -/
theorem settle_in {C : Prop} [Decidable C] {ℓi ℓs ℓw : Loc nD τ sig} (q : PosShare TreeShare)
    (A : C → Buf (Elt F) ℓi) (B : ¬C → Buf (Elt F) ℓi) (fs : Buf (Elt F) ℓs) (fw : Buf (Elt F) ℓw)
    (Rs : C → Finset (Idx ℓs)) (Rw : ¬C → Finset (Idx ℓw)) :
    iprop((if hc : C then iprop((ℓi ↦{fullShare} A hc) ∗ ℓs ↦[Rs hc]{q} fs) else iprop((ℓi ↦{fullShare} B hc) ∗ ℓw ↦[Rw hc]{q} fw))
        ∗ (ℓs ↦[Finset.univ \ gset C Rs]{q} fs)
        ∗ Guarded C (fun _ => (ℓw ↦{q} fw : sProp 𝕄)) (fun hn => ℓw ↦[Finset.univ \ Rw hn]{q} fw))
      ⊢ (iprop((∃ fin, ⌜fin = dite C A B⌝ ∗ ℓi ↦{fullShare} fin) ∗ (ℓs ↦{q} fs) ∗ (ℓw ↦{q} fw)) : sProp 𝕄) := by
  by_cases h : C
  · rw [dif_pos h, gset.pos h, Guarded.pos h]
    iintro ⟨⟨Hi, Hs⟩, Hr, Hw⟩
    isplitl [Hi]; · iexists _; isplitr; · ipureintro; exact (dif_pos h).symm
                    iexact Hi
    isplitl [Hs Hr]
    · iapply (pointsTo_split_subset (q := q) (f := fs) (S := Finset.univ) (Finset.subset_univ (Rs h))).2
      isplitl [Hs] <;> iassumption
    · iexact Hw
  · rw [dif_neg h, gset.neg h, Guarded.neg h, Finset.sdiff_empty]
    iintro ⟨⟨Hi, Hw⟩, Hs, Hr⟩
    isplitl [Hi]; · iexists _; isplitr; · ipureintro; exact (dif_neg h).symm
                    iexact Hi
    isplitl [Hs]; · iexact Hs
    iapply (pointsTo_split_subset (q := q) (f := fw) (S := Finset.univ) (Finset.subset_univ (Rw h))).2
    isplitl [Hw] <;> iassumption

/-! ### The arrays as the subcore's memrefs address them -/

omit [FloatOps F] in
theorem pts_smp (q : PosShare TreeShare) (f : Buf (Elt F) (smpLoc d)) :
    ((smpV).view.loc (V d (cV L) (jV L)) ↦{q} f : sProp 𝕄) = smpLoc d ↦{q} f := rfl
omit [FloatOps F] in
theorem pts_win (q : PosShare TreeShare) (f : Buf (Elt F) (winLoc d)) :
    ((winV).view.loc (V d (cV L) (jV L)) ↦{q} f : sProp 𝕄) = winLoc d ↦{q} f := rfl
omit [FloatOps F] in
theorem pts_flat (q : PosShare TreeShare) (f : Buf (Elt F) (flatLoc d)) :
    ((flatV).view.loc (V d (cV L) (jV L)) ↦{q} f : sProp 𝕄) = flatLoc d ↦{q} f := rfl
omit [FloatOps F] in
theorem pts_selB (f : Buf (Elt F) ((V d (cV L) (jV L)).loc cc0_scratch0)) :
    ((selB).view.loc (V d (cV L) (jV L)) ↦{fullShare} f : sProp 𝕄) = (V d (cV L) (jV L)).loc cc0_scratch0 ↦{fullShare} f := rfl
omit [FloatOps F] in
theorem pts_in0 (f : Buf (Elt F) ((V d (cV L) (jV L)).loc cc0_scratch1)) :
    ((in0).view.loc (V d (cV L) (jV L)) ↦{fullShare} f : sProp 𝕄) = (V d (cV L) (jV L)).loc cc0_scratch1 ↦{fullShare} f := rfl
omit [FloatOps F] in
theorem pts_in1 (f : Buf (Elt F) ((V d (cV L) (jV L)).loc cc0_scratch2)) :
    ((in1).view.loc (V d (cV L) (jV L)) ↦{fullShare} f : sProp 𝕄) = (V d (cV L) (jV L)).loc cc0_scratch2 ↦{fullShare} f := rfl
omit [FloatOps F] in
theorem pts_in2 (f : Buf (Elt F) ((V d (cV L) (jV L)).loc cc0_scratch3)) :
    ((in2).view.loc (V d (cV L) (jV L)) ↦{fullShare} f : sProp 𝕄) = (V d (cV L) (jV L)).loc cc0_scratch3 ↦{fullShare} f := rfl
omit [FloatOps F] in
theorem pts_ob0 (f : Buf (Elt F) ((V d (cV L) (jV L)).loc cc0_scratch4)) :
    ((ob0).view.loc (V d (cV L) (jV L)) ↦{fullShare} f : sProp 𝕄) = (V d (cV L) (jV L)).loc cc0_scratch4 ↦{fullShare} f := rfl
omit [FloatOps F] in
theorem pts_ob1 (f : Buf (Elt F) ((V d (cV L) (jV L)).loc cc0_scratch5)) :
    ((ob1).view.loc (V d (cV L) (jV L)) ↦{fullShare} f : sProp 𝕄) = (V d (cV L) (jV L)).loc cc0_scratch5 ↦{fullShare} f := rfl
omit [FloatOps F] in
theorem pts_ob2 (f : Buf (Elt F) ((V d (cV L) (jV L)).loc cc0_scratch6)) :
    ((ob2).view.loc (V d (cV L) (jV L)) ↦{fullShare} f : sProp 𝕄) = (V d (cV L) (jV L)).loc cc0_scratch6 ↦{fullShare} f := rfl

/-- A result tile as the subcore's copy-out addresses it. -/
abbrev outPt (t : Fin 8) (f : Buf (Elt F) (outLoc d)) : sProp 𝕄 :=
  (outTile L t).view.loc (V d (cV L) (jV L)) ↦[(outTile L t).view.set]{fullShare} f

omit [FloatOps F] in
/-- The eight tiles, one by one. -/
theorem outTiles_eq (f : Buf (Elt F) (outLoc d)) :
    (outTiles d L f : sProp 𝕄)
      = iprop(outPt d L 0 f ∗ outPt d L 1 f ∗ outPt d L 2 f ∗ outPt d L 3 f ∗ outPt d L 4 f ∗ outPt d L 5 f ∗ outPt d L 6 f ∗ outPt d L 7 f) := by
  unfold outTiles
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] m ρ in
/-- A result tile written whole by one payload holds, on the tile, any contents the payload agrees with there. -/
theorem out_settle (t : Fin 8) (base g : Buf (Elt F) (outLoc d)) (w : S128x128.Idx → Elt F .f32)
    (h : ∀ y : S128x128.Idx, w y = g ((outTile L t).view.emb y)) :
    ((outTile L t).view.loc (V d (cV L) (jV L)) ↦[(outTile L t).view.set]{fullShare}
        (outTile L t).view.writes (Elt F) base [⟨Rect.whole S128x128, w⟩] : sProp 𝕄) ⊢ outPt d L t g := by
  unfold outPt
  refine Entails.of_eq (pointsTo_congr fun i hi => ?_)
  obtain ⟨y, -, rfl⟩ := Finset.mem_map.mp hi
  rw [← h y]
  have e := View.read_writes_cons_emb (outTile L t).view base (Rect.whole S128x128) w [] y
  rw [View.read_apply, Rect.emb_whole_apply] at e
  exact e

/-- The sigmoid loop on slot 0, after `k` trips: the input slot as it was, and the output slot's rows below `2k`
    holding the logistic function of the input slot's. -/
def sigInv0 (fin : Buf (Elt F) ((V d (cV L) (jV L)).loc cc0_scratch1)) (k : ℕ) (_ : PUnit) : sProp 𝕄 :=
  iprop(((in0).view.loc (V d (cV L) (jV L)) ↦{fullShare} fin)
    ∗ ∃ f : Buf (Elt F) ((V d (cV L) (jV L)).loc cc0_scratch4), ((ob0).view.loc (V d (cV L) (jV L)) ↦{fullShare} f)
        ∗ ⌜∀ y : S128x128.Idx, (y 0).val < 2 * k → (f : FVec F S128x128 .f32) y = Cert.Fuse.logistic ((fin : FVec F S128x128 .f32) y)⌝)

/-- The sigmoid loop on slot 1, after `k` trips: the input slot as it was, and the output slot's rows below `2k`
    holding the logistic function of the input slot's. -/
def sigInv1 (fin : Buf (Elt F) ((V d (cV L) (jV L)).loc cc0_scratch2)) (k : ℕ) (_ : PUnit) : sProp 𝕄 :=
  iprop(((in1).view.loc (V d (cV L) (jV L)) ↦{fullShare} fin)
    ∗ ∃ f : Buf (Elt F) ((V d (cV L) (jV L)).loc cc0_scratch5), ((ob1).view.loc (V d (cV L) (jV L)) ↦{fullShare} f)
        ∗ ⌜∀ y : S128x128.Idx, (y 0).val < 2 * k → (f : FVec F S128x128 .f32) y = Cert.Fuse.logistic ((fin : FVec F S128x128 .f32) y)⌝)

/-- The sigmoid loop on slot 2, after `k` trips: the input slot as it was, and the output slot's rows below `2k`
    holding the logistic function of the input slot's. -/
def sigInv2 (fin : Buf (Elt F) ((V d (cV L) (jV L)).loc cc0_scratch3)) (k : ℕ) (_ : PUnit) : sProp 𝕄 :=
  iprop(((in2).view.loc (V d (cV L) (jV L)) ↦{fullShare} fin)
    ∗ ∃ f : Buf (Elt F) ((V d (cV L) (jV L)).loc cc0_scratch6), ((ob2).view.loc (V d (cV L) (jV L)) ↦{fullShare} f)
        ∗ ⌜∀ y : S128x128.Idx, (y 0).val < 2 * k → (f : FVec F S128x128 .f32) y = Cert.Fuse.logistic ((fin : FVec F S128x128 .f32) y)⌝)

end Tile

end Cert.Proof.KI

end
-- ==== Proof.KIChk.lean ====
/-
  The copy into an input slot takes its 128 × 128 block from one of the four refined maps of the image when some window
  covers the tile, and from the sampling map otherwise. The block's image, row and column are the tile's own, whichever
  array it comes from; the refined map's number is the last covering window, read off a chain of four selects that ends
  in -1, and the copy is made only when that number is not negative: then it is at most 3. So every such block lies
  inside the refined maps, whatever the selection words are.
-/
import proofs.«207346_g72533407695360_cont_9to1_m_270_11_alg».proof.Proof.Gen.KernelIdeal

noncomputable section

namespace Cert.Proof.KI

open Cert.KernelIdeal Cert.KernelIdeal.Gen Idealize.ShloMosaic

/-- The last of four windows that covers a tile, as a chain of selects: 3, else 2, else 1, else 0, else -1. -/
def sel4 (c0 c1 c2 c3 : BitVec 1) : BitVec 32 :=
  Scalar.select c3 3#32 (Scalar.select c2 2#32 (Scalar.select c1 1#32 (Scalar.select c0 0#32 4294967295#32)))
/-- "Not negative", as the body tests it. -/
def nonneg (x : BitVec 32) : BitVec 1 := Scalar.cmpi .ne (Scalar.extui (Scalar.cmpi .sge x 0#32) : BitVec 32) 0#32

/-- "Negative", as the body tests it. -/
def isneg (x : BitVec 32) : BitVec 1 := Scalar.cmpi .ne (Scalar.extui (Scalar.cmpi .slt x 0#32) : BitVec 32) 0#32

/-- A one-bit comparison result, widened and compared with zero, is one exactly when the comparison held. -/
theorem bit_of (b : Bool) : (Scalar.cmpi .ne (Scalar.extui (BitVec.ofBool b) : BitVec 32) 0#32 = 1#1) ↔ b = true := by
  cases b <;> decide

/-- A word is negative exactly when it is not "not negative": the two tests read the same sign. -/
theorem isneg_iff (x : BitVec 32) : isneg x = 1#1 ↔ ¬ nonneg x = 1#1 := by
  unfold isneg nonneg
  rw [show Scalar.cmpi .slt x 0#32 = BitVec.ofBool (x.slt 0#32) from rfl,
    show Scalar.cmpi .sge x 0#32 = BitVec.ofBool ((0#32).sle x) from rfl, bit_of, bit_of]
  simp only [BitVec.slt, BitVec.sle, decide_eq_true_eq]
  omega
theorem nonneg_iff (x : BitVec 32) : nonneg x = 1#1 ↔ ¬ isneg x = 1#1 := by
  rw [isneg_iff]; exact not_not.symm

/-- A window number that is not negative is at most 3. -/
theorem sel4_lt : ∀ c0 c1 c2 c3 : BitVec 1, nonneg (sel4 c0 c1 c2 c3) = 1#1 → (sel4 c0 c1 c2 c3).toNat + 1 ≤ 4 := by decide
/-- The chain's value is one of -1, 0, 1, 2, 3, by which select fires last. -/
theorem sel4_cases : ∀ c0 c1 c2 c3 : BitVec 1, sel4 c0 c1 c2 c3 =
    if c3 = 1#1 then 3#32 else if c2 = 1#1 then 2#32 else if c1 = 1#1 then 1#32 else if c0 = 1#1 then 0#32 else 4294967295#32 := by decide

/-- Tile 0: the refined-map block's offsets are the sampling-map block's with the window number put in, and the
    copy's condition is that the number is not negative. -/
theorem off2_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off2 i v62 v64 v69 v71 v76 v78 v83 v85 v90 v92 v97 v99 v104 v106 v111 v113 = ![(k0_off3 i) 0, (sel4 c0 c1 c2 c3).toNat, 0, (k0_off3 i) 2, (k0_off3 i) 3]
      ∧ k0_cond1 i v62 v64 v69 v71 v76 v78 v83 v85 v90 v92 v97 v99 v104 v106 v111 v113 = nonneg (sel4 c0 c1 c2 c3) :=
  ⟨_, _, _, _, rfl, rfl⟩

theorem off2_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond1 i v62 v64 v69 v71 v76 v78 v83 v85 v90 v92 v97 v99 v104 v106 v111 v113 = 1#1) :
    ∀ a, (k0_off2 i v62 v64 v69 v71 v76 v78 v83 v85 v90 v92 v97 v99 v104 v106 v111 v113) a + S1x1x1x128x128.size a ≤ S16x4x1x512x512.size a := by
  obtain ⟨c0, c1, c2, c3, ho, hc⟩ := off2_shape i v62 v64 v69 v71 v76 v78 v83 v85 v90 v92 v97 v99 v104 v106 v111 v113
  rw [hc] at h
  have h3 := k0_off3_inb i
  have hk := sel4_lt c0 c1 c2 c3 h
  intro a
  rw [ho]
  fin_cases a
  · exact h3 0
  · exact hk
  · exact Nat.le_refl 1
  · exact h3 2
  · exact h3 3

/-- Tile 1: the refined-map block's offsets are the sampling-map block's with the window number put in, and the
    copy's condition is that the number is not negative. -/
theorem off4_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off4 i v62 v64 v69 v71 v76 v78 v83 v85 v90 v92 v97 v99 v104 v106 v111 v113 = ![(k0_off5 i) 0, (sel4 c0 c1 c2 c3).toNat, 0, (k0_off5 i) 2, (k0_off5 i) 3]
      ∧ k0_cond3 i v62 v64 v69 v71 v76 v78 v83 v85 v90 v92 v97 v99 v104 v106 v111 v113 = nonneg (sel4 c0 c1 c2 c3) :=
  ⟨_, _, _, _, rfl, rfl⟩

theorem off4_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond3 i v62 v64 v69 v71 v76 v78 v83 v85 v90 v92 v97 v99 v104 v106 v111 v113 = 1#1) :
    ∀ a, (k0_off4 i v62 v64 v69 v71 v76 v78 v83 v85 v90 v92 v97 v99 v104 v106 v111 v113) a + S1x1x1x128x128.size a ≤ S16x4x1x512x512.size a := by
  obtain ⟨c0, c1, c2, c3, ho, hc⟩ := off4_shape i v62 v64 v69 v71 v76 v78 v83 v85 v90 v92 v97 v99 v104 v106 v111 v113
  rw [hc] at h
  have h3 := k0_off5_inb i
  have hk := sel4_lt c0 c1 c2 c3 h
  intro a
  rw [ho]
  fin_cases a
  · exact h3 0
  · exact hk
  · exact Nat.le_refl 1
  · exact h3 2
  · exact h3 3

/-- Tile 2: the refined-map block's offsets are the sampling-map block's with the window number put in, and the
    copy's condition is that the number is not negative. -/
theorem off6_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off6 i v62 v64 v69 v71 v76 v78 v83 v85 v90 v92 v97 v99 v104 v106 v111 v113 = ![(k0_off7 i) 0, (sel4 c0 c1 c2 c3).toNat, 0, (k0_off7 i) 2, (k0_off7 i) 3]
      ∧ k0_cond5 i v62 v64 v69 v71 v76 v78 v83 v85 v90 v92 v97 v99 v104 v106 v111 v113 = nonneg (sel4 c0 c1 c2 c3) :=
  ⟨_, _, _, _, rfl, rfl⟩

theorem off6_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond5 i v62 v64 v69 v71 v76 v78 v83 v85 v90 v92 v97 v99 v104 v106 v111 v113 = 1#1) :
    ∀ a, (k0_off6 i v62 v64 v69 v71 v76 v78 v83 v85 v90 v92 v97 v99 v104 v106 v111 v113) a + S1x1x1x128x128.size a ≤ S16x4x1x512x512.size a := by
  obtain ⟨c0, c1, c2, c3, ho, hc⟩ := off6_shape i v62 v64 v69 v71 v76 v78 v83 v85 v90 v92 v97 v99 v104 v106 v111 v113
  rw [hc] at h
  have h3 := k0_off7_inb i
  have hk := sel4_lt c0 c1 c2 c3 h
  intro a
  rw [ho]
  fin_cases a
  · exact h3 0
  · exact hk
  · exact Nat.le_refl 1
  · exact h3 2
  · exact h3 3

/-- Tile 3: the refined-map block's offsets are the sampling-map block's with the window number put in, and the
    copy's condition is that the number is not negative. -/
theorem off17_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off17 i v62 v64 v69 v71 v76 v78 v83 v85 v90 v92 v97 v99 v104 v106 v111 v113 = ![(k0_off18 i) 0, (sel4 c0 c1 c2 c3).toNat, 0, (k0_off18 i) 2, (k0_off18 i) 3]
      ∧ k0_cond7 i v62 v64 v69 v71 v76 v78 v83 v85 v90 v92 v97 v99 v104 v106 v111 v113 = nonneg (sel4 c0 c1 c2 c3) :=
  ⟨_, _, _, _, rfl, rfl⟩

theorem off17_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond7 i v62 v64 v69 v71 v76 v78 v83 v85 v90 v92 v97 v99 v104 v106 v111 v113 = 1#1) :
    ∀ a, (k0_off17 i v62 v64 v69 v71 v76 v78 v83 v85 v90 v92 v97 v99 v104 v106 v111 v113) a + S1x1x1x128x128.size a ≤ S16x4x1x512x512.size a := by
  obtain ⟨c0, c1, c2, c3, ho, hc⟩ := off17_shape i v62 v64 v69 v71 v76 v78 v83 v85 v90 v92 v97 v99 v104 v106 v111 v113
  rw [hc] at h
  have h3 := k0_off18_inb i
  have hk := sel4_lt c0 c1 c2 c3 h
  intro a
  rw [ho]
  fin_cases a
  · exact h3 0
  · exact hk
  · exact Nat.le_refl 1
  · exact h3 2
  · exact h3 3

/-- Tile 4: the refined-map block's offsets are the sampling-map block's with the window number put in, and the
    copy's condition is that the number is not negative. -/
theorem off27_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off27 i v62 v64 v69 v71 v76 v78 v83 v85 v90 v92 v97 v99 v104 v106 v111 v113 = ![(k0_off28 i) 0, (sel4 c0 c1 c2 c3).toNat, 0, (k0_off28 i) 2, (k0_off28 i) 3]
      ∧ k0_cond9 i v62 v64 v69 v71 v76 v78 v83 v85 v90 v92 v97 v99 v104 v106 v111 v113 = nonneg (sel4 c0 c1 c2 c3) :=
  ⟨_, _, _, _, rfl, rfl⟩

theorem off27_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond9 i v62 v64 v69 v71 v76 v78 v83 v85 v90 v92 v97 v99 v104 v106 v111 v113 = 1#1) :
    ∀ a, (k0_off27 i v62 v64 v69 v71 v76 v78 v83 v85 v90 v92 v97 v99 v104 v106 v111 v113) a + S1x1x1x128x128.size a ≤ S16x4x1x512x512.size a := by
  obtain ⟨c0, c1, c2, c3, ho, hc⟩ := off27_shape i v62 v64 v69 v71 v76 v78 v83 v85 v90 v92 v97 v99 v104 v106 v111 v113
  rw [hc] at h
  have h3 := k0_off28_inb i
  have hk := sel4_lt c0 c1 c2 c3 h
  intro a
  rw [ho]
  fin_cases a
  · exact h3 0
  · exact hk
  · exact Nat.le_refl 1
  · exact h3 2
  · exact h3 3

/-- Tile 5: the refined-map block's offsets are the sampling-map block's with the window number put in, and the
    copy's condition is that the number is not negative. -/
theorem off37_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off37 i v62 v64 v69 v71 v76 v78 v83 v85 v90 v92 v97 v99 v104 v106 v111 v113 = ![(k0_off38 i) 0, (sel4 c0 c1 c2 c3).toNat, 0, (k0_off38 i) 2, (k0_off38 i) 3]
      ∧ k0_cond11 i v62 v64 v69 v71 v76 v78 v83 v85 v90 v92 v97 v99 v104 v106 v111 v113 = nonneg (sel4 c0 c1 c2 c3) :=
  ⟨_, _, _, _, rfl, rfl⟩

theorem off37_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond11 i v62 v64 v69 v71 v76 v78 v83 v85 v90 v92 v97 v99 v104 v106 v111 v113 = 1#1) :
    ∀ a, (k0_off37 i v62 v64 v69 v71 v76 v78 v83 v85 v90 v92 v97 v99 v104 v106 v111 v113) a + S1x1x1x128x128.size a ≤ S16x4x1x512x512.size a := by
  obtain ⟨c0, c1, c2, c3, ho, hc⟩ := off37_shape i v62 v64 v69 v71 v76 v78 v83 v85 v90 v92 v97 v99 v104 v106 v111 v113
  rw [hc] at h
  have h3 := k0_off38_inb i
  have hk := sel4_lt c0 c1 c2 c3 h
  intro a
  rw [ho]
  fin_cases a
  · exact h3 0
  · exact hk
  · exact Nat.le_refl 1
  · exact h3 2
  · exact h3 3

/-- Tile 6: the refined-map block's offsets are the sampling-map block's with the window number put in, and the
    copy's condition is that the number is not negative. -/
theorem off47_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off47 i v62 v64 v69 v71 v76 v78 v83 v85 v90 v92 v97 v99 v104 v106 v111 v113 = ![(k0_off48 i) 0, (sel4 c0 c1 c2 c3).toNat, 0, (k0_off48 i) 2, (k0_off48 i) 3]
      ∧ k0_cond13 i v62 v64 v69 v71 v76 v78 v83 v85 v90 v92 v97 v99 v104 v106 v111 v113 = nonneg (sel4 c0 c1 c2 c3) :=
  ⟨_, _, _, _, rfl, rfl⟩

theorem off47_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond13 i v62 v64 v69 v71 v76 v78 v83 v85 v90 v92 v97 v99 v104 v106 v111 v113 = 1#1) :
    ∀ a, (k0_off47 i v62 v64 v69 v71 v76 v78 v83 v85 v90 v92 v97 v99 v104 v106 v111 v113) a + S1x1x1x128x128.size a ≤ S16x4x1x512x512.size a := by
  obtain ⟨c0, c1, c2, c3, ho, hc⟩ := off47_shape i v62 v64 v69 v71 v76 v78 v83 v85 v90 v92 v97 v99 v104 v106 v111 v113
  rw [hc] at h
  have h3 := k0_off48_inb i
  have hk := sel4_lt c0 c1 c2 c3 h
  intro a
  rw [ho]
  fin_cases a
  · exact h3 0
  · exact hk
  · exact Nat.le_refl 1
  · exact h3 2
  · exact h3 3

/-- Tile 7: the refined-map block's offsets are the sampling-map block's with the window number put in, and the
    copy's condition is that the number is not negative. -/
theorem off57_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off57 i v62 v64 v69 v71 v76 v78 v83 v85 v90 v92 v97 v99 v104 v106 v111 v113 = ![(k0_off58 i) 0, (sel4 c0 c1 c2 c3).toNat, 0, (k0_off58 i) 2, (k0_off58 i) 3]
      ∧ k0_cond15 i v62 v64 v69 v71 v76 v78 v83 v85 v90 v92 v97 v99 v104 v106 v111 v113 = nonneg (sel4 c0 c1 c2 c3) :=
  ⟨_, _, _, _, rfl, rfl⟩

theorem off57_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond15 i v62 v64 v69 v71 v76 v78 v83 v85 v90 v92 v97 v99 v104 v106 v111 v113 = 1#1) :
    ∀ a, (k0_off57 i v62 v64 v69 v71 v76 v78 v83 v85 v90 v92 v97 v99 v104 v106 v111 v113) a + S1x1x1x128x128.size a ≤ S16x4x1x512x512.size a := by
  obtain ⟨c0, c1, c2, c3, ho, hc⟩ := off57_shape i v62 v64 v69 v71 v76 v78 v83 v85 v90 v92 v97 v99 v104 v106 v111 v113
  rw [hc] at h
  have h3 := k0_off58_inb i
  have hk := sel4_lt c0 c1 c2 c3 h
  intro a
  rw [ho]
  fin_cases a
  · exact h3 0
  · exact hk
  · exact Nat.le_refl 1
  · exact h3 2
  · exact h3 3

/-- The body's check of its copies' blocks holds of every sixteen words. -/
theorem chk_all (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : k0_chk1 i v62 v64 v69 v71 v76 v78 v83 v85 v90 v92 v97 v99 v104 v106 v111 v113 :=
  ⟨off2_inb i v62 v64 v69 v71 v76 v78 v83 v85 v90 v92 v97 v99 v104 v106 v111 v113,
    off4_inb i v62 v64 v69 v71 v76 v78 v83 v85 v90 v92 v97 v99 v104 v106 v111 v113,
    off6_inb i v62 v64 v69 v71 v76 v78 v83 v85 v90 v92 v97 v99 v104 v106 v111 v113,
    off17_inb i v62 v64 v69 v71 v76 v78 v83 v85 v90 v92 v97 v99 v104 v106 v111 v113,
    off27_inb i v62 v64 v69 v71 v76 v78 v83 v85 v90 v92 v97 v99 v104 v106 v111 v113,
    off37_inb i v62 v64 v69 v71 v76 v78 v83 v85 v90 v92 v97 v99 v104 v106 v111 v113,
    off47_inb i v62 v64 v69 v71 v76 v78 v83 v85 v90 v92 v97 v99 v104 v106 v111 v113,
    off57_inb i v62 v64 v69 v71 v76 v78 v83 v85 v90 v92 v97 v99 v104 v106 v111 v113⟩

end Cert.Proof.KI

end
-- ==== Proof.KIPick.lean ====
/-
  Which array a tile is copied in from, read off the selection.

  The subcore at a place fetches the sixteen words of the flattened selection that belong to its image's pair of
  images; the image's own eight are the upper or the lower half, by the image's parity. For window `k` they hold a
  start tile row and a start tile column, each 0 or 1 (clipping changes nothing). A tile (row `ti`, column `tj` of
  the 4 × 4 grid) is covered by window `k` when it lies within three tiles of the start along both axes; the body
  computes the four cover bits, takes the last window that covers, else -1, and copies from that window's refined map
  when the number is not negative, from the sampling map otherwise. That is the specification's `tileSource`.

  Every printed function here takes all sixteen words. Its dependence on the place alone (the tile's row, its column,
  the image's parity) is separated from its dependence on the words by matching the printed chain against the shape
  above: the three place-only terms are read off the match and then computed over the thirty-two places.
-/
import proofs.«207346_g72533407695360_cont_9to1_m_270_11_alg».proof.Proof.KIPay
import proofs.«207346_g72533407695360_cont_9to1_m_270_11_alg».proof.Proof.KIChk
import Idealize.ShloMosaic.Lib.Pipeline.Value

-- one closed form at a time: each is a computation over every place of the grid
set_option Elab.async false

noncomputable section

namespace Cert.Proof.KI

open Cert.KernelIdeal Cert.KernelIdeal.Gen Idealize.ShloMosaic Idealize.ShloMosaic.ValueIdx

/-! ## The flattened selection, and the sixteen words a subcore fetches -/

/-- The flattened selection at row-major position `8 b + 2 k + a` is the selection at `(b, k, a)`. -/
theorem flatOf_at (sel : IVec S16x4x2 32) (n : Fin 128) (b' : Fin 16) (k : Fin 4) (a : Fin 2) (h : n.val = 8 * b'.val + 2 * k.val + a.val) :
    (flatOf sel : IVec S128 32) (ix1 n) = sel (ix3 b' k a) := by
  unfold flatOf
  refine shapeCast_apply sel shapeCasts_S16x4x2_S128 (ix1 n) (ix3 b' k a) ?_
  rw [Shape.rowMajor_val_three, Shape.rowMajor_val_one]
  show (b'.val * 4 + k.val) * 2 + a.val = n.val
  omega

theorem flatOf_apply (sel : IVec S16x4x2 32) (b' : Fin 16) (k : Fin 4) (a : Fin 2) :
    (flatOf sel : IVec S128 32) (ix1 ⟨8 * b'.val + 2 * k.val + a.val, by have := b'.isLt; have := k.isLt; have := a.isLt; omega⟩) = sel (ix3 b' k a) :=
  flatOf_at sel _ b' k a rfl

theorem lane_lt (L : grid0.Coords) (l : Fin 16) : 16 * ((L 1).val / 2) + l.val < 128 := by
  have h : (L 1).val < 16 := (L 1).isLt
  have := l.isLt
  omega

/-- Lane `l` of the sixteen words the subcore at `L` fetches. -/
def lane (sel : IVec S16x4x2 32) (L : grid0.Coords) (l : Fin 16) : BitVec 32 :=
  (flatOf sel : IVec S128 32) (ValueIdx.ix1 ⟨16 * ((L 1).val / 2) + l.val, lane_lt L l⟩)

/-- The fetch starts at the image pair's sixteen words. -/
theorem off1_eq : ∀ L : grid0.Coords, k0_off1 L = ![16 * ((L 1).val / 2)] := by decide +kernel

/-- Of an upper and a lower lane for window `k` and axis `a`, the image's parity picks the image's own word. -/
theorem lane_select (sel : IVec S16x4x2 32) (L : grid0.Coords) (k : Fin 4) (a : Fin 2) (hi lo : Fin 16)
    (hhi : hi.val = 8 + 2 * k.val + a.val) (hlo : lo.val = 2 * k.val + a.val) :
    Scalar.select (BitVec.ofBool (decide ((L 1).val % 2 = 1))) (lane sel L hi) (lane sel L lo) = sel (ix3 (jL L) k a) := by
  have hb : (L 1).val < 16 := (L 1).isLt
  have hj : (jL L).val = (L 1).val := rfl
  unfold lane
  by_cases hp : (L 1).val % 2 = 1
  · rw [decide_eq_true hp]
    show Scalar.select 1#1 _ _ = _
    rw [select_one]
    exact flatOf_at sel _ (jL L) k a (by show 16 * ((L 1).val / 2) + hi.val = _; rw [hj, hhi]; omega)
  · rw [decide_eq_false hp]
    show Scalar.select 0#1 _ _ = _
    rw [select_zero]
    exact flatOf_at sel _ (jL L) k a (by show 16 * ((L 1).val / 2) + lo.val = _; rw [hj, hlo]; omega)

/-! ## The shape of the body's choice -/

/-- A word clipped to [0, 1], as the body clips a start. -/
def clip01 (x : BitVec 32) : BitVec 32 := Scalar.minsi 1#32 (Scalar.maxsi 0#32 x)
/-- The cover bit: the tile within three tiles of the start, along rows and along columns. -/
def covBit (ti tj rk ck : BitVec 32) : BitVec 1 :=
  Scalar.andi (Scalar.andi (Scalar.andi (Scalar.cmpi .sge ti rk) (Scalar.cmpi .slt ti (Scalar.addi rk 3#32))) (Scalar.cmpi .sge tj ck)) (Scalar.cmpi .slt tj (Scalar.addi ck 3#32))
/-- A window's cover bit from its four lanes: the parity picks the start row and the start column. -/
def winBit (ti tj : BitVec 32) (odd : BitVec 1) (rhi rlo chi clo : BitVec 32) : BitVec 1 :=
  covBit ti tj (clip01 (Scalar.select odd rhi rlo)) (clip01 (Scalar.select odd chi clo))
/-- The number of the last window that covers, else -1, from the tile, the parity and the sixteen words. -/
def pickNo (ti tj : BitVec 32) (odd : BitVec 1) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 32 :=
  sel4 (winBit ti tj odd v62 v64 v90 v92) (winBit ti tj odd v69 v71 v97 v99) (winBit ti tj odd v76 v78 v104 v106) (winBit ti tj odd v83 v85 v111 v113)

/-- A word that is 0 or 1 is its own clipping. -/
theorem clip01_id (x : BitVec 32) (h : x.toNat ≤ 1) : clip01 x = x := by
  have hx : x = 0#32 ∨ x = 1#32 := by
    rcases Nat.le_one_iff_eq_zero_or_eq_one.mp h with h | h
    · exact Or.inl (BitVec.eq_of_toNat_eq (by rw [h]; rfl))
    · exact Or.inr (BitVec.eq_of_toNat_eq (by rw [h]; rfl))
  rcases hx with rfl | rfl <;> decide

/-- The cover bit on small numbers says what it spells. -/
theorem covBit_spec : ∀ (ti tj : Fin 4) (r c : Fin 2),
    (covBit (BitVec.ofNat 32 ti.val) (BitVec.ofNat 32 tj.val) (BitVec.ofNat 32 r.val) (BitVec.ofNat 32 c.val) = 1#1)
      ↔ (r.val ≤ ti.val ∧ ti.val < r.val + 3 ∧ c.val ≤ tj.val ∧ tj.val < c.val + 3) := by decide

/-- A window's cover bit, at the image's own words, is the specification's cover. -/
theorem winBit_iff (sel : IVec S16x4x2 32) (hsel : ∀ j, (sel j).toNat ≤ 1) (b : Fin 16) (k : Fin 4) (ti tj : ℕ) (hti : ti < 4) (htj : tj < 4)
    (odd : BitVec 1) (rhi rlo chi clo : BitVec 32)
    (hr : Scalar.select odd rhi rlo = sel (ix3 b k 0)) (hc : Scalar.select odd chi clo = sel (ix3 b k 1)) :
    winBit (BitVec.ofNat 32 ti) (BitVec.ofNat 32 tj) odd rhi rlo chi clo = 1#1 ↔ Cert.Fuse.coversTile sel b k ti tj := by
  unfold winBit
  rw [hr, hc, clip01_id _ (hsel _), clip01_id _ (hsel _)]
  have h := covBit_spec ⟨ti, hti⟩ ⟨tj, htj⟩ ⟨(sel (ix3 b k 0)).toNat, Nat.lt_succ_of_le (hsel _)⟩ ⟨(sel (ix3 b k 1)).toNat, Nat.lt_succ_of_le (hsel _)⟩
  simp only [BitVec.ofNat_toNat, BitVec.setWidth_eq] at h
  exact h

/-- The select chain against the specification's chain of conditions: not negative exactly when some condition
    holds, and then the number is that of the last one that does. -/
theorem sel4_spec (c0 c1 c2 c3 : BitVec 1) (p0 p1 p2 p3 : Prop) [Decidable p0] [Decidable p1] [Decidable p2] [Decidable p3]
    (h0 : c0 = 1#1 ↔ p0) (h1 : c1 = 1#1 ↔ p1) (h2 : c2 = 1#1 ↔ p2) (h3 : c3 = 1#1 ↔ p3) :
    (nonneg (sel4 c0 c1 c2 c3) = 1#1 → ∃ k : Fin 4,
        (if p3 then some (3 : Fin 4) else if p2 then some 2 else if p1 then some 1 else if p0 then some 0 else none) = some k
          ∧ (sel4 c0 c1 c2 c3).toNat = k.val)
      ∧ (¬ nonneg (sel4 c0 c1 c2 c3) = 1#1 →
        (if p3 then some (3 : Fin 4) else if p2 then some 2 else if p1 then some 1 else if p0 then some 0 else none) = none) := by
  rw [sel4_cases]
  by_cases q3 : p3
  · rw [if_pos (h3.mpr q3), if_pos q3]
    exact ⟨fun _ => ⟨3, rfl, rfl⟩, fun h => absurd (by decide) h⟩
  rw [if_neg (fun e => q3 (h3.mp e)), if_neg q3]
  by_cases q2 : p2
  · rw [if_pos (h2.mpr q2), if_pos q2]
    exact ⟨fun _ => ⟨2, rfl, rfl⟩, fun h => absurd (by decide) h⟩
  rw [if_neg (fun e => q2 (h2.mp e)), if_neg q2]
  by_cases q1 : p1
  · rw [if_pos (h1.mpr q1), if_pos q1]
    exact ⟨fun _ => ⟨1, rfl, rfl⟩, fun h => absurd (by decide) h⟩
  rw [if_neg (fun e => q1 (h1.mp e)), if_neg q1]
  by_cases q0 : p0
  · rw [if_pos (h0.mpr q0), if_pos q0]
    exact ⟨fun _ => ⟨0, rfl, rfl⟩, fun h => absurd (by decide) h⟩
  rw [if_neg (fun e => q0 (h0.mp e)), if_neg q0]
  exact ⟨fun h => absurd h (by decide), fun _ => rfl⟩

/-- The tile's row and column in the image's 4 × 4 grid. -/
abbrev tiRow (L : grid0.Coords) (t : Fin 8) : ℕ := (8 * (L 0).val + t.val) / 4
abbrev tjCol (L : grid0.Coords) (t : Fin 8) : ℕ := (8 * (L 0).val + t.val) % 4

/-- The body's choice at the words the subcore fetched is the specification's source of the tile. -/
theorem pick_core (sel : IVec S16x4x2 32) (hsel : ∀ j, (sel j).toNat ≤ 1) (L : grid0.Coords) (t : Fin 8) :
    (nonneg (pickNo (BitVec.ofNat 32 (tiRow L t)) (BitVec.ofNat 32 (tjCol L t)) (BitVec.ofBool (decide ((L 1).val % 2 = 1))) (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)) = 1#1 →
        ∃ k : Fin 4, Cert.Fuse.tileSource sel (jL L) (tiRow L t) (tjCol L t) = some k
          ∧ (pickNo (BitVec.ofNat 32 (tiRow L t)) (BitVec.ofNat 32 (tjCol L t)) (BitVec.ofBool (decide ((L 1).val % 2 = 1))) (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)).toNat = k.val)
      ∧ (¬ nonneg (pickNo (BitVec.ofNat 32 (tiRow L t)) (BitVec.ofNat 32 (tjCol L t)) (BitVec.ofBool (decide ((L 1).val % 2 = 1))) (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)) = 1#1 →
        Cert.Fuse.tileSource sel (jL L) (tiRow L t) (tjCol L t) = none) := by
  have hc : (L 0).val < 2 := (L 0).isLt
  have ht := t.isLt
  have hti : tiRow L t < 4 := by show (8 * (L 0).val + t.val) / 4 < 4; omega
  have htj : tjCol L t < 4 := by show (8 * (L 0).val + t.val) % 4 < 4; omega
  exact sel4_spec _ _ _ _ _ _ _ _
    (winBit_iff sel hsel (jL L) 0 _ _ hti htj _ _ _ _ _ (lane_select sel L 0 0 8 0 rfl rfl) (lane_select sel L 0 1 9 1 rfl rfl))
    (winBit_iff sel hsel (jL L) 1 _ _ hti htj _ _ _ _ _ (lane_select sel L 1 0 10 2 rfl rfl) (lane_select sel L 1 1 11 3 rfl rfl))
    (winBit_iff sel hsel (jL L) 2 _ _ hti htj _ _ _ _ _ (lane_select sel L 2 0 12 4 rfl rfl) (lane_select sel L 2 1 13 5 rfl rfl))
    (winBit_iff sel hsel (jL L) 3 _ _ hti htj _ _ _ _ _ (lane_select sel L 3 0 14 6 rfl rfl) (lane_select sel L 3 1 15 7 rfl rfl))

/-! ## The eight tiles -/

/-- Tile 0: the sampling-map block's offsets. -/
theorem smp_off_0 : ∀ L : grid0.Coords, k0_off3 L = ![(L 1).val, 0, 128 * tiRow L 0, 128 * tjCol L 0] := by decide +kernel

set_option maxHeartbeats 4000000 in
/-- Tile 0: the printed condition and refined-map offsets in the shape above; the tile's row, its column and the
    image's parity are the three terms, of the place alone, at which the printed chains match it. -/
def tileS0 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond1 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off2 L v62 v64 v69 v71 v76 v78 v83 v85 v90 v92 v97 v99 v104 v106 v111 v113 = ![(k0_off3 L) 0, (pickNo p.1 p.2.1 p.2.2 v62 v64 v69 v71 v76 v78 v83 v85 v90 v92 v97 v99 v104 v106 v111 v113).toNat, 0, (k0_off3 L) 2, (k0_off3 L) 3] } :=
  ⟨(_, _, _), fun _ _ _ _ _ _ _ _ _ _ _ _ _ _ _ _ => ⟨rfl, rfl⟩⟩

theorem tileS0_ti : ∀ L : grid0.Coords, (tileS0 L).1.1 = BitVec.ofNat 32 (tiRow L 0) := by decide +kernel
theorem tileS0_tj : ∀ L : grid0.Coords, (tileS0 L).1.2.1 = BitVec.ofNat 32 (tjCol L 0) := by decide +kernel
theorem tileS0_odd : ∀ L : grid0.Coords, (tileS0 L).1.2.2 = BitVec.ofBool (decide ((L 1).val % 2 = 1)) := by decide +kernel

/-- Tile 0: the copy comes from the refined map of the tile's source window when the condition holds, and the tile
    has no source window when it does not. -/
theorem pick_0 (sel : IVec S16x4x2 32) (hsel : ∀ j, (sel j).toNat ≤ 1) (L : grid0.Coords) :
    (k0_cond1 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 0) (tjCol L 0) = some k
          ∧ k0_off2 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 0, 128 * tjCol L 0])
      ∧ (¬ k0_cond1 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 0) (tjCol L 0) = none) := by
  obtain ⟨hcond, hoff⟩ := (tileS0 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS0_ti, tileS0_tj, tileS0_odd] at hcond hoff
  obtain ⟨h1, h2⟩ := pick_core sel hsel L 0
  rw [hcond]
  refine ⟨fun h => ?_, h2⟩
  obtain ⟨k, hk, hn⟩ := h1 h
  refine ⟨k, hk, ?_⟩
  rw [hoff, hn, smp_off_0]
  rfl

/-- Tile 1: the sampling-map block's offsets. -/
theorem smp_off_1 : ∀ L : grid0.Coords, k0_off5 L = ![(L 1).val, 0, 128 * tiRow L 1, 128 * tjCol L 1] := by decide +kernel

set_option maxHeartbeats 4000000 in
/-- Tile 1: the printed condition and refined-map offsets in the shape above; the tile's row, its column and the
    image's parity are the three terms, of the place alone, at which the printed chains match it. -/
def tileS1 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond3 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off4 L v62 v64 v69 v71 v76 v78 v83 v85 v90 v92 v97 v99 v104 v106 v111 v113 = ![(k0_off5 L) 0, (pickNo p.1 p.2.1 p.2.2 v62 v64 v69 v71 v76 v78 v83 v85 v90 v92 v97 v99 v104 v106 v111 v113).toNat, 0, (k0_off5 L) 2, (k0_off5 L) 3] } :=
  ⟨(_, _, _), fun _ _ _ _ _ _ _ _ _ _ _ _ _ _ _ _ => ⟨rfl, rfl⟩⟩

theorem tileS1_ti : ∀ L : grid0.Coords, (tileS1 L).1.1 = BitVec.ofNat 32 (tiRow L 1) := by decide +kernel
theorem tileS1_tj : ∀ L : grid0.Coords, (tileS1 L).1.2.1 = BitVec.ofNat 32 (tjCol L 1) := by decide +kernel
theorem tileS1_odd : ∀ L : grid0.Coords, (tileS1 L).1.2.2 = BitVec.ofBool (decide ((L 1).val % 2 = 1)) := by decide +kernel

/-- Tile 1: the copy comes from the refined map of the tile's source window when the condition holds, and the tile
    has no source window when it does not. -/
theorem pick_1 (sel : IVec S16x4x2 32) (hsel : ∀ j, (sel j).toNat ≤ 1) (L : grid0.Coords) :
    (k0_cond3 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 1) (tjCol L 1) = some k
          ∧ k0_off4 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 1, 128 * tjCol L 1])
      ∧ (¬ k0_cond3 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 1) (tjCol L 1) = none) := by
  obtain ⟨hcond, hoff⟩ := (tileS1 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS1_ti, tileS1_tj, tileS1_odd] at hcond hoff
  obtain ⟨h1, h2⟩ := pick_core sel hsel L 1
  rw [hcond]
  refine ⟨fun h => ?_, h2⟩
  obtain ⟨k, hk, hn⟩ := h1 h
  refine ⟨k, hk, ?_⟩
  rw [hoff, hn, smp_off_1]
  rfl

/-- Tile 2: the sampling-map block's offsets. -/
theorem smp_off_2 : ∀ L : grid0.Coords, k0_off7 L = ![(L 1).val, 0, 128 * tiRow L 2, 128 * tjCol L 2] := by decide +kernel

set_option maxHeartbeats 4000000 in
/-- Tile 2: the printed condition and refined-map offsets in the shape above; the tile's row, its column and the
    image's parity are the three terms, of the place alone, at which the printed chains match it. -/
def tileS2 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond5 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off6 L v62 v64 v69 v71 v76 v78 v83 v85 v90 v92 v97 v99 v104 v106 v111 v113 = ![(k0_off7 L) 0, (pickNo p.1 p.2.1 p.2.2 v62 v64 v69 v71 v76 v78 v83 v85 v90 v92 v97 v99 v104 v106 v111 v113).toNat, 0, (k0_off7 L) 2, (k0_off7 L) 3] } :=
  ⟨(_, _, _), fun _ _ _ _ _ _ _ _ _ _ _ _ _ _ _ _ => ⟨rfl, rfl⟩⟩

theorem tileS2_ti : ∀ L : grid0.Coords, (tileS2 L).1.1 = BitVec.ofNat 32 (tiRow L 2) := by decide +kernel
theorem tileS2_tj : ∀ L : grid0.Coords, (tileS2 L).1.2.1 = BitVec.ofNat 32 (tjCol L 2) := by decide +kernel
theorem tileS2_odd : ∀ L : grid0.Coords, (tileS2 L).1.2.2 = BitVec.ofBool (decide ((L 1).val % 2 = 1)) := by decide +kernel

/-- Tile 2: the copy comes from the refined map of the tile's source window when the condition holds, and the tile
    has no source window when it does not. -/
theorem pick_2 (sel : IVec S16x4x2 32) (hsel : ∀ j, (sel j).toNat ≤ 1) (L : grid0.Coords) :
    (k0_cond5 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 2) (tjCol L 2) = some k
          ∧ k0_off6 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 2, 128 * tjCol L 2])
      ∧ (¬ k0_cond5 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 2) (tjCol L 2) = none) := by
  obtain ⟨hcond, hoff⟩ := (tileS2 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS2_ti, tileS2_tj, tileS2_odd] at hcond hoff
  obtain ⟨h1, h2⟩ := pick_core sel hsel L 2
  rw [hcond]
  refine ⟨fun h => ?_, h2⟩
  obtain ⟨k, hk, hn⟩ := h1 h
  refine ⟨k, hk, ?_⟩
  rw [hoff, hn, smp_off_2]
  rfl

/-- Tile 3: the sampling-map block's offsets. -/
theorem smp_off_3 : ∀ L : grid0.Coords, k0_off18 L = ![(L 1).val, 0, 128 * tiRow L 3, 128 * tjCol L 3] := by decide +kernel

set_option maxHeartbeats 4000000 in
/-- Tile 3: the printed condition and refined-map offsets in the shape above; the tile's row, its column and the
    image's parity are the three terms, of the place alone, at which the printed chains match it. -/
def tileS3 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond7 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off17 L v62 v64 v69 v71 v76 v78 v83 v85 v90 v92 v97 v99 v104 v106 v111 v113 = ![(k0_off18 L) 0, (pickNo p.1 p.2.1 p.2.2 v62 v64 v69 v71 v76 v78 v83 v85 v90 v92 v97 v99 v104 v106 v111 v113).toNat, 0, (k0_off18 L) 2, (k0_off18 L) 3] } :=
  ⟨(_, _, _), fun _ _ _ _ _ _ _ _ _ _ _ _ _ _ _ _ => ⟨rfl, rfl⟩⟩

theorem tileS3_ti : ∀ L : grid0.Coords, (tileS3 L).1.1 = BitVec.ofNat 32 (tiRow L 3) := by decide +kernel
theorem tileS3_tj : ∀ L : grid0.Coords, (tileS3 L).1.2.1 = BitVec.ofNat 32 (tjCol L 3) := by decide +kernel
theorem tileS3_odd : ∀ L : grid0.Coords, (tileS3 L).1.2.2 = BitVec.ofBool (decide ((L 1).val % 2 = 1)) := by decide +kernel

/-- Tile 3: the copy comes from the refined map of the tile's source window when the condition holds, and the tile
    has no source window when it does not. -/
theorem pick_3 (sel : IVec S16x4x2 32) (hsel : ∀ j, (sel j).toNat ≤ 1) (L : grid0.Coords) :
    (k0_cond7 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 3) (tjCol L 3) = some k
          ∧ k0_off17 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 3, 128 * tjCol L 3])
      ∧ (¬ k0_cond7 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 3) (tjCol L 3) = none) := by
  obtain ⟨hcond, hoff⟩ := (tileS3 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS3_ti, tileS3_tj, tileS3_odd] at hcond hoff
  obtain ⟨h1, h2⟩ := pick_core sel hsel L 3
  rw [hcond]
  refine ⟨fun h => ?_, h2⟩
  obtain ⟨k, hk, hn⟩ := h1 h
  refine ⟨k, hk, ?_⟩
  rw [hoff, hn, smp_off_3]
  rfl

/-- Tile 4: the sampling-map block's offsets. -/
theorem smp_off_4 : ∀ L : grid0.Coords, k0_off28 L = ![(L 1).val, 0, 128 * tiRow L 4, 128 * tjCol L 4] := by decide +kernel

set_option maxHeartbeats 4000000 in
/-- Tile 4: the printed condition and refined-map offsets in the shape above; the tile's row, its column and the
    image's parity are the three terms, of the place alone, at which the printed chains match it. -/
def tileS4 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond9 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off27 L v62 v64 v69 v71 v76 v78 v83 v85 v90 v92 v97 v99 v104 v106 v111 v113 = ![(k0_off28 L) 0, (pickNo p.1 p.2.1 p.2.2 v62 v64 v69 v71 v76 v78 v83 v85 v90 v92 v97 v99 v104 v106 v111 v113).toNat, 0, (k0_off28 L) 2, (k0_off28 L) 3] } :=
  ⟨(_, _, _), fun _ _ _ _ _ _ _ _ _ _ _ _ _ _ _ _ => ⟨rfl, rfl⟩⟩

theorem tileS4_ti : ∀ L : grid0.Coords, (tileS4 L).1.1 = BitVec.ofNat 32 (tiRow L 4) := by decide +kernel
theorem tileS4_tj : ∀ L : grid0.Coords, (tileS4 L).1.2.1 = BitVec.ofNat 32 (tjCol L 4) := by decide +kernel
theorem tileS4_odd : ∀ L : grid0.Coords, (tileS4 L).1.2.2 = BitVec.ofBool (decide ((L 1).val % 2 = 1)) := by decide +kernel

/-- Tile 4: the copy comes from the refined map of the tile's source window when the condition holds, and the tile
    has no source window when it does not. -/
theorem pick_4 (sel : IVec S16x4x2 32) (hsel : ∀ j, (sel j).toNat ≤ 1) (L : grid0.Coords) :
    (k0_cond9 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 4) (tjCol L 4) = some k
          ∧ k0_off27 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 4, 128 * tjCol L 4])
      ∧ (¬ k0_cond9 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 4) (tjCol L 4) = none) := by
  obtain ⟨hcond, hoff⟩ := (tileS4 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS4_ti, tileS4_tj, tileS4_odd] at hcond hoff
  obtain ⟨h1, h2⟩ := pick_core sel hsel L 4
  rw [hcond]
  refine ⟨fun h => ?_, h2⟩
  obtain ⟨k, hk, hn⟩ := h1 h
  refine ⟨k, hk, ?_⟩
  rw [hoff, hn, smp_off_4]
  rfl

/-- Tile 5: the sampling-map block's offsets. -/
theorem smp_off_5 : ∀ L : grid0.Coords, k0_off38 L = ![(L 1).val, 0, 128 * tiRow L 5, 128 * tjCol L 5] := by decide +kernel

set_option maxHeartbeats 4000000 in
/-- Tile 5: the printed condition and refined-map offsets in the shape above; the tile's row, its column and the
    image's parity are the three terms, of the place alone, at which the printed chains match it. -/
def tileS5 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond11 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off37 L v62 v64 v69 v71 v76 v78 v83 v85 v90 v92 v97 v99 v104 v106 v111 v113 = ![(k0_off38 L) 0, (pickNo p.1 p.2.1 p.2.2 v62 v64 v69 v71 v76 v78 v83 v85 v90 v92 v97 v99 v104 v106 v111 v113).toNat, 0, (k0_off38 L) 2, (k0_off38 L) 3] } :=
  ⟨(_, _, _), fun _ _ _ _ _ _ _ _ _ _ _ _ _ _ _ _ => ⟨rfl, rfl⟩⟩

theorem tileS5_ti : ∀ L : grid0.Coords, (tileS5 L).1.1 = BitVec.ofNat 32 (tiRow L 5) := by decide +kernel
theorem tileS5_tj : ∀ L : grid0.Coords, (tileS5 L).1.2.1 = BitVec.ofNat 32 (tjCol L 5) := by decide +kernel
theorem tileS5_odd : ∀ L : grid0.Coords, (tileS5 L).1.2.2 = BitVec.ofBool (decide ((L 1).val % 2 = 1)) := by decide +kernel

/-- Tile 5: the copy comes from the refined map of the tile's source window when the condition holds, and the tile
    has no source window when it does not. -/
theorem pick_5 (sel : IVec S16x4x2 32) (hsel : ∀ j, (sel j).toNat ≤ 1) (L : grid0.Coords) :
    (k0_cond11 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 5) (tjCol L 5) = some k
          ∧ k0_off37 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 5, 128 * tjCol L 5])
      ∧ (¬ k0_cond11 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 5) (tjCol L 5) = none) := by
  obtain ⟨hcond, hoff⟩ := (tileS5 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS5_ti, tileS5_tj, tileS5_odd] at hcond hoff
  obtain ⟨h1, h2⟩ := pick_core sel hsel L 5
  rw [hcond]
  refine ⟨fun h => ?_, h2⟩
  obtain ⟨k, hk, hn⟩ := h1 h
  refine ⟨k, hk, ?_⟩
  rw [hoff, hn, smp_off_5]
  rfl

/-- Tile 6: the sampling-map block's offsets. -/
theorem smp_off_6 : ∀ L : grid0.Coords, k0_off48 L = ![(L 1).val, 0, 128 * tiRow L 6, 128 * tjCol L 6] := by decide +kernel

set_option maxHeartbeats 4000000 in
/-- Tile 6: the printed condition and refined-map offsets in the shape above; the tile's row, its column and the
    image's parity are the three terms, of the place alone, at which the printed chains match it. -/
def tileS6 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond13 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off47 L v62 v64 v69 v71 v76 v78 v83 v85 v90 v92 v97 v99 v104 v106 v111 v113 = ![(k0_off48 L) 0, (pickNo p.1 p.2.1 p.2.2 v62 v64 v69 v71 v76 v78 v83 v85 v90 v92 v97 v99 v104 v106 v111 v113).toNat, 0, (k0_off48 L) 2, (k0_off48 L) 3] } :=
  ⟨(_, _, _), fun _ _ _ _ _ _ _ _ _ _ _ _ _ _ _ _ => ⟨rfl, rfl⟩⟩

theorem tileS6_ti : ∀ L : grid0.Coords, (tileS6 L).1.1 = BitVec.ofNat 32 (tiRow L 6) := by decide +kernel
theorem tileS6_tj : ∀ L : grid0.Coords, (tileS6 L).1.2.1 = BitVec.ofNat 32 (tjCol L 6) := by decide +kernel
theorem tileS6_odd : ∀ L : grid0.Coords, (tileS6 L).1.2.2 = BitVec.ofBool (decide ((L 1).val % 2 = 1)) := by decide +kernel

/-- Tile 6: the copy comes from the refined map of the tile's source window when the condition holds, and the tile
    has no source window when it does not. -/
theorem pick_6 (sel : IVec S16x4x2 32) (hsel : ∀ j, (sel j).toNat ≤ 1) (L : grid0.Coords) :
    (k0_cond13 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 6) (tjCol L 6) = some k
          ∧ k0_off47 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 6, 128 * tjCol L 6])
      ∧ (¬ k0_cond13 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 6) (tjCol L 6) = none) := by
  obtain ⟨hcond, hoff⟩ := (tileS6 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS6_ti, tileS6_tj, tileS6_odd] at hcond hoff
  obtain ⟨h1, h2⟩ := pick_core sel hsel L 6
  rw [hcond]
  refine ⟨fun h => ?_, h2⟩
  obtain ⟨k, hk, hn⟩ := h1 h
  refine ⟨k, hk, ?_⟩
  rw [hoff, hn, smp_off_6]
  rfl

/-- Tile 7: the sampling-map block's offsets. -/
theorem smp_off_7 : ∀ L : grid0.Coords, k0_off58 L = ![(L 1).val, 0, 128 * tiRow L 7, 128 * tjCol L 7] := by decide +kernel

set_option maxHeartbeats 4000000 in
/-- Tile 7: the printed condition and refined-map offsets in the shape above; the tile's row, its column and the
    image's parity are the three terms, of the place alone, at which the printed chains match it. -/
def tileS7 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond15 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off57 L v62 v64 v69 v71 v76 v78 v83 v85 v90 v92 v97 v99 v104 v106 v111 v113 = ![(k0_off58 L) 0, (pickNo p.1 p.2.1 p.2.2 v62 v64 v69 v71 v76 v78 v83 v85 v90 v92 v97 v99 v104 v106 v111 v113).toNat, 0, (k0_off58 L) 2, (k0_off58 L) 3] } :=
  ⟨(_, _, _), fun _ _ _ _ _ _ _ _ _ _ _ _ _ _ _ _ => ⟨rfl, rfl⟩⟩

theorem tileS7_ti : ∀ L : grid0.Coords, (tileS7 L).1.1 = BitVec.ofNat 32 (tiRow L 7) := by decide +kernel
theorem tileS7_tj : ∀ L : grid0.Coords, (tileS7 L).1.2.1 = BitVec.ofNat 32 (tjCol L 7) := by decide +kernel
theorem tileS7_odd : ∀ L : grid0.Coords, (tileS7 L).1.2.2 = BitVec.ofBool (decide ((L 1).val % 2 = 1)) := by decide +kernel

/-- Tile 7: the copy comes from the refined map of the tile's source window when the condition holds, and the tile
    has no source window when it does not. -/
theorem pick_7 (sel : IVec S16x4x2 32) (hsel : ∀ j, (sel j).toNat ≤ 1) (L : grid0.Coords) :
    (k0_cond15 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 7) (tjCol L 7) = some k
          ∧ k0_off57 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 7, 128 * tjCol L 7])
      ∧ (¬ k0_cond15 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 7) (tjCol L 7) = none) := by
  obtain ⟨hcond, hoff⟩ := (tileS7 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS7_ti, tileS7_tj, tileS7_odd] at hcond hoff
  obtain ⟨h1, h2⟩ := pick_core sel hsel L 7
  rw [hcond]
  refine ⟨fun h => ?_, h2⟩
  obtain ⟨k, hk, hn⟩ := h1 h
  refine ⟨k, hk, ?_⟩
  rw [hoff, hn, smp_off_7]
  rfl

end Cert.Proof.KI

end
-- ==== Proof.KILoops.lean ====
/-
  What one trip of a tile's loop leaves in its output slot.

  A trip handles two rows of the 128 × 128 slot, `2k` and `2k + 1`, in eight segments of sixteen lanes each: it loads the
  segment of the input slot, takes `1 / (1 + exp (0 - v))` lane by lane, and stores the result at the same segment of the
  output slot. So after the trip the output slot agrees with the logistic function of the input slot on every row below
  `2 (k + 1)`, if it did on every row below `2k` before: the sixteen segments are the two rows, and no store reaches a
  row below `2k`.
-/
import proofs.«207346_g72533407695360_cont_9to1_m_270_11_alg».proof.Proof.KITile
import proofs.«207346_g72533407695360_cont_9to1_m_270_11_alg».proof.Proof.Spec
import Idealize.ShloMosaic.Lib.Pipeline.Value
import Idealize.ShloMosaic.Lib.Writes

noncomputable section

namespace Cert.Proof.KI

open Cert.KernelIdeal Cert.KernelIdeal.Gen Idealize.ShloMosaic Idealize.ShloMosaic.ValueIdx

variable {F : FTy → Type} [FloatOps F]

/-! ## One row of sixteen lanes -/

/-- The logistic function of a 1 × 16 row, lane by lane, as the body computes it: the row flattened, `1 / (1 + exp (0 - v))`, the
    result given its row shape back. -/
def sig16 (w : Vec F S1x16 .f32) : FVec F S1x16 .f32 :=
  shapeCast S1x16 (divf (broadcast S16 (Scalar.ofBits .f32 0x3F800000#32)) (addf (broadcast S16 (Scalar.ofBits .f32 0x3F800000#32))
    (exp (subf (broadcast S16 (Scalar.ofBits .f32 0x00000000#32)) (shapeCast S16 w shapeCasts_S1x16_S16))))) shapeCasts_S16_S1x16

/-- Lane `x` of it is the specification's logistic function of lane `x`: flattening and unflattening keep the lane. -/
theorem sig16_apply (w : Vec F S1x16 .f32) (x : S1x16.Idx) : sig16 w x = Cert.Fuse.logistic (w x) := by
  have h0 : (x 0).val = 0 := by have h : (x 0).val < 1 := (x 0).isLt; omega
  have hk : (S16.rowMajor (ix1 (x 1 : Fin 16))).val = (S1x16.rowMajor x).val := by
    rw [Shape.rowMajor_val_one, Shape.rowMajor_val_two, h0]; show (x 1).val = 0 * 16 + (x 1).val; omega
  unfold sig16
  rw [shapeCast_apply _ shapeCasts_S16_S1x16 x (ix1 (x 1 : Fin 16)) hk]
  show Cert.Fuse.logistic (shapeCast S16 w shapeCasts_S1x16_S16 (ix1 (x 1 : Fin 16))) = _
  rw [shapeCast_apply w shapeCasts_S1x16_S16 (ix1 (x 1 : Fin 16)) x hk.symm]

/-! ## One store of a trip -/

/-- A piece is the store of trip `k` at row `2k + r`, columns `16c … 16c + 15`: it holds the logistic function of the input there,
    and its rectangle is that row segment. -/
def Good (k r c : ℕ) (fa : S128x128.Idx → F .f32) (p : View.Piece (Elt F) S128x128 .f32) : Prop :=
  (∀ x, p.2 x = Cert.Fuse.logistic (fa (p.1.emb x)))
    ∧ ∀ y : S128x128.Idx, y ∈ p.1.set ↔ ((y 0).val = 2 * k + r ∧ 16 * c ≤ (y 1).val ∧ (y 1).val < 16 * c + 16)

theorem good_of (k r c : ℕ) (fa : S128x128.Idx → F .f32) (off : Fin S128x128.rank → ℕ) (inb : ∀ a, off a + S1x16.size a ≤ S128x128.size a)
    (heq : off = ![2 * k + r, 16 * c]) (w : Vec F S1x16 .f32)
    (hw : ∀ x, w x = fa ((Rect.unit (s := S128x128) off S1x16.size inb).emb x)) (pay : FVec F S1x16 .f32) (hpay : pay = sig16 w) :
    Good k r c fa ⟨Rect.unit (s := S128x128) off S1x16.size inb, pay⟩ := by
  subst heq
  refine ⟨fun x => ?_, fun y => ?_⟩
  · show pay x = _
    rw [hpay, sig16_apply, hw]
  · show y ∈ (Rect.unit (s := S128x128) ![2 * k + r, 16 * c] S1x16.size inb).set ↔ _
    rw [Rect.mem_set_unit]
    constructor
    · intro h
      have h0 := h 0; have h1 := h 1
      simp only [Matrix.cons_val_zero, Matrix.cons_val_one, Matrix.head_cons, Matrix.cons_val] at h0 h1
      omega
    · rintro ⟨h0, h1, h2⟩
      show ∀ a : Fin 2, _
      intro a
      fin_cases a
      · show 2 * k + r ≤ (y 0).val ∧ (y 0).val < 2 * k + r + 1; omega
      · show 16 * c ≤ (y 1).val ∧ (y 1).val < 16 * c + 16; omega

/-! ## One trip -/

/-- If every store of the trip is such a piece, and every row segment of rows `2k` and `2k + 1` is some store's, then the
    buffer agrees with the logistic function of the input on the rows below `2 (k + 1)` once it did on the rows below `2k`. -/
theorem rows_step {κ : Kind} {sp : Space} (v : View sig κ sp S128x128 .f32) (k : ℕ) (fa : S128x128.Idx → F .f32) (f : v.ty.Contents (Elt F))
    (L : List (View.Piece (Elt F) S128x128 .f32))
    (hgood : ∀ p ∈ L, ∃ r c, Good k r c fa p)
    (hcov : ∀ r < 2, ∀ c < 8, ∃ p ∈ L, Good k r c fa p)
    (h : ∀ y : S128x128.Idx, (y 0).val < 2 * k → v.read (Elt F) f y = Cert.Fuse.logistic (fa y)) :
    ∀ y : S128x128.Idx, (y 0).val < 2 * (k + 1) → v.read (Elt F) (v.writes (Elt F) f L) y = Cert.Fuse.logistic (fa y) := by
  intro y hy
  by_cases hlt : (y 0).val < 2 * k
  · rw [View.read_writes_apply_of_forall_not_mem v f y L (fun p hp hm => by
      obtain ⟨r, c, hg⟩ := hgood p hp
      have := (hg.2 y).mp hm
      omega)]
    exact h y hlt
  · have hy1 : (y 1).val < 128 := (y 1).isLt
    obtain ⟨p, hp, hg⟩ := hcov ((y 0).val - 2 * k) (by omega) ((y 1).val / 16) (by omega)
    exact View.read_writes_apply_of_pieces v f (fun y => Cert.Fuse.logistic (fa y)) L
      (fun p hp x => by obtain ⟨r, c, hg⟩ := hgood p hp; exact hg.1 x) y ⟨p, hp, (hg.2 y).mpr ⟨by omega, by omega, by omega⟩⟩

/-! ## Loop 1: from cc0_scratch1 to cc0_scratch4 -/

/-- The stores one trip of loop 1 leaves, the last first. -/
def pieces1 (k : Fin k0_t1_loop.trips) (fa : FVec F S128x128 .f32) : List (View.Piece (Elt F) S128x128 .f32) :=
  [⟨Rect.unit (s := S128x128) (k0_off15 k 1#32) S1x16.size (k0_off15_inb k 1), k0_pay179 (View.readAt (Elt F) (Memref.whole cc0_scratch1 : Memref sig .scVector .vmem S128x128 .f32).view (Rect.unit (s := S128x128) (k0_off15 k 1#32) S1x16.size (k0_off15_inb k 1)).toLoadRect fa)⟩,
   ⟨Rect.unit (s := S128x128) (k0_off14 k 1#32) S1x16.size (k0_off14_inb k 1), k0_pay178 (k0_pay20 (View.readAt (Elt F) (Memref.whole cc0_scratch1 : Memref sig .scVector .vmem S128x128 .f32).view (Rect.unit (s := S128x128) (k0_off14 k 1#32) S1x16.size (k0_off14_inb k 1)).toLoadRect fa))⟩,
   ⟨Rect.unit (s := S128x128) (k0_off13 k 1#32) S1x16.size (k0_off13_inb k 1), k0_pay19 (View.readAt (Elt F) (Memref.whole cc0_scratch1 : Memref sig .scVector .vmem S128x128 .f32).view (Rect.unit (s := S128x128) (k0_off13 k 1#32) S1x16.size (k0_off13_inb k 1)).toLoadRect fa)⟩,
   ⟨Rect.unit (s := S128x128) (k0_off12 k 1#32) S1x16.size (k0_off12_inb k 1), k0_pay18 (k0_pay17 (View.readAt (Elt F) (Memref.whole cc0_scratch1 : Memref sig .scVector .vmem S128x128 .f32).view (Rect.unit (s := S128x128) (k0_off12 k 1#32) S1x16.size (k0_off12_inb k 1)).toLoadRect fa))⟩,
   ⟨Rect.unit (s := S128x128) (k0_off11 k 1#32) S1x16.size (k0_off11_inb k 1), k0_pay16 (View.readAt (Elt F) (Memref.whole cc0_scratch1 : Memref sig .scVector .vmem S128x128 .f32).view (Rect.unit (s := S128x128) (k0_off11 k 1#32) S1x16.size (k0_off11_inb k 1)).toLoadRect fa)⟩,
   ⟨Rect.unit (s := S128x128) (k0_off10 k 1#32) S1x16.size (k0_off10_inb k 1), k0_pay15 (View.readAt (Elt F) (Memref.whole cc0_scratch1 : Memref sig .scVector .vmem S128x128 .f32).view (Rect.unit (s := S128x128) (k0_off10 k 1#32) S1x16.size (k0_off10_inb k 1)).toLoadRect fa)⟩,
   ⟨Rect.unit (s := S128x128) (k0_off9 k 1#32) S1x16.size (k0_off9_inb k 1), k0_pay14 (k0_pay13 (View.readAt (Elt F) (Memref.whole cc0_scratch1 : Memref sig .scVector .vmem S128x128 .f32).view (Rect.unit (s := S128x128) (k0_off9 k 1#32) S1x16.size (k0_off9_inb k 1)).toLoadRect fa))⟩,
   ⟨Rect.unit (s := S128x128) (k0_off8 k 1#32) S1x16.size (k0_off8_inb k 1), k0_pay12 (View.readAt (Elt F) (Memref.whole cc0_scratch1 : Memref sig .scVector .vmem S128x128 .f32).view (Rect.unit (s := S128x128) (k0_off8 k 1#32) S1x16.size (k0_off8_inb k 1)).toLoadRect fa)⟩,
   ⟨Rect.unit (s := S128x128) (k0_off15 k 0#32) S1x16.size (k0_off15_inb k 0), k0_pay11 (k0_pay10 (View.readAt (Elt F) (Memref.whole cc0_scratch1 : Memref sig .scVector .vmem S128x128 .f32).view (Rect.unit (s := S128x128) (k0_off15 k 0#32) S1x16.size (k0_off15_inb k 0)).toLoadRect fa))⟩,
   ⟨Rect.unit (s := S128x128) (k0_off14 k 0#32) S1x16.size (k0_off14_inb k 0), k0_pay9 (View.readAt (Elt F) (Memref.whole cc0_scratch1 : Memref sig .scVector .vmem S128x128 .f32).view (Rect.unit (s := S128x128) (k0_off14 k 0#32) S1x16.size (k0_off14_inb k 0)).toLoadRect fa)⟩,
   ⟨Rect.unit (s := S128x128) (k0_off13 k 0#32) S1x16.size (k0_off13_inb k 0), k0_pay8 (View.readAt (Elt F) (Memref.whole cc0_scratch1 : Memref sig .scVector .vmem S128x128 .f32).view (Rect.unit (s := S128x128) (k0_off13 k 0#32) S1x16.size (k0_off13_inb k 0)).toLoadRect fa)⟩,
   ⟨Rect.unit (s := S128x128) (k0_off12 k 0#32) S1x16.size (k0_off12_inb k 0), k0_pay7 (k0_pay6 (View.readAt (Elt F) (Memref.whole cc0_scratch1 : Memref sig .scVector .vmem S128x128 .f32).view (Rect.unit (s := S128x128) (k0_off12 k 0#32) S1x16.size (k0_off12_inb k 0)).toLoadRect fa))⟩,
   ⟨Rect.unit (s := S128x128) (k0_off11 k 0#32) S1x16.size (k0_off11_inb k 0), k0_pay5 (View.readAt (Elt F) (Memref.whole cc0_scratch1 : Memref sig .scVector .vmem S128x128 .f32).view (Rect.unit (s := S128x128) (k0_off11 k 0#32) S1x16.size (k0_off11_inb k 0)).toLoadRect fa)⟩,
   ⟨Rect.unit (s := S128x128) (k0_off10 k 0#32) S1x16.size (k0_off10_inb k 0), k0_pay4 (k0_pay3 (View.readAt (Elt F) (Memref.whole cc0_scratch1 : Memref sig .scVector .vmem S128x128 .f32).view (Rect.unit (s := S128x128) (k0_off10 k 0#32) S1x16.size (k0_off10_inb k 0)).toLoadRect fa))⟩,
   ⟨Rect.unit (s := S128x128) (k0_off9 k 0#32) S1x16.size (k0_off9_inb k 0), k0_pay2 (View.readAt (Elt F) (Memref.whole cc0_scratch1 : Memref sig .scVector .vmem S128x128 .f32).view (Rect.unit (s := S128x128) (k0_off9 k 0#32) S1x16.size (k0_off9_inb k 0)).toLoadRect fa)⟩,
   ⟨Rect.unit (s := S128x128) (k0_off8 k 0#32) S1x16.size (k0_off8_inb k 0), k0_pay1 (View.readAt (Elt F) (Memref.whole cc0_scratch1 : Memref sig .scVector .vmem S128x128 .f32).view (Rect.unit (s := S128x128) (k0_off8 k 0#32) S1x16.size (k0_off8_inb k 0)).toLoadRect fa)⟩]

theorem good1_0 (k : Fin k0_t1_loop.trips) (fa : FVec F S128x128 .f32) :
    Good k.val 1 7 fa ⟨Rect.unit (s := S128x128) (k0_off15 k 1#32) S1x16.size (k0_off15_inb k 1), k0_pay179 (View.readAt (Elt F) (Memref.whole cc0_scratch1 : Memref sig .scVector .vmem S128x128 .f32).view (Rect.unit (s := S128x128) (k0_off15 k 1#32) S1x16.size (k0_off15_inb k 1)).toLoadRect fa)⟩ :=
  good_of k.val 1 7 fa _ _ (k0_off15_eq k 1) (View.readAt (Elt F) (Memref.whole cc0_scratch1 : Memref sig .scVector .vmem S128x128 .f32).view (Rect.unit (s := S128x128) (k0_off15 k 1#32) S1x16.size (k0_off15_inb k 1)).toLoadRect fa) (fun _ => rfl) _ rfl

theorem good1_1 (k : Fin k0_t1_loop.trips) (fa : FVec F S128x128 .f32) :
    Good k.val 1 6 fa ⟨Rect.unit (s := S128x128) (k0_off14 k 1#32) S1x16.size (k0_off14_inb k 1), k0_pay178 (k0_pay20 (View.readAt (Elt F) (Memref.whole cc0_scratch1 : Memref sig .scVector .vmem S128x128 .f32).view (Rect.unit (s := S128x128) (k0_off14 k 1#32) S1x16.size (k0_off14_inb k 1)).toLoadRect fa))⟩ :=
  good_of k.val 1 6 fa _ _ (k0_off14_eq k 1) (View.readAt (Elt F) (Memref.whole cc0_scratch1 : Memref sig .scVector .vmem S128x128 .f32).view (Rect.unit (s := S128x128) (k0_off14 k 1#32) S1x16.size (k0_off14_inb k 1)).toLoadRect fa) (fun _ => rfl) _ rfl

theorem good1_2 (k : Fin k0_t1_loop.trips) (fa : FVec F S128x128 .f32) :
    Good k.val 1 5 fa ⟨Rect.unit (s := S128x128) (k0_off13 k 1#32) S1x16.size (k0_off13_inb k 1), k0_pay19 (View.readAt (Elt F) (Memref.whole cc0_scratch1 : Memref sig .scVector .vmem S128x128 .f32).view (Rect.unit (s := S128x128) (k0_off13 k 1#32) S1x16.size (k0_off13_inb k 1)).toLoadRect fa)⟩ :=
  good_of k.val 1 5 fa _ _ (k0_off13_eq k 1) (View.readAt (Elt F) (Memref.whole cc0_scratch1 : Memref sig .scVector .vmem S128x128 .f32).view (Rect.unit (s := S128x128) (k0_off13 k 1#32) S1x16.size (k0_off13_inb k 1)).toLoadRect fa) (fun _ => rfl) _ rfl

theorem good1_3 (k : Fin k0_t1_loop.trips) (fa : FVec F S128x128 .f32) :
    Good k.val 1 4 fa ⟨Rect.unit (s := S128x128) (k0_off12 k 1#32) S1x16.size (k0_off12_inb k 1), k0_pay18 (k0_pay17 (View.readAt (Elt F) (Memref.whole cc0_scratch1 : Memref sig .scVector .vmem S128x128 .f32).view (Rect.unit (s := S128x128) (k0_off12 k 1#32) S1x16.size (k0_off12_inb k 1)).toLoadRect fa))⟩ :=
  good_of k.val 1 4 fa _ _ (k0_off12_eq k 1) (View.readAt (Elt F) (Memref.whole cc0_scratch1 : Memref sig .scVector .vmem S128x128 .f32).view (Rect.unit (s := S128x128) (k0_off12 k 1#32) S1x16.size (k0_off12_inb k 1)).toLoadRect fa) (fun _ => rfl) _ rfl

theorem good1_4 (k : Fin k0_t1_loop.trips) (fa : FVec F S128x128 .f32) :
    Good k.val 1 3 fa ⟨Rect.unit (s := S128x128) (k0_off11 k 1#32) S1x16.size (k0_off11_inb k 1), k0_pay16 (View.readAt (Elt F) (Memref.whole cc0_scratch1 : Memref sig .scVector .vmem S128x128 .f32).view (Rect.unit (s := S128x128) (k0_off11 k 1#32) S1x16.size (k0_off11_inb k 1)).toLoadRect fa)⟩ :=
  good_of k.val 1 3 fa _ _ (k0_off11_eq k 1) (View.readAt (Elt F) (Memref.whole cc0_scratch1 : Memref sig .scVector .vmem S128x128 .f32).view (Rect.unit (s := S128x128) (k0_off11 k 1#32) S1x16.size (k0_off11_inb k 1)).toLoadRect fa) (fun _ => rfl) _ rfl

theorem good1_5 (k : Fin k0_t1_loop.trips) (fa : FVec F S128x128 .f32) :
    Good k.val 1 2 fa ⟨Rect.unit (s := S128x128) (k0_off10 k 1#32) S1x16.size (k0_off10_inb k 1), k0_pay15 (View.readAt (Elt F) (Memref.whole cc0_scratch1 : Memref sig .scVector .vmem S128x128 .f32).view (Rect.unit (s := S128x128) (k0_off10 k 1#32) S1x16.size (k0_off10_inb k 1)).toLoadRect fa)⟩ :=
  good_of k.val 1 2 fa _ _ (k0_off10_eq k 1) (View.readAt (Elt F) (Memref.whole cc0_scratch1 : Memref sig .scVector .vmem S128x128 .f32).view (Rect.unit (s := S128x128) (k0_off10 k 1#32) S1x16.size (k0_off10_inb k 1)).toLoadRect fa) (fun _ => rfl) _ rfl

theorem good1_6 (k : Fin k0_t1_loop.trips) (fa : FVec F S128x128 .f32) :
    Good k.val 1 1 fa ⟨Rect.unit (s := S128x128) (k0_off9 k 1#32) S1x16.size (k0_off9_inb k 1), k0_pay14 (k0_pay13 (View.readAt (Elt F) (Memref.whole cc0_scratch1 : Memref sig .scVector .vmem S128x128 .f32).view (Rect.unit (s := S128x128) (k0_off9 k 1#32) S1x16.size (k0_off9_inb k 1)).toLoadRect fa))⟩ :=
  good_of k.val 1 1 fa _ _ (k0_off9_eq k 1) (View.readAt (Elt F) (Memref.whole cc0_scratch1 : Memref sig .scVector .vmem S128x128 .f32).view (Rect.unit (s := S128x128) (k0_off9 k 1#32) S1x16.size (k0_off9_inb k 1)).toLoadRect fa) (fun _ => rfl) _ rfl

theorem good1_7 (k : Fin k0_t1_loop.trips) (fa : FVec F S128x128 .f32) :
    Good k.val 1 0 fa ⟨Rect.unit (s := S128x128) (k0_off8 k 1#32) S1x16.size (k0_off8_inb k 1), k0_pay12 (View.readAt (Elt F) (Memref.whole cc0_scratch1 : Memref sig .scVector .vmem S128x128 .f32).view (Rect.unit (s := S128x128) (k0_off8 k 1#32) S1x16.size (k0_off8_inb k 1)).toLoadRect fa)⟩ :=
  good_of k.val 1 0 fa _ _ (k0_off8_eq k 1) (View.readAt (Elt F) (Memref.whole cc0_scratch1 : Memref sig .scVector .vmem S128x128 .f32).view (Rect.unit (s := S128x128) (k0_off8 k 1#32) S1x16.size (k0_off8_inb k 1)).toLoadRect fa) (fun _ => rfl) _ rfl

theorem good1_8 (k : Fin k0_t1_loop.trips) (fa : FVec F S128x128 .f32) :
    Good k.val 0 7 fa ⟨Rect.unit (s := S128x128) (k0_off15 k 0#32) S1x16.size (k0_off15_inb k 0), k0_pay11 (k0_pay10 (View.readAt (Elt F) (Memref.whole cc0_scratch1 : Memref sig .scVector .vmem S128x128 .f32).view (Rect.unit (s := S128x128) (k0_off15 k 0#32) S1x16.size (k0_off15_inb k 0)).toLoadRect fa))⟩ :=
  good_of k.val 0 7 fa _ _ (k0_off15_eq k 0) (View.readAt (Elt F) (Memref.whole cc0_scratch1 : Memref sig .scVector .vmem S128x128 .f32).view (Rect.unit (s := S128x128) (k0_off15 k 0#32) S1x16.size (k0_off15_inb k 0)).toLoadRect fa) (fun _ => rfl) _ rfl

theorem good1_9 (k : Fin k0_t1_loop.trips) (fa : FVec F S128x128 .f32) :
    Good k.val 0 6 fa ⟨Rect.unit (s := S128x128) (k0_off14 k 0#32) S1x16.size (k0_off14_inb k 0), k0_pay9 (View.readAt (Elt F) (Memref.whole cc0_scratch1 : Memref sig .scVector .vmem S128x128 .f32).view (Rect.unit (s := S128x128) (k0_off14 k 0#32) S1x16.size (k0_off14_inb k 0)).toLoadRect fa)⟩ :=
  good_of k.val 0 6 fa _ _ (k0_off14_eq k 0) (View.readAt (Elt F) (Memref.whole cc0_scratch1 : Memref sig .scVector .vmem S128x128 .f32).view (Rect.unit (s := S128x128) (k0_off14 k 0#32) S1x16.size (k0_off14_inb k 0)).toLoadRect fa) (fun _ => rfl) _ rfl

theorem good1_10 (k : Fin k0_t1_loop.trips) (fa : FVec F S128x128 .f32) :
    Good k.val 0 5 fa ⟨Rect.unit (s := S128x128) (k0_off13 k 0#32) S1x16.size (k0_off13_inb k 0), k0_pay8 (View.readAt (Elt F) (Memref.whole cc0_scratch1 : Memref sig .scVector .vmem S128x128 .f32).view (Rect.unit (s := S128x128) (k0_off13 k 0#32) S1x16.size (k0_off13_inb k 0)).toLoadRect fa)⟩ :=
  good_of k.val 0 5 fa _ _ (k0_off13_eq k 0) (View.readAt (Elt F) (Memref.whole cc0_scratch1 : Memref sig .scVector .vmem S128x128 .f32).view (Rect.unit (s := S128x128) (k0_off13 k 0#32) S1x16.size (k0_off13_inb k 0)).toLoadRect fa) (fun _ => rfl) _ rfl

theorem good1_11 (k : Fin k0_t1_loop.trips) (fa : FVec F S128x128 .f32) :
    Good k.val 0 4 fa ⟨Rect.unit (s := S128x128) (k0_off12 k 0#32) S1x16.size (k0_off12_inb k 0), k0_pay7 (k0_pay6 (View.readAt (Elt F) (Memref.whole cc0_scratch1 : Memref sig .scVector .vmem S128x128 .f32).view (Rect.unit (s := S128x128) (k0_off12 k 0#32) S1x16.size (k0_off12_inb k 0)).toLoadRect fa))⟩ :=
  good_of k.val 0 4 fa _ _ (k0_off12_eq k 0) (View.readAt (Elt F) (Memref.whole cc0_scratch1 : Memref sig .scVector .vmem S128x128 .f32).view (Rect.unit (s := S128x128) (k0_off12 k 0#32) S1x16.size (k0_off12_inb k 0)).toLoadRect fa) (fun _ => rfl) _ rfl

theorem good1_12 (k : Fin k0_t1_loop.trips) (fa : FVec F S128x128 .f32) :
    Good k.val 0 3 fa ⟨Rect.unit (s := S128x128) (k0_off11 k 0#32) S1x16.size (k0_off11_inb k 0), k0_pay5 (View.readAt (Elt F) (Memref.whole cc0_scratch1 : Memref sig .scVector .vmem S128x128 .f32).view (Rect.unit (s := S128x128) (k0_off11 k 0#32) S1x16.size (k0_off11_inb k 0)).toLoadRect fa)⟩ :=
  good_of k.val 0 3 fa _ _ (k0_off11_eq k 0) (View.readAt (Elt F) (Memref.whole cc0_scratch1 : Memref sig .scVector .vmem S128x128 .f32).view (Rect.unit (s := S128x128) (k0_off11 k 0#32) S1x16.size (k0_off11_inb k 0)).toLoadRect fa) (fun _ => rfl) _ rfl

theorem good1_13 (k : Fin k0_t1_loop.trips) (fa : FVec F S128x128 .f32) :
    Good k.val 0 2 fa ⟨Rect.unit (s := S128x128) (k0_off10 k 0#32) S1x16.size (k0_off10_inb k 0), k0_pay4 (k0_pay3 (View.readAt (Elt F) (Memref.whole cc0_scratch1 : Memref sig .scVector .vmem S128x128 .f32).view (Rect.unit (s := S128x128) (k0_off10 k 0#32) S1x16.size (k0_off10_inb k 0)).toLoadRect fa))⟩ :=
  good_of k.val 0 2 fa _ _ (k0_off10_eq k 0) (View.readAt (Elt F) (Memref.whole cc0_scratch1 : Memref sig .scVector .vmem S128x128 .f32).view (Rect.unit (s := S128x128) (k0_off10 k 0#32) S1x16.size (k0_off10_inb k 0)).toLoadRect fa) (fun _ => rfl) _ rfl

theorem good1_14 (k : Fin k0_t1_loop.trips) (fa : FVec F S128x128 .f32) :
    Good k.val 0 1 fa ⟨Rect.unit (s := S128x128) (k0_off9 k 0#32) S1x16.size (k0_off9_inb k 0), k0_pay2 (View.readAt (Elt F) (Memref.whole cc0_scratch1 : Memref sig .scVector .vmem S128x128 .f32).view (Rect.unit (s := S128x128) (k0_off9 k 0#32) S1x16.size (k0_off9_inb k 0)).toLoadRect fa)⟩ :=
  good_of k.val 0 1 fa _ _ (k0_off9_eq k 0) (View.readAt (Elt F) (Memref.whole cc0_scratch1 : Memref sig .scVector .vmem S128x128 .f32).view (Rect.unit (s := S128x128) (k0_off9 k 0#32) S1x16.size (k0_off9_inb k 0)).toLoadRect fa) (fun _ => rfl) _ rfl

theorem good1_15 (k : Fin k0_t1_loop.trips) (fa : FVec F S128x128 .f32) :
    Good k.val 0 0 fa ⟨Rect.unit (s := S128x128) (k0_off8 k 0#32) S1x16.size (k0_off8_inb k 0), k0_pay1 (View.readAt (Elt F) (Memref.whole cc0_scratch1 : Memref sig .scVector .vmem S128x128 .f32).view (Rect.unit (s := S128x128) (k0_off8 k 0#32) S1x16.size (k0_off8_inb k 0)).toLoadRect fa)⟩ :=
  good_of k.val 0 0 fa _ _ (k0_off8_eq k 0) (View.readAt (Elt F) (Memref.whole cc0_scratch1 : Memref sig .scVector .vmem S128x128 .f32).view (Rect.unit (s := S128x128) (k0_off8 k 0#32) S1x16.size (k0_off8_inb k 0)).toLoadRect fa) (fun _ => rfl) _ rfl

/-- One trip of loop 1 extends the rows at the logistic function of the input by two. -/
theorem trip_value1 (k : Fin k0_t1_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch4 : Memref sig .scVector .vmem S128x128 .f32).view.writes (Elt F) f (pieces1 k fa)) y = Cert.Fuse.logistic (fa y) := by
  refine rows_step (Memref.whole cc0_scratch4 : Memref sig .scVector .vmem S128x128 .f32).view k.val fa f (pieces1 k fa) (List.forall_mem_cons.mpr ⟨⟨_, _, good1_0 k fa⟩, (List.forall_mem_cons.mpr ⟨⟨_, _, good1_1 k fa⟩, (List.forall_mem_cons.mpr ⟨⟨_, _, good1_2 k fa⟩, (List.forall_mem_cons.mpr ⟨⟨_, _, good1_3 k fa⟩, (List.forall_mem_cons.mpr ⟨⟨_, _, good1_4 k fa⟩, (List.forall_mem_cons.mpr ⟨⟨_, _, good1_5 k fa⟩, (List.forall_mem_cons.mpr ⟨⟨_, _, good1_6 k fa⟩, (List.forall_mem_cons.mpr ⟨⟨_, _, good1_7 k fa⟩, (List.forall_mem_cons.mpr ⟨⟨_, _, good1_8 k fa⟩, (List.forall_mem_cons.mpr ⟨⟨_, _, good1_9 k fa⟩, (List.forall_mem_cons.mpr ⟨⟨_, _, good1_10 k fa⟩, (List.forall_mem_cons.mpr ⟨⟨_, _, good1_11 k fa⟩, (List.forall_mem_cons.mpr ⟨⟨_, _, good1_12 k fa⟩, (List.forall_mem_cons.mpr ⟨⟨_, _, good1_13 k fa⟩, (List.forall_mem_cons.mpr ⟨⟨_, _, good1_14 k fa⟩, (List.forall_mem_cons.mpr ⟨⟨_, _, good1_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good1_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good1_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good1_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good1_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good1_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good1_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good1_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good1_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good1_7 k fa⟩
  · exact ⟨_, List.mem_cons_of_mem _ (List.mem_cons_of_mem _ (List.mem_cons_of_mem _ (List.mem_cons_of_mem _ (List.mem_cons_of_mem _ (List.mem_cons_of_mem _ (List.mem_cons_self)))))), good1_6 k fa⟩
  · exact ⟨_, List.mem_cons_of_mem _ (List.mem_cons_of_mem _ (List.mem_cons_of_mem _ (List.mem_cons_of_mem _ (List.mem_cons_of_mem _ (List.mem_cons_self))))), good1_5 k fa⟩
  · exact ⟨_, List.mem_cons_of_mem _ (List.mem_cons_of_mem _ (List.mem_cons_of_mem _ (List.mem_cons_of_mem _ (List.mem_cons_self)))), good1_4 k fa⟩
  · exact ⟨_, List.mem_cons_of_mem _ (List.mem_cons_of_mem _ (List.mem_cons_of_mem _ (List.mem_cons_self))), good1_3 k fa⟩
  · exact ⟨_, List.mem_cons_of_mem _ (List.mem_cons_of_mem _ (List.mem_cons_self)), good1_2 k fa⟩
  · exact ⟨_, List.mem_cons_of_mem _ (List.mem_cons_self), good1_1 k fa⟩
  · exact ⟨_, List.mem_cons_self, good1_0 k fa⟩

/-! ## Loop 2: from cc0_scratch2 to cc0_scratch5 -/

/-- The stores one trip of loop 2 leaves, the last first. -/
def pieces2 (k : Fin k0_t2_loop.trips) (fa : FVec F S128x128 .f32) : List (View.Piece (Elt F) S128x128 .f32) :=
  [⟨Rect.unit (s := S128x128) (k0_off26 k 1#32) S1x16.size (k0_off26_inb k 1), k0_pay181 (View.readAt (Elt F) (Memref.whole cc0_scratch2 : Memref sig .scVector .vmem S128x128 .f32).view (Rect.unit (s := S128x128) (k0_off26 k 1#32) S1x16.size (k0_off26_inb k 1)).toLoadRect fa)⟩,
   ⟨Rect.unit (s := S128x128) (k0_off25 k 1#32) S1x16.size (k0_off25_inb k 1), k0_pay180 (k0_pay40 (View.readAt (Elt F) (Memref.whole cc0_scratch2 : Memref sig .scVector .vmem S128x128 .f32).view (Rect.unit (s := S128x128) (k0_off25 k 1#32) S1x16.size (k0_off25_inb k 1)).toLoadRect fa))⟩,
   ⟨Rect.unit (s := S128x128) (k0_off24 k 1#32) S1x16.size (k0_off24_inb k 1), k0_pay39 (View.readAt (Elt F) (Memref.whole cc0_scratch2 : Memref sig .scVector .vmem S128x128 .f32).view (Rect.unit (s := S128x128) (k0_off24 k 1#32) S1x16.size (k0_off24_inb k 1)).toLoadRect fa)⟩,
   ⟨Rect.unit (s := S128x128) (k0_off23 k 1#32) S1x16.size (k0_off23_inb k 1), k0_pay38 (k0_pay37 (View.readAt (Elt F) (Memref.whole cc0_scratch2 : Memref sig .scVector .vmem S128x128 .f32).view (Rect.unit (s := S128x128) (k0_off23 k 1#32) S1x16.size (k0_off23_inb k 1)).toLoadRect fa))⟩,
   ⟨Rect.unit (s := S128x128) (k0_off22 k 1#32) S1x16.size (k0_off22_inb k 1), k0_pay36 (View.readAt (Elt F) (Memref.whole cc0_scratch2 : Memref sig .scVector .vmem S128x128 .f32).view (Rect.unit (s := S128x128) (k0_off22 k 1#32) S1x16.size (k0_off22_inb k 1)).toLoadRect fa)⟩,
   ⟨Rect.unit (s := S128x128) (k0_off21 k 1#32) S1x16.size (k0_off21_inb k 1), k0_pay35 (View.readAt (Elt F) (Memref.whole cc0_scratch2 : Memref sig .scVector .vmem S128x128 .f32).view (Rect.unit (s := S128x128) (k0_off21 k 1#32) S1x16.size (k0_off21_inb k 1)).toLoadRect fa)⟩,
   ⟨Rect.unit (s := S128x128) (k0_off20 k 1#32) S1x16.size (k0_off20_inb k 1), k0_pay34 (k0_pay33 (View.readAt (Elt F) (Memref.whole cc0_scratch2 : Memref sig .scVector .vmem S128x128 .f32).view (Rect.unit (s := S128x128) (k0_off20 k 1#32) S1x16.size (k0_off20_inb k 1)).toLoadRect fa))⟩,
   ⟨Rect.unit (s := S128x128) (k0_off19 k 1#32) S1x16.size (k0_off19_inb k 1), k0_pay32 (View.readAt (Elt F) (Memref.whole cc0_scratch2 : Memref sig .scVector .vmem S128x128 .f32).view (Rect.unit (s := S128x128) (k0_off19 k 1#32) S1x16.size (k0_off19_inb k 1)).toLoadRect fa)⟩,
   ⟨Rect.unit (s := S128x128) (k0_off26 k 0#32) S1x16.size (k0_off26_inb k 0), k0_pay31 (k0_pay30 (View.readAt (Elt F) (Memref.whole cc0_scratch2 : Memref sig .scVector .vmem S128x128 .f32).view (Rect.unit (s := S128x128) (k0_off26 k 0#32) S1x16.size (k0_off26_inb k 0)).toLoadRect fa))⟩,
   ⟨Rect.unit (s := S128x128) (k0_off25 k 0#32) S1x16.size (k0_off25_inb k 0), k0_pay29 (View.readAt (Elt F) (Memref.whole cc0_scratch2 : Memref sig .scVector .vmem S128x128 .f32).view (Rect.unit (s := S128x128) (k0_off25 k 0#32) S1x16.size (k0_off25_inb k 0)).toLoadRect fa)⟩,
   ⟨Rect.unit (s := S128x128) (k0_off24 k 0#32) S1x16.size (k0_off24_inb k 0), k0_pay28 (View.readAt (Elt F) (Memref.whole cc0_scratch2 : Memref sig .scVector .vmem S128x128 .f32).view (Rect.unit (s := S128x128) (k0_off24 k 0#32) S1x16.size (k0_off24_inb k 0)).toLoadRect fa)⟩,
   ⟨Rect.unit (s := S128x128) (k0_off23 k 0#32) S1x16.size (k0_off23_inb k 0), k0_pay27 (k0_pay26 (View.readAt (Elt F) (Memref.whole cc0_scratch2 : Memref sig .scVector .vmem S128x128 .f32).view (Rect.unit (s := S128x128) (k0_off23 k 0#32) S1x16.size (k0_off23_inb k 0)).toLoadRect fa))⟩,
   ⟨Rect.unit (s := S128x128) (k0_off22 k 0#32) S1x16.size (k0_off22_inb k 0), k0_pay25 (View.readAt (Elt F) (Memref.whole cc0_scratch2 : Memref sig .scVector .vmem S128x128 .f32).view (Rect.unit (s := S128x128) (k0_off22 k 0#32) S1x16.size (k0_off22_inb k 0)).toLoadRect fa)⟩,
   ⟨Rect.unit (s := S128x128) (k0_off21 k 0#32) S1x16.size (k0_off21_inb k 0), k0_pay24 (k0_pay23 (View.readAt (Elt F) (Memref.whole cc0_scratch2 : Memref sig .scVector .vmem S128x128 .f32).view (Rect.unit (s := S128x128) (k0_off21 k 0#32) S1x16.size (k0_off21_inb k 0)).toLoadRect fa))⟩,
   ⟨Rect.unit (s := S128x128) (k0_off20 k 0#32) S1x16.size (k0_off20_inb k 0), k0_pay22 (View.readAt (Elt F) (Memref.whole cc0_scratch2 : Memref sig .scVector .vmem S128x128 .f32).view (Rect.unit (s := S128x128) (k0_off20 k 0#32) S1x16.size (k0_off20_inb k 0)).toLoadRect fa)⟩,
   ⟨Rect.unit (s := S128x128) (k0_off19 k 0#32) S1x16.size (k0_off19_inb k 0), k0_pay21 (View.readAt (Elt F) (Memref.whole cc0_scratch2 : Memref sig .scVector .vmem S128x128 .f32).view (Rect.unit (s := S128x128) (k0_off19 k 0#32) S1x16.size (k0_off19_inb k 0)).toLoadRect fa)⟩]

theorem good2_0 (k : Fin k0_t2_loop.trips) (fa : FVec F S128x128 .f32) :
    Good k.val 1 7 fa ⟨Rect.unit (s := S128x128) (k0_off26 k 1#32) S1x16.size (k0_off26_inb k 1), k0_pay181 (View.readAt (Elt F) (Memref.whole cc0_scratch2 : Memref sig .scVector .vmem S128x128 .f32).view (Rect.unit (s := S128x128) (k0_off26 k 1#32) S1x16.size (k0_off26_inb k 1)).toLoadRect fa)⟩ :=
  good_of k.val 1 7 fa _ _ (k0_off26_eq k 1) (View.readAt (Elt F) (Memref.whole cc0_scratch2 : Memref sig .scVector .vmem S128x128 .f32).view (Rect.unit (s := S128x128) (k0_off26 k 1#32) S1x16.size (k0_off26_inb k 1)).toLoadRect fa) (fun _ => rfl) _ rfl

theorem good2_1 (k : Fin k0_t2_loop.trips) (fa : FVec F S128x128 .f32) :
    Good k.val 1 6 fa ⟨Rect.unit (s := S128x128) (k0_off25 k 1#32) S1x16.size (k0_off25_inb k 1), k0_pay180 (k0_pay40 (View.readAt (Elt F) (Memref.whole cc0_scratch2 : Memref sig .scVector .vmem S128x128 .f32).view (Rect.unit (s := S128x128) (k0_off25 k 1#32) S1x16.size (k0_off25_inb k 1)).toLoadRect fa))⟩ :=
  good_of k.val 1 6 fa _ _ (k0_off25_eq k 1) (View.readAt (Elt F) (Memref.whole cc0_scratch2 : Memref sig .scVector .vmem S128x128 .f32).view (Rect.unit (s := S128x128) (k0_off25 k 1#32) S1x16.size (k0_off25_inb k 1)).toLoadRect fa) (fun _ => rfl) _ rfl

theorem good2_2 (k : Fin k0_t2_loop.trips) (fa : FVec F S128x128 .f32) :
    Good k.val 1 5 fa ⟨Rect.unit (s := S128x128) (k0_off24 k 1#32) S1x16.size (k0_off24_inb k 1), k0_pay39 (View.readAt (Elt F) (Memref.whole cc0_scratch2 : Memref sig .scVector .vmem S128x128 .f32).view (Rect.unit (s := S128x128) (k0_off24 k 1#32) S1x16.size (k0_off24_inb k 1)).toLoadRect fa)⟩ :=
  good_of k.val 1 5 fa _ _ (k0_off24_eq k 1) (View.readAt (Elt F) (Memref.whole cc0_scratch2 : Memref sig .scVector .vmem S128x128 .f32).view (Rect.unit (s := S128x128) (k0_off24 k 1#32) S1x16.size (k0_off24_inb k 1)).toLoadRect fa) (fun _ => rfl) _ rfl

theorem good2_3 (k : Fin k0_t2_loop.trips) (fa : FVec F S128x128 .f32) :
    Good k.val 1 4 fa ⟨Rect.unit (s := S128x128) (k0_off23 k 1#32) S1x16.size (k0_off23_inb k 1), k0_pay38 (k0_pay37 (View.readAt (Elt F) (Memref.whole cc0_scratch2 : Memref sig .scVector .vmem S128x128 .f32).view (Rect.unit (s := S128x128) (k0_off23 k 1#32) S1x16.size (k0_off23_inb k 1)).toLoadRect fa))⟩ :=
  good_of k.val 1 4 fa _ _ (k0_off23_eq k 1) (View.readAt (Elt F) (Memref.whole cc0_scratch2 : Memref sig .scVector .vmem S128x128 .f32).view (Rect.unit (s := S128x128) (k0_off23 k 1#32) S1x16.size (k0_off23_inb k 1)).toLoadRect fa) (fun _ => rfl) _ rfl

theorem good2_4 (k : Fin k0_t2_loop.trips) (fa : FVec F S128x128 .f32) :
    Good k.val 1 3 fa ⟨Rect.unit (s := S128x128) (k0_off22 k 1#32) S1x16.size (k0_off22_inb k 1), k0_pay36 (View.readAt (Elt F) (Memref.whole cc0_scratch2 : Memref sig .scVector .vmem S128x128 .f32).view (Rect.unit (s := S128x128) (k0_off22 k 1#32) S1x16.size (k0_off22_inb k 1)).toLoadRect fa)⟩ :=
  good_of k.val 1 3 fa _ _ (k0_off22_eq k 1) (View.readAt (Elt F) (Memref.whole cc0_scratch2 : Memref sig .scVector .vmem S128x128 .f32).view (Rect.unit (s := S128x128) (k0_off22 k 1#32) S1x16.size (k0_off22_inb k 1)).toLoadRect fa) (fun _ => rfl) _ rfl

theorem good2_5 (k : Fin k0_t2_loop.trips) (fa : FVec F S128x128 .f32) :
    Good k.val 1 2 fa ⟨Rect.unit (s := S128x128) (k0_off21 k 1#32) S1x16.size (k0_off21_inb k 1), k0_pay35 (View.readAt (Elt F) (Memref.whole cc0_scratch2 : Memref sig .scVector .vmem S128x128 .f32).view (Rect.unit (s := S128x128) (k0_off21 k 1#32) S1x16.size (k0_off21_inb k 1)).toLoadRect fa)⟩ :=
  good_of k.val 1 2 fa _ _ (k0_off21_eq k 1) (View.readAt (Elt F) (Memref.whole cc0_scratch2 : Memref sig .scVector .vmem S128x128 .f32).view (Rect.unit (s := S128x128) (k0_off21 k 1#32) S1x16.size (k0_off21_inb k 1)).toLoadRect fa) (fun _ => rfl) _ rfl

theorem good2_6 (k : Fin k0_t2_loop.trips) (fa : FVec F S128x128 .f32) :
    Good k.val 1 1 fa ⟨Rect.unit (s := S128x128) (k0_off20 k 1#32) S1x16.size (k0_off20_inb k 1), k0_pay34 (k0_pay33 (View.readAt (Elt F) (Memref.whole cc0_scratch2 : Memref sig .scVector .vmem S128x128 .f32).view (Rect.unit (s := S128x128) (k0_off20 k 1#32) S1x16.size (k0_off20_inb k 1)).toLoadRect fa))⟩ :=
  good_of k.val 1 1 fa _ _ (k0_off20_eq k 1) (View.readAt (Elt F) (Memref.whole cc0_scratch2 : Memref sig .scVector .vmem S128x128 .f32).view (Rect.unit (s := S128x128) (k0_off20 k 1#32) S1x16.size (k0_off20_inb k 1)).toLoadRect fa) (fun _ => rfl) _ rfl

theorem good2_7 (k : Fin k0_t2_loop.trips) (fa : FVec F S128x128 .f32) :
    Good k.val 1 0 fa ⟨Rect.unit (s := S128x128) (k0_off19 k 1#32) S1x16.size (k0_off19_inb k 1), k0_pay32 (View.readAt (Elt F) (Memref.whole cc0_scratch2 : Memref sig .scVector .vmem S128x128 .f32).view (Rect.unit (s := S128x128) (k0_off19 k 1#32) S1x16.size (k0_off19_inb k 1)).toLoadRect fa)⟩ :=
  good_of k.val 1 0 fa _ _ (k0_off19_eq k 1) (View.readAt (Elt F) (Memref.whole cc0_scratch2 : Memref sig .scVector .vmem S128x128 .f32).view (Rect.unit (s := S128x128) (k0_off19 k 1#32) S1x16.size (k0_off19_inb k 1)).toLoadRect fa) (fun _ => rfl) _ rfl

theorem good2_8 (k : Fin k0_t2_loop.trips) (fa : FVec F S128x128 .f32) :
    Good k.val 0 7 fa ⟨Rect.unit (s := S128x128) (k0_off26 k 0#32) S1x16.size (k0_off26_inb k 0), k0_pay31 (k0_pay30 (View.readAt (Elt F) (Memref.whole cc0_scratch2 : Memref sig .scVector .vmem S128x128 .f32).view (Rect.unit (s := S128x128) (k0_off26 k 0#32) S1x16.size (k0_off26_inb k 0)).toLoadRect fa))⟩ :=
  good_of k.val 0 7 fa _ _ (k0_off26_eq k 0) (View.readAt (Elt F) (Memref.whole cc0_scratch2 : Memref sig .scVector .vmem S128x128 .f32).view (Rect.unit (s := S128x128) (k0_off26 k 0#32) S1x16.size (k0_off26_inb k 0)).toLoadRect fa) (fun _ => rfl) _ rfl

theorem good2_9 (k : Fin k0_t2_loop.trips) (fa : FVec F S128x128 .f32) :
    Good k.val 0 6 fa ⟨Rect.unit (s := S128x128) (k0_off25 k 0#32) S1x16.size (k0_off25_inb k 0), k0_pay29 (View.readAt (Elt F) (Memref.whole cc0_scratch2 : Memref sig .scVector .vmem S128x128 .f32).view (Rect.unit (s := S128x128) (k0_off25 k 0#32) S1x16.size (k0_off25_inb k 0)).toLoadRect fa)⟩ :=
  good_of k.val 0 6 fa _ _ (k0_off25_eq k 0) (View.readAt (Elt F) (Memref.whole cc0_scratch2 : Memref sig .scVector .vmem S128x128 .f32).view (Rect.unit (s := S128x128) (k0_off25 k 0#32) S1x16.size (k0_off25_inb k 0)).toLoadRect fa) (fun _ => rfl) _ rfl

theorem good2_10 (k : Fin k0_t2_loop.trips) (fa : FVec F S128x128 .f32) :
    Good k.val 0 5 fa ⟨Rect.unit (s := S128x128) (k0_off24 k 0#32) S1x16.size (k0_off24_inb k 0), k0_pay28 (View.readAt (Elt F) (Memref.whole cc0_scratch2 : Memref sig .scVector .vmem S128x128 .f32).view (Rect.unit (s := S128x128) (k0_off24 k 0#32) S1x16.size (k0_off24_inb k 0)).toLoadRect fa)⟩ :=
  good_of k.val 0 5 fa _ _ (k0_off24_eq k 0) (View.readAt (Elt F) (Memref.whole cc0_scratch2 : Memref sig .scVector .vmem S128x128 .f32).view (Rect.unit (s := S128x128) (k0_off24 k 0#32) S1x16.size (k0_off24_inb k 0)).toLoadRect fa) (fun _ => rfl) _ rfl

theorem good2_11 (k : Fin k0_t2_loop.trips) (fa : FVec F S128x128 .f32) :
    Good k.val 0 4 fa ⟨Rect.unit (s := S128x128) (k0_off23 k 0#32) S1x16.size (k0_off23_inb k 0), k0_pay27 (k0_pay26 (View.readAt (Elt F) (Memref.whole cc0_scratch2 : Memref sig .scVector .vmem S128x128 .f32).view (Rect.unit (s := S128x128) (k0_off23 k 0#32) S1x16.size (k0_off23_inb k 0)).toLoadRect fa))⟩ :=
  good_of k.val 0 4 fa _ _ (k0_off23_eq k 0) (View.readAt (Elt F) (Memref.whole cc0_scratch2 : Memref sig .scVector .vmem S128x128 .f32).view (Rect.unit (s := S128x128) (k0_off23 k 0#32) S1x16.size (k0_off23_inb k 0)).toLoadRect fa) (fun _ => rfl) _ rfl

theorem good2_12 (k : Fin k0_t2_loop.trips) (fa : FVec F S128x128 .f32) :
    Good k.val 0 3 fa ⟨Rect.unit (s := S128x128) (k0_off22 k 0#32) S1x16.size (k0_off22_inb k 0), k0_pay25 (View.readAt (Elt F) (Memref.whole cc0_scratch2 : Memref sig .scVector .vmem S128x128 .f32).view (Rect.unit (s := S128x128) (k0_off22 k 0#32) S1x16.size (k0_off22_inb k 0)).toLoadRect fa)⟩ :=
  good_of k.val 0 3 fa _ _ (k0_off22_eq k 0) (View.readAt (Elt F) (Memref.whole cc0_scratch2 : Memref sig .scVector .vmem S128x128 .f32).view (Rect.unit (s := S128x128) (k0_off22 k 0#32) S1x16.size (k0_off22_inb k 0)).toLoadRect fa) (fun _ => rfl) _ rfl

theorem good2_13 (k : Fin k0_t2_loop.trips) (fa : FVec F S128x128 .f32) :
    Good k.val 0 2 fa ⟨Rect.unit (s := S128x128) (k0_off21 k 0#32) S1x16.size (k0_off21_inb k 0), k0_pay24 (k0_pay23 (View.readAt (Elt F) (Memref.whole cc0_scratch2 : Memref sig .scVector .vmem S128x128 .f32).view (Rect.unit (s := S128x128) (k0_off21 k 0#32) S1x16.size (k0_off21_inb k 0)).toLoadRect fa))⟩ :=
  good_of k.val 0 2 fa _ _ (k0_off21_eq k 0) (View.readAt (Elt F) (Memref.whole cc0_scratch2 : Memref sig .scVector .vmem S128x128 .f32).view (Rect.unit (s := S128x128) (k0_off21 k 0#32) S1x16.size (k0_off21_inb k 0)).toLoadRect fa) (fun _ => rfl) _ rfl

theorem good2_14 (k : Fin k0_t2_loop.trips) (fa : FVec F S128x128 .f32) :
    Good k.val 0 1 fa ⟨Rect.unit (s := S128x128) (k0_off20 k 0#32) S1x16.size (k0_off20_inb k 0), k0_pay22 (View.readAt (Elt F) (Memref.whole cc0_scratch2 : Memref sig .scVector .vmem S128x128 .f32).view (Rect.unit (s := S128x128) (k0_off20 k 0#32) S1x16.size (k0_off20_inb k 0)).toLoadRect fa)⟩ :=
  good_of k.val 0 1 fa _ _ (k0_off20_eq k 0) (View.readAt (Elt F) (Memref.whole cc0_scratch2 : Memref sig .scVector .vmem S128x128 .f32).view (Rect.unit (s := S128x128) (k0_off20 k 0#32) S1x16.size (k0_off20_inb k 0)).toLoadRect fa) (fun _ => rfl) _ rfl

theorem good2_15 (k : Fin k0_t2_loop.trips) (fa : FVec F S128x128 .f32) :
    Good k.val 0 0 fa ⟨Rect.unit (s := S128x128) (k0_off19 k 0#32) S1x16.size (k0_off19_inb k 0), k0_pay21 (View.readAt (Elt F) (Memref.whole cc0_scratch2 : Memref sig .scVector .vmem S128x128 .f32).view (Rect.unit (s := S128x128) (k0_off19 k 0#32) S1x16.size (k0_off19_inb k 0)).toLoadRect fa)⟩ :=
  good_of k.val 0 0 fa _ _ (k0_off19_eq k 0) (View.readAt (Elt F) (Memref.whole cc0_scratch2 : Memref sig .scVector .vmem S128x128 .f32).view (Rect.unit (s := S128x128) (k0_off19 k 0#32) S1x16.size (k0_off19_inb k 0)).toLoadRect fa) (fun _ => rfl) _ rfl

/-- One trip of loop 2 extends the rows at the logistic function of the input by two. -/
theorem trip_value2 (k : Fin k0_t2_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch5 : Memref sig .scVector .vmem S128x128 .f32).view.writes (Elt F) f (pieces2 k fa)) y = Cert.Fuse.logistic (fa y) := by
  refine rows_step (Memref.whole cc0_scratch5 : Memref sig .scVector .vmem S128x128 .f32).view k.val fa f (pieces2 k fa) (List.forall_mem_cons.mpr ⟨⟨_, _, good2_0 k fa⟩, (List.forall_mem_cons.mpr ⟨⟨_, _, good2_1 k fa⟩, (List.forall_mem_cons.mpr ⟨⟨_, _, good2_2 k fa⟩, (List.forall_mem_cons.mpr ⟨⟨_, _, good2_3 k fa⟩, (List.forall_mem_cons.mpr ⟨⟨_, _, good2_4 k fa⟩, (List.forall_mem_cons.mpr ⟨⟨_, _, good2_5 k fa⟩, (List.forall_mem_cons.mpr ⟨⟨_, _, good2_6 k fa⟩, (List.forall_mem_cons.mpr ⟨⟨_, _, good2_7 k fa⟩, (List.forall_mem_cons.mpr ⟨⟨_, _, good2_8 k fa⟩, (List.forall_mem_cons.mpr ⟨⟨_, _, good2_9 k fa⟩, (List.forall_mem_cons.mpr ⟨⟨_, _, good2_10 k fa⟩, (List.forall_mem_cons.mpr ⟨⟨_, _, good2_11 k fa⟩, (List.forall_mem_cons.mpr ⟨⟨_, _, good2_12 k fa⟩, (List.forall_mem_cons.mpr ⟨⟨_, _, good2_13 k fa⟩, (List.forall_mem_cons.mpr ⟨⟨_, _, good2_14 k fa⟩, (List.forall_mem_cons.mpr ⟨⟨_, _, good2_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good2_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good2_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good2_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good2_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good2_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good2_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good2_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good2_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good2_7 k fa⟩
  · exact ⟨_, List.mem_cons_of_mem _ (List.mem_cons_of_mem _ (List.mem_cons_of_mem _ (List.mem_cons_of_mem _ (List.mem_cons_of_mem _ (List.mem_cons_of_mem _ (List.mem_cons_self)))))), good2_6 k fa⟩
  · exact ⟨_, List.mem_cons_of_mem _ (List.mem_cons_of_mem _ (List.mem_cons_of_mem _ (List.mem_cons_of_mem _ (List.mem_cons_of_mem _ (List.mem_cons_self))))), good2_5 k fa⟩
  · exact ⟨_, List.mem_cons_of_mem _ (List.mem_cons_of_mem _ (List.mem_cons_of_mem _ (List.mem_cons_of_mem _ (List.mem_cons_self)))), good2_4 k fa⟩
  · exact ⟨_, List.mem_cons_of_mem _ (List.mem_cons_of_mem _ (List.mem_cons_of_mem _ (List.mem_cons_self))), good2_3 k fa⟩
  · exact ⟨_, List.mem_cons_of_mem _ (List.mem_cons_of_mem _ (List.mem_cons_self)), good2_2 k fa⟩
  · exact ⟨_, List.mem_cons_of_mem _ (List.mem_cons_self), good2_1 k fa⟩
  · exact ⟨_, List.mem_cons_self, good2_0 k fa⟩

/-! ## Loop 3: from cc0_scratch3 to cc0_scratch6 -/

/-- The stores one trip of loop 3 leaves, the last first. -/
def pieces3 (k : Fin k0_t3_loop.trips) (fa : FVec F S128x128 .f32) : List (View.Piece (Elt F) S128x128 .f32) :=
  [⟨Rect.unit (s := S128x128) (k0_off36 k 1#32) S1x16.size (k0_off36_inb k 1), k0_pay183 (View.readAt (Elt F) (Memref.whole cc0_scratch3 : Memref sig .scVector .vmem S128x128 .f32).view (Rect.unit (s := S128x128) (k0_off36 k 1#32) S1x16.size (k0_off36_inb k 1)).toLoadRect fa)⟩,
   ⟨Rect.unit (s := S128x128) (k0_off35 k 1#32) S1x16.size (k0_off35_inb k 1), k0_pay182 (k0_pay60 (View.readAt (Elt F) (Memref.whole cc0_scratch3 : Memref sig .scVector .vmem S128x128 .f32).view (Rect.unit (s := S128x128) (k0_off35 k 1#32) S1x16.size (k0_off35_inb k 1)).toLoadRect fa))⟩,
   ⟨Rect.unit (s := S128x128) (k0_off34 k 1#32) S1x16.size (k0_off34_inb k 1), k0_pay59 (View.readAt (Elt F) (Memref.whole cc0_scratch3 : Memref sig .scVector .vmem S128x128 .f32).view (Rect.unit (s := S128x128) (k0_off34 k 1#32) S1x16.size (k0_off34_inb k 1)).toLoadRect fa)⟩,
   ⟨Rect.unit (s := S128x128) (k0_off33 k 1#32) S1x16.size (k0_off33_inb k 1), k0_pay58 (k0_pay57 (View.readAt (Elt F) (Memref.whole cc0_scratch3 : Memref sig .scVector .vmem S128x128 .f32).view (Rect.unit (s := S128x128) (k0_off33 k 1#32) S1x16.size (k0_off33_inb k 1)).toLoadRect fa))⟩,
   ⟨Rect.unit (s := S128x128) (k0_off32 k 1#32) S1x16.size (k0_off32_inb k 1), k0_pay56 (View.readAt (Elt F) (Memref.whole cc0_scratch3 : Memref sig .scVector .vmem S128x128 .f32).view (Rect.unit (s := S128x128) (k0_off32 k 1#32) S1x16.size (k0_off32_inb k 1)).toLoadRect fa)⟩,
   ⟨Rect.unit (s := S128x128) (k0_off31 k 1#32) S1x16.size (k0_off31_inb k 1), k0_pay55 (View.readAt (Elt F) (Memref.whole cc0_scratch3 : Memref sig .scVector .vmem S128x128 .f32).view (Rect.unit (s := S128x128) (k0_off31 k 1#32) S1x16.size (k0_off31_inb k 1)).toLoadRect fa)⟩,
   ⟨Rect.unit (s := S128x128) (k0_off30 k 1#32) S1x16.size (k0_off30_inb k 1), k0_pay54 (k0_pay53 (View.readAt (Elt F) (Memref.whole cc0_scratch3 : Memref sig .scVector .vmem S128x128 .f32).view (Rect.unit (s := S128x128) (k0_off30 k 1#32) S1x16.size (k0_off30_inb k 1)).toLoadRect fa))⟩,
   ⟨Rect.unit (s := S128x128) (k0_off29 k 1#32) S1x16.size (k0_off29_inb k 1), k0_pay52 (View.readAt (Elt F) (Memref.whole cc0_scratch3 : Memref sig .scVector .vmem S128x128 .f32).view (Rect.unit (s := S128x128) (k0_off29 k 1#32) S1x16.size (k0_off29_inb k 1)).toLoadRect fa)⟩,
   ⟨Rect.unit (s := S128x128) (k0_off36 k 0#32) S1x16.size (k0_off36_inb k 0), k0_pay51 (k0_pay50 (View.readAt (Elt F) (Memref.whole cc0_scratch3 : Memref sig .scVector .vmem S128x128 .f32).view (Rect.unit (s := S128x128) (k0_off36 k 0#32) S1x16.size (k0_off36_inb k 0)).toLoadRect fa))⟩,
   ⟨Rect.unit (s := S128x128) (k0_off35 k 0#32) S1x16.size (k0_off35_inb k 0), k0_pay49 (View.readAt (Elt F) (Memref.whole cc0_scratch3 : Memref sig .scVector .vmem S128x128 .f32).view (Rect.unit (s := S128x128) (k0_off35 k 0#32) S1x16.size (k0_off35_inb k 0)).toLoadRect fa)⟩,
   ⟨Rect.unit (s := S128x128) (k0_off34 k 0#32) S1x16.size (k0_off34_inb k 0), k0_pay48 (View.readAt (Elt F) (Memref.whole cc0_scratch3 : Memref sig .scVector .vmem S128x128 .f32).view (Rect.unit (s := S128x128) (k0_off34 k 0#32) S1x16.size (k0_off34_inb k 0)).toLoadRect fa)⟩,
   ⟨Rect.unit (s := S128x128) (k0_off33 k 0#32) S1x16.size (k0_off33_inb k 0), k0_pay47 (k0_pay46 (View.readAt (Elt F) (Memref.whole cc0_scratch3 : Memref sig .scVector .vmem S128x128 .f32).view (Rect.unit (s := S128x128) (k0_off33 k 0#32) S1x16.size (k0_off33_inb k 0)).toLoadRect fa))⟩,
   ⟨Rect.unit (s := S128x128) (k0_off32 k 0#32) S1x16.size (k0_off32_inb k 0), k0_pay45 (View.readAt (Elt F) (Memref.whole cc0_scratch3 : Memref sig .scVector .vmem S128x128 .f32).view (Rect.unit (s := S128x128) (k0_off32 k 0#32) S1x16.size (k0_off32_inb k 0)).toLoadRect fa)⟩,
   ⟨Rect.unit (s := S128x128) (k0_off31 k 0#32) S1x16.size (k0_off31_inb k 0), k0_pay44 (k0_pay43 (View.readAt (Elt F) (Memref.whole cc0_scratch3 : Memref sig .scVector .vmem S128x128 .f32).view (Rect.unit (s := S128x128) (k0_off31 k 0#32) S1x16.size (k0_off31_inb k 0)).toLoadRect fa))⟩,
   ⟨Rect.unit (s := S128x128) (k0_off30 k 0#32) S1x16.size (k0_off30_inb k 0), k0_pay42 (View.readAt (Elt F) (Memref.whole cc0_scratch3 : Memref sig .scVector .vmem S128x128 .f32).view (Rect.unit (s := S128x128) (k0_off30 k 0#32) S1x16.size (k0_off30_inb k 0)).toLoadRect fa)⟩,
   ⟨Rect.unit (s := S128x128) (k0_off29 k 0#32) S1x16.size (k0_off29_inb k 0), k0_pay41 (View.readAt (Elt F) (Memref.whole cc0_scratch3 : Memref sig .scVector .vmem S128x128 .f32).view (Rect.unit (s := S128x128) (k0_off29 k 0#32) S1x16.size (k0_off29_inb k 0)).toLoadRect fa)⟩]

theorem good3_0 (k : Fin k0_t3_loop.trips) (fa : FVec F S128x128 .f32) :
    Good k.val 1 7 fa ⟨Rect.unit (s := S128x128) (k0_off36 k 1#32) S1x16.size (k0_off36_inb k 1), k0_pay183 (View.readAt (Elt F) (Memref.whole cc0_scratch3 : Memref sig .scVector .vmem S128x128 .f32).view (Rect.unit (s := S128x128) (k0_off36 k 1#32) S1x16.size (k0_off36_inb k 1)).toLoadRect fa)⟩ :=
  good_of k.val 1 7 fa _ _ (k0_off36_eq k 1) (View.readAt (Elt F) (Memref.whole cc0_scratch3 : Memref sig .scVector .vmem S128x128 .f32).view (Rect.unit (s := S128x128) (k0_off36 k 1#32) S1x16.size (k0_off36_inb k 1)).toLoadRect fa) (fun _ => rfl) _ rfl

theorem good3_1 (k : Fin k0_t3_loop.trips) (fa : FVec F S128x128 .f32) :
    Good k.val 1 6 fa ⟨Rect.unit (s := S128x128) (k0_off35 k 1#32) S1x16.size (k0_off35_inb k 1), k0_pay182 (k0_pay60 (View.readAt (Elt F) (Memref.whole cc0_scratch3 : Memref sig .scVector .vmem S128x128 .f32).view (Rect.unit (s := S128x128) (k0_off35 k 1#32) S1x16.size (k0_off35_inb k 1)).toLoadRect fa))⟩ :=
  good_of k.val 1 6 fa _ _ (k0_off35_eq k 1) (View.readAt (Elt F) (Memref.whole cc0_scratch3 : Memref sig .scVector .vmem S128x128 .f32).view (Rect.unit (s := S128x128) (k0_off35 k 1#32) S1x16.size (k0_off35_inb k 1)).toLoadRect fa) (fun _ => rfl) _ rfl

theorem good3_2 (k : Fin k0_t3_loop.trips) (fa : FVec F S128x128 .f32) :
    Good k.val 1 5 fa ⟨Rect.unit (s := S128x128) (k0_off34 k 1#32) S1x16.size (k0_off34_inb k 1), k0_pay59 (View.readAt (Elt F) (Memref.whole cc0_scratch3 : Memref sig .scVector .vmem S128x128 .f32).view (Rect.unit (s := S128x128) (k0_off34 k 1#32) S1x16.size (k0_off34_inb k 1)).toLoadRect fa)⟩ :=
  good_of k.val 1 5 fa _ _ (k0_off34_eq k 1) (View.readAt (Elt F) (Memref.whole cc0_scratch3 : Memref sig .scVector .vmem S128x128 .f32).view (Rect.unit (s := S128x128) (k0_off34 k 1#32) S1x16.size (k0_off34_inb k 1)).toLoadRect fa) (fun _ => rfl) _ rfl

theorem good3_3 (k : Fin k0_t3_loop.trips) (fa : FVec F S128x128 .f32) :
    Good k.val 1 4 fa ⟨Rect.unit (s := S128x128) (k0_off33 k 1#32) S1x16.size (k0_off33_inb k 1), k0_pay58 (k0_pay57 (View.readAt (Elt F) (Memref.whole cc0_scratch3 : Memref sig .scVector .vmem S128x128 .f32).view (Rect.unit (s := S128x128) (k0_off33 k 1#32) S1x16.size (k0_off33_inb k 1)).toLoadRect fa))⟩ :=
  good_of k.val 1 4 fa _ _ (k0_off33_eq k 1) (View.readAt (Elt F) (Memref.whole cc0_scratch3 : Memref sig .scVector .vmem S128x128 .f32).view (Rect.unit (s := S128x128) (k0_off33 k 1#32) S1x16.size (k0_off33_inb k 1)).toLoadRect fa) (fun _ => rfl) _ rfl

theorem good3_4 (k : Fin k0_t3_loop.trips) (fa : FVec F S128x128 .f32) :
    Good k.val 1 3 fa ⟨Rect.unit (s := S128x128) (k0_off32 k 1#32) S1x16.size (k0_off32_inb k 1), k0_pay56 (View.readAt (Elt F) (Memref.whole cc0_scratch3 : Memref sig .scVector .vmem S128x128 .f32).view (Rect.unit (s := S128x128) (k0_off32 k 1#32) S1x16.size (k0_off32_inb k 1)).toLoadRect fa)⟩ :=
  good_of k.val 1 3 fa _ _ (k0_off32_eq k 1) (View.readAt (Elt F) (Memref.whole cc0_scratch3 : Memref sig .scVector .vmem S128x128 .f32).view (Rect.unit (s := S128x128) (k0_off32 k 1#32) S1x16.size (k0_off32_inb k 1)).toLoadRect fa) (fun _ => rfl) _ rfl

theorem good3_5 (k : Fin k0_t3_loop.trips) (fa : FVec F S128x128 .f32) :
    Good k.val 1 2 fa ⟨Rect.unit (s := S128x128) (k0_off31 k 1#32) S1x16.size (k0_off31_inb k 1), k0_pay55 (View.readAt (Elt F) (Memref.whole cc0_scratch3 : Memref sig .scVector .vmem S128x128 .f32).view (Rect.unit (s := S128x128) (k0_off31 k 1#32) S1x16.size (k0_off31_inb k 1)).toLoadRect fa)⟩ :=
  good_of k.val 1 2 fa _ _ (k0_off31_eq k 1) (View.readAt (Elt F) (Memref.whole cc0_scratch3 : Memref sig .scVector .vmem S128x128 .f32).view (Rect.unit (s := S128x128) (k0_off31 k 1#32) S1x16.size (k0_off31_inb k 1)).toLoadRect fa) (fun _ => rfl) _ rfl

theorem good3_6 (k : Fin k0_t3_loop.trips) (fa : FVec F S128x128 .f32) :
    Good k.val 1 1 fa ⟨Rect.unit (s := S128x128) (k0_off30 k 1#32) S1x16.size (k0_off30_inb k 1), k0_pay54 (k0_pay53 (View.readAt (Elt F) (Memref.whole cc0_scratch3 : Memref sig .scVector .vmem S128x128 .f32).view (Rect.unit (s := S128x128) (k0_off30 k 1#32) S1x16.size (k0_off30_inb k 1)).toLoadRect fa))⟩ :=
  good_of k.val 1 1 fa _ _ (k0_off30_eq k 1) (View.readAt (Elt F) (Memref.whole cc0_scratch3 : Memref sig .scVector .vmem S128x128 .f32).view (Rect.unit (s := S128x128) (k0_off30 k 1#32) S1x16.size (k0_off30_inb k 1)).toLoadRect fa) (fun _ => rfl) _ rfl

theorem good3_7 (k : Fin k0_t3_loop.trips) (fa : FVec F S128x128 .f32) :
    Good k.val 1 0 fa ⟨Rect.unit (s := S128x128) (k0_off29 k 1#32) S1x16.size (k0_off29_inb k 1), k0_pay52 (View.readAt (Elt F) (Memref.whole cc0_scratch3 : Memref sig .scVector .vmem S128x128 .f32).view (Rect.unit (s := S128x128) (k0_off29 k 1#32) S1x16.size (k0_off29_inb k 1)).toLoadRect fa)⟩ :=
  good_of k.val 1 0 fa _ _ (k0_off29_eq k 1) (View.readAt (Elt F) (Memref.whole cc0_scratch3 : Memref sig .scVector .vmem S128x128 .f32).view (Rect.unit (s := S128x128) (k0_off29 k 1#32) S1x16.size (k0_off29_inb k 1)).toLoadRect fa) (fun _ => rfl) _ rfl

theorem good3_8 (k : Fin k0_t3_loop.trips) (fa : FVec F S128x128 .f32) :
    Good k.val 0 7 fa ⟨Rect.unit (s := S128x128) (k0_off36 k 0#32) S1x16.size (k0_off36_inb k 0), k0_pay51 (k0_pay50 (View.readAt (Elt F) (Memref.whole cc0_scratch3 : Memref sig .scVector .vmem S128x128 .f32).view (Rect.unit (s := S128x128) (k0_off36 k 0#32) S1x16.size (k0_off36_inb k 0)).toLoadRect fa))⟩ :=
  good_of k.val 0 7 fa _ _ (k0_off36_eq k 0) (View.readAt (Elt F) (Memref.whole cc0_scratch3 : Memref sig .scVector .vmem S128x128 .f32).view (Rect.unit (s := S128x128) (k0_off36 k 0#32) S1x16.size (k0_off36_inb k 0)).toLoadRect fa) (fun _ => rfl) _ rfl

theorem good3_9 (k : Fin k0_t3_loop.trips) (fa : FVec F S128x128 .f32) :
    Good k.val 0 6 fa ⟨Rect.unit (s := S128x128) (k0_off35 k 0#32) S1x16.size (k0_off35_inb k 0), k0_pay49 (View.readAt (Elt F) (Memref.whole cc0_scratch3 : Memref sig .scVector .vmem S128x128 .f32).view (Rect.unit (s := S128x128) (k0_off35 k 0#32) S1x16.size (k0_off35_inb k 0)).toLoadRect fa)⟩ :=
  good_of k.val 0 6 fa _ _ (k0_off35_eq k 0) (View.readAt (Elt F) (Memref.whole cc0_scratch3 : Memref sig .scVector .vmem S128x128 .f32).view (Rect.unit (s := S128x128) (k0_off35 k 0#32) S1x16.size (k0_off35_inb k 0)).toLoadRect fa) (fun _ => rfl) _ rfl

theorem good3_10 (k : Fin k0_t3_loop.trips) (fa : FVec F S128x128 .f32) :
    Good k.val 0 5 fa ⟨Rect.unit (s := S128x128) (k0_off34 k 0#32) S1x16.size (k0_off34_inb k 0), k0_pay48 (View.readAt (Elt F) (Memref.whole cc0_scratch3 : Memref sig .scVector .vmem S128x128 .f32).view (Rect.unit (s := S128x128) (k0_off34 k 0#32) S1x16.size (k0_off34_inb k 0)).toLoadRect fa)⟩ :=
  good_of k.val 0 5 fa _ _ (k0_off34_eq k 0) (View.readAt (Elt F) (Memref.whole cc0_scratch3 : Memref sig .scVector .vmem S128x128 .f32).view (Rect.unit (s := S128x128) (k0_off34 k 0#32) S1x16.size (k0_off34_inb k 0)).toLoadRect fa) (fun _ => rfl) _ rfl

theorem good3_11 (k : Fin k0_t3_loop.trips) (fa : FVec F S128x128 .f32) :
    Good k.val 0 4 fa ⟨Rect.unit (s := S128x128) (k0_off33 k 0#32) S1x16.size (k0_off33_inb k 0), k0_pay47 (k0_pay46 (View.readAt (Elt F) (Memref.whole cc0_scratch3 : Memref sig .scVector .vmem S128x128 .f32).view (Rect.unit (s := S128x128) (k0_off33 k 0#32) S1x16.size (k0_off33_inb k 0)).toLoadRect fa))⟩ :=
  good_of k.val 0 4 fa _ _ (k0_off33_eq k 0) (View.readAt (Elt F) (Memref.whole cc0_scratch3 : Memref sig .scVector .vmem S128x128 .f32).view (Rect.unit (s := S128x128) (k0_off33 k 0#32) S1x16.size (k0_off33_inb k 0)).toLoadRect fa) (fun _ => rfl) _ rfl

theorem good3_12 (k : Fin k0_t3_loop.trips) (fa : FVec F S128x128 .f32) :
    Good k.val 0 3 fa ⟨Rect.unit (s := S128x128) (k0_off32 k 0#32) S1x16.size (k0_off32_inb k 0), k0_pay45 (View.readAt (Elt F) (Memref.whole cc0_scratch3 : Memref sig .scVector .vmem S128x128 .f32).view (Rect.unit (s := S128x128) (k0_off32 k 0#32) S1x16.size (k0_off32_inb k 0)).toLoadRect fa)⟩ :=
  good_of k.val 0 3 fa _ _ (k0_off32_eq k 0) (View.readAt (Elt F) (Memref.whole cc0_scratch3 : Memref sig .scVector .vmem S128x128 .f32).view (Rect.unit (s := S128x128) (k0_off32 k 0#32) S1x16.size (k0_off32_inb k 0)).toLoadRect fa) (fun _ => rfl) _ rfl

theorem good3_13 (k : Fin k0_t3_loop.trips) (fa : FVec F S128x128 .f32) :
    Good k.val 0 2 fa ⟨Rect.unit (s := S128x128) (k0_off31 k 0#32) S1x16.size (k0_off31_inb k 0), k0_pay44 (k0_pay43 (View.readAt (Elt F) (Memref.whole cc0_scratch3 : Memref sig .scVector .vmem S128x128 .f32).view (Rect.unit (s := S128x128) (k0_off31 k 0#32) S1x16.size (k0_off31_inb k 0)).toLoadRect fa))⟩ :=
  good_of k.val 0 2 fa _ _ (k0_off31_eq k 0) (View.readAt (Elt F) (Memref.whole cc0_scratch3 : Memref sig .scVector .vmem S128x128 .f32).view (Rect.unit (s := S128x128) (k0_off31 k 0#32) S1x16.size (k0_off31_inb k 0)).toLoadRect fa) (fun _ => rfl) _ rfl

theorem good3_14 (k : Fin k0_t3_loop.trips) (fa : FVec F S128x128 .f32) :
    Good k.val 0 1 fa ⟨Rect.unit (s := S128x128) (k0_off30 k 0#32) S1x16.size (k0_off30_inb k 0), k0_pay42 (View.readAt (Elt F) (Memref.whole cc0_scratch3 : Memref sig .scVector .vmem S128x128 .f32).view (Rect.unit (s := S128x128) (k0_off30 k 0#32) S1x16.size (k0_off30_inb k 0)).toLoadRect fa)⟩ :=
  good_of k.val 0 1 fa _ _ (k0_off30_eq k 0) (View.readAt (Elt F) (Memref.whole cc0_scratch3 : Memref sig .scVector .vmem S128x128 .f32).view (Rect.unit (s := S128x128) (k0_off30 k 0#32) S1x16.size (k0_off30_inb k 0)).toLoadRect fa) (fun _ => rfl) _ rfl

theorem good3_15 (k : Fin k0_t3_loop.trips) (fa : FVec F S128x128 .f32) :
    Good k.val 0 0 fa ⟨Rect.unit (s := S128x128) (k0_off29 k 0#32) S1x16.size (k0_off29_inb k 0), k0_pay41 (View.readAt (Elt F) (Memref.whole cc0_scratch3 : Memref sig .scVector .vmem S128x128 .f32).view (Rect.unit (s := S128x128) (k0_off29 k 0#32) S1x16.size (k0_off29_inb k 0)).toLoadRect fa)⟩ :=
  good_of k.val 0 0 fa _ _ (k0_off29_eq k 0) (View.readAt (Elt F) (Memref.whole cc0_scratch3 : Memref sig .scVector .vmem S128x128 .f32).view (Rect.unit (s := S128x128) (k0_off29 k 0#32) S1x16.size (k0_off29_inb k 0)).toLoadRect fa) (fun _ => rfl) _ rfl

/-- One trip of loop 3 extends the rows at the logistic function of the input by two. -/
theorem trip_value3 (k : Fin k0_t3_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch6 : Memref sig .scVector .vmem S128x128 .f32).view.writes (Elt F) f (pieces3 k fa)) y = Cert.Fuse.logistic (fa y) := by
  refine rows_step (Memref.whole cc0_scratch6 : Memref sig .scVector .vmem S128x128 .f32).view k.val fa f (pieces3 k fa) (List.forall_mem_cons.mpr ⟨⟨_, _, good3_0 k fa⟩, (List.forall_mem_cons.mpr ⟨⟨_, _, good3_1 k fa⟩, (List.forall_mem_cons.mpr ⟨⟨_, _, good3_2 k fa⟩, (List.forall_mem_cons.mpr ⟨⟨_, _, good3_3 k fa⟩, (List.forall_mem_cons.mpr ⟨⟨_, _, good3_4 k fa⟩, (List.forall_mem_cons.mpr ⟨⟨_, _, good3_5 k fa⟩, (List.forall_mem_cons.mpr ⟨⟨_, _, good3_6 k fa⟩, (List.forall_mem_cons.mpr ⟨⟨_, _, good3_7 k fa⟩, (List.forall_mem_cons.mpr ⟨⟨_, _, good3_8 k fa⟩, (List.forall_mem_cons.mpr ⟨⟨_, _, good3_9 k fa⟩, (List.forall_mem_cons.mpr ⟨⟨_, _, good3_10 k fa⟩, (List.forall_mem_cons.mpr ⟨⟨_, _, good3_11 k fa⟩, (List.forall_mem_cons.mpr ⟨⟨_, _, good3_12 k fa⟩, (List.forall_mem_cons.mpr ⟨⟨_, _, good3_13 k fa⟩, (List.forall_mem_cons.mpr ⟨⟨_, _, good3_14 k fa⟩, (List.forall_mem_cons.mpr ⟨⟨_, _, good3_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good3_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good3_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good3_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good3_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good3_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good3_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good3_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good3_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good3_7 k fa⟩
  · exact ⟨_, List.mem_cons_of_mem _ (List.mem_cons_of_mem _ (List.mem_cons_of_mem _ (List.mem_cons_of_mem _ (List.mem_cons_of_mem _ (List.mem_cons_of_mem _ (List.mem_cons_self)))))), good3_6 k fa⟩
  · exact ⟨_, List.mem_cons_of_mem _ (List.mem_cons_of_mem _ (List.mem_cons_of_mem _ (List.mem_cons_of_mem _ (List.mem_cons_of_mem _ (List.mem_cons_self))))), good3_5 k fa⟩
  · exact ⟨_, List.mem_cons_of_mem _ (List.mem_cons_of_mem _ (List.mem_cons_of_mem _ (List.mem_cons_of_mem _ (List.mem_cons_self)))), good3_4 k fa⟩
  · exact ⟨_, List.mem_cons_of_mem _ (List.mem_cons_of_mem _ (List.mem_cons_of_mem _ (List.mem_cons_self))), good3_3 k fa⟩
  · exact ⟨_, List.mem_cons_of_mem _ (List.mem_cons_of_mem _ (List.mem_cons_self)), good3_2 k fa⟩
  · exact ⟨_, List.mem_cons_of_mem _ (List.mem_cons_self), good3_1 k fa⟩
  · exact ⟨_, List.mem_cons_self, good3_0 k fa⟩

/-! ## Loop 4: from cc0_scratch1 to cc0_scratch4 -/

/-- The stores one trip of loop 4 leaves, the last first. -/
def pieces4 (k : Fin k0_t4_loop.trips) (fa : FVec F S128x128 .f32) : List (View.Piece (Elt F) S128x128 .f32) :=
  [⟨Rect.unit (s := S128x128) (k0_off46 k 1#32) S1x16.size (k0_off46_inb k 1), k0_pay185 (View.readAt (Elt F) (Memref.whole cc0_scratch1 : Memref sig .scVector .vmem S128x128 .f32).view (Rect.unit (s := S128x128) (k0_off46 k 1#32) S1x16.size (k0_off46_inb k 1)).toLoadRect fa)⟩,
   ⟨Rect.unit (s := S128x128) (k0_off45 k 1#32) S1x16.size (k0_off45_inb k 1), k0_pay184 (k0_pay80 (View.readAt (Elt F) (Memref.whole cc0_scratch1 : Memref sig .scVector .vmem S128x128 .f32).view (Rect.unit (s := S128x128) (k0_off45 k 1#32) S1x16.size (k0_off45_inb k 1)).toLoadRect fa))⟩,
   ⟨Rect.unit (s := S128x128) (k0_off44 k 1#32) S1x16.size (k0_off44_inb k 1), k0_pay79 (View.readAt (Elt F) (Memref.whole cc0_scratch1 : Memref sig .scVector .vmem S128x128 .f32).view (Rect.unit (s := S128x128) (k0_off44 k 1#32) S1x16.size (k0_off44_inb k 1)).toLoadRect fa)⟩,
   ⟨Rect.unit (s := S128x128) (k0_off43 k 1#32) S1x16.size (k0_off43_inb k 1), k0_pay78 (k0_pay77 (View.readAt (Elt F) (Memref.whole cc0_scratch1 : Memref sig .scVector .vmem S128x128 .f32).view (Rect.unit (s := S128x128) (k0_off43 k 1#32) S1x16.size (k0_off43_inb k 1)).toLoadRect fa))⟩,
   ⟨Rect.unit (s := S128x128) (k0_off42 k 1#32) S1x16.size (k0_off42_inb k 1), k0_pay76 (View.readAt (Elt F) (Memref.whole cc0_scratch1 : Memref sig .scVector .vmem S128x128 .f32).view (Rect.unit (s := S128x128) (k0_off42 k 1#32) S1x16.size (k0_off42_inb k 1)).toLoadRect fa)⟩,
   ⟨Rect.unit (s := S128x128) (k0_off41 k 1#32) S1x16.size (k0_off41_inb k 1), k0_pay75 (View.readAt (Elt F) (Memref.whole cc0_scratch1 : Memref sig .scVector .vmem S128x128 .f32).view (Rect.unit (s := S128x128) (k0_off41 k 1#32) S1x16.size (k0_off41_inb k 1)).toLoadRect fa)⟩,
   ⟨Rect.unit (s := S128x128) (k0_off40 k 1#32) S1x16.size (k0_off40_inb k 1), k0_pay74 (k0_pay73 (View.readAt (Elt F) (Memref.whole cc0_scratch1 : Memref sig .scVector .vmem S128x128 .f32).view (Rect.unit (s := S128x128) (k0_off40 k 1#32) S1x16.size (k0_off40_inb k 1)).toLoadRect fa))⟩,
   ⟨Rect.unit (s := S128x128) (k0_off39 k 1#32) S1x16.size (k0_off39_inb k 1), k0_pay72 (View.readAt (Elt F) (Memref.whole cc0_scratch1 : Memref sig .scVector .vmem S128x128 .f32).view (Rect.unit (s := S128x128) (k0_off39 k 1#32) S1x16.size (k0_off39_inb k 1)).toLoadRect fa)⟩,
   ⟨Rect.unit (s := S128x128) (k0_off46 k 0#32) S1x16.size (k0_off46_inb k 0), k0_pay71 (k0_pay70 (View.readAt (Elt F) (Memref.whole cc0_scratch1 : Memref sig .scVector .vmem S128x128 .f32).view (Rect.unit (s := S128x128) (k0_off46 k 0#32) S1x16.size (k0_off46_inb k 0)).toLoadRect fa))⟩,
   ⟨Rect.unit (s := S128x128) (k0_off45 k 0#32) S1x16.size (k0_off45_inb k 0), k0_pay69 (View.readAt (Elt F) (Memref.whole cc0_scratch1 : Memref sig .scVector .vmem S128x128 .f32).view (Rect.unit (s := S128x128) (k0_off45 k 0#32) S1x16.size (k0_off45_inb k 0)).toLoadRect fa)⟩,
   ⟨Rect.unit (s := S128x128) (k0_off44 k 0#32) S1x16.size (k0_off44_inb k 0), k0_pay68 (View.readAt (Elt F) (Memref.whole cc0_scratch1 : Memref sig .scVector .vmem S128x128 .f32).view (Rect.unit (s := S128x128) (k0_off44 k 0#32) S1x16.size (k0_off44_inb k 0)).toLoadRect fa)⟩,
   ⟨Rect.unit (s := S128x128) (k0_off43 k 0#32) S1x16.size (k0_off43_inb k 0), k0_pay67 (k0_pay66 (View.readAt (Elt F) (Memref.whole cc0_scratch1 : Memref sig .scVector .vmem S128x128 .f32).view (Rect.unit (s := S128x128) (k0_off43 k 0#32) S1x16.size (k0_off43_inb k 0)).toLoadRect fa))⟩,
   ⟨Rect.unit (s := S128x128) (k0_off42 k 0#32) S1x16.size (k0_off42_inb k 0), k0_pay65 (View.readAt (Elt F) (Memref.whole cc0_scratch1 : Memref sig .scVector .vmem S128x128 .f32).view (Rect.unit (s := S128x128) (k0_off42 k 0#32) S1x16.size (k0_off42_inb k 0)).toLoadRect fa)⟩,
   ⟨Rect.unit (s := S128x128) (k0_off41 k 0#32) S1x16.size (k0_off41_inb k 0), k0_pay64 (k0_pay63 (View.readAt (Elt F) (Memref.whole cc0_scratch1 : Memref sig .scVector .vmem S128x128 .f32).view (Rect.unit (s := S128x128) (k0_off41 k 0#32) S1x16.size (k0_off41_inb k 0)).toLoadRect fa))⟩,
   ⟨Rect.unit (s := S128x128) (k0_off40 k 0#32) S1x16.size (k0_off40_inb k 0), k0_pay62 (View.readAt (Elt F) (Memref.whole cc0_scratch1 : Memref sig .scVector .vmem S128x128 .f32).view (Rect.unit (s := S128x128) (k0_off40 k 0#32) S1x16.size (k0_off40_inb k 0)).toLoadRect fa)⟩,
   ⟨Rect.unit (s := S128x128) (k0_off39 k 0#32) S1x16.size (k0_off39_inb k 0), k0_pay61 (View.readAt (Elt F) (Memref.whole cc0_scratch1 : Memref sig .scVector .vmem S128x128 .f32).view (Rect.unit (s := S128x128) (k0_off39 k 0#32) S1x16.size (k0_off39_inb k 0)).toLoadRect fa)⟩]

theorem good4_0 (k : Fin k0_t4_loop.trips) (fa : FVec F S128x128 .f32) :
    Good k.val 1 7 fa ⟨Rect.unit (s := S128x128) (k0_off46 k 1#32) S1x16.size (k0_off46_inb k 1), k0_pay185 (View.readAt (Elt F) (Memref.whole cc0_scratch1 : Memref sig .scVector .vmem S128x128 .f32).view (Rect.unit (s := S128x128) (k0_off46 k 1#32) S1x16.size (k0_off46_inb k 1)).toLoadRect fa)⟩ :=
  good_of k.val 1 7 fa _ _ (k0_off46_eq k 1) (View.readAt (Elt F) (Memref.whole cc0_scratch1 : Memref sig .scVector .vmem S128x128 .f32).view (Rect.unit (s := S128x128) (k0_off46 k 1#32) S1x16.size (k0_off46_inb k 1)).toLoadRect fa) (fun _ => rfl) _ rfl

theorem good4_1 (k : Fin k0_t4_loop.trips) (fa : FVec F S128x128 .f32) :
    Good k.val 1 6 fa ⟨Rect.unit (s := S128x128) (k0_off45 k 1#32) S1x16.size (k0_off45_inb k 1), k0_pay184 (k0_pay80 (View.readAt (Elt F) (Memref.whole cc0_scratch1 : Memref sig .scVector .vmem S128x128 .f32).view (Rect.unit (s := S128x128) (k0_off45 k 1#32) S1x16.size (k0_off45_inb k 1)).toLoadRect fa))⟩ :=
  good_of k.val 1 6 fa _ _ (k0_off45_eq k 1) (View.readAt (Elt F) (Memref.whole cc0_scratch1 : Memref sig .scVector .vmem S128x128 .f32).view (Rect.unit (s := S128x128) (k0_off45 k 1#32) S1x16.size (k0_off45_inb k 1)).toLoadRect fa) (fun _ => rfl) _ rfl

theorem good4_2 (k : Fin k0_t4_loop.trips) (fa : FVec F S128x128 .f32) :
    Good k.val 1 5 fa ⟨Rect.unit (s := S128x128) (k0_off44 k 1#32) S1x16.size (k0_off44_inb k 1), k0_pay79 (View.readAt (Elt F) (Memref.whole cc0_scratch1 : Memref sig .scVector .vmem S128x128 .f32).view (Rect.unit (s := S128x128) (k0_off44 k 1#32) S1x16.size (k0_off44_inb k 1)).toLoadRect fa)⟩ :=
  good_of k.val 1 5 fa _ _ (k0_off44_eq k 1) (View.readAt (Elt F) (Memref.whole cc0_scratch1 : Memref sig .scVector .vmem S128x128 .f32).view (Rect.unit (s := S128x128) (k0_off44 k 1#32) S1x16.size (k0_off44_inb k 1)).toLoadRect fa) (fun _ => rfl) _ rfl

theorem good4_3 (k : Fin k0_t4_loop.trips) (fa : FVec F S128x128 .f32) :
    Good k.val 1 4 fa ⟨Rect.unit (s := S128x128) (k0_off43 k 1#32) S1x16.size (k0_off43_inb k 1), k0_pay78 (k0_pay77 (View.readAt (Elt F) (Memref.whole cc0_scratch1 : Memref sig .scVector .vmem S128x128 .f32).view (Rect.unit (s := S128x128) (k0_off43 k 1#32) S1x16.size (k0_off43_inb k 1)).toLoadRect fa))⟩ :=
  good_of k.val 1 4 fa _ _ (k0_off43_eq k 1) (View.readAt (Elt F) (Memref.whole cc0_scratch1 : Memref sig .scVector .vmem S128x128 .f32).view (Rect.unit (s := S128x128) (k0_off43 k 1#32) S1x16.size (k0_off43_inb k 1)).toLoadRect fa) (fun _ => rfl) _ rfl

theorem good4_4 (k : Fin k0_t4_loop.trips) (fa : FVec F S128x128 .f32) :
    Good k.val 1 3 fa ⟨Rect.unit (s := S128x128) (k0_off42 k 1#32) S1x16.size (k0_off42_inb k 1), k0_pay76 (View.readAt (Elt F) (Memref.whole cc0_scratch1 : Memref sig .scVector .vmem S128x128 .f32).view (Rect.unit (s := S128x128) (k0_off42 k 1#32) S1x16.size (k0_off42_inb k 1)).toLoadRect fa)⟩ :=
  good_of k.val 1 3 fa _ _ (k0_off42_eq k 1) (View.readAt (Elt F) (Memref.whole cc0_scratch1 : Memref sig .scVector .vmem S128x128 .f32).view (Rect.unit (s := S128x128) (k0_off42 k 1#32) S1x16.size (k0_off42_inb k 1)).toLoadRect fa) (fun _ => rfl) _ rfl

theorem good4_5 (k : Fin k0_t4_loop.trips) (fa : FVec F S128x128 .f32) :
    Good k.val 1 2 fa ⟨Rect.unit (s := S128x128) (k0_off41 k 1#32) S1x16.size (k0_off41_inb k 1), k0_pay75 (View.readAt (Elt F) (Memref.whole cc0_scratch1 : Memref sig .scVector .vmem S128x128 .f32).view (Rect.unit (s := S128x128) (k0_off41 k 1#32) S1x16.size (k0_off41_inb k 1)).toLoadRect fa)⟩ :=
  good_of k.val 1 2 fa _ _ (k0_off41_eq k 1) (View.readAt (Elt F) (Memref.whole cc0_scratch1 : Memref sig .scVector .vmem S128x128 .f32).view (Rect.unit (s := S128x128) (k0_off41 k 1#32) S1x16.size (k0_off41_inb k 1)).toLoadRect fa) (fun _ => rfl) _ rfl

theorem good4_6 (k : Fin k0_t4_loop.trips) (fa : FVec F S128x128 .f32) :
    Good k.val 1 1 fa ⟨Rect.unit (s := S128x128) (k0_off40 k 1#32) S1x16.size (k0_off40_inb k 1), k0_pay74 (k0_pay73 (View.readAt (Elt F) (Memref.whole cc0_scratch1 : Memref sig .scVector .vmem S128x128 .f32).view (Rect.unit (s := S128x128) (k0_off40 k 1#32) S1x16.size (k0_off40_inb k 1)).toLoadRect fa))⟩ :=
  good_of k.val 1 1 fa _ _ (k0_off40_eq k 1) (View.readAt (Elt F) (Memref.whole cc0_scratch1 : Memref sig .scVector .vmem S128x128 .f32).view (Rect.unit (s := S128x128) (k0_off40 k 1#32) S1x16.size (k0_off40_inb k 1)).toLoadRect fa) (fun _ => rfl) _ rfl

theorem good4_7 (k : Fin k0_t4_loop.trips) (fa : FVec F S128x128 .f32) :
    Good k.val 1 0 fa ⟨Rect.unit (s := S128x128) (k0_off39 k 1#32) S1x16.size (k0_off39_inb k 1), k0_pay72 (View.readAt (Elt F) (Memref.whole cc0_scratch1 : Memref sig .scVector .vmem S128x128 .f32).view (Rect.unit (s := S128x128) (k0_off39 k 1#32) S1x16.size (k0_off39_inb k 1)).toLoadRect fa)⟩ :=
  good_of k.val 1 0 fa _ _ (k0_off39_eq k 1) (View.readAt (Elt F) (Memref.whole cc0_scratch1 : Memref sig .scVector .vmem S128x128 .f32).view (Rect.unit (s := S128x128) (k0_off39 k 1#32) S1x16.size (k0_off39_inb k 1)).toLoadRect fa) (fun _ => rfl) _ rfl

theorem good4_8 (k : Fin k0_t4_loop.trips) (fa : FVec F S128x128 .f32) :
    Good k.val 0 7 fa ⟨Rect.unit (s := S128x128) (k0_off46 k 0#32) S1x16.size (k0_off46_inb k 0), k0_pay71 (k0_pay70 (View.readAt (Elt F) (Memref.whole cc0_scratch1 : Memref sig .scVector .vmem S128x128 .f32).view (Rect.unit (s := S128x128) (k0_off46 k 0#32) S1x16.size (k0_off46_inb k 0)).toLoadRect fa))⟩ :=
  good_of k.val 0 7 fa _ _ (k0_off46_eq k 0) (View.readAt (Elt F) (Memref.whole cc0_scratch1 : Memref sig .scVector .vmem S128x128 .f32).view (Rect.unit (s := S128x128) (k0_off46 k 0#32) S1x16.size (k0_off46_inb k 0)).toLoadRect fa) (fun _ => rfl) _ rfl

theorem good4_9 (k : Fin k0_t4_loop.trips) (fa : FVec F S128x128 .f32) :
    Good k.val 0 6 fa ⟨Rect.unit (s := S128x128) (k0_off45 k 0#32) S1x16.size (k0_off45_inb k 0), k0_pay69 (View.readAt (Elt F) (Memref.whole cc0_scratch1 : Memref sig .scVector .vmem S128x128 .f32).view (Rect.unit (s := S128x128) (k0_off45 k 0#32) S1x16.size (k0_off45_inb k 0)).toLoadRect fa)⟩ :=
  good_of k.val 0 6 fa _ _ (k0_off45_eq k 0) (View.readAt (Elt F) (Memref.whole cc0_scratch1 : Memref sig .scVector .vmem S128x128 .f32).view (Rect.unit (s := S128x128) (k0_off45 k 0#32) S1x16.size (k0_off45_inb k 0)).toLoadRect fa) (fun _ => rfl) _ rfl

theorem good4_10 (k : Fin k0_t4_loop.trips) (fa : FVec F S128x128 .f32) :
    Good k.val 0 5 fa ⟨Rect.unit (s := S128x128) (k0_off44 k 0#32) S1x16.size (k0_off44_inb k 0), k0_pay68 (View.readAt (Elt F) (Memref.whole cc0_scratch1 : Memref sig .scVector .vmem S128x128 .f32).view (Rect.unit (s := S128x128) (k0_off44 k 0#32) S1x16.size (k0_off44_inb k 0)).toLoadRect fa)⟩ :=
  good_of k.val 0 5 fa _ _ (k0_off44_eq k 0) (View.readAt (Elt F) (Memref.whole cc0_scratch1 : Memref sig .scVector .vmem S128x128 .f32).view (Rect.unit (s := S128x128) (k0_off44 k 0#32) S1x16.size (k0_off44_inb k 0)).toLoadRect fa) (fun _ => rfl) _ rfl

theorem good4_11 (k : Fin k0_t4_loop.trips) (fa : FVec F S128x128 .f32) :
    Good k.val 0 4 fa ⟨Rect.unit (s := S128x128) (k0_off43 k 0#32) S1x16.size (k0_off43_inb k 0), k0_pay67 (k0_pay66 (View.readAt (Elt F) (Memref.whole cc0_scratch1 : Memref sig .scVector .vmem S128x128 .f32).view (Rect.unit (s := S128x128) (k0_off43 k 0#32) S1x16.size (k0_off43_inb k 0)).toLoadRect fa))⟩ :=
  good_of k.val 0 4 fa _ _ (k0_off43_eq k 0) (View.readAt (Elt F) (Memref.whole cc0_scratch1 : Memref sig .scVector .vmem S128x128 .f32).view (Rect.unit (s := S128x128) (k0_off43 k 0#32) S1x16.size (k0_off43_inb k 0)).toLoadRect fa) (fun _ => rfl) _ rfl

theorem good4_12 (k : Fin k0_t4_loop.trips) (fa : FVec F S128x128 .f32) :
    Good k.val 0 3 fa ⟨Rect.unit (s := S128x128) (k0_off42 k 0#32) S1x16.size (k0_off42_inb k 0), k0_pay65 (View.readAt (Elt F) (Memref.whole cc0_scratch1 : Memref sig .scVector .vmem S128x128 .f32).view (Rect.unit (s := S128x128) (k0_off42 k 0#32) S1x16.size (k0_off42_inb k 0)).toLoadRect fa)⟩ :=
  good_of k.val 0 3 fa _ _ (k0_off42_eq k 0) (View.readAt (Elt F) (Memref.whole cc0_scratch1 : Memref sig .scVector .vmem S128x128 .f32).view (Rect.unit (s := S128x128) (k0_off42 k 0#32) S1x16.size (k0_off42_inb k 0)).toLoadRect fa) (fun _ => rfl) _ rfl

theorem good4_13 (k : Fin k0_t4_loop.trips) (fa : FVec F S128x128 .f32) :
    Good k.val 0 2 fa ⟨Rect.unit (s := S128x128) (k0_off41 k 0#32) S1x16.size (k0_off41_inb k 0), k0_pay64 (k0_pay63 (View.readAt (Elt F) (Memref.whole cc0_scratch1 : Memref sig .scVector .vmem S128x128 .f32).view (Rect.unit (s := S128x128) (k0_off41 k 0#32) S1x16.size (k0_off41_inb k 0)).toLoadRect fa))⟩ :=
  good_of k.val 0 2 fa _ _ (k0_off41_eq k 0) (View.readAt (Elt F) (Memref.whole cc0_scratch1 : Memref sig .scVector .vmem S128x128 .f32).view (Rect.unit (s := S128x128) (k0_off41 k 0#32) S1x16.size (k0_off41_inb k 0)).toLoadRect fa) (fun _ => rfl) _ rfl

theorem good4_14 (k : Fin k0_t4_loop.trips) (fa : FVec F S128x128 .f32) :
    Good k.val 0 1 fa ⟨Rect.unit (s := S128x128) (k0_off40 k 0#32) S1x16.size (k0_off40_inb k 0), k0_pay62 (View.readAt (Elt F) (Memref.whole cc0_scratch1 : Memref sig .scVector .vmem S128x128 .f32).view (Rect.unit (s := S128x128) (k0_off40 k 0#32) S1x16.size (k0_off40_inb k 0)).toLoadRect fa)⟩ :=
  good_of k.val 0 1 fa _ _ (k0_off40_eq k 0) (View.readAt (Elt F) (Memref.whole cc0_scratch1 : Memref sig .scVector .vmem S128x128 .f32).view (Rect.unit (s := S128x128) (k0_off40 k 0#32) S1x16.size (k0_off40_inb k 0)).toLoadRect fa) (fun _ => rfl) _ rfl

theorem good4_15 (k : Fin k0_t4_loop.trips) (fa : FVec F S128x128 .f32) :
    Good k.val 0 0 fa ⟨Rect.unit (s := S128x128) (k0_off39 k 0#32) S1x16.size (k0_off39_inb k 0), k0_pay61 (View.readAt (Elt F) (Memref.whole cc0_scratch1 : Memref sig .scVector .vmem S128x128 .f32).view (Rect.unit (s := S128x128) (k0_off39 k 0#32) S1x16.size (k0_off39_inb k 0)).toLoadRect fa)⟩ :=
  good_of k.val 0 0 fa _ _ (k0_off39_eq k 0) (View.readAt (Elt F) (Memref.whole cc0_scratch1 : Memref sig .scVector .vmem S128x128 .f32).view (Rect.unit (s := S128x128) (k0_off39 k 0#32) S1x16.size (k0_off39_inb k 0)).toLoadRect fa) (fun _ => rfl) _ rfl

/-- One trip of loop 4 extends the rows at the logistic function of the input by two. -/
theorem trip_value4 (k : Fin k0_t4_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch4 : Memref sig .scVector .vmem S128x128 .f32).view.writes (Elt F) f (pieces4 k fa)) y = Cert.Fuse.logistic (fa y) := by
  refine rows_step (Memref.whole cc0_scratch4 : Memref sig .scVector .vmem S128x128 .f32).view k.val fa f (pieces4 k fa) (List.forall_mem_cons.mpr ⟨⟨_, _, good4_0 k fa⟩, (List.forall_mem_cons.mpr ⟨⟨_, _, good4_1 k fa⟩, (List.forall_mem_cons.mpr ⟨⟨_, _, good4_2 k fa⟩, (List.forall_mem_cons.mpr ⟨⟨_, _, good4_3 k fa⟩, (List.forall_mem_cons.mpr ⟨⟨_, _, good4_4 k fa⟩, (List.forall_mem_cons.mpr ⟨⟨_, _, good4_5 k fa⟩, (List.forall_mem_cons.mpr ⟨⟨_, _, good4_6 k fa⟩, (List.forall_mem_cons.mpr ⟨⟨_, _, good4_7 k fa⟩, (List.forall_mem_cons.mpr ⟨⟨_, _, good4_8 k fa⟩, (List.forall_mem_cons.mpr ⟨⟨_, _, good4_9 k fa⟩, (List.forall_mem_cons.mpr ⟨⟨_, _, good4_10 k fa⟩, (List.forall_mem_cons.mpr ⟨⟨_, _, good4_11 k fa⟩, (List.forall_mem_cons.mpr ⟨⟨_, _, good4_12 k fa⟩, (List.forall_mem_cons.mpr ⟨⟨_, _, good4_13 k fa⟩, (List.forall_mem_cons.mpr ⟨⟨_, _, good4_14 k fa⟩, (List.forall_mem_cons.mpr ⟨⟨_, _, good4_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good4_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good4_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good4_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good4_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good4_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good4_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good4_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good4_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good4_7 k fa⟩
  · exact ⟨_, List.mem_cons_of_mem _ (List.mem_cons_of_mem _ (List.mem_cons_of_mem _ (List.mem_cons_of_mem _ (List.mem_cons_of_mem _ (List.mem_cons_of_mem _ (List.mem_cons_self)))))), good4_6 k fa⟩
  · exact ⟨_, List.mem_cons_of_mem _ (List.mem_cons_of_mem _ (List.mem_cons_of_mem _ (List.mem_cons_of_mem _ (List.mem_cons_of_mem _ (List.mem_cons_self))))), good4_5 k fa⟩
  · exact ⟨_, List.mem_cons_of_mem _ (List.mem_cons_of_mem _ (List.mem_cons_of_mem _ (List.mem_cons_of_mem _ (List.mem_cons_self)))), good4_4 k fa⟩
  · exact ⟨_, List.mem_cons_of_mem _ (List.mem_cons_of_mem _ (List.mem_cons_of_mem _ (List.mem_cons_self))), good4_3 k fa⟩
  · exact ⟨_, List.mem_cons_of_mem _ (List.mem_cons_of_mem _ (List.mem_cons_self)), good4_2 k fa⟩
  · exact ⟨_, List.mem_cons_of_mem _ (List.mem_cons_self), good4_1 k fa⟩
  · exact ⟨_, List.mem_cons_self, good4_0 k fa⟩

/-! ## Loop 5: from cc0_scratch2 to cc0_scratch5 -/

/-- The stores one trip of loop 5 leaves, the last first. -/
def pieces5 (k : Fin k0_t5_loop.trips) (fa : FVec F S128x128 .f32) : List (View.Piece (Elt F) S128x128 .f32) :=
  [⟨Rect.unit (s := S128x128) (k0_off56 k 1#32) S1x16.size (k0_off56_inb k 1), k0_pay187 (View.readAt (Elt F) (Memref.whole cc0_scratch2 : Memref sig .scVector .vmem S128x128 .f32).view (Rect.unit (s := S128x128) (k0_off56 k 1#32) S1x16.size (k0_off56_inb k 1)).toLoadRect fa)⟩,
   ⟨Rect.unit (s := S128x128) (k0_off55 k 1#32) S1x16.size (k0_off55_inb k 1), k0_pay186 (k0_pay100 (View.readAt (Elt F) (Memref.whole cc0_scratch2 : Memref sig .scVector .vmem S128x128 .f32).view (Rect.unit (s := S128x128) (k0_off55 k 1#32) S1x16.size (k0_off55_inb k 1)).toLoadRect fa))⟩,
   ⟨Rect.unit (s := S128x128) (k0_off54 k 1#32) S1x16.size (k0_off54_inb k 1), k0_pay99 (View.readAt (Elt F) (Memref.whole cc0_scratch2 : Memref sig .scVector .vmem S128x128 .f32).view (Rect.unit (s := S128x128) (k0_off54 k 1#32) S1x16.size (k0_off54_inb k 1)).toLoadRect fa)⟩,
   ⟨Rect.unit (s := S128x128) (k0_off53 k 1#32) S1x16.size (k0_off53_inb k 1), k0_pay98 (k0_pay97 (View.readAt (Elt F) (Memref.whole cc0_scratch2 : Memref sig .scVector .vmem S128x128 .f32).view (Rect.unit (s := S128x128) (k0_off53 k 1#32) S1x16.size (k0_off53_inb k 1)).toLoadRect fa))⟩,
   ⟨Rect.unit (s := S128x128) (k0_off52 k 1#32) S1x16.size (k0_off52_inb k 1), k0_pay96 (View.readAt (Elt F) (Memref.whole cc0_scratch2 : Memref sig .scVector .vmem S128x128 .f32).view (Rect.unit (s := S128x128) (k0_off52 k 1#32) S1x16.size (k0_off52_inb k 1)).toLoadRect fa)⟩,
   ⟨Rect.unit (s := S128x128) (k0_off51 k 1#32) S1x16.size (k0_off51_inb k 1), k0_pay95 (View.readAt (Elt F) (Memref.whole cc0_scratch2 : Memref sig .scVector .vmem S128x128 .f32).view (Rect.unit (s := S128x128) (k0_off51 k 1#32) S1x16.size (k0_off51_inb k 1)).toLoadRect fa)⟩,
   ⟨Rect.unit (s := S128x128) (k0_off50 k 1#32) S1x16.size (k0_off50_inb k 1), k0_pay94 (k0_pay93 (View.readAt (Elt F) (Memref.whole cc0_scratch2 : Memref sig .scVector .vmem S128x128 .f32).view (Rect.unit (s := S128x128) (k0_off50 k 1#32) S1x16.size (k0_off50_inb k 1)).toLoadRect fa))⟩,
   ⟨Rect.unit (s := S128x128) (k0_off49 k 1#32) S1x16.size (k0_off49_inb k 1), k0_pay92 (View.readAt (Elt F) (Memref.whole cc0_scratch2 : Memref sig .scVector .vmem S128x128 .f32).view (Rect.unit (s := S128x128) (k0_off49 k 1#32) S1x16.size (k0_off49_inb k 1)).toLoadRect fa)⟩,
   ⟨Rect.unit (s := S128x128) (k0_off56 k 0#32) S1x16.size (k0_off56_inb k 0), k0_pay91 (k0_pay90 (View.readAt (Elt F) (Memref.whole cc0_scratch2 : Memref sig .scVector .vmem S128x128 .f32).view (Rect.unit (s := S128x128) (k0_off56 k 0#32) S1x16.size (k0_off56_inb k 0)).toLoadRect fa))⟩,
   ⟨Rect.unit (s := S128x128) (k0_off55 k 0#32) S1x16.size (k0_off55_inb k 0), k0_pay89 (View.readAt (Elt F) (Memref.whole cc0_scratch2 : Memref sig .scVector .vmem S128x128 .f32).view (Rect.unit (s := S128x128) (k0_off55 k 0#32) S1x16.size (k0_off55_inb k 0)).toLoadRect fa)⟩,
   ⟨Rect.unit (s := S128x128) (k0_off54 k 0#32) S1x16.size (k0_off54_inb k 0), k0_pay88 (View.readAt (Elt F) (Memref.whole cc0_scratch2 : Memref sig .scVector .vmem S128x128 .f32).view (Rect.unit (s := S128x128) (k0_off54 k 0#32) S1x16.size (k0_off54_inb k 0)).toLoadRect fa)⟩,
   ⟨Rect.unit (s := S128x128) (k0_off53 k 0#32) S1x16.size (k0_off53_inb k 0), k0_pay87 (k0_pay86 (View.readAt (Elt F) (Memref.whole cc0_scratch2 : Memref sig .scVector .vmem S128x128 .f32).view (Rect.unit (s := S128x128) (k0_off53 k 0#32) S1x16.size (k0_off53_inb k 0)).toLoadRect fa))⟩,
   ⟨Rect.unit (s := S128x128) (k0_off52 k 0#32) S1x16.size (k0_off52_inb k 0), k0_pay85 (View.readAt (Elt F) (Memref.whole cc0_scratch2 : Memref sig .scVector .vmem S128x128 .f32).view (Rect.unit (s := S128x128) (k0_off52 k 0#32) S1x16.size (k0_off52_inb k 0)).toLoadRect fa)⟩,
   ⟨Rect.unit (s := S128x128) (k0_off51 k 0#32) S1x16.size (k0_off51_inb k 0), k0_pay84 (k0_pay83 (View.readAt (Elt F) (Memref.whole cc0_scratch2 : Memref sig .scVector .vmem S128x128 .f32).view (Rect.unit (s := S128x128) (k0_off51 k 0#32) S1x16.size (k0_off51_inb k 0)).toLoadRect fa))⟩,
   ⟨Rect.unit (s := S128x128) (k0_off50 k 0#32) S1x16.size (k0_off50_inb k 0), k0_pay82 (View.readAt (Elt F) (Memref.whole cc0_scratch2 : Memref sig .scVector .vmem S128x128 .f32).view (Rect.unit (s := S128x128) (k0_off50 k 0#32) S1x16.size (k0_off50_inb k 0)).toLoadRect fa)⟩,
   ⟨Rect.unit (s := S128x128) (k0_off49 k 0#32) S1x16.size (k0_off49_inb k 0), k0_pay81 (View.readAt (Elt F) (Memref.whole cc0_scratch2 : Memref sig .scVector .vmem S128x128 .f32).view (Rect.unit (s := S128x128) (k0_off49 k 0#32) S1x16.size (k0_off49_inb k 0)).toLoadRect fa)⟩]

theorem good5_0 (k : Fin k0_t5_loop.trips) (fa : FVec F S128x128 .f32) :
    Good k.val 1 7 fa ⟨Rect.unit (s := S128x128) (k0_off56 k 1#32) S1x16.size (k0_off56_inb k 1), k0_pay187 (View.readAt (Elt F) (Memref.whole cc0_scratch2 : Memref sig .scVector .vmem S128x128 .f32).view (Rect.unit (s := S128x128) (k0_off56 k 1#32) S1x16.size (k0_off56_inb k 1)).toLoadRect fa)⟩ :=
  good_of k.val 1 7 fa _ _ (k0_off56_eq k 1) (View.readAt (Elt F) (Memref.whole cc0_scratch2 : Memref sig .scVector .vmem S128x128 .f32).view (Rect.unit (s := S128x128) (k0_off56 k 1#32) S1x16.size (k0_off56_inb k 1)).toLoadRect fa) (fun _ => rfl) _ rfl

theorem good5_1 (k : Fin k0_t5_loop.trips) (fa : FVec F S128x128 .f32) :
    Good k.val 1 6 fa ⟨Rect.unit (s := S128x128) (k0_off55 k 1#32) S1x16.size (k0_off55_inb k 1), k0_pay186 (k0_pay100 (View.readAt (Elt F) (Memref.whole cc0_scratch2 : Memref sig .scVector .vmem S128x128 .f32).view (Rect.unit (s := S128x128) (k0_off55 k 1#32) S1x16.size (k0_off55_inb k 1)).toLoadRect fa))⟩ :=
  good_of k.val 1 6 fa _ _ (k0_off55_eq k 1) (View.readAt (Elt F) (Memref.whole cc0_scratch2 : Memref sig .scVector .vmem S128x128 .f32).view (Rect.unit (s := S128x128) (k0_off55 k 1#32) S1x16.size (k0_off55_inb k 1)).toLoadRect fa) (fun _ => rfl) _ rfl

theorem good5_2 (k : Fin k0_t5_loop.trips) (fa : FVec F S128x128 .f32) :
    Good k.val 1 5 fa ⟨Rect.unit (s := S128x128) (k0_off54 k 1#32) S1x16.size (k0_off54_inb k 1), k0_pay99 (View.readAt (Elt F) (Memref.whole cc0_scratch2 : Memref sig .scVector .vmem S128x128 .f32).view (Rect.unit (s := S128x128) (k0_off54 k 1#32) S1x16.size (k0_off54_inb k 1)).toLoadRect fa)⟩ :=
  good_of k.val 1 5 fa _ _ (k0_off54_eq k 1) (View.readAt (Elt F) (Memref.whole cc0_scratch2 : Memref sig .scVector .vmem S128x128 .f32).view (Rect.unit (s := S128x128) (k0_off54 k 1#32) S1x16.size (k0_off54_inb k 1)).toLoadRect fa) (fun _ => rfl) _ rfl

theorem good5_3 (k : Fin k0_t5_loop.trips) (fa : FVec F S128x128 .f32) :
    Good k.val 1 4 fa ⟨Rect.unit (s := S128x128) (k0_off53 k 1#32) S1x16.size (k0_off53_inb k 1), k0_pay98 (k0_pay97 (View.readAt (Elt F) (Memref.whole cc0_scratch2 : Memref sig .scVector .vmem S128x128 .f32).view (Rect.unit (s := S128x128) (k0_off53 k 1#32) S1x16.size (k0_off53_inb k 1)).toLoadRect fa))⟩ :=
  good_of k.val 1 4 fa _ _ (k0_off53_eq k 1) (View.readAt (Elt F) (Memref.whole cc0_scratch2 : Memref sig .scVector .vmem S128x128 .f32).view (Rect.unit (s := S128x128) (k0_off53 k 1#32) S1x16.size (k0_off53_inb k 1)).toLoadRect fa) (fun _ => rfl) _ rfl

theorem good5_4 (k : Fin k0_t5_loop.trips) (fa : FVec F S128x128 .f32) :
    Good k.val 1 3 fa ⟨Rect.unit (s := S128x128) (k0_off52 k 1#32) S1x16.size (k0_off52_inb k 1), k0_pay96 (View.readAt (Elt F) (Memref.whole cc0_scratch2 : Memref sig .scVector .vmem S128x128 .f32).view (Rect.unit (s := S128x128) (k0_off52 k 1#32) S1x16.size (k0_off52_inb k 1)).toLoadRect fa)⟩ :=
  good_of k.val 1 3 fa _ _ (k0_off52_eq k 1) (View.readAt (Elt F) (Memref.whole cc0_scratch2 : Memref sig .scVector .vmem S128x128 .f32).view (Rect.unit (s := S128x128) (k0_off52 k 1#32) S1x16.size (k0_off52_inb k 1)).toLoadRect fa) (fun _ => rfl) _ rfl

theorem good5_5 (k : Fin k0_t5_loop.trips) (fa : FVec F S128x128 .f32) :
    Good k.val 1 2 fa ⟨Rect.unit (s := S128x128) (k0_off51 k 1#32) S1x16.size (k0_off51_inb k 1), k0_pay95 (View.readAt (Elt F) (Memref.whole cc0_scratch2 : Memref sig .scVector .vmem S128x128 .f32).view (Rect.unit (s := S128x128) (k0_off51 k 1#32) S1x16.size (k0_off51_inb k 1)).toLoadRect fa)⟩ :=
  good_of k.val 1 2 fa _ _ (k0_off51_eq k 1) (View.readAt (Elt F) (Memref.whole cc0_scratch2 : Memref sig .scVector .vmem S128x128 .f32).view (Rect.unit (s := S128x128) (k0_off51 k 1#32) S1x16.size (k0_off51_inb k 1)).toLoadRect fa) (fun _ => rfl) _ rfl

theorem good5_6 (k : Fin k0_t5_loop.trips) (fa : FVec F S128x128 .f32) :
    Good k.val 1 1 fa ⟨Rect.unit (s := S128x128) (k0_off50 k 1#32) S1x16.size (k0_off50_inb k 1), k0_pay94 (k0_pay93 (View.readAt (Elt F) (Memref.whole cc0_scratch2 : Memref sig .scVector .vmem S128x128 .f32).view (Rect.unit (s := S128x128) (k0_off50 k 1#32) S1x16.size (k0_off50_inb k 1)).toLoadRect fa))⟩ :=
  good_of k.val 1 1 fa _ _ (k0_off50_eq k 1) (View.readAt (Elt F) (Memref.whole cc0_scratch2 : Memref sig .scVector .vmem S128x128 .f32).view (Rect.unit (s := S128x128) (k0_off50 k 1#32) S1x16.size (k0_off50_inb k 1)).toLoadRect fa) (fun _ => rfl) _ rfl

theorem good5_7 (k : Fin k0_t5_loop.trips) (fa : FVec F S128x128 .f32) :
    Good k.val 1 0 fa ⟨Rect.unit (s := S128x128) (k0_off49 k 1#32) S1x16.size (k0_off49_inb k 1), k0_pay92 (View.readAt (Elt F) (Memref.whole cc0_scratch2 : Memref sig .scVector .vmem S128x128 .f32).view (Rect.unit (s := S128x128) (k0_off49 k 1#32) S1x16.size (k0_off49_inb k 1)).toLoadRect fa)⟩ :=
  good_of k.val 1 0 fa _ _ (k0_off49_eq k 1) (View.readAt (Elt F) (Memref.whole cc0_scratch2 : Memref sig .scVector .vmem S128x128 .f32).view (Rect.unit (s := S128x128) (k0_off49 k 1#32) S1x16.size (k0_off49_inb k 1)).toLoadRect fa) (fun _ => rfl) _ rfl

theorem good5_8 (k : Fin k0_t5_loop.trips) (fa : FVec F S128x128 .f32) :
    Good k.val 0 7 fa ⟨Rect.unit (s := S128x128) (k0_off56 k 0#32) S1x16.size (k0_off56_inb k 0), k0_pay91 (k0_pay90 (View.readAt (Elt F) (Memref.whole cc0_scratch2 : Memref sig .scVector .vmem S128x128 .f32).view (Rect.unit (s := S128x128) (k0_off56 k 0#32) S1x16.size (k0_off56_inb k 0)).toLoadRect fa))⟩ :=
  good_of k.val 0 7 fa _ _ (k0_off56_eq k 0) (View.readAt (Elt F) (Memref.whole cc0_scratch2 : Memref sig .scVector .vmem S128x128 .f32).view (Rect.unit (s := S128x128) (k0_off56 k 0#32) S1x16.size (k0_off56_inb k 0)).toLoadRect fa) (fun _ => rfl) _ rfl

theorem good5_9 (k : Fin k0_t5_loop.trips) (fa : FVec F S128x128 .f32) :
    Good k.val 0 6 fa ⟨Rect.unit (s := S128x128) (k0_off55 k 0#32) S1x16.size (k0_off55_inb k 0), k0_pay89 (View.readAt (Elt F) (Memref.whole cc0_scratch2 : Memref sig .scVector .vmem S128x128 .f32).view (Rect.unit (s := S128x128) (k0_off55 k 0#32) S1x16.size (k0_off55_inb k 0)).toLoadRect fa)⟩ :=
  good_of k.val 0 6 fa _ _ (k0_off55_eq k 0) (View.readAt (Elt F) (Memref.whole cc0_scratch2 : Memref sig .scVector .vmem S128x128 .f32).view (Rect.unit (s := S128x128) (k0_off55 k 0#32) S1x16.size (k0_off55_inb k 0)).toLoadRect fa) (fun _ => rfl) _ rfl

theorem good5_10 (k : Fin k0_t5_loop.trips) (fa : FVec F S128x128 .f32) :
    Good k.val 0 5 fa ⟨Rect.unit (s := S128x128) (k0_off54 k 0#32) S1x16.size (k0_off54_inb k 0), k0_pay88 (View.readAt (Elt F) (Memref.whole cc0_scratch2 : Memref sig .scVector .vmem S128x128 .f32).view (Rect.unit (s := S128x128) (k0_off54 k 0#32) S1x16.size (k0_off54_inb k 0)).toLoadRect fa)⟩ :=
  good_of k.val 0 5 fa _ _ (k0_off54_eq k 0) (View.readAt (Elt F) (Memref.whole cc0_scratch2 : Memref sig .scVector .vmem S128x128 .f32).view (Rect.unit (s := S128x128) (k0_off54 k 0#32) S1x16.size (k0_off54_inb k 0)).toLoadRect fa) (fun _ => rfl) _ rfl

theorem good5_11 (k : Fin k0_t5_loop.trips) (fa : FVec F S128x128 .f32) :
    Good k.val 0 4 fa ⟨Rect.unit (s := S128x128) (k0_off53 k 0#32) S1x16.size (k0_off53_inb k 0), k0_pay87 (k0_pay86 (View.readAt (Elt F) (Memref.whole cc0_scratch2 : Memref sig .scVector .vmem S128x128 .f32).view (Rect.unit (s := S128x128) (k0_off53 k 0#32) S1x16.size (k0_off53_inb k 0)).toLoadRect fa))⟩ :=
  good_of k.val 0 4 fa _ _ (k0_off53_eq k 0) (View.readAt (Elt F) (Memref.whole cc0_scratch2 : Memref sig .scVector .vmem S128x128 .f32).view (Rect.unit (s := S128x128) (k0_off53 k 0#32) S1x16.size (k0_off53_inb k 0)).toLoadRect fa) (fun _ => rfl) _ rfl

theorem good5_12 (k : Fin k0_t5_loop.trips) (fa : FVec F S128x128 .f32) :
    Good k.val 0 3 fa ⟨Rect.unit (s := S128x128) (k0_off52 k 0#32) S1x16.size (k0_off52_inb k 0), k0_pay85 (View.readAt (Elt F) (Memref.whole cc0_scratch2 : Memref sig .scVector .vmem S128x128 .f32).view (Rect.unit (s := S128x128) (k0_off52 k 0#32) S1x16.size (k0_off52_inb k 0)).toLoadRect fa)⟩ :=
  good_of k.val 0 3 fa _ _ (k0_off52_eq k 0) (View.readAt (Elt F) (Memref.whole cc0_scratch2 : Memref sig .scVector .vmem S128x128 .f32).view (Rect.unit (s := S128x128) (k0_off52 k 0#32) S1x16.size (k0_off52_inb k 0)).toLoadRect fa) (fun _ => rfl) _ rfl

theorem good5_13 (k : Fin k0_t5_loop.trips) (fa : FVec F S128x128 .f32) :
    Good k.val 0 2 fa ⟨Rect.unit (s := S128x128) (k0_off51 k 0#32) S1x16.size (k0_off51_inb k 0), k0_pay84 (k0_pay83 (View.readAt (Elt F) (Memref.whole cc0_scratch2 : Memref sig .scVector .vmem S128x128 .f32).view (Rect.unit (s := S128x128) (k0_off51 k 0#32) S1x16.size (k0_off51_inb k 0)).toLoadRect fa))⟩ :=
  good_of k.val 0 2 fa _ _ (k0_off51_eq k 0) (View.readAt (Elt F) (Memref.whole cc0_scratch2 : Memref sig .scVector .vmem S128x128 .f32).view (Rect.unit (s := S128x128) (k0_off51 k 0#32) S1x16.size (k0_off51_inb k 0)).toLoadRect fa) (fun _ => rfl) _ rfl

theorem good5_14 (k : Fin k0_t5_loop.trips) (fa : FVec F S128x128 .f32) :
    Good k.val 0 1 fa ⟨Rect.unit (s := S128x128) (k0_off50 k 0#32) S1x16.size (k0_off50_inb k 0), k0_pay82 (View.readAt (Elt F) (Memref.whole cc0_scratch2 : Memref sig .scVector .vmem S128x128 .f32).view (Rect.unit (s := S128x128) (k0_off50 k 0#32) S1x16.size (k0_off50_inb k 0)).toLoadRect fa)⟩ :=
  good_of k.val 0 1 fa _ _ (k0_off50_eq k 0) (View.readAt (Elt F) (Memref.whole cc0_scratch2 : Memref sig .scVector .vmem S128x128 .f32).view (Rect.unit (s := S128x128) (k0_off50 k 0#32) S1x16.size (k0_off50_inb k 0)).toLoadRect fa) (fun _ => rfl) _ rfl

theorem good5_15 (k : Fin k0_t5_loop.trips) (fa : FVec F S128x128 .f32) :
    Good k.val 0 0 fa ⟨Rect.unit (s := S128x128) (k0_off49 k 0#32) S1x16.size (k0_off49_inb k 0), k0_pay81 (View.readAt (Elt F) (Memref.whole cc0_scratch2 : Memref sig .scVector .vmem S128x128 .f32).view (Rect.unit (s := S128x128) (k0_off49 k 0#32) S1x16.size (k0_off49_inb k 0)).toLoadRect fa)⟩ :=
  good_of k.val 0 0 fa _ _ (k0_off49_eq k 0) (View.readAt (Elt F) (Memref.whole cc0_scratch2 : Memref sig .scVector .vmem S128x128 .f32).view (Rect.unit (s := S128x128) (k0_off49 k 0#32) S1x16.size (k0_off49_inb k 0)).toLoadRect fa) (fun _ => rfl) _ rfl

/-- One trip of loop 5 extends the rows at the logistic function of the input by two. -/
theorem trip_value5 (k : Fin k0_t5_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch5 : Memref sig .scVector .vmem S128x128 .f32).view.writes (Elt F) f (pieces5 k fa)) y = Cert.Fuse.logistic (fa y) := by
  refine rows_step (Memref.whole cc0_scratch5 : Memref sig .scVector .vmem S128x128 .f32).view k.val fa f (pieces5 k fa) (List.forall_mem_cons.mpr ⟨⟨_, _, good5_0 k fa⟩, (List.forall_mem_cons.mpr ⟨⟨_, _, good5_1 k fa⟩, (List.forall_mem_cons.mpr ⟨⟨_, _, good5_2 k fa⟩, (List.forall_mem_cons.mpr ⟨⟨_, _, good5_3 k fa⟩, (List.forall_mem_cons.mpr ⟨⟨_, _, good5_4 k fa⟩, (List.forall_mem_cons.mpr ⟨⟨_, _, good5_5 k fa⟩, (List.forall_mem_cons.mpr ⟨⟨_, _, good5_6 k fa⟩, (List.forall_mem_cons.mpr ⟨⟨_, _, good5_7 k fa⟩, (List.forall_mem_cons.mpr ⟨⟨_, _, good5_8 k fa⟩, (List.forall_mem_cons.mpr ⟨⟨_, _, good5_9 k fa⟩, (List.forall_mem_cons.mpr ⟨⟨_, _, good5_10 k fa⟩, (List.forall_mem_cons.mpr ⟨⟨_, _, good5_11 k fa⟩, (List.forall_mem_cons.mpr ⟨⟨_, _, good5_12 k fa⟩, (List.forall_mem_cons.mpr ⟨⟨_, _, good5_13 k fa⟩, (List.forall_mem_cons.mpr ⟨⟨_, _, good5_14 k fa⟩, (List.forall_mem_cons.mpr ⟨⟨_, _, good5_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good5_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good5_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good5_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good5_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good5_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good5_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good5_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good5_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good5_7 k fa⟩
  · exact ⟨_, List.mem_cons_of_mem _ (List.mem_cons_of_mem _ (List.mem_cons_of_mem _ (List.mem_cons_of_mem _ (List.mem_cons_of_mem _ (List.mem_cons_of_mem _ (List.mem_cons_self)))))), good5_6 k fa⟩
  · exact ⟨_, List.mem_cons_of_mem _ (List.mem_cons_of_mem _ (List.mem_cons_of_mem _ (List.mem_cons_of_mem _ (List.mem_cons_of_mem _ (List.mem_cons_self))))), good5_5 k fa⟩
  · exact ⟨_, List.mem_cons_of_mem _ (List.mem_cons_of_mem _ (List.mem_cons_of_mem _ (List.mem_cons_of_mem _ (List.mem_cons_self)))), good5_4 k fa⟩
  · exact ⟨_, List.mem_cons_of_mem _ (List.mem_cons_of_mem _ (List.mem_cons_of_mem _ (List.mem_cons_self))), good5_3 k fa⟩
  · exact ⟨_, List.mem_cons_of_mem _ (List.mem_cons_of_mem _ (List.mem_cons_self)), good5_2 k fa⟩
  · exact ⟨_, List.mem_cons_of_mem _ (List.mem_cons_self), good5_1 k fa⟩
  · exact ⟨_, List.mem_cons_self, good5_0 k fa⟩

/-! ## Loop 6: from cc0_scratch3 to cc0_scratch6 -/

/-- The stores one trip of loop 6 leaves, the last first. -/
def pieces6 (k : Fin k0_t6_loop.trips) (fa : FVec F S128x128 .f32) : List (View.Piece (Elt F) S128x128 .f32) :=
  [⟨Rect.unit (s := S128x128) (k0_off66 k 1#32) S1x16.size (k0_off66_inb k 1), k0_pay189 (View.readAt (Elt F) (Memref.whole cc0_scratch3 : Memref sig .scVector .vmem S128x128 .f32).view (Rect.unit (s := S128x128) (k0_off66 k 1#32) S1x16.size (k0_off66_inb k 1)).toLoadRect fa)⟩,
   ⟨Rect.unit (s := S128x128) (k0_off65 k 1#32) S1x16.size (k0_off65_inb k 1), k0_pay188 (k0_pay120 (View.readAt (Elt F) (Memref.whole cc0_scratch3 : Memref sig .scVector .vmem S128x128 .f32).view (Rect.unit (s := S128x128) (k0_off65 k 1#32) S1x16.size (k0_off65_inb k 1)).toLoadRect fa))⟩,
   ⟨Rect.unit (s := S128x128) (k0_off64 k 1#32) S1x16.size (k0_off64_inb k 1), k0_pay119 (View.readAt (Elt F) (Memref.whole cc0_scratch3 : Memref sig .scVector .vmem S128x128 .f32).view (Rect.unit (s := S128x128) (k0_off64 k 1#32) S1x16.size (k0_off64_inb k 1)).toLoadRect fa)⟩,
   ⟨Rect.unit (s := S128x128) (k0_off63 k 1#32) S1x16.size (k0_off63_inb k 1), k0_pay118 (k0_pay117 (View.readAt (Elt F) (Memref.whole cc0_scratch3 : Memref sig .scVector .vmem S128x128 .f32).view (Rect.unit (s := S128x128) (k0_off63 k 1#32) S1x16.size (k0_off63_inb k 1)).toLoadRect fa))⟩,
   ⟨Rect.unit (s := S128x128) (k0_off62 k 1#32) S1x16.size (k0_off62_inb k 1), k0_pay116 (View.readAt (Elt F) (Memref.whole cc0_scratch3 : Memref sig .scVector .vmem S128x128 .f32).view (Rect.unit (s := S128x128) (k0_off62 k 1#32) S1x16.size (k0_off62_inb k 1)).toLoadRect fa)⟩,
   ⟨Rect.unit (s := S128x128) (k0_off61 k 1#32) S1x16.size (k0_off61_inb k 1), k0_pay115 (View.readAt (Elt F) (Memref.whole cc0_scratch3 : Memref sig .scVector .vmem S128x128 .f32).view (Rect.unit (s := S128x128) (k0_off61 k 1#32) S1x16.size (k0_off61_inb k 1)).toLoadRect fa)⟩,
   ⟨Rect.unit (s := S128x128) (k0_off60 k 1#32) S1x16.size (k0_off60_inb k 1), k0_pay114 (k0_pay113 (View.readAt (Elt F) (Memref.whole cc0_scratch3 : Memref sig .scVector .vmem S128x128 .f32).view (Rect.unit (s := S128x128) (k0_off60 k 1#32) S1x16.size (k0_off60_inb k 1)).toLoadRect fa))⟩,
   ⟨Rect.unit (s := S128x128) (k0_off59 k 1#32) S1x16.size (k0_off59_inb k 1), k0_pay112 (View.readAt (Elt F) (Memref.whole cc0_scratch3 : Memref sig .scVector .vmem S128x128 .f32).view (Rect.unit (s := S128x128) (k0_off59 k 1#32) S1x16.size (k0_off59_inb k 1)).toLoadRect fa)⟩,
   ⟨Rect.unit (s := S128x128) (k0_off66 k 0#32) S1x16.size (k0_off66_inb k 0), k0_pay111 (k0_pay110 (View.readAt (Elt F) (Memref.whole cc0_scratch3 : Memref sig .scVector .vmem S128x128 .f32).view (Rect.unit (s := S128x128) (k0_off66 k 0#32) S1x16.size (k0_off66_inb k 0)).toLoadRect fa))⟩,
   ⟨Rect.unit (s := S128x128) (k0_off65 k 0#32) S1x16.size (k0_off65_inb k 0), k0_pay109 (View.readAt (Elt F) (Memref.whole cc0_scratch3 : Memref sig .scVector .vmem S128x128 .f32).view (Rect.unit (s := S128x128) (k0_off65 k 0#32) S1x16.size (k0_off65_inb k 0)).toLoadRect fa)⟩,
   ⟨Rect.unit (s := S128x128) (k0_off64 k 0#32) S1x16.size (k0_off64_inb k 0), k0_pay108 (View.readAt (Elt F) (Memref.whole cc0_scratch3 : Memref sig .scVector .vmem S128x128 .f32).view (Rect.unit (s := S128x128) (k0_off64 k 0#32) S1x16.size (k0_off64_inb k 0)).toLoadRect fa)⟩,
   ⟨Rect.unit (s := S128x128) (k0_off63 k 0#32) S1x16.size (k0_off63_inb k 0), k0_pay107 (k0_pay106 (View.readAt (Elt F) (Memref.whole cc0_scratch3 : Memref sig .scVector .vmem S128x128 .f32).view (Rect.unit (s := S128x128) (k0_off63 k 0#32) S1x16.size (k0_off63_inb k 0)).toLoadRect fa))⟩,
   ⟨Rect.unit (s := S128x128) (k0_off62 k 0#32) S1x16.size (k0_off62_inb k 0), k0_pay105 (View.readAt (Elt F) (Memref.whole cc0_scratch3 : Memref sig .scVector .vmem S128x128 .f32).view (Rect.unit (s := S128x128) (k0_off62 k 0#32) S1x16.size (k0_off62_inb k 0)).toLoadRect fa)⟩,
   ⟨Rect.unit (s := S128x128) (k0_off61 k 0#32) S1x16.size (k0_off61_inb k 0), k0_pay104 (k0_pay103 (View.readAt (Elt F) (Memref.whole cc0_scratch3 : Memref sig .scVector .vmem S128x128 .f32).view (Rect.unit (s := S128x128) (k0_off61 k 0#32) S1x16.size (k0_off61_inb k 0)).toLoadRect fa))⟩,
   ⟨Rect.unit (s := S128x128) (k0_off60 k 0#32) S1x16.size (k0_off60_inb k 0), k0_pay102 (View.readAt (Elt F) (Memref.whole cc0_scratch3 : Memref sig .scVector .vmem S128x128 .f32).view (Rect.unit (s := S128x128) (k0_off60 k 0#32) S1x16.size (k0_off60_inb k 0)).toLoadRect fa)⟩,
   ⟨Rect.unit (s := S128x128) (k0_off59 k 0#32) S1x16.size (k0_off59_inb k 0), k0_pay101 (View.readAt (Elt F) (Memref.whole cc0_scratch3 : Memref sig .scVector .vmem S128x128 .f32).view (Rect.unit (s := S128x128) (k0_off59 k 0#32) S1x16.size (k0_off59_inb k 0)).toLoadRect fa)⟩]

theorem good6_0 (k : Fin k0_t6_loop.trips) (fa : FVec F S128x128 .f32) :
    Good k.val 1 7 fa ⟨Rect.unit (s := S128x128) (k0_off66 k 1#32) S1x16.size (k0_off66_inb k 1), k0_pay189 (View.readAt (Elt F) (Memref.whole cc0_scratch3 : Memref sig .scVector .vmem S128x128 .f32).view (Rect.unit (s := S128x128) (k0_off66 k 1#32) S1x16.size (k0_off66_inb k 1)).toLoadRect fa)⟩ :=
  good_of k.val 1 7 fa _ _ (k0_off66_eq k 1) (View.readAt (Elt F) (Memref.whole cc0_scratch3 : Memref sig .scVector .vmem S128x128 .f32).view (Rect.unit (s := S128x128) (k0_off66 k 1#32) S1x16.size (k0_off66_inb k 1)).toLoadRect fa) (fun _ => rfl) _ rfl

theorem good6_1 (k : Fin k0_t6_loop.trips) (fa : FVec F S128x128 .f32) :
    Good k.val 1 6 fa ⟨Rect.unit (s := S128x128) (k0_off65 k 1#32) S1x16.size (k0_off65_inb k 1), k0_pay188 (k0_pay120 (View.readAt (Elt F) (Memref.whole cc0_scratch3 : Memref sig .scVector .vmem S128x128 .f32).view (Rect.unit (s := S128x128) (k0_off65 k 1#32) S1x16.size (k0_off65_inb k 1)).toLoadRect fa))⟩ :=
  good_of k.val 1 6 fa _ _ (k0_off65_eq k 1) (View.readAt (Elt F) (Memref.whole cc0_scratch3 : Memref sig .scVector .vmem S128x128 .f32).view (Rect.unit (s := S128x128) (k0_off65 k 1#32) S1x16.size (k0_off65_inb k 1)).toLoadRect fa) (fun _ => rfl) _ rfl

theorem good6_2 (k : Fin k0_t6_loop.trips) (fa : FVec F S128x128 .f32) :
    Good k.val 1 5 fa ⟨Rect.unit (s := S128x128) (k0_off64 k 1#32) S1x16.size (k0_off64_inb k 1), k0_pay119 (View.readAt (Elt F) (Memref.whole cc0_scratch3 : Memref sig .scVector .vmem S128x128 .f32).view (Rect.unit (s := S128x128) (k0_off64 k 1#32) S1x16.size (k0_off64_inb k 1)).toLoadRect fa)⟩ :=
  good_of k.val 1 5 fa _ _ (k0_off64_eq k 1) (View.readAt (Elt F) (Memref.whole cc0_scratch3 : Memref sig .scVector .vmem S128x128 .f32).view (Rect.unit (s := S128x128) (k0_off64 k 1#32) S1x16.size (k0_off64_inb k 1)).toLoadRect fa) (fun _ => rfl) _ rfl

theorem good6_3 (k : Fin k0_t6_loop.trips) (fa : FVec F S128x128 .f32) :
    Good k.val 1 4 fa ⟨Rect.unit (s := S128x128) (k0_off63 k 1#32) S1x16.size (k0_off63_inb k 1), k0_pay118 (k0_pay117 (View.readAt (Elt F) (Memref.whole cc0_scratch3 : Memref sig .scVector .vmem S128x128 .f32).view (Rect.unit (s := S128x128) (k0_off63 k 1#32) S1x16.size (k0_off63_inb k 1)).toLoadRect fa))⟩ :=
  good_of k.val 1 4 fa _ _ (k0_off63_eq k 1) (View.readAt (Elt F) (Memref.whole cc0_scratch3 : Memref sig .scVector .vmem S128x128 .f32).view (Rect.unit (s := S128x128) (k0_off63 k 1#32) S1x16.size (k0_off63_inb k 1)).toLoadRect fa) (fun _ => rfl) _ rfl

theorem good6_4 (k : Fin k0_t6_loop.trips) (fa : FVec F S128x128 .f32) :
    Good k.val 1 3 fa ⟨Rect.unit (s := S128x128) (k0_off62 k 1#32) S1x16.size (k0_off62_inb k 1), k0_pay116 (View.readAt (Elt F) (Memref.whole cc0_scratch3 : Memref sig .scVector .vmem S128x128 .f32).view (Rect.unit (s := S128x128) (k0_off62 k 1#32) S1x16.size (k0_off62_inb k 1)).toLoadRect fa)⟩ :=
  good_of k.val 1 3 fa _ _ (k0_off62_eq k 1) (View.readAt (Elt F) (Memref.whole cc0_scratch3 : Memref sig .scVector .vmem S128x128 .f32).view (Rect.unit (s := S128x128) (k0_off62 k 1#32) S1x16.size (k0_off62_inb k 1)).toLoadRect fa) (fun _ => rfl) _ rfl

theorem good6_5 (k : Fin k0_t6_loop.trips) (fa : FVec F S128x128 .f32) :
    Good k.val 1 2 fa ⟨Rect.unit (s := S128x128) (k0_off61 k 1#32) S1x16.size (k0_off61_inb k 1), k0_pay115 (View.readAt (Elt F) (Memref.whole cc0_scratch3 : Memref sig .scVector .vmem S128x128 .f32).view (Rect.unit (s := S128x128) (k0_off61 k 1#32) S1x16.size (k0_off61_inb k 1)).toLoadRect fa)⟩ :=
  good_of k.val 1 2 fa _ _ (k0_off61_eq k 1) (View.readAt (Elt F) (Memref.whole cc0_scratch3 : Memref sig .scVector .vmem S128x128 .f32).view (Rect.unit (s := S128x128) (k0_off61 k 1#32) S1x16.size (k0_off61_inb k 1)).toLoadRect fa) (fun _ => rfl) _ rfl

theorem good6_6 (k : Fin k0_t6_loop.trips) (fa : FVec F S128x128 .f32) :
    Good k.val 1 1 fa ⟨Rect.unit (s := S128x128) (k0_off60 k 1#32) S1x16.size (k0_off60_inb k 1), k0_pay114 (k0_pay113 (View.readAt (Elt F) (Memref.whole cc0_scratch3 : Memref sig .scVector .vmem S128x128 .f32).view (Rect.unit (s := S128x128) (k0_off60 k 1#32) S1x16.size (k0_off60_inb k 1)).toLoadRect fa))⟩ :=
  good_of k.val 1 1 fa _ _ (k0_off60_eq k 1) (View.readAt (Elt F) (Memref.whole cc0_scratch3 : Memref sig .scVector .vmem S128x128 .f32).view (Rect.unit (s := S128x128) (k0_off60 k 1#32) S1x16.size (k0_off60_inb k 1)).toLoadRect fa) (fun _ => rfl) _ rfl

theorem good6_7 (k : Fin k0_t6_loop.trips) (fa : FVec F S128x128 .f32) :
    Good k.val 1 0 fa ⟨Rect.unit (s := S128x128) (k0_off59 k 1#32) S1x16.size (k0_off59_inb k 1), k0_pay112 (View.readAt (Elt F) (Memref.whole cc0_scratch3 : Memref sig .scVector .vmem S128x128 .f32).view (Rect.unit (s := S128x128) (k0_off59 k 1#32) S1x16.size (k0_off59_inb k 1)).toLoadRect fa)⟩ :=
  good_of k.val 1 0 fa _ _ (k0_off59_eq k 1) (View.readAt (Elt F) (Memref.whole cc0_scratch3 : Memref sig .scVector .vmem S128x128 .f32).view (Rect.unit (s := S128x128) (k0_off59 k 1#32) S1x16.size (k0_off59_inb k 1)).toLoadRect fa) (fun _ => rfl) _ rfl

theorem good6_8 (k : Fin k0_t6_loop.trips) (fa : FVec F S128x128 .f32) :
    Good k.val 0 7 fa ⟨Rect.unit (s := S128x128) (k0_off66 k 0#32) S1x16.size (k0_off66_inb k 0), k0_pay111 (k0_pay110 (View.readAt (Elt F) (Memref.whole cc0_scratch3 : Memref sig .scVector .vmem S128x128 .f32).view (Rect.unit (s := S128x128) (k0_off66 k 0#32) S1x16.size (k0_off66_inb k 0)).toLoadRect fa))⟩ :=
  good_of k.val 0 7 fa _ _ (k0_off66_eq k 0) (View.readAt (Elt F) (Memref.whole cc0_scratch3 : Memref sig .scVector .vmem S128x128 .f32).view (Rect.unit (s := S128x128) (k0_off66 k 0#32) S1x16.size (k0_off66_inb k 0)).toLoadRect fa) (fun _ => rfl) _ rfl

theorem good6_9 (k : Fin k0_t6_loop.trips) (fa : FVec F S128x128 .f32) :
    Good k.val 0 6 fa ⟨Rect.unit (s := S128x128) (k0_off65 k 0#32) S1x16.size (k0_off65_inb k 0), k0_pay109 (View.readAt (Elt F) (Memref.whole cc0_scratch3 : Memref sig .scVector .vmem S128x128 .f32).view (Rect.unit (s := S128x128) (k0_off65 k 0#32) S1x16.size (k0_off65_inb k 0)).toLoadRect fa)⟩ :=
  good_of k.val 0 6 fa _ _ (k0_off65_eq k 0) (View.readAt (Elt F) (Memref.whole cc0_scratch3 : Memref sig .scVector .vmem S128x128 .f32).view (Rect.unit (s := S128x128) (k0_off65 k 0#32) S1x16.size (k0_off65_inb k 0)).toLoadRect fa) (fun _ => rfl) _ rfl

theorem good6_10 (k : Fin k0_t6_loop.trips) (fa : FVec F S128x128 .f32) :
    Good k.val 0 5 fa ⟨Rect.unit (s := S128x128) (k0_off64 k 0#32) S1x16.size (k0_off64_inb k 0), k0_pay108 (View.readAt (Elt F) (Memref.whole cc0_scratch3 : Memref sig .scVector .vmem S128x128 .f32).view (Rect.unit (s := S128x128) (k0_off64 k 0#32) S1x16.size (k0_off64_inb k 0)).toLoadRect fa)⟩ :=
  good_of k.val 0 5 fa _ _ (k0_off64_eq k 0) (View.readAt (Elt F) (Memref.whole cc0_scratch3 : Memref sig .scVector .vmem S128x128 .f32).view (Rect.unit (s := S128x128) (k0_off64 k 0#32) S1x16.size (k0_off64_inb k 0)).toLoadRect fa) (fun _ => rfl) _ rfl

theorem good6_11 (k : Fin k0_t6_loop.trips) (fa : FVec F S128x128 .f32) :
    Good k.val 0 4 fa ⟨Rect.unit (s := S128x128) (k0_off63 k 0#32) S1x16.size (k0_off63_inb k 0), k0_pay107 (k0_pay106 (View.readAt (Elt F) (Memref.whole cc0_scratch3 : Memref sig .scVector .vmem S128x128 .f32).view (Rect.unit (s := S128x128) (k0_off63 k 0#32) S1x16.size (k0_off63_inb k 0)).toLoadRect fa))⟩ :=
  good_of k.val 0 4 fa _ _ (k0_off63_eq k 0) (View.readAt (Elt F) (Memref.whole cc0_scratch3 : Memref sig .scVector .vmem S128x128 .f32).view (Rect.unit (s := S128x128) (k0_off63 k 0#32) S1x16.size (k0_off63_inb k 0)).toLoadRect fa) (fun _ => rfl) _ rfl

theorem good6_12 (k : Fin k0_t6_loop.trips) (fa : FVec F S128x128 .f32) :
    Good k.val 0 3 fa ⟨Rect.unit (s := S128x128) (k0_off62 k 0#32) S1x16.size (k0_off62_inb k 0), k0_pay105 (View.readAt (Elt F) (Memref.whole cc0_scratch3 : Memref sig .scVector .vmem S128x128 .f32).view (Rect.unit (s := S128x128) (k0_off62 k 0#32) S1x16.size (k0_off62_inb k 0)).toLoadRect fa)⟩ :=
  good_of k.val 0 3 fa _ _ (k0_off62_eq k 0) (View.readAt (Elt F) (Memref.whole cc0_scratch3 : Memref sig .scVector .vmem S128x128 .f32).view (Rect.unit (s := S128x128) (k0_off62 k 0#32) S1x16.size (k0_off62_inb k 0)).toLoadRect fa) (fun _ => rfl) _ rfl

theorem good6_13 (k : Fin k0_t6_loop.trips) (fa : FVec F S128x128 .f32) :
    Good k.val 0 2 fa ⟨Rect.unit (s := S128x128) (k0_off61 k 0#32) S1x16.size (k0_off61_inb k 0), k0_pay104 (k0_pay103 (View.readAt (Elt F) (Memref.whole cc0_scratch3 : Memref sig .scVector .vmem S128x128 .f32).view (Rect.unit (s := S128x128) (k0_off61 k 0#32) S1x16.size (k0_off61_inb k 0)).toLoadRect fa))⟩ :=
  good_of k.val 0 2 fa _ _ (k0_off61_eq k 0) (View.readAt (Elt F) (Memref.whole cc0_scratch3 : Memref sig .scVector .vmem S128x128 .f32).view (Rect.unit (s := S128x128) (k0_off61 k 0#32) S1x16.size (k0_off61_inb k 0)).toLoadRect fa) (fun _ => rfl) _ rfl

theorem good6_14 (k : Fin k0_t6_loop.trips) (fa : FVec F S128x128 .f32) :
    Good k.val 0 1 fa ⟨Rect.unit (s := S128x128) (k0_off60 k 0#32) S1x16.size (k0_off60_inb k 0), k0_pay102 (View.readAt (Elt F) (Memref.whole cc0_scratch3 : Memref sig .scVector .vmem S128x128 .f32).view (Rect.unit (s := S128x128) (k0_off60 k 0#32) S1x16.size (k0_off60_inb k 0)).toLoadRect fa)⟩ :=
  good_of k.val 0 1 fa _ _ (k0_off60_eq k 0) (View.readAt (Elt F) (Memref.whole cc0_scratch3 : Memref sig .scVector .vmem S128x128 .f32).view (Rect.unit (s := S128x128) (k0_off60 k 0#32) S1x16.size (k0_off60_inb k 0)).toLoadRect fa) (fun _ => rfl) _ rfl

theorem good6_15 (k : Fin k0_t6_loop.trips) (fa : FVec F S128x128 .f32) :
    Good k.val 0 0 fa ⟨Rect.unit (s := S128x128) (k0_off59 k 0#32) S1x16.size (k0_off59_inb k 0), k0_pay101 (View.readAt (Elt F) (Memref.whole cc0_scratch3 : Memref sig .scVector .vmem S128x128 .f32).view (Rect.unit (s := S128x128) (k0_off59 k 0#32) S1x16.size (k0_off59_inb k 0)).toLoadRect fa)⟩ :=
  good_of k.val 0 0 fa _ _ (k0_off59_eq k 0) (View.readAt (Elt F) (Memref.whole cc0_scratch3 : Memref sig .scVector .vmem S128x128 .f32).view (Rect.unit (s := S128x128) (k0_off59 k 0#32) S1x16.size (k0_off59_inb k 0)).toLoadRect fa) (fun _ => rfl) _ rfl

/-- One trip of loop 6 extends the rows at the logistic function of the input by two. -/
theorem trip_value6 (k : Fin k0_t6_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch6 : Memref sig .scVector .vmem S128x128 .f32).view.writes (Elt F) f (pieces6 k fa)) y = Cert.Fuse.logistic (fa y) := by
  refine rows_step (Memref.whole cc0_scratch6 : Memref sig .scVector .vmem S128x128 .f32).view k.val fa f (pieces6 k fa) (List.forall_mem_cons.mpr ⟨⟨_, _, good6_0 k fa⟩, (List.forall_mem_cons.mpr ⟨⟨_, _, good6_1 k fa⟩, (List.forall_mem_cons.mpr ⟨⟨_, _, good6_2 k fa⟩, (List.forall_mem_cons.mpr ⟨⟨_, _, good6_3 k fa⟩, (List.forall_mem_cons.mpr ⟨⟨_, _, good6_4 k fa⟩, (List.forall_mem_cons.mpr ⟨⟨_, _, good6_5 k fa⟩, (List.forall_mem_cons.mpr ⟨⟨_, _, good6_6 k fa⟩, (List.forall_mem_cons.mpr ⟨⟨_, _, good6_7 k fa⟩, (List.forall_mem_cons.mpr ⟨⟨_, _, good6_8 k fa⟩, (List.forall_mem_cons.mpr ⟨⟨_, _, good6_9 k fa⟩, (List.forall_mem_cons.mpr ⟨⟨_, _, good6_10 k fa⟩, (List.forall_mem_cons.mpr ⟨⟨_, _, good6_11 k fa⟩, (List.forall_mem_cons.mpr ⟨⟨_, _, good6_12 k fa⟩, (List.forall_mem_cons.mpr ⟨⟨_, _, good6_13 k fa⟩, (List.forall_mem_cons.mpr ⟨⟨_, _, good6_14 k fa⟩, (List.forall_mem_cons.mpr ⟨⟨_, _, good6_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good6_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good6_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good6_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good6_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good6_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good6_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good6_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good6_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good6_7 k fa⟩
  · exact ⟨_, List.mem_cons_of_mem _ (List.mem_cons_of_mem _ (List.mem_cons_of_mem _ (List.mem_cons_of_mem _ (List.mem_cons_of_mem _ (List.mem_cons_of_mem _ (List.mem_cons_self)))))), good6_6 k fa⟩
  · exact ⟨_, List.mem_cons_of_mem _ (List.mem_cons_of_mem _ (List.mem_cons_of_mem _ (List.mem_cons_of_mem _ (List.mem_cons_of_mem _ (List.mem_cons_self))))), good6_5 k fa⟩
  · exact ⟨_, List.mem_cons_of_mem _ (List.mem_cons_of_mem _ (List.mem_cons_of_mem _ (List.mem_cons_of_mem _ (List.mem_cons_self)))), good6_4 k fa⟩
  · exact ⟨_, List.mem_cons_of_mem _ (List.mem_cons_of_mem _ (List.mem_cons_of_mem _ (List.mem_cons_self))), good6_3 k fa⟩
  · exact ⟨_, List.mem_cons_of_mem _ (List.mem_cons_of_mem _ (List.mem_cons_self)), good6_2 k fa⟩
  · exact ⟨_, List.mem_cons_of_mem _ (List.mem_cons_self), good6_1 k fa⟩
  · exact ⟨_, List.mem_cons_self, good6_0 k fa⟩

/-! ## Loop 7: from cc0_scratch1 to cc0_scratch4 -/

/-- The stores one trip of loop 7 leaves, the last first. -/
def pieces7 (k : Fin k0_t7_loop.trips) (fa : FVec F S128x128 .f32) : List (View.Piece (Elt F) S128x128 .f32) :=
  [⟨Rect.unit (s := S128x128) (k0_off74 k 1#32) S1x16.size (k0_off74_inb k 1), k0_pay191 (View.readAt (Elt F) (Memref.whole cc0_scratch1 : Memref sig .scVector .vmem S128x128 .f32).view (Rect.unit (s := S128x128) (k0_off74 k 1#32) S1x16.size (k0_off74_inb k 1)).toLoadRect fa)⟩,
   ⟨Rect.unit (s := S128x128) (k0_off73 k 1#32) S1x16.size (k0_off73_inb k 1), k0_pay190 (k0_pay140 (View.readAt (Elt F) (Memref.whole cc0_scratch1 : Memref sig .scVector .vmem S128x128 .f32).view (Rect.unit (s := S128x128) (k0_off73 k 1#32) S1x16.size (k0_off73_inb k 1)).toLoadRect fa))⟩,
   ⟨Rect.unit (s := S128x128) (k0_off72 k 1#32) S1x16.size (k0_off72_inb k 1), k0_pay139 (View.readAt (Elt F) (Memref.whole cc0_scratch1 : Memref sig .scVector .vmem S128x128 .f32).view (Rect.unit (s := S128x128) (k0_off72 k 1#32) S1x16.size (k0_off72_inb k 1)).toLoadRect fa)⟩,
   ⟨Rect.unit (s := S128x128) (k0_off71 k 1#32) S1x16.size (k0_off71_inb k 1), k0_pay138 (k0_pay137 (View.readAt (Elt F) (Memref.whole cc0_scratch1 : Memref sig .scVector .vmem S128x128 .f32).view (Rect.unit (s := S128x128) (k0_off71 k 1#32) S1x16.size (k0_off71_inb k 1)).toLoadRect fa))⟩,
   ⟨Rect.unit (s := S128x128) (k0_off70 k 1#32) S1x16.size (k0_off70_inb k 1), k0_pay136 (View.readAt (Elt F) (Memref.whole cc0_scratch1 : Memref sig .scVector .vmem S128x128 .f32).view (Rect.unit (s := S128x128) (k0_off70 k 1#32) S1x16.size (k0_off70_inb k 1)).toLoadRect fa)⟩,
   ⟨Rect.unit (s := S128x128) (k0_off69 k 1#32) S1x16.size (k0_off69_inb k 1), k0_pay135 (View.readAt (Elt F) (Memref.whole cc0_scratch1 : Memref sig .scVector .vmem S128x128 .f32).view (Rect.unit (s := S128x128) (k0_off69 k 1#32) S1x16.size (k0_off69_inb k 1)).toLoadRect fa)⟩,
   ⟨Rect.unit (s := S128x128) (k0_off68 k 1#32) S1x16.size (k0_off68_inb k 1), k0_pay134 (k0_pay133 (View.readAt (Elt F) (Memref.whole cc0_scratch1 : Memref sig .scVector .vmem S128x128 .f32).view (Rect.unit (s := S128x128) (k0_off68 k 1#32) S1x16.size (k0_off68_inb k 1)).toLoadRect fa))⟩,
   ⟨Rect.unit (s := S128x128) (k0_off67 k 1#32) S1x16.size (k0_off67_inb k 1), k0_pay132 (View.readAt (Elt F) (Memref.whole cc0_scratch1 : Memref sig .scVector .vmem S128x128 .f32).view (Rect.unit (s := S128x128) (k0_off67 k 1#32) S1x16.size (k0_off67_inb k 1)).toLoadRect fa)⟩,
   ⟨Rect.unit (s := S128x128) (k0_off74 k 0#32) S1x16.size (k0_off74_inb k 0), k0_pay131 (k0_pay130 (View.readAt (Elt F) (Memref.whole cc0_scratch1 : Memref sig .scVector .vmem S128x128 .f32).view (Rect.unit (s := S128x128) (k0_off74 k 0#32) S1x16.size (k0_off74_inb k 0)).toLoadRect fa))⟩,
   ⟨Rect.unit (s := S128x128) (k0_off73 k 0#32) S1x16.size (k0_off73_inb k 0), k0_pay129 (View.readAt (Elt F) (Memref.whole cc0_scratch1 : Memref sig .scVector .vmem S128x128 .f32).view (Rect.unit (s := S128x128) (k0_off73 k 0#32) S1x16.size (k0_off73_inb k 0)).toLoadRect fa)⟩,
   ⟨Rect.unit (s := S128x128) (k0_off72 k 0#32) S1x16.size (k0_off72_inb k 0), k0_pay128 (View.readAt (Elt F) (Memref.whole cc0_scratch1 : Memref sig .scVector .vmem S128x128 .f32).view (Rect.unit (s := S128x128) (k0_off72 k 0#32) S1x16.size (k0_off72_inb k 0)).toLoadRect fa)⟩,
   ⟨Rect.unit (s := S128x128) (k0_off71 k 0#32) S1x16.size (k0_off71_inb k 0), k0_pay127 (k0_pay126 (View.readAt (Elt F) (Memref.whole cc0_scratch1 : Memref sig .scVector .vmem S128x128 .f32).view (Rect.unit (s := S128x128) (k0_off71 k 0#32) S1x16.size (k0_off71_inb k 0)).toLoadRect fa))⟩,
   ⟨Rect.unit (s := S128x128) (k0_off70 k 0#32) S1x16.size (k0_off70_inb k 0), k0_pay125 (View.readAt (Elt F) (Memref.whole cc0_scratch1 : Memref sig .scVector .vmem S128x128 .f32).view (Rect.unit (s := S128x128) (k0_off70 k 0#32) S1x16.size (k0_off70_inb k 0)).toLoadRect fa)⟩,
   ⟨Rect.unit (s := S128x128) (k0_off69 k 0#32) S1x16.size (k0_off69_inb k 0), k0_pay124 (k0_pay123 (View.readAt (Elt F) (Memref.whole cc0_scratch1 : Memref sig .scVector .vmem S128x128 .f32).view (Rect.unit (s := S128x128) (k0_off69 k 0#32) S1x16.size (k0_off69_inb k 0)).toLoadRect fa))⟩,
   ⟨Rect.unit (s := S128x128) (k0_off68 k 0#32) S1x16.size (k0_off68_inb k 0), k0_pay122 (View.readAt (Elt F) (Memref.whole cc0_scratch1 : Memref sig .scVector .vmem S128x128 .f32).view (Rect.unit (s := S128x128) (k0_off68 k 0#32) S1x16.size (k0_off68_inb k 0)).toLoadRect fa)⟩,
   ⟨Rect.unit (s := S128x128) (k0_off67 k 0#32) S1x16.size (k0_off67_inb k 0), k0_pay121 (View.readAt (Elt F) (Memref.whole cc0_scratch1 : Memref sig .scVector .vmem S128x128 .f32).view (Rect.unit (s := S128x128) (k0_off67 k 0#32) S1x16.size (k0_off67_inb k 0)).toLoadRect fa)⟩]

theorem good7_0 (k : Fin k0_t7_loop.trips) (fa : FVec F S128x128 .f32) :
    Good k.val 1 7 fa ⟨Rect.unit (s := S128x128) (k0_off74 k 1#32) S1x16.size (k0_off74_inb k 1), k0_pay191 (View.readAt (Elt F) (Memref.whole cc0_scratch1 : Memref sig .scVector .vmem S128x128 .f32).view (Rect.unit (s := S128x128) (k0_off74 k 1#32) S1x16.size (k0_off74_inb k 1)).toLoadRect fa)⟩ :=
  good_of k.val 1 7 fa _ _ (k0_off74_eq k 1) (View.readAt (Elt F) (Memref.whole cc0_scratch1 : Memref sig .scVector .vmem S128x128 .f32).view (Rect.unit (s := S128x128) (k0_off74 k 1#32) S1x16.size (k0_off74_inb k 1)).toLoadRect fa) (fun _ => rfl) _ rfl

theorem good7_1 (k : Fin k0_t7_loop.trips) (fa : FVec F S128x128 .f32) :
    Good k.val 1 6 fa ⟨Rect.unit (s := S128x128) (k0_off73 k 1#32) S1x16.size (k0_off73_inb k 1), k0_pay190 (k0_pay140 (View.readAt (Elt F) (Memref.whole cc0_scratch1 : Memref sig .scVector .vmem S128x128 .f32).view (Rect.unit (s := S128x128) (k0_off73 k 1#32) S1x16.size (k0_off73_inb k 1)).toLoadRect fa))⟩ :=
  good_of k.val 1 6 fa _ _ (k0_off73_eq k 1) (View.readAt (Elt F) (Memref.whole cc0_scratch1 : Memref sig .scVector .vmem S128x128 .f32).view (Rect.unit (s := S128x128) (k0_off73 k 1#32) S1x16.size (k0_off73_inb k 1)).toLoadRect fa) (fun _ => rfl) _ rfl

theorem good7_2 (k : Fin k0_t7_loop.trips) (fa : FVec F S128x128 .f32) :
    Good k.val 1 5 fa ⟨Rect.unit (s := S128x128) (k0_off72 k 1#32) S1x16.size (k0_off72_inb k 1), k0_pay139 (View.readAt (Elt F) (Memref.whole cc0_scratch1 : Memref sig .scVector .vmem S128x128 .f32).view (Rect.unit (s := S128x128) (k0_off72 k 1#32) S1x16.size (k0_off72_inb k 1)).toLoadRect fa)⟩ :=
  good_of k.val 1 5 fa _ _ (k0_off72_eq k 1) (View.readAt (Elt F) (Memref.whole cc0_scratch1 : Memref sig .scVector .vmem S128x128 .f32).view (Rect.unit (s := S128x128) (k0_off72 k 1#32) S1x16.size (k0_off72_inb k 1)).toLoadRect fa) (fun _ => rfl) _ rfl

theorem good7_3 (k : Fin k0_t7_loop.trips) (fa : FVec F S128x128 .f32) :
    Good k.val 1 4 fa ⟨Rect.unit (s := S128x128) (k0_off71 k 1#32) S1x16.size (k0_off71_inb k 1), k0_pay138 (k0_pay137 (View.readAt (Elt F) (Memref.whole cc0_scratch1 : Memref sig .scVector .vmem S128x128 .f32).view (Rect.unit (s := S128x128) (k0_off71 k 1#32) S1x16.size (k0_off71_inb k 1)).toLoadRect fa))⟩ :=
  good_of k.val 1 4 fa _ _ (k0_off71_eq k 1) (View.readAt (Elt F) (Memref.whole cc0_scratch1 : Memref sig .scVector .vmem S128x128 .f32).view (Rect.unit (s := S128x128) (k0_off71 k 1#32) S1x16.size (k0_off71_inb k 1)).toLoadRect fa) (fun _ => rfl) _ rfl

theorem good7_4 (k : Fin k0_t7_loop.trips) (fa : FVec F S128x128 .f32) :
    Good k.val 1 3 fa ⟨Rect.unit (s := S128x128) (k0_off70 k 1#32) S1x16.size (k0_off70_inb k 1), k0_pay136 (View.readAt (Elt F) (Memref.whole cc0_scratch1 : Memref sig .scVector .vmem S128x128 .f32).view (Rect.unit (s := S128x128) (k0_off70 k 1#32) S1x16.size (k0_off70_inb k 1)).toLoadRect fa)⟩ :=
  good_of k.val 1 3 fa _ _ (k0_off70_eq k 1) (View.readAt (Elt F) (Memref.whole cc0_scratch1 : Memref sig .scVector .vmem S128x128 .f32).view (Rect.unit (s := S128x128) (k0_off70 k 1#32) S1x16.size (k0_off70_inb k 1)).toLoadRect fa) (fun _ => rfl) _ rfl

theorem good7_5 (k : Fin k0_t7_loop.trips) (fa : FVec F S128x128 .f32) :
    Good k.val 1 2 fa ⟨Rect.unit (s := S128x128) (k0_off69 k 1#32) S1x16.size (k0_off69_inb k 1), k0_pay135 (View.readAt (Elt F) (Memref.whole cc0_scratch1 : Memref sig .scVector .vmem S128x128 .f32).view (Rect.unit (s := S128x128) (k0_off69 k 1#32) S1x16.size (k0_off69_inb k 1)).toLoadRect fa)⟩ :=
  good_of k.val 1 2 fa _ _ (k0_off69_eq k 1) (View.readAt (Elt F) (Memref.whole cc0_scratch1 : Memref sig .scVector .vmem S128x128 .f32).view (Rect.unit (s := S128x128) (k0_off69 k 1#32) S1x16.size (k0_off69_inb k 1)).toLoadRect fa) (fun _ => rfl) _ rfl

theorem good7_6 (k : Fin k0_t7_loop.trips) (fa : FVec F S128x128 .f32) :
    Good k.val 1 1 fa ⟨Rect.unit (s := S128x128) (k0_off68 k 1#32) S1x16.size (k0_off68_inb k 1), k0_pay134 (k0_pay133 (View.readAt (Elt F) (Memref.whole cc0_scratch1 : Memref sig .scVector .vmem S128x128 .f32).view (Rect.unit (s := S128x128) (k0_off68 k 1#32) S1x16.size (k0_off68_inb k 1)).toLoadRect fa))⟩ :=
  good_of k.val 1 1 fa _ _ (k0_off68_eq k 1) (View.readAt (Elt F) (Memref.whole cc0_scratch1 : Memref sig .scVector .vmem S128x128 .f32).view (Rect.unit (s := S128x128) (k0_off68 k 1#32) S1x16.size (k0_off68_inb k 1)).toLoadRect fa) (fun _ => rfl) _ rfl

theorem good7_7 (k : Fin k0_t7_loop.trips) (fa : FVec F S128x128 .f32) :
    Good k.val 1 0 fa ⟨Rect.unit (s := S128x128) (k0_off67 k 1#32) S1x16.size (k0_off67_inb k 1), k0_pay132 (View.readAt (Elt F) (Memref.whole cc0_scratch1 : Memref sig .scVector .vmem S128x128 .f32).view (Rect.unit (s := S128x128) (k0_off67 k 1#32) S1x16.size (k0_off67_inb k 1)).toLoadRect fa)⟩ :=
  good_of k.val 1 0 fa _ _ (k0_off67_eq k 1) (View.readAt (Elt F) (Memref.whole cc0_scratch1 : Memref sig .scVector .vmem S128x128 .f32).view (Rect.unit (s := S128x128) (k0_off67 k 1#32) S1x16.size (k0_off67_inb k 1)).toLoadRect fa) (fun _ => rfl) _ rfl

theorem good7_8 (k : Fin k0_t7_loop.trips) (fa : FVec F S128x128 .f32) :
    Good k.val 0 7 fa ⟨Rect.unit (s := S128x128) (k0_off74 k 0#32) S1x16.size (k0_off74_inb k 0), k0_pay131 (k0_pay130 (View.readAt (Elt F) (Memref.whole cc0_scratch1 : Memref sig .scVector .vmem S128x128 .f32).view (Rect.unit (s := S128x128) (k0_off74 k 0#32) S1x16.size (k0_off74_inb k 0)).toLoadRect fa))⟩ :=
  good_of k.val 0 7 fa _ _ (k0_off74_eq k 0) (View.readAt (Elt F) (Memref.whole cc0_scratch1 : Memref sig .scVector .vmem S128x128 .f32).view (Rect.unit (s := S128x128) (k0_off74 k 0#32) S1x16.size (k0_off74_inb k 0)).toLoadRect fa) (fun _ => rfl) _ rfl

theorem good7_9 (k : Fin k0_t7_loop.trips) (fa : FVec F S128x128 .f32) :
    Good k.val 0 6 fa ⟨Rect.unit (s := S128x128) (k0_off73 k 0#32) S1x16.size (k0_off73_inb k 0), k0_pay129 (View.readAt (Elt F) (Memref.whole cc0_scratch1 : Memref sig .scVector .vmem S128x128 .f32).view (Rect.unit (s := S128x128) (k0_off73 k 0#32) S1x16.size (k0_off73_inb k 0)).toLoadRect fa)⟩ :=
  good_of k.val 0 6 fa _ _ (k0_off73_eq k 0) (View.readAt (Elt F) (Memref.whole cc0_scratch1 : Memref sig .scVector .vmem S128x128 .f32).view (Rect.unit (s := S128x128) (k0_off73 k 0#32) S1x16.size (k0_off73_inb k 0)).toLoadRect fa) (fun _ => rfl) _ rfl

theorem good7_10 (k : Fin k0_t7_loop.trips) (fa : FVec F S128x128 .f32) :
    Good k.val 0 5 fa ⟨Rect.unit (s := S128x128) (k0_off72 k 0#32) S1x16.size (k0_off72_inb k 0), k0_pay128 (View.readAt (Elt F) (Memref.whole cc0_scratch1 : Memref sig .scVector .vmem S128x128 .f32).view (Rect.unit (s := S128x128) (k0_off72 k 0#32) S1x16.size (k0_off72_inb k 0)).toLoadRect fa)⟩ :=
  good_of k.val 0 5 fa _ _ (k0_off72_eq k 0) (View.readAt (Elt F) (Memref.whole cc0_scratch1 : Memref sig .scVector .vmem S128x128 .f32).view (Rect.unit (s := S128x128) (k0_off72 k 0#32) S1x16.size (k0_off72_inb k 0)).toLoadRect fa) (fun _ => rfl) _ rfl

theorem good7_11 (k : Fin k0_t7_loop.trips) (fa : FVec F S128x128 .f32) :
    Good k.val 0 4 fa ⟨Rect.unit (s := S128x128) (k0_off71 k 0#32) S1x16.size (k0_off71_inb k 0), k0_pay127 (k0_pay126 (View.readAt (Elt F) (Memref.whole cc0_scratch1 : Memref sig .scVector .vmem S128x128 .f32).view (Rect.unit (s := S128x128) (k0_off71 k 0#32) S1x16.size (k0_off71_inb k 0)).toLoadRect fa))⟩ :=
  good_of k.val 0 4 fa _ _ (k0_off71_eq k 0) (View.readAt (Elt F) (Memref.whole cc0_scratch1 : Memref sig .scVector .vmem S128x128 .f32).view (Rect.unit (s := S128x128) (k0_off71 k 0#32) S1x16.size (k0_off71_inb k 0)).toLoadRect fa) (fun _ => rfl) _ rfl

theorem good7_12 (k : Fin k0_t7_loop.trips) (fa : FVec F S128x128 .f32) :
    Good k.val 0 3 fa ⟨Rect.unit (s := S128x128) (k0_off70 k 0#32) S1x16.size (k0_off70_inb k 0), k0_pay125 (View.readAt (Elt F) (Memref.whole cc0_scratch1 : Memref sig .scVector .vmem S128x128 .f32).view (Rect.unit (s := S128x128) (k0_off70 k 0#32) S1x16.size (k0_off70_inb k 0)).toLoadRect fa)⟩ :=
  good_of k.val 0 3 fa _ _ (k0_off70_eq k 0) (View.readAt (Elt F) (Memref.whole cc0_scratch1 : Memref sig .scVector .vmem S128x128 .f32).view (Rect.unit (s := S128x128) (k0_off70 k 0#32) S1x16.size (k0_off70_inb k 0)).toLoadRect fa) (fun _ => rfl) _ rfl

theorem good7_13 (k : Fin k0_t7_loop.trips) (fa : FVec F S128x128 .f32) :
    Good k.val 0 2 fa ⟨Rect.unit (s := S128x128) (k0_off69 k 0#32) S1x16.size (k0_off69_inb k 0), k0_pay124 (k0_pay123 (View.readAt (Elt F) (Memref.whole cc0_scratch1 : Memref sig .scVector .vmem S128x128 .f32).view (Rect.unit (s := S128x128) (k0_off69 k 0#32) S1x16.size (k0_off69_inb k 0)).toLoadRect fa))⟩ :=
  good_of k.val 0 2 fa _ _ (k0_off69_eq k 0) (View.readAt (Elt F) (Memref.whole cc0_scratch1 : Memref sig .scVector .vmem S128x128 .f32).view (Rect.unit (s := S128x128) (k0_off69 k 0#32) S1x16.size (k0_off69_inb k 0)).toLoadRect fa) (fun _ => rfl) _ rfl

theorem good7_14 (k : Fin k0_t7_loop.trips) (fa : FVec F S128x128 .f32) :
    Good k.val 0 1 fa ⟨Rect.unit (s := S128x128) (k0_off68 k 0#32) S1x16.size (k0_off68_inb k 0), k0_pay122 (View.readAt (Elt F) (Memref.whole cc0_scratch1 : Memref sig .scVector .vmem S128x128 .f32).view (Rect.unit (s := S128x128) (k0_off68 k 0#32) S1x16.size (k0_off68_inb k 0)).toLoadRect fa)⟩ :=
  good_of k.val 0 1 fa _ _ (k0_off68_eq k 0) (View.readAt (Elt F) (Memref.whole cc0_scratch1 : Memref sig .scVector .vmem S128x128 .f32).view (Rect.unit (s := S128x128) (k0_off68 k 0#32) S1x16.size (k0_off68_inb k 0)).toLoadRect fa) (fun _ => rfl) _ rfl

theorem good7_15 (k : Fin k0_t7_loop.trips) (fa : FVec F S128x128 .f32) :
    Good k.val 0 0 fa ⟨Rect.unit (s := S128x128) (k0_off67 k 0#32) S1x16.size (k0_off67_inb k 0), k0_pay121 (View.readAt (Elt F) (Memref.whole cc0_scratch1 : Memref sig .scVector .vmem S128x128 .f32).view (Rect.unit (s := S128x128) (k0_off67 k 0#32) S1x16.size (k0_off67_inb k 0)).toLoadRect fa)⟩ :=
  good_of k.val 0 0 fa _ _ (k0_off67_eq k 0) (View.readAt (Elt F) (Memref.whole cc0_scratch1 : Memref sig .scVector .vmem S128x128 .f32).view (Rect.unit (s := S128x128) (k0_off67 k 0#32) S1x16.size (k0_off67_inb k 0)).toLoadRect fa) (fun _ => rfl) _ rfl

/-- One trip of loop 7 extends the rows at the logistic function of the input by two. -/
theorem trip_value7 (k : Fin k0_t7_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch4 : Memref sig .scVector .vmem S128x128 .f32).view.writes (Elt F) f (pieces7 k fa)) y = Cert.Fuse.logistic (fa y) := by
  refine rows_step (Memref.whole cc0_scratch4 : Memref sig .scVector .vmem S128x128 .f32).view k.val fa f (pieces7 k fa) (List.forall_mem_cons.mpr ⟨⟨_, _, good7_0 k fa⟩, (List.forall_mem_cons.mpr ⟨⟨_, _, good7_1 k fa⟩, (List.forall_mem_cons.mpr ⟨⟨_, _, good7_2 k fa⟩, (List.forall_mem_cons.mpr ⟨⟨_, _, good7_3 k fa⟩, (List.forall_mem_cons.mpr ⟨⟨_, _, good7_4 k fa⟩, (List.forall_mem_cons.mpr ⟨⟨_, _, good7_5 k fa⟩, (List.forall_mem_cons.mpr ⟨⟨_, _, good7_6 k fa⟩, (List.forall_mem_cons.mpr ⟨⟨_, _, good7_7 k fa⟩, (List.forall_mem_cons.mpr ⟨⟨_, _, good7_8 k fa⟩, (List.forall_mem_cons.mpr ⟨⟨_, _, good7_9 k fa⟩, (List.forall_mem_cons.mpr ⟨⟨_, _, good7_10 k fa⟩, (List.forall_mem_cons.mpr ⟨⟨_, _, good7_11 k fa⟩, (List.forall_mem_cons.mpr ⟨⟨_, _, good7_12 k fa⟩, (List.forall_mem_cons.mpr ⟨⟨_, _, good7_13 k fa⟩, (List.forall_mem_cons.mpr ⟨⟨_, _, good7_14 k fa⟩, (List.forall_mem_cons.mpr ⟨⟨_, _, good7_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good7_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good7_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good7_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good7_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good7_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good7_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good7_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good7_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good7_7 k fa⟩
  · exact ⟨_, List.mem_cons_of_mem _ (List.mem_cons_of_mem _ (List.mem_cons_of_mem _ (List.mem_cons_of_mem _ (List.mem_cons_of_mem _ (List.mem_cons_of_mem _ (List.mem_cons_self)))))), good7_6 k fa⟩
  · exact ⟨_, List.mem_cons_of_mem _ (List.mem_cons_of_mem _ (List.mem_cons_of_mem _ (List.mem_cons_of_mem _ (List.mem_cons_of_mem _ (List.mem_cons_self))))), good7_5 k fa⟩
  · exact ⟨_, List.mem_cons_of_mem _ (List.mem_cons_of_mem _ (List.mem_cons_of_mem _ (List.mem_cons_of_mem _ (List.mem_cons_self)))), good7_4 k fa⟩
  · exact ⟨_, List.mem_cons_of_mem _ (List.mem_cons_of_mem _ (List.mem_cons_of_mem _ (List.mem_cons_self))), good7_3 k fa⟩
  · exact ⟨_, List.mem_cons_of_mem _ (List.mem_cons_of_mem _ (List.mem_cons_self)), good7_2 k fa⟩
  · exact ⟨_, List.mem_cons_of_mem _ (List.mem_cons_self), good7_1 k fa⟩
  · exact ⟨_, List.mem_cons_self, good7_0 k fa⟩

/-! ## Loop 8: from cc0_scratch2 to cc0_scratch5 -/

/-- The stores one trip of loop 8 leaves, the last first. -/
def pieces8 (k : Fin k0_t8_loop.trips) (fa : FVec F S128x128 .f32) : List (View.Piece (Elt F) S128x128 .f32) :=
  [⟨Rect.unit (s := S128x128) (k0_off82 k 1#32) S1x16.size (k0_off82_inb k 1), k0_pay193 (View.readAt (Elt F) (Memref.whole cc0_scratch2 : Memref sig .scVector .vmem S128x128 .f32).view (Rect.unit (s := S128x128) (k0_off82 k 1#32) S1x16.size (k0_off82_inb k 1)).toLoadRect fa)⟩,
   ⟨Rect.unit (s := S128x128) (k0_off81 k 1#32) S1x16.size (k0_off81_inb k 1), k0_pay192 (k0_pay160 (View.readAt (Elt F) (Memref.whole cc0_scratch2 : Memref sig .scVector .vmem S128x128 .f32).view (Rect.unit (s := S128x128) (k0_off81 k 1#32) S1x16.size (k0_off81_inb k 1)).toLoadRect fa))⟩,
   ⟨Rect.unit (s := S128x128) (k0_off80 k 1#32) S1x16.size (k0_off80_inb k 1), k0_pay159 (View.readAt (Elt F) (Memref.whole cc0_scratch2 : Memref sig .scVector .vmem S128x128 .f32).view (Rect.unit (s := S128x128) (k0_off80 k 1#32) S1x16.size (k0_off80_inb k 1)).toLoadRect fa)⟩,
   ⟨Rect.unit (s := S128x128) (k0_off79 k 1#32) S1x16.size (k0_off79_inb k 1), k0_pay158 (k0_pay157 (View.readAt (Elt F) (Memref.whole cc0_scratch2 : Memref sig .scVector .vmem S128x128 .f32).view (Rect.unit (s := S128x128) (k0_off79 k 1#32) S1x16.size (k0_off79_inb k 1)).toLoadRect fa))⟩,
   ⟨Rect.unit (s := S128x128) (k0_off78 k 1#32) S1x16.size (k0_off78_inb k 1), k0_pay156 (View.readAt (Elt F) (Memref.whole cc0_scratch2 : Memref sig .scVector .vmem S128x128 .f32).view (Rect.unit (s := S128x128) (k0_off78 k 1#32) S1x16.size (k0_off78_inb k 1)).toLoadRect fa)⟩,
   ⟨Rect.unit (s := S128x128) (k0_off77 k 1#32) S1x16.size (k0_off77_inb k 1), k0_pay155 (View.readAt (Elt F) (Memref.whole cc0_scratch2 : Memref sig .scVector .vmem S128x128 .f32).view (Rect.unit (s := S128x128) (k0_off77 k 1#32) S1x16.size (k0_off77_inb k 1)).toLoadRect fa)⟩,
   ⟨Rect.unit (s := S128x128) (k0_off76 k 1#32) S1x16.size (k0_off76_inb k 1), k0_pay154 (k0_pay153 (View.readAt (Elt F) (Memref.whole cc0_scratch2 : Memref sig .scVector .vmem S128x128 .f32).view (Rect.unit (s := S128x128) (k0_off76 k 1#32) S1x16.size (k0_off76_inb k 1)).toLoadRect fa))⟩,
   ⟨Rect.unit (s := S128x128) (k0_off75 k 1#32) S1x16.size (k0_off75_inb k 1), k0_pay152 (View.readAt (Elt F) (Memref.whole cc0_scratch2 : Memref sig .scVector .vmem S128x128 .f32).view (Rect.unit (s := S128x128) (k0_off75 k 1#32) S1x16.size (k0_off75_inb k 1)).toLoadRect fa)⟩,
   ⟨Rect.unit (s := S128x128) (k0_off82 k 0#32) S1x16.size (k0_off82_inb k 0), k0_pay151 (k0_pay150 (View.readAt (Elt F) (Memref.whole cc0_scratch2 : Memref sig .scVector .vmem S128x128 .f32).view (Rect.unit (s := S128x128) (k0_off82 k 0#32) S1x16.size (k0_off82_inb k 0)).toLoadRect fa))⟩,
   ⟨Rect.unit (s := S128x128) (k0_off81 k 0#32) S1x16.size (k0_off81_inb k 0), k0_pay149 (View.readAt (Elt F) (Memref.whole cc0_scratch2 : Memref sig .scVector .vmem S128x128 .f32).view (Rect.unit (s := S128x128) (k0_off81 k 0#32) S1x16.size (k0_off81_inb k 0)).toLoadRect fa)⟩,
   ⟨Rect.unit (s := S128x128) (k0_off80 k 0#32) S1x16.size (k0_off80_inb k 0), k0_pay148 (View.readAt (Elt F) (Memref.whole cc0_scratch2 : Memref sig .scVector .vmem S128x128 .f32).view (Rect.unit (s := S128x128) (k0_off80 k 0#32) S1x16.size (k0_off80_inb k 0)).toLoadRect fa)⟩,
   ⟨Rect.unit (s := S128x128) (k0_off79 k 0#32) S1x16.size (k0_off79_inb k 0), k0_pay147 (k0_pay146 (View.readAt (Elt F) (Memref.whole cc0_scratch2 : Memref sig .scVector .vmem S128x128 .f32).view (Rect.unit (s := S128x128) (k0_off79 k 0#32) S1x16.size (k0_off79_inb k 0)).toLoadRect fa))⟩,
   ⟨Rect.unit (s := S128x128) (k0_off78 k 0#32) S1x16.size (k0_off78_inb k 0), k0_pay145 (View.readAt (Elt F) (Memref.whole cc0_scratch2 : Memref sig .scVector .vmem S128x128 .f32).view (Rect.unit (s := S128x128) (k0_off78 k 0#32) S1x16.size (k0_off78_inb k 0)).toLoadRect fa)⟩,
   ⟨Rect.unit (s := S128x128) (k0_off77 k 0#32) S1x16.size (k0_off77_inb k 0), k0_pay144 (k0_pay143 (View.readAt (Elt F) (Memref.whole cc0_scratch2 : Memref sig .scVector .vmem S128x128 .f32).view (Rect.unit (s := S128x128) (k0_off77 k 0#32) S1x16.size (k0_off77_inb k 0)).toLoadRect fa))⟩,
   ⟨Rect.unit (s := S128x128) (k0_off76 k 0#32) S1x16.size (k0_off76_inb k 0), k0_pay142 (View.readAt (Elt F) (Memref.whole cc0_scratch2 : Memref sig .scVector .vmem S128x128 .f32).view (Rect.unit (s := S128x128) (k0_off76 k 0#32) S1x16.size (k0_off76_inb k 0)).toLoadRect fa)⟩,
   ⟨Rect.unit (s := S128x128) (k0_off75 k 0#32) S1x16.size (k0_off75_inb k 0), k0_pay141 (View.readAt (Elt F) (Memref.whole cc0_scratch2 : Memref sig .scVector .vmem S128x128 .f32).view (Rect.unit (s := S128x128) (k0_off75 k 0#32) S1x16.size (k0_off75_inb k 0)).toLoadRect fa)⟩]

theorem good8_0 (k : Fin k0_t8_loop.trips) (fa : FVec F S128x128 .f32) :
    Good k.val 1 7 fa ⟨Rect.unit (s := S128x128) (k0_off82 k 1#32) S1x16.size (k0_off82_inb k 1), k0_pay193 (View.readAt (Elt F) (Memref.whole cc0_scratch2 : Memref sig .scVector .vmem S128x128 .f32).view (Rect.unit (s := S128x128) (k0_off82 k 1#32) S1x16.size (k0_off82_inb k 1)).toLoadRect fa)⟩ :=
  good_of k.val 1 7 fa _ _ (k0_off82_eq k 1) (View.readAt (Elt F) (Memref.whole cc0_scratch2 : Memref sig .scVector .vmem S128x128 .f32).view (Rect.unit (s := S128x128) (k0_off82 k 1#32) S1x16.size (k0_off82_inb k 1)).toLoadRect fa) (fun _ => rfl) _ rfl

theorem good8_1 (k : Fin k0_t8_loop.trips) (fa : FVec F S128x128 .f32) :
    Good k.val 1 6 fa ⟨Rect.unit (s := S128x128) (k0_off81 k 1#32) S1x16.size (k0_off81_inb k 1), k0_pay192 (k0_pay160 (View.readAt (Elt F) (Memref.whole cc0_scratch2 : Memref sig .scVector .vmem S128x128 .f32).view (Rect.unit (s := S128x128) (k0_off81 k 1#32) S1x16.size (k0_off81_inb k 1)).toLoadRect fa))⟩ :=
  good_of k.val 1 6 fa _ _ (k0_off81_eq k 1) (View.readAt (Elt F) (Memref.whole cc0_scratch2 : Memref sig .scVector .vmem S128x128 .f32).view (Rect.unit (s := S128x128) (k0_off81 k 1#32) S1x16.size (k0_off81_inb k 1)).toLoadRect fa) (fun _ => rfl) _ rfl

theorem good8_2 (k : Fin k0_t8_loop.trips) (fa : FVec F S128x128 .f32) :
    Good k.val 1 5 fa ⟨Rect.unit (s := S128x128) (k0_off80 k 1#32) S1x16.size (k0_off80_inb k 1), k0_pay159 (View.readAt (Elt F) (Memref.whole cc0_scratch2 : Memref sig .scVector .vmem S128x128 .f32).view (Rect.unit (s := S128x128) (k0_off80 k 1#32) S1x16.size (k0_off80_inb k 1)).toLoadRect fa)⟩ :=
  good_of k.val 1 5 fa _ _ (k0_off80_eq k 1) (View.readAt (Elt F) (Memref.whole cc0_scratch2 : Memref sig .scVector .vmem S128x128 .f32).view (Rect.unit (s := S128x128) (k0_off80 k 1#32) S1x16.size (k0_off80_inb k 1)).toLoadRect fa) (fun _ => rfl) _ rfl

theorem good8_3 (k : Fin k0_t8_loop.trips) (fa : FVec F S128x128 .f32) :
    Good k.val 1 4 fa ⟨Rect.unit (s := S128x128) (k0_off79 k 1#32) S1x16.size (k0_off79_inb k 1), k0_pay158 (k0_pay157 (View.readAt (Elt F) (Memref.whole cc0_scratch2 : Memref sig .scVector .vmem S128x128 .f32).view (Rect.unit (s := S128x128) (k0_off79 k 1#32) S1x16.size (k0_off79_inb k 1)).toLoadRect fa))⟩ :=
  good_of k.val 1 4 fa _ _ (k0_off79_eq k 1) (View.readAt (Elt F) (Memref.whole cc0_scratch2 : Memref sig .scVector .vmem S128x128 .f32).view (Rect.unit (s := S128x128) (k0_off79 k 1#32) S1x16.size (k0_off79_inb k 1)).toLoadRect fa) (fun _ => rfl) _ rfl

theorem good8_4 (k : Fin k0_t8_loop.trips) (fa : FVec F S128x128 .f32) :
    Good k.val 1 3 fa ⟨Rect.unit (s := S128x128) (k0_off78 k 1#32) S1x16.size (k0_off78_inb k 1), k0_pay156 (View.readAt (Elt F) (Memref.whole cc0_scratch2 : Memref sig .scVector .vmem S128x128 .f32).view (Rect.unit (s := S128x128) (k0_off78 k 1#32) S1x16.size (k0_off78_inb k 1)).toLoadRect fa)⟩ :=
  good_of k.val 1 3 fa _ _ (k0_off78_eq k 1) (View.readAt (Elt F) (Memref.whole cc0_scratch2 : Memref sig .scVector .vmem S128x128 .f32).view (Rect.unit (s := S128x128) (k0_off78 k 1#32) S1x16.size (k0_off78_inb k 1)).toLoadRect fa) (fun _ => rfl) _ rfl

theorem good8_5 (k : Fin k0_t8_loop.trips) (fa : FVec F S128x128 .f32) :
    Good k.val 1 2 fa ⟨Rect.unit (s := S128x128) (k0_off77 k 1#32) S1x16.size (k0_off77_inb k 1), k0_pay155 (View.readAt (Elt F) (Memref.whole cc0_scratch2 : Memref sig .scVector .vmem S128x128 .f32).view (Rect.unit (s := S128x128) (k0_off77 k 1#32) S1x16.size (k0_off77_inb k 1)).toLoadRect fa)⟩ :=
  good_of k.val 1 2 fa _ _ (k0_off77_eq k 1) (View.readAt (Elt F) (Memref.whole cc0_scratch2 : Memref sig .scVector .vmem S128x128 .f32).view (Rect.unit (s := S128x128) (k0_off77 k 1#32) S1x16.size (k0_off77_inb k 1)).toLoadRect fa) (fun _ => rfl) _ rfl

theorem good8_6 (k : Fin k0_t8_loop.trips) (fa : FVec F S128x128 .f32) :
    Good k.val 1 1 fa ⟨Rect.unit (s := S128x128) (k0_off76 k 1#32) S1x16.size (k0_off76_inb k 1), k0_pay154 (k0_pay153 (View.readAt (Elt F) (Memref.whole cc0_scratch2 : Memref sig .scVector .vmem S128x128 .f32).view (Rect.unit (s := S128x128) (k0_off76 k 1#32) S1x16.size (k0_off76_inb k 1)).toLoadRect fa))⟩ :=
  good_of k.val 1 1 fa _ _ (k0_off76_eq k 1) (View.readAt (Elt F) (Memref.whole cc0_scratch2 : Memref sig .scVector .vmem S128x128 .f32).view (Rect.unit (s := S128x128) (k0_off76 k 1#32) S1x16.size (k0_off76_inb k 1)).toLoadRect fa) (fun _ => rfl) _ rfl

theorem good8_7 (k : Fin k0_t8_loop.trips) (fa : FVec F S128x128 .f32) :
    Good k.val 1 0 fa ⟨Rect.unit (s := S128x128) (k0_off75 k 1#32) S1x16.size (k0_off75_inb k 1), k0_pay152 (View.readAt (Elt F) (Memref.whole cc0_scratch2 : Memref sig .scVector .vmem S128x128 .f32).view (Rect.unit (s := S128x128) (k0_off75 k 1#32) S1x16.size (k0_off75_inb k 1)).toLoadRect fa)⟩ :=
  good_of k.val 1 0 fa _ _ (k0_off75_eq k 1) (View.readAt (Elt F) (Memref.whole cc0_scratch2 : Memref sig .scVector .vmem S128x128 .f32).view (Rect.unit (s := S128x128) (k0_off75 k 1#32) S1x16.size (k0_off75_inb k 1)).toLoadRect fa) (fun _ => rfl) _ rfl

theorem good8_8 (k : Fin k0_t8_loop.trips) (fa : FVec F S128x128 .f32) :
    Good k.val 0 7 fa ⟨Rect.unit (s := S128x128) (k0_off82 k 0#32) S1x16.size (k0_off82_inb k 0), k0_pay151 (k0_pay150 (View.readAt (Elt F) (Memref.whole cc0_scratch2 : Memref sig .scVector .vmem S128x128 .f32).view (Rect.unit (s := S128x128) (k0_off82 k 0#32) S1x16.size (k0_off82_inb k 0)).toLoadRect fa))⟩ :=
  good_of k.val 0 7 fa _ _ (k0_off82_eq k 0) (View.readAt (Elt F) (Memref.whole cc0_scratch2 : Memref sig .scVector .vmem S128x128 .f32).view (Rect.unit (s := S128x128) (k0_off82 k 0#32) S1x16.size (k0_off82_inb k 0)).toLoadRect fa) (fun _ => rfl) _ rfl

theorem good8_9 (k : Fin k0_t8_loop.trips) (fa : FVec F S128x128 .f32) :
    Good k.val 0 6 fa ⟨Rect.unit (s := S128x128) (k0_off81 k 0#32) S1x16.size (k0_off81_inb k 0), k0_pay149 (View.readAt (Elt F) (Memref.whole cc0_scratch2 : Memref sig .scVector .vmem S128x128 .f32).view (Rect.unit (s := S128x128) (k0_off81 k 0#32) S1x16.size (k0_off81_inb k 0)).toLoadRect fa)⟩ :=
  good_of k.val 0 6 fa _ _ (k0_off81_eq k 0) (View.readAt (Elt F) (Memref.whole cc0_scratch2 : Memref sig .scVector .vmem S128x128 .f32).view (Rect.unit (s := S128x128) (k0_off81 k 0#32) S1x16.size (k0_off81_inb k 0)).toLoadRect fa) (fun _ => rfl) _ rfl

theorem good8_10 (k : Fin k0_t8_loop.trips) (fa : FVec F S128x128 .f32) :
    Good k.val 0 5 fa ⟨Rect.unit (s := S128x128) (k0_off80 k 0#32) S1x16.size (k0_off80_inb k 0), k0_pay148 (View.readAt (Elt F) (Memref.whole cc0_scratch2 : Memref sig .scVector .vmem S128x128 .f32).view (Rect.unit (s := S128x128) (k0_off80 k 0#32) S1x16.size (k0_off80_inb k 0)).toLoadRect fa)⟩ :=
  good_of k.val 0 5 fa _ _ (k0_off80_eq k 0) (View.readAt (Elt F) (Memref.whole cc0_scratch2 : Memref sig .scVector .vmem S128x128 .f32).view (Rect.unit (s := S128x128) (k0_off80 k 0#32) S1x16.size (k0_off80_inb k 0)).toLoadRect fa) (fun _ => rfl) _ rfl

theorem good8_11 (k : Fin k0_t8_loop.trips) (fa : FVec F S128x128 .f32) :
    Good k.val 0 4 fa ⟨Rect.unit (s := S128x128) (k0_off79 k 0#32) S1x16.size (k0_off79_inb k 0), k0_pay147 (k0_pay146 (View.readAt (Elt F) (Memref.whole cc0_scratch2 : Memref sig .scVector .vmem S128x128 .f32).view (Rect.unit (s := S128x128) (k0_off79 k 0#32) S1x16.size (k0_off79_inb k 0)).toLoadRect fa))⟩ :=
  good_of k.val 0 4 fa _ _ (k0_off79_eq k 0) (View.readAt (Elt F) (Memref.whole cc0_scratch2 : Memref sig .scVector .vmem S128x128 .f32).view (Rect.unit (s := S128x128) (k0_off79 k 0#32) S1x16.size (k0_off79_inb k 0)).toLoadRect fa) (fun _ => rfl) _ rfl

theorem good8_12 (k : Fin k0_t8_loop.trips) (fa : FVec F S128x128 .f32) :
    Good k.val 0 3 fa ⟨Rect.unit (s := S128x128) (k0_off78 k 0#32) S1x16.size (k0_off78_inb k 0), k0_pay145 (View.readAt (Elt F) (Memref.whole cc0_scratch2 : Memref sig .scVector .vmem S128x128 .f32).view (Rect.unit (s := S128x128) (k0_off78 k 0#32) S1x16.size (k0_off78_inb k 0)).toLoadRect fa)⟩ :=
  good_of k.val 0 3 fa _ _ (k0_off78_eq k 0) (View.readAt (Elt F) (Memref.whole cc0_scratch2 : Memref sig .scVector .vmem S128x128 .f32).view (Rect.unit (s := S128x128) (k0_off78 k 0#32) S1x16.size (k0_off78_inb k 0)).toLoadRect fa) (fun _ => rfl) _ rfl

theorem good8_13 (k : Fin k0_t8_loop.trips) (fa : FVec F S128x128 .f32) :
    Good k.val 0 2 fa ⟨Rect.unit (s := S128x128) (k0_off77 k 0#32) S1x16.size (k0_off77_inb k 0), k0_pay144 (k0_pay143 (View.readAt (Elt F) (Memref.whole cc0_scratch2 : Memref sig .scVector .vmem S128x128 .f32).view (Rect.unit (s := S128x128) (k0_off77 k 0#32) S1x16.size (k0_off77_inb k 0)).toLoadRect fa))⟩ :=
  good_of k.val 0 2 fa _ _ (k0_off77_eq k 0) (View.readAt (Elt F) (Memref.whole cc0_scratch2 : Memref sig .scVector .vmem S128x128 .f32).view (Rect.unit (s := S128x128) (k0_off77 k 0#32) S1x16.size (k0_off77_inb k 0)).toLoadRect fa) (fun _ => rfl) _ rfl

theorem good8_14 (k : Fin k0_t8_loop.trips) (fa : FVec F S128x128 .f32) :
    Good k.val 0 1 fa ⟨Rect.unit (s := S128x128) (k0_off76 k 0#32) S1x16.size (k0_off76_inb k 0), k0_pay142 (View.readAt (Elt F) (Memref.whole cc0_scratch2 : Memref sig .scVector .vmem S128x128 .f32).view (Rect.unit (s := S128x128) (k0_off76 k 0#32) S1x16.size (k0_off76_inb k 0)).toLoadRect fa)⟩ :=
  good_of k.val 0 1 fa _ _ (k0_off76_eq k 0) (View.readAt (Elt F) (Memref.whole cc0_scratch2 : Memref sig .scVector .vmem S128x128 .f32).view (Rect.unit (s := S128x128) (k0_off76 k 0#32) S1x16.size (k0_off76_inb k 0)).toLoadRect fa) (fun _ => rfl) _ rfl

theorem good8_15 (k : Fin k0_t8_loop.trips) (fa : FVec F S128x128 .f32) :
    Good k.val 0 0 fa ⟨Rect.unit (s := S128x128) (k0_off75 k 0#32) S1x16.size (k0_off75_inb k 0), k0_pay141 (View.readAt (Elt F) (Memref.whole cc0_scratch2 : Memref sig .scVector .vmem S128x128 .f32).view (Rect.unit (s := S128x128) (k0_off75 k 0#32) S1x16.size (k0_off75_inb k 0)).toLoadRect fa)⟩ :=
  good_of k.val 0 0 fa _ _ (k0_off75_eq k 0) (View.readAt (Elt F) (Memref.whole cc0_scratch2 : Memref sig .scVector .vmem S128x128 .f32).view (Rect.unit (s := S128x128) (k0_off75 k 0#32) S1x16.size (k0_off75_inb k 0)).toLoadRect fa) (fun _ => rfl) _ rfl

/-- One trip of loop 8 extends the rows at the logistic function of the input by two. -/
theorem trip_value8 (k : Fin k0_t8_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch5 : Memref sig .scVector .vmem S128x128 .f32).view.writes (Elt F) f (pieces8 k fa)) y = Cert.Fuse.logistic (fa y) := by
  refine rows_step (Memref.whole cc0_scratch5 : Memref sig .scVector .vmem S128x128 .f32).view k.val fa f (pieces8 k fa) (List.forall_mem_cons.mpr ⟨⟨_, _, good8_0 k fa⟩, (List.forall_mem_cons.mpr ⟨⟨_, _, good8_1 k fa⟩, (List.forall_mem_cons.mpr ⟨⟨_, _, good8_2 k fa⟩, (List.forall_mem_cons.mpr ⟨⟨_, _, good8_3 k fa⟩, (List.forall_mem_cons.mpr ⟨⟨_, _, good8_4 k fa⟩, (List.forall_mem_cons.mpr ⟨⟨_, _, good8_5 k fa⟩, (List.forall_mem_cons.mpr ⟨⟨_, _, good8_6 k fa⟩, (List.forall_mem_cons.mpr ⟨⟨_, _, good8_7 k fa⟩, (List.forall_mem_cons.mpr ⟨⟨_, _, good8_8 k fa⟩, (List.forall_mem_cons.mpr ⟨⟨_, _, good8_9 k fa⟩, (List.forall_mem_cons.mpr ⟨⟨_, _, good8_10 k fa⟩, (List.forall_mem_cons.mpr ⟨⟨_, _, good8_11 k fa⟩, (List.forall_mem_cons.mpr ⟨⟨_, _, good8_12 k fa⟩, (List.forall_mem_cons.mpr ⟨⟨_, _, good8_13 k fa⟩, (List.forall_mem_cons.mpr ⟨⟨_, _, good8_14 k fa⟩, (List.forall_mem_cons.mpr ⟨⟨_, _, good8_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good8_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good8_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good8_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good8_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good8_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good8_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good8_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good8_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good8_7 k fa⟩
  · exact ⟨_, List.mem_cons_of_mem _ (List.mem_cons_of_mem _ (List.mem_cons_of_mem _ (List.mem_cons_of_mem _ (List.mem_cons_of_mem _ (List.mem_cons_of_mem _ (List.mem_cons_self)))))), good8_6 k fa⟩
  · exact ⟨_, List.mem_cons_of_mem _ (List.mem_cons_of_mem _ (List.mem_cons_of_mem _ (List.mem_cons_of_mem _ (List.mem_cons_of_mem _ (List.mem_cons_self))))), good8_5 k fa⟩
  · exact ⟨_, List.mem_cons_of_mem _ (List.mem_cons_of_mem _ (List.mem_cons_of_mem _ (List.mem_cons_of_mem _ (List.mem_cons_self)))), good8_4 k fa⟩
  · exact ⟨_, List.mem_cons_of_mem _ (List.mem_cons_of_mem _ (List.mem_cons_of_mem _ (List.mem_cons_self))), good8_3 k fa⟩
  · exact ⟨_, List.mem_cons_of_mem _ (List.mem_cons_of_mem _ (List.mem_cons_self)), good8_2 k fa⟩
  · exact ⟨_, List.mem_cons_of_mem _ (List.mem_cons_self), good8_1 k fa⟩
  · exact ⟨_, List.mem_cons_self, good8_0 k fa⟩

end Cert.Proof.KI

end
-- ==== Proof.KIWords.lean ====
/-
  The sixteen words the body extracts are the sixteen lanes.

  The fetch copies sixteen words of the flattened selection, from the subcore's offset on, over the whole selection scratch;
  the body then loads the scratch whole, and takes word `l` out of it as a one-element slice at `l` read at 0. A copy over a whole
  buffer leaves the payload, whatever the buffer held; a load of the whole buffer reads it; so word `l` is the flattened
  selection at the offset plus `l`.
-/
import proofs.«207346_g72533407695360_cont_9to1_m_270_11_alg».proof.Proof.KIPick
import proofs.«207346_g72533407695360_cont_9to1_m_270_11_alg».proof.Proof.KITile

noncomputable section

namespace Cert.Proof.KI

open Cert.KernelIdeal Cert.KernelIdeal.Gen Idealize.ShloMosaic Idealize.ShloMosaic.ValueIdx

variable {F : FTy → Type}

/-- What the body loads from the selection scratch after the fetch landed: the sixteen fetched words, whatever the scratch held before. -/
def fetched (sel : IVec S16x4x2 32) (L : grid0.Coords) (fsel : (Memref.whole cc0_scratch0 : Memref sig .scVector .vmem S16 .i32).view.ty.Contents (Elt F)) : IVec S16 32 :=
  shapeCast S16 (View.readAt (Elt F) (Memref.whole cc0_scratch0 : Memref sig .scVector .vmem S16 .i32).view (Rect.unit (s := S16) ![0] S16.size inb_S16_S16_0).toLoadRect
    (View.write (Elt F) (Memref.whole cc0_scratch0 : Memref sig .scVector .vmem S16 .i32).view fsel
      (ReadAs.same.apply (View.read (Elt F) ((Memref.whole main_v0_scv : Memref sig .scVector .hbm S128 .i32).slice (Rect.unit (s := S128) (k0_off1 L) S16.size (k0_off1_inb L)) (fun _ => rfl)).view (flatOf sel))) Finset.univ)) shapeCasts_S16_S16

/-- The fetched words are the sixteen of the flattened selection from the subcore's offset on. -/
theorem fetched_apply (sel : IVec S16x4x2 32) (L : grid0.Coords) (fsel : (Memref.whole cc0_scratch0 : Memref sig .scVector .vmem S16 .i32).view.ty.Contents (Elt F)) (l : Fin 16) :
    fetched (F := F) sel L fsel (ix1 l) = lane sel L l := by
  unfold fetched lane
  refine (congrFun (shapeCast_self (s := S16) _ shapeCasts_S16_S16) (ix1 l)).trans ?_
  rw [View.readAt_apply]
  simp only [Memref.view_whole, View.read_whole, View.write_whole_univ]
  dsimp only [ReadAs.apply]
  rw [View.read_apply, cast_eq]
  refine congrArg (flatOf sel) (funext fun a => Fin.ext ?_)
  revert a
  show ∀ a : Fin 1, _
  intro a
  fin_cases a
  show k0_off1 L 0 + 1 * (0 + 1 * l.val) = 16 * ((L 1).val / 2) + l.val
  rw [off1_eq]
  simp

/-- Word `l` of the sixteen, as the body extracts it, is lane `l`. -/
theorem word_core (sel : IVec S16x4x2 32) (L : grid0.Coords) (fsel : (Memref.whole cc0_scratch0 : Memref sig .scVector .vmem S16 .i32).view.ty.Contents (Elt F)) (l : Fin 16) (hs : S16.Slices ![l.val] S1) :
    extractAt ![0] (extractStridedSlice S1 ![l.val] (fetched (F := F) sel L fsel) hs) inpos_S1_p0 = lane sel L l := by
  rw [← fetched_apply (F := F) sel L fsel l]
  unfold extractAt extractStridedSlice
  refine congrArg (fetched (F := F) sel L fsel) (funext fun a => Fin.ext ?_)
  revert a
  show ∀ a : Fin 1, _
  intro a
  fin_cases a
  show l.val + 0 = l.val
  omega

/-! ## The sixteen words -/

theorem word_0 (sel : IVec S16x4x2 32) (L : grid0.Coords) (fsel : (Memref.whole cc0_scratch0 : Memref sig .scVector .vmem S16 .i32).view.ty.Contents (Elt F)) :
    extractAt ![0] (extractStridedSlice S1 ![0] (fetched (F := F) sel L fsel) slices_S16_o0_S1) inpos_S1_p0 = lane sel L 0 :=
  word_core sel L fsel 0 slices_S16_o0_S1

theorem word_1 (sel : IVec S16x4x2 32) (L : grid0.Coords) (fsel : (Memref.whole cc0_scratch0 : Memref sig .scVector .vmem S16 .i32).view.ty.Contents (Elt F)) :
    extractAt ![0] (extractStridedSlice S1 ![1] (fetched (F := F) sel L fsel) slices_S16_o1_S1) inpos_S1_p0 = lane sel L 1 :=
  word_core sel L fsel 1 slices_S16_o1_S1

theorem word_2 (sel : IVec S16x4x2 32) (L : grid0.Coords) (fsel : (Memref.whole cc0_scratch0 : Memref sig .scVector .vmem S16 .i32).view.ty.Contents (Elt F)) :
    extractAt ![0] (extractStridedSlice S1 ![2] (fetched (F := F) sel L fsel) slices_S16_o2_S1) inpos_S1_p0 = lane sel L 2 :=
  word_core sel L fsel 2 slices_S16_o2_S1

theorem word_3 (sel : IVec S16x4x2 32) (L : grid0.Coords) (fsel : (Memref.whole cc0_scratch0 : Memref sig .scVector .vmem S16 .i32).view.ty.Contents (Elt F)) :
    extractAt ![0] (extractStridedSlice S1 ![3] (fetched (F := F) sel L fsel) slices_S16_o3_S1) inpos_S1_p0 = lane sel L 3 :=
  word_core sel L fsel 3 slices_S16_o3_S1

theorem word_4 (sel : IVec S16x4x2 32) (L : grid0.Coords) (fsel : (Memref.whole cc0_scratch0 : Memref sig .scVector .vmem S16 .i32).view.ty.Contents (Elt F)) :
    extractAt ![0] (extractStridedSlice S1 ![4] (fetched (F := F) sel L fsel) slices_S16_o4_S1) inpos_S1_p0 = lane sel L 4 :=
  word_core sel L fsel 4 slices_S16_o4_S1

theorem word_5 (sel : IVec S16x4x2 32) (L : grid0.Coords) (fsel : (Memref.whole cc0_scratch0 : Memref sig .scVector .vmem S16 .i32).view.ty.Contents (Elt F)) :
    extractAt ![0] (extractStridedSlice S1 ![5] (fetched (F := F) sel L fsel) slices_S16_o5_S1) inpos_S1_p0 = lane sel L 5 :=
  word_core sel L fsel 5 slices_S16_o5_S1

theorem word_6 (sel : IVec S16x4x2 32) (L : grid0.Coords) (fsel : (Memref.whole cc0_scratch0 : Memref sig .scVector .vmem S16 .i32).view.ty.Contents (Elt F)) :
    extractAt ![0] (extractStridedSlice S1 ![6] (fetched (F := F) sel L fsel) slices_S16_o6_S1) inpos_S1_p0 = lane sel L 6 :=
  word_core sel L fsel 6 slices_S16_o6_S1

theorem word_7 (sel : IVec S16x4x2 32) (L : grid0.Coords) (fsel : (Memref.whole cc0_scratch0 : Memref sig .scVector .vmem S16 .i32).view.ty.Contents (Elt F)) :
    extractAt ![0] (extractStridedSlice S1 ![7] (fetched (F := F) sel L fsel) slices_S16_o7_S1) inpos_S1_p0 = lane sel L 7 :=
  word_core sel L fsel 7 slices_S16_o7_S1

theorem word_8 (sel : IVec S16x4x2 32) (L : grid0.Coords) (fsel : (Memref.whole cc0_scratch0 : Memref sig .scVector .vmem S16 .i32).view.ty.Contents (Elt F)) :
    extractAt ![0] (extractStridedSlice S1 ![8] (fetched (F := F) sel L fsel) slices_S16_o8_S1) inpos_S1_p0 = lane sel L 8 :=
  word_core sel L fsel 8 slices_S16_o8_S1

theorem word_9 (sel : IVec S16x4x2 32) (L : grid0.Coords) (fsel : (Memref.whole cc0_scratch0 : Memref sig .scVector .vmem S16 .i32).view.ty.Contents (Elt F)) :
    extractAt ![0] (extractStridedSlice S1 ![9] (fetched (F := F) sel L fsel) slices_S16_o9_S1) inpos_S1_p0 = lane sel L 9 :=
  word_core sel L fsel 9 slices_S16_o9_S1

theorem word_10 (sel : IVec S16x4x2 32) (L : grid0.Coords) (fsel : (Memref.whole cc0_scratch0 : Memref sig .scVector .vmem S16 .i32).view.ty.Contents (Elt F)) :
    extractAt ![0] (extractStridedSlice S1 ![10] (fetched (F := F) sel L fsel) slices_S16_o10_S1) inpos_S1_p0 = lane sel L 10 :=
  word_core sel L fsel 10 slices_S16_o10_S1

theorem word_11 (sel : IVec S16x4x2 32) (L : grid0.Coords) (fsel : (Memref.whole cc0_scratch0 : Memref sig .scVector .vmem S16 .i32).view.ty.Contents (Elt F)) :
    extractAt ![0] (extractStridedSlice S1 ![11] (fetched (F := F) sel L fsel) slices_S16_o11_S1) inpos_S1_p0 = lane sel L 11 :=
  word_core sel L fsel 11 slices_S16_o11_S1

theorem word_12 (sel : IVec S16x4x2 32) (L : grid0.Coords) (fsel : (Memref.whole cc0_scratch0 : Memref sig .scVector .vmem S16 .i32).view.ty.Contents (Elt F)) :
    extractAt ![0] (extractStridedSlice S1 ![12] (fetched (F := F) sel L fsel) slices_S16_o12_S1) inpos_S1_p0 = lane sel L 12 :=
  word_core sel L fsel 12 slices_S16_o12_S1

theorem word_13 (sel : IVec S16x4x2 32) (L : grid0.Coords) (fsel : (Memref.whole cc0_scratch0 : Memref sig .scVector .vmem S16 .i32).view.ty.Contents (Elt F)) :
    extractAt ![0] (extractStridedSlice S1 ![13] (fetched (F := F) sel L fsel) slices_S16_o13_S1) inpos_S1_p0 = lane sel L 13 :=
  word_core sel L fsel 13 slices_S16_o13_S1

theorem word_14 (sel : IVec S16x4x2 32) (L : grid0.Coords) (fsel : (Memref.whole cc0_scratch0 : Memref sig .scVector .vmem S16 .i32).view.ty.Contents (Elt F)) :
    extractAt ![0] (extractStridedSlice S1 ![14] (fetched (F := F) sel L fsel) slices_S16_o14_S1) inpos_S1_p0 = lane sel L 14 :=
  word_core sel L fsel 14 slices_S16_o14_S1

theorem word_15 (sel : IVec S16x4x2 32) (L : grid0.Coords) (fsel : (Memref.whole cc0_scratch0 : Memref sig .scVector .vmem S16 .i32).view.ty.Contents (Elt F)) :
    extractAt ![0] (extractStridedSlice S1 ![15] (fetched (F := F) sel L fsel) slices_S16_o15_S1) inpos_S1_p0 = lane sel L 15 :=
  word_core sel L fsel 15 slices_S16_o15_S1

end Cert.Proof.KI

end
-- ==== Proof.KIValue.lean ====
/-
  What a tile's copy-out carries is the specification's result on the tile.

  Tile `t` of the subcore at a place is tile `(ti, tj)` of image `b`. Its input slot was filled whole by one copy: from the
  sampling map's block at `(b, 0, 128 ti, 128 tj)` when the body's window number is negative, from refined map `k`'s block at
  `(b, k, 0, 128 ti, 128 tj)` when it is `k`; and by the choice lemmas the number is negative exactly when the tile has no
  source window, and is the source window otherwise. The output slot holds the logistic function of the input slot, and
  the copy-out carries the output slot whole to the result's tile, whose element `(y0, y1)` is the result's
  `(b, 0, 128 ti + y0, 128 tj + y1)`. There the specification takes the logistic function of the same source, because
  `(128 ti + y0) / 128 = ti` and `(128 tj + y1) / 128 = tj`.
-/
import proofs.«207346_g72533407695360_cont_9to1_m_270_11_alg».proof.Proof.KIPick
import proofs.«207346_g72533407695360_cont_9to1_m_270_11_alg».proof.Proof.KIPart
import proofs.«207346_g72533407695360_cont_9to1_m_270_11_alg».proof.Proof.KITile
import proofs.«207346_g72533407695360_cont_9to1_m_270_11_alg».proof.Proof.Spec

noncomputable section

namespace Cert.Proof.KI

open Cert.KernelIdeal Cert.KernelIdeal.Gen Idealize.ShloMosaic Idealize.ShloMosaic.ValueIdx

variable {F : FTy → Type} [FloatOps F]

/-! ## A 128 × 128 block of an array, element by element -/

/-- A squeezed `1 × 1 × 128 × 128` block's element `(y0, y1)` is the block's `(0, 0, y0, y1)`. -/
theorem squeeze4_idx (h : S128x128.numel = S1x1x128x128.numel) (y : S128x128.Idx) :
    Shape.reshapeEquiv h y = (ix4 (0 : Fin 1) (0 : Fin 1) (y 0 : Fin 128) (y 1 : Fin 128) : S1x1x128x128.Idx) :=
  Shape.reshapeEquiv_eq_of_rowMajor h (by
    rw [Shape.rowMajor_val_four, Shape.rowMajor_val_two]
    show (((0 * 1 + 0) * 128 + (y 0).val) * 128 + (y 1).val) = (y 0).val * 128 + (y 1).val
    omega)

/-- A squeezed `1 × 1 × 1 × 128 × 128` block's element `(y0, y1)` is the block's `(0, 0, 0, y0, y1)`. -/
theorem squeeze5_idx (h : S128x128.numel = S1x1x1x128x128.numel) (y : S128x128.Idx) :
    Shape.reshapeEquiv h y = (ix5 (0 : Fin 1) (0 : Fin 1) (0 : Fin 1) (y 0 : Fin 128) (y 1 : Fin 128) : S1x1x1x128x128.Idx) :=
  Shape.reshapeEquiv_eq_of_rowMajor h (by
    rw [Shape.rowMajor_val_five, Shape.rowMajor_val_two]
    show ((((0 * 1 + 0) * 1 + 0) * 128 + (y 0).val) * 128 + (y 1).val) = (y 0).val * 128 + (y 1).val
    omega)

theorem y0_lt (y : S128x128.Idx) : (y 0).val < 128 := (y 0).isLt
theorem y1_lt (y : S128x128.Idx) : (y 1).val < 128 := (y 1).isLt

/-- Element `(y0, y1)` of tile `(ti, tj)` of image `b`, as an index of a map. -/
def mapIdx (b : Fin 16) (ti tj : ℕ) (hti : ti < 4) (htj : tj < 4) (y : S128x128.Idx) : S16x1x512x512.Idx :=
  ix4 b (0 : Fin 1) (⟨128 * ti + (y 0).val, by have := y0_lt y; omega⟩ : Fin 512) (⟨128 * tj + (y 1).val, by have := y1_lt y; omega⟩ : Fin 512)

/-- The same element of refined map `k`. -/
def winIdx (b : Fin 16) (k : Fin 4) (ti tj : ℕ) (hti : ti < 4) (htj : tj < 4) (y : S128x128.Idx) : S16x4x1x512x512.Idx :=
  ix5 b k (0 : Fin 1) (⟨128 * ti + (y 0).val, by have := y0_lt y; omega⟩ : Fin 512) (⟨128 * tj + (y 1).val, by have := y1_lt y; omega⟩ : Fin 512)

omit [FloatOps F] in
/-- The result's tile at offsets `(b, 0, 128 ti, 128 tj)` names, at `(y0, y1)`, that element. -/
theorem out_emb (off : Fin 4 → ℕ) (inb : ∀ a, off a + S1x1x128x128.size a ≤ S16x1x512x512.size a) (b : Fin 16) (ti tj : ℕ) (hti : ti < 4) (htj : tj < 4)
    (hoff : off = ![b.val, 0, 128 * ti, 128 * tj]) (y : S128x128.Idx) :
    (((Memref.whole main_v1_scv : Memref sig .scVector .hbm S16x1x512x512 .f32).slice (Rect.unit (s := S16x1x512x512) off S1x1x128x128.size inb) (fun _ => rfl)).squeeze S128x128
        squeezes_S1x1x128x128_S128x128).view.emb y = mapIdx b ti tj hti htj y := by
  subst hoff
  show (Rect.unit (s := S16x1x512x512) ![b.val, 0, 128 * ti, 128 * tj] S1x1x128x128.size inb).emb (Shape.reshapeEquiv squeezes_S1x1x128x128_S128x128.numel_eq y) = _
  rw [squeeze4_idx]
  funext a
  refine Fin.ext ?_
  rw [Rect.emb_apply]
  revert a
  show ∀ a : Fin 4, _
  intro a
  fin_cases a <;> simp [mapIdx]

/-- A sampling-map block at offsets `(b, 0, 128 ti, 128 tj)` reads, at `(y0, y1)`, that element of the map. -/
theorem smp_block_read (smp : FVec F S16x1x512x512 .f32) (off : Fin 4 → ℕ) (inb : ∀ a, off a + S1x1x128x128.size a ≤ S16x1x512x512.size a)
    (b : Fin 16) (ti tj : ℕ) (hti : ti < 4) (htj : tj < 4) (hoff : off = ![b.val, 0, 128 * ti, 128 * tj]) (y : S128x128.Idx) :
    View.read (Elt F) (((Memref.whole main_arg0_scv : Memref sig .scVector .hbm S16x1x512x512 .f32).slice (Rect.unit (s := S16x1x512x512) off S1x1x128x128.size inb) (fun _ => rfl)).squeeze S128x128
        squeezes_S1x1x128x128_S128x128).view smp y = smp (mapIdx b ti tj hti htj y) := by
  subst hoff
  rw [View.read_apply, cast_eq]
  refine congrArg smp ?_
  show (Rect.unit (s := S16x1x512x512) ![b.val, 0, 128 * ti, 128 * tj] S1x1x128x128.size inb).emb (Shape.reshapeEquiv squeezes_S1x1x128x128_S128x128.numel_eq y) = _
  rw [squeeze4_idx]
  funext a
  refine Fin.ext ?_
  rw [Rect.emb_apply]
  revert a
  show ∀ a : Fin 4, _
  intro a
  fin_cases a <;> simp [mapIdx]

/-- A refined-map block at offsets `(b, k, 0, 128 ti, 128 tj)` reads, at `(y0, y1)`, that element of refined map `k`. -/
theorem win_block_read (win : FVec F S16x4x1x512x512 .f32) (off : Fin 5 → ℕ) (inb : ∀ a, off a + S1x1x1x128x128.size a ≤ S16x4x1x512x512.size a)
    (b : Fin 16) (k : Fin 4) (ti tj : ℕ) (hti : ti < 4) (htj : tj < 4) (hoff : off = ![b.val, k.val, 0, 128 * ti, 128 * tj]) (y : S128x128.Idx) :
    View.read (Elt F) (((Memref.whole main_arg1_scv : Memref sig .scVector .hbm S16x4x1x512x512 .f32).slice (Rect.unit (s := S16x4x1x512x512) off S1x1x1x128x128.size inb) (fun _ => rfl)).squeeze S128x128
        squeezes_S1x1x1x128x128_S128x128).view win y = win (winIdx b k ti tj hti htj y) := by
  subst hoff
  rw [View.read_apply, cast_eq]
  refine congrArg win ?_
  show (Rect.unit (s := S16x4x1x512x512) ![b.val, k.val, 0, 128 * ti, 128 * tj] S1x1x1x128x128.size inb).emb (Shape.reshapeEquiv squeezes_S1x1x1x128x128_S128x128.numel_eq y) = _
  rw [squeeze5_idx]
  funext a
  refine Fin.ext ?_
  rw [Rect.emb_apply]
  revert a
  show ∀ a : Fin 5, _
  intro a
  fin_cases a <;> simp [winIdx]

/-! ## The value of a tile's element -/

/-- If the element's input is the sampling map's when the tile has no source window and refined map `k`'s when its source
    is window `k`, the logistic function of the input is the specification's result there. -/
theorem value_core (smp : FVec F S16x1x512x512 .f32) (win : FVec F S16x4x1x512x512 .f32) (sel : IVec S16x4x2 32)
    (b : Fin 16) (ti tj : ℕ) (hti : ti < 4) (htj : tj < 4) (y : S128x128.Idx) (x : F .f32)
    (hnone : Cert.Fuse.tileSource sel b ti tj = none → x = smp (mapIdx b ti tj hti htj y))
    (hsome : ∀ k, Cert.Fuse.tileSource sel b ti tj = some k → x = win (winIdx b k ti tj hti htj y)) :
    Cert.Fuse.logistic x = Cert.Fuse.fused smp win sel (mapIdx b ti tj hti htj y) := by
  have h0 := y0_lt y; have h1 := y1_lt y
  have e2 : (128 * ti + (y 0).val) / 128 = ti := by omega
  have e3 : (128 * tj + (y 1).val) / 128 = tj := by omega
  unfold Cert.Fuse.fused Cert.Fuse.pick Cert.Fuse.pickAt
  show _ = Cert.Fuse.logistic (match Cert.Fuse.tileSource sel b ((128 * ti + (y 0).val) / 128) ((128 * tj + (y 1).val) / 128) with
    | some k => win (winIdx b k ti tj hti htj y)
    | none => smp (mapIdx b ti tj hti htj y))
  rw [e2, e3]
  cases hts : Cert.Fuse.tileSource sel b ti tj with
  | none => rw [hnone hts]
  | some k => rw [hsome k hts]

/-! ## The eight tiles -/

/-- Tile 0: what the copy-out carries, element by element, is the specification's result on the tile. -/
theorem tile_value0 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond1 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch1 : Memref sig .scVector .vmem S128x128 .f32).view fi
          (ReadAs.same.apply (View.read (Elt F) (((Memref.whole main_arg0_scv : Memref sig .scVector .hbm S16x1x512x512 .f32).slice (Rect.unit (s := S16x1x512x512) (k0_off3 L) S1x1x128x128.size (k0_off3_inb L)) (fun _ => rfl)).squeeze S128x128 squeezes_S1x1x128x128_S128x128).view smp)) Finset.univ
        else View.write (Elt F) (Memref.whole cc0_scratch1 : Memref sig .scVector .vmem S128x128 .f32).view fi
          (ReadAs.same.apply (View.read (Elt F) (((Memref.whole main_arg1_scv : Memref sig .scVector .hbm S16x4x1x512x512 .f32).slice (Rect.unit (s := S16x4x1x512x512) (k0_off2 L v62 v64 v69 v71 v76 v78 v83 v85 v90 v92 v97 v99 v104 v106 v111 v113) S1x1x1x128x128.size
            (off2_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch4 : Memref sig .scVector .vmem S128x128 .f32).view fo)) y
      = Cert.Fuse.fused smp win sel ((outTile L (0 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 0 < 4 := by show (8 * (L 0).val + 0) / 4 < 4; omega
  have htj : tjCol L 0 < 4 := by show (8 * (L 0).val + 0) % 4 < 4; omega
  obtain ⟨p1, p2⟩ := pick_0 sel hsel L
  show fo y = _
  rw [hv y, out_emb _ _ (jL L) (tiRow L 0) (tjCol L 0) hti htj (k0_off16_eq L 0) y]
  refine value_core smp win sel (jL L) _ _ hti htj y (fin y) ?_ ?_
  · intro hts
    by_cases hc : N = 1#1
    · rw [hfin, dif_pos hc]
      refine (congrFun (View.write_whole_univ (Val := Elt F) cc0_scratch1 fi _) y).trans ?_
      exact smp_block_read smp _ _ (jL L) _ _ hti htj (smp_off_0 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch1 fi _) y).trans ?_
      exact win_block_read win _ _ (jL L) k _ _ hti htj hoff y

/-- Tile 1: what the copy-out carries, element by element, is the specification's result on the tile. -/
theorem tile_value1 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond3 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch2 : Memref sig .scVector .vmem S128x128 .f32).view fi
          (ReadAs.same.apply (View.read (Elt F) (((Memref.whole main_arg0_scv : Memref sig .scVector .hbm S16x1x512x512 .f32).slice (Rect.unit (s := S16x1x512x512) (k0_off5 L) S1x1x128x128.size (k0_off5_inb L)) (fun _ => rfl)).squeeze S128x128 squeezes_S1x1x128x128_S128x128).view smp)) Finset.univ
        else View.write (Elt F) (Memref.whole cc0_scratch2 : Memref sig .scVector .vmem S128x128 .f32).view fi
          (ReadAs.same.apply (View.read (Elt F) (((Memref.whole main_arg1_scv : Memref sig .scVector .hbm S16x4x1x512x512 .f32).slice (Rect.unit (s := S16x4x1x512x512) (k0_off4 L v62 v64 v69 v71 v76 v78 v83 v85 v90 v92 v97 v99 v104 v106 v111 v113) S1x1x1x128x128.size
            (off4_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch5 : Memref sig .scVector .vmem S128x128 .f32).view fo)) y
      = Cert.Fuse.fused smp win sel ((outTile L (1 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 1 < 4 := by show (8 * (L 0).val + 1) / 4 < 4; omega
  have htj : tjCol L 1 < 4 := by show (8 * (L 0).val + 1) % 4 < 4; omega
  obtain ⟨p1, p2⟩ := pick_1 sel hsel L
  show fo y = _
  rw [hv y, out_emb _ _ (jL L) (tiRow L 1) (tjCol L 1) hti htj (k0_off16_eq L 1) y]
  refine value_core smp win sel (jL L) _ _ hti htj y (fin y) ?_ ?_
  · intro hts
    by_cases hc : N = 1#1
    · rw [hfin, dif_pos hc]
      refine (congrFun (View.write_whole_univ (Val := Elt F) cc0_scratch2 fi _) y).trans ?_
      exact smp_block_read smp _ _ (jL L) _ _ hti htj (smp_off_1 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch2 fi _) y).trans ?_
      exact win_block_read win _ _ (jL L) k _ _ hti htj hoff y

/-- Tile 2: what the copy-out carries, element by element, is the specification's result on the tile. -/
theorem tile_value2 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond5 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch3 : Memref sig .scVector .vmem S128x128 .f32).view fi
          (ReadAs.same.apply (View.read (Elt F) (((Memref.whole main_arg0_scv : Memref sig .scVector .hbm S16x1x512x512 .f32).slice (Rect.unit (s := S16x1x512x512) (k0_off7 L) S1x1x128x128.size (k0_off7_inb L)) (fun _ => rfl)).squeeze S128x128 squeezes_S1x1x128x128_S128x128).view smp)) Finset.univ
        else View.write (Elt F) (Memref.whole cc0_scratch3 : Memref sig .scVector .vmem S128x128 .f32).view fi
          (ReadAs.same.apply (View.read (Elt F) (((Memref.whole main_arg1_scv : Memref sig .scVector .hbm S16x4x1x512x512 .f32).slice (Rect.unit (s := S16x4x1x512x512) (k0_off6 L v62 v64 v69 v71 v76 v78 v83 v85 v90 v92 v97 v99 v104 v106 v111 v113) S1x1x1x128x128.size
            (off6_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch6 : Memref sig .scVector .vmem S128x128 .f32).view fo)) y
      = Cert.Fuse.fused smp win sel ((outTile L (2 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 2 < 4 := by show (8 * (L 0).val + 2) / 4 < 4; omega
  have htj : tjCol L 2 < 4 := by show (8 * (L 0).val + 2) % 4 < 4; omega
  obtain ⟨p1, p2⟩ := pick_2 sel hsel L
  show fo y = _
  rw [hv y, out_emb _ _ (jL L) (tiRow L 2) (tjCol L 2) hti htj (k0_off16_eq L 2) y]
  refine value_core smp win sel (jL L) _ _ hti htj y (fin y) ?_ ?_
  · intro hts
    by_cases hc : N = 1#1
    · rw [hfin, dif_pos hc]
      refine (congrFun (View.write_whole_univ (Val := Elt F) cc0_scratch3 fi _) y).trans ?_
      exact smp_block_read smp _ _ (jL L) _ _ hti htj (smp_off_2 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch3 fi _) y).trans ?_
      exact win_block_read win _ _ (jL L) k _ _ hti htj hoff y

/-- Tile 3: what the copy-out carries, element by element, is the specification's result on the tile. -/
theorem tile_value3 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond7 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch1 : Memref sig .scVector .vmem S128x128 .f32).view fi
          (ReadAs.same.apply (View.read (Elt F) (((Memref.whole main_arg0_scv : Memref sig .scVector .hbm S16x1x512x512 .f32).slice (Rect.unit (s := S16x1x512x512) (k0_off18 L) S1x1x128x128.size (k0_off18_inb L)) (fun _ => rfl)).squeeze S128x128 squeezes_S1x1x128x128_S128x128).view smp)) Finset.univ
        else View.write (Elt F) (Memref.whole cc0_scratch1 : Memref sig .scVector .vmem S128x128 .f32).view fi
          (ReadAs.same.apply (View.read (Elt F) (((Memref.whole main_arg1_scv : Memref sig .scVector .hbm S16x4x1x512x512 .f32).slice (Rect.unit (s := S16x4x1x512x512) (k0_off17 L v62 v64 v69 v71 v76 v78 v83 v85 v90 v92 v97 v99 v104 v106 v111 v113) S1x1x1x128x128.size
            (off17_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch4 : Memref sig .scVector .vmem S128x128 .f32).view fo)) y
      = Cert.Fuse.fused smp win sel ((outTile L (3 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 3 < 4 := by show (8 * (L 0).val + 3) / 4 < 4; omega
  have htj : tjCol L 3 < 4 := by show (8 * (L 0).val + 3) % 4 < 4; omega
  obtain ⟨p1, p2⟩ := pick_3 sel hsel L
  show fo y = _
  rw [hv y, out_emb _ _ (jL L) (tiRow L 3) (tjCol L 3) hti htj (k0_off16_eq L 3) y]
  refine value_core smp win sel (jL L) _ _ hti htj y (fin y) ?_ ?_
  · intro hts
    by_cases hc : N = 1#1
    · rw [hfin, dif_pos hc]
      refine (congrFun (View.write_whole_univ (Val := Elt F) cc0_scratch1 fi _) y).trans ?_
      exact smp_block_read smp _ _ (jL L) _ _ hti htj (smp_off_3 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch1 fi _) y).trans ?_
      exact win_block_read win _ _ (jL L) k _ _ hti htj hoff y

/-- Tile 4: what the copy-out carries, element by element, is the specification's result on the tile. -/
theorem tile_value4 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond9 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch2 : Memref sig .scVector .vmem S128x128 .f32).view fi
          (ReadAs.same.apply (View.read (Elt F) (((Memref.whole main_arg0_scv : Memref sig .scVector .hbm S16x1x512x512 .f32).slice (Rect.unit (s := S16x1x512x512) (k0_off28 L) S1x1x128x128.size (k0_off28_inb L)) (fun _ => rfl)).squeeze S128x128 squeezes_S1x1x128x128_S128x128).view smp)) Finset.univ
        else View.write (Elt F) (Memref.whole cc0_scratch2 : Memref sig .scVector .vmem S128x128 .f32).view fi
          (ReadAs.same.apply (View.read (Elt F) (((Memref.whole main_arg1_scv : Memref sig .scVector .hbm S16x4x1x512x512 .f32).slice (Rect.unit (s := S16x4x1x512x512) (k0_off27 L v62 v64 v69 v71 v76 v78 v83 v85 v90 v92 v97 v99 v104 v106 v111 v113) S1x1x1x128x128.size
            (off27_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch5 : Memref sig .scVector .vmem S128x128 .f32).view fo)) y
      = Cert.Fuse.fused smp win sel ((outTile L (4 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 4 < 4 := by show (8 * (L 0).val + 4) / 4 < 4; omega
  have htj : tjCol L 4 < 4 := by show (8 * (L 0).val + 4) % 4 < 4; omega
  obtain ⟨p1, p2⟩ := pick_4 sel hsel L
  show fo y = _
  rw [hv y, out_emb _ _ (jL L) (tiRow L 4) (tjCol L 4) hti htj (k0_off16_eq L 4) y]
  refine value_core smp win sel (jL L) _ _ hti htj y (fin y) ?_ ?_
  · intro hts
    by_cases hc : N = 1#1
    · rw [hfin, dif_pos hc]
      refine (congrFun (View.write_whole_univ (Val := Elt F) cc0_scratch2 fi _) y).trans ?_
      exact smp_block_read smp _ _ (jL L) _ _ hti htj (smp_off_4 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch2 fi _) y).trans ?_
      exact win_block_read win _ _ (jL L) k _ _ hti htj hoff y

/-- Tile 5: what the copy-out carries, element by element, is the specification's result on the tile. -/
theorem tile_value5 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond11 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch3 : Memref sig .scVector .vmem S128x128 .f32).view fi
          (ReadAs.same.apply (View.read (Elt F) (((Memref.whole main_arg0_scv : Memref sig .scVector .hbm S16x1x512x512 .f32).slice (Rect.unit (s := S16x1x512x512) (k0_off38 L) S1x1x128x128.size (k0_off38_inb L)) (fun _ => rfl)).squeeze S128x128 squeezes_S1x1x128x128_S128x128).view smp)) Finset.univ
        else View.write (Elt F) (Memref.whole cc0_scratch3 : Memref sig .scVector .vmem S128x128 .f32).view fi
          (ReadAs.same.apply (View.read (Elt F) (((Memref.whole main_arg1_scv : Memref sig .scVector .hbm S16x4x1x512x512 .f32).slice (Rect.unit (s := S16x4x1x512x512) (k0_off37 L v62 v64 v69 v71 v76 v78 v83 v85 v90 v92 v97 v99 v104 v106 v111 v113) S1x1x1x128x128.size
            (off37_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch6 : Memref sig .scVector .vmem S128x128 .f32).view fo)) y
      = Cert.Fuse.fused smp win sel ((outTile L (5 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 5 < 4 := by show (8 * (L 0).val + 5) / 4 < 4; omega
  have htj : tjCol L 5 < 4 := by show (8 * (L 0).val + 5) % 4 < 4; omega
  obtain ⟨p1, p2⟩ := pick_5 sel hsel L
  show fo y = _
  rw [hv y, out_emb _ _ (jL L) (tiRow L 5) (tjCol L 5) hti htj (k0_off16_eq L 5) y]
  refine value_core smp win sel (jL L) _ _ hti htj y (fin y) ?_ ?_
  · intro hts
    by_cases hc : N = 1#1
    · rw [hfin, dif_pos hc]
      refine (congrFun (View.write_whole_univ (Val := Elt F) cc0_scratch3 fi _) y).trans ?_
      exact smp_block_read smp _ _ (jL L) _ _ hti htj (smp_off_5 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch3 fi _) y).trans ?_
      exact win_block_read win _ _ (jL L) k _ _ hti htj hoff y

/-- Tile 6: what the copy-out carries, element by element, is the specification's result on the tile. -/
theorem tile_value6 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond13 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch1 : Memref sig .scVector .vmem S128x128 .f32).view fi
          (ReadAs.same.apply (View.read (Elt F) (((Memref.whole main_arg0_scv : Memref sig .scVector .hbm S16x1x512x512 .f32).slice (Rect.unit (s := S16x1x512x512) (k0_off48 L) S1x1x128x128.size (k0_off48_inb L)) (fun _ => rfl)).squeeze S128x128 squeezes_S1x1x128x128_S128x128).view smp)) Finset.univ
        else View.write (Elt F) (Memref.whole cc0_scratch1 : Memref sig .scVector .vmem S128x128 .f32).view fi
          (ReadAs.same.apply (View.read (Elt F) (((Memref.whole main_arg1_scv : Memref sig .scVector .hbm S16x4x1x512x512 .f32).slice (Rect.unit (s := S16x4x1x512x512) (k0_off47 L v62 v64 v69 v71 v76 v78 v83 v85 v90 v92 v97 v99 v104 v106 v111 v113) S1x1x1x128x128.size
            (off47_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch4 : Memref sig .scVector .vmem S128x128 .f32).view fo)) y
      = Cert.Fuse.fused smp win sel ((outTile L (6 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 6 < 4 := by show (8 * (L 0).val + 6) / 4 < 4; omega
  have htj : tjCol L 6 < 4 := by show (8 * (L 0).val + 6) % 4 < 4; omega
  obtain ⟨p1, p2⟩ := pick_6 sel hsel L
  show fo y = _
  rw [hv y, out_emb _ _ (jL L) (tiRow L 6) (tjCol L 6) hti htj (k0_off16_eq L 6) y]
  refine value_core smp win sel (jL L) _ _ hti htj y (fin y) ?_ ?_
  · intro hts
    by_cases hc : N = 1#1
    · rw [hfin, dif_pos hc]
      refine (congrFun (View.write_whole_univ (Val := Elt F) cc0_scratch1 fi _) y).trans ?_
      exact smp_block_read smp _ _ (jL L) _ _ hti htj (smp_off_6 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch1 fi _) y).trans ?_
      exact win_block_read win _ _ (jL L) k _ _ hti htj hoff y

/-- Tile 7: what the copy-out carries, element by element, is the specification's result on the tile. -/
theorem tile_value7 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond15 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch2 : Memref sig .scVector .vmem S128x128 .f32).view fi
          (ReadAs.same.apply (View.read (Elt F) (((Memref.whole main_arg0_scv : Memref sig .scVector .hbm S16x1x512x512 .f32).slice (Rect.unit (s := S16x1x512x512) (k0_off58 L) S1x1x128x128.size (k0_off58_inb L)) (fun _ => rfl)).squeeze S128x128 squeezes_S1x1x128x128_S128x128).view smp)) Finset.univ
        else View.write (Elt F) (Memref.whole cc0_scratch2 : Memref sig .scVector .vmem S128x128 .f32).view fi
          (ReadAs.same.apply (View.read (Elt F) (((Memref.whole main_arg1_scv : Memref sig .scVector .hbm S16x4x1x512x512 .f32).slice (Rect.unit (s := S16x4x1x512x512) (k0_off57 L v62 v64 v69 v71 v76 v78 v83 v85 v90 v92 v97 v99 v104 v106 v111 v113) S1x1x1x128x128.size
            (off57_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch5 : Memref sig .scVector .vmem S128x128 .f32).view fo)) y
      = Cert.Fuse.fused smp win sel ((outTile L (7 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 7 < 4 := by show (8 * (L 0).val + 7) / 4 < 4; omega
  have htj : tjCol L 7 < 4 := by show (8 * (L 0).val + 7) % 4 < 4; omega
  obtain ⟨p1, p2⟩ := pick_7 sel hsel L
  show fo y = _
  rw [hv y, out_emb _ _ (jL L) (tiRow L 7) (tjCol L 7) hti htj (k0_off16_eq L 7) y]
  refine value_core smp win sel (jL L) _ _ hti htj y (fin y) ?_ ?_
  · intro hts
    by_cases hc : N = 1#1
    · rw [hfin, dif_pos hc]
      refine (congrFun (View.write_whole_univ (Val := Elt F) cc0_scratch2 fi _) y).trans ?_
      exact smp_block_read smp _ _ (jL L) _ _ hti htj (smp_off_7 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch2 fi _) y).trans ?_
      exact win_block_read win _ _ (jL L) k _ _ hti htj hoff y

end Cert.Proof.KI

end
-- ==== Proof.KIBody.lean ====
/-
  One vector subcore's task, at a symbolic place.

  The subcore fetches the sixteen selection words of its image pair, starts the copies of its first three tiles into
  the three input slots — each from the refined map of the last window covering the tile, or from the sampling map when
  none does; which, nobody decides here: the two ways are carried side by side until the copy's wait, after which the
  slot holds the one block or the other — and then, tile after tile: waits for the tile's block, waits for the output
  slot's previous copy-out (from the fourth tile on), applies the logistic function to the slot's 128 rows two at a time,
  starts the copy of the output slot to the tile's place in the result, and starts the copy-in of the tile three ahead.
  The last three copy-outs are waited for at the end. Every copy has its semaphore to itself while it is in flight,
  and no slot is touched between a copy's start and its wait. What each tile of the result then holds is the logistic
  function of the block its slot received, which is the specification's value there.
-/
import proofs.«207346_g72533407695360_cont_9to1_m_270_11_alg».proof.Proof.KITile
import proofs.«207346_g72533407695360_cont_9to1_m_270_11_alg».proof.Proof.KIChk
import proofs.«207346_g72533407695360_cont_9to1_m_270_11_alg».proof.Proof.KIPick
import proofs.«207346_g72533407695360_cont_9to1_m_270_11_alg».proof.Proof.KILoops
import proofs.«207346_g72533407695360_cont_9to1_m_270_11_alg».proof.Proof.KIWords
import proofs.«207346_g72533407695360_cont_9to1_m_270_11_alg».proof.Proof.KIValue

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "smpV" => (Memref.whole Cert.KernelIdeal.main_arg0_scv : Memref Cert.KernelIdeal.sig Kind.scVector Space.hbm Cert.KernelIdeal.S16x1x512x512 EltTy.f32)
local notation "winV" => (Memref.whole Cert.KernelIdeal.main_arg1_scv : Memref Cert.KernelIdeal.sig Kind.scVector Space.hbm Cert.KernelIdeal.S16x4x1x512x512 EltTy.f32)
local notation "flatV" => (Memref.whole Cert.KernelIdeal.main_v0_scv : Memref Cert.KernelIdeal.sig Kind.scVector Space.hbm Cert.KernelIdeal.S128 EltTy.i32)
local notation "outV" => (Memref.whole Cert.KernelIdeal.main_v1_scv : Memref Cert.KernelIdeal.sig Kind.scVector Space.hbm Cert.KernelIdeal.S16x1x512x512 EltTy.f32)
local notation "selB" => (Memref.whole Cert.KernelIdeal.cc0_scratch0 : Memref Cert.KernelIdeal.sig Kind.scVector Space.vmem Cert.KernelIdeal.S16 EltTy.i32)
local notation "in0" => (Memref.whole Cert.KernelIdeal.cc0_scratch1 : Memref Cert.KernelIdeal.sig Kind.scVector Space.vmem Cert.KernelIdeal.S128x128 EltTy.f32)
local notation "in1" => (Memref.whole Cert.KernelIdeal.cc0_scratch2 : Memref Cert.KernelIdeal.sig Kind.scVector Space.vmem Cert.KernelIdeal.S128x128 EltTy.f32)
local notation "in2" => (Memref.whole Cert.KernelIdeal.cc0_scratch3 : Memref Cert.KernelIdeal.sig Kind.scVector Space.vmem Cert.KernelIdeal.S128x128 EltTy.f32)
local notation "ob0" => (Memref.whole Cert.KernelIdeal.cc0_scratch4 : Memref Cert.KernelIdeal.sig Kind.scVector Space.vmem Cert.KernelIdeal.S128x128 EltTy.f32)
local notation "ob1" => (Memref.whole Cert.KernelIdeal.cc0_scratch5 : Memref Cert.KernelIdeal.sig Kind.scVector Space.vmem Cert.KernelIdeal.S128x128 EltTy.f32)
local notation "ob2" => (Memref.whole Cert.KernelIdeal.cc0_scratch6 : Memref Cert.KernelIdeal.sig Kind.scVector Space.vmem Cert.KernelIdeal.S128x128 EltTy.f32)

variable [FloatOps F]

section Tile
variable (d : Dev nD) (L : grid0.Coords)

set_option pp.deepTerms false in
set_option pp.deepTerms.threshold 6 in
set_option pp.proofs false in
set_option pp.maxSteps 6000 in
set_option maxHeartbeats 40000000 in
theorem tile_body (hF : (K (F := F)).Facts) (O : CellTallies nD τ sig (HIx 1)) (W : Waits sig (HIx 1)) (hO : ∀ g, O g none = 0) (hsel : SelOK m) :
    iprop(levAts (K (F := F)).L (K (F := F)).lev ∗ emp
        ∗ (readSh m d (tileShare (cL L) (jL L)) ∗ outTiles d L (m (outLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fuser_body L smpV (Memref.isWhole_whole _) winV (Memref.isWhole_whole _) flatV (Memref.isWhole_whole _) outV (Memref.isWhole_whole _)
            selB (Memref.isWhole_whole _) in0 (Memref.isWhole_whole _) in1 (Memref.isWhole_whole _) in2 (Memref.isWhole_whole _)
            ob0 (Memref.isWhole_whole _) ob1 (Memref.isWhole_whole _) ob2 (Memref.isWhole_whole _)
            cc0_scratch7 cc0_scratch8 cc0_scratch9 cc0_scratch10 cc0_scratch11 cc0_scratch12 cc0_scoped0)
          fun _ => iprop((readSh m d (tileShare (cL L) (jL L)) ∗ outTiles d L (fusedOf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__fuser_body_eq_skeleton]; unfold cc0__fuser_body_skel
  rw [(K (F := F)).scopedBufs_V hF d (cV L) (jV L), SparseCore.Cfg.scopedSems0_V (Val := Elt F) d (cV L) (jV L), ownSems0_V, ownBufs_V, outTiles_eq]
  iintro ⟨#Hlv, -, ⟨⟨Hsmp, Hwin, Hflat⟩, ⟨Ht0, Ht1, Ht2, Ht3, Ht4, Ht5, Ht6, Ht7⟩⟩,
    ⟨⟨%fsel, Hsel⟩, ⟨%fi0, Hi0⟩, ⟨%fi1, Hi1⟩, ⟨%fi2, Hi2⟩, ⟨%fo0, Ho0⟩, ⟨%fo1, Ho1⟩, ⟨%fo2, Ho2⟩, Hbufs⟩,
    ⟨Hs7, Hs8, Hs9, Hs10, Hs11, Hs12, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hsmp := (Entails.of_eq (pts_smp (F := F) d L _ _).symm) $$ Hsmp
  ihave Hwin := (Entails.of_eq (pts_win (F := F) d L _ _).symm) $$ Hwin
  ihave Hflat := (Entails.of_eq (pts_flat (F := F) d L _ _).symm) $$ Hflat
  ihave Hsel := (Entails.of_eq (pts_selB (F := F) d L _).symm) $$ Hsel
  ihave Hi0 := (Entails.of_eq (pts_in0 (F := F) d L _).symm) $$ Hi0
  ihave Hi1 := (Entails.of_eq (pts_in1 (F := F) d L _).symm) $$ Hi1
  ihave Hi2 := (Entails.of_eq (pts_in2 (F := F) d L _).symm) $$ Hi2
  ihave Ho0 := (Entails.of_eq (pts_ob0 (F := F) d L _).symm) $$ Ho0
  ihave Ho1 := (Entails.of_eq (pts_ob1 (F := F) d L _).symm) $$ Ho1
  ihave Ho2 := (Entails.of_eq (pts_ob2 (F := F) d L _).symm) $$ Ho2
  ihave Hsmp := (toks3_split (F := F) _ _) $$ Hsmp
  icases Hsmp with ⟨HsmpR, Hsmp0, Hsmp1, Hsmp2⟩
  ihave Hwin := (toks3_split (F := F) _ _) $$ Hwin
  icases Hwin with ⟨HwinR, Hwin0, Hwin1, Hwin2⟩
  set_option sl_exec.guardIff true in
  sl_exec_parts (disch := first | exact chk_all _ _ _ _ _ _ _ _ _ _ _ _ _ _ _ _ _ | exact isneg_iff _ | exact nonneg_iff _ | assumption)
  irename if1_1 => Fl0
  irename if2 => Gd0
  irename if3_1 => Fl1
  irename if4 => Gd1
  irename if5_1 => Fl2
  irename if6 => Gd2
  -- tile 0: the wait for its copy-in, and what it hands back
  iapply (Transfers.wp_waitLocalO countersEmb 𝒱₀ (V d (cV L) (jV L)) none (default : HIx 1) (rfl : (in0).view.dmaCredit = _)) $$ [Fl0 HO]
  · isplitl [Fl0]; · iexact Fl0
    isplitl [HO]; · iexact HO
    iapply (Transfers.MayWaits.elim (SemLoc.dma cc0_scratch7.sem)) $$ Hmw
  iintro ⟨HD, Hs7, HO⟩
  ihave Hj := (settle_in (F := F) _ _ _ _ _ _ _) $$ [HD Hsmp0 Gd0]
  · isplitl [HD]; · iexact HD
    isplitl [Hsmp0]; · iexact Hsmp0
    iexact Gd0
  icases Hj with ⟨⟨%fin0, %hfin0, Hi0⟩, Hsmp0, Hwin0⟩
  set_option sl_exec.guardIff true in
  sl_exec_parts (disch := first | exact chk_all _ _ _ _ _ _ _ _ _ _ _ _ _ _ _ _ _ | exact isneg_iff _ | exact nonneg_iff _ | assumption)
  -- tile 0: the sigmoid loop over slot 0
  sl_for (sigInv0 (F := F) d L fin0) $$ [Hi0 Ho0]
  case region =>
    intro k _
    unfold sigInv0
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value1 k _ _ hb
  · unfold sigInv0
    isplitl [Hi0]; · iexact Hi0
    iexists _; isplitl [Ho0]; · iexact Ho0
    ipureintro; intro y hy; exact absurd hy (by omega)
  iintro %_ HI
  unfold sigInv0
  icases HI with ⟨Hi0, %fo0_0, Ho0, %hv0⟩
  set_option sl_exec.guardIff true in
  sl_exec_parts (disch := first | exact chk_all _ _ _ _ _ _ _ _ _ _ _ _ _ _ _ _ _ | exact isneg_iff _ | exact nonneg_iff _ | assumption)
  irename if1_1 => Fl3
  irename if2 => Gd3
  -- tile 1: the wait for its copy-in, and what it hands back
  iapply (Transfers.wp_waitLocalO countersEmb 𝒱₀ (V d (cV L) (jV L)) none (default : HIx 1) (rfl : (in1).view.dmaCredit = _)) $$ [Fl1 HO]
  · isplitl [Fl1]; · iexact Fl1
    isplitl [HO]; · iexact HO
    iapply (Transfers.MayWaits.elim (SemLoc.dma cc0_scratch8.sem)) $$ Hmw
  iintro ⟨HD, Hs8, HO⟩
  ihave Hj := (settle_in (F := F) _ _ _ _ _ _ _) $$ [HD Hsmp1 Gd1]
  · isplitl [HD]; · iexact HD
    isplitl [Hsmp1]; · iexact Hsmp1
    iexact Gd1
  icases Hj with ⟨⟨%fin1, %hfin1, Hi1⟩, Hsmp1, Hwin1⟩
  set_option sl_exec.guardIff true in
  sl_exec_parts (disch := first | exact chk_all _ _ _ _ _ _ _ _ _ _ _ _ _ _ _ _ _ | exact isneg_iff _ | exact nonneg_iff _ | assumption)
  -- tile 1: the sigmoid loop over slot 1
  sl_for (sigInv1 (F := F) d L fin1) $$ [Hi1 Ho1]
  case region =>
    intro k _
    unfold sigInv1
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value2 k _ _ hb
  · unfold sigInv1
    isplitl [Hi1]; · iexact Hi1
    iexists _; isplitl [Ho1]; · iexact Ho1
    ipureintro; intro y hy; exact absurd hy (by omega)
  iintro %_ HI
  unfold sigInv1
  icases HI with ⟨Hi1, %fo1_1, Ho1, %hv1⟩
  set_option sl_exec.guardIff true in
  sl_exec_parts (disch := first | exact chk_all _ _ _ _ _ _ _ _ _ _ _ _ _ _ _ _ _ | exact isneg_iff _ | exact nonneg_iff _ | assumption)
  irename if1_1 => Fl4
  irename if2 => Gd4
  -- tile 2: the wait for its copy-in, and what it hands back
  iapply (Transfers.wp_waitLocalO countersEmb 𝒱₀ (V d (cV L) (jV L)) none (default : HIx 1) (rfl : (in2).view.dmaCredit = _)) $$ [Fl2 HO]
  · isplitl [Fl2]; · iexact Fl2
    isplitl [HO]; · iexact HO
    iapply (Transfers.MayWaits.elim (SemLoc.dma cc0_scratch9.sem)) $$ Hmw
  iintro ⟨HD, Hs9, HO⟩
  ihave Hj := (settle_in (F := F) _ _ _ _ _ _ _) $$ [HD Hsmp2 Gd2]
  · isplitl [HD]; · iexact HD
    isplitl [Hsmp2]; · iexact Hsmp2
    iexact Gd2
  icases Hj with ⟨⟨%fin2, %hfin2, Hi2⟩, Hsmp2, Hwin2⟩
  set_option sl_exec.guardIff true in
  sl_exec_parts (disch := first | exact chk_all _ _ _ _ _ _ _ _ _ _ _ _ _ _ _ _ _ | exact isneg_iff _ | exact nonneg_iff _ | assumption)
  -- tile 2: the sigmoid loop over slot 2
  sl_for (sigInv2 (F := F) d L fin2) $$ [Hi2 Ho2]
  case region =>
    intro k _
    unfold sigInv2
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value3 k _ _ hb
  · unfold sigInv2
    isplitl [Hi2]; · iexact Hi2
    iexists _; isplitl [Ho2]; · iexact Ho2
    ipureintro; intro y hy; exact absurd hy (by omega)
  iintro %_ HI
  unfold sigInv2
  icases HI with ⟨Hi2, %fo2_2, Ho2, %hv2⟩
  set_option sl_exec.guardIff true in
  sl_exec_parts (disch := first | exact chk_all _ _ _ _ _ _ _ _ _ _ _ _ _ _ _ _ _ | exact isneg_iff _ | exact nonneg_iff _ | assumption)
  irename if1_1 => Fl5
  irename if2 => Gd5
  -- tile 3: the wait for its copy-in, and what it hands back
  iapply (Transfers.wp_waitLocalO countersEmb 𝒱₀ (V d (cV L) (jV L)) none (default : HIx 1) (rfl : (in0).view.dmaCredit = _)) $$ [Fl3 HO]
  · isplitl [Fl3]; · iexact Fl3
    isplitl [HO]; · iexact HO
    iapply (Transfers.MayWaits.elim (SemLoc.dma cc0_scratch7.sem)) $$ Hmw
  iintro ⟨HD, Hs7, HO⟩
  ihave Hj := (settle_in (F := F) _ _ _ _ _ _ _) $$ [HD Hsmp0 Gd3]
  · isplitl [HD]; · iexact HD
    isplitl [Hsmp0]; · iexact Hsmp0
    iexact Gd3
  icases Hj with ⟨⟨%fin3, %hfin3, Hi0⟩, Hsmp0, Hwin0⟩
  set_option sl_exec.guardIff true in
  sl_exec_parts (disch := first | exact chk_all _ _ _ _ _ _ _ _ _ _ _ _ _ _ _ _ _ | exact isneg_iff _ | exact nonneg_iff _ | assumption)
  -- tile 3: the sigmoid loop over slot 0
  sl_for (sigInv0 (F := F) d L fin3) $$ [Hi0 Ho0]
  case region =>
    intro k _
    unfold sigInv0
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value4 k _ _ hb
  · unfold sigInv0
    isplitl [Hi0]; · iexact Hi0
    iexists _; isplitl [Ho0]; · iexact Ho0
    ipureintro; intro y hy; exact absurd hy (by omega)
  iintro %_ HI
  unfold sigInv0
  icases HI with ⟨Hi0, %fo0_3, Ho0, %hv3⟩
  set_option sl_exec.guardIff true in
  sl_exec_parts (disch := first | exact chk_all _ _ _ _ _ _ _ _ _ _ _ _ _ _ _ _ _ | exact isneg_iff _ | exact nonneg_iff _ | assumption)
  irename if1_1 => Fl6
  irename if2 => Gd6
  -- tile 4: the wait for its copy-in, and what it hands back
  iapply (Transfers.wp_waitLocalO countersEmb 𝒱₀ (V d (cV L) (jV L)) none (default : HIx 1) (rfl : (in1).view.dmaCredit = _)) $$ [Fl4 HO]
  · isplitl [Fl4]; · iexact Fl4
    isplitl [HO]; · iexact HO
    iapply (Transfers.MayWaits.elim (SemLoc.dma cc0_scratch8.sem)) $$ Hmw
  iintro ⟨HD, Hs8, HO⟩
  ihave Hj := (settle_in (F := F) _ _ _ _ _ _ _) $$ [HD Hsmp1 Gd4]
  · isplitl [HD]; · iexact HD
    isplitl [Hsmp1]; · iexact Hsmp1
    iexact Gd4
  icases Hj with ⟨⟨%fin4, %hfin4, Hi1⟩, Hsmp1, Hwin1⟩
  set_option sl_exec.guardIff true in
  sl_exec_parts (disch := first | exact chk_all _ _ _ _ _ _ _ _ _ _ _ _ _ _ _ _ _ | exact isneg_iff _ | exact nonneg_iff _ | assumption)
  -- tile 4: the sigmoid loop over slot 1
  sl_for (sigInv1 (F := F) d L fin4) $$ [Hi1 Ho1]
  case region =>
    intro k _
    unfold sigInv1
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value5 k _ _ hb
  · unfold sigInv1
    isplitl [Hi1]; · iexact Hi1
    iexists _; isplitl [Ho1]; · iexact Ho1
    ipureintro; intro y hy; exact absurd hy (by omega)
  iintro %_ HI
  unfold sigInv1
  icases HI with ⟨Hi1, %fo1_4, Ho1, %hv4⟩
  set_option sl_exec.guardIff true in
  sl_exec_parts (disch := first | exact chk_all _ _ _ _ _ _ _ _ _ _ _ _ _ _ _ _ _ | exact isneg_iff _ | exact nonneg_iff _ | assumption)
  irename if1_1 => Fl7
  irename if2 => Gd7
  -- tile 5: the wait for its copy-in, and what it hands back
  iapply (Transfers.wp_waitLocalO countersEmb 𝒱₀ (V d (cV L) (jV L)) none (default : HIx 1) (rfl : (in2).view.dmaCredit = _)) $$ [Fl5 HO]
  · isplitl [Fl5]; · iexact Fl5
    isplitl [HO]; · iexact HO
    iapply (Transfers.MayWaits.elim (SemLoc.dma cc0_scratch9.sem)) $$ Hmw
  iintro ⟨HD, Hs9, HO⟩
  ihave Hj := (settle_in (F := F) _ _ _ _ _ _ _) $$ [HD Hsmp2 Gd5]
  · isplitl [HD]; · iexact HD
    isplitl [Hsmp2]; · iexact Hsmp2
    iexact Gd5
  icases Hj with ⟨⟨%fin5, %hfin5, Hi2⟩, Hsmp2, Hwin2⟩
  set_option sl_exec.guardIff true in
  sl_exec_parts (disch := first | exact chk_all _ _ _ _ _ _ _ _ _ _ _ _ _ _ _ _ _ | exact isneg_iff _ | exact nonneg_iff _ | assumption)
  -- tile 5: the sigmoid loop over slot 2
  sl_for (sigInv2 (F := F) d L fin5) $$ [Hi2 Ho2]
  case region =>
    intro k _
    unfold sigInv2
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value6 k _ _ hb
  · unfold sigInv2
    isplitl [Hi2]; · iexact Hi2
    iexists _; isplitl [Ho2]; · iexact Ho2
    ipureintro; intro y hy; exact absurd hy (by omega)
  iintro %_ HI
  unfold sigInv2
  icases HI with ⟨Hi2, %fo2_5, Ho2, %hv5⟩
  set_option sl_exec.guardIff true in
  sl_exec_parts (disch := first | exact chk_all _ _ _ _ _ _ _ _ _ _ _ _ _ _ _ _ _ | exact isneg_iff _ | exact nonneg_iff _ | assumption)
  -- tile 6: the wait for its copy-in, and what it hands back
  iapply (Transfers.wp_waitLocalO countersEmb 𝒱₀ (V d (cV L) (jV L)) none (default : HIx 1) (rfl : (in0).view.dmaCredit = _)) $$ [Fl6 HO]
  · isplitl [Fl6]; · iexact Fl6
    isplitl [HO]; · iexact HO
    iapply (Transfers.MayWaits.elim (SemLoc.dma cc0_scratch7.sem)) $$ Hmw
  iintro ⟨HD, Hs7, HO⟩
  ihave Hj := (settle_in (F := F) _ _ _ _ _ _ _) $$ [HD Hsmp0 Gd6]
  · isplitl [HD]; · iexact HD
    isplitl [Hsmp0]; · iexact Hsmp0
    iexact Gd6
  icases Hj with ⟨⟨%fin6, %hfin6, Hi0⟩, Hsmp0, Hwin0⟩
  set_option sl_exec.guardIff true in
  sl_exec_parts (disch := first | exact chk_all _ _ _ _ _ _ _ _ _ _ _ _ _ _ _ _ _ | exact isneg_iff _ | exact nonneg_iff _ | assumption)
  -- tile 6: the sigmoid loop over slot 0
  sl_for (sigInv0 (F := F) d L fin6) $$ [Hi0 Ho0]
  case region =>
    intro k _
    unfold sigInv0
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value7 k _ _ hb
  · unfold sigInv0
    isplitl [Hi0]; · iexact Hi0
    iexists _; isplitl [Ho0]; · iexact Ho0
    ipureintro; intro y hy; exact absurd hy (by omega)
  iintro %_ HI
  unfold sigInv0
  icases HI with ⟨Hi0, %fo0_6, Ho0, %hv6⟩
  set_option sl_exec.guardIff true in
  sl_exec_parts (disch := first | exact chk_all _ _ _ _ _ _ _ _ _ _ _ _ _ _ _ _ _ | exact isneg_iff _ | exact nonneg_iff _ | assumption)
  -- tile 7: the wait for its copy-in, and what it hands back
  iapply (Transfers.wp_waitLocalO countersEmb 𝒱₀ (V d (cV L) (jV L)) none (default : HIx 1) (rfl : (in1).view.dmaCredit = _)) $$ [Fl7 HO]
  · isplitl [Fl7]; · iexact Fl7
    isplitl [HO]; · iexact HO
    iapply (Transfers.MayWaits.elim (SemLoc.dma cc0_scratch8.sem)) $$ Hmw
  iintro ⟨HD, Hs8, HO⟩
  ihave Hj := (settle_in (F := F) _ _ _ _ _ _ _) $$ [HD Hsmp1 Gd7]
  · isplitl [HD]; · iexact HD
    isplitl [Hsmp1]; · iexact Hsmp1
    iexact Gd7
  icases Hj with ⟨⟨%fin7, %hfin7, Hi1⟩, Hsmp1, Hwin1⟩
  set_option sl_exec.guardIff true in
  sl_exec_parts (disch := first | exact chk_all _ _ _ _ _ _ _ _ _ _ _ _ _ _ _ _ _ | exact isneg_iff _ | exact nonneg_iff _ | assumption)
  -- tile 7: the sigmoid loop over slot 1
  sl_for (sigInv1 (F := F) d L fin7) $$ [Hi1 Ho1]
  case region =>
    intro k _
    unfold sigInv1
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value8 k _ _ hb
  · unfold sigInv1
    isplitl [Hi1]; · iexact Hi1
    iexists _; isplitl [Ho1]; · iexact Ho1
    ipureintro; intro y hy; exact absurd hy (by omega)
  iintro %_ HI
  unfold sigInv1
  icases HI with ⟨Hi1, %fo1_7, Ho1, %hv7⟩
  set_option sl_exec.guardIff true in
  sl_exec_parts (disch := first | exact chk_all _ _ _ _ _ _ _ _ _ _ _ _ _ _ _ _ _ | exact isneg_iff _ | exact nonneg_iff _ | assumption)
  sl_step
  have hval0 : ∀ y : S128x128.Idx, (tile_body.sl.dma0_1 d L fo0_0) y = (fusedOf m d) ((outTile L 0).view.emb y) :=
    tile_value0 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fi0 fin0 fo0_0 hfin0
      (fun y => hv0 y (by have h128 : (y 0).val < 128 := (y 0).isLt; have ht : Scf.trips k0_t1_loop.lb k0_t1_loop.ub k0_t1_loop.st = 64 := (by decide); rw [ht]; omega))
  ihave Ht0 := (out_settle (F := F) d L 0 _ (fusedOf m d) _ hval0) $$ Ht0
  have hval1 : ∀ y : S128x128.Idx, (tile_body.sl.dma0_4 d L fo1_1) y = (fusedOf m d) ((outTile L 1).view.emb y) :=
    tile_value1 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fi1 fin1 fo1_1 hfin1
      (fun y => hv1 y (by have h128 : (y 0).val < 128 := (y 0).isLt; have ht : Scf.trips k0_t2_loop.lb k0_t2_loop.ub k0_t2_loop.st = 64 := (by decide); rw [ht]; omega))
  ihave Ht1 := (out_settle (F := F) d L 1 _ (fusedOf m d) _ hval1) $$ Ht1
  have hval2 : ∀ y : S128x128.Idx, (tile_body.sl.dma0_7 d L fo2_2) y = (fusedOf m d) ((outTile L 2).view.emb y) :=
    tile_value2 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fi2 fin2 fo2_2 hfin2
      (fun y => hv2 y (by have h128 : (y 0).val < 128 := (y 0).isLt; have ht : Scf.trips k0_t3_loop.lb k0_t3_loop.ub k0_t3_loop.st = 64 := (by decide); rw [ht]; omega))
  ihave Ht2 := (out_settle (F := F) d L 2 _ (fusedOf m d) _ hval2) $$ Ht2
  have hval3 : ∀ y : S128x128.Idx, (tile_body.sl.dma0_10 d L fo0_3) y = (fusedOf m d) ((outTile L 3).view.emb y) :=
    tile_value3 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin0 fin3 fo0_3 hfin3
      (fun y => hv3 y (by have h128 : (y 0).val < 128 := (y 0).isLt; have ht : Scf.trips k0_t4_loop.lb k0_t4_loop.ub k0_t4_loop.st = 64 := (by decide); rw [ht]; omega))
  ihave Ht3 := (out_settle (F := F) d L 3 _ (fusedOf m d) _ hval3) $$ Ht3
  have hval4 : ∀ y : S128x128.Idx, (tile_body.sl.dma0_13 d L fo1_4) y = (fusedOf m d) ((outTile L 4).view.emb y) :=
    tile_value4 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin1 fin4 fo1_4 hfin4
      (fun y => hv4 y (by have h128 : (y 0).val < 128 := (y 0).isLt; have ht : Scf.trips k0_t5_loop.lb k0_t5_loop.ub k0_t5_loop.st = 64 := (by decide); rw [ht]; omega))
  ihave Ht4 := (out_settle (F := F) d L 4 _ (fusedOf m d) _ hval4) $$ Ht4
  have hval5 : ∀ y : S128x128.Idx, (tile_body.sl.dma0_16 d L fo2_5) y = (fusedOf m d) ((outTile L 5).view.emb y) :=
    tile_value5 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin2 fin5 fo2_5 hfin5
      (fun y => hv5 y (by have h128 : (y 0).val < 128 := (y 0).isLt; have ht : Scf.trips k0_t6_loop.lb k0_t6_loop.ub k0_t6_loop.st = 64 := (by decide); rw [ht]; omega))
  ihave Ht5 := (out_settle (F := F) d L 5 _ (fusedOf m d) _ hval5) $$ Ht5
  have hval6 : ∀ y : S128x128.Idx, (tile_body.sl.dma0_17 d L fo0_6) y = (fusedOf m d) ((outTile L 6).view.emb y) :=
    tile_value6 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin3 fin6 fo0_6 hfin6
      (fun y => hv6 y (by have h128 : (y 0).val < 128 := (y 0).isLt; have ht : Scf.trips k0_t7_loop.lb k0_t7_loop.ub k0_t7_loop.st = 64 := (by decide); rw [ht]; omega))
  ihave Ht6 := (out_settle (F := F) d L 6 _ (fusedOf m d) _ hval6) $$ Ht6
  have hval7 : ∀ y : S128x128.Idx, (tile_body.sl.dma0_18 d L fo1_7) y = (fusedOf m d) ((outTile L 7).view.emb y) :=
    tile_value7 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin4 fin7 fo1_7 hfin7
      (fun y => hv7 y (by have h128 : (y 0).val < 128 := (y 0).isLt; have ht : Scf.trips k0_t8_loop.lb k0_t8_loop.ub k0_t8_loop.st = 64 := (by decide); rw [ht]; omega))
  ihave Ht7 := (out_settle (F := F) d L 7 _ (fusedOf m d) _ hval7) $$ Ht7
  isplitl [HsmpR Hsmp0 Hsmp1 Hsmp2 HwinR Hwin0 Hwin1 Hwin2 Hflat Ht0 Ht1 Ht2 Ht3 Ht4 Ht5 Ht6 Ht7]
  · isplitl [HsmpR Hsmp0 Hsmp1 Hsmp2 HwinR Hwin0 Hwin1 Hwin2 Hflat]
    · isplitl [HsmpR Hsmp0 Hsmp1 Hsmp2]
      · iapply (toks3_join (F := F) (ℓ := smpLoc d) _ _)
        isplitl [HsmpR]; · iexact HsmpR
        isplitl [Hsmp0]; · iexact Hsmp0
        isplitl [Hsmp1]; · iexact Hsmp1
        iexact Hsmp2
      isplitl [HwinR Hwin0 Hwin1 Hwin2]
      · iapply (toks3_join (F := F) (ℓ := winLoc d) _ _)
        isplitl [HwinR]; · iexact HwinR
        isplitl [Hwin0]; · iexact Hwin0
        isplitl [Hwin1]; · iexact Hwin1
        iexact Hwin2
      iexact Hflat
    rw [outTiles_eq]
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  isplitl [Hsel Hi0 Hi1 Hi2 Ho0 Ho1 Ho2 Hbufs]
  · isplitl [Hsel]; · iexists _; iexact Hsel
    isplitl [Hi0]; · iexists _; iexact Hi0
    isplitl [Hi1]; · iexists _; iexact Hi1
    isplitl [Hi2]; · iexists _; iexact Hi2
    isplitl [Ho0]; · iexists _; iexact Ho0
    isplitl [Ho1]; · iexists _; iexact Ho1
    isplitl [Ho2]; · iexists _; iexact Ho2
    iexact Hbufs
  isplitl [Hs7 Hs8 Hs9 Hs10 Hs11 Hs12 Hsc Hsems]
  · isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hsc]; · iexact Hsc
    iexact Hsems
  iexists _; isplitr
  swap; · iexact HO
  ipureintro; intro p hp
  repeat (rcases Finset.mem_insert.mp hp with hp | hp; · exact .inr (hp ▸ rfl))
  exact .inl hp

end Tile

/-! ## The obligation -/

theorem defs₀_vector (c : Fin τ.nSC) (s : Fin τ.nSub) :
    defs₀ (F := F) (.scVector c s) 0 ()
      = SparseCore.onTile hcore0 hsub0 (fun c s => cc0__fuser_body (coordsV c s)
          smpV (Memref.isWhole_whole _) winV (Memref.isWhole_whole _) flatV (Memref.isWhole_whole _) outV (Memref.isWhole_whole _)
          selB (Memref.isWhole_whole _) in0 (Memref.isWhole_whole _) in1 (Memref.isWhole_whole _) in2 (Memref.isWhole_whole _)
          ob0 (Memref.isWhole_whole _) ob1 (Memref.isWhole_whole _) ob2 (Memref.isWhole_whole _)
          cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task meets the launch theorem's obligation. -/
theorem tileObl (hF : (K (F := F)).Facts) (hsel : SelOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO hsel).trans (wp_mono frame _ _ fun _ => obl_post)

end Cert.Proof.KI

end
-- ==== Proof.KBTile.lean ====
/-
  A vector subcore's own storage, named piece by piece: its seven DMA semaphores (three for the copies in, three
  for the copies out, one for the fetch of the selection words) and its seven scratch buffers (the sixteen
  selection words, three input slots, three output slots).
-/
import proofs.«207346_g72533407695360_cont_9to1_m_270_11_alg».proof.Proof.KBPay

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "smpV" => (Memref.whole Cert.Kernel.main_arg0_scv : Memref Cert.Kernel.sig Kind.scVector Space.hbm Cert.Kernel.S16x1x512x512 EltTy.f32)
local notation "winV" => (Memref.whole Cert.Kernel.main_arg1_scv : Memref Cert.Kernel.sig Kind.scVector Space.hbm Cert.Kernel.S16x4x1x512x512 EltTy.f32)
local notation "flatV" => (Memref.whole Cert.Kernel.main_v0_scv : Memref Cert.Kernel.sig Kind.scVector Space.hbm Cert.Kernel.S128 EltTy.i32)
local notation "outV" => (Memref.whole Cert.Kernel.main_v1_scv : Memref Cert.Kernel.sig Kind.scVector Space.hbm Cert.Kernel.S16x1x512x512 EltTy.f32)
local notation "selB" => (Memref.whole Cert.Kernel.cc0_scratch0 : Memref Cert.Kernel.sig Kind.scVector Space.vmem Cert.Kernel.S16 EltTy.i32)
local notation "in0" => (Memref.whole Cert.Kernel.cc0_scratch1 : Memref Cert.Kernel.sig Kind.scVector Space.vmem Cert.Kernel.S128x128 EltTy.f32)
local notation "in1" => (Memref.whole Cert.Kernel.cc0_scratch2 : Memref Cert.Kernel.sig Kind.scVector Space.vmem Cert.Kernel.S128x128 EltTy.f32)
local notation "in2" => (Memref.whole Cert.Kernel.cc0_scratch3 : Memref Cert.Kernel.sig Kind.scVector Space.vmem Cert.Kernel.S128x128 EltTy.f32)
local notation "ob0" => (Memref.whole Cert.Kernel.cc0_scratch4 : Memref Cert.Kernel.sig Kind.scVector Space.vmem Cert.Kernel.S128x128 EltTy.f32)
local notation "ob1" => (Memref.whole Cert.Kernel.cc0_scratch5 : Memref Cert.Kernel.sig Kind.scVector Space.vmem Cert.Kernel.S128x128 EltTy.f32)
local notation "ob2" => (Memref.whole Cert.Kernel.cc0_scratch6 : Memref Cert.Kernel.sig Kind.scVector Space.vmem Cert.Kernel.S128x128 EltTy.f32)

section Tile
variable (d : Dev nD) (L : grid0.Coords)

/-- A DMA semaphore of the subcore at `L`, as a cell of the device. -/
abbrev tcell (s : DmaSems sig S_) : GSem nD τ sig := (V d (cV L) (jV L), .dma s.sem)

omit m ρ in
theorem tcell_ne {a b : DmaSem sig} (h : a ≠ b) : ((V d (cV L) (jV L), SemLoc.dma a) : GSem nD τ sig) ≠ (V d (cV L) (jV L), SemLoc.dma b) :=
  fun e => h (SemLoc.dma.inj (congrArg Prod.snd e))

variable [FloatOps F]

omit [FloatOps F] in
/-- The subcore's own semaphores at zero are its seven DMA semaphores at zero, and the rest. -/
theorem ownSems0_V :
    (ownSems0 (V d (cV L) (jV L)) : sProp 𝕄)
      = iprop(semVal (tcell d L cc0_scratch7) 0 ∗ semVal (tcell d L cc0_scratch8) 0 ∗ semVal (tcell d L cc0_scratch9) 0 ∗ semVal (tcell d L cc0_scratch10) 0 ∗ semVal (tcell d L cc0_scratch11) 0 ∗ semVal (tcell d L cc0_scratch12) 0 ∗ semVal (tcell d L cc0_scoped0) 0
          ∗ bigSep ((((((((ownCells (V d (cV L) (jV L))).erase (tcell d L cc0_scratch7)).erase (tcell d L cc0_scratch8)).erase (tcell d L cc0_scratch9)).erase (tcell d L cc0_scratch10)).erase (tcell d L cc0_scratch11)).erase (tcell d L cc0_scratch12)).erase (tcell d L cc0_scoped0)) fun g => semVal g 0) := by
  unfold SparseCore.Cfg.ownSems0
  rw [SparseCore.bigSep_erase' ((mem_ownCells (g := tcell d L cc0_scratch7)).mpr ⟨rfl, by show (SemLoc.dma cc0_scratch7.sem : SemLoc sig).isScoped .scVector = true; decide⟩),
    SparseCore.bigSep_erase' (Finset.mem_erase.mpr ⟨tcell_ne d L (by decide : (cc0_scratch8.sem : DmaSem sig) ≠ cc0_scratch7.sem), (mem_ownCells (g := tcell d L cc0_scratch8)).mpr ⟨rfl, by show (SemLoc.dma cc0_scratch8.sem : SemLoc sig).isScoped .scVector = true; decide⟩⟩),
    SparseCore.bigSep_erase' (Finset.mem_erase.mpr ⟨tcell_ne d L (by decide : (cc0_scratch9.sem : DmaSem sig) ≠ cc0_scratch8.sem), Finset.mem_erase.mpr ⟨tcell_ne d L (by decide : (cc0_scratch9.sem : DmaSem sig) ≠ cc0_scratch7.sem), (mem_ownCells (g := tcell d L cc0_scratch9)).mpr ⟨rfl, by show (SemLoc.dma cc0_scratch9.sem : SemLoc sig).isScoped .scVector = true; decide⟩⟩⟩),
    SparseCore.bigSep_erase' (Finset.mem_erase.mpr ⟨tcell_ne d L (by decide : (cc0_scratch10.sem : DmaSem sig) ≠ cc0_scratch9.sem), Finset.mem_erase.mpr ⟨tcell_ne d L (by decide : (cc0_scratch10.sem : DmaSem sig) ≠ cc0_scratch8.sem), Finset.mem_erase.mpr ⟨tcell_ne d L (by decide : (cc0_scratch10.sem : DmaSem sig) ≠ cc0_scratch7.sem), (mem_ownCells (g := tcell d L cc0_scratch10)).mpr ⟨rfl, by show (SemLoc.dma cc0_scratch10.sem : SemLoc sig).isScoped .scVector = true; decide⟩⟩⟩⟩),
    SparseCore.bigSep_erase' (Finset.mem_erase.mpr ⟨tcell_ne d L (by decide : (cc0_scratch11.sem : DmaSem sig) ≠ cc0_scratch10.sem), Finset.mem_erase.mpr ⟨tcell_ne d L (by decide : (cc0_scratch11.sem : DmaSem sig) ≠ cc0_scratch9.sem), Finset.mem_erase.mpr ⟨tcell_ne d L (by decide : (cc0_scratch11.sem : DmaSem sig) ≠ cc0_scratch8.sem), Finset.mem_erase.mpr ⟨tcell_ne d L (by decide : (cc0_scratch11.sem : DmaSem sig) ≠ cc0_scratch7.sem), (mem_ownCells (g := tcell d L cc0_scratch11)).mpr ⟨rfl, by show (SemLoc.dma cc0_scratch11.sem : SemLoc sig).isScoped .scVector = true; decide⟩⟩⟩⟩⟩),
    SparseCore.bigSep_erase' (Finset.mem_erase.mpr ⟨tcell_ne d L (by decide : (cc0_scratch12.sem : DmaSem sig) ≠ cc0_scratch11.sem), Finset.mem_erase.mpr ⟨tcell_ne d L (by decide : (cc0_scratch12.sem : DmaSem sig) ≠ cc0_scratch10.sem), Finset.mem_erase.mpr ⟨tcell_ne d L (by decide : (cc0_scratch12.sem : DmaSem sig) ≠ cc0_scratch9.sem), Finset.mem_erase.mpr ⟨tcell_ne d L (by decide : (cc0_scratch12.sem : DmaSem sig) ≠ cc0_scratch8.sem), Finset.mem_erase.mpr ⟨tcell_ne d L (by decide : (cc0_scratch12.sem : DmaSem sig) ≠ cc0_scratch7.sem), (mem_ownCells (g := tcell d L cc0_scratch12)).mpr ⟨rfl, by show (SemLoc.dma cc0_scratch12.sem : SemLoc sig).isScoped .scVector = true; decide⟩⟩⟩⟩⟩⟩),
    SparseCore.bigSep_erase' (Finset.mem_erase.mpr ⟨tcell_ne d L (by decide : (cc0_scoped0.sem : DmaSem sig) ≠ cc0_scratch12.sem), Finset.mem_erase.mpr ⟨tcell_ne d L (by decide : (cc0_scoped0.sem : DmaSem sig) ≠ cc0_scratch11.sem), Finset.mem_erase.mpr ⟨tcell_ne d L (by decide : (cc0_scoped0.sem : DmaSem sig) ≠ cc0_scratch10.sem), Finset.mem_erase.mpr ⟨tcell_ne d L (by decide : (cc0_scoped0.sem : DmaSem sig) ≠ cc0_scratch9.sem), Finset.mem_erase.mpr ⟨tcell_ne d L (by decide : (cc0_scoped0.sem : DmaSem sig) ≠ cc0_scratch8.sem), Finset.mem_erase.mpr ⟨tcell_ne d L (by decide : (cc0_scoped0.sem : DmaSem sig) ≠ cc0_scratch7.sem), (mem_ownCells (g := tcell d L cc0_scoped0)).mpr ⟨rfl, by show (SemLoc.dma cc0_scoped0.sem : SemLoc sig).isScoped .scVector = true; decide⟩⟩⟩⟩⟩⟩⟩)]

omit [FloatOps F] in
/-- The subcore's own buffers are its seven scratch buffers, each whole at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f) ∗ (∃ f, (V d (cV L) (jV L)).loc cc0_scratch5 ↦{fullShare} f) ∗ (∃ f, (V d (cV L) (jV L)).loc cc0_scratch6 ↦{fullShare} f)
          ∗ bigSep ((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩)]

omit [FloatOps F] m ρ in
/-- An array held whole when a condition holds, and but for a window when it fails, is held but for a hole that is
    the window exactly when the condition fails. -/
theorem guarded_hole {C : Prop} [Decidable C] (ℓ : Loc nD τ sig) (q : PosShare TreeShare) (f : Buf (Elt F) ℓ) (R : ¬C → Finset (Idx ℓ)) :
    (Guarded C (fun _ => (ℓ ↦{q} f : sProp 𝕄)) (fun hn => ℓ ↦[Finset.univ \ R hn]{q} f))
      = ℓ ↦[Finset.univ \ gset (¬C) (fun h => R h)]{q} f := by
  by_cases h : C
  · rw [Guarded.pos h, gset.neg (not_not_intro h), Finset.sdiff_empty]
  · rw [Guarded.neg h, gset.pos h]

omit [FloatOps F] m ρ in
theorem bigSep_fin3 (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide),
    bigSep_singleton]

omit [FloatOps F] m ρ in
/-- A read share is three read tokens, one per input semaphore, and what is left. -/
theorem toks3 {ℓ : Loc nD τ sig} (q : PosShare TreeShare) (f : Buf (Elt F) ℓ) :
    (ℓ ↦{q} f : sProp 𝕄) ⊣⊢ iprop((ℓ ↦{Transfers.shareDrop q 3} f) ∗ (ℓ ↦{Transfers.shareTok q 3 0} f) ∗ (ℓ ↦{Transfers.shareTok q 3 1} f)
      ∗ ℓ ↦{Transfers.shareTok q 3 2} f) := by
  have h : (ℓ ↦{q} f : sProp 𝕄) ⊣⊢ _ := Transfers.pointsTo_toks (ℓ := ℓ) (S := Finset.univ) (f := f) q 3
  rw [bigSep_fin3] at h
  exact h
omit [FloatOps F] m ρ in
theorem toks3_split {ℓ : Loc nD τ sig} (q : PosShare TreeShare) (f : Buf (Elt F) ℓ) :
    (ℓ ↦{q} f : sProp 𝕄) ⊢ iprop((ℓ ↦{Transfers.shareDrop q 3} f) ∗ (ℓ ↦{Transfers.shareTok q 3 0} f) ∗ (ℓ ↦{Transfers.shareTok q 3 1} f)
      ∗ ℓ ↦{Transfers.shareTok q 3 2} f) := (toks3 q f).1
omit [FloatOps F] m ρ in
theorem toks3_join {ℓ : Loc nD τ sig} (q : PosShare TreeShare) (f : Buf (Elt F) ℓ) :
    iprop((ℓ ↦{Transfers.shareDrop q 3} f) ∗ (ℓ ↦{Transfers.shareTok q 3 0} f) ∗ (ℓ ↦{Transfers.shareTok q 3 1} f)
      ∗ ℓ ↦{Transfers.shareTok q 3 2} f) ⊢ (ℓ ↦{q} f : sProp 𝕄) := (toks3 q f).2

omit [FloatOps F] m ρ in
/-- After a copy-in's wait. The copy took its block from one of two arrays by a condition nobody decided: what
    the wait hands back is, either way, the slot written and the lent window; put beside what was kept of the two
    arrays, the slot holds the one or the other contents and both arrays are whole again. -/
theorem settle_in {C : Prop} [Decidable C] {ℓi ℓs ℓw : Loc nD τ sig} (q : PosShare TreeShare)
    (A : C → Buf (Elt F) ℓi) (B : ¬C → Buf (Elt F) ℓi) (fs : Buf (Elt F) ℓs) (fw : Buf (Elt F) ℓw)
    (Rs : C → Finset (Idx ℓs)) (Rw : ¬C → Finset (Idx ℓw)) :
    iprop((if hc : C then iprop((ℓi ↦{fullShare} A hc) ∗ ℓs ↦[Rs hc]{q} fs) else iprop((ℓi ↦{fullShare} B hc) ∗ ℓw ↦[Rw hc]{q} fw))
        ∗ (ℓs ↦[Finset.univ \ gset C Rs]{q} fs)
        ∗ Guarded C (fun _ => (ℓw ↦{q} fw : sProp 𝕄)) (fun hn => ℓw ↦[Finset.univ \ Rw hn]{q} fw))
      ⊢ (iprop((∃ fin, ⌜fin = dite C A B⌝ ∗ ℓi ↦{fullShare} fin) ∗ (ℓs ↦{q} fs) ∗ (ℓw ↦{q} fw)) : sProp 𝕄) := by
  by_cases h : C
  · rw [dif_pos h, gset.pos h, Guarded.pos h]
    iintro ⟨⟨Hi, Hs⟩, Hr, Hw⟩
    isplitl [Hi]; · iexists _; isplitr; · ipureintro; exact (dif_pos h).symm
                    iexact Hi
    isplitl [Hs Hr]
    · iapply (pointsTo_split_subset (q := q) (f := fs) (S := Finset.univ) (Finset.subset_univ (Rs h))).2
      isplitl [Hs] <;> iassumption
    · iexact Hw
  · rw [dif_neg h, gset.neg h, Guarded.neg h, Finset.sdiff_empty]
    iintro ⟨⟨Hi, Hw⟩, Hs, Hr⟩
    isplitl [Hi]; · iexists _; isplitr; · ipureintro; exact (dif_neg h).symm
                    iexact Hi
    isplitl [Hs]; · iexact Hs
    iapply (pointsTo_split_subset (q := q) (f := fw) (S := Finset.univ) (Finset.subset_univ (Rw h))).2
    isplitl [Hw] <;> iassumption

/-! ### The arrays as the subcore's memrefs address them -/

omit [FloatOps F] in
theorem pts_smp (q : PosShare TreeShare) (f : Buf (Elt F) (smpLoc d)) :
    ((smpV).view.loc (V d (cV L) (jV L)) ↦{q} f : sProp 𝕄) = smpLoc d ↦{q} f := rfl
omit [FloatOps F] in
theorem pts_win (q : PosShare TreeShare) (f : Buf (Elt F) (winLoc d)) :
    ((winV).view.loc (V d (cV L) (jV L)) ↦{q} f : sProp 𝕄) = winLoc d ↦{q} f := rfl
omit [FloatOps F] in
theorem pts_flat (q : PosShare TreeShare) (f : Buf (Elt F) (flatLoc d)) :
    ((flatV).view.loc (V d (cV L) (jV L)) ↦{q} f : sProp 𝕄) = flatLoc d ↦{q} f := rfl
omit [FloatOps F] in
theorem pts_selB (f : Buf (Elt F) ((V d (cV L) (jV L)).loc cc0_scratch0)) :
    ((selB).view.loc (V d (cV L) (jV L)) ↦{fullShare} f : sProp 𝕄) = (V d (cV L) (jV L)).loc cc0_scratch0 ↦{fullShare} f := rfl
omit [FloatOps F] in
theorem pts_in0 (f : Buf (Elt F) ((V d (cV L) (jV L)).loc cc0_scratch1)) :
    ((in0).view.loc (V d (cV L) (jV L)) ↦{fullShare} f : sProp 𝕄) = (V d (cV L) (jV L)).loc cc0_scratch1 ↦{fullShare} f := rfl
omit [FloatOps F] in
theorem pts_in1 (f : Buf (Elt F) ((V d (cV L) (jV L)).loc cc0_scratch2)) :
    ((in1).view.loc (V d (cV L) (jV L)) ↦{fullShare} f : sProp 𝕄) = (V d (cV L) (jV L)).loc cc0_scratch2 ↦{fullShare} f := rfl
omit [FloatOps F] in
theorem pts_in2 (f : Buf (Elt F) ((V d (cV L) (jV L)).loc cc0_scratch3)) :
    ((in2).view.loc (V d (cV L) (jV L)) ↦{fullShare} f : sProp 𝕄) = (V d (cV L) (jV L)).loc cc0_scratch3 ↦{fullShare} f := rfl
omit [FloatOps F] in
theorem pts_ob0 (f : Buf (Elt F) ((V d (cV L) (jV L)).loc cc0_scratch4)) :
    ((ob0).view.loc (V d (cV L) (jV L)) ↦{fullShare} f : sProp 𝕄) = (V d (cV L) (jV L)).loc cc0_scratch4 ↦{fullShare} f := rfl
omit [FloatOps F] in
theorem pts_ob1 (f : Buf (Elt F) ((V d (cV L) (jV L)).loc cc0_scratch5)) :
    ((ob1).view.loc (V d (cV L) (jV L)) ↦{fullShare} f : sProp 𝕄) = (V d (cV L) (jV L)).loc cc0_scratch5 ↦{fullShare} f := rfl
omit [FloatOps F] in
theorem pts_ob2 (f : Buf (Elt F) ((V d (cV L) (jV L)).loc cc0_scratch6)) :
    ((ob2).view.loc (V d (cV L) (jV L)) ↦{fullShare} f : sProp 𝕄) = (V d (cV L) (jV L)).loc cc0_scratch6 ↦{fullShare} f := rfl

/-- A result tile as the subcore's copy-out addresses it. -/
abbrev outPt (t : Fin 8) (f : Buf (Elt F) (outLoc d)) : sProp 𝕄 :=
  (outTile L t).view.loc (V d (cV L) (jV L)) ↦[(outTile L t).view.set]{fullShare} f

omit [FloatOps F] in
/-- The eight tiles, one by one. -/
theorem outTiles_eq (f : Buf (Elt F) (outLoc d)) :
    (outTiles d L f : sProp 𝕄)
      = iprop(outPt d L 0 f ∗ outPt d L 1 f ∗ outPt d L 2 f ∗ outPt d L 3 f ∗ outPt d L 4 f ∗ outPt d L 5 f ∗ outPt d L 6 f ∗ outPt d L 7 f) := by
  unfold outTiles
  rw [show (Finset.univ : Finset (Fin 8)) = {0, 1, 2, 3, 4, 5, 6, 7} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] m ρ in
/-- A result tile written whole by one payload holds, on the tile, any contents the payload agrees with there. -/
theorem out_settle (t : Fin 8) (base g : Buf (Elt F) (outLoc d)) (w : S128x128.Idx → Elt F .f32)
    (h : ∀ y : S128x128.Idx, w y = g ((outTile L t).view.emb y)) :
    ((outTile L t).view.loc (V d (cV L) (jV L)) ↦[(outTile L t).view.set]{fullShare}
        (outTile L t).view.writes (Elt F) base [⟨Rect.whole S128x128, w⟩] : sProp 𝕄) ⊢ outPt d L t g := by
  unfold outPt
  refine Entails.of_eq (pointsTo_congr fun i hi => ?_)
  obtain ⟨y, -, rfl⟩ := Finset.mem_map.mp hi
  rw [← h y]
  have e := View.read_writes_cons_emb (outTile L t).view base (Rect.whole S128x128) w [] y
  rw [View.read_apply, Rect.emb_whole_apply] at e
  exact e

/-- The sigmoid loop on slot 0, after `k` trips: the input slot as it was, and the output slot's rows below `2k`
    holding the logistic function of the input slot's. -/
def sigInv0 (fin : Buf (Elt F) ((V d (cV L) (jV L)).loc cc0_scratch1)) (k : ℕ) (_ : PUnit) : sProp 𝕄 :=
  iprop(((in0).view.loc (V d (cV L) (jV L)) ↦{fullShare} fin)
    ∗ ∃ f : Buf (Elt F) ((V d (cV L) (jV L)).loc cc0_scratch4), ((ob0).view.loc (V d (cV L) (jV L)) ↦{fullShare} f)
        ∗ ⌜∀ y : S128x128.Idx, (y 0).val < 2 * k → (f : FVec F S128x128 .f32) y = Cert.Fuse.logistic ((fin : FVec F S128x128 .f32) y)⌝)

/-- The sigmoid loop on slot 1, after `k` trips: the input slot as it was, and the output slot's rows below `2k`
    holding the logistic function of the input slot's. -/
def sigInv1 (fin : Buf (Elt F) ((V d (cV L) (jV L)).loc cc0_scratch2)) (k : ℕ) (_ : PUnit) : sProp 𝕄 :=
  iprop(((in1).view.loc (V d (cV L) (jV L)) ↦{fullShare} fin)
    ∗ ∃ f : Buf (Elt F) ((V d (cV L) (jV L)).loc cc0_scratch5), ((ob1).view.loc (V d (cV L) (jV L)) ↦{fullShare} f)
        ∗ ⌜∀ y : S128x128.Idx, (y 0).val < 2 * k → (f : FVec F S128x128 .f32) y = Cert.Fuse.logistic ((fin : FVec F S128x128 .f32) y)⌝)

/-- The sigmoid loop on slot 2, after `k` trips: the input slot as it was, and the output slot's rows below `2k`
    holding the logistic function of the input slot's. -/
def sigInv2 (fin : Buf (Elt F) ((V d (cV L) (jV L)).loc cc0_scratch3)) (k : ℕ) (_ : PUnit) : sProp 𝕄 :=
  iprop(((in2).view.loc (V d (cV L) (jV L)) ↦{fullShare} fin)
    ∗ ∃ f : Buf (Elt F) ((V d (cV L) (jV L)).loc cc0_scratch6), ((ob2).view.loc (V d (cV L) (jV L)) ↦{fullShare} f)
        ∗ ⌜∀ y : S128x128.Idx, (y 0).val < 2 * k → (f : FVec F S128x128 .f32) y = Cert.Fuse.logistic ((fin : FVec F S128x128 .f32) y)⌝)

end Tile

end Cert.Proof.KB

end
-- ==== Proof.KBChk.lean ====
/-
  The copy into an input slot takes its 128 × 128 block from one of the four refined maps of the image when some window
  covers the tile, and from the sampling map otherwise. The block's image, row and column are the tile's own, whichever
  array it comes from; the refined map's number is the last covering window, read off a chain of four selects that ends
  in -1, and the copy is made only when that number is not negative: then it is at most 3. So every such block lies
  inside the refined maps, whatever the selection words are.
-/
import proofs.«207346_g72533407695360_cont_9to1_m_270_11_alg».proof.Proof.Gen.Kernel

noncomputable section

namespace Cert.Proof.KB

open Cert.Kernel Cert.Kernel.Gen Idealize.ShloMosaic

/-- The last of four windows that covers a tile, as a chain of selects: 3, else 2, else 1, else 0, else -1. -/
def sel4 (c0 c1 c2 c3 : BitVec 1) : BitVec 32 :=
  Scalar.select c3 3#32 (Scalar.select c2 2#32 (Scalar.select c1 1#32 (Scalar.select c0 0#32 4294967295#32)))
/-- "Not negative", as the body tests it. -/
def nonneg (x : BitVec 32) : BitVec 1 := Scalar.cmpi .ne (Scalar.extui (Scalar.cmpi .sge x 0#32) : BitVec 32) 0#32

/-- "Negative", as the body tests it. -/
def isneg (x : BitVec 32) : BitVec 1 := Scalar.cmpi .ne (Scalar.extui (Scalar.cmpi .slt x 0#32) : BitVec 32) 0#32

/-- A one-bit comparison result, widened and compared with zero, is one exactly when the comparison held. -/
theorem bit_of (b : Bool) : (Scalar.cmpi .ne (Scalar.extui (BitVec.ofBool b) : BitVec 32) 0#32 = 1#1) ↔ b = true := by
  cases b <;> decide

/-- A word is negative exactly when it is not "not negative": the two tests read the same sign. -/
theorem isneg_iff (x : BitVec 32) : isneg x = 1#1 ↔ ¬ nonneg x = 1#1 := by
  unfold isneg nonneg
  rw [show Scalar.cmpi .slt x 0#32 = BitVec.ofBool (x.slt 0#32) from rfl,
    show Scalar.cmpi .sge x 0#32 = BitVec.ofBool ((0#32).sle x) from rfl, bit_of, bit_of]
  simp only [BitVec.slt, BitVec.sle, decide_eq_true_eq]
  omega
theorem nonneg_iff (x : BitVec 32) : nonneg x = 1#1 ↔ ¬ isneg x = 1#1 := by
  rw [isneg_iff]; exact not_not.symm

/-- A window number that is not negative is at most 3. -/
theorem sel4_lt : ∀ c0 c1 c2 c3 : BitVec 1, nonneg (sel4 c0 c1 c2 c3) = 1#1 → (sel4 c0 c1 c2 c3).toNat + 1 ≤ 4 := by decide
/-- The chain's value is one of -1, 0, 1, 2, 3, by which select fires last. -/
theorem sel4_cases : ∀ c0 c1 c2 c3 : BitVec 1, sel4 c0 c1 c2 c3 =
    if c3 = 1#1 then 3#32 else if c2 = 1#1 then 2#32 else if c1 = 1#1 then 1#32 else if c0 = 1#1 then 0#32 else 4294967295#32 := by decide

/-- Tile 0: the refined-map block's offsets are the sampling-map block's with the window number put in, and the
    copy's condition is that the number is not negative. -/
theorem off2_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off2 i v62 v64 v69 v71 v76 v78 v83 v85 v90 v92 v97 v99 v104 v106 v111 v113 = ![(k0_off3 i) 0, (sel4 c0 c1 c2 c3).toNat, 0, (k0_off3 i) 2, (k0_off3 i) 3]
      ∧ k0_cond1 i v62 v64 v69 v71 v76 v78 v83 v85 v90 v92 v97 v99 v104 v106 v111 v113 = nonneg (sel4 c0 c1 c2 c3) :=
  ⟨_, _, _, _, rfl, rfl⟩

theorem off2_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond1 i v62 v64 v69 v71 v76 v78 v83 v85 v90 v92 v97 v99 v104 v106 v111 v113 = 1#1) :
    ∀ a, (k0_off2 i v62 v64 v69 v71 v76 v78 v83 v85 v90 v92 v97 v99 v104 v106 v111 v113) a + S1x1x1x128x128.size a ≤ S16x4x1x512x512.size a := by
  obtain ⟨c0, c1, c2, c3, ho, hc⟩ := off2_shape i v62 v64 v69 v71 v76 v78 v83 v85 v90 v92 v97 v99 v104 v106 v111 v113
  rw [hc] at h
  have h3 := k0_off3_inb i
  have hk := sel4_lt c0 c1 c2 c3 h
  intro a
  rw [ho]
  fin_cases a
  · exact h3 0
  · exact hk
  · exact Nat.le_refl 1
  · exact h3 2
  · exact h3 3

/-- Tile 1: the refined-map block's offsets are the sampling-map block's with the window number put in, and the
    copy's condition is that the number is not negative. -/
theorem off4_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off4 i v62 v64 v69 v71 v76 v78 v83 v85 v90 v92 v97 v99 v104 v106 v111 v113 = ![(k0_off5 i) 0, (sel4 c0 c1 c2 c3).toNat, 0, (k0_off5 i) 2, (k0_off5 i) 3]
      ∧ k0_cond3 i v62 v64 v69 v71 v76 v78 v83 v85 v90 v92 v97 v99 v104 v106 v111 v113 = nonneg (sel4 c0 c1 c2 c3) :=
  ⟨_, _, _, _, rfl, rfl⟩

theorem off4_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond3 i v62 v64 v69 v71 v76 v78 v83 v85 v90 v92 v97 v99 v104 v106 v111 v113 = 1#1) :
    ∀ a, (k0_off4 i v62 v64 v69 v71 v76 v78 v83 v85 v90 v92 v97 v99 v104 v106 v111 v113) a + S1x1x1x128x128.size a ≤ S16x4x1x512x512.size a := by
  obtain ⟨c0, c1, c2, c3, ho, hc⟩ := off4_shape i v62 v64 v69 v71 v76 v78 v83 v85 v90 v92 v97 v99 v104 v106 v111 v113
  rw [hc] at h
  have h3 := k0_off5_inb i
  have hk := sel4_lt c0 c1 c2 c3 h
  intro a
  rw [ho]
  fin_cases a
  · exact h3 0
  · exact hk
  · exact Nat.le_refl 1
  · exact h3 2
  · exact h3 3

/-- Tile 2: the refined-map block's offsets are the sampling-map block's with the window number put in, and the
    copy's condition is that the number is not negative. -/
theorem off6_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off6 i v62 v64 v69 v71 v76 v78 v83 v85 v90 v92 v97 v99 v104 v106 v111 v113 = ![(k0_off7 i) 0, (sel4 c0 c1 c2 c3).toNat, 0, (k0_off7 i) 2, (k0_off7 i) 3]
      ∧ k0_cond5 i v62 v64 v69 v71 v76 v78 v83 v85 v90 v92 v97 v99 v104 v106 v111 v113 = nonneg (sel4 c0 c1 c2 c3) :=
  ⟨_, _, _, _, rfl, rfl⟩

theorem off6_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond5 i v62 v64 v69 v71 v76 v78 v83 v85 v90 v92 v97 v99 v104 v106 v111 v113 = 1#1) :
    ∀ a, (k0_off6 i v62 v64 v69 v71 v76 v78 v83 v85 v90 v92 v97 v99 v104 v106 v111 v113) a + S1x1x1x128x128.size a ≤ S16x4x1x512x512.size a := by
  obtain ⟨c0, c1, c2, c3, ho, hc⟩ := off6_shape i v62 v64 v69 v71 v76 v78 v83 v85 v90 v92 v97 v99 v104 v106 v111 v113
  rw [hc] at h
  have h3 := k0_off7_inb i
  have hk := sel4_lt c0 c1 c2 c3 h
  intro a
  rw [ho]
  fin_cases a
  · exact h3 0
  · exact hk
  · exact Nat.le_refl 1
  · exact h3 2
  · exact h3 3

/-- Tile 3: the refined-map block's offsets are the sampling-map block's with the window number put in, and the
    copy's condition is that the number is not negative. -/
theorem off17_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off17 i v62 v64 v69 v71 v76 v78 v83 v85 v90 v92 v97 v99 v104 v106 v111 v113 = ![(k0_off18 i) 0, (sel4 c0 c1 c2 c3).toNat, 0, (k0_off18 i) 2, (k0_off18 i) 3]
      ∧ k0_cond7 i v62 v64 v69 v71 v76 v78 v83 v85 v90 v92 v97 v99 v104 v106 v111 v113 = nonneg (sel4 c0 c1 c2 c3) :=
  ⟨_, _, _, _, rfl, rfl⟩

theorem off17_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond7 i v62 v64 v69 v71 v76 v78 v83 v85 v90 v92 v97 v99 v104 v106 v111 v113 = 1#1) :
    ∀ a, (k0_off17 i v62 v64 v69 v71 v76 v78 v83 v85 v90 v92 v97 v99 v104 v106 v111 v113) a + S1x1x1x128x128.size a ≤ S16x4x1x512x512.size a := by
  obtain ⟨c0, c1, c2, c3, ho, hc⟩ := off17_shape i v62 v64 v69 v71 v76 v78 v83 v85 v90 v92 v97 v99 v104 v106 v111 v113
  rw [hc] at h
  have h3 := k0_off18_inb i
  have hk := sel4_lt c0 c1 c2 c3 h
  intro a
  rw [ho]
  fin_cases a
  · exact h3 0
  · exact hk
  · exact Nat.le_refl 1
  · exact h3 2
  · exact h3 3

/-- Tile 4: the refined-map block's offsets are the sampling-map block's with the window number put in, and the
    copy's condition is that the number is not negative. -/
theorem off27_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off27 i v62 v64 v69 v71 v76 v78 v83 v85 v90 v92 v97 v99 v104 v106 v111 v113 = ![(k0_off28 i) 0, (sel4 c0 c1 c2 c3).toNat, 0, (k0_off28 i) 2, (k0_off28 i) 3]
      ∧ k0_cond9 i v62 v64 v69 v71 v76 v78 v83 v85 v90 v92 v97 v99 v104 v106 v111 v113 = nonneg (sel4 c0 c1 c2 c3) :=
  ⟨_, _, _, _, rfl, rfl⟩

theorem off27_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond9 i v62 v64 v69 v71 v76 v78 v83 v85 v90 v92 v97 v99 v104 v106 v111 v113 = 1#1) :
    ∀ a, (k0_off27 i v62 v64 v69 v71 v76 v78 v83 v85 v90 v92 v97 v99 v104 v106 v111 v113) a + S1x1x1x128x128.size a ≤ S16x4x1x512x512.size a := by
  obtain ⟨c0, c1, c2, c3, ho, hc⟩ := off27_shape i v62 v64 v69 v71 v76 v78 v83 v85 v90 v92 v97 v99 v104 v106 v111 v113
  rw [hc] at h
  have h3 := k0_off28_inb i
  have hk := sel4_lt c0 c1 c2 c3 h
  intro a
  rw [ho]
  fin_cases a
  · exact h3 0
  · exact hk
  · exact Nat.le_refl 1
  · exact h3 2
  · exact h3 3

/-- Tile 5: the refined-map block's offsets are the sampling-map block's with the window number put in, and the
    copy's condition is that the number is not negative. -/
theorem off37_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off37 i v62 v64 v69 v71 v76 v78 v83 v85 v90 v92 v97 v99 v104 v106 v111 v113 = ![(k0_off38 i) 0, (sel4 c0 c1 c2 c3).toNat, 0, (k0_off38 i) 2, (k0_off38 i) 3]
      ∧ k0_cond11 i v62 v64 v69 v71 v76 v78 v83 v85 v90 v92 v97 v99 v104 v106 v111 v113 = nonneg (sel4 c0 c1 c2 c3) :=
  ⟨_, _, _, _, rfl, rfl⟩

theorem off37_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond11 i v62 v64 v69 v71 v76 v78 v83 v85 v90 v92 v97 v99 v104 v106 v111 v113 = 1#1) :
    ∀ a, (k0_off37 i v62 v64 v69 v71 v76 v78 v83 v85 v90 v92 v97 v99 v104 v106 v111 v113) a + S1x1x1x128x128.size a ≤ S16x4x1x512x512.size a := by
  obtain ⟨c0, c1, c2, c3, ho, hc⟩ := off37_shape i v62 v64 v69 v71 v76 v78 v83 v85 v90 v92 v97 v99 v104 v106 v111 v113
  rw [hc] at h
  have h3 := k0_off38_inb i
  have hk := sel4_lt c0 c1 c2 c3 h
  intro a
  rw [ho]
  fin_cases a
  · exact h3 0
  · exact hk
  · exact Nat.le_refl 1
  · exact h3 2
  · exact h3 3

/-- Tile 6: the refined-map block's offsets are the sampling-map block's with the window number put in, and the
    copy's condition is that the number is not negative. -/
theorem off47_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off47 i v62 v64 v69 v71 v76 v78 v83 v85 v90 v92 v97 v99 v104 v106 v111 v113 = ![(k0_off48 i) 0, (sel4 c0 c1 c2 c3).toNat, 0, (k0_off48 i) 2, (k0_off48 i) 3]
      ∧ k0_cond13 i v62 v64 v69 v71 v76 v78 v83 v85 v90 v92 v97 v99 v104 v106 v111 v113 = nonneg (sel4 c0 c1 c2 c3) :=
  ⟨_, _, _, _, rfl, rfl⟩

theorem off47_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond13 i v62 v64 v69 v71 v76 v78 v83 v85 v90 v92 v97 v99 v104 v106 v111 v113 = 1#1) :
    ∀ a, (k0_off47 i v62 v64 v69 v71 v76 v78 v83 v85 v90 v92 v97 v99 v104 v106 v111 v113) a + S1x1x1x128x128.size a ≤ S16x4x1x512x512.size a := by
  obtain ⟨c0, c1, c2, c3, ho, hc⟩ := off47_shape i v62 v64 v69 v71 v76 v78 v83 v85 v90 v92 v97 v99 v104 v106 v111 v113
  rw [hc] at h
  have h3 := k0_off48_inb i
  have hk := sel4_lt c0 c1 c2 c3 h
  intro a
  rw [ho]
  fin_cases a
  · exact h3 0
  · exact hk
  · exact Nat.le_refl 1
  · exact h3 2
  · exact h3 3

/-- Tile 7: the refined-map block's offsets are the sampling-map block's with the window number put in, and the
    copy's condition is that the number is not negative. -/
theorem off57_shape (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) :
    ∃ c0 c1 c2 c3 : BitVec 1,
      k0_off57 i v62 v64 v69 v71 v76 v78 v83 v85 v90 v92 v97 v99 v104 v106 v111 v113 = ![(k0_off58 i) 0, (sel4 c0 c1 c2 c3).toNat, 0, (k0_off58 i) 2, (k0_off58 i) 3]
      ∧ k0_cond15 i v62 v64 v69 v71 v76 v78 v83 v85 v90 v92 v97 v99 v104 v106 v111 v113 = nonneg (sel4 c0 c1 c2 c3) :=
  ⟨_, _, _, _, rfl, rfl⟩

theorem off57_inb (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) (h : k0_cond15 i v62 v64 v69 v71 v76 v78 v83 v85 v90 v92 v97 v99 v104 v106 v111 v113 = 1#1) :
    ∀ a, (k0_off57 i v62 v64 v69 v71 v76 v78 v83 v85 v90 v92 v97 v99 v104 v106 v111 v113) a + S1x1x1x128x128.size a ≤ S16x4x1x512x512.size a := by
  obtain ⟨c0, c1, c2, c3, ho, hc⟩ := off57_shape i v62 v64 v69 v71 v76 v78 v83 v85 v90 v92 v97 v99 v104 v106 v111 v113
  rw [hc] at h
  have h3 := k0_off58_inb i
  have hk := sel4_lt c0 c1 c2 c3 h
  intro a
  rw [ho]
  fin_cases a
  · exact h3 0
  · exact hk
  · exact Nat.le_refl 1
  · exact h3 2
  · exact h3 3

/-- The body's check of its copies' blocks holds of every sixteen words. -/
theorem chk_all (i : grid0.Coords) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : k0_chk1 i v62 v64 v69 v71 v76 v78 v83 v85 v90 v92 v97 v99 v104 v106 v111 v113 :=
  ⟨off2_inb i v62 v64 v69 v71 v76 v78 v83 v85 v90 v92 v97 v99 v104 v106 v111 v113,
    off4_inb i v62 v64 v69 v71 v76 v78 v83 v85 v90 v92 v97 v99 v104 v106 v111 v113,
    off6_inb i v62 v64 v69 v71 v76 v78 v83 v85 v90 v92 v97 v99 v104 v106 v111 v113,
    off17_inb i v62 v64 v69 v71 v76 v78 v83 v85 v90 v92 v97 v99 v104 v106 v111 v113,
    off27_inb i v62 v64 v69 v71 v76 v78 v83 v85 v90 v92 v97 v99 v104 v106 v111 v113,
    off37_inb i v62 v64 v69 v71 v76 v78 v83 v85 v90 v92 v97 v99 v104 v106 v111 v113,
    off47_inb i v62 v64 v69 v71 v76 v78 v83 v85 v90 v92 v97 v99 v104 v106 v111 v113,
    off57_inb i v62 v64 v69 v71 v76 v78 v83 v85 v90 v92 v97 v99 v104 v106 v111 v113⟩

end Cert.Proof.KB

end
-- ==== Proof.KBPick.lean ====
/-
  Which array a tile is copied in from, read off the selection.

  The subcore at a place fetches the sixteen words of the flattened selection that belong to its image's pair of
  images; the image's own eight are the upper or the lower half, by the image's parity. For window `k` they hold a
  start tile row and a start tile column, each 0 or 1 (clipping changes nothing). A tile (row `ti`, column `tj` of
  the 4 × 4 grid) is covered by window `k` when it lies within three tiles of the start along both axes; the body
  computes the four cover bits, takes the last window that covers, else -1, and copies from that window's refined map
  when the number is not negative, from the sampling map otherwise. That is the specification's `tileSource`.

  Every printed function here takes all sixteen words. Its dependence on the place alone (the tile's row, its column,
  the image's parity) is separated from its dependence on the words by matching the printed chain against the shape
  above: the three place-only terms are read off the match and then computed over the thirty-two places.
-/
import proofs.«207346_g72533407695360_cont_9to1_m_270_11_alg».proof.Proof.KBPay
import proofs.«207346_g72533407695360_cont_9to1_m_270_11_alg».proof.Proof.KBChk
import Idealize.ShloMosaic.Lib.Pipeline.Value

-- one closed form at a time: each is a computation over every place of the grid
set_option Elab.async false

noncomputable section

namespace Cert.Proof.KB

open Cert.Kernel Cert.Kernel.Gen Idealize.ShloMosaic Idealize.ShloMosaic.ValueIdx

/-! ## The flattened selection, and the sixteen words a subcore fetches -/

/-- The flattened selection at row-major position `8 b + 2 k + a` is the selection at `(b, k, a)`. -/
theorem flatOf_at (sel : IVec S16x4x2 32) (n : Fin 128) (b' : Fin 16) (k : Fin 4) (a : Fin 2) (h : n.val = 8 * b'.val + 2 * k.val + a.val) :
    (flatOf sel : IVec S128 32) (ix1 n) = sel (ix3 b' k a) := by
  unfold flatOf
  refine shapeCast_apply sel shapeCasts_S16x4x2_S128 (ix1 n) (ix3 b' k a) ?_
  rw [Shape.rowMajor_val_three, Shape.rowMajor_val_one]
  show (b'.val * 4 + k.val) * 2 + a.val = n.val
  omega

theorem flatOf_apply (sel : IVec S16x4x2 32) (b' : Fin 16) (k : Fin 4) (a : Fin 2) :
    (flatOf sel : IVec S128 32) (ix1 ⟨8 * b'.val + 2 * k.val + a.val, by have := b'.isLt; have := k.isLt; have := a.isLt; omega⟩) = sel (ix3 b' k a) :=
  flatOf_at sel _ b' k a rfl

theorem lane_lt (L : grid0.Coords) (l : Fin 16) : 16 * ((L 1).val / 2) + l.val < 128 := by
  have h : (L 1).val < 16 := (L 1).isLt
  have := l.isLt
  omega

/-- Lane `l` of the sixteen words the subcore at `L` fetches. -/
def lane (sel : IVec S16x4x2 32) (L : grid0.Coords) (l : Fin 16) : BitVec 32 :=
  (flatOf sel : IVec S128 32) (ValueIdx.ix1 ⟨16 * ((L 1).val / 2) + l.val, lane_lt L l⟩)

/-- The fetch starts at the image pair's sixteen words. -/
theorem off1_eq : ∀ L : grid0.Coords, k0_off1 L = ![16 * ((L 1).val / 2)] := by decide +kernel

/-- Of an upper and a lower lane for window `k` and axis `a`, the image's parity picks the image's own word. -/
theorem lane_select (sel : IVec S16x4x2 32) (L : grid0.Coords) (k : Fin 4) (a : Fin 2) (hi lo : Fin 16)
    (hhi : hi.val = 8 + 2 * k.val + a.val) (hlo : lo.val = 2 * k.val + a.val) :
    Scalar.select (BitVec.ofBool (decide ((L 1).val % 2 = 1))) (lane sel L hi) (lane sel L lo) = sel (ix3 (jL L) k a) := by
  have hb : (L 1).val < 16 := (L 1).isLt
  have hj : (jL L).val = (L 1).val := rfl
  unfold lane
  by_cases hp : (L 1).val % 2 = 1
  · rw [decide_eq_true hp]
    show Scalar.select 1#1 _ _ = _
    rw [select_one]
    exact flatOf_at sel _ (jL L) k a (by show 16 * ((L 1).val / 2) + hi.val = _; rw [hj, hhi]; omega)
  · rw [decide_eq_false hp]
    show Scalar.select 0#1 _ _ = _
    rw [select_zero]
    exact flatOf_at sel _ (jL L) k a (by show 16 * ((L 1).val / 2) + lo.val = _; rw [hj, hlo]; omega)

/-! ## The shape of the body's choice -/

/-- A word clipped to [0, 1], as the body clips a start. -/
def clip01 (x : BitVec 32) : BitVec 32 := Scalar.minsi 1#32 (Scalar.maxsi 0#32 x)
/-- The cover bit: the tile within three tiles of the start, along rows and along columns. -/
def covBit (ti tj rk ck : BitVec 32) : BitVec 1 :=
  Scalar.andi (Scalar.andi (Scalar.andi (Scalar.cmpi .sge ti rk) (Scalar.cmpi .slt ti (Scalar.addi rk 3#32))) (Scalar.cmpi .sge tj ck)) (Scalar.cmpi .slt tj (Scalar.addi ck 3#32))
/-- A window's cover bit from its four lanes: the parity picks the start row and the start column. -/
def winBit (ti tj : BitVec 32) (odd : BitVec 1) (rhi rlo chi clo : BitVec 32) : BitVec 1 :=
  covBit ti tj (clip01 (Scalar.select odd rhi rlo)) (clip01 (Scalar.select odd chi clo))
/-- The number of the last window that covers, else -1, from the tile, the parity and the sixteen words. -/
def pickNo (ti tj : BitVec 32) (odd : BitVec 1) (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32) : BitVec 32 :=
  sel4 (winBit ti tj odd v62 v64 v90 v92) (winBit ti tj odd v69 v71 v97 v99) (winBit ti tj odd v76 v78 v104 v106) (winBit ti tj odd v83 v85 v111 v113)

/-- A word that is 0 or 1 is its own clipping. -/
theorem clip01_id (x : BitVec 32) (h : x.toNat ≤ 1) : clip01 x = x := by
  have hx : x = 0#32 ∨ x = 1#32 := by
    rcases Nat.le_one_iff_eq_zero_or_eq_one.mp h with h | h
    · exact Or.inl (BitVec.eq_of_toNat_eq (by rw [h]; rfl))
    · exact Or.inr (BitVec.eq_of_toNat_eq (by rw [h]; rfl))
  rcases hx with rfl | rfl <;> decide

/-- The cover bit on small numbers says what it spells. -/
theorem covBit_spec : ∀ (ti tj : Fin 4) (r c : Fin 2),
    (covBit (BitVec.ofNat 32 ti.val) (BitVec.ofNat 32 tj.val) (BitVec.ofNat 32 r.val) (BitVec.ofNat 32 c.val) = 1#1)
      ↔ (r.val ≤ ti.val ∧ ti.val < r.val + 3 ∧ c.val ≤ tj.val ∧ tj.val < c.val + 3) := by decide

/-- A window's cover bit, at the image's own words, is the specification's cover. -/
theorem winBit_iff (sel : IVec S16x4x2 32) (hsel : ∀ j, (sel j).toNat ≤ 1) (b : Fin 16) (k : Fin 4) (ti tj : ℕ) (hti : ti < 4) (htj : tj < 4)
    (odd : BitVec 1) (rhi rlo chi clo : BitVec 32)
    (hr : Scalar.select odd rhi rlo = sel (ix3 b k 0)) (hc : Scalar.select odd chi clo = sel (ix3 b k 1)) :
    winBit (BitVec.ofNat 32 ti) (BitVec.ofNat 32 tj) odd rhi rlo chi clo = 1#1 ↔ Cert.Fuse.coversTile sel b k ti tj := by
  unfold winBit
  rw [hr, hc, clip01_id _ (hsel _), clip01_id _ (hsel _)]
  have h := covBit_spec ⟨ti, hti⟩ ⟨tj, htj⟩ ⟨(sel (ix3 b k 0)).toNat, Nat.lt_succ_of_le (hsel _)⟩ ⟨(sel (ix3 b k 1)).toNat, Nat.lt_succ_of_le (hsel _)⟩
  simp only [BitVec.ofNat_toNat, BitVec.setWidth_eq] at h
  exact h

/-- The select chain against the specification's chain of conditions: not negative exactly when some condition
    holds, and then the number is that of the last one that does. -/
theorem sel4_spec (c0 c1 c2 c3 : BitVec 1) (p0 p1 p2 p3 : Prop) [Decidable p0] [Decidable p1] [Decidable p2] [Decidable p3]
    (h0 : c0 = 1#1 ↔ p0) (h1 : c1 = 1#1 ↔ p1) (h2 : c2 = 1#1 ↔ p2) (h3 : c3 = 1#1 ↔ p3) :
    (nonneg (sel4 c0 c1 c2 c3) = 1#1 → ∃ k : Fin 4,
        (if p3 then some (3 : Fin 4) else if p2 then some 2 else if p1 then some 1 else if p0 then some 0 else none) = some k
          ∧ (sel4 c0 c1 c2 c3).toNat = k.val)
      ∧ (¬ nonneg (sel4 c0 c1 c2 c3) = 1#1 →
        (if p3 then some (3 : Fin 4) else if p2 then some 2 else if p1 then some 1 else if p0 then some 0 else none) = none) := by
  rw [sel4_cases]
  by_cases q3 : p3
  · rw [if_pos (h3.mpr q3), if_pos q3]
    exact ⟨fun _ => ⟨3, rfl, rfl⟩, fun h => absurd (by decide) h⟩
  rw [if_neg (fun e => q3 (h3.mp e)), if_neg q3]
  by_cases q2 : p2
  · rw [if_pos (h2.mpr q2), if_pos q2]
    exact ⟨fun _ => ⟨2, rfl, rfl⟩, fun h => absurd (by decide) h⟩
  rw [if_neg (fun e => q2 (h2.mp e)), if_neg q2]
  by_cases q1 : p1
  · rw [if_pos (h1.mpr q1), if_pos q1]
    exact ⟨fun _ => ⟨1, rfl, rfl⟩, fun h => absurd (by decide) h⟩
  rw [if_neg (fun e => q1 (h1.mp e)), if_neg q1]
  by_cases q0 : p0
  · rw [if_pos (h0.mpr q0), if_pos q0]
    exact ⟨fun _ => ⟨0, rfl, rfl⟩, fun h => absurd (by decide) h⟩
  rw [if_neg (fun e => q0 (h0.mp e)), if_neg q0]
  exact ⟨fun h => absurd h (by decide), fun _ => rfl⟩

/-- The tile's row and column in the image's 4 × 4 grid. -/
abbrev tiRow (L : grid0.Coords) (t : Fin 8) : ℕ := (8 * (L 0).val + t.val) / 4
abbrev tjCol (L : grid0.Coords) (t : Fin 8) : ℕ := (8 * (L 0).val + t.val) % 4

/-- The body's choice at the words the subcore fetched is the specification's source of the tile. -/
theorem pick_core (sel : IVec S16x4x2 32) (hsel : ∀ j, (sel j).toNat ≤ 1) (L : grid0.Coords) (t : Fin 8) :
    (nonneg (pickNo (BitVec.ofNat 32 (tiRow L t)) (BitVec.ofNat 32 (tjCol L t)) (BitVec.ofBool (decide ((L 1).val % 2 = 1))) (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)) = 1#1 →
        ∃ k : Fin 4, Cert.Fuse.tileSource sel (jL L) (tiRow L t) (tjCol L t) = some k
          ∧ (pickNo (BitVec.ofNat 32 (tiRow L t)) (BitVec.ofNat 32 (tjCol L t)) (BitVec.ofBool (decide ((L 1).val % 2 = 1))) (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)).toNat = k.val)
      ∧ (¬ nonneg (pickNo (BitVec.ofNat 32 (tiRow L t)) (BitVec.ofNat 32 (tjCol L t)) (BitVec.ofBool (decide ((L 1).val % 2 = 1))) (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)) = 1#1 →
        Cert.Fuse.tileSource sel (jL L) (tiRow L t) (tjCol L t) = none) := by
  have hc : (L 0).val < 2 := (L 0).isLt
  have ht := t.isLt
  have hti : tiRow L t < 4 := by show (8 * (L 0).val + t.val) / 4 < 4; omega
  have htj : tjCol L t < 4 := by show (8 * (L 0).val + t.val) % 4 < 4; omega
  exact sel4_spec _ _ _ _ _ _ _ _
    (winBit_iff sel hsel (jL L) 0 _ _ hti htj _ _ _ _ _ (lane_select sel L 0 0 8 0 rfl rfl) (lane_select sel L 0 1 9 1 rfl rfl))
    (winBit_iff sel hsel (jL L) 1 _ _ hti htj _ _ _ _ _ (lane_select sel L 1 0 10 2 rfl rfl) (lane_select sel L 1 1 11 3 rfl rfl))
    (winBit_iff sel hsel (jL L) 2 _ _ hti htj _ _ _ _ _ (lane_select sel L 2 0 12 4 rfl rfl) (lane_select sel L 2 1 13 5 rfl rfl))
    (winBit_iff sel hsel (jL L) 3 _ _ hti htj _ _ _ _ _ (lane_select sel L 3 0 14 6 rfl rfl) (lane_select sel L 3 1 15 7 rfl rfl))

/-! ## The eight tiles -/

/-- Tile 0: the sampling-map block's offsets. -/
theorem smp_off_0 : ∀ L : grid0.Coords, k0_off3 L = ![(L 1).val, 0, 128 * tiRow L 0, 128 * tjCol L 0] := by decide +kernel

set_option maxHeartbeats 4000000 in
/-- Tile 0: the printed condition and refined-map offsets in the shape above; the tile's row, its column and the
    image's parity are the three terms, of the place alone, at which the printed chains match it. -/
def tileS0 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond1 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off2 L v62 v64 v69 v71 v76 v78 v83 v85 v90 v92 v97 v99 v104 v106 v111 v113 = ![(k0_off3 L) 0, (pickNo p.1 p.2.1 p.2.2 v62 v64 v69 v71 v76 v78 v83 v85 v90 v92 v97 v99 v104 v106 v111 v113).toNat, 0, (k0_off3 L) 2, (k0_off3 L) 3] } :=
  ⟨(_, _, _), fun _ _ _ _ _ _ _ _ _ _ _ _ _ _ _ _ => ⟨rfl, rfl⟩⟩

theorem tileS0_ti : ∀ L : grid0.Coords, (tileS0 L).1.1 = BitVec.ofNat 32 (tiRow L 0) := by decide +kernel
theorem tileS0_tj : ∀ L : grid0.Coords, (tileS0 L).1.2.1 = BitVec.ofNat 32 (tjCol L 0) := by decide +kernel
theorem tileS0_odd : ∀ L : grid0.Coords, (tileS0 L).1.2.2 = BitVec.ofBool (decide ((L 1).val % 2 = 1)) := by decide +kernel

/-- Tile 0: the copy comes from the refined map of the tile's source window when the condition holds, and the tile
    has no source window when it does not. -/
theorem pick_0 (sel : IVec S16x4x2 32) (hsel : ∀ j, (sel j).toNat ≤ 1) (L : grid0.Coords) :
    (k0_cond1 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 0) (tjCol L 0) = some k
          ∧ k0_off2 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 0, 128 * tjCol L 0])
      ∧ (¬ k0_cond1 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 0) (tjCol L 0) = none) := by
  obtain ⟨hcond, hoff⟩ := (tileS0 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS0_ti, tileS0_tj, tileS0_odd] at hcond hoff
  obtain ⟨h1, h2⟩ := pick_core sel hsel L 0
  rw [hcond]
  refine ⟨fun h => ?_, h2⟩
  obtain ⟨k, hk, hn⟩ := h1 h
  refine ⟨k, hk, ?_⟩
  rw [hoff, hn, smp_off_0]
  rfl

/-- Tile 1: the sampling-map block's offsets. -/
theorem smp_off_1 : ∀ L : grid0.Coords, k0_off5 L = ![(L 1).val, 0, 128 * tiRow L 1, 128 * tjCol L 1] := by decide +kernel

set_option maxHeartbeats 4000000 in
/-- Tile 1: the printed condition and refined-map offsets in the shape above; the tile's row, its column and the
    image's parity are the three terms, of the place alone, at which the printed chains match it. -/
def tileS1 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond3 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off4 L v62 v64 v69 v71 v76 v78 v83 v85 v90 v92 v97 v99 v104 v106 v111 v113 = ![(k0_off5 L) 0, (pickNo p.1 p.2.1 p.2.2 v62 v64 v69 v71 v76 v78 v83 v85 v90 v92 v97 v99 v104 v106 v111 v113).toNat, 0, (k0_off5 L) 2, (k0_off5 L) 3] } :=
  ⟨(_, _, _), fun _ _ _ _ _ _ _ _ _ _ _ _ _ _ _ _ => ⟨rfl, rfl⟩⟩

theorem tileS1_ti : ∀ L : grid0.Coords, (tileS1 L).1.1 = BitVec.ofNat 32 (tiRow L 1) := by decide +kernel
theorem tileS1_tj : ∀ L : grid0.Coords, (tileS1 L).1.2.1 = BitVec.ofNat 32 (tjCol L 1) := by decide +kernel
theorem tileS1_odd : ∀ L : grid0.Coords, (tileS1 L).1.2.2 = BitVec.ofBool (decide ((L 1).val % 2 = 1)) := by decide +kernel

/-- Tile 1: the copy comes from the refined map of the tile's source window when the condition holds, and the tile
    has no source window when it does not. -/
theorem pick_1 (sel : IVec S16x4x2 32) (hsel : ∀ j, (sel j).toNat ≤ 1) (L : grid0.Coords) :
    (k0_cond3 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 1) (tjCol L 1) = some k
          ∧ k0_off4 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 1, 128 * tjCol L 1])
      ∧ (¬ k0_cond3 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 1) (tjCol L 1) = none) := by
  obtain ⟨hcond, hoff⟩ := (tileS1 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS1_ti, tileS1_tj, tileS1_odd] at hcond hoff
  obtain ⟨h1, h2⟩ := pick_core sel hsel L 1
  rw [hcond]
  refine ⟨fun h => ?_, h2⟩
  obtain ⟨k, hk, hn⟩ := h1 h
  refine ⟨k, hk, ?_⟩
  rw [hoff, hn, smp_off_1]
  rfl

/-- Tile 2: the sampling-map block's offsets. -/
theorem smp_off_2 : ∀ L : grid0.Coords, k0_off7 L = ![(L 1).val, 0, 128 * tiRow L 2, 128 * tjCol L 2] := by decide +kernel

set_option maxHeartbeats 4000000 in
/-- Tile 2: the printed condition and refined-map offsets in the shape above; the tile's row, its column and the
    image's parity are the three terms, of the place alone, at which the printed chains match it. -/
def tileS2 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond5 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off6 L v62 v64 v69 v71 v76 v78 v83 v85 v90 v92 v97 v99 v104 v106 v111 v113 = ![(k0_off7 L) 0, (pickNo p.1 p.2.1 p.2.2 v62 v64 v69 v71 v76 v78 v83 v85 v90 v92 v97 v99 v104 v106 v111 v113).toNat, 0, (k0_off7 L) 2, (k0_off7 L) 3] } :=
  ⟨(_, _, _), fun _ _ _ _ _ _ _ _ _ _ _ _ _ _ _ _ => ⟨rfl, rfl⟩⟩

theorem tileS2_ti : ∀ L : grid0.Coords, (tileS2 L).1.1 = BitVec.ofNat 32 (tiRow L 2) := by decide +kernel
theorem tileS2_tj : ∀ L : grid0.Coords, (tileS2 L).1.2.1 = BitVec.ofNat 32 (tjCol L 2) := by decide +kernel
theorem tileS2_odd : ∀ L : grid0.Coords, (tileS2 L).1.2.2 = BitVec.ofBool (decide ((L 1).val % 2 = 1)) := by decide +kernel

/-- Tile 2: the copy comes from the refined map of the tile's source window when the condition holds, and the tile
    has no source window when it does not. -/
theorem pick_2 (sel : IVec S16x4x2 32) (hsel : ∀ j, (sel j).toNat ≤ 1) (L : grid0.Coords) :
    (k0_cond5 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 2) (tjCol L 2) = some k
          ∧ k0_off6 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 2, 128 * tjCol L 2])
      ∧ (¬ k0_cond5 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 2) (tjCol L 2) = none) := by
  obtain ⟨hcond, hoff⟩ := (tileS2 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS2_ti, tileS2_tj, tileS2_odd] at hcond hoff
  obtain ⟨h1, h2⟩ := pick_core sel hsel L 2
  rw [hcond]
  refine ⟨fun h => ?_, h2⟩
  obtain ⟨k, hk, hn⟩ := h1 h
  refine ⟨k, hk, ?_⟩
  rw [hoff, hn, smp_off_2]
  rfl

/-- Tile 3: the sampling-map block's offsets. -/
theorem smp_off_3 : ∀ L : grid0.Coords, k0_off18 L = ![(L 1).val, 0, 128 * tiRow L 3, 128 * tjCol L 3] := by decide +kernel

set_option maxHeartbeats 4000000 in
/-- Tile 3: the printed condition and refined-map offsets in the shape above; the tile's row, its column and the
    image's parity are the three terms, of the place alone, at which the printed chains match it. -/
def tileS3 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond7 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off17 L v62 v64 v69 v71 v76 v78 v83 v85 v90 v92 v97 v99 v104 v106 v111 v113 = ![(k0_off18 L) 0, (pickNo p.1 p.2.1 p.2.2 v62 v64 v69 v71 v76 v78 v83 v85 v90 v92 v97 v99 v104 v106 v111 v113).toNat, 0, (k0_off18 L) 2, (k0_off18 L) 3] } :=
  ⟨(_, _, _), fun _ _ _ _ _ _ _ _ _ _ _ _ _ _ _ _ => ⟨rfl, rfl⟩⟩

theorem tileS3_ti : ∀ L : grid0.Coords, (tileS3 L).1.1 = BitVec.ofNat 32 (tiRow L 3) := by decide +kernel
theorem tileS3_tj : ∀ L : grid0.Coords, (tileS3 L).1.2.1 = BitVec.ofNat 32 (tjCol L 3) := by decide +kernel
theorem tileS3_odd : ∀ L : grid0.Coords, (tileS3 L).1.2.2 = BitVec.ofBool (decide ((L 1).val % 2 = 1)) := by decide +kernel

/-- Tile 3: the copy comes from the refined map of the tile's source window when the condition holds, and the tile
    has no source window when it does not. -/
theorem pick_3 (sel : IVec S16x4x2 32) (hsel : ∀ j, (sel j).toNat ≤ 1) (L : grid0.Coords) :
    (k0_cond7 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 3) (tjCol L 3) = some k
          ∧ k0_off17 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 3, 128 * tjCol L 3])
      ∧ (¬ k0_cond7 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 3) (tjCol L 3) = none) := by
  obtain ⟨hcond, hoff⟩ := (tileS3 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS3_ti, tileS3_tj, tileS3_odd] at hcond hoff
  obtain ⟨h1, h2⟩ := pick_core sel hsel L 3
  rw [hcond]
  refine ⟨fun h => ?_, h2⟩
  obtain ⟨k, hk, hn⟩ := h1 h
  refine ⟨k, hk, ?_⟩
  rw [hoff, hn, smp_off_3]
  rfl

/-- Tile 4: the sampling-map block's offsets. -/
theorem smp_off_4 : ∀ L : grid0.Coords, k0_off28 L = ![(L 1).val, 0, 128 * tiRow L 4, 128 * tjCol L 4] := by decide +kernel

set_option maxHeartbeats 4000000 in
/-- Tile 4: the printed condition and refined-map offsets in the shape above; the tile's row, its column and the
    image's parity are the three terms, of the place alone, at which the printed chains match it. -/
def tileS4 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond9 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off27 L v62 v64 v69 v71 v76 v78 v83 v85 v90 v92 v97 v99 v104 v106 v111 v113 = ![(k0_off28 L) 0, (pickNo p.1 p.2.1 p.2.2 v62 v64 v69 v71 v76 v78 v83 v85 v90 v92 v97 v99 v104 v106 v111 v113).toNat, 0, (k0_off28 L) 2, (k0_off28 L) 3] } :=
  ⟨(_, _, _), fun _ _ _ _ _ _ _ _ _ _ _ _ _ _ _ _ => ⟨rfl, rfl⟩⟩

theorem tileS4_ti : ∀ L : grid0.Coords, (tileS4 L).1.1 = BitVec.ofNat 32 (tiRow L 4) := by decide +kernel
theorem tileS4_tj : ∀ L : grid0.Coords, (tileS4 L).1.2.1 = BitVec.ofNat 32 (tjCol L 4) := by decide +kernel
theorem tileS4_odd : ∀ L : grid0.Coords, (tileS4 L).1.2.2 = BitVec.ofBool (decide ((L 1).val % 2 = 1)) := by decide +kernel

/-- Tile 4: the copy comes from the refined map of the tile's source window when the condition holds, and the tile
    has no source window when it does not. -/
theorem pick_4 (sel : IVec S16x4x2 32) (hsel : ∀ j, (sel j).toNat ≤ 1) (L : grid0.Coords) :
    (k0_cond9 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 4) (tjCol L 4) = some k
          ∧ k0_off27 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 4, 128 * tjCol L 4])
      ∧ (¬ k0_cond9 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 4) (tjCol L 4) = none) := by
  obtain ⟨hcond, hoff⟩ := (tileS4 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS4_ti, tileS4_tj, tileS4_odd] at hcond hoff
  obtain ⟨h1, h2⟩ := pick_core sel hsel L 4
  rw [hcond]
  refine ⟨fun h => ?_, h2⟩
  obtain ⟨k, hk, hn⟩ := h1 h
  refine ⟨k, hk, ?_⟩
  rw [hoff, hn, smp_off_4]
  rfl

/-- Tile 5: the sampling-map block's offsets. -/
theorem smp_off_5 : ∀ L : grid0.Coords, k0_off38 L = ![(L 1).val, 0, 128 * tiRow L 5, 128 * tjCol L 5] := by decide +kernel

set_option maxHeartbeats 4000000 in
/-- Tile 5: the printed condition and refined-map offsets in the shape above; the tile's row, its column and the
    image's parity are the three terms, of the place alone, at which the printed chains match it. -/
def tileS5 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond11 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off37 L v62 v64 v69 v71 v76 v78 v83 v85 v90 v92 v97 v99 v104 v106 v111 v113 = ![(k0_off38 L) 0, (pickNo p.1 p.2.1 p.2.2 v62 v64 v69 v71 v76 v78 v83 v85 v90 v92 v97 v99 v104 v106 v111 v113).toNat, 0, (k0_off38 L) 2, (k0_off38 L) 3] } :=
  ⟨(_, _, _), fun _ _ _ _ _ _ _ _ _ _ _ _ _ _ _ _ => ⟨rfl, rfl⟩⟩

theorem tileS5_ti : ∀ L : grid0.Coords, (tileS5 L).1.1 = BitVec.ofNat 32 (tiRow L 5) := by decide +kernel
theorem tileS5_tj : ∀ L : grid0.Coords, (tileS5 L).1.2.1 = BitVec.ofNat 32 (tjCol L 5) := by decide +kernel
theorem tileS5_odd : ∀ L : grid0.Coords, (tileS5 L).1.2.2 = BitVec.ofBool (decide ((L 1).val % 2 = 1)) := by decide +kernel

/-- Tile 5: the copy comes from the refined map of the tile's source window when the condition holds, and the tile
    has no source window when it does not. -/
theorem pick_5 (sel : IVec S16x4x2 32) (hsel : ∀ j, (sel j).toNat ≤ 1) (L : grid0.Coords) :
    (k0_cond11 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 5) (tjCol L 5) = some k
          ∧ k0_off37 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 5, 128 * tjCol L 5])
      ∧ (¬ k0_cond11 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 5) (tjCol L 5) = none) := by
  obtain ⟨hcond, hoff⟩ := (tileS5 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS5_ti, tileS5_tj, tileS5_odd] at hcond hoff
  obtain ⟨h1, h2⟩ := pick_core sel hsel L 5
  rw [hcond]
  refine ⟨fun h => ?_, h2⟩
  obtain ⟨k, hk, hn⟩ := h1 h
  refine ⟨k, hk, ?_⟩
  rw [hoff, hn, smp_off_5]
  rfl

/-- Tile 6: the sampling-map block's offsets. -/
theorem smp_off_6 : ∀ L : grid0.Coords, k0_off48 L = ![(L 1).val, 0, 128 * tiRow L 6, 128 * tjCol L 6] := by decide +kernel

set_option maxHeartbeats 4000000 in
/-- Tile 6: the printed condition and refined-map offsets in the shape above; the tile's row, its column and the
    image's parity are the three terms, of the place alone, at which the printed chains match it. -/
def tileS6 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond13 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off47 L v62 v64 v69 v71 v76 v78 v83 v85 v90 v92 v97 v99 v104 v106 v111 v113 = ![(k0_off48 L) 0, (pickNo p.1 p.2.1 p.2.2 v62 v64 v69 v71 v76 v78 v83 v85 v90 v92 v97 v99 v104 v106 v111 v113).toNat, 0, (k0_off48 L) 2, (k0_off48 L) 3] } :=
  ⟨(_, _, _), fun _ _ _ _ _ _ _ _ _ _ _ _ _ _ _ _ => ⟨rfl, rfl⟩⟩

theorem tileS6_ti : ∀ L : grid0.Coords, (tileS6 L).1.1 = BitVec.ofNat 32 (tiRow L 6) := by decide +kernel
theorem tileS6_tj : ∀ L : grid0.Coords, (tileS6 L).1.2.1 = BitVec.ofNat 32 (tjCol L 6) := by decide +kernel
theorem tileS6_odd : ∀ L : grid0.Coords, (tileS6 L).1.2.2 = BitVec.ofBool (decide ((L 1).val % 2 = 1)) := by decide +kernel

/-- Tile 6: the copy comes from the refined map of the tile's source window when the condition holds, and the tile
    has no source window when it does not. -/
theorem pick_6 (sel : IVec S16x4x2 32) (hsel : ∀ j, (sel j).toNat ≤ 1) (L : grid0.Coords) :
    (k0_cond13 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 6) (tjCol L 6) = some k
          ∧ k0_off47 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 6, 128 * tjCol L 6])
      ∧ (¬ k0_cond13 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 6) (tjCol L 6) = none) := by
  obtain ⟨hcond, hoff⟩ := (tileS6 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS6_ti, tileS6_tj, tileS6_odd] at hcond hoff
  obtain ⟨h1, h2⟩ := pick_core sel hsel L 6
  rw [hcond]
  refine ⟨fun h => ?_, h2⟩
  obtain ⟨k, hk, hn⟩ := h1 h
  refine ⟨k, hk, ?_⟩
  rw [hoff, hn, smp_off_6]
  rfl

/-- Tile 7: the sampling-map block's offsets. -/
theorem smp_off_7 : ∀ L : grid0.Coords, k0_off58 L = ![(L 1).val, 0, 128 * tiRow L 7, 128 * tjCol L 7] := by decide +kernel

set_option maxHeartbeats 4000000 in
/-- Tile 7: the printed condition and refined-map offsets in the shape above; the tile's row, its column and the
    image's parity are the three terms, of the place alone, at which the printed chains match it. -/
def tileS7 (L : grid0.Coords) : { p : BitVec 32 × BitVec 32 × BitVec 1 // ∀ (v62 : BitVec 32) (v64 : BitVec 32) (v69 : BitVec 32) (v71 : BitVec 32) (v76 : BitVec 32) (v78 : BitVec 32) (v83 : BitVec 32) (v85 : BitVec 32) (v90 : BitVec 32) (v92 : BitVec 32) (v97 : BitVec 32) (v99 : BitVec 32) (v104 : BitVec 32) (v106 : BitVec 32) (v111 : BitVec 32) (v113 : BitVec 32),
    k0_cond15 L v62 v64 v69 v71 v76 v78 v83 v85 v90 v92 v97 v99 v104 v106 v111 v113 = nonneg (pickNo p.1 p.2.1 p.2.2 v62 v64 v69 v71 v76 v78 v83 v85 v90 v92 v97 v99 v104 v106 v111 v113)
    ∧ k0_off57 L v62 v64 v69 v71 v76 v78 v83 v85 v90 v92 v97 v99 v104 v106 v111 v113 = ![(k0_off58 L) 0, (pickNo p.1 p.2.1 p.2.2 v62 v64 v69 v71 v76 v78 v83 v85 v90 v92 v97 v99 v104 v106 v111 v113).toNat, 0, (k0_off58 L) 2, (k0_off58 L) 3] } :=
  ⟨(_, _, _), fun _ _ _ _ _ _ _ _ _ _ _ _ _ _ _ _ => ⟨rfl, rfl⟩⟩

theorem tileS7_ti : ∀ L : grid0.Coords, (tileS7 L).1.1 = BitVec.ofNat 32 (tiRow L 7) := by decide +kernel
theorem tileS7_tj : ∀ L : grid0.Coords, (tileS7 L).1.2.1 = BitVec.ofNat 32 (tjCol L 7) := by decide +kernel
theorem tileS7_odd : ∀ L : grid0.Coords, (tileS7 L).1.2.2 = BitVec.ofBool (decide ((L 1).val % 2 = 1)) := by decide +kernel

/-- Tile 7: the copy comes from the refined map of the tile's source window when the condition holds, and the tile
    has no source window when it does not. -/
theorem pick_7 (sel : IVec S16x4x2 32) (hsel : ∀ j, (sel j).toNat ≤ 1) (L : grid0.Coords) :
    (k0_cond15 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 →
        ∃ k : Fin 4, Cert.Fuse.tileSource sel (jL L) (tiRow L 7) (tjCol L 7) = some k
          ∧ k0_off57 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = ![(L 1).val, k.val, 0, 128 * tiRow L 7, 128 * tjCol L 7])
      ∧ (¬ k0_cond15 L (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7) = 1#1 → Cert.Fuse.tileSource sel (jL L) (tiRow L 7) (tjCol L 7) = none) := by
  obtain ⟨hcond, hoff⟩ := (tileS7 L).2 (lane sel L 8) (lane sel L 0) (lane sel L 10) (lane sel L 2) (lane sel L 12) (lane sel L 4) (lane sel L 14) (lane sel L 6) (lane sel L 9) (lane sel L 1) (lane sel L 11) (lane sel L 3) (lane sel L 13) (lane sel L 5) (lane sel L 15) (lane sel L 7)
  rw [tileS7_ti, tileS7_tj, tileS7_odd] at hcond hoff
  obtain ⟨h1, h2⟩ := pick_core sel hsel L 7
  rw [hcond]
  refine ⟨fun h => ?_, h2⟩
  obtain ⟨k, hk, hn⟩ := h1 h
  refine ⟨k, hk, ?_⟩
  rw [hoff, hn, smp_off_7]
  rfl

end Cert.Proof.KB

end
-- ==== Proof.KBLoops.lean ====
/-
  What one trip of a tile's loop leaves in its output slot.

  A trip handles two rows of the 128 × 128 slot, `2k` and `2k + 1`, in eight segments of sixteen lanes each: it loads the
  segment of the input slot, takes `1 / (1 + exp (0 - v))` lane by lane, and stores the result at the same segment of the
  output slot. So after the trip the output slot agrees with the logistic function of the input slot on every row below
  `2 (k + 1)`, if it did on every row below `2k` before: the sixteen segments are the two rows, and no store reaches a
  row below `2k`.
-/
import proofs.«207346_g72533407695360_cont_9to1_m_270_11_alg».proof.Proof.KBTile
import proofs.«207346_g72533407695360_cont_9to1_m_270_11_alg».proof.Proof.Spec
import Idealize.ShloMosaic.Lib.Pipeline.Value
import Idealize.ShloMosaic.Lib.Writes

noncomputable section

namespace Cert.Proof.KB

open Cert.Kernel Cert.Kernel.Gen Idealize.ShloMosaic Idealize.ShloMosaic.ValueIdx

variable {F : FTy → Type} [FloatOps F]

/-! ## One row of sixteen lanes -/

/-- The logistic function of a 1 × 16 row, lane by lane, as the body computes it: the row flattened, `1 / (1 + exp (0 - v))`, the
    result given its row shape back. -/
def sig16 (w : Vec F S1x16 .f32) : FVec F S1x16 .f32 :=
  shapeCast S1x16 (divf (broadcast S16 (Scalar.ofBits .f32 0x3F800000#32)) (addf (broadcast S16 (Scalar.ofBits .f32 0x3F800000#32))
    (exp (subf (broadcast S16 (Scalar.ofBits .f32 0x00000000#32)) (shapeCast S16 w shapeCasts_S1x16_S16))))) shapeCasts_S16_S1x16

/-- Lane `x` of it is the specification's logistic function of lane `x`: flattening and unflattening keep the lane. -/
theorem sig16_apply (w : Vec F S1x16 .f32) (x : S1x16.Idx) : sig16 w x = Cert.Fuse.logistic (w x) := by
  have h0 : (x 0).val = 0 := by have h : (x 0).val < 1 := (x 0).isLt; omega
  have hk : (S16.rowMajor (ix1 (x 1 : Fin 16))).val = (S1x16.rowMajor x).val := by
    rw [Shape.rowMajor_val_one, Shape.rowMajor_val_two, h0]; show (x 1).val = 0 * 16 + (x 1).val; omega
  unfold sig16
  rw [shapeCast_apply _ shapeCasts_S16_S1x16 x (ix1 (x 1 : Fin 16)) hk]
  show Cert.Fuse.logistic (shapeCast S16 w shapeCasts_S1x16_S16 (ix1 (x 1 : Fin 16))) = _
  rw [shapeCast_apply w shapeCasts_S1x16_S16 (ix1 (x 1 : Fin 16)) x hk.symm]

/-! ## One store of a trip -/

/-- A piece is the store of trip `k` at row `2k + r`, columns `16c … 16c + 15`: it holds the logistic function of the input there,
    and its rectangle is that row segment. -/
def Good (k r c : ℕ) (fa : S128x128.Idx → F .f32) (p : View.Piece (Elt F) S128x128 .f32) : Prop :=
  (∀ x, p.2 x = Cert.Fuse.logistic (fa (p.1.emb x)))
    ∧ ∀ y : S128x128.Idx, y ∈ p.1.set ↔ ((y 0).val = 2 * k + r ∧ 16 * c ≤ (y 1).val ∧ (y 1).val < 16 * c + 16)

theorem good_of (k r c : ℕ) (fa : S128x128.Idx → F .f32) (off : Fin S128x128.rank → ℕ) (inb : ∀ a, off a + S1x16.size a ≤ S128x128.size a)
    (heq : off = ![2 * k + r, 16 * c]) (w : Vec F S1x16 .f32)
    (hw : ∀ x, w x = fa ((Rect.unit (s := S128x128) off S1x16.size inb).emb x)) (pay : FVec F S1x16 .f32) (hpay : pay = sig16 w) :
    Good k r c fa ⟨Rect.unit (s := S128x128) off S1x16.size inb, pay⟩ := by
  subst heq
  refine ⟨fun x => ?_, fun y => ?_⟩
  · show pay x = _
    rw [hpay, sig16_apply, hw]
  · show y ∈ (Rect.unit (s := S128x128) ![2 * k + r, 16 * c] S1x16.size inb).set ↔ _
    rw [Rect.mem_set_unit]
    constructor
    · intro h
      have h0 := h 0; have h1 := h 1
      simp only [Matrix.cons_val_zero, Matrix.cons_val_one, Matrix.head_cons, Matrix.cons_val] at h0 h1
      omega
    · rintro ⟨h0, h1, h2⟩
      show ∀ a : Fin 2, _
      intro a
      fin_cases a
      · show 2 * k + r ≤ (y 0).val ∧ (y 0).val < 2 * k + r + 1; omega
      · show 16 * c ≤ (y 1).val ∧ (y 1).val < 16 * c + 16; omega

/-! ## One trip -/

/-- If every store of the trip is such a piece, and every row segment of rows `2k` and `2k + 1` is some store's, then the
    buffer agrees with the logistic function of the input on the rows below `2 (k + 1)` once it did on the rows below `2k`. -/
theorem rows_step {κ : Kind} {sp : Space} (v : View sig κ sp S128x128 .f32) (k : ℕ) (fa : S128x128.Idx → F .f32) (f : v.ty.Contents (Elt F))
    (L : List (View.Piece (Elt F) S128x128 .f32))
    (hgood : ∀ p ∈ L, ∃ r c, Good k r c fa p)
    (hcov : ∀ r < 2, ∀ c < 8, ∃ p ∈ L, Good k r c fa p)
    (h : ∀ y : S128x128.Idx, (y 0).val < 2 * k → v.read (Elt F) f y = Cert.Fuse.logistic (fa y)) :
    ∀ y : S128x128.Idx, (y 0).val < 2 * (k + 1) → v.read (Elt F) (v.writes (Elt F) f L) y = Cert.Fuse.logistic (fa y) := by
  intro y hy
  by_cases hlt : (y 0).val < 2 * k
  · rw [View.read_writes_apply_of_forall_not_mem v f y L (fun p hp hm => by
      obtain ⟨r, c, hg⟩ := hgood p hp
      have := (hg.2 y).mp hm
      omega)]
    exact h y hlt
  · have hy1 : (y 1).val < 128 := (y 1).isLt
    obtain ⟨p, hp, hg⟩ := hcov ((y 0).val - 2 * k) (by omega) ((y 1).val / 16) (by omega)
    exact View.read_writes_apply_of_pieces v f (fun y => Cert.Fuse.logistic (fa y)) L
      (fun p hp x => by obtain ⟨r, c, hg⟩ := hgood p hp; exact hg.1 x) y ⟨p, hp, (hg.2 y).mpr ⟨by omega, by omega, by omega⟩⟩

/-! ## Loop 1: from cc0_scratch1 to cc0_scratch4 -/

/-- The stores one trip of loop 1 leaves, the last first. -/
def pieces1 (k : Fin k0_t1_loop.trips) (fa : FVec F S128x128 .f32) : List (View.Piece (Elt F) S128x128 .f32) :=
  [⟨Rect.unit (s := S128x128) (k0_off15 k 1#32) S1x16.size (k0_off15_inb k 1), k0_pay179 (View.readAt (Elt F) (Memref.whole cc0_scratch1 : Memref sig .scVector .vmem S128x128 .f32).view (Rect.unit (s := S128x128) (k0_off15 k 1#32) S1x16.size (k0_off15_inb k 1)).toLoadRect fa)⟩,
   ⟨Rect.unit (s := S128x128) (k0_off14 k 1#32) S1x16.size (k0_off14_inb k 1), k0_pay178 (k0_pay20 (View.readAt (Elt F) (Memref.whole cc0_scratch1 : Memref sig .scVector .vmem S128x128 .f32).view (Rect.unit (s := S128x128) (k0_off14 k 1#32) S1x16.size (k0_off14_inb k 1)).toLoadRect fa))⟩,
   ⟨Rect.unit (s := S128x128) (k0_off13 k 1#32) S1x16.size (k0_off13_inb k 1), k0_pay19 (View.readAt (Elt F) (Memref.whole cc0_scratch1 : Memref sig .scVector .vmem S128x128 .f32).view (Rect.unit (s := S128x128) (k0_off13 k 1#32) S1x16.size (k0_off13_inb k 1)).toLoadRect fa)⟩,
   ⟨Rect.unit (s := S128x128) (k0_off12 k 1#32) S1x16.size (k0_off12_inb k 1), k0_pay18 (k0_pay17 (View.readAt (Elt F) (Memref.whole cc0_scratch1 : Memref sig .scVector .vmem S128x128 .f32).view (Rect.unit (s := S128x128) (k0_off12 k 1#32) S1x16.size (k0_off12_inb k 1)).toLoadRect fa))⟩,
   ⟨Rect.unit (s := S128x128) (k0_off11 k 1#32) S1x16.size (k0_off11_inb k 1), k0_pay16 (View.readAt (Elt F) (Memref.whole cc0_scratch1 : Memref sig .scVector .vmem S128x128 .f32).view (Rect.unit (s := S128x128) (k0_off11 k 1#32) S1x16.size (k0_off11_inb k 1)).toLoadRect fa)⟩,
   ⟨Rect.unit (s := S128x128) (k0_off10 k 1#32) S1x16.size (k0_off10_inb k 1), k0_pay15 (View.readAt (Elt F) (Memref.whole cc0_scratch1 : Memref sig .scVector .vmem S128x128 .f32).view (Rect.unit (s := S128x128) (k0_off10 k 1#32) S1x16.size (k0_off10_inb k 1)).toLoadRect fa)⟩,
   ⟨Rect.unit (s := S128x128) (k0_off9 k 1#32) S1x16.size (k0_off9_inb k 1), k0_pay14 (k0_pay13 (View.readAt (Elt F) (Memref.whole cc0_scratch1 : Memref sig .scVector .vmem S128x128 .f32).view (Rect.unit (s := S128x128) (k0_off9 k 1#32) S1x16.size (k0_off9_inb k 1)).toLoadRect fa))⟩,
   ⟨Rect.unit (s := S128x128) (k0_off8 k 1#32) S1x16.size (k0_off8_inb k 1), k0_pay12 (View.readAt (Elt F) (Memref.whole cc0_scratch1 : Memref sig .scVector .vmem S128x128 .f32).view (Rect.unit (s := S128x128) (k0_off8 k 1#32) S1x16.size (k0_off8_inb k 1)).toLoadRect fa)⟩,
   ⟨Rect.unit (s := S128x128) (k0_off15 k 0#32) S1x16.size (k0_off15_inb k 0), k0_pay11 (k0_pay10 (View.readAt (Elt F) (Memref.whole cc0_scratch1 : Memref sig .scVector .vmem S128x128 .f32).view (Rect.unit (s := S128x128) (k0_off15 k 0#32) S1x16.size (k0_off15_inb k 0)).toLoadRect fa))⟩,
   ⟨Rect.unit (s := S128x128) (k0_off14 k 0#32) S1x16.size (k0_off14_inb k 0), k0_pay9 (View.readAt (Elt F) (Memref.whole cc0_scratch1 : Memref sig .scVector .vmem S128x128 .f32).view (Rect.unit (s := S128x128) (k0_off14 k 0#32) S1x16.size (k0_off14_inb k 0)).toLoadRect fa)⟩,
   ⟨Rect.unit (s := S128x128) (k0_off13 k 0#32) S1x16.size (k0_off13_inb k 0), k0_pay8 (View.readAt (Elt F) (Memref.whole cc0_scratch1 : Memref sig .scVector .vmem S128x128 .f32).view (Rect.unit (s := S128x128) (k0_off13 k 0#32) S1x16.size (k0_off13_inb k 0)).toLoadRect fa)⟩,
   ⟨Rect.unit (s := S128x128) (k0_off12 k 0#32) S1x16.size (k0_off12_inb k 0), k0_pay7 (k0_pay6 (View.readAt (Elt F) (Memref.whole cc0_scratch1 : Memref sig .scVector .vmem S128x128 .f32).view (Rect.unit (s := S128x128) (k0_off12 k 0#32) S1x16.size (k0_off12_inb k 0)).toLoadRect fa))⟩,
   ⟨Rect.unit (s := S128x128) (k0_off11 k 0#32) S1x16.size (k0_off11_inb k 0), k0_pay5 (View.readAt (Elt F) (Memref.whole cc0_scratch1 : Memref sig .scVector .vmem S128x128 .f32).view (Rect.unit (s := S128x128) (k0_off11 k 0#32) S1x16.size (k0_off11_inb k 0)).toLoadRect fa)⟩,
   ⟨Rect.unit (s := S128x128) (k0_off10 k 0#32) S1x16.size (k0_off10_inb k 0), k0_pay4 (k0_pay3 (View.readAt (Elt F) (Memref.whole cc0_scratch1 : Memref sig .scVector .vmem S128x128 .f32).view (Rect.unit (s := S128x128) (k0_off10 k 0#32) S1x16.size (k0_off10_inb k 0)).toLoadRect fa))⟩,
   ⟨Rect.unit (s := S128x128) (k0_off9 k 0#32) S1x16.size (k0_off9_inb k 0), k0_pay2 (View.readAt (Elt F) (Memref.whole cc0_scratch1 : Memref sig .scVector .vmem S128x128 .f32).view (Rect.unit (s := S128x128) (k0_off9 k 0#32) S1x16.size (k0_off9_inb k 0)).toLoadRect fa)⟩,
   ⟨Rect.unit (s := S128x128) (k0_off8 k 0#32) S1x16.size (k0_off8_inb k 0), k0_pay1 (View.readAt (Elt F) (Memref.whole cc0_scratch1 : Memref sig .scVector .vmem S128x128 .f32).view (Rect.unit (s := S128x128) (k0_off8 k 0#32) S1x16.size (k0_off8_inb k 0)).toLoadRect fa)⟩]

theorem good1_0 (k : Fin k0_t1_loop.trips) (fa : FVec F S128x128 .f32) :
    Good k.val 1 7 fa ⟨Rect.unit (s := S128x128) (k0_off15 k 1#32) S1x16.size (k0_off15_inb k 1), k0_pay179 (View.readAt (Elt F) (Memref.whole cc0_scratch1 : Memref sig .scVector .vmem S128x128 .f32).view (Rect.unit (s := S128x128) (k0_off15 k 1#32) S1x16.size (k0_off15_inb k 1)).toLoadRect fa)⟩ :=
  good_of k.val 1 7 fa _ _ (k0_off15_eq k 1) (View.readAt (Elt F) (Memref.whole cc0_scratch1 : Memref sig .scVector .vmem S128x128 .f32).view (Rect.unit (s := S128x128) (k0_off15 k 1#32) S1x16.size (k0_off15_inb k 1)).toLoadRect fa) (fun _ => rfl) _ rfl

theorem good1_1 (k : Fin k0_t1_loop.trips) (fa : FVec F S128x128 .f32) :
    Good k.val 1 6 fa ⟨Rect.unit (s := S128x128) (k0_off14 k 1#32) S1x16.size (k0_off14_inb k 1), k0_pay178 (k0_pay20 (View.readAt (Elt F) (Memref.whole cc0_scratch1 : Memref sig .scVector .vmem S128x128 .f32).view (Rect.unit (s := S128x128) (k0_off14 k 1#32) S1x16.size (k0_off14_inb k 1)).toLoadRect fa))⟩ :=
  good_of k.val 1 6 fa _ _ (k0_off14_eq k 1) (View.readAt (Elt F) (Memref.whole cc0_scratch1 : Memref sig .scVector .vmem S128x128 .f32).view (Rect.unit (s := S128x128) (k0_off14 k 1#32) S1x16.size (k0_off14_inb k 1)).toLoadRect fa) (fun _ => rfl) _ rfl

theorem good1_2 (k : Fin k0_t1_loop.trips) (fa : FVec F S128x128 .f32) :
    Good k.val 1 5 fa ⟨Rect.unit (s := S128x128) (k0_off13 k 1#32) S1x16.size (k0_off13_inb k 1), k0_pay19 (View.readAt (Elt F) (Memref.whole cc0_scratch1 : Memref sig .scVector .vmem S128x128 .f32).view (Rect.unit (s := S128x128) (k0_off13 k 1#32) S1x16.size (k0_off13_inb k 1)).toLoadRect fa)⟩ :=
  good_of k.val 1 5 fa _ _ (k0_off13_eq k 1) (View.readAt (Elt F) (Memref.whole cc0_scratch1 : Memref sig .scVector .vmem S128x128 .f32).view (Rect.unit (s := S128x128) (k0_off13 k 1#32) S1x16.size (k0_off13_inb k 1)).toLoadRect fa) (fun _ => rfl) _ rfl

theorem good1_3 (k : Fin k0_t1_loop.trips) (fa : FVec F S128x128 .f32) :
    Good k.val 1 4 fa ⟨Rect.unit (s := S128x128) (k0_off12 k 1#32) S1x16.size (k0_off12_inb k 1), k0_pay18 (k0_pay17 (View.readAt (Elt F) (Memref.whole cc0_scratch1 : Memref sig .scVector .vmem S128x128 .f32).view (Rect.unit (s := S128x128) (k0_off12 k 1#32) S1x16.size (k0_off12_inb k 1)).toLoadRect fa))⟩ :=
  good_of k.val 1 4 fa _ _ (k0_off12_eq k 1) (View.readAt (Elt F) (Memref.whole cc0_scratch1 : Memref sig .scVector .vmem S128x128 .f32).view (Rect.unit (s := S128x128) (k0_off12 k 1#32) S1x16.size (k0_off12_inb k 1)).toLoadRect fa) (fun _ => rfl) _ rfl

theorem good1_4 (k : Fin k0_t1_loop.trips) (fa : FVec F S128x128 .f32) :
    Good k.val 1 3 fa ⟨Rect.unit (s := S128x128) (k0_off11 k 1#32) S1x16.size (k0_off11_inb k 1), k0_pay16 (View.readAt (Elt F) (Memref.whole cc0_scratch1 : Memref sig .scVector .vmem S128x128 .f32).view (Rect.unit (s := S128x128) (k0_off11 k 1#32) S1x16.size (k0_off11_inb k 1)).toLoadRect fa)⟩ :=
  good_of k.val 1 3 fa _ _ (k0_off11_eq k 1) (View.readAt (Elt F) (Memref.whole cc0_scratch1 : Memref sig .scVector .vmem S128x128 .f32).view (Rect.unit (s := S128x128) (k0_off11 k 1#32) S1x16.size (k0_off11_inb k 1)).toLoadRect fa) (fun _ => rfl) _ rfl

theorem good1_5 (k : Fin k0_t1_loop.trips) (fa : FVec F S128x128 .f32) :
    Good k.val 1 2 fa ⟨Rect.unit (s := S128x128) (k0_off10 k 1#32) S1x16.size (k0_off10_inb k 1), k0_pay15 (View.readAt (Elt F) (Memref.whole cc0_scratch1 : Memref sig .scVector .vmem S128x128 .f32).view (Rect.unit (s := S128x128) (k0_off10 k 1#32) S1x16.size (k0_off10_inb k 1)).toLoadRect fa)⟩ :=
  good_of k.val 1 2 fa _ _ (k0_off10_eq k 1) (View.readAt (Elt F) (Memref.whole cc0_scratch1 : Memref sig .scVector .vmem S128x128 .f32).view (Rect.unit (s := S128x128) (k0_off10 k 1#32) S1x16.size (k0_off10_inb k 1)).toLoadRect fa) (fun _ => rfl) _ rfl

theorem good1_6 (k : Fin k0_t1_loop.trips) (fa : FVec F S128x128 .f32) :
    Good k.val 1 1 fa ⟨Rect.unit (s := S128x128) (k0_off9 k 1#32) S1x16.size (k0_off9_inb k 1), k0_pay14 (k0_pay13 (View.readAt (Elt F) (Memref.whole cc0_scratch1 : Memref sig .scVector .vmem S128x128 .f32).view (Rect.unit (s := S128x128) (k0_off9 k 1#32) S1x16.size (k0_off9_inb k 1)).toLoadRect fa))⟩ :=
  good_of k.val 1 1 fa _ _ (k0_off9_eq k 1) (View.readAt (Elt F) (Memref.whole cc0_scratch1 : Memref sig .scVector .vmem S128x128 .f32).view (Rect.unit (s := S128x128) (k0_off9 k 1#32) S1x16.size (k0_off9_inb k 1)).toLoadRect fa) (fun _ => rfl) _ rfl

theorem good1_7 (k : Fin k0_t1_loop.trips) (fa : FVec F S128x128 .f32) :
    Good k.val 1 0 fa ⟨Rect.unit (s := S128x128) (k0_off8 k 1#32) S1x16.size (k0_off8_inb k 1), k0_pay12 (View.readAt (Elt F) (Memref.whole cc0_scratch1 : Memref sig .scVector .vmem S128x128 .f32).view (Rect.unit (s := S128x128) (k0_off8 k 1#32) S1x16.size (k0_off8_inb k 1)).toLoadRect fa)⟩ :=
  good_of k.val 1 0 fa _ _ (k0_off8_eq k 1) (View.readAt (Elt F) (Memref.whole cc0_scratch1 : Memref sig .scVector .vmem S128x128 .f32).view (Rect.unit (s := S128x128) (k0_off8 k 1#32) S1x16.size (k0_off8_inb k 1)).toLoadRect fa) (fun _ => rfl) _ rfl

theorem good1_8 (k : Fin k0_t1_loop.trips) (fa : FVec F S128x128 .f32) :
    Good k.val 0 7 fa ⟨Rect.unit (s := S128x128) (k0_off15 k 0#32) S1x16.size (k0_off15_inb k 0), k0_pay11 (k0_pay10 (View.readAt (Elt F) (Memref.whole cc0_scratch1 : Memref sig .scVector .vmem S128x128 .f32).view (Rect.unit (s := S128x128) (k0_off15 k 0#32) S1x16.size (k0_off15_inb k 0)).toLoadRect fa))⟩ :=
  good_of k.val 0 7 fa _ _ (k0_off15_eq k 0) (View.readAt (Elt F) (Memref.whole cc0_scratch1 : Memref sig .scVector .vmem S128x128 .f32).view (Rect.unit (s := S128x128) (k0_off15 k 0#32) S1x16.size (k0_off15_inb k 0)).toLoadRect fa) (fun _ => rfl) _ rfl

theorem good1_9 (k : Fin k0_t1_loop.trips) (fa : FVec F S128x128 .f32) :
    Good k.val 0 6 fa ⟨Rect.unit (s := S128x128) (k0_off14 k 0#32) S1x16.size (k0_off14_inb k 0), k0_pay9 (View.readAt (Elt F) (Memref.whole cc0_scratch1 : Memref sig .scVector .vmem S128x128 .f32).view (Rect.unit (s := S128x128) (k0_off14 k 0#32) S1x16.size (k0_off14_inb k 0)).toLoadRect fa)⟩ :=
  good_of k.val 0 6 fa _ _ (k0_off14_eq k 0) (View.readAt (Elt F) (Memref.whole cc0_scratch1 : Memref sig .scVector .vmem S128x128 .f32).view (Rect.unit (s := S128x128) (k0_off14 k 0#32) S1x16.size (k0_off14_inb k 0)).toLoadRect fa) (fun _ => rfl) _ rfl

theorem good1_10 (k : Fin k0_t1_loop.trips) (fa : FVec F S128x128 .f32) :
    Good k.val 0 5 fa ⟨Rect.unit (s := S128x128) (k0_off13 k 0#32) S1x16.size (k0_off13_inb k 0), k0_pay8 (View.readAt (Elt F) (Memref.whole cc0_scratch1 : Memref sig .scVector .vmem S128x128 .f32).view (Rect.unit (s := S128x128) (k0_off13 k 0#32) S1x16.size (k0_off13_inb k 0)).toLoadRect fa)⟩ :=
  good_of k.val 0 5 fa _ _ (k0_off13_eq k 0) (View.readAt (Elt F) (Memref.whole cc0_scratch1 : Memref sig .scVector .vmem S128x128 .f32).view (Rect.unit (s := S128x128) (k0_off13 k 0#32) S1x16.size (k0_off13_inb k 0)).toLoadRect fa) (fun _ => rfl) _ rfl

theorem good1_11 (k : Fin k0_t1_loop.trips) (fa : FVec F S128x128 .f32) :
    Good k.val 0 4 fa ⟨Rect.unit (s := S128x128) (k0_off12 k 0#32) S1x16.size (k0_off12_inb k 0), k0_pay7 (k0_pay6 (View.readAt (Elt F) (Memref.whole cc0_scratch1 : Memref sig .scVector .vmem S128x128 .f32).view (Rect.unit (s := S128x128) (k0_off12 k 0#32) S1x16.size (k0_off12_inb k 0)).toLoadRect fa))⟩ :=
  good_of k.val 0 4 fa _ _ (k0_off12_eq k 0) (View.readAt (Elt F) (Memref.whole cc0_scratch1 : Memref sig .scVector .vmem S128x128 .f32).view (Rect.unit (s := S128x128) (k0_off12 k 0#32) S1x16.size (k0_off12_inb k 0)).toLoadRect fa) (fun _ => rfl) _ rfl

theorem good1_12 (k : Fin k0_t1_loop.trips) (fa : FVec F S128x128 .f32) :
    Good k.val 0 3 fa ⟨Rect.unit (s := S128x128) (k0_off11 k 0#32) S1x16.size (k0_off11_inb k 0), k0_pay5 (View.readAt (Elt F) (Memref.whole cc0_scratch1 : Memref sig .scVector .vmem S128x128 .f32).view (Rect.unit (s := S128x128) (k0_off11 k 0#32) S1x16.size (k0_off11_inb k 0)).toLoadRect fa)⟩ :=
  good_of k.val 0 3 fa _ _ (k0_off11_eq k 0) (View.readAt (Elt F) (Memref.whole cc0_scratch1 : Memref sig .scVector .vmem S128x128 .f32).view (Rect.unit (s := S128x128) (k0_off11 k 0#32) S1x16.size (k0_off11_inb k 0)).toLoadRect fa) (fun _ => rfl) _ rfl

theorem good1_13 (k : Fin k0_t1_loop.trips) (fa : FVec F S128x128 .f32) :
    Good k.val 0 2 fa ⟨Rect.unit (s := S128x128) (k0_off10 k 0#32) S1x16.size (k0_off10_inb k 0), k0_pay4 (k0_pay3 (View.readAt (Elt F) (Memref.whole cc0_scratch1 : Memref sig .scVector .vmem S128x128 .f32).view (Rect.unit (s := S128x128) (k0_off10 k 0#32) S1x16.size (k0_off10_inb k 0)).toLoadRect fa))⟩ :=
  good_of k.val 0 2 fa _ _ (k0_off10_eq k 0) (View.readAt (Elt F) (Memref.whole cc0_scratch1 : Memref sig .scVector .vmem S128x128 .f32).view (Rect.unit (s := S128x128) (k0_off10 k 0#32) S1x16.size (k0_off10_inb k 0)).toLoadRect fa) (fun _ => rfl) _ rfl

theorem good1_14 (k : Fin k0_t1_loop.trips) (fa : FVec F S128x128 .f32) :
    Good k.val 0 1 fa ⟨Rect.unit (s := S128x128) (k0_off9 k 0#32) S1x16.size (k0_off9_inb k 0), k0_pay2 (View.readAt (Elt F) (Memref.whole cc0_scratch1 : Memref sig .scVector .vmem S128x128 .f32).view (Rect.unit (s := S128x128) (k0_off9 k 0#32) S1x16.size (k0_off9_inb k 0)).toLoadRect fa)⟩ :=
  good_of k.val 0 1 fa _ _ (k0_off9_eq k 0) (View.readAt (Elt F) (Memref.whole cc0_scratch1 : Memref sig .scVector .vmem S128x128 .f32).view (Rect.unit (s := S128x128) (k0_off9 k 0#32) S1x16.size (k0_off9_inb k 0)).toLoadRect fa) (fun _ => rfl) _ rfl

theorem good1_15 (k : Fin k0_t1_loop.trips) (fa : FVec F S128x128 .f32) :
    Good k.val 0 0 fa ⟨Rect.unit (s := S128x128) (k0_off8 k 0#32) S1x16.size (k0_off8_inb k 0), k0_pay1 (View.readAt (Elt F) (Memref.whole cc0_scratch1 : Memref sig .scVector .vmem S128x128 .f32).view (Rect.unit (s := S128x128) (k0_off8 k 0#32) S1x16.size (k0_off8_inb k 0)).toLoadRect fa)⟩ :=
  good_of k.val 0 0 fa _ _ (k0_off8_eq k 0) (View.readAt (Elt F) (Memref.whole cc0_scratch1 : Memref sig .scVector .vmem S128x128 .f32).view (Rect.unit (s := S128x128) (k0_off8 k 0#32) S1x16.size (k0_off8_inb k 0)).toLoadRect fa) (fun _ => rfl) _ rfl

/-- One trip of loop 1 extends the rows at the logistic function of the input by two. -/
theorem trip_value1 (k : Fin k0_t1_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch4 : Memref sig .scVector .vmem S128x128 .f32).view.writes (Elt F) f (pieces1 k fa)) y = Cert.Fuse.logistic (fa y) := by
  refine rows_step (Memref.whole cc0_scratch4 : Memref sig .scVector .vmem S128x128 .f32).view k.val fa f (pieces1 k fa) (List.forall_mem_cons.mpr ⟨⟨_, _, good1_0 k fa⟩, (List.forall_mem_cons.mpr ⟨⟨_, _, good1_1 k fa⟩, (List.forall_mem_cons.mpr ⟨⟨_, _, good1_2 k fa⟩, (List.forall_mem_cons.mpr ⟨⟨_, _, good1_3 k fa⟩, (List.forall_mem_cons.mpr ⟨⟨_, _, good1_4 k fa⟩, (List.forall_mem_cons.mpr ⟨⟨_, _, good1_5 k fa⟩, (List.forall_mem_cons.mpr ⟨⟨_, _, good1_6 k fa⟩, (List.forall_mem_cons.mpr ⟨⟨_, _, good1_7 k fa⟩, (List.forall_mem_cons.mpr ⟨⟨_, _, good1_8 k fa⟩, (List.forall_mem_cons.mpr ⟨⟨_, _, good1_9 k fa⟩, (List.forall_mem_cons.mpr ⟨⟨_, _, good1_10 k fa⟩, (List.forall_mem_cons.mpr ⟨⟨_, _, good1_11 k fa⟩, (List.forall_mem_cons.mpr ⟨⟨_, _, good1_12 k fa⟩, (List.forall_mem_cons.mpr ⟨⟨_, _, good1_13 k fa⟩, (List.forall_mem_cons.mpr ⟨⟨_, _, good1_14 k fa⟩, (List.forall_mem_cons.mpr ⟨⟨_, _, good1_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good1_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good1_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good1_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good1_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good1_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good1_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good1_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good1_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good1_7 k fa⟩
  · exact ⟨_, List.mem_cons_of_mem _ (List.mem_cons_of_mem _ (List.mem_cons_of_mem _ (List.mem_cons_of_mem _ (List.mem_cons_of_mem _ (List.mem_cons_of_mem _ (List.mem_cons_self)))))), good1_6 k fa⟩
  · exact ⟨_, List.mem_cons_of_mem _ (List.mem_cons_of_mem _ (List.mem_cons_of_mem _ (List.mem_cons_of_mem _ (List.mem_cons_of_mem _ (List.mem_cons_self))))), good1_5 k fa⟩
  · exact ⟨_, List.mem_cons_of_mem _ (List.mem_cons_of_mem _ (List.mem_cons_of_mem _ (List.mem_cons_of_mem _ (List.mem_cons_self)))), good1_4 k fa⟩
  · exact ⟨_, List.mem_cons_of_mem _ (List.mem_cons_of_mem _ (List.mem_cons_of_mem _ (List.mem_cons_self))), good1_3 k fa⟩
  · exact ⟨_, List.mem_cons_of_mem _ (List.mem_cons_of_mem _ (List.mem_cons_self)), good1_2 k fa⟩
  · exact ⟨_, List.mem_cons_of_mem _ (List.mem_cons_self), good1_1 k fa⟩
  · exact ⟨_, List.mem_cons_self, good1_0 k fa⟩

/-! ## Loop 2: from cc0_scratch2 to cc0_scratch5 -/

/-- The stores one trip of loop 2 leaves, the last first. -/
def pieces2 (k : Fin k0_t2_loop.trips) (fa : FVec F S128x128 .f32) : List (View.Piece (Elt F) S128x128 .f32) :=
  [⟨Rect.unit (s := S128x128) (k0_off26 k 1#32) S1x16.size (k0_off26_inb k 1), k0_pay181 (View.readAt (Elt F) (Memref.whole cc0_scratch2 : Memref sig .scVector .vmem S128x128 .f32).view (Rect.unit (s := S128x128) (k0_off26 k 1#32) S1x16.size (k0_off26_inb k 1)).toLoadRect fa)⟩,
   ⟨Rect.unit (s := S128x128) (k0_off25 k 1#32) S1x16.size (k0_off25_inb k 1), k0_pay180 (k0_pay40 (View.readAt (Elt F) (Memref.whole cc0_scratch2 : Memref sig .scVector .vmem S128x128 .f32).view (Rect.unit (s := S128x128) (k0_off25 k 1#32) S1x16.size (k0_off25_inb k 1)).toLoadRect fa))⟩,
   ⟨Rect.unit (s := S128x128) (k0_off24 k 1#32) S1x16.size (k0_off24_inb k 1), k0_pay39 (View.readAt (Elt F) (Memref.whole cc0_scratch2 : Memref sig .scVector .vmem S128x128 .f32).view (Rect.unit (s := S128x128) (k0_off24 k 1#32) S1x16.size (k0_off24_inb k 1)).toLoadRect fa)⟩,
   ⟨Rect.unit (s := S128x128) (k0_off23 k 1#32) S1x16.size (k0_off23_inb k 1), k0_pay38 (k0_pay37 (View.readAt (Elt F) (Memref.whole cc0_scratch2 : Memref sig .scVector .vmem S128x128 .f32).view (Rect.unit (s := S128x128) (k0_off23 k 1#32) S1x16.size (k0_off23_inb k 1)).toLoadRect fa))⟩,
   ⟨Rect.unit (s := S128x128) (k0_off22 k 1#32) S1x16.size (k0_off22_inb k 1), k0_pay36 (View.readAt (Elt F) (Memref.whole cc0_scratch2 : Memref sig .scVector .vmem S128x128 .f32).view (Rect.unit (s := S128x128) (k0_off22 k 1#32) S1x16.size (k0_off22_inb k 1)).toLoadRect fa)⟩,
   ⟨Rect.unit (s := S128x128) (k0_off21 k 1#32) S1x16.size (k0_off21_inb k 1), k0_pay35 (View.readAt (Elt F) (Memref.whole cc0_scratch2 : Memref sig .scVector .vmem S128x128 .f32).view (Rect.unit (s := S128x128) (k0_off21 k 1#32) S1x16.size (k0_off21_inb k 1)).toLoadRect fa)⟩,
   ⟨Rect.unit (s := S128x128) (k0_off20 k 1#32) S1x16.size (k0_off20_inb k 1), k0_pay34 (k0_pay33 (View.readAt (Elt F) (Memref.whole cc0_scratch2 : Memref sig .scVector .vmem S128x128 .f32).view (Rect.unit (s := S128x128) (k0_off20 k 1#32) S1x16.size (k0_off20_inb k 1)).toLoadRect fa))⟩,
   ⟨Rect.unit (s := S128x128) (k0_off19 k 1#32) S1x16.size (k0_off19_inb k 1), k0_pay32 (View.readAt (Elt F) (Memref.whole cc0_scratch2 : Memref sig .scVector .vmem S128x128 .f32).view (Rect.unit (s := S128x128) (k0_off19 k 1#32) S1x16.size (k0_off19_inb k 1)).toLoadRect fa)⟩,
   ⟨Rect.unit (s := S128x128) (k0_off26 k 0#32) S1x16.size (k0_off26_inb k 0), k0_pay31 (k0_pay30 (View.readAt (Elt F) (Memref.whole cc0_scratch2 : Memref sig .scVector .vmem S128x128 .f32).view (Rect.unit (s := S128x128) (k0_off26 k 0#32) S1x16.size (k0_off26_inb k 0)).toLoadRect fa))⟩,
   ⟨Rect.unit (s := S128x128) (k0_off25 k 0#32) S1x16.size (k0_off25_inb k 0), k0_pay29 (View.readAt (Elt F) (Memref.whole cc0_scratch2 : Memref sig .scVector .vmem S128x128 .f32).view (Rect.unit (s := S128x128) (k0_off25 k 0#32) S1x16.size (k0_off25_inb k 0)).toLoadRect fa)⟩,
   ⟨Rect.unit (s := S128x128) (k0_off24 k 0#32) S1x16.size (k0_off24_inb k 0), k0_pay28 (View.readAt (Elt F) (Memref.whole cc0_scratch2 : Memref sig .scVector .vmem S128x128 .f32).view (Rect.unit (s := S128x128) (k0_off24 k 0#32) S1x16.size (k0_off24_inb k 0)).toLoadRect fa)⟩,
   ⟨Rect.unit (s := S128x128) (k0_off23 k 0#32) S1x16.size (k0_off23_inb k 0), k0_pay27 (k0_pay26 (View.readAt (Elt F) (Memref.whole cc0_scratch2 : Memref sig .scVector .vmem S128x128 .f32).view (Rect.unit (s := S128x128) (k0_off23 k 0#32) S1x16.size (k0_off23_inb k 0)).toLoadRect fa))⟩,
   ⟨Rect.unit (s := S128x128) (k0_off22 k 0#32) S1x16.size (k0_off22_inb k 0), k0_pay25 (View.readAt (Elt F) (Memref.whole cc0_scratch2 : Memref sig .scVector .vmem S128x128 .f32).view (Rect.unit (s := S128x128) (k0_off22 k 0#32) S1x16.size (k0_off22_inb k 0)).toLoadRect fa)⟩,
   ⟨Rect.unit (s := S128x128) (k0_off21 k 0#32) S1x16.size (k0_off21_inb k 0), k0_pay24 (k0_pay23 (View.readAt (Elt F) (Memref.whole cc0_scratch2 : Memref sig .scVector .vmem S128x128 .f32).view (Rect.unit (s := S128x128) (k0_off21 k 0#32) S1x16.size (k0_off21_inb k 0)).toLoadRect fa))⟩,
   ⟨Rect.unit (s := S128x128) (k0_off20 k 0#32) S1x16.size (k0_off20_inb k 0), k0_pay22 (View.readAt (Elt F) (Memref.whole cc0_scratch2 : Memref sig .scVector .vmem S128x128 .f32).view (Rect.unit (s := S128x128) (k0_off20 k 0#32) S1x16.size (k0_off20_inb k 0)).toLoadRect fa)⟩,
   ⟨Rect.unit (s := S128x128) (k0_off19 k 0#32) S1x16.size (k0_off19_inb k 0), k0_pay21 (View.readAt (Elt F) (Memref.whole cc0_scratch2 : Memref sig .scVector .vmem S128x128 .f32).view (Rect.unit (s := S128x128) (k0_off19 k 0#32) S1x16.size (k0_off19_inb k 0)).toLoadRect fa)⟩]

theorem good2_0 (k : Fin k0_t2_loop.trips) (fa : FVec F S128x128 .f32) :
    Good k.val 1 7 fa ⟨Rect.unit (s := S128x128) (k0_off26 k 1#32) S1x16.size (k0_off26_inb k 1), k0_pay181 (View.readAt (Elt F) (Memref.whole cc0_scratch2 : Memref sig .scVector .vmem S128x128 .f32).view (Rect.unit (s := S128x128) (k0_off26 k 1#32) S1x16.size (k0_off26_inb k 1)).toLoadRect fa)⟩ :=
  good_of k.val 1 7 fa _ _ (k0_off26_eq k 1) (View.readAt (Elt F) (Memref.whole cc0_scratch2 : Memref sig .scVector .vmem S128x128 .f32).view (Rect.unit (s := S128x128) (k0_off26 k 1#32) S1x16.size (k0_off26_inb k 1)).toLoadRect fa) (fun _ => rfl) _ rfl

theorem good2_1 (k : Fin k0_t2_loop.trips) (fa : FVec F S128x128 .f32) :
    Good k.val 1 6 fa ⟨Rect.unit (s := S128x128) (k0_off25 k 1#32) S1x16.size (k0_off25_inb k 1), k0_pay180 (k0_pay40 (View.readAt (Elt F) (Memref.whole cc0_scratch2 : Memref sig .scVector .vmem S128x128 .f32).view (Rect.unit (s := S128x128) (k0_off25 k 1#32) S1x16.size (k0_off25_inb k 1)).toLoadRect fa))⟩ :=
  good_of k.val 1 6 fa _ _ (k0_off25_eq k 1) (View.readAt (Elt F) (Memref.whole cc0_scratch2 : Memref sig .scVector .vmem S128x128 .f32).view (Rect.unit (s := S128x128) (k0_off25 k 1#32) S1x16.size (k0_off25_inb k 1)).toLoadRect fa) (fun _ => rfl) _ rfl

theorem good2_2 (k : Fin k0_t2_loop.trips) (fa : FVec F S128x128 .f32) :
    Good k.val 1 5 fa ⟨Rect.unit (s := S128x128) (k0_off24 k 1#32) S1x16.size (k0_off24_inb k 1), k0_pay39 (View.readAt (Elt F) (Memref.whole cc0_scratch2 : Memref sig .scVector .vmem S128x128 .f32).view (Rect.unit (s := S128x128) (k0_off24 k 1#32) S1x16.size (k0_off24_inb k 1)).toLoadRect fa)⟩ :=
  good_of k.val 1 5 fa _ _ (k0_off24_eq k 1) (View.readAt (Elt F) (Memref.whole cc0_scratch2 : Memref sig .scVector .vmem S128x128 .f32).view (Rect.unit (s := S128x128) (k0_off24 k 1#32) S1x16.size (k0_off24_inb k 1)).toLoadRect fa) (fun _ => rfl) _ rfl

theorem good2_3 (k : Fin k0_t2_loop.trips) (fa : FVec F S128x128 .f32) :
    Good k.val 1 4 fa ⟨Rect.unit (s := S128x128) (k0_off23 k 1#32) S1x16.size (k0_off23_inb k 1), k0_pay38 (k0_pay37 (View.readAt (Elt F) (Memref.whole cc0_scratch2 : Memref sig .scVector .vmem S128x128 .f32).view (Rect.unit (s := S128x128) (k0_off23 k 1#32) S1x16.size (k0_off23_inb k 1)).toLoadRect fa))⟩ :=
  good_of k.val 1 4 fa _ _ (k0_off23_eq k 1) (View.readAt (Elt F) (Memref.whole cc0_scratch2 : Memref sig .scVector .vmem S128x128 .f32).view (Rect.unit (s := S128x128) (k0_off23 k 1#32) S1x16.size (k0_off23_inb k 1)).toLoadRect fa) (fun _ => rfl) _ rfl

theorem good2_4 (k : Fin k0_t2_loop.trips) (fa : FVec F S128x128 .f32) :
    Good k.val 1 3 fa ⟨Rect.unit (s := S128x128) (k0_off22 k 1#32) S1x16.size (k0_off22_inb k 1), k0_pay36 (View.readAt (Elt F) (Memref.whole cc0_scratch2 : Memref sig .scVector .vmem S128x128 .f32).view (Rect.unit (s := S128x128) (k0_off22 k 1#32) S1x16.size (k0_off22_inb k 1)).toLoadRect fa)⟩ :=
  good_of k.val 1 3 fa _ _ (k0_off22_eq k 1) (View.readAt (Elt F) (Memref.whole cc0_scratch2 : Memref sig .scVector .vmem S128x128 .f32).view (Rect.unit (s := S128x128) (k0_off22 k 1#32) S1x16.size (k0_off22_inb k 1)).toLoadRect fa) (fun _ => rfl) _ rfl

theorem good2_5 (k : Fin k0_t2_loop.trips) (fa : FVec F S128x128 .f32) :
    Good k.val 1 2 fa ⟨Rect.unit (s := S128x128) (k0_off21 k 1#32) S1x16.size (k0_off21_inb k 1), k0_pay35 (View.readAt (Elt F) (Memref.whole cc0_scratch2 : Memref sig .scVector .vmem S128x128 .f32).view (Rect.unit (s := S128x128) (k0_off21 k 1#32) S1x16.size (k0_off21_inb k 1)).toLoadRect fa)⟩ :=
  good_of k.val 1 2 fa _ _ (k0_off21_eq k 1) (View.readAt (Elt F) (Memref.whole cc0_scratch2 : Memref sig .scVector .vmem S128x128 .f32).view (Rect.unit (s := S128x128) (k0_off21 k 1#32) S1x16.size (k0_off21_inb k 1)).toLoadRect fa) (fun _ => rfl) _ rfl

theorem good2_6 (k : Fin k0_t2_loop.trips) (fa : FVec F S128x128 .f32) :
    Good k.val 1 1 fa ⟨Rect.unit (s := S128x128) (k0_off20 k 1#32) S1x16.size (k0_off20_inb k 1), k0_pay34 (k0_pay33 (View.readAt (Elt F) (Memref.whole cc0_scratch2 : Memref sig .scVector .vmem S128x128 .f32).view (Rect.unit (s := S128x128) (k0_off20 k 1#32) S1x16.size (k0_off20_inb k 1)).toLoadRect fa))⟩ :=
  good_of k.val 1 1 fa _ _ (k0_off20_eq k 1) (View.readAt (Elt F) (Memref.whole cc0_scratch2 : Memref sig .scVector .vmem S128x128 .f32).view (Rect.unit (s := S128x128) (k0_off20 k 1#32) S1x16.size (k0_off20_inb k 1)).toLoadRect fa) (fun _ => rfl) _ rfl

theorem good2_7 (k : Fin k0_t2_loop.trips) (fa : FVec F S128x128 .f32) :
    Good k.val 1 0 fa ⟨Rect.unit (s := S128x128) (k0_off19 k 1#32) S1x16.size (k0_off19_inb k 1), k0_pay32 (View.readAt (Elt F) (Memref.whole cc0_scratch2 : Memref sig .scVector .vmem S128x128 .f32).view (Rect.unit (s := S128x128) (k0_off19 k 1#32) S1x16.size (k0_off19_inb k 1)).toLoadRect fa)⟩ :=
  good_of k.val 1 0 fa _ _ (k0_off19_eq k 1) (View.readAt (Elt F) (Memref.whole cc0_scratch2 : Memref sig .scVector .vmem S128x128 .f32).view (Rect.unit (s := S128x128) (k0_off19 k 1#32) S1x16.size (k0_off19_inb k 1)).toLoadRect fa) (fun _ => rfl) _ rfl

theorem good2_8 (k : Fin k0_t2_loop.trips) (fa : FVec F S128x128 .f32) :
    Good k.val 0 7 fa ⟨Rect.unit (s := S128x128) (k0_off26 k 0#32) S1x16.size (k0_off26_inb k 0), k0_pay31 (k0_pay30 (View.readAt (Elt F) (Memref.whole cc0_scratch2 : Memref sig .scVector .vmem S128x128 .f32).view (Rect.unit (s := S128x128) (k0_off26 k 0#32) S1x16.size (k0_off26_inb k 0)).toLoadRect fa))⟩ :=
  good_of k.val 0 7 fa _ _ (k0_off26_eq k 0) (View.readAt (Elt F) (Memref.whole cc0_scratch2 : Memref sig .scVector .vmem S128x128 .f32).view (Rect.unit (s := S128x128) (k0_off26 k 0#32) S1x16.size (k0_off26_inb k 0)).toLoadRect fa) (fun _ => rfl) _ rfl

theorem good2_9 (k : Fin k0_t2_loop.trips) (fa : FVec F S128x128 .f32) :
    Good k.val 0 6 fa ⟨Rect.unit (s := S128x128) (k0_off25 k 0#32) S1x16.size (k0_off25_inb k 0), k0_pay29 (View.readAt (Elt F) (Memref.whole cc0_scratch2 : Memref sig .scVector .vmem S128x128 .f32).view (Rect.unit (s := S128x128) (k0_off25 k 0#32) S1x16.size (k0_off25_inb k 0)).toLoadRect fa)⟩ :=
  good_of k.val 0 6 fa _ _ (k0_off25_eq k 0) (View.readAt (Elt F) (Memref.whole cc0_scratch2 : Memref sig .scVector .vmem S128x128 .f32).view (Rect.unit (s := S128x128) (k0_off25 k 0#32) S1x16.size (k0_off25_inb k 0)).toLoadRect fa) (fun _ => rfl) _ rfl

theorem good2_10 (k : Fin k0_t2_loop.trips) (fa : FVec F S128x128 .f32) :
    Good k.val 0 5 fa ⟨Rect.unit (s := S128x128) (k0_off24 k 0#32) S1x16.size (k0_off24_inb k 0), k0_pay28 (View.readAt (Elt F) (Memref.whole cc0_scratch2 : Memref sig .scVector .vmem S128x128 .f32).view (Rect.unit (s := S128x128) (k0_off24 k 0#32) S1x16.size (k0_off24_inb k 0)).toLoadRect fa)⟩ :=
  good_of k.val 0 5 fa _ _ (k0_off24_eq k 0) (View.readAt (Elt F) (Memref.whole cc0_scratch2 : Memref sig .scVector .vmem S128x128 .f32).view (Rect.unit (s := S128x128) (k0_off24 k 0#32) S1x16.size (k0_off24_inb k 0)).toLoadRect fa) (fun _ => rfl) _ rfl

theorem good2_11 (k : Fin k0_t2_loop.trips) (fa : FVec F S128x128 .f32) :
    Good k.val 0 4 fa ⟨Rect.unit (s := S128x128) (k0_off23 k 0#32) S1x16.size (k0_off23_inb k 0), k0_pay27 (k0_pay26 (View.readAt (Elt F) (Memref.whole cc0_scratch2 : Memref sig .scVector .vmem S128x128 .f32).view (Rect.unit (s := S128x128) (k0_off23 k 0#32) S1x16.size (k0_off23_inb k 0)).toLoadRect fa))⟩ :=
  good_of k.val 0 4 fa _ _ (k0_off23_eq k 0) (View.readAt (Elt F) (Memref.whole cc0_scratch2 : Memref sig .scVector .vmem S128x128 .f32).view (Rect.unit (s := S128x128) (k0_off23 k 0#32) S1x16.size (k0_off23_inb k 0)).toLoadRect fa) (fun _ => rfl) _ rfl

theorem good2_12 (k : Fin k0_t2_loop.trips) (fa : FVec F S128x128 .f32) :
    Good k.val 0 3 fa ⟨Rect.unit (s := S128x128) (k0_off22 k 0#32) S1x16.size (k0_off22_inb k 0), k0_pay25 (View.readAt (Elt F) (Memref.whole cc0_scratch2 : Memref sig .scVector .vmem S128x128 .f32).view (Rect.unit (s := S128x128) (k0_off22 k 0#32) S1x16.size (k0_off22_inb k 0)).toLoadRect fa)⟩ :=
  good_of k.val 0 3 fa _ _ (k0_off22_eq k 0) (View.readAt (Elt F) (Memref.whole cc0_scratch2 : Memref sig .scVector .vmem S128x128 .f32).view (Rect.unit (s := S128x128) (k0_off22 k 0#32) S1x16.size (k0_off22_inb k 0)).toLoadRect fa) (fun _ => rfl) _ rfl

theorem good2_13 (k : Fin k0_t2_loop.trips) (fa : FVec F S128x128 .f32) :
    Good k.val 0 2 fa ⟨Rect.unit (s := S128x128) (k0_off21 k 0#32) S1x16.size (k0_off21_inb k 0), k0_pay24 (k0_pay23 (View.readAt (Elt F) (Memref.whole cc0_scratch2 : Memref sig .scVector .vmem S128x128 .f32).view (Rect.unit (s := S128x128) (k0_off21 k 0#32) S1x16.size (k0_off21_inb k 0)).toLoadRect fa))⟩ :=
  good_of k.val 0 2 fa _ _ (k0_off21_eq k 0) (View.readAt (Elt F) (Memref.whole cc0_scratch2 : Memref sig .scVector .vmem S128x128 .f32).view (Rect.unit (s := S128x128) (k0_off21 k 0#32) S1x16.size (k0_off21_inb k 0)).toLoadRect fa) (fun _ => rfl) _ rfl

theorem good2_14 (k : Fin k0_t2_loop.trips) (fa : FVec F S128x128 .f32) :
    Good k.val 0 1 fa ⟨Rect.unit (s := S128x128) (k0_off20 k 0#32) S1x16.size (k0_off20_inb k 0), k0_pay22 (View.readAt (Elt F) (Memref.whole cc0_scratch2 : Memref sig .scVector .vmem S128x128 .f32).view (Rect.unit (s := S128x128) (k0_off20 k 0#32) S1x16.size (k0_off20_inb k 0)).toLoadRect fa)⟩ :=
  good_of k.val 0 1 fa _ _ (k0_off20_eq k 0) (View.readAt (Elt F) (Memref.whole cc0_scratch2 : Memref sig .scVector .vmem S128x128 .f32).view (Rect.unit (s := S128x128) (k0_off20 k 0#32) S1x16.size (k0_off20_inb k 0)).toLoadRect fa) (fun _ => rfl) _ rfl

theorem good2_15 (k : Fin k0_t2_loop.trips) (fa : FVec F S128x128 .f32) :
    Good k.val 0 0 fa ⟨Rect.unit (s := S128x128) (k0_off19 k 0#32) S1x16.size (k0_off19_inb k 0), k0_pay21 (View.readAt (Elt F) (Memref.whole cc0_scratch2 : Memref sig .scVector .vmem S128x128 .f32).view (Rect.unit (s := S128x128) (k0_off19 k 0#32) S1x16.size (k0_off19_inb k 0)).toLoadRect fa)⟩ :=
  good_of k.val 0 0 fa _ _ (k0_off19_eq k 0) (View.readAt (Elt F) (Memref.whole cc0_scratch2 : Memref sig .scVector .vmem S128x128 .f32).view (Rect.unit (s := S128x128) (k0_off19 k 0#32) S1x16.size (k0_off19_inb k 0)).toLoadRect fa) (fun _ => rfl) _ rfl

/-- One trip of loop 2 extends the rows at the logistic function of the input by two. -/
theorem trip_value2 (k : Fin k0_t2_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch5 : Memref sig .scVector .vmem S128x128 .f32).view.writes (Elt F) f (pieces2 k fa)) y = Cert.Fuse.logistic (fa y) := by
  refine rows_step (Memref.whole cc0_scratch5 : Memref sig .scVector .vmem S128x128 .f32).view k.val fa f (pieces2 k fa) (List.forall_mem_cons.mpr ⟨⟨_, _, good2_0 k fa⟩, (List.forall_mem_cons.mpr ⟨⟨_, _, good2_1 k fa⟩, (List.forall_mem_cons.mpr ⟨⟨_, _, good2_2 k fa⟩, (List.forall_mem_cons.mpr ⟨⟨_, _, good2_3 k fa⟩, (List.forall_mem_cons.mpr ⟨⟨_, _, good2_4 k fa⟩, (List.forall_mem_cons.mpr ⟨⟨_, _, good2_5 k fa⟩, (List.forall_mem_cons.mpr ⟨⟨_, _, good2_6 k fa⟩, (List.forall_mem_cons.mpr ⟨⟨_, _, good2_7 k fa⟩, (List.forall_mem_cons.mpr ⟨⟨_, _, good2_8 k fa⟩, (List.forall_mem_cons.mpr ⟨⟨_, _, good2_9 k fa⟩, (List.forall_mem_cons.mpr ⟨⟨_, _, good2_10 k fa⟩, (List.forall_mem_cons.mpr ⟨⟨_, _, good2_11 k fa⟩, (List.forall_mem_cons.mpr ⟨⟨_, _, good2_12 k fa⟩, (List.forall_mem_cons.mpr ⟨⟨_, _, good2_13 k fa⟩, (List.forall_mem_cons.mpr ⟨⟨_, _, good2_14 k fa⟩, (List.forall_mem_cons.mpr ⟨⟨_, _, good2_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good2_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good2_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good2_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good2_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good2_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good2_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good2_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good2_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good2_7 k fa⟩
  · exact ⟨_, List.mem_cons_of_mem _ (List.mem_cons_of_mem _ (List.mem_cons_of_mem _ (List.mem_cons_of_mem _ (List.mem_cons_of_mem _ (List.mem_cons_of_mem _ (List.mem_cons_self)))))), good2_6 k fa⟩
  · exact ⟨_, List.mem_cons_of_mem _ (List.mem_cons_of_mem _ (List.mem_cons_of_mem _ (List.mem_cons_of_mem _ (List.mem_cons_of_mem _ (List.mem_cons_self))))), good2_5 k fa⟩
  · exact ⟨_, List.mem_cons_of_mem _ (List.mem_cons_of_mem _ (List.mem_cons_of_mem _ (List.mem_cons_of_mem _ (List.mem_cons_self)))), good2_4 k fa⟩
  · exact ⟨_, List.mem_cons_of_mem _ (List.mem_cons_of_mem _ (List.mem_cons_of_mem _ (List.mem_cons_self))), good2_3 k fa⟩
  · exact ⟨_, List.mem_cons_of_mem _ (List.mem_cons_of_mem _ (List.mem_cons_self)), good2_2 k fa⟩
  · exact ⟨_, List.mem_cons_of_mem _ (List.mem_cons_self), good2_1 k fa⟩
  · exact ⟨_, List.mem_cons_self, good2_0 k fa⟩

/-! ## Loop 3: from cc0_scratch3 to cc0_scratch6 -/

/-- The stores one trip of loop 3 leaves, the last first. -/
def pieces3 (k : Fin k0_t3_loop.trips) (fa : FVec F S128x128 .f32) : List (View.Piece (Elt F) S128x128 .f32) :=
  [⟨Rect.unit (s := S128x128) (k0_off36 k 1#32) S1x16.size (k0_off36_inb k 1), k0_pay183 (View.readAt (Elt F) (Memref.whole cc0_scratch3 : Memref sig .scVector .vmem S128x128 .f32).view (Rect.unit (s := S128x128) (k0_off36 k 1#32) S1x16.size (k0_off36_inb k 1)).toLoadRect fa)⟩,
   ⟨Rect.unit (s := S128x128) (k0_off35 k 1#32) S1x16.size (k0_off35_inb k 1), k0_pay182 (k0_pay60 (View.readAt (Elt F) (Memref.whole cc0_scratch3 : Memref sig .scVector .vmem S128x128 .f32).view (Rect.unit (s := S128x128) (k0_off35 k 1#32) S1x16.size (k0_off35_inb k 1)).toLoadRect fa))⟩,
   ⟨Rect.unit (s := S128x128) (k0_off34 k 1#32) S1x16.size (k0_off34_inb k 1), k0_pay59 (View.readAt (Elt F) (Memref.whole cc0_scratch3 : Memref sig .scVector .vmem S128x128 .f32).view (Rect.unit (s := S128x128) (k0_off34 k 1#32) S1x16.size (k0_off34_inb k 1)).toLoadRect fa)⟩,
   ⟨Rect.unit (s := S128x128) (k0_off33 k 1#32) S1x16.size (k0_off33_inb k 1), k0_pay58 (k0_pay57 (View.readAt (Elt F) (Memref.whole cc0_scratch3 : Memref sig .scVector .vmem S128x128 .f32).view (Rect.unit (s := S128x128) (k0_off33 k 1#32) S1x16.size (k0_off33_inb k 1)).toLoadRect fa))⟩,
   ⟨Rect.unit (s := S128x128) (k0_off32 k 1#32) S1x16.size (k0_off32_inb k 1), k0_pay56 (View.readAt (Elt F) (Memref.whole cc0_scratch3 : Memref sig .scVector .vmem S128x128 .f32).view (Rect.unit (s := S128x128) (k0_off32 k 1#32) S1x16.size (k0_off32_inb k 1)).toLoadRect fa)⟩,
   ⟨Rect.unit (s := S128x128) (k0_off31 k 1#32) S1x16.size (k0_off31_inb k 1), k0_pay55 (View.readAt (Elt F) (Memref.whole cc0_scratch3 : Memref sig .scVector .vmem S128x128 .f32).view (Rect.unit (s := S128x128) (k0_off31 k 1#32) S1x16.size (k0_off31_inb k 1)).toLoadRect fa)⟩,
   ⟨Rect.unit (s := S128x128) (k0_off30 k 1#32) S1x16.size (k0_off30_inb k 1), k0_pay54 (k0_pay53 (View.readAt (Elt F) (Memref.whole cc0_scratch3 : Memref sig .scVector .vmem S128x128 .f32).view (Rect.unit (s := S128x128) (k0_off30 k 1#32) S1x16.size (k0_off30_inb k 1)).toLoadRect fa))⟩,
   ⟨Rect.unit (s := S128x128) (k0_off29 k 1#32) S1x16.size (k0_off29_inb k 1), k0_pay52 (View.readAt (Elt F) (Memref.whole cc0_scratch3 : Memref sig .scVector .vmem S128x128 .f32).view (Rect.unit (s := S128x128) (k0_off29 k 1#32) S1x16.size (k0_off29_inb k 1)).toLoadRect fa)⟩,
   ⟨Rect.unit (s := S128x128) (k0_off36 k 0#32) S1x16.size (k0_off36_inb k 0), k0_pay51 (k0_pay50 (View.readAt (Elt F) (Memref.whole cc0_scratch3 : Memref sig .scVector .vmem S128x128 .f32).view (Rect.unit (s := S128x128) (k0_off36 k 0#32) S1x16.size (k0_off36_inb k 0)).toLoadRect fa))⟩,
   ⟨Rect.unit (s := S128x128) (k0_off35 k 0#32) S1x16.size (k0_off35_inb k 0), k0_pay49 (View.readAt (Elt F) (Memref.whole cc0_scratch3 : Memref sig .scVector .vmem S128x128 .f32).view (Rect.unit (s := S128x128) (k0_off35 k 0#32) S1x16.size (k0_off35_inb k 0)).toLoadRect fa)⟩,
   ⟨Rect.unit (s := S128x128) (k0_off34 k 0#32) S1x16.size (k0_off34_inb k 0), k0_pay48 (View.readAt (Elt F) (Memref.whole cc0_scratch3 : Memref sig .scVector .vmem S128x128 .f32).view (Rect.unit (s := S128x128) (k0_off34 k 0#32) S1x16.size (k0_off34_inb k 0)).toLoadRect fa)⟩,
   ⟨Rect.unit (s := S128x128) (k0_off33 k 0#32) S1x16.size (k0_off33_inb k 0), k0_pay47 (k0_pay46 (View.readAt (Elt F) (Memref.whole cc0_scratch3 : Memref sig .scVector .vmem S128x128 .f32).view (Rect.unit (s := S128x128) (k0_off33 k 0#32) S1x16.size (k0_off33_inb k 0)).toLoadRect fa))⟩,
   ⟨Rect.unit (s := S128x128) (k0_off32 k 0#32) S1x16.size (k0_off32_inb k 0), k0_pay45 (View.readAt (Elt F) (Memref.whole cc0_scratch3 : Memref sig .scVector .vmem S128x128 .f32).view (Rect.unit (s := S128x128) (k0_off32 k 0#32) S1x16.size (k0_off32_inb k 0)).toLoadRect fa)⟩,
   ⟨Rect.unit (s := S128x128) (k0_off31 k 0#32) S1x16.size (k0_off31_inb k 0), k0_pay44 (k0_pay43 (View.readAt (Elt F) (Memref.whole cc0_scratch3 : Memref sig .scVector .vmem S128x128 .f32).view (Rect.unit (s := S128x128) (k0_off31 k 0#32) S1x16.size (k0_off31_inb k 0)).toLoadRect fa))⟩,
   ⟨Rect.unit (s := S128x128) (k0_off30 k 0#32) S1x16.size (k0_off30_inb k 0), k0_pay42 (View.readAt (Elt F) (Memref.whole cc0_scratch3 : Memref sig .scVector .vmem S128x128 .f32).view (Rect.unit (s := S128x128) (k0_off30 k 0#32) S1x16.size (k0_off30_inb k 0)).toLoadRect fa)⟩,
   ⟨Rect.unit (s := S128x128) (k0_off29 k 0#32) S1x16.size (k0_off29_inb k 0), k0_pay41 (View.readAt (Elt F) (Memref.whole cc0_scratch3 : Memref sig .scVector .vmem S128x128 .f32).view (Rect.unit (s := S128x128) (k0_off29 k 0#32) S1x16.size (k0_off29_inb k 0)).toLoadRect fa)⟩]

theorem good3_0 (k : Fin k0_t3_loop.trips) (fa : FVec F S128x128 .f32) :
    Good k.val 1 7 fa ⟨Rect.unit (s := S128x128) (k0_off36 k 1#32) S1x16.size (k0_off36_inb k 1), k0_pay183 (View.readAt (Elt F) (Memref.whole cc0_scratch3 : Memref sig .scVector .vmem S128x128 .f32).view (Rect.unit (s := S128x128) (k0_off36 k 1#32) S1x16.size (k0_off36_inb k 1)).toLoadRect fa)⟩ :=
  good_of k.val 1 7 fa _ _ (k0_off36_eq k 1) (View.readAt (Elt F) (Memref.whole cc0_scratch3 : Memref sig .scVector .vmem S128x128 .f32).view (Rect.unit (s := S128x128) (k0_off36 k 1#32) S1x16.size (k0_off36_inb k 1)).toLoadRect fa) (fun _ => rfl) _ rfl

theorem good3_1 (k : Fin k0_t3_loop.trips) (fa : FVec F S128x128 .f32) :
    Good k.val 1 6 fa ⟨Rect.unit (s := S128x128) (k0_off35 k 1#32) S1x16.size (k0_off35_inb k 1), k0_pay182 (k0_pay60 (View.readAt (Elt F) (Memref.whole cc0_scratch3 : Memref sig .scVector .vmem S128x128 .f32).view (Rect.unit (s := S128x128) (k0_off35 k 1#32) S1x16.size (k0_off35_inb k 1)).toLoadRect fa))⟩ :=
  good_of k.val 1 6 fa _ _ (k0_off35_eq k 1) (View.readAt (Elt F) (Memref.whole cc0_scratch3 : Memref sig .scVector .vmem S128x128 .f32).view (Rect.unit (s := S128x128) (k0_off35 k 1#32) S1x16.size (k0_off35_inb k 1)).toLoadRect fa) (fun _ => rfl) _ rfl

theorem good3_2 (k : Fin k0_t3_loop.trips) (fa : FVec F S128x128 .f32) :
    Good k.val 1 5 fa ⟨Rect.unit (s := S128x128) (k0_off34 k 1#32) S1x16.size (k0_off34_inb k 1), k0_pay59 (View.readAt (Elt F) (Memref.whole cc0_scratch3 : Memref sig .scVector .vmem S128x128 .f32).view (Rect.unit (s := S128x128) (k0_off34 k 1#32) S1x16.size (k0_off34_inb k 1)).toLoadRect fa)⟩ :=
  good_of k.val 1 5 fa _ _ (k0_off34_eq k 1) (View.readAt (Elt F) (Memref.whole cc0_scratch3 : Memref sig .scVector .vmem S128x128 .f32).view (Rect.unit (s := S128x128) (k0_off34 k 1#32) S1x16.size (k0_off34_inb k 1)).toLoadRect fa) (fun _ => rfl) _ rfl

theorem good3_3 (k : Fin k0_t3_loop.trips) (fa : FVec F S128x128 .f32) :
    Good k.val 1 4 fa ⟨Rect.unit (s := S128x128) (k0_off33 k 1#32) S1x16.size (k0_off33_inb k 1), k0_pay58 (k0_pay57 (View.readAt (Elt F) (Memref.whole cc0_scratch3 : Memref sig .scVector .vmem S128x128 .f32).view (Rect.unit (s := S128x128) (k0_off33 k 1#32) S1x16.size (k0_off33_inb k 1)).toLoadRect fa))⟩ :=
  good_of k.val 1 4 fa _ _ (k0_off33_eq k 1) (View.readAt (Elt F) (Memref.whole cc0_scratch3 : Memref sig .scVector .vmem S128x128 .f32).view (Rect.unit (s := S128x128) (k0_off33 k 1#32) S1x16.size (k0_off33_inb k 1)).toLoadRect fa) (fun _ => rfl) _ rfl

theorem good3_4 (k : Fin k0_t3_loop.trips) (fa : FVec F S128x128 .f32) :
    Good k.val 1 3 fa ⟨Rect.unit (s := S128x128) (k0_off32 k 1#32) S1x16.size (k0_off32_inb k 1), k0_pay56 (View.readAt (Elt F) (Memref.whole cc0_scratch3 : Memref sig .scVector .vmem S128x128 .f32).view (Rect.unit (s := S128x128) (k0_off32 k 1#32) S1x16.size (k0_off32_inb k 1)).toLoadRect fa)⟩ :=
  good_of k.val 1 3 fa _ _ (k0_off32_eq k 1) (View.readAt (Elt F) (Memref.whole cc0_scratch3 : Memref sig .scVector .vmem S128x128 .f32).view (Rect.unit (s := S128x128) (k0_off32 k 1#32) S1x16.size (k0_off32_inb k 1)).toLoadRect fa) (fun _ => rfl) _ rfl

theorem good3_5 (k : Fin k0_t3_loop.trips) (fa : FVec F S128x128 .f32) :
    Good k.val 1 2 fa ⟨Rect.unit (s := S128x128) (k0_off31 k 1#32) S1x16.size (k0_off31_inb k 1), k0_pay55 (View.readAt (Elt F) (Memref.whole cc0_scratch3 : Memref sig .scVector .vmem S128x128 .f32).view (Rect.unit (s := S128x128) (k0_off31 k 1#32) S1x16.size (k0_off31_inb k 1)).toLoadRect fa)⟩ :=
  good_of k.val 1 2 fa _ _ (k0_off31_eq k 1) (View.readAt (Elt F) (Memref.whole cc0_scratch3 : Memref sig .scVector .vmem S128x128 .f32).view (Rect.unit (s := S128x128) (k0_off31 k 1#32) S1x16.size (k0_off31_inb k 1)).toLoadRect fa) (fun _ => rfl) _ rfl

theorem good3_6 (k : Fin k0_t3_loop.trips) (fa : FVec F S128x128 .f32) :
    Good k.val 1 1 fa ⟨Rect.unit (s := S128x128) (k0_off30 k 1#32) S1x16.size (k0_off30_inb k 1), k0_pay54 (k0_pay53 (View.readAt (Elt F) (Memref.whole cc0_scratch3 : Memref sig .scVector .vmem S128x128 .f32).view (Rect.unit (s := S128x128) (k0_off30 k 1#32) S1x16.size (k0_off30_inb k 1)).toLoadRect fa))⟩ :=
  good_of k.val 1 1 fa _ _ (k0_off30_eq k 1) (View.readAt (Elt F) (Memref.whole cc0_scratch3 : Memref sig .scVector .vmem S128x128 .f32).view (Rect.unit (s := S128x128) (k0_off30 k 1#32) S1x16.size (k0_off30_inb k 1)).toLoadRect fa) (fun _ => rfl) _ rfl

theorem good3_7 (k : Fin k0_t3_loop.trips) (fa : FVec F S128x128 .f32) :
    Good k.val 1 0 fa ⟨Rect.unit (s := S128x128) (k0_off29 k 1#32) S1x16.size (k0_off29_inb k 1), k0_pay52 (View.readAt (Elt F) (Memref.whole cc0_scratch3 : Memref sig .scVector .vmem S128x128 .f32).view (Rect.unit (s := S128x128) (k0_off29 k 1#32) S1x16.size (k0_off29_inb k 1)).toLoadRect fa)⟩ :=
  good_of k.val 1 0 fa _ _ (k0_off29_eq k 1) (View.readAt (Elt F) (Memref.whole cc0_scratch3 : Memref sig .scVector .vmem S128x128 .f32).view (Rect.unit (s := S128x128) (k0_off29 k 1#32) S1x16.size (k0_off29_inb k 1)).toLoadRect fa) (fun _ => rfl) _ rfl

theorem good3_8 (k : Fin k0_t3_loop.trips) (fa : FVec F S128x128 .f32) :
    Good k.val 0 7 fa ⟨Rect.unit (s := S128x128) (k0_off36 k 0#32) S1x16.size (k0_off36_inb k 0), k0_pay51 (k0_pay50 (View.readAt (Elt F) (Memref.whole cc0_scratch3 : Memref sig .scVector .vmem S128x128 .f32).view (Rect.unit (s := S128x128) (k0_off36 k 0#32) S1x16.size (k0_off36_inb k 0)).toLoadRect fa))⟩ :=
  good_of k.val 0 7 fa _ _ (k0_off36_eq k 0) (View.readAt (Elt F) (Memref.whole cc0_scratch3 : Memref sig .scVector .vmem S128x128 .f32).view (Rect.unit (s := S128x128) (k0_off36 k 0#32) S1x16.size (k0_off36_inb k 0)).toLoadRect fa) (fun _ => rfl) _ rfl

theorem good3_9 (k : Fin k0_t3_loop.trips) (fa : FVec F S128x128 .f32) :
    Good k.val 0 6 fa ⟨Rect.unit (s := S128x128) (k0_off35 k 0#32) S1x16.size (k0_off35_inb k 0), k0_pay49 (View.readAt (Elt F) (Memref.whole cc0_scratch3 : Memref sig .scVector .vmem S128x128 .f32).view (Rect.unit (s := S128x128) (k0_off35 k 0#32) S1x16.size (k0_off35_inb k 0)).toLoadRect fa)⟩ :=
  good_of k.val 0 6 fa _ _ (k0_off35_eq k 0) (View.readAt (Elt F) (Memref.whole cc0_scratch3 : Memref sig .scVector .vmem S128x128 .f32).view (Rect.unit (s := S128x128) (k0_off35 k 0#32) S1x16.size (k0_off35_inb k 0)).toLoadRect fa) (fun _ => rfl) _ rfl

theorem good3_10 (k : Fin k0_t3_loop.trips) (fa : FVec F S128x128 .f32) :
    Good k.val 0 5 fa ⟨Rect.unit (s := S128x128) (k0_off34 k 0#32) S1x16.size (k0_off34_inb k 0), k0_pay48 (View.readAt (Elt F) (Memref.whole cc0_scratch3 : Memref sig .scVector .vmem S128x128 .f32).view (Rect.unit (s := S128x128) (k0_off34 k 0#32) S1x16.size (k0_off34_inb k 0)).toLoadRect fa)⟩ :=
  good_of k.val 0 5 fa _ _ (k0_off34_eq k 0) (View.readAt (Elt F) (Memref.whole cc0_scratch3 : Memref sig .scVector .vmem S128x128 .f32).view (Rect.unit (s := S128x128) (k0_off34 k 0#32) S1x16.size (k0_off34_inb k 0)).toLoadRect fa) (fun _ => rfl) _ rfl

theorem good3_11 (k : Fin k0_t3_loop.trips) (fa : FVec F S128x128 .f32) :
    Good k.val 0 4 fa ⟨Rect.unit (s := S128x128) (k0_off33 k 0#32) S1x16.size (k0_off33_inb k 0), k0_pay47 (k0_pay46 (View.readAt (Elt F) (Memref.whole cc0_scratch3 : Memref sig .scVector .vmem S128x128 .f32).view (Rect.unit (s := S128x128) (k0_off33 k 0#32) S1x16.size (k0_off33_inb k 0)).toLoadRect fa))⟩ :=
  good_of k.val 0 4 fa _ _ (k0_off33_eq k 0) (View.readAt (Elt F) (Memref.whole cc0_scratch3 : Memref sig .scVector .vmem S128x128 .f32).view (Rect.unit (s := S128x128) (k0_off33 k 0#32) S1x16.size (k0_off33_inb k 0)).toLoadRect fa) (fun _ => rfl) _ rfl

theorem good3_12 (k : Fin k0_t3_loop.trips) (fa : FVec F S128x128 .f32) :
    Good k.val 0 3 fa ⟨Rect.unit (s := S128x128) (k0_off32 k 0#32) S1x16.size (k0_off32_inb k 0), k0_pay45 (View.readAt (Elt F) (Memref.whole cc0_scratch3 : Memref sig .scVector .vmem S128x128 .f32).view (Rect.unit (s := S128x128) (k0_off32 k 0#32) S1x16.size (k0_off32_inb k 0)).toLoadRect fa)⟩ :=
  good_of k.val 0 3 fa _ _ (k0_off32_eq k 0) (View.readAt (Elt F) (Memref.whole cc0_scratch3 : Memref sig .scVector .vmem S128x128 .f32).view (Rect.unit (s := S128x128) (k0_off32 k 0#32) S1x16.size (k0_off32_inb k 0)).toLoadRect fa) (fun _ => rfl) _ rfl

theorem good3_13 (k : Fin k0_t3_loop.trips) (fa : FVec F S128x128 .f32) :
    Good k.val 0 2 fa ⟨Rect.unit (s := S128x128) (k0_off31 k 0#32) S1x16.size (k0_off31_inb k 0), k0_pay44 (k0_pay43 (View.readAt (Elt F) (Memref.whole cc0_scratch3 : Memref sig .scVector .vmem S128x128 .f32).view (Rect.unit (s := S128x128) (k0_off31 k 0#32) S1x16.size (k0_off31_inb k 0)).toLoadRect fa))⟩ :=
  good_of k.val 0 2 fa _ _ (k0_off31_eq k 0) (View.readAt (Elt F) (Memref.whole cc0_scratch3 : Memref sig .scVector .vmem S128x128 .f32).view (Rect.unit (s := S128x128) (k0_off31 k 0#32) S1x16.size (k0_off31_inb k 0)).toLoadRect fa) (fun _ => rfl) _ rfl

theorem good3_14 (k : Fin k0_t3_loop.trips) (fa : FVec F S128x128 .f32) :
    Good k.val 0 1 fa ⟨Rect.unit (s := S128x128) (k0_off30 k 0#32) S1x16.size (k0_off30_inb k 0), k0_pay42 (View.readAt (Elt F) (Memref.whole cc0_scratch3 : Memref sig .scVector .vmem S128x128 .f32).view (Rect.unit (s := S128x128) (k0_off30 k 0#32) S1x16.size (k0_off30_inb k 0)).toLoadRect fa)⟩ :=
  good_of k.val 0 1 fa _ _ (k0_off30_eq k 0) (View.readAt (Elt F) (Memref.whole cc0_scratch3 : Memref sig .scVector .vmem S128x128 .f32).view (Rect.unit (s := S128x128) (k0_off30 k 0#32) S1x16.size (k0_off30_inb k 0)).toLoadRect fa) (fun _ => rfl) _ rfl

theorem good3_15 (k : Fin k0_t3_loop.trips) (fa : FVec F S128x128 .f32) :
    Good k.val 0 0 fa ⟨Rect.unit (s := S128x128) (k0_off29 k 0#32) S1x16.size (k0_off29_inb k 0), k0_pay41 (View.readAt (Elt F) (Memref.whole cc0_scratch3 : Memref sig .scVector .vmem S128x128 .f32).view (Rect.unit (s := S128x128) (k0_off29 k 0#32) S1x16.size (k0_off29_inb k 0)).toLoadRect fa)⟩ :=
  good_of k.val 0 0 fa _ _ (k0_off29_eq k 0) (View.readAt (Elt F) (Memref.whole cc0_scratch3 : Memref sig .scVector .vmem S128x128 .f32).view (Rect.unit (s := S128x128) (k0_off29 k 0#32) S1x16.size (k0_off29_inb k 0)).toLoadRect fa) (fun _ => rfl) _ rfl

/-- One trip of loop 3 extends the rows at the logistic function of the input by two. -/
theorem trip_value3 (k : Fin k0_t3_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch6 : Memref sig .scVector .vmem S128x128 .f32).view.writes (Elt F) f (pieces3 k fa)) y = Cert.Fuse.logistic (fa y) := by
  refine rows_step (Memref.whole cc0_scratch6 : Memref sig .scVector .vmem S128x128 .f32).view k.val fa f (pieces3 k fa) (List.forall_mem_cons.mpr ⟨⟨_, _, good3_0 k fa⟩, (List.forall_mem_cons.mpr ⟨⟨_, _, good3_1 k fa⟩, (List.forall_mem_cons.mpr ⟨⟨_, _, good3_2 k fa⟩, (List.forall_mem_cons.mpr ⟨⟨_, _, good3_3 k fa⟩, (List.forall_mem_cons.mpr ⟨⟨_, _, good3_4 k fa⟩, (List.forall_mem_cons.mpr ⟨⟨_, _, good3_5 k fa⟩, (List.forall_mem_cons.mpr ⟨⟨_, _, good3_6 k fa⟩, (List.forall_mem_cons.mpr ⟨⟨_, _, good3_7 k fa⟩, (List.forall_mem_cons.mpr ⟨⟨_, _, good3_8 k fa⟩, (List.forall_mem_cons.mpr ⟨⟨_, _, good3_9 k fa⟩, (List.forall_mem_cons.mpr ⟨⟨_, _, good3_10 k fa⟩, (List.forall_mem_cons.mpr ⟨⟨_, _, good3_11 k fa⟩, (List.forall_mem_cons.mpr ⟨⟨_, _, good3_12 k fa⟩, (List.forall_mem_cons.mpr ⟨⟨_, _, good3_13 k fa⟩, (List.forall_mem_cons.mpr ⟨⟨_, _, good3_14 k fa⟩, (List.forall_mem_cons.mpr ⟨⟨_, _, good3_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good3_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good3_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good3_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good3_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good3_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good3_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good3_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good3_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good3_7 k fa⟩
  · exact ⟨_, List.mem_cons_of_mem _ (List.mem_cons_of_mem _ (List.mem_cons_of_mem _ (List.mem_cons_of_mem _ (List.mem_cons_of_mem _ (List.mem_cons_of_mem _ (List.mem_cons_self)))))), good3_6 k fa⟩
  · exact ⟨_, List.mem_cons_of_mem _ (List.mem_cons_of_mem _ (List.mem_cons_of_mem _ (List.mem_cons_of_mem _ (List.mem_cons_of_mem _ (List.mem_cons_self))))), good3_5 k fa⟩
  · exact ⟨_, List.mem_cons_of_mem _ (List.mem_cons_of_mem _ (List.mem_cons_of_mem _ (List.mem_cons_of_mem _ (List.mem_cons_self)))), good3_4 k fa⟩
  · exact ⟨_, List.mem_cons_of_mem _ (List.mem_cons_of_mem _ (List.mem_cons_of_mem _ (List.mem_cons_self))), good3_3 k fa⟩
  · exact ⟨_, List.mem_cons_of_mem _ (List.mem_cons_of_mem _ (List.mem_cons_self)), good3_2 k fa⟩
  · exact ⟨_, List.mem_cons_of_mem _ (List.mem_cons_self), good3_1 k fa⟩
  · exact ⟨_, List.mem_cons_self, good3_0 k fa⟩

/-! ## Loop 4: from cc0_scratch1 to cc0_scratch4 -/

/-- The stores one trip of loop 4 leaves, the last first. -/
def pieces4 (k : Fin k0_t4_loop.trips) (fa : FVec F S128x128 .f32) : List (View.Piece (Elt F) S128x128 .f32) :=
  [⟨Rect.unit (s := S128x128) (k0_off46 k 1#32) S1x16.size (k0_off46_inb k 1), k0_pay185 (View.readAt (Elt F) (Memref.whole cc0_scratch1 : Memref sig .scVector .vmem S128x128 .f32).view (Rect.unit (s := S128x128) (k0_off46 k 1#32) S1x16.size (k0_off46_inb k 1)).toLoadRect fa)⟩,
   ⟨Rect.unit (s := S128x128) (k0_off45 k 1#32) S1x16.size (k0_off45_inb k 1), k0_pay184 (k0_pay80 (View.readAt (Elt F) (Memref.whole cc0_scratch1 : Memref sig .scVector .vmem S128x128 .f32).view (Rect.unit (s := S128x128) (k0_off45 k 1#32) S1x16.size (k0_off45_inb k 1)).toLoadRect fa))⟩,
   ⟨Rect.unit (s := S128x128) (k0_off44 k 1#32) S1x16.size (k0_off44_inb k 1), k0_pay79 (View.readAt (Elt F) (Memref.whole cc0_scratch1 : Memref sig .scVector .vmem S128x128 .f32).view (Rect.unit (s := S128x128) (k0_off44 k 1#32) S1x16.size (k0_off44_inb k 1)).toLoadRect fa)⟩,
   ⟨Rect.unit (s := S128x128) (k0_off43 k 1#32) S1x16.size (k0_off43_inb k 1), k0_pay78 (k0_pay77 (View.readAt (Elt F) (Memref.whole cc0_scratch1 : Memref sig .scVector .vmem S128x128 .f32).view (Rect.unit (s := S128x128) (k0_off43 k 1#32) S1x16.size (k0_off43_inb k 1)).toLoadRect fa))⟩,
   ⟨Rect.unit (s := S128x128) (k0_off42 k 1#32) S1x16.size (k0_off42_inb k 1), k0_pay76 (View.readAt (Elt F) (Memref.whole cc0_scratch1 : Memref sig .scVector .vmem S128x128 .f32).view (Rect.unit (s := S128x128) (k0_off42 k 1#32) S1x16.size (k0_off42_inb k 1)).toLoadRect fa)⟩,
   ⟨Rect.unit (s := S128x128) (k0_off41 k 1#32) S1x16.size (k0_off41_inb k 1), k0_pay75 (View.readAt (Elt F) (Memref.whole cc0_scratch1 : Memref sig .scVector .vmem S128x128 .f32).view (Rect.unit (s := S128x128) (k0_off41 k 1#32) S1x16.size (k0_off41_inb k 1)).toLoadRect fa)⟩,
   ⟨Rect.unit (s := S128x128) (k0_off40 k 1#32) S1x16.size (k0_off40_inb k 1), k0_pay74 (k0_pay73 (View.readAt (Elt F) (Memref.whole cc0_scratch1 : Memref sig .scVector .vmem S128x128 .f32).view (Rect.unit (s := S128x128) (k0_off40 k 1#32) S1x16.size (k0_off40_inb k 1)).toLoadRect fa))⟩,
   ⟨Rect.unit (s := S128x128) (k0_off39 k 1#32) S1x16.size (k0_off39_inb k 1), k0_pay72 (View.readAt (Elt F) (Memref.whole cc0_scratch1 : Memref sig .scVector .vmem S128x128 .f32).view (Rect.unit (s := S128x128) (k0_off39 k 1#32) S1x16.size (k0_off39_inb k 1)).toLoadRect fa)⟩,
   ⟨Rect.unit (s := S128x128) (k0_off46 k 0#32) S1x16.size (k0_off46_inb k 0), k0_pay71 (k0_pay70 (View.readAt (Elt F) (Memref.whole cc0_scratch1 : Memref sig .scVector .vmem S128x128 .f32).view (Rect.unit (s := S128x128) (k0_off46 k 0#32) S1x16.size (k0_off46_inb k 0)).toLoadRect fa))⟩,
   ⟨Rect.unit (s := S128x128) (k0_off45 k 0#32) S1x16.size (k0_off45_inb k 0), k0_pay69 (View.readAt (Elt F) (Memref.whole cc0_scratch1 : Memref sig .scVector .vmem S128x128 .f32).view (Rect.unit (s := S128x128) (k0_off45 k 0#32) S1x16.size (k0_off45_inb k 0)).toLoadRect fa)⟩,
   ⟨Rect.unit (s := S128x128) (k0_off44 k 0#32) S1x16.size (k0_off44_inb k 0), k0_pay68 (View.readAt (Elt F) (Memref.whole cc0_scratch1 : Memref sig .scVector .vmem S128x128 .f32).view (Rect.unit (s := S128x128) (k0_off44 k 0#32) S1x16.size (k0_off44_inb k 0)).toLoadRect fa)⟩,
   ⟨Rect.unit (s := S128x128) (k0_off43 k 0#32) S1x16.size (k0_off43_inb k 0), k0_pay67 (k0_pay66 (View.readAt (Elt F) (Memref.whole cc0_scratch1 : Memref sig .scVector .vmem S128x128 .f32).view (Rect.unit (s := S128x128) (k0_off43 k 0#32) S1x16.size (k0_off43_inb k 0)).toLoadRect fa))⟩,
   ⟨Rect.unit (s := S128x128) (k0_off42 k 0#32) S1x16.size (k0_off42_inb k 0), k0_pay65 (View.readAt (Elt F) (Memref.whole cc0_scratch1 : Memref sig .scVector .vmem S128x128 .f32).view (Rect.unit (s := S128x128) (k0_off42 k 0#32) S1x16.size (k0_off42_inb k 0)).toLoadRect fa)⟩,
   ⟨Rect.unit (s := S128x128) (k0_off41 k 0#32) S1x16.size (k0_off41_inb k 0), k0_pay64 (k0_pay63 (View.readAt (Elt F) (Memref.whole cc0_scratch1 : Memref sig .scVector .vmem S128x128 .f32).view (Rect.unit (s := S128x128) (k0_off41 k 0#32) S1x16.size (k0_off41_inb k 0)).toLoadRect fa))⟩,
   ⟨Rect.unit (s := S128x128) (k0_off40 k 0#32) S1x16.size (k0_off40_inb k 0), k0_pay62 (View.readAt (Elt F) (Memref.whole cc0_scratch1 : Memref sig .scVector .vmem S128x128 .f32).view (Rect.unit (s := S128x128) (k0_off40 k 0#32) S1x16.size (k0_off40_inb k 0)).toLoadRect fa)⟩,
   ⟨Rect.unit (s := S128x128) (k0_off39 k 0#32) S1x16.size (k0_off39_inb k 0), k0_pay61 (View.readAt (Elt F) (Memref.whole cc0_scratch1 : Memref sig .scVector .vmem S128x128 .f32).view (Rect.unit (s := S128x128) (k0_off39 k 0#32) S1x16.size (k0_off39_inb k 0)).toLoadRect fa)⟩]

theorem good4_0 (k : Fin k0_t4_loop.trips) (fa : FVec F S128x128 .f32) :
    Good k.val 1 7 fa ⟨Rect.unit (s := S128x128) (k0_off46 k 1#32) S1x16.size (k0_off46_inb k 1), k0_pay185 (View.readAt (Elt F) (Memref.whole cc0_scratch1 : Memref sig .scVector .vmem S128x128 .f32).view (Rect.unit (s := S128x128) (k0_off46 k 1#32) S1x16.size (k0_off46_inb k 1)).toLoadRect fa)⟩ :=
  good_of k.val 1 7 fa _ _ (k0_off46_eq k 1) (View.readAt (Elt F) (Memref.whole cc0_scratch1 : Memref sig .scVector .vmem S128x128 .f32).view (Rect.unit (s := S128x128) (k0_off46 k 1#32) S1x16.size (k0_off46_inb k 1)).toLoadRect fa) (fun _ => rfl) _ rfl

theorem good4_1 (k : Fin k0_t4_loop.trips) (fa : FVec F S128x128 .f32) :
    Good k.val 1 6 fa ⟨Rect.unit (s := S128x128) (k0_off45 k 1#32) S1x16.size (k0_off45_inb k 1), k0_pay184 (k0_pay80 (View.readAt (Elt F) (Memref.whole cc0_scratch1 : Memref sig .scVector .vmem S128x128 .f32).view (Rect.unit (s := S128x128) (k0_off45 k 1#32) S1x16.size (k0_off45_inb k 1)).toLoadRect fa))⟩ :=
  good_of k.val 1 6 fa _ _ (k0_off45_eq k 1) (View.readAt (Elt F) (Memref.whole cc0_scratch1 : Memref sig .scVector .vmem S128x128 .f32).view (Rect.unit (s := S128x128) (k0_off45 k 1#32) S1x16.size (k0_off45_inb k 1)).toLoadRect fa) (fun _ => rfl) _ rfl

theorem good4_2 (k : Fin k0_t4_loop.trips) (fa : FVec F S128x128 .f32) :
    Good k.val 1 5 fa ⟨Rect.unit (s := S128x128) (k0_off44 k 1#32) S1x16.size (k0_off44_inb k 1), k0_pay79 (View.readAt (Elt F) (Memref.whole cc0_scratch1 : Memref sig .scVector .vmem S128x128 .f32).view (Rect.unit (s := S128x128) (k0_off44 k 1#32) S1x16.size (k0_off44_inb k 1)).toLoadRect fa)⟩ :=
  good_of k.val 1 5 fa _ _ (k0_off44_eq k 1) (View.readAt (Elt F) (Memref.whole cc0_scratch1 : Memref sig .scVector .vmem S128x128 .f32).view (Rect.unit (s := S128x128) (k0_off44 k 1#32) S1x16.size (k0_off44_inb k 1)).toLoadRect fa) (fun _ => rfl) _ rfl

theorem good4_3 (k : Fin k0_t4_loop.trips) (fa : FVec F S128x128 .f32) :
    Good k.val 1 4 fa ⟨Rect.unit (s := S128x128) (k0_off43 k 1#32) S1x16.size (k0_off43_inb k 1), k0_pay78 (k0_pay77 (View.readAt (Elt F) (Memref.whole cc0_scratch1 : Memref sig .scVector .vmem S128x128 .f32).view (Rect.unit (s := S128x128) (k0_off43 k 1#32) S1x16.size (k0_off43_inb k 1)).toLoadRect fa))⟩ :=
  good_of k.val 1 4 fa _ _ (k0_off43_eq k 1) (View.readAt (Elt F) (Memref.whole cc0_scratch1 : Memref sig .scVector .vmem S128x128 .f32).view (Rect.unit (s := S128x128) (k0_off43 k 1#32) S1x16.size (k0_off43_inb k 1)).toLoadRect fa) (fun _ => rfl) _ rfl

theorem good4_4 (k : Fin k0_t4_loop.trips) (fa : FVec F S128x128 .f32) :
    Good k.val 1 3 fa ⟨Rect.unit (s := S128x128) (k0_off42 k 1#32) S1x16.size (k0_off42_inb k 1), k0_pay76 (View.readAt (Elt F) (Memref.whole cc0_scratch1 : Memref sig .scVector .vmem S128x128 .f32).view (Rect.unit (s := S128x128) (k0_off42 k 1#32) S1x16.size (k0_off42_inb k 1)).toLoadRect fa)⟩ :=
  good_of k.val 1 3 fa _ _ (k0_off42_eq k 1) (View.readAt (Elt F) (Memref.whole cc0_scratch1 : Memref sig .scVector .vmem S128x128 .f32).view (Rect.unit (s := S128x128) (k0_off42 k 1#32) S1x16.size (k0_off42_inb k 1)).toLoadRect fa) (fun _ => rfl) _ rfl

theorem good4_5 (k : Fin k0_t4_loop.trips) (fa : FVec F S128x128 .f32) :
    Good k.val 1 2 fa ⟨Rect.unit (s := S128x128) (k0_off41 k 1#32) S1x16.size (k0_off41_inb k 1), k0_pay75 (View.readAt (Elt F) (Memref.whole cc0_scratch1 : Memref sig .scVector .vmem S128x128 .f32).view (Rect.unit (s := S128x128) (k0_off41 k 1#32) S1x16.size (k0_off41_inb k 1)).toLoadRect fa)⟩ :=
  good_of k.val 1 2 fa _ _ (k0_off41_eq k 1) (View.readAt (Elt F) (Memref.whole cc0_scratch1 : Memref sig .scVector .vmem S128x128 .f32).view (Rect.unit (s := S128x128) (k0_off41 k 1#32) S1x16.size (k0_off41_inb k 1)).toLoadRect fa) (fun _ => rfl) _ rfl

theorem good4_6 (k : Fin k0_t4_loop.trips) (fa : FVec F S128x128 .f32) :
    Good k.val 1 1 fa ⟨Rect.unit (s := S128x128) (k0_off40 k 1#32) S1x16.size (k0_off40_inb k 1), k0_pay74 (k0_pay73 (View.readAt (Elt F) (Memref.whole cc0_scratch1 : Memref sig .scVector .vmem S128x128 .f32).view (Rect.unit (s := S128x128) (k0_off40 k 1#32) S1x16.size (k0_off40_inb k 1)).toLoadRect fa))⟩ :=
  good_of k.val 1 1 fa _ _ (k0_off40_eq k 1) (View.readAt (Elt F) (Memref.whole cc0_scratch1 : Memref sig .scVector .vmem S128x128 .f32).view (Rect.unit (s := S128x128) (k0_off40 k 1#32) S1x16.size (k0_off40_inb k 1)).toLoadRect fa) (fun _ => rfl) _ rfl

theorem good4_7 (k : Fin k0_t4_loop.trips) (fa : FVec F S128x128 .f32) :
    Good k.val 1 0 fa ⟨Rect.unit (s := S128x128) (k0_off39 k 1#32) S1x16.size (k0_off39_inb k 1), k0_pay72 (View.readAt (Elt F) (Memref.whole cc0_scratch1 : Memref sig .scVector .vmem S128x128 .f32).view (Rect.unit (s := S128x128) (k0_off39 k 1#32) S1x16.size (k0_off39_inb k 1)).toLoadRect fa)⟩ :=
  good_of k.val 1 0 fa _ _ (k0_off39_eq k 1) (View.readAt (Elt F) (Memref.whole cc0_scratch1 : Memref sig .scVector .vmem S128x128 .f32).view (Rect.unit (s := S128x128) (k0_off39 k 1#32) S1x16.size (k0_off39_inb k 1)).toLoadRect fa) (fun _ => rfl) _ rfl

theorem good4_8 (k : Fin k0_t4_loop.trips) (fa : FVec F S128x128 .f32) :
    Good k.val 0 7 fa ⟨Rect.unit (s := S128x128) (k0_off46 k 0#32) S1x16.size (k0_off46_inb k 0), k0_pay71 (k0_pay70 (View.readAt (Elt F) (Memref.whole cc0_scratch1 : Memref sig .scVector .vmem S128x128 .f32).view (Rect.unit (s := S128x128) (k0_off46 k 0#32) S1x16.size (k0_off46_inb k 0)).toLoadRect fa))⟩ :=
  good_of k.val 0 7 fa _ _ (k0_off46_eq k 0) (View.readAt (Elt F) (Memref.whole cc0_scratch1 : Memref sig .scVector .vmem S128x128 .f32).view (Rect.unit (s := S128x128) (k0_off46 k 0#32) S1x16.size (k0_off46_inb k 0)).toLoadRect fa) (fun _ => rfl) _ rfl

theorem good4_9 (k : Fin k0_t4_loop.trips) (fa : FVec F S128x128 .f32) :
    Good k.val 0 6 fa ⟨Rect.unit (s := S128x128) (k0_off45 k 0#32) S1x16.size (k0_off45_inb k 0), k0_pay69 (View.readAt (Elt F) (Memref.whole cc0_scratch1 : Memref sig .scVector .vmem S128x128 .f32).view (Rect.unit (s := S128x128) (k0_off45 k 0#32) S1x16.size (k0_off45_inb k 0)).toLoadRect fa)⟩ :=
  good_of k.val 0 6 fa _ _ (k0_off45_eq k 0) (View.readAt (Elt F) (Memref.whole cc0_scratch1 : Memref sig .scVector .vmem S128x128 .f32).view (Rect.unit (s := S128x128) (k0_off45 k 0#32) S1x16.size (k0_off45_inb k 0)).toLoadRect fa) (fun _ => rfl) _ rfl

theorem good4_10 (k : Fin k0_t4_loop.trips) (fa : FVec F S128x128 .f32) :
    Good k.val 0 5 fa ⟨Rect.unit (s := S128x128) (k0_off44 k 0#32) S1x16.size (k0_off44_inb k 0), k0_pay68 (View.readAt (Elt F) (Memref.whole cc0_scratch1 : Memref sig .scVector .vmem S128x128 .f32).view (Rect.unit (s := S128x128) (k0_off44 k 0#32) S1x16.size (k0_off44_inb k 0)).toLoadRect fa)⟩ :=
  good_of k.val 0 5 fa _ _ (k0_off44_eq k 0) (View.readAt (Elt F) (Memref.whole cc0_scratch1 : Memref sig .scVector .vmem S128x128 .f32).view (Rect.unit (s := S128x128) (k0_off44 k 0#32) S1x16.size (k0_off44_inb k 0)).toLoadRect fa) (fun _ => rfl) _ rfl

theorem good4_11 (k : Fin k0_t4_loop.trips) (fa : FVec F S128x128 .f32) :
    Good k.val 0 4 fa ⟨Rect.unit (s := S128x128) (k0_off43 k 0#32) S1x16.size (k0_off43_inb k 0), k0_pay67 (k0_pay66 (View.readAt (Elt F) (Memref.whole cc0_scratch1 : Memref sig .scVector .vmem S128x128 .f32).view (Rect.unit (s := S128x128) (k0_off43 k 0#32) S1x16.size (k0_off43_inb k 0)).toLoadRect fa))⟩ :=
  good_of k.val 0 4 fa _ _ (k0_off43_eq k 0) (View.readAt (Elt F) (Memref.whole cc0_scratch1 : Memref sig .scVector .vmem S128x128 .f32).view (Rect.unit (s := S128x128) (k0_off43 k 0#32) S1x16.size (k0_off43_inb k 0)).toLoadRect fa) (fun _ => rfl) _ rfl

theorem good4_12 (k : Fin k0_t4_loop.trips) (fa : FVec F S128x128 .f32) :
    Good k.val 0 3 fa ⟨Rect.unit (s := S128x128) (k0_off42 k 0#32) S1x16.size (k0_off42_inb k 0), k0_pay65 (View.readAt (Elt F) (Memref.whole cc0_scratch1 : Memref sig .scVector .vmem S128x128 .f32).view (Rect.unit (s := S128x128) (k0_off42 k 0#32) S1x16.size (k0_off42_inb k 0)).toLoadRect fa)⟩ :=
  good_of k.val 0 3 fa _ _ (k0_off42_eq k 0) (View.readAt (Elt F) (Memref.whole cc0_scratch1 : Memref sig .scVector .vmem S128x128 .f32).view (Rect.unit (s := S128x128) (k0_off42 k 0#32) S1x16.size (k0_off42_inb k 0)).toLoadRect fa) (fun _ => rfl) _ rfl

theorem good4_13 (k : Fin k0_t4_loop.trips) (fa : FVec F S128x128 .f32) :
    Good k.val 0 2 fa ⟨Rect.unit (s := S128x128) (k0_off41 k 0#32) S1x16.size (k0_off41_inb k 0), k0_pay64 (k0_pay63 (View.readAt (Elt F) (Memref.whole cc0_scratch1 : Memref sig .scVector .vmem S128x128 .f32).view (Rect.unit (s := S128x128) (k0_off41 k 0#32) S1x16.size (k0_off41_inb k 0)).toLoadRect fa))⟩ :=
  good_of k.val 0 2 fa _ _ (k0_off41_eq k 0) (View.readAt (Elt F) (Memref.whole cc0_scratch1 : Memref sig .scVector .vmem S128x128 .f32).view (Rect.unit (s := S128x128) (k0_off41 k 0#32) S1x16.size (k0_off41_inb k 0)).toLoadRect fa) (fun _ => rfl) _ rfl

theorem good4_14 (k : Fin k0_t4_loop.trips) (fa : FVec F S128x128 .f32) :
    Good k.val 0 1 fa ⟨Rect.unit (s := S128x128) (k0_off40 k 0#32) S1x16.size (k0_off40_inb k 0), k0_pay62 (View.readAt (Elt F) (Memref.whole cc0_scratch1 : Memref sig .scVector .vmem S128x128 .f32).view (Rect.unit (s := S128x128) (k0_off40 k 0#32) S1x16.size (k0_off40_inb k 0)).toLoadRect fa)⟩ :=
  good_of k.val 0 1 fa _ _ (k0_off40_eq k 0) (View.readAt (Elt F) (Memref.whole cc0_scratch1 : Memref sig .scVector .vmem S128x128 .f32).view (Rect.unit (s := S128x128) (k0_off40 k 0#32) S1x16.size (k0_off40_inb k 0)).toLoadRect fa) (fun _ => rfl) _ rfl

theorem good4_15 (k : Fin k0_t4_loop.trips) (fa : FVec F S128x128 .f32) :
    Good k.val 0 0 fa ⟨Rect.unit (s := S128x128) (k0_off39 k 0#32) S1x16.size (k0_off39_inb k 0), k0_pay61 (View.readAt (Elt F) (Memref.whole cc0_scratch1 : Memref sig .scVector .vmem S128x128 .f32).view (Rect.unit (s := S128x128) (k0_off39 k 0#32) S1x16.size (k0_off39_inb k 0)).toLoadRect fa)⟩ :=
  good_of k.val 0 0 fa _ _ (k0_off39_eq k 0) (View.readAt (Elt F) (Memref.whole cc0_scratch1 : Memref sig .scVector .vmem S128x128 .f32).view (Rect.unit (s := S128x128) (k0_off39 k 0#32) S1x16.size (k0_off39_inb k 0)).toLoadRect fa) (fun _ => rfl) _ rfl

/-- One trip of loop 4 extends the rows at the logistic function of the input by two. -/
theorem trip_value4 (k : Fin k0_t4_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch4 : Memref sig .scVector .vmem S128x128 .f32).view.writes (Elt F) f (pieces4 k fa)) y = Cert.Fuse.logistic (fa y) := by
  refine rows_step (Memref.whole cc0_scratch4 : Memref sig .scVector .vmem S128x128 .f32).view k.val fa f (pieces4 k fa) (List.forall_mem_cons.mpr ⟨⟨_, _, good4_0 k fa⟩, (List.forall_mem_cons.mpr ⟨⟨_, _, good4_1 k fa⟩, (List.forall_mem_cons.mpr ⟨⟨_, _, good4_2 k fa⟩, (List.forall_mem_cons.mpr ⟨⟨_, _, good4_3 k fa⟩, (List.forall_mem_cons.mpr ⟨⟨_, _, good4_4 k fa⟩, (List.forall_mem_cons.mpr ⟨⟨_, _, good4_5 k fa⟩, (List.forall_mem_cons.mpr ⟨⟨_, _, good4_6 k fa⟩, (List.forall_mem_cons.mpr ⟨⟨_, _, good4_7 k fa⟩, (List.forall_mem_cons.mpr ⟨⟨_, _, good4_8 k fa⟩, (List.forall_mem_cons.mpr ⟨⟨_, _, good4_9 k fa⟩, (List.forall_mem_cons.mpr ⟨⟨_, _, good4_10 k fa⟩, (List.forall_mem_cons.mpr ⟨⟨_, _, good4_11 k fa⟩, (List.forall_mem_cons.mpr ⟨⟨_, _, good4_12 k fa⟩, (List.forall_mem_cons.mpr ⟨⟨_, _, good4_13 k fa⟩, (List.forall_mem_cons.mpr ⟨⟨_, _, good4_14 k fa⟩, (List.forall_mem_cons.mpr ⟨⟨_, _, good4_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good4_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good4_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good4_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good4_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good4_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good4_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good4_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good4_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good4_7 k fa⟩
  · exact ⟨_, List.mem_cons_of_mem _ (List.mem_cons_of_mem _ (List.mem_cons_of_mem _ (List.mem_cons_of_mem _ (List.mem_cons_of_mem _ (List.mem_cons_of_mem _ (List.mem_cons_self)))))), good4_6 k fa⟩
  · exact ⟨_, List.mem_cons_of_mem _ (List.mem_cons_of_mem _ (List.mem_cons_of_mem _ (List.mem_cons_of_mem _ (List.mem_cons_of_mem _ (List.mem_cons_self))))), good4_5 k fa⟩
  · exact ⟨_, List.mem_cons_of_mem _ (List.mem_cons_of_mem _ (List.mem_cons_of_mem _ (List.mem_cons_of_mem _ (List.mem_cons_self)))), good4_4 k fa⟩
  · exact ⟨_, List.mem_cons_of_mem _ (List.mem_cons_of_mem _ (List.mem_cons_of_mem _ (List.mem_cons_self))), good4_3 k fa⟩
  · exact ⟨_, List.mem_cons_of_mem _ (List.mem_cons_of_mem _ (List.mem_cons_self)), good4_2 k fa⟩
  · exact ⟨_, List.mem_cons_of_mem _ (List.mem_cons_self), good4_1 k fa⟩
  · exact ⟨_, List.mem_cons_self, good4_0 k fa⟩

/-! ## Loop 5: from cc0_scratch2 to cc0_scratch5 -/

/-- The stores one trip of loop 5 leaves, the last first. -/
def pieces5 (k : Fin k0_t5_loop.trips) (fa : FVec F S128x128 .f32) : List (View.Piece (Elt F) S128x128 .f32) :=
  [⟨Rect.unit (s := S128x128) (k0_off56 k 1#32) S1x16.size (k0_off56_inb k 1), k0_pay187 (View.readAt (Elt F) (Memref.whole cc0_scratch2 : Memref sig .scVector .vmem S128x128 .f32).view (Rect.unit (s := S128x128) (k0_off56 k 1#32) S1x16.size (k0_off56_inb k 1)).toLoadRect fa)⟩,
   ⟨Rect.unit (s := S128x128) (k0_off55 k 1#32) S1x16.size (k0_off55_inb k 1), k0_pay186 (k0_pay100 (View.readAt (Elt F) (Memref.whole cc0_scratch2 : Memref sig .scVector .vmem S128x128 .f32).view (Rect.unit (s := S128x128) (k0_off55 k 1#32) S1x16.size (k0_off55_inb k 1)).toLoadRect fa))⟩,
   ⟨Rect.unit (s := S128x128) (k0_off54 k 1#32) S1x16.size (k0_off54_inb k 1), k0_pay99 (View.readAt (Elt F) (Memref.whole cc0_scratch2 : Memref sig .scVector .vmem S128x128 .f32).view (Rect.unit (s := S128x128) (k0_off54 k 1#32) S1x16.size (k0_off54_inb k 1)).toLoadRect fa)⟩,
   ⟨Rect.unit (s := S128x128) (k0_off53 k 1#32) S1x16.size (k0_off53_inb k 1), k0_pay98 (k0_pay97 (View.readAt (Elt F) (Memref.whole cc0_scratch2 : Memref sig .scVector .vmem S128x128 .f32).view (Rect.unit (s := S128x128) (k0_off53 k 1#32) S1x16.size (k0_off53_inb k 1)).toLoadRect fa))⟩,
   ⟨Rect.unit (s := S128x128) (k0_off52 k 1#32) S1x16.size (k0_off52_inb k 1), k0_pay96 (View.readAt (Elt F) (Memref.whole cc0_scratch2 : Memref sig .scVector .vmem S128x128 .f32).view (Rect.unit (s := S128x128) (k0_off52 k 1#32) S1x16.size (k0_off52_inb k 1)).toLoadRect fa)⟩,
   ⟨Rect.unit (s := S128x128) (k0_off51 k 1#32) S1x16.size (k0_off51_inb k 1), k0_pay95 (View.readAt (Elt F) (Memref.whole cc0_scratch2 : Memref sig .scVector .vmem S128x128 .f32).view (Rect.unit (s := S128x128) (k0_off51 k 1#32) S1x16.size (k0_off51_inb k 1)).toLoadRect fa)⟩,
   ⟨Rect.unit (s := S128x128) (k0_off50 k 1#32) S1x16.size (k0_off50_inb k 1), k0_pay94 (k0_pay93 (View.readAt (Elt F) (Memref.whole cc0_scratch2 : Memref sig .scVector .vmem S128x128 .f32).view (Rect.unit (s := S128x128) (k0_off50 k 1#32) S1x16.size (k0_off50_inb k 1)).toLoadRect fa))⟩,
   ⟨Rect.unit (s := S128x128) (k0_off49 k 1#32) S1x16.size (k0_off49_inb k 1), k0_pay92 (View.readAt (Elt F) (Memref.whole cc0_scratch2 : Memref sig .scVector .vmem S128x128 .f32).view (Rect.unit (s := S128x128) (k0_off49 k 1#32) S1x16.size (k0_off49_inb k 1)).toLoadRect fa)⟩,
   ⟨Rect.unit (s := S128x128) (k0_off56 k 0#32) S1x16.size (k0_off56_inb k 0), k0_pay91 (k0_pay90 (View.readAt (Elt F) (Memref.whole cc0_scratch2 : Memref sig .scVector .vmem S128x128 .f32).view (Rect.unit (s := S128x128) (k0_off56 k 0#32) S1x16.size (k0_off56_inb k 0)).toLoadRect fa))⟩,
   ⟨Rect.unit (s := S128x128) (k0_off55 k 0#32) S1x16.size (k0_off55_inb k 0), k0_pay89 (View.readAt (Elt F) (Memref.whole cc0_scratch2 : Memref sig .scVector .vmem S128x128 .f32).view (Rect.unit (s := S128x128) (k0_off55 k 0#32) S1x16.size (k0_off55_inb k 0)).toLoadRect fa)⟩,
   ⟨Rect.unit (s := S128x128) (k0_off54 k 0#32) S1x16.size (k0_off54_inb k 0), k0_pay88 (View.readAt (Elt F) (Memref.whole cc0_scratch2 : Memref sig .scVector .vmem S128x128 .f32).view (Rect.unit (s := S128x128) (k0_off54 k 0#32) S1x16.size (k0_off54_inb k 0)).toLoadRect fa)⟩,
   ⟨Rect.unit (s := S128x128) (k0_off53 k 0#32) S1x16.size (k0_off53_inb k 0), k0_pay87 (k0_pay86 (View.readAt (Elt F) (Memref.whole cc0_scratch2 : Memref sig .scVector .vmem S128x128 .f32).view (Rect.unit (s := S128x128) (k0_off53 k 0#32) S1x16.size (k0_off53_inb k 0)).toLoadRect fa))⟩,
   ⟨Rect.unit (s := S128x128) (k0_off52 k 0#32) S1x16.size (k0_off52_inb k 0), k0_pay85 (View.readAt (Elt F) (Memref.whole cc0_scratch2 : Memref sig .scVector .vmem S128x128 .f32).view (Rect.unit (s := S128x128) (k0_off52 k 0#32) S1x16.size (k0_off52_inb k 0)).toLoadRect fa)⟩,
   ⟨Rect.unit (s := S128x128) (k0_off51 k 0#32) S1x16.size (k0_off51_inb k 0), k0_pay84 (k0_pay83 (View.readAt (Elt F) (Memref.whole cc0_scratch2 : Memref sig .scVector .vmem S128x128 .f32).view (Rect.unit (s := S128x128) (k0_off51 k 0#32) S1x16.size (k0_off51_inb k 0)).toLoadRect fa))⟩,
   ⟨Rect.unit (s := S128x128) (k0_off50 k 0#32) S1x16.size (k0_off50_inb k 0), k0_pay82 (View.readAt (Elt F) (Memref.whole cc0_scratch2 : Memref sig .scVector .vmem S128x128 .f32).view (Rect.unit (s := S128x128) (k0_off50 k 0#32) S1x16.size (k0_off50_inb k 0)).toLoadRect fa)⟩,
   ⟨Rect.unit (s := S128x128) (k0_off49 k 0#32) S1x16.size (k0_off49_inb k 0), k0_pay81 (View.readAt (Elt F) (Memref.whole cc0_scratch2 : Memref sig .scVector .vmem S128x128 .f32).view (Rect.unit (s := S128x128) (k0_off49 k 0#32) S1x16.size (k0_off49_inb k 0)).toLoadRect fa)⟩]

theorem good5_0 (k : Fin k0_t5_loop.trips) (fa : FVec F S128x128 .f32) :
    Good k.val 1 7 fa ⟨Rect.unit (s := S128x128) (k0_off56 k 1#32) S1x16.size (k0_off56_inb k 1), k0_pay187 (View.readAt (Elt F) (Memref.whole cc0_scratch2 : Memref sig .scVector .vmem S128x128 .f32).view (Rect.unit (s := S128x128) (k0_off56 k 1#32) S1x16.size (k0_off56_inb k 1)).toLoadRect fa)⟩ :=
  good_of k.val 1 7 fa _ _ (k0_off56_eq k 1) (View.readAt (Elt F) (Memref.whole cc0_scratch2 : Memref sig .scVector .vmem S128x128 .f32).view (Rect.unit (s := S128x128) (k0_off56 k 1#32) S1x16.size (k0_off56_inb k 1)).toLoadRect fa) (fun _ => rfl) _ rfl

theorem good5_1 (k : Fin k0_t5_loop.trips) (fa : FVec F S128x128 .f32) :
    Good k.val 1 6 fa ⟨Rect.unit (s := S128x128) (k0_off55 k 1#32) S1x16.size (k0_off55_inb k 1), k0_pay186 (k0_pay100 (View.readAt (Elt F) (Memref.whole cc0_scratch2 : Memref sig .scVector .vmem S128x128 .f32).view (Rect.unit (s := S128x128) (k0_off55 k 1#32) S1x16.size (k0_off55_inb k 1)).toLoadRect fa))⟩ :=
  good_of k.val 1 6 fa _ _ (k0_off55_eq k 1) (View.readAt (Elt F) (Memref.whole cc0_scratch2 : Memref sig .scVector .vmem S128x128 .f32).view (Rect.unit (s := S128x128) (k0_off55 k 1#32) S1x16.size (k0_off55_inb k 1)).toLoadRect fa) (fun _ => rfl) _ rfl

theorem good5_2 (k : Fin k0_t5_loop.trips) (fa : FVec F S128x128 .f32) :
    Good k.val 1 5 fa ⟨Rect.unit (s := S128x128) (k0_off54 k 1#32) S1x16.size (k0_off54_inb k 1), k0_pay99 (View.readAt (Elt F) (Memref.whole cc0_scratch2 : Memref sig .scVector .vmem S128x128 .f32).view (Rect.unit (s := S128x128) (k0_off54 k 1#32) S1x16.size (k0_off54_inb k 1)).toLoadRect fa)⟩ :=
  good_of k.val 1 5 fa _ _ (k0_off54_eq k 1) (View.readAt (Elt F) (Memref.whole cc0_scratch2 : Memref sig .scVector .vmem S128x128 .f32).view (Rect.unit (s := S128x128) (k0_off54 k 1#32) S1x16.size (k0_off54_inb k 1)).toLoadRect fa) (fun _ => rfl) _ rfl

theorem good5_3 (k : Fin k0_t5_loop.trips) (fa : FVec F S128x128 .f32) :
    Good k.val 1 4 fa ⟨Rect.unit (s := S128x128) (k0_off53 k 1#32) S1x16.size (k0_off53_inb k 1), k0_pay98 (k0_pay97 (View.readAt (Elt F) (Memref.whole cc0_scratch2 : Memref sig .scVector .vmem S128x128 .f32).view (Rect.unit (s := S128x128) (k0_off53 k 1#32) S1x16.size (k0_off53_inb k 1)).toLoadRect fa))⟩ :=
  good_of k.val 1 4 fa _ _ (k0_off53_eq k 1) (View.readAt (Elt F) (Memref.whole cc0_scratch2 : Memref sig .scVector .vmem S128x128 .f32).view (Rect.unit (s := S128x128) (k0_off53 k 1#32) S1x16.size (k0_off53_inb k 1)).toLoadRect fa) (fun _ => rfl) _ rfl

theorem good5_4 (k : Fin k0_t5_loop.trips) (fa : FVec F S128x128 .f32) :
    Good k.val 1 3 fa ⟨Rect.unit (s := S128x128) (k0_off52 k 1#32) S1x16.size (k0_off52_inb k 1), k0_pay96 (View.readAt (Elt F) (Memref.whole cc0_scratch2 : Memref sig .scVector .vmem S128x128 .f32).view (Rect.unit (s := S128x128) (k0_off52 k 1#32) S1x16.size (k0_off52_inb k 1)).toLoadRect fa)⟩ :=
  good_of k.val 1 3 fa _ _ (k0_off52_eq k 1) (View.readAt (Elt F) (Memref.whole cc0_scratch2 : Memref sig .scVector .vmem S128x128 .f32).view (Rect.unit (s := S128x128) (k0_off52 k 1#32) S1x16.size (k0_off52_inb k 1)).toLoadRect fa) (fun _ => rfl) _ rfl

theorem good5_5 (k : Fin k0_t5_loop.trips) (fa : FVec F S128x128 .f32) :
    Good k.val 1 2 fa ⟨Rect.unit (s := S128x128) (k0_off51 k 1#32) S1x16.size (k0_off51_inb k 1), k0_pay95 (View.readAt (Elt F) (Memref.whole cc0_scratch2 : Memref sig .scVector .vmem S128x128 .f32).view (Rect.unit (s := S128x128) (k0_off51 k 1#32) S1x16.size (k0_off51_inb k 1)).toLoadRect fa)⟩ :=
  good_of k.val 1 2 fa _ _ (k0_off51_eq k 1) (View.readAt (Elt F) (Memref.whole cc0_scratch2 : Memref sig .scVector .vmem S128x128 .f32).view (Rect.unit (s := S128x128) (k0_off51 k 1#32) S1x16.size (k0_off51_inb k 1)).toLoadRect fa) (fun _ => rfl) _ rfl

theorem good5_6 (k : Fin k0_t5_loop.trips) (fa : FVec F S128x128 .f32) :
    Good k.val 1 1 fa ⟨Rect.unit (s := S128x128) (k0_off50 k 1#32) S1x16.size (k0_off50_inb k 1), k0_pay94 (k0_pay93 (View.readAt (Elt F) (Memref.whole cc0_scratch2 : Memref sig .scVector .vmem S128x128 .f32).view (Rect.unit (s := S128x128) (k0_off50 k 1#32) S1x16.size (k0_off50_inb k 1)).toLoadRect fa))⟩ :=
  good_of k.val 1 1 fa _ _ (k0_off50_eq k 1) (View.readAt (Elt F) (Memref.whole cc0_scratch2 : Memref sig .scVector .vmem S128x128 .f32).view (Rect.unit (s := S128x128) (k0_off50 k 1#32) S1x16.size (k0_off50_inb k 1)).toLoadRect fa) (fun _ => rfl) _ rfl

theorem good5_7 (k : Fin k0_t5_loop.trips) (fa : FVec F S128x128 .f32) :
    Good k.val 1 0 fa ⟨Rect.unit (s := S128x128) (k0_off49 k 1#32) S1x16.size (k0_off49_inb k 1), k0_pay92 (View.readAt (Elt F) (Memref.whole cc0_scratch2 : Memref sig .scVector .vmem S128x128 .f32).view (Rect.unit (s := S128x128) (k0_off49 k 1#32) S1x16.size (k0_off49_inb k 1)).toLoadRect fa)⟩ :=
  good_of k.val 1 0 fa _ _ (k0_off49_eq k 1) (View.readAt (Elt F) (Memref.whole cc0_scratch2 : Memref sig .scVector .vmem S128x128 .f32).view (Rect.unit (s := S128x128) (k0_off49 k 1#32) S1x16.size (k0_off49_inb k 1)).toLoadRect fa) (fun _ => rfl) _ rfl

theorem good5_8 (k : Fin k0_t5_loop.trips) (fa : FVec F S128x128 .f32) :
    Good k.val 0 7 fa ⟨Rect.unit (s := S128x128) (k0_off56 k 0#32) S1x16.size (k0_off56_inb k 0), k0_pay91 (k0_pay90 (View.readAt (Elt F) (Memref.whole cc0_scratch2 : Memref sig .scVector .vmem S128x128 .f32).view (Rect.unit (s := S128x128) (k0_off56 k 0#32) S1x16.size (k0_off56_inb k 0)).toLoadRect fa))⟩ :=
  good_of k.val 0 7 fa _ _ (k0_off56_eq k 0) (View.readAt (Elt F) (Memref.whole cc0_scratch2 : Memref sig .scVector .vmem S128x128 .f32).view (Rect.unit (s := S128x128) (k0_off56 k 0#32) S1x16.size (k0_off56_inb k 0)).toLoadRect fa) (fun _ => rfl) _ rfl

theorem good5_9 (k : Fin k0_t5_loop.trips) (fa : FVec F S128x128 .f32) :
    Good k.val 0 6 fa ⟨Rect.unit (s := S128x128) (k0_off55 k 0#32) S1x16.size (k0_off55_inb k 0), k0_pay89 (View.readAt (Elt F) (Memref.whole cc0_scratch2 : Memref sig .scVector .vmem S128x128 .f32).view (Rect.unit (s := S128x128) (k0_off55 k 0#32) S1x16.size (k0_off55_inb k 0)).toLoadRect fa)⟩ :=
  good_of k.val 0 6 fa _ _ (k0_off55_eq k 0) (View.readAt (Elt F) (Memref.whole cc0_scratch2 : Memref sig .scVector .vmem S128x128 .f32).view (Rect.unit (s := S128x128) (k0_off55 k 0#32) S1x16.size (k0_off55_inb k 0)).toLoadRect fa) (fun _ => rfl) _ rfl

theorem good5_10 (k : Fin k0_t5_loop.trips) (fa : FVec F S128x128 .f32) :
    Good k.val 0 5 fa ⟨Rect.unit (s := S128x128) (k0_off54 k 0#32) S1x16.size (k0_off54_inb k 0), k0_pay88 (View.readAt (Elt F) (Memref.whole cc0_scratch2 : Memref sig .scVector .vmem S128x128 .f32).view (Rect.unit (s := S128x128) (k0_off54 k 0#32) S1x16.size (k0_off54_inb k 0)).toLoadRect fa)⟩ :=
  good_of k.val 0 5 fa _ _ (k0_off54_eq k 0) (View.readAt (Elt F) (Memref.whole cc0_scratch2 : Memref sig .scVector .vmem S128x128 .f32).view (Rect.unit (s := S128x128) (k0_off54 k 0#32) S1x16.size (k0_off54_inb k 0)).toLoadRect fa) (fun _ => rfl) _ rfl

theorem good5_11 (k : Fin k0_t5_loop.trips) (fa : FVec F S128x128 .f32) :
    Good k.val 0 4 fa ⟨Rect.unit (s := S128x128) (k0_off53 k 0#32) S1x16.size (k0_off53_inb k 0), k0_pay87 (k0_pay86 (View.readAt (Elt F) (Memref.whole cc0_scratch2 : Memref sig .scVector .vmem S128x128 .f32).view (Rect.unit (s := S128x128) (k0_off53 k 0#32) S1x16.size (k0_off53_inb k 0)).toLoadRect fa))⟩ :=
  good_of k.val 0 4 fa _ _ (k0_off53_eq k 0) (View.readAt (Elt F) (Memref.whole cc0_scratch2 : Memref sig .scVector .vmem S128x128 .f32).view (Rect.unit (s := S128x128) (k0_off53 k 0#32) S1x16.size (k0_off53_inb k 0)).toLoadRect fa) (fun _ => rfl) _ rfl

theorem good5_12 (k : Fin k0_t5_loop.trips) (fa : FVec F S128x128 .f32) :
    Good k.val 0 3 fa ⟨Rect.unit (s := S128x128) (k0_off52 k 0#32) S1x16.size (k0_off52_inb k 0), k0_pay85 (View.readAt (Elt F) (Memref.whole cc0_scratch2 : Memref sig .scVector .vmem S128x128 .f32).view (Rect.unit (s := S128x128) (k0_off52 k 0#32) S1x16.size (k0_off52_inb k 0)).toLoadRect fa)⟩ :=
  good_of k.val 0 3 fa _ _ (k0_off52_eq k 0) (View.readAt (Elt F) (Memref.whole cc0_scratch2 : Memref sig .scVector .vmem S128x128 .f32).view (Rect.unit (s := S128x128) (k0_off52 k 0#32) S1x16.size (k0_off52_inb k 0)).toLoadRect fa) (fun _ => rfl) _ rfl

theorem good5_13 (k : Fin k0_t5_loop.trips) (fa : FVec F S128x128 .f32) :
    Good k.val 0 2 fa ⟨Rect.unit (s := S128x128) (k0_off51 k 0#32) S1x16.size (k0_off51_inb k 0), k0_pay84 (k0_pay83 (View.readAt (Elt F) (Memref.whole cc0_scratch2 : Memref sig .scVector .vmem S128x128 .f32).view (Rect.unit (s := S128x128) (k0_off51 k 0#32) S1x16.size (k0_off51_inb k 0)).toLoadRect fa))⟩ :=
  good_of k.val 0 2 fa _ _ (k0_off51_eq k 0) (View.readAt (Elt F) (Memref.whole cc0_scratch2 : Memref sig .scVector .vmem S128x128 .f32).view (Rect.unit (s := S128x128) (k0_off51 k 0#32) S1x16.size (k0_off51_inb k 0)).toLoadRect fa) (fun _ => rfl) _ rfl

theorem good5_14 (k : Fin k0_t5_loop.trips) (fa : FVec F S128x128 .f32) :
    Good k.val 0 1 fa ⟨Rect.unit (s := S128x128) (k0_off50 k 0#32) S1x16.size (k0_off50_inb k 0), k0_pay82 (View.readAt (Elt F) (Memref.whole cc0_scratch2 : Memref sig .scVector .vmem S128x128 .f32).view (Rect.unit (s := S128x128) (k0_off50 k 0#32) S1x16.size (k0_off50_inb k 0)).toLoadRect fa)⟩ :=
  good_of k.val 0 1 fa _ _ (k0_off50_eq k 0) (View.readAt (Elt F) (Memref.whole cc0_scratch2 : Memref sig .scVector .vmem S128x128 .f32).view (Rect.unit (s := S128x128) (k0_off50 k 0#32) S1x16.size (k0_off50_inb k 0)).toLoadRect fa) (fun _ => rfl) _ rfl

theorem good5_15 (k : Fin k0_t5_loop.trips) (fa : FVec F S128x128 .f32) :
    Good k.val 0 0 fa ⟨Rect.unit (s := S128x128) (k0_off49 k 0#32) S1x16.size (k0_off49_inb k 0), k0_pay81 (View.readAt (Elt F) (Memref.whole cc0_scratch2 : Memref sig .scVector .vmem S128x128 .f32).view (Rect.unit (s := S128x128) (k0_off49 k 0#32) S1x16.size (k0_off49_inb k 0)).toLoadRect fa)⟩ :=
  good_of k.val 0 0 fa _ _ (k0_off49_eq k 0) (View.readAt (Elt F) (Memref.whole cc0_scratch2 : Memref sig .scVector .vmem S128x128 .f32).view (Rect.unit (s := S128x128) (k0_off49 k 0#32) S1x16.size (k0_off49_inb k 0)).toLoadRect fa) (fun _ => rfl) _ rfl

/-- One trip of loop 5 extends the rows at the logistic function of the input by two. -/
theorem trip_value5 (k : Fin k0_t5_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch5 : Memref sig .scVector .vmem S128x128 .f32).view.writes (Elt F) f (pieces5 k fa)) y = Cert.Fuse.logistic (fa y) := by
  refine rows_step (Memref.whole cc0_scratch5 : Memref sig .scVector .vmem S128x128 .f32).view k.val fa f (pieces5 k fa) (List.forall_mem_cons.mpr ⟨⟨_, _, good5_0 k fa⟩, (List.forall_mem_cons.mpr ⟨⟨_, _, good5_1 k fa⟩, (List.forall_mem_cons.mpr ⟨⟨_, _, good5_2 k fa⟩, (List.forall_mem_cons.mpr ⟨⟨_, _, good5_3 k fa⟩, (List.forall_mem_cons.mpr ⟨⟨_, _, good5_4 k fa⟩, (List.forall_mem_cons.mpr ⟨⟨_, _, good5_5 k fa⟩, (List.forall_mem_cons.mpr ⟨⟨_, _, good5_6 k fa⟩, (List.forall_mem_cons.mpr ⟨⟨_, _, good5_7 k fa⟩, (List.forall_mem_cons.mpr ⟨⟨_, _, good5_8 k fa⟩, (List.forall_mem_cons.mpr ⟨⟨_, _, good5_9 k fa⟩, (List.forall_mem_cons.mpr ⟨⟨_, _, good5_10 k fa⟩, (List.forall_mem_cons.mpr ⟨⟨_, _, good5_11 k fa⟩, (List.forall_mem_cons.mpr ⟨⟨_, _, good5_12 k fa⟩, (List.forall_mem_cons.mpr ⟨⟨_, _, good5_13 k fa⟩, (List.forall_mem_cons.mpr ⟨⟨_, _, good5_14 k fa⟩, (List.forall_mem_cons.mpr ⟨⟨_, _, good5_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good5_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good5_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good5_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good5_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good5_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good5_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good5_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good5_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good5_7 k fa⟩
  · exact ⟨_, List.mem_cons_of_mem _ (List.mem_cons_of_mem _ (List.mem_cons_of_mem _ (List.mem_cons_of_mem _ (List.mem_cons_of_mem _ (List.mem_cons_of_mem _ (List.mem_cons_self)))))), good5_6 k fa⟩
  · exact ⟨_, List.mem_cons_of_mem _ (List.mem_cons_of_mem _ (List.mem_cons_of_mem _ (List.mem_cons_of_mem _ (List.mem_cons_of_mem _ (List.mem_cons_self))))), good5_5 k fa⟩
  · exact ⟨_, List.mem_cons_of_mem _ (List.mem_cons_of_mem _ (List.mem_cons_of_mem _ (List.mem_cons_of_mem _ (List.mem_cons_self)))), good5_4 k fa⟩
  · exact ⟨_, List.mem_cons_of_mem _ (List.mem_cons_of_mem _ (List.mem_cons_of_mem _ (List.mem_cons_self))), good5_3 k fa⟩
  · exact ⟨_, List.mem_cons_of_mem _ (List.mem_cons_of_mem _ (List.mem_cons_self)), good5_2 k fa⟩
  · exact ⟨_, List.mem_cons_of_mem _ (List.mem_cons_self), good5_1 k fa⟩
  · exact ⟨_, List.mem_cons_self, good5_0 k fa⟩

/-! ## Loop 6: from cc0_scratch3 to cc0_scratch6 -/

/-- The stores one trip of loop 6 leaves, the last first. -/
def pieces6 (k : Fin k0_t6_loop.trips) (fa : FVec F S128x128 .f32) : List (View.Piece (Elt F) S128x128 .f32) :=
  [⟨Rect.unit (s := S128x128) (k0_off66 k 1#32) S1x16.size (k0_off66_inb k 1), k0_pay189 (View.readAt (Elt F) (Memref.whole cc0_scratch3 : Memref sig .scVector .vmem S128x128 .f32).view (Rect.unit (s := S128x128) (k0_off66 k 1#32) S1x16.size (k0_off66_inb k 1)).toLoadRect fa)⟩,
   ⟨Rect.unit (s := S128x128) (k0_off65 k 1#32) S1x16.size (k0_off65_inb k 1), k0_pay188 (k0_pay120 (View.readAt (Elt F) (Memref.whole cc0_scratch3 : Memref sig .scVector .vmem S128x128 .f32).view (Rect.unit (s := S128x128) (k0_off65 k 1#32) S1x16.size (k0_off65_inb k 1)).toLoadRect fa))⟩,
   ⟨Rect.unit (s := S128x128) (k0_off64 k 1#32) S1x16.size (k0_off64_inb k 1), k0_pay119 (View.readAt (Elt F) (Memref.whole cc0_scratch3 : Memref sig .scVector .vmem S128x128 .f32).view (Rect.unit (s := S128x128) (k0_off64 k 1#32) S1x16.size (k0_off64_inb k 1)).toLoadRect fa)⟩,
   ⟨Rect.unit (s := S128x128) (k0_off63 k 1#32) S1x16.size (k0_off63_inb k 1), k0_pay118 (k0_pay117 (View.readAt (Elt F) (Memref.whole cc0_scratch3 : Memref sig .scVector .vmem S128x128 .f32).view (Rect.unit (s := S128x128) (k0_off63 k 1#32) S1x16.size (k0_off63_inb k 1)).toLoadRect fa))⟩,
   ⟨Rect.unit (s := S128x128) (k0_off62 k 1#32) S1x16.size (k0_off62_inb k 1), k0_pay116 (View.readAt (Elt F) (Memref.whole cc0_scratch3 : Memref sig .scVector .vmem S128x128 .f32).view (Rect.unit (s := S128x128) (k0_off62 k 1#32) S1x16.size (k0_off62_inb k 1)).toLoadRect fa)⟩,
   ⟨Rect.unit (s := S128x128) (k0_off61 k 1#32) S1x16.size (k0_off61_inb k 1), k0_pay115 (View.readAt (Elt F) (Memref.whole cc0_scratch3 : Memref sig .scVector .vmem S128x128 .f32).view (Rect.unit (s := S128x128) (k0_off61 k 1#32) S1x16.size (k0_off61_inb k 1)).toLoadRect fa)⟩,
   ⟨Rect.unit (s := S128x128) (k0_off60 k 1#32) S1x16.size (k0_off60_inb k 1), k0_pay114 (k0_pay113 (View.readAt (Elt F) (Memref.whole cc0_scratch3 : Memref sig .scVector .vmem S128x128 .f32).view (Rect.unit (s := S128x128) (k0_off60 k 1#32) S1x16.size (k0_off60_inb k 1)).toLoadRect fa))⟩,
   ⟨Rect.unit (s := S128x128) (k0_off59 k 1#32) S1x16.size (k0_off59_inb k 1), k0_pay112 (View.readAt (Elt F) (Memref.whole cc0_scratch3 : Memref sig .scVector .vmem S128x128 .f32).view (Rect.unit (s := S128x128) (k0_off59 k 1#32) S1x16.size (k0_off59_inb k 1)).toLoadRect fa)⟩,
   ⟨Rect.unit (s := S128x128) (k0_off66 k 0#32) S1x16.size (k0_off66_inb k 0), k0_pay111 (k0_pay110 (View.readAt (Elt F) (Memref.whole cc0_scratch3 : Memref sig .scVector .vmem S128x128 .f32).view (Rect.unit (s := S128x128) (k0_off66 k 0#32) S1x16.size (k0_off66_inb k 0)).toLoadRect fa))⟩,
   ⟨Rect.unit (s := S128x128) (k0_off65 k 0#32) S1x16.size (k0_off65_inb k 0), k0_pay109 (View.readAt (Elt F) (Memref.whole cc0_scratch3 : Memref sig .scVector .vmem S128x128 .f32).view (Rect.unit (s := S128x128) (k0_off65 k 0#32) S1x16.size (k0_off65_inb k 0)).toLoadRect fa)⟩,
   ⟨Rect.unit (s := S128x128) (k0_off64 k 0#32) S1x16.size (k0_off64_inb k 0), k0_pay108 (View.readAt (Elt F) (Memref.whole cc0_scratch3 : Memref sig .scVector .vmem S128x128 .f32).view (Rect.unit (s := S128x128) (k0_off64 k 0#32) S1x16.size (k0_off64_inb k 0)).toLoadRect fa)⟩,
   ⟨Rect.unit (s := S128x128) (k0_off63 k 0#32) S1x16.size (k0_off63_inb k 0), k0_pay107 (k0_pay106 (View.readAt (Elt F) (Memref.whole cc0_scratch3 : Memref sig .scVector .vmem S128x128 .f32).view (Rect.unit (s := S128x128) (k0_off63 k 0#32) S1x16.size (k0_off63_inb k 0)).toLoadRect fa))⟩,
   ⟨Rect.unit (s := S128x128) (k0_off62 k 0#32) S1x16.size (k0_off62_inb k 0), k0_pay105 (View.readAt (Elt F) (Memref.whole cc0_scratch3 : Memref sig .scVector .vmem S128x128 .f32).view (Rect.unit (s := S128x128) (k0_off62 k 0#32) S1x16.size (k0_off62_inb k 0)).toLoadRect fa)⟩,
   ⟨Rect.unit (s := S128x128) (k0_off61 k 0#32) S1x16.size (k0_off61_inb k 0), k0_pay104 (k0_pay103 (View.readAt (Elt F) (Memref.whole cc0_scratch3 : Memref sig .scVector .vmem S128x128 .f32).view (Rect.unit (s := S128x128) (k0_off61 k 0#32) S1x16.size (k0_off61_inb k 0)).toLoadRect fa))⟩,
   ⟨Rect.unit (s := S128x128) (k0_off60 k 0#32) S1x16.size (k0_off60_inb k 0), k0_pay102 (View.readAt (Elt F) (Memref.whole cc0_scratch3 : Memref sig .scVector .vmem S128x128 .f32).view (Rect.unit (s := S128x128) (k0_off60 k 0#32) S1x16.size (k0_off60_inb k 0)).toLoadRect fa)⟩,
   ⟨Rect.unit (s := S128x128) (k0_off59 k 0#32) S1x16.size (k0_off59_inb k 0), k0_pay101 (View.readAt (Elt F) (Memref.whole cc0_scratch3 : Memref sig .scVector .vmem S128x128 .f32).view (Rect.unit (s := S128x128) (k0_off59 k 0#32) S1x16.size (k0_off59_inb k 0)).toLoadRect fa)⟩]

theorem good6_0 (k : Fin k0_t6_loop.trips) (fa : FVec F S128x128 .f32) :
    Good k.val 1 7 fa ⟨Rect.unit (s := S128x128) (k0_off66 k 1#32) S1x16.size (k0_off66_inb k 1), k0_pay189 (View.readAt (Elt F) (Memref.whole cc0_scratch3 : Memref sig .scVector .vmem S128x128 .f32).view (Rect.unit (s := S128x128) (k0_off66 k 1#32) S1x16.size (k0_off66_inb k 1)).toLoadRect fa)⟩ :=
  good_of k.val 1 7 fa _ _ (k0_off66_eq k 1) (View.readAt (Elt F) (Memref.whole cc0_scratch3 : Memref sig .scVector .vmem S128x128 .f32).view (Rect.unit (s := S128x128) (k0_off66 k 1#32) S1x16.size (k0_off66_inb k 1)).toLoadRect fa) (fun _ => rfl) _ rfl

theorem good6_1 (k : Fin k0_t6_loop.trips) (fa : FVec F S128x128 .f32) :
    Good k.val 1 6 fa ⟨Rect.unit (s := S128x128) (k0_off65 k 1#32) S1x16.size (k0_off65_inb k 1), k0_pay188 (k0_pay120 (View.readAt (Elt F) (Memref.whole cc0_scratch3 : Memref sig .scVector .vmem S128x128 .f32).view (Rect.unit (s := S128x128) (k0_off65 k 1#32) S1x16.size (k0_off65_inb k 1)).toLoadRect fa))⟩ :=
  good_of k.val 1 6 fa _ _ (k0_off65_eq k 1) (View.readAt (Elt F) (Memref.whole cc0_scratch3 : Memref sig .scVector .vmem S128x128 .f32).view (Rect.unit (s := S128x128) (k0_off65 k 1#32) S1x16.size (k0_off65_inb k 1)).toLoadRect fa) (fun _ => rfl) _ rfl

theorem good6_2 (k : Fin k0_t6_loop.trips) (fa : FVec F S128x128 .f32) :
    Good k.val 1 5 fa ⟨Rect.unit (s := S128x128) (k0_off64 k 1#32) S1x16.size (k0_off64_inb k 1), k0_pay119 (View.readAt (Elt F) (Memref.whole cc0_scratch3 : Memref sig .scVector .vmem S128x128 .f32).view (Rect.unit (s := S128x128) (k0_off64 k 1#32) S1x16.size (k0_off64_inb k 1)).toLoadRect fa)⟩ :=
  good_of k.val 1 5 fa _ _ (k0_off64_eq k 1) (View.readAt (Elt F) (Memref.whole cc0_scratch3 : Memref sig .scVector .vmem S128x128 .f32).view (Rect.unit (s := S128x128) (k0_off64 k 1#32) S1x16.size (k0_off64_inb k 1)).toLoadRect fa) (fun _ => rfl) _ rfl

theorem good6_3 (k : Fin k0_t6_loop.trips) (fa : FVec F S128x128 .f32) :
    Good k.val 1 4 fa ⟨Rect.unit (s := S128x128) (k0_off63 k 1#32) S1x16.size (k0_off63_inb k 1), k0_pay118 (k0_pay117 (View.readAt (Elt F) (Memref.whole cc0_scratch3 : Memref sig .scVector .vmem S128x128 .f32).view (Rect.unit (s := S128x128) (k0_off63 k 1#32) S1x16.size (k0_off63_inb k 1)).toLoadRect fa))⟩ :=
  good_of k.val 1 4 fa _ _ (k0_off63_eq k 1) (View.readAt (Elt F) (Memref.whole cc0_scratch3 : Memref sig .scVector .vmem S128x128 .f32).view (Rect.unit (s := S128x128) (k0_off63 k 1#32) S1x16.size (k0_off63_inb k 1)).toLoadRect fa) (fun _ => rfl) _ rfl

theorem good6_4 (k : Fin k0_t6_loop.trips) (fa : FVec F S128x128 .f32) :
    Good k.val 1 3 fa ⟨Rect.unit (s := S128x128) (k0_off62 k 1#32) S1x16.size (k0_off62_inb k 1), k0_pay116 (View.readAt (Elt F) (Memref.whole cc0_scratch3 : Memref sig .scVector .vmem S128x128 .f32).view (Rect.unit (s := S128x128) (k0_off62 k 1#32) S1x16.size (k0_off62_inb k 1)).toLoadRect fa)⟩ :=
  good_of k.val 1 3 fa _ _ (k0_off62_eq k 1) (View.readAt (Elt F) (Memref.whole cc0_scratch3 : Memref sig .scVector .vmem S128x128 .f32).view (Rect.unit (s := S128x128) (k0_off62 k 1#32) S1x16.size (k0_off62_inb k 1)).toLoadRect fa) (fun _ => rfl) _ rfl

theorem good6_5 (k : Fin k0_t6_loop.trips) (fa : FVec F S128x128 .f32) :
    Good k.val 1 2 fa ⟨Rect.unit (s := S128x128) (k0_off61 k 1#32) S1x16.size (k0_off61_inb k 1), k0_pay115 (View.readAt (Elt F) (Memref.whole cc0_scratch3 : Memref sig .scVector .vmem S128x128 .f32).view (Rect.unit (s := S128x128) (k0_off61 k 1#32) S1x16.size (k0_off61_inb k 1)).toLoadRect fa)⟩ :=
  good_of k.val 1 2 fa _ _ (k0_off61_eq k 1) (View.readAt (Elt F) (Memref.whole cc0_scratch3 : Memref sig .scVector .vmem S128x128 .f32).view (Rect.unit (s := S128x128) (k0_off61 k 1#32) S1x16.size (k0_off61_inb k 1)).toLoadRect fa) (fun _ => rfl) _ rfl

theorem good6_6 (k : Fin k0_t6_loop.trips) (fa : FVec F S128x128 .f32) :
    Good k.val 1 1 fa ⟨Rect.unit (s := S128x128) (k0_off60 k 1#32) S1x16.size (k0_off60_inb k 1), k0_pay114 (k0_pay113 (View.readAt (Elt F) (Memref.whole cc0_scratch3 : Memref sig .scVector .vmem S128x128 .f32).view (Rect.unit (s := S128x128) (k0_off60 k 1#32) S1x16.size (k0_off60_inb k 1)).toLoadRect fa))⟩ :=
  good_of k.val 1 1 fa _ _ (k0_off60_eq k 1) (View.readAt (Elt F) (Memref.whole cc0_scratch3 : Memref sig .scVector .vmem S128x128 .f32).view (Rect.unit (s := S128x128) (k0_off60 k 1#32) S1x16.size (k0_off60_inb k 1)).toLoadRect fa) (fun _ => rfl) _ rfl

theorem good6_7 (k : Fin k0_t6_loop.trips) (fa : FVec F S128x128 .f32) :
    Good k.val 1 0 fa ⟨Rect.unit (s := S128x128) (k0_off59 k 1#32) S1x16.size (k0_off59_inb k 1), k0_pay112 (View.readAt (Elt F) (Memref.whole cc0_scratch3 : Memref sig .scVector .vmem S128x128 .f32).view (Rect.unit (s := S128x128) (k0_off59 k 1#32) S1x16.size (k0_off59_inb k 1)).toLoadRect fa)⟩ :=
  good_of k.val 1 0 fa _ _ (k0_off59_eq k 1) (View.readAt (Elt F) (Memref.whole cc0_scratch3 : Memref sig .scVector .vmem S128x128 .f32).view (Rect.unit (s := S128x128) (k0_off59 k 1#32) S1x16.size (k0_off59_inb k 1)).toLoadRect fa) (fun _ => rfl) _ rfl

theorem good6_8 (k : Fin k0_t6_loop.trips) (fa : FVec F S128x128 .f32) :
    Good k.val 0 7 fa ⟨Rect.unit (s := S128x128) (k0_off66 k 0#32) S1x16.size (k0_off66_inb k 0), k0_pay111 (k0_pay110 (View.readAt (Elt F) (Memref.whole cc0_scratch3 : Memref sig .scVector .vmem S128x128 .f32).view (Rect.unit (s := S128x128) (k0_off66 k 0#32) S1x16.size (k0_off66_inb k 0)).toLoadRect fa))⟩ :=
  good_of k.val 0 7 fa _ _ (k0_off66_eq k 0) (View.readAt (Elt F) (Memref.whole cc0_scratch3 : Memref sig .scVector .vmem S128x128 .f32).view (Rect.unit (s := S128x128) (k0_off66 k 0#32) S1x16.size (k0_off66_inb k 0)).toLoadRect fa) (fun _ => rfl) _ rfl

theorem good6_9 (k : Fin k0_t6_loop.trips) (fa : FVec F S128x128 .f32) :
    Good k.val 0 6 fa ⟨Rect.unit (s := S128x128) (k0_off65 k 0#32) S1x16.size (k0_off65_inb k 0), k0_pay109 (View.readAt (Elt F) (Memref.whole cc0_scratch3 : Memref sig .scVector .vmem S128x128 .f32).view (Rect.unit (s := S128x128) (k0_off65 k 0#32) S1x16.size (k0_off65_inb k 0)).toLoadRect fa)⟩ :=
  good_of k.val 0 6 fa _ _ (k0_off65_eq k 0) (View.readAt (Elt F) (Memref.whole cc0_scratch3 : Memref sig .scVector .vmem S128x128 .f32).view (Rect.unit (s := S128x128) (k0_off65 k 0#32) S1x16.size (k0_off65_inb k 0)).toLoadRect fa) (fun _ => rfl) _ rfl

theorem good6_10 (k : Fin k0_t6_loop.trips) (fa : FVec F S128x128 .f32) :
    Good k.val 0 5 fa ⟨Rect.unit (s := S128x128) (k0_off64 k 0#32) S1x16.size (k0_off64_inb k 0), k0_pay108 (View.readAt (Elt F) (Memref.whole cc0_scratch3 : Memref sig .scVector .vmem S128x128 .f32).view (Rect.unit (s := S128x128) (k0_off64 k 0#32) S1x16.size (k0_off64_inb k 0)).toLoadRect fa)⟩ :=
  good_of k.val 0 5 fa _ _ (k0_off64_eq k 0) (View.readAt (Elt F) (Memref.whole cc0_scratch3 : Memref sig .scVector .vmem S128x128 .f32).view (Rect.unit (s := S128x128) (k0_off64 k 0#32) S1x16.size (k0_off64_inb k 0)).toLoadRect fa) (fun _ => rfl) _ rfl

theorem good6_11 (k : Fin k0_t6_loop.trips) (fa : FVec F S128x128 .f32) :
    Good k.val 0 4 fa ⟨Rect.unit (s := S128x128) (k0_off63 k 0#32) S1x16.size (k0_off63_inb k 0), k0_pay107 (k0_pay106 (View.readAt (Elt F) (Memref.whole cc0_scratch3 : Memref sig .scVector .vmem S128x128 .f32).view (Rect.unit (s := S128x128) (k0_off63 k 0#32) S1x16.size (k0_off63_inb k 0)).toLoadRect fa))⟩ :=
  good_of k.val 0 4 fa _ _ (k0_off63_eq k 0) (View.readAt (Elt F) (Memref.whole cc0_scratch3 : Memref sig .scVector .vmem S128x128 .f32).view (Rect.unit (s := S128x128) (k0_off63 k 0#32) S1x16.size (k0_off63_inb k 0)).toLoadRect fa) (fun _ => rfl) _ rfl

theorem good6_12 (k : Fin k0_t6_loop.trips) (fa : FVec F S128x128 .f32) :
    Good k.val 0 3 fa ⟨Rect.unit (s := S128x128) (k0_off62 k 0#32) S1x16.size (k0_off62_inb k 0), k0_pay105 (View.readAt (Elt F) (Memref.whole cc0_scratch3 : Memref sig .scVector .vmem S128x128 .f32).view (Rect.unit (s := S128x128) (k0_off62 k 0#32) S1x16.size (k0_off62_inb k 0)).toLoadRect fa)⟩ :=
  good_of k.val 0 3 fa _ _ (k0_off62_eq k 0) (View.readAt (Elt F) (Memref.whole cc0_scratch3 : Memref sig .scVector .vmem S128x128 .f32).view (Rect.unit (s := S128x128) (k0_off62 k 0#32) S1x16.size (k0_off62_inb k 0)).toLoadRect fa) (fun _ => rfl) _ rfl

theorem good6_13 (k : Fin k0_t6_loop.trips) (fa : FVec F S128x128 .f32) :
    Good k.val 0 2 fa ⟨Rect.unit (s := S128x128) (k0_off61 k 0#32) S1x16.size (k0_off61_inb k 0), k0_pay104 (k0_pay103 (View.readAt (Elt F) (Memref.whole cc0_scratch3 : Memref sig .scVector .vmem S128x128 .f32).view (Rect.unit (s := S128x128) (k0_off61 k 0#32) S1x16.size (k0_off61_inb k 0)).toLoadRect fa))⟩ :=
  good_of k.val 0 2 fa _ _ (k0_off61_eq k 0) (View.readAt (Elt F) (Memref.whole cc0_scratch3 : Memref sig .scVector .vmem S128x128 .f32).view (Rect.unit (s := S128x128) (k0_off61 k 0#32) S1x16.size (k0_off61_inb k 0)).toLoadRect fa) (fun _ => rfl) _ rfl

theorem good6_14 (k : Fin k0_t6_loop.trips) (fa : FVec F S128x128 .f32) :
    Good k.val 0 1 fa ⟨Rect.unit (s := S128x128) (k0_off60 k 0#32) S1x16.size (k0_off60_inb k 0), k0_pay102 (View.readAt (Elt F) (Memref.whole cc0_scratch3 : Memref sig .scVector .vmem S128x128 .f32).view (Rect.unit (s := S128x128) (k0_off60 k 0#32) S1x16.size (k0_off60_inb k 0)).toLoadRect fa)⟩ :=
  good_of k.val 0 1 fa _ _ (k0_off60_eq k 0) (View.readAt (Elt F) (Memref.whole cc0_scratch3 : Memref sig .scVector .vmem S128x128 .f32).view (Rect.unit (s := S128x128) (k0_off60 k 0#32) S1x16.size (k0_off60_inb k 0)).toLoadRect fa) (fun _ => rfl) _ rfl

theorem good6_15 (k : Fin k0_t6_loop.trips) (fa : FVec F S128x128 .f32) :
    Good k.val 0 0 fa ⟨Rect.unit (s := S128x128) (k0_off59 k 0#32) S1x16.size (k0_off59_inb k 0), k0_pay101 (View.readAt (Elt F) (Memref.whole cc0_scratch3 : Memref sig .scVector .vmem S128x128 .f32).view (Rect.unit (s := S128x128) (k0_off59 k 0#32) S1x16.size (k0_off59_inb k 0)).toLoadRect fa)⟩ :=
  good_of k.val 0 0 fa _ _ (k0_off59_eq k 0) (View.readAt (Elt F) (Memref.whole cc0_scratch3 : Memref sig .scVector .vmem S128x128 .f32).view (Rect.unit (s := S128x128) (k0_off59 k 0#32) S1x16.size (k0_off59_inb k 0)).toLoadRect fa) (fun _ => rfl) _ rfl

/-- One trip of loop 6 extends the rows at the logistic function of the input by two. -/
theorem trip_value6 (k : Fin k0_t6_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch6 : Memref sig .scVector .vmem S128x128 .f32).view.writes (Elt F) f (pieces6 k fa)) y = Cert.Fuse.logistic (fa y) := by
  refine rows_step (Memref.whole cc0_scratch6 : Memref sig .scVector .vmem S128x128 .f32).view k.val fa f (pieces6 k fa) (List.forall_mem_cons.mpr ⟨⟨_, _, good6_0 k fa⟩, (List.forall_mem_cons.mpr ⟨⟨_, _, good6_1 k fa⟩, (List.forall_mem_cons.mpr ⟨⟨_, _, good6_2 k fa⟩, (List.forall_mem_cons.mpr ⟨⟨_, _, good6_3 k fa⟩, (List.forall_mem_cons.mpr ⟨⟨_, _, good6_4 k fa⟩, (List.forall_mem_cons.mpr ⟨⟨_, _, good6_5 k fa⟩, (List.forall_mem_cons.mpr ⟨⟨_, _, good6_6 k fa⟩, (List.forall_mem_cons.mpr ⟨⟨_, _, good6_7 k fa⟩, (List.forall_mem_cons.mpr ⟨⟨_, _, good6_8 k fa⟩, (List.forall_mem_cons.mpr ⟨⟨_, _, good6_9 k fa⟩, (List.forall_mem_cons.mpr ⟨⟨_, _, good6_10 k fa⟩, (List.forall_mem_cons.mpr ⟨⟨_, _, good6_11 k fa⟩, (List.forall_mem_cons.mpr ⟨⟨_, _, good6_12 k fa⟩, (List.forall_mem_cons.mpr ⟨⟨_, _, good6_13 k fa⟩, (List.forall_mem_cons.mpr ⟨⟨_, _, good6_14 k fa⟩, (List.forall_mem_cons.mpr ⟨⟨_, _, good6_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good6_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good6_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good6_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good6_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good6_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good6_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good6_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good6_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good6_7 k fa⟩
  · exact ⟨_, List.mem_cons_of_mem _ (List.mem_cons_of_mem _ (List.mem_cons_of_mem _ (List.mem_cons_of_mem _ (List.mem_cons_of_mem _ (List.mem_cons_of_mem _ (List.mem_cons_self)))))), good6_6 k fa⟩
  · exact ⟨_, List.mem_cons_of_mem _ (List.mem_cons_of_mem _ (List.mem_cons_of_mem _ (List.mem_cons_of_mem _ (List.mem_cons_of_mem _ (List.mem_cons_self))))), good6_5 k fa⟩
  · exact ⟨_, List.mem_cons_of_mem _ (List.mem_cons_of_mem _ (List.mem_cons_of_mem _ (List.mem_cons_of_mem _ (List.mem_cons_self)))), good6_4 k fa⟩
  · exact ⟨_, List.mem_cons_of_mem _ (List.mem_cons_of_mem _ (List.mem_cons_of_mem _ (List.mem_cons_self))), good6_3 k fa⟩
  · exact ⟨_, List.mem_cons_of_mem _ (List.mem_cons_of_mem _ (List.mem_cons_self)), good6_2 k fa⟩
  · exact ⟨_, List.mem_cons_of_mem _ (List.mem_cons_self), good6_1 k fa⟩
  · exact ⟨_, List.mem_cons_self, good6_0 k fa⟩

/-! ## Loop 7: from cc0_scratch1 to cc0_scratch4 -/

/-- The stores one trip of loop 7 leaves, the last first. -/
def pieces7 (k : Fin k0_t7_loop.trips) (fa : FVec F S128x128 .f32) : List (View.Piece (Elt F) S128x128 .f32) :=
  [⟨Rect.unit (s := S128x128) (k0_off74 k 1#32) S1x16.size (k0_off74_inb k 1), k0_pay191 (View.readAt (Elt F) (Memref.whole cc0_scratch1 : Memref sig .scVector .vmem S128x128 .f32).view (Rect.unit (s := S128x128) (k0_off74 k 1#32) S1x16.size (k0_off74_inb k 1)).toLoadRect fa)⟩,
   ⟨Rect.unit (s := S128x128) (k0_off73 k 1#32) S1x16.size (k0_off73_inb k 1), k0_pay190 (k0_pay140 (View.readAt (Elt F) (Memref.whole cc0_scratch1 : Memref sig .scVector .vmem S128x128 .f32).view (Rect.unit (s := S128x128) (k0_off73 k 1#32) S1x16.size (k0_off73_inb k 1)).toLoadRect fa))⟩,
   ⟨Rect.unit (s := S128x128) (k0_off72 k 1#32) S1x16.size (k0_off72_inb k 1), k0_pay139 (View.readAt (Elt F) (Memref.whole cc0_scratch1 : Memref sig .scVector .vmem S128x128 .f32).view (Rect.unit (s := S128x128) (k0_off72 k 1#32) S1x16.size (k0_off72_inb k 1)).toLoadRect fa)⟩,
   ⟨Rect.unit (s := S128x128) (k0_off71 k 1#32) S1x16.size (k0_off71_inb k 1), k0_pay138 (k0_pay137 (View.readAt (Elt F) (Memref.whole cc0_scratch1 : Memref sig .scVector .vmem S128x128 .f32).view (Rect.unit (s := S128x128) (k0_off71 k 1#32) S1x16.size (k0_off71_inb k 1)).toLoadRect fa))⟩,
   ⟨Rect.unit (s := S128x128) (k0_off70 k 1#32) S1x16.size (k0_off70_inb k 1), k0_pay136 (View.readAt (Elt F) (Memref.whole cc0_scratch1 : Memref sig .scVector .vmem S128x128 .f32).view (Rect.unit (s := S128x128) (k0_off70 k 1#32) S1x16.size (k0_off70_inb k 1)).toLoadRect fa)⟩,
   ⟨Rect.unit (s := S128x128) (k0_off69 k 1#32) S1x16.size (k0_off69_inb k 1), k0_pay135 (View.readAt (Elt F) (Memref.whole cc0_scratch1 : Memref sig .scVector .vmem S128x128 .f32).view (Rect.unit (s := S128x128) (k0_off69 k 1#32) S1x16.size (k0_off69_inb k 1)).toLoadRect fa)⟩,
   ⟨Rect.unit (s := S128x128) (k0_off68 k 1#32) S1x16.size (k0_off68_inb k 1), k0_pay134 (k0_pay133 (View.readAt (Elt F) (Memref.whole cc0_scratch1 : Memref sig .scVector .vmem S128x128 .f32).view (Rect.unit (s := S128x128) (k0_off68 k 1#32) S1x16.size (k0_off68_inb k 1)).toLoadRect fa))⟩,
   ⟨Rect.unit (s := S128x128) (k0_off67 k 1#32) S1x16.size (k0_off67_inb k 1), k0_pay132 (View.readAt (Elt F) (Memref.whole cc0_scratch1 : Memref sig .scVector .vmem S128x128 .f32).view (Rect.unit (s := S128x128) (k0_off67 k 1#32) S1x16.size (k0_off67_inb k 1)).toLoadRect fa)⟩,
   ⟨Rect.unit (s := S128x128) (k0_off74 k 0#32) S1x16.size (k0_off74_inb k 0), k0_pay131 (k0_pay130 (View.readAt (Elt F) (Memref.whole cc0_scratch1 : Memref sig .scVector .vmem S128x128 .f32).view (Rect.unit (s := S128x128) (k0_off74 k 0#32) S1x16.size (k0_off74_inb k 0)).toLoadRect fa))⟩,
   ⟨Rect.unit (s := S128x128) (k0_off73 k 0#32) S1x16.size (k0_off73_inb k 0), k0_pay129 (View.readAt (Elt F) (Memref.whole cc0_scratch1 : Memref sig .scVector .vmem S128x128 .f32).view (Rect.unit (s := S128x128) (k0_off73 k 0#32) S1x16.size (k0_off73_inb k 0)).toLoadRect fa)⟩,
   ⟨Rect.unit (s := S128x128) (k0_off72 k 0#32) S1x16.size (k0_off72_inb k 0), k0_pay128 (View.readAt (Elt F) (Memref.whole cc0_scratch1 : Memref sig .scVector .vmem S128x128 .f32).view (Rect.unit (s := S128x128) (k0_off72 k 0#32) S1x16.size (k0_off72_inb k 0)).toLoadRect fa)⟩,
   ⟨Rect.unit (s := S128x128) (k0_off71 k 0#32) S1x16.size (k0_off71_inb k 0), k0_pay127 (k0_pay126 (View.readAt (Elt F) (Memref.whole cc0_scratch1 : Memref sig .scVector .vmem S128x128 .f32).view (Rect.unit (s := S128x128) (k0_off71 k 0#32) S1x16.size (k0_off71_inb k 0)).toLoadRect fa))⟩,
   ⟨Rect.unit (s := S128x128) (k0_off70 k 0#32) S1x16.size (k0_off70_inb k 0), k0_pay125 (View.readAt (Elt F) (Memref.whole cc0_scratch1 : Memref sig .scVector .vmem S128x128 .f32).view (Rect.unit (s := S128x128) (k0_off70 k 0#32) S1x16.size (k0_off70_inb k 0)).toLoadRect fa)⟩,
   ⟨Rect.unit (s := S128x128) (k0_off69 k 0#32) S1x16.size (k0_off69_inb k 0), k0_pay124 (k0_pay123 (View.readAt (Elt F) (Memref.whole cc0_scratch1 : Memref sig .scVector .vmem S128x128 .f32).view (Rect.unit (s := S128x128) (k0_off69 k 0#32) S1x16.size (k0_off69_inb k 0)).toLoadRect fa))⟩,
   ⟨Rect.unit (s := S128x128) (k0_off68 k 0#32) S1x16.size (k0_off68_inb k 0), k0_pay122 (View.readAt (Elt F) (Memref.whole cc0_scratch1 : Memref sig .scVector .vmem S128x128 .f32).view (Rect.unit (s := S128x128) (k0_off68 k 0#32) S1x16.size (k0_off68_inb k 0)).toLoadRect fa)⟩,
   ⟨Rect.unit (s := S128x128) (k0_off67 k 0#32) S1x16.size (k0_off67_inb k 0), k0_pay121 (View.readAt (Elt F) (Memref.whole cc0_scratch1 : Memref sig .scVector .vmem S128x128 .f32).view (Rect.unit (s := S128x128) (k0_off67 k 0#32) S1x16.size (k0_off67_inb k 0)).toLoadRect fa)⟩]

theorem good7_0 (k : Fin k0_t7_loop.trips) (fa : FVec F S128x128 .f32) :
    Good k.val 1 7 fa ⟨Rect.unit (s := S128x128) (k0_off74 k 1#32) S1x16.size (k0_off74_inb k 1), k0_pay191 (View.readAt (Elt F) (Memref.whole cc0_scratch1 : Memref sig .scVector .vmem S128x128 .f32).view (Rect.unit (s := S128x128) (k0_off74 k 1#32) S1x16.size (k0_off74_inb k 1)).toLoadRect fa)⟩ :=
  good_of k.val 1 7 fa _ _ (k0_off74_eq k 1) (View.readAt (Elt F) (Memref.whole cc0_scratch1 : Memref sig .scVector .vmem S128x128 .f32).view (Rect.unit (s := S128x128) (k0_off74 k 1#32) S1x16.size (k0_off74_inb k 1)).toLoadRect fa) (fun _ => rfl) _ rfl

theorem good7_1 (k : Fin k0_t7_loop.trips) (fa : FVec F S128x128 .f32) :
    Good k.val 1 6 fa ⟨Rect.unit (s := S128x128) (k0_off73 k 1#32) S1x16.size (k0_off73_inb k 1), k0_pay190 (k0_pay140 (View.readAt (Elt F) (Memref.whole cc0_scratch1 : Memref sig .scVector .vmem S128x128 .f32).view (Rect.unit (s := S128x128) (k0_off73 k 1#32) S1x16.size (k0_off73_inb k 1)).toLoadRect fa))⟩ :=
  good_of k.val 1 6 fa _ _ (k0_off73_eq k 1) (View.readAt (Elt F) (Memref.whole cc0_scratch1 : Memref sig .scVector .vmem S128x128 .f32).view (Rect.unit (s := S128x128) (k0_off73 k 1#32) S1x16.size (k0_off73_inb k 1)).toLoadRect fa) (fun _ => rfl) _ rfl

theorem good7_2 (k : Fin k0_t7_loop.trips) (fa : FVec F S128x128 .f32) :
    Good k.val 1 5 fa ⟨Rect.unit (s := S128x128) (k0_off72 k 1#32) S1x16.size (k0_off72_inb k 1), k0_pay139 (View.readAt (Elt F) (Memref.whole cc0_scratch1 : Memref sig .scVector .vmem S128x128 .f32).view (Rect.unit (s := S128x128) (k0_off72 k 1#32) S1x16.size (k0_off72_inb k 1)).toLoadRect fa)⟩ :=
  good_of k.val 1 5 fa _ _ (k0_off72_eq k 1) (View.readAt (Elt F) (Memref.whole cc0_scratch1 : Memref sig .scVector .vmem S128x128 .f32).view (Rect.unit (s := S128x128) (k0_off72 k 1#32) S1x16.size (k0_off72_inb k 1)).toLoadRect fa) (fun _ => rfl) _ rfl

theorem good7_3 (k : Fin k0_t7_loop.trips) (fa : FVec F S128x128 .f32) :
    Good k.val 1 4 fa ⟨Rect.unit (s := S128x128) (k0_off71 k 1#32) S1x16.size (k0_off71_inb k 1), k0_pay138 (k0_pay137 (View.readAt (Elt F) (Memref.whole cc0_scratch1 : Memref sig .scVector .vmem S128x128 .f32).view (Rect.unit (s := S128x128) (k0_off71 k 1#32) S1x16.size (k0_off71_inb k 1)).toLoadRect fa))⟩ :=
  good_of k.val 1 4 fa _ _ (k0_off71_eq k 1) (View.readAt (Elt F) (Memref.whole cc0_scratch1 : Memref sig .scVector .vmem S128x128 .f32).view (Rect.unit (s := S128x128) (k0_off71 k 1#32) S1x16.size (k0_off71_inb k 1)).toLoadRect fa) (fun _ => rfl) _ rfl

theorem good7_4 (k : Fin k0_t7_loop.trips) (fa : FVec F S128x128 .f32) :
    Good k.val 1 3 fa ⟨Rect.unit (s := S128x128) (k0_off70 k 1#32) S1x16.size (k0_off70_inb k 1), k0_pay136 (View.readAt (Elt F) (Memref.whole cc0_scratch1 : Memref sig .scVector .vmem S128x128 .f32).view (Rect.unit (s := S128x128) (k0_off70 k 1#32) S1x16.size (k0_off70_inb k 1)).toLoadRect fa)⟩ :=
  good_of k.val 1 3 fa _ _ (k0_off70_eq k 1) (View.readAt (Elt F) (Memref.whole cc0_scratch1 : Memref sig .scVector .vmem S128x128 .f32).view (Rect.unit (s := S128x128) (k0_off70 k 1#32) S1x16.size (k0_off70_inb k 1)).toLoadRect fa) (fun _ => rfl) _ rfl

theorem good7_5 (k : Fin k0_t7_loop.trips) (fa : FVec F S128x128 .f32) :
    Good k.val 1 2 fa ⟨Rect.unit (s := S128x128) (k0_off69 k 1#32) S1x16.size (k0_off69_inb k 1), k0_pay135 (View.readAt (Elt F) (Memref.whole cc0_scratch1 : Memref sig .scVector .vmem S128x128 .f32).view (Rect.unit (s := S128x128) (k0_off69 k 1#32) S1x16.size (k0_off69_inb k 1)).toLoadRect fa)⟩ :=
  good_of k.val 1 2 fa _ _ (k0_off69_eq k 1) (View.readAt (Elt F) (Memref.whole cc0_scratch1 : Memref sig .scVector .vmem S128x128 .f32).view (Rect.unit (s := S128x128) (k0_off69 k 1#32) S1x16.size (k0_off69_inb k 1)).toLoadRect fa) (fun _ => rfl) _ rfl

theorem good7_6 (k : Fin k0_t7_loop.trips) (fa : FVec F S128x128 .f32) :
    Good k.val 1 1 fa ⟨Rect.unit (s := S128x128) (k0_off68 k 1#32) S1x16.size (k0_off68_inb k 1), k0_pay134 (k0_pay133 (View.readAt (Elt F) (Memref.whole cc0_scratch1 : Memref sig .scVector .vmem S128x128 .f32).view (Rect.unit (s := S128x128) (k0_off68 k 1#32) S1x16.size (k0_off68_inb k 1)).toLoadRect fa))⟩ :=
  good_of k.val 1 1 fa _ _ (k0_off68_eq k 1) (View.readAt (Elt F) (Memref.whole cc0_scratch1 : Memref sig .scVector .vmem S128x128 .f32).view (Rect.unit (s := S128x128) (k0_off68 k 1#32) S1x16.size (k0_off68_inb k 1)).toLoadRect fa) (fun _ => rfl) _ rfl

theorem good7_7 (k : Fin k0_t7_loop.trips) (fa : FVec F S128x128 .f32) :
    Good k.val 1 0 fa ⟨Rect.unit (s := S128x128) (k0_off67 k 1#32) S1x16.size (k0_off67_inb k 1), k0_pay132 (View.readAt (Elt F) (Memref.whole cc0_scratch1 : Memref sig .scVector .vmem S128x128 .f32).view (Rect.unit (s := S128x128) (k0_off67 k 1#32) S1x16.size (k0_off67_inb k 1)).toLoadRect fa)⟩ :=
  good_of k.val 1 0 fa _ _ (k0_off67_eq k 1) (View.readAt (Elt F) (Memref.whole cc0_scratch1 : Memref sig .scVector .vmem S128x128 .f32).view (Rect.unit (s := S128x128) (k0_off67 k 1#32) S1x16.size (k0_off67_inb k 1)).toLoadRect fa) (fun _ => rfl) _ rfl

theorem good7_8 (k : Fin k0_t7_loop.trips) (fa : FVec F S128x128 .f32) :
    Good k.val 0 7 fa ⟨Rect.unit (s := S128x128) (k0_off74 k 0#32) S1x16.size (k0_off74_inb k 0), k0_pay131 (k0_pay130 (View.readAt (Elt F) (Memref.whole cc0_scratch1 : Memref sig .scVector .vmem S128x128 .f32).view (Rect.unit (s := S128x128) (k0_off74 k 0#32) S1x16.size (k0_off74_inb k 0)).toLoadRect fa))⟩ :=
  good_of k.val 0 7 fa _ _ (k0_off74_eq k 0) (View.readAt (Elt F) (Memref.whole cc0_scratch1 : Memref sig .scVector .vmem S128x128 .f32).view (Rect.unit (s := S128x128) (k0_off74 k 0#32) S1x16.size (k0_off74_inb k 0)).toLoadRect fa) (fun _ => rfl) _ rfl

theorem good7_9 (k : Fin k0_t7_loop.trips) (fa : FVec F S128x128 .f32) :
    Good k.val 0 6 fa ⟨Rect.unit (s := S128x128) (k0_off73 k 0#32) S1x16.size (k0_off73_inb k 0), k0_pay129 (View.readAt (Elt F) (Memref.whole cc0_scratch1 : Memref sig .scVector .vmem S128x128 .f32).view (Rect.unit (s := S128x128) (k0_off73 k 0#32) S1x16.size (k0_off73_inb k 0)).toLoadRect fa)⟩ :=
  good_of k.val 0 6 fa _ _ (k0_off73_eq k 0) (View.readAt (Elt F) (Memref.whole cc0_scratch1 : Memref sig .scVector .vmem S128x128 .f32).view (Rect.unit (s := S128x128) (k0_off73 k 0#32) S1x16.size (k0_off73_inb k 0)).toLoadRect fa) (fun _ => rfl) _ rfl

theorem good7_10 (k : Fin k0_t7_loop.trips) (fa : FVec F S128x128 .f32) :
    Good k.val 0 5 fa ⟨Rect.unit (s := S128x128) (k0_off72 k 0#32) S1x16.size (k0_off72_inb k 0), k0_pay128 (View.readAt (Elt F) (Memref.whole cc0_scratch1 : Memref sig .scVector .vmem S128x128 .f32).view (Rect.unit (s := S128x128) (k0_off72 k 0#32) S1x16.size (k0_off72_inb k 0)).toLoadRect fa)⟩ :=
  good_of k.val 0 5 fa _ _ (k0_off72_eq k 0) (View.readAt (Elt F) (Memref.whole cc0_scratch1 : Memref sig .scVector .vmem S128x128 .f32).view (Rect.unit (s := S128x128) (k0_off72 k 0#32) S1x16.size (k0_off72_inb k 0)).toLoadRect fa) (fun _ => rfl) _ rfl

theorem good7_11 (k : Fin k0_t7_loop.trips) (fa : FVec F S128x128 .f32) :
    Good k.val 0 4 fa ⟨Rect.unit (s := S128x128) (k0_off71 k 0#32) S1x16.size (k0_off71_inb k 0), k0_pay127 (k0_pay126 (View.readAt (Elt F) (Memref.whole cc0_scratch1 : Memref sig .scVector .vmem S128x128 .f32).view (Rect.unit (s := S128x128) (k0_off71 k 0#32) S1x16.size (k0_off71_inb k 0)).toLoadRect fa))⟩ :=
  good_of k.val 0 4 fa _ _ (k0_off71_eq k 0) (View.readAt (Elt F) (Memref.whole cc0_scratch1 : Memref sig .scVector .vmem S128x128 .f32).view (Rect.unit (s := S128x128) (k0_off71 k 0#32) S1x16.size (k0_off71_inb k 0)).toLoadRect fa) (fun _ => rfl) _ rfl

theorem good7_12 (k : Fin k0_t7_loop.trips) (fa : FVec F S128x128 .f32) :
    Good k.val 0 3 fa ⟨Rect.unit (s := S128x128) (k0_off70 k 0#32) S1x16.size (k0_off70_inb k 0), k0_pay125 (View.readAt (Elt F) (Memref.whole cc0_scratch1 : Memref sig .scVector .vmem S128x128 .f32).view (Rect.unit (s := S128x128) (k0_off70 k 0#32) S1x16.size (k0_off70_inb k 0)).toLoadRect fa)⟩ :=
  good_of k.val 0 3 fa _ _ (k0_off70_eq k 0) (View.readAt (Elt F) (Memref.whole cc0_scratch1 : Memref sig .scVector .vmem S128x128 .f32).view (Rect.unit (s := S128x128) (k0_off70 k 0#32) S1x16.size (k0_off70_inb k 0)).toLoadRect fa) (fun _ => rfl) _ rfl

theorem good7_13 (k : Fin k0_t7_loop.trips) (fa : FVec F S128x128 .f32) :
    Good k.val 0 2 fa ⟨Rect.unit (s := S128x128) (k0_off69 k 0#32) S1x16.size (k0_off69_inb k 0), k0_pay124 (k0_pay123 (View.readAt (Elt F) (Memref.whole cc0_scratch1 : Memref sig .scVector .vmem S128x128 .f32).view (Rect.unit (s := S128x128) (k0_off69 k 0#32) S1x16.size (k0_off69_inb k 0)).toLoadRect fa))⟩ :=
  good_of k.val 0 2 fa _ _ (k0_off69_eq k 0) (View.readAt (Elt F) (Memref.whole cc0_scratch1 : Memref sig .scVector .vmem S128x128 .f32).view (Rect.unit (s := S128x128) (k0_off69 k 0#32) S1x16.size (k0_off69_inb k 0)).toLoadRect fa) (fun _ => rfl) _ rfl

theorem good7_14 (k : Fin k0_t7_loop.trips) (fa : FVec F S128x128 .f32) :
    Good k.val 0 1 fa ⟨Rect.unit (s := S128x128) (k0_off68 k 0#32) S1x16.size (k0_off68_inb k 0), k0_pay122 (View.readAt (Elt F) (Memref.whole cc0_scratch1 : Memref sig .scVector .vmem S128x128 .f32).view (Rect.unit (s := S128x128) (k0_off68 k 0#32) S1x16.size (k0_off68_inb k 0)).toLoadRect fa)⟩ :=
  good_of k.val 0 1 fa _ _ (k0_off68_eq k 0) (View.readAt (Elt F) (Memref.whole cc0_scratch1 : Memref sig .scVector .vmem S128x128 .f32).view (Rect.unit (s := S128x128) (k0_off68 k 0#32) S1x16.size (k0_off68_inb k 0)).toLoadRect fa) (fun _ => rfl) _ rfl

theorem good7_15 (k : Fin k0_t7_loop.trips) (fa : FVec F S128x128 .f32) :
    Good k.val 0 0 fa ⟨Rect.unit (s := S128x128) (k0_off67 k 0#32) S1x16.size (k0_off67_inb k 0), k0_pay121 (View.readAt (Elt F) (Memref.whole cc0_scratch1 : Memref sig .scVector .vmem S128x128 .f32).view (Rect.unit (s := S128x128) (k0_off67 k 0#32) S1x16.size (k0_off67_inb k 0)).toLoadRect fa)⟩ :=
  good_of k.val 0 0 fa _ _ (k0_off67_eq k 0) (View.readAt (Elt F) (Memref.whole cc0_scratch1 : Memref sig .scVector .vmem S128x128 .f32).view (Rect.unit (s := S128x128) (k0_off67 k 0#32) S1x16.size (k0_off67_inb k 0)).toLoadRect fa) (fun _ => rfl) _ rfl

/-- One trip of loop 7 extends the rows at the logistic function of the input by two. -/
theorem trip_value7 (k : Fin k0_t7_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch4 : Memref sig .scVector .vmem S128x128 .f32).view.writes (Elt F) f (pieces7 k fa)) y = Cert.Fuse.logistic (fa y) := by
  refine rows_step (Memref.whole cc0_scratch4 : Memref sig .scVector .vmem S128x128 .f32).view k.val fa f (pieces7 k fa) (List.forall_mem_cons.mpr ⟨⟨_, _, good7_0 k fa⟩, (List.forall_mem_cons.mpr ⟨⟨_, _, good7_1 k fa⟩, (List.forall_mem_cons.mpr ⟨⟨_, _, good7_2 k fa⟩, (List.forall_mem_cons.mpr ⟨⟨_, _, good7_3 k fa⟩, (List.forall_mem_cons.mpr ⟨⟨_, _, good7_4 k fa⟩, (List.forall_mem_cons.mpr ⟨⟨_, _, good7_5 k fa⟩, (List.forall_mem_cons.mpr ⟨⟨_, _, good7_6 k fa⟩, (List.forall_mem_cons.mpr ⟨⟨_, _, good7_7 k fa⟩, (List.forall_mem_cons.mpr ⟨⟨_, _, good7_8 k fa⟩, (List.forall_mem_cons.mpr ⟨⟨_, _, good7_9 k fa⟩, (List.forall_mem_cons.mpr ⟨⟨_, _, good7_10 k fa⟩, (List.forall_mem_cons.mpr ⟨⟨_, _, good7_11 k fa⟩, (List.forall_mem_cons.mpr ⟨⟨_, _, good7_12 k fa⟩, (List.forall_mem_cons.mpr ⟨⟨_, _, good7_13 k fa⟩, (List.forall_mem_cons.mpr ⟨⟨_, _, good7_14 k fa⟩, (List.forall_mem_cons.mpr ⟨⟨_, _, good7_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good7_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good7_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good7_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good7_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good7_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good7_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good7_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good7_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good7_7 k fa⟩
  · exact ⟨_, List.mem_cons_of_mem _ (List.mem_cons_of_mem _ (List.mem_cons_of_mem _ (List.mem_cons_of_mem _ (List.mem_cons_of_mem _ (List.mem_cons_of_mem _ (List.mem_cons_self)))))), good7_6 k fa⟩
  · exact ⟨_, List.mem_cons_of_mem _ (List.mem_cons_of_mem _ (List.mem_cons_of_mem _ (List.mem_cons_of_mem _ (List.mem_cons_of_mem _ (List.mem_cons_self))))), good7_5 k fa⟩
  · exact ⟨_, List.mem_cons_of_mem _ (List.mem_cons_of_mem _ (List.mem_cons_of_mem _ (List.mem_cons_of_mem _ (List.mem_cons_self)))), good7_4 k fa⟩
  · exact ⟨_, List.mem_cons_of_mem _ (List.mem_cons_of_mem _ (List.mem_cons_of_mem _ (List.mem_cons_self))), good7_3 k fa⟩
  · exact ⟨_, List.mem_cons_of_mem _ (List.mem_cons_of_mem _ (List.mem_cons_self)), good7_2 k fa⟩
  · exact ⟨_, List.mem_cons_of_mem _ (List.mem_cons_self), good7_1 k fa⟩
  · exact ⟨_, List.mem_cons_self, good7_0 k fa⟩

/-! ## Loop 8: from cc0_scratch2 to cc0_scratch5 -/

/-- The stores one trip of loop 8 leaves, the last first. -/
def pieces8 (k : Fin k0_t8_loop.trips) (fa : FVec F S128x128 .f32) : List (View.Piece (Elt F) S128x128 .f32) :=
  [⟨Rect.unit (s := S128x128) (k0_off82 k 1#32) S1x16.size (k0_off82_inb k 1), k0_pay193 (View.readAt (Elt F) (Memref.whole cc0_scratch2 : Memref sig .scVector .vmem S128x128 .f32).view (Rect.unit (s := S128x128) (k0_off82 k 1#32) S1x16.size (k0_off82_inb k 1)).toLoadRect fa)⟩,
   ⟨Rect.unit (s := S128x128) (k0_off81 k 1#32) S1x16.size (k0_off81_inb k 1), k0_pay192 (k0_pay160 (View.readAt (Elt F) (Memref.whole cc0_scratch2 : Memref sig .scVector .vmem S128x128 .f32).view (Rect.unit (s := S128x128) (k0_off81 k 1#32) S1x16.size (k0_off81_inb k 1)).toLoadRect fa))⟩,
   ⟨Rect.unit (s := S128x128) (k0_off80 k 1#32) S1x16.size (k0_off80_inb k 1), k0_pay159 (View.readAt (Elt F) (Memref.whole cc0_scratch2 : Memref sig .scVector .vmem S128x128 .f32).view (Rect.unit (s := S128x128) (k0_off80 k 1#32) S1x16.size (k0_off80_inb k 1)).toLoadRect fa)⟩,
   ⟨Rect.unit (s := S128x128) (k0_off79 k 1#32) S1x16.size (k0_off79_inb k 1), k0_pay158 (k0_pay157 (View.readAt (Elt F) (Memref.whole cc0_scratch2 : Memref sig .scVector .vmem S128x128 .f32).view (Rect.unit (s := S128x128) (k0_off79 k 1#32) S1x16.size (k0_off79_inb k 1)).toLoadRect fa))⟩,
   ⟨Rect.unit (s := S128x128) (k0_off78 k 1#32) S1x16.size (k0_off78_inb k 1), k0_pay156 (View.readAt (Elt F) (Memref.whole cc0_scratch2 : Memref sig .scVector .vmem S128x128 .f32).view (Rect.unit (s := S128x128) (k0_off78 k 1#32) S1x16.size (k0_off78_inb k 1)).toLoadRect fa)⟩,
   ⟨Rect.unit (s := S128x128) (k0_off77 k 1#32) S1x16.size (k0_off77_inb k 1), k0_pay155 (View.readAt (Elt F) (Memref.whole cc0_scratch2 : Memref sig .scVector .vmem S128x128 .f32).view (Rect.unit (s := S128x128) (k0_off77 k 1#32) S1x16.size (k0_off77_inb k 1)).toLoadRect fa)⟩,
   ⟨Rect.unit (s := S128x128) (k0_off76 k 1#32) S1x16.size (k0_off76_inb k 1), k0_pay154 (k0_pay153 (View.readAt (Elt F) (Memref.whole cc0_scratch2 : Memref sig .scVector .vmem S128x128 .f32).view (Rect.unit (s := S128x128) (k0_off76 k 1#32) S1x16.size (k0_off76_inb k 1)).toLoadRect fa))⟩,
   ⟨Rect.unit (s := S128x128) (k0_off75 k 1#32) S1x16.size (k0_off75_inb k 1), k0_pay152 (View.readAt (Elt F) (Memref.whole cc0_scratch2 : Memref sig .scVector .vmem S128x128 .f32).view (Rect.unit (s := S128x128) (k0_off75 k 1#32) S1x16.size (k0_off75_inb k 1)).toLoadRect fa)⟩,
   ⟨Rect.unit (s := S128x128) (k0_off82 k 0#32) S1x16.size (k0_off82_inb k 0), k0_pay151 (k0_pay150 (View.readAt (Elt F) (Memref.whole cc0_scratch2 : Memref sig .scVector .vmem S128x128 .f32).view (Rect.unit (s := S128x128) (k0_off82 k 0#32) S1x16.size (k0_off82_inb k 0)).toLoadRect fa))⟩,
   ⟨Rect.unit (s := S128x128) (k0_off81 k 0#32) S1x16.size (k0_off81_inb k 0), k0_pay149 (View.readAt (Elt F) (Memref.whole cc0_scratch2 : Memref sig .scVector .vmem S128x128 .f32).view (Rect.unit (s := S128x128) (k0_off81 k 0#32) S1x16.size (k0_off81_inb k 0)).toLoadRect fa)⟩,
   ⟨Rect.unit (s := S128x128) (k0_off80 k 0#32) S1x16.size (k0_off80_inb k 0), k0_pay148 (View.readAt (Elt F) (Memref.whole cc0_scratch2 : Memref sig .scVector .vmem S128x128 .f32).view (Rect.unit (s := S128x128) (k0_off80 k 0#32) S1x16.size (k0_off80_inb k 0)).toLoadRect fa)⟩,
   ⟨Rect.unit (s := S128x128) (k0_off79 k 0#32) S1x16.size (k0_off79_inb k 0), k0_pay147 (k0_pay146 (View.readAt (Elt F) (Memref.whole cc0_scratch2 : Memref sig .scVector .vmem S128x128 .f32).view (Rect.unit (s := S128x128) (k0_off79 k 0#32) S1x16.size (k0_off79_inb k 0)).toLoadRect fa))⟩,
   ⟨Rect.unit (s := S128x128) (k0_off78 k 0#32) S1x16.size (k0_off78_inb k 0), k0_pay145 (View.readAt (Elt F) (Memref.whole cc0_scratch2 : Memref sig .scVector .vmem S128x128 .f32).view (Rect.unit (s := S128x128) (k0_off78 k 0#32) S1x16.size (k0_off78_inb k 0)).toLoadRect fa)⟩,
   ⟨Rect.unit (s := S128x128) (k0_off77 k 0#32) S1x16.size (k0_off77_inb k 0), k0_pay144 (k0_pay143 (View.readAt (Elt F) (Memref.whole cc0_scratch2 : Memref sig .scVector .vmem S128x128 .f32).view (Rect.unit (s := S128x128) (k0_off77 k 0#32) S1x16.size (k0_off77_inb k 0)).toLoadRect fa))⟩,
   ⟨Rect.unit (s := S128x128) (k0_off76 k 0#32) S1x16.size (k0_off76_inb k 0), k0_pay142 (View.readAt (Elt F) (Memref.whole cc0_scratch2 : Memref sig .scVector .vmem S128x128 .f32).view (Rect.unit (s := S128x128) (k0_off76 k 0#32) S1x16.size (k0_off76_inb k 0)).toLoadRect fa)⟩,
   ⟨Rect.unit (s := S128x128) (k0_off75 k 0#32) S1x16.size (k0_off75_inb k 0), k0_pay141 (View.readAt (Elt F) (Memref.whole cc0_scratch2 : Memref sig .scVector .vmem S128x128 .f32).view (Rect.unit (s := S128x128) (k0_off75 k 0#32) S1x16.size (k0_off75_inb k 0)).toLoadRect fa)⟩]

theorem good8_0 (k : Fin k0_t8_loop.trips) (fa : FVec F S128x128 .f32) :
    Good k.val 1 7 fa ⟨Rect.unit (s := S128x128) (k0_off82 k 1#32) S1x16.size (k0_off82_inb k 1), k0_pay193 (View.readAt (Elt F) (Memref.whole cc0_scratch2 : Memref sig .scVector .vmem S128x128 .f32).view (Rect.unit (s := S128x128) (k0_off82 k 1#32) S1x16.size (k0_off82_inb k 1)).toLoadRect fa)⟩ :=
  good_of k.val 1 7 fa _ _ (k0_off82_eq k 1) (View.readAt (Elt F) (Memref.whole cc0_scratch2 : Memref sig .scVector .vmem S128x128 .f32).view (Rect.unit (s := S128x128) (k0_off82 k 1#32) S1x16.size (k0_off82_inb k 1)).toLoadRect fa) (fun _ => rfl) _ rfl

theorem good8_1 (k : Fin k0_t8_loop.trips) (fa : FVec F S128x128 .f32) :
    Good k.val 1 6 fa ⟨Rect.unit (s := S128x128) (k0_off81 k 1#32) S1x16.size (k0_off81_inb k 1), k0_pay192 (k0_pay160 (View.readAt (Elt F) (Memref.whole cc0_scratch2 : Memref sig .scVector .vmem S128x128 .f32).view (Rect.unit (s := S128x128) (k0_off81 k 1#32) S1x16.size (k0_off81_inb k 1)).toLoadRect fa))⟩ :=
  good_of k.val 1 6 fa _ _ (k0_off81_eq k 1) (View.readAt (Elt F) (Memref.whole cc0_scratch2 : Memref sig .scVector .vmem S128x128 .f32).view (Rect.unit (s := S128x128) (k0_off81 k 1#32) S1x16.size (k0_off81_inb k 1)).toLoadRect fa) (fun _ => rfl) _ rfl

theorem good8_2 (k : Fin k0_t8_loop.trips) (fa : FVec F S128x128 .f32) :
    Good k.val 1 5 fa ⟨Rect.unit (s := S128x128) (k0_off80 k 1#32) S1x16.size (k0_off80_inb k 1), k0_pay159 (View.readAt (Elt F) (Memref.whole cc0_scratch2 : Memref sig .scVector .vmem S128x128 .f32).view (Rect.unit (s := S128x128) (k0_off80 k 1#32) S1x16.size (k0_off80_inb k 1)).toLoadRect fa)⟩ :=
  good_of k.val 1 5 fa _ _ (k0_off80_eq k 1) (View.readAt (Elt F) (Memref.whole cc0_scratch2 : Memref sig .scVector .vmem S128x128 .f32).view (Rect.unit (s := S128x128) (k0_off80 k 1#32) S1x16.size (k0_off80_inb k 1)).toLoadRect fa) (fun _ => rfl) _ rfl

theorem good8_3 (k : Fin k0_t8_loop.trips) (fa : FVec F S128x128 .f32) :
    Good k.val 1 4 fa ⟨Rect.unit (s := S128x128) (k0_off79 k 1#32) S1x16.size (k0_off79_inb k 1), k0_pay158 (k0_pay157 (View.readAt (Elt F) (Memref.whole cc0_scratch2 : Memref sig .scVector .vmem S128x128 .f32).view (Rect.unit (s := S128x128) (k0_off79 k 1#32) S1x16.size (k0_off79_inb k 1)).toLoadRect fa))⟩ :=
  good_of k.val 1 4 fa _ _ (k0_off79_eq k 1) (View.readAt (Elt F) (Memref.whole cc0_scratch2 : Memref sig .scVector .vmem S128x128 .f32).view (Rect.unit (s := S128x128) (k0_off79 k 1#32) S1x16.size (k0_off79_inb k 1)).toLoadRect fa) (fun _ => rfl) _ rfl

theorem good8_4 (k : Fin k0_t8_loop.trips) (fa : FVec F S128x128 .f32) :
    Good k.val 1 3 fa ⟨Rect.unit (s := S128x128) (k0_off78 k 1#32) S1x16.size (k0_off78_inb k 1), k0_pay156 (View.readAt (Elt F) (Memref.whole cc0_scratch2 : Memref sig .scVector .vmem S128x128 .f32).view (Rect.unit (s := S128x128) (k0_off78 k 1#32) S1x16.size (k0_off78_inb k 1)).toLoadRect fa)⟩ :=
  good_of k.val 1 3 fa _ _ (k0_off78_eq k 1) (View.readAt (Elt F) (Memref.whole cc0_scratch2 : Memref sig .scVector .vmem S128x128 .f32).view (Rect.unit (s := S128x128) (k0_off78 k 1#32) S1x16.size (k0_off78_inb k 1)).toLoadRect fa) (fun _ => rfl) _ rfl

theorem good8_5 (k : Fin k0_t8_loop.trips) (fa : FVec F S128x128 .f32) :
    Good k.val 1 2 fa ⟨Rect.unit (s := S128x128) (k0_off77 k 1#32) S1x16.size (k0_off77_inb k 1), k0_pay155 (View.readAt (Elt F) (Memref.whole cc0_scratch2 : Memref sig .scVector .vmem S128x128 .f32).view (Rect.unit (s := S128x128) (k0_off77 k 1#32) S1x16.size (k0_off77_inb k 1)).toLoadRect fa)⟩ :=
  good_of k.val 1 2 fa _ _ (k0_off77_eq k 1) (View.readAt (Elt F) (Memref.whole cc0_scratch2 : Memref sig .scVector .vmem S128x128 .f32).view (Rect.unit (s := S128x128) (k0_off77 k 1#32) S1x16.size (k0_off77_inb k 1)).toLoadRect fa) (fun _ => rfl) _ rfl

theorem good8_6 (k : Fin k0_t8_loop.trips) (fa : FVec F S128x128 .f32) :
    Good k.val 1 1 fa ⟨Rect.unit (s := S128x128) (k0_off76 k 1#32) S1x16.size (k0_off76_inb k 1), k0_pay154 (k0_pay153 (View.readAt (Elt F) (Memref.whole cc0_scratch2 : Memref sig .scVector .vmem S128x128 .f32).view (Rect.unit (s := S128x128) (k0_off76 k 1#32) S1x16.size (k0_off76_inb k 1)).toLoadRect fa))⟩ :=
  good_of k.val 1 1 fa _ _ (k0_off76_eq k 1) (View.readAt (Elt F) (Memref.whole cc0_scratch2 : Memref sig .scVector .vmem S128x128 .f32).view (Rect.unit (s := S128x128) (k0_off76 k 1#32) S1x16.size (k0_off76_inb k 1)).toLoadRect fa) (fun _ => rfl) _ rfl

theorem good8_7 (k : Fin k0_t8_loop.trips) (fa : FVec F S128x128 .f32) :
    Good k.val 1 0 fa ⟨Rect.unit (s := S128x128) (k0_off75 k 1#32) S1x16.size (k0_off75_inb k 1), k0_pay152 (View.readAt (Elt F) (Memref.whole cc0_scratch2 : Memref sig .scVector .vmem S128x128 .f32).view (Rect.unit (s := S128x128) (k0_off75 k 1#32) S1x16.size (k0_off75_inb k 1)).toLoadRect fa)⟩ :=
  good_of k.val 1 0 fa _ _ (k0_off75_eq k 1) (View.readAt (Elt F) (Memref.whole cc0_scratch2 : Memref sig .scVector .vmem S128x128 .f32).view (Rect.unit (s := S128x128) (k0_off75 k 1#32) S1x16.size (k0_off75_inb k 1)).toLoadRect fa) (fun _ => rfl) _ rfl

theorem good8_8 (k : Fin k0_t8_loop.trips) (fa : FVec F S128x128 .f32) :
    Good k.val 0 7 fa ⟨Rect.unit (s := S128x128) (k0_off82 k 0#32) S1x16.size (k0_off82_inb k 0), k0_pay151 (k0_pay150 (View.readAt (Elt F) (Memref.whole cc0_scratch2 : Memref sig .scVector .vmem S128x128 .f32).view (Rect.unit (s := S128x128) (k0_off82 k 0#32) S1x16.size (k0_off82_inb k 0)).toLoadRect fa))⟩ :=
  good_of k.val 0 7 fa _ _ (k0_off82_eq k 0) (View.readAt (Elt F) (Memref.whole cc0_scratch2 : Memref sig .scVector .vmem S128x128 .f32).view (Rect.unit (s := S128x128) (k0_off82 k 0#32) S1x16.size (k0_off82_inb k 0)).toLoadRect fa) (fun _ => rfl) _ rfl

theorem good8_9 (k : Fin k0_t8_loop.trips) (fa : FVec F S128x128 .f32) :
    Good k.val 0 6 fa ⟨Rect.unit (s := S128x128) (k0_off81 k 0#32) S1x16.size (k0_off81_inb k 0), k0_pay149 (View.readAt (Elt F) (Memref.whole cc0_scratch2 : Memref sig .scVector .vmem S128x128 .f32).view (Rect.unit (s := S128x128) (k0_off81 k 0#32) S1x16.size (k0_off81_inb k 0)).toLoadRect fa)⟩ :=
  good_of k.val 0 6 fa _ _ (k0_off81_eq k 0) (View.readAt (Elt F) (Memref.whole cc0_scratch2 : Memref sig .scVector .vmem S128x128 .f32).view (Rect.unit (s := S128x128) (k0_off81 k 0#32) S1x16.size (k0_off81_inb k 0)).toLoadRect fa) (fun _ => rfl) _ rfl

theorem good8_10 (k : Fin k0_t8_loop.trips) (fa : FVec F S128x128 .f32) :
    Good k.val 0 5 fa ⟨Rect.unit (s := S128x128) (k0_off80 k 0#32) S1x16.size (k0_off80_inb k 0), k0_pay148 (View.readAt (Elt F) (Memref.whole cc0_scratch2 : Memref sig .scVector .vmem S128x128 .f32).view (Rect.unit (s := S128x128) (k0_off80 k 0#32) S1x16.size (k0_off80_inb k 0)).toLoadRect fa)⟩ :=
  good_of k.val 0 5 fa _ _ (k0_off80_eq k 0) (View.readAt (Elt F) (Memref.whole cc0_scratch2 : Memref sig .scVector .vmem S128x128 .f32).view (Rect.unit (s := S128x128) (k0_off80 k 0#32) S1x16.size (k0_off80_inb k 0)).toLoadRect fa) (fun _ => rfl) _ rfl

theorem good8_11 (k : Fin k0_t8_loop.trips) (fa : FVec F S128x128 .f32) :
    Good k.val 0 4 fa ⟨Rect.unit (s := S128x128) (k0_off79 k 0#32) S1x16.size (k0_off79_inb k 0), k0_pay147 (k0_pay146 (View.readAt (Elt F) (Memref.whole cc0_scratch2 : Memref sig .scVector .vmem S128x128 .f32).view (Rect.unit (s := S128x128) (k0_off79 k 0#32) S1x16.size (k0_off79_inb k 0)).toLoadRect fa))⟩ :=
  good_of k.val 0 4 fa _ _ (k0_off79_eq k 0) (View.readAt (Elt F) (Memref.whole cc0_scratch2 : Memref sig .scVector .vmem S128x128 .f32).view (Rect.unit (s := S128x128) (k0_off79 k 0#32) S1x16.size (k0_off79_inb k 0)).toLoadRect fa) (fun _ => rfl) _ rfl

theorem good8_12 (k : Fin k0_t8_loop.trips) (fa : FVec F S128x128 .f32) :
    Good k.val 0 3 fa ⟨Rect.unit (s := S128x128) (k0_off78 k 0#32) S1x16.size (k0_off78_inb k 0), k0_pay145 (View.readAt (Elt F) (Memref.whole cc0_scratch2 : Memref sig .scVector .vmem S128x128 .f32).view (Rect.unit (s := S128x128) (k0_off78 k 0#32) S1x16.size (k0_off78_inb k 0)).toLoadRect fa)⟩ :=
  good_of k.val 0 3 fa _ _ (k0_off78_eq k 0) (View.readAt (Elt F) (Memref.whole cc0_scratch2 : Memref sig .scVector .vmem S128x128 .f32).view (Rect.unit (s := S128x128) (k0_off78 k 0#32) S1x16.size (k0_off78_inb k 0)).toLoadRect fa) (fun _ => rfl) _ rfl

theorem good8_13 (k : Fin k0_t8_loop.trips) (fa : FVec F S128x128 .f32) :
    Good k.val 0 2 fa ⟨Rect.unit (s := S128x128) (k0_off77 k 0#32) S1x16.size (k0_off77_inb k 0), k0_pay144 (k0_pay143 (View.readAt (Elt F) (Memref.whole cc0_scratch2 : Memref sig .scVector .vmem S128x128 .f32).view (Rect.unit (s := S128x128) (k0_off77 k 0#32) S1x16.size (k0_off77_inb k 0)).toLoadRect fa))⟩ :=
  good_of k.val 0 2 fa _ _ (k0_off77_eq k 0) (View.readAt (Elt F) (Memref.whole cc0_scratch2 : Memref sig .scVector .vmem S128x128 .f32).view (Rect.unit (s := S128x128) (k0_off77 k 0#32) S1x16.size (k0_off77_inb k 0)).toLoadRect fa) (fun _ => rfl) _ rfl

theorem good8_14 (k : Fin k0_t8_loop.trips) (fa : FVec F S128x128 .f32) :
    Good k.val 0 1 fa ⟨Rect.unit (s := S128x128) (k0_off76 k 0#32) S1x16.size (k0_off76_inb k 0), k0_pay142 (View.readAt (Elt F) (Memref.whole cc0_scratch2 : Memref sig .scVector .vmem S128x128 .f32).view (Rect.unit (s := S128x128) (k0_off76 k 0#32) S1x16.size (k0_off76_inb k 0)).toLoadRect fa)⟩ :=
  good_of k.val 0 1 fa _ _ (k0_off76_eq k 0) (View.readAt (Elt F) (Memref.whole cc0_scratch2 : Memref sig .scVector .vmem S128x128 .f32).view (Rect.unit (s := S128x128) (k0_off76 k 0#32) S1x16.size (k0_off76_inb k 0)).toLoadRect fa) (fun _ => rfl) _ rfl

theorem good8_15 (k : Fin k0_t8_loop.trips) (fa : FVec F S128x128 .f32) :
    Good k.val 0 0 fa ⟨Rect.unit (s := S128x128) (k0_off75 k 0#32) S1x16.size (k0_off75_inb k 0), k0_pay141 (View.readAt (Elt F) (Memref.whole cc0_scratch2 : Memref sig .scVector .vmem S128x128 .f32).view (Rect.unit (s := S128x128) (k0_off75 k 0#32) S1x16.size (k0_off75_inb k 0)).toLoadRect fa)⟩ :=
  good_of k.val 0 0 fa _ _ (k0_off75_eq k 0) (View.readAt (Elt F) (Memref.whole cc0_scratch2 : Memref sig .scVector .vmem S128x128 .f32).view (Rect.unit (s := S128x128) (k0_off75 k 0#32) S1x16.size (k0_off75_inb k 0)).toLoadRect fa) (fun _ => rfl) _ rfl

/-- One trip of loop 8 extends the rows at the logistic function of the input by two. -/
theorem trip_value8 (k : Fin k0_t8_loop.trips) (fa f : FVec F S128x128 .f32)
    (h : ∀ y : S128x128.Idx, (y 0).val < 2 * k.val → f y = Cert.Fuse.logistic (fa y)) :
    ∀ y : S128x128.Idx, (y 0).val < 2 * (k.val + 1) →
      ((Memref.whole cc0_scratch5 : Memref sig .scVector .vmem S128x128 .f32).view.writes (Elt F) f (pieces8 k fa)) y = Cert.Fuse.logistic (fa y) := by
  refine rows_step (Memref.whole cc0_scratch5 : Memref sig .scVector .vmem S128x128 .f32).view k.val fa f (pieces8 k fa) (List.forall_mem_cons.mpr ⟨⟨_, _, good8_0 k fa⟩, (List.forall_mem_cons.mpr ⟨⟨_, _, good8_1 k fa⟩, (List.forall_mem_cons.mpr ⟨⟨_, _, good8_2 k fa⟩, (List.forall_mem_cons.mpr ⟨⟨_, _, good8_3 k fa⟩, (List.forall_mem_cons.mpr ⟨⟨_, _, good8_4 k fa⟩, (List.forall_mem_cons.mpr ⟨⟨_, _, good8_5 k fa⟩, (List.forall_mem_cons.mpr ⟨⟨_, _, good8_6 k fa⟩, (List.forall_mem_cons.mpr ⟨⟨_, _, good8_7 k fa⟩, (List.forall_mem_cons.mpr ⟨⟨_, _, good8_8 k fa⟩, (List.forall_mem_cons.mpr ⟨⟨_, _, good8_9 k fa⟩, (List.forall_mem_cons.mpr ⟨⟨_, _, good8_10 k fa⟩, (List.forall_mem_cons.mpr ⟨⟨_, _, good8_11 k fa⟩, (List.forall_mem_cons.mpr ⟨⟨_, _, good8_12 k fa⟩, (List.forall_mem_cons.mpr ⟨⟨_, _, good8_13 k fa⟩, (List.forall_mem_cons.mpr ⟨⟨_, _, good8_14 k fa⟩, (List.forall_mem_cons.mpr ⟨⟨_, _, good8_15 k fa⟩, (List.forall_mem_nil _)⟩)⟩)⟩)⟩)⟩)⟩)⟩)⟩)⟩)⟩)⟩)⟩)⟩)⟩)⟩)⟩) ?_ h
  intro r hr c hc
  interval_cases r <;> interval_cases c
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), good8_15 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), good8_14 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), good8_13 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), good8_12 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), good8_11 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), good8_10 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), good8_9 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), good8_8 k fa⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), good8_7 k fa⟩
  · exact ⟨_, List.mem_cons_of_mem _ (List.mem_cons_of_mem _ (List.mem_cons_of_mem _ (List.mem_cons_of_mem _ (List.mem_cons_of_mem _ (List.mem_cons_of_mem _ (List.mem_cons_self)))))), good8_6 k fa⟩
  · exact ⟨_, List.mem_cons_of_mem _ (List.mem_cons_of_mem _ (List.mem_cons_of_mem _ (List.mem_cons_of_mem _ (List.mem_cons_of_mem _ (List.mem_cons_self))))), good8_5 k fa⟩
  · exact ⟨_, List.mem_cons_of_mem _ (List.mem_cons_of_mem _ (List.mem_cons_of_mem _ (List.mem_cons_of_mem _ (List.mem_cons_self)))), good8_4 k fa⟩
  · exact ⟨_, List.mem_cons_of_mem _ (List.mem_cons_of_mem _ (List.mem_cons_of_mem _ (List.mem_cons_self))), good8_3 k fa⟩
  · exact ⟨_, List.mem_cons_of_mem _ (List.mem_cons_of_mem _ (List.mem_cons_self)), good8_2 k fa⟩
  · exact ⟨_, List.mem_cons_of_mem _ (List.mem_cons_self), good8_1 k fa⟩
  · exact ⟨_, List.mem_cons_self, good8_0 k fa⟩

end Cert.Proof.KB

end
-- ==== Proof.KBWords.lean ====
/-
  The sixteen words the body extracts are the sixteen lanes.

  The fetch copies sixteen words of the flattened selection, from the subcore's offset on, over the whole selection scratch;
  the body then loads the scratch whole, and takes word `l` out of it as a one-element slice at `l` read at 0. A copy over a whole
  buffer leaves the payload, whatever the buffer held; a load of the whole buffer reads it; so word `l` is the flattened
  selection at the offset plus `l`.
-/
import proofs.«207346_g72533407695360_cont_9to1_m_270_11_alg».proof.Proof.KBPick
import proofs.«207346_g72533407695360_cont_9to1_m_270_11_alg».proof.Proof.KBTile

noncomputable section

namespace Cert.Proof.KB

open Cert.Kernel Cert.Kernel.Gen Idealize.ShloMosaic Idealize.ShloMosaic.ValueIdx

variable {F : FTy → Type}

/-- What the body loads from the selection scratch after the fetch landed: the sixteen fetched words, whatever the scratch held before. -/
def fetched (sel : IVec S16x4x2 32) (L : grid0.Coords) (fsel : (Memref.whole cc0_scratch0 : Memref sig .scVector .vmem S16 .i32).view.ty.Contents (Elt F)) : IVec S16 32 :=
  shapeCast S16 (View.readAt (Elt F) (Memref.whole cc0_scratch0 : Memref sig .scVector .vmem S16 .i32).view (Rect.unit (s := S16) ![0] S16.size inb_S16_S16_0).toLoadRect
    (View.write (Elt F) (Memref.whole cc0_scratch0 : Memref sig .scVector .vmem S16 .i32).view fsel
      (ReadAs.same.apply (View.read (Elt F) ((Memref.whole main_v0_scv : Memref sig .scVector .hbm S128 .i32).slice (Rect.unit (s := S128) (k0_off1 L) S16.size (k0_off1_inb L)) (fun _ => rfl)).view (flatOf sel))) Finset.univ)) shapeCasts_S16_S16

/-- The fetched words are the sixteen of the flattened selection from the subcore's offset on. -/
theorem fetched_apply (sel : IVec S16x4x2 32) (L : grid0.Coords) (fsel : (Memref.whole cc0_scratch0 : Memref sig .scVector .vmem S16 .i32).view.ty.Contents (Elt F)) (l : Fin 16) :
    fetched (F := F) sel L fsel (ix1 l) = lane sel L l := by
  unfold fetched lane
  refine (congrFun (shapeCast_self (s := S16) _ shapeCasts_S16_S16) (ix1 l)).trans ?_
  rw [View.readAt_apply]
  simp only [Memref.view_whole, View.read_whole, View.write_whole_univ]
  dsimp only [ReadAs.apply]
  rw [View.read_apply, cast_eq]
  refine congrArg (flatOf sel) (funext fun a => Fin.ext ?_)
  revert a
  show ∀ a : Fin 1, _
  intro a
  fin_cases a
  show k0_off1 L 0 + 1 * (0 + 1 * l.val) = 16 * ((L 1).val / 2) + l.val
  rw [off1_eq]
  simp

/-- Word `l` of the sixteen, as the body extracts it, is lane `l`. -/
theorem word_core (sel : IVec S16x4x2 32) (L : grid0.Coords) (fsel : (Memref.whole cc0_scratch0 : Memref sig .scVector .vmem S16 .i32).view.ty.Contents (Elt F)) (l : Fin 16) (hs : S16.Slices ![l.val] S1) :
    extractAt ![0] (extractStridedSlice S1 ![l.val] (fetched (F := F) sel L fsel) hs) inpos_S1_p0 = lane sel L l := by
  rw [← fetched_apply (F := F) sel L fsel l]
  unfold extractAt extractStridedSlice
  refine congrArg (fetched (F := F) sel L fsel) (funext fun a => Fin.ext ?_)
  revert a
  show ∀ a : Fin 1, _
  intro a
  fin_cases a
  show l.val + 0 = l.val
  omega

/-! ## The sixteen words -/

theorem word_0 (sel : IVec S16x4x2 32) (L : grid0.Coords) (fsel : (Memref.whole cc0_scratch0 : Memref sig .scVector .vmem S16 .i32).view.ty.Contents (Elt F)) :
    extractAt ![0] (extractStridedSlice S1 ![0] (fetched (F := F) sel L fsel) slices_S16_o0_S1) inpos_S1_p0 = lane sel L 0 :=
  word_core sel L fsel 0 slices_S16_o0_S1

theorem word_1 (sel : IVec S16x4x2 32) (L : grid0.Coords) (fsel : (Memref.whole cc0_scratch0 : Memref sig .scVector .vmem S16 .i32).view.ty.Contents (Elt F)) :
    extractAt ![0] (extractStridedSlice S1 ![1] (fetched (F := F) sel L fsel) slices_S16_o1_S1) inpos_S1_p0 = lane sel L 1 :=
  word_core sel L fsel 1 slices_S16_o1_S1

theorem word_2 (sel : IVec S16x4x2 32) (L : grid0.Coords) (fsel : (Memref.whole cc0_scratch0 : Memref sig .scVector .vmem S16 .i32).view.ty.Contents (Elt F)) :
    extractAt ![0] (extractStridedSlice S1 ![2] (fetched (F := F) sel L fsel) slices_S16_o2_S1) inpos_S1_p0 = lane sel L 2 :=
  word_core sel L fsel 2 slices_S16_o2_S1

theorem word_3 (sel : IVec S16x4x2 32) (L : grid0.Coords) (fsel : (Memref.whole cc0_scratch0 : Memref sig .scVector .vmem S16 .i32).view.ty.Contents (Elt F)) :
    extractAt ![0] (extractStridedSlice S1 ![3] (fetched (F := F) sel L fsel) slices_S16_o3_S1) inpos_S1_p0 = lane sel L 3 :=
  word_core sel L fsel 3 slices_S16_o3_S1

theorem word_4 (sel : IVec S16x4x2 32) (L : grid0.Coords) (fsel : (Memref.whole cc0_scratch0 : Memref sig .scVector .vmem S16 .i32).view.ty.Contents (Elt F)) :
    extractAt ![0] (extractStridedSlice S1 ![4] (fetched (F := F) sel L fsel) slices_S16_o4_S1) inpos_S1_p0 = lane sel L 4 :=
  word_core sel L fsel 4 slices_S16_o4_S1

theorem word_5 (sel : IVec S16x4x2 32) (L : grid0.Coords) (fsel : (Memref.whole cc0_scratch0 : Memref sig .scVector .vmem S16 .i32).view.ty.Contents (Elt F)) :
    extractAt ![0] (extractStridedSlice S1 ![5] (fetched (F := F) sel L fsel) slices_S16_o5_S1) inpos_S1_p0 = lane sel L 5 :=
  word_core sel L fsel 5 slices_S16_o5_S1

theorem word_6 (sel : IVec S16x4x2 32) (L : grid0.Coords) (fsel : (Memref.whole cc0_scratch0 : Memref sig .scVector .vmem S16 .i32).view.ty.Contents (Elt F)) :
    extractAt ![0] (extractStridedSlice S1 ![6] (fetched (F := F) sel L fsel) slices_S16_o6_S1) inpos_S1_p0 = lane sel L 6 :=
  word_core sel L fsel 6 slices_S16_o6_S1

theorem word_7 (sel : IVec S16x4x2 32) (L : grid0.Coords) (fsel : (Memref.whole cc0_scratch0 : Memref sig .scVector .vmem S16 .i32).view.ty.Contents (Elt F)) :
    extractAt ![0] (extractStridedSlice S1 ![7] (fetched (F := F) sel L fsel) slices_S16_o7_S1) inpos_S1_p0 = lane sel L 7 :=
  word_core sel L fsel 7 slices_S16_o7_S1

theorem word_8 (sel : IVec S16x4x2 32) (L : grid0.Coords) (fsel : (Memref.whole cc0_scratch0 : Memref sig .scVector .vmem S16 .i32).view.ty.Contents (Elt F)) :
    extractAt ![0] (extractStridedSlice S1 ![8] (fetched (F := F) sel L fsel) slices_S16_o8_S1) inpos_S1_p0 = lane sel L 8 :=
  word_core sel L fsel 8 slices_S16_o8_S1

theorem word_9 (sel : IVec S16x4x2 32) (L : grid0.Coords) (fsel : (Memref.whole cc0_scratch0 : Memref sig .scVector .vmem S16 .i32).view.ty.Contents (Elt F)) :
    extractAt ![0] (extractStridedSlice S1 ![9] (fetched (F := F) sel L fsel) slices_S16_o9_S1) inpos_S1_p0 = lane sel L 9 :=
  word_core sel L fsel 9 slices_S16_o9_S1

theorem word_10 (sel : IVec S16x4x2 32) (L : grid0.Coords) (fsel : (Memref.whole cc0_scratch0 : Memref sig .scVector .vmem S16 .i32).view.ty.Contents (Elt F)) :
    extractAt ![0] (extractStridedSlice S1 ![10] (fetched (F := F) sel L fsel) slices_S16_o10_S1) inpos_S1_p0 = lane sel L 10 :=
  word_core sel L fsel 10 slices_S16_o10_S1

theorem word_11 (sel : IVec S16x4x2 32) (L : grid0.Coords) (fsel : (Memref.whole cc0_scratch0 : Memref sig .scVector .vmem S16 .i32).view.ty.Contents (Elt F)) :
    extractAt ![0] (extractStridedSlice S1 ![11] (fetched (F := F) sel L fsel) slices_S16_o11_S1) inpos_S1_p0 = lane sel L 11 :=
  word_core sel L fsel 11 slices_S16_o11_S1

theorem word_12 (sel : IVec S16x4x2 32) (L : grid0.Coords) (fsel : (Memref.whole cc0_scratch0 : Memref sig .scVector .vmem S16 .i32).view.ty.Contents (Elt F)) :
    extractAt ![0] (extractStridedSlice S1 ![12] (fetched (F := F) sel L fsel) slices_S16_o12_S1) inpos_S1_p0 = lane sel L 12 :=
  word_core sel L fsel 12 slices_S16_o12_S1

theorem word_13 (sel : IVec S16x4x2 32) (L : grid0.Coords) (fsel : (Memref.whole cc0_scratch0 : Memref sig .scVector .vmem S16 .i32).view.ty.Contents (Elt F)) :
    extractAt ![0] (extractStridedSlice S1 ![13] (fetched (F := F) sel L fsel) slices_S16_o13_S1) inpos_S1_p0 = lane sel L 13 :=
  word_core sel L fsel 13 slices_S16_o13_S1

theorem word_14 (sel : IVec S16x4x2 32) (L : grid0.Coords) (fsel : (Memref.whole cc0_scratch0 : Memref sig .scVector .vmem S16 .i32).view.ty.Contents (Elt F)) :
    extractAt ![0] (extractStridedSlice S1 ![14] (fetched (F := F) sel L fsel) slices_S16_o14_S1) inpos_S1_p0 = lane sel L 14 :=
  word_core sel L fsel 14 slices_S16_o14_S1

theorem word_15 (sel : IVec S16x4x2 32) (L : grid0.Coords) (fsel : (Memref.whole cc0_scratch0 : Memref sig .scVector .vmem S16 .i32).view.ty.Contents (Elt F)) :
    extractAt ![0] (extractStridedSlice S1 ![15] (fetched (F := F) sel L fsel) slices_S16_o15_S1) inpos_S1_p0 = lane sel L 15 :=
  word_core sel L fsel 15 slices_S16_o15_S1

end Cert.Proof.KB

end
-- ==== Proof.KBValue.lean ====
/-
  What a tile's copy-out carries is the specification's result on the tile.

  Tile `t` of the subcore at a place is tile `(ti, tj)` of image `b`. Its input slot was filled whole by one copy: from the
  sampling map's block at `(b, 0, 128 ti, 128 tj)` when the body's window number is negative, from refined map `k`'s block at
  `(b, k, 0, 128 ti, 128 tj)` when it is `k`; and by the choice lemmas the number is negative exactly when the tile has no
  source window, and is the source window otherwise. The output slot holds the logistic function of the input slot, and
  the copy-out carries the output slot whole to the result's tile, whose element `(y0, y1)` is the result's
  `(b, 0, 128 ti + y0, 128 tj + y1)`. There the specification takes the logistic function of the same source, because
  `(128 ti + y0) / 128 = ti` and `(128 tj + y1) / 128 = tj`.
-/
import proofs.«207346_g72533407695360_cont_9to1_m_270_11_alg».proof.Proof.KBPick
import proofs.«207346_g72533407695360_cont_9to1_m_270_11_alg».proof.Proof.KBPart
import proofs.«207346_g72533407695360_cont_9to1_m_270_11_alg».proof.Proof.KBTile
import proofs.«207346_g72533407695360_cont_9to1_m_270_11_alg».proof.Proof.Spec

noncomputable section

namespace Cert.Proof.KB

open Cert.Kernel Cert.Kernel.Gen Idealize.ShloMosaic Idealize.ShloMosaic.ValueIdx

variable {F : FTy → Type} [FloatOps F]

/-! ## A 128 × 128 block of an array, element by element -/

/-- A squeezed `1 × 1 × 128 × 128` block's element `(y0, y1)` is the block's `(0, 0, y0, y1)`. -/
theorem squeeze4_idx (h : S128x128.numel = S1x1x128x128.numel) (y : S128x128.Idx) :
    Shape.reshapeEquiv h y = (ix4 (0 : Fin 1) (0 : Fin 1) (y 0 : Fin 128) (y 1 : Fin 128) : S1x1x128x128.Idx) :=
  Shape.reshapeEquiv_eq_of_rowMajor h (by
    rw [Shape.rowMajor_val_four, Shape.rowMajor_val_two]
    show (((0 * 1 + 0) * 128 + (y 0).val) * 128 + (y 1).val) = (y 0).val * 128 + (y 1).val
    omega)

/-- A squeezed `1 × 1 × 1 × 128 × 128` block's element `(y0, y1)` is the block's `(0, 0, 0, y0, y1)`. -/
theorem squeeze5_idx (h : S128x128.numel = S1x1x1x128x128.numel) (y : S128x128.Idx) :
    Shape.reshapeEquiv h y = (ix5 (0 : Fin 1) (0 : Fin 1) (0 : Fin 1) (y 0 : Fin 128) (y 1 : Fin 128) : S1x1x1x128x128.Idx) :=
  Shape.reshapeEquiv_eq_of_rowMajor h (by
    rw [Shape.rowMajor_val_five, Shape.rowMajor_val_two]
    show ((((0 * 1 + 0) * 1 + 0) * 128 + (y 0).val) * 128 + (y 1).val) = (y 0).val * 128 + (y 1).val
    omega)

theorem y0_lt (y : S128x128.Idx) : (y 0).val < 128 := (y 0).isLt
theorem y1_lt (y : S128x128.Idx) : (y 1).val < 128 := (y 1).isLt

/-- Element `(y0, y1)` of tile `(ti, tj)` of image `b`, as an index of a map. -/
def mapIdx (b : Fin 16) (ti tj : ℕ) (hti : ti < 4) (htj : tj < 4) (y : S128x128.Idx) : S16x1x512x512.Idx :=
  ix4 b (0 : Fin 1) (⟨128 * ti + (y 0).val, by have := y0_lt y; omega⟩ : Fin 512) (⟨128 * tj + (y 1).val, by have := y1_lt y; omega⟩ : Fin 512)

/-- The same element of refined map `k`. -/
def winIdx (b : Fin 16) (k : Fin 4) (ti tj : ℕ) (hti : ti < 4) (htj : tj < 4) (y : S128x128.Idx) : S16x4x1x512x512.Idx :=
  ix5 b k (0 : Fin 1) (⟨128 * ti + (y 0).val, by have := y0_lt y; omega⟩ : Fin 512) (⟨128 * tj + (y 1).val, by have := y1_lt y; omega⟩ : Fin 512)

omit [FloatOps F] in
/-- The result's tile at offsets `(b, 0, 128 ti, 128 tj)` names, at `(y0, y1)`, that element. -/
theorem out_emb (off : Fin 4 → ℕ) (inb : ∀ a, off a + S1x1x128x128.size a ≤ S16x1x512x512.size a) (b : Fin 16) (ti tj : ℕ) (hti : ti < 4) (htj : tj < 4)
    (hoff : off = ![b.val, 0, 128 * ti, 128 * tj]) (y : S128x128.Idx) :
    (((Memref.whole main_v1_scv : Memref sig .scVector .hbm S16x1x512x512 .f32).slice (Rect.unit (s := S16x1x512x512) off S1x1x128x128.size inb) (fun _ => rfl)).squeeze S128x128
        squeezes_S1x1x128x128_S128x128).view.emb y = mapIdx b ti tj hti htj y := by
  subst hoff
  show (Rect.unit (s := S16x1x512x512) ![b.val, 0, 128 * ti, 128 * tj] S1x1x128x128.size inb).emb (Shape.reshapeEquiv squeezes_S1x1x128x128_S128x128.numel_eq y) = _
  rw [squeeze4_idx]
  funext a
  refine Fin.ext ?_
  rw [Rect.emb_apply]
  revert a
  show ∀ a : Fin 4, _
  intro a
  fin_cases a <;> simp [mapIdx]

/-- A sampling-map block at offsets `(b, 0, 128 ti, 128 tj)` reads, at `(y0, y1)`, that element of the map. -/
theorem smp_block_read (smp : FVec F S16x1x512x512 .f32) (off : Fin 4 → ℕ) (inb : ∀ a, off a + S1x1x128x128.size a ≤ S16x1x512x512.size a)
    (b : Fin 16) (ti tj : ℕ) (hti : ti < 4) (htj : tj < 4) (hoff : off = ![b.val, 0, 128 * ti, 128 * tj]) (y : S128x128.Idx) :
    View.read (Elt F) (((Memref.whole main_arg0_scv : Memref sig .scVector .hbm S16x1x512x512 .f32).slice (Rect.unit (s := S16x1x512x512) off S1x1x128x128.size inb) (fun _ => rfl)).squeeze S128x128
        squeezes_S1x1x128x128_S128x128).view smp y = smp (mapIdx b ti tj hti htj y) := by
  subst hoff
  rw [View.read_apply, cast_eq]
  refine congrArg smp ?_
  show (Rect.unit (s := S16x1x512x512) ![b.val, 0, 128 * ti, 128 * tj] S1x1x128x128.size inb).emb (Shape.reshapeEquiv squeezes_S1x1x128x128_S128x128.numel_eq y) = _
  rw [squeeze4_idx]
  funext a
  refine Fin.ext ?_
  rw [Rect.emb_apply]
  revert a
  show ∀ a : Fin 4, _
  intro a
  fin_cases a <;> simp [mapIdx]

/-- A refined-map block at offsets `(b, k, 0, 128 ti, 128 tj)` reads, at `(y0, y1)`, that element of refined map `k`. -/
theorem win_block_read (win : FVec F S16x4x1x512x512 .f32) (off : Fin 5 → ℕ) (inb : ∀ a, off a + S1x1x1x128x128.size a ≤ S16x4x1x512x512.size a)
    (b : Fin 16) (k : Fin 4) (ti tj : ℕ) (hti : ti < 4) (htj : tj < 4) (hoff : off = ![b.val, k.val, 0, 128 * ti, 128 * tj]) (y : S128x128.Idx) :
    View.read (Elt F) (((Memref.whole main_arg1_scv : Memref sig .scVector .hbm S16x4x1x512x512 .f32).slice (Rect.unit (s := S16x4x1x512x512) off S1x1x1x128x128.size inb) (fun _ => rfl)).squeeze S128x128
        squeezes_S1x1x1x128x128_S128x128).view win y = win (winIdx b k ti tj hti htj y) := by
  subst hoff
  rw [View.read_apply, cast_eq]
  refine congrArg win ?_
  show (Rect.unit (s := S16x4x1x512x512) ![b.val, k.val, 0, 128 * ti, 128 * tj] S1x1x1x128x128.size inb).emb (Shape.reshapeEquiv squeezes_S1x1x1x128x128_S128x128.numel_eq y) = _
  rw [squeeze5_idx]
  funext a
  refine Fin.ext ?_
  rw [Rect.emb_apply]
  revert a
  show ∀ a : Fin 5, _
  intro a
  fin_cases a <;> simp [winIdx]

/-! ## The value of a tile's element -/

/-- If the element's input is the sampling map's when the tile has no source window and refined map `k`'s when its source
    is window `k`, the logistic function of the input is the specification's result there. -/
theorem value_core (smp : FVec F S16x1x512x512 .f32) (win : FVec F S16x4x1x512x512 .f32) (sel : IVec S16x4x2 32)
    (b : Fin 16) (ti tj : ℕ) (hti : ti < 4) (htj : tj < 4) (y : S128x128.Idx) (x : F .f32)
    (hnone : Cert.Fuse.tileSource sel b ti tj = none → x = smp (mapIdx b ti tj hti htj y))
    (hsome : ∀ k, Cert.Fuse.tileSource sel b ti tj = some k → x = win (winIdx b k ti tj hti htj y)) :
    Cert.Fuse.logistic x = Cert.Fuse.fused smp win sel (mapIdx b ti tj hti htj y) := by
  have h0 := y0_lt y; have h1 := y1_lt y
  have e2 : (128 * ti + (y 0).val) / 128 = ti := by omega
  have e3 : (128 * tj + (y 1).val) / 128 = tj := by omega
  unfold Cert.Fuse.fused Cert.Fuse.pick Cert.Fuse.pickAt
  show _ = Cert.Fuse.logistic (match Cert.Fuse.tileSource sel b ((128 * ti + (y 0).val) / 128) ((128 * tj + (y 1).val) / 128) with
    | some k => win (winIdx b k ti tj hti htj y)
    | none => smp (mapIdx b ti tj hti htj y))
  rw [e2, e3]
  cases hts : Cert.Fuse.tileSource sel b ti tj with
  | none => rw [hnone hts]
  | some k => rw [hsome k hts]

/-! ## The eight tiles -/

/-- Tile 0: what the copy-out carries, element by element, is the specification's result on the tile. -/
theorem tile_value0 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond1 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch1 : Memref sig .scVector .vmem S128x128 .f32).view fi
          (ReadAs.same.apply (View.read (Elt F) (((Memref.whole main_arg0_scv : Memref sig .scVector .hbm S16x1x512x512 .f32).slice (Rect.unit (s := S16x1x512x512) (k0_off3 L) S1x1x128x128.size (k0_off3_inb L)) (fun _ => rfl)).squeeze S128x128 squeezes_S1x1x128x128_S128x128).view smp)) Finset.univ
        else View.write (Elt F) (Memref.whole cc0_scratch1 : Memref sig .scVector .vmem S128x128 .f32).view fi
          (ReadAs.same.apply (View.read (Elt F) (((Memref.whole main_arg1_scv : Memref sig .scVector .hbm S16x4x1x512x512 .f32).slice (Rect.unit (s := S16x4x1x512x512) (k0_off2 L v62 v64 v69 v71 v76 v78 v83 v85 v90 v92 v97 v99 v104 v106 v111 v113) S1x1x1x128x128.size
            (off2_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch4 : Memref sig .scVector .vmem S128x128 .f32).view fo)) y
      = Cert.Fuse.fused smp win sel ((outTile L (0 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 0 < 4 := by show (8 * (L 0).val + 0) / 4 < 4; omega
  have htj : tjCol L 0 < 4 := by show (8 * (L 0).val + 0) % 4 < 4; omega
  obtain ⟨p1, p2⟩ := pick_0 sel hsel L
  show fo y = _
  rw [hv y, out_emb _ _ (jL L) (tiRow L 0) (tjCol L 0) hti htj (k0_off16_eq L 0) y]
  refine value_core smp win sel (jL L) _ _ hti htj y (fin y) ?_ ?_
  · intro hts
    by_cases hc : N = 1#1
    · rw [hfin, dif_pos hc]
      refine (congrFun (View.write_whole_univ (Val := Elt F) cc0_scratch1 fi _) y).trans ?_
      exact smp_block_read smp _ _ (jL L) _ _ hti htj (smp_off_0 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch1 fi _) y).trans ?_
      exact win_block_read win _ _ (jL L) k _ _ hti htj hoff y

/-- Tile 1: what the copy-out carries, element by element, is the specification's result on the tile. -/
theorem tile_value1 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond3 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch2 : Memref sig .scVector .vmem S128x128 .f32).view fi
          (ReadAs.same.apply (View.read (Elt F) (((Memref.whole main_arg0_scv : Memref sig .scVector .hbm S16x1x512x512 .f32).slice (Rect.unit (s := S16x1x512x512) (k0_off5 L) S1x1x128x128.size (k0_off5_inb L)) (fun _ => rfl)).squeeze S128x128 squeezes_S1x1x128x128_S128x128).view smp)) Finset.univ
        else View.write (Elt F) (Memref.whole cc0_scratch2 : Memref sig .scVector .vmem S128x128 .f32).view fi
          (ReadAs.same.apply (View.read (Elt F) (((Memref.whole main_arg1_scv : Memref sig .scVector .hbm S16x4x1x512x512 .f32).slice (Rect.unit (s := S16x4x1x512x512) (k0_off4 L v62 v64 v69 v71 v76 v78 v83 v85 v90 v92 v97 v99 v104 v106 v111 v113) S1x1x1x128x128.size
            (off4_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch5 : Memref sig .scVector .vmem S128x128 .f32).view fo)) y
      = Cert.Fuse.fused smp win sel ((outTile L (1 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 1 < 4 := by show (8 * (L 0).val + 1) / 4 < 4; omega
  have htj : tjCol L 1 < 4 := by show (8 * (L 0).val + 1) % 4 < 4; omega
  obtain ⟨p1, p2⟩ := pick_1 sel hsel L
  show fo y = _
  rw [hv y, out_emb _ _ (jL L) (tiRow L 1) (tjCol L 1) hti htj (k0_off16_eq L 1) y]
  refine value_core smp win sel (jL L) _ _ hti htj y (fin y) ?_ ?_
  · intro hts
    by_cases hc : N = 1#1
    · rw [hfin, dif_pos hc]
      refine (congrFun (View.write_whole_univ (Val := Elt F) cc0_scratch2 fi _) y).trans ?_
      exact smp_block_read smp _ _ (jL L) _ _ hti htj (smp_off_1 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch2 fi _) y).trans ?_
      exact win_block_read win _ _ (jL L) k _ _ hti htj hoff y

/-- Tile 2: what the copy-out carries, element by element, is the specification's result on the tile. -/
theorem tile_value2 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond5 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch3 : Memref sig .scVector .vmem S128x128 .f32).view fi
          (ReadAs.same.apply (View.read (Elt F) (((Memref.whole main_arg0_scv : Memref sig .scVector .hbm S16x1x512x512 .f32).slice (Rect.unit (s := S16x1x512x512) (k0_off7 L) S1x1x128x128.size (k0_off7_inb L)) (fun _ => rfl)).squeeze S128x128 squeezes_S1x1x128x128_S128x128).view smp)) Finset.univ
        else View.write (Elt F) (Memref.whole cc0_scratch3 : Memref sig .scVector .vmem S128x128 .f32).view fi
          (ReadAs.same.apply (View.read (Elt F) (((Memref.whole main_arg1_scv : Memref sig .scVector .hbm S16x4x1x512x512 .f32).slice (Rect.unit (s := S16x4x1x512x512) (k0_off6 L v62 v64 v69 v71 v76 v78 v83 v85 v90 v92 v97 v99 v104 v106 v111 v113) S1x1x1x128x128.size
            (off6_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch6 : Memref sig .scVector .vmem S128x128 .f32).view fo)) y
      = Cert.Fuse.fused smp win sel ((outTile L (2 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 2 < 4 := by show (8 * (L 0).val + 2) / 4 < 4; omega
  have htj : tjCol L 2 < 4 := by show (8 * (L 0).val + 2) % 4 < 4; omega
  obtain ⟨p1, p2⟩ := pick_2 sel hsel L
  show fo y = _
  rw [hv y, out_emb _ _ (jL L) (tiRow L 2) (tjCol L 2) hti htj (k0_off16_eq L 2) y]
  refine value_core smp win sel (jL L) _ _ hti htj y (fin y) ?_ ?_
  · intro hts
    by_cases hc : N = 1#1
    · rw [hfin, dif_pos hc]
      refine (congrFun (View.write_whole_univ (Val := Elt F) cc0_scratch3 fi _) y).trans ?_
      exact smp_block_read smp _ _ (jL L) _ _ hti htj (smp_off_2 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch3 fi _) y).trans ?_
      exact win_block_read win _ _ (jL L) k _ _ hti htj hoff y

/-- Tile 3: what the copy-out carries, element by element, is the specification's result on the tile. -/
theorem tile_value3 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond7 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch1 : Memref sig .scVector .vmem S128x128 .f32).view fi
          (ReadAs.same.apply (View.read (Elt F) (((Memref.whole main_arg0_scv : Memref sig .scVector .hbm S16x1x512x512 .f32).slice (Rect.unit (s := S16x1x512x512) (k0_off18 L) S1x1x128x128.size (k0_off18_inb L)) (fun _ => rfl)).squeeze S128x128 squeezes_S1x1x128x128_S128x128).view smp)) Finset.univ
        else View.write (Elt F) (Memref.whole cc0_scratch1 : Memref sig .scVector .vmem S128x128 .f32).view fi
          (ReadAs.same.apply (View.read (Elt F) (((Memref.whole main_arg1_scv : Memref sig .scVector .hbm S16x4x1x512x512 .f32).slice (Rect.unit (s := S16x4x1x512x512) (k0_off17 L v62 v64 v69 v71 v76 v78 v83 v85 v90 v92 v97 v99 v104 v106 v111 v113) S1x1x1x128x128.size
            (off17_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch4 : Memref sig .scVector .vmem S128x128 .f32).view fo)) y
      = Cert.Fuse.fused smp win sel ((outTile L (3 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 3 < 4 := by show (8 * (L 0).val + 3) / 4 < 4; omega
  have htj : tjCol L 3 < 4 := by show (8 * (L 0).val + 3) % 4 < 4; omega
  obtain ⟨p1, p2⟩ := pick_3 sel hsel L
  show fo y = _
  rw [hv y, out_emb _ _ (jL L) (tiRow L 3) (tjCol L 3) hti htj (k0_off16_eq L 3) y]
  refine value_core smp win sel (jL L) _ _ hti htj y (fin y) ?_ ?_
  · intro hts
    by_cases hc : N = 1#1
    · rw [hfin, dif_pos hc]
      refine (congrFun (View.write_whole_univ (Val := Elt F) cc0_scratch1 fi _) y).trans ?_
      exact smp_block_read smp _ _ (jL L) _ _ hti htj (smp_off_3 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch1 fi _) y).trans ?_
      exact win_block_read win _ _ (jL L) k _ _ hti htj hoff y

/-- Tile 4: what the copy-out carries, element by element, is the specification's result on the tile. -/
theorem tile_value4 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond9 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch2 : Memref sig .scVector .vmem S128x128 .f32).view fi
          (ReadAs.same.apply (View.read (Elt F) (((Memref.whole main_arg0_scv : Memref sig .scVector .hbm S16x1x512x512 .f32).slice (Rect.unit (s := S16x1x512x512) (k0_off28 L) S1x1x128x128.size (k0_off28_inb L)) (fun _ => rfl)).squeeze S128x128 squeezes_S1x1x128x128_S128x128).view smp)) Finset.univ
        else View.write (Elt F) (Memref.whole cc0_scratch2 : Memref sig .scVector .vmem S128x128 .f32).view fi
          (ReadAs.same.apply (View.read (Elt F) (((Memref.whole main_arg1_scv : Memref sig .scVector .hbm S16x4x1x512x512 .f32).slice (Rect.unit (s := S16x4x1x512x512) (k0_off27 L v62 v64 v69 v71 v76 v78 v83 v85 v90 v92 v97 v99 v104 v106 v111 v113) S1x1x1x128x128.size
            (off27_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch5 : Memref sig .scVector .vmem S128x128 .f32).view fo)) y
      = Cert.Fuse.fused smp win sel ((outTile L (4 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 4 < 4 := by show (8 * (L 0).val + 4) / 4 < 4; omega
  have htj : tjCol L 4 < 4 := by show (8 * (L 0).val + 4) % 4 < 4; omega
  obtain ⟨p1, p2⟩ := pick_4 sel hsel L
  show fo y = _
  rw [hv y, out_emb _ _ (jL L) (tiRow L 4) (tjCol L 4) hti htj (k0_off16_eq L 4) y]
  refine value_core smp win sel (jL L) _ _ hti htj y (fin y) ?_ ?_
  · intro hts
    by_cases hc : N = 1#1
    · rw [hfin, dif_pos hc]
      refine (congrFun (View.write_whole_univ (Val := Elt F) cc0_scratch2 fi _) y).trans ?_
      exact smp_block_read smp _ _ (jL L) _ _ hti htj (smp_off_4 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch2 fi _) y).trans ?_
      exact win_block_read win _ _ (jL L) k _ _ hti htj hoff y

/-- Tile 5: what the copy-out carries, element by element, is the specification's result on the tile. -/
theorem tile_value5 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond11 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch3 : Memref sig .scVector .vmem S128x128 .f32).view fi
          (ReadAs.same.apply (View.read (Elt F) (((Memref.whole main_arg0_scv : Memref sig .scVector .hbm S16x1x512x512 .f32).slice (Rect.unit (s := S16x1x512x512) (k0_off38 L) S1x1x128x128.size (k0_off38_inb L)) (fun _ => rfl)).squeeze S128x128 squeezes_S1x1x128x128_S128x128).view smp)) Finset.univ
        else View.write (Elt F) (Memref.whole cc0_scratch3 : Memref sig .scVector .vmem S128x128 .f32).view fi
          (ReadAs.same.apply (View.read (Elt F) (((Memref.whole main_arg1_scv : Memref sig .scVector .hbm S16x4x1x512x512 .f32).slice (Rect.unit (s := S16x4x1x512x512) (k0_off37 L v62 v64 v69 v71 v76 v78 v83 v85 v90 v92 v97 v99 v104 v106 v111 v113) S1x1x1x128x128.size
            (off37_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch6 : Memref sig .scVector .vmem S128x128 .f32).view fo)) y
      = Cert.Fuse.fused smp win sel ((outTile L (5 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 5 < 4 := by show (8 * (L 0).val + 5) / 4 < 4; omega
  have htj : tjCol L 5 < 4 := by show (8 * (L 0).val + 5) % 4 < 4; omega
  obtain ⟨p1, p2⟩ := pick_5 sel hsel L
  show fo y = _
  rw [hv y, out_emb _ _ (jL L) (tiRow L 5) (tjCol L 5) hti htj (k0_off16_eq L 5) y]
  refine value_core smp win sel (jL L) _ _ hti htj y (fin y) ?_ ?_
  · intro hts
    by_cases hc : N = 1#1
    · rw [hfin, dif_pos hc]
      refine (congrFun (View.write_whole_univ (Val := Elt F) cc0_scratch3 fi _) y).trans ?_
      exact smp_block_read smp _ _ (jL L) _ _ hti htj (smp_off_5 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch3 fi _) y).trans ?_
      exact win_block_read win _ _ (jL L) k _ _ hti htj hoff y

/-- Tile 6: what the copy-out carries, element by element, is the specification's result on the tile. -/
theorem tile_value6 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond13 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch1 : Memref sig .scVector .vmem S128x128 .f32).view fi
          (ReadAs.same.apply (View.read (Elt F) (((Memref.whole main_arg0_scv : Memref sig .scVector .hbm S16x1x512x512 .f32).slice (Rect.unit (s := S16x1x512x512) (k0_off48 L) S1x1x128x128.size (k0_off48_inb L)) (fun _ => rfl)).squeeze S128x128 squeezes_S1x1x128x128_S128x128).view smp)) Finset.univ
        else View.write (Elt F) (Memref.whole cc0_scratch1 : Memref sig .scVector .vmem S128x128 .f32).view fi
          (ReadAs.same.apply (View.read (Elt F) (((Memref.whole main_arg1_scv : Memref sig .scVector .hbm S16x4x1x512x512 .f32).slice (Rect.unit (s := S16x4x1x512x512) (k0_off47 L v62 v64 v69 v71 v76 v78 v83 v85 v90 v92 v97 v99 v104 v106 v111 v113) S1x1x1x128x128.size
            (off47_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch4 : Memref sig .scVector .vmem S128x128 .f32).view fo)) y
      = Cert.Fuse.fused smp win sel ((outTile L (6 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 6 < 4 := by show (8 * (L 0).val + 6) / 4 < 4; omega
  have htj : tjCol L 6 < 4 := by show (8 * (L 0).val + 6) % 4 < 4; omega
  obtain ⟨p1, p2⟩ := pick_6 sel hsel L
  show fo y = _
  rw [hv y, out_emb _ _ (jL L) (tiRow L 6) (tjCol L 6) hti htj (k0_off16_eq L 6) y]
  refine value_core smp win sel (jL L) _ _ hti htj y (fin y) ?_ ?_
  · intro hts
    by_cases hc : N = 1#1
    · rw [hfin, dif_pos hc]
      refine (congrFun (View.write_whole_univ (Val := Elt F) cc0_scratch1 fi _) y).trans ?_
      exact smp_block_read smp _ _ (jL L) _ _ hti htj (smp_off_6 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch1 fi _) y).trans ?_
      exact win_block_read win _ _ (jL L) k _ _ hti htj hoff y

/-- Tile 7: what the copy-out carries, element by element, is the specification's result on the tile. -/
theorem tile_value7 (smp : FVec F S16x1x512x512 .f32) (win : FVec F S16x4x1x512x512 .f32) (sel : IVec S16x4x2 32) (hsel : ∀ j, (sel j).toNat ≤ 1) (L : grid0.Coords)
    (v62 v64 v69 v71 v76 v78 v83 v85 v90 v92 v97 v99 v104 v106 v111 v113 : BitVec 32)
    (hw : v62 = lane sel L 8 ∧ v64 = lane sel L 0 ∧ v69 = lane sel L 10 ∧ v71 = lane sel L 2 ∧ v76 = lane sel L 12 ∧ v78 = lane sel L 4 ∧ v83 = lane sel L 14 ∧ v85 = lane sel L 6 ∧ v90 = lane sel L 9 ∧ v92 = lane sel L 1 ∧ v97 = lane sel L 11 ∧ v99 = lane sel L 3 ∧ v104 = lane sel L 13 ∧ v106 = lane sel L 5 ∧ v111 = lane sel L 15 ∧ v113 = lane sel L 7)
    (N : BitVec 1) (hN : N = 1#1 ↔ ¬ k0_cond15 L v62 v64 v69 v71 v76 v78 v83 v85 v90 v92 v97 v99 v104 v106 v111 v113 = 1#1)
    (fi fin fo : FVec F S128x128 .f32)
    (hfin : fin = if hc : N = 1#1
        then View.write (Elt F) (Memref.whole cc0_scratch2 : Memref sig .scVector .vmem S128x128 .f32).view fi
          (ReadAs.same.apply (View.read (Elt F) (((Memref.whole main_arg0_scv : Memref sig .scVector .hbm S16x1x512x512 .f32).slice (Rect.unit (s := S16x1x512x512) (k0_off58 L) S1x1x128x128.size (k0_off58_inb L)) (fun _ => rfl)).squeeze S128x128 squeezes_S1x1x128x128_S128x128).view smp)) Finset.univ
        else View.write (Elt F) (Memref.whole cc0_scratch2 : Memref sig .scVector .vmem S128x128 .f32).view fi
          (ReadAs.same.apply (View.read (Elt F) (((Memref.whole main_arg1_scv : Memref sig .scVector .hbm S16x4x1x512x512 .f32).slice (Rect.unit (s := S16x4x1x512x512) (k0_off57 L v62 v64 v69 v71 v76 v78 v83 v85 v90 v92 v97 v99 v104 v106 v111 v113) S1x1x1x128x128.size
            (off57_inb L v62 v64 v69 v71 v76 v78 v83 v85 v90 v92 v97 v99 v104 v106 v111 v113 (Classical.not_not.mp fun h => hc (hN.mpr h)))) (fun _ => rfl)).squeeze S128x128 squeezes_S1x1x1x128x128_S128x128).view win)) Finset.univ)
    (hv : ∀ y : S128x128.Idx, fo y = Cert.Fuse.logistic (fin y)) :
    ∀ y : S128x128.Idx, (ReadAs.same.apply (View.read (Elt F) (Memref.whole cc0_scratch5 : Memref sig .scVector .vmem S128x128 .f32).view fo)) y
      = Cert.Fuse.fused smp win sel ((outTile L (7 : Fin 8)).view.emb y) := by
  obtain ⟨rfl, rfl, rfl, rfl, rfl, rfl, rfl, rfl, rfl, rfl, rfl, rfl, rfl, rfl, rfl, rfl⟩ := hw
  intro y
  have hc0 : (L 0).val < 2 := (L 0).isLt
  have hti : tiRow L 7 < 4 := by show (8 * (L 0).val + 7) / 4 < 4; omega
  have htj : tjCol L 7 < 4 := by show (8 * (L 0).val + 7) % 4 < 4; omega
  obtain ⟨p1, p2⟩ := pick_7 sel hsel L
  show fo y = _
  rw [hv y, out_emb _ _ (jL L) (tiRow L 7) (tjCol L 7) hti htj (k0_off16_eq L 7) y]
  refine value_core smp win sel (jL L) _ _ hti htj y (fin y) ?_ ?_
  · intro hts
    by_cases hc : N = 1#1
    · rw [hfin, dif_pos hc]
      refine (congrFun (View.write_whole_univ (Val := Elt F) cc0_scratch2 fi _) y).trans ?_
      exact smp_block_read smp _ _ (jL L) _ _ hti htj (smp_off_7 L) y
    · obtain ⟨k, hk, -⟩ := p1 (Classical.not_not.mp fun h => hc (hN.mpr h))
      rw [hk] at hts
      exact absurd hts (Option.some_ne_none k)
  · intro k hts
    by_cases hc : N = 1#1
    · rw [p2 (hN.mp hc)] at hts
      exact absurd hts.symm (Option.some_ne_none k)
    · obtain ⟨k', hk, hoff⟩ := p1 (Classical.not_not.mp fun h => hc (hN.mpr h))
      rw [hk] at hts
      cases hts
      rw [hfin, dif_neg hc]
      refine (congrFun (View.write_whole_univ (Val := Elt F) cc0_scratch2 fi _) y).trans ?_
      exact win_block_read win _ _ (jL L) k _ _ hti htj hoff y

end Cert.Proof.KB

end
-- ==== Proof.KBBody.lean ====
/-
  One vector subcore's task, at a symbolic place.

  The subcore fetches the sixteen selection words of its image pair, starts the copies of its first three tiles into
  the three input slots — each from the refined map of the last window covering the tile, or from the sampling map when
  none does; which, nobody decides here: the two ways are carried side by side until the copy's wait, after which the
  slot holds the one block or the other — and then, tile after tile: waits for the tile's block, waits for the output
  slot's previous copy-out (from the fourth tile on), applies the logistic function to the slot's 128 rows two at a time,
  starts the copy of the output slot to the tile's place in the result, and starts the copy-in of the tile three ahead.
  The last three copy-outs are waited for at the end. Every copy has its semaphore to itself while it is in flight,
  and no slot is touched between a copy's start and its wait. What each tile of the result then holds is the logistic
  function of the block its slot received, which is the specification's value there.
-/
import proofs.«207346_g72533407695360_cont_9to1_m_270_11_alg».proof.Proof.KBTile
import proofs.«207346_g72533407695360_cont_9to1_m_270_11_alg».proof.Proof.KBChk
import proofs.«207346_g72533407695360_cont_9to1_m_270_11_alg».proof.Proof.KBPick
import proofs.«207346_g72533407695360_cont_9to1_m_270_11_alg».proof.Proof.KBLoops
import proofs.«207346_g72533407695360_cont_9to1_m_270_11_alg».proof.Proof.KBWords
import proofs.«207346_g72533407695360_cont_9to1_m_270_11_alg».proof.Proof.KBValue

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "smpV" => (Memref.whole Cert.Kernel.main_arg0_scv : Memref Cert.Kernel.sig Kind.scVector Space.hbm Cert.Kernel.S16x1x512x512 EltTy.f32)
local notation "winV" => (Memref.whole Cert.Kernel.main_arg1_scv : Memref Cert.Kernel.sig Kind.scVector Space.hbm Cert.Kernel.S16x4x1x512x512 EltTy.f32)
local notation "flatV" => (Memref.whole Cert.Kernel.main_v0_scv : Memref Cert.Kernel.sig Kind.scVector Space.hbm Cert.Kernel.S128 EltTy.i32)
local notation "outV" => (Memref.whole Cert.Kernel.main_v1_scv : Memref Cert.Kernel.sig Kind.scVector Space.hbm Cert.Kernel.S16x1x512x512 EltTy.f32)
local notation "selB" => (Memref.whole Cert.Kernel.cc0_scratch0 : Memref Cert.Kernel.sig Kind.scVector Space.vmem Cert.Kernel.S16 EltTy.i32)
local notation "in0" => (Memref.whole Cert.Kernel.cc0_scratch1 : Memref Cert.Kernel.sig Kind.scVector Space.vmem Cert.Kernel.S128x128 EltTy.f32)
local notation "in1" => (Memref.whole Cert.Kernel.cc0_scratch2 : Memref Cert.Kernel.sig Kind.scVector Space.vmem Cert.Kernel.S128x128 EltTy.f32)
local notation "in2" => (Memref.whole Cert.Kernel.cc0_scratch3 : Memref Cert.Kernel.sig Kind.scVector Space.vmem Cert.Kernel.S128x128 EltTy.f32)
local notation "ob0" => (Memref.whole Cert.Kernel.cc0_scratch4 : Memref Cert.Kernel.sig Kind.scVector Space.vmem Cert.Kernel.S128x128 EltTy.f32)
local notation "ob1" => (Memref.whole Cert.Kernel.cc0_scratch5 : Memref Cert.Kernel.sig Kind.scVector Space.vmem Cert.Kernel.S128x128 EltTy.f32)
local notation "ob2" => (Memref.whole Cert.Kernel.cc0_scratch6 : Memref Cert.Kernel.sig Kind.scVector Space.vmem Cert.Kernel.S128x128 EltTy.f32)

variable [FloatOps F]

section Tile
variable (d : Dev nD) (L : grid0.Coords)

set_option pp.deepTerms false in
set_option pp.deepTerms.threshold 6 in
set_option pp.proofs false in
set_option pp.maxSteps 6000 in
set_option maxHeartbeats 40000000 in
theorem tile_body (hF : (K (F := F)).Facts) (O : CellTallies nD τ sig (HIx 1)) (W : Waits sig (HIx 1)) (hO : ∀ g, O g none = 0) (hsel : SelOK m) :
    iprop(levAts (K (F := F)).L (K (F := F)).lev ∗ emp
        ∗ (readSh m d (tileShare (cL L) (jL L)) ∗ outTiles d L (m (outLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__fuser_body L smpV (Memref.isWhole_whole _) winV (Memref.isWhole_whole _) flatV (Memref.isWhole_whole _) outV (Memref.isWhole_whole _)
            selB (Memref.isWhole_whole _) in0 (Memref.isWhole_whole _) in1 (Memref.isWhole_whole _) in2 (Memref.isWhole_whole _)
            ob0 (Memref.isWhole_whole _) ob1 (Memref.isWhole_whole _) ob2 (Memref.isWhole_whole _)
            cc0_scratch7 cc0_scratch8 cc0_scratch9 cc0_scratch10 cc0_scratch11 cc0_scratch12 cc0_scoped0)
          fun _ => iprop((readSh m d (tileShare (cL L) (jL L)) ∗ outTiles d L (fusedOf m d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__fuser_body_eq_skeleton]; unfold cc0__fuser_body_skel
  rw [(K (F := F)).scopedBufs_V hF d (cV L) (jV L), SparseCore.Cfg.scopedSems0_V (Val := Elt F) d (cV L) (jV L), ownSems0_V, ownBufs_V, outTiles_eq]
  iintro ⟨#Hlv, -, ⟨⟨Hsmp, Hwin, Hflat⟩, ⟨Ht0, Ht1, Ht2, Ht3, Ht4, Ht5, Ht6, Ht7⟩⟩,
    ⟨⟨%fsel, Hsel⟩, ⟨%fi0, Hi0⟩, ⟨%fi1, Hi1⟩, ⟨%fi2, Hi2⟩, ⟨%fo0, Ho0⟩, ⟨%fo1, Ho1⟩, ⟨%fo2, Ho2⟩, Hbufs⟩,
    ⟨Hs7, Hs8, Hs9, Hs10, Hs11, Hs12, Hsc, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hsmp := (Entails.of_eq (pts_smp (F := F) d L _ _).symm) $$ Hsmp
  ihave Hwin := (Entails.of_eq (pts_win (F := F) d L _ _).symm) $$ Hwin
  ihave Hflat := (Entails.of_eq (pts_flat (F := F) d L _ _).symm) $$ Hflat
  ihave Hsel := (Entails.of_eq (pts_selB (F := F) d L _).symm) $$ Hsel
  ihave Hi0 := (Entails.of_eq (pts_in0 (F := F) d L _).symm) $$ Hi0
  ihave Hi1 := (Entails.of_eq (pts_in1 (F := F) d L _).symm) $$ Hi1
  ihave Hi2 := (Entails.of_eq (pts_in2 (F := F) d L _).symm) $$ Hi2
  ihave Ho0 := (Entails.of_eq (pts_ob0 (F := F) d L _).symm) $$ Ho0
  ihave Ho1 := (Entails.of_eq (pts_ob1 (F := F) d L _).symm) $$ Ho1
  ihave Ho2 := (Entails.of_eq (pts_ob2 (F := F) d L _).symm) $$ Ho2
  ihave Hsmp := (toks3_split (F := F) _ _) $$ Hsmp
  icases Hsmp with ⟨HsmpR, Hsmp0, Hsmp1, Hsmp2⟩
  ihave Hwin := (toks3_split (F := F) _ _) $$ Hwin
  icases Hwin with ⟨HwinR, Hwin0, Hwin1, Hwin2⟩
  set_option sl_exec.guardIff true in
  sl_exec_parts (disch := first | exact chk_all _ _ _ _ _ _ _ _ _ _ _ _ _ _ _ _ _ | exact isneg_iff _ | exact nonneg_iff _ | assumption)
  irename if1_1 => Fl0
  irename if2 => Gd0
  irename if3_1 => Fl1
  irename if4 => Gd1
  irename if5_1 => Fl2
  irename if6 => Gd2
  -- tile 0: the wait for its copy-in, and what it hands back
  iapply (Transfers.wp_waitLocalO countersEmb 𝒱₀ (V d (cV L) (jV L)) none (default : HIx 1) (rfl : (in0).view.dmaCredit = _)) $$ [Fl0 HO]
  · isplitl [Fl0]; · iexact Fl0
    isplitl [HO]; · iexact HO
    iapply (Transfers.MayWaits.elim (SemLoc.dma cc0_scratch7.sem)) $$ Hmw
  iintro ⟨HD, Hs7, HO⟩
  ihave Hj := (settle_in (F := F) _ _ _ _ _ _ _) $$ [HD Hsmp0 Gd0]
  · isplitl [HD]; · iexact HD
    isplitl [Hsmp0]; · iexact Hsmp0
    iexact Gd0
  icases Hj with ⟨⟨%fin0, %hfin0, Hi0⟩, Hsmp0, Hwin0⟩
  set_option sl_exec.guardIff true in
  sl_exec_parts (disch := first | exact chk_all _ _ _ _ _ _ _ _ _ _ _ _ _ _ _ _ _ | exact isneg_iff _ | exact nonneg_iff _ | assumption)
  -- tile 0: the sigmoid loop over slot 0
  sl_for (sigInv0 (F := F) d L fin0) $$ [Hi0 Ho0]
  case region =>
    intro k _
    unfold sigInv0
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value1 k _ _ hb
  · unfold sigInv0
    isplitl [Hi0]; · iexact Hi0
    iexists _; isplitl [Ho0]; · iexact Ho0
    ipureintro; intro y hy; exact absurd hy (by omega)
  iintro %_ HI
  unfold sigInv0
  icases HI with ⟨Hi0, %fo0_0, Ho0, %hv0⟩
  set_option sl_exec.guardIff true in
  sl_exec_parts (disch := first | exact chk_all _ _ _ _ _ _ _ _ _ _ _ _ _ _ _ _ _ | exact isneg_iff _ | exact nonneg_iff _ | assumption)
  irename if1_1 => Fl3
  irename if2 => Gd3
  -- tile 1: the wait for its copy-in, and what it hands back
  iapply (Transfers.wp_waitLocalO countersEmb 𝒱₀ (V d (cV L) (jV L)) none (default : HIx 1) (rfl : (in1).view.dmaCredit = _)) $$ [Fl1 HO]
  · isplitl [Fl1]; · iexact Fl1
    isplitl [HO]; · iexact HO
    iapply (Transfers.MayWaits.elim (SemLoc.dma cc0_scratch8.sem)) $$ Hmw
  iintro ⟨HD, Hs8, HO⟩
  ihave Hj := (settle_in (F := F) _ _ _ _ _ _ _) $$ [HD Hsmp1 Gd1]
  · isplitl [HD]; · iexact HD
    isplitl [Hsmp1]; · iexact Hsmp1
    iexact Gd1
  icases Hj with ⟨⟨%fin1, %hfin1, Hi1⟩, Hsmp1, Hwin1⟩
  set_option sl_exec.guardIff true in
  sl_exec_parts (disch := first | exact chk_all _ _ _ _ _ _ _ _ _ _ _ _ _ _ _ _ _ | exact isneg_iff _ | exact nonneg_iff _ | assumption)
  -- tile 1: the sigmoid loop over slot 1
  sl_for (sigInv1 (F := F) d L fin1) $$ [Hi1 Ho1]
  case region =>
    intro k _
    unfold sigInv1
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value2 k _ _ hb
  · unfold sigInv1
    isplitl [Hi1]; · iexact Hi1
    iexists _; isplitl [Ho1]; · iexact Ho1
    ipureintro; intro y hy; exact absurd hy (by omega)
  iintro %_ HI
  unfold sigInv1
  icases HI with ⟨Hi1, %fo1_1, Ho1, %hv1⟩
  set_option sl_exec.guardIff true in
  sl_exec_parts (disch := first | exact chk_all _ _ _ _ _ _ _ _ _ _ _ _ _ _ _ _ _ | exact isneg_iff _ | exact nonneg_iff _ | assumption)
  irename if1_1 => Fl4
  irename if2 => Gd4
  -- tile 2: the wait for its copy-in, and what it hands back
  iapply (Transfers.wp_waitLocalO countersEmb 𝒱₀ (V d (cV L) (jV L)) none (default : HIx 1) (rfl : (in2).view.dmaCredit = _)) $$ [Fl2 HO]
  · isplitl [Fl2]; · iexact Fl2
    isplitl [HO]; · iexact HO
    iapply (Transfers.MayWaits.elim (SemLoc.dma cc0_scratch9.sem)) $$ Hmw
  iintro ⟨HD, Hs9, HO⟩
  ihave Hj := (settle_in (F := F) _ _ _ _ _ _ _) $$ [HD Hsmp2 Gd2]
  · isplitl [HD]; · iexact HD
    isplitl [Hsmp2]; · iexact Hsmp2
    iexact Gd2
  icases Hj with ⟨⟨%fin2, %hfin2, Hi2⟩, Hsmp2, Hwin2⟩
  set_option sl_exec.guardIff true in
  sl_exec_parts (disch := first | exact chk_all _ _ _ _ _ _ _ _ _ _ _ _ _ _ _ _ _ | exact isneg_iff _ | exact nonneg_iff _ | assumption)
  -- tile 2: the sigmoid loop over slot 2
  sl_for (sigInv2 (F := F) d L fin2) $$ [Hi2 Ho2]
  case region =>
    intro k _
    unfold sigInv2
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value3 k _ _ hb
  · unfold sigInv2
    isplitl [Hi2]; · iexact Hi2
    iexists _; isplitl [Ho2]; · iexact Ho2
    ipureintro; intro y hy; exact absurd hy (by omega)
  iintro %_ HI
  unfold sigInv2
  icases HI with ⟨Hi2, %fo2_2, Ho2, %hv2⟩
  set_option sl_exec.guardIff true in
  sl_exec_parts (disch := first | exact chk_all _ _ _ _ _ _ _ _ _ _ _ _ _ _ _ _ _ | exact isneg_iff _ | exact nonneg_iff _ | assumption)
  irename if1_1 => Fl5
  irename if2 => Gd5
  -- tile 3: the wait for its copy-in, and what it hands back
  iapply (Transfers.wp_waitLocalO countersEmb 𝒱₀ (V d (cV L) (jV L)) none (default : HIx 1) (rfl : (in0).view.dmaCredit = _)) $$ [Fl3 HO]
  · isplitl [Fl3]; · iexact Fl3
    isplitl [HO]; · iexact HO
    iapply (Transfers.MayWaits.elim (SemLoc.dma cc0_scratch7.sem)) $$ Hmw
  iintro ⟨HD, Hs7, HO⟩
  ihave Hj := (settle_in (F := F) _ _ _ _ _ _ _) $$ [HD Hsmp0 Gd3]
  · isplitl [HD]; · iexact HD
    isplitl [Hsmp0]; · iexact Hsmp0
    iexact Gd3
  icases Hj with ⟨⟨%fin3, %hfin3, Hi0⟩, Hsmp0, Hwin0⟩
  set_option sl_exec.guardIff true in
  sl_exec_parts (disch := first | exact chk_all _ _ _ _ _ _ _ _ _ _ _ _ _ _ _ _ _ | exact isneg_iff _ | exact nonneg_iff _ | assumption)
  -- tile 3: the sigmoid loop over slot 0
  sl_for (sigInv0 (F := F) d L fin3) $$ [Hi0 Ho0]
  case region =>
    intro k _
    unfold sigInv0
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value4 k _ _ hb
  · unfold sigInv0
    isplitl [Hi0]; · iexact Hi0
    iexists _; isplitl [Ho0]; · iexact Ho0
    ipureintro; intro y hy; exact absurd hy (by omega)
  iintro %_ HI
  unfold sigInv0
  icases HI with ⟨Hi0, %fo0_3, Ho0, %hv3⟩
  set_option sl_exec.guardIff true in
  sl_exec_parts (disch := first | exact chk_all _ _ _ _ _ _ _ _ _ _ _ _ _ _ _ _ _ | exact isneg_iff _ | exact nonneg_iff _ | assumption)
  irename if1_1 => Fl6
  irename if2 => Gd6
  -- tile 4: the wait for its copy-in, and what it hands back
  iapply (Transfers.wp_waitLocalO countersEmb 𝒱₀ (V d (cV L) (jV L)) none (default : HIx 1) (rfl : (in1).view.dmaCredit = _)) $$ [Fl4 HO]
  · isplitl [Fl4]; · iexact Fl4
    isplitl [HO]; · iexact HO
    iapply (Transfers.MayWaits.elim (SemLoc.dma cc0_scratch8.sem)) $$ Hmw
  iintro ⟨HD, Hs8, HO⟩
  ihave Hj := (settle_in (F := F) _ _ _ _ _ _ _) $$ [HD Hsmp1 Gd4]
  · isplitl [HD]; · iexact HD
    isplitl [Hsmp1]; · iexact Hsmp1
    iexact Gd4
  icases Hj with ⟨⟨%fin4, %hfin4, Hi1⟩, Hsmp1, Hwin1⟩
  set_option sl_exec.guardIff true in
  sl_exec_parts (disch := first | exact chk_all _ _ _ _ _ _ _ _ _ _ _ _ _ _ _ _ _ | exact isneg_iff _ | exact nonneg_iff _ | assumption)
  -- tile 4: the sigmoid loop over slot 1
  sl_for (sigInv1 (F := F) d L fin4) $$ [Hi1 Ho1]
  case region =>
    intro k _
    unfold sigInv1
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value5 k _ _ hb
  · unfold sigInv1
    isplitl [Hi1]; · iexact Hi1
    iexists _; isplitl [Ho1]; · iexact Ho1
    ipureintro; intro y hy; exact absurd hy (by omega)
  iintro %_ HI
  unfold sigInv1
  icases HI with ⟨Hi1, %fo1_4, Ho1, %hv4⟩
  set_option sl_exec.guardIff true in
  sl_exec_parts (disch := first | exact chk_all _ _ _ _ _ _ _ _ _ _ _ _ _ _ _ _ _ | exact isneg_iff _ | exact nonneg_iff _ | assumption)
  irename if1_1 => Fl7
  irename if2 => Gd7
  -- tile 5: the wait for its copy-in, and what it hands back
  iapply (Transfers.wp_waitLocalO countersEmb 𝒱₀ (V d (cV L) (jV L)) none (default : HIx 1) (rfl : (in2).view.dmaCredit = _)) $$ [Fl5 HO]
  · isplitl [Fl5]; · iexact Fl5
    isplitl [HO]; · iexact HO
    iapply (Transfers.MayWaits.elim (SemLoc.dma cc0_scratch9.sem)) $$ Hmw
  iintro ⟨HD, Hs9, HO⟩
  ihave Hj := (settle_in (F := F) _ _ _ _ _ _ _) $$ [HD Hsmp2 Gd5]
  · isplitl [HD]; · iexact HD
    isplitl [Hsmp2]; · iexact Hsmp2
    iexact Gd5
  icases Hj with ⟨⟨%fin5, %hfin5, Hi2⟩, Hsmp2, Hwin2⟩
  set_option sl_exec.guardIff true in
  sl_exec_parts (disch := first | exact chk_all _ _ _ _ _ _ _ _ _ _ _ _ _ _ _ _ _ | exact isneg_iff _ | exact nonneg_iff _ | assumption)
  -- tile 5: the sigmoid loop over slot 2
  sl_for (sigInv2 (F := F) d L fin5) $$ [Hi2 Ho2]
  case region =>
    intro k _
    unfold sigInv2
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value6 k _ _ hb
  · unfold sigInv2
    isplitl [Hi2]; · iexact Hi2
    iexists _; isplitl [Ho2]; · iexact Ho2
    ipureintro; intro y hy; exact absurd hy (by omega)
  iintro %_ HI
  unfold sigInv2
  icases HI with ⟨Hi2, %fo2_5, Ho2, %hv5⟩
  set_option sl_exec.guardIff true in
  sl_exec_parts (disch := first | exact chk_all _ _ _ _ _ _ _ _ _ _ _ _ _ _ _ _ _ | exact isneg_iff _ | exact nonneg_iff _ | assumption)
  -- tile 6: the wait for its copy-in, and what it hands back
  iapply (Transfers.wp_waitLocalO countersEmb 𝒱₀ (V d (cV L) (jV L)) none (default : HIx 1) (rfl : (in0).view.dmaCredit = _)) $$ [Fl6 HO]
  · isplitl [Fl6]; · iexact Fl6
    isplitl [HO]; · iexact HO
    iapply (Transfers.MayWaits.elim (SemLoc.dma cc0_scratch7.sem)) $$ Hmw
  iintro ⟨HD, Hs7, HO⟩
  ihave Hj := (settle_in (F := F) _ _ _ _ _ _ _) $$ [HD Hsmp0 Gd6]
  · isplitl [HD]; · iexact HD
    isplitl [Hsmp0]; · iexact Hsmp0
    iexact Gd6
  icases Hj with ⟨⟨%fin6, %hfin6, Hi0⟩, Hsmp0, Hwin0⟩
  set_option sl_exec.guardIff true in
  sl_exec_parts (disch := first | exact chk_all _ _ _ _ _ _ _ _ _ _ _ _ _ _ _ _ _ | exact isneg_iff _ | exact nonneg_iff _ | assumption)
  -- tile 6: the sigmoid loop over slot 0
  sl_for (sigInv0 (F := F) d L fin6) $$ [Hi0 Ho0]
  case region =>
    intro k _
    unfold sigInv0
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value7 k _ _ hb
  · unfold sigInv0
    isplitl [Hi0]; · iexact Hi0
    iexists _; isplitl [Ho0]; · iexact Ho0
    ipureintro; intro y hy; exact absurd hy (by omega)
  iintro %_ HI
  unfold sigInv0
  icases HI with ⟨Hi0, %fo0_6, Ho0, %hv6⟩
  set_option sl_exec.guardIff true in
  sl_exec_parts (disch := first | exact chk_all _ _ _ _ _ _ _ _ _ _ _ _ _ _ _ _ _ | exact isneg_iff _ | exact nonneg_iff _ | assumption)
  -- tile 7: the wait for its copy-in, and what it hands back
  iapply (Transfers.wp_waitLocalO countersEmb 𝒱₀ (V d (cV L) (jV L)) none (default : HIx 1) (rfl : (in1).view.dmaCredit = _)) $$ [Fl7 HO]
  · isplitl [Fl7]; · iexact Fl7
    isplitl [HO]; · iexact HO
    iapply (Transfers.MayWaits.elim (SemLoc.dma cc0_scratch8.sem)) $$ Hmw
  iintro ⟨HD, Hs8, HO⟩
  ihave Hj := (settle_in (F := F) _ _ _ _ _ _ _) $$ [HD Hsmp1 Gd7]
  · isplitl [HD]; · iexact HD
    isplitl [Hsmp1]; · iexact Hsmp1
    iexact Gd7
  icases Hj with ⟨⟨%fin7, %hfin7, Hi1⟩, Hsmp1, Hwin1⟩
  set_option sl_exec.guardIff true in
  sl_exec_parts (disch := first | exact chk_all _ _ _ _ _ _ _ _ _ _ _ _ _ _ _ _ _ | exact isneg_iff _ | exact nonneg_iff _ | assumption)
  -- tile 7: the sigmoid loop over slot 1
  sl_for (sigInv1 (F := F) d L fin7) $$ [Hi1 Ho1]
  case region =>
    intro k _
    unfold sigInv1
    iintro ⟨Ha, %fb, Hb, %hb⟩
    sl_exec_parts (disch := first | exact chk_all _ _ _ _ _ _ _ _ _ _ _ _ _ _ _ _ _ | exact isneg_iff _ | exact nonneg_iff _ | assumption)
    sl_step
    isplitl [Ha]; · iexact Ha
    iexists _; isplitl [Hb]; · iexact Hb
    ipureintro
    exact trip_value8 k _ _ hb
  · unfold sigInv1
    isplitl [Hi1]; · iexact Hi1
    iexists _; isplitl [Ho1]; · iexact Ho1
    ipureintro; intro y hy; exact absurd hy (by omega)
  iintro %_ HI
  unfold sigInv1
  icases HI with ⟨Hi1, %fo1_7, Ho1, %hv7⟩
  set_option sl_exec.guardIff true in
  sl_exec_parts (disch := first | exact chk_all _ _ _ _ _ _ _ _ _ _ _ _ _ _ _ _ _ | exact isneg_iff _ | exact nonneg_iff _ | assumption)
  sl_step
  have hval0 : ∀ y : S128x128.Idx, (tile_body.sl.dma0_1 d L fo0_0) y = (fusedOf m d) ((outTile L 0).view.emb y) :=
    tile_value0 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fi0 fin0 fo0_0 hfin0
      (fun y => hv0 y (by have h128 : (y 0).val < 128 := (y 0).isLt; have ht : Scf.trips k0_t1_loop.lb k0_t1_loop.ub k0_t1_loop.st = 64 := (by decide); rw [ht]; omega))
  ihave Ht0 := (out_settle (F := F) d L 0 _ (fusedOf m d) _ hval0) $$ Ht0
  have hval1 : ∀ y : S128x128.Idx, (tile_body.sl.dma0_4 d L fo1_1) y = (fusedOf m d) ((outTile L 1).view.emb y) :=
    tile_value1 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fi1 fin1 fo1_1 hfin1
      (fun y => hv1 y (by have h128 : (y 0).val < 128 := (y 0).isLt; have ht : Scf.trips k0_t2_loop.lb k0_t2_loop.ub k0_t2_loop.st = 64 := (by decide); rw [ht]; omega))
  ihave Ht1 := (out_settle (F := F) d L 1 _ (fusedOf m d) _ hval1) $$ Ht1
  have hval2 : ∀ y : S128x128.Idx, (tile_body.sl.dma0_7 d L fo2_2) y = (fusedOf m d) ((outTile L 2).view.emb y) :=
    tile_value2 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fi2 fin2 fo2_2 hfin2
      (fun y => hv2 y (by have h128 : (y 0).val < 128 := (y 0).isLt; have ht : Scf.trips k0_t3_loop.lb k0_t3_loop.ub k0_t3_loop.st = 64 := (by decide); rw [ht]; omega))
  ihave Ht2 := (out_settle (F := F) d L 2 _ (fusedOf m d) _ hval2) $$ Ht2
  have hval3 : ∀ y : S128x128.Idx, (tile_body.sl.dma0_10 d L fo0_3) y = (fusedOf m d) ((outTile L 3).view.emb y) :=
    tile_value3 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin0 fin3 fo0_3 hfin3
      (fun y => hv3 y (by have h128 : (y 0).val < 128 := (y 0).isLt; have ht : Scf.trips k0_t4_loop.lb k0_t4_loop.ub k0_t4_loop.st = 64 := (by decide); rw [ht]; omega))
  ihave Ht3 := (out_settle (F := F) d L 3 _ (fusedOf m d) _ hval3) $$ Ht3
  have hval4 : ∀ y : S128x128.Idx, (tile_body.sl.dma0_13 d L fo1_4) y = (fusedOf m d) ((outTile L 4).view.emb y) :=
    tile_value4 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin1 fin4 fo1_4 hfin4
      (fun y => hv4 y (by have h128 : (y 0).val < 128 := (y 0).isLt; have ht : Scf.trips k0_t5_loop.lb k0_t5_loop.ub k0_t5_loop.st = 64 := (by decide); rw [ht]; omega))
  ihave Ht4 := (out_settle (F := F) d L 4 _ (fusedOf m d) _ hval4) $$ Ht4
  have hval5 : ∀ y : S128x128.Idx, (tile_body.sl.dma0_16 d L fo2_5) y = (fusedOf m d) ((outTile L 5).view.emb y) :=
    tile_value5 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin2 fin5 fo2_5 hfin5
      (fun y => hv5 y (by have h128 : (y 0).val < 128 := (y 0).isLt; have ht : Scf.trips k0_t6_loop.lb k0_t6_loop.ub k0_t6_loop.st = 64 := (by decide); rw [ht]; omega))
  ihave Ht5 := (out_settle (F := F) d L 5 _ (fusedOf m d) _ hval5) $$ Ht5
  have hval6 : ∀ y : S128x128.Idx, (tile_body.sl.dma0_17 d L fo0_6) y = (fusedOf m d) ((outTile L 6).view.emb y) :=
    tile_value6 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin3 fin6 fo0_6 hfin6
      (fun y => hv6 y (by have h128 : (y 0).val < 128 := (y 0).isLt; have ht : Scf.trips k0_t7_loop.lb k0_t7_loop.ub k0_t7_loop.st = 64 := (by decide); rw [ht]; omega))
  ihave Ht6 := (out_settle (F := F) d L 6 _ (fusedOf m d) _ hval6) $$ Ht6
  have hval7 : ∀ y : S128x128.Idx, (tile_body.sl.dma0_18 d L fo1_7) y = (fusedOf m d) ((outTile L 7).view.emb y) :=
    tile_value7 (F := F) (m (smpLoc d)) (m (winLoc d)) (m (selLoc d)) (hsel d) L
      (tile_body.sl.v62 m d L fsel) (tile_body.sl.v64 m d L fsel) (tile_body.sl.v69 m d L fsel) (tile_body.sl.v71 m d L fsel) (tile_body.sl.v76 m d L fsel) (tile_body.sl.v78 m d L fsel) (tile_body.sl.v83 m d L fsel) (tile_body.sl.v85 m d L fsel) (tile_body.sl.v90 m d L fsel) (tile_body.sl.v92 m d L fsel) (tile_body.sl.v97 m d L fsel) (tile_body.sl.v99 m d L fsel) (tile_body.sl.v104 m d L fsel) (tile_body.sl.v106 m d L fsel) (tile_body.sl.v111 m d L fsel) (tile_body.sl.v113 m d L fsel)
      ⟨word_8 _ _ _, word_0 _ _ _, word_10 _ _ _, word_2 _ _ _, word_12 _ _ _, word_4 _ _ _, word_14 _ _ _, word_6 _ _ _, word_9 _ _ _, word_1 _ _ _, word_11 _ _ _, word_3 _ _ _, word_13 _ _ _, word_5 _ _ _, word_15 _ _ _, word_7 _ _ _⟩
      _ (isneg_iff _) fin4 fin7 fo1_7 hfin7
      (fun y => hv7 y (by have h128 : (y 0).val < 128 := (y 0).isLt; have ht : Scf.trips k0_t8_loop.lb k0_t8_loop.ub k0_t8_loop.st = 64 := (by decide); rw [ht]; omega))
  ihave Ht7 := (out_settle (F := F) d L 7 _ (fusedOf m d) _ hval7) $$ Ht7
  isplitl [HsmpR Hsmp0 Hsmp1 Hsmp2 HwinR Hwin0 Hwin1 Hwin2 Hflat Ht0 Ht1 Ht2 Ht3 Ht4 Ht5 Ht6 Ht7]
  · isplitl [HsmpR Hsmp0 Hsmp1 Hsmp2 HwinR Hwin0 Hwin1 Hwin2 Hflat]
    · isplitl [HsmpR Hsmp0 Hsmp1 Hsmp2]
      · iapply (toks3_join (F := F) (ℓ := smpLoc d) _ _)
        isplitl [HsmpR]; · iexact HsmpR
        isplitl [Hsmp0]; · iexact Hsmp0
        isplitl [Hsmp1]; · iexact Hsmp1
        iexact Hsmp2
      isplitl [HwinR Hwin0 Hwin1 Hwin2]
      · iapply (toks3_join (F := F) (ℓ := winLoc d) _ _)
        isplitl [HwinR]; · iexact HwinR
        isplitl [Hwin0]; · iexact Hwin0
        isplitl [Hwin1]; · iexact Hwin1
        iexact Hwin2
      iexact Hflat
    rw [outTiles_eq]
    isplitl [Ht0]; · iexact Ht0
    isplitl [Ht1]; · iexact Ht1
    isplitl [Ht2]; · iexact Ht2
    isplitl [Ht3]; · iexact Ht3
    isplitl [Ht4]; · iexact Ht4
    isplitl [Ht5]; · iexact Ht5
    isplitl [Ht6]; · iexact Ht6
    iexact Ht7
  isplitl [Hsel Hi0 Hi1 Hi2 Ho0 Ho1 Ho2 Hbufs]
  · isplitl [Hsel]; · iexists _; iexact Hsel
    isplitl [Hi0]; · iexists _; iexact Hi0
    isplitl [Hi1]; · iexists _; iexact Hi1
    isplitl [Hi2]; · iexists _; iexact Hi2
    isplitl [Ho0]; · iexists _; iexact Ho0
    isplitl [Ho1]; · iexists _; iexact Ho1
    isplitl [Ho2]; · iexists _; iexact Ho2
    iexact Hbufs
  isplitl [Hs7 Hs8 Hs9 Hs10 Hs11 Hs12 Hsc Hsems]
  · isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hsc]; · iexact Hsc
    iexact Hsems
  iexists _; isplitr
  swap; · iexact HO
  ipureintro; intro p hp
  repeat (rcases Finset.mem_insert.mp hp with hp | hp; · exact .inr (hp ▸ rfl))
  exact .inl hp

end Tile

/-! ## The obligation -/

theorem defs₀_vector (c : Fin τ.nSC) (s : Fin τ.nSub) :
    defs₀ (F := F) (.scVector c s) 0 ()
      = SparseCore.onTile hcore0 hsub0 (fun c s => cc0__fuser_body (coordsV c s)
          smpV (Memref.isWhole_whole _) winV (Memref.isWhole_whole _) flatV (Memref.isWhole_whole _) outV (Memref.isWhole_whole _)
          selB (Memref.isWhole_whole _) in0 (Memref.isWhole_whole _) in1 (Memref.isWhole_whole _) in2 (Memref.isWhole_whole _)
          ob0 (Memref.isWhole_whole _) ob1 (Memref.isWhole_whole _) ob2 (Memref.isWhole_whole _)
          cc0_scratch7 cc0_scratch8 cc0_scratch9 cc0_scratch10 cc0_scratch11 cc0_scratch12 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every vector subcore's task meets the launch theorem's obligation. -/
theorem tileObl (hF : (K (F := F)).Facts) (hsel : SelOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO hsel).trans (wp_mono frame _ _ fun _ => obl_post)

end Cert.Proof.KB

end
-- ==== Proof.RefRun.OpsA.lean ====
/- The reference's operations 1 … 1380 of 4424, in order, as short lists: cut where a window of the printed program
   ends and where a step (one window of one image) ends. Of each list: its operations touch TensorCore buffers only, and
   each determines its result. Of each window of the printed program in this range: it runs its lists, one after the other. -/
import proofs.«207346_g72533407695360_cont_9to1_m_270_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 66 of 4424. -/
noncomputable def pc000 : List (HloOp τ sig (Elt F)) :=
  [ unary main_arg2 main_v0 ((extractStridedSlice S1x1x1 ![0, 0, 0] · slices_S16x4x2_S1x1x1_0_0_0) : (⟨S16x4x2, .i32⟩ : BufTy).Contents (Elt F) → (⟨S1x1x1, .i32⟩ : BufTy).Contents (Elt F)),
    reshape main_v0 main_v1 rfl shapeCasts_S1x1x1_S_,
    nullary main_c (constantI S_ 32 128#32),
    binary main_v1 main_c main_v2 (muli : (⟨S_, .i32⟩ : BufTy).Contents (Elt F) → (⟨S_, .i32⟩ : BufTy).Contents (Elt F) → (⟨S_, .i32⟩ : BufTy).Contents (Elt F)),
    nullary main_c_0 (constantI S_ 32 0#32),
    nullary main_c_1 (constantI S_ 32 128#32),
    TRef.unary (TRef.of (T := ⟨S_, .i32⟩) main_c_0) (TRef.of (T := ⟨S_, .i32⟩) main_call0_v0) id,
    TRef.binary (TRef.of (T := ⟨S_, .i32⟩) main_call0_v0) (TRef.of (T := ⟨S_, .i32⟩) main_v2) (TRef.of (T := ⟨S_, .i32⟩) main_call0_v1) maxsi,
    TRef.unary (TRef.of (T := ⟨S_, .i32⟩) main_c_1) (TRef.of (T := ⟨S_, .i32⟩) main_call0_v2) id,
    TRef.binary (TRef.of (T := ⟨S_, .i32⟩) main_call0_v2) (TRef.of (T := ⟨S_, .i32⟩) main_call0_v1) (TRef.of (T := ⟨S_, .i32⟩) main_v3) minsi,
    unary main_arg2 main_v4 ((extractStridedSlice S1x1x1 ![0, 0, 1] · slices_S16x4x2_S1x1x1_0_0_1) : (⟨S16x4x2, .i32⟩ : BufTy).Contents (Elt F) → (⟨S1x1x1, .i32⟩ : BufTy).Contents (Elt F)),
    reshape main_v4 main_v5 rfl shapeCasts_S1x1x1_S_,
    nullary main_c_2 (constantI S_ 32 128#32),
    binary main_v5 main_c_2 main_v6 (muli : (⟨S_, .i32⟩ : BufTy).Contents (Elt F) → (⟨S_, .i32⟩ : BufTy).Contents (Elt F) → (⟨S_, .i32⟩ : BufTy).Contents (Elt F)),
    nullary main_c_3 (constantI S_ 32 0#32),
    nullary main_c_4 (constantI S_ 32 128#32),
    TRef.unary (TRef.of (T := ⟨S_, .i32⟩) main_c_3) (TRef.of (T := ⟨S_, .i32⟩) main_call1_v0) id,
    TRef.binary (TRef.of (T := ⟨S_, .i32⟩) main_call1_v0) (TRef.of (T := ⟨S_, .i32⟩) main_v6) (TRef.of (T := ⟨S_, .i32⟩) main_call1_v1) maxsi,
    TRef.unary (TRef.of (T := ⟨S_, .i32⟩) main_c_4) (TRef.of (T := ⟨S_, .i32⟩) main_call1_v2) id,
    TRef.binary (TRef.of (T := ⟨S_, .i32⟩) main_call1_v2) (TRef.of (T := ⟨S_, .i32⟩) main_call1_v1) (TRef.of (T := ⟨S_, .i32⟩) main_v7) minsi,
    unary main_arg1 main_v8 ((extractStridedSlice S1x1x1x512x512 ![0, 0, 0, 0, 0] · slices_S16x4x1x512x512_S1x1x1x512x512_0_0_0_0_0) : (⟨S16x4x1x512x512, .f32⟩ : BufTy).Contents (Elt F) → (⟨S1x1x1x512x512, .f32⟩ : BufTy).Contents (Elt F)),
    reshape main_v8 main_v9 rfl shapeCasts_S1x1x1x512x512_S1x512x512,
    nullary main_c_5 (constantI S_ 32 0#32),
    nullary main_c_6 (constantI S_ 32 0#32),
    binary main_c_5 main_c_6 main_v10 (cmpi .slt : (⟨S_, .i32⟩ : BufTy).Contents (Elt F) → (⟨S_, .i32⟩ : BufTy).Contents (Elt F) → (⟨S_, .i1⟩ : BufTy).Contents (Elt F)),
    nullary main_c_7 (constantI S_ 32 0#32),
    nullary main_c_8 (constantI S_ 32 1#32),
    binary main_c_7 main_c_8 main_v11 (addi : (⟨S_, .i32⟩ : BufTy).Contents (Elt F) → (⟨S_, .i32⟩ : BufTy).Contents (Elt F) → (⟨S_, .i32⟩ : BufTy).Contents (Elt F)),
    nullary main_c_9 (constantI S_ 32 0#32),
    ternary main_v10 main_v11 main_c_9 main_v12 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_10 (constantI S_ 32 0#32),
    binary main_v3 main_c_10 main_v13 (cmpi .slt : (⟨S_, .i32⟩ : BufTy).Contents (Elt F) → (⟨S_, .i32⟩ : BufTy).Contents (Elt F) → (⟨S_, .i1⟩ : BufTy).Contents (Elt F)),
    nullary main_c_11 (constantI S_ 32 512#32),
    binary main_v3 main_c_11 main_v14 (addi : (⟨S_, .i32⟩ : BufTy).Contents (Elt F) → (⟨S_, .i32⟩ : BufTy).Contents (Elt F) → (⟨S_, .i32⟩ : BufTy).Contents (Elt F)),
    ternary main_v13 main_v14 main_v3 main_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_12 (constantI S_ 32 0#32),
    binary main_v7 main_c_12 main_v16 (cmpi .slt : (⟨S_, .i32⟩ : BufTy).Contents (Elt F) → (⟨S_, .i32⟩ : BufTy).Contents (Elt F) → (⟨S_, .i1⟩ : BufTy).Contents (Elt F)),
    nullary main_c_13 (constantI S_ 32 512#32),
    binary main_v7 main_c_13 main_v17 (addi : (⟨S_, .i32⟩ : BufTy).Contents (Elt F) → (⟨S_, .i32⟩ : BufTy).Contents (Elt F) → (⟨S_, .i32⟩ : BufTy).Contents (Elt F)),
    ternary main_v16 main_v17 main_v7 main_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v9 ![main_v12, main_v15, main_v18] ⟨S_, .i32⟩ main_v19 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v19 main_v20 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_14 (constantI S_ 32 0#32),
    nullary main_c_15 (constantI S_ 32 0#32),
    binary main_c_14 main_c_15 main_v21 (cmpi .slt : (⟨S_, .i32⟩ : BufTy).Contents (Elt F) → (⟨S_, .i32⟩ : BufTy).Contents (Elt F) → (⟨S_, .i1⟩ : BufTy).Contents (Elt F)),
    nullary main_c_16 (constantI S_ 32 0#32),
    nullary main_c_17 (constantI S_ 32 16#32),
    binary main_c_16 main_c_17 main_v22 (addi : (⟨S_, .i32⟩ : BufTy).Contents (Elt F) → (⟨S_, .i32⟩ : BufTy).Contents (Elt F) → (⟨S_, .i32⟩ : BufTy).Contents (Elt F)),
    nullary main_c_18 (constantI S_ 32 0#32),
    ternary main_v21 main_v22 main_c_18 main_v23 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_19 (constantI S_ 32 0#32),
    nullary main_c_20 (constantI S_ 32 0#32),
    binary main_c_19 main_c_20 main_v24 (cmpi .slt : (⟨S_, .i32⟩ : BufTy).Contents (Elt F) → (⟨S_, .i32⟩ : BufTy).Contents (Elt F) → (⟨S_, .i1⟩ : BufTy).Contents (Elt F)),
    nullary main_c_21 (constantI S_ 32 0#32),
    nullary main_c_22 (constantI S_ 32 1#32),
    binary main_c_21 main_c_22 main_v25 (addi : (⟨S_, .i32⟩ : BufTy).Contents (Elt F) → (⟨S_, .i32⟩ : BufTy).Contents (Elt F) → (⟨S_, .i32⟩ : BufTy).Contents (Elt F)),
    nullary main_c_23 (constantI S_ 32 0#32),
    ternary main_v24 main_v25 main_c_23 main_v26 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_24 (constantI S_ 32 0#32),
    binary main_v3 main_c_24 main_v27 (cmpi .slt : (⟨S_, .i32⟩ : BufTy).Contents (Elt F) → (⟨S_, .i32⟩ : BufTy).Contents (Elt F) → (⟨S_, .i1⟩ : BufTy).Contents (Elt F)),
    nullary main_c_25 (constantI S_ 32 512#32),
    binary main_v3 main_c_25 main_v28 (addi : (⟨S_, .i32⟩ : BufTy).Contents (Elt F) → (⟨S_, .i32⟩ : BufTy).Contents (Elt F) → (⟨S_, .i32⟩ : BufTy).Contents (Elt F)),
    ternary main_v27 main_v28 main_v3 main_v29 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_26 (constantI S_ 32 0#32),
    binary main_v7 main_c_26 main_v30 (cmpi .slt : (⟨S_, .i32⟩ : BufTy).Contents (Elt F) → (⟨S_, .i32⟩ : BufTy).Contents (Elt F) → (⟨S_, .i1⟩ : BufTy).Contents (Elt F)),
    nullary main_c_27 (constantI S_ 32 512#32) ]
theorem pc000_sub : (pc000 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub ..⟩
theorem pc000_fresh : ∀ op ∈ (pc000 (F := F)), op.fresh = ∅ := by
  intro _ h; (repeat (cases h with | head => rfl | tail _ h => ?_)); exact nomatch h

/-- Operations 67 … 69 of 4424. -/
noncomputable def pc001 : List (HloOp τ sig (Elt F)) :=
  [ binary main_v7 main_c_27 main_v31 (addi : (⟨S_, .i32⟩ : BufTy).Contents (Elt F) → (⟨S_, .i32⟩ : BufTy).Contents (Elt F) → (⟨S_, .i32⟩ : BufTy).Contents (Elt F)),
    ternary main_v30 main_v31 main_v7 main_v32 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_arg0 main_v20 ![main_v23, main_v26, main_v29, main_v32] ⟨S_, .i32⟩ main_v33 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc001_sub : (pc001 (F := F)).Forall fun op => op.bufs ⊆ tcRefs τ sig :=
  ⟨binary_bufs_sub .., ternary_bufs_sub .., binaryIndexed_bufs_sub ..⟩
theorem pc001_fresh : ∀ op ∈ (pc001 (F := F)), op.fresh = ∅ := by
  intro _ h; (repeat (cases h with | head => rfl | tail _ h => ?_)); exact nomatch h

/-- Operations 70 … 132 of 4424. -/
noncomputable def pc002 : List (HloOp τ sig (Elt F)) :=
  [ unary main_arg2 main_v34 ((extractStridedSlice S1x1x1 ![0, 1, 0] · slices_S16x4x2_S1x1x1_0_1_0) : (⟨S16x4x2, .i32⟩ : BufTy).Contents (Elt F) → (⟨S1x1x1, .i32⟩ : BufTy).Contents (Elt F)),
    reshape main_v34 main_v35 rfl shapeCasts_S1x1x1_S_,
    nullary main_c_28 (constantI S_ 32 128#32),
    binary main_v35 main_c_28 main_v36 (muli : (⟨S_, .i32⟩ : BufTy).Contents (Elt F) → (⟨S_, .i32⟩ : BufTy).Contents (Elt F) → (⟨S_, .i32⟩ : BufTy).Contents (Elt F)),
    nullary main_c_29 (constantI S_ 32 0#32),
    nullary main_c_30 (constantI S_ 32 128#32),
    TRef.unary (TRef.of (T := ⟨S_, .i32⟩) main_c_29) (TRef.of (T := ⟨S_, .i32⟩) main_call2_v0) id,
    TRef.binary (TRef.of (T := ⟨S_, .i32⟩) main_call2_v0) (TRef.of (T := ⟨S_, .i32⟩) main_v36) (TRef.of (T := ⟨S_, .i32⟩) main_call2_v1) maxsi,
    TRef.unary (TRef.of (T := ⟨S_, .i32⟩) main_c_30) (TRef.of (T := ⟨S_, .i32⟩) main_call2_v2) id,
    TRef.binary (TRef.of (T := ⟨S_, .i32⟩) main_call2_v2) (TRef.of (T := ⟨S_, .i32⟩) main_call2_v1) (TRef.of (T := ⟨S_, .i32⟩) main_v37) minsi,
    unary main_arg2 main_v38 ((extractStridedSlice S1x1x1 ![0, 1, 1] · slices_S16x4x2_S1x1x1_0_1_1) : (⟨S16x4x2, .i32⟩ : BufTy).Contents (Elt F) → (⟨S1x1x1, .i32⟩ : BufTy).Contents (Elt F)),
    reshape main_v38 main_v39 rfl shapeCasts_S1x1x1_S_,
    nullary main_c_31 (constantI S_ 32 128#32),
    binary main_v39 main_c_31 main_v40 (muli : (⟨S_, .i32⟩ : BufTy).Contents (Elt F) → (⟨S_, .i32⟩ : BufTy).Contents (Elt F) → (⟨S_, .i32⟩ : BufTy).Contents (Elt F)),
    nullary main_c_32 (constantI S_ 32 0#32),
    nullary main_c_33 (constantI S_ 32 128#32),
    TRef.unary (TRef.of (T := ⟨S_, .i32⟩) main_c_32) (TRef.of (T := ⟨S_, .i32⟩) main_call3_v0) id,
    TRef.binary (TRef.of (T := ⟨S_, .i32⟩) main_call3_v0) (TRef.of (T := ⟨S_, .i32⟩) main_v40) (TRef.of (T := ⟨S_, .i32⟩) main_call3_v1) maxsi,
    TRef.unary (TRef.of (T := ⟨S_, .i32⟩) main_c_33) (TRef.of (T := ⟨S_, .i32⟩) main_call3_v2) id,
    TRef.binary (TRef.of (T := ⟨S_, .i32⟩) main_call3_v2) (TRef.of (T := ⟨S_, .i32⟩) main_call3_v1) (TRef.of (T := ⟨S_, .i32⟩) main_v41) minsi,
    unary main_arg1 main_v42 ((extractStridedSlice S1x1x1x512x512 ![0, 1, 0, 0, 0] · slices_S16x4x1x512x512_S1x1x1x512x512_0_1_0_0_0) : (⟨S16x4x1x512x512, .f32⟩ : BufTy).Contents (Elt F) → (⟨S1x1x1x512x512, .f32⟩ : BufTy).Contents (Elt F)),
    reshape main_v42 main_v43 rfl shapeCasts_S1x1x1x512x512_S1x512x512,
    nullary main_c_34 (constantI S_ 32 0#32),
    nullary main_c_35 (constantI S_ 32 0#32),
    binary main_c_34 main_c_35 main_v44 (cmpi .slt : (⟨S_, .i32⟩ : BufTy).Contents (Elt F) → (⟨S_, .i32⟩ : BufTy).Contents (Elt F) → (⟨S_, .i1⟩ : BufTy).Contents (Elt F)),
    nullary main_c_36 (constantI S_ 32 0#32),
    nullary main_c_37 (constantI S_ 32 1#32),
    binary main_c_36 main_c_37 main_v45 (addi : (⟨S_, .i32⟩ : BufTy).Contents (Elt F) → (⟨S_, .i32⟩ : BufTy).Contents (Elt F) → (⟨S_, .i32⟩ : BufTy).Contents (Elt F)),
    nullary main_c_38 (constantI S_ 32 0#32),
    ternary main_v44 main_v45 main_c_38 main_v46 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_39 (constantI S_ 32 0#32),
    binary main_v37 main_c_39 main_v47 (cmpi .slt : (⟨S_, .i32⟩ : BufTy).Contents (Elt F) → (⟨S_, .i32⟩ : BufTy).Contents (Elt F) → (⟨S_, .i1⟩ : BufTy).Contents (Elt F)),
    nullary main_c_40 (constantI S_ 32 512#32),
    binary main_v37 main_c_40 main_v48 (addi : (⟨S_, .i32⟩ : BufTy).Contents (Elt F) → (⟨S_, .i32⟩ : BufTy).Contents (Elt F) → (⟨S_, .i32⟩ : BufTy).Contents (Elt F)),
    ternary main_v47 main_v48 main_v37 main_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_41 (constantI S_ 32 0#32),
    binary main_v41 main_c_41 main_v50 (cmpi .slt : (⟨S_, .i32⟩ : BufTy).Contents (Elt F) → (⟨S_, .i32⟩ : BufTy).Contents (Elt F) → (⟨S_, .i1⟩ : BufTy).Contents (Elt F)),
    nullary main_c_42 (constantI S_ 32 512#32),
    binary main_v41 main_c_42 main_v51 (addi : (⟨S_, .i32⟩ : BufTy).Contents (Elt F) → (⟨S_, .i32⟩ : BufTy).Contents (Elt F) → (⟨S_, .i32⟩ : BufTy).Contents (Elt F)),
    ternary main_v50 main_v51 main_v41 main_v52 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v43 ![main_v46, main_v49, main_v52] ⟨S_, .i32⟩ main_v53 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v53 main_v54 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_43 (constantI S_ 32 0#32),
    nullary main_c_44 (constantI S_ 32 0#32),
    binary main_c_43 main_c_44 main_v55 (cmpi .slt : (⟨S_, .i32⟩ : BufTy).Contents (Elt F) → (⟨S_, .i32⟩ : BufTy).Contents (Elt F) → (⟨S_, .i1⟩ : BufTy).Contents (Elt F)),
    nullary main_c_45 (constantI S_ 32 0#32),
    nullary main_c_46 (constantI S_ 32 16#32),
    binary main_c_45 main_c_46 main_v56 (addi : (⟨S_, .i32⟩ : BufTy).Contents (Elt F) → (⟨S_, .i32⟩ : BufTy).Contents (Elt F) → (⟨S_, .i32⟩ : BufTy).Contents (Elt F)),
    nullary main_c_47 (constantI S_ 32 0#32),
    ternary main_v55 main_v56 main_c_47 main_v57 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_48 (constantI S_ 32 0#32),
    nullary main_c_49 (constantI S_ 32 0#32),
    binary main_c_48 main_c_49 main_v58 (cmpi .slt : (⟨S_, .i32⟩ : BufTy).Contents (Elt F) → (⟨S_, .i32⟩ : BufTy).Contents (Elt F) → (⟨S_, .i1⟩ : BufTy).Contents (Elt F)),
    nullary main_c_50 (constantI S_ 32 0#32),
    nullary main_c_51 (constantI S_ 32 1#32),
    binary main_c_50 main_c_51 main_v59 (addi : (⟨S_, .i32⟩ : BufTy).Contents (Elt F) → (⟨S_, .i32⟩ : BufTy).Contents (Elt F) → (⟨S_, .i32⟩ : BufTy).Contents (Elt F)),
    nullary main_c_52 (constantI S_ 32 0#32),
    ternary main_v58 main_v59 main_c_52 main_v60 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_53 (constantI S_ 32 0#32),
    binary main_v37 main_c_53 main_v61 (cmpi .slt : (⟨S_, .i32⟩ : BufTy).Contents (Elt F) → (⟨S_, .i32⟩ : BufTy).Contents (Elt F) → (⟨S_, .i1⟩ : BufTy).Contents (Elt F)),
    nullary main_c_54 (constantI S_ 32 512#32),
    binary main_v37 main_c_54 main_v62 (addi : (⟨S_, .i32⟩ : BufTy).Contents (Elt F) → (⟨S_, .i32⟩ : BufTy).Contents (Elt F) → (⟨S_, .i32⟩ : BufTy).Contents (Elt F)),
    ternary main_v61 main_v62 main_v37 main_v63 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem pc002_sub : (pc002 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub ..⟩
theorem pc002_fresh : ∀ op ∈ (pc002 (F := F)), op.fresh = ∅ := by
  intro _ h; (repeat (cases h with | head => rfl | tail _ h => ?_)); exact nomatch h

/-- Operations 133 … 138 of 4424. -/
noncomputable def pc003 : List (HloOp τ sig (Elt F)) :=
  [ nullary main_c_55 (constantI S_ 32 0#32),
    binary main_v41 main_c_55 main_v64 (cmpi .slt : (⟨S_, .i32⟩ : BufTy).Contents (Elt F) → (⟨S_, .i32⟩ : BufTy).Contents (Elt F) → (⟨S_, .i1⟩ : BufTy).Contents (Elt F)),
    nullary main_c_56 (constantI S_ 32 512#32),
    binary main_v41 main_c_56 main_v65 (addi : (⟨S_, .i32⟩ : BufTy).Contents (Elt F) → (⟨S_, .i32⟩ : BufTy).Contents (Elt F) → (⟨S_, .i32⟩ : BufTy).Contents (Elt F)),
    ternary main_v64 main_v65 main_v41 main_v66 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v33 main_v54 ![main_v57, main_v60, main_v63, main_v66] ⟨S_, .i32⟩ main_v67 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc003_sub : (pc003 (F := F)).Forall fun op => op.bufs ⊆ tcRefs τ sig :=
  ⟨nullary_bufs_sub .., binary_bufs_sub .., nullary_bufs_sub .., binary_bufs_sub .., ternary_bufs_sub .., binaryIndexed_bufs_sub ..⟩
theorem pc003_fresh : ∀ op ∈ (pc003 (F := F)), op.fresh = ∅ := by
  intro _ h; (repeat (cases h with | head => rfl | tail _ h => ?_)); exact nomatch h

/-- Operations 139 … 198 of 4424. -/
noncomputable def pc004 : List (HloOp τ sig (Elt F)) :=
  [ unary main_arg2 main_v68 ((extractStridedSlice S1x1x1 ![0, 2, 0] · slices_S16x4x2_S1x1x1_0_2_0) : (⟨S16x4x2, .i32⟩ : BufTy).Contents (Elt F) → (⟨S1x1x1, .i32⟩ : BufTy).Contents (Elt F)),
    reshape main_v68 main_v69 rfl shapeCasts_S1x1x1_S_,
    nullary main_c_57 (constantI S_ 32 128#32),
    binary main_v69 main_c_57 main_v70 (muli : (⟨S_, .i32⟩ : BufTy).Contents (Elt F) → (⟨S_, .i32⟩ : BufTy).Contents (Elt F) → (⟨S_, .i32⟩ : BufTy).Contents (Elt F)),
    nullary main_c_58 (constantI S_ 32 0#32),
    nullary main_c_59 (constantI S_ 32 128#32),
    TRef.unary (TRef.of (T := ⟨S_, .i32⟩) main_c_58) (TRef.of (T := ⟨S_, .i32⟩) main_call4_v0) id,
    TRef.binary (TRef.of (T := ⟨S_, .i32⟩) main_call4_v0) (TRef.of (T := ⟨S_, .i32⟩) main_v70) (TRef.of (T := ⟨S_, .i32⟩) main_call4_v1) maxsi,
    TRef.unary (TRef.of (T := ⟨S_, .i32⟩) main_c_59) (TRef.of (T := ⟨S_, .i32⟩) main_call4_v2) id,
    TRef.binary (TRef.of (T := ⟨S_, .i32⟩) main_call4_v2) (TRef.of (T := ⟨S_, .i32⟩) main_call4_v1) (TRef.of (T := ⟨S_, .i32⟩) main_v71) minsi,
    unary main_arg2 main_v72 ((extractStridedSlice S1x1x1 ![0, 2, 1] · slices_S16x4x2_S1x1x1_0_2_1) : (⟨S16x4x2, .i32⟩ : BufTy).Contents (Elt F) → (⟨S1x1x1, .i32⟩ : BufTy).Contents (Elt F)),
    reshape main_v72 main_v73 rfl shapeCasts_S1x1x1_S_,
    nullary main_c_60 (constantI S_ 32 128#32),
    binary main_v73 main_c_60 main_v74 (muli : (⟨S_, .i32⟩ : BufTy).Contents (Elt F) → (⟨S_, .i32⟩ : BufTy).Contents (Elt F) → (⟨S_, .i32⟩ : BufTy).Contents (Elt F)),
    nullary main_c_61 (constantI S_ 32 0#32),
    nullary main_c_62 (constantI S_ 32 128#32),
    TRef.unary (TRef.of (T := ⟨S_, .i32⟩) main_c_61) (TRef.of (T := ⟨S_, .i32⟩) main_call5_v0) id,
    TRef.binary (TRef.of (T := ⟨S_, .i32⟩) main_call5_v0) (TRef.of (T := ⟨S_, .i32⟩) main_v74) (TRef.of (T := ⟨S_, .i32⟩) main_call5_v1) maxsi,
    TRef.unary (TRef.of (T := ⟨S_, .i32⟩) main_c_62) (TRef.of (T := ⟨S_, .i32⟩) main_call5_v2) id,
    TRef.binary (TRef.of (T := ⟨S_, .i32⟩) main_call5_v2) (TRef.of (T := ⟨S_, .i32⟩) main_call5_v1) (TRef.of (T := ⟨S_, .i32⟩) main_v75) minsi,
    unary main_arg1 main_v76 ((extractStridedSlice S1x1x1x512x512 ![0, 2, 0, 0, 0] · slices_S16x4x1x512x512_S1x1x1x512x512_0_2_0_0_0) : (⟨S16x4x1x512x512, .f32⟩ : BufTy).Contents (Elt F) → (⟨S1x1x1x512x512, .f32⟩ : BufTy).Contents (Elt F)),
    reshape main_v76 main_v77 rfl shapeCasts_S1x1x1x512x512_S1x512x512,
    nullary main_c_63 (constantI S_ 32 0#32),
    nullary main_c_64 (constantI S_ 32 0#32),
    binary main_c_63 main_c_64 main_v78 (cmpi .slt : (⟨S_, .i32⟩ : BufTy).Contents (Elt F) → (⟨S_, .i32⟩ : BufTy).Contents (Elt F) → (⟨S_, .i1⟩ : BufTy).Contents (Elt F)),
    nullary main_c_65 (constantI S_ 32 0#32),
    nullary main_c_66 (constantI S_ 32 1#32),
    binary main_c_65 main_c_66 main_v79 (addi : (⟨S_, .i32⟩ : BufTy).Contents (Elt F) → (⟨S_, .i32⟩ : BufTy).Contents (Elt F) → (⟨S_, .i32⟩ : BufTy).Contents (Elt F)),
    nullary main_c_67 (constantI S_ 32 0#32),
    ternary main_v78 main_v79 main_c_67 main_v80 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_68 (constantI S_ 32 0#32),
    binary main_v71 main_c_68 main_v81 (cmpi .slt : (⟨S_, .i32⟩ : BufTy).Contents (Elt F) → (⟨S_, .i32⟩ : BufTy).Contents (Elt F) → (⟨S_, .i1⟩ : BufTy).Contents (Elt F)),
    nullary main_c_69 (constantI S_ 32 512#32),
    binary main_v71 main_c_69 main_v82 (addi : (⟨S_, .i32⟩ : BufTy).Contents (Elt F) → (⟨S_, .i32⟩ : BufTy).Contents (Elt F) → (⟨S_, .i32⟩ : BufTy).Contents (Elt F)),
    ternary main_v81 main_v82 main_v71 main_v83 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_70 (constantI S_ 32 0#32),
    binary main_v75 main_c_70 main_v84 (cmpi .slt : (⟨S_, .i32⟩ : BufTy).Contents (Elt F) → (⟨S_, .i32⟩ : BufTy).Contents (Elt F) → (⟨S_, .i1⟩ : BufTy).Contents (Elt F)),
    nullary main_c_71 (constantI S_ 32 512#32),
    binary main_v75 main_c_71 main_v85 (addi : (⟨S_, .i32⟩ : BufTy).Contents (Elt F) → (⟨S_, .i32⟩ : BufTy).Contents (Elt F) → (⟨S_, .i32⟩ : BufTy).Contents (Elt F)),
    ternary main_v84 main_v85 main_v75 main_v86 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v77 ![main_v80, main_v83, main_v86] ⟨S_, .i32⟩ main_v87 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v87 main_v88 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_72 (constantI S_ 32 0#32),
    nullary main_c_73 (constantI S_ 32 0#32),
    binary main_c_72 main_c_73 main_v89 (cmpi .slt : (⟨S_, .i32⟩ : BufTy).Contents (Elt F) → (⟨S_, .i32⟩ : BufTy).Contents (Elt F) → (⟨S_, .i1⟩ : BufTy).Contents (Elt F)),
    nullary main_c_74 (constantI S_ 32 0#32),
    nullary main_c_75 (constantI S_ 32 16#32),
    binary main_c_74 main_c_75 main_v90 (addi : (⟨S_, .i32⟩ : BufTy).Contents (Elt F) → (⟨S_, .i32⟩ : BufTy).Contents (Elt F) → (⟨S_, .i32⟩ : BufTy).Contents (Elt F)),
    nullary main_c_76 (constantI S_ 32 0#32),
    ternary main_v89 main_v90 main_c_76 main_v91 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_77 (constantI S_ 32 0#32),
    nullary main_c_78 (constantI S_ 32 0#32),
    binary main_c_77 main_c_78 main_v92 (cmpi .slt : (⟨S_, .i32⟩ : BufTy).Contents (Elt F) → (⟨S_, .i32⟩ : BufTy).Contents (Elt F) → (⟨S_, .i1⟩ : BufTy).Contents (Elt F)),
    nullary main_c_79 (constantI S_ 32 0#32),
    nullary main_c_80 (constantI S_ 32 1#32),
    binary main_c_79 main_c_80 main_v93 (addi : (⟨S_, .i32⟩ : BufTy).Contents (Elt F) → (⟨S_, .i32⟩ : BufTy).Contents (Elt F) → (⟨S_, .i32⟩ : BufTy).Contents (Elt F)),
    nullary main_c_81 (constantI S_ 32 0#32),
    ternary main_v92 main_v93 main_c_81 main_v94 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_82 (constantI S_ 32 0#32),
    binary main_v71 main_c_82 main_v95 (cmpi .slt : (⟨S_, .i32⟩ : BufTy).Contents (Elt F) → (⟨S_, .i32⟩ : BufTy).Contents (Elt F) → (⟨S_, .i1⟩ : BufTy).Contents (Elt F)) ]
theorem pc004_sub : (pc004 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub ..⟩
theorem pc004_fresh : ∀ op ∈ (pc004 (F := F)), op.fresh = ∅ := by
  intro _ h; (repeat (cases h with | head => rfl | tail _ h => ?_)); exact nomatch h

/-- Operations 199 … 207 of 4424. -/
noncomputable def pc005 : List (HloOp τ sig (Elt F)) :=
  [ nullary main_c_83 (constantI S_ 32 512#32),
    binary main_v71 main_c_83 main_v96 (addi : (⟨S_, .i32⟩ : BufTy).Contents (Elt F) → (⟨S_, .i32⟩ : BufTy).Contents (Elt F) → (⟨S_, .i32⟩ : BufTy).Contents (Elt F)),
    ternary main_v95 main_v96 main_v71 main_v97 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_84 (constantI S_ 32 0#32),
    binary main_v75 main_c_84 main_v98 (cmpi .slt : (⟨S_, .i32⟩ : BufTy).Contents (Elt F) → (⟨S_, .i32⟩ : BufTy).Contents (Elt F) → (⟨S_, .i1⟩ : BufTy).Contents (Elt F)),
    nullary main_c_85 (constantI S_ 32 512#32),
    binary main_v75 main_c_85 main_v99 (addi : (⟨S_, .i32⟩ : BufTy).Contents (Elt F) → (⟨S_, .i32⟩ : BufTy).Contents (Elt F) → (⟨S_, .i32⟩ : BufTy).Contents (Elt F)),
    ternary main_v98 main_v99 main_v75 main_v100 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v67 main_v88 ![main_v91, main_v94, main_v97, main_v100] ⟨S_, .i32⟩ main_v101 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc005_sub : (pc005 (F := F)).Forall fun op => op.bufs ⊆ tcRefs τ sig :=
  ⟨nullary_bufs_sub .., binary_bufs_sub .., ternary_bufs_sub .., nullary_bufs_sub .., binary_bufs_sub .., nullary_bufs_sub .., binary_bufs_sub .., ternary_bufs_sub .., binaryIndexed_bufs_sub ..⟩
theorem pc005_fresh : ∀ op ∈ (pc005 (F := F)), op.fresh = ∅ := by
  intro _ h; (repeat (cases h with | head => rfl | tail _ h => ?_)); exact nomatch h

/-- Operations 208 … 264 of 4424. -/
noncomputable def pc006 : List (HloOp τ sig (Elt F)) :=
  [ unary main_arg2 main_v102 ((extractStridedSlice S1x1x1 ![0, 3, 0] · slices_S16x4x2_S1x1x1_0_3_0) : (⟨S16x4x2, .i32⟩ : BufTy).Contents (Elt F) → (⟨S1x1x1, .i32⟩ : BufTy).Contents (Elt F)),
    reshape main_v102 main_v103 rfl shapeCasts_S1x1x1_S_,
    nullary main_c_86 (constantI S_ 32 128#32),
    binary main_v103 main_c_86 main_v104 (muli : (⟨S_, .i32⟩ : BufTy).Contents (Elt F) → (⟨S_, .i32⟩ : BufTy).Contents (Elt F) → (⟨S_, .i32⟩ : BufTy).Contents (Elt F)),
    nullary main_c_87 (constantI S_ 32 0#32),
    nullary main_c_88 (constantI S_ 32 128#32),
    TRef.unary (TRef.of (T := ⟨S_, .i32⟩) main_c_87) (TRef.of (T := ⟨S_, .i32⟩) main_call6_v0) id,
    TRef.binary (TRef.of (T := ⟨S_, .i32⟩) main_call6_v0) (TRef.of (T := ⟨S_, .i32⟩) main_v104) (TRef.of (T := ⟨S_, .i32⟩) main_call6_v1) maxsi,
    TRef.unary (TRef.of (T := ⟨S_, .i32⟩) main_c_88) (TRef.of (T := ⟨S_, .i32⟩) main_call6_v2) id,
    TRef.binary (TRef.of (T := ⟨S_, .i32⟩) main_call6_v2) (TRef.of (T := ⟨S_, .i32⟩) main_call6_v1) (TRef.of (T := ⟨S_, .i32⟩) main_v105) minsi,
    unary main_arg2 main_v106 ((extractStridedSlice S1x1x1 ![0, 3, 1] · slices_S16x4x2_S1x1x1_0_3_1) : (⟨S16x4x2, .i32⟩ : BufTy).Contents (Elt F) → (⟨S1x1x1, .i32⟩ : BufTy).Contents (Elt F)),
    reshape main_v106 main_v107 rfl shapeCasts_S1x1x1_S_,
    nullary main_c_89 (constantI S_ 32 128#32),
    binary main_v107 main_c_89 main_v108 (muli : (⟨S_, .i32⟩ : BufTy).Contents (Elt F) → (⟨S_, .i32⟩ : BufTy).Contents (Elt F) → (⟨S_, .i32⟩ : BufTy).Contents (Elt F)),
    nullary main_c_90 (constantI S_ 32 0#32),
    nullary main_c_91 (constantI S_ 32 128#32),
    TRef.unary (TRef.of (T := ⟨S_, .i32⟩) main_c_90) (TRef.of (T := ⟨S_, .i32⟩) main_call7_v0) id,
    TRef.binary (TRef.of (T := ⟨S_, .i32⟩) main_call7_v0) (TRef.of (T := ⟨S_, .i32⟩) main_v108) (TRef.of (T := ⟨S_, .i32⟩) main_call7_v1) maxsi,
    TRef.unary (TRef.of (T := ⟨S_, .i32⟩) main_c_91) (TRef.of (T := ⟨S_, .i32⟩) main_call7_v2) id,
    TRef.binary (TRef.of (T := ⟨S_, .i32⟩) main_call7_v2) (TRef.of (T := ⟨S_, .i32⟩) main_call7_v1) (TRef.of (T := ⟨S_, .i32⟩) main_v109) minsi,
    unary main_arg1 main_v110 ((extractStridedSlice S1x1x1x512x512 ![0, 3, 0, 0, 0] · slices_S16x4x1x512x512_S1x1x1x512x512_0_3_0_0_0) : (⟨S16x4x1x512x512, .f32⟩ : BufTy).Contents (Elt F) → (⟨S1x1x1x512x512, .f32⟩ : BufTy).Contents (Elt F)),
    reshape main_v110 main_v111 rfl shapeCasts_S1x1x1x512x512_S1x512x512,
    nullary main_c_92 (constantI S_ 32 0#32),
    nullary main_c_93 (constantI S_ 32 0#32),
    binary main_c_92 main_c_93 main_v112 (cmpi .slt : (⟨S_, .i32⟩ : BufTy).Contents (Elt F) → (⟨S_, .i32⟩ : BufTy).Contents (Elt F) → (⟨S_, .i1⟩ : BufTy).Contents (Elt F)),
    nullary main_c_94 (constantI S_ 32 0#32),
    nullary main_c_95 (constantI S_ 32 1#32),
    binary main_c_94 main_c_95 main_v113 (addi : (⟨S_, .i32⟩ : BufTy).Contents (Elt F) → (⟨S_, .i32⟩ : BufTy).Contents (Elt F) → (⟨S_, .i32⟩ : BufTy).Contents (Elt F)),
    nullary main_c_96 (constantI S_ 32 0#32),
    ternary main_v112 main_v113 main_c_96 main_v114 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_97 (constantI S_ 32 0#32),
    binary main_v105 main_c_97 main_v115 (cmpi .slt : (⟨S_, .i32⟩ : BufTy).Contents (Elt F) → (⟨S_, .i32⟩ : BufTy).Contents (Elt F) → (⟨S_, .i1⟩ : BufTy).Contents (Elt F)),
    nullary main_c_98 (constantI S_ 32 512#32),
    binary main_v105 main_c_98 main_v116 (addi : (⟨S_, .i32⟩ : BufTy).Contents (Elt F) → (⟨S_, .i32⟩ : BufTy).Contents (Elt F) → (⟨S_, .i32⟩ : BufTy).Contents (Elt F)),
    ternary main_v115 main_v116 main_v105 main_v117 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_99 (constantI S_ 32 0#32),
    binary main_v109 main_c_99 main_v118 (cmpi .slt : (⟨S_, .i32⟩ : BufTy).Contents (Elt F) → (⟨S_, .i32⟩ : BufTy).Contents (Elt F) → (⟨S_, .i1⟩ : BufTy).Contents (Elt F)),
    nullary main_c_100 (constantI S_ 32 512#32),
    binary main_v109 main_c_100 main_v119 (addi : (⟨S_, .i32⟩ : BufTy).Contents (Elt F) → (⟨S_, .i32⟩ : BufTy).Contents (Elt F) → (⟨S_, .i32⟩ : BufTy).Contents (Elt F)),
    ternary main_v118 main_v119 main_v109 main_v120 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v111 ![main_v114, main_v117, main_v120] ⟨S_, .i32⟩ main_v121 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v121 main_v122 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_101 (constantI S_ 32 0#32),
    nullary main_c_102 (constantI S_ 32 0#32),
    binary main_c_101 main_c_102 main_v123 (cmpi .slt : (⟨S_, .i32⟩ : BufTy).Contents (Elt F) → (⟨S_, .i32⟩ : BufTy).Contents (Elt F) → (⟨S_, .i1⟩ : BufTy).Contents (Elt F)),
    nullary main_c_103 (constantI S_ 32 0#32),
    nullary main_c_104 (constantI S_ 32 16#32),
    binary main_c_103 main_c_104 main_v124 (addi : (⟨S_, .i32⟩ : BufTy).Contents (Elt F) → (⟨S_, .i32⟩ : BufTy).Contents (Elt F) → (⟨S_, .i32⟩ : BufTy).Contents (Elt F)),
    nullary main_c_105 (constantI S_ 32 0#32),
    ternary main_v123 main_v124 main_c_105 main_v125 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_106 (constantI S_ 32 0#32),
    nullary main_c_107 (constantI S_ 32 0#32),
    binary main_c_106 main_c_107 main_v126 (cmpi .slt : (⟨S_, .i32⟩ : BufTy).Contents (Elt F) → (⟨S_, .i32⟩ : BufTy).Contents (Elt F) → (⟨S_, .i1⟩ : BufTy).Contents (Elt F)),
    nullary main_c_108 (constantI S_ 32 0#32),
    nullary main_c_109 (constantI S_ 32 1#32),
    binary main_c_108 main_c_109 main_v127 (addi : (⟨S_, .i32⟩ : BufTy).Contents (Elt F) → (⟨S_, .i32⟩ : BufTy).Contents (Elt F) → (⟨S_, .i32⟩ : BufTy).Contents (Elt F)),
    nullary main_c_110 (constantI S_ 32 0#32) ]
theorem pc006_sub : (pc006 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub ..⟩
theorem pc006_fresh : ∀ op ∈ (pc006 (F := F)), op.fresh = ∅ := by
  intro _ h; (repeat (cases h with | head => rfl | tail _ h => ?_)); exact nomatch h

/-- Operations 265 … 276 of 4424. -/
noncomputable def pc007 : List (HloOp τ sig (Elt F)) :=
  [ ternary main_v126 main_v127 main_c_110 main_v128 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_111 (constantI S_ 32 0#32),
    binary main_v105 main_c_111 main_v129 (cmpi .slt : (⟨S_, .i32⟩ : BufTy).Contents (Elt F) → (⟨S_, .i32⟩ : BufTy).Contents (Elt F) → (⟨S_, .i1⟩ : BufTy).Contents (Elt F)),
    nullary main_c_112 (constantI S_ 32 512#32),
    binary main_v105 main_c_112 main_v130 (addi : (⟨S_, .i32⟩ : BufTy).Contents (Elt F) → (⟨S_, .i32⟩ : BufTy).Contents (Elt F) → (⟨S_, .i32⟩ : BufTy).Contents (Elt F)),
    ternary main_v129 main_v130 main_v105 main_v131 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_113 (constantI S_ 32 0#32),
    binary main_v109 main_c_113 main_v132 (cmpi .slt : (⟨S_, .i32⟩ : BufTy).Contents (Elt F) → (⟨S_, .i32⟩ : BufTy).Contents (Elt F) → (⟨S_, .i1⟩ : BufTy).Contents (Elt F)),
    nullary main_c_114 (constantI S_ 32 512#32),
    binary main_v109 main_c_114 main_v133 (addi : (⟨S_, .i32⟩ : BufTy).Contents (Elt F) → (⟨S_, .i32⟩ : BufTy).Contents (Elt F) → (⟨S_, .i32⟩ : BufTy).Contents (Elt F)),
    ternary main_v132 main_v133 main_v109 main_v134 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v101 main_v122 ![main_v125, main_v128, main_v131, main_v134] ⟨S_, .i32⟩ main_v135 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc007_sub : (pc007 (F := F)).Forall fun op => op.bufs ⊆ tcRefs τ sig :=
  ⟨ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc007_fresh : ∀ op ∈ (pc007 (F := F)), op.fresh = ∅ := by
  intro _ h; (repeat (cases h with | head => rfl | tail _ h => ?_)); exact nomatch h

/-- Operations 277 … 330 of 4424. -/
noncomputable def pc008 : List (HloOp τ sig (Elt F)) :=
  [ unary main_arg2 main_v136 ((extractStridedSlice S1x1x1 ![1, 0, 0] · slices_S16x4x2_S1x1x1_1_0_0) : (⟨S16x4x2, .i32⟩ : BufTy).Contents (Elt F) → (⟨S1x1x1, .i32⟩ : BufTy).Contents (Elt F)),
    reshape main_v136 main_v137 rfl shapeCasts_S1x1x1_S_,
    nullary main_c_115 (constantI S_ 32 128#32),
    binary main_v137 main_c_115 main_v138 (muli : (⟨S_, .i32⟩ : BufTy).Contents (Elt F) → (⟨S_, .i32⟩ : BufTy).Contents (Elt F) → (⟨S_, .i32⟩ : BufTy).Contents (Elt F)),
    nullary main_c_116 (constantI S_ 32 0#32),
    nullary main_c_117 (constantI S_ 32 128#32),
    TRef.unary (TRef.of (T := ⟨S_, .i32⟩) main_c_116) (TRef.of (T := ⟨S_, .i32⟩) main_call8_v0) id,
    TRef.binary (TRef.of (T := ⟨S_, .i32⟩) main_call8_v0) (TRef.of (T := ⟨S_, .i32⟩) main_v138) (TRef.of (T := ⟨S_, .i32⟩) main_call8_v1) maxsi,
    TRef.unary (TRef.of (T := ⟨S_, .i32⟩) main_c_117) (TRef.of (T := ⟨S_, .i32⟩) main_call8_v2) id,
    TRef.binary (TRef.of (T := ⟨S_, .i32⟩) main_call8_v2) (TRef.of (T := ⟨S_, .i32⟩) main_call8_v1) (TRef.of (T := ⟨S_, .i32⟩) main_v139) minsi,
    unary main_arg2 main_v140 ((extractStridedSlice S1x1x1 ![1, 0, 1] · slices_S16x4x2_S1x1x1_1_0_1) : (⟨S16x4x2, .i32⟩ : BufTy).Contents (Elt F) → (⟨S1x1x1, .i32⟩ : BufTy).Contents (Elt F)),
    reshape main_v140 main_v141 rfl shapeCasts_S1x1x1_S_,
    nullary main_c_118 (constantI S_ 32 128#32),
    binary main_v141 main_c_118 main_v142 (muli : (⟨S_, .i32⟩ : BufTy).Contents (Elt F) → (⟨S_, .i32⟩ : BufTy).Contents (Elt F) → (⟨S_, .i32⟩ : BufTy).Contents (Elt F)),
    nullary main_c_119 (constantI S_ 32 0#32),
    nullary main_c_120 (constantI S_ 32 128#32),
    TRef.unary (TRef.of (T := ⟨S_, .i32⟩) main_c_119) (TRef.of (T := ⟨S_, .i32⟩) main_call9_v0) id,
    TRef.binary (TRef.of (T := ⟨S_, .i32⟩) main_call9_v0) (TRef.of (T := ⟨S_, .i32⟩) main_v142) (TRef.of (T := ⟨S_, .i32⟩) main_call9_v1) maxsi,
    TRef.unary (TRef.of (T := ⟨S_, .i32⟩) main_c_120) (TRef.of (T := ⟨S_, .i32⟩) main_call9_v2) id,
    TRef.binary (TRef.of (T := ⟨S_, .i32⟩) main_call9_v2) (TRef.of (T := ⟨S_, .i32⟩) main_call9_v1) (TRef.of (T := ⟨S_, .i32⟩) main_v143) minsi,
    unary main_arg1 main_v144 ((extractStridedSlice S1x1x1x512x512 ![1, 0, 0, 0, 0] · slices_S16x4x1x512x512_S1x1x1x512x512_1_0_0_0_0) : (⟨S16x4x1x512x512, .f32⟩ : BufTy).Contents (Elt F) → (⟨S1x1x1x512x512, .f32⟩ : BufTy).Contents (Elt F)),
    reshape main_v144 main_v145 rfl shapeCasts_S1x1x1x512x512_S1x512x512,
    nullary main_c_121 (constantI S_ 32 0#32),
    nullary main_c_122 (constantI S_ 32 0#32),
    binary main_c_121 main_c_122 main_v146 (cmpi .slt : (⟨S_, .i32⟩ : BufTy).Contents (Elt F) → (⟨S_, .i32⟩ : BufTy).Contents (Elt F) → (⟨S_, .i1⟩ : BufTy).Contents (Elt F)),
    nullary main_c_123 (constantI S_ 32 0#32),
    nullary main_c_124 (constantI S_ 32 1#32),
    binary main_c_123 main_c_124 main_v147 (addi : (⟨S_, .i32⟩ : BufTy).Contents (Elt F) → (⟨S_, .i32⟩ : BufTy).Contents (Elt F) → (⟨S_, .i32⟩ : BufTy).Contents (Elt F)),
    nullary main_c_125 (constantI S_ 32 0#32),
    ternary main_v146 main_v147 main_c_125 main_v148 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_126 (constantI S_ 32 0#32),
    binary main_v139 main_c_126 main_v149 (cmpi .slt : (⟨S_, .i32⟩ : BufTy).Contents (Elt F) → (⟨S_, .i32⟩ : BufTy).Contents (Elt F) → (⟨S_, .i1⟩ : BufTy).Contents (Elt F)),
    nullary main_c_127 (constantI S_ 32 512#32),
    binary main_v139 main_c_127 main_v150 (addi : (⟨S_, .i32⟩ : BufTy).Contents (Elt F) → (⟨S_, .i32⟩ : BufTy).Contents (Elt F) → (⟨S_, .i32⟩ : BufTy).Contents (Elt F)),
    ternary main_v149 main_v150 main_v139 main_v151 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_128 (constantI S_ 32 0#32),
    binary main_v143 main_c_128 main_v152 (cmpi .slt : (⟨S_, .i32⟩ : BufTy).Contents (Elt F) → (⟨S_, .i32⟩ : BufTy).Contents (Elt F) → (⟨S_, .i1⟩ : BufTy).Contents (Elt F)),
    nullary main_c_129 (constantI S_ 32 512#32),
    binary main_v143 main_c_129 main_v153 (addi : (⟨S_, .i32⟩ : BufTy).Contents (Elt F) → (⟨S_, .i32⟩ : BufTy).Contents (Elt F) → (⟨S_, .i32⟩ : BufTy).Contents (Elt F)),
    ternary main_v152 main_v153 main_v143 main_v154 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v145 ![main_v148, main_v151, main_v154] ⟨S_, .i32⟩ main_v155 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v155 main_v156 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_130 (constantI S_ 32 1#32),
    nullary main_c_131 (constantI S_ 32 0#32),
    binary main_c_130 main_c_131 main_v157 (cmpi .slt : (⟨S_, .i32⟩ : BufTy).Contents (Elt F) → (⟨S_, .i32⟩ : BufTy).Contents (Elt F) → (⟨S_, .i1⟩ : BufTy).Contents (Elt F)),
    nullary main_c_132 (constantI S_ 32 1#32),
    nullary main_c_133 (constantI S_ 32 16#32),
    binary main_c_132 main_c_133 main_v158 (addi : (⟨S_, .i32⟩ : BufTy).Contents (Elt F) → (⟨S_, .i32⟩ : BufTy).Contents (Elt F) → (⟨S_, .i32⟩ : BufTy).Contents (Elt F)),
    nullary main_c_134 (constantI S_ 32 1#32),
    ternary main_v157 main_v158 main_c_134 main_v159 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_135 (constantI S_ 32 0#32),
    nullary main_c_136 (constantI S_ 32 0#32),
    binary main_c_135 main_c_136 main_v160 (cmpi .slt : (⟨S_, .i32⟩ : BufTy).Contents (Elt F) → (⟨S_, .i32⟩ : BufTy).Contents (Elt F) → (⟨S_, .i1⟩ : BufTy).Contents (Elt F)),
    nullary main_c_137 (constantI S_ 32 0#32) ]
theorem pc008_sub : (pc008 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub ..⟩
theorem pc008_fresh : ∀ op ∈ (pc008 (F := F)), op.fresh = ∅ := by
  intro _ h; (repeat (cases h with | head => rfl | tail _ h => ?_)); exact nomatch h

/-- Operations 331 … 345 of 4424. -/
noncomputable def pc009 : List (HloOp τ sig (Elt F)) :=
  [ nullary main_c_138 (constantI S_ 32 1#32),
    binary main_c_137 main_c_138 main_v161 (addi : (⟨S_, .i32⟩ : BufTy).Contents (Elt F) → (⟨S_, .i32⟩ : BufTy).Contents (Elt F) → (⟨S_, .i32⟩ : BufTy).Contents (Elt F)),
    nullary main_c_139 (constantI S_ 32 0#32),
    ternary main_v160 main_v161 main_c_139 main_v162 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_140 (constantI S_ 32 0#32),
    binary main_v139 main_c_140 main_v163 (cmpi .slt : (⟨S_, .i32⟩ : BufTy).Contents (Elt F) → (⟨S_, .i32⟩ : BufTy).Contents (Elt F) → (⟨S_, .i1⟩ : BufTy).Contents (Elt F)),
    nullary main_c_141 (constantI S_ 32 512#32),
    binary main_v139 main_c_141 main_v164 (addi : (⟨S_, .i32⟩ : BufTy).Contents (Elt F) → (⟨S_, .i32⟩ : BufTy).Contents (Elt F) → (⟨S_, .i32⟩ : BufTy).Contents (Elt F)),
    ternary main_v163 main_v164 main_v139 main_v165 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_142 (constantI S_ 32 0#32),
    binary main_v143 main_c_142 main_v166 (cmpi .slt : (⟨S_, .i32⟩ : BufTy).Contents (Elt F) → (⟨S_, .i32⟩ : BufTy).Contents (Elt F) → (⟨S_, .i1⟩ : BufTy).Contents (Elt F)),
    nullary main_c_143 (constantI S_ 32 512#32),
    binary main_v143 main_c_143 main_v167 (addi : (⟨S_, .i32⟩ : BufTy).Contents (Elt F) → (⟨S_, .i32⟩ : BufTy).Contents (Elt F) → (⟨S_, .i32⟩ : BufTy).Contents (Elt F)),
    ternary main_v166 main_v167 main_v143 main_v168 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v135 main_v156 ![main_v159, main_v162, main_v165, main_v168] ⟨S_, .i32⟩ main_v169 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc009_sub : (pc009 (F := F)).Forall fun op => op.bufs ⊆ tcRefs τ sig :=
  ⟨nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc009_fresh : ∀ op ∈ (pc009 (F := F)), op.fresh = ∅ := by
  intro _ h; (repeat (cases h with | head => rfl | tail _ h => ?_)); exact nomatch h

/-- Operations 346 … 396 of 4424. -/
noncomputable def pc010 : List (HloOp τ sig (Elt F)) :=
  [ unary main_arg2 main_v170 ((extractStridedSlice S1x1x1 ![1, 1, 0] · slices_S16x4x2_S1x1x1_1_1_0) : (⟨S16x4x2, .i32⟩ : BufTy).Contents (Elt F) → (⟨S1x1x1, .i32⟩ : BufTy).Contents (Elt F)),
    reshape main_v170 main_v171 rfl shapeCasts_S1x1x1_S_,
    nullary main_c_144 (constantI S_ 32 128#32),
    binary main_v171 main_c_144 main_v172 (muli : (⟨S_, .i32⟩ : BufTy).Contents (Elt F) → (⟨S_, .i32⟩ : BufTy).Contents (Elt F) → (⟨S_, .i32⟩ : BufTy).Contents (Elt F)),
    nullary main_c_145 (constantI S_ 32 0#32),
    nullary main_c_146 (constantI S_ 32 128#32),
    TRef.unary (TRef.of (T := ⟨S_, .i32⟩) main_c_145) (TRef.of (T := ⟨S_, .i32⟩) main_call10_v0) id,
    TRef.binary (TRef.of (T := ⟨S_, .i32⟩) main_call10_v0) (TRef.of (T := ⟨S_, .i32⟩) main_v172) (TRef.of (T := ⟨S_, .i32⟩) main_call10_v1) maxsi,
    TRef.unary (TRef.of (T := ⟨S_, .i32⟩) main_c_146) (TRef.of (T := ⟨S_, .i32⟩) main_call10_v2) id,
    TRef.binary (TRef.of (T := ⟨S_, .i32⟩) main_call10_v2) (TRef.of (T := ⟨S_, .i32⟩) main_call10_v1) (TRef.of (T := ⟨S_, .i32⟩) main_v173) minsi,
    unary main_arg2 main_v174 ((extractStridedSlice S1x1x1 ![1, 1, 1] · slices_S16x4x2_S1x1x1_1_1_1) : (⟨S16x4x2, .i32⟩ : BufTy).Contents (Elt F) → (⟨S1x1x1, .i32⟩ : BufTy).Contents (Elt F)),
    reshape main_v174 main_v175 rfl shapeCasts_S1x1x1_S_,
    nullary main_c_147 (constantI S_ 32 128#32),
    binary main_v175 main_c_147 main_v176 (muli : (⟨S_, .i32⟩ : BufTy).Contents (Elt F) → (⟨S_, .i32⟩ : BufTy).Contents (Elt F) → (⟨S_, .i32⟩ : BufTy).Contents (Elt F)),
    nullary main_c_148 (constantI S_ 32 0#32),
    nullary main_c_149 (constantI S_ 32 128#32),
    TRef.unary (TRef.of (T := ⟨S_, .i32⟩) main_c_148) (TRef.of (T := ⟨S_, .i32⟩) main_call11_v0) id,
    TRef.binary (TRef.of (T := ⟨S_, .i32⟩) main_call11_v0) (TRef.of (T := ⟨S_, .i32⟩) main_v176) (TRef.of (T := ⟨S_, .i32⟩) main_call11_v1) maxsi,
    TRef.unary (TRef.of (T := ⟨S_, .i32⟩) main_c_149) (TRef.of (T := ⟨S_, .i32⟩) main_call11_v2) id,
    TRef.binary (TRef.of (T := ⟨S_, .i32⟩) main_call11_v2) (TRef.of (T := ⟨S_, .i32⟩) main_call11_v1) (TRef.of (T := ⟨S_, .i32⟩) main_v177) minsi,
    unary main_arg1 main_v178 ((extractStridedSlice S1x1x1x512x512 ![1, 1, 0, 0, 0] · slices_S16x4x1x512x512_S1x1x1x512x512_1_1_0_0_0) : (⟨S16x4x1x512x512, .f32⟩ : BufTy).Contents (Elt F) → (⟨S1x1x1x512x512, .f32⟩ : BufTy).Contents (Elt F)),
    reshape main_v178 main_v179 rfl shapeCasts_S1x1x1x512x512_S1x512x512,
    nullary main_c_150 (constantI S_ 32 0#32),
    nullary main_c_151 (constantI S_ 32 0#32),
    binary main_c_150 main_c_151 main_v180 (cmpi .slt : (⟨S_, .i32⟩ : BufTy).Contents (Elt F) → (⟨S_, .i32⟩ : BufTy).Contents (Elt F) → (⟨S_, .i1⟩ : BufTy).Contents (Elt F)),
    nullary main_c_152 (constantI S_ 32 0#32),
    nullary main_c_153 (constantI S_ 32 1#32),
    binary main_c_152 main_c_153 main_v181 (addi : (⟨S_, .i32⟩ : BufTy).Contents (Elt F) → (⟨S_, .i32⟩ : BufTy).Contents (Elt F) → (⟨S_, .i32⟩ : BufTy).Contents (Elt F)),
    nullary main_c_154 (constantI S_ 32 0#32),
    ternary main_v180 main_v181 main_c_154 main_v182 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_155 (constantI S_ 32 0#32),
    binary main_v173 main_c_155 main_v183 (cmpi .slt : (⟨S_, .i32⟩ : BufTy).Contents (Elt F) → (⟨S_, .i32⟩ : BufTy).Contents (Elt F) → (⟨S_, .i1⟩ : BufTy).Contents (Elt F)),
    nullary main_c_156 (constantI S_ 32 512#32),
    binary main_v173 main_c_156 main_v184 (addi : (⟨S_, .i32⟩ : BufTy).Contents (Elt F) → (⟨S_, .i32⟩ : BufTy).Contents (Elt F) → (⟨S_, .i32⟩ : BufTy).Contents (Elt F)),
    ternary main_v183 main_v184 main_v173 main_v185 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_157 (constantI S_ 32 0#32),
    binary main_v177 main_c_157 main_v186 (cmpi .slt : (⟨S_, .i32⟩ : BufTy).Contents (Elt F) → (⟨S_, .i32⟩ : BufTy).Contents (Elt F) → (⟨S_, .i1⟩ : BufTy).Contents (Elt F)),
    nullary main_c_158 (constantI S_ 32 512#32),
    binary main_v177 main_c_158 main_v187 (addi : (⟨S_, .i32⟩ : BufTy).Contents (Elt F) → (⟨S_, .i32⟩ : BufTy).Contents (Elt F) → (⟨S_, .i32⟩ : BufTy).Contents (Elt F)),
    ternary main_v186 main_v187 main_v177 main_v188 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v179 ![main_v182, main_v185, main_v188] ⟨S_, .i32⟩ main_v189 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v189 main_v190 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_159 (constantI S_ 32 1#32),
    nullary main_c_160 (constantI S_ 32 0#32),
    binary main_c_159 main_c_160 main_v191 (cmpi .slt : (⟨S_, .i32⟩ : BufTy).Contents (Elt F) → (⟨S_, .i32⟩ : BufTy).Contents (Elt F) → (⟨S_, .i1⟩ : BufTy).Contents (Elt F)),
    nullary main_c_161 (constantI S_ 32 1#32),
    nullary main_c_162 (constantI S_ 32 16#32),
    binary main_c_161 main_c_162 main_v192 (addi : (⟨S_, .i32⟩ : BufTy).Contents (Elt F) → (⟨S_, .i32⟩ : BufTy).Contents (Elt F) → (⟨S_, .i32⟩ : BufTy).Contents (Elt F)),
    nullary main_c_163 (constantI S_ 32 1#32),
    ternary main_v191 main_v192 main_c_163 main_v193 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_164 (constantI S_ 32 0#32) ]
theorem pc010_sub : (pc010 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub ..⟩
theorem pc010_fresh : ∀ op ∈ (pc010 (F := F)), op.fresh = ∅ := by
  intro _ h; (repeat (cases h with | head => rfl | tail _ h => ?_)); exact nomatch h

/-- Operations 397 … 414 of 4424. -/
noncomputable def pc011 : List (HloOp τ sig (Elt F)) :=
  [ nullary main_c_165 (constantI S_ 32 0#32),
    binary main_c_164 main_c_165 main_v194 (cmpi .slt : (⟨S_, .i32⟩ : BufTy).Contents (Elt F) → (⟨S_, .i32⟩ : BufTy).Contents (Elt F) → (⟨S_, .i1⟩ : BufTy).Contents (Elt F)),
    nullary main_c_166 (constantI S_ 32 0#32),
    nullary main_c_167 (constantI S_ 32 1#32),
    binary main_c_166 main_c_167 main_v195 (addi : (⟨S_, .i32⟩ : BufTy).Contents (Elt F) → (⟨S_, .i32⟩ : BufTy).Contents (Elt F) → (⟨S_, .i32⟩ : BufTy).Contents (Elt F)),
    nullary main_c_168 (constantI S_ 32 0#32),
    ternary main_v194 main_v195 main_c_168 main_v196 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_169 (constantI S_ 32 0#32),
    binary main_v173 main_c_169 main_v197 (cmpi .slt : (⟨S_, .i32⟩ : BufTy).Contents (Elt F) → (⟨S_, .i32⟩ : BufTy).Contents (Elt F) → (⟨S_, .i1⟩ : BufTy).Contents (Elt F)),
    nullary main_c_170 (constantI S_ 32 512#32),
    binary main_v173 main_c_170 main_v198 (addi : (⟨S_, .i32⟩ : BufTy).Contents (Elt F) → (⟨S_, .i32⟩ : BufTy).Contents (Elt F) → (⟨S_, .i32⟩ : BufTy).Contents (Elt F)),
    ternary main_v197 main_v198 main_v173 main_v199 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_171 (constantI S_ 32 0#32),
    binary main_v177 main_c_171 main_v200 (cmpi .slt : (⟨S_, .i32⟩ : BufTy).Contents (Elt F) → (⟨S_, .i32⟩ : BufTy).Contents (Elt F) → (⟨S_, .i1⟩ : BufTy).Contents (Elt F)),
    nullary main_c_172 (constantI S_ 32 512#32),
    binary main_v177 main_c_172 main_v201 (addi : (⟨S_, .i32⟩ : BufTy).Contents (Elt F) → (⟨S_, .i32⟩ : BufTy).Contents (Elt F) → (⟨S_, .i32⟩ : BufTy).Contents (Elt F)),
    ternary main_v200 main_v201 main_v177 main_v202 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v169 main_v190 ![main_v193, main_v196, main_v199, main_v202] ⟨S_, .i32⟩ main_v203 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc011_sub : (pc011 (F := F)).Forall fun op => op.bufs ⊆ tcRefs τ sig :=
  ⟨nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc011_fresh : ∀ op ∈ (pc011 (F := F)), op.fresh = ∅ := by
  intro _ h; (repeat (cases h with | head => rfl | tail _ h => ?_)); exact nomatch h

/-- Operations 415 … 462 of 4424. -/
noncomputable def pc012 : List (HloOp τ sig (Elt F)) :=
  [ unary main_arg2 main_v204 ((extractStridedSlice S1x1x1 ![1, 2, 0] · slices_S16x4x2_S1x1x1_1_2_0) : (⟨S16x4x2, .i32⟩ : BufTy).Contents (Elt F) → (⟨S1x1x1, .i32⟩ : BufTy).Contents (Elt F)),
    reshape main_v204 main_v205 rfl shapeCasts_S1x1x1_S_,
    nullary main_c_173 (constantI S_ 32 128#32),
    binary main_v205 main_c_173 main_v206 (muli : (⟨S_, .i32⟩ : BufTy).Contents (Elt F) → (⟨S_, .i32⟩ : BufTy).Contents (Elt F) → (⟨S_, .i32⟩ : BufTy).Contents (Elt F)),
    nullary main_c_174 (constantI S_ 32 0#32),
    nullary main_c_175 (constantI S_ 32 128#32),
    TRef.unary (TRef.of (T := ⟨S_, .i32⟩) main_c_174) (TRef.of (T := ⟨S_, .i32⟩) main_call12_v0) id,
    TRef.binary (TRef.of (T := ⟨S_, .i32⟩) main_call12_v0) (TRef.of (T := ⟨S_, .i32⟩) main_v206) (TRef.of (T := ⟨S_, .i32⟩) main_call12_v1) maxsi,
    TRef.unary (TRef.of (T := ⟨S_, .i32⟩) main_c_175) (TRef.of (T := ⟨S_, .i32⟩) main_call12_v2) id,
    TRef.binary (TRef.of (T := ⟨S_, .i32⟩) main_call12_v2) (TRef.of (T := ⟨S_, .i32⟩) main_call12_v1) (TRef.of (T := ⟨S_, .i32⟩) main_v207) minsi,
    unary main_arg2 main_v208 ((extractStridedSlice S1x1x1 ![1, 2, 1] · slices_S16x4x2_S1x1x1_1_2_1) : (⟨S16x4x2, .i32⟩ : BufTy).Contents (Elt F) → (⟨S1x1x1, .i32⟩ : BufTy).Contents (Elt F)),
    reshape main_v208 main_v209 rfl shapeCasts_S1x1x1_S_,
    nullary main_c_176 (constantI S_ 32 128#32),
    binary main_v209 main_c_176 main_v210 (muli : (⟨S_, .i32⟩ : BufTy).Contents (Elt F) → (⟨S_, .i32⟩ : BufTy).Contents (Elt F) → (⟨S_, .i32⟩ : BufTy).Contents (Elt F)),
    nullary main_c_177 (constantI S_ 32 0#32),
    nullary main_c_178 (constantI S_ 32 128#32),
    TRef.unary (TRef.of (T := ⟨S_, .i32⟩) main_c_177) (TRef.of (T := ⟨S_, .i32⟩) main_call13_v0) id,
    TRef.binary (TRef.of (T := ⟨S_, .i32⟩) main_call13_v0) (TRef.of (T := ⟨S_, .i32⟩) main_v210) (TRef.of (T := ⟨S_, .i32⟩) main_call13_v1) maxsi,
    TRef.unary (TRef.of (T := ⟨S_, .i32⟩) main_c_178) (TRef.of (T := ⟨S_, .i32⟩) main_call13_v2) id,
    TRef.binary (TRef.of (T := ⟨S_, .i32⟩) main_call13_v2) (TRef.of (T := ⟨S_, .i32⟩) main_call13_v1) (TRef.of (T := ⟨S_, .i32⟩) main_v211) minsi,
    unary main_arg1 main_v212 ((extractStridedSlice S1x1x1x512x512 ![1, 2, 0, 0, 0] · slices_S16x4x1x512x512_S1x1x1x512x512_1_2_0_0_0) : (⟨S16x4x1x512x512, .f32⟩ : BufTy).Contents (Elt F) → (⟨S1x1x1x512x512, .f32⟩ : BufTy).Contents (Elt F)),
    reshape main_v212 main_v213 rfl shapeCasts_S1x1x1x512x512_S1x512x512,
    nullary main_c_179 (constantI S_ 32 0#32),
    nullary main_c_180 (constantI S_ 32 0#32),
    binary main_c_179 main_c_180 main_v214 (cmpi .slt : (⟨S_, .i32⟩ : BufTy).Contents (Elt F) → (⟨S_, .i32⟩ : BufTy).Contents (Elt F) → (⟨S_, .i1⟩ : BufTy).Contents (Elt F)),
    nullary main_c_181 (constantI S_ 32 0#32),
    nullary main_c_182 (constantI S_ 32 1#32),
    binary main_c_181 main_c_182 main_v215 (addi : (⟨S_, .i32⟩ : BufTy).Contents (Elt F) → (⟨S_, .i32⟩ : BufTy).Contents (Elt F) → (⟨S_, .i32⟩ : BufTy).Contents (Elt F)),
    nullary main_c_183 (constantI S_ 32 0#32),
    ternary main_v214 main_v215 main_c_183 main_v216 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_184 (constantI S_ 32 0#32),
    binary main_v207 main_c_184 main_v217 (cmpi .slt : (⟨S_, .i32⟩ : BufTy).Contents (Elt F) → (⟨S_, .i32⟩ : BufTy).Contents (Elt F) → (⟨S_, .i1⟩ : BufTy).Contents (Elt F)),
    nullary main_c_185 (constantI S_ 32 512#32),
    binary main_v207 main_c_185 main_v218 (addi : (⟨S_, .i32⟩ : BufTy).Contents (Elt F) → (⟨S_, .i32⟩ : BufTy).Contents (Elt F) → (⟨S_, .i32⟩ : BufTy).Contents (Elt F)),
    ternary main_v217 main_v218 main_v207 main_v219 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_186 (constantI S_ 32 0#32),
    binary main_v211 main_c_186 main_v220 (cmpi .slt : (⟨S_, .i32⟩ : BufTy).Contents (Elt F) → (⟨S_, .i32⟩ : BufTy).Contents (Elt F) → (⟨S_, .i1⟩ : BufTy).Contents (Elt F)),
    nullary main_c_187 (constantI S_ 32 512#32),
    binary main_v211 main_c_187 main_v221 (addi : (⟨S_, .i32⟩ : BufTy).Contents (Elt F) → (⟨S_, .i32⟩ : BufTy).Contents (Elt F) → (⟨S_, .i32⟩ : BufTy).Contents (Elt F)),
    ternary main_v220 main_v221 main_v211 main_v222 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v213 ![main_v216, main_v219, main_v222] ⟨S_, .i32⟩ main_v223 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v223 main_v224 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_188 (constantI S_ 32 1#32),
    nullary main_c_189 (constantI S_ 32 0#32),
    binary main_c_188 main_c_189 main_v225 (cmpi .slt : (⟨S_, .i32⟩ : BufTy).Contents (Elt F) → (⟨S_, .i32⟩ : BufTy).Contents (Elt F) → (⟨S_, .i1⟩ : BufTy).Contents (Elt F)),
    nullary main_c_190 (constantI S_ 32 1#32),
    nullary main_c_191 (constantI S_ 32 16#32),
    binary main_c_190 main_c_191 main_v226 (addi : (⟨S_, .i32⟩ : BufTy).Contents (Elt F) → (⟨S_, .i32⟩ : BufTy).Contents (Elt F) → (⟨S_, .i32⟩ : BufTy).Contents (Elt F)) ]
theorem pc012_sub : (pc012 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub ..⟩
theorem pc012_fresh : ∀ op ∈ (pc012 (F := F)), op.fresh = ∅ := by
  intro _ h; (repeat (cases h with | head => rfl | tail _ h => ?_)); exact nomatch h

/-- Operations 463 … 483 of 4424. -/
noncomputable def pc013 : List (HloOp τ sig (Elt F)) :=
  [ nullary main_c_192 (constantI S_ 32 1#32),
    ternary main_v225 main_v226 main_c_192 main_v227 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_193 (constantI S_ 32 0#32),
    nullary main_c_194 (constantI S_ 32 0#32),
    binary main_c_193 main_c_194 main_v228 (cmpi .slt : (⟨S_, .i32⟩ : BufTy).Contents (Elt F) → (⟨S_, .i32⟩ : BufTy).Contents (Elt F) → (⟨S_, .i1⟩ : BufTy).Contents (Elt F)),
    nullary main_c_195 (constantI S_ 32 0#32),
    nullary main_c_196 (constantI S_ 32 1#32),
    binary main_c_195 main_c_196 main_v229 (addi : (⟨S_, .i32⟩ : BufTy).Contents (Elt F) → (⟨S_, .i32⟩ : BufTy).Contents (Elt F) → (⟨S_, .i32⟩ : BufTy).Contents (Elt F)),
    nullary main_c_197 (constantI S_ 32 0#32),
    ternary main_v228 main_v229 main_c_197 main_v230 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_198 (constantI S_ 32 0#32),
    binary main_v207 main_c_198 main_v231 (cmpi .slt : (⟨S_, .i32⟩ : BufTy).Contents (Elt F) → (⟨S_, .i32⟩ : BufTy).Contents (Elt F) → (⟨S_, .i1⟩ : BufTy).Contents (Elt F)),
    nullary main_c_199 (constantI S_ 32 512#32),
    binary main_v207 main_c_199 main_v232 (addi : (⟨S_, .i32⟩ : BufTy).Contents (Elt F) → (⟨S_, .i32⟩ : BufTy).Contents (Elt F) → (⟨S_, .i32⟩ : BufTy).Contents (Elt F)),
    ternary main_v231 main_v232 main_v207 main_v233 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_200 (constantI S_ 32 0#32),
    binary main_v211 main_c_200 main_v234 (cmpi .slt : (⟨S_, .i32⟩ : BufTy).Contents (Elt F) → (⟨S_, .i32⟩ : BufTy).Contents (Elt F) → (⟨S_, .i1⟩ : BufTy).Contents (Elt F)),
    nullary main_c_201 (constantI S_ 32 512#32),
    binary main_v211 main_c_201 main_v235 (addi : (⟨S_, .i32⟩ : BufTy).Contents (Elt F) → (⟨S_, .i32⟩ : BufTy).Contents (Elt F) → (⟨S_, .i32⟩ : BufTy).Contents (Elt F)),
    ternary main_v234 main_v235 main_v211 main_v236 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v203 main_v224 ![main_v227, main_v230, main_v233, main_v236] ⟨S_, .i32⟩ main_v237 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc013_sub : (pc013 (F := F)).Forall fun op => op.bufs ⊆ tcRefs τ sig :=
  ⟨nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc013_fresh : ∀ op ∈ (pc013 (F := F)), op.fresh = ∅ := by
  intro _ h; (repeat (cases h with | head => rfl | tail _ h => ?_)); exact nomatch h

/-- Operations 484 … 528 of 4424. -/
noncomputable def pc014 : List (HloOp τ sig (Elt F)) :=
  [ unary main_arg2 main_v238 ((extractStridedSlice S1x1x1 ![1, 3, 0] · slices_S16x4x2_S1x1x1_1_3_0) : (⟨S16x4x2, .i32⟩ : BufTy).Contents (Elt F) → (⟨S1x1x1, .i32⟩ : BufTy).Contents (Elt F)),
    reshape main_v238 main_v239 rfl shapeCasts_S1x1x1_S_,
    nullary main_c_202 (constantI S_ 32 128#32),
    binary main_v239 main_c_202 main_v240 (muli : (⟨S_, .i32⟩ : BufTy).Contents (Elt F) → (⟨S_, .i32⟩ : BufTy).Contents (Elt F) → (⟨S_, .i32⟩ : BufTy).Contents (Elt F)),
    nullary main_c_203 (constantI S_ 32 0#32),
    nullary main_c_204 (constantI S_ 32 128#32),
    TRef.unary (TRef.of (T := ⟨S_, .i32⟩) main_c_203) (TRef.of (T := ⟨S_, .i32⟩) main_call14_v0) id,
    TRef.binary (TRef.of (T := ⟨S_, .i32⟩) main_call14_v0) (TRef.of (T := ⟨S_, .i32⟩) main_v240) (TRef.of (T := ⟨S_, .i32⟩) main_call14_v1) maxsi,
    TRef.unary (TRef.of (T := ⟨S_, .i32⟩) main_c_204) (TRef.of (T := ⟨S_, .i32⟩) main_call14_v2) id,
    TRef.binary (TRef.of (T := ⟨S_, .i32⟩) main_call14_v2) (TRef.of (T := ⟨S_, .i32⟩) main_call14_v1) (TRef.of (T := ⟨S_, .i32⟩) main_v241) minsi,
    unary main_arg2 main_v242 ((extractStridedSlice S1x1x1 ![1, 3, 1] · slices_S16x4x2_S1x1x1_1_3_1) : (⟨S16x4x2, .i32⟩ : BufTy).Contents (Elt F) → (⟨S1x1x1, .i32⟩ : BufTy).Contents (Elt F)),
    reshape main_v242 main_v243 rfl shapeCasts_S1x1x1_S_,
    nullary main_c_205 (constantI S_ 32 128#32),
    binary main_v243 main_c_205 main_v244 (muli : (⟨S_, .i32⟩ : BufTy).Contents (Elt F) → (⟨S_, .i32⟩ : BufTy).Contents (Elt F) → (⟨S_, .i32⟩ : BufTy).Contents (Elt F)),
    nullary main_c_206 (constantI S_ 32 0#32),
    nullary main_c_207 (constantI S_ 32 128#32),
    TRef.unary (TRef.of (T := ⟨S_, .i32⟩) main_c_206) (TRef.of (T := ⟨S_, .i32⟩) main_call15_v0) id,
    TRef.binary (TRef.of (T := ⟨S_, .i32⟩) main_call15_v0) (TRef.of (T := ⟨S_, .i32⟩) main_v244) (TRef.of (T := ⟨S_, .i32⟩) main_call15_v1) maxsi,
    TRef.unary (TRef.of (T := ⟨S_, .i32⟩) main_c_207) (TRef.of (T := ⟨S_, .i32⟩) main_call15_v2) id,
    TRef.binary (TRef.of (T := ⟨S_, .i32⟩) main_call15_v2) (TRef.of (T := ⟨S_, .i32⟩) main_call15_v1) (TRef.of (T := ⟨S_, .i32⟩) main_v245) minsi,
    unary main_arg1 main_v246 ((extractStridedSlice S1x1x1x512x512 ![1, 3, 0, 0, 0] · slices_S16x4x1x512x512_S1x1x1x512x512_1_3_0_0_0) : (⟨S16x4x1x512x512, .f32⟩ : BufTy).Contents (Elt F) → (⟨S1x1x1x512x512, .f32⟩ : BufTy).Contents (Elt F)),
    reshape main_v246 main_v247 rfl shapeCasts_S1x1x1x512x512_S1x512x512,
    nullary main_c_208 (constantI S_ 32 0#32),
    nullary main_c_209 (constantI S_ 32 0#32),
    binary main_c_208 main_c_209 main_v248 (cmpi .slt : (⟨S_, .i32⟩ : BufTy).Contents (Elt F) → (⟨S_, .i32⟩ : BufTy).Contents (Elt F) → (⟨S_, .i1⟩ : BufTy).Contents (Elt F)),
    nullary main_c_210 (constantI S_ 32 0#32),
    nullary main_c_211 (constantI S_ 32 1#32),
    binary main_c_210 main_c_211 main_v249 (addi : (⟨S_, .i32⟩ : BufTy).Contents (Elt F) → (⟨S_, .i32⟩ : BufTy).Contents (Elt F) → (⟨S_, .i32⟩ : BufTy).Contents (Elt F)),
    nullary main_c_212 (constantI S_ 32 0#32),
    ternary main_v248 main_v249 main_c_212 main_v250 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_213 (constantI S_ 32 0#32),
    binary main_v241 main_c_213 main_v251 (cmpi .slt : (⟨S_, .i32⟩ : BufTy).Contents (Elt F) → (⟨S_, .i32⟩ : BufTy).Contents (Elt F) → (⟨S_, .i1⟩ : BufTy).Contents (Elt F)),
    nullary main_c_214 (constantI S_ 32 512#32),
    binary main_v241 main_c_214 main_v252 (addi : (⟨S_, .i32⟩ : BufTy).Contents (Elt F) → (⟨S_, .i32⟩ : BufTy).Contents (Elt F) → (⟨S_, .i32⟩ : BufTy).Contents (Elt F)),
    ternary main_v251 main_v252 main_v241 main_v253 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_215 (constantI S_ 32 0#32),
    binary main_v245 main_c_215 main_v254 (cmpi .slt : (⟨S_, .i32⟩ : BufTy).Contents (Elt F) → (⟨S_, .i32⟩ : BufTy).Contents (Elt F) → (⟨S_, .i1⟩ : BufTy).Contents (Elt F)),
    nullary main_c_216 (constantI S_ 32 512#32),
    binary main_v245 main_c_216 main_v255 (addi : (⟨S_, .i32⟩ : BufTy).Contents (Elt F) → (⟨S_, .i32⟩ : BufTy).Contents (Elt F) → (⟨S_, .i32⟩ : BufTy).Contents (Elt F)),
    ternary main_v254 main_v255 main_v245 main_v256 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v247 ![main_v250, main_v253, main_v256] ⟨S_, .i32⟩ main_v257 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v257 main_v258 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_217 (constantI S_ 32 1#32),
    nullary main_c_218 (constantI S_ 32 0#32),
    binary main_c_217 main_c_218 main_v259 (cmpi .slt : (⟨S_, .i32⟩ : BufTy).Contents (Elt F) → (⟨S_, .i32⟩ : BufTy).Contents (Elt F) → (⟨S_, .i1⟩ : BufTy).Contents (Elt F)) ]
theorem pc014_sub : (pc014 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub ..⟩
theorem pc014_fresh : ∀ op ∈ (pc014 (F := F)), op.fresh = ∅ := by
  intro _ h; (repeat (cases h with | head => rfl | tail _ h => ?_)); exact nomatch h

/-- Operations 529 … 552 of 4424. -/
noncomputable def pc015 : List (HloOp τ sig (Elt F)) :=
  [ nullary main_c_219 (constantI S_ 32 1#32),
    nullary main_c_220 (constantI S_ 32 16#32),
    binary main_c_219 main_c_220 main_v260 (addi : (⟨S_, .i32⟩ : BufTy).Contents (Elt F) → (⟨S_, .i32⟩ : BufTy).Contents (Elt F) → (⟨S_, .i32⟩ : BufTy).Contents (Elt F)),
    nullary main_c_221 (constantI S_ 32 1#32),
    ternary main_v259 main_v260 main_c_221 main_v261 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_222 (constantI S_ 32 0#32),
    nullary main_c_223 (constantI S_ 32 0#32),
    binary main_c_222 main_c_223 main_v262 (cmpi .slt : (⟨S_, .i32⟩ : BufTy).Contents (Elt F) → (⟨S_, .i32⟩ : BufTy).Contents (Elt F) → (⟨S_, .i1⟩ : BufTy).Contents (Elt F)),
    nullary main_c_224 (constantI S_ 32 0#32),
    nullary main_c_225 (constantI S_ 32 1#32),
    binary main_c_224 main_c_225 main_v263 (addi : (⟨S_, .i32⟩ : BufTy).Contents (Elt F) → (⟨S_, .i32⟩ : BufTy).Contents (Elt F) → (⟨S_, .i32⟩ : BufTy).Contents (Elt F)),
    nullary main_c_226 (constantI S_ 32 0#32),
    ternary main_v262 main_v263 main_c_226 main_v264 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_227 (constantI S_ 32 0#32),
    binary main_v241 main_c_227 main_v265 (cmpi .slt : (⟨S_, .i32⟩ : BufTy).Contents (Elt F) → (⟨S_, .i32⟩ : BufTy).Contents (Elt F) → (⟨S_, .i1⟩ : BufTy).Contents (Elt F)),
    nullary main_c_228 (constantI S_ 32 512#32),
    binary main_v241 main_c_228 main_v266 (addi : (⟨S_, .i32⟩ : BufTy).Contents (Elt F) → (⟨S_, .i32⟩ : BufTy).Contents (Elt F) → (⟨S_, .i32⟩ : BufTy).Contents (Elt F)),
    ternary main_v265 main_v266 main_v241 main_v267 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_229 (constantI S_ 32 0#32),
    binary main_v245 main_c_229 main_v268 (cmpi .slt : (⟨S_, .i32⟩ : BufTy).Contents (Elt F) → (⟨S_, .i32⟩ : BufTy).Contents (Elt F) → (⟨S_, .i1⟩ : BufTy).Contents (Elt F)),
    nullary main_c_230 (constantI S_ 32 512#32),
    binary main_v245 main_c_230 main_v269 (addi : (⟨S_, .i32⟩ : BufTy).Contents (Elt F) → (⟨S_, .i32⟩ : BufTy).Contents (Elt F) → (⟨S_, .i32⟩ : BufTy).Contents (Elt F)),
    ternary main_v268 main_v269 main_v245 main_v270 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v237 main_v258 ![main_v261, main_v264, main_v267, main_v270] ⟨S_, .i32⟩ main_v271 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc015_sub : (pc015 (F := F)).Forall fun op => op.bufs ⊆ tcRefs τ sig :=
  ⟨nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc015_fresh : ∀ op ∈ (pc015 (F := F)), op.fresh = ∅ := by
  intro _ h; (repeat (cases h with | head => rfl | tail _ h => ?_)); exact nomatch h

/-- Operations 553 … 594 of 4424. -/
noncomputable def pc016 : List (HloOp τ sig (Elt F)) :=
  [ unary main_arg2 main_v272 ((extractStridedSlice S1x1x1 ![2, 0, 0] · slices_S16x4x2_S1x1x1_2_0_0) : (⟨S16x4x2, .i32⟩ : BufTy).Contents (Elt F) → (⟨S1x1x1, .i32⟩ : BufTy).Contents (Elt F)),
    reshape main_v272 main_v273 rfl shapeCasts_S1x1x1_S_,
    nullary main_c_231 (constantI S_ 32 128#32),
    binary main_v273 main_c_231 main_v274 (muli : (⟨S_, .i32⟩ : BufTy).Contents (Elt F) → (⟨S_, .i32⟩ : BufTy).Contents (Elt F) → (⟨S_, .i32⟩ : BufTy).Contents (Elt F)),
    nullary main_c_232 (constantI S_ 32 0#32),
    nullary main_c_233 (constantI S_ 32 128#32),
    TRef.unary (TRef.of (T := ⟨S_, .i32⟩) main_c_232) (TRef.of (T := ⟨S_, .i32⟩) main_call16_v0) id,
    TRef.binary (TRef.of (T := ⟨S_, .i32⟩) main_call16_v0) (TRef.of (T := ⟨S_, .i32⟩) main_v274) (TRef.of (T := ⟨S_, .i32⟩) main_call16_v1) maxsi,
    TRef.unary (TRef.of (T := ⟨S_, .i32⟩) main_c_233) (TRef.of (T := ⟨S_, .i32⟩) main_call16_v2) id,
    TRef.binary (TRef.of (T := ⟨S_, .i32⟩) main_call16_v2) (TRef.of (T := ⟨S_, .i32⟩) main_call16_v1) (TRef.of (T := ⟨S_, .i32⟩) main_v275) minsi,
    unary main_arg2 main_v276 ((extractStridedSlice S1x1x1 ![2, 0, 1] · slices_S16x4x2_S1x1x1_2_0_1) : (⟨S16x4x2, .i32⟩ : BufTy).Contents (Elt F) → (⟨S1x1x1, .i32⟩ : BufTy).Contents (Elt F)),
    reshape main_v276 main_v277 rfl shapeCasts_S1x1x1_S_,
    nullary main_c_234 (constantI S_ 32 128#32),
    binary main_v277 main_c_234 main_v278 (muli : (⟨S_, .i32⟩ : BufTy).Contents (Elt F) → (⟨S_, .i32⟩ : BufTy).Contents (Elt F) → (⟨S_, .i32⟩ : BufTy).Contents (Elt F)),
    nullary main_c_235 (constantI S_ 32 0#32),
    nullary main_c_236 (constantI S_ 32 128#32),
    TRef.unary (TRef.of (T := ⟨S_, .i32⟩) main_c_235) (TRef.of (T := ⟨S_, .i32⟩) main_call17_v0) id,
    TRef.binary (TRef.of (T := ⟨S_, .i32⟩) main_call17_v0) (TRef.of (T := ⟨S_, .i32⟩) main_v278) (TRef.of (T := ⟨S_, .i32⟩) main_call17_v1) maxsi,
    TRef.unary (TRef.of (T := ⟨S_, .i32⟩) main_c_236) (TRef.of (T := ⟨S_, .i32⟩) main_call17_v2) id,
    TRef.binary (TRef.of (T := ⟨S_, .i32⟩) main_call17_v2) (TRef.of (T := ⟨S_, .i32⟩) main_call17_v1) (TRef.of (T := ⟨S_, .i32⟩) main_v279) minsi,
    unary main_arg1 main_v280 ((extractStridedSlice S1x1x1x512x512 ![2, 0, 0, 0, 0] · slices_S16x4x1x512x512_S1x1x1x512x512_2_0_0_0_0) : (⟨S16x4x1x512x512, .f32⟩ : BufTy).Contents (Elt F) → (⟨S1x1x1x512x512, .f32⟩ : BufTy).Contents (Elt F)),
    reshape main_v280 main_v281 rfl shapeCasts_S1x1x1x512x512_S1x512x512,
    nullary main_c_237 (constantI S_ 32 0#32),
    nullary main_c_238 (constantI S_ 32 0#32),
    binary main_c_237 main_c_238 main_v282 (cmpi .slt : (⟨S_, .i32⟩ : BufTy).Contents (Elt F) → (⟨S_, .i32⟩ : BufTy).Contents (Elt F) → (⟨S_, .i1⟩ : BufTy).Contents (Elt F)),
    nullary main_c_239 (constantI S_ 32 0#32),
    nullary main_c_240 (constantI S_ 32 1#32),
    binary main_c_239 main_c_240 main_v283 (addi : (⟨S_, .i32⟩ : BufTy).Contents (Elt F) → (⟨S_, .i32⟩ : BufTy).Contents (Elt F) → (⟨S_, .i32⟩ : BufTy).Contents (Elt F)),
    nullary main_c_241 (constantI S_ 32 0#32),
    ternary main_v282 main_v283 main_c_241 main_v284 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_242 (constantI S_ 32 0#32),
    binary main_v275 main_c_242 main_v285 (cmpi .slt : (⟨S_, .i32⟩ : BufTy).Contents (Elt F) → (⟨S_, .i32⟩ : BufTy).Contents (Elt F) → (⟨S_, .i1⟩ : BufTy).Contents (Elt F)),
    nullary main_c_243 (constantI S_ 32 512#32),
    binary main_v275 main_c_243 main_v286 (addi : (⟨S_, .i32⟩ : BufTy).Contents (Elt F) → (⟨S_, .i32⟩ : BufTy).Contents (Elt F) → (⟨S_, .i32⟩ : BufTy).Contents (Elt F)),
    ternary main_v285 main_v286 main_v275 main_v287 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_244 (constantI S_ 32 0#32),
    binary main_v279 main_c_244 main_v288 (cmpi .slt : (⟨S_, .i32⟩ : BufTy).Contents (Elt F) → (⟨S_, .i32⟩ : BufTy).Contents (Elt F) → (⟨S_, .i1⟩ : BufTy).Contents (Elt F)),
    nullary main_c_245 (constantI S_ 32 512#32),
    binary main_v279 main_c_245 main_v289 (addi : (⟨S_, .i32⟩ : BufTy).Contents (Elt F) → (⟨S_, .i32⟩ : BufTy).Contents (Elt F) → (⟨S_, .i32⟩ : BufTy).Contents (Elt F)),
    ternary main_v288 main_v289 main_v279 main_v290 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v281 ![main_v284, main_v287, main_v290] ⟨S_, .i32⟩ main_v291 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v291 main_v292 (broadcastInDim S1x1x384x384 ![1, 2, 3] bcast_S1x384x384_S1x1x384x384_1_2_3 : (⟨S1x384x384, .f32⟩ : BufTy).Contents (Elt F) → (⟨S1x1x384x384, .f32⟩ : BufTy).Contents (Elt F)) ]
theorem pc016_sub : (pc016 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub ..⟩
theorem pc016_fresh : ∀ op ∈ (pc016 (F := F)), op.fresh = ∅ := by
  intro _ h; (repeat (cases h with | head => rfl | tail _ h => ?_)); exact nomatch h

/-- Operations 595 … 621 of 4424. -/
noncomputable def pc017 : List (HloOp τ sig (Elt F)) :=
  [ nullary main_c_246 (constantI S_ 32 2#32),
    nullary main_c_247 (constantI S_ 32 0#32),
    binary main_c_246 main_c_247 main_v293 (cmpi .slt : (⟨S_, .i32⟩ : BufTy).Contents (Elt F) → (⟨S_, .i32⟩ : BufTy).Contents (Elt F) → (⟨S_, .i1⟩ : BufTy).Contents (Elt F)),
    nullary main_c_248 (constantI S_ 32 2#32),
    nullary main_c_249 (constantI S_ 32 16#32),
    binary main_c_248 main_c_249 main_v294 (addi : (⟨S_, .i32⟩ : BufTy).Contents (Elt F) → (⟨S_, .i32⟩ : BufTy).Contents (Elt F) → (⟨S_, .i32⟩ : BufTy).Contents (Elt F)),
    nullary main_c_250 (constantI S_ 32 2#32),
    ternary main_v293 main_v294 main_c_250 main_v295 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_251 (constantI S_ 32 0#32),
    nullary main_c_252 (constantI S_ 32 0#32),
    binary main_c_251 main_c_252 main_v296 (cmpi .slt : (⟨S_, .i32⟩ : BufTy).Contents (Elt F) → (⟨S_, .i32⟩ : BufTy).Contents (Elt F) → (⟨S_, .i1⟩ : BufTy).Contents (Elt F)),
    nullary main_c_253 (constantI S_ 32 0#32),
    nullary main_c_254 (constantI S_ 32 1#32),
    binary main_c_253 main_c_254 main_v297 (addi : (⟨S_, .i32⟩ : BufTy).Contents (Elt F) → (⟨S_, .i32⟩ : BufTy).Contents (Elt F) → (⟨S_, .i32⟩ : BufTy).Contents (Elt F)),
    nullary main_c_255 (constantI S_ 32 0#32),
    ternary main_v296 main_v297 main_c_255 main_v298 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_256 (constantI S_ 32 0#32),
    binary main_v275 main_c_256 main_v299 (cmpi .slt : (⟨S_, .i32⟩ : BufTy).Contents (Elt F) → (⟨S_, .i32⟩ : BufTy).Contents (Elt F) → (⟨S_, .i1⟩ : BufTy).Contents (Elt F)),
    nullary main_c_257 (constantI S_ 32 512#32),
    binary main_v275 main_c_257 main_v300 (addi : (⟨S_, .i32⟩ : BufTy).Contents (Elt F) → (⟨S_, .i32⟩ : BufTy).Contents (Elt F) → (⟨S_, .i32⟩ : BufTy).Contents (Elt F)),
    ternary main_v299 main_v300 main_v275 main_v301 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_258 (constantI S_ 32 0#32),
    binary main_v279 main_c_258 main_v302 (cmpi .slt : (⟨S_, .i32⟩ : BufTy).Contents (Elt F) → (⟨S_, .i32⟩ : BufTy).Contents (Elt F) → (⟨S_, .i1⟩ : BufTy).Contents (Elt F)),
    nullary main_c_259 (constantI S_ 32 512#32),
    binary main_v279 main_c_259 main_v303 (addi : (⟨S_, .i32⟩ : BufTy).Contents (Elt F) → (⟨S_, .i32⟩ : BufTy).Contents (Elt F) → (⟨S_, .i32⟩ : BufTy).Contents (Elt F)),
    ternary main_v302 main_v303 main_v279 main_v304 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v271 main_v292 ![main_v295, main_v298, main_v301, main_v304] ⟨S_, .i32⟩ main_v305 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc017_sub : (pc017 (F := F)).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc017_fresh : ∀ op ∈ (pc017 (F := F)), op.fresh = ∅ := by
  intro _ h; (repeat (cases h with | head => rfl | tail _ h => ?_)); exact nomatch h

/-- Operations 622 … 660 of 4424. -/
noncomputable def pc018 : List (HloOp τ sig (Elt F)) :=
  [ unary main_arg2 main_v306 ((extractStridedSlice S1x1x1 ![2, 1, 0] · slices_S16x4x2_S1x1x1_2_1_0) : (⟨S16x4x2, .i32⟩ : BufTy).Contents (Elt F) → (⟨S1x1x1, .i32⟩ : BufTy).Contents (Elt F)),
    reshape main_v306 main_v307 rfl shapeCasts_S1x1x1_S_,
    nullary main_c_260 (constantI S_ 32 128#32),
    binary main_v307 main_c_260 main_v308 (muli : (⟨S_, .i32⟩ : BufTy).Contents (Elt F) → (⟨S_, .i32⟩ : BufTy).Contents (Elt F) → (⟨S_, .i32⟩ : BufTy).Contents (Elt F)),
    nullary main_c_261 (constantI S_ 32 0#32),
    nullary main_c_262 (constantI S_ 32 128#32),
    TRef.unary (TRef.of (T := ⟨S_, .i32⟩) main_c_261) (TRef.of (T := ⟨S_, .i32⟩) main_call18_v0) id,
    TRef.binary (TRef.of (T := ⟨S_, .i32⟩) main_call18_v0) (TRef.of (T := ⟨S_, .i32⟩) main_v308) (TRef.of (T := ⟨S_, .i32⟩) main_call18_v1) maxsi,
    TRef.unary (TRef.of (T := ⟨S_, .i32⟩) main_c_262) (TRef.of (T := ⟨S_, .i32⟩) main_call18_v2) id,
    TRef.binary (TRef.of (T := ⟨S_, .i32⟩) main_call18_v2) (TRef.of (T := ⟨S_, .i32⟩) main_call18_v1) (TRef.of (T := ⟨S_, .i32⟩) main_v309) minsi,
    unary main_arg2 main_v310 ((extractStridedSlice S1x1x1 ![2, 1, 1] · slices_S16x4x2_S1x1x1_2_1_1) : (⟨S16x4x2, .i32⟩ : BufTy).Contents (Elt F) → (⟨S1x1x1, .i32⟩ : BufTy).Contents (Elt F)),
    reshape main_v310 main_v311 rfl shapeCasts_S1x1x1_S_,
    nullary main_c_263 (constantI S_ 32 128#32),
    binary main_v311 main_c_263 main_v312 (muli : (⟨S_, .i32⟩ : BufTy).Contents (Elt F) → (⟨S_, .i32⟩ : BufTy).Contents (Elt F) → (⟨S_, .i32⟩ : BufTy).Contents (Elt F)),
    nullary main_c_264 (constantI S_ 32 0#32),
    nullary main_c_265 (constantI S_ 32 128#32),
    TRef.unary (TRef.of (T := ⟨S_, .i32⟩) main_c_264) (TRef.of (T := ⟨S_, .i32⟩) main_call19_v0) id,
    TRef.binary (TRef.of (T := ⟨S_, .i32⟩) main_call19_v0) (TRef.of (T := ⟨S_, .i32⟩) main_v312) (TRef.of (T := ⟨S_, .i32⟩) main_call19_v1) maxsi,
    TRef.unary (TRef.of (T := ⟨S_, .i32⟩) main_c_265) (TRef.of (T := ⟨S_, .i32⟩) main_call19_v2) id,
    TRef.binary (TRef.of (T := ⟨S_, .i32⟩) main_call19_v2) (TRef.of (T := ⟨S_, .i32⟩) main_call19_v1) (TRef.of (T := ⟨S_, .i32⟩) main_v313) minsi,
    unary main_arg1 main_v314 ((extractStridedSlice S1x1x1x512x512 ![2, 1, 0, 0, 0] · slices_S16x4x1x512x512_S1x1x1x512x512_2_1_0_0_0) : (⟨S16x4x1x512x512, .f32⟩ : BufTy).Contents (Elt F) → (⟨S1x1x1x512x512, .f32⟩ : BufTy).Contents (Elt F)),
    reshape main_v314 main_v315 rfl shapeCasts_S1x1x1x512x512_S1x512x512,
    nullary main_c_266 (constantI S_ 32 0#32),
    nullary main_c_267 (constantI S_ 32 0#32),
    binary main_c_266 main_c_267 main_v316 (cmpi .slt : (⟨S_, .i32⟩ : BufTy).Contents (Elt F) → (⟨S_, .i32⟩ : BufTy).Contents (Elt F) → (⟨S_, .i1⟩ : BufTy).Contents (Elt F)),
    nullary main_c_268 (constantI S_ 32 0#32),
    nullary main_c_269 (constantI S_ 32 1#32),
    binary main_c_268 main_c_269 main_v317 (addi : (⟨S_, .i32⟩ : BufTy).Contents (Elt F) → (⟨S_, .i32⟩ : BufTy).Contents (Elt F) → (⟨S_, .i32⟩ : BufTy).Contents (Elt F)),
    nullary main_c_270 (constantI S_ 32 0#32),
    ternary main_v316 main_v317 main_c_270 main_v318 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_271 (constantI S_ 32 0#32),
    binary main_v309 main_c_271 main_v319 (cmpi .slt : (⟨S_, .i32⟩ : BufTy).Contents (Elt F) → (⟨S_, .i32⟩ : BufTy).Contents (Elt F) → (⟨S_, .i1⟩ : BufTy).Contents (Elt F)),
    nullary main_c_272 (constantI S_ 32 512#32),
    binary main_v309 main_c_272 main_v320 (addi : (⟨S_, .i32⟩ : BufTy).Contents (Elt F) → (⟨S_, .i32⟩ : BufTy).Contents (Elt F) → (⟨S_, .i32⟩ : BufTy).Contents (Elt F)),
    ternary main_v319 main_v320 main_v309 main_v321 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_273 (constantI S_ 32 0#32),
    binary main_v313 main_c_273 main_v322 (cmpi .slt : (⟨S_, .i32⟩ : BufTy).Contents (Elt F) → (⟨S_, .i32⟩ : BufTy).Contents (Elt F) → (⟨S_, .i1⟩ : BufTy).Contents (Elt F)),
    nullary main_c_274 (constantI S_ 32 512#32),
    binary main_v313 main_c_274 main_v323 (addi : (⟨S_, .i32⟩ : BufTy).Contents (Elt F) → (⟨S_, .i32⟩ : BufTy).Contents (Elt F) → (⟨S_, .i32⟩ : BufTy).Contents (Elt F)) ]
theorem pc018_sub : (pc018 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub ..⟩
theorem pc018_fresh : ∀ op ∈ (pc018 (F := F)), op.fresh = ∅ := by
  intro _ h; (repeat (cases h with | head => rfl | tail _ h => ?_)); exact nomatch h

/-- Operations 661 … 690 of 4424. -/
noncomputable def pc019 : List (HloOp τ sig (Elt F)) :=
  [ ternary main_v322 main_v323 main_v313 main_v324 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v315 ![main_v318, main_v321, main_v324] ⟨S_, .i32⟩ main_v325 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v325 main_v326 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_275 (constantI S_ 32 2#32),
    nullary main_c_276 (constantI S_ 32 0#32),
    binary main_c_275 main_c_276 main_v327 (cmpi .slt : (⟨S_, .i32⟩ : BufTy).Contents (Elt F) → (⟨S_, .i32⟩ : BufTy).Contents (Elt F) → (⟨S_, .i1⟩ : BufTy).Contents (Elt F)),
    nullary main_c_277 (constantI S_ 32 2#32),
    nullary main_c_278 (constantI S_ 32 16#32),
    binary main_c_277 main_c_278 main_v328 (addi : (⟨S_, .i32⟩ : BufTy).Contents (Elt F) → (⟨S_, .i32⟩ : BufTy).Contents (Elt F) → (⟨S_, .i32⟩ : BufTy).Contents (Elt F)),
    nullary main_c_279 (constantI S_ 32 2#32),
    ternary main_v327 main_v328 main_c_279 main_v329 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_280 (constantI S_ 32 0#32),
    nullary main_c_281 (constantI S_ 32 0#32),
    binary main_c_280 main_c_281 main_v330 (cmpi .slt : (⟨S_, .i32⟩ : BufTy).Contents (Elt F) → (⟨S_, .i32⟩ : BufTy).Contents (Elt F) → (⟨S_, .i1⟩ : BufTy).Contents (Elt F)),
    nullary main_c_282 (constantI S_ 32 0#32),
    nullary main_c_283 (constantI S_ 32 1#32),
    binary main_c_282 main_c_283 main_v331 (addi : (⟨S_, .i32⟩ : BufTy).Contents (Elt F) → (⟨S_, .i32⟩ : BufTy).Contents (Elt F) → (⟨S_, .i32⟩ : BufTy).Contents (Elt F)),
    nullary main_c_284 (constantI S_ 32 0#32),
    ternary main_v330 main_v331 main_c_284 main_v332 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_285 (constantI S_ 32 0#32),
    binary main_v309 main_c_285 main_v333 (cmpi .slt : (⟨S_, .i32⟩ : BufTy).Contents (Elt F) → (⟨S_, .i32⟩ : BufTy).Contents (Elt F) → (⟨S_, .i1⟩ : BufTy).Contents (Elt F)),
    nullary main_c_286 (constantI S_ 32 512#32),
    binary main_v309 main_c_286 main_v334 (addi : (⟨S_, .i32⟩ : BufTy).Contents (Elt F) → (⟨S_, .i32⟩ : BufTy).Contents (Elt F) → (⟨S_, .i32⟩ : BufTy).Contents (Elt F)),
    ternary main_v333 main_v334 main_v309 main_v335 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_287 (constantI S_ 32 0#32),
    binary main_v313 main_c_287 main_v336 (cmpi .slt : (⟨S_, .i32⟩ : BufTy).Contents (Elt F) → (⟨S_, .i32⟩ : BufTy).Contents (Elt F) → (⟨S_, .i1⟩ : BufTy).Contents (Elt F)),
    nullary main_c_288 (constantI S_ 32 512#32),
    binary main_v313 main_c_288 main_v337 (addi : (⟨S_, .i32⟩ : BufTy).Contents (Elt F) → (⟨S_, .i32⟩ : BufTy).Contents (Elt F) → (⟨S_, .i32⟩ : BufTy).Contents (Elt F)),
    ternary main_v336 main_v337 main_v313 main_v338 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v305 main_v326 ![main_v329, main_v332, main_v335, main_v338] ⟨S_, .i32⟩ main_v339 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc019_sub : (pc019 (F := F)).Forall fun op => op.bufs ⊆ tcRefs τ sig :=
  ⟨ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc019_fresh : ∀ op ∈ (pc019 (F := F)), op.fresh = ∅ := by
  intro _ h; (repeat (cases h with | head => rfl | tail _ h => ?_)); exact nomatch h

/-- Operations 691 … 726 of 4424. -/
noncomputable def pc020 : List (HloOp τ sig (Elt F)) :=
  [ unary main_arg2 main_v340 ((extractStridedSlice S1x1x1 ![2, 2, 0] · slices_S16x4x2_S1x1x1_2_2_0) : (⟨S16x4x2, .i32⟩ : BufTy).Contents (Elt F) → (⟨S1x1x1, .i32⟩ : BufTy).Contents (Elt F)),
    reshape main_v340 main_v341 rfl shapeCasts_S1x1x1_S_,
    nullary main_c_289 (constantI S_ 32 128#32),
    binary main_v341 main_c_289 main_v342 (muli : (⟨S_, .i32⟩ : BufTy).Contents (Elt F) → (⟨S_, .i32⟩ : BufTy).Contents (Elt F) → (⟨S_, .i32⟩ : BufTy).Contents (Elt F)),
    nullary main_c_290 (constantI S_ 32 0#32),
    nullary main_c_291 (constantI S_ 32 128#32),
    TRef.unary (TRef.of (T := ⟨S_, .i32⟩) main_c_290) (TRef.of (T := ⟨S_, .i32⟩) main_call20_v0) id,
    TRef.binary (TRef.of (T := ⟨S_, .i32⟩) main_call20_v0) (TRef.of (T := ⟨S_, .i32⟩) main_v342) (TRef.of (T := ⟨S_, .i32⟩) main_call20_v1) maxsi,
    TRef.unary (TRef.of (T := ⟨S_, .i32⟩) main_c_291) (TRef.of (T := ⟨S_, .i32⟩) main_call20_v2) id,
    TRef.binary (TRef.of (T := ⟨S_, .i32⟩) main_call20_v2) (TRef.of (T := ⟨S_, .i32⟩) main_call20_v1) (TRef.of (T := ⟨S_, .i32⟩) main_v343) minsi,
    unary main_arg2 main_v344 ((extractStridedSlice S1x1x1 ![2, 2, 1] · slices_S16x4x2_S1x1x1_2_2_1) : (⟨S16x4x2, .i32⟩ : BufTy).Contents (Elt F) → (⟨S1x1x1, .i32⟩ : BufTy).Contents (Elt F)),
    reshape main_v344 main_v345 rfl shapeCasts_S1x1x1_S_,
    nullary main_c_292 (constantI S_ 32 128#32),
    binary main_v345 main_c_292 main_v346 (muli : (⟨S_, .i32⟩ : BufTy).Contents (Elt F) → (⟨S_, .i32⟩ : BufTy).Contents (Elt F) → (⟨S_, .i32⟩ : BufTy).Contents (Elt F)),
    nullary main_c_293 (constantI S_ 32 0#32),
    nullary main_c_294 (constantI S_ 32 128#32),
    TRef.unary (TRef.of (T := ⟨S_, .i32⟩) main_c_293) (TRef.of (T := ⟨S_, .i32⟩) main_call21_v0) id,
    TRef.binary (TRef.of (T := ⟨S_, .i32⟩) main_call21_v0) (TRef.of (T := ⟨S_, .i32⟩) main_v346) (TRef.of (T := ⟨S_, .i32⟩) main_call21_v1) maxsi,
    TRef.unary (TRef.of (T := ⟨S_, .i32⟩) main_c_294) (TRef.of (T := ⟨S_, .i32⟩) main_call21_v2) id,
    TRef.binary (TRef.of (T := ⟨S_, .i32⟩) main_call21_v2) (TRef.of (T := ⟨S_, .i32⟩) main_call21_v1) (TRef.of (T := ⟨S_, .i32⟩) main_v347) minsi,
    unary main_arg1 main_v348 ((extractStridedSlice S1x1x1x512x512 ![2, 2, 0, 0, 0] · slices_S16x4x1x512x512_S1x1x1x512x512_2_2_0_0_0) : (⟨S16x4x1x512x512, .f32⟩ : BufTy).Contents (Elt F) → (⟨S1x1x1x512x512, .f32⟩ : BufTy).Contents (Elt F)),
    reshape main_v348 main_v349 rfl shapeCasts_S1x1x1x512x512_S1x512x512,
    nullary main_c_295 (constantI S_ 32 0#32),
    nullary main_c_296 (constantI S_ 32 0#32),
    binary main_c_295 main_c_296 main_v350 (cmpi .slt : (⟨S_, .i32⟩ : BufTy).Contents (Elt F) → (⟨S_, .i32⟩ : BufTy).Contents (Elt F) → (⟨S_, .i1⟩ : BufTy).Contents (Elt F)),
    nullary main_c_297 (constantI S_ 32 0#32),
    nullary main_c_298 (constantI S_ 32 1#32),
    binary main_c_297 main_c_298 main_v351 (addi : (⟨S_, .i32⟩ : BufTy).Contents (Elt F) → (⟨S_, .i32⟩ : BufTy).Contents (Elt F) → (⟨S_, .i32⟩ : BufTy).Contents (Elt F)),
    nullary main_c_299 (constantI S_ 32 0#32),
    ternary main_v350 main_v351 main_c_299 main_v352 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_300 (constantI S_ 32 0#32),
    binary main_v343 main_c_300 main_v353 (cmpi .slt : (⟨S_, .i32⟩ : BufTy).Contents (Elt F) → (⟨S_, .i32⟩ : BufTy).Contents (Elt F) → (⟨S_, .i1⟩ : BufTy).Contents (Elt F)),
    nullary main_c_301 (constantI S_ 32 512#32),
    binary main_v343 main_c_301 main_v354 (addi : (⟨S_, .i32⟩ : BufTy).Contents (Elt F) → (⟨S_, .i32⟩ : BufTy).Contents (Elt F) → (⟨S_, .i32⟩ : BufTy).Contents (Elt F)),
    ternary main_v353 main_v354 main_v343 main_v355 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_302 (constantI S_ 32 0#32) ]
theorem pc020_sub : (pc020 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub ..⟩
theorem pc020_fresh : ∀ op ∈ (pc020 (F := F)), op.fresh = ∅ := by
  intro _ h; (repeat (cases h with | head => rfl | tail _ h => ?_)); exact nomatch h

/-- Operations 727 … 759 of 4424. -/
noncomputable def pc021 : List (HloOp τ sig (Elt F)) :=
  [ binary main_v347 main_c_302 main_v356 (cmpi .slt : (⟨S_, .i32⟩ : BufTy).Contents (Elt F) → (⟨S_, .i32⟩ : BufTy).Contents (Elt F) → (⟨S_, .i1⟩ : BufTy).Contents (Elt F)),
    nullary main_c_303 (constantI S_ 32 512#32),
    binary main_v347 main_c_303 main_v357 (addi : (⟨S_, .i32⟩ : BufTy).Contents (Elt F) → (⟨S_, .i32⟩ : BufTy).Contents (Elt F) → (⟨S_, .i32⟩ : BufTy).Contents (Elt F)),
    ternary main_v356 main_v357 main_v347 main_v358 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v349 ![main_v352, main_v355, main_v358] ⟨S_, .i32⟩ main_v359 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v359 main_v360 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_304 (constantI S_ 32 2#32),
    nullary main_c_305 (constantI S_ 32 0#32),
    binary main_c_304 main_c_305 main_v361 (cmpi .slt : (⟨S_, .i32⟩ : BufTy).Contents (Elt F) → (⟨S_, .i32⟩ : BufTy).Contents (Elt F) → (⟨S_, .i1⟩ : BufTy).Contents (Elt F)),
    nullary main_c_306 (constantI S_ 32 2#32),
    nullary main_c_307 (constantI S_ 32 16#32),
    binary main_c_306 main_c_307 main_v362 (addi : (⟨S_, .i32⟩ : BufTy).Contents (Elt F) → (⟨S_, .i32⟩ : BufTy).Contents (Elt F) → (⟨S_, .i32⟩ : BufTy).Contents (Elt F)),
    nullary main_c_308 (constantI S_ 32 2#32),
    ternary main_v361 main_v362 main_c_308 main_v363 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_309 (constantI S_ 32 0#32),
    nullary main_c_310 (constantI S_ 32 0#32),
    binary main_c_309 main_c_310 main_v364 (cmpi .slt : (⟨S_, .i32⟩ : BufTy).Contents (Elt F) → (⟨S_, .i32⟩ : BufTy).Contents (Elt F) → (⟨S_, .i1⟩ : BufTy).Contents (Elt F)),
    nullary main_c_311 (constantI S_ 32 0#32),
    nullary main_c_312 (constantI S_ 32 1#32),
    binary main_c_311 main_c_312 main_v365 (addi : (⟨S_, .i32⟩ : BufTy).Contents (Elt F) → (⟨S_, .i32⟩ : BufTy).Contents (Elt F) → (⟨S_, .i32⟩ : BufTy).Contents (Elt F)),
    nullary main_c_313 (constantI S_ 32 0#32),
    ternary main_v364 main_v365 main_c_313 main_v366 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_314 (constantI S_ 32 0#32),
    binary main_v343 main_c_314 main_v367 (cmpi .slt : (⟨S_, .i32⟩ : BufTy).Contents (Elt F) → (⟨S_, .i32⟩ : BufTy).Contents (Elt F) → (⟨S_, .i1⟩ : BufTy).Contents (Elt F)),
    nullary main_c_315 (constantI S_ 32 512#32),
    binary main_v343 main_c_315 main_v368 (addi : (⟨S_, .i32⟩ : BufTy).Contents (Elt F) → (⟨S_, .i32⟩ : BufTy).Contents (Elt F) → (⟨S_, .i32⟩ : BufTy).Contents (Elt F)),
    ternary main_v367 main_v368 main_v343 main_v369 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_316 (constantI S_ 32 0#32),
    binary main_v347 main_c_316 main_v370 (cmpi .slt : (⟨S_, .i32⟩ : BufTy).Contents (Elt F) → (⟨S_, .i32⟩ : BufTy).Contents (Elt F) → (⟨S_, .i1⟩ : BufTy).Contents (Elt F)),
    nullary main_c_317 (constantI S_ 32 512#32),
    binary main_v347 main_c_317 main_v371 (addi : (⟨S_, .i32⟩ : BufTy).Contents (Elt F) → (⟨S_, .i32⟩ : BufTy).Contents (Elt F) → (⟨S_, .i32⟩ : BufTy).Contents (Elt F)),
    ternary main_v370 main_v371 main_v347 main_v372 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v339 main_v360 ![main_v363, main_v366, main_v369, main_v372] ⟨S_, .i32⟩ main_v373 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc021_sub : (pc021 (F := F)).Forall fun op => op.bufs ⊆ tcRefs τ sig :=
  ⟨binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc021_fresh : ∀ op ∈ (pc021 (F := F)), op.fresh = ∅ := by
  intro _ h; (repeat (cases h with | head => rfl | tail _ h => ?_)); exact nomatch h

/-- Operations 760 … 792 of 4424. -/
noncomputable def pc022 : List (HloOp τ sig (Elt F)) :=
  [ unary main_arg2 main_v374 ((extractStridedSlice S1x1x1 ![2, 3, 0] · slices_S16x4x2_S1x1x1_2_3_0) : (⟨S16x4x2, .i32⟩ : BufTy).Contents (Elt F) → (⟨S1x1x1, .i32⟩ : BufTy).Contents (Elt F)),
    reshape main_v374 main_v375 rfl shapeCasts_S1x1x1_S_,
    nullary main_c_318 (constantI S_ 32 128#32),
    binary main_v375 main_c_318 main_v376 (muli : (⟨S_, .i32⟩ : BufTy).Contents (Elt F) → (⟨S_, .i32⟩ : BufTy).Contents (Elt F) → (⟨S_, .i32⟩ : BufTy).Contents (Elt F)),
    nullary main_c_319 (constantI S_ 32 0#32),
    nullary main_c_320 (constantI S_ 32 128#32),
    TRef.unary (TRef.of (T := ⟨S_, .i32⟩) main_c_319) (TRef.of (T := ⟨S_, .i32⟩) main_call22_v0) id,
    TRef.binary (TRef.of (T := ⟨S_, .i32⟩) main_call22_v0) (TRef.of (T := ⟨S_, .i32⟩) main_v376) (TRef.of (T := ⟨S_, .i32⟩) main_call22_v1) maxsi,
    TRef.unary (TRef.of (T := ⟨S_, .i32⟩) main_c_320) (TRef.of (T := ⟨S_, .i32⟩) main_call22_v2) id,
    TRef.binary (TRef.of (T := ⟨S_, .i32⟩) main_call22_v2) (TRef.of (T := ⟨S_, .i32⟩) main_call22_v1) (TRef.of (T := ⟨S_, .i32⟩) main_v377) minsi,
    unary main_arg2 main_v378 ((extractStridedSlice S1x1x1 ![2, 3, 1] · slices_S16x4x2_S1x1x1_2_3_1) : (⟨S16x4x2, .i32⟩ : BufTy).Contents (Elt F) → (⟨S1x1x1, .i32⟩ : BufTy).Contents (Elt F)),
    reshape main_v378 main_v379 rfl shapeCasts_S1x1x1_S_,
    nullary main_c_321 (constantI S_ 32 128#32),
    binary main_v379 main_c_321 main_v380 (muli : (⟨S_, .i32⟩ : BufTy).Contents (Elt F) → (⟨S_, .i32⟩ : BufTy).Contents (Elt F) → (⟨S_, .i32⟩ : BufTy).Contents (Elt F)),
    nullary main_c_322 (constantI S_ 32 0#32),
    nullary main_c_323 (constantI S_ 32 128#32),
    TRef.unary (TRef.of (T := ⟨S_, .i32⟩) main_c_322) (TRef.of (T := ⟨S_, .i32⟩) main_call23_v0) id,
    TRef.binary (TRef.of (T := ⟨S_, .i32⟩) main_call23_v0) (TRef.of (T := ⟨S_, .i32⟩) main_v380) (TRef.of (T := ⟨S_, .i32⟩) main_call23_v1) maxsi,
    TRef.unary (TRef.of (T := ⟨S_, .i32⟩) main_c_323) (TRef.of (T := ⟨S_, .i32⟩) main_call23_v2) id,
    TRef.binary (TRef.of (T := ⟨S_, .i32⟩) main_call23_v2) (TRef.of (T := ⟨S_, .i32⟩) main_call23_v1) (TRef.of (T := ⟨S_, .i32⟩) main_v381) minsi,
    unary main_arg1 main_v382 ((extractStridedSlice S1x1x1x512x512 ![2, 3, 0, 0, 0] · slices_S16x4x1x512x512_S1x1x1x512x512_2_3_0_0_0) : (⟨S16x4x1x512x512, .f32⟩ : BufTy).Contents (Elt F) → (⟨S1x1x1x512x512, .f32⟩ : BufTy).Contents (Elt F)),
    reshape main_v382 main_v383 rfl shapeCasts_S1x1x1x512x512_S1x512x512,
    nullary main_c_324 (constantI S_ 32 0#32),
    nullary main_c_325 (constantI S_ 32 0#32),
    binary main_c_324 main_c_325 main_v384 (cmpi .slt : (⟨S_, .i32⟩ : BufTy).Contents (Elt F) → (⟨S_, .i32⟩ : BufTy).Contents (Elt F) → (⟨S_, .i1⟩ : BufTy).Contents (Elt F)),
    nullary main_c_326 (constantI S_ 32 0#32),
    nullary main_c_327 (constantI S_ 32 1#32),
    binary main_c_326 main_c_327 main_v385 (addi : (⟨S_, .i32⟩ : BufTy).Contents (Elt F) → (⟨S_, .i32⟩ : BufTy).Contents (Elt F) → (⟨S_, .i32⟩ : BufTy).Contents (Elt F)),
    nullary main_c_328 (constantI S_ 32 0#32),
    ternary main_v384 main_v385 main_c_328 main_v386 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_329 (constantI S_ 32 0#32),
    binary main_v377 main_c_329 main_v387 (cmpi .slt : (⟨S_, .i32⟩ : BufTy).Contents (Elt F) → (⟨S_, .i32⟩ : BufTy).Contents (Elt F) → (⟨S_, .i1⟩ : BufTy).Contents (Elt F)),
    nullary main_c_330 (constantI S_ 32 512#32) ]
theorem pc022_sub : (pc022 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub ..⟩
theorem pc022_fresh : ∀ op ∈ (pc022 (F := F)), op.fresh = ∅ := by
  intro _ h; (repeat (cases h with | head => rfl | tail _ h => ?_)); exact nomatch h

/-- Operations 793 … 828 of 4424. -/
noncomputable def pc023 : List (HloOp τ sig (Elt F)) :=
  [ binary main_v377 main_c_330 main_v388 (addi : (⟨S_, .i32⟩ : BufTy).Contents (Elt F) → (⟨S_, .i32⟩ : BufTy).Contents (Elt F) → (⟨S_, .i32⟩ : BufTy).Contents (Elt F)),
    ternary main_v387 main_v388 main_v377 main_v389 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_331 (constantI S_ 32 0#32),
    binary main_v381 main_c_331 main_v390 (cmpi .slt : (⟨S_, .i32⟩ : BufTy).Contents (Elt F) → (⟨S_, .i32⟩ : BufTy).Contents (Elt F) → (⟨S_, .i1⟩ : BufTy).Contents (Elt F)),
    nullary main_c_332 (constantI S_ 32 512#32),
    binary main_v381 main_c_332 main_v391 (addi : (⟨S_, .i32⟩ : BufTy).Contents (Elt F) → (⟨S_, .i32⟩ : BufTy).Contents (Elt F) → (⟨S_, .i32⟩ : BufTy).Contents (Elt F)),
    ternary main_v390 main_v391 main_v381 main_v392 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v383 ![main_v386, main_v389, main_v392] ⟨S_, .i32⟩ main_v393 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v393 main_v394 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_333 (constantI S_ 32 2#32),
    nullary main_c_334 (constantI S_ 32 0#32),
    binary main_c_333 main_c_334 main_v395 (cmpi .slt : (⟨S_, .i32⟩ : BufTy).Contents (Elt F) → (⟨S_, .i32⟩ : BufTy).Contents (Elt F) → (⟨S_, .i1⟩ : BufTy).Contents (Elt F)),
    nullary main_c_335 (constantI S_ 32 2#32),
    nullary main_c_336 (constantI S_ 32 16#32),
    binary main_c_335 main_c_336 main_v396 (addi : (⟨S_, .i32⟩ : BufTy).Contents (Elt F) → (⟨S_, .i32⟩ : BufTy).Contents (Elt F) → (⟨S_, .i32⟩ : BufTy).Contents (Elt F)),
    nullary main_c_337 (constantI S_ 32 2#32),
    ternary main_v395 main_v396 main_c_337 main_v397 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_338 (constantI S_ 32 0#32),
    nullary main_c_339 (constantI S_ 32 0#32),
    binary main_c_338 main_c_339 main_v398 (cmpi .slt : (⟨S_, .i32⟩ : BufTy).Contents (Elt F) → (⟨S_, .i32⟩ : BufTy).Contents (Elt F) → (⟨S_, .i1⟩ : BufTy).Contents (Elt F)),
    nullary main_c_340 (constantI S_ 32 0#32),
    nullary main_c_341 (constantI S_ 32 1#32),
    binary main_c_340 main_c_341 main_v399 (addi : (⟨S_, .i32⟩ : BufTy).Contents (Elt F) → (⟨S_, .i32⟩ : BufTy).Contents (Elt F) → (⟨S_, .i32⟩ : BufTy).Contents (Elt F)),
    nullary main_c_342 (constantI S_ 32 0#32),
    ternary main_v398 main_v399 main_c_342 main_v400 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_343 (constantI S_ 32 0#32),
    binary main_v377 main_c_343 main_v401 (cmpi .slt : (⟨S_, .i32⟩ : BufTy).Contents (Elt F) → (⟨S_, .i32⟩ : BufTy).Contents (Elt F) → (⟨S_, .i1⟩ : BufTy).Contents (Elt F)),
    nullary main_c_344 (constantI S_ 32 512#32),
    binary main_v377 main_c_344 main_v402 (addi : (⟨S_, .i32⟩ : BufTy).Contents (Elt F) → (⟨S_, .i32⟩ : BufTy).Contents (Elt F) → (⟨S_, .i32⟩ : BufTy).Contents (Elt F)),
    ternary main_v401 main_v402 main_v377 main_v403 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_345 (constantI S_ 32 0#32),
    binary main_v381 main_c_345 main_v404 (cmpi .slt : (⟨S_, .i32⟩ : BufTy).Contents (Elt F) → (⟨S_, .i32⟩ : BufTy).Contents (Elt F) → (⟨S_, .i1⟩ : BufTy).Contents (Elt F)),
    nullary main_c_346 (constantI S_ 32 512#32),
    binary main_v381 main_c_346 main_v405 (addi : (⟨S_, .i32⟩ : BufTy).Contents (Elt F) → (⟨S_, .i32⟩ : BufTy).Contents (Elt F) → (⟨S_, .i32⟩ : BufTy).Contents (Elt F)),
    ternary main_v404 main_v405 main_v381 main_v406 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v373 main_v394 ![main_v397, main_v400, main_v403, main_v406] ⟨S_, .i32⟩ main_v407 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc023_sub : (pc023 (F := F)).Forall fun op => op.bufs ⊆ tcRefs τ sig :=
  ⟨binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc023_fresh : ∀ op ∈ (pc023 (F := F)), op.fresh = ∅ := by
  intro _ h; (repeat (cases h with | head => rfl | tail _ h => ?_)); exact nomatch h

/-- Operations 829 … 858 of 4424. -/
noncomputable def pc024 : List (HloOp τ sig (Elt F)) :=
  [ unary main_arg2 main_v408 ((extractStridedSlice S1x1x1 ![3, 0, 0] · slices_S16x4x2_S1x1x1_3_0_0) : (⟨S16x4x2, .i32⟩ : BufTy).Contents (Elt F) → (⟨S1x1x1, .i32⟩ : BufTy).Contents (Elt F)),
    reshape main_v408 main_v409 rfl shapeCasts_S1x1x1_S_,
    nullary main_c_347 (constantI S_ 32 128#32),
    binary main_v409 main_c_347 main_v410 (muli : (⟨S_, .i32⟩ : BufTy).Contents (Elt F) → (⟨S_, .i32⟩ : BufTy).Contents (Elt F) → (⟨S_, .i32⟩ : BufTy).Contents (Elt F)),
    nullary main_c_348 (constantI S_ 32 0#32),
    nullary main_c_349 (constantI S_ 32 128#32),
    TRef.unary (TRef.of (T := ⟨S_, .i32⟩) main_c_348) (TRef.of (T := ⟨S_, .i32⟩) main_call24_v0) id,
    TRef.binary (TRef.of (T := ⟨S_, .i32⟩) main_call24_v0) (TRef.of (T := ⟨S_, .i32⟩) main_v410) (TRef.of (T := ⟨S_, .i32⟩) main_call24_v1) maxsi,
    TRef.unary (TRef.of (T := ⟨S_, .i32⟩) main_c_349) (TRef.of (T := ⟨S_, .i32⟩) main_call24_v2) id,
    TRef.binary (TRef.of (T := ⟨S_, .i32⟩) main_call24_v2) (TRef.of (T := ⟨S_, .i32⟩) main_call24_v1) (TRef.of (T := ⟨S_, .i32⟩) main_v411) minsi,
    unary main_arg2 main_v412 ((extractStridedSlice S1x1x1 ![3, 0, 1] · slices_S16x4x2_S1x1x1_3_0_1) : (⟨S16x4x2, .i32⟩ : BufTy).Contents (Elt F) → (⟨S1x1x1, .i32⟩ : BufTy).Contents (Elt F)),
    reshape main_v412 main_v413 rfl shapeCasts_S1x1x1_S_,
    nullary main_c_350 (constantI S_ 32 128#32),
    binary main_v413 main_c_350 main_v414 (muli : (⟨S_, .i32⟩ : BufTy).Contents (Elt F) → (⟨S_, .i32⟩ : BufTy).Contents (Elt F) → (⟨S_, .i32⟩ : BufTy).Contents (Elt F)),
    nullary main_c_351 (constantI S_ 32 0#32),
    nullary main_c_352 (constantI S_ 32 128#32),
    TRef.unary (TRef.of (T := ⟨S_, .i32⟩) main_c_351) (TRef.of (T := ⟨S_, .i32⟩) main_call25_v0) id,
    TRef.binary (TRef.of (T := ⟨S_, .i32⟩) main_call25_v0) (TRef.of (T := ⟨S_, .i32⟩) main_v414) (TRef.of (T := ⟨S_, .i32⟩) main_call25_v1) maxsi,
    TRef.unary (TRef.of (T := ⟨S_, .i32⟩) main_c_352) (TRef.of (T := ⟨S_, .i32⟩) main_call25_v2) id,
    TRef.binary (TRef.of (T := ⟨S_, .i32⟩) main_call25_v2) (TRef.of (T := ⟨S_, .i32⟩) main_call25_v1) (TRef.of (T := ⟨S_, .i32⟩) main_v415) minsi,
    unary main_arg1 main_v416 ((extractStridedSlice S1x1x1x512x512 ![3, 0, 0, 0, 0] · slices_S16x4x1x512x512_S1x1x1x512x512_3_0_0_0_0) : (⟨S16x4x1x512x512, .f32⟩ : BufTy).Contents (Elt F) → (⟨S1x1x1x512x512, .f32⟩ : BufTy).Contents (Elt F)),
    reshape main_v416 main_v417 rfl shapeCasts_S1x1x1x512x512_S1x512x512,
    nullary main_c_353 (constantI S_ 32 0#32),
    nullary main_c_354 (constantI S_ 32 0#32),
    binary main_c_353 main_c_354 main_v418 (cmpi .slt : (⟨S_, .i32⟩ : BufTy).Contents (Elt F) → (⟨S_, .i32⟩ : BufTy).Contents (Elt F) → (⟨S_, .i1⟩ : BufTy).Contents (Elt F)),
    nullary main_c_355 (constantI S_ 32 0#32),
    nullary main_c_356 (constantI S_ 32 1#32),
    binary main_c_355 main_c_356 main_v419 (addi : (⟨S_, .i32⟩ : BufTy).Contents (Elt F) → (⟨S_, .i32⟩ : BufTy).Contents (Elt F) → (⟨S_, .i32⟩ : BufTy).Contents (Elt F)),
    nullary main_c_357 (constantI S_ 32 0#32),
    ternary main_v418 main_v419 main_c_357 main_v420 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem pc024_sub : (pc024 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub ..⟩
theorem pc024_fresh : ∀ op ∈ (pc024 (F := F)), op.fresh = ∅ := by
  intro _ h; (repeat (cases h with | head => rfl | tail _ h => ?_)); exact nomatch h

/-- Operations 859 … 897 of 4424. -/
noncomputable def pc025 : List (HloOp τ sig (Elt F)) :=
  [ nullary main_c_358 (constantI S_ 32 0#32),
    binary main_v411 main_c_358 main_v421 (cmpi .slt : (⟨S_, .i32⟩ : BufTy).Contents (Elt F) → (⟨S_, .i32⟩ : BufTy).Contents (Elt F) → (⟨S_, .i1⟩ : BufTy).Contents (Elt F)),
    nullary main_c_359 (constantI S_ 32 512#32),
    binary main_v411 main_c_359 main_v422 (addi : (⟨S_, .i32⟩ : BufTy).Contents (Elt F) → (⟨S_, .i32⟩ : BufTy).Contents (Elt F) → (⟨S_, .i32⟩ : BufTy).Contents (Elt F)),
    ternary main_v421 main_v422 main_v411 main_v423 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_360 (constantI S_ 32 0#32),
    binary main_v415 main_c_360 main_v424 (cmpi .slt : (⟨S_, .i32⟩ : BufTy).Contents (Elt F) → (⟨S_, .i32⟩ : BufTy).Contents (Elt F) → (⟨S_, .i1⟩ : BufTy).Contents (Elt F)),
    nullary main_c_361 (constantI S_ 32 512#32),
    binary main_v415 main_c_361 main_v425 (addi : (⟨S_, .i32⟩ : BufTy).Contents (Elt F) → (⟨S_, .i32⟩ : BufTy).Contents (Elt F) → (⟨S_, .i32⟩ : BufTy).Contents (Elt F)),
    ternary main_v424 main_v425 main_v415 main_v426 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v417 ![main_v420, main_v423, main_v426] ⟨S_, .i32⟩ main_v427 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v427 main_v428 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_362 (constantI S_ 32 3#32),
    nullary main_c_363 (constantI S_ 32 0#32),
    binary main_c_362 main_c_363 main_v429 (cmpi .slt : (⟨S_, .i32⟩ : BufTy).Contents (Elt F) → (⟨S_, .i32⟩ : BufTy).Contents (Elt F) → (⟨S_, .i1⟩ : BufTy).Contents (Elt F)),
    nullary main_c_364 (constantI S_ 32 3#32),
    nullary main_c_365 (constantI S_ 32 16#32),
    binary main_c_364 main_c_365 main_v430 (addi : (⟨S_, .i32⟩ : BufTy).Contents (Elt F) → (⟨S_, .i32⟩ : BufTy).Contents (Elt F) → (⟨S_, .i32⟩ : BufTy).Contents (Elt F)),
    nullary main_c_366 (constantI S_ 32 3#32),
    ternary main_v429 main_v430 main_c_366 main_v431 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_367 (constantI S_ 32 0#32),
    nullary main_c_368 (constantI S_ 32 0#32),
    binary main_c_367 main_c_368 main_v432 (cmpi .slt : (⟨S_, .i32⟩ : BufTy).Contents (Elt F) → (⟨S_, .i32⟩ : BufTy).Contents (Elt F) → (⟨S_, .i1⟩ : BufTy).Contents (Elt F)),
    nullary main_c_369 (constantI S_ 32 0#32),
    nullary main_c_370 (constantI S_ 32 1#32),
    binary main_c_369 main_c_370 main_v433 (addi : (⟨S_, .i32⟩ : BufTy).Contents (Elt F) → (⟨S_, .i32⟩ : BufTy).Contents (Elt F) → (⟨S_, .i32⟩ : BufTy).Contents (Elt F)),
    nullary main_c_371 (constantI S_ 32 0#32),
    ternary main_v432 main_v433 main_c_371 main_v434 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_372 (constantI S_ 32 0#32),
    binary main_v411 main_c_372 main_v435 (cmpi .slt : (⟨S_, .i32⟩ : BufTy).Contents (Elt F) → (⟨S_, .i32⟩ : BufTy).Contents (Elt F) → (⟨S_, .i1⟩ : BufTy).Contents (Elt F)),
    nullary main_c_373 (constantI S_ 32 512#32),
    binary main_v411 main_c_373 main_v436 (addi : (⟨S_, .i32⟩ : BufTy).Contents (Elt F) → (⟨S_, .i32⟩ : BufTy).Contents (Elt F) → (⟨S_, .i32⟩ : BufTy).Contents (Elt F)),
    ternary main_v435 main_v436 main_v411 main_v437 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_374 (constantI S_ 32 0#32),
    binary main_v415 main_c_374 main_v438 (cmpi .slt : (⟨S_, .i32⟩ : BufTy).Contents (Elt F) → (⟨S_, .i32⟩ : BufTy).Contents (Elt F) → (⟨S_, .i1⟩ : BufTy).Contents (Elt F)),
    nullary main_c_375 (constantI S_ 32 512#32),
    binary main_v415 main_c_375 main_v439 (addi : (⟨S_, .i32⟩ : BufTy).Contents (Elt F) → (⟨S_, .i32⟩ : BufTy).Contents (Elt F) → (⟨S_, .i32⟩ : BufTy).Contents (Elt F)),
    ternary main_v438 main_v439 main_v415 main_v440 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v407 main_v428 ![main_v431, main_v434, main_v437, main_v440] ⟨S_, .i32⟩ main_v441 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc025_sub : (pc025 (F := F)).Forall fun op => op.bufs ⊆ tcRefs τ sig :=
  ⟨nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc025_fresh : ∀ op ∈ (pc025 (F := F)), op.fresh = ∅ := by
  intro _ h; (repeat (cases h with | head => rfl | tail _ h => ?_)); exact nomatch h

/-- Operations 898 … 924 of 4424. -/
noncomputable def pc026 : List (HloOp τ sig (Elt F)) :=
  [ unary main_arg2 main_v442 ((extractStridedSlice S1x1x1 ![3, 1, 0] · slices_S16x4x2_S1x1x1_3_1_0) : (⟨S16x4x2, .i32⟩ : BufTy).Contents (Elt F) → (⟨S1x1x1, .i32⟩ : BufTy).Contents (Elt F)),
    reshape main_v442 main_v443 rfl shapeCasts_S1x1x1_S_,
    nullary main_c_376 (constantI S_ 32 128#32),
    binary main_v443 main_c_376 main_v444 (muli : (⟨S_, .i32⟩ : BufTy).Contents (Elt F) → (⟨S_, .i32⟩ : BufTy).Contents (Elt F) → (⟨S_, .i32⟩ : BufTy).Contents (Elt F)),
    nullary main_c_377 (constantI S_ 32 0#32),
    nullary main_c_378 (constantI S_ 32 128#32),
    TRef.unary (TRef.of (T := ⟨S_, .i32⟩) main_c_377) (TRef.of (T := ⟨S_, .i32⟩) main_call26_v0) id,
    TRef.binary (TRef.of (T := ⟨S_, .i32⟩) main_call26_v0) (TRef.of (T := ⟨S_, .i32⟩) main_v444) (TRef.of (T := ⟨S_, .i32⟩) main_call26_v1) maxsi,
    TRef.unary (TRef.of (T := ⟨S_, .i32⟩) main_c_378) (TRef.of (T := ⟨S_, .i32⟩) main_call26_v2) id,
    TRef.binary (TRef.of (T := ⟨S_, .i32⟩) main_call26_v2) (TRef.of (T := ⟨S_, .i32⟩) main_call26_v1) (TRef.of (T := ⟨S_, .i32⟩) main_v445) minsi,
    unary main_arg2 main_v446 ((extractStridedSlice S1x1x1 ![3, 1, 1] · slices_S16x4x2_S1x1x1_3_1_1) : (⟨S16x4x2, .i32⟩ : BufTy).Contents (Elt F) → (⟨S1x1x1, .i32⟩ : BufTy).Contents (Elt F)),
    reshape main_v446 main_v447 rfl shapeCasts_S1x1x1_S_,
    nullary main_c_379 (constantI S_ 32 128#32),
    binary main_v447 main_c_379 main_v448 (muli : (⟨S_, .i32⟩ : BufTy).Contents (Elt F) → (⟨S_, .i32⟩ : BufTy).Contents (Elt F) → (⟨S_, .i32⟩ : BufTy).Contents (Elt F)),
    nullary main_c_380 (constantI S_ 32 0#32),
    nullary main_c_381 (constantI S_ 32 128#32),
    TRef.unary (TRef.of (T := ⟨S_, .i32⟩) main_c_380) (TRef.of (T := ⟨S_, .i32⟩) main_call27_v0) id,
    TRef.binary (TRef.of (T := ⟨S_, .i32⟩) main_call27_v0) (TRef.of (T := ⟨S_, .i32⟩) main_v448) (TRef.of (T := ⟨S_, .i32⟩) main_call27_v1) maxsi,
    TRef.unary (TRef.of (T := ⟨S_, .i32⟩) main_c_381) (TRef.of (T := ⟨S_, .i32⟩) main_call27_v2) id,
    TRef.binary (TRef.of (T := ⟨S_, .i32⟩) main_call27_v2) (TRef.of (T := ⟨S_, .i32⟩) main_call27_v1) (TRef.of (T := ⟨S_, .i32⟩) main_v449) minsi,
    unary main_arg1 main_v450 ((extractStridedSlice S1x1x1x512x512 ![3, 1, 0, 0, 0] · slices_S16x4x1x512x512_S1x1x1x512x512_3_1_0_0_0) : (⟨S16x4x1x512x512, .f32⟩ : BufTy).Contents (Elt F) → (⟨S1x1x1x512x512, .f32⟩ : BufTy).Contents (Elt F)),
    reshape main_v450 main_v451 rfl shapeCasts_S1x1x1x512x512_S1x512x512,
    nullary main_c_382 (constantI S_ 32 0#32),
    nullary main_c_383 (constantI S_ 32 0#32),
    binary main_c_382 main_c_383 main_v452 (cmpi .slt : (⟨S_, .i32⟩ : BufTy).Contents (Elt F) → (⟨S_, .i32⟩ : BufTy).Contents (Elt F) → (⟨S_, .i1⟩ : BufTy).Contents (Elt F)),
    nullary main_c_384 (constantI S_ 32 0#32),
    nullary main_c_385 (constantI S_ 32 1#32) ]
theorem pc026_sub : (pc026 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub ..⟩
theorem pc026_fresh : ∀ op ∈ (pc026 (F := F)), op.fresh = ∅ := by
  intro _ h; (repeat (cases h with | head => rfl | tail _ h => ?_)); exact nomatch h

/-- Operations 925 … 966 of 4424. -/
noncomputable def pc027 : List (HloOp τ sig (Elt F)) :=
  [ binary main_c_384 main_c_385 main_v453 (addi : (⟨S_, .i32⟩ : BufTy).Contents (Elt F) → (⟨S_, .i32⟩ : BufTy).Contents (Elt F) → (⟨S_, .i32⟩ : BufTy).Contents (Elt F)),
    nullary main_c_386 (constantI S_ 32 0#32),
    ternary main_v452 main_v453 main_c_386 main_v454 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_387 (constantI S_ 32 0#32),
    binary main_v445 main_c_387 main_v455 (cmpi .slt : (⟨S_, .i32⟩ : BufTy).Contents (Elt F) → (⟨S_, .i32⟩ : BufTy).Contents (Elt F) → (⟨S_, .i1⟩ : BufTy).Contents (Elt F)),
    nullary main_c_388 (constantI S_ 32 512#32),
    binary main_v445 main_c_388 main_v456 (addi : (⟨S_, .i32⟩ : BufTy).Contents (Elt F) → (⟨S_, .i32⟩ : BufTy).Contents (Elt F) → (⟨S_, .i32⟩ : BufTy).Contents (Elt F)),
    ternary main_v455 main_v456 main_v445 main_v457 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_389 (constantI S_ 32 0#32),
    binary main_v449 main_c_389 main_v458 (cmpi .slt : (⟨S_, .i32⟩ : BufTy).Contents (Elt F) → (⟨S_, .i32⟩ : BufTy).Contents (Elt F) → (⟨S_, .i1⟩ : BufTy).Contents (Elt F)),
    nullary main_c_390 (constantI S_ 32 512#32),
    binary main_v449 main_c_390 main_v459 (addi : (⟨S_, .i32⟩ : BufTy).Contents (Elt F) → (⟨S_, .i32⟩ : BufTy).Contents (Elt F) → (⟨S_, .i32⟩ : BufTy).Contents (Elt F)),
    ternary main_v458 main_v459 main_v449 main_v460 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v451 ![main_v454, main_v457, main_v460] ⟨S_, .i32⟩ main_v461 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v461 main_v462 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_391 (constantI S_ 32 3#32),
    nullary main_c_392 (constantI S_ 32 0#32),
    binary main_c_391 main_c_392 main_v463 (cmpi .slt : (⟨S_, .i32⟩ : BufTy).Contents (Elt F) → (⟨S_, .i32⟩ : BufTy).Contents (Elt F) → (⟨S_, .i1⟩ : BufTy).Contents (Elt F)),
    nullary main_c_393 (constantI S_ 32 3#32),
    nullary main_c_394 (constantI S_ 32 16#32),
    binary main_c_393 main_c_394 main_v464 (addi : (⟨S_, .i32⟩ : BufTy).Contents (Elt F) → (⟨S_, .i32⟩ : BufTy).Contents (Elt F) → (⟨S_, .i32⟩ : BufTy).Contents (Elt F)),
    nullary main_c_395 (constantI S_ 32 3#32),
    ternary main_v463 main_v464 main_c_395 main_v465 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_396 (constantI S_ 32 0#32),
    nullary main_c_397 (constantI S_ 32 0#32),
    binary main_c_396 main_c_397 main_v466 (cmpi .slt : (⟨S_, .i32⟩ : BufTy).Contents (Elt F) → (⟨S_, .i32⟩ : BufTy).Contents (Elt F) → (⟨S_, .i1⟩ : BufTy).Contents (Elt F)),
    nullary main_c_398 (constantI S_ 32 0#32),
    nullary main_c_399 (constantI S_ 32 1#32),
    binary main_c_398 main_c_399 main_v467 (addi : (⟨S_, .i32⟩ : BufTy).Contents (Elt F) → (⟨S_, .i32⟩ : BufTy).Contents (Elt F) → (⟨S_, .i32⟩ : BufTy).Contents (Elt F)),
    nullary main_c_400 (constantI S_ 32 0#32),
    ternary main_v466 main_v467 main_c_400 main_v468 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_401 (constantI S_ 32 0#32),
    binary main_v445 main_c_401 main_v469 (cmpi .slt : (⟨S_, .i32⟩ : BufTy).Contents (Elt F) → (⟨S_, .i32⟩ : BufTy).Contents (Elt F) → (⟨S_, .i1⟩ : BufTy).Contents (Elt F)),
    nullary main_c_402 (constantI S_ 32 512#32),
    binary main_v445 main_c_402 main_v470 (addi : (⟨S_, .i32⟩ : BufTy).Contents (Elt F) → (⟨S_, .i32⟩ : BufTy).Contents (Elt F) → (⟨S_, .i32⟩ : BufTy).Contents (Elt F)),
    ternary main_v469 main_v470 main_v445 main_v471 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_403 (constantI S_ 32 0#32),
    binary main_v449 main_c_403 main_v472 (cmpi .slt : (⟨S_, .i32⟩ : BufTy).Contents (Elt F) → (⟨S_, .i32⟩ : BufTy).Contents (Elt F) → (⟨S_, .i1⟩ : BufTy).Contents (Elt F)),
    nullary main_c_404 (constantI S_ 32 512#32),
    binary main_v449 main_c_404 main_v473 (addi : (⟨S_, .i32⟩ : BufTy).Contents (Elt F) → (⟨S_, .i32⟩ : BufTy).Contents (Elt F) → (⟨S_, .i32⟩ : BufTy).Contents (Elt F)),
    ternary main_v472 main_v473 main_v449 main_v474 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v441 main_v462 ![main_v465, main_v468, main_v471, main_v474] ⟨S_, .i32⟩ main_v475 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc027_sub : (pc027 (F := F)).Forall fun op => op.bufs ⊆ tcRefs τ sig :=
  ⟨binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc027_fresh : ∀ op ∈ (pc027 (F := F)), op.fresh = ∅ := by
  intro _ h; (repeat (cases h with | head => rfl | tail _ h => ?_)); exact nomatch h

/-- Operations 967 … 990 of 4424. -/
noncomputable def pc028 : List (HloOp τ sig (Elt F)) :=
  [ unary main_arg2 main_v476 ((extractStridedSlice S1x1x1 ![3, 2, 0] · slices_S16x4x2_S1x1x1_3_2_0) : (⟨S16x4x2, .i32⟩ : BufTy).Contents (Elt F) → (⟨S1x1x1, .i32⟩ : BufTy).Contents (Elt F)),
    reshape main_v476 main_v477 rfl shapeCasts_S1x1x1_S_,
    nullary main_c_405 (constantI S_ 32 128#32),
    binary main_v477 main_c_405 main_v478 (muli : (⟨S_, .i32⟩ : BufTy).Contents (Elt F) → (⟨S_, .i32⟩ : BufTy).Contents (Elt F) → (⟨S_, .i32⟩ : BufTy).Contents (Elt F)),
    nullary main_c_406 (constantI S_ 32 0#32),
    nullary main_c_407 (constantI S_ 32 128#32),
    TRef.unary (TRef.of (T := ⟨S_, .i32⟩) main_c_406) (TRef.of (T := ⟨S_, .i32⟩) main_call28_v0) id,
    TRef.binary (TRef.of (T := ⟨S_, .i32⟩) main_call28_v0) (TRef.of (T := ⟨S_, .i32⟩) main_v478) (TRef.of (T := ⟨S_, .i32⟩) main_call28_v1) maxsi,
    TRef.unary (TRef.of (T := ⟨S_, .i32⟩) main_c_407) (TRef.of (T := ⟨S_, .i32⟩) main_call28_v2) id,
    TRef.binary (TRef.of (T := ⟨S_, .i32⟩) main_call28_v2) (TRef.of (T := ⟨S_, .i32⟩) main_call28_v1) (TRef.of (T := ⟨S_, .i32⟩) main_v479) minsi,
    unary main_arg2 main_v480 ((extractStridedSlice S1x1x1 ![3, 2, 1] · slices_S16x4x2_S1x1x1_3_2_1) : (⟨S16x4x2, .i32⟩ : BufTy).Contents (Elt F) → (⟨S1x1x1, .i32⟩ : BufTy).Contents (Elt F)),
    reshape main_v480 main_v481 rfl shapeCasts_S1x1x1_S_,
    nullary main_c_408 (constantI S_ 32 128#32),
    binary main_v481 main_c_408 main_v482 (muli : (⟨S_, .i32⟩ : BufTy).Contents (Elt F) → (⟨S_, .i32⟩ : BufTy).Contents (Elt F) → (⟨S_, .i32⟩ : BufTy).Contents (Elt F)),
    nullary main_c_409 (constantI S_ 32 0#32),
    nullary main_c_410 (constantI S_ 32 128#32),
    TRef.unary (TRef.of (T := ⟨S_, .i32⟩) main_c_409) (TRef.of (T := ⟨S_, .i32⟩) main_call29_v0) id,
    TRef.binary (TRef.of (T := ⟨S_, .i32⟩) main_call29_v0) (TRef.of (T := ⟨S_, .i32⟩) main_v482) (TRef.of (T := ⟨S_, .i32⟩) main_call29_v1) maxsi,
    TRef.unary (TRef.of (T := ⟨S_, .i32⟩) main_c_410) (TRef.of (T := ⟨S_, .i32⟩) main_call29_v2) id,
    TRef.binary (TRef.of (T := ⟨S_, .i32⟩) main_call29_v2) (TRef.of (T := ⟨S_, .i32⟩) main_call29_v1) (TRef.of (T := ⟨S_, .i32⟩) main_v483) minsi,
    unary main_arg1 main_v484 ((extractStridedSlice S1x1x1x512x512 ![3, 2, 0, 0, 0] · slices_S16x4x1x512x512_S1x1x1x512x512_3_2_0_0_0) : (⟨S16x4x1x512x512, .f32⟩ : BufTy).Contents (Elt F) → (⟨S1x1x1x512x512, .f32⟩ : BufTy).Contents (Elt F)),
    reshape main_v484 main_v485 rfl shapeCasts_S1x1x1x512x512_S1x512x512,
    nullary main_c_411 (constantI S_ 32 0#32),
    nullary main_c_412 (constantI S_ 32 0#32) ]
theorem pc028_sub : (pc028 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub ..⟩
theorem pc028_fresh : ∀ op ∈ (pc028 (F := F)), op.fresh = ∅ := by
  intro _ h; (repeat (cases h with | head => rfl | tail _ h => ?_)); exact nomatch h

/-- Operations 991 … 1035 of 4424. -/
noncomputable def pc029 : List (HloOp τ sig (Elt F)) :=
  [ binary main_c_411 main_c_412 main_v486 (cmpi .slt : (⟨S_, .i32⟩ : BufTy).Contents (Elt F) → (⟨S_, .i32⟩ : BufTy).Contents (Elt F) → (⟨S_, .i1⟩ : BufTy).Contents (Elt F)),
    nullary main_c_413 (constantI S_ 32 0#32),
    nullary main_c_414 (constantI S_ 32 1#32),
    binary main_c_413 main_c_414 main_v487 (addi : (⟨S_, .i32⟩ : BufTy).Contents (Elt F) → (⟨S_, .i32⟩ : BufTy).Contents (Elt F) → (⟨S_, .i32⟩ : BufTy).Contents (Elt F)),
    nullary main_c_415 (constantI S_ 32 0#32),
    ternary main_v486 main_v487 main_c_415 main_v488 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_416 (constantI S_ 32 0#32),
    binary main_v479 main_c_416 main_v489 (cmpi .slt : (⟨S_, .i32⟩ : BufTy).Contents (Elt F) → (⟨S_, .i32⟩ : BufTy).Contents (Elt F) → (⟨S_, .i1⟩ : BufTy).Contents (Elt F)),
    nullary main_c_417 (constantI S_ 32 512#32),
    binary main_v479 main_c_417 main_v490 (addi : (⟨S_, .i32⟩ : BufTy).Contents (Elt F) → (⟨S_, .i32⟩ : BufTy).Contents (Elt F) → (⟨S_, .i32⟩ : BufTy).Contents (Elt F)),
    ternary main_v489 main_v490 main_v479 main_v491 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_418 (constantI S_ 32 0#32),
    binary main_v483 main_c_418 main_v492 (cmpi .slt : (⟨S_, .i32⟩ : BufTy).Contents (Elt F) → (⟨S_, .i32⟩ : BufTy).Contents (Elt F) → (⟨S_, .i1⟩ : BufTy).Contents (Elt F)),
    nullary main_c_419 (constantI S_ 32 512#32),
    binary main_v483 main_c_419 main_v493 (addi : (⟨S_, .i32⟩ : BufTy).Contents (Elt F) → (⟨S_, .i32⟩ : BufTy).Contents (Elt F) → (⟨S_, .i32⟩ : BufTy).Contents (Elt F)),
    ternary main_v492 main_v493 main_v483 main_v494 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v485 ![main_v488, main_v491, main_v494] ⟨S_, .i32⟩ main_v495 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v495 main_v496 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_420 (constantI S_ 32 3#32),
    nullary main_c_421 (constantI S_ 32 0#32),
    binary main_c_420 main_c_421 main_v497 (cmpi .slt : (⟨S_, .i32⟩ : BufTy).Contents (Elt F) → (⟨S_, .i32⟩ : BufTy).Contents (Elt F) → (⟨S_, .i1⟩ : BufTy).Contents (Elt F)),
    nullary main_c_422 (constantI S_ 32 3#32),
    nullary main_c_423 (constantI S_ 32 16#32),
    binary main_c_422 main_c_423 main_v498 (addi : (⟨S_, .i32⟩ : BufTy).Contents (Elt F) → (⟨S_, .i32⟩ : BufTy).Contents (Elt F) → (⟨S_, .i32⟩ : BufTy).Contents (Elt F)),
    nullary main_c_424 (constantI S_ 32 3#32),
    ternary main_v497 main_v498 main_c_424 main_v499 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_425 (constantI S_ 32 0#32),
    nullary main_c_426 (constantI S_ 32 0#32),
    binary main_c_425 main_c_426 main_v500 (cmpi .slt : (⟨S_, .i32⟩ : BufTy).Contents (Elt F) → (⟨S_, .i32⟩ : BufTy).Contents (Elt F) → (⟨S_, .i1⟩ : BufTy).Contents (Elt F)),
    nullary main_c_427 (constantI S_ 32 0#32),
    nullary main_c_428 (constantI S_ 32 1#32),
    binary main_c_427 main_c_428 main_v501 (addi : (⟨S_, .i32⟩ : BufTy).Contents (Elt F) → (⟨S_, .i32⟩ : BufTy).Contents (Elt F) → (⟨S_, .i32⟩ : BufTy).Contents (Elt F)),
    nullary main_c_429 (constantI S_ 32 0#32),
    ternary main_v500 main_v501 main_c_429 main_v502 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_430 (constantI S_ 32 0#32),
    binary main_v479 main_c_430 main_v503 (cmpi .slt : (⟨S_, .i32⟩ : BufTy).Contents (Elt F) → (⟨S_, .i32⟩ : BufTy).Contents (Elt F) → (⟨S_, .i1⟩ : BufTy).Contents (Elt F)),
    nullary main_c_431 (constantI S_ 32 512#32),
    binary main_v479 main_c_431 main_v504 (addi : (⟨S_, .i32⟩ : BufTy).Contents (Elt F) → (⟨S_, .i32⟩ : BufTy).Contents (Elt F) → (⟨S_, .i32⟩ : BufTy).Contents (Elt F)),
    ternary main_v503 main_v504 main_v479 main_v505 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_432 (constantI S_ 32 0#32),
    binary main_v483 main_c_432 main_v506 (cmpi .slt : (⟨S_, .i32⟩ : BufTy).Contents (Elt F) → (⟨S_, .i32⟩ : BufTy).Contents (Elt F) → (⟨S_, .i1⟩ : BufTy).Contents (Elt F)),
    nullary main_c_433 (constantI S_ 32 512#32),
    binary main_v483 main_c_433 main_v507 (addi : (⟨S_, .i32⟩ : BufTy).Contents (Elt F) → (⟨S_, .i32⟩ : BufTy).Contents (Elt F) → (⟨S_, .i32⟩ : BufTy).Contents (Elt F)),
    ternary main_v506 main_v507 main_v483 main_v508 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v475 main_v496 ![main_v499, main_v502, main_v505, main_v508] ⟨S_, .i32⟩ main_v509 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc029_sub : (pc029 (F := F)).Forall fun op => op.bufs ⊆ tcRefs τ sig :=
  ⟨binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc029_fresh : ∀ op ∈ (pc029 (F := F)), op.fresh = ∅ := by
  intro _ h; (repeat (cases h with | head => rfl | tail _ h => ?_)); exact nomatch h

/-- Operations 1036 … 1056 of 4424. -/
noncomputable def pc030 : List (HloOp τ sig (Elt F)) :=
  [ unary main_arg2 main_v510 ((extractStridedSlice S1x1x1 ![3, 3, 0] · slices_S16x4x2_S1x1x1_3_3_0) : (⟨S16x4x2, .i32⟩ : BufTy).Contents (Elt F) → (⟨S1x1x1, .i32⟩ : BufTy).Contents (Elt F)),
    reshape main_v510 main_v511 rfl shapeCasts_S1x1x1_S_,
    nullary main_c_434 (constantI S_ 32 128#32),
    binary main_v511 main_c_434 main_v512 (muli : (⟨S_, .i32⟩ : BufTy).Contents (Elt F) → (⟨S_, .i32⟩ : BufTy).Contents (Elt F) → (⟨S_, .i32⟩ : BufTy).Contents (Elt F)),
    nullary main_c_435 (constantI S_ 32 0#32),
    nullary main_c_436 (constantI S_ 32 128#32),
    TRef.unary (TRef.of (T := ⟨S_, .i32⟩) main_c_435) (TRef.of (T := ⟨S_, .i32⟩) main_call30_v0) id,
    TRef.binary (TRef.of (T := ⟨S_, .i32⟩) main_call30_v0) (TRef.of (T := ⟨S_, .i32⟩) main_v512) (TRef.of (T := ⟨S_, .i32⟩) main_call30_v1) maxsi,
    TRef.unary (TRef.of (T := ⟨S_, .i32⟩) main_c_436) (TRef.of (T := ⟨S_, .i32⟩) main_call30_v2) id,
    TRef.binary (TRef.of (T := ⟨S_, .i32⟩) main_call30_v2) (TRef.of (T := ⟨S_, .i32⟩) main_call30_v1) (TRef.of (T := ⟨S_, .i32⟩) main_v513) minsi,
    unary main_arg2 main_v514 ((extractStridedSlice S1x1x1 ![3, 3, 1] · slices_S16x4x2_S1x1x1_3_3_1) : (⟨S16x4x2, .i32⟩ : BufTy).Contents (Elt F) → (⟨S1x1x1, .i32⟩ : BufTy).Contents (Elt F)),
    reshape main_v514 main_v515 rfl shapeCasts_S1x1x1_S_,
    nullary main_c_437 (constantI S_ 32 128#32),
    binary main_v515 main_c_437 main_v516 (muli : (⟨S_, .i32⟩ : BufTy).Contents (Elt F) → (⟨S_, .i32⟩ : BufTy).Contents (Elt F) → (⟨S_, .i32⟩ : BufTy).Contents (Elt F)),
    nullary main_c_438 (constantI S_ 32 0#32),
    nullary main_c_439 (constantI S_ 32 128#32),
    TRef.unary (TRef.of (T := ⟨S_, .i32⟩) main_c_438) (TRef.of (T := ⟨S_, .i32⟩) main_call31_v0) id,
    TRef.binary (TRef.of (T := ⟨S_, .i32⟩) main_call31_v0) (TRef.of (T := ⟨S_, .i32⟩) main_v516) (TRef.of (T := ⟨S_, .i32⟩) main_call31_v1) maxsi,
    TRef.unary (TRef.of (T := ⟨S_, .i32⟩) main_c_439) (TRef.of (T := ⟨S_, .i32⟩) main_call31_v2) id,
    TRef.binary (TRef.of (T := ⟨S_, .i32⟩) main_call31_v2) (TRef.of (T := ⟨S_, .i32⟩) main_call31_v1) (TRef.of (T := ⟨S_, .i32⟩) main_v517) minsi,
    unary main_arg1 main_v518 ((extractStridedSlice S1x1x1x512x512 ![3, 3, 0, 0, 0] · slices_S16x4x1x512x512_S1x1x1x512x512_3_3_0_0_0) : (⟨S16x4x1x512x512, .f32⟩ : BufTy).Contents (Elt F) → (⟨S1x1x1x512x512, .f32⟩ : BufTy).Contents (Elt F)) ]
theorem pc030_sub : (pc030 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub ..⟩
theorem pc030_fresh : ∀ op ∈ (pc030 (F := F)), op.fresh = ∅ := by
  intro _ h; (repeat (cases h with | head => rfl | tail _ h => ?_)); exact nomatch h

/-- Operations 1057 … 1104 of 4424. -/
noncomputable def pc031 : List (HloOp τ sig (Elt F)) :=
  [ reshape main_v518 main_v519 rfl shapeCasts_S1x1x1x512x512_S1x512x512,
    nullary main_c_440 (constantI S_ 32 0#32),
    nullary main_c_441 (constantI S_ 32 0#32),
    binary main_c_440 main_c_441 main_v520 (cmpi .slt : (⟨S_, .i32⟩ : BufTy).Contents (Elt F) → (⟨S_, .i32⟩ : BufTy).Contents (Elt F) → (⟨S_, .i1⟩ : BufTy).Contents (Elt F)),
    nullary main_c_442 (constantI S_ 32 0#32),
    nullary main_c_443 (constantI S_ 32 1#32),
    binary main_c_442 main_c_443 main_v521 (addi : (⟨S_, .i32⟩ : BufTy).Contents (Elt F) → (⟨S_, .i32⟩ : BufTy).Contents (Elt F) → (⟨S_, .i32⟩ : BufTy).Contents (Elt F)),
    nullary main_c_444 (constantI S_ 32 0#32),
    ternary main_v520 main_v521 main_c_444 main_v522 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_445 (constantI S_ 32 0#32),
    binary main_v513 main_c_445 main_v523 (cmpi .slt : (⟨S_, .i32⟩ : BufTy).Contents (Elt F) → (⟨S_, .i32⟩ : BufTy).Contents (Elt F) → (⟨S_, .i1⟩ : BufTy).Contents (Elt F)),
    nullary main_c_446 (constantI S_ 32 512#32),
    binary main_v513 main_c_446 main_v524 (addi : (⟨S_, .i32⟩ : BufTy).Contents (Elt F) → (⟨S_, .i32⟩ : BufTy).Contents (Elt F) → (⟨S_, .i32⟩ : BufTy).Contents (Elt F)),
    ternary main_v523 main_v524 main_v513 main_v525 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_447 (constantI S_ 32 0#32),
    binary main_v517 main_c_447 main_v526 (cmpi .slt : (⟨S_, .i32⟩ : BufTy).Contents (Elt F) → (⟨S_, .i32⟩ : BufTy).Contents (Elt F) → (⟨S_, .i1⟩ : BufTy).Contents (Elt F)),
    nullary main_c_448 (constantI S_ 32 512#32),
    binary main_v517 main_c_448 main_v527 (addi : (⟨S_, .i32⟩ : BufTy).Contents (Elt F) → (⟨S_, .i32⟩ : BufTy).Contents (Elt F) → (⟨S_, .i32⟩ : BufTy).Contents (Elt F)),
    ternary main_v526 main_v527 main_v517 main_v528 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v519 ![main_v522, main_v525, main_v528] ⟨S_, .i32⟩ main_v529 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v529 main_v530 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_449 (constantI S_ 32 3#32),
    nullary main_c_450 (constantI S_ 32 0#32),
    binary main_c_449 main_c_450 main_v531 (cmpi .slt : (⟨S_, .i32⟩ : BufTy).Contents (Elt F) → (⟨S_, .i32⟩ : BufTy).Contents (Elt F) → (⟨S_, .i1⟩ : BufTy).Contents (Elt F)),
    nullary main_c_451 (constantI S_ 32 3#32),
    nullary main_c_452 (constantI S_ 32 16#32),
    binary main_c_451 main_c_452 main_v532 (addi : (⟨S_, .i32⟩ : BufTy).Contents (Elt F) → (⟨S_, .i32⟩ : BufTy).Contents (Elt F) → (⟨S_, .i32⟩ : BufTy).Contents (Elt F)),
    nullary main_c_453 (constantI S_ 32 3#32),
    ternary main_v531 main_v532 main_c_453 main_v533 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_454 (constantI S_ 32 0#32),
    nullary main_c_455 (constantI S_ 32 0#32),
    binary main_c_454 main_c_455 main_v534 (cmpi .slt : (⟨S_, .i32⟩ : BufTy).Contents (Elt F) → (⟨S_, .i32⟩ : BufTy).Contents (Elt F) → (⟨S_, .i1⟩ : BufTy).Contents (Elt F)),
    nullary main_c_456 (constantI S_ 32 0#32),
    nullary main_c_457 (constantI S_ 32 1#32),
    binary main_c_456 main_c_457 main_v535 (addi : (⟨S_, .i32⟩ : BufTy).Contents (Elt F) → (⟨S_, .i32⟩ : BufTy).Contents (Elt F) → (⟨S_, .i32⟩ : BufTy).Contents (Elt F)),
    nullary main_c_458 (constantI S_ 32 0#32),
    ternary main_v534 main_v535 main_c_458 main_v536 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_459 (constantI S_ 32 0#32),
    binary main_v513 main_c_459 main_v537 (cmpi .slt : (⟨S_, .i32⟩ : BufTy).Contents (Elt F) → (⟨S_, .i32⟩ : BufTy).Contents (Elt F) → (⟨S_, .i1⟩ : BufTy).Contents (Elt F)),
    nullary main_c_460 (constantI S_ 32 512#32),
    binary main_v513 main_c_460 main_v538 (addi : (⟨S_, .i32⟩ : BufTy).Contents (Elt F) → (⟨S_, .i32⟩ : BufTy).Contents (Elt F) → (⟨S_, .i32⟩ : BufTy).Contents (Elt F)),
    ternary main_v537 main_v538 main_v513 main_v539 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_461 (constantI S_ 32 0#32),
    binary main_v517 main_c_461 main_v540 (cmpi .slt : (⟨S_, .i32⟩ : BufTy).Contents (Elt F) → (⟨S_, .i32⟩ : BufTy).Contents (Elt F) → (⟨S_, .i1⟩ : BufTy).Contents (Elt F)),
    nullary main_c_462 (constantI S_ 32 512#32),
    binary main_v517 main_c_462 main_v541 (addi : (⟨S_, .i32⟩ : BufTy).Contents (Elt F) → (⟨S_, .i32⟩ : BufTy).Contents (Elt F) → (⟨S_, .i32⟩ : BufTy).Contents (Elt F)),
    ternary main_v540 main_v541 main_v517 main_v542 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v509 main_v530 ![main_v533, main_v536, main_v539, main_v542] ⟨S_, .i32⟩ main_v543 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc031_sub : (pc031 (F := F)).Forall fun op => op.bufs ⊆ tcRefs τ sig :=
  ⟨reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc031_fresh : ∀ op ∈ (pc031 (F := F)), op.fresh = ∅ := by
  intro _ h; (repeat (cases h with | head => rfl | tail _ h => ?_)); exact nomatch h

/-- Operations 1105 … 1119 of 4424. -/
noncomputable def pc032 : List (HloOp τ sig (Elt F)) :=
  [ unary main_arg2 main_v544 ((extractStridedSlice S1x1x1 ![4, 0, 0] · slices_S16x4x2_S1x1x1_4_0_0) : (⟨S16x4x2, .i32⟩ : BufTy).Contents (Elt F) → (⟨S1x1x1, .i32⟩ : BufTy).Contents (Elt F)),
    reshape main_v544 main_v545 rfl shapeCasts_S1x1x1_S_,
    nullary main_c_463 (constantI S_ 32 128#32),
    binary main_v545 main_c_463 main_v546 (muli : (⟨S_, .i32⟩ : BufTy).Contents (Elt F) → (⟨S_, .i32⟩ : BufTy).Contents (Elt F) → (⟨S_, .i32⟩ : BufTy).Contents (Elt F)),
    nullary main_c_464 (constantI S_ 32 0#32),
    nullary main_c_465 (constantI S_ 32 128#32),
    TRef.unary (TRef.of (T := ⟨S_, .i32⟩) main_c_464) (TRef.of (T := ⟨S_, .i32⟩) main_call32_v0) id,
    TRef.binary (TRef.of (T := ⟨S_, .i32⟩) main_call32_v0) (TRef.of (T := ⟨S_, .i32⟩) main_v546) (TRef.of (T := ⟨S_, .i32⟩) main_call32_v1) maxsi,
    TRef.unary (TRef.of (T := ⟨S_, .i32⟩) main_c_465) (TRef.of (T := ⟨S_, .i32⟩) main_call32_v2) id,
    TRef.binary (TRef.of (T := ⟨S_, .i32⟩) main_call32_v2) (TRef.of (T := ⟨S_, .i32⟩) main_call32_v1) (TRef.of (T := ⟨S_, .i32⟩) main_v547) minsi,
    unary main_arg2 main_v548 ((extractStridedSlice S1x1x1 ![4, 0, 1] · slices_S16x4x2_S1x1x1_4_0_1) : (⟨S16x4x2, .i32⟩ : BufTy).Contents (Elt F) → (⟨S1x1x1, .i32⟩ : BufTy).Contents (Elt F)),
    reshape main_v548 main_v549 rfl shapeCasts_S1x1x1_S_,
    nullary main_c_466 (constantI S_ 32 128#32),
    binary main_v549 main_c_466 main_v550 (muli : (⟨S_, .i32⟩ : BufTy).Contents (Elt F) → (⟨S_, .i32⟩ : BufTy).Contents (Elt F) → (⟨S_, .i32⟩ : BufTy).Contents (Elt F)),
    nullary main_c_467 (constantI S_ 32 0#32) ]
theorem pc032_sub : (pc032 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub ..⟩
theorem pc032_fresh : ∀ op ∈ (pc032 (F := F)), op.fresh = ∅ := by
  intro _ h; (repeat (cases h with | head => rfl | tail _ h => ?_)); exact nomatch h

/-- Operations 1120 … 1173 of 4424. -/
noncomputable def pc033 : List (HloOp τ sig (Elt F)) :=
  [ nullary main_c_468 (constantI S_ 32 128#32),
    TRef.unary (TRef.of (T := ⟨S_, .i32⟩) main_c_467) (TRef.of (T := ⟨S_, .i32⟩) main_call33_v0) id,
    TRef.binary (TRef.of (T := ⟨S_, .i32⟩) main_call33_v0) (TRef.of (T := ⟨S_, .i32⟩) main_v550) (TRef.of (T := ⟨S_, .i32⟩) main_call33_v1) maxsi,
    TRef.unary (TRef.of (T := ⟨S_, .i32⟩) main_c_468) (TRef.of (T := ⟨S_, .i32⟩) main_call33_v2) id,
    TRef.binary (TRef.of (T := ⟨S_, .i32⟩) main_call33_v2) (TRef.of (T := ⟨S_, .i32⟩) main_call33_v1) (TRef.of (T := ⟨S_, .i32⟩) main_v551) minsi,
    unary main_arg1 main_v552 ((extractStridedSlice S1x1x1x512x512 ![4, 0, 0, 0, 0] · slices_S16x4x1x512x512_S1x1x1x512x512_4_0_0_0_0) : (⟨S16x4x1x512x512, .f32⟩ : BufTy).Contents (Elt F) → (⟨S1x1x1x512x512, .f32⟩ : BufTy).Contents (Elt F)),
    reshape main_v552 main_v553 rfl shapeCasts_S1x1x1x512x512_S1x512x512,
    nullary main_c_469 (constantI S_ 32 0#32),
    nullary main_c_470 (constantI S_ 32 0#32),
    binary main_c_469 main_c_470 main_v554 (cmpi .slt : (⟨S_, .i32⟩ : BufTy).Contents (Elt F) → (⟨S_, .i32⟩ : BufTy).Contents (Elt F) → (⟨S_, .i1⟩ : BufTy).Contents (Elt F)),
    nullary main_c_471 (constantI S_ 32 0#32),
    nullary main_c_472 (constantI S_ 32 1#32),
    binary main_c_471 main_c_472 main_v555 (addi : (⟨S_, .i32⟩ : BufTy).Contents (Elt F) → (⟨S_, .i32⟩ : BufTy).Contents (Elt F) → (⟨S_, .i32⟩ : BufTy).Contents (Elt F)),
    nullary main_c_473 (constantI S_ 32 0#32),
    ternary main_v554 main_v555 main_c_473 main_v556 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_474 (constantI S_ 32 0#32),
    binary main_v547 main_c_474 main_v557 (cmpi .slt : (⟨S_, .i32⟩ : BufTy).Contents (Elt F) → (⟨S_, .i32⟩ : BufTy).Contents (Elt F) → (⟨S_, .i1⟩ : BufTy).Contents (Elt F)),
    nullary main_c_475 (constantI S_ 32 512#32),
    binary main_v547 main_c_475 main_v558 (addi : (⟨S_, .i32⟩ : BufTy).Contents (Elt F) → (⟨S_, .i32⟩ : BufTy).Contents (Elt F) → (⟨S_, .i32⟩ : BufTy).Contents (Elt F)),
    ternary main_v557 main_v558 main_v547 main_v559 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_476 (constantI S_ 32 0#32),
    binary main_v551 main_c_476 main_v560 (cmpi .slt : (⟨S_, .i32⟩ : BufTy).Contents (Elt F) → (⟨S_, .i32⟩ : BufTy).Contents (Elt F) → (⟨S_, .i1⟩ : BufTy).Contents (Elt F)),
    nullary main_c_477 (constantI S_ 32 512#32),
    binary main_v551 main_c_477 main_v561 (addi : (⟨S_, .i32⟩ : BufTy).Contents (Elt F) → (⟨S_, .i32⟩ : BufTy).Contents (Elt F) → (⟨S_, .i32⟩ : BufTy).Contents (Elt F)),
    ternary main_v560 main_v561 main_v551 main_v562 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v553 ![main_v556, main_v559, main_v562] ⟨S_, .i32⟩ main_v563 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v563 main_v564 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_478 (constantI S_ 32 4#32),
    nullary main_c_479 (constantI S_ 32 0#32),
    binary main_c_478 main_c_479 main_v565 (cmpi .slt : (⟨S_, .i32⟩ : BufTy).Contents (Elt F) → (⟨S_, .i32⟩ : BufTy).Contents (Elt F) → (⟨S_, .i1⟩ : BufTy).Contents (Elt F)),
    nullary main_c_480 (constantI S_ 32 4#32),
    nullary main_c_481 (constantI S_ 32 16#32),
    binary main_c_480 main_c_481 main_v566 (addi : (⟨S_, .i32⟩ : BufTy).Contents (Elt F) → (⟨S_, .i32⟩ : BufTy).Contents (Elt F) → (⟨S_, .i32⟩ : BufTy).Contents (Elt F)),
    nullary main_c_482 (constantI S_ 32 4#32),
    ternary main_v565 main_v566 main_c_482 main_v567 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_483 (constantI S_ 32 0#32),
    nullary main_c_484 (constantI S_ 32 0#32),
    binary main_c_483 main_c_484 main_v568 (cmpi .slt : (⟨S_, .i32⟩ : BufTy).Contents (Elt F) → (⟨S_, .i32⟩ : BufTy).Contents (Elt F) → (⟨S_, .i1⟩ : BufTy).Contents (Elt F)),
    nullary main_c_485 (constantI S_ 32 0#32),
    nullary main_c_486 (constantI S_ 32 1#32),
    binary main_c_485 main_c_486 main_v569 (addi : (⟨S_, .i32⟩ : BufTy).Contents (Elt F) → (⟨S_, .i32⟩ : BufTy).Contents (Elt F) → (⟨S_, .i32⟩ : BufTy).Contents (Elt F)),
    nullary main_c_487 (constantI S_ 32 0#32),
    ternary main_v568 main_v569 main_c_487 main_v570 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_488 (constantI S_ 32 0#32),
    binary main_v547 main_c_488 main_v571 (cmpi .slt : (⟨S_, .i32⟩ : BufTy).Contents (Elt F) → (⟨S_, .i32⟩ : BufTy).Contents (Elt F) → (⟨S_, .i1⟩ : BufTy).Contents (Elt F)),
    nullary main_c_489 (constantI S_ 32 512#32),
    binary main_v547 main_c_489 main_v572 (addi : (⟨S_, .i32⟩ : BufTy).Contents (Elt F) → (⟨S_, .i32⟩ : BufTy).Contents (Elt F) → (⟨S_, .i32⟩ : BufTy).Contents (Elt F)),
    ternary main_v571 main_v572 main_v547 main_v573 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_490 (constantI S_ 32 0#32),
    binary main_v551 main_c_490 main_v574 (cmpi .slt : (⟨S_, .i32⟩ : BufTy).Contents (Elt F) → (⟨S_, .i32⟩ : BufTy).Contents (Elt F) → (⟨S_, .i1⟩ : BufTy).Contents (Elt F)),
    nullary main_c_491 (constantI S_ 32 512#32),
    binary main_v551 main_c_491 main_v575 (addi : (⟨S_, .i32⟩ : BufTy).Contents (Elt F) → (⟨S_, .i32⟩ : BufTy).Contents (Elt F) → (⟨S_, .i32⟩ : BufTy).Contents (Elt F)),
    ternary main_v574 main_v575 main_v551 main_v576 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v543 main_v564 ![main_v567, main_v570, main_v573, main_v576] ⟨S_, .i32⟩ main_v577 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc033_sub : (pc033 (F := F)).Forall fun op => op.bufs ⊆ tcRefs τ sig :=
  ⟨nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc033_fresh : ∀ op ∈ (pc033 (F := F)), op.fresh = ∅ := by
  intro _ h; (repeat (cases h with | head => rfl | tail _ h => ?_)); exact nomatch h

/-- Operations 1174 … 1185 of 4424. -/
noncomputable def pc034 : List (HloOp τ sig (Elt F)) :=
  [ unary main_arg2 main_v578 ((extractStridedSlice S1x1x1 ![4, 1, 0] · slices_S16x4x2_S1x1x1_4_1_0) : (⟨S16x4x2, .i32⟩ : BufTy).Contents (Elt F) → (⟨S1x1x1, .i32⟩ : BufTy).Contents (Elt F)),
    reshape main_v578 main_v579 rfl shapeCasts_S1x1x1_S_,
    nullary main_c_492 (constantI S_ 32 128#32),
    binary main_v579 main_c_492 main_v580 (muli : (⟨S_, .i32⟩ : BufTy).Contents (Elt F) → (⟨S_, .i32⟩ : BufTy).Contents (Elt F) → (⟨S_, .i32⟩ : BufTy).Contents (Elt F)),
    nullary main_c_493 (constantI S_ 32 0#32),
    nullary main_c_494 (constantI S_ 32 128#32),
    TRef.unary (TRef.of (T := ⟨S_, .i32⟩) main_c_493) (TRef.of (T := ⟨S_, .i32⟩) main_call34_v0) id,
    TRef.binary (TRef.of (T := ⟨S_, .i32⟩) main_call34_v0) (TRef.of (T := ⟨S_, .i32⟩) main_v580) (TRef.of (T := ⟨S_, .i32⟩) main_call34_v1) maxsi,
    TRef.unary (TRef.of (T := ⟨S_, .i32⟩) main_c_494) (TRef.of (T := ⟨S_, .i32⟩) main_call34_v2) id,
    TRef.binary (TRef.of (T := ⟨S_, .i32⟩) main_call34_v2) (TRef.of (T := ⟨S_, .i32⟩) main_call34_v1) (TRef.of (T := ⟨S_, .i32⟩) main_v581) minsi,
    unary main_arg2 main_v582 ((extractStridedSlice S1x1x1 ![4, 1, 1] · slices_S16x4x2_S1x1x1_4_1_1) : (⟨S16x4x2, .i32⟩ : BufTy).Contents (Elt F) → (⟨S1x1x1, .i32⟩ : BufTy).Contents (Elt F)),
    reshape main_v582 main_v583 rfl shapeCasts_S1x1x1_S_ ]
theorem pc034_sub : (pc034 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub ..⟩
theorem pc034_fresh : ∀ op ∈ (pc034 (F := F)), op.fresh = ∅ := by
  intro _ h; (repeat (cases h with | head => rfl | tail _ h => ?_)); exact nomatch h

/-- Operations 1186 … 1242 of 4424. -/
noncomputable def pc035 : List (HloOp τ sig (Elt F)) :=
  [ nullary main_c_495 (constantI S_ 32 128#32),
    binary main_v583 main_c_495 main_v584 (muli : (⟨S_, .i32⟩ : BufTy).Contents (Elt F) → (⟨S_, .i32⟩ : BufTy).Contents (Elt F) → (⟨S_, .i32⟩ : BufTy).Contents (Elt F)),
    nullary main_c_496 (constantI S_ 32 0#32),
    nullary main_c_497 (constantI S_ 32 128#32),
    TRef.unary (TRef.of (T := ⟨S_, .i32⟩) main_c_496) (TRef.of (T := ⟨S_, .i32⟩) main_call35_v0) id,
    TRef.binary (TRef.of (T := ⟨S_, .i32⟩) main_call35_v0) (TRef.of (T := ⟨S_, .i32⟩) main_v584) (TRef.of (T := ⟨S_, .i32⟩) main_call35_v1) maxsi,
    TRef.unary (TRef.of (T := ⟨S_, .i32⟩) main_c_497) (TRef.of (T := ⟨S_, .i32⟩) main_call35_v2) id,
    TRef.binary (TRef.of (T := ⟨S_, .i32⟩) main_call35_v2) (TRef.of (T := ⟨S_, .i32⟩) main_call35_v1) (TRef.of (T := ⟨S_, .i32⟩) main_v585) minsi,
    unary main_arg1 main_v586 ((extractStridedSlice S1x1x1x512x512 ![4, 1, 0, 0, 0] · slices_S16x4x1x512x512_S1x1x1x512x512_4_1_0_0_0) : (⟨S16x4x1x512x512, .f32⟩ : BufTy).Contents (Elt F) → (⟨S1x1x1x512x512, .f32⟩ : BufTy).Contents (Elt F)),
    reshape main_v586 main_v587 rfl shapeCasts_S1x1x1x512x512_S1x512x512,
    nullary main_c_498 (constantI S_ 32 0#32),
    nullary main_c_499 (constantI S_ 32 0#32),
    binary main_c_498 main_c_499 main_v588 (cmpi .slt : (⟨S_, .i32⟩ : BufTy).Contents (Elt F) → (⟨S_, .i32⟩ : BufTy).Contents (Elt F) → (⟨S_, .i1⟩ : BufTy).Contents (Elt F)),
    nullary main_c_500 (constantI S_ 32 0#32),
    nullary main_c_501 (constantI S_ 32 1#32),
    binary main_c_500 main_c_501 main_v589 (addi : (⟨S_, .i32⟩ : BufTy).Contents (Elt F) → (⟨S_, .i32⟩ : BufTy).Contents (Elt F) → (⟨S_, .i32⟩ : BufTy).Contents (Elt F)),
    nullary main_c_502 (constantI S_ 32 0#32),
    ternary main_v588 main_v589 main_c_502 main_v590 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_503 (constantI S_ 32 0#32),
    binary main_v581 main_c_503 main_v591 (cmpi .slt : (⟨S_, .i32⟩ : BufTy).Contents (Elt F) → (⟨S_, .i32⟩ : BufTy).Contents (Elt F) → (⟨S_, .i1⟩ : BufTy).Contents (Elt F)),
    nullary main_c_504 (constantI S_ 32 512#32),
    binary main_v581 main_c_504 main_v592 (addi : (⟨S_, .i32⟩ : BufTy).Contents (Elt F) → (⟨S_, .i32⟩ : BufTy).Contents (Elt F) → (⟨S_, .i32⟩ : BufTy).Contents (Elt F)),
    ternary main_v591 main_v592 main_v581 main_v593 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_505 (constantI S_ 32 0#32),
    binary main_v585 main_c_505 main_v594 (cmpi .slt : (⟨S_, .i32⟩ : BufTy).Contents (Elt F) → (⟨S_, .i32⟩ : BufTy).Contents (Elt F) → (⟨S_, .i1⟩ : BufTy).Contents (Elt F)),
    nullary main_c_506 (constantI S_ 32 512#32),
    binary main_v585 main_c_506 main_v595 (addi : (⟨S_, .i32⟩ : BufTy).Contents (Elt F) → (⟨S_, .i32⟩ : BufTy).Contents (Elt F) → (⟨S_, .i32⟩ : BufTy).Contents (Elt F)),
    ternary main_v594 main_v595 main_v585 main_v596 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v587 ![main_v590, main_v593, main_v596] ⟨S_, .i32⟩ main_v597 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v597 main_v598 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_507 (constantI S_ 32 4#32),
    nullary main_c_508 (constantI S_ 32 0#32),
    binary main_c_507 main_c_508 main_v599 (cmpi .slt : (⟨S_, .i32⟩ : BufTy).Contents (Elt F) → (⟨S_, .i32⟩ : BufTy).Contents (Elt F) → (⟨S_, .i1⟩ : BufTy).Contents (Elt F)),
    nullary main_c_509 (constantI S_ 32 4#32),
    nullary main_c_510 (constantI S_ 32 16#32),
    binary main_c_509 main_c_510 main_v600 (addi : (⟨S_, .i32⟩ : BufTy).Contents (Elt F) → (⟨S_, .i32⟩ : BufTy).Contents (Elt F) → (⟨S_, .i32⟩ : BufTy).Contents (Elt F)),
    nullary main_c_511 (constantI S_ 32 4#32),
    ternary main_v599 main_v600 main_c_511 main_v601 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_512 (constantI S_ 32 0#32),
    nullary main_c_513 (constantI S_ 32 0#32),
    binary main_c_512 main_c_513 main_v602 (cmpi .slt : (⟨S_, .i32⟩ : BufTy).Contents (Elt F) → (⟨S_, .i32⟩ : BufTy).Contents (Elt F) → (⟨S_, .i1⟩ : BufTy).Contents (Elt F)),
    nullary main_c_514 (constantI S_ 32 0#32),
    nullary main_c_515 (constantI S_ 32 1#32),
    binary main_c_514 main_c_515 main_v603 (addi : (⟨S_, .i32⟩ : BufTy).Contents (Elt F) → (⟨S_, .i32⟩ : BufTy).Contents (Elt F) → (⟨S_, .i32⟩ : BufTy).Contents (Elt F)),
    nullary main_c_516 (constantI S_ 32 0#32),
    ternary main_v602 main_v603 main_c_516 main_v604 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_517 (constantI S_ 32 0#32),
    binary main_v581 main_c_517 main_v605 (cmpi .slt : (⟨S_, .i32⟩ : BufTy).Contents (Elt F) → (⟨S_, .i32⟩ : BufTy).Contents (Elt F) → (⟨S_, .i1⟩ : BufTy).Contents (Elt F)),
    nullary main_c_518 (constantI S_ 32 512#32),
    binary main_v581 main_c_518 main_v606 (addi : (⟨S_, .i32⟩ : BufTy).Contents (Elt F) → (⟨S_, .i32⟩ : BufTy).Contents (Elt F) → (⟨S_, .i32⟩ : BufTy).Contents (Elt F)),
    ternary main_v605 main_v606 main_v581 main_v607 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_519 (constantI S_ 32 0#32),
    binary main_v585 main_c_519 main_v608 (cmpi .slt : (⟨S_, .i32⟩ : BufTy).Contents (Elt F) → (⟨S_, .i32⟩ : BufTy).Contents (Elt F) → (⟨S_, .i1⟩ : BufTy).Contents (Elt F)),
    nullary main_c_520 (constantI S_ 32 512#32),
    binary main_v585 main_c_520 main_v609 (addi : (⟨S_, .i32⟩ : BufTy).Contents (Elt F) → (⟨S_, .i32⟩ : BufTy).Contents (Elt F) → (⟨S_, .i32⟩ : BufTy).Contents (Elt F)),
    ternary main_v608 main_v609 main_v585 main_v610 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v577 main_v598 ![main_v601, main_v604, main_v607, main_v610] ⟨S_, .i32⟩ main_v611 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc035_sub : (pc035 (F := F)).Forall fun op => op.bufs ⊆ tcRefs τ sig :=
  ⟨nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc035_fresh : ∀ op ∈ (pc035 (F := F)), op.fresh = ∅ := by
  intro _ h; (repeat (cases h with | head => rfl | tail _ h => ?_)); exact nomatch h

/-- Operations 1243 … 1248 of 4424. -/
noncomputable def pc036 : List (HloOp τ sig (Elt F)) :=
  [ unary main_arg2 main_v612 ((extractStridedSlice S1x1x1 ![4, 2, 0] · slices_S16x4x2_S1x1x1_4_2_0) : (⟨S16x4x2, .i32⟩ : BufTy).Contents (Elt F) → (⟨S1x1x1, .i32⟩ : BufTy).Contents (Elt F)),
    reshape main_v612 main_v613 rfl shapeCasts_S1x1x1_S_,
    nullary main_c_521 (constantI S_ 32 128#32),
    binary main_v613 main_c_521 main_v614 (muli : (⟨S_, .i32⟩ : BufTy).Contents (Elt F) → (⟨S_, .i32⟩ : BufTy).Contents (Elt F) → (⟨S_, .i32⟩ : BufTy).Contents (Elt F)),
    nullary main_c_522 (constantI S_ 32 0#32),
    nullary main_c_523 (constantI S_ 32 128#32) ]
theorem pc036_sub : (pc036 (F := F)).Forall fun op => op.bufs ⊆ tcRefs τ sig :=
  ⟨unary_bufs_sub .., reshape_bufs_sub .., nullary_bufs_sub .., binary_bufs_sub .., nullary_bufs_sub .., nullary_bufs_sub ..⟩
theorem pc036_fresh : ∀ op ∈ (pc036 (F := F)), op.fresh = ∅ := by
  intro _ h; (repeat (cases h with | head => rfl | tail _ h => ?_)); exact nomatch h

/-- Operations 1249 … 1311 of 4424. -/
noncomputable def pc037 : List (HloOp τ sig (Elt F)) :=
  [ TRef.unary (TRef.of (T := ⟨S_, .i32⟩) main_c_522) (TRef.of (T := ⟨S_, .i32⟩) main_call36_v0) id,
    TRef.binary (TRef.of (T := ⟨S_, .i32⟩) main_call36_v0) (TRef.of (T := ⟨S_, .i32⟩) main_v614) (TRef.of (T := ⟨S_, .i32⟩) main_call36_v1) maxsi,
    TRef.unary (TRef.of (T := ⟨S_, .i32⟩) main_c_523) (TRef.of (T := ⟨S_, .i32⟩) main_call36_v2) id,
    TRef.binary (TRef.of (T := ⟨S_, .i32⟩) main_call36_v2) (TRef.of (T := ⟨S_, .i32⟩) main_call36_v1) (TRef.of (T := ⟨S_, .i32⟩) main_v615) minsi,
    unary main_arg2 main_v616 ((extractStridedSlice S1x1x1 ![4, 2, 1] · slices_S16x4x2_S1x1x1_4_2_1) : (⟨S16x4x2, .i32⟩ : BufTy).Contents (Elt F) → (⟨S1x1x1, .i32⟩ : BufTy).Contents (Elt F)),
    reshape main_v616 main_v617 rfl shapeCasts_S1x1x1_S_,
    nullary main_c_524 (constantI S_ 32 128#32),
    binary main_v617 main_c_524 main_v618 (muli : (⟨S_, .i32⟩ : BufTy).Contents (Elt F) → (⟨S_, .i32⟩ : BufTy).Contents (Elt F) → (⟨S_, .i32⟩ : BufTy).Contents (Elt F)),
    nullary main_c_525 (constantI S_ 32 0#32),
    nullary main_c_526 (constantI S_ 32 128#32),
    TRef.unary (TRef.of (T := ⟨S_, .i32⟩) main_c_525) (TRef.of (T := ⟨S_, .i32⟩) main_call37_v0) id,
    TRef.binary (TRef.of (T := ⟨S_, .i32⟩) main_call37_v0) (TRef.of (T := ⟨S_, .i32⟩) main_v618) (TRef.of (T := ⟨S_, .i32⟩) main_call37_v1) maxsi,
    TRef.unary (TRef.of (T := ⟨S_, .i32⟩) main_c_526) (TRef.of (T := ⟨S_, .i32⟩) main_call37_v2) id,
    TRef.binary (TRef.of (T := ⟨S_, .i32⟩) main_call37_v2) (TRef.of (T := ⟨S_, .i32⟩) main_call37_v1) (TRef.of (T := ⟨S_, .i32⟩) main_v619) minsi,
    unary main_arg1 main_v620 ((extractStridedSlice S1x1x1x512x512 ![4, 2, 0, 0, 0] · slices_S16x4x1x512x512_S1x1x1x512x512_4_2_0_0_0) : (⟨S16x4x1x512x512, .f32⟩ : BufTy).Contents (Elt F) → (⟨S1x1x1x512x512, .f32⟩ : BufTy).Contents (Elt F)),
    reshape main_v620 main_v621 rfl shapeCasts_S1x1x1x512x512_S1x512x512,
    nullary main_c_527 (constantI S_ 32 0#32),
    nullary main_c_528 (constantI S_ 32 0#32),
    binary main_c_527 main_c_528 main_v622 (cmpi .slt : (⟨S_, .i32⟩ : BufTy).Contents (Elt F) → (⟨S_, .i32⟩ : BufTy).Contents (Elt F) → (⟨S_, .i1⟩ : BufTy).Contents (Elt F)),
    nullary main_c_529 (constantI S_ 32 0#32),
    nullary main_c_530 (constantI S_ 32 1#32),
    binary main_c_529 main_c_530 main_v623 (addi : (⟨S_, .i32⟩ : BufTy).Contents (Elt F) → (⟨S_, .i32⟩ : BufTy).Contents (Elt F) → (⟨S_, .i32⟩ : BufTy).Contents (Elt F)),
    nullary main_c_531 (constantI S_ 32 0#32),
    ternary main_v622 main_v623 main_c_531 main_v624 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_532 (constantI S_ 32 0#32),
    binary main_v615 main_c_532 main_v625 (cmpi .slt : (⟨S_, .i32⟩ : BufTy).Contents (Elt F) → (⟨S_, .i32⟩ : BufTy).Contents (Elt F) → (⟨S_, .i1⟩ : BufTy).Contents (Elt F)),
    nullary main_c_533 (constantI S_ 32 512#32),
    binary main_v615 main_c_533 main_v626 (addi : (⟨S_, .i32⟩ : BufTy).Contents (Elt F) → (⟨S_, .i32⟩ : BufTy).Contents (Elt F) → (⟨S_, .i32⟩ : BufTy).Contents (Elt F)),
    ternary main_v625 main_v626 main_v615 main_v627 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_534 (constantI S_ 32 0#32),
    binary main_v619 main_c_534 main_v628 (cmpi .slt : (⟨S_, .i32⟩ : BufTy).Contents (Elt F) → (⟨S_, .i32⟩ : BufTy).Contents (Elt F) → (⟨S_, .i1⟩ : BufTy).Contents (Elt F)),
    nullary main_c_535 (constantI S_ 32 512#32),
    binary main_v619 main_c_535 main_v629 (addi : (⟨S_, .i32⟩ : BufTy).Contents (Elt F) → (⟨S_, .i32⟩ : BufTy).Contents (Elt F) → (⟨S_, .i32⟩ : BufTy).Contents (Elt F)),
    ternary main_v628 main_v629 main_v619 main_v630 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v621 ![main_v624, main_v627, main_v630] ⟨S_, .i32⟩ main_v631 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v631 main_v632 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_536 (constantI S_ 32 4#32),
    nullary main_c_537 (constantI S_ 32 0#32),
    binary main_c_536 main_c_537 main_v633 (cmpi .slt : (⟨S_, .i32⟩ : BufTy).Contents (Elt F) → (⟨S_, .i32⟩ : BufTy).Contents (Elt F) → (⟨S_, .i1⟩ : BufTy).Contents (Elt F)),
    nullary main_c_538 (constantI S_ 32 4#32),
    nullary main_c_539 (constantI S_ 32 16#32),
    binary main_c_538 main_c_539 main_v634 (addi : (⟨S_, .i32⟩ : BufTy).Contents (Elt F) → (⟨S_, .i32⟩ : BufTy).Contents (Elt F) → (⟨S_, .i32⟩ : BufTy).Contents (Elt F)),
    nullary main_c_540 (constantI S_ 32 4#32),
    ternary main_v633 main_v634 main_c_540 main_v635 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_541 (constantI S_ 32 0#32),
    nullary main_c_542 (constantI S_ 32 0#32),
    binary main_c_541 main_c_542 main_v636 (cmpi .slt : (⟨S_, .i32⟩ : BufTy).Contents (Elt F) → (⟨S_, .i32⟩ : BufTy).Contents (Elt F) → (⟨S_, .i1⟩ : BufTy).Contents (Elt F)),
    nullary main_c_543 (constantI S_ 32 0#32),
    nullary main_c_544 (constantI S_ 32 1#32),
    binary main_c_543 main_c_544 main_v637 (addi : (⟨S_, .i32⟩ : BufTy).Contents (Elt F) → (⟨S_, .i32⟩ : BufTy).Contents (Elt F) → (⟨S_, .i32⟩ : BufTy).Contents (Elt F)),
    nullary main_c_545 (constantI S_ 32 0#32),
    ternary main_v636 main_v637 main_c_545 main_v638 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_546 (constantI S_ 32 0#32),
    binary main_v615 main_c_546 main_v639 (cmpi .slt : (⟨S_, .i32⟩ : BufTy).Contents (Elt F) → (⟨S_, .i32⟩ : BufTy).Contents (Elt F) → (⟨S_, .i1⟩ : BufTy).Contents (Elt F)),
    nullary main_c_547 (constantI S_ 32 512#32),
    binary main_v615 main_c_547 main_v640 (addi : (⟨S_, .i32⟩ : BufTy).Contents (Elt F) → (⟨S_, .i32⟩ : BufTy).Contents (Elt F) → (⟨S_, .i32⟩ : BufTy).Contents (Elt F)),
    ternary main_v639 main_v640 main_v615 main_v641 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_548 (constantI S_ 32 0#32),
    binary main_v619 main_c_548 main_v642 (cmpi .slt : (⟨S_, .i32⟩ : BufTy).Contents (Elt F) → (⟨S_, .i32⟩ : BufTy).Contents (Elt F) → (⟨S_, .i1⟩ : BufTy).Contents (Elt F)),
    nullary main_c_549 (constantI S_ 32 512#32),
    binary main_v619 main_c_549 main_v643 (addi : (⟨S_, .i32⟩ : BufTy).Contents (Elt F) → (⟨S_, .i32⟩ : BufTy).Contents (Elt F) → (⟨S_, .i32⟩ : BufTy).Contents (Elt F)),
    ternary main_v642 main_v643 main_v619 main_v644 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v611 main_v632 ![main_v635, main_v638, main_v641, main_v644] ⟨S_, .i32⟩ main_v645 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc037_sub : (pc037 (F := F)).Forall fun op => op.bufs ⊆ tcRefs τ sig :=
  ⟨unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc037_fresh : ∀ op ∈ (pc037 (F := F)), op.fresh = ∅ := by
  intro _ h; (repeat (cases h with | head => rfl | tail _ h => ?_)); exact nomatch h

/-- Operations 1312 … 1314 of 4424. -/
noncomputable def pc038 : List (HloOp τ sig (Elt F)) :=
  [ unary main_arg2 main_v646 ((extractStridedSlice S1x1x1 ![4, 3, 0] · slices_S16x4x2_S1x1x1_4_3_0) : (⟨S16x4x2, .i32⟩ : BufTy).Contents (Elt F) → (⟨S1x1x1, .i32⟩ : BufTy).Contents (Elt F)),
    reshape main_v646 main_v647 rfl shapeCasts_S1x1x1_S_,
    nullary main_c_550 (constantI S_ 32 128#32) ]
theorem pc038_sub : (pc038 (F := F)).Forall fun op => op.bufs ⊆ tcRefs τ sig :=
  ⟨unary_bufs_sub .., reshape_bufs_sub .., nullary_bufs_sub ..⟩
theorem pc038_fresh : ∀ op ∈ (pc038 (F := F)), op.fresh = ∅ := by
  intro _ h; (repeat (cases h with | head => rfl | tail _ h => ?_)); exact nomatch h

/-- Operations 1315 … 1380 of 4424. -/
noncomputable def pc039 : List (HloOp τ sig (Elt F)) :=
  [ binary main_v647 main_c_550 main_v648 (muli : (⟨S_, .i32⟩ : BufTy).Contents (Elt F) → (⟨S_, .i32⟩ : BufTy).Contents (Elt F) → (⟨S_, .i32⟩ : BufTy).Contents (Elt F)),
    nullary main_c_551 (constantI S_ 32 0#32),
    nullary main_c_552 (constantI S_ 32 128#32),
    TRef.unary (TRef.of (T := ⟨S_, .i32⟩) main_c_551) (TRef.of (T := ⟨S_, .i32⟩) main_call38_v0) id,
    TRef.binary (TRef.of (T := ⟨S_, .i32⟩) main_call38_v0) (TRef.of (T := ⟨S_, .i32⟩) main_v648) (TRef.of (T := ⟨S_, .i32⟩) main_call38_v1) maxsi,
    TRef.unary (TRef.of (T := ⟨S_, .i32⟩) main_c_552) (TRef.of (T := ⟨S_, .i32⟩) main_call38_v2) id,
    TRef.binary (TRef.of (T := ⟨S_, .i32⟩) main_call38_v2) (TRef.of (T := ⟨S_, .i32⟩) main_call38_v1) (TRef.of (T := ⟨S_, .i32⟩) main_v649) minsi,
    unary main_arg2 main_v650 ((extractStridedSlice S1x1x1 ![4, 3, 1] · slices_S16x4x2_S1x1x1_4_3_1) : (⟨S16x4x2, .i32⟩ : BufTy).Contents (Elt F) → (⟨S1x1x1, .i32⟩ : BufTy).Contents (Elt F)),
    reshape main_v650 main_v651 rfl shapeCasts_S1x1x1_S_,
    nullary main_c_553 (constantI S_ 32 128#32),
    binary main_v651 main_c_553 main_v652 (muli : (⟨S_, .i32⟩ : BufTy).Contents (Elt F) → (⟨S_, .i32⟩ : BufTy).Contents (Elt F) → (⟨S_, .i32⟩ : BufTy).Contents (Elt F)),
    nullary main_c_554 (constantI S_ 32 0#32),
    nullary main_c_555 (constantI S_ 32 128#32),
    TRef.unary (TRef.of (T := ⟨S_, .i32⟩) main_c_554) (TRef.of (T := ⟨S_, .i32⟩) main_call39_v0) id,
    TRef.binary (TRef.of (T := ⟨S_, .i32⟩) main_call39_v0) (TRef.of (T := ⟨S_, .i32⟩) main_v652) (TRef.of (T := ⟨S_, .i32⟩) main_call39_v1) maxsi,
    TRef.unary (TRef.of (T := ⟨S_, .i32⟩) main_c_555) (TRef.of (T := ⟨S_, .i32⟩) main_call39_v2) id,
    TRef.binary (TRef.of (T := ⟨S_, .i32⟩) main_call39_v2) (TRef.of (T := ⟨S_, .i32⟩) main_call39_v1) (TRef.of (T := ⟨S_, .i32⟩) main_v653) minsi,
    unary main_arg1 main_v654 ((extractStridedSlice S1x1x1x512x512 ![4, 3, 0, 0, 0] · slices_S16x4x1x512x512_S1x1x1x512x512_4_3_0_0_0) : (⟨S16x4x1x512x512, .f32⟩ : BufTy).Contents (Elt F) → (⟨S1x1x1x512x512, .f32⟩ : BufTy).Contents (Elt F)),
    reshape main_v654 main_v655 rfl shapeCasts_S1x1x1x512x512_S1x512x512,
    nullary main_c_556 (constantI S_ 32 0#32),
    nullary main_c_557 (constantI S_ 32 0#32),
    binary main_c_556 main_c_557 main_v656 (cmpi .slt : (⟨S_, .i32⟩ : BufTy).Contents (Elt F) → (⟨S_, .i32⟩ : BufTy).Contents (Elt F) → (⟨S_, .i1⟩ : BufTy).Contents (Elt F)),
    nullary main_c_558 (constantI S_ 32 0#32),
    nullary main_c_559 (constantI S_ 32 1#32),
    binary main_c_558 main_c_559 main_v657 (addi : (⟨S_, .i32⟩ : BufTy).Contents (Elt F) → (⟨S_, .i32⟩ : BufTy).Contents (Elt F) → (⟨S_, .i32⟩ : BufTy).Contents (Elt F)),
    nullary main_c_560 (constantI S_ 32 0#32),
    ternary main_v656 main_v657 main_c_560 main_v658 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_561 (constantI S_ 32 0#32),
    binary main_v649 main_c_561 main_v659 (cmpi .slt : (⟨S_, .i32⟩ : BufTy).Contents (Elt F) → (⟨S_, .i32⟩ : BufTy).Contents (Elt F) → (⟨S_, .i1⟩ : BufTy).Contents (Elt F)),
    nullary main_c_562 (constantI S_ 32 512#32),
    binary main_v649 main_c_562 main_v660 (addi : (⟨S_, .i32⟩ : BufTy).Contents (Elt F) → (⟨S_, .i32⟩ : BufTy).Contents (Elt F) → (⟨S_, .i32⟩ : BufTy).Contents (Elt F)),
    ternary main_v659 main_v660 main_v649 main_v661 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_563 (constantI S_ 32 0#32),
    binary main_v653 main_c_563 main_v662 (cmpi .slt : (⟨S_, .i32⟩ : BufTy).Contents (Elt F) → (⟨S_, .i32⟩ : BufTy).Contents (Elt F) → (⟨S_, .i1⟩ : BufTy).Contents (Elt F)),
    nullary main_c_564 (constantI S_ 32 512#32),
    binary main_v653 main_c_564 main_v663 (addi : (⟨S_, .i32⟩ : BufTy).Contents (Elt F) → (⟨S_, .i32⟩ : BufTy).Contents (Elt F) → (⟨S_, .i32⟩ : BufTy).Contents (Elt F)),
    ternary main_v662 main_v663 main_v653 main_v664 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v655 ![main_v658, main_v661, main_v664] ⟨S_, .i32⟩ main_v665 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v665 main_v666 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_565 (constantI S_ 32 4#32),
    nullary main_c_566 (constantI S_ 32 0#32),
    binary main_c_565 main_c_566 main_v667 (cmpi .slt : (⟨S_, .i32⟩ : BufTy).Contents (Elt F) → (⟨S_, .i32⟩ : BufTy).Contents (Elt F) → (⟨S_, .i1⟩ : BufTy).Contents (Elt F)),
    nullary main_c_567 (constantI S_ 32 4#32),
    nullary main_c_568 (constantI S_ 32 16#32),
    binary main_c_567 main_c_568 main_v668 (addi : (⟨S_, .i32⟩ : BufTy).Contents (Elt F) → (⟨S_, .i32⟩ : BufTy).Contents (Elt F) → (⟨S_, .i32⟩ : BufTy).Contents (Elt F)),
    nullary main_c_569 (constantI S_ 32 4#32),
    ternary main_v667 main_v668 main_c_569 main_v669 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_570 (constantI S_ 32 0#32),
    nullary main_c_571 (constantI S_ 32 0#32),
    binary main_c_570 main_c_571 main_v670 (cmpi .slt : (⟨S_, .i32⟩ : BufTy).Contents (Elt F) → (⟨S_, .i32⟩ : BufTy).Contents (Elt F) → (⟨S_, .i1⟩ : BufTy).Contents (Elt F)),
    nullary main_c_572 (constantI S_ 32 0#32),
    nullary main_c_573 (constantI S_ 32 1#32),
    binary main_c_572 main_c_573 main_v671 (addi : (⟨S_, .i32⟩ : BufTy).Contents (Elt F) → (⟨S_, .i32⟩ : BufTy).Contents (Elt F) → (⟨S_, .i32⟩ : BufTy).Contents (Elt F)),
    nullary main_c_574 (constantI S_ 32 0#32),
    ternary main_v670 main_v671 main_c_574 main_v672 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_575 (constantI S_ 32 0#32),
    binary main_v649 main_c_575 main_v673 (cmpi .slt : (⟨S_, .i32⟩ : BufTy).Contents (Elt F) → (⟨S_, .i32⟩ : BufTy).Contents (Elt F) → (⟨S_, .i1⟩ : BufTy).Contents (Elt F)),
    nullary main_c_576 (constantI S_ 32 512#32),
    binary main_v649 main_c_576 main_v674 (addi : (⟨S_, .i32⟩ : BufTy).Contents (Elt F) → (⟨S_, .i32⟩ : BufTy).Contents (Elt F) → (⟨S_, .i32⟩ : BufTy).Contents (Elt F)),
    ternary main_v673 main_v674 main_v649 main_v675 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_577 (constantI S_ 32 0#32),
    binary main_v653 main_c_577 main_v676 (cmpi .slt : (⟨S_, .i32⟩ : BufTy).Contents (Elt F) → (⟨S_, .i32⟩ : BufTy).Contents (Elt F) → (⟨S_, .i1⟩ : BufTy).Contents (Elt F)),
    nullary main_c_578 (constantI S_ 32 512#32),
    binary main_v653 main_c_578 main_v677 (addi : (⟨S_, .i32⟩ : BufTy).Contents (Elt F) → (⟨S_, .i32⟩ : BufTy).Contents (Elt F) → (⟨S_, .i32⟩ : BufTy).Contents (Elt F)),
    ternary main_v676 main_v677 main_v653 main_v678 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v645 main_v666 ![main_v669, main_v672, main_v675, main_v678] ⟨S_, .i32⟩ main_v679 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc039_sub : (pc039 (F := F)).Forall fun op => op.bufs ⊆ tcRefs τ sig :=
  ⟨binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc039_fresh : ∀ op ∈ (pc039 (F := F)), op.fresh = ∅ := by
  intro _ h; (repeat (cases h with | head => rfl | tail _ h => ?_)); exact nomatch h

set_option maxRecDepth 8192 in
set_option maxHeartbeats 4000000 in
/-- Window 0 of the printed program is the run of its lists. -/
theorem part0_eq (c : Dev nD) : main_part0 (F := F) c = seq (pc000) := rfl

set_option maxRecDepth 8192 in
set_option maxHeartbeats 4000000 in
/-- Window 1 of the printed program is the run of its lists. -/
theorem part1_eq (c : Dev nD) : main_part1 (F := F) c = seq (pc001 ++ (pc002)) := rfl

set_option maxRecDepth 8192 in
set_option maxHeartbeats 4000000 in
/-- Window 2 of the printed program is the run of its lists. -/
theorem part2_eq (c : Dev nD) : main_part2 (F := F) c = seq (pc003 ++ (pc004)) := rfl

set_option maxRecDepth 8192 in
set_option maxHeartbeats 4000000 in
/-- Window 3 of the printed program is the run of its lists. -/
theorem part3_eq (c : Dev nD) : main_part3 (F := F) c = seq (pc005 ++ (pc006)) := rfl

set_option maxRecDepth 8192 in
set_option maxHeartbeats 4000000 in
/-- Window 4 of the printed program is the run of its lists. -/
theorem part4_eq (c : Dev nD) : main_part4 (F := F) c = seq (pc007 ++ (pc008)) := rfl

set_option maxRecDepth 8192 in
set_option maxHeartbeats 4000000 in
/-- Window 5 of the printed program is the run of its lists. -/
theorem part5_eq (c : Dev nD) : main_part5 (F := F) c = seq (pc009 ++ (pc010)) := rfl

set_option maxRecDepth 8192 in
set_option maxHeartbeats 4000000 in
/-- Window 6 of the printed program is the run of its lists. -/
theorem part6_eq (c : Dev nD) : main_part6 (F := F) c = seq (pc011 ++ (pc012)) := rfl

set_option maxRecDepth 8192 in
set_option maxHeartbeats 4000000 in
/-- Window 7 of the printed program is the run of its lists. -/
theorem part7_eq (c : Dev nD) : main_part7 (F := F) c = seq (pc013 ++ (pc014)) := rfl

set_option maxRecDepth 8192 in
set_option maxHeartbeats 4000000 in
/-- Window 8 of the printed program is the run of its lists. -/
theorem part8_eq (c : Dev nD) : main_part8 (F := F) c = seq (pc015 ++ (pc016)) := rfl

set_option maxRecDepth 8192 in
set_option maxHeartbeats 4000000 in
/-- Window 9 of the printed program is the run of its lists. -/
theorem part9_eq (c : Dev nD) : main_part9 (F := F) c = seq (pc017 ++ (pc018)) := rfl

set_option maxRecDepth 8192 in
set_option maxHeartbeats 4000000 in
/-- Window 10 of the printed program is the run of its lists. -/
theorem part10_eq (c : Dev nD) : main_part10 (F := F) c = seq (pc019 ++ (pc020)) := rfl

set_option maxRecDepth 8192 in
set_option maxHeartbeats 4000000 in
/-- Window 11 of the printed program is the run of its lists. -/
theorem part11_eq (c : Dev nD) : main_part11 (F := F) c = seq (pc021 ++ (pc022)) := rfl

set_option maxRecDepth 8192 in
set_option maxHeartbeats 4000000 in
/-- Window 12 of the printed program is the run of its lists. -/
theorem part12_eq (c : Dev nD) : main_part12 (F := F) c = seq (pc023 ++ (pc024)) := rfl

set_option maxRecDepth 8192 in
set_option maxHeartbeats 4000000 in
/-- Window 13 of the printed program is the run of its lists. -/
theorem part13_eq (c : Dev nD) : main_part13 (F := F) c = seq (pc025 ++ (pc026)) := rfl

set_option maxRecDepth 8192 in
set_option maxHeartbeats 4000000 in
/-- Window 14 of the printed program is the run of its lists. -/
theorem part14_eq (c : Dev nD) : main_part14 (F := F) c = seq (pc027 ++ (pc028)) := rfl

set_option maxRecDepth 8192 in
set_option maxHeartbeats 4000000 in
/-- Window 15 of the printed program is the run of its lists. -/
theorem part15_eq (c : Dev nD) : main_part15 (F := F) c = seq (pc029 ++ (pc030)) := rfl

set_option maxRecDepth 8192 in
set_option maxHeartbeats 4000000 in
/-- Window 16 of the printed program is the run of its lists. -/
theorem part16_eq (c : Dev nD) : main_part16 (F := F) c = seq (pc031 ++ (pc032)) := rfl

set_option maxRecDepth 8192 in
set_option maxHeartbeats 4000000 in
/-- Window 17 of the printed program is the run of its lists. -/
theorem part17_eq (c : Dev nD) : main_part17 (F := F) c = seq (pc033 ++ (pc034)) := rfl

set_option maxRecDepth 8192 in
set_option maxHeartbeats 4000000 in
/-- Window 18 of the printed program is the run of its lists. -/
theorem part18_eq (c : Dev nD) : main_part18 (F := F) c = seq (pc035 ++ (pc036)) := rfl

set_option maxRecDepth 8192 in
set_option maxHeartbeats 4000000 in
/-- Window 19 of the printed program is the run of its lists. -/
theorem part19_eq (c : Dev nD) : main_part19 (F := F) c = seq (pc037 ++ (pc038)) := rfl

set_option maxRecDepth 8192 in
set_option maxHeartbeats 4000000 in
/-- Window 20 of the printed program is the run of its lists. -/
theorem part20_eq (c : Dev nD) : main_part20 (F := F) c = seq (pc039) := rfl

end Cert.ReferenceIdeal.RefRun

end
-- ==== Proof.RefRunBase.lean ====
/-
  What the reference's run rests on besides its operations.

  Running two lists of operations one after the other is running their concatenation, so the contents after a long list can be
  read list by list. An operation indexed by three or four scalar buffers hands its function those buffers' contents one by one.
  A property of every operation of two lists holds of every operation of their concatenation. And the printed program has no
  scoped TensorCore buffer (all its buffers are in HBM) and no semaphore, which is what lets its run be read as a plain fold of
  its operations.
-/
import proofs.«207346_g72533407695360_cont_9to1_m_270_11_alg».proof.Proof.Gen.ReferenceIdeal
import Idealize.ShloMosaic.Lib.StableHlo.Run

noncomputable section

namespace Cert.ReferenceIdeal.RefRun

open Idealize.ShloMosaic Idealize.ShloMosaic.TcCoe Idealize.SL.Sem Idealize.ShloMosaic.StableHlo

section Generic

variable {nD : Nat} {τ : Topo} {sig : RefSig} {Val : EltTy → Type}

/-- The contents after two lists run in turn. -/
theorem after_append' : ∀ (l₁ l₂ : List (HloOp τ sig Val)) (V : Valuation τ sig Val), after (l₁ ++ l₂) V = after l₂ (after l₁ V)
  | [], _, _ => rfl
  | op :: l₁, l₂, V => by rw [List.cons_append, after_cons, after_cons, after_append' l₁ l₂]

/-- What holds of every element of two lists holds of every element of their concatenation. -/
theorem forall_append {α : Type} {p : α → Prop} {l₁ l₂ : List α} (h1 : l₁.Forall p) (h2 : l₂.Forall p) : (l₁ ++ l₂).Forall p :=
  List.forall_iff_forall_mem.2 fun x hx =>
    (List.mem_append.1 hx).elim (List.forall_iff_forall_mem.1 h1 x) (List.forall_iff_forall_mem.1 h2 x)

theorem forall_mem_append {α : Type} {p : α → Prop} {l₁ l₂ : List α} (h1 : ∀ x ∈ l₁, p x) (h2 : ∀ x ∈ l₂, p x) :
    ∀ x ∈ l₁ ++ l₂, p x :=
  fun x hx => (List.mem_append.1 hx).elim (h1 x) (h2 x)

variable {a b y i0 i1 i2 i3 : Ref sig .tc}

/-- An operation indexed by three scalar buffers, at its result: the three named one by one. -/
theorem unaryIndexed3_result' (T : BufTy)
    (f : a.ty.Contents Val → (Fin 3 → T.Contents Val) → y.ty.Contents Val) (hT ha hix hy) (F : Valuation τ sig Val) :
    (unaryIndexed (τ := τ) a ![i0, i1, i2] T y f hT ha hix hy).result F (no_index (Proc.devRef .tc y))
      = f (F (Proc.devRef .tc a))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2))] := by
  rw [unaryIndexed_result]; congr 1; funext k; fin_cases k <;> rfl

/-- An operation on two operands indexed by four scalar buffers, at its result. -/
theorem binaryIndexed4_result' (T : BufTy)
    (f : a.ty.Contents Val → b.ty.Contents Val → (Fin 4 → T.Contents Val) → y.ty.Contents Val) (hT ha hb hix hy) (F : Valuation τ sig Val) :
    (binaryIndexed (τ := τ) a b ![i0, i1, i2, i3] T y f hT ha hb hix hy).result F (no_index (Proc.devRef .tc y))
      = f (F (Proc.devRef .tc a)) (F (Proc.devRef .tc b))
          ![cast (congrArg (fun U : BufTy => U.Contents Val) (hT 0)) (F (Proc.devRef .tc i0)),
            cast (congrArg (fun U : BufTy => U.Contents Val) (hT 1)) (F (Proc.devRef .tc i1)),
            cast (congrArg (fun U : BufTy => U.Contents Val) (hT 2)) (F (Proc.devRef .tc i2)),
            cast (congrArg (fun U : BufTy => U.Contents Val) (hT 3)) (F (Proc.devRef .tc i3))] := by
  rw [binaryIndexed_result]; congr 1; funext k; fin_cases k <;> rfl

end Generic

/-- The contents after a list of operations, at given buffers: every operation's result at its own buffer, any other buffer as
    it was; the two indexed operations with their index buffers named. -/
macro "after_steps" : tactic =>
  `(tactic| (simp (disch := decide) only [after_cons, after_nil,
      nullary_result', unary_result', binary_result', ternary_result', reshape_result',
      unaryIndexed3_result', binaryIndexed4_result',
      nullary_result_ne', unary_result_ne', binary_result_ne', ternary_result_ne', reshape_result_ne',
      unaryIndexed_result_ne', binaryIndexed_result_ne', cast_eq, and_true, and_self]))

open Cert.ReferenceIdeal Cert.ReferenceIdeal.Gen

/-- No TensorCore buffer of this program is scoped: all are in HBM. -/
theorem scopedRefs_eq : (Finset.univ.filter fun b : Ref sig .tc => b.isScoped) = ∅ := by
  refine Finset.filter_eq_empty_iff.mpr fun b _ hb => ?_
  rcases b with ⟨sp, i, hn⟩
  rcases sp with cs | _ | _ | _
  all_goals first
    | exact Bool.false_ne_true hb
    | exact i.elim0
    | exact absurd hn Bool.false_ne_true
    | (cases cs <;> first | exact Bool.false_ne_true hb | exact i.elim0)

/-- The program has no semaphore. -/
theorem scopedSems_eq : (Finset.univ.filter fun sm : SemLoc sig => sm.isScoped .tc) = ∅ := by
  refine Finset.filter_eq_empty_iff.mpr fun sm _ _ => ?_
  rcases sm with s | s <;> exact s.elim0

end Cert.ReferenceIdeal.RefRun

end
-- ==== Proof.Overwrite.lean ====
/-
  Overwriting, tile by tile.

  One overwrite replaces, in one image, a block of 384 × 384 elements by the same block of one window's refined map. The
  blocks start at multiples of 128, so "the element lies in the block" is "its tile is covered". Four overwrites of one
  image, window 0 first, leave each element of that image at the LAST window whose block covers its tile, and other
  images untouched; done for the sixteen images in turn, starting from the sampling map, they produce the specified
  choice `pick`.
-/
import proofs.«207346_g72533407695360_cont_9to1_m_270_11_alg».proof.Proof.Spec

noncomputable section

namespace Cert.Fuse.Ref

open Idealize.ShloMosaic Idealize.ShloMosaic.ValueIdx

variable {α : Type}

/-- One overwrite: in image `b`, the block of 384 × 384 elements at `(y, x)` takes window `k`'s values there. -/
def overwrite (win : SWin.Idx → α) (b : Fin 16) (k : Fin 4) (y x : ℕ) (cur : SMap.Idx → α) : SMap.Idx → α :=
  fun i => if (i 0).val = b.val ∧ y ≤ (i 2 : Fin 512).val ∧ (i 2 : Fin 512).val < y + 384 ∧ x ≤ (i 3 : Fin 512).val ∧ (i 3 : Fin 512).val < x + 384
    then win (ix5 b k (0 : Fin 1) (i 2 : Fin 512) (i 3 : Fin 512)) else cur i

/-! ## The overwrites of one image, and of all -/

/-- The overwrite the selection asks for: window `k` of image `b` at its start tile. -/
def overwriteSel (win : SWin.Idx → α) (sel : SSel.Idx → BitVec 32) (b : Fin 16) (k : Fin 4) (cur : SMap.Idx → α) : SMap.Idx → α :=
  overwrite win b k (128 * start sel b k 0) (128 * start sel b k 1) cur

/-- An element is overwritten exactly when it lies in image `b` and its tile is covered. -/
theorem overwriteSel_apply (win : SWin.Idx → α) (sel : SSel.Idx → BitVec 32) (b : Fin 16) (k : Fin 4) (cur : SMap.Idx → α) (i : SMap.Idx) :
    overwriteSel win sel b k cur i
      = if (i 0).val = b.val ∧ coversTile sel b k ((i 2 : Fin 512).val / 128) ((i 3 : Fin 512).val / 128)
        then win (ix5 b k (0 : Fin 1) (i 2 : Fin 512) (i 3 : Fin 512)) else cur i := by
  unfold overwriteSel overwrite coversTile
  refine if_congr ?_ rfl rfl
  constructor
  · rintro ⟨h0, h1, h2, h3, h4⟩; exact ⟨h0, by omega, by omega, by omega, by omega⟩
  · rintro ⟨h0, h1, h2, h3, h4⟩; exact ⟨h0, by omega, by omega, by omega, by omega⟩

/-- The four windows of image `b`, in order. -/
def overwriteImage (win : SWin.Idx → α) (sel : SSel.Idx → BitVec 32) (b : Fin 16) (cur : SMap.Idx → α) : SMap.Idx → α :=
  overwriteSel win sel b 3 (overwriteSel win sel b 2 (overwriteSel win sel b 1 (overwriteSel win sel b 0 cur)))

theorem overwriteImage_of_ne (win : SWin.Idx → α) (sel : SSel.Idx → BitVec 32) (b : Fin 16) (cur : SMap.Idx → α) (i : SMap.Idx)
    (h : (i 0).val ≠ b.val) : overwriteImage win sel b cur i = cur i := by
  unfold overwriteImage
  simp only [overwriteSel_apply]
  rw [if_neg (fun h' => h h'.1), if_neg (fun h' => h h'.1), if_neg (fun h' => h h'.1), if_neg (fun h' => h h'.1)]

theorem overwriteImage_of_eq (win : SWin.Idx → α) (sel : SSel.Idx → BitVec 32) (b : Fin 16) (cur : SMap.Idx → α) (i : SMap.Idx)
    (h : (i 0).val = b.val) :
    overwriteImage win sel b cur i
      = match tileSource sel b ((i 2 : Fin 512).val / 128) ((i 3 : Fin 512).val / 128) with
        | some k => win (ix5 b k (0 : Fin 1) (i 2 : Fin 512) (i 3 : Fin 512))
        | none => cur i := by
  unfold overwriteImage tileSource
  simp only [overwriteSel_apply, h, true_and]
  split_ifs <;> rfl

/-- After the images below `n` are done: those hold their final values, the others still the sampling map. -/
def Done (smp : SMap.Idx → α) (win : SWin.Idx → α) (sel : SSel.Idx → BitVec 32) (n : ℕ) (cur : SMap.Idx → α) : Prop :=
  ∀ i : SMap.Idx, ((i 0).val < n → cur i = pick smp win sel i) ∧ (n ≤ (i 0).val → cur i = smp i)

theorem done_zero (smp : SMap.Idx → α) (win : SWin.Idx → α) (sel : SSel.Idx → BitVec 32) : Done smp win sel 0 smp :=
  fun _ => ⟨fun h => absurd h (Nat.not_lt_zero _), fun _ => rfl⟩

theorem done_succ (smp : SMap.Idx → α) (win : SWin.Idx → α) (sel : SSel.Idx → BitVec 32) (b : ℕ) (hb : b < 16) (cur : SMap.Idx → α)
    (h : Done smp win sel b cur) : Done smp win sel (b + 1) (overwriteImage win sel ⟨b, hb⟩ cur) := by
  intro i
  by_cases hi : (i 0).val = b
  · have hcur : cur i = smp i := (h i).2 (by omega)
    have hb0 : (i 0 : Fin 16) = ⟨b, hb⟩ := Fin.ext hi
    have h1 : (i 1).val = 0 := Nat.lt_one_iff.mp (i 1).isLt
    have hix : i = ix4 (⟨b, hb⟩ : Fin 16) (0 : Fin 1) (i 2 : Fin 512) (i 3 : Fin 512) := by
      funext a
      match a with
      | ⟨0, _⟩ => exact Fin.ext hi
      | ⟨1, _⟩ => exact Fin.ext h1
      | ⟨2, _⟩ => rfl
      | ⟨3, _⟩ => rfl
    have e : overwriteImage win sel ⟨b, hb⟩ cur i = pick smp win sel i := by
      refine (overwriteImage_of_eq win sel ⟨b, hb⟩ cur i hi).trans ?_
      refine Eq.trans ?_ (congrArg (fun q : Fin 16 => pickAt smp win sel q (i 2 : Fin 512) (i 3 : Fin 512)) hb0.symm)
      show (match tileSource sel ⟨b, hb⟩ ((i 2 : Fin 512).val / 128) ((i 3 : Fin 512).val / 128) with
            | some k => win (ix5 (⟨b, hb⟩ : Fin 16) k (0 : Fin 1) (i 2 : Fin 512) (i 3 : Fin 512))
            | none => cur i)
          = pickAt smp win sel ⟨b, hb⟩ (i 2 : Fin 512) (i 3 : Fin 512)
      unfold pickAt
      cases tileSource sel ⟨b, hb⟩ ((i 2 : Fin 512).val / 128) ((i 3 : Fin 512).val / 128) with
      | none => exact hcur.trans (congrArg smp hix)
      | some k => rfl
    exact ⟨fun _ => e, fun h' => absurd h' (by omega)⟩
  · rw [overwriteImage_of_ne win sel ⟨b, hb⟩ cur i hi]
    exact ⟨fun h' => (h i).1 (by omega), fun h' => (h i).2 (by omega)⟩

theorem done_all (smp : SMap.Idx → α) (win : SWin.Idx → α) (sel : SSel.Idx → BitVec 32) (cur : SMap.Idx → α)
    (h : Done smp win sel 16 cur) : cur = pick smp win sel :=
  funext fun i => (h i).1 (i 0).isLt

end Cert.Fuse.Ref

end
-- ==== Proof.RefStep.lean ====
/-
  One step of the reference, read at an index.

  A step takes the two selection words of a window, turns each into a start (the word times 128, clamped to [0, 128],
  and a negative index counted from the end, which never happens here), cuts the 384 × 384 block at those starts out of
  the window's refined map, and writes it into the running map at the same starts in the window's image. For words that
  are 0 or 1 the starts are 0 or 128, nothing is clamped, and the step is one overwrite: an element of that image inside
  the block takes the window's value at its own position, every other element keeps its value.
-/
import proofs.«207346_g72533407695360_cont_9to1_m_270_11_alg».proof.Proof.Overwrite
import Idealize.ShloMosaic.Lib.DynamicIndex
import Idealize.ShloMosaic.Lib.Pipeline.Value

noncomputable section

namespace Cert.Fuse.Ref

open Idealize.ShloMosaic Idealize.ShloMosaic.ValueIdx

/-- The shapes a step passes through: a scalar, one selection word, one window, one image, the block. -/
abbrev SScal : Shape := ⟨0, ![]⟩
abbrev SOne : Shape := ⟨3, ![1, 1, 1]⟩
abbrev SWin1 : Shape := ⟨5, ![1, 1, 1, 512, 512]⟩
abbrev SImg : Shape := ⟨3, ![1, 512, 512]⟩
abbrev SBlk3 : Shape := ⟨3, ![1, 384, 384]⟩
abbrev SBlk4 : Shape := ⟨4, ![1, 1, 384, 384]⟩

/-! ## The start of a window along one axis, as a word -/

def clipWord (w : BitVec 32) : BitVec 32 := IntOp.minsi 128#32 (IntOp.maxsi 0#32 (IntOp.muli w 128#32))
def wrapWord (v : BitVec 32) : BitVec 32 := Scalar.select (IntOp.cmpi .slt v 0#32) (IntOp.addi v 512#32) v

theorem word_cases {w : BitVec 32} (hw : w.toNat ≤ 1) : w = 0#32 ∨ w = 1#32 := by
  rcases Nat.le_one_iff_eq_zero_or_eq_one.mp hw with h | h
  · left; exact BitVec.eq_of_toNat_eq (by rw [h]; rfl)
  · right; exact BitVec.eq_of_toNat_eq (by rw [h]; rfl)

theorem wrap_clip_toInt {w : BitVec 32} (hw : w.toNat ≤ 1) : (wrapWord (clipWord w)).toInt = ((128 * w.toNat : ℕ) : ℤ) := by
  rcases word_cases hw with rfl | rfl <;> decide

def startVec (W : IVec SScal 32) : IVec SScal 32 :=
  select (cmpi .slt (minsi (id (constantI SScal 32 128#32)) (maxsi (id (constantI SScal 32 0#32)) (muli W (constantI SScal 32 128#32)))) (constantI SScal 32 0#32))
    (addi (minsi (id (constantI SScal 32 128#32)) (maxsi (id (constantI SScal 32 0#32)) (muli W (constantI SScal 32 128#32)))) (constantI SScal 32 512#32))
    (minsi (id (constantI SScal 32 128#32)) (maxsi (id (constantI SScal 32 0#32)) (muli W (constantI SScal 32 128#32))))

theorem startVec_apply (W : IVec SScal 32) (j : SScal.Idx) : startVec W j = wrapWord (clipWord (W j)) := rfl

def wrapConst (n d : ℕ) : IVec SScal 32 :=
  select (cmpi .slt (constantI SScal 32 (BitVec.ofNat 32 n)) (constantI SScal 32 0#32))
    (addi (constantI SScal 32 (BitVec.ofNat 32 n)) (constantI SScal 32 (BitVec.ofNat 32 d))) (constantI SScal 32 (BitVec.ofNat 32 n))

theorem wrapConst_toInt (n d : ℕ) (hn : n < 2 ^ 31) (j : SScal.Idx) : (wrapConst n d j).toInt = (n : ℤ) :=
  toInt_wrap_ofNat n hn

def selVec (b k a : ℕ) (x2 : IVec SSel 32) (hs : SSel.Slices ![b, k, a] SOne) (hc : SOne.ShapeCasts SScal) : IVec SScal 32 :=
  shapeCast _ (extractStridedSlice SOne ![b, k, a] x2 hs) hc

theorem sone_zero (q : SOne.Idx) (e : Fin 3) : (q e).val = 0 := by
  have := (q e).isLt
  match e with
  | ⟨0, _⟩ => exact Nat.lt_one_iff.mp this
  | ⟨1, _⟩ => exact Nat.lt_one_iff.mp this
  | ⟨2, _⟩ => exact Nat.lt_one_iff.mp this

theorem selVec_apply (b k a : ℕ) (hb : b < 16) (hk : k < 4) (ha : a < 2) (x2 : IVec SSel 32)
    (hs : SSel.Slices ![b, k, a] SOne) (hc : SOne.ShapeCasts SScal) (j : SScal.Idx) :
    selVec b k a x2 hs hc j = x2 (ix3 (⟨b, hb⟩ : Fin 16) (⟨k, hk⟩ : Fin 4) (⟨a, ha⟩ : Fin 2)) := by
  unfold selVec shapeCast extractStridedSlice
  refine congrArg x2 (funext fun d => Fin.ext ?_)
  match d with
  | ⟨0, _⟩ => exact (congrArg (b + ·) (sone_zero _ _)).trans (Nat.add_zero b)
  | ⟨1, _⟩ => exact (congrArg (k + ·) (sone_zero _ _)).trans (Nat.add_zero k)
  | ⟨2, _⟩ => exact (congrArg (a + ·) (sone_zero _ _)).trans (Nat.add_zero a)

/-! ## One step of the program, read at an index -/

variable {α : Type}

/-- One step as the program spells it. -/
def refStep (b k : ℕ) (hs0 : SSel.Slices ![b, k, 0] SOne) (hs1 : SSel.Slices ![b, k, 1] SOne) (hc0 : SOne.ShapeCasts SScal)
    (hsw : SWin.Slices ![b, k, 0, 0, 0] SWin1) (hcw : SWin1.ShapeCasts SImg) (hfit : SImg.Slices (fun _ => 0) SBlk3) (hu : 0 < SScal.numel)
    (hbc : SBlk3.BroadcastsInDim SBlk4 (![1, 2, 3] : Fin 3 → Fin SBlk4.rank)) (hup : SMap.Slices (fun _ => 0) SBlk4)
    (cur : SMap.Idx → α) (x1 : SWin.Idx → α) (x2 : IVec SSel 32) : SMap.Idx → α :=
  Host.dynamicUpdateSlice cur
    (broadcastInDim SBlk4 ![1, 2, 3] hbc
      (Host.dynamicSlice SBlk3 (shapeCast _ (extractStridedSlice SWin1 ![b, k, 0, 0, 0] x1 hsw) hcw)
        (fun a => ((![wrapConst 0 1, startVec (selVec b k 0 x2 hs0 hc0), startVec (selVec b k 1 x2 hs1 hc0)] : Fin 3 → IVec SScal 32) a (Shape.Idx.first hu)).toInt) hfit))
    (fun a => ((![wrapConst b 16, wrapConst 0 1, startVec (selVec b k 0 x2 hs0 hc0), startVec (selVec b k 1 x2 hs1 hc0)] : Fin 4 → IVec SScal 32) a (Shape.Idx.first hu)).toInt) hup

theorem updateSlice_of_mem {s u : Shape} (x : s.Idx → α) (upd : u.Idx → α) (start : Fin s.rank → ℕ) (h : s.Slices start u) (i : s.Idx)
    (hin : ∀ a : Fin s.rank, start a ≤ (i a).val ∧ (i a).val < start a + u.size (a.cast h.1.symm)) (j : u.Idx)
    (hj : ∀ b : Fin u.rank, (j b).val = (i (b.cast h.1)).val - start (b.cast h.1)) :
    updateSlice x upd start h i = upd j := by
  unfold updateSlice
  rw [dif_pos hin]
  exact congrArg upd (funext fun b => Fin.ext (hj b).symm)

theorem updateSlice_of_not_mem {s u : Shape} (x : s.Idx → α) (upd : u.Idx → α) (start : Fin s.rank → ℕ) (h : s.Slices start u) (i : s.Idx)
    (hnin : ¬ ∀ a : Fin s.rank, start a ≤ (i a).val ∧ (i a).val < start a + u.size (a.cast h.1.symm)) :
    updateSlice x upd start h i = x i := by
  unfold updateSlice
  rw [dif_neg hnin]

theorem refStep_core (b k y x : ℕ) (hb : b < 16) (hk : k < 4) (hy : y ≤ 128) (hx : x ≤ 128)
    (hsw : SWin.Slices ![b, k, 0, 0, 0] SWin1) (hcw : SWin1.ShapeCasts SImg) (hfit : SImg.Slices (fun _ => 0) SBlk3)
    (hbc : SBlk3.BroadcastsInDim SBlk4 (![1, 2, 3] : Fin 3 → Fin SBlk4.rank)) (hup : SMap.Slices (fun _ => 0) SBlk4)
    (cur : SMap.Idx → α) (x1 : SWin.Idx → α) (u0 u1 u2 v0 v1 v2 v3 : IVec SScal 32) (j : SScal.Idx)
    (hu0 : (u0 j).toInt = ((0 : ℕ) : ℤ)) (hu1 : (u1 j).toInt = (y : ℤ)) (hu2 : (u2 j).toInt = (x : ℤ))
    (hv0 : (v0 j).toInt = (b : ℤ)) (hv1 : (v1 j).toInt = ((0 : ℕ) : ℤ)) (hv2 : (v2 j).toInt = (y : ℤ)) (hv3 : (v3 j).toInt = (x : ℤ)) :
    Host.dynamicUpdateSlice cur (broadcastInDim SBlk4 ![1, 2, 3] hbc
        (Host.dynamicSlice SBlk3 (shapeCast _ (extractStridedSlice SWin1 ![b, k, 0, 0, 0] x1 hsw) hcw)
          (fun a => ((![u0, u1, u2] : Fin 3 → IVec SScal 32) a j).toInt) hfit))
        (fun a => ((![v0, v1, v2, v3] : Fin 4 → IVec SScal 32) a j).toInt) hup
      = overwrite x1 ⟨b, hb⟩ ⟨k, hk⟩ y x cur := by
  have h3 : ∀ a : Fin 3, (fun a => ((![u0, u1, u2] : Fin 3 → IVec SScal 32) a j).toInt) a = ((![0, y, x] : Fin 3 → ℕ) a : ℤ) := fun a =>
    match a with
    | ⟨0, _⟩ => hu0
    | ⟨1, _⟩ => hu1
    | ⟨2, _⟩ => hu2
  have h4 : ∀ a : Fin 4, (fun a => ((![v0, v1, v2, v3] : Fin 4 → IVec SScal 32) a j).toInt) a = ((![b, 0, y, x] : Fin 4 → ℕ) a : ℤ) := fun a =>
    match a with
    | ⟨0, _⟩ => hv0
    | ⟨1, _⟩ => hv1
    | ⟨2, _⟩ => hv2
    | ⟨3, _⟩ => hv3
  generalize (fun a => ((![u0, u1, u2] : Fin 3 → IVec SScal 32) a j).toInt) = st3 at h3 ⊢
  generalize (fun a => ((![v0, v1, v2, v3] : Fin 4 → IVec SScal 32) a j).toInt) = st4 at h4 ⊢
  have hoff : SImg.Slices ![0, y, x] SBlk3 := ⟨rfl, fun a => match a with
    | ⟨0, _⟩ => by show 0 + 1 ≤ 1; omega
    | ⟨1, _⟩ => by show y + 384 ≤ 512; omega
    | ⟨2, _⟩ => by show x + 384 ≤ 512; omega⟩
  have hadj : SMap.Slices ![b, 0, y, x] SBlk4 := ⟨rfl, fun a => match a with
    | ⟨0, _⟩ => by show b + 1 ≤ 16; omega
    | ⟨1, _⟩ => by show 0 + 1 ≤ 1; omega
    | ⟨2, _⟩ => by show y + 384 ≤ 512; omega
    | ⟨3, _⟩ => by show x + 384 ≤ 512; omega⟩
  rw [Host.dynamicSlice_eq_extractStridedSlice SBlk3 _ st3 ![0, y, x] hfit hoff h3]
  rw [Host.dynamicUpdateSlice_eq_updateSlice cur _ st4 hup ![b, 0, y, x] (fun a => by
      rw [h4 a]
      match a with
      | ⟨0, _⟩ => show (min (max ((b : ℕ) : ℤ) 0) ((16 - 1 : ℕ) : ℤ)).toNat = b; omega
      | ⟨1, _⟩ => show (min (max ((0 : ℕ) : ℤ) 0) ((1 - 1 : ℕ) : ℤ)).toNat = 0; omega
      | ⟨2, _⟩ => show (min (max ((y : ℕ) : ℤ) 0) ((512 - 384 : ℕ) : ℤ)).toNat = y; omega
      | ⟨3, _⟩ => show (min (max ((x : ℕ) : ℤ) 0) ((512 - 384 : ℕ) : ℤ)).toNat = x; omega) hadj]
  funext i
  unfold overwrite
  have h1 : (i 1).val < 1 := (i 1).isLt
  have l2 : (i 2).val < 512 := (i 2).isLt
  have l3 : (i 3).val < 512 := (i 3).isLt
  by_cases hc : (i 0).val = b ∧ y ≤ (i 2 : Fin 512).val ∧ (i 2 : Fin 512).val < y + 384 ∧ x ≤ (i 3 : Fin 512).val ∧ (i 3 : Fin 512).val < x + 384
  · rw [if_pos hc]
    obtain ⟨h0, h2a, h2b, h3a, h3b⟩ := hc
    have h0v : (i 0).val = b := h0
    have r2 : (i 2).val - y < 384 := by omega
    have r3 : (i 3).val - x < 384 := by omega
    refine (updateSlice_of_mem cur _ _ hadj i (fun a => match a with
        | ⟨0, _⟩ => by show b ≤ (i 0).val ∧ (i 0).val < b + 1; omega
        | ⟨1, _⟩ => by show 0 ≤ (i 1).val ∧ (i 1).val < 0 + 1; omega
        | ⟨2, _⟩ => by show y ≤ (i 2).val ∧ (i 2).val < y + 384; omega
        | ⟨3, _⟩ => by show x ≤ (i 3).val ∧ (i 3).val < x + 384; omega)
      (ix4 (0 : Fin 1) (0 : Fin 1) (⟨(i 2).val - y, r2⟩ : Fin 384) (⟨(i 3).val - x, r3⟩ : Fin 384))
      (fun b' => match b' with
        | ⟨0, _⟩ => by show 0 = (i 0).val - b; omega
        | ⟨1, _⟩ => by show 0 = (i 1).val - 0; omega
        | ⟨2, _⟩ => rfl
        | ⟨3, _⟩ => rfl)).trans ?_
    refine (broadcastInDim_apply _ hbc _ _ (ix3 (0 : Fin 1) (⟨(i 2).val - y, r2⟩ : Fin 384) (⟨(i 3).val - x, r3⟩ : Fin 384)) (fun a => match a with
        | ⟨0, _⟩ => by show (0 : ℕ) = if (1 : ℕ) = 1 then 0 else _; rw [if_pos rfl]
        | ⟨1, _⟩ => by show (i 2).val - y = if (384 : ℕ) = 1 then 0 else (i 2).val - y; rw [if_neg (by decide)]
        | ⟨2, _⟩ => by show (i 3).val - x = if (384 : ℕ) = 1 then 0 else (i 3).val - x; rw [if_neg (by decide)])).trans ?_
    refine (extractStridedSlice_apply _ _ hoff _ (ix3 (0 : Fin 1) (i 2 : Fin 512) (i 3 : Fin 512)) (fun a => match a with
        | ⟨0, _⟩ => by show 0 = 0 + 0; rfl
        | ⟨1, _⟩ => by show (i 2).val = y + ((i 2).val - y); omega
        | ⟨2, _⟩ => by show (i 3).val = x + ((i 3).val - x); omega)).trans ?_
    refine (shapeCast_apply _ hcw _ (ix5 (0 : Fin 1) (0 : Fin 1) (0 : Fin 1) (i 2 : Fin 512) (i 3 : Fin 512)) (by
        rw [Shape.rowMajor_val_five, Shape.rowMajor_val_three]
        show ((((0 * 1 + 0) * 1 + 0) * 512 + (i 2).val) * 512 + (i 3).val) = (0 * 512 + (i 2).val) * 512 + (i 3).val
        omega)).trans ?_
    exact extractStridedSlice_apply _ _ hsw _ (ix5 (⟨b, hb⟩ : Fin 16) (⟨k, hk⟩ : Fin 4) (0 : Fin 1) (i 2 : Fin 512) (i 3 : Fin 512)) (fun a => match a with
        | ⟨0, _⟩ => by show b = b + 0; omega
        | ⟨1, _⟩ => by show k = k + 0; omega
        | ⟨2, _⟩ => by show 0 = 0 + 0; rfl
        | ⟨3, _⟩ => by show (i 2).val = 0 + (i 2).val; omega
        | ⟨4, _⟩ => by show (i 3).val = 0 + (i 3).val; omega)
  · rw [if_neg hc]
    refine updateSlice_of_not_mem cur _ _ hadj i (fun hall => hc ?_)
    have p0 : (0 : ℕ) < 4 := by decide
    have p2 : (2 : ℕ) < 4 := by decide
    have p3 : (3 : ℕ) < 4 := by decide
    have a0 : b ≤ (i 0).val ∧ (i 0).val < b + 1 := hall ⟨0, p0⟩
    have a2 : y ≤ (i 2).val ∧ (i 2).val < y + 384 := hall ⟨2, p2⟩
    have a3 : x ≤ (i 3).val ∧ (i 3).val < x + 384 := hall ⟨3, p3⟩
    exact ⟨by omega, a2.1, a2.2, a3.1, a3.2⟩

end Cert.Fuse.Ref

end
-- ==== Proof.RefNest.lean ====
/-
  The sixty-four steps and the final logistic function.

  With every selection word 0 or 1, each step is the overwrite its two words ask for; the four steps of an image are
  that image's four overwrites; the sixty-four steps, image by image, turn the sampling map into the specified choice;
  and the last four operations (negate, exponential, one plus, one over) are the logistic function at every element.
-/
import proofs.«207346_g72533407695360_cont_9to1_m_270_11_alg».proof.Proof.RefStep

noncomputable section

namespace Cert.Fuse.Ref

open Idealize.ShloMosaic Idealize.ShloMosaic.ValueIdx

variable {α : Type}

/-! ## The step is the selection's overwrite; the sixty-four steps; the result -/

theorem f_sel (b k a : ℕ) (hb : b < 16) (hk : k < 4) (ha : a < 2) : SSel.Slices ![b, k, a] SOne :=
  ⟨rfl, fun d => match d with
    | ⟨0, _⟩ => by show b + 1 ≤ 16; omega
    | ⟨1, _⟩ => by show k + 1 ≤ 4; omega
    | ⟨2, _⟩ => by show a + 1 ≤ 2; omega⟩
theorem f_win (b k : ℕ) (hb : b < 16) (hk : k < 4) : SWin.Slices ![b, k, 0, 0, 0] SWin1 :=
  ⟨rfl, fun d => match d with
    | ⟨0, _⟩ => by show b + 1 ≤ 16; omega
    | ⟨1, _⟩ => by show k + 1 ≤ 4; omega
    | ⟨2, _⟩ => by show 0 + 1 ≤ 1; omega
    | ⟨3, _⟩ => by show 0 + 512 ≤ 512; omega
    | ⟨4, _⟩ => by show 0 + 512 ≤ 512; omega⟩
theorem f_c0 : SOne.ShapeCasts SScal := by decide
theorem f_cw : SWin1.ShapeCasts SImg := by decide
theorem f_fit : SImg.Slices (fun _ => 0) SBlk3 := by decide
theorem f_u : 0 < SScal.numel := by decide
theorem f_bc : SBlk3.BroadcastsInDim SBlk4 (![1, 2, 3] : Fin 3 → Fin SBlk4.rank) := by decide
theorem f_up : SMap.Slices (fun _ => 0) SBlk4 := by decide
theorem f_b1 : SScal.BroadcastsInDim SMap (![] : Fin 0 → Fin SMap.rank) := by decide

theorem refStep_eq (b k : ℕ) (hb : b < 16) (hk : k < 4) (hs0 : SSel.Slices ![b, k, 0] SOne) (hs1 : SSel.Slices ![b, k, 1] SOne)
    (hc0 : SOne.ShapeCasts SScal) (hsw : SWin.Slices ![b, k, 0, 0, 0] SWin1) (hcw : SWin1.ShapeCasts SImg)
    (hfit : SImg.Slices (fun _ => 0) SBlk3) (hu : 0 < SScal.numel)
    (hbc : SBlk3.BroadcastsInDim SBlk4 (![1, 2, 3] : Fin 3 → Fin SBlk4.rank)) (hup : SMap.Slices (fun _ => 0) SBlk4)
    (cur : SMap.Idx → α) (x1 : SWin.Idx → α) (x2 : IVec SSel 32) (hsel : ∀ j, (x2 j).toNat ≤ 1) :
    refStep b k hs0 hs1 hc0 hsw hcw hfit hu hbc hup cur x1 x2 = overwriteSel x1 x2 ⟨b, hb⟩ ⟨k, hk⟩ cur := by
  have e0 : ∀ j, (startVec (selVec b k 0 x2 hs0 hc0) j).toInt = ((128 * start x2 ⟨b, hb⟩ ⟨k, hk⟩ 0 : ℕ) : ℤ) := fun j => by
    rw [startVec_apply, selVec_apply b k 0 hb hk (by decide)]
    exact wrap_clip_toInt (hsel _)
  have e1 : ∀ j, (startVec (selVec b k 1 x2 hs1 hc0) j).toInt = ((128 * start x2 ⟨b, hb⟩ ⟨k, hk⟩ 1 : ℕ) : ℤ) := fun j => by
    rw [startVec_apply, selVec_apply b k 1 hb hk (by decide)]
    exact wrap_clip_toInt (hsel _)
  have hy : 128 * start x2 ⟨b, hb⟩ ⟨k, hk⟩ 0 ≤ 128 := by
    have := hsel (ix3 (⟨b, hb⟩ : Fin 16) (⟨k, hk⟩ : Fin 4) (0 : Fin 2)); unfold start; omega
  have hx : 128 * start x2 ⟨b, hb⟩ ⟨k, hk⟩ 1 ≤ 128 := by
    have := hsel (ix3 (⟨b, hb⟩ : Fin 16) (⟨k, hk⟩ : Fin 4) (1 : Fin 2)); unfold start; omega
  unfold refStep overwriteSel
  have hb31 : b < 2 ^ 31 := by omega
  exact refStep_core b k (128 * start x2 ⟨b, hb⟩ ⟨k, hk⟩ 0) (128 * start x2 ⟨b, hb⟩ ⟨k, hk⟩ 1) hb hk hy hx hsw hcw hfit hbc hup cur x1
    (wrapConst 0 1) (startVec (selVec b k 0 x2 hs0 hc0)) (startVec (selVec b k 1 x2 hs1 hc0))
    (wrapConst b 16) (wrapConst 0 1) (startVec (selVec b k 0 x2 hs0 hc0)) (startVec (selVec b k 1 x2 hs1 hc0)) (Shape.Idx.first hu)
    (wrapConst_toInt 0 1 (by decide) _) (e0 _) (e1 _) (wrapConst_toInt b 16 hb31 _) (wrapConst_toInt 0 1 (by decide) _) (e0 _) (e1 _)

/-- Step `(b, k)` of the program, its side conditions supplied. -/
def stepAt (b k : ℕ) (hb : b < 16) (hk : k < 4) (cur : SMap.Idx → α) (x1 : SWin.Idx → α) (x2 : IVec SSel 32) : SMap.Idx → α :=
  refStep b k (f_sel b k 0 hb hk (by decide)) (f_sel b k 1 hb hk (by decide)) f_c0 (f_win b k hb hk) f_cw f_fit f_u f_bc f_up cur x1 x2

/-- The four steps of image `b`. -/
def nestImage (b : ℕ) (hb : b < 16) (cur : SMap.Idx → α) (x1 : SWin.Idx → α) (x2 : IVec SSel 32) : SMap.Idx → α :=
  stepAt b 3 hb (by decide) (stepAt b 2 hb (by decide) (stepAt b 1 hb (by decide) (stepAt b 0 hb (by decide) cur x1 x2) x1 x2) x1 x2) x1 x2

theorem nestImage_eq (b : ℕ) (hb : b < 16) (cur : SMap.Idx → α) (x1 : SWin.Idx → α) (x2 : IVec SSel 32) (hsel : ∀ j, (x2 j).toNat ≤ 1) :
    nestImage b hb cur x1 x2 = overwriteImage x1 x2 ⟨b, hb⟩ cur := by
  unfold nestImage stepAt
  rw [refStep_eq b 0 hb (by decide) _ _ _ _ _ _ _ _ _ _ _ _ hsel, refStep_eq b 1 hb (by decide) _ _ _ _ _ _ _ _ _ _ _ _ hsel,
    refStep_eq b 2 hb (by decide) _ _ _ _ _ _ _ _ _ _ _ _ hsel, refStep_eq b 3 hb (by decide) _ _ _ _ _ _ _ _ _ _ _ _ hsel]
  rfl

/-- The sixty-four steps, image by image. -/
def nestAll (x0 : SMap.Idx → α) (x1 : SWin.Idx → α) (x2 : IVec SSel 32) : SMap.Idx → α :=
  nestImage 15 (by decide) (nestImage 14 (by decide) (nestImage 13 (by decide) (nestImage 12 (by decide)
  (nestImage 11 (by decide) (nestImage 10 (by decide) (nestImage 9 (by decide) (nestImage 8 (by decide)
  (nestImage 7 (by decide) (nestImage 6 (by decide) (nestImage 5 (by decide) (nestImage 4 (by decide)
  (nestImage 3 (by decide) (nestImage 2 (by decide) (nestImage 1 (by decide) (nestImage 0 (by decide) x0 x1 x2)
  x1 x2) x1 x2) x1 x2) x1 x2) x1 x2) x1 x2) x1 x2) x1 x2) x1 x2) x1 x2) x1 x2) x1 x2) x1 x2) x1 x2) x1 x2

theorem nestAll_eq (x0 : SMap.Idx → α) (x1 : SWin.Idx → α) (x2 : IVec SSel 32) (hsel : ∀ j, (x2 j).toNat ≤ 1) :
    nestAll x0 x1 x2 = pick x0 x1 x2 := by
  refine done_all x0 x1 x2 _ ?_
  unfold nestAll
  simp only [nestImage_eq _ _ _ _ _ hsel]
  exact done_succ _ _ _ 15 _ _ (done_succ _ _ _ 14 _ _ (done_succ _ _ _ 13 _ _ (done_succ _ _ _ 12 _ _
    (done_succ _ _ _ 11 _ _ (done_succ _ _ _ 10 _ _ (done_succ _ _ _ 9 _ _ (done_succ _ _ _ 8 _ _
    (done_succ _ _ _ 7 _ _ (done_succ _ _ _ 6 _ _ (done_succ _ _ _ 5 _ _ (done_succ _ _ _ 4 _ _
    (done_succ _ _ _ 3 _ _ (done_succ _ _ _ 2 _ _ (done_succ _ _ _ 1 _ _ (done_succ _ _ _ 0 _ _ (done_zero _ _ _))))))))))))))))

/-- The last four operations: one over one plus the exponential of the negative. -/
def refTail (X : SMap.Idx → Ideal .f32) : SMap.Idx → Ideal .f32 :=
  Host.divf (F := Ideal) (broadcastInDim SMap ![] f_b1 (constant (F := Ideal) SScal .f32 0x3F800000#32))
    (addf (F := Ideal) (broadcastInDim SMap ![] f_b1 (constant (F := Ideal) SScal .f32 0x3F800000#32))
      (Host.exp (F := Ideal) (Host.negf (F := Ideal) X)))

theorem refTail_apply (X : SMap.Idx → Ideal .f32) (i : SMap.Idx) : refTail X i = logistic (F := Ideal) (X i) :=
  (logistic_neg (X i)).symm

theorem refValue_eq (x0 : SMap.Idx → Ideal .f32) (x1 : SWin.Idx → Ideal .f32) (x2 : IVec SSel 32) (hsel : ∀ j, (x2 j).toNat ≤ 1) :
    refTail (nestAll x0 x1 x2) = fused (F := Ideal) x0 x1 x2 := by
  funext i
  rw [refTail_apply, nestAll_eq x0 x1 x2 hsel]
  rfl

end Cert.Fuse.Ref

end
-- ==== Proof.RefRun.StepsA.lean ====
/- Steps of the reference over the operations 1 … 1380 of 4424: each step, from any contents, leaves the running map with one more
   overwrite, spelt as the program spells it, and the three arguments as they were. -/
import proofs.«207346_g72533407695360_cont_9to1_m_270_11_alg».proof.Proof.RefRun.OpsA
import proofs.«207346_g72533407695360_cont_9to1_m_270_11_alg».proof.Proof.RefRunBase
import proofs.«207346_g72533407695360_cont_9to1_m_270_11_alg».proof.Proof.RefNest

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Step 0 (image 0, window 0). -/
theorem inv0 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_arg0) = X ∧ W (Proc.devRef .tc main_arg0) = A0 ∧ W (Proc.devRef .tc main_arg1) = A1 ∧ W (Proc.devRef .tc main_arg2) = A2) :
    (after pc001 (after pc000 W)) (Proc.devRef .tc main_v33) = Cert.Fuse.Ref.stepAt 0 0 (by decide) (by decide) X A1 A2
      ∧ (after pc001 (after pc000 W)) (Proc.devRef .tc main_arg0) = A0 ∧ (after pc001 (after pc000 W)) (Proc.devRef .tc main_arg1) = A1 ∧ (after pc001 (after pc000 W)) (Proc.devRef .tc main_arg2) = A2 := by
  obtain ⟨rfl, rfl, rfl, rfl⟩ := h
  simp only [pc000, pc001]
  after_steps
  rfl

set_option maxHeartbeats 40000000 in
/-- Step 1 (image 0, window 1). -/
theorem inv1 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v33) = X ∧ W (Proc.devRef .tc main_arg0) = A0 ∧ W (Proc.devRef .tc main_arg1) = A1 ∧ W (Proc.devRef .tc main_arg2) = A2) :
    (after pc003 (after pc002 W)) (Proc.devRef .tc main_v67) = Cert.Fuse.Ref.stepAt 0 1 (by decide) (by decide) X A1 A2
      ∧ (after pc003 (after pc002 W)) (Proc.devRef .tc main_arg0) = A0 ∧ (after pc003 (after pc002 W)) (Proc.devRef .tc main_arg1) = A1 ∧ (after pc003 (after pc002 W)) (Proc.devRef .tc main_arg2) = A2 := by
  obtain ⟨rfl, rfl, rfl, rfl⟩ := h
  simp only [pc002, pc003]
  after_steps
  rfl

set_option maxHeartbeats 40000000 in
/-- Step 2 (image 0, window 2). -/
theorem inv2 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v67) = X ∧ W (Proc.devRef .tc main_arg0) = A0 ∧ W (Proc.devRef .tc main_arg1) = A1 ∧ W (Proc.devRef .tc main_arg2) = A2) :
    (after pc005 (after pc004 W)) (Proc.devRef .tc main_v101) = Cert.Fuse.Ref.stepAt 0 2 (by decide) (by decide) X A1 A2
      ∧ (after pc005 (after pc004 W)) (Proc.devRef .tc main_arg0) = A0 ∧ (after pc005 (after pc004 W)) (Proc.devRef .tc main_arg1) = A1 ∧ (after pc005 (after pc004 W)) (Proc.devRef .tc main_arg2) = A2 := by
  obtain ⟨rfl, rfl, rfl, rfl⟩ := h
  simp only [pc004, pc005]
  after_steps
  rfl

set_option maxHeartbeats 40000000 in
/-- Step 3 (image 0, window 3). -/
theorem inv3 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v101) = X ∧ W (Proc.devRef .tc main_arg0) = A0 ∧ W (Proc.devRef .tc main_arg1) = A1 ∧ W (Proc.devRef .tc main_arg2) = A2) :
    (after pc007 (after pc006 W)) (Proc.devRef .tc main_v135) = Cert.Fuse.Ref.stepAt 0 3 (by decide) (by decide) X A1 A2
      ∧ (after pc007 (after pc006 W)) (Proc.devRef .tc main_arg0) = A0 ∧ (after pc007 (after pc006 W)) (Proc.devRef .tc main_arg1) = A1 ∧ (after pc007 (after pc006 W)) (Proc.devRef .tc main_arg2) = A2 := by
  obtain ⟨rfl, rfl, rfl, rfl⟩ := h
  simp only [pc006, pc007]
  after_steps
  rfl

set_option maxHeartbeats 40000000 in
/-- Step 4 (image 1, window 0). -/
theorem inv4 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v135) = X ∧ W (Proc.devRef .tc main_arg0) = A0 ∧ W (Proc.devRef .tc main_arg1) = A1 ∧ W (Proc.devRef .tc main_arg2) = A2) :
    (after pc009 (after pc008 W)) (Proc.devRef .tc main_v169) = Cert.Fuse.Ref.stepAt 1 0 (by decide) (by decide) X A1 A2
      ∧ (after pc009 (after pc008 W)) (Proc.devRef .tc main_arg0) = A0 ∧ (after pc009 (after pc008 W)) (Proc.devRef .tc main_arg1) = A1 ∧ (after pc009 (after pc008 W)) (Proc.devRef .tc main_arg2) = A2 := by
  obtain ⟨rfl, rfl, rfl, rfl⟩ := h
  simp only [pc008, pc009]
  after_steps
  rfl

set_option maxHeartbeats 40000000 in
/-- Step 5 (image 1, window 1). -/
theorem inv5 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v169) = X ∧ W (Proc.devRef .tc main_arg0) = A0 ∧ W (Proc.devRef .tc main_arg1) = A1 ∧ W (Proc.devRef .tc main_arg2) = A2) :
    (after pc011 (after pc010 W)) (Proc.devRef .tc main_v203) = Cert.Fuse.Ref.stepAt 1 1 (by decide) (by decide) X A1 A2
      ∧ (after pc011 (after pc010 W)) (Proc.devRef .tc main_arg0) = A0 ∧ (after pc011 (after pc010 W)) (Proc.devRef .tc main_arg1) = A1 ∧ (after pc011 (after pc010 W)) (Proc.devRef .tc main_arg2) = A2 := by
  obtain ⟨rfl, rfl, rfl, rfl⟩ := h
  simp only [pc010, pc011]
  after_steps
  rfl

set_option maxHeartbeats 40000000 in
/-- Step 6 (image 1, window 2). -/
theorem inv6 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v203) = X ∧ W (Proc.devRef .tc main_arg0) = A0 ∧ W (Proc.devRef .tc main_arg1) = A1 ∧ W (Proc.devRef .tc main_arg2) = A2) :
    (after pc013 (after pc012 W)) (Proc.devRef .tc main_v237) = Cert.Fuse.Ref.stepAt 1 2 (by decide) (by decide) X A1 A2
      ∧ (after pc013 (after pc012 W)) (Proc.devRef .tc main_arg0) = A0 ∧ (after pc013 (after pc012 W)) (Proc.devRef .tc main_arg1) = A1 ∧ (after pc013 (after pc012 W)) (Proc.devRef .tc main_arg2) = A2 := by
  obtain ⟨rfl, rfl, rfl, rfl⟩ := h
  simp only [pc012, pc013]
  after_steps
  rfl

set_option maxHeartbeats 40000000 in
/-- Step 7 (image 1, window 3). -/
theorem inv7 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v237) = X ∧ W (Proc.devRef .tc main_arg0) = A0 ∧ W (Proc.devRef .tc main_arg1) = A1 ∧ W (Proc.devRef .tc main_arg2) = A2) :
    (after pc015 (after pc014 W)) (Proc.devRef .tc main_v271) = Cert.Fuse.Ref.stepAt 1 3 (by decide) (by decide) X A1 A2
      ∧ (after pc015 (after pc014 W)) (Proc.devRef .tc main_arg0) = A0 ∧ (after pc015 (after pc014 W)) (Proc.devRef .tc main_arg1) = A1 ∧ (after pc015 (after pc014 W)) (Proc.devRef .tc main_arg2) = A2 := by
  obtain ⟨rfl, rfl, rfl, rfl⟩ := h
  simp only [pc014, pc015]
  after_steps
  rfl

set_option maxHeartbeats 40000000 in
/-- Step 8 (image 2, window 0). -/
theorem inv8 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v271) = X ∧ W (Proc.devRef .tc main_arg0) = A0 ∧ W (Proc.devRef .tc main_arg1) = A1 ∧ W (Proc.devRef .tc main_arg2) = A2) :
    (after pc017 (after pc016 W)) (Proc.devRef .tc main_v305) = Cert.Fuse.Ref.stepAt 2 0 (by decide) (by decide) X A1 A2
      ∧ (after pc017 (after pc016 W)) (Proc.devRef .tc main_arg0) = A0 ∧ (after pc017 (after pc016 W)) (Proc.devRef .tc main_arg1) = A1 ∧ (after pc017 (after pc016 W)) (Proc.devRef .tc main_arg2) = A2 := by
  obtain ⟨rfl, rfl, rfl, rfl⟩ := h
  simp only [pc016, pc017]
  after_steps
  rfl

set_option maxHeartbeats 40000000 in
/-- Step 9 (image 2, window 1). -/
theorem inv9 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v305) = X ∧ W (Proc.devRef .tc main_arg0) = A0 ∧ W (Proc.devRef .tc main_arg1) = A1 ∧ W (Proc.devRef .tc main_arg2) = A2) :
    (after pc019 (after pc018 W)) (Proc.devRef .tc main_v339) = Cert.Fuse.Ref.stepAt 2 1 (by decide) (by decide) X A1 A2
      ∧ (after pc019 (after pc018 W)) (Proc.devRef .tc main_arg0) = A0 ∧ (after pc019 (after pc018 W)) (Proc.devRef .tc main_arg1) = A1 ∧ (after pc019 (after pc018 W)) (Proc.devRef .tc main_arg2) = A2 := by
  obtain ⟨rfl, rfl, rfl, rfl⟩ := h
  simp only [pc018, pc019]
  after_steps
  rfl

set_option maxHeartbeats 40000000 in
/-- Step 10 (image 2, window 2). -/
theorem inv10 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v339) = X ∧ W (Proc.devRef .tc main_arg0) = A0 ∧ W (Proc.devRef .tc main_arg1) = A1 ∧ W (Proc.devRef .tc main_arg2) = A2) :
    (after pc021 (after pc020 W)) (Proc.devRef .tc main_v373) = Cert.Fuse.Ref.stepAt 2 2 (by decide) (by decide) X A1 A2
      ∧ (after pc021 (after pc020 W)) (Proc.devRef .tc main_arg0) = A0 ∧ (after pc021 (after pc020 W)) (Proc.devRef .tc main_arg1) = A1 ∧ (after pc021 (after pc020 W)) (Proc.devRef .tc main_arg2) = A2 := by
  obtain ⟨rfl, rfl, rfl, rfl⟩ := h
  simp only [pc020, pc021]
  after_steps
  rfl

set_option maxHeartbeats 40000000 in
/-- Step 11 (image 2, window 3). -/
theorem inv11 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v373) = X ∧ W (Proc.devRef .tc main_arg0) = A0 ∧ W (Proc.devRef .tc main_arg1) = A1 ∧ W (Proc.devRef .tc main_arg2) = A2) :
    (after pc023 (after pc022 W)) (Proc.devRef .tc main_v407) = Cert.Fuse.Ref.stepAt 2 3 (by decide) (by decide) X A1 A2
      ∧ (after pc023 (after pc022 W)) (Proc.devRef .tc main_arg0) = A0 ∧ (after pc023 (after pc022 W)) (Proc.devRef .tc main_arg1) = A1 ∧ (after pc023 (after pc022 W)) (Proc.devRef .tc main_arg2) = A2 := by
  obtain ⟨rfl, rfl, rfl, rfl⟩ := h
  simp only [pc022, pc023]
  after_steps
  rfl

set_option maxHeartbeats 40000000 in
/-- Step 12 (image 3, window 0). -/
theorem inv12 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v407) = X ∧ W (Proc.devRef .tc main_arg0) = A0 ∧ W (Proc.devRef .tc main_arg1) = A1 ∧ W (Proc.devRef .tc main_arg2) = A2) :
    (after pc025 (after pc024 W)) (Proc.devRef .tc main_v441) = Cert.Fuse.Ref.stepAt 3 0 (by decide) (by decide) X A1 A2
      ∧ (after pc025 (after pc024 W)) (Proc.devRef .tc main_arg0) = A0 ∧ (after pc025 (after pc024 W)) (Proc.devRef .tc main_arg1) = A1 ∧ (after pc025 (after pc024 W)) (Proc.devRef .tc main_arg2) = A2 := by
  obtain ⟨rfl, rfl, rfl, rfl⟩ := h
  simp only [pc024, pc025]
  after_steps
  rfl

set_option maxHeartbeats 40000000 in
/-- Step 13 (image 3, window 1). -/
theorem inv13 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v441) = X ∧ W (Proc.devRef .tc main_arg0) = A0 ∧ W (Proc.devRef .tc main_arg1) = A1 ∧ W (Proc.devRef .tc main_arg2) = A2) :
    (after pc027 (after pc026 W)) (Proc.devRef .tc main_v475) = Cert.Fuse.Ref.stepAt 3 1 (by decide) (by decide) X A1 A2
      ∧ (after pc027 (after pc026 W)) (Proc.devRef .tc main_arg0) = A0 ∧ (after pc027 (after pc026 W)) (Proc.devRef .tc main_arg1) = A1 ∧ (after pc027 (after pc026 W)) (Proc.devRef .tc main_arg2) = A2 := by
  obtain ⟨rfl, rfl, rfl, rfl⟩ := h
  simp only [pc026, pc027]
  after_steps
  rfl

set_option maxHeartbeats 40000000 in
/-- Step 14 (image 3, window 2). -/
theorem inv14 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v475) = X ∧ W (Proc.devRef .tc main_arg0) = A0 ∧ W (Proc.devRef .tc main_arg1) = A1 ∧ W (Proc.devRef .tc main_arg2) = A2) :
    (after pc029 (after pc028 W)) (Proc.devRef .tc main_v509) = Cert.Fuse.Ref.stepAt 3 2 (by decide) (by decide) X A1 A2
      ∧ (after pc029 (after pc028 W)) (Proc.devRef .tc main_arg0) = A0 ∧ (after pc029 (after pc028 W)) (Proc.devRef .tc main_arg1) = A1 ∧ (after pc029 (after pc028 W)) (Proc.devRef .tc main_arg2) = A2 := by
  obtain ⟨rfl, rfl, rfl, rfl⟩ := h
  simp only [pc028, pc029]
  after_steps
  rfl

set_option maxHeartbeats 40000000 in
/-- Step 15 (image 3, window 3). -/
theorem inv15 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v509) = X ∧ W (Proc.devRef .tc main_arg0) = A0 ∧ W (Proc.devRef .tc main_arg1) = A1 ∧ W (Proc.devRef .tc main_arg2) = A2) :
    (after pc031 (after pc030 W)) (Proc.devRef .tc main_v543) = Cert.Fuse.Ref.stepAt 3 3 (by decide) (by decide) X A1 A2
      ∧ (after pc031 (after pc030 W)) (Proc.devRef .tc main_arg0) = A0 ∧ (after pc031 (after pc030 W)) (Proc.devRef .tc main_arg1) = A1 ∧ (after pc031 (after pc030 W)) (Proc.devRef .tc main_arg2) = A2 := by
  obtain ⟨rfl, rfl, rfl, rfl⟩ := h
  simp only [pc030, pc031]
  after_steps
  rfl

set_option maxHeartbeats 40000000 in
/-- Step 16 (image 4, window 0). -/
theorem inv16 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v543) = X ∧ W (Proc.devRef .tc main_arg0) = A0 ∧ W (Proc.devRef .tc main_arg1) = A1 ∧ W (Proc.devRef .tc main_arg2) = A2) :
    (after pc033 (after pc032 W)) (Proc.devRef .tc main_v577) = Cert.Fuse.Ref.stepAt 4 0 (by decide) (by decide) X A1 A2
      ∧ (after pc033 (after pc032 W)) (Proc.devRef .tc main_arg0) = A0 ∧ (after pc033 (after pc032 W)) (Proc.devRef .tc main_arg1) = A1 ∧ (after pc033 (after pc032 W)) (Proc.devRef .tc main_arg2) = A2 := by
  obtain ⟨rfl, rfl, rfl, rfl⟩ := h
  simp only [pc032, pc033]
  after_steps
  rfl

set_option maxHeartbeats 40000000 in
/-- Step 17 (image 4, window 1). -/
theorem inv17 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v577) = X ∧ W (Proc.devRef .tc main_arg0) = A0 ∧ W (Proc.devRef .tc main_arg1) = A1 ∧ W (Proc.devRef .tc main_arg2) = A2) :
    (after pc035 (after pc034 W)) (Proc.devRef .tc main_v611) = Cert.Fuse.Ref.stepAt 4 1 (by decide) (by decide) X A1 A2
      ∧ (after pc035 (after pc034 W)) (Proc.devRef .tc main_arg0) = A0 ∧ (after pc035 (after pc034 W)) (Proc.devRef .tc main_arg1) = A1 ∧ (after pc035 (after pc034 W)) (Proc.devRef .tc main_arg2) = A2 := by
  obtain ⟨rfl, rfl, rfl, rfl⟩ := h
  simp only [pc034, pc035]
  after_steps
  rfl

set_option maxHeartbeats 40000000 in
/-- Step 18 (image 4, window 2). -/
theorem inv18 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v611) = X ∧ W (Proc.devRef .tc main_arg0) = A0 ∧ W (Proc.devRef .tc main_arg1) = A1 ∧ W (Proc.devRef .tc main_arg2) = A2) :
    (after pc037 (after pc036 W)) (Proc.devRef .tc main_v645) = Cert.Fuse.Ref.stepAt 4 2 (by decide) (by decide) X A1 A2
      ∧ (after pc037 (after pc036 W)) (Proc.devRef .tc main_arg0) = A0 ∧ (after pc037 (after pc036 W)) (Proc.devRef .tc main_arg1) = A1 ∧ (after pc037 (after pc036 W)) (Proc.devRef .tc main_arg2) = A2 := by
  obtain ⟨rfl, rfl, rfl, rfl⟩ := h
  simp only [pc036, pc037]
  after_steps
  rfl

set_option maxHeartbeats 40000000 in
/-- Step 19 (image 4, window 3). -/
theorem inv19 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v645) = X ∧ W (Proc.devRef .tc main_arg0) = A0 ∧ W (Proc.devRef .tc main_arg1) = A1 ∧ W (Proc.devRef .tc main_arg2) = A2) :
    (after pc039 (after pc038 W)) (Proc.devRef .tc main_v679) = Cert.Fuse.Ref.stepAt 4 3 (by decide) (by decide) X A1 A2
      ∧ (after pc039 (after pc038 W)) (Proc.devRef .tc main_arg0) = A0 ∧ (after pc039 (after pc038 W)) (Proc.devRef .tc main_arg1) = A1 ∧ (after pc039 (after pc038 W)) (Proc.devRef .tc main_arg2) = A2 := by
  obtain ⟨rfl, rfl, rfl, rfl⟩ := h
  simp only [pc038, pc039]
  after_steps
  rfl

end Cert.ReferenceIdeal.RefRun

end
-- ==== Proof.RefRun.OpsB.lean ====
/- The reference's operations 1381 … 2760 of 4424, in order, as short lists: cut where a window of the printed program
   ends and where a step (one window of one image) ends. Of each list: its operations touch TensorCore buffers only, and
   each determines its result. Of each window of the printed program in this range: it runs its lists, one after the other. -/
import proofs.«207346_g72533407695360_cont_9to1_m_270_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1381 … 1446 of 4424. -/
noncomputable def pc040 : List (HloOp τ sig (Elt F)) :=
  [ unary main_arg2 main_v680 ((extractStridedSlice S1x1x1 ![5, 0, 0] · slices_S16x4x2_S1x1x1_5_0_0) : (⟨S16x4x2, .i32⟩ : BufTy).Contents (Elt F) → (⟨S1x1x1, .i32⟩ : BufTy).Contents (Elt F)),
    reshape main_v680 main_v681 rfl shapeCasts_S1x1x1_S_,
    nullary main_c_579 (constantI S_ 32 128#32),
    binary main_v681 main_c_579 main_v682 (muli : (⟨S_, .i32⟩ : BufTy).Contents (Elt F) → (⟨S_, .i32⟩ : BufTy).Contents (Elt F) → (⟨S_, .i32⟩ : BufTy).Contents (Elt F)),
    nullary main_c_580 (constantI S_ 32 0#32),
    nullary main_c_581 (constantI S_ 32 128#32),
    TRef.unary (TRef.of (T := ⟨S_, .i32⟩) main_c_580) (TRef.of (T := ⟨S_, .i32⟩) main_call40_v0) id,
    TRef.binary (TRef.of (T := ⟨S_, .i32⟩) main_call40_v0) (TRef.of (T := ⟨S_, .i32⟩) main_v682) (TRef.of (T := ⟨S_, .i32⟩) main_call40_v1) maxsi,
    TRef.unary (TRef.of (T := ⟨S_, .i32⟩) main_c_581) (TRef.of (T := ⟨S_, .i32⟩) main_call40_v2) id,
    TRef.binary (TRef.of (T := ⟨S_, .i32⟩) main_call40_v2) (TRef.of (T := ⟨S_, .i32⟩) main_call40_v1) (TRef.of (T := ⟨S_, .i32⟩) main_v683) minsi,
    unary main_arg2 main_v684 ((extractStridedSlice S1x1x1 ![5, 0, 1] · slices_S16x4x2_S1x1x1_5_0_1) : (⟨S16x4x2, .i32⟩ : BufTy).Contents (Elt F) → (⟨S1x1x1, .i32⟩ : BufTy).Contents (Elt F)),
    reshape main_v684 main_v685 rfl shapeCasts_S1x1x1_S_,
    nullary main_c_582 (constantI S_ 32 128#32),
    binary main_v685 main_c_582 main_v686 (muli : (⟨S_, .i32⟩ : BufTy).Contents (Elt F) → (⟨S_, .i32⟩ : BufTy).Contents (Elt F) → (⟨S_, .i32⟩ : BufTy).Contents (Elt F)),
    nullary main_c_583 (constantI S_ 32 0#32),
    nullary main_c_584 (constantI S_ 32 128#32),
    TRef.unary (TRef.of (T := ⟨S_, .i32⟩) main_c_583) (TRef.of (T := ⟨S_, .i32⟩) main_call41_v0) id,
    TRef.binary (TRef.of (T := ⟨S_, .i32⟩) main_call41_v0) (TRef.of (T := ⟨S_, .i32⟩) main_v686) (TRef.of (T := ⟨S_, .i32⟩) main_call41_v1) maxsi,
    TRef.unary (TRef.of (T := ⟨S_, .i32⟩) main_c_584) (TRef.of (T := ⟨S_, .i32⟩) main_call41_v2) id,
    TRef.binary (TRef.of (T := ⟨S_, .i32⟩) main_call41_v2) (TRef.of (T := ⟨S_, .i32⟩) main_call41_v1) (TRef.of (T := ⟨S_, .i32⟩) main_v687) minsi,
    unary main_arg1 main_v688 ((extractStridedSlice S1x1x1x512x512 ![5, 0, 0, 0, 0] · slices_S16x4x1x512x512_S1x1x1x512x512_5_0_0_0_0) : (⟨S16x4x1x512x512, .f32⟩ : BufTy).Contents (Elt F) → (⟨S1x1x1x512x512, .f32⟩ : BufTy).Contents (Elt F)),
    reshape main_v688 main_v689 rfl shapeCasts_S1x1x1x512x512_S1x512x512,
    nullary main_c_585 (constantI S_ 32 0#32),
    nullary main_c_586 (constantI S_ 32 0#32),
    binary main_c_585 main_c_586 main_v690 (cmpi .slt : (⟨S_, .i32⟩ : BufTy).Contents (Elt F) → (⟨S_, .i32⟩ : BufTy).Contents (Elt F) → (⟨S_, .i1⟩ : BufTy).Contents (Elt F)),
    nullary main_c_587 (constantI S_ 32 0#32),
    nullary main_c_588 (constantI S_ 32 1#32),
    binary main_c_587 main_c_588 main_v691 (addi : (⟨S_, .i32⟩ : BufTy).Contents (Elt F) → (⟨S_, .i32⟩ : BufTy).Contents (Elt F) → (⟨S_, .i32⟩ : BufTy).Contents (Elt F)),
    nullary main_c_589 (constantI S_ 32 0#32),
    ternary main_v690 main_v691 main_c_589 main_v692 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_590 (constantI S_ 32 0#32),
    binary main_v683 main_c_590 main_v693 (cmpi .slt : (⟨S_, .i32⟩ : BufTy).Contents (Elt F) → (⟨S_, .i32⟩ : BufTy).Contents (Elt F) → (⟨S_, .i1⟩ : BufTy).Contents (Elt F)),
    nullary main_c_591 (constantI S_ 32 512#32),
    binary main_v683 main_c_591 main_v694 (addi : (⟨S_, .i32⟩ : BufTy).Contents (Elt F) → (⟨S_, .i32⟩ : BufTy).Contents (Elt F) → (⟨S_, .i32⟩ : BufTy).Contents (Elt F)),
    ternary main_v693 main_v694 main_v683 main_v695 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_592 (constantI S_ 32 0#32),
    binary main_v687 main_c_592 main_v696 (cmpi .slt : (⟨S_, .i32⟩ : BufTy).Contents (Elt F) → (⟨S_, .i32⟩ : BufTy).Contents (Elt F) → (⟨S_, .i1⟩ : BufTy).Contents (Elt F)),
    nullary main_c_593 (constantI S_ 32 512#32),
    binary main_v687 main_c_593 main_v697 (addi : (⟨S_, .i32⟩ : BufTy).Contents (Elt F) → (⟨S_, .i32⟩ : BufTy).Contents (Elt F) → (⟨S_, .i32⟩ : BufTy).Contents (Elt F)),
    ternary main_v696 main_v697 main_v687 main_v698 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v689 ![main_v692, main_v695, main_v698] ⟨S_, .i32⟩ main_v699 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v699 main_v700 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_594 (constantI S_ 32 5#32),
    nullary main_c_595 (constantI S_ 32 0#32),
    binary main_c_594 main_c_595 main_v701 (cmpi .slt : (⟨S_, .i32⟩ : BufTy).Contents (Elt F) → (⟨S_, .i32⟩ : BufTy).Contents (Elt F) → (⟨S_, .i1⟩ : BufTy).Contents (Elt F)),
    nullary main_c_596 (constantI S_ 32 5#32),
    nullary main_c_597 (constantI S_ 32 16#32),
    binary main_c_596 main_c_597 main_v702 (addi : (⟨S_, .i32⟩ : BufTy).Contents (Elt F) → (⟨S_, .i32⟩ : BufTy).Contents (Elt F) → (⟨S_, .i32⟩ : BufTy).Contents (Elt F)),
    nullary main_c_598 (constantI S_ 32 5#32),
    ternary main_v701 main_v702 main_c_598 main_v703 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_599 (constantI S_ 32 0#32),
    nullary main_c_600 (constantI S_ 32 0#32),
    binary main_c_599 main_c_600 main_v704 (cmpi .slt : (⟨S_, .i32⟩ : BufTy).Contents (Elt F) → (⟨S_, .i32⟩ : BufTy).Contents (Elt F) → (⟨S_, .i1⟩ : BufTy).Contents (Elt F)),
    nullary main_c_601 (constantI S_ 32 0#32),
    nullary main_c_602 (constantI S_ 32 1#32),
    binary main_c_601 main_c_602 main_v705 (addi : (⟨S_, .i32⟩ : BufTy).Contents (Elt F) → (⟨S_, .i32⟩ : BufTy).Contents (Elt F) → (⟨S_, .i32⟩ : BufTy).Contents (Elt F)),
    nullary main_c_603 (constantI S_ 32 0#32),
    ternary main_v704 main_v705 main_c_603 main_v706 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_604 (constantI S_ 32 0#32),
    binary main_v683 main_c_604 main_v707 (cmpi .slt : (⟨S_, .i32⟩ : BufTy).Contents (Elt F) → (⟨S_, .i32⟩ : BufTy).Contents (Elt F) → (⟨S_, .i1⟩ : BufTy).Contents (Elt F)),
    nullary main_c_605 (constantI S_ 32 512#32),
    binary main_v683 main_c_605 main_v708 (addi : (⟨S_, .i32⟩ : BufTy).Contents (Elt F) → (⟨S_, .i32⟩ : BufTy).Contents (Elt F) → (⟨S_, .i32⟩ : BufTy).Contents (Elt F)),
    ternary main_v707 main_v708 main_v683 main_v709 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_606 (constantI S_ 32 0#32),
    binary main_v687 main_c_606 main_v710 (cmpi .slt : (⟨S_, .i32⟩ : BufTy).Contents (Elt F) → (⟨S_, .i32⟩ : BufTy).Contents (Elt F) → (⟨S_, .i1⟩ : BufTy).Contents (Elt F)),
    nullary main_c_607 (constantI S_ 32 512#32) ]
theorem pc040_sub : (pc040 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub ..⟩
theorem pc040_fresh : ∀ op ∈ (pc040 (F := F)), op.fresh = ∅ := by
  intro _ h; (repeat (cases h with | head => rfl | tail _ h => ?_)); exact nomatch h

/-- Operations 1447 … 1449 of 4424. -/
noncomputable def pc041 : List (HloOp τ sig (Elt F)) :=
  [ binary main_v687 main_c_607 main_v711 (addi : (⟨S_, .i32⟩ : BufTy).Contents (Elt F) → (⟨S_, .i32⟩ : BufTy).Contents (Elt F) → (⟨S_, .i32⟩ : BufTy).Contents (Elt F)),
    ternary main_v710 main_v711 main_v687 main_v712 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v679 main_v700 ![main_v703, main_v706, main_v709, main_v712] ⟨S_, .i32⟩ main_v713 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc041_sub : (pc041 (F := F)).Forall fun op => op.bufs ⊆ tcRefs τ sig :=
  ⟨binary_bufs_sub .., ternary_bufs_sub .., binaryIndexed_bufs_sub ..⟩
theorem pc041_fresh : ∀ op ∈ (pc041 (F := F)), op.fresh = ∅ := by
  intro _ h; (repeat (cases h with | head => rfl | tail _ h => ?_)); exact nomatch h

/-- Operations 1450 … 1512 of 4424. -/
noncomputable def pc042 : List (HloOp τ sig (Elt F)) :=
  [ unary main_arg2 main_v714 ((extractStridedSlice S1x1x1 ![5, 1, 0] · slices_S16x4x2_S1x1x1_5_1_0) : (⟨S16x4x2, .i32⟩ : BufTy).Contents (Elt F) → (⟨S1x1x1, .i32⟩ : BufTy).Contents (Elt F)),
    reshape main_v714 main_v715 rfl shapeCasts_S1x1x1_S_,
    nullary main_c_608 (constantI S_ 32 128#32),
    binary main_v715 main_c_608 main_v716 (muli : (⟨S_, .i32⟩ : BufTy).Contents (Elt F) → (⟨S_, .i32⟩ : BufTy).Contents (Elt F) → (⟨S_, .i32⟩ : BufTy).Contents (Elt F)),
    nullary main_c_609 (constantI S_ 32 0#32),
    nullary main_c_610 (constantI S_ 32 128#32),
    TRef.unary (TRef.of (T := ⟨S_, .i32⟩) main_c_609) (TRef.of (T := ⟨S_, .i32⟩) main_call42_v0) id,
    TRef.binary (TRef.of (T := ⟨S_, .i32⟩) main_call42_v0) (TRef.of (T := ⟨S_, .i32⟩) main_v716) (TRef.of (T := ⟨S_, .i32⟩) main_call42_v1) maxsi,
    TRef.unary (TRef.of (T := ⟨S_, .i32⟩) main_c_610) (TRef.of (T := ⟨S_, .i32⟩) main_call42_v2) id,
    TRef.binary (TRef.of (T := ⟨S_, .i32⟩) main_call42_v2) (TRef.of (T := ⟨S_, .i32⟩) main_call42_v1) (TRef.of (T := ⟨S_, .i32⟩) main_v717) minsi,
    unary main_arg2 main_v718 ((extractStridedSlice S1x1x1 ![5, 1, 1] · slices_S16x4x2_S1x1x1_5_1_1) : (⟨S16x4x2, .i32⟩ : BufTy).Contents (Elt F) → (⟨S1x1x1, .i32⟩ : BufTy).Contents (Elt F)),
    reshape main_v718 main_v719 rfl shapeCasts_S1x1x1_S_,
    nullary main_c_611 (constantI S_ 32 128#32),
    binary main_v719 main_c_611 main_v720 (muli : (⟨S_, .i32⟩ : BufTy).Contents (Elt F) → (⟨S_, .i32⟩ : BufTy).Contents (Elt F) → (⟨S_, .i32⟩ : BufTy).Contents (Elt F)),
    nullary main_c_612 (constantI S_ 32 0#32),
    nullary main_c_613 (constantI S_ 32 128#32),
    TRef.unary (TRef.of (T := ⟨S_, .i32⟩) main_c_612) (TRef.of (T := ⟨S_, .i32⟩) main_call43_v0) id,
    TRef.binary (TRef.of (T := ⟨S_, .i32⟩) main_call43_v0) (TRef.of (T := ⟨S_, .i32⟩) main_v720) (TRef.of (T := ⟨S_, .i32⟩) main_call43_v1) maxsi,
    TRef.unary (TRef.of (T := ⟨S_, .i32⟩) main_c_613) (TRef.of (T := ⟨S_, .i32⟩) main_call43_v2) id,
    TRef.binary (TRef.of (T := ⟨S_, .i32⟩) main_call43_v2) (TRef.of (T := ⟨S_, .i32⟩) main_call43_v1) (TRef.of (T := ⟨S_, .i32⟩) main_v721) minsi,
    unary main_arg1 main_v722 ((extractStridedSlice S1x1x1x512x512 ![5, 1, 0, 0, 0] · slices_S16x4x1x512x512_S1x1x1x512x512_5_1_0_0_0) : (⟨S16x4x1x512x512, .f32⟩ : BufTy).Contents (Elt F) → (⟨S1x1x1x512x512, .f32⟩ : BufTy).Contents (Elt F)),
    reshape main_v722 main_v723 rfl shapeCasts_S1x1x1x512x512_S1x512x512,
    nullary main_c_614 (constantI S_ 32 0#32),
    nullary main_c_615 (constantI S_ 32 0#32),
    binary main_c_614 main_c_615 main_v724 (cmpi .slt : (⟨S_, .i32⟩ : BufTy).Contents (Elt F) → (⟨S_, .i32⟩ : BufTy).Contents (Elt F) → (⟨S_, .i1⟩ : BufTy).Contents (Elt F)),
    nullary main_c_616 (constantI S_ 32 0#32),
    nullary main_c_617 (constantI S_ 32 1#32),
    binary main_c_616 main_c_617 main_v725 (addi : (⟨S_, .i32⟩ : BufTy).Contents (Elt F) → (⟨S_, .i32⟩ : BufTy).Contents (Elt F) → (⟨S_, .i32⟩ : BufTy).Contents (Elt F)),
    nullary main_c_618 (constantI S_ 32 0#32),
    ternary main_v724 main_v725 main_c_618 main_v726 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_619 (constantI S_ 32 0#32),
    binary main_v717 main_c_619 main_v727 (cmpi .slt : (⟨S_, .i32⟩ : BufTy).Contents (Elt F) → (⟨S_, .i32⟩ : BufTy).Contents (Elt F) → (⟨S_, .i1⟩ : BufTy).Contents (Elt F)),
    nullary main_c_620 (constantI S_ 32 512#32),
    binary main_v717 main_c_620 main_v728 (addi : (⟨S_, .i32⟩ : BufTy).Contents (Elt F) → (⟨S_, .i32⟩ : BufTy).Contents (Elt F) → (⟨S_, .i32⟩ : BufTy).Contents (Elt F)),
    ternary main_v727 main_v728 main_v717 main_v729 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_621 (constantI S_ 32 0#32),
    binary main_v721 main_c_621 main_v730 (cmpi .slt : (⟨S_, .i32⟩ : BufTy).Contents (Elt F) → (⟨S_, .i32⟩ : BufTy).Contents (Elt F) → (⟨S_, .i1⟩ : BufTy).Contents (Elt F)),
    nullary main_c_622 (constantI S_ 32 512#32),
    binary main_v721 main_c_622 main_v731 (addi : (⟨S_, .i32⟩ : BufTy).Contents (Elt F) → (⟨S_, .i32⟩ : BufTy).Contents (Elt F) → (⟨S_, .i32⟩ : BufTy).Contents (Elt F)),
    ternary main_v730 main_v731 main_v721 main_v732 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v723 ![main_v726, main_v729, main_v732] ⟨S_, .i32⟩ main_v733 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v733 main_v734 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_623 (constantI S_ 32 5#32),
    nullary main_c_624 (constantI S_ 32 0#32),
    binary main_c_623 main_c_624 main_v735 (cmpi .slt : (⟨S_, .i32⟩ : BufTy).Contents (Elt F) → (⟨S_, .i32⟩ : BufTy).Contents (Elt F) → (⟨S_, .i1⟩ : BufTy).Contents (Elt F)),
    nullary main_c_625 (constantI S_ 32 5#32),
    nullary main_c_626 (constantI S_ 32 16#32),
    binary main_c_625 main_c_626 main_v736 (addi : (⟨S_, .i32⟩ : BufTy).Contents (Elt F) → (⟨S_, .i32⟩ : BufTy).Contents (Elt F) → (⟨S_, .i32⟩ : BufTy).Contents (Elt F)),
    nullary main_c_627 (constantI S_ 32 5#32),
    ternary main_v735 main_v736 main_c_627 main_v737 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_628 (constantI S_ 32 0#32),
    nullary main_c_629 (constantI S_ 32 0#32),
    binary main_c_628 main_c_629 main_v738 (cmpi .slt : (⟨S_, .i32⟩ : BufTy).Contents (Elt F) → (⟨S_, .i32⟩ : BufTy).Contents (Elt F) → (⟨S_, .i1⟩ : BufTy).Contents (Elt F)),
    nullary main_c_630 (constantI S_ 32 0#32),
    nullary main_c_631 (constantI S_ 32 1#32),
    binary main_c_630 main_c_631 main_v739 (addi : (⟨S_, .i32⟩ : BufTy).Contents (Elt F) → (⟨S_, .i32⟩ : BufTy).Contents (Elt F) → (⟨S_, .i32⟩ : BufTy).Contents (Elt F)),
    nullary main_c_632 (constantI S_ 32 0#32),
    ternary main_v738 main_v739 main_c_632 main_v740 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_633 (constantI S_ 32 0#32),
    binary main_v717 main_c_633 main_v741 (cmpi .slt : (⟨S_, .i32⟩ : BufTy).Contents (Elt F) → (⟨S_, .i32⟩ : BufTy).Contents (Elt F) → (⟨S_, .i1⟩ : BufTy).Contents (Elt F)),
    nullary main_c_634 (constantI S_ 32 512#32),
    binary main_v717 main_c_634 main_v742 (addi : (⟨S_, .i32⟩ : BufTy).Contents (Elt F) → (⟨S_, .i32⟩ : BufTy).Contents (Elt F) → (⟨S_, .i32⟩ : BufTy).Contents (Elt F)),
    ternary main_v741 main_v742 main_v717 main_v743 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem pc042_sub : (pc042 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub ..⟩
theorem pc042_fresh : ∀ op ∈ (pc042 (F := F)), op.fresh = ∅ := by
  intro _ h; (repeat (cases h with | head => rfl | tail _ h => ?_)); exact nomatch h

/-- Operations 1513 … 1518 of 4424. -/
noncomputable def pc043 : List (HloOp τ sig (Elt F)) :=
  [ nullary main_c_635 (constantI S_ 32 0#32),
    binary main_v721 main_c_635 main_v744 (cmpi .slt : (⟨S_, .i32⟩ : BufTy).Contents (Elt F) → (⟨S_, .i32⟩ : BufTy).Contents (Elt F) → (⟨S_, .i1⟩ : BufTy).Contents (Elt F)),
    nullary main_c_636 (constantI S_ 32 512#32),
    binary main_v721 main_c_636 main_v745 (addi : (⟨S_, .i32⟩ : BufTy).Contents (Elt F) → (⟨S_, .i32⟩ : BufTy).Contents (Elt F) → (⟨S_, .i32⟩ : BufTy).Contents (Elt F)),
    ternary main_v744 main_v745 main_v721 main_v746 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v713 main_v734 ![main_v737, main_v740, main_v743, main_v746] ⟨S_, .i32⟩ main_v747 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc043_sub : (pc043 (F := F)).Forall fun op => op.bufs ⊆ tcRefs τ sig :=
  ⟨nullary_bufs_sub .., binary_bufs_sub .., nullary_bufs_sub .., binary_bufs_sub .., ternary_bufs_sub .., binaryIndexed_bufs_sub ..⟩
theorem pc043_fresh : ∀ op ∈ (pc043 (F := F)), op.fresh = ∅ := by
  intro _ h; (repeat (cases h with | head => rfl | tail _ h => ?_)); exact nomatch h

/-- Operations 1519 … 1578 of 4424. -/
noncomputable def pc044 : List (HloOp τ sig (Elt F)) :=
  [ unary main_arg2 main_v748 ((extractStridedSlice S1x1x1 ![5, 2, 0] · slices_S16x4x2_S1x1x1_5_2_0) : (⟨S16x4x2, .i32⟩ : BufTy).Contents (Elt F) → (⟨S1x1x1, .i32⟩ : BufTy).Contents (Elt F)),
    reshape main_v748 main_v749 rfl shapeCasts_S1x1x1_S_,
    nullary main_c_637 (constantI S_ 32 128#32),
    binary main_v749 main_c_637 main_v750 (muli : (⟨S_, .i32⟩ : BufTy).Contents (Elt F) → (⟨S_, .i32⟩ : BufTy).Contents (Elt F) → (⟨S_, .i32⟩ : BufTy).Contents (Elt F)),
    nullary main_c_638 (constantI S_ 32 0#32),
    nullary main_c_639 (constantI S_ 32 128#32),
    TRef.unary (TRef.of (T := ⟨S_, .i32⟩) main_c_638) (TRef.of (T := ⟨S_, .i32⟩) main_call44_v0) id,
    TRef.binary (TRef.of (T := ⟨S_, .i32⟩) main_call44_v0) (TRef.of (T := ⟨S_, .i32⟩) main_v750) (TRef.of (T := ⟨S_, .i32⟩) main_call44_v1) maxsi,
    TRef.unary (TRef.of (T := ⟨S_, .i32⟩) main_c_639) (TRef.of (T := ⟨S_, .i32⟩) main_call44_v2) id,
    TRef.binary (TRef.of (T := ⟨S_, .i32⟩) main_call44_v2) (TRef.of (T := ⟨S_, .i32⟩) main_call44_v1) (TRef.of (T := ⟨S_, .i32⟩) main_v751) minsi,
    unary main_arg2 main_v752 ((extractStridedSlice S1x1x1 ![5, 2, 1] · slices_S16x4x2_S1x1x1_5_2_1) : (⟨S16x4x2, .i32⟩ : BufTy).Contents (Elt F) → (⟨S1x1x1, .i32⟩ : BufTy).Contents (Elt F)),
    reshape main_v752 main_v753 rfl shapeCasts_S1x1x1_S_,
    nullary main_c_640 (constantI S_ 32 128#32),
    binary main_v753 main_c_640 main_v754 (muli : (⟨S_, .i32⟩ : BufTy).Contents (Elt F) → (⟨S_, .i32⟩ : BufTy).Contents (Elt F) → (⟨S_, .i32⟩ : BufTy).Contents (Elt F)),
    nullary main_c_641 (constantI S_ 32 0#32),
    nullary main_c_642 (constantI S_ 32 128#32),
    TRef.unary (TRef.of (T := ⟨S_, .i32⟩) main_c_641) (TRef.of (T := ⟨S_, .i32⟩) main_call45_v0) id,
    TRef.binary (TRef.of (T := ⟨S_, .i32⟩) main_call45_v0) (TRef.of (T := ⟨S_, .i32⟩) main_v754) (TRef.of (T := ⟨S_, .i32⟩) main_call45_v1) maxsi,
    TRef.unary (TRef.of (T := ⟨S_, .i32⟩) main_c_642) (TRef.of (T := ⟨S_, .i32⟩) main_call45_v2) id,
    TRef.binary (TRef.of (T := ⟨S_, .i32⟩) main_call45_v2) (TRef.of (T := ⟨S_, .i32⟩) main_call45_v1) (TRef.of (T := ⟨S_, .i32⟩) main_v755) minsi,
    unary main_arg1 main_v756 ((extractStridedSlice S1x1x1x512x512 ![5, 2, 0, 0, 0] · slices_S16x4x1x512x512_S1x1x1x512x512_5_2_0_0_0) : (⟨S16x4x1x512x512, .f32⟩ : BufTy).Contents (Elt F) → (⟨S1x1x1x512x512, .f32⟩ : BufTy).Contents (Elt F)),
    reshape main_v756 main_v757 rfl shapeCasts_S1x1x1x512x512_S1x512x512,
    nullary main_c_643 (constantI S_ 32 0#32),
    nullary main_c_644 (constantI S_ 32 0#32),
    binary main_c_643 main_c_644 main_v758 (cmpi .slt : (⟨S_, .i32⟩ : BufTy).Contents (Elt F) → (⟨S_, .i32⟩ : BufTy).Contents (Elt F) → (⟨S_, .i1⟩ : BufTy).Contents (Elt F)),
    nullary main_c_645 (constantI S_ 32 0#32),
    nullary main_c_646 (constantI S_ 32 1#32),
    binary main_c_645 main_c_646 main_v759 (addi : (⟨S_, .i32⟩ : BufTy).Contents (Elt F) → (⟨S_, .i32⟩ : BufTy).Contents (Elt F) → (⟨S_, .i32⟩ : BufTy).Contents (Elt F)),
    nullary main_c_647 (constantI S_ 32 0#32),
    ternary main_v758 main_v759 main_c_647 main_v760 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_648 (constantI S_ 32 0#32),
    binary main_v751 main_c_648 main_v761 (cmpi .slt : (⟨S_, .i32⟩ : BufTy).Contents (Elt F) → (⟨S_, .i32⟩ : BufTy).Contents (Elt F) → (⟨S_, .i1⟩ : BufTy).Contents (Elt F)),
    nullary main_c_649 (constantI S_ 32 512#32),
    binary main_v751 main_c_649 main_v762 (addi : (⟨S_, .i32⟩ : BufTy).Contents (Elt F) → (⟨S_, .i32⟩ : BufTy).Contents (Elt F) → (⟨S_, .i32⟩ : BufTy).Contents (Elt F)),
    ternary main_v761 main_v762 main_v751 main_v763 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_650 (constantI S_ 32 0#32),
    binary main_v755 main_c_650 main_v764 (cmpi .slt : (⟨S_, .i32⟩ : BufTy).Contents (Elt F) → (⟨S_, .i32⟩ : BufTy).Contents (Elt F) → (⟨S_, .i1⟩ : BufTy).Contents (Elt F)),
    nullary main_c_651 (constantI S_ 32 512#32),
    binary main_v755 main_c_651 main_v765 (addi : (⟨S_, .i32⟩ : BufTy).Contents (Elt F) → (⟨S_, .i32⟩ : BufTy).Contents (Elt F) → (⟨S_, .i32⟩ : BufTy).Contents (Elt F)),
    ternary main_v764 main_v765 main_v755 main_v766 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v757 ![main_v760, main_v763, main_v766] ⟨S_, .i32⟩ main_v767 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v767 main_v768 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_652 (constantI S_ 32 5#32),
    nullary main_c_653 (constantI S_ 32 0#32),
    binary main_c_652 main_c_653 main_v769 (cmpi .slt : (⟨S_, .i32⟩ : BufTy).Contents (Elt F) → (⟨S_, .i32⟩ : BufTy).Contents (Elt F) → (⟨S_, .i1⟩ : BufTy).Contents (Elt F)),
    nullary main_c_654 (constantI S_ 32 5#32),
    nullary main_c_655 (constantI S_ 32 16#32),
    binary main_c_654 main_c_655 main_v770 (addi : (⟨S_, .i32⟩ : BufTy).Contents (Elt F) → (⟨S_, .i32⟩ : BufTy).Contents (Elt F) → (⟨S_, .i32⟩ : BufTy).Contents (Elt F)),
    nullary main_c_656 (constantI S_ 32 5#32),
    ternary main_v769 main_v770 main_c_656 main_v771 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_657 (constantI S_ 32 0#32),
    nullary main_c_658 (constantI S_ 32 0#32),
    binary main_c_657 main_c_658 main_v772 (cmpi .slt : (⟨S_, .i32⟩ : BufTy).Contents (Elt F) → (⟨S_, .i32⟩ : BufTy).Contents (Elt F) → (⟨S_, .i1⟩ : BufTy).Contents (Elt F)),
    nullary main_c_659 (constantI S_ 32 0#32),
    nullary main_c_660 (constantI S_ 32 1#32),
    binary main_c_659 main_c_660 main_v773 (addi : (⟨S_, .i32⟩ : BufTy).Contents (Elt F) → (⟨S_, .i32⟩ : BufTy).Contents (Elt F) → (⟨S_, .i32⟩ : BufTy).Contents (Elt F)),
    nullary main_c_661 (constantI S_ 32 0#32),
    ternary main_v772 main_v773 main_c_661 main_v774 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_662 (constantI S_ 32 0#32),
    binary main_v751 main_c_662 main_v775 (cmpi .slt : (⟨S_, .i32⟩ : BufTy).Contents (Elt F) → (⟨S_, .i32⟩ : BufTy).Contents (Elt F) → (⟨S_, .i1⟩ : BufTy).Contents (Elt F)) ]
theorem pc044_sub : (pc044 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub ..⟩
theorem pc044_fresh : ∀ op ∈ (pc044 (F := F)), op.fresh = ∅ := by
  intro _ h; (repeat (cases h with | head => rfl | tail _ h => ?_)); exact nomatch h

/-- Operations 1579 … 1587 of 4424. -/
noncomputable def pc045 : List (HloOp τ sig (Elt F)) :=
  [ nullary main_c_663 (constantI S_ 32 512#32),
    binary main_v751 main_c_663 main_v776 (addi : (⟨S_, .i32⟩ : BufTy).Contents (Elt F) → (⟨S_, .i32⟩ : BufTy).Contents (Elt F) → (⟨S_, .i32⟩ : BufTy).Contents (Elt F)),
    ternary main_v775 main_v776 main_v751 main_v777 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_664 (constantI S_ 32 0#32),
    binary main_v755 main_c_664 main_v778 (cmpi .slt : (⟨S_, .i32⟩ : BufTy).Contents (Elt F) → (⟨S_, .i32⟩ : BufTy).Contents (Elt F) → (⟨S_, .i1⟩ : BufTy).Contents (Elt F)),
    nullary main_c_665 (constantI S_ 32 512#32),
    binary main_v755 main_c_665 main_v779 (addi : (⟨S_, .i32⟩ : BufTy).Contents (Elt F) → (⟨S_, .i32⟩ : BufTy).Contents (Elt F) → (⟨S_, .i32⟩ : BufTy).Contents (Elt F)),
    ternary main_v778 main_v779 main_v755 main_v780 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v747 main_v768 ![main_v771, main_v774, main_v777, main_v780] ⟨S_, .i32⟩ main_v781 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc045_sub : (pc045 (F := F)).Forall fun op => op.bufs ⊆ tcRefs τ sig :=
  ⟨nullary_bufs_sub .., binary_bufs_sub .., ternary_bufs_sub .., nullary_bufs_sub .., binary_bufs_sub .., nullary_bufs_sub .., binary_bufs_sub .., ternary_bufs_sub .., binaryIndexed_bufs_sub ..⟩
theorem pc045_fresh : ∀ op ∈ (pc045 (F := F)), op.fresh = ∅ := by
  intro _ h; (repeat (cases h with | head => rfl | tail _ h => ?_)); exact nomatch h

/-- Operations 1588 … 1644 of 4424. -/
noncomputable def pc046 : List (HloOp τ sig (Elt F)) :=
  [ unary main_arg2 main_v782 ((extractStridedSlice S1x1x1 ![5, 3, 0] · slices_S16x4x2_S1x1x1_5_3_0) : (⟨S16x4x2, .i32⟩ : BufTy).Contents (Elt F) → (⟨S1x1x1, .i32⟩ : BufTy).Contents (Elt F)),
    reshape main_v782 main_v783 rfl shapeCasts_S1x1x1_S_,
    nullary main_c_666 (constantI S_ 32 128#32),
    binary main_v783 main_c_666 main_v784 (muli : (⟨S_, .i32⟩ : BufTy).Contents (Elt F) → (⟨S_, .i32⟩ : BufTy).Contents (Elt F) → (⟨S_, .i32⟩ : BufTy).Contents (Elt F)),
    nullary main_c_667 (constantI S_ 32 0#32),
    nullary main_c_668 (constantI S_ 32 128#32),
    TRef.unary (TRef.of (T := ⟨S_, .i32⟩) main_c_667) (TRef.of (T := ⟨S_, .i32⟩) main_call46_v0) id,
    TRef.binary (TRef.of (T := ⟨S_, .i32⟩) main_call46_v0) (TRef.of (T := ⟨S_, .i32⟩) main_v784) (TRef.of (T := ⟨S_, .i32⟩) main_call46_v1) maxsi,
    TRef.unary (TRef.of (T := ⟨S_, .i32⟩) main_c_668) (TRef.of (T := ⟨S_, .i32⟩) main_call46_v2) id,
    TRef.binary (TRef.of (T := ⟨S_, .i32⟩) main_call46_v2) (TRef.of (T := ⟨S_, .i32⟩) main_call46_v1) (TRef.of (T := ⟨S_, .i32⟩) main_v785) minsi,
    unary main_arg2 main_v786 ((extractStridedSlice S1x1x1 ![5, 3, 1] · slices_S16x4x2_S1x1x1_5_3_1) : (⟨S16x4x2, .i32⟩ : BufTy).Contents (Elt F) → (⟨S1x1x1, .i32⟩ : BufTy).Contents (Elt F)),
    reshape main_v786 main_v787 rfl shapeCasts_S1x1x1_S_,
    nullary main_c_669 (constantI S_ 32 128#32),
    binary main_v787 main_c_669 main_v788 (muli : (⟨S_, .i32⟩ : BufTy).Contents (Elt F) → (⟨S_, .i32⟩ : BufTy).Contents (Elt F) → (⟨S_, .i32⟩ : BufTy).Contents (Elt F)),
    nullary main_c_670 (constantI S_ 32 0#32),
    nullary main_c_671 (constantI S_ 32 128#32),
    TRef.unary (TRef.of (T := ⟨S_, .i32⟩) main_c_670) (TRef.of (T := ⟨S_, .i32⟩) main_call47_v0) id,
    TRef.binary (TRef.of (T := ⟨S_, .i32⟩) main_call47_v0) (TRef.of (T := ⟨S_, .i32⟩) main_v788) (TRef.of (T := ⟨S_, .i32⟩) main_call47_v1) maxsi,
    TRef.unary (TRef.of (T := ⟨S_, .i32⟩) main_c_671) (TRef.of (T := ⟨S_, .i32⟩) main_call47_v2) id,
    TRef.binary (TRef.of (T := ⟨S_, .i32⟩) main_call47_v2) (TRef.of (T := ⟨S_, .i32⟩) main_call47_v1) (TRef.of (T := ⟨S_, .i32⟩) main_v789) minsi,
    unary main_arg1 main_v790 ((extractStridedSlice S1x1x1x512x512 ![5, 3, 0, 0, 0] · slices_S16x4x1x512x512_S1x1x1x512x512_5_3_0_0_0) : (⟨S16x4x1x512x512, .f32⟩ : BufTy).Contents (Elt F) → (⟨S1x1x1x512x512, .f32⟩ : BufTy).Contents (Elt F)),
    reshape main_v790 main_v791 rfl shapeCasts_S1x1x1x512x512_S1x512x512,
    nullary main_c_672 (constantI S_ 32 0#32),
    nullary main_c_673 (constantI S_ 32 0#32),
    binary main_c_672 main_c_673 main_v792 (cmpi .slt : (⟨S_, .i32⟩ : BufTy).Contents (Elt F) → (⟨S_, .i32⟩ : BufTy).Contents (Elt F) → (⟨S_, .i1⟩ : BufTy).Contents (Elt F)),
    nullary main_c_674 (constantI S_ 32 0#32),
    nullary main_c_675 (constantI S_ 32 1#32),
    binary main_c_674 main_c_675 main_v793 (addi : (⟨S_, .i32⟩ : BufTy).Contents (Elt F) → (⟨S_, .i32⟩ : BufTy).Contents (Elt F) → (⟨S_, .i32⟩ : BufTy).Contents (Elt F)),
    nullary main_c_676 (constantI S_ 32 0#32),
    ternary main_v792 main_v793 main_c_676 main_v794 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_677 (constantI S_ 32 0#32),
    binary main_v785 main_c_677 main_v795 (cmpi .slt : (⟨S_, .i32⟩ : BufTy).Contents (Elt F) → (⟨S_, .i32⟩ : BufTy).Contents (Elt F) → (⟨S_, .i1⟩ : BufTy).Contents (Elt F)),
    nullary main_c_678 (constantI S_ 32 512#32),
    binary main_v785 main_c_678 main_v796 (addi : (⟨S_, .i32⟩ : BufTy).Contents (Elt F) → (⟨S_, .i32⟩ : BufTy).Contents (Elt F) → (⟨S_, .i32⟩ : BufTy).Contents (Elt F)),
    ternary main_v795 main_v796 main_v785 main_v797 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_679 (constantI S_ 32 0#32),
    binary main_v789 main_c_679 main_v798 (cmpi .slt : (⟨S_, .i32⟩ : BufTy).Contents (Elt F) → (⟨S_, .i32⟩ : BufTy).Contents (Elt F) → (⟨S_, .i1⟩ : BufTy).Contents (Elt F)),
    nullary main_c_680 (constantI S_ 32 512#32),
    binary main_v789 main_c_680 main_v799 (addi : (⟨S_, .i32⟩ : BufTy).Contents (Elt F) → (⟨S_, .i32⟩ : BufTy).Contents (Elt F) → (⟨S_, .i32⟩ : BufTy).Contents (Elt F)),
    ternary main_v798 main_v799 main_v789 main_v800 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v791 ![main_v794, main_v797, main_v800] ⟨S_, .i32⟩ main_v801 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v801 main_v802 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_681 (constantI S_ 32 5#32),
    nullary main_c_682 (constantI S_ 32 0#32),
    binary main_c_681 main_c_682 main_v803 (cmpi .slt : (⟨S_, .i32⟩ : BufTy).Contents (Elt F) → (⟨S_, .i32⟩ : BufTy).Contents (Elt F) → (⟨S_, .i1⟩ : BufTy).Contents (Elt F)),
    nullary main_c_683 (constantI S_ 32 5#32),
    nullary main_c_684 (constantI S_ 32 16#32),
    binary main_c_683 main_c_684 main_v804 (addi : (⟨S_, .i32⟩ : BufTy).Contents (Elt F) → (⟨S_, .i32⟩ : BufTy).Contents (Elt F) → (⟨S_, .i32⟩ : BufTy).Contents (Elt F)),
    nullary main_c_685 (constantI S_ 32 5#32),
    ternary main_v803 main_v804 main_c_685 main_v805 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_686 (constantI S_ 32 0#32),
    nullary main_c_687 (constantI S_ 32 0#32),
    binary main_c_686 main_c_687 main_v806 (cmpi .slt : (⟨S_, .i32⟩ : BufTy).Contents (Elt F) → (⟨S_, .i32⟩ : BufTy).Contents (Elt F) → (⟨S_, .i1⟩ : BufTy).Contents (Elt F)),
    nullary main_c_688 (constantI S_ 32 0#32),
    nullary main_c_689 (constantI S_ 32 1#32),
    binary main_c_688 main_c_689 main_v807 (addi : (⟨S_, .i32⟩ : BufTy).Contents (Elt F) → (⟨S_, .i32⟩ : BufTy).Contents (Elt F) → (⟨S_, .i32⟩ : BufTy).Contents (Elt F)),
    nullary main_c_690 (constantI S_ 32 0#32) ]
theorem pc046_sub : (pc046 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub ..⟩
theorem pc046_fresh : ∀ op ∈ (pc046 (F := F)), op.fresh = ∅ := by
  intro _ h; (repeat (cases h with | head => rfl | tail _ h => ?_)); exact nomatch h

/-- Operations 1645 … 1656 of 4424. -/
noncomputable def pc047 : List (HloOp τ sig (Elt F)) :=
  [ ternary main_v806 main_v807 main_c_690 main_v808 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_691 (constantI S_ 32 0#32),
    binary main_v785 main_c_691 main_v809 (cmpi .slt : (⟨S_, .i32⟩ : BufTy).Contents (Elt F) → (⟨S_, .i32⟩ : BufTy).Contents (Elt F) → (⟨S_, .i1⟩ : BufTy).Contents (Elt F)),
    nullary main_c_692 (constantI S_ 32 512#32),
    binary main_v785 main_c_692 main_v810 (addi : (⟨S_, .i32⟩ : BufTy).Contents (Elt F) → (⟨S_, .i32⟩ : BufTy).Contents (Elt F) → (⟨S_, .i32⟩ : BufTy).Contents (Elt F)),
    ternary main_v809 main_v810 main_v785 main_v811 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_693 (constantI S_ 32 0#32),
    binary main_v789 main_c_693 main_v812 (cmpi .slt : (⟨S_, .i32⟩ : BufTy).Contents (Elt F) → (⟨S_, .i32⟩ : BufTy).Contents (Elt F) → (⟨S_, .i1⟩ : BufTy).Contents (Elt F)),
    nullary main_c_694 (constantI S_ 32 512#32),
    binary main_v789 main_c_694 main_v813 (addi : (⟨S_, .i32⟩ : BufTy).Contents (Elt F) → (⟨S_, .i32⟩ : BufTy).Contents (Elt F) → (⟨S_, .i32⟩ : BufTy).Contents (Elt F)),
    ternary main_v812 main_v813 main_v789 main_v814 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v781 main_v802 ![main_v805, main_v808, main_v811, main_v814] ⟨S_, .i32⟩ main_v815 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc047_sub : (pc047 (F := F)).Forall fun op => op.bufs ⊆ tcRefs τ sig :=
  ⟨ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc047_fresh : ∀ op ∈ (pc047 (F := F)), op.fresh = ∅ := by
  intro _ h; (repeat (cases h with | head => rfl | tail _ h => ?_)); exact nomatch h

/-- Operations 1657 … 1710 of 4424. -/
noncomputable def pc048 : List (HloOp τ sig (Elt F)) :=
  [ unary main_arg2 main_v816 ((extractStridedSlice S1x1x1 ![6, 0, 0] · slices_S16x4x2_S1x1x1_6_0_0) : (⟨S16x4x2, .i32⟩ : BufTy).Contents (Elt F) → (⟨S1x1x1, .i32⟩ : BufTy).Contents (Elt F)),
    reshape main_v816 main_v817 rfl shapeCasts_S1x1x1_S_,
    nullary main_c_695 (constantI S_ 32 128#32),
    binary main_v817 main_c_695 main_v818 (muli : (⟨S_, .i32⟩ : BufTy).Contents (Elt F) → (⟨S_, .i32⟩ : BufTy).Contents (Elt F) → (⟨S_, .i32⟩ : BufTy).Contents (Elt F)),
    nullary main_c_696 (constantI S_ 32 0#32),
    nullary main_c_697 (constantI S_ 32 128#32),
    TRef.unary (TRef.of (T := ⟨S_, .i32⟩) main_c_696) (TRef.of (T := ⟨S_, .i32⟩) main_call48_v0) id,
    TRef.binary (TRef.of (T := ⟨S_, .i32⟩) main_call48_v0) (TRef.of (T := ⟨S_, .i32⟩) main_v818) (TRef.of (T := ⟨S_, .i32⟩) main_call48_v1) maxsi,
    TRef.unary (TRef.of (T := ⟨S_, .i32⟩) main_c_697) (TRef.of (T := ⟨S_, .i32⟩) main_call48_v2) id,
    TRef.binary (TRef.of (T := ⟨S_, .i32⟩) main_call48_v2) (TRef.of (T := ⟨S_, .i32⟩) main_call48_v1) (TRef.of (T := ⟨S_, .i32⟩) main_v819) minsi,
    unary main_arg2 main_v820 ((extractStridedSlice S1x1x1 ![6, 0, 1] · slices_S16x4x2_S1x1x1_6_0_1) : (⟨S16x4x2, .i32⟩ : BufTy).Contents (Elt F) → (⟨S1x1x1, .i32⟩ : BufTy).Contents (Elt F)),
    reshape main_v820 main_v821 rfl shapeCasts_S1x1x1_S_,
    nullary main_c_698 (constantI S_ 32 128#32),
    binary main_v821 main_c_698 main_v822 (muli : (⟨S_, .i32⟩ : BufTy).Contents (Elt F) → (⟨S_, .i32⟩ : BufTy).Contents (Elt F) → (⟨S_, .i32⟩ : BufTy).Contents (Elt F)),
    nullary main_c_699 (constantI S_ 32 0#32),
    nullary main_c_700 (constantI S_ 32 128#32),
    TRef.unary (TRef.of (T := ⟨S_, .i32⟩) main_c_699) (TRef.of (T := ⟨S_, .i32⟩) main_call49_v0) id,
    TRef.binary (TRef.of (T := ⟨S_, .i32⟩) main_call49_v0) (TRef.of (T := ⟨S_, .i32⟩) main_v822) (TRef.of (T := ⟨S_, .i32⟩) main_call49_v1) maxsi,
    TRef.unary (TRef.of (T := ⟨S_, .i32⟩) main_c_700) (TRef.of (T := ⟨S_, .i32⟩) main_call49_v2) id,
    TRef.binary (TRef.of (T := ⟨S_, .i32⟩) main_call49_v2) (TRef.of (T := ⟨S_, .i32⟩) main_call49_v1) (TRef.of (T := ⟨S_, .i32⟩) main_v823) minsi,
    unary main_arg1 main_v824 ((extractStridedSlice S1x1x1x512x512 ![6, 0, 0, 0, 0] · slices_S16x4x1x512x512_S1x1x1x512x512_6_0_0_0_0) : (⟨S16x4x1x512x512, .f32⟩ : BufTy).Contents (Elt F) → (⟨S1x1x1x512x512, .f32⟩ : BufTy).Contents (Elt F)),
    reshape main_v824 main_v825 rfl shapeCasts_S1x1x1x512x512_S1x512x512,
    nullary main_c_701 (constantI S_ 32 0#32),
    nullary main_c_702 (constantI S_ 32 0#32),
    binary main_c_701 main_c_702 main_v826 (cmpi .slt : (⟨S_, .i32⟩ : BufTy).Contents (Elt F) → (⟨S_, .i32⟩ : BufTy).Contents (Elt F) → (⟨S_, .i1⟩ : BufTy).Contents (Elt F)),
    nullary main_c_703 (constantI S_ 32 0#32),
    nullary main_c_704 (constantI S_ 32 1#32),
    binary main_c_703 main_c_704 main_v827 (addi : (⟨S_, .i32⟩ : BufTy).Contents (Elt F) → (⟨S_, .i32⟩ : BufTy).Contents (Elt F) → (⟨S_, .i32⟩ : BufTy).Contents (Elt F)),
    nullary main_c_705 (constantI S_ 32 0#32),
    ternary main_v826 main_v827 main_c_705 main_v828 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_706 (constantI S_ 32 0#32),
    binary main_v819 main_c_706 main_v829 (cmpi .slt : (⟨S_, .i32⟩ : BufTy).Contents (Elt F) → (⟨S_, .i32⟩ : BufTy).Contents (Elt F) → (⟨S_, .i1⟩ : BufTy).Contents (Elt F)),
    nullary main_c_707 (constantI S_ 32 512#32),
    binary main_v819 main_c_707 main_v830 (addi : (⟨S_, .i32⟩ : BufTy).Contents (Elt F) → (⟨S_, .i32⟩ : BufTy).Contents (Elt F) → (⟨S_, .i32⟩ : BufTy).Contents (Elt F)),
    ternary main_v829 main_v830 main_v819 main_v831 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_708 (constantI S_ 32 0#32),
    binary main_v823 main_c_708 main_v832 (cmpi .slt : (⟨S_, .i32⟩ : BufTy).Contents (Elt F) → (⟨S_, .i32⟩ : BufTy).Contents (Elt F) → (⟨S_, .i1⟩ : BufTy).Contents (Elt F)),
    nullary main_c_709 (constantI S_ 32 512#32),
    binary main_v823 main_c_709 main_v833 (addi : (⟨S_, .i32⟩ : BufTy).Contents (Elt F) → (⟨S_, .i32⟩ : BufTy).Contents (Elt F) → (⟨S_, .i32⟩ : BufTy).Contents (Elt F)),
    ternary main_v832 main_v833 main_v823 main_v834 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v825 ![main_v828, main_v831, main_v834] ⟨S_, .i32⟩ main_v835 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v835 main_v836 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_710 (constantI S_ 32 6#32),
    nullary main_c_711 (constantI S_ 32 0#32),
    binary main_c_710 main_c_711 main_v837 (cmpi .slt : (⟨S_, .i32⟩ : BufTy).Contents (Elt F) → (⟨S_, .i32⟩ : BufTy).Contents (Elt F) → (⟨S_, .i1⟩ : BufTy).Contents (Elt F)),
    nullary main_c_712 (constantI S_ 32 6#32),
    nullary main_c_713 (constantI S_ 32 16#32),
    binary main_c_712 main_c_713 main_v838 (addi : (⟨S_, .i32⟩ : BufTy).Contents (Elt F) → (⟨S_, .i32⟩ : BufTy).Contents (Elt F) → (⟨S_, .i32⟩ : BufTy).Contents (Elt F)),
    nullary main_c_714 (constantI S_ 32 6#32),
    ternary main_v837 main_v838 main_c_714 main_v839 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_715 (constantI S_ 32 0#32),
    nullary main_c_716 (constantI S_ 32 0#32),
    binary main_c_715 main_c_716 main_v840 (cmpi .slt : (⟨S_, .i32⟩ : BufTy).Contents (Elt F) → (⟨S_, .i32⟩ : BufTy).Contents (Elt F) → (⟨S_, .i1⟩ : BufTy).Contents (Elt F)),
    nullary main_c_717 (constantI S_ 32 0#32) ]
theorem pc048_sub : (pc048 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub ..⟩
theorem pc048_fresh : ∀ op ∈ (pc048 (F := F)), op.fresh = ∅ := by
  intro _ h; (repeat (cases h with | head => rfl | tail _ h => ?_)); exact nomatch h

/-- Operations 1711 … 1725 of 4424. -/
noncomputable def pc049 : List (HloOp τ sig (Elt F)) :=
  [ nullary main_c_718 (constantI S_ 32 1#32),
    binary main_c_717 main_c_718 main_v841 (addi : (⟨S_, .i32⟩ : BufTy).Contents (Elt F) → (⟨S_, .i32⟩ : BufTy).Contents (Elt F) → (⟨S_, .i32⟩ : BufTy).Contents (Elt F)),
    nullary main_c_719 (constantI S_ 32 0#32),
    ternary main_v840 main_v841 main_c_719 main_v842 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_720 (constantI S_ 32 0#32),
    binary main_v819 main_c_720 main_v843 (cmpi .slt : (⟨S_, .i32⟩ : BufTy).Contents (Elt F) → (⟨S_, .i32⟩ : BufTy).Contents (Elt F) → (⟨S_, .i1⟩ : BufTy).Contents (Elt F)),
    nullary main_c_721 (constantI S_ 32 512#32),
    binary main_v819 main_c_721 main_v844 (addi : (⟨S_, .i32⟩ : BufTy).Contents (Elt F) → (⟨S_, .i32⟩ : BufTy).Contents (Elt F) → (⟨S_, .i32⟩ : BufTy).Contents (Elt F)),
    ternary main_v843 main_v844 main_v819 main_v845 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_722 (constantI S_ 32 0#32),
    binary main_v823 main_c_722 main_v846 (cmpi .slt : (⟨S_, .i32⟩ : BufTy).Contents (Elt F) → (⟨S_, .i32⟩ : BufTy).Contents (Elt F) → (⟨S_, .i1⟩ : BufTy).Contents (Elt F)),
    nullary main_c_723 (constantI S_ 32 512#32),
    binary main_v823 main_c_723 main_v847 (addi : (⟨S_, .i32⟩ : BufTy).Contents (Elt F) → (⟨S_, .i32⟩ : BufTy).Contents (Elt F) → (⟨S_, .i32⟩ : BufTy).Contents (Elt F)),
    ternary main_v846 main_v847 main_v823 main_v848 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v815 main_v836 ![main_v839, main_v842, main_v845, main_v848] ⟨S_, .i32⟩ main_v849 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc049_sub : (pc049 (F := F)).Forall fun op => op.bufs ⊆ tcRefs τ sig :=
  ⟨nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc049_fresh : ∀ op ∈ (pc049 (F := F)), op.fresh = ∅ := by
  intro _ h; (repeat (cases h with | head => rfl | tail _ h => ?_)); exact nomatch h

/-- Operations 1726 … 1776 of 4424. -/
noncomputable def pc050 : List (HloOp τ sig (Elt F)) :=
  [ unary main_arg2 main_v850 ((extractStridedSlice S1x1x1 ![6, 1, 0] · slices_S16x4x2_S1x1x1_6_1_0) : (⟨S16x4x2, .i32⟩ : BufTy).Contents (Elt F) → (⟨S1x1x1, .i32⟩ : BufTy).Contents (Elt F)),
    reshape main_v850 main_v851 rfl shapeCasts_S1x1x1_S_,
    nullary main_c_724 (constantI S_ 32 128#32),
    binary main_v851 main_c_724 main_v852 (muli : (⟨S_, .i32⟩ : BufTy).Contents (Elt F) → (⟨S_, .i32⟩ : BufTy).Contents (Elt F) → (⟨S_, .i32⟩ : BufTy).Contents (Elt F)),
    nullary main_c_725 (constantI S_ 32 0#32),
    nullary main_c_726 (constantI S_ 32 128#32),
    TRef.unary (TRef.of (T := ⟨S_, .i32⟩) main_c_725) (TRef.of (T := ⟨S_, .i32⟩) main_call50_v0) id,
    TRef.binary (TRef.of (T := ⟨S_, .i32⟩) main_call50_v0) (TRef.of (T := ⟨S_, .i32⟩) main_v852) (TRef.of (T := ⟨S_, .i32⟩) main_call50_v1) maxsi,
    TRef.unary (TRef.of (T := ⟨S_, .i32⟩) main_c_726) (TRef.of (T := ⟨S_, .i32⟩) main_call50_v2) id,
    TRef.binary (TRef.of (T := ⟨S_, .i32⟩) main_call50_v2) (TRef.of (T := ⟨S_, .i32⟩) main_call50_v1) (TRef.of (T := ⟨S_, .i32⟩) main_v853) minsi,
    unary main_arg2 main_v854 ((extractStridedSlice S1x1x1 ![6, 1, 1] · slices_S16x4x2_S1x1x1_6_1_1) : (⟨S16x4x2, .i32⟩ : BufTy).Contents (Elt F) → (⟨S1x1x1, .i32⟩ : BufTy).Contents (Elt F)),
    reshape main_v854 main_v855 rfl shapeCasts_S1x1x1_S_,
    nullary main_c_727 (constantI S_ 32 128#32),
    binary main_v855 main_c_727 main_v856 (muli : (⟨S_, .i32⟩ : BufTy).Contents (Elt F) → (⟨S_, .i32⟩ : BufTy).Contents (Elt F) → (⟨S_, .i32⟩ : BufTy).Contents (Elt F)),
    nullary main_c_728 (constantI S_ 32 0#32),
    nullary main_c_729 (constantI S_ 32 128#32),
    TRef.unary (TRef.of (T := ⟨S_, .i32⟩) main_c_728) (TRef.of (T := ⟨S_, .i32⟩) main_call51_v0) id,
    TRef.binary (TRef.of (T := ⟨S_, .i32⟩) main_call51_v0) (TRef.of (T := ⟨S_, .i32⟩) main_v856) (TRef.of (T := ⟨S_, .i32⟩) main_call51_v1) maxsi,
    TRef.unary (TRef.of (T := ⟨S_, .i32⟩) main_c_729) (TRef.of (T := ⟨S_, .i32⟩) main_call51_v2) id,
    TRef.binary (TRef.of (T := ⟨S_, .i32⟩) main_call51_v2) (TRef.of (T := ⟨S_, .i32⟩) main_call51_v1) (TRef.of (T := ⟨S_, .i32⟩) main_v857) minsi,
    unary main_arg1 main_v858 ((extractStridedSlice S1x1x1x512x512 ![6, 1, 0, 0, 0] · slices_S16x4x1x512x512_S1x1x1x512x512_6_1_0_0_0) : (⟨S16x4x1x512x512, .f32⟩ : BufTy).Contents (Elt F) → (⟨S1x1x1x512x512, .f32⟩ : BufTy).Contents (Elt F)),
    reshape main_v858 main_v859 rfl shapeCasts_S1x1x1x512x512_S1x512x512,
    nullary main_c_730 (constantI S_ 32 0#32),
    nullary main_c_731 (constantI S_ 32 0#32),
    binary main_c_730 main_c_731 main_v860 (cmpi .slt : (⟨S_, .i32⟩ : BufTy).Contents (Elt F) → (⟨S_, .i32⟩ : BufTy).Contents (Elt F) → (⟨S_, .i1⟩ : BufTy).Contents (Elt F)),
    nullary main_c_732 (constantI S_ 32 0#32),
    nullary main_c_733 (constantI S_ 32 1#32),
    binary main_c_732 main_c_733 main_v861 (addi : (⟨S_, .i32⟩ : BufTy).Contents (Elt F) → (⟨S_, .i32⟩ : BufTy).Contents (Elt F) → (⟨S_, .i32⟩ : BufTy).Contents (Elt F)),
    nullary main_c_734 (constantI S_ 32 0#32),
    ternary main_v860 main_v861 main_c_734 main_v862 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_735 (constantI S_ 32 0#32),
    binary main_v853 main_c_735 main_v863 (cmpi .slt : (⟨S_, .i32⟩ : BufTy).Contents (Elt F) → (⟨S_, .i32⟩ : BufTy).Contents (Elt F) → (⟨S_, .i1⟩ : BufTy).Contents (Elt F)),
    nullary main_c_736 (constantI S_ 32 512#32),
    binary main_v853 main_c_736 main_v864 (addi : (⟨S_, .i32⟩ : BufTy).Contents (Elt F) → (⟨S_, .i32⟩ : BufTy).Contents (Elt F) → (⟨S_, .i32⟩ : BufTy).Contents (Elt F)),
    ternary main_v863 main_v864 main_v853 main_v865 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_737 (constantI S_ 32 0#32),
    binary main_v857 main_c_737 main_v866 (cmpi .slt : (⟨S_, .i32⟩ : BufTy).Contents (Elt F) → (⟨S_, .i32⟩ : BufTy).Contents (Elt F) → (⟨S_, .i1⟩ : BufTy).Contents (Elt F)),
    nullary main_c_738 (constantI S_ 32 512#32),
    binary main_v857 main_c_738 main_v867 (addi : (⟨S_, .i32⟩ : BufTy).Contents (Elt F) → (⟨S_, .i32⟩ : BufTy).Contents (Elt F) → (⟨S_, .i32⟩ : BufTy).Contents (Elt F)),
    ternary main_v866 main_v867 main_v857 main_v868 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v859 ![main_v862, main_v865, main_v868] ⟨S_, .i32⟩ main_v869 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v869 main_v870 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_739 (constantI S_ 32 6#32),
    nullary main_c_740 (constantI S_ 32 0#32),
    binary main_c_739 main_c_740 main_v871 (cmpi .slt : (⟨S_, .i32⟩ : BufTy).Contents (Elt F) → (⟨S_, .i32⟩ : BufTy).Contents (Elt F) → (⟨S_, .i1⟩ : BufTy).Contents (Elt F)),
    nullary main_c_741 (constantI S_ 32 6#32),
    nullary main_c_742 (constantI S_ 32 16#32),
    binary main_c_741 main_c_742 main_v872 (addi : (⟨S_, .i32⟩ : BufTy).Contents (Elt F) → (⟨S_, .i32⟩ : BufTy).Contents (Elt F) → (⟨S_, .i32⟩ : BufTy).Contents (Elt F)),
    nullary main_c_743 (constantI S_ 32 6#32),
    ternary main_v871 main_v872 main_c_743 main_v873 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_744 (constantI S_ 32 0#32) ]
theorem pc050_sub : (pc050 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub ..⟩
theorem pc050_fresh : ∀ op ∈ (pc050 (F := F)), op.fresh = ∅ := by
  intro _ h; (repeat (cases h with | head => rfl | tail _ h => ?_)); exact nomatch h

/-- Operations 1777 … 1794 of 4424. -/
noncomputable def pc051 : List (HloOp τ sig (Elt F)) :=
  [ nullary main_c_745 (constantI S_ 32 0#32),
    binary main_c_744 main_c_745 main_v874 (cmpi .slt : (⟨S_, .i32⟩ : BufTy).Contents (Elt F) → (⟨S_, .i32⟩ : BufTy).Contents (Elt F) → (⟨S_, .i1⟩ : BufTy).Contents (Elt F)),
    nullary main_c_746 (constantI S_ 32 0#32),
    nullary main_c_747 (constantI S_ 32 1#32),
    binary main_c_746 main_c_747 main_v875 (addi : (⟨S_, .i32⟩ : BufTy).Contents (Elt F) → (⟨S_, .i32⟩ : BufTy).Contents (Elt F) → (⟨S_, .i32⟩ : BufTy).Contents (Elt F)),
    nullary main_c_748 (constantI S_ 32 0#32),
    ternary main_v874 main_v875 main_c_748 main_v876 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_749 (constantI S_ 32 0#32),
    binary main_v853 main_c_749 main_v877 (cmpi .slt : (⟨S_, .i32⟩ : BufTy).Contents (Elt F) → (⟨S_, .i32⟩ : BufTy).Contents (Elt F) → (⟨S_, .i1⟩ : BufTy).Contents (Elt F)),
    nullary main_c_750 (constantI S_ 32 512#32),
    binary main_v853 main_c_750 main_v878 (addi : (⟨S_, .i32⟩ : BufTy).Contents (Elt F) → (⟨S_, .i32⟩ : BufTy).Contents (Elt F) → (⟨S_, .i32⟩ : BufTy).Contents (Elt F)),
    ternary main_v877 main_v878 main_v853 main_v879 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_751 (constantI S_ 32 0#32),
    binary main_v857 main_c_751 main_v880 (cmpi .slt : (⟨S_, .i32⟩ : BufTy).Contents (Elt F) → (⟨S_, .i32⟩ : BufTy).Contents (Elt F) → (⟨S_, .i1⟩ : BufTy).Contents (Elt F)),
    nullary main_c_752 (constantI S_ 32 512#32),
    binary main_v857 main_c_752 main_v881 (addi : (⟨S_, .i32⟩ : BufTy).Contents (Elt F) → (⟨S_, .i32⟩ : BufTy).Contents (Elt F) → (⟨S_, .i32⟩ : BufTy).Contents (Elt F)),
    ternary main_v880 main_v881 main_v857 main_v882 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v849 main_v870 ![main_v873, main_v876, main_v879, main_v882] ⟨S_, .i32⟩ main_v883 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc051_sub : (pc051 (F := F)).Forall fun op => op.bufs ⊆ tcRefs τ sig :=
  ⟨nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc051_fresh : ∀ op ∈ (pc051 (F := F)), op.fresh = ∅ := by
  intro _ h; (repeat (cases h with | head => rfl | tail _ h => ?_)); exact nomatch h

/-- Operations 1795 … 1842 of 4424. -/
noncomputable def pc052 : List (HloOp τ sig (Elt F)) :=
  [ unary main_arg2 main_v884 ((extractStridedSlice S1x1x1 ![6, 2, 0] · slices_S16x4x2_S1x1x1_6_2_0) : (⟨S16x4x2, .i32⟩ : BufTy).Contents (Elt F) → (⟨S1x1x1, .i32⟩ : BufTy).Contents (Elt F)),
    reshape main_v884 main_v885 rfl shapeCasts_S1x1x1_S_,
    nullary main_c_753 (constantI S_ 32 128#32),
    binary main_v885 main_c_753 main_v886 (muli : (⟨S_, .i32⟩ : BufTy).Contents (Elt F) → (⟨S_, .i32⟩ : BufTy).Contents (Elt F) → (⟨S_, .i32⟩ : BufTy).Contents (Elt F)),
    nullary main_c_754 (constantI S_ 32 0#32),
    nullary main_c_755 (constantI S_ 32 128#32),
    TRef.unary (TRef.of (T := ⟨S_, .i32⟩) main_c_754) (TRef.of (T := ⟨S_, .i32⟩) main_call52_v0) id,
    TRef.binary (TRef.of (T := ⟨S_, .i32⟩) main_call52_v0) (TRef.of (T := ⟨S_, .i32⟩) main_v886) (TRef.of (T := ⟨S_, .i32⟩) main_call52_v1) maxsi,
    TRef.unary (TRef.of (T := ⟨S_, .i32⟩) main_c_755) (TRef.of (T := ⟨S_, .i32⟩) main_call52_v2) id,
    TRef.binary (TRef.of (T := ⟨S_, .i32⟩) main_call52_v2) (TRef.of (T := ⟨S_, .i32⟩) main_call52_v1) (TRef.of (T := ⟨S_, .i32⟩) main_v887) minsi,
    unary main_arg2 main_v888 ((extractStridedSlice S1x1x1 ![6, 2, 1] · slices_S16x4x2_S1x1x1_6_2_1) : (⟨S16x4x2, .i32⟩ : BufTy).Contents (Elt F) → (⟨S1x1x1, .i32⟩ : BufTy).Contents (Elt F)),
    reshape main_v888 main_v889 rfl shapeCasts_S1x1x1_S_,
    nullary main_c_756 (constantI S_ 32 128#32),
    binary main_v889 main_c_756 main_v890 (muli : (⟨S_, .i32⟩ : BufTy).Contents (Elt F) → (⟨S_, .i32⟩ : BufTy).Contents (Elt F) → (⟨S_, .i32⟩ : BufTy).Contents (Elt F)),
    nullary main_c_757 (constantI S_ 32 0#32),
    nullary main_c_758 (constantI S_ 32 128#32),
    TRef.unary (TRef.of (T := ⟨S_, .i32⟩) main_c_757) (TRef.of (T := ⟨S_, .i32⟩) main_call53_v0) id,
    TRef.binary (TRef.of (T := ⟨S_, .i32⟩) main_call53_v0) (TRef.of (T := ⟨S_, .i32⟩) main_v890) (TRef.of (T := ⟨S_, .i32⟩) main_call53_v1) maxsi,
    TRef.unary (TRef.of (T := ⟨S_, .i32⟩) main_c_758) (TRef.of (T := ⟨S_, .i32⟩) main_call53_v2) id,
    TRef.binary (TRef.of (T := ⟨S_, .i32⟩) main_call53_v2) (TRef.of (T := ⟨S_, .i32⟩) main_call53_v1) (TRef.of (T := ⟨S_, .i32⟩) main_v891) minsi,
    unary main_arg1 main_v892 ((extractStridedSlice S1x1x1x512x512 ![6, 2, 0, 0, 0] · slices_S16x4x1x512x512_S1x1x1x512x512_6_2_0_0_0) : (⟨S16x4x1x512x512, .f32⟩ : BufTy).Contents (Elt F) → (⟨S1x1x1x512x512, .f32⟩ : BufTy).Contents (Elt F)),
    reshape main_v892 main_v893 rfl shapeCasts_S1x1x1x512x512_S1x512x512,
    nullary main_c_759 (constantI S_ 32 0#32),
    nullary main_c_760 (constantI S_ 32 0#32),
    binary main_c_759 main_c_760 main_v894 (cmpi .slt : (⟨S_, .i32⟩ : BufTy).Contents (Elt F) → (⟨S_, .i32⟩ : BufTy).Contents (Elt F) → (⟨S_, .i1⟩ : BufTy).Contents (Elt F)),
    nullary main_c_761 (constantI S_ 32 0#32),
    nullary main_c_762 (constantI S_ 32 1#32),
    binary main_c_761 main_c_762 main_v895 (addi : (⟨S_, .i32⟩ : BufTy).Contents (Elt F) → (⟨S_, .i32⟩ : BufTy).Contents (Elt F) → (⟨S_, .i32⟩ : BufTy).Contents (Elt F)),
    nullary main_c_763 (constantI S_ 32 0#32),
    ternary main_v894 main_v895 main_c_763 main_v896 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_764 (constantI S_ 32 0#32),
    binary main_v887 main_c_764 main_v897 (cmpi .slt : (⟨S_, .i32⟩ : BufTy).Contents (Elt F) → (⟨S_, .i32⟩ : BufTy).Contents (Elt F) → (⟨S_, .i1⟩ : BufTy).Contents (Elt F)),
    nullary main_c_765 (constantI S_ 32 512#32),
    binary main_v887 main_c_765 main_v898 (addi : (⟨S_, .i32⟩ : BufTy).Contents (Elt F) → (⟨S_, .i32⟩ : BufTy).Contents (Elt F) → (⟨S_, .i32⟩ : BufTy).Contents (Elt F)),
    ternary main_v897 main_v898 main_v887 main_v899 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_766 (constantI S_ 32 0#32),
    binary main_v891 main_c_766 main_v900 (cmpi .slt : (⟨S_, .i32⟩ : BufTy).Contents (Elt F) → (⟨S_, .i32⟩ : BufTy).Contents (Elt F) → (⟨S_, .i1⟩ : BufTy).Contents (Elt F)),
    nullary main_c_767 (constantI S_ 32 512#32),
    binary main_v891 main_c_767 main_v901 (addi : (⟨S_, .i32⟩ : BufTy).Contents (Elt F) → (⟨S_, .i32⟩ : BufTy).Contents (Elt F) → (⟨S_, .i32⟩ : BufTy).Contents (Elt F)),
    ternary main_v900 main_v901 main_v891 main_v902 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v893 ![main_v896, main_v899, main_v902] ⟨S_, .i32⟩ main_v903 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v903 main_v904 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_768 (constantI S_ 32 6#32),
    nullary main_c_769 (constantI S_ 32 0#32),
    binary main_c_768 main_c_769 main_v905 (cmpi .slt : (⟨S_, .i32⟩ : BufTy).Contents (Elt F) → (⟨S_, .i32⟩ : BufTy).Contents (Elt F) → (⟨S_, .i1⟩ : BufTy).Contents (Elt F)),
    nullary main_c_770 (constantI S_ 32 6#32),
    nullary main_c_771 (constantI S_ 32 16#32),
    binary main_c_770 main_c_771 main_v906 (addi : (⟨S_, .i32⟩ : BufTy).Contents (Elt F) → (⟨S_, .i32⟩ : BufTy).Contents (Elt F) → (⟨S_, .i32⟩ : BufTy).Contents (Elt F)) ]
theorem pc052_sub : (pc052 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub ..⟩
theorem pc052_fresh : ∀ op ∈ (pc052 (F := F)), op.fresh = ∅ := by
  intro _ h; (repeat (cases h with | head => rfl | tail _ h => ?_)); exact nomatch h

/-- Operations 1843 … 1863 of 4424. -/
noncomputable def pc053 : List (HloOp τ sig (Elt F)) :=
  [ nullary main_c_772 (constantI S_ 32 6#32),
    ternary main_v905 main_v906 main_c_772 main_v907 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_773 (constantI S_ 32 0#32),
    nullary main_c_774 (constantI S_ 32 0#32),
    binary main_c_773 main_c_774 main_v908 (cmpi .slt : (⟨S_, .i32⟩ : BufTy).Contents (Elt F) → (⟨S_, .i32⟩ : BufTy).Contents (Elt F) → (⟨S_, .i1⟩ : BufTy).Contents (Elt F)),
    nullary main_c_775 (constantI S_ 32 0#32),
    nullary main_c_776 (constantI S_ 32 1#32),
    binary main_c_775 main_c_776 main_v909 (addi : (⟨S_, .i32⟩ : BufTy).Contents (Elt F) → (⟨S_, .i32⟩ : BufTy).Contents (Elt F) → (⟨S_, .i32⟩ : BufTy).Contents (Elt F)),
    nullary main_c_777 (constantI S_ 32 0#32),
    ternary main_v908 main_v909 main_c_777 main_v910 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_778 (constantI S_ 32 0#32),
    binary main_v887 main_c_778 main_v911 (cmpi .slt : (⟨S_, .i32⟩ : BufTy).Contents (Elt F) → (⟨S_, .i32⟩ : BufTy).Contents (Elt F) → (⟨S_, .i1⟩ : BufTy).Contents (Elt F)),
    nullary main_c_779 (constantI S_ 32 512#32),
    binary main_v887 main_c_779 main_v912 (addi : (⟨S_, .i32⟩ : BufTy).Contents (Elt F) → (⟨S_, .i32⟩ : BufTy).Contents (Elt F) → (⟨S_, .i32⟩ : BufTy).Contents (Elt F)),
    ternary main_v911 main_v912 main_v887 main_v913 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_780 (constantI S_ 32 0#32),
    binary main_v891 main_c_780 main_v914 (cmpi .slt : (⟨S_, .i32⟩ : BufTy).Contents (Elt F) → (⟨S_, .i32⟩ : BufTy).Contents (Elt F) → (⟨S_, .i1⟩ : BufTy).Contents (Elt F)),
    nullary main_c_781 (constantI S_ 32 512#32),
    binary main_v891 main_c_781 main_v915 (addi : (⟨S_, .i32⟩ : BufTy).Contents (Elt F) → (⟨S_, .i32⟩ : BufTy).Contents (Elt F) → (⟨S_, .i32⟩ : BufTy).Contents (Elt F)),
    ternary main_v914 main_v915 main_v891 main_v916 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v883 main_v904 ![main_v907, main_v910, main_v913, main_v916] ⟨S_, .i32⟩ main_v917 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc053_sub : (pc053 (F := F)).Forall fun op => op.bufs ⊆ tcRefs τ sig :=
  ⟨nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc053_fresh : ∀ op ∈ (pc053 (F := F)), op.fresh = ∅ := by
  intro _ h; (repeat (cases h with | head => rfl | tail _ h => ?_)); exact nomatch h

/-- Operations 1864 … 1908 of 4424. -/
noncomputable def pc054 : List (HloOp τ sig (Elt F)) :=
  [ unary main_arg2 main_v918 ((extractStridedSlice S1x1x1 ![6, 3, 0] · slices_S16x4x2_S1x1x1_6_3_0) : (⟨S16x4x2, .i32⟩ : BufTy).Contents (Elt F) → (⟨S1x1x1, .i32⟩ : BufTy).Contents (Elt F)),
    reshape main_v918 main_v919 rfl shapeCasts_S1x1x1_S_,
    nullary main_c_782 (constantI S_ 32 128#32),
    binary main_v919 main_c_782 main_v920 (muli : (⟨S_, .i32⟩ : BufTy).Contents (Elt F) → (⟨S_, .i32⟩ : BufTy).Contents (Elt F) → (⟨S_, .i32⟩ : BufTy).Contents (Elt F)),
    nullary main_c_783 (constantI S_ 32 0#32),
    nullary main_c_784 (constantI S_ 32 128#32),
    TRef.unary (TRef.of (T := ⟨S_, .i32⟩) main_c_783) (TRef.of (T := ⟨S_, .i32⟩) main_call54_v0) id,
    TRef.binary (TRef.of (T := ⟨S_, .i32⟩) main_call54_v0) (TRef.of (T := ⟨S_, .i32⟩) main_v920) (TRef.of (T := ⟨S_, .i32⟩) main_call54_v1) maxsi,
    TRef.unary (TRef.of (T := ⟨S_, .i32⟩) main_c_784) (TRef.of (T := ⟨S_, .i32⟩) main_call54_v2) id,
    TRef.binary (TRef.of (T := ⟨S_, .i32⟩) main_call54_v2) (TRef.of (T := ⟨S_, .i32⟩) main_call54_v1) (TRef.of (T := ⟨S_, .i32⟩) main_v921) minsi,
    unary main_arg2 main_v922 ((extractStridedSlice S1x1x1 ![6, 3, 1] · slices_S16x4x2_S1x1x1_6_3_1) : (⟨S16x4x2, .i32⟩ : BufTy).Contents (Elt F) → (⟨S1x1x1, .i32⟩ : BufTy).Contents (Elt F)),
    reshape main_v922 main_v923 rfl shapeCasts_S1x1x1_S_,
    nullary main_c_785 (constantI S_ 32 128#32),
    binary main_v923 main_c_785 main_v924 (muli : (⟨S_, .i32⟩ : BufTy).Contents (Elt F) → (⟨S_, .i32⟩ : BufTy).Contents (Elt F) → (⟨S_, .i32⟩ : BufTy).Contents (Elt F)),
    nullary main_c_786 (constantI S_ 32 0#32),
    nullary main_c_787 (constantI S_ 32 128#32),
    TRef.unary (TRef.of (T := ⟨S_, .i32⟩) main_c_786) (TRef.of (T := ⟨S_, .i32⟩) main_call55_v0) id,
    TRef.binary (TRef.of (T := ⟨S_, .i32⟩) main_call55_v0) (TRef.of (T := ⟨S_, .i32⟩) main_v924) (TRef.of (T := ⟨S_, .i32⟩) main_call55_v1) maxsi,
    TRef.unary (TRef.of (T := ⟨S_, .i32⟩) main_c_787) (TRef.of (T := ⟨S_, .i32⟩) main_call55_v2) id,
    TRef.binary (TRef.of (T := ⟨S_, .i32⟩) main_call55_v2) (TRef.of (T := ⟨S_, .i32⟩) main_call55_v1) (TRef.of (T := ⟨S_, .i32⟩) main_v925) minsi,
    unary main_arg1 main_v926 ((extractStridedSlice S1x1x1x512x512 ![6, 3, 0, 0, 0] · slices_S16x4x1x512x512_S1x1x1x512x512_6_3_0_0_0) : (⟨S16x4x1x512x512, .f32⟩ : BufTy).Contents (Elt F) → (⟨S1x1x1x512x512, .f32⟩ : BufTy).Contents (Elt F)),
    reshape main_v926 main_v927 rfl shapeCasts_S1x1x1x512x512_S1x512x512,
    nullary main_c_788 (constantI S_ 32 0#32),
    nullary main_c_789 (constantI S_ 32 0#32),
    binary main_c_788 main_c_789 main_v928 (cmpi .slt : (⟨S_, .i32⟩ : BufTy).Contents (Elt F) → (⟨S_, .i32⟩ : BufTy).Contents (Elt F) → (⟨S_, .i1⟩ : BufTy).Contents (Elt F)),
    nullary main_c_790 (constantI S_ 32 0#32),
    nullary main_c_791 (constantI S_ 32 1#32),
    binary main_c_790 main_c_791 main_v929 (addi : (⟨S_, .i32⟩ : BufTy).Contents (Elt F) → (⟨S_, .i32⟩ : BufTy).Contents (Elt F) → (⟨S_, .i32⟩ : BufTy).Contents (Elt F)),
    nullary main_c_792 (constantI S_ 32 0#32),
    ternary main_v928 main_v929 main_c_792 main_v930 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_793 (constantI S_ 32 0#32),
    binary main_v921 main_c_793 main_v931 (cmpi .slt : (⟨S_, .i32⟩ : BufTy).Contents (Elt F) → (⟨S_, .i32⟩ : BufTy).Contents (Elt F) → (⟨S_, .i1⟩ : BufTy).Contents (Elt F)),
    nullary main_c_794 (constantI S_ 32 512#32),
    binary main_v921 main_c_794 main_v932 (addi : (⟨S_, .i32⟩ : BufTy).Contents (Elt F) → (⟨S_, .i32⟩ : BufTy).Contents (Elt F) → (⟨S_, .i32⟩ : BufTy).Contents (Elt F)),
    ternary main_v931 main_v932 main_v921 main_v933 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_795 (constantI S_ 32 0#32),
    binary main_v925 main_c_795 main_v934 (cmpi .slt : (⟨S_, .i32⟩ : BufTy).Contents (Elt F) → (⟨S_, .i32⟩ : BufTy).Contents (Elt F) → (⟨S_, .i1⟩ : BufTy).Contents (Elt F)),
    nullary main_c_796 (constantI S_ 32 512#32),
    binary main_v925 main_c_796 main_v935 (addi : (⟨S_, .i32⟩ : BufTy).Contents (Elt F) → (⟨S_, .i32⟩ : BufTy).Contents (Elt F) → (⟨S_, .i32⟩ : BufTy).Contents (Elt F)),
    ternary main_v934 main_v935 main_v925 main_v936 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v927 ![main_v930, main_v933, main_v936] ⟨S_, .i32⟩ main_v937 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v937 main_v938 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_797 (constantI S_ 32 6#32),
    nullary main_c_798 (constantI S_ 32 0#32),
    binary main_c_797 main_c_798 main_v939 (cmpi .slt : (⟨S_, .i32⟩ : BufTy).Contents (Elt F) → (⟨S_, .i32⟩ : BufTy).Contents (Elt F) → (⟨S_, .i1⟩ : BufTy).Contents (Elt F)) ]
theorem pc054_sub : (pc054 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub ..⟩
theorem pc054_fresh : ∀ op ∈ (pc054 (F := F)), op.fresh = ∅ := by
  intro _ h; (repeat (cases h with | head => rfl | tail _ h => ?_)); exact nomatch h

/-- Operations 1909 … 1932 of 4424. -/
noncomputable def pc055 : List (HloOp τ sig (Elt F)) :=
  [ nullary main_c_799 (constantI S_ 32 6#32),
    nullary main_c_800 (constantI S_ 32 16#32),
    binary main_c_799 main_c_800 main_v940 (addi : (⟨S_, .i32⟩ : BufTy).Contents (Elt F) → (⟨S_, .i32⟩ : BufTy).Contents (Elt F) → (⟨S_, .i32⟩ : BufTy).Contents (Elt F)),
    nullary main_c_801 (constantI S_ 32 6#32),
    ternary main_v939 main_v940 main_c_801 main_v941 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_802 (constantI S_ 32 0#32),
    nullary main_c_803 (constantI S_ 32 0#32),
    binary main_c_802 main_c_803 main_v942 (cmpi .slt : (⟨S_, .i32⟩ : BufTy).Contents (Elt F) → (⟨S_, .i32⟩ : BufTy).Contents (Elt F) → (⟨S_, .i1⟩ : BufTy).Contents (Elt F)),
    nullary main_c_804 (constantI S_ 32 0#32),
    nullary main_c_805 (constantI S_ 32 1#32),
    binary main_c_804 main_c_805 main_v943 (addi : (⟨S_, .i32⟩ : BufTy).Contents (Elt F) → (⟨S_, .i32⟩ : BufTy).Contents (Elt F) → (⟨S_, .i32⟩ : BufTy).Contents (Elt F)),
    nullary main_c_806 (constantI S_ 32 0#32),
    ternary main_v942 main_v943 main_c_806 main_v944 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_807 (constantI S_ 32 0#32),
    binary main_v921 main_c_807 main_v945 (cmpi .slt : (⟨S_, .i32⟩ : BufTy).Contents (Elt F) → (⟨S_, .i32⟩ : BufTy).Contents (Elt F) → (⟨S_, .i1⟩ : BufTy).Contents (Elt F)),
    nullary main_c_808 (constantI S_ 32 512#32),
    binary main_v921 main_c_808 main_v946 (addi : (⟨S_, .i32⟩ : BufTy).Contents (Elt F) → (⟨S_, .i32⟩ : BufTy).Contents (Elt F) → (⟨S_, .i32⟩ : BufTy).Contents (Elt F)),
    ternary main_v945 main_v946 main_v921 main_v947 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_809 (constantI S_ 32 0#32),
    binary main_v925 main_c_809 main_v948 (cmpi .slt : (⟨S_, .i32⟩ : BufTy).Contents (Elt F) → (⟨S_, .i32⟩ : BufTy).Contents (Elt F) → (⟨S_, .i1⟩ : BufTy).Contents (Elt F)),
    nullary main_c_810 (constantI S_ 32 512#32),
    binary main_v925 main_c_810 main_v949 (addi : (⟨S_, .i32⟩ : BufTy).Contents (Elt F) → (⟨S_, .i32⟩ : BufTy).Contents (Elt F) → (⟨S_, .i32⟩ : BufTy).Contents (Elt F)),
    ternary main_v948 main_v949 main_v925 main_v950 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v917 main_v938 ![main_v941, main_v944, main_v947, main_v950] ⟨S_, .i32⟩ main_v951 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc055_sub : (pc055 (F := F)).Forall fun op => op.bufs ⊆ tcRefs τ sig :=
  ⟨nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc055_fresh : ∀ op ∈ (pc055 (F := F)), op.fresh = ∅ := by
  intro _ h; (repeat (cases h with | head => rfl | tail _ h => ?_)); exact nomatch h

/-- Operations 1933 … 1974 of 4424. -/
noncomputable def pc056 : List (HloOp τ sig (Elt F)) :=
  [ unary main_arg2 main_v952 ((extractStridedSlice S1x1x1 ![7, 0, 0] · slices_S16x4x2_S1x1x1_7_0_0) : (⟨S16x4x2, .i32⟩ : BufTy).Contents (Elt F) → (⟨S1x1x1, .i32⟩ : BufTy).Contents (Elt F)),
    reshape main_v952 main_v953 rfl shapeCasts_S1x1x1_S_,
    nullary main_c_811 (constantI S_ 32 128#32),
    binary main_v953 main_c_811 main_v954 (muli : (⟨S_, .i32⟩ : BufTy).Contents (Elt F) → (⟨S_, .i32⟩ : BufTy).Contents (Elt F) → (⟨S_, .i32⟩ : BufTy).Contents (Elt F)),
    nullary main_c_812 (constantI S_ 32 0#32),
    nullary main_c_813 (constantI S_ 32 128#32),
    TRef.unary (TRef.of (T := ⟨S_, .i32⟩) main_c_812) (TRef.of (T := ⟨S_, .i32⟩) main_call56_v0) id,
    TRef.binary (TRef.of (T := ⟨S_, .i32⟩) main_call56_v0) (TRef.of (T := ⟨S_, .i32⟩) main_v954) (TRef.of (T := ⟨S_, .i32⟩) main_call56_v1) maxsi,
    TRef.unary (TRef.of (T := ⟨S_, .i32⟩) main_c_813) (TRef.of (T := ⟨S_, .i32⟩) main_call56_v2) id,
    TRef.binary (TRef.of (T := ⟨S_, .i32⟩) main_call56_v2) (TRef.of (T := ⟨S_, .i32⟩) main_call56_v1) (TRef.of (T := ⟨S_, .i32⟩) main_v955) minsi,
    unary main_arg2 main_v956 ((extractStridedSlice S1x1x1 ![7, 0, 1] · slices_S16x4x2_S1x1x1_7_0_1) : (⟨S16x4x2, .i32⟩ : BufTy).Contents (Elt F) → (⟨S1x1x1, .i32⟩ : BufTy).Contents (Elt F)),
    reshape main_v956 main_v957 rfl shapeCasts_S1x1x1_S_,
    nullary main_c_814 (constantI S_ 32 128#32),
    binary main_v957 main_c_814 main_v958 (muli : (⟨S_, .i32⟩ : BufTy).Contents (Elt F) → (⟨S_, .i32⟩ : BufTy).Contents (Elt F) → (⟨S_, .i32⟩ : BufTy).Contents (Elt F)),
    nullary main_c_815 (constantI S_ 32 0#32),
    nullary main_c_816 (constantI S_ 32 128#32),
    TRef.unary (TRef.of (T := ⟨S_, .i32⟩) main_c_815) (TRef.of (T := ⟨S_, .i32⟩) main_call57_v0) id,
    TRef.binary (TRef.of (T := ⟨S_, .i32⟩) main_call57_v0) (TRef.of (T := ⟨S_, .i32⟩) main_v958) (TRef.of (T := ⟨S_, .i32⟩) main_call57_v1) maxsi,
    TRef.unary (TRef.of (T := ⟨S_, .i32⟩) main_c_816) (TRef.of (T := ⟨S_, .i32⟩) main_call57_v2) id,
    TRef.binary (TRef.of (T := ⟨S_, .i32⟩) main_call57_v2) (TRef.of (T := ⟨S_, .i32⟩) main_call57_v1) (TRef.of (T := ⟨S_, .i32⟩) main_v959) minsi,
    unary main_arg1 main_v960 ((extractStridedSlice S1x1x1x512x512 ![7, 0, 0, 0, 0] · slices_S16x4x1x512x512_S1x1x1x512x512_7_0_0_0_0) : (⟨S16x4x1x512x512, .f32⟩ : BufTy).Contents (Elt F) → (⟨S1x1x1x512x512, .f32⟩ : BufTy).Contents (Elt F)),
    reshape main_v960 main_v961 rfl shapeCasts_S1x1x1x512x512_S1x512x512,
    nullary main_c_817 (constantI S_ 32 0#32),
    nullary main_c_818 (constantI S_ 32 0#32),
    binary main_c_817 main_c_818 main_v962 (cmpi .slt : (⟨S_, .i32⟩ : BufTy).Contents (Elt F) → (⟨S_, .i32⟩ : BufTy).Contents (Elt F) → (⟨S_, .i1⟩ : BufTy).Contents (Elt F)),
    nullary main_c_819 (constantI S_ 32 0#32),
    nullary main_c_820 (constantI S_ 32 1#32),
    binary main_c_819 main_c_820 main_v963 (addi : (⟨S_, .i32⟩ : BufTy).Contents (Elt F) → (⟨S_, .i32⟩ : BufTy).Contents (Elt F) → (⟨S_, .i32⟩ : BufTy).Contents (Elt F)),
    nullary main_c_821 (constantI S_ 32 0#32),
    ternary main_v962 main_v963 main_c_821 main_v964 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_822 (constantI S_ 32 0#32),
    binary main_v955 main_c_822 main_v965 (cmpi .slt : (⟨S_, .i32⟩ : BufTy).Contents (Elt F) → (⟨S_, .i32⟩ : BufTy).Contents (Elt F) → (⟨S_, .i1⟩ : BufTy).Contents (Elt F)),
    nullary main_c_823 (constantI S_ 32 512#32),
    binary main_v955 main_c_823 main_v966 (addi : (⟨S_, .i32⟩ : BufTy).Contents (Elt F) → (⟨S_, .i32⟩ : BufTy).Contents (Elt F) → (⟨S_, .i32⟩ : BufTy).Contents (Elt F)),
    ternary main_v965 main_v966 main_v955 main_v967 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_824 (constantI S_ 32 0#32),
    binary main_v959 main_c_824 main_v968 (cmpi .slt : (⟨S_, .i32⟩ : BufTy).Contents (Elt F) → (⟨S_, .i32⟩ : BufTy).Contents (Elt F) → (⟨S_, .i1⟩ : BufTy).Contents (Elt F)),
    nullary main_c_825 (constantI S_ 32 512#32),
    binary main_v959 main_c_825 main_v969 (addi : (⟨S_, .i32⟩ : BufTy).Contents (Elt F) → (⟨S_, .i32⟩ : BufTy).Contents (Elt F) → (⟨S_, .i32⟩ : BufTy).Contents (Elt F)),
    ternary main_v968 main_v969 main_v959 main_v970 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v961 ![main_v964, main_v967, main_v970] ⟨S_, .i32⟩ main_v971 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v971 main_v972 (broadcastInDim S1x1x384x384 ![1, 2, 3] bcast_S1x384x384_S1x1x384x384_1_2_3 : (⟨S1x384x384, .f32⟩ : BufTy).Contents (Elt F) → (⟨S1x1x384x384, .f32⟩ : BufTy).Contents (Elt F)) ]
theorem pc056_sub : (pc056 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub ..⟩
theorem pc056_fresh : ∀ op ∈ (pc056 (F := F)), op.fresh = ∅ := by
  intro _ h; (repeat (cases h with | head => rfl | tail _ h => ?_)); exact nomatch h

/-- Operations 1975 … 2001 of 4424. -/
noncomputable def pc057 : List (HloOp τ sig (Elt F)) :=
  [ nullary main_c_826 (constantI S_ 32 7#32),
    nullary main_c_827 (constantI S_ 32 0#32),
    binary main_c_826 main_c_827 main_v973 (cmpi .slt : (⟨S_, .i32⟩ : BufTy).Contents (Elt F) → (⟨S_, .i32⟩ : BufTy).Contents (Elt F) → (⟨S_, .i1⟩ : BufTy).Contents (Elt F)),
    nullary main_c_828 (constantI S_ 32 7#32),
    nullary main_c_829 (constantI S_ 32 16#32),
    binary main_c_828 main_c_829 main_v974 (addi : (⟨S_, .i32⟩ : BufTy).Contents (Elt F) → (⟨S_, .i32⟩ : BufTy).Contents (Elt F) → (⟨S_, .i32⟩ : BufTy).Contents (Elt F)),
    nullary main_c_830 (constantI S_ 32 7#32),
    ternary main_v973 main_v974 main_c_830 main_v975 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_831 (constantI S_ 32 0#32),
    nullary main_c_832 (constantI S_ 32 0#32),
    binary main_c_831 main_c_832 main_v976 (cmpi .slt : (⟨S_, .i32⟩ : BufTy).Contents (Elt F) → (⟨S_, .i32⟩ : BufTy).Contents (Elt F) → (⟨S_, .i1⟩ : BufTy).Contents (Elt F)),
    nullary main_c_833 (constantI S_ 32 0#32),
    nullary main_c_834 (constantI S_ 32 1#32),
    binary main_c_833 main_c_834 main_v977 (addi : (⟨S_, .i32⟩ : BufTy).Contents (Elt F) → (⟨S_, .i32⟩ : BufTy).Contents (Elt F) → (⟨S_, .i32⟩ : BufTy).Contents (Elt F)),
    nullary main_c_835 (constantI S_ 32 0#32),
    ternary main_v976 main_v977 main_c_835 main_v978 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_836 (constantI S_ 32 0#32),
    binary main_v955 main_c_836 main_v979 (cmpi .slt : (⟨S_, .i32⟩ : BufTy).Contents (Elt F) → (⟨S_, .i32⟩ : BufTy).Contents (Elt F) → (⟨S_, .i1⟩ : BufTy).Contents (Elt F)),
    nullary main_c_837 (constantI S_ 32 512#32),
    binary main_v955 main_c_837 main_v980 (addi : (⟨S_, .i32⟩ : BufTy).Contents (Elt F) → (⟨S_, .i32⟩ : BufTy).Contents (Elt F) → (⟨S_, .i32⟩ : BufTy).Contents (Elt F)),
    ternary main_v979 main_v980 main_v955 main_v981 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_838 (constantI S_ 32 0#32),
    binary main_v959 main_c_838 main_v982 (cmpi .slt : (⟨S_, .i32⟩ : BufTy).Contents (Elt F) → (⟨S_, .i32⟩ : BufTy).Contents (Elt F) → (⟨S_, .i1⟩ : BufTy).Contents (Elt F)),
    nullary main_c_839 (constantI S_ 32 512#32),
    binary main_v959 main_c_839 main_v983 (addi : (⟨S_, .i32⟩ : BufTy).Contents (Elt F) → (⟨S_, .i32⟩ : BufTy).Contents (Elt F) → (⟨S_, .i32⟩ : BufTy).Contents (Elt F)),
    ternary main_v982 main_v983 main_v959 main_v984 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v951 main_v972 ![main_v975, main_v978, main_v981, main_v984] ⟨S_, .i32⟩ main_v985 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc057_sub : (pc057 (F := F)).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc057_fresh : ∀ op ∈ (pc057 (F := F)), op.fresh = ∅ := by
  intro _ h; (repeat (cases h with | head => rfl | tail _ h => ?_)); exact nomatch h

/-- Operations 2002 … 2040 of 4424. -/
noncomputable def pc058 : List (HloOp τ sig (Elt F)) :=
  [ unary main_arg2 main_v986 ((extractStridedSlice S1x1x1 ![7, 1, 0] · slices_S16x4x2_S1x1x1_7_1_0) : (⟨S16x4x2, .i32⟩ : BufTy).Contents (Elt F) → (⟨S1x1x1, .i32⟩ : BufTy).Contents (Elt F)),
    reshape main_v986 main_v987 rfl shapeCasts_S1x1x1_S_,
    nullary main_c_840 (constantI S_ 32 128#32),
    binary main_v987 main_c_840 main_v988 (muli : (⟨S_, .i32⟩ : BufTy).Contents (Elt F) → (⟨S_, .i32⟩ : BufTy).Contents (Elt F) → (⟨S_, .i32⟩ : BufTy).Contents (Elt F)),
    nullary main_c_841 (constantI S_ 32 0#32),
    nullary main_c_842 (constantI S_ 32 128#32),
    TRef.unary (TRef.of (T := ⟨S_, .i32⟩) main_c_841) (TRef.of (T := ⟨S_, .i32⟩) main_call58_v0) id,
    TRef.binary (TRef.of (T := ⟨S_, .i32⟩) main_call58_v0) (TRef.of (T := ⟨S_, .i32⟩) main_v988) (TRef.of (T := ⟨S_, .i32⟩) main_call58_v1) maxsi,
    TRef.unary (TRef.of (T := ⟨S_, .i32⟩) main_c_842) (TRef.of (T := ⟨S_, .i32⟩) main_call58_v2) id,
    TRef.binary (TRef.of (T := ⟨S_, .i32⟩) main_call58_v2) (TRef.of (T := ⟨S_, .i32⟩) main_call58_v1) (TRef.of (T := ⟨S_, .i32⟩) main_v989) minsi,
    unary main_arg2 main_v990 ((extractStridedSlice S1x1x1 ![7, 1, 1] · slices_S16x4x2_S1x1x1_7_1_1) : (⟨S16x4x2, .i32⟩ : BufTy).Contents (Elt F) → (⟨S1x1x1, .i32⟩ : BufTy).Contents (Elt F)),
    reshape main_v990 main_v991 rfl shapeCasts_S1x1x1_S_,
    nullary main_c_843 (constantI S_ 32 128#32),
    binary main_v991 main_c_843 main_v992 (muli : (⟨S_, .i32⟩ : BufTy).Contents (Elt F) → (⟨S_, .i32⟩ : BufTy).Contents (Elt F) → (⟨S_, .i32⟩ : BufTy).Contents (Elt F)),
    nullary main_c_844 (constantI S_ 32 0#32),
    nullary main_c_845 (constantI S_ 32 128#32),
    TRef.unary (TRef.of (T := ⟨S_, .i32⟩) main_c_844) (TRef.of (T := ⟨S_, .i32⟩) main_call59_v0) id,
    TRef.binary (TRef.of (T := ⟨S_, .i32⟩) main_call59_v0) (TRef.of (T := ⟨S_, .i32⟩) main_v992) (TRef.of (T := ⟨S_, .i32⟩) main_call59_v1) maxsi,
    TRef.unary (TRef.of (T := ⟨S_, .i32⟩) main_c_845) (TRef.of (T := ⟨S_, .i32⟩) main_call59_v2) id,
    TRef.binary (TRef.of (T := ⟨S_, .i32⟩) main_call59_v2) (TRef.of (T := ⟨S_, .i32⟩) main_call59_v1) (TRef.of (T := ⟨S_, .i32⟩) main_v993) minsi,
    unary main_arg1 main_v994 ((extractStridedSlice S1x1x1x512x512 ![7, 1, 0, 0, 0] · slices_S16x4x1x512x512_S1x1x1x512x512_7_1_0_0_0) : (⟨S16x4x1x512x512, .f32⟩ : BufTy).Contents (Elt F) → (⟨S1x1x1x512x512, .f32⟩ : BufTy).Contents (Elt F)),
    reshape main_v994 main_v995 rfl shapeCasts_S1x1x1x512x512_S1x512x512,
    nullary main_c_846 (constantI S_ 32 0#32),
    nullary main_c_847 (constantI S_ 32 0#32),
    binary main_c_846 main_c_847 main_v996 (cmpi .slt : (⟨S_, .i32⟩ : BufTy).Contents (Elt F) → (⟨S_, .i32⟩ : BufTy).Contents (Elt F) → (⟨S_, .i1⟩ : BufTy).Contents (Elt F)),
    nullary main_c_848 (constantI S_ 32 0#32),
    nullary main_c_849 (constantI S_ 32 1#32),
    binary main_c_848 main_c_849 main_v997 (addi : (⟨S_, .i32⟩ : BufTy).Contents (Elt F) → (⟨S_, .i32⟩ : BufTy).Contents (Elt F) → (⟨S_, .i32⟩ : BufTy).Contents (Elt F)),
    nullary main_c_850 (constantI S_ 32 0#32),
    ternary main_v996 main_v997 main_c_850 main_v998 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_851 (constantI S_ 32 0#32),
    binary main_v989 main_c_851 main_v999 (cmpi .slt : (⟨S_, .i32⟩ : BufTy).Contents (Elt F) → (⟨S_, .i32⟩ : BufTy).Contents (Elt F) → (⟨S_, .i1⟩ : BufTy).Contents (Elt F)),
    nullary main_c_852 (constantI S_ 32 512#32),
    binary main_v989 main_c_852 main_v1000 (addi : (⟨S_, .i32⟩ : BufTy).Contents (Elt F) → (⟨S_, .i32⟩ : BufTy).Contents (Elt F) → (⟨S_, .i32⟩ : BufTy).Contents (Elt F)),
    ternary main_v999 main_v1000 main_v989 main_v1001 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_853 (constantI S_ 32 0#32),
    binary main_v993 main_c_853 main_v1002 (cmpi .slt : (⟨S_, .i32⟩ : BufTy).Contents (Elt F) → (⟨S_, .i32⟩ : BufTy).Contents (Elt F) → (⟨S_, .i1⟩ : BufTy).Contents (Elt F)),
    nullary main_c_854 (constantI S_ 32 512#32),
    binary main_v993 main_c_854 main_v1003 (addi : (⟨S_, .i32⟩ : BufTy).Contents (Elt F) → (⟨S_, .i32⟩ : BufTy).Contents (Elt F) → (⟨S_, .i32⟩ : BufTy).Contents (Elt F)) ]
theorem pc058_sub : (pc058 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub ..⟩
theorem pc058_fresh : ∀ op ∈ (pc058 (F := F)), op.fresh = ∅ := by
  intro _ h; (repeat (cases h with | head => rfl | tail _ h => ?_)); exact nomatch h

/-- Operations 2041 … 2070 of 4424. -/
noncomputable def pc059 : List (HloOp τ sig (Elt F)) :=
  [ ternary main_v1002 main_v1003 main_v993 main_v1004 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v995 ![main_v998, main_v1001, main_v1004] ⟨S_, .i32⟩ main_v1005 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1005 main_v1006 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_855 (constantI S_ 32 7#32),
    nullary main_c_856 (constantI S_ 32 0#32),
    binary main_c_855 main_c_856 main_v1007 (cmpi .slt : (⟨S_, .i32⟩ : BufTy).Contents (Elt F) → (⟨S_, .i32⟩ : BufTy).Contents (Elt F) → (⟨S_, .i1⟩ : BufTy).Contents (Elt F)),
    nullary main_c_857 (constantI S_ 32 7#32),
    nullary main_c_858 (constantI S_ 32 16#32),
    binary main_c_857 main_c_858 main_v1008 (addi : (⟨S_, .i32⟩ : BufTy).Contents (Elt F) → (⟨S_, .i32⟩ : BufTy).Contents (Elt F) → (⟨S_, .i32⟩ : BufTy).Contents (Elt F)),
    nullary main_c_859 (constantI S_ 32 7#32),
    ternary main_v1007 main_v1008 main_c_859 main_v1009 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_860 (constantI S_ 32 0#32),
    nullary main_c_861 (constantI S_ 32 0#32),
    binary main_c_860 main_c_861 main_v1010 (cmpi .slt : (⟨S_, .i32⟩ : BufTy).Contents (Elt F) → (⟨S_, .i32⟩ : BufTy).Contents (Elt F) → (⟨S_, .i1⟩ : BufTy).Contents (Elt F)),
    nullary main_c_862 (constantI S_ 32 0#32),
    nullary main_c_863 (constantI S_ 32 1#32),
    binary main_c_862 main_c_863 main_v1011 (addi : (⟨S_, .i32⟩ : BufTy).Contents (Elt F) → (⟨S_, .i32⟩ : BufTy).Contents (Elt F) → (⟨S_, .i32⟩ : BufTy).Contents (Elt F)),
    nullary main_c_864 (constantI S_ 32 0#32),
    ternary main_v1010 main_v1011 main_c_864 main_v1012 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_865 (constantI S_ 32 0#32),
    binary main_v989 main_c_865 main_v1013 (cmpi .slt : (⟨S_, .i32⟩ : BufTy).Contents (Elt F) → (⟨S_, .i32⟩ : BufTy).Contents (Elt F) → (⟨S_, .i1⟩ : BufTy).Contents (Elt F)),
    nullary main_c_866 (constantI S_ 32 512#32),
    binary main_v989 main_c_866 main_v1014 (addi : (⟨S_, .i32⟩ : BufTy).Contents (Elt F) → (⟨S_, .i32⟩ : BufTy).Contents (Elt F) → (⟨S_, .i32⟩ : BufTy).Contents (Elt F)),
    ternary main_v1013 main_v1014 main_v989 main_v1015 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_867 (constantI S_ 32 0#32),
    binary main_v993 main_c_867 main_v1016 (cmpi .slt : (⟨S_, .i32⟩ : BufTy).Contents (Elt F) → (⟨S_, .i32⟩ : BufTy).Contents (Elt F) → (⟨S_, .i1⟩ : BufTy).Contents (Elt F)),
    nullary main_c_868 (constantI S_ 32 512#32),
    binary main_v993 main_c_868 main_v1017 (addi : (⟨S_, .i32⟩ : BufTy).Contents (Elt F) → (⟨S_, .i32⟩ : BufTy).Contents (Elt F) → (⟨S_, .i32⟩ : BufTy).Contents (Elt F)),
    ternary main_v1016 main_v1017 main_v993 main_v1018 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v985 main_v1006 ![main_v1009, main_v1012, main_v1015, main_v1018] ⟨S_, .i32⟩ main_v1019 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc059_sub : (pc059 (F := F)).Forall fun op => op.bufs ⊆ tcRefs τ sig :=
  ⟨ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc059_fresh : ∀ op ∈ (pc059 (F := F)), op.fresh = ∅ := by
  intro _ h; (repeat (cases h with | head => rfl | tail _ h => ?_)); exact nomatch h

/-- Operations 2071 … 2106 of 4424. -/
noncomputable def pc060 : List (HloOp τ sig (Elt F)) :=
  [ unary main_arg2 main_v1020 ((extractStridedSlice S1x1x1 ![7, 2, 0] · slices_S16x4x2_S1x1x1_7_2_0) : (⟨S16x4x2, .i32⟩ : BufTy).Contents (Elt F) → (⟨S1x1x1, .i32⟩ : BufTy).Contents (Elt F)),
    reshape main_v1020 main_v1021 rfl shapeCasts_S1x1x1_S_,
    nullary main_c_869 (constantI S_ 32 128#32),
    binary main_v1021 main_c_869 main_v1022 (muli : (⟨S_, .i32⟩ : BufTy).Contents (Elt F) → (⟨S_, .i32⟩ : BufTy).Contents (Elt F) → (⟨S_, .i32⟩ : BufTy).Contents (Elt F)),
    nullary main_c_870 (constantI S_ 32 0#32),
    nullary main_c_871 (constantI S_ 32 128#32),
    TRef.unary (TRef.of (T := ⟨S_, .i32⟩) main_c_870) (TRef.of (T := ⟨S_, .i32⟩) main_call60_v0) id,
    TRef.binary (TRef.of (T := ⟨S_, .i32⟩) main_call60_v0) (TRef.of (T := ⟨S_, .i32⟩) main_v1022) (TRef.of (T := ⟨S_, .i32⟩) main_call60_v1) maxsi,
    TRef.unary (TRef.of (T := ⟨S_, .i32⟩) main_c_871) (TRef.of (T := ⟨S_, .i32⟩) main_call60_v2) id,
    TRef.binary (TRef.of (T := ⟨S_, .i32⟩) main_call60_v2) (TRef.of (T := ⟨S_, .i32⟩) main_call60_v1) (TRef.of (T := ⟨S_, .i32⟩) main_v1023) minsi,
    unary main_arg2 main_v1024 ((extractStridedSlice S1x1x1 ![7, 2, 1] · slices_S16x4x2_S1x1x1_7_2_1) : (⟨S16x4x2, .i32⟩ : BufTy).Contents (Elt F) → (⟨S1x1x1, .i32⟩ : BufTy).Contents (Elt F)),
    reshape main_v1024 main_v1025 rfl shapeCasts_S1x1x1_S_,
    nullary main_c_872 (constantI S_ 32 128#32),
    binary main_v1025 main_c_872 main_v1026 (muli : (⟨S_, .i32⟩ : BufTy).Contents (Elt F) → (⟨S_, .i32⟩ : BufTy).Contents (Elt F) → (⟨S_, .i32⟩ : BufTy).Contents (Elt F)),
    nullary main_c_873 (constantI S_ 32 0#32),
    nullary main_c_874 (constantI S_ 32 128#32),
    TRef.unary (TRef.of (T := ⟨S_, .i32⟩) main_c_873) (TRef.of (T := ⟨S_, .i32⟩) main_call61_v0) id,
    TRef.binary (TRef.of (T := ⟨S_, .i32⟩) main_call61_v0) (TRef.of (T := ⟨S_, .i32⟩) main_v1026) (TRef.of (T := ⟨S_, .i32⟩) main_call61_v1) maxsi,
    TRef.unary (TRef.of (T := ⟨S_, .i32⟩) main_c_874) (TRef.of (T := ⟨S_, .i32⟩) main_call61_v2) id,
    TRef.binary (TRef.of (T := ⟨S_, .i32⟩) main_call61_v2) (TRef.of (T := ⟨S_, .i32⟩) main_call61_v1) (TRef.of (T := ⟨S_, .i32⟩) main_v1027) minsi,
    unary main_arg1 main_v1028 ((extractStridedSlice S1x1x1x512x512 ![7, 2, 0, 0, 0] · slices_S16x4x1x512x512_S1x1x1x512x512_7_2_0_0_0) : (⟨S16x4x1x512x512, .f32⟩ : BufTy).Contents (Elt F) → (⟨S1x1x1x512x512, .f32⟩ : BufTy).Contents (Elt F)),
    reshape main_v1028 main_v1029 rfl shapeCasts_S1x1x1x512x512_S1x512x512,
    nullary main_c_875 (constantI S_ 32 0#32),
    nullary main_c_876 (constantI S_ 32 0#32),
    binary main_c_875 main_c_876 main_v1030 (cmpi .slt : (⟨S_, .i32⟩ : BufTy).Contents (Elt F) → (⟨S_, .i32⟩ : BufTy).Contents (Elt F) → (⟨S_, .i1⟩ : BufTy).Contents (Elt F)),
    nullary main_c_877 (constantI S_ 32 0#32),
    nullary main_c_878 (constantI S_ 32 1#32),
    binary main_c_877 main_c_878 main_v1031 (addi : (⟨S_, .i32⟩ : BufTy).Contents (Elt F) → (⟨S_, .i32⟩ : BufTy).Contents (Elt F) → (⟨S_, .i32⟩ : BufTy).Contents (Elt F)),
    nullary main_c_879 (constantI S_ 32 0#32),
    ternary main_v1030 main_v1031 main_c_879 main_v1032 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_880 (constantI S_ 32 0#32),
    binary main_v1023 main_c_880 main_v1033 (cmpi .slt : (⟨S_, .i32⟩ : BufTy).Contents (Elt F) → (⟨S_, .i32⟩ : BufTy).Contents (Elt F) → (⟨S_, .i1⟩ : BufTy).Contents (Elt F)),
    nullary main_c_881 (constantI S_ 32 512#32),
    binary main_v1023 main_c_881 main_v1034 (addi : (⟨S_, .i32⟩ : BufTy).Contents (Elt F) → (⟨S_, .i32⟩ : BufTy).Contents (Elt F) → (⟨S_, .i32⟩ : BufTy).Contents (Elt F)),
    ternary main_v1033 main_v1034 main_v1023 main_v1035 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_882 (constantI S_ 32 0#32) ]
theorem pc060_sub : (pc060 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub ..⟩
theorem pc060_fresh : ∀ op ∈ (pc060 (F := F)), op.fresh = ∅ := by
  intro _ h; (repeat (cases h with | head => rfl | tail _ h => ?_)); exact nomatch h

/-- Operations 2107 … 2139 of 4424. -/
noncomputable def pc061 : List (HloOp τ sig (Elt F)) :=
  [ binary main_v1027 main_c_882 main_v1036 (cmpi .slt : (⟨S_, .i32⟩ : BufTy).Contents (Elt F) → (⟨S_, .i32⟩ : BufTy).Contents (Elt F) → (⟨S_, .i1⟩ : BufTy).Contents (Elt F)),
    nullary main_c_883 (constantI S_ 32 512#32),
    binary main_v1027 main_c_883 main_v1037 (addi : (⟨S_, .i32⟩ : BufTy).Contents (Elt F) → (⟨S_, .i32⟩ : BufTy).Contents (Elt F) → (⟨S_, .i32⟩ : BufTy).Contents (Elt F)),
    ternary main_v1036 main_v1037 main_v1027 main_v1038 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1029 ![main_v1032, main_v1035, main_v1038] ⟨S_, .i32⟩ main_v1039 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1039 main_v1040 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_884 (constantI S_ 32 7#32),
    nullary main_c_885 (constantI S_ 32 0#32),
    binary main_c_884 main_c_885 main_v1041 (cmpi .slt : (⟨S_, .i32⟩ : BufTy).Contents (Elt F) → (⟨S_, .i32⟩ : BufTy).Contents (Elt F) → (⟨S_, .i1⟩ : BufTy).Contents (Elt F)),
    nullary main_c_886 (constantI S_ 32 7#32),
    nullary main_c_887 (constantI S_ 32 16#32),
    binary main_c_886 main_c_887 main_v1042 (addi : (⟨S_, .i32⟩ : BufTy).Contents (Elt F) → (⟨S_, .i32⟩ : BufTy).Contents (Elt F) → (⟨S_, .i32⟩ : BufTy).Contents (Elt F)),
    nullary main_c_888 (constantI S_ 32 7#32),
    ternary main_v1041 main_v1042 main_c_888 main_v1043 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_889 (constantI S_ 32 0#32),
    nullary main_c_890 (constantI S_ 32 0#32),
    binary main_c_889 main_c_890 main_v1044 (cmpi .slt : (⟨S_, .i32⟩ : BufTy).Contents (Elt F) → (⟨S_, .i32⟩ : BufTy).Contents (Elt F) → (⟨S_, .i1⟩ : BufTy).Contents (Elt F)),
    nullary main_c_891 (constantI S_ 32 0#32),
    nullary main_c_892 (constantI S_ 32 1#32),
    binary main_c_891 main_c_892 main_v1045 (addi : (⟨S_, .i32⟩ : BufTy).Contents (Elt F) → (⟨S_, .i32⟩ : BufTy).Contents (Elt F) → (⟨S_, .i32⟩ : BufTy).Contents (Elt F)),
    nullary main_c_893 (constantI S_ 32 0#32),
    ternary main_v1044 main_v1045 main_c_893 main_v1046 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_894 (constantI S_ 32 0#32),
    binary main_v1023 main_c_894 main_v1047 (cmpi .slt : (⟨S_, .i32⟩ : BufTy).Contents (Elt F) → (⟨S_, .i32⟩ : BufTy).Contents (Elt F) → (⟨S_, .i1⟩ : BufTy).Contents (Elt F)),
    nullary main_c_895 (constantI S_ 32 512#32),
    binary main_v1023 main_c_895 main_v1048 (addi : (⟨S_, .i32⟩ : BufTy).Contents (Elt F) → (⟨S_, .i32⟩ : BufTy).Contents (Elt F) → (⟨S_, .i32⟩ : BufTy).Contents (Elt F)),
    ternary main_v1047 main_v1048 main_v1023 main_v1049 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_896 (constantI S_ 32 0#32),
    binary main_v1027 main_c_896 main_v1050 (cmpi .slt : (⟨S_, .i32⟩ : BufTy).Contents (Elt F) → (⟨S_, .i32⟩ : BufTy).Contents (Elt F) → (⟨S_, .i1⟩ : BufTy).Contents (Elt F)),
    nullary main_c_897 (constantI S_ 32 512#32),
    binary main_v1027 main_c_897 main_v1051 (addi : (⟨S_, .i32⟩ : BufTy).Contents (Elt F) → (⟨S_, .i32⟩ : BufTy).Contents (Elt F) → (⟨S_, .i32⟩ : BufTy).Contents (Elt F)),
    ternary main_v1050 main_v1051 main_v1027 main_v1052 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1019 main_v1040 ![main_v1043, main_v1046, main_v1049, main_v1052] ⟨S_, .i32⟩ main_v1053 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc061_sub : (pc061 (F := F)).Forall fun op => op.bufs ⊆ tcRefs τ sig :=
  ⟨binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc061_fresh : ∀ op ∈ (pc061 (F := F)), op.fresh = ∅ := by
  intro _ h; (repeat (cases h with | head => rfl | tail _ h => ?_)); exact nomatch h

/-- Operations 2140 … 2172 of 4424. -/
noncomputable def pc062 : List (HloOp τ sig (Elt F)) :=
  [ unary main_arg2 main_v1054 ((extractStridedSlice S1x1x1 ![7, 3, 0] · slices_S16x4x2_S1x1x1_7_3_0) : (⟨S16x4x2, .i32⟩ : BufTy).Contents (Elt F) → (⟨S1x1x1, .i32⟩ : BufTy).Contents (Elt F)),
    reshape main_v1054 main_v1055 rfl shapeCasts_S1x1x1_S_,
    nullary main_c_898 (constantI S_ 32 128#32),
    binary main_v1055 main_c_898 main_v1056 (muli : (⟨S_, .i32⟩ : BufTy).Contents (Elt F) → (⟨S_, .i32⟩ : BufTy).Contents (Elt F) → (⟨S_, .i32⟩ : BufTy).Contents (Elt F)),
    nullary main_c_899 (constantI S_ 32 0#32),
    nullary main_c_900 (constantI S_ 32 128#32),
    TRef.unary (TRef.of (T := ⟨S_, .i32⟩) main_c_899) (TRef.of (T := ⟨S_, .i32⟩) main_call62_v0) id,
    TRef.binary (TRef.of (T := ⟨S_, .i32⟩) main_call62_v0) (TRef.of (T := ⟨S_, .i32⟩) main_v1056) (TRef.of (T := ⟨S_, .i32⟩) main_call62_v1) maxsi,
    TRef.unary (TRef.of (T := ⟨S_, .i32⟩) main_c_900) (TRef.of (T := ⟨S_, .i32⟩) main_call62_v2) id,
    TRef.binary (TRef.of (T := ⟨S_, .i32⟩) main_call62_v2) (TRef.of (T := ⟨S_, .i32⟩) main_call62_v1) (TRef.of (T := ⟨S_, .i32⟩) main_v1057) minsi,
    unary main_arg2 main_v1058 ((extractStridedSlice S1x1x1 ![7, 3, 1] · slices_S16x4x2_S1x1x1_7_3_1) : (⟨S16x4x2, .i32⟩ : BufTy).Contents (Elt F) → (⟨S1x1x1, .i32⟩ : BufTy).Contents (Elt F)),
    reshape main_v1058 main_v1059 rfl shapeCasts_S1x1x1_S_,
    nullary main_c_901 (constantI S_ 32 128#32),
    binary main_v1059 main_c_901 main_v1060 (muli : (⟨S_, .i32⟩ : BufTy).Contents (Elt F) → (⟨S_, .i32⟩ : BufTy).Contents (Elt F) → (⟨S_, .i32⟩ : BufTy).Contents (Elt F)),
    nullary main_c_902 (constantI S_ 32 0#32),
    nullary main_c_903 (constantI S_ 32 128#32),
    TRef.unary (TRef.of (T := ⟨S_, .i32⟩) main_c_902) (TRef.of (T := ⟨S_, .i32⟩) main_call63_v0) id,
    TRef.binary (TRef.of (T := ⟨S_, .i32⟩) main_call63_v0) (TRef.of (T := ⟨S_, .i32⟩) main_v1060) (TRef.of (T := ⟨S_, .i32⟩) main_call63_v1) maxsi,
    TRef.unary (TRef.of (T := ⟨S_, .i32⟩) main_c_903) (TRef.of (T := ⟨S_, .i32⟩) main_call63_v2) id,
    TRef.binary (TRef.of (T := ⟨S_, .i32⟩) main_call63_v2) (TRef.of (T := ⟨S_, .i32⟩) main_call63_v1) (TRef.of (T := ⟨S_, .i32⟩) main_v1061) minsi,
    unary main_arg1 main_v1062 ((extractStridedSlice S1x1x1x512x512 ![7, 3, 0, 0, 0] · slices_S16x4x1x512x512_S1x1x1x512x512_7_3_0_0_0) : (⟨S16x4x1x512x512, .f32⟩ : BufTy).Contents (Elt F) → (⟨S1x1x1x512x512, .f32⟩ : BufTy).Contents (Elt F)),
    reshape main_v1062 main_v1063 rfl shapeCasts_S1x1x1x512x512_S1x512x512,
    nullary main_c_904 (constantI S_ 32 0#32),
    nullary main_c_905 (constantI S_ 32 0#32),
    binary main_c_904 main_c_905 main_v1064 (cmpi .slt : (⟨S_, .i32⟩ : BufTy).Contents (Elt F) → (⟨S_, .i32⟩ : BufTy).Contents (Elt F) → (⟨S_, .i1⟩ : BufTy).Contents (Elt F)),
    nullary main_c_906 (constantI S_ 32 0#32),
    nullary main_c_907 (constantI S_ 32 1#32),
    binary main_c_906 main_c_907 main_v1065 (addi : (⟨S_, .i32⟩ : BufTy).Contents (Elt F) → (⟨S_, .i32⟩ : BufTy).Contents (Elt F) → (⟨S_, .i32⟩ : BufTy).Contents (Elt F)),
    nullary main_c_908 (constantI S_ 32 0#32),
    ternary main_v1064 main_v1065 main_c_908 main_v1066 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_909 (constantI S_ 32 0#32),
    binary main_v1057 main_c_909 main_v1067 (cmpi .slt : (⟨S_, .i32⟩ : BufTy).Contents (Elt F) → (⟨S_, .i32⟩ : BufTy).Contents (Elt F) → (⟨S_, .i1⟩ : BufTy).Contents (Elt F)),
    nullary main_c_910 (constantI S_ 32 512#32) ]
theorem pc062_sub : (pc062 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub ..⟩
theorem pc062_fresh : ∀ op ∈ (pc062 (F := F)), op.fresh = ∅ := by
  intro _ h; (repeat (cases h with | head => rfl | tail _ h => ?_)); exact nomatch h

/-- Operations 2173 … 2208 of 4424. -/
noncomputable def pc063 : List (HloOp τ sig (Elt F)) :=
  [ binary main_v1057 main_c_910 main_v1068 (addi : (⟨S_, .i32⟩ : BufTy).Contents (Elt F) → (⟨S_, .i32⟩ : BufTy).Contents (Elt F) → (⟨S_, .i32⟩ : BufTy).Contents (Elt F)),
    ternary main_v1067 main_v1068 main_v1057 main_v1069 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_911 (constantI S_ 32 0#32),
    binary main_v1061 main_c_911 main_v1070 (cmpi .slt : (⟨S_, .i32⟩ : BufTy).Contents (Elt F) → (⟨S_, .i32⟩ : BufTy).Contents (Elt F) → (⟨S_, .i1⟩ : BufTy).Contents (Elt F)),
    nullary main_c_912 (constantI S_ 32 512#32),
    binary main_v1061 main_c_912 main_v1071 (addi : (⟨S_, .i32⟩ : BufTy).Contents (Elt F) → (⟨S_, .i32⟩ : BufTy).Contents (Elt F) → (⟨S_, .i32⟩ : BufTy).Contents (Elt F)),
    ternary main_v1070 main_v1071 main_v1061 main_v1072 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1063 ![main_v1066, main_v1069, main_v1072] ⟨S_, .i32⟩ main_v1073 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1073 main_v1074 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_913 (constantI S_ 32 7#32),
    nullary main_c_914 (constantI S_ 32 0#32),
    binary main_c_913 main_c_914 main_v1075 (cmpi .slt : (⟨S_, .i32⟩ : BufTy).Contents (Elt F) → (⟨S_, .i32⟩ : BufTy).Contents (Elt F) → (⟨S_, .i1⟩ : BufTy).Contents (Elt F)),
    nullary main_c_915 (constantI S_ 32 7#32),
    nullary main_c_916 (constantI S_ 32 16#32),
    binary main_c_915 main_c_916 main_v1076 (addi : (⟨S_, .i32⟩ : BufTy).Contents (Elt F) → (⟨S_, .i32⟩ : BufTy).Contents (Elt F) → (⟨S_, .i32⟩ : BufTy).Contents (Elt F)),
    nullary main_c_917 (constantI S_ 32 7#32),
    ternary main_v1075 main_v1076 main_c_917 main_v1077 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_918 (constantI S_ 32 0#32),
    nullary main_c_919 (constantI S_ 32 0#32),
    binary main_c_918 main_c_919 main_v1078 (cmpi .slt : (⟨S_, .i32⟩ : BufTy).Contents (Elt F) → (⟨S_, .i32⟩ : BufTy).Contents (Elt F) → (⟨S_, .i1⟩ : BufTy).Contents (Elt F)),
    nullary main_c_920 (constantI S_ 32 0#32),
    nullary main_c_921 (constantI S_ 32 1#32),
    binary main_c_920 main_c_921 main_v1079 (addi : (⟨S_, .i32⟩ : BufTy).Contents (Elt F) → (⟨S_, .i32⟩ : BufTy).Contents (Elt F) → (⟨S_, .i32⟩ : BufTy).Contents (Elt F)),
    nullary main_c_922 (constantI S_ 32 0#32),
    ternary main_v1078 main_v1079 main_c_922 main_v1080 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_923 (constantI S_ 32 0#32),
    binary main_v1057 main_c_923 main_v1081 (cmpi .slt : (⟨S_, .i32⟩ : BufTy).Contents (Elt F) → (⟨S_, .i32⟩ : BufTy).Contents (Elt F) → (⟨S_, .i1⟩ : BufTy).Contents (Elt F)),
    nullary main_c_924 (constantI S_ 32 512#32),
    binary main_v1057 main_c_924 main_v1082 (addi : (⟨S_, .i32⟩ : BufTy).Contents (Elt F) → (⟨S_, .i32⟩ : BufTy).Contents (Elt F) → (⟨S_, .i32⟩ : BufTy).Contents (Elt F)),
    ternary main_v1081 main_v1082 main_v1057 main_v1083 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_925 (constantI S_ 32 0#32),
    binary main_v1061 main_c_925 main_v1084 (cmpi .slt : (⟨S_, .i32⟩ : BufTy).Contents (Elt F) → (⟨S_, .i32⟩ : BufTy).Contents (Elt F) → (⟨S_, .i1⟩ : BufTy).Contents (Elt F)),
    nullary main_c_926 (constantI S_ 32 512#32),
    binary main_v1061 main_c_926 main_v1085 (addi : (⟨S_, .i32⟩ : BufTy).Contents (Elt F) → (⟨S_, .i32⟩ : BufTy).Contents (Elt F) → (⟨S_, .i32⟩ : BufTy).Contents (Elt F)),
    ternary main_v1084 main_v1085 main_v1061 main_v1086 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1053 main_v1074 ![main_v1077, main_v1080, main_v1083, main_v1086] ⟨S_, .i32⟩ main_v1087 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc063_sub : (pc063 (F := F)).Forall fun op => op.bufs ⊆ tcRefs τ sig :=
  ⟨binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc063_fresh : ∀ op ∈ (pc063 (F := F)), op.fresh = ∅ := by
  intro _ h; (repeat (cases h with | head => rfl | tail _ h => ?_)); exact nomatch h

/-- Operations 2209 … 2238 of 4424. -/
noncomputable def pc064 : List (HloOp τ sig (Elt F)) :=
  [ unary main_arg2 main_v1088 ((extractStridedSlice S1x1x1 ![8, 0, 0] · slices_S16x4x2_S1x1x1_8_0_0) : (⟨S16x4x2, .i32⟩ : BufTy).Contents (Elt F) → (⟨S1x1x1, .i32⟩ : BufTy).Contents (Elt F)),
    reshape main_v1088 main_v1089 rfl shapeCasts_S1x1x1_S_,
    nullary main_c_927 (constantI S_ 32 128#32),
    binary main_v1089 main_c_927 main_v1090 (muli : (⟨S_, .i32⟩ : BufTy).Contents (Elt F) → (⟨S_, .i32⟩ : BufTy).Contents (Elt F) → (⟨S_, .i32⟩ : BufTy).Contents (Elt F)),
    nullary main_c_928 (constantI S_ 32 0#32),
    nullary main_c_929 (constantI S_ 32 128#32),
    TRef.unary (TRef.of (T := ⟨S_, .i32⟩) main_c_928) (TRef.of (T := ⟨S_, .i32⟩) main_call64_v0) id,
    TRef.binary (TRef.of (T := ⟨S_, .i32⟩) main_call64_v0) (TRef.of (T := ⟨S_, .i32⟩) main_v1090) (TRef.of (T := ⟨S_, .i32⟩) main_call64_v1) maxsi,
    TRef.unary (TRef.of (T := ⟨S_, .i32⟩) main_c_929) (TRef.of (T := ⟨S_, .i32⟩) main_call64_v2) id,
    TRef.binary (TRef.of (T := ⟨S_, .i32⟩) main_call64_v2) (TRef.of (T := ⟨S_, .i32⟩) main_call64_v1) (TRef.of (T := ⟨S_, .i32⟩) main_v1091) minsi,
    unary main_arg2 main_v1092 ((extractStridedSlice S1x1x1 ![8, 0, 1] · slices_S16x4x2_S1x1x1_8_0_1) : (⟨S16x4x2, .i32⟩ : BufTy).Contents (Elt F) → (⟨S1x1x1, .i32⟩ : BufTy).Contents (Elt F)),
    reshape main_v1092 main_v1093 rfl shapeCasts_S1x1x1_S_,
    nullary main_c_930 (constantI S_ 32 128#32),
    binary main_v1093 main_c_930 main_v1094 (muli : (⟨S_, .i32⟩ : BufTy).Contents (Elt F) → (⟨S_, .i32⟩ : BufTy).Contents (Elt F) → (⟨S_, .i32⟩ : BufTy).Contents (Elt F)),
    nullary main_c_931 (constantI S_ 32 0#32),
    nullary main_c_932 (constantI S_ 32 128#32),
    TRef.unary (TRef.of (T := ⟨S_, .i32⟩) main_c_931) (TRef.of (T := ⟨S_, .i32⟩) main_call65_v0) id,
    TRef.binary (TRef.of (T := ⟨S_, .i32⟩) main_call65_v0) (TRef.of (T := ⟨S_, .i32⟩) main_v1094) (TRef.of (T := ⟨S_, .i32⟩) main_call65_v1) maxsi,
    TRef.unary (TRef.of (T := ⟨S_, .i32⟩) main_c_932) (TRef.of (T := ⟨S_, .i32⟩) main_call65_v2) id,
    TRef.binary (TRef.of (T := ⟨S_, .i32⟩) main_call65_v2) (TRef.of (T := ⟨S_, .i32⟩) main_call65_v1) (TRef.of (T := ⟨S_, .i32⟩) main_v1095) minsi,
    unary main_arg1 main_v1096 ((extractStridedSlice S1x1x1x512x512 ![8, 0, 0, 0, 0] · slices_S16x4x1x512x512_S1x1x1x512x512_8_0_0_0_0) : (⟨S16x4x1x512x512, .f32⟩ : BufTy).Contents (Elt F) → (⟨S1x1x1x512x512, .f32⟩ : BufTy).Contents (Elt F)),
    reshape main_v1096 main_v1097 rfl shapeCasts_S1x1x1x512x512_S1x512x512,
    nullary main_c_933 (constantI S_ 32 0#32),
    nullary main_c_934 (constantI S_ 32 0#32),
    binary main_c_933 main_c_934 main_v1098 (cmpi .slt : (⟨S_, .i32⟩ : BufTy).Contents (Elt F) → (⟨S_, .i32⟩ : BufTy).Contents (Elt F) → (⟨S_, .i1⟩ : BufTy).Contents (Elt F)),
    nullary main_c_935 (constantI S_ 32 0#32),
    nullary main_c_936 (constantI S_ 32 1#32),
    binary main_c_935 main_c_936 main_v1099 (addi : (⟨S_, .i32⟩ : BufTy).Contents (Elt F) → (⟨S_, .i32⟩ : BufTy).Contents (Elt F) → (⟨S_, .i32⟩ : BufTy).Contents (Elt F)),
    nullary main_c_937 (constantI S_ 32 0#32),
    ternary main_v1098 main_v1099 main_c_937 main_v1100 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem pc064_sub : (pc064 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub ..⟩
theorem pc064_fresh : ∀ op ∈ (pc064 (F := F)), op.fresh = ∅ := by
  intro _ h; (repeat (cases h with | head => rfl | tail _ h => ?_)); exact nomatch h

/-- Operations 2239 … 2277 of 4424. -/
noncomputable def pc065 : List (HloOp τ sig (Elt F)) :=
  [ nullary main_c_938 (constantI S_ 32 0#32),
    binary main_v1091 main_c_938 main_v1101 (cmpi .slt : (⟨S_, .i32⟩ : BufTy).Contents (Elt F) → (⟨S_, .i32⟩ : BufTy).Contents (Elt F) → (⟨S_, .i1⟩ : BufTy).Contents (Elt F)),
    nullary main_c_939 (constantI S_ 32 512#32),
    binary main_v1091 main_c_939 main_v1102 (addi : (⟨S_, .i32⟩ : BufTy).Contents (Elt F) → (⟨S_, .i32⟩ : BufTy).Contents (Elt F) → (⟨S_, .i32⟩ : BufTy).Contents (Elt F)),
    ternary main_v1101 main_v1102 main_v1091 main_v1103 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_940 (constantI S_ 32 0#32),
    binary main_v1095 main_c_940 main_v1104 (cmpi .slt : (⟨S_, .i32⟩ : BufTy).Contents (Elt F) → (⟨S_, .i32⟩ : BufTy).Contents (Elt F) → (⟨S_, .i1⟩ : BufTy).Contents (Elt F)),
    nullary main_c_941 (constantI S_ 32 512#32),
    binary main_v1095 main_c_941 main_v1105 (addi : (⟨S_, .i32⟩ : BufTy).Contents (Elt F) → (⟨S_, .i32⟩ : BufTy).Contents (Elt F) → (⟨S_, .i32⟩ : BufTy).Contents (Elt F)),
    ternary main_v1104 main_v1105 main_v1095 main_v1106 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1097 ![main_v1100, main_v1103, main_v1106] ⟨S_, .i32⟩ main_v1107 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1107 main_v1108 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_942 (constantI S_ 32 8#32),
    nullary main_c_943 (constantI S_ 32 0#32),
    binary main_c_942 main_c_943 main_v1109 (cmpi .slt : (⟨S_, .i32⟩ : BufTy).Contents (Elt F) → (⟨S_, .i32⟩ : BufTy).Contents (Elt F) → (⟨S_, .i1⟩ : BufTy).Contents (Elt F)),
    nullary main_c_944 (constantI S_ 32 8#32),
    nullary main_c_945 (constantI S_ 32 16#32),
    binary main_c_944 main_c_945 main_v1110 (addi : (⟨S_, .i32⟩ : BufTy).Contents (Elt F) → (⟨S_, .i32⟩ : BufTy).Contents (Elt F) → (⟨S_, .i32⟩ : BufTy).Contents (Elt F)),
    nullary main_c_946 (constantI S_ 32 8#32),
    ternary main_v1109 main_v1110 main_c_946 main_v1111 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_947 (constantI S_ 32 0#32),
    nullary main_c_948 (constantI S_ 32 0#32),
    binary main_c_947 main_c_948 main_v1112 (cmpi .slt : (⟨S_, .i32⟩ : BufTy).Contents (Elt F) → (⟨S_, .i32⟩ : BufTy).Contents (Elt F) → (⟨S_, .i1⟩ : BufTy).Contents (Elt F)),
    nullary main_c_949 (constantI S_ 32 0#32),
    nullary main_c_950 (constantI S_ 32 1#32),
    binary main_c_949 main_c_950 main_v1113 (addi : (⟨S_, .i32⟩ : BufTy).Contents (Elt F) → (⟨S_, .i32⟩ : BufTy).Contents (Elt F) → (⟨S_, .i32⟩ : BufTy).Contents (Elt F)),
    nullary main_c_951 (constantI S_ 32 0#32),
    ternary main_v1112 main_v1113 main_c_951 main_v1114 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_952 (constantI S_ 32 0#32),
    binary main_v1091 main_c_952 main_v1115 (cmpi .slt : (⟨S_, .i32⟩ : BufTy).Contents (Elt F) → (⟨S_, .i32⟩ : BufTy).Contents (Elt F) → (⟨S_, .i1⟩ : BufTy).Contents (Elt F)),
    nullary main_c_953 (constantI S_ 32 512#32),
    binary main_v1091 main_c_953 main_v1116 (addi : (⟨S_, .i32⟩ : BufTy).Contents (Elt F) → (⟨S_, .i32⟩ : BufTy).Contents (Elt F) → (⟨S_, .i32⟩ : BufTy).Contents (Elt F)),
    ternary main_v1115 main_v1116 main_v1091 main_v1117 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_954 (constantI S_ 32 0#32),
    binary main_v1095 main_c_954 main_v1118 (cmpi .slt : (⟨S_, .i32⟩ : BufTy).Contents (Elt F) → (⟨S_, .i32⟩ : BufTy).Contents (Elt F) → (⟨S_, .i1⟩ : BufTy).Contents (Elt F)),
    nullary main_c_955 (constantI S_ 32 512#32),
    binary main_v1095 main_c_955 main_v1119 (addi : (⟨S_, .i32⟩ : BufTy).Contents (Elt F) → (⟨S_, .i32⟩ : BufTy).Contents (Elt F) → (⟨S_, .i32⟩ : BufTy).Contents (Elt F)),
    ternary main_v1118 main_v1119 main_v1095 main_v1120 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1087 main_v1108 ![main_v1111, main_v1114, main_v1117, main_v1120] ⟨S_, .i32⟩ main_v1121 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc065_sub : (pc065 (F := F)).Forall fun op => op.bufs ⊆ tcRefs τ sig :=
  ⟨nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc065_fresh : ∀ op ∈ (pc065 (F := F)), op.fresh = ∅ := by
  intro _ h; (repeat (cases h with | head => rfl | tail _ h => ?_)); exact nomatch h

/-- Operations 2278 … 2304 of 4424. -/
noncomputable def pc066 : List (HloOp τ sig (Elt F)) :=
  [ unary main_arg2 main_v1122 ((extractStridedSlice S1x1x1 ![8, 1, 0] · slices_S16x4x2_S1x1x1_8_1_0) : (⟨S16x4x2, .i32⟩ : BufTy).Contents (Elt F) → (⟨S1x1x1, .i32⟩ : BufTy).Contents (Elt F)),
    reshape main_v1122 main_v1123 rfl shapeCasts_S1x1x1_S_,
    nullary main_c_956 (constantI S_ 32 128#32),
    binary main_v1123 main_c_956 main_v1124 (muli : (⟨S_, .i32⟩ : BufTy).Contents (Elt F) → (⟨S_, .i32⟩ : BufTy).Contents (Elt F) → (⟨S_, .i32⟩ : BufTy).Contents (Elt F)),
    nullary main_c_957 (constantI S_ 32 0#32),
    nullary main_c_958 (constantI S_ 32 128#32),
    TRef.unary (TRef.of (T := ⟨S_, .i32⟩) main_c_957) (TRef.of (T := ⟨S_, .i32⟩) main_call66_v0) id,
    TRef.binary (TRef.of (T := ⟨S_, .i32⟩) main_call66_v0) (TRef.of (T := ⟨S_, .i32⟩) main_v1124) (TRef.of (T := ⟨S_, .i32⟩) main_call66_v1) maxsi,
    TRef.unary (TRef.of (T := ⟨S_, .i32⟩) main_c_958) (TRef.of (T := ⟨S_, .i32⟩) main_call66_v2) id,
    TRef.binary (TRef.of (T := ⟨S_, .i32⟩) main_call66_v2) (TRef.of (T := ⟨S_, .i32⟩) main_call66_v1) (TRef.of (T := ⟨S_, .i32⟩) main_v1125) minsi,
    unary main_arg2 main_v1126 ((extractStridedSlice S1x1x1 ![8, 1, 1] · slices_S16x4x2_S1x1x1_8_1_1) : (⟨S16x4x2, .i32⟩ : BufTy).Contents (Elt F) → (⟨S1x1x1, .i32⟩ : BufTy).Contents (Elt F)),
    reshape main_v1126 main_v1127 rfl shapeCasts_S1x1x1_S_,
    nullary main_c_959 (constantI S_ 32 128#32),
    binary main_v1127 main_c_959 main_v1128 (muli : (⟨S_, .i32⟩ : BufTy).Contents (Elt F) → (⟨S_, .i32⟩ : BufTy).Contents (Elt F) → (⟨S_, .i32⟩ : BufTy).Contents (Elt F)),
    nullary main_c_960 (constantI S_ 32 0#32),
    nullary main_c_961 (constantI S_ 32 128#32),
    TRef.unary (TRef.of (T := ⟨S_, .i32⟩) main_c_960) (TRef.of (T := ⟨S_, .i32⟩) main_call67_v0) id,
    TRef.binary (TRef.of (T := ⟨S_, .i32⟩) main_call67_v0) (TRef.of (T := ⟨S_, .i32⟩) main_v1128) (TRef.of (T := ⟨S_, .i32⟩) main_call67_v1) maxsi,
    TRef.unary (TRef.of (T := ⟨S_, .i32⟩) main_c_961) (TRef.of (T := ⟨S_, .i32⟩) main_call67_v2) id,
    TRef.binary (TRef.of (T := ⟨S_, .i32⟩) main_call67_v2) (TRef.of (T := ⟨S_, .i32⟩) main_call67_v1) (TRef.of (T := ⟨S_, .i32⟩) main_v1129) minsi,
    unary main_arg1 main_v1130 ((extractStridedSlice S1x1x1x512x512 ![8, 1, 0, 0, 0] · slices_S16x4x1x512x512_S1x1x1x512x512_8_1_0_0_0) : (⟨S16x4x1x512x512, .f32⟩ : BufTy).Contents (Elt F) → (⟨S1x1x1x512x512, .f32⟩ : BufTy).Contents (Elt F)),
    reshape main_v1130 main_v1131 rfl shapeCasts_S1x1x1x512x512_S1x512x512,
    nullary main_c_962 (constantI S_ 32 0#32),
    nullary main_c_963 (constantI S_ 32 0#32),
    binary main_c_962 main_c_963 main_v1132 (cmpi .slt : (⟨S_, .i32⟩ : BufTy).Contents (Elt F) → (⟨S_, .i32⟩ : BufTy).Contents (Elt F) → (⟨S_, .i1⟩ : BufTy).Contents (Elt F)),
    nullary main_c_964 (constantI S_ 32 0#32),
    nullary main_c_965 (constantI S_ 32 1#32) ]
theorem pc066_sub : (pc066 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub ..⟩
theorem pc066_fresh : ∀ op ∈ (pc066 (F := F)), op.fresh = ∅ := by
  intro _ h; (repeat (cases h with | head => rfl | tail _ h => ?_)); exact nomatch h

/-- Operations 2305 … 2346 of 4424. -/
noncomputable def pc067 : List (HloOp τ sig (Elt F)) :=
  [ binary main_c_964 main_c_965 main_v1133 (addi : (⟨S_, .i32⟩ : BufTy).Contents (Elt F) → (⟨S_, .i32⟩ : BufTy).Contents (Elt F) → (⟨S_, .i32⟩ : BufTy).Contents (Elt F)),
    nullary main_c_966 (constantI S_ 32 0#32),
    ternary main_v1132 main_v1133 main_c_966 main_v1134 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_967 (constantI S_ 32 0#32),
    binary main_v1125 main_c_967 main_v1135 (cmpi .slt : (⟨S_, .i32⟩ : BufTy).Contents (Elt F) → (⟨S_, .i32⟩ : BufTy).Contents (Elt F) → (⟨S_, .i1⟩ : BufTy).Contents (Elt F)),
    nullary main_c_968 (constantI S_ 32 512#32),
    binary main_v1125 main_c_968 main_v1136 (addi : (⟨S_, .i32⟩ : BufTy).Contents (Elt F) → (⟨S_, .i32⟩ : BufTy).Contents (Elt F) → (⟨S_, .i32⟩ : BufTy).Contents (Elt F)),
    ternary main_v1135 main_v1136 main_v1125 main_v1137 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_969 (constantI S_ 32 0#32),
    binary main_v1129 main_c_969 main_v1138 (cmpi .slt : (⟨S_, .i32⟩ : BufTy).Contents (Elt F) → (⟨S_, .i32⟩ : BufTy).Contents (Elt F) → (⟨S_, .i1⟩ : BufTy).Contents (Elt F)),
    nullary main_c_970 (constantI S_ 32 512#32),
    binary main_v1129 main_c_970 main_v1139 (addi : (⟨S_, .i32⟩ : BufTy).Contents (Elt F) → (⟨S_, .i32⟩ : BufTy).Contents (Elt F) → (⟨S_, .i32⟩ : BufTy).Contents (Elt F)),
    ternary main_v1138 main_v1139 main_v1129 main_v1140 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1131 ![main_v1134, main_v1137, main_v1140] ⟨S_, .i32⟩ main_v1141 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1141 main_v1142 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_971 (constantI S_ 32 8#32),
    nullary main_c_972 (constantI S_ 32 0#32),
    binary main_c_971 main_c_972 main_v1143 (cmpi .slt : (⟨S_, .i32⟩ : BufTy).Contents (Elt F) → (⟨S_, .i32⟩ : BufTy).Contents (Elt F) → (⟨S_, .i1⟩ : BufTy).Contents (Elt F)),
    nullary main_c_973 (constantI S_ 32 8#32),
    nullary main_c_974 (constantI S_ 32 16#32),
    binary main_c_973 main_c_974 main_v1144 (addi : (⟨S_, .i32⟩ : BufTy).Contents (Elt F) → (⟨S_, .i32⟩ : BufTy).Contents (Elt F) → (⟨S_, .i32⟩ : BufTy).Contents (Elt F)),
    nullary main_c_975 (constantI S_ 32 8#32),
    ternary main_v1143 main_v1144 main_c_975 main_v1145 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_976 (constantI S_ 32 0#32),
    nullary main_c_977 (constantI S_ 32 0#32),
    binary main_c_976 main_c_977 main_v1146 (cmpi .slt : (⟨S_, .i32⟩ : BufTy).Contents (Elt F) → (⟨S_, .i32⟩ : BufTy).Contents (Elt F) → (⟨S_, .i1⟩ : BufTy).Contents (Elt F)),
    nullary main_c_978 (constantI S_ 32 0#32),
    nullary main_c_979 (constantI S_ 32 1#32),
    binary main_c_978 main_c_979 main_v1147 (addi : (⟨S_, .i32⟩ : BufTy).Contents (Elt F) → (⟨S_, .i32⟩ : BufTy).Contents (Elt F) → (⟨S_, .i32⟩ : BufTy).Contents (Elt F)),
    nullary main_c_980 (constantI S_ 32 0#32),
    ternary main_v1146 main_v1147 main_c_980 main_v1148 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_981 (constantI S_ 32 0#32),
    binary main_v1125 main_c_981 main_v1149 (cmpi .slt : (⟨S_, .i32⟩ : BufTy).Contents (Elt F) → (⟨S_, .i32⟩ : BufTy).Contents (Elt F) → (⟨S_, .i1⟩ : BufTy).Contents (Elt F)),
    nullary main_c_982 (constantI S_ 32 512#32),
    binary main_v1125 main_c_982 main_v1150 (addi : (⟨S_, .i32⟩ : BufTy).Contents (Elt F) → (⟨S_, .i32⟩ : BufTy).Contents (Elt F) → (⟨S_, .i32⟩ : BufTy).Contents (Elt F)),
    ternary main_v1149 main_v1150 main_v1125 main_v1151 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_983 (constantI S_ 32 0#32),
    binary main_v1129 main_c_983 main_v1152 (cmpi .slt : (⟨S_, .i32⟩ : BufTy).Contents (Elt F) → (⟨S_, .i32⟩ : BufTy).Contents (Elt F) → (⟨S_, .i1⟩ : BufTy).Contents (Elt F)),
    nullary main_c_984 (constantI S_ 32 512#32),
    binary main_v1129 main_c_984 main_v1153 (addi : (⟨S_, .i32⟩ : BufTy).Contents (Elt F) → (⟨S_, .i32⟩ : BufTy).Contents (Elt F) → (⟨S_, .i32⟩ : BufTy).Contents (Elt F)),
    ternary main_v1152 main_v1153 main_v1129 main_v1154 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1121 main_v1142 ![main_v1145, main_v1148, main_v1151, main_v1154] ⟨S_, .i32⟩ main_v1155 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc067_sub : (pc067 (F := F)).Forall fun op => op.bufs ⊆ tcRefs τ sig :=
  ⟨binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc067_fresh : ∀ op ∈ (pc067 (F := F)), op.fresh = ∅ := by
  intro _ h; (repeat (cases h with | head => rfl | tail _ h => ?_)); exact nomatch h

/-- Operations 2347 … 2370 of 4424. -/
noncomputable def pc068 : List (HloOp τ sig (Elt F)) :=
  [ unary main_arg2 main_v1156 ((extractStridedSlice S1x1x1 ![8, 2, 0] · slices_S16x4x2_S1x1x1_8_2_0) : (⟨S16x4x2, .i32⟩ : BufTy).Contents (Elt F) → (⟨S1x1x1, .i32⟩ : BufTy).Contents (Elt F)),
    reshape main_v1156 main_v1157 rfl shapeCasts_S1x1x1_S_,
    nullary main_c_985 (constantI S_ 32 128#32),
    binary main_v1157 main_c_985 main_v1158 (muli : (⟨S_, .i32⟩ : BufTy).Contents (Elt F) → (⟨S_, .i32⟩ : BufTy).Contents (Elt F) → (⟨S_, .i32⟩ : BufTy).Contents (Elt F)),
    nullary main_c_986 (constantI S_ 32 0#32),
    nullary main_c_987 (constantI S_ 32 128#32),
    TRef.unary (TRef.of (T := ⟨S_, .i32⟩) main_c_986) (TRef.of (T := ⟨S_, .i32⟩) main_call68_v0) id,
    TRef.binary (TRef.of (T := ⟨S_, .i32⟩) main_call68_v0) (TRef.of (T := ⟨S_, .i32⟩) main_v1158) (TRef.of (T := ⟨S_, .i32⟩) main_call68_v1) maxsi,
    TRef.unary (TRef.of (T := ⟨S_, .i32⟩) main_c_987) (TRef.of (T := ⟨S_, .i32⟩) main_call68_v2) id,
    TRef.binary (TRef.of (T := ⟨S_, .i32⟩) main_call68_v2) (TRef.of (T := ⟨S_, .i32⟩) main_call68_v1) (TRef.of (T := ⟨S_, .i32⟩) main_v1159) minsi,
    unary main_arg2 main_v1160 ((extractStridedSlice S1x1x1 ![8, 2, 1] · slices_S16x4x2_S1x1x1_8_2_1) : (⟨S16x4x2, .i32⟩ : BufTy).Contents (Elt F) → (⟨S1x1x1, .i32⟩ : BufTy).Contents (Elt F)),
    reshape main_v1160 main_v1161 rfl shapeCasts_S1x1x1_S_,
    nullary main_c_988 (constantI S_ 32 128#32),
    binary main_v1161 main_c_988 main_v1162 (muli : (⟨S_, .i32⟩ : BufTy).Contents (Elt F) → (⟨S_, .i32⟩ : BufTy).Contents (Elt F) → (⟨S_, .i32⟩ : BufTy).Contents (Elt F)),
    nullary main_c_989 (constantI S_ 32 0#32),
    nullary main_c_990 (constantI S_ 32 128#32),
    TRef.unary (TRef.of (T := ⟨S_, .i32⟩) main_c_989) (TRef.of (T := ⟨S_, .i32⟩) main_call69_v0) id,
    TRef.binary (TRef.of (T := ⟨S_, .i32⟩) main_call69_v0) (TRef.of (T := ⟨S_, .i32⟩) main_v1162) (TRef.of (T := ⟨S_, .i32⟩) main_call69_v1) maxsi,
    TRef.unary (TRef.of (T := ⟨S_, .i32⟩) main_c_990) (TRef.of (T := ⟨S_, .i32⟩) main_call69_v2) id,
    TRef.binary (TRef.of (T := ⟨S_, .i32⟩) main_call69_v2) (TRef.of (T := ⟨S_, .i32⟩) main_call69_v1) (TRef.of (T := ⟨S_, .i32⟩) main_v1163) minsi,
    unary main_arg1 main_v1164 ((extractStridedSlice S1x1x1x512x512 ![8, 2, 0, 0, 0] · slices_S16x4x1x512x512_S1x1x1x512x512_8_2_0_0_0) : (⟨S16x4x1x512x512, .f32⟩ : BufTy).Contents (Elt F) → (⟨S1x1x1x512x512, .f32⟩ : BufTy).Contents (Elt F)),
    reshape main_v1164 main_v1165 rfl shapeCasts_S1x1x1x512x512_S1x512x512,
    nullary main_c_991 (constantI S_ 32 0#32),
    nullary main_c_992 (constantI S_ 32 0#32) ]
theorem pc068_sub : (pc068 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub ..⟩
theorem pc068_fresh : ∀ op ∈ (pc068 (F := F)), op.fresh = ∅ := by
  intro _ h; (repeat (cases h with | head => rfl | tail _ h => ?_)); exact nomatch h

/-- Operations 2371 … 2415 of 4424. -/
noncomputable def pc069 : List (HloOp τ sig (Elt F)) :=
  [ binary main_c_991 main_c_992 main_v1166 (cmpi .slt : (⟨S_, .i32⟩ : BufTy).Contents (Elt F) → (⟨S_, .i32⟩ : BufTy).Contents (Elt F) → (⟨S_, .i1⟩ : BufTy).Contents (Elt F)),
    nullary main_c_993 (constantI S_ 32 0#32),
    nullary main_c_994 (constantI S_ 32 1#32),
    binary main_c_993 main_c_994 main_v1167 (addi : (⟨S_, .i32⟩ : BufTy).Contents (Elt F) → (⟨S_, .i32⟩ : BufTy).Contents (Elt F) → (⟨S_, .i32⟩ : BufTy).Contents (Elt F)),
    nullary main_c_995 (constantI S_ 32 0#32),
    ternary main_v1166 main_v1167 main_c_995 main_v1168 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_996 (constantI S_ 32 0#32),
    binary main_v1159 main_c_996 main_v1169 (cmpi .slt : (⟨S_, .i32⟩ : BufTy).Contents (Elt F) → (⟨S_, .i32⟩ : BufTy).Contents (Elt F) → (⟨S_, .i1⟩ : BufTy).Contents (Elt F)),
    nullary main_c_997 (constantI S_ 32 512#32),
    binary main_v1159 main_c_997 main_v1170 (addi : (⟨S_, .i32⟩ : BufTy).Contents (Elt F) → (⟨S_, .i32⟩ : BufTy).Contents (Elt F) → (⟨S_, .i32⟩ : BufTy).Contents (Elt F)),
    ternary main_v1169 main_v1170 main_v1159 main_v1171 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_998 (constantI S_ 32 0#32),
    binary main_v1163 main_c_998 main_v1172 (cmpi .slt : (⟨S_, .i32⟩ : BufTy).Contents (Elt F) → (⟨S_, .i32⟩ : BufTy).Contents (Elt F) → (⟨S_, .i1⟩ : BufTy).Contents (Elt F)),
    nullary main_c_999 (constantI S_ 32 512#32),
    binary main_v1163 main_c_999 main_v1173 (addi : (⟨S_, .i32⟩ : BufTy).Contents (Elt F) → (⟨S_, .i32⟩ : BufTy).Contents (Elt F) → (⟨S_, .i32⟩ : BufTy).Contents (Elt F)),
    ternary main_v1172 main_v1173 main_v1163 main_v1174 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1165 ![main_v1168, main_v1171, main_v1174] ⟨S_, .i32⟩ main_v1175 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1175 main_v1176 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1000 (constantI S_ 32 8#32),
    nullary main_c_1001 (constantI S_ 32 0#32),
    binary main_c_1000 main_c_1001 main_v1177 (cmpi .slt : (⟨S_, .i32⟩ : BufTy).Contents (Elt F) → (⟨S_, .i32⟩ : BufTy).Contents (Elt F) → (⟨S_, .i1⟩ : BufTy).Contents (Elt F)),
    nullary main_c_1002 (constantI S_ 32 8#32),
    nullary main_c_1003 (constantI S_ 32 16#32),
    binary main_c_1002 main_c_1003 main_v1178 (addi : (⟨S_, .i32⟩ : BufTy).Contents (Elt F) → (⟨S_, .i32⟩ : BufTy).Contents (Elt F) → (⟨S_, .i32⟩ : BufTy).Contents (Elt F)),
    nullary main_c_1004 (constantI S_ 32 8#32),
    ternary main_v1177 main_v1178 main_c_1004 main_v1179 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1005 (constantI S_ 32 0#32),
    nullary main_c_1006 (constantI S_ 32 0#32),
    binary main_c_1005 main_c_1006 main_v1180 (cmpi .slt : (⟨S_, .i32⟩ : BufTy).Contents (Elt F) → (⟨S_, .i32⟩ : BufTy).Contents (Elt F) → (⟨S_, .i1⟩ : BufTy).Contents (Elt F)),
    nullary main_c_1007 (constantI S_ 32 0#32),
    nullary main_c_1008 (constantI S_ 32 1#32),
    binary main_c_1007 main_c_1008 main_v1181 (addi : (⟨S_, .i32⟩ : BufTy).Contents (Elt F) → (⟨S_, .i32⟩ : BufTy).Contents (Elt F) → (⟨S_, .i32⟩ : BufTy).Contents (Elt F)),
    nullary main_c_1009 (constantI S_ 32 0#32),
    ternary main_v1180 main_v1181 main_c_1009 main_v1182 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1010 (constantI S_ 32 0#32),
    binary main_v1159 main_c_1010 main_v1183 (cmpi .slt : (⟨S_, .i32⟩ : BufTy).Contents (Elt F) → (⟨S_, .i32⟩ : BufTy).Contents (Elt F) → (⟨S_, .i1⟩ : BufTy).Contents (Elt F)),
    nullary main_c_1011 (constantI S_ 32 512#32),
    binary main_v1159 main_c_1011 main_v1184 (addi : (⟨S_, .i32⟩ : BufTy).Contents (Elt F) → (⟨S_, .i32⟩ : BufTy).Contents (Elt F) → (⟨S_, .i32⟩ : BufTy).Contents (Elt F)),
    ternary main_v1183 main_v1184 main_v1159 main_v1185 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1012 (constantI S_ 32 0#32),
    binary main_v1163 main_c_1012 main_v1186 (cmpi .slt : (⟨S_, .i32⟩ : BufTy).Contents (Elt F) → (⟨S_, .i32⟩ : BufTy).Contents (Elt F) → (⟨S_, .i1⟩ : BufTy).Contents (Elt F)),
    nullary main_c_1013 (constantI S_ 32 512#32),
    binary main_v1163 main_c_1013 main_v1187 (addi : (⟨S_, .i32⟩ : BufTy).Contents (Elt F) → (⟨S_, .i32⟩ : BufTy).Contents (Elt F) → (⟨S_, .i32⟩ : BufTy).Contents (Elt F)),
    ternary main_v1186 main_v1187 main_v1163 main_v1188 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1155 main_v1176 ![main_v1179, main_v1182, main_v1185, main_v1188] ⟨S_, .i32⟩ main_v1189 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc069_sub : (pc069 (F := F)).Forall fun op => op.bufs ⊆ tcRefs τ sig :=
  ⟨binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc069_fresh : ∀ op ∈ (pc069 (F := F)), op.fresh = ∅ := by
  intro _ h; (repeat (cases h with | head => rfl | tail _ h => ?_)); exact nomatch h

/-- Operations 2416 … 2436 of 4424. -/
noncomputable def pc070 : List (HloOp τ sig (Elt F)) :=
  [ unary main_arg2 main_v1190 ((extractStridedSlice S1x1x1 ![8, 3, 0] · slices_S16x4x2_S1x1x1_8_3_0) : (⟨S16x4x2, .i32⟩ : BufTy).Contents (Elt F) → (⟨S1x1x1, .i32⟩ : BufTy).Contents (Elt F)),
    reshape main_v1190 main_v1191 rfl shapeCasts_S1x1x1_S_,
    nullary main_c_1014 (constantI S_ 32 128#32),
    binary main_v1191 main_c_1014 main_v1192 (muli : (⟨S_, .i32⟩ : BufTy).Contents (Elt F) → (⟨S_, .i32⟩ : BufTy).Contents (Elt F) → (⟨S_, .i32⟩ : BufTy).Contents (Elt F)),
    nullary main_c_1015 (constantI S_ 32 0#32),
    nullary main_c_1016 (constantI S_ 32 128#32),
    TRef.unary (TRef.of (T := ⟨S_, .i32⟩) main_c_1015) (TRef.of (T := ⟨S_, .i32⟩) main_call70_v0) id,
    TRef.binary (TRef.of (T := ⟨S_, .i32⟩) main_call70_v0) (TRef.of (T := ⟨S_, .i32⟩) main_v1192) (TRef.of (T := ⟨S_, .i32⟩) main_call70_v1) maxsi,
    TRef.unary (TRef.of (T := ⟨S_, .i32⟩) main_c_1016) (TRef.of (T := ⟨S_, .i32⟩) main_call70_v2) id,
    TRef.binary (TRef.of (T := ⟨S_, .i32⟩) main_call70_v2) (TRef.of (T := ⟨S_, .i32⟩) main_call70_v1) (TRef.of (T := ⟨S_, .i32⟩) main_v1193) minsi,
    unary main_arg2 main_v1194 ((extractStridedSlice S1x1x1 ![8, 3, 1] · slices_S16x4x2_S1x1x1_8_3_1) : (⟨S16x4x2, .i32⟩ : BufTy).Contents (Elt F) → (⟨S1x1x1, .i32⟩ : BufTy).Contents (Elt F)),
    reshape main_v1194 main_v1195 rfl shapeCasts_S1x1x1_S_,
    nullary main_c_1017 (constantI S_ 32 128#32),
    binary main_v1195 main_c_1017 main_v1196 (muli : (⟨S_, .i32⟩ : BufTy).Contents (Elt F) → (⟨S_, .i32⟩ : BufTy).Contents (Elt F) → (⟨S_, .i32⟩ : BufTy).Contents (Elt F)),
    nullary main_c_1018 (constantI S_ 32 0#32),
    nullary main_c_1019 (constantI S_ 32 128#32),
    TRef.unary (TRef.of (T := ⟨S_, .i32⟩) main_c_1018) (TRef.of (T := ⟨S_, .i32⟩) main_call71_v0) id,
    TRef.binary (TRef.of (T := ⟨S_, .i32⟩) main_call71_v0) (TRef.of (T := ⟨S_, .i32⟩) main_v1196) (TRef.of (T := ⟨S_, .i32⟩) main_call71_v1) maxsi,
    TRef.unary (TRef.of (T := ⟨S_, .i32⟩) main_c_1019) (TRef.of (T := ⟨S_, .i32⟩) main_call71_v2) id,
    TRef.binary (TRef.of (T := ⟨S_, .i32⟩) main_call71_v2) (TRef.of (T := ⟨S_, .i32⟩) main_call71_v1) (TRef.of (T := ⟨S_, .i32⟩) main_v1197) minsi,
    unary main_arg1 main_v1198 ((extractStridedSlice S1x1x1x512x512 ![8, 3, 0, 0, 0] · slices_S16x4x1x512x512_S1x1x1x512x512_8_3_0_0_0) : (⟨S16x4x1x512x512, .f32⟩ : BufTy).Contents (Elt F) → (⟨S1x1x1x512x512, .f32⟩ : BufTy).Contents (Elt F)) ]
theorem pc070_sub : (pc070 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub ..⟩
theorem pc070_fresh : ∀ op ∈ (pc070 (F := F)), op.fresh = ∅ := by
  intro _ h; (repeat (cases h with | head => rfl | tail _ h => ?_)); exact nomatch h

/-- Operations 2437 … 2484 of 4424. -/
noncomputable def pc071 : List (HloOp τ sig (Elt F)) :=
  [ reshape main_v1198 main_v1199 rfl shapeCasts_S1x1x1x512x512_S1x512x512,
    nullary main_c_1020 (constantI S_ 32 0#32),
    nullary main_c_1021 (constantI S_ 32 0#32),
    binary main_c_1020 main_c_1021 main_v1200 (cmpi .slt : (⟨S_, .i32⟩ : BufTy).Contents (Elt F) → (⟨S_, .i32⟩ : BufTy).Contents (Elt F) → (⟨S_, .i1⟩ : BufTy).Contents (Elt F)),
    nullary main_c_1022 (constantI S_ 32 0#32),
    nullary main_c_1023 (constantI S_ 32 1#32),
    binary main_c_1022 main_c_1023 main_v1201 (addi : (⟨S_, .i32⟩ : BufTy).Contents (Elt F) → (⟨S_, .i32⟩ : BufTy).Contents (Elt F) → (⟨S_, .i32⟩ : BufTy).Contents (Elt F)),
    nullary main_c_1024 (constantI S_ 32 0#32),
    ternary main_v1200 main_v1201 main_c_1024 main_v1202 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1025 (constantI S_ 32 0#32),
    binary main_v1193 main_c_1025 main_v1203 (cmpi .slt : (⟨S_, .i32⟩ : BufTy).Contents (Elt F) → (⟨S_, .i32⟩ : BufTy).Contents (Elt F) → (⟨S_, .i1⟩ : BufTy).Contents (Elt F)),
    nullary main_c_1026 (constantI S_ 32 512#32),
    binary main_v1193 main_c_1026 main_v1204 (addi : (⟨S_, .i32⟩ : BufTy).Contents (Elt F) → (⟨S_, .i32⟩ : BufTy).Contents (Elt F) → (⟨S_, .i32⟩ : BufTy).Contents (Elt F)),
    ternary main_v1203 main_v1204 main_v1193 main_v1205 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1027 (constantI S_ 32 0#32),
    binary main_v1197 main_c_1027 main_v1206 (cmpi .slt : (⟨S_, .i32⟩ : BufTy).Contents (Elt F) → (⟨S_, .i32⟩ : BufTy).Contents (Elt F) → (⟨S_, .i1⟩ : BufTy).Contents (Elt F)),
    nullary main_c_1028 (constantI S_ 32 512#32),
    binary main_v1197 main_c_1028 main_v1207 (addi : (⟨S_, .i32⟩ : BufTy).Contents (Elt F) → (⟨S_, .i32⟩ : BufTy).Contents (Elt F) → (⟨S_, .i32⟩ : BufTy).Contents (Elt F)),
    ternary main_v1206 main_v1207 main_v1197 main_v1208 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1199 ![main_v1202, main_v1205, main_v1208] ⟨S_, .i32⟩ main_v1209 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1209 main_v1210 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1029 (constantI S_ 32 8#32),
    nullary main_c_1030 (constantI S_ 32 0#32),
    binary main_c_1029 main_c_1030 main_v1211 (cmpi .slt : (⟨S_, .i32⟩ : BufTy).Contents (Elt F) → (⟨S_, .i32⟩ : BufTy).Contents (Elt F) → (⟨S_, .i1⟩ : BufTy).Contents (Elt F)),
    nullary main_c_1031 (constantI S_ 32 8#32),
    nullary main_c_1032 (constantI S_ 32 16#32),
    binary main_c_1031 main_c_1032 main_v1212 (addi : (⟨S_, .i32⟩ : BufTy).Contents (Elt F) → (⟨S_, .i32⟩ : BufTy).Contents (Elt F) → (⟨S_, .i32⟩ : BufTy).Contents (Elt F)),
    nullary main_c_1033 (constantI S_ 32 8#32),
    ternary main_v1211 main_v1212 main_c_1033 main_v1213 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1034 (constantI S_ 32 0#32),
    nullary main_c_1035 (constantI S_ 32 0#32),
    binary main_c_1034 main_c_1035 main_v1214 (cmpi .slt : (⟨S_, .i32⟩ : BufTy).Contents (Elt F) → (⟨S_, .i32⟩ : BufTy).Contents (Elt F) → (⟨S_, .i1⟩ : BufTy).Contents (Elt F)),
    nullary main_c_1036 (constantI S_ 32 0#32),
    nullary main_c_1037 (constantI S_ 32 1#32),
    binary main_c_1036 main_c_1037 main_v1215 (addi : (⟨S_, .i32⟩ : BufTy).Contents (Elt F) → (⟨S_, .i32⟩ : BufTy).Contents (Elt F) → (⟨S_, .i32⟩ : BufTy).Contents (Elt F)),
    nullary main_c_1038 (constantI S_ 32 0#32),
    ternary main_v1214 main_v1215 main_c_1038 main_v1216 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1039 (constantI S_ 32 0#32),
    binary main_v1193 main_c_1039 main_v1217 (cmpi .slt : (⟨S_, .i32⟩ : BufTy).Contents (Elt F) → (⟨S_, .i32⟩ : BufTy).Contents (Elt F) → (⟨S_, .i1⟩ : BufTy).Contents (Elt F)),
    nullary main_c_1040 (constantI S_ 32 512#32),
    binary main_v1193 main_c_1040 main_v1218 (addi : (⟨S_, .i32⟩ : BufTy).Contents (Elt F) → (⟨S_, .i32⟩ : BufTy).Contents (Elt F) → (⟨S_, .i32⟩ : BufTy).Contents (Elt F)),
    ternary main_v1217 main_v1218 main_v1193 main_v1219 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1041 (constantI S_ 32 0#32),
    binary main_v1197 main_c_1041 main_v1220 (cmpi .slt : (⟨S_, .i32⟩ : BufTy).Contents (Elt F) → (⟨S_, .i32⟩ : BufTy).Contents (Elt F) → (⟨S_, .i1⟩ : BufTy).Contents (Elt F)),
    nullary main_c_1042 (constantI S_ 32 512#32),
    binary main_v1197 main_c_1042 main_v1221 (addi : (⟨S_, .i32⟩ : BufTy).Contents (Elt F) → (⟨S_, .i32⟩ : BufTy).Contents (Elt F) → (⟨S_, .i32⟩ : BufTy).Contents (Elt F)),
    ternary main_v1220 main_v1221 main_v1197 main_v1222 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1189 main_v1210 ![main_v1213, main_v1216, main_v1219, main_v1222] ⟨S_, .i32⟩ main_v1223 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc071_sub : (pc071 (F := F)).Forall fun op => op.bufs ⊆ tcRefs τ sig :=
  ⟨reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc071_fresh : ∀ op ∈ (pc071 (F := F)), op.fresh = ∅ := by
  intro _ h; (repeat (cases h with | head => rfl | tail _ h => ?_)); exact nomatch h

/-- Operations 2485 … 2499 of 4424. -/
noncomputable def pc072 : List (HloOp τ sig (Elt F)) :=
  [ unary main_arg2 main_v1224 ((extractStridedSlice S1x1x1 ![9, 0, 0] · slices_S16x4x2_S1x1x1_9_0_0) : (⟨S16x4x2, .i32⟩ : BufTy).Contents (Elt F) → (⟨S1x1x1, .i32⟩ : BufTy).Contents (Elt F)),
    reshape main_v1224 main_v1225 rfl shapeCasts_S1x1x1_S_,
    nullary main_c_1043 (constantI S_ 32 128#32),
    binary main_v1225 main_c_1043 main_v1226 (muli : (⟨S_, .i32⟩ : BufTy).Contents (Elt F) → (⟨S_, .i32⟩ : BufTy).Contents (Elt F) → (⟨S_, .i32⟩ : BufTy).Contents (Elt F)),
    nullary main_c_1044 (constantI S_ 32 0#32),
    nullary main_c_1045 (constantI S_ 32 128#32),
    TRef.unary (TRef.of (T := ⟨S_, .i32⟩) main_c_1044) (TRef.of (T := ⟨S_, .i32⟩) main_call72_v0) id,
    TRef.binary (TRef.of (T := ⟨S_, .i32⟩) main_call72_v0) (TRef.of (T := ⟨S_, .i32⟩) main_v1226) (TRef.of (T := ⟨S_, .i32⟩) main_call72_v1) maxsi,
    TRef.unary (TRef.of (T := ⟨S_, .i32⟩) main_c_1045) (TRef.of (T := ⟨S_, .i32⟩) main_call72_v2) id,
    TRef.binary (TRef.of (T := ⟨S_, .i32⟩) main_call72_v2) (TRef.of (T := ⟨S_, .i32⟩) main_call72_v1) (TRef.of (T := ⟨S_, .i32⟩) main_v1227) minsi,
    unary main_arg2 main_v1228 ((extractStridedSlice S1x1x1 ![9, 0, 1] · slices_S16x4x2_S1x1x1_9_0_1) : (⟨S16x4x2, .i32⟩ : BufTy).Contents (Elt F) → (⟨S1x1x1, .i32⟩ : BufTy).Contents (Elt F)),
    reshape main_v1228 main_v1229 rfl shapeCasts_S1x1x1_S_,
    nullary main_c_1046 (constantI S_ 32 128#32),
    binary main_v1229 main_c_1046 main_v1230 (muli : (⟨S_, .i32⟩ : BufTy).Contents (Elt F) → (⟨S_, .i32⟩ : BufTy).Contents (Elt F) → (⟨S_, .i32⟩ : BufTy).Contents (Elt F)),
    nullary main_c_1047 (constantI S_ 32 0#32) ]
theorem pc072_sub : (pc072 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub ..⟩
theorem pc072_fresh : ∀ op ∈ (pc072 (F := F)), op.fresh = ∅ := by
  intro _ h; (repeat (cases h with | head => rfl | tail _ h => ?_)); exact nomatch h

/-- Operations 2500 … 2553 of 4424. -/
noncomputable def pc073 : List (HloOp τ sig (Elt F)) :=
  [ nullary main_c_1048 (constantI S_ 32 128#32),
    TRef.unary (TRef.of (T := ⟨S_, .i32⟩) main_c_1047) (TRef.of (T := ⟨S_, .i32⟩) main_call73_v0) id,
    TRef.binary (TRef.of (T := ⟨S_, .i32⟩) main_call73_v0) (TRef.of (T := ⟨S_, .i32⟩) main_v1230) (TRef.of (T := ⟨S_, .i32⟩) main_call73_v1) maxsi,
    TRef.unary (TRef.of (T := ⟨S_, .i32⟩) main_c_1048) (TRef.of (T := ⟨S_, .i32⟩) main_call73_v2) id,
    TRef.binary (TRef.of (T := ⟨S_, .i32⟩) main_call73_v2) (TRef.of (T := ⟨S_, .i32⟩) main_call73_v1) (TRef.of (T := ⟨S_, .i32⟩) main_v1231) minsi,
    unary main_arg1 main_v1232 ((extractStridedSlice S1x1x1x512x512 ![9, 0, 0, 0, 0] · slices_S16x4x1x512x512_S1x1x1x512x512_9_0_0_0_0) : (⟨S16x4x1x512x512, .f32⟩ : BufTy).Contents (Elt F) → (⟨S1x1x1x512x512, .f32⟩ : BufTy).Contents (Elt F)),
    reshape main_v1232 main_v1233 rfl shapeCasts_S1x1x1x512x512_S1x512x512,
    nullary main_c_1049 (constantI S_ 32 0#32),
    nullary main_c_1050 (constantI S_ 32 0#32),
    binary main_c_1049 main_c_1050 main_v1234 (cmpi .slt : (⟨S_, .i32⟩ : BufTy).Contents (Elt F) → (⟨S_, .i32⟩ : BufTy).Contents (Elt F) → (⟨S_, .i1⟩ : BufTy).Contents (Elt F)),
    nullary main_c_1051 (constantI S_ 32 0#32),
    nullary main_c_1052 (constantI S_ 32 1#32),
    binary main_c_1051 main_c_1052 main_v1235 (addi : (⟨S_, .i32⟩ : BufTy).Contents (Elt F) → (⟨S_, .i32⟩ : BufTy).Contents (Elt F) → (⟨S_, .i32⟩ : BufTy).Contents (Elt F)),
    nullary main_c_1053 (constantI S_ 32 0#32),
    ternary main_v1234 main_v1235 main_c_1053 main_v1236 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1054 (constantI S_ 32 0#32),
    binary main_v1227 main_c_1054 main_v1237 (cmpi .slt : (⟨S_, .i32⟩ : BufTy).Contents (Elt F) → (⟨S_, .i32⟩ : BufTy).Contents (Elt F) → (⟨S_, .i1⟩ : BufTy).Contents (Elt F)),
    nullary main_c_1055 (constantI S_ 32 512#32),
    binary main_v1227 main_c_1055 main_v1238 (addi : (⟨S_, .i32⟩ : BufTy).Contents (Elt F) → (⟨S_, .i32⟩ : BufTy).Contents (Elt F) → (⟨S_, .i32⟩ : BufTy).Contents (Elt F)),
    ternary main_v1237 main_v1238 main_v1227 main_v1239 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1056 (constantI S_ 32 0#32),
    binary main_v1231 main_c_1056 main_v1240 (cmpi .slt : (⟨S_, .i32⟩ : BufTy).Contents (Elt F) → (⟨S_, .i32⟩ : BufTy).Contents (Elt F) → (⟨S_, .i1⟩ : BufTy).Contents (Elt F)),
    nullary main_c_1057 (constantI S_ 32 512#32),
    binary main_v1231 main_c_1057 main_v1241 (addi : (⟨S_, .i32⟩ : BufTy).Contents (Elt F) → (⟨S_, .i32⟩ : BufTy).Contents (Elt F) → (⟨S_, .i32⟩ : BufTy).Contents (Elt F)),
    ternary main_v1240 main_v1241 main_v1231 main_v1242 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1233 ![main_v1236, main_v1239, main_v1242] ⟨S_, .i32⟩ main_v1243 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1243 main_v1244 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1058 (constantI S_ 32 9#32),
    nullary main_c_1059 (constantI S_ 32 0#32),
    binary main_c_1058 main_c_1059 main_v1245 (cmpi .slt : (⟨S_, .i32⟩ : BufTy).Contents (Elt F) → (⟨S_, .i32⟩ : BufTy).Contents (Elt F) → (⟨S_, .i1⟩ : BufTy).Contents (Elt F)),
    nullary main_c_1060 (constantI S_ 32 9#32),
    nullary main_c_1061 (constantI S_ 32 16#32),
    binary main_c_1060 main_c_1061 main_v1246 (addi : (⟨S_, .i32⟩ : BufTy).Contents (Elt F) → (⟨S_, .i32⟩ : BufTy).Contents (Elt F) → (⟨S_, .i32⟩ : BufTy).Contents (Elt F)),
    nullary main_c_1062 (constantI S_ 32 9#32),
    ternary main_v1245 main_v1246 main_c_1062 main_v1247 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1063 (constantI S_ 32 0#32),
    nullary main_c_1064 (constantI S_ 32 0#32),
    binary main_c_1063 main_c_1064 main_v1248 (cmpi .slt : (⟨S_, .i32⟩ : BufTy).Contents (Elt F) → (⟨S_, .i32⟩ : BufTy).Contents (Elt F) → (⟨S_, .i1⟩ : BufTy).Contents (Elt F)),
    nullary main_c_1065 (constantI S_ 32 0#32),
    nullary main_c_1066 (constantI S_ 32 1#32),
    binary main_c_1065 main_c_1066 main_v1249 (addi : (⟨S_, .i32⟩ : BufTy).Contents (Elt F) → (⟨S_, .i32⟩ : BufTy).Contents (Elt F) → (⟨S_, .i32⟩ : BufTy).Contents (Elt F)),
    nullary main_c_1067 (constantI S_ 32 0#32),
    ternary main_v1248 main_v1249 main_c_1067 main_v1250 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1068 (constantI S_ 32 0#32),
    binary main_v1227 main_c_1068 main_v1251 (cmpi .slt : (⟨S_, .i32⟩ : BufTy).Contents (Elt F) → (⟨S_, .i32⟩ : BufTy).Contents (Elt F) → (⟨S_, .i1⟩ : BufTy).Contents (Elt F)),
    nullary main_c_1069 (constantI S_ 32 512#32),
    binary main_v1227 main_c_1069 main_v1252 (addi : (⟨S_, .i32⟩ : BufTy).Contents (Elt F) → (⟨S_, .i32⟩ : BufTy).Contents (Elt F) → (⟨S_, .i32⟩ : BufTy).Contents (Elt F)),
    ternary main_v1251 main_v1252 main_v1227 main_v1253 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1070 (constantI S_ 32 0#32),
    binary main_v1231 main_c_1070 main_v1254 (cmpi .slt : (⟨S_, .i32⟩ : BufTy).Contents (Elt F) → (⟨S_, .i32⟩ : BufTy).Contents (Elt F) → (⟨S_, .i1⟩ : BufTy).Contents (Elt F)),
    nullary main_c_1071 (constantI S_ 32 512#32),
    binary main_v1231 main_c_1071 main_v1255 (addi : (⟨S_, .i32⟩ : BufTy).Contents (Elt F) → (⟨S_, .i32⟩ : BufTy).Contents (Elt F) → (⟨S_, .i32⟩ : BufTy).Contents (Elt F)),
    ternary main_v1254 main_v1255 main_v1231 main_v1256 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1223 main_v1244 ![main_v1247, main_v1250, main_v1253, main_v1256] ⟨S_, .i32⟩ main_v1257 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc073_sub : (pc073 (F := F)).Forall fun op => op.bufs ⊆ tcRefs τ sig :=
  ⟨nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc073_fresh : ∀ op ∈ (pc073 (F := F)), op.fresh = ∅ := by
  intro _ h; (repeat (cases h with | head => rfl | tail _ h => ?_)); exact nomatch h

/-- Operations 2554 … 2565 of 4424. -/
noncomputable def pc074 : List (HloOp τ sig (Elt F)) :=
  [ unary main_arg2 main_v1258 ((extractStridedSlice S1x1x1 ![9, 1, 0] · slices_S16x4x2_S1x1x1_9_1_0) : (⟨S16x4x2, .i32⟩ : BufTy).Contents (Elt F) → (⟨S1x1x1, .i32⟩ : BufTy).Contents (Elt F)),
    reshape main_v1258 main_v1259 rfl shapeCasts_S1x1x1_S_,
    nullary main_c_1072 (constantI S_ 32 128#32),
    binary main_v1259 main_c_1072 main_v1260 (muli : (⟨S_, .i32⟩ : BufTy).Contents (Elt F) → (⟨S_, .i32⟩ : BufTy).Contents (Elt F) → (⟨S_, .i32⟩ : BufTy).Contents (Elt F)),
    nullary main_c_1073 (constantI S_ 32 0#32),
    nullary main_c_1074 (constantI S_ 32 128#32),
    TRef.unary (TRef.of (T := ⟨S_, .i32⟩) main_c_1073) (TRef.of (T := ⟨S_, .i32⟩) main_call74_v0) id,
    TRef.binary (TRef.of (T := ⟨S_, .i32⟩) main_call74_v0) (TRef.of (T := ⟨S_, .i32⟩) main_v1260) (TRef.of (T := ⟨S_, .i32⟩) main_call74_v1) maxsi,
    TRef.unary (TRef.of (T := ⟨S_, .i32⟩) main_c_1074) (TRef.of (T := ⟨S_, .i32⟩) main_call74_v2) id,
    TRef.binary (TRef.of (T := ⟨S_, .i32⟩) main_call74_v2) (TRef.of (T := ⟨S_, .i32⟩) main_call74_v1) (TRef.of (T := ⟨S_, .i32⟩) main_v1261) minsi,
    unary main_arg2 main_v1262 ((extractStridedSlice S1x1x1 ![9, 1, 1] · slices_S16x4x2_S1x1x1_9_1_1) : (⟨S16x4x2, .i32⟩ : BufTy).Contents (Elt F) → (⟨S1x1x1, .i32⟩ : BufTy).Contents (Elt F)),
    reshape main_v1262 main_v1263 rfl shapeCasts_S1x1x1_S_ ]
theorem pc074_sub : (pc074 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub ..⟩
theorem pc074_fresh : ∀ op ∈ (pc074 (F := F)), op.fresh = ∅ := by
  intro _ h; (repeat (cases h with | head => rfl | tail _ h => ?_)); exact nomatch h

/-- Operations 2566 … 2622 of 4424. -/
noncomputable def pc075 : List (HloOp τ sig (Elt F)) :=
  [ nullary main_c_1075 (constantI S_ 32 128#32),
    binary main_v1263 main_c_1075 main_v1264 (muli : (⟨S_, .i32⟩ : BufTy).Contents (Elt F) → (⟨S_, .i32⟩ : BufTy).Contents (Elt F) → (⟨S_, .i32⟩ : BufTy).Contents (Elt F)),
    nullary main_c_1076 (constantI S_ 32 0#32),
    nullary main_c_1077 (constantI S_ 32 128#32),
    TRef.unary (TRef.of (T := ⟨S_, .i32⟩) main_c_1076) (TRef.of (T := ⟨S_, .i32⟩) main_call75_v0) id,
    TRef.binary (TRef.of (T := ⟨S_, .i32⟩) main_call75_v0) (TRef.of (T := ⟨S_, .i32⟩) main_v1264) (TRef.of (T := ⟨S_, .i32⟩) main_call75_v1) maxsi,
    TRef.unary (TRef.of (T := ⟨S_, .i32⟩) main_c_1077) (TRef.of (T := ⟨S_, .i32⟩) main_call75_v2) id,
    TRef.binary (TRef.of (T := ⟨S_, .i32⟩) main_call75_v2) (TRef.of (T := ⟨S_, .i32⟩) main_call75_v1) (TRef.of (T := ⟨S_, .i32⟩) main_v1265) minsi,
    unary main_arg1 main_v1266 ((extractStridedSlice S1x1x1x512x512 ![9, 1, 0, 0, 0] · slices_S16x4x1x512x512_S1x1x1x512x512_9_1_0_0_0) : (⟨S16x4x1x512x512, .f32⟩ : BufTy).Contents (Elt F) → (⟨S1x1x1x512x512, .f32⟩ : BufTy).Contents (Elt F)),
    reshape main_v1266 main_v1267 rfl shapeCasts_S1x1x1x512x512_S1x512x512,
    nullary main_c_1078 (constantI S_ 32 0#32),
    nullary main_c_1079 (constantI S_ 32 0#32),
    binary main_c_1078 main_c_1079 main_v1268 (cmpi .slt : (⟨S_, .i32⟩ : BufTy).Contents (Elt F) → (⟨S_, .i32⟩ : BufTy).Contents (Elt F) → (⟨S_, .i1⟩ : BufTy).Contents (Elt F)),
    nullary main_c_1080 (constantI S_ 32 0#32),
    nullary main_c_1081 (constantI S_ 32 1#32),
    binary main_c_1080 main_c_1081 main_v1269 (addi : (⟨S_, .i32⟩ : BufTy).Contents (Elt F) → (⟨S_, .i32⟩ : BufTy).Contents (Elt F) → (⟨S_, .i32⟩ : BufTy).Contents (Elt F)),
    nullary main_c_1082 (constantI S_ 32 0#32),
    ternary main_v1268 main_v1269 main_c_1082 main_v1270 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1083 (constantI S_ 32 0#32),
    binary main_v1261 main_c_1083 main_v1271 (cmpi .slt : (⟨S_, .i32⟩ : BufTy).Contents (Elt F) → (⟨S_, .i32⟩ : BufTy).Contents (Elt F) → (⟨S_, .i1⟩ : BufTy).Contents (Elt F)),
    nullary main_c_1084 (constantI S_ 32 512#32),
    binary main_v1261 main_c_1084 main_v1272 (addi : (⟨S_, .i32⟩ : BufTy).Contents (Elt F) → (⟨S_, .i32⟩ : BufTy).Contents (Elt F) → (⟨S_, .i32⟩ : BufTy).Contents (Elt F)),
    ternary main_v1271 main_v1272 main_v1261 main_v1273 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1085 (constantI S_ 32 0#32),
    binary main_v1265 main_c_1085 main_v1274 (cmpi .slt : (⟨S_, .i32⟩ : BufTy).Contents (Elt F) → (⟨S_, .i32⟩ : BufTy).Contents (Elt F) → (⟨S_, .i1⟩ : BufTy).Contents (Elt F)),
    nullary main_c_1086 (constantI S_ 32 512#32),
    binary main_v1265 main_c_1086 main_v1275 (addi : (⟨S_, .i32⟩ : BufTy).Contents (Elt F) → (⟨S_, .i32⟩ : BufTy).Contents (Elt F) → (⟨S_, .i32⟩ : BufTy).Contents (Elt F)),
    ternary main_v1274 main_v1275 main_v1265 main_v1276 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1267 ![main_v1270, main_v1273, main_v1276] ⟨S_, .i32⟩ main_v1277 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1277 main_v1278 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1087 (constantI S_ 32 9#32),
    nullary main_c_1088 (constantI S_ 32 0#32),
    binary main_c_1087 main_c_1088 main_v1279 (cmpi .slt : (⟨S_, .i32⟩ : BufTy).Contents (Elt F) → (⟨S_, .i32⟩ : BufTy).Contents (Elt F) → (⟨S_, .i1⟩ : BufTy).Contents (Elt F)),
    nullary main_c_1089 (constantI S_ 32 9#32),
    nullary main_c_1090 (constantI S_ 32 16#32),
    binary main_c_1089 main_c_1090 main_v1280 (addi : (⟨S_, .i32⟩ : BufTy).Contents (Elt F) → (⟨S_, .i32⟩ : BufTy).Contents (Elt F) → (⟨S_, .i32⟩ : BufTy).Contents (Elt F)),
    nullary main_c_1091 (constantI S_ 32 9#32),
    ternary main_v1279 main_v1280 main_c_1091 main_v1281 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1092 (constantI S_ 32 0#32),
    nullary main_c_1093 (constantI S_ 32 0#32),
    binary main_c_1092 main_c_1093 main_v1282 (cmpi .slt : (⟨S_, .i32⟩ : BufTy).Contents (Elt F) → (⟨S_, .i32⟩ : BufTy).Contents (Elt F) → (⟨S_, .i1⟩ : BufTy).Contents (Elt F)),
    nullary main_c_1094 (constantI S_ 32 0#32),
    nullary main_c_1095 (constantI S_ 32 1#32),
    binary main_c_1094 main_c_1095 main_v1283 (addi : (⟨S_, .i32⟩ : BufTy).Contents (Elt F) → (⟨S_, .i32⟩ : BufTy).Contents (Elt F) → (⟨S_, .i32⟩ : BufTy).Contents (Elt F)),
    nullary main_c_1096 (constantI S_ 32 0#32),
    ternary main_v1282 main_v1283 main_c_1096 main_v1284 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1097 (constantI S_ 32 0#32),
    binary main_v1261 main_c_1097 main_v1285 (cmpi .slt : (⟨S_, .i32⟩ : BufTy).Contents (Elt F) → (⟨S_, .i32⟩ : BufTy).Contents (Elt F) → (⟨S_, .i1⟩ : BufTy).Contents (Elt F)),
    nullary main_c_1098 (constantI S_ 32 512#32),
    binary main_v1261 main_c_1098 main_v1286 (addi : (⟨S_, .i32⟩ : BufTy).Contents (Elt F) → (⟨S_, .i32⟩ : BufTy).Contents (Elt F) → (⟨S_, .i32⟩ : BufTy).Contents (Elt F)),
    ternary main_v1285 main_v1286 main_v1261 main_v1287 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1099 (constantI S_ 32 0#32),
    binary main_v1265 main_c_1099 main_v1288 (cmpi .slt : (⟨S_, .i32⟩ : BufTy).Contents (Elt F) → (⟨S_, .i32⟩ : BufTy).Contents (Elt F) → (⟨S_, .i1⟩ : BufTy).Contents (Elt F)),
    nullary main_c_1100 (constantI S_ 32 512#32),
    binary main_v1265 main_c_1100 main_v1289 (addi : (⟨S_, .i32⟩ : BufTy).Contents (Elt F) → (⟨S_, .i32⟩ : BufTy).Contents (Elt F) → (⟨S_, .i32⟩ : BufTy).Contents (Elt F)),
    ternary main_v1288 main_v1289 main_v1265 main_v1290 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1257 main_v1278 ![main_v1281, main_v1284, main_v1287, main_v1290] ⟨S_, .i32⟩ main_v1291 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc075_sub : (pc075 (F := F)).Forall fun op => op.bufs ⊆ tcRefs τ sig :=
  ⟨nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc075_fresh : ∀ op ∈ (pc075 (F := F)), op.fresh = ∅ := by
  intro _ h; (repeat (cases h with | head => rfl | tail _ h => ?_)); exact nomatch h

/-- Operations 2623 … 2628 of 4424. -/
noncomputable def pc076 : List (HloOp τ sig (Elt F)) :=
  [ unary main_arg2 main_v1292 ((extractStridedSlice S1x1x1 ![9, 2, 0] · slices_S16x4x2_S1x1x1_9_2_0) : (⟨S16x4x2, .i32⟩ : BufTy).Contents (Elt F) → (⟨S1x1x1, .i32⟩ : BufTy).Contents (Elt F)),
    reshape main_v1292 main_v1293 rfl shapeCasts_S1x1x1_S_,
    nullary main_c_1101 (constantI S_ 32 128#32),
    binary main_v1293 main_c_1101 main_v1294 (muli : (⟨S_, .i32⟩ : BufTy).Contents (Elt F) → (⟨S_, .i32⟩ : BufTy).Contents (Elt F) → (⟨S_, .i32⟩ : BufTy).Contents (Elt F)),
    nullary main_c_1102 (constantI S_ 32 0#32),
    nullary main_c_1103 (constantI S_ 32 128#32) ]
theorem pc076_sub : (pc076 (F := F)).Forall fun op => op.bufs ⊆ tcRefs τ sig :=
  ⟨unary_bufs_sub .., reshape_bufs_sub .., nullary_bufs_sub .., binary_bufs_sub .., nullary_bufs_sub .., nullary_bufs_sub ..⟩
theorem pc076_fresh : ∀ op ∈ (pc076 (F := F)), op.fresh = ∅ := by
  intro _ h; (repeat (cases h with | head => rfl | tail _ h => ?_)); exact nomatch h

/-- Operations 2629 … 2691 of 4424. -/
noncomputable def pc077 : List (HloOp τ sig (Elt F)) :=
  [ TRef.unary (TRef.of (T := ⟨S_, .i32⟩) main_c_1102) (TRef.of (T := ⟨S_, .i32⟩) main_call76_v0) id,
    TRef.binary (TRef.of (T := ⟨S_, .i32⟩) main_call76_v0) (TRef.of (T := ⟨S_, .i32⟩) main_v1294) (TRef.of (T := ⟨S_, .i32⟩) main_call76_v1) maxsi,
    TRef.unary (TRef.of (T := ⟨S_, .i32⟩) main_c_1103) (TRef.of (T := ⟨S_, .i32⟩) main_call76_v2) id,
    TRef.binary (TRef.of (T := ⟨S_, .i32⟩) main_call76_v2) (TRef.of (T := ⟨S_, .i32⟩) main_call76_v1) (TRef.of (T := ⟨S_, .i32⟩) main_v1295) minsi,
    unary main_arg2 main_v1296 ((extractStridedSlice S1x1x1 ![9, 2, 1] · slices_S16x4x2_S1x1x1_9_2_1) : (⟨S16x4x2, .i32⟩ : BufTy).Contents (Elt F) → (⟨S1x1x1, .i32⟩ : BufTy).Contents (Elt F)),
    reshape main_v1296 main_v1297 rfl shapeCasts_S1x1x1_S_,
    nullary main_c_1104 (constantI S_ 32 128#32),
    binary main_v1297 main_c_1104 main_v1298 (muli : (⟨S_, .i32⟩ : BufTy).Contents (Elt F) → (⟨S_, .i32⟩ : BufTy).Contents (Elt F) → (⟨S_, .i32⟩ : BufTy).Contents (Elt F)),
    nullary main_c_1105 (constantI S_ 32 0#32),
    nullary main_c_1106 (constantI S_ 32 128#32),
    TRef.unary (TRef.of (T := ⟨S_, .i32⟩) main_c_1105) (TRef.of (T := ⟨S_, .i32⟩) main_call77_v0) id,
    TRef.binary (TRef.of (T := ⟨S_, .i32⟩) main_call77_v0) (TRef.of (T := ⟨S_, .i32⟩) main_v1298) (TRef.of (T := ⟨S_, .i32⟩) main_call77_v1) maxsi,
    TRef.unary (TRef.of (T := ⟨S_, .i32⟩) main_c_1106) (TRef.of (T := ⟨S_, .i32⟩) main_call77_v2) id,
    TRef.binary (TRef.of (T := ⟨S_, .i32⟩) main_call77_v2) (TRef.of (T := ⟨S_, .i32⟩) main_call77_v1) (TRef.of (T := ⟨S_, .i32⟩) main_v1299) minsi,
    unary main_arg1 main_v1300 ((extractStridedSlice S1x1x1x512x512 ![9, 2, 0, 0, 0] · slices_S16x4x1x512x512_S1x1x1x512x512_9_2_0_0_0) : (⟨S16x4x1x512x512, .f32⟩ : BufTy).Contents (Elt F) → (⟨S1x1x1x512x512, .f32⟩ : BufTy).Contents (Elt F)),
    reshape main_v1300 main_v1301 rfl shapeCasts_S1x1x1x512x512_S1x512x512,
    nullary main_c_1107 (constantI S_ 32 0#32),
    nullary main_c_1108 (constantI S_ 32 0#32),
    binary main_c_1107 main_c_1108 main_v1302 (cmpi .slt : (⟨S_, .i32⟩ : BufTy).Contents (Elt F) → (⟨S_, .i32⟩ : BufTy).Contents (Elt F) → (⟨S_, .i1⟩ : BufTy).Contents (Elt F)),
    nullary main_c_1109 (constantI S_ 32 0#32),
    nullary main_c_1110 (constantI S_ 32 1#32),
    binary main_c_1109 main_c_1110 main_v1303 (addi : (⟨S_, .i32⟩ : BufTy).Contents (Elt F) → (⟨S_, .i32⟩ : BufTy).Contents (Elt F) → (⟨S_, .i32⟩ : BufTy).Contents (Elt F)),
    nullary main_c_1111 (constantI S_ 32 0#32),
    ternary main_v1302 main_v1303 main_c_1111 main_v1304 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1112 (constantI S_ 32 0#32),
    binary main_v1295 main_c_1112 main_v1305 (cmpi .slt : (⟨S_, .i32⟩ : BufTy).Contents (Elt F) → (⟨S_, .i32⟩ : BufTy).Contents (Elt F) → (⟨S_, .i1⟩ : BufTy).Contents (Elt F)),
    nullary main_c_1113 (constantI S_ 32 512#32),
    binary main_v1295 main_c_1113 main_v1306 (addi : (⟨S_, .i32⟩ : BufTy).Contents (Elt F) → (⟨S_, .i32⟩ : BufTy).Contents (Elt F) → (⟨S_, .i32⟩ : BufTy).Contents (Elt F)),
    ternary main_v1305 main_v1306 main_v1295 main_v1307 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1114 (constantI S_ 32 0#32),
    binary main_v1299 main_c_1114 main_v1308 (cmpi .slt : (⟨S_, .i32⟩ : BufTy).Contents (Elt F) → (⟨S_, .i32⟩ : BufTy).Contents (Elt F) → (⟨S_, .i1⟩ : BufTy).Contents (Elt F)),
    nullary main_c_1115 (constantI S_ 32 512#32),
    binary main_v1299 main_c_1115 main_v1309 (addi : (⟨S_, .i32⟩ : BufTy).Contents (Elt F) → (⟨S_, .i32⟩ : BufTy).Contents (Elt F) → (⟨S_, .i32⟩ : BufTy).Contents (Elt F)),
    ternary main_v1308 main_v1309 main_v1299 main_v1310 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1301 ![main_v1304, main_v1307, main_v1310] ⟨S_, .i32⟩ main_v1311 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1311 main_v1312 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1116 (constantI S_ 32 9#32),
    nullary main_c_1117 (constantI S_ 32 0#32),
    binary main_c_1116 main_c_1117 main_v1313 (cmpi .slt : (⟨S_, .i32⟩ : BufTy).Contents (Elt F) → (⟨S_, .i32⟩ : BufTy).Contents (Elt F) → (⟨S_, .i1⟩ : BufTy).Contents (Elt F)),
    nullary main_c_1118 (constantI S_ 32 9#32),
    nullary main_c_1119 (constantI S_ 32 16#32),
    binary main_c_1118 main_c_1119 main_v1314 (addi : (⟨S_, .i32⟩ : BufTy).Contents (Elt F) → (⟨S_, .i32⟩ : BufTy).Contents (Elt F) → (⟨S_, .i32⟩ : BufTy).Contents (Elt F)),
    nullary main_c_1120 (constantI S_ 32 9#32),
    ternary main_v1313 main_v1314 main_c_1120 main_v1315 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1121 (constantI S_ 32 0#32),
    nullary main_c_1122 (constantI S_ 32 0#32),
    binary main_c_1121 main_c_1122 main_v1316 (cmpi .slt : (⟨S_, .i32⟩ : BufTy).Contents (Elt F) → (⟨S_, .i32⟩ : BufTy).Contents (Elt F) → (⟨S_, .i1⟩ : BufTy).Contents (Elt F)),
    nullary main_c_1123 (constantI S_ 32 0#32),
    nullary main_c_1124 (constantI S_ 32 1#32),
    binary main_c_1123 main_c_1124 main_v1317 (addi : (⟨S_, .i32⟩ : BufTy).Contents (Elt F) → (⟨S_, .i32⟩ : BufTy).Contents (Elt F) → (⟨S_, .i32⟩ : BufTy).Contents (Elt F)),
    nullary main_c_1125 (constantI S_ 32 0#32),
    ternary main_v1316 main_v1317 main_c_1125 main_v1318 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1126 (constantI S_ 32 0#32),
    binary main_v1295 main_c_1126 main_v1319 (cmpi .slt : (⟨S_, .i32⟩ : BufTy).Contents (Elt F) → (⟨S_, .i32⟩ : BufTy).Contents (Elt F) → (⟨S_, .i1⟩ : BufTy).Contents (Elt F)),
    nullary main_c_1127 (constantI S_ 32 512#32),
    binary main_v1295 main_c_1127 main_v1320 (addi : (⟨S_, .i32⟩ : BufTy).Contents (Elt F) → (⟨S_, .i32⟩ : BufTy).Contents (Elt F) → (⟨S_, .i32⟩ : BufTy).Contents (Elt F)),
    ternary main_v1319 main_v1320 main_v1295 main_v1321 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1128 (constantI S_ 32 0#32),
    binary main_v1299 main_c_1128 main_v1322 (cmpi .slt : (⟨S_, .i32⟩ : BufTy).Contents (Elt F) → (⟨S_, .i32⟩ : BufTy).Contents (Elt F) → (⟨S_, .i1⟩ : BufTy).Contents (Elt F)),
    nullary main_c_1129 (constantI S_ 32 512#32),
    binary main_v1299 main_c_1129 main_v1323 (addi : (⟨S_, .i32⟩ : BufTy).Contents (Elt F) → (⟨S_, .i32⟩ : BufTy).Contents (Elt F) → (⟨S_, .i32⟩ : BufTy).Contents (Elt F)),
    ternary main_v1322 main_v1323 main_v1299 main_v1324 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1291 main_v1312 ![main_v1315, main_v1318, main_v1321, main_v1324] ⟨S_, .i32⟩ main_v1325 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc077_sub : (pc077 (F := F)).Forall fun op => op.bufs ⊆ tcRefs τ sig :=
  ⟨unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc077_fresh : ∀ op ∈ (pc077 (F := F)), op.fresh = ∅ := by
  intro _ h; (repeat (cases h with | head => rfl | tail _ h => ?_)); exact nomatch h

/-- Operations 2692 … 2694 of 4424. -/
noncomputable def pc078 : List (HloOp τ sig (Elt F)) :=
  [ unary main_arg2 main_v1326 ((extractStridedSlice S1x1x1 ![9, 3, 0] · slices_S16x4x2_S1x1x1_9_3_0) : (⟨S16x4x2, .i32⟩ : BufTy).Contents (Elt F) → (⟨S1x1x1, .i32⟩ : BufTy).Contents (Elt F)),
    reshape main_v1326 main_v1327 rfl shapeCasts_S1x1x1_S_,
    nullary main_c_1130 (constantI S_ 32 128#32) ]
theorem pc078_sub : (pc078 (F := F)).Forall fun op => op.bufs ⊆ tcRefs τ sig :=
  ⟨unary_bufs_sub .., reshape_bufs_sub .., nullary_bufs_sub ..⟩
theorem pc078_fresh : ∀ op ∈ (pc078 (F := F)), op.fresh = ∅ := by
  intro _ h; (repeat (cases h with | head => rfl | tail _ h => ?_)); exact nomatch h

/-- Operations 2695 … 2760 of 4424. -/
noncomputable def pc079 : List (HloOp τ sig (Elt F)) :=
  [ binary main_v1327 main_c_1130 main_v1328 (muli : (⟨S_, .i32⟩ : BufTy).Contents (Elt F) → (⟨S_, .i32⟩ : BufTy).Contents (Elt F) → (⟨S_, .i32⟩ : BufTy).Contents (Elt F)),
    nullary main_c_1131 (constantI S_ 32 0#32),
    nullary main_c_1132 (constantI S_ 32 128#32),
    TRef.unary (TRef.of (T := ⟨S_, .i32⟩) main_c_1131) (TRef.of (T := ⟨S_, .i32⟩) main_call78_v0) id,
    TRef.binary (TRef.of (T := ⟨S_, .i32⟩) main_call78_v0) (TRef.of (T := ⟨S_, .i32⟩) main_v1328) (TRef.of (T := ⟨S_, .i32⟩) main_call78_v1) maxsi,
    TRef.unary (TRef.of (T := ⟨S_, .i32⟩) main_c_1132) (TRef.of (T := ⟨S_, .i32⟩) main_call78_v2) id,
    TRef.binary (TRef.of (T := ⟨S_, .i32⟩) main_call78_v2) (TRef.of (T := ⟨S_, .i32⟩) main_call78_v1) (TRef.of (T := ⟨S_, .i32⟩) main_v1329) minsi,
    unary main_arg2 main_v1330 ((extractStridedSlice S1x1x1 ![9, 3, 1] · slices_S16x4x2_S1x1x1_9_3_1) : (⟨S16x4x2, .i32⟩ : BufTy).Contents (Elt F) → (⟨S1x1x1, .i32⟩ : BufTy).Contents (Elt F)),
    reshape main_v1330 main_v1331 rfl shapeCasts_S1x1x1_S_,
    nullary main_c_1133 (constantI S_ 32 128#32),
    binary main_v1331 main_c_1133 main_v1332 (muli : (⟨S_, .i32⟩ : BufTy).Contents (Elt F) → (⟨S_, .i32⟩ : BufTy).Contents (Elt F) → (⟨S_, .i32⟩ : BufTy).Contents (Elt F)),
    nullary main_c_1134 (constantI S_ 32 0#32),
    nullary main_c_1135 (constantI S_ 32 128#32),
    TRef.unary (TRef.of (T := ⟨S_, .i32⟩) main_c_1134) (TRef.of (T := ⟨S_, .i32⟩) main_call79_v0) id,
    TRef.binary (TRef.of (T := ⟨S_, .i32⟩) main_call79_v0) (TRef.of (T := ⟨S_, .i32⟩) main_v1332) (TRef.of (T := ⟨S_, .i32⟩) main_call79_v1) maxsi,
    TRef.unary (TRef.of (T := ⟨S_, .i32⟩) main_c_1135) (TRef.of (T := ⟨S_, .i32⟩) main_call79_v2) id,
    TRef.binary (TRef.of (T := ⟨S_, .i32⟩) main_call79_v2) (TRef.of (T := ⟨S_, .i32⟩) main_call79_v1) (TRef.of (T := ⟨S_, .i32⟩) main_v1333) minsi,
    unary main_arg1 main_v1334 ((extractStridedSlice S1x1x1x512x512 ![9, 3, 0, 0, 0] · slices_S16x4x1x512x512_S1x1x1x512x512_9_3_0_0_0) : (⟨S16x4x1x512x512, .f32⟩ : BufTy).Contents (Elt F) → (⟨S1x1x1x512x512, .f32⟩ : BufTy).Contents (Elt F)),
    reshape main_v1334 main_v1335 rfl shapeCasts_S1x1x1x512x512_S1x512x512,
    nullary main_c_1136 (constantI S_ 32 0#32),
    nullary main_c_1137 (constantI S_ 32 0#32),
    binary main_c_1136 main_c_1137 main_v1336 (cmpi .slt : (⟨S_, .i32⟩ : BufTy).Contents (Elt F) → (⟨S_, .i32⟩ : BufTy).Contents (Elt F) → (⟨S_, .i1⟩ : BufTy).Contents (Elt F)),
    nullary main_c_1138 (constantI S_ 32 0#32),
    nullary main_c_1139 (constantI S_ 32 1#32),
    binary main_c_1138 main_c_1139 main_v1337 (addi : (⟨S_, .i32⟩ : BufTy).Contents (Elt F) → (⟨S_, .i32⟩ : BufTy).Contents (Elt F) → (⟨S_, .i32⟩ : BufTy).Contents (Elt F)),
    nullary main_c_1140 (constantI S_ 32 0#32),
    ternary main_v1336 main_v1337 main_c_1140 main_v1338 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1141 (constantI S_ 32 0#32),
    binary main_v1329 main_c_1141 main_v1339 (cmpi .slt : (⟨S_, .i32⟩ : BufTy).Contents (Elt F) → (⟨S_, .i32⟩ : BufTy).Contents (Elt F) → (⟨S_, .i1⟩ : BufTy).Contents (Elt F)),
    nullary main_c_1142 (constantI S_ 32 512#32),
    binary main_v1329 main_c_1142 main_v1340 (addi : (⟨S_, .i32⟩ : BufTy).Contents (Elt F) → (⟨S_, .i32⟩ : BufTy).Contents (Elt F) → (⟨S_, .i32⟩ : BufTy).Contents (Elt F)),
    ternary main_v1339 main_v1340 main_v1329 main_v1341 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1143 (constantI S_ 32 0#32),
    binary main_v1333 main_c_1143 main_v1342 (cmpi .slt : (⟨S_, .i32⟩ : BufTy).Contents (Elt F) → (⟨S_, .i32⟩ : BufTy).Contents (Elt F) → (⟨S_, .i1⟩ : BufTy).Contents (Elt F)),
    nullary main_c_1144 (constantI S_ 32 512#32),
    binary main_v1333 main_c_1144 main_v1343 (addi : (⟨S_, .i32⟩ : BufTy).Contents (Elt F) → (⟨S_, .i32⟩ : BufTy).Contents (Elt F) → (⟨S_, .i32⟩ : BufTy).Contents (Elt F)),
    ternary main_v1342 main_v1343 main_v1333 main_v1344 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1335 ![main_v1338, main_v1341, main_v1344] ⟨S_, .i32⟩ main_v1345 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1345 main_v1346 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1145 (constantI S_ 32 9#32),
    nullary main_c_1146 (constantI S_ 32 0#32),
    binary main_c_1145 main_c_1146 main_v1347 (cmpi .slt : (⟨S_, .i32⟩ : BufTy).Contents (Elt F) → (⟨S_, .i32⟩ : BufTy).Contents (Elt F) → (⟨S_, .i1⟩ : BufTy).Contents (Elt F)),
    nullary main_c_1147 (constantI S_ 32 9#32),
    nullary main_c_1148 (constantI S_ 32 16#32),
    binary main_c_1147 main_c_1148 main_v1348 (addi : (⟨S_, .i32⟩ : BufTy).Contents (Elt F) → (⟨S_, .i32⟩ : BufTy).Contents (Elt F) → (⟨S_, .i32⟩ : BufTy).Contents (Elt F)),
    nullary main_c_1149 (constantI S_ 32 9#32),
    ternary main_v1347 main_v1348 main_c_1149 main_v1349 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1150 (constantI S_ 32 0#32),
    nullary main_c_1151 (constantI S_ 32 0#32),
    binary main_c_1150 main_c_1151 main_v1350 (cmpi .slt : (⟨S_, .i32⟩ : BufTy).Contents (Elt F) → (⟨S_, .i32⟩ : BufTy).Contents (Elt F) → (⟨S_, .i1⟩ : BufTy).Contents (Elt F)),
    nullary main_c_1152 (constantI S_ 32 0#32),
    nullary main_c_1153 (constantI S_ 32 1#32),
    binary main_c_1152 main_c_1153 main_v1351 (addi : (⟨S_, .i32⟩ : BufTy).Contents (Elt F) → (⟨S_, .i32⟩ : BufTy).Contents (Elt F) → (⟨S_, .i32⟩ : BufTy).Contents (Elt F)),
    nullary main_c_1154 (constantI S_ 32 0#32),
    ternary main_v1350 main_v1351 main_c_1154 main_v1352 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1155 (constantI S_ 32 0#32),
    binary main_v1329 main_c_1155 main_v1353 (cmpi .slt : (⟨S_, .i32⟩ : BufTy).Contents (Elt F) → (⟨S_, .i32⟩ : BufTy).Contents (Elt F) → (⟨S_, .i1⟩ : BufTy).Contents (Elt F)),
    nullary main_c_1156 (constantI S_ 32 512#32),
    binary main_v1329 main_c_1156 main_v1354 (addi : (⟨S_, .i32⟩ : BufTy).Contents (Elt F) → (⟨S_, .i32⟩ : BufTy).Contents (Elt F) → (⟨S_, .i32⟩ : BufTy).Contents (Elt F)),
    ternary main_v1353 main_v1354 main_v1329 main_v1355 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1157 (constantI S_ 32 0#32),
    binary main_v1333 main_c_1157 main_v1356 (cmpi .slt : (⟨S_, .i32⟩ : BufTy).Contents (Elt F) → (⟨S_, .i32⟩ : BufTy).Contents (Elt F) → (⟨S_, .i1⟩ : BufTy).Contents (Elt F)),
    nullary main_c_1158 (constantI S_ 32 512#32),
    binary main_v1333 main_c_1158 main_v1357 (addi : (⟨S_, .i32⟩ : BufTy).Contents (Elt F) → (⟨S_, .i32⟩ : BufTy).Contents (Elt F) → (⟨S_, .i32⟩ : BufTy).Contents (Elt F)),
    ternary main_v1356 main_v1357 main_v1333 main_v1358 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1325 main_v1346 ![main_v1349, main_v1352, main_v1355, main_v1358] ⟨S_, .i32⟩ main_v1359 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc079_sub : (pc079 (F := F)).Forall fun op => op.bufs ⊆ tcRefs τ sig :=
  ⟨binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc079_fresh : ∀ op ∈ (pc079 (F := F)), op.fresh = ∅ := by
  intro _ h; (repeat (cases h with | head => rfl | tail _ h => ?_)); exact nomatch h

set_option maxRecDepth 8192 in
set_option maxHeartbeats 4000000 in
/-- Window 21 of the printed program is the run of its lists. -/
theorem part21_eq (c : Dev nD) : main_part21 (F := F) c = seq (pc040) := rfl

set_option maxRecDepth 8192 in
set_option maxHeartbeats 4000000 in
/-- Window 22 of the printed program is the run of its lists. -/
theorem part22_eq (c : Dev nD) : main_part22 (F := F) c = seq (pc041 ++ (pc042)) := rfl

set_option maxRecDepth 8192 in
set_option maxHeartbeats 4000000 in
/-- Window 23 of the printed program is the run of its lists. -/
theorem part23_eq (c : Dev nD) : main_part23 (F := F) c = seq (pc043 ++ (pc044)) := rfl

set_option maxRecDepth 8192 in
set_option maxHeartbeats 4000000 in
/-- Window 24 of the printed program is the run of its lists. -/
theorem part24_eq (c : Dev nD) : main_part24 (F := F) c = seq (pc045 ++ (pc046)) := rfl

set_option maxRecDepth 8192 in
set_option maxHeartbeats 4000000 in
/-- Window 25 of the printed program is the run of its lists. -/
theorem part25_eq (c : Dev nD) : main_part25 (F := F) c = seq (pc047 ++ (pc048)) := rfl

set_option maxRecDepth 8192 in
set_option maxHeartbeats 4000000 in
/-- Window 26 of the printed program is the run of its lists. -/
theorem part26_eq (c : Dev nD) : main_part26 (F := F) c = seq (pc049 ++ (pc050)) := rfl

set_option maxRecDepth 8192 in
set_option maxHeartbeats 4000000 in
/-- Window 27 of the printed program is the run of its lists. -/
theorem part27_eq (c : Dev nD) : main_part27 (F := F) c = seq (pc051 ++ (pc052)) := rfl

set_option maxRecDepth 8192 in
set_option maxHeartbeats 4000000 in
/-- Window 28 of the printed program is the run of its lists. -/
theorem part28_eq (c : Dev nD) : main_part28 (F := F) c = seq (pc053 ++ (pc054)) := rfl

set_option maxRecDepth 8192 in
set_option maxHeartbeats 4000000 in
/-- Window 29 of the printed program is the run of its lists. -/
theorem part29_eq (c : Dev nD) : main_part29 (F := F) c = seq (pc055 ++ (pc056)) := rfl

set_option maxRecDepth 8192 in
set_option maxHeartbeats 4000000 in
/-- Window 30 of the printed program is the run of its lists. -/
theorem part30_eq (c : Dev nD) : main_part30 (F := F) c = seq (pc057 ++ (pc058)) := rfl

set_option maxRecDepth 8192 in
set_option maxHeartbeats 4000000 in
/-- Window 31 of the printed program is the run of its lists. -/
theorem part31_eq (c : Dev nD) : main_part31 (F := F) c = seq (pc059 ++ (pc060)) := rfl

set_option maxRecDepth 8192 in
set_option maxHeartbeats 4000000 in
/-- Window 32 of the printed program is the run of its lists. -/
theorem part32_eq (c : Dev nD) : main_part32 (F := F) c = seq (pc061 ++ (pc062)) := rfl

set_option maxRecDepth 8192 in
set_option maxHeartbeats 4000000 in
/-- Window 33 of the printed program is the run of its lists. -/
theorem part33_eq (c : Dev nD) : main_part33 (F := F) c = seq (pc063 ++ (pc064)) := rfl

set_option maxRecDepth 8192 in
set_option maxHeartbeats 4000000 in
/-- Window 34 of the printed program is the run of its lists. -/
theorem part34_eq (c : Dev nD) : main_part34 (F := F) c = seq (pc065 ++ (pc066)) := rfl

set_option maxRecDepth 8192 in
set_option maxHeartbeats 4000000 in
/-- Window 35 of the printed program is the run of its lists. -/
theorem part35_eq (c : Dev nD) : main_part35 (F := F) c = seq (pc067 ++ (pc068)) := rfl

set_option maxRecDepth 8192 in
set_option maxHeartbeats 4000000 in
/-- Window 36 of the printed program is the run of its lists. -/
theorem part36_eq (c : Dev nD) : main_part36 (F := F) c = seq (pc069 ++ (pc070)) := rfl

set_option maxRecDepth 8192 in
set_option maxHeartbeats 4000000 in
/-- Window 37 of the printed program is the run of its lists. -/
theorem part37_eq (c : Dev nD) : main_part37 (F := F) c = seq (pc071 ++ (pc072)) := rfl

set_option maxRecDepth 8192 in
set_option maxHeartbeats 4000000 in
/-- Window 38 of the printed program is the run of its lists. -/
theorem part38_eq (c : Dev nD) : main_part38 (F := F) c = seq (pc073 ++ (pc074)) := rfl

set_option maxRecDepth 8192 in
set_option maxHeartbeats 4000000 in
/-- Window 39 of the printed program is the run of its lists. -/
theorem part39_eq (c : Dev nD) : main_part39 (F := F) c = seq (pc075 ++ (pc076)) := rfl

set_option maxRecDepth 8192 in
set_option maxHeartbeats 4000000 in
/-- Window 40 of the printed program is the run of its lists. -/
theorem part40_eq (c : Dev nD) : main_part40 (F := F) c = seq (pc077 ++ (pc078)) := rfl

set_option maxRecDepth 8192 in
set_option maxHeartbeats 4000000 in
/-- Window 41 of the printed program is the run of its lists. -/
theorem part41_eq (c : Dev nD) : main_part41 (F := F) c = seq (pc079) := rfl

end Cert.ReferenceIdeal.RefRun

end
-- ==== Proof.RefRun.StepsB.lean ====
/- Steps of the reference over the operations 1381 … 2760 of 4424: each step, from any contents, leaves the running map with one more
   overwrite, spelt as the program spells it, and the three arguments as they were. -/
import proofs.«207346_g72533407695360_cont_9to1_m_270_11_alg».proof.Proof.RefRun.OpsB
import proofs.«207346_g72533407695360_cont_9to1_m_270_11_alg».proof.Proof.RefRunBase
import proofs.«207346_g72533407695360_cont_9to1_m_270_11_alg».proof.Proof.RefNest

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Step 20 (image 5, window 0). -/
theorem inv20 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v679) = X ∧ W (Proc.devRef .tc main_arg0) = A0 ∧ W (Proc.devRef .tc main_arg1) = A1 ∧ W (Proc.devRef .tc main_arg2) = A2) :
    (after pc041 (after pc040 W)) (Proc.devRef .tc main_v713) = Cert.Fuse.Ref.stepAt 5 0 (by decide) (by decide) X A1 A2
      ∧ (after pc041 (after pc040 W)) (Proc.devRef .tc main_arg0) = A0 ∧ (after pc041 (after pc040 W)) (Proc.devRef .tc main_arg1) = A1 ∧ (after pc041 (after pc040 W)) (Proc.devRef .tc main_arg2) = A2 := by
  obtain ⟨rfl, rfl, rfl, rfl⟩ := h
  simp only [pc040, pc041]
  after_steps
  rfl

set_option maxHeartbeats 40000000 in
/-- Step 21 (image 5, window 1). -/
theorem inv21 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v713) = X ∧ W (Proc.devRef .tc main_arg0) = A0 ∧ W (Proc.devRef .tc main_arg1) = A1 ∧ W (Proc.devRef .tc main_arg2) = A2) :
    (after pc043 (after pc042 W)) (Proc.devRef .tc main_v747) = Cert.Fuse.Ref.stepAt 5 1 (by decide) (by decide) X A1 A2
      ∧ (after pc043 (after pc042 W)) (Proc.devRef .tc main_arg0) = A0 ∧ (after pc043 (after pc042 W)) (Proc.devRef .tc main_arg1) = A1 ∧ (after pc043 (after pc042 W)) (Proc.devRef .tc main_arg2) = A2 := by
  obtain ⟨rfl, rfl, rfl, rfl⟩ := h
  simp only [pc042, pc043]
  after_steps
  rfl

set_option maxHeartbeats 40000000 in
/-- Step 22 (image 5, window 2). -/
theorem inv22 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v747) = X ∧ W (Proc.devRef .tc main_arg0) = A0 ∧ W (Proc.devRef .tc main_arg1) = A1 ∧ W (Proc.devRef .tc main_arg2) = A2) :
    (after pc045 (after pc044 W)) (Proc.devRef .tc main_v781) = Cert.Fuse.Ref.stepAt 5 2 (by decide) (by decide) X A1 A2
      ∧ (after pc045 (after pc044 W)) (Proc.devRef .tc main_arg0) = A0 ∧ (after pc045 (after pc044 W)) (Proc.devRef .tc main_arg1) = A1 ∧ (after pc045 (after pc044 W)) (Proc.devRef .tc main_arg2) = A2 := by
  obtain ⟨rfl, rfl, rfl, rfl⟩ := h
  simp only [pc044, pc045]
  after_steps
  rfl

set_option maxHeartbeats 40000000 in
/-- Step 23 (image 5, window 3). -/
theorem inv23 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v781) = X ∧ W (Proc.devRef .tc main_arg0) = A0 ∧ W (Proc.devRef .tc main_arg1) = A1 ∧ W (Proc.devRef .tc main_arg2) = A2) :
    (after pc047 (after pc046 W)) (Proc.devRef .tc main_v815) = Cert.Fuse.Ref.stepAt 5 3 (by decide) (by decide) X A1 A2
      ∧ (after pc047 (after pc046 W)) (Proc.devRef .tc main_arg0) = A0 ∧ (after pc047 (after pc046 W)) (Proc.devRef .tc main_arg1) = A1 ∧ (after pc047 (after pc046 W)) (Proc.devRef .tc main_arg2) = A2 := by
  obtain ⟨rfl, rfl, rfl, rfl⟩ := h
  simp only [pc046, pc047]
  after_steps
  rfl

set_option maxHeartbeats 40000000 in
/-- Step 24 (image 6, window 0). -/
theorem inv24 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v815) = X ∧ W (Proc.devRef .tc main_arg0) = A0 ∧ W (Proc.devRef .tc main_arg1) = A1 ∧ W (Proc.devRef .tc main_arg2) = A2) :
    (after pc049 (after pc048 W)) (Proc.devRef .tc main_v849) = Cert.Fuse.Ref.stepAt 6 0 (by decide) (by decide) X A1 A2
      ∧ (after pc049 (after pc048 W)) (Proc.devRef .tc main_arg0) = A0 ∧ (after pc049 (after pc048 W)) (Proc.devRef .tc main_arg1) = A1 ∧ (after pc049 (after pc048 W)) (Proc.devRef .tc main_arg2) = A2 := by
  obtain ⟨rfl, rfl, rfl, rfl⟩ := h
  simp only [pc048, pc049]
  after_steps
  rfl

set_option maxHeartbeats 40000000 in
/-- Step 25 (image 6, window 1). -/
theorem inv25 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v849) = X ∧ W (Proc.devRef .tc main_arg0) = A0 ∧ W (Proc.devRef .tc main_arg1) = A1 ∧ W (Proc.devRef .tc main_arg2) = A2) :
    (after pc051 (after pc050 W)) (Proc.devRef .tc main_v883) = Cert.Fuse.Ref.stepAt 6 1 (by decide) (by decide) X A1 A2
      ∧ (after pc051 (after pc050 W)) (Proc.devRef .tc main_arg0) = A0 ∧ (after pc051 (after pc050 W)) (Proc.devRef .tc main_arg1) = A1 ∧ (after pc051 (after pc050 W)) (Proc.devRef .tc main_arg2) = A2 := by
  obtain ⟨rfl, rfl, rfl, rfl⟩ := h
  simp only [pc050, pc051]
  after_steps
  rfl

set_option maxHeartbeats 40000000 in
/-- Step 26 (image 6, window 2). -/
theorem inv26 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v883) = X ∧ W (Proc.devRef .tc main_arg0) = A0 ∧ W (Proc.devRef .tc main_arg1) = A1 ∧ W (Proc.devRef .tc main_arg2) = A2) :
    (after pc053 (after pc052 W)) (Proc.devRef .tc main_v917) = Cert.Fuse.Ref.stepAt 6 2 (by decide) (by decide) X A1 A2
      ∧ (after pc053 (after pc052 W)) (Proc.devRef .tc main_arg0) = A0 ∧ (after pc053 (after pc052 W)) (Proc.devRef .tc main_arg1) = A1 ∧ (after pc053 (after pc052 W)) (Proc.devRef .tc main_arg2) = A2 := by
  obtain ⟨rfl, rfl, rfl, rfl⟩ := h
  simp only [pc052, pc053]
  after_steps
  rfl

set_option maxHeartbeats 40000000 in
/-- Step 27 (image 6, window 3). -/
theorem inv27 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v917) = X ∧ W (Proc.devRef .tc main_arg0) = A0 ∧ W (Proc.devRef .tc main_arg1) = A1 ∧ W (Proc.devRef .tc main_arg2) = A2) :
    (after pc055 (after pc054 W)) (Proc.devRef .tc main_v951) = Cert.Fuse.Ref.stepAt 6 3 (by decide) (by decide) X A1 A2
      ∧ (after pc055 (after pc054 W)) (Proc.devRef .tc main_arg0) = A0 ∧ (after pc055 (after pc054 W)) (Proc.devRef .tc main_arg1) = A1 ∧ (after pc055 (after pc054 W)) (Proc.devRef .tc main_arg2) = A2 := by
  obtain ⟨rfl, rfl, rfl, rfl⟩ := h
  simp only [pc054, pc055]
  after_steps
  rfl

set_option maxHeartbeats 40000000 in
/-- Step 28 (image 7, window 0). -/
theorem inv28 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v951) = X ∧ W (Proc.devRef .tc main_arg0) = A0 ∧ W (Proc.devRef .tc main_arg1) = A1 ∧ W (Proc.devRef .tc main_arg2) = A2) :
    (after pc057 (after pc056 W)) (Proc.devRef .tc main_v985) = Cert.Fuse.Ref.stepAt 7 0 (by decide) (by decide) X A1 A2
      ∧ (after pc057 (after pc056 W)) (Proc.devRef .tc main_arg0) = A0 ∧ (after pc057 (after pc056 W)) (Proc.devRef .tc main_arg1) = A1 ∧ (after pc057 (after pc056 W)) (Proc.devRef .tc main_arg2) = A2 := by
  obtain ⟨rfl, rfl, rfl, rfl⟩ := h
  simp only [pc056, pc057]
  after_steps
  rfl

set_option maxHeartbeats 40000000 in
/-- Step 29 (image 7, window 1). -/
theorem inv29 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v985) = X ∧ W (Proc.devRef .tc main_arg0) = A0 ∧ W (Proc.devRef .tc main_arg1) = A1 ∧ W (Proc.devRef .tc main_arg2) = A2) :
    (after pc059 (after pc058 W)) (Proc.devRef .tc main_v1019) = Cert.Fuse.Ref.stepAt 7 1 (by decide) (by decide) X A1 A2
      ∧ (after pc059 (after pc058 W)) (Proc.devRef .tc main_arg0) = A0 ∧ (after pc059 (after pc058 W)) (Proc.devRef .tc main_arg1) = A1 ∧ (after pc059 (after pc058 W)) (Proc.devRef .tc main_arg2) = A2 := by
  obtain ⟨rfl, rfl, rfl, rfl⟩ := h
  simp only [pc058, pc059]
  after_steps
  rfl

set_option maxHeartbeats 40000000 in
/-- Step 30 (image 7, window 2). -/
theorem inv30 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1019) = X ∧ W (Proc.devRef .tc main_arg0) = A0 ∧ W (Proc.devRef .tc main_arg1) = A1 ∧ W (Proc.devRef .tc main_arg2) = A2) :
    (after pc061 (after pc060 W)) (Proc.devRef .tc main_v1053) = Cert.Fuse.Ref.stepAt 7 2 (by decide) (by decide) X A1 A2
      ∧ (after pc061 (after pc060 W)) (Proc.devRef .tc main_arg0) = A0 ∧ (after pc061 (after pc060 W)) (Proc.devRef .tc main_arg1) = A1 ∧ (after pc061 (after pc060 W)) (Proc.devRef .tc main_arg2) = A2 := by
  obtain ⟨rfl, rfl, rfl, rfl⟩ := h
  simp only [pc060, pc061]
  after_steps
  rfl

set_option maxHeartbeats 40000000 in
/-- Step 31 (image 7, window 3). -/
theorem inv31 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1053) = X ∧ W (Proc.devRef .tc main_arg0) = A0 ∧ W (Proc.devRef .tc main_arg1) = A1 ∧ W (Proc.devRef .tc main_arg2) = A2) :
    (after pc063 (after pc062 W)) (Proc.devRef .tc main_v1087) = Cert.Fuse.Ref.stepAt 7 3 (by decide) (by decide) X A1 A2
      ∧ (after pc063 (after pc062 W)) (Proc.devRef .tc main_arg0) = A0 ∧ (after pc063 (after pc062 W)) (Proc.devRef .tc main_arg1) = A1 ∧ (after pc063 (after pc062 W)) (Proc.devRef .tc main_arg2) = A2 := by
  obtain ⟨rfl, rfl, rfl, rfl⟩ := h
  simp only [pc062, pc063]
  after_steps
  rfl

set_option maxHeartbeats 40000000 in
/-- Step 32 (image 8, window 0). -/
theorem inv32 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1087) = X ∧ W (Proc.devRef .tc main_arg0) = A0 ∧ W (Proc.devRef .tc main_arg1) = A1 ∧ W (Proc.devRef .tc main_arg2) = A2) :
    (after pc065 (after pc064 W)) (Proc.devRef .tc main_v1121) = Cert.Fuse.Ref.stepAt 8 0 (by decide) (by decide) X A1 A2
      ∧ (after pc065 (after pc064 W)) (Proc.devRef .tc main_arg0) = A0 ∧ (after pc065 (after pc064 W)) (Proc.devRef .tc main_arg1) = A1 ∧ (after pc065 (after pc064 W)) (Proc.devRef .tc main_arg2) = A2 := by
  obtain ⟨rfl, rfl, rfl, rfl⟩ := h
  simp only [pc064, pc065]
  after_steps
  rfl

set_option maxHeartbeats 40000000 in
/-- Step 33 (image 8, window 1). -/
theorem inv33 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1121) = X ∧ W (Proc.devRef .tc main_arg0) = A0 ∧ W (Proc.devRef .tc main_arg1) = A1 ∧ W (Proc.devRef .tc main_arg2) = A2) :
    (after pc067 (after pc066 W)) (Proc.devRef .tc main_v1155) = Cert.Fuse.Ref.stepAt 8 1 (by decide) (by decide) X A1 A2
      ∧ (after pc067 (after pc066 W)) (Proc.devRef .tc main_arg0) = A0 ∧ (after pc067 (after pc066 W)) (Proc.devRef .tc main_arg1) = A1 ∧ (after pc067 (after pc066 W)) (Proc.devRef .tc main_arg2) = A2 := by
  obtain ⟨rfl, rfl, rfl, rfl⟩ := h
  simp only [pc066, pc067]
  after_steps
  rfl

set_option maxHeartbeats 40000000 in
/-- Step 34 (image 8, window 2). -/
theorem inv34 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1155) = X ∧ W (Proc.devRef .tc main_arg0) = A0 ∧ W (Proc.devRef .tc main_arg1) = A1 ∧ W (Proc.devRef .tc main_arg2) = A2) :
    (after pc069 (after pc068 W)) (Proc.devRef .tc main_v1189) = Cert.Fuse.Ref.stepAt 8 2 (by decide) (by decide) X A1 A2
      ∧ (after pc069 (after pc068 W)) (Proc.devRef .tc main_arg0) = A0 ∧ (after pc069 (after pc068 W)) (Proc.devRef .tc main_arg1) = A1 ∧ (after pc069 (after pc068 W)) (Proc.devRef .tc main_arg2) = A2 := by
  obtain ⟨rfl, rfl, rfl, rfl⟩ := h
  simp only [pc068, pc069]
  after_steps
  rfl

set_option maxHeartbeats 40000000 in
/-- Step 35 (image 8, window 3). -/
theorem inv35 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1189) = X ∧ W (Proc.devRef .tc main_arg0) = A0 ∧ W (Proc.devRef .tc main_arg1) = A1 ∧ W (Proc.devRef .tc main_arg2) = A2) :
    (after pc071 (after pc070 W)) (Proc.devRef .tc main_v1223) = Cert.Fuse.Ref.stepAt 8 3 (by decide) (by decide) X A1 A2
      ∧ (after pc071 (after pc070 W)) (Proc.devRef .tc main_arg0) = A0 ∧ (after pc071 (after pc070 W)) (Proc.devRef .tc main_arg1) = A1 ∧ (after pc071 (after pc070 W)) (Proc.devRef .tc main_arg2) = A2 := by
  obtain ⟨rfl, rfl, rfl, rfl⟩ := h
  simp only [pc070, pc071]
  after_steps
  rfl

set_option maxHeartbeats 40000000 in
/-- Step 36 (image 9, window 0). -/
theorem inv36 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1223) = X ∧ W (Proc.devRef .tc main_arg0) = A0 ∧ W (Proc.devRef .tc main_arg1) = A1 ∧ W (Proc.devRef .tc main_arg2) = A2) :
    (after pc073 (after pc072 W)) (Proc.devRef .tc main_v1257) = Cert.Fuse.Ref.stepAt 9 0 (by decide) (by decide) X A1 A2
      ∧ (after pc073 (after pc072 W)) (Proc.devRef .tc main_arg0) = A0 ∧ (after pc073 (after pc072 W)) (Proc.devRef .tc main_arg1) = A1 ∧ (after pc073 (after pc072 W)) (Proc.devRef .tc main_arg2) = A2 := by
  obtain ⟨rfl, rfl, rfl, rfl⟩ := h
  simp only [pc072, pc073]
  after_steps
  rfl

set_option maxHeartbeats 40000000 in
/-- Step 37 (image 9, window 1). -/
theorem inv37 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1257) = X ∧ W (Proc.devRef .tc main_arg0) = A0 ∧ W (Proc.devRef .tc main_arg1) = A1 ∧ W (Proc.devRef .tc main_arg2) = A2) :
    (after pc075 (after pc074 W)) (Proc.devRef .tc main_v1291) = Cert.Fuse.Ref.stepAt 9 1 (by decide) (by decide) X A1 A2
      ∧ (after pc075 (after pc074 W)) (Proc.devRef .tc main_arg0) = A0 ∧ (after pc075 (after pc074 W)) (Proc.devRef .tc main_arg1) = A1 ∧ (after pc075 (after pc074 W)) (Proc.devRef .tc main_arg2) = A2 := by
  obtain ⟨rfl, rfl, rfl, rfl⟩ := h
  simp only [pc074, pc075]
  after_steps
  rfl

set_option maxHeartbeats 40000000 in
/-- Step 38 (image 9, window 2). -/
theorem inv38 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1291) = X ∧ W (Proc.devRef .tc main_arg0) = A0 ∧ W (Proc.devRef .tc main_arg1) = A1 ∧ W (Proc.devRef .tc main_arg2) = A2) :
    (after pc077 (after pc076 W)) (Proc.devRef .tc main_v1325) = Cert.Fuse.Ref.stepAt 9 2 (by decide) (by decide) X A1 A2
      ∧ (after pc077 (after pc076 W)) (Proc.devRef .tc main_arg0) = A0 ∧ (after pc077 (after pc076 W)) (Proc.devRef .tc main_arg1) = A1 ∧ (after pc077 (after pc076 W)) (Proc.devRef .tc main_arg2) = A2 := by
  obtain ⟨rfl, rfl, rfl, rfl⟩ := h
  simp only [pc076, pc077]
  after_steps
  rfl

set_option maxHeartbeats 40000000 in
/-- Step 39 (image 9, window 3). -/
theorem inv39 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1325) = X ∧ W (Proc.devRef .tc main_arg0) = A0 ∧ W (Proc.devRef .tc main_arg1) = A1 ∧ W (Proc.devRef .tc main_arg2) = A2) :
    (after pc079 (after pc078 W)) (Proc.devRef .tc main_v1359) = Cert.Fuse.Ref.stepAt 9 3 (by decide) (by decide) X A1 A2
      ∧ (after pc079 (after pc078 W)) (Proc.devRef .tc main_arg0) = A0 ∧ (after pc079 (after pc078 W)) (Proc.devRef .tc main_arg1) = A1 ∧ (after pc079 (after pc078 W)) (Proc.devRef .tc main_arg2) = A2 := by
  obtain ⟨rfl, rfl, rfl, rfl⟩ := h
  simp only [pc078, pc079]
  after_steps
  rfl

end Cert.ReferenceIdeal.RefRun

end
-- ==== Proof.RefRun.OpsC.lean ====
/- The reference's operations 2761 … 4140 of 4424, in order, as short lists: cut where a window of the printed program
   ends and where a step (one window of one image) ends. Of each list: its operations touch TensorCore buffers only, and
   each determines its result. Of each window of the printed program in this range: it runs its lists, one after the other. -/
import proofs.«207346_g72533407695360_cont_9to1_m_270_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 2761 … 2826 of 4424. -/
noncomputable def pc080 : List (HloOp τ sig (Elt F)) :=
  [ unary main_arg2 main_v1360 ((extractStridedSlice S1x1x1 ![10, 0, 0] · slices_S16x4x2_S1x1x1_10_0_0) : (⟨S16x4x2, .i32⟩ : BufTy).Contents (Elt F) → (⟨S1x1x1, .i32⟩ : BufTy).Contents (Elt F)),
    reshape main_v1360 main_v1361 rfl shapeCasts_S1x1x1_S_,
    nullary main_c_1159 (constantI S_ 32 128#32),
    binary main_v1361 main_c_1159 main_v1362 (muli : (⟨S_, .i32⟩ : BufTy).Contents (Elt F) → (⟨S_, .i32⟩ : BufTy).Contents (Elt F) → (⟨S_, .i32⟩ : BufTy).Contents (Elt F)),
    nullary main_c_1160 (constantI S_ 32 0#32),
    nullary main_c_1161 (constantI S_ 32 128#32),
    TRef.unary (TRef.of (T := ⟨S_, .i32⟩) main_c_1160) (TRef.of (T := ⟨S_, .i32⟩) main_call80_v0) id,
    TRef.binary (TRef.of (T := ⟨S_, .i32⟩) main_call80_v0) (TRef.of (T := ⟨S_, .i32⟩) main_v1362) (TRef.of (T := ⟨S_, .i32⟩) main_call80_v1) maxsi,
    TRef.unary (TRef.of (T := ⟨S_, .i32⟩) main_c_1161) (TRef.of (T := ⟨S_, .i32⟩) main_call80_v2) id,
    TRef.binary (TRef.of (T := ⟨S_, .i32⟩) main_call80_v2) (TRef.of (T := ⟨S_, .i32⟩) main_call80_v1) (TRef.of (T := ⟨S_, .i32⟩) main_v1363) minsi,
    unary main_arg2 main_v1364 ((extractStridedSlice S1x1x1 ![10, 0, 1] · slices_S16x4x2_S1x1x1_10_0_1) : (⟨S16x4x2, .i32⟩ : BufTy).Contents (Elt F) → (⟨S1x1x1, .i32⟩ : BufTy).Contents (Elt F)),
    reshape main_v1364 main_v1365 rfl shapeCasts_S1x1x1_S_,
    nullary main_c_1162 (constantI S_ 32 128#32),
    binary main_v1365 main_c_1162 main_v1366 (muli : (⟨S_, .i32⟩ : BufTy).Contents (Elt F) → (⟨S_, .i32⟩ : BufTy).Contents (Elt F) → (⟨S_, .i32⟩ : BufTy).Contents (Elt F)),
    nullary main_c_1163 (constantI S_ 32 0#32),
    nullary main_c_1164 (constantI S_ 32 128#32),
    TRef.unary (TRef.of (T := ⟨S_, .i32⟩) main_c_1163) (TRef.of (T := ⟨S_, .i32⟩) main_call81_v0) id,
    TRef.binary (TRef.of (T := ⟨S_, .i32⟩) main_call81_v0) (TRef.of (T := ⟨S_, .i32⟩) main_v1366) (TRef.of (T := ⟨S_, .i32⟩) main_call81_v1) maxsi,
    TRef.unary (TRef.of (T := ⟨S_, .i32⟩) main_c_1164) (TRef.of (T := ⟨S_, .i32⟩) main_call81_v2) id,
    TRef.binary (TRef.of (T := ⟨S_, .i32⟩) main_call81_v2) (TRef.of (T := ⟨S_, .i32⟩) main_call81_v1) (TRef.of (T := ⟨S_, .i32⟩) main_v1367) minsi,
    unary main_arg1 main_v1368 ((extractStridedSlice S1x1x1x512x512 ![10, 0, 0, 0, 0] · slices_S16x4x1x512x512_S1x1x1x512x512_10_0_0_0_0) : (⟨S16x4x1x512x512, .f32⟩ : BufTy).Contents (Elt F) → (⟨S1x1x1x512x512, .f32⟩ : BufTy).Contents (Elt F)),
    reshape main_v1368 main_v1369 rfl shapeCasts_S1x1x1x512x512_S1x512x512,
    nullary main_c_1165 (constantI S_ 32 0#32),
    nullary main_c_1166 (constantI S_ 32 0#32),
    binary main_c_1165 main_c_1166 main_v1370 (cmpi .slt : (⟨S_, .i32⟩ : BufTy).Contents (Elt F) → (⟨S_, .i32⟩ : BufTy).Contents (Elt F) → (⟨S_, .i1⟩ : BufTy).Contents (Elt F)),
    nullary main_c_1167 (constantI S_ 32 0#32),
    nullary main_c_1168 (constantI S_ 32 1#32),
    binary main_c_1167 main_c_1168 main_v1371 (addi : (⟨S_, .i32⟩ : BufTy).Contents (Elt F) → (⟨S_, .i32⟩ : BufTy).Contents (Elt F) → (⟨S_, .i32⟩ : BufTy).Contents (Elt F)),
    nullary main_c_1169 (constantI S_ 32 0#32),
    ternary main_v1370 main_v1371 main_c_1169 main_v1372 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1170 (constantI S_ 32 0#32),
    binary main_v1363 main_c_1170 main_v1373 (cmpi .slt : (⟨S_, .i32⟩ : BufTy).Contents (Elt F) → (⟨S_, .i32⟩ : BufTy).Contents (Elt F) → (⟨S_, .i1⟩ : BufTy).Contents (Elt F)),
    nullary main_c_1171 (constantI S_ 32 512#32),
    binary main_v1363 main_c_1171 main_v1374 (addi : (⟨S_, .i32⟩ : BufTy).Contents (Elt F) → (⟨S_, .i32⟩ : BufTy).Contents (Elt F) → (⟨S_, .i32⟩ : BufTy).Contents (Elt F)),
    ternary main_v1373 main_v1374 main_v1363 main_v1375 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1172 (constantI S_ 32 0#32),
    binary main_v1367 main_c_1172 main_v1376 (cmpi .slt : (⟨S_, .i32⟩ : BufTy).Contents (Elt F) → (⟨S_, .i32⟩ : BufTy).Contents (Elt F) → (⟨S_, .i1⟩ : BufTy).Contents (Elt F)),
    nullary main_c_1173 (constantI S_ 32 512#32),
    binary main_v1367 main_c_1173 main_v1377 (addi : (⟨S_, .i32⟩ : BufTy).Contents (Elt F) → (⟨S_, .i32⟩ : BufTy).Contents (Elt F) → (⟨S_, .i32⟩ : BufTy).Contents (Elt F)),
    ternary main_v1376 main_v1377 main_v1367 main_v1378 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1369 ![main_v1372, main_v1375, main_v1378] ⟨S_, .i32⟩ main_v1379 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1379 main_v1380 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1174 (constantI S_ 32 10#32),
    nullary main_c_1175 (constantI S_ 32 0#32),
    binary main_c_1174 main_c_1175 main_v1381 (cmpi .slt : (⟨S_, .i32⟩ : BufTy).Contents (Elt F) → (⟨S_, .i32⟩ : BufTy).Contents (Elt F) → (⟨S_, .i1⟩ : BufTy).Contents (Elt F)),
    nullary main_c_1176 (constantI S_ 32 10#32),
    nullary main_c_1177 (constantI S_ 32 16#32),
    binary main_c_1176 main_c_1177 main_v1382 (addi : (⟨S_, .i32⟩ : BufTy).Contents (Elt F) → (⟨S_, .i32⟩ : BufTy).Contents (Elt F) → (⟨S_, .i32⟩ : BufTy).Contents (Elt F)),
    nullary main_c_1178 (constantI S_ 32 10#32),
    ternary main_v1381 main_v1382 main_c_1178 main_v1383 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1179 (constantI S_ 32 0#32),
    nullary main_c_1180 (constantI S_ 32 0#32),
    binary main_c_1179 main_c_1180 main_v1384 (cmpi .slt : (⟨S_, .i32⟩ : BufTy).Contents (Elt F) → (⟨S_, .i32⟩ : BufTy).Contents (Elt F) → (⟨S_, .i1⟩ : BufTy).Contents (Elt F)),
    nullary main_c_1181 (constantI S_ 32 0#32),
    nullary main_c_1182 (constantI S_ 32 1#32),
    binary main_c_1181 main_c_1182 main_v1385 (addi : (⟨S_, .i32⟩ : BufTy).Contents (Elt F) → (⟨S_, .i32⟩ : BufTy).Contents (Elt F) → (⟨S_, .i32⟩ : BufTy).Contents (Elt F)),
    nullary main_c_1183 (constantI S_ 32 0#32),
    ternary main_v1384 main_v1385 main_c_1183 main_v1386 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1184 (constantI S_ 32 0#32),
    binary main_v1363 main_c_1184 main_v1387 (cmpi .slt : (⟨S_, .i32⟩ : BufTy).Contents (Elt F) → (⟨S_, .i32⟩ : BufTy).Contents (Elt F) → (⟨S_, .i1⟩ : BufTy).Contents (Elt F)),
    nullary main_c_1185 (constantI S_ 32 512#32),
    binary main_v1363 main_c_1185 main_v1388 (addi : (⟨S_, .i32⟩ : BufTy).Contents (Elt F) → (⟨S_, .i32⟩ : BufTy).Contents (Elt F) → (⟨S_, .i32⟩ : BufTy).Contents (Elt F)),
    ternary main_v1387 main_v1388 main_v1363 main_v1389 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1186 (constantI S_ 32 0#32),
    binary main_v1367 main_c_1186 main_v1390 (cmpi .slt : (⟨S_, .i32⟩ : BufTy).Contents (Elt F) → (⟨S_, .i32⟩ : BufTy).Contents (Elt F) → (⟨S_, .i1⟩ : BufTy).Contents (Elt F)),
    nullary main_c_1187 (constantI S_ 32 512#32) ]
theorem pc080_sub : (pc080 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub ..⟩
theorem pc080_fresh : ∀ op ∈ (pc080 (F := F)), op.fresh = ∅ := by
  intro _ h; (repeat (cases h with | head => rfl | tail _ h => ?_)); exact nomatch h

/-- Operations 2827 … 2829 of 4424. -/
noncomputable def pc081 : List (HloOp τ sig (Elt F)) :=
  [ binary main_v1367 main_c_1187 main_v1391 (addi : (⟨S_, .i32⟩ : BufTy).Contents (Elt F) → (⟨S_, .i32⟩ : BufTy).Contents (Elt F) → (⟨S_, .i32⟩ : BufTy).Contents (Elt F)),
    ternary main_v1390 main_v1391 main_v1367 main_v1392 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1359 main_v1380 ![main_v1383, main_v1386, main_v1389, main_v1392] ⟨S_, .i32⟩ main_v1393 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc081_sub : (pc081 (F := F)).Forall fun op => op.bufs ⊆ tcRefs τ sig :=
  ⟨binary_bufs_sub .., ternary_bufs_sub .., binaryIndexed_bufs_sub ..⟩
theorem pc081_fresh : ∀ op ∈ (pc081 (F := F)), op.fresh = ∅ := by
  intro _ h; (repeat (cases h with | head => rfl | tail _ h => ?_)); exact nomatch h

/-- Operations 2830 … 2892 of 4424. -/
noncomputable def pc082 : List (HloOp τ sig (Elt F)) :=
  [ unary main_arg2 main_v1394 ((extractStridedSlice S1x1x1 ![10, 1, 0] · slices_S16x4x2_S1x1x1_10_1_0) : (⟨S16x4x2, .i32⟩ : BufTy).Contents (Elt F) → (⟨S1x1x1, .i32⟩ : BufTy).Contents (Elt F)),
    reshape main_v1394 main_v1395 rfl shapeCasts_S1x1x1_S_,
    nullary main_c_1188 (constantI S_ 32 128#32),
    binary main_v1395 main_c_1188 main_v1396 (muli : (⟨S_, .i32⟩ : BufTy).Contents (Elt F) → (⟨S_, .i32⟩ : BufTy).Contents (Elt F) → (⟨S_, .i32⟩ : BufTy).Contents (Elt F)),
    nullary main_c_1189 (constantI S_ 32 0#32),
    nullary main_c_1190 (constantI S_ 32 128#32),
    TRef.unary (TRef.of (T := ⟨S_, .i32⟩) main_c_1189) (TRef.of (T := ⟨S_, .i32⟩) main_call82_v0) id,
    TRef.binary (TRef.of (T := ⟨S_, .i32⟩) main_call82_v0) (TRef.of (T := ⟨S_, .i32⟩) main_v1396) (TRef.of (T := ⟨S_, .i32⟩) main_call82_v1) maxsi,
    TRef.unary (TRef.of (T := ⟨S_, .i32⟩) main_c_1190) (TRef.of (T := ⟨S_, .i32⟩) main_call82_v2) id,
    TRef.binary (TRef.of (T := ⟨S_, .i32⟩) main_call82_v2) (TRef.of (T := ⟨S_, .i32⟩) main_call82_v1) (TRef.of (T := ⟨S_, .i32⟩) main_v1397) minsi,
    unary main_arg2 main_v1398 ((extractStridedSlice S1x1x1 ![10, 1, 1] · slices_S16x4x2_S1x1x1_10_1_1) : (⟨S16x4x2, .i32⟩ : BufTy).Contents (Elt F) → (⟨S1x1x1, .i32⟩ : BufTy).Contents (Elt F)),
    reshape main_v1398 main_v1399 rfl shapeCasts_S1x1x1_S_,
    nullary main_c_1191 (constantI S_ 32 128#32),
    binary main_v1399 main_c_1191 main_v1400 (muli : (⟨S_, .i32⟩ : BufTy).Contents (Elt F) → (⟨S_, .i32⟩ : BufTy).Contents (Elt F) → (⟨S_, .i32⟩ : BufTy).Contents (Elt F)),
    nullary main_c_1192 (constantI S_ 32 0#32),
    nullary main_c_1193 (constantI S_ 32 128#32),
    TRef.unary (TRef.of (T := ⟨S_, .i32⟩) main_c_1192) (TRef.of (T := ⟨S_, .i32⟩) main_call83_v0) id,
    TRef.binary (TRef.of (T := ⟨S_, .i32⟩) main_call83_v0) (TRef.of (T := ⟨S_, .i32⟩) main_v1400) (TRef.of (T := ⟨S_, .i32⟩) main_call83_v1) maxsi,
    TRef.unary (TRef.of (T := ⟨S_, .i32⟩) main_c_1193) (TRef.of (T := ⟨S_, .i32⟩) main_call83_v2) id,
    TRef.binary (TRef.of (T := ⟨S_, .i32⟩) main_call83_v2) (TRef.of (T := ⟨S_, .i32⟩) main_call83_v1) (TRef.of (T := ⟨S_, .i32⟩) main_v1401) minsi,
    unary main_arg1 main_v1402 ((extractStridedSlice S1x1x1x512x512 ![10, 1, 0, 0, 0] · slices_S16x4x1x512x512_S1x1x1x512x512_10_1_0_0_0) : (⟨S16x4x1x512x512, .f32⟩ : BufTy).Contents (Elt F) → (⟨S1x1x1x512x512, .f32⟩ : BufTy).Contents (Elt F)),
    reshape main_v1402 main_v1403 rfl shapeCasts_S1x1x1x512x512_S1x512x512,
    nullary main_c_1194 (constantI S_ 32 0#32),
    nullary main_c_1195 (constantI S_ 32 0#32),
    binary main_c_1194 main_c_1195 main_v1404 (cmpi .slt : (⟨S_, .i32⟩ : BufTy).Contents (Elt F) → (⟨S_, .i32⟩ : BufTy).Contents (Elt F) → (⟨S_, .i1⟩ : BufTy).Contents (Elt F)),
    nullary main_c_1196 (constantI S_ 32 0#32),
    nullary main_c_1197 (constantI S_ 32 1#32),
    binary main_c_1196 main_c_1197 main_v1405 (addi : (⟨S_, .i32⟩ : BufTy).Contents (Elt F) → (⟨S_, .i32⟩ : BufTy).Contents (Elt F) → (⟨S_, .i32⟩ : BufTy).Contents (Elt F)),
    nullary main_c_1198 (constantI S_ 32 0#32),
    ternary main_v1404 main_v1405 main_c_1198 main_v1406 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1199 (constantI S_ 32 0#32),
    binary main_v1397 main_c_1199 main_v1407 (cmpi .slt : (⟨S_, .i32⟩ : BufTy).Contents (Elt F) → (⟨S_, .i32⟩ : BufTy).Contents (Elt F) → (⟨S_, .i1⟩ : BufTy).Contents (Elt F)),
    nullary main_c_1200 (constantI S_ 32 512#32),
    binary main_v1397 main_c_1200 main_v1408 (addi : (⟨S_, .i32⟩ : BufTy).Contents (Elt F) → (⟨S_, .i32⟩ : BufTy).Contents (Elt F) → (⟨S_, .i32⟩ : BufTy).Contents (Elt F)),
    ternary main_v1407 main_v1408 main_v1397 main_v1409 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1201 (constantI S_ 32 0#32),
    binary main_v1401 main_c_1201 main_v1410 (cmpi .slt : (⟨S_, .i32⟩ : BufTy).Contents (Elt F) → (⟨S_, .i32⟩ : BufTy).Contents (Elt F) → (⟨S_, .i1⟩ : BufTy).Contents (Elt F)),
    nullary main_c_1202 (constantI S_ 32 512#32),
    binary main_v1401 main_c_1202 main_v1411 (addi : (⟨S_, .i32⟩ : BufTy).Contents (Elt F) → (⟨S_, .i32⟩ : BufTy).Contents (Elt F) → (⟨S_, .i32⟩ : BufTy).Contents (Elt F)),
    ternary main_v1410 main_v1411 main_v1401 main_v1412 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1403 ![main_v1406, main_v1409, main_v1412] ⟨S_, .i32⟩ main_v1413 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1413 main_v1414 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1203 (constantI S_ 32 10#32),
    nullary main_c_1204 (constantI S_ 32 0#32),
    binary main_c_1203 main_c_1204 main_v1415 (cmpi .slt : (⟨S_, .i32⟩ : BufTy).Contents (Elt F) → (⟨S_, .i32⟩ : BufTy).Contents (Elt F) → (⟨S_, .i1⟩ : BufTy).Contents (Elt F)),
    nullary main_c_1205 (constantI S_ 32 10#32),
    nullary main_c_1206 (constantI S_ 32 16#32),
    binary main_c_1205 main_c_1206 main_v1416 (addi : (⟨S_, .i32⟩ : BufTy).Contents (Elt F) → (⟨S_, .i32⟩ : BufTy).Contents (Elt F) → (⟨S_, .i32⟩ : BufTy).Contents (Elt F)),
    nullary main_c_1207 (constantI S_ 32 10#32),
    ternary main_v1415 main_v1416 main_c_1207 main_v1417 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1208 (constantI S_ 32 0#32),
    nullary main_c_1209 (constantI S_ 32 0#32),
    binary main_c_1208 main_c_1209 main_v1418 (cmpi .slt : (⟨S_, .i32⟩ : BufTy).Contents (Elt F) → (⟨S_, .i32⟩ : BufTy).Contents (Elt F) → (⟨S_, .i1⟩ : BufTy).Contents (Elt F)),
    nullary main_c_1210 (constantI S_ 32 0#32),
    nullary main_c_1211 (constantI S_ 32 1#32),
    binary main_c_1210 main_c_1211 main_v1419 (addi : (⟨S_, .i32⟩ : BufTy).Contents (Elt F) → (⟨S_, .i32⟩ : BufTy).Contents (Elt F) → (⟨S_, .i32⟩ : BufTy).Contents (Elt F)),
    nullary main_c_1212 (constantI S_ 32 0#32),
    ternary main_v1418 main_v1419 main_c_1212 main_v1420 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1213 (constantI S_ 32 0#32),
    binary main_v1397 main_c_1213 main_v1421 (cmpi .slt : (⟨S_, .i32⟩ : BufTy).Contents (Elt F) → (⟨S_, .i32⟩ : BufTy).Contents (Elt F) → (⟨S_, .i1⟩ : BufTy).Contents (Elt F)),
    nullary main_c_1214 (constantI S_ 32 512#32),
    binary main_v1397 main_c_1214 main_v1422 (addi : (⟨S_, .i32⟩ : BufTy).Contents (Elt F) → (⟨S_, .i32⟩ : BufTy).Contents (Elt F) → (⟨S_, .i32⟩ : BufTy).Contents (Elt F)),
    ternary main_v1421 main_v1422 main_v1397 main_v1423 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem pc082_sub : (pc082 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub ..⟩
theorem pc082_fresh : ∀ op ∈ (pc082 (F := F)), op.fresh = ∅ := by
  intro _ h; (repeat (cases h with | head => rfl | tail _ h => ?_)); exact nomatch h

/-- Operations 2893 … 2898 of 4424. -/
noncomputable def pc083 : List (HloOp τ sig (Elt F)) :=
  [ nullary main_c_1215 (constantI S_ 32 0#32),
    binary main_v1401 main_c_1215 main_v1424 (cmpi .slt : (⟨S_, .i32⟩ : BufTy).Contents (Elt F) → (⟨S_, .i32⟩ : BufTy).Contents (Elt F) → (⟨S_, .i1⟩ : BufTy).Contents (Elt F)),
    nullary main_c_1216 (constantI S_ 32 512#32),
    binary main_v1401 main_c_1216 main_v1425 (addi : (⟨S_, .i32⟩ : BufTy).Contents (Elt F) → (⟨S_, .i32⟩ : BufTy).Contents (Elt F) → (⟨S_, .i32⟩ : BufTy).Contents (Elt F)),
    ternary main_v1424 main_v1425 main_v1401 main_v1426 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1393 main_v1414 ![main_v1417, main_v1420, main_v1423, main_v1426] ⟨S_, .i32⟩ main_v1427 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc083_sub : (pc083 (F := F)).Forall fun op => op.bufs ⊆ tcRefs τ sig :=
  ⟨nullary_bufs_sub .., binary_bufs_sub .., nullary_bufs_sub .., binary_bufs_sub .., ternary_bufs_sub .., binaryIndexed_bufs_sub ..⟩
theorem pc083_fresh : ∀ op ∈ (pc083 (F := F)), op.fresh = ∅ := by
  intro _ h; (repeat (cases h with | head => rfl | tail _ h => ?_)); exact nomatch h

/-- Operations 2899 … 2958 of 4424. -/
noncomputable def pc084 : List (HloOp τ sig (Elt F)) :=
  [ unary main_arg2 main_v1428 ((extractStridedSlice S1x1x1 ![10, 2, 0] · slices_S16x4x2_S1x1x1_10_2_0) : (⟨S16x4x2, .i32⟩ : BufTy).Contents (Elt F) → (⟨S1x1x1, .i32⟩ : BufTy).Contents (Elt F)),
    reshape main_v1428 main_v1429 rfl shapeCasts_S1x1x1_S_,
    nullary main_c_1217 (constantI S_ 32 128#32),
    binary main_v1429 main_c_1217 main_v1430 (muli : (⟨S_, .i32⟩ : BufTy).Contents (Elt F) → (⟨S_, .i32⟩ : BufTy).Contents (Elt F) → (⟨S_, .i32⟩ : BufTy).Contents (Elt F)),
    nullary main_c_1218 (constantI S_ 32 0#32),
    nullary main_c_1219 (constantI S_ 32 128#32),
    TRef.unary (TRef.of (T := ⟨S_, .i32⟩) main_c_1218) (TRef.of (T := ⟨S_, .i32⟩) main_call84_v0) id,
    TRef.binary (TRef.of (T := ⟨S_, .i32⟩) main_call84_v0) (TRef.of (T := ⟨S_, .i32⟩) main_v1430) (TRef.of (T := ⟨S_, .i32⟩) main_call84_v1) maxsi,
    TRef.unary (TRef.of (T := ⟨S_, .i32⟩) main_c_1219) (TRef.of (T := ⟨S_, .i32⟩) main_call84_v2) id,
    TRef.binary (TRef.of (T := ⟨S_, .i32⟩) main_call84_v2) (TRef.of (T := ⟨S_, .i32⟩) main_call84_v1) (TRef.of (T := ⟨S_, .i32⟩) main_v1431) minsi,
    unary main_arg2 main_v1432 ((extractStridedSlice S1x1x1 ![10, 2, 1] · slices_S16x4x2_S1x1x1_10_2_1) : (⟨S16x4x2, .i32⟩ : BufTy).Contents (Elt F) → (⟨S1x1x1, .i32⟩ : BufTy).Contents (Elt F)),
    reshape main_v1432 main_v1433 rfl shapeCasts_S1x1x1_S_,
    nullary main_c_1220 (constantI S_ 32 128#32),
    binary main_v1433 main_c_1220 main_v1434 (muli : (⟨S_, .i32⟩ : BufTy).Contents (Elt F) → (⟨S_, .i32⟩ : BufTy).Contents (Elt F) → (⟨S_, .i32⟩ : BufTy).Contents (Elt F)),
    nullary main_c_1221 (constantI S_ 32 0#32),
    nullary main_c_1222 (constantI S_ 32 128#32),
    TRef.unary (TRef.of (T := ⟨S_, .i32⟩) main_c_1221) (TRef.of (T := ⟨S_, .i32⟩) main_call85_v0) id,
    TRef.binary (TRef.of (T := ⟨S_, .i32⟩) main_call85_v0) (TRef.of (T := ⟨S_, .i32⟩) main_v1434) (TRef.of (T := ⟨S_, .i32⟩) main_call85_v1) maxsi,
    TRef.unary (TRef.of (T := ⟨S_, .i32⟩) main_c_1222) (TRef.of (T := ⟨S_, .i32⟩) main_call85_v2) id,
    TRef.binary (TRef.of (T := ⟨S_, .i32⟩) main_call85_v2) (TRef.of (T := ⟨S_, .i32⟩) main_call85_v1) (TRef.of (T := ⟨S_, .i32⟩) main_v1435) minsi,
    unary main_arg1 main_v1436 ((extractStridedSlice S1x1x1x512x512 ![10, 2, 0, 0, 0] · slices_S16x4x1x512x512_S1x1x1x512x512_10_2_0_0_0) : (⟨S16x4x1x512x512, .f32⟩ : BufTy).Contents (Elt F) → (⟨S1x1x1x512x512, .f32⟩ : BufTy).Contents (Elt F)),
    reshape main_v1436 main_v1437 rfl shapeCasts_S1x1x1x512x512_S1x512x512,
    nullary main_c_1223 (constantI S_ 32 0#32),
    nullary main_c_1224 (constantI S_ 32 0#32),
    binary main_c_1223 main_c_1224 main_v1438 (cmpi .slt : (⟨S_, .i32⟩ : BufTy).Contents (Elt F) → (⟨S_, .i32⟩ : BufTy).Contents (Elt F) → (⟨S_, .i1⟩ : BufTy).Contents (Elt F)),
    nullary main_c_1225 (constantI S_ 32 0#32),
    nullary main_c_1226 (constantI S_ 32 1#32),
    binary main_c_1225 main_c_1226 main_v1439 (addi : (⟨S_, .i32⟩ : BufTy).Contents (Elt F) → (⟨S_, .i32⟩ : BufTy).Contents (Elt F) → (⟨S_, .i32⟩ : BufTy).Contents (Elt F)),
    nullary main_c_1227 (constantI S_ 32 0#32),
    ternary main_v1438 main_v1439 main_c_1227 main_v1440 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1228 (constantI S_ 32 0#32),
    binary main_v1431 main_c_1228 main_v1441 (cmpi .slt : (⟨S_, .i32⟩ : BufTy).Contents (Elt F) → (⟨S_, .i32⟩ : BufTy).Contents (Elt F) → (⟨S_, .i1⟩ : BufTy).Contents (Elt F)),
    nullary main_c_1229 (constantI S_ 32 512#32),
    binary main_v1431 main_c_1229 main_v1442 (addi : (⟨S_, .i32⟩ : BufTy).Contents (Elt F) → (⟨S_, .i32⟩ : BufTy).Contents (Elt F) → (⟨S_, .i32⟩ : BufTy).Contents (Elt F)),
    ternary main_v1441 main_v1442 main_v1431 main_v1443 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1230 (constantI S_ 32 0#32),
    binary main_v1435 main_c_1230 main_v1444 (cmpi .slt : (⟨S_, .i32⟩ : BufTy).Contents (Elt F) → (⟨S_, .i32⟩ : BufTy).Contents (Elt F) → (⟨S_, .i1⟩ : BufTy).Contents (Elt F)),
    nullary main_c_1231 (constantI S_ 32 512#32),
    binary main_v1435 main_c_1231 main_v1445 (addi : (⟨S_, .i32⟩ : BufTy).Contents (Elt F) → (⟨S_, .i32⟩ : BufTy).Contents (Elt F) → (⟨S_, .i32⟩ : BufTy).Contents (Elt F)),
    ternary main_v1444 main_v1445 main_v1435 main_v1446 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1437 ![main_v1440, main_v1443, main_v1446] ⟨S_, .i32⟩ main_v1447 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1447 main_v1448 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1232 (constantI S_ 32 10#32),
    nullary main_c_1233 (constantI S_ 32 0#32),
    binary main_c_1232 main_c_1233 main_v1449 (cmpi .slt : (⟨S_, .i32⟩ : BufTy).Contents (Elt F) → (⟨S_, .i32⟩ : BufTy).Contents (Elt F) → (⟨S_, .i1⟩ : BufTy).Contents (Elt F)),
    nullary main_c_1234 (constantI S_ 32 10#32),
    nullary main_c_1235 (constantI S_ 32 16#32),
    binary main_c_1234 main_c_1235 main_v1450 (addi : (⟨S_, .i32⟩ : BufTy).Contents (Elt F) → (⟨S_, .i32⟩ : BufTy).Contents (Elt F) → (⟨S_, .i32⟩ : BufTy).Contents (Elt F)),
    nullary main_c_1236 (constantI S_ 32 10#32),
    ternary main_v1449 main_v1450 main_c_1236 main_v1451 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1237 (constantI S_ 32 0#32),
    nullary main_c_1238 (constantI S_ 32 0#32),
    binary main_c_1237 main_c_1238 main_v1452 (cmpi .slt : (⟨S_, .i32⟩ : BufTy).Contents (Elt F) → (⟨S_, .i32⟩ : BufTy).Contents (Elt F) → (⟨S_, .i1⟩ : BufTy).Contents (Elt F)),
    nullary main_c_1239 (constantI S_ 32 0#32),
    nullary main_c_1240 (constantI S_ 32 1#32),
    binary main_c_1239 main_c_1240 main_v1453 (addi : (⟨S_, .i32⟩ : BufTy).Contents (Elt F) → (⟨S_, .i32⟩ : BufTy).Contents (Elt F) → (⟨S_, .i32⟩ : BufTy).Contents (Elt F)),
    nullary main_c_1241 (constantI S_ 32 0#32),
    ternary main_v1452 main_v1453 main_c_1241 main_v1454 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1242 (constantI S_ 32 0#32),
    binary main_v1431 main_c_1242 main_v1455 (cmpi .slt : (⟨S_, .i32⟩ : BufTy).Contents (Elt F) → (⟨S_, .i32⟩ : BufTy).Contents (Elt F) → (⟨S_, .i1⟩ : BufTy).Contents (Elt F)) ]
theorem pc084_sub : (pc084 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub ..⟩
theorem pc084_fresh : ∀ op ∈ (pc084 (F := F)), op.fresh = ∅ := by
  intro _ h; (repeat (cases h with | head => rfl | tail _ h => ?_)); exact nomatch h

/-- Operations 2959 … 2967 of 4424. -/
noncomputable def pc085 : List (HloOp τ sig (Elt F)) :=
  [ nullary main_c_1243 (constantI S_ 32 512#32),
    binary main_v1431 main_c_1243 main_v1456 (addi : (⟨S_, .i32⟩ : BufTy).Contents (Elt F) → (⟨S_, .i32⟩ : BufTy).Contents (Elt F) → (⟨S_, .i32⟩ : BufTy).Contents (Elt F)),
    ternary main_v1455 main_v1456 main_v1431 main_v1457 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1244 (constantI S_ 32 0#32),
    binary main_v1435 main_c_1244 main_v1458 (cmpi .slt : (⟨S_, .i32⟩ : BufTy).Contents (Elt F) → (⟨S_, .i32⟩ : BufTy).Contents (Elt F) → (⟨S_, .i1⟩ : BufTy).Contents (Elt F)),
    nullary main_c_1245 (constantI S_ 32 512#32),
    binary main_v1435 main_c_1245 main_v1459 (addi : (⟨S_, .i32⟩ : BufTy).Contents (Elt F) → (⟨S_, .i32⟩ : BufTy).Contents (Elt F) → (⟨S_, .i32⟩ : BufTy).Contents (Elt F)),
    ternary main_v1458 main_v1459 main_v1435 main_v1460 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1427 main_v1448 ![main_v1451, main_v1454, main_v1457, main_v1460] ⟨S_, .i32⟩ main_v1461 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc085_sub : (pc085 (F := F)).Forall fun op => op.bufs ⊆ tcRefs τ sig :=
  ⟨nullary_bufs_sub .., binary_bufs_sub .., ternary_bufs_sub .., nullary_bufs_sub .., binary_bufs_sub .., nullary_bufs_sub .., binary_bufs_sub .., ternary_bufs_sub .., binaryIndexed_bufs_sub ..⟩
theorem pc085_fresh : ∀ op ∈ (pc085 (F := F)), op.fresh = ∅ := by
  intro _ h; (repeat (cases h with | head => rfl | tail _ h => ?_)); exact nomatch h

/-- Operations 2968 … 3024 of 4424. -/
noncomputable def pc086 : List (HloOp τ sig (Elt F)) :=
  [ unary main_arg2 main_v1462 ((extractStridedSlice S1x1x1 ![10, 3, 0] · slices_S16x4x2_S1x1x1_10_3_0) : (⟨S16x4x2, .i32⟩ : BufTy).Contents (Elt F) → (⟨S1x1x1, .i32⟩ : BufTy).Contents (Elt F)),
    reshape main_v1462 main_v1463 rfl shapeCasts_S1x1x1_S_,
    nullary main_c_1246 (constantI S_ 32 128#32),
    binary main_v1463 main_c_1246 main_v1464 (muli : (⟨S_, .i32⟩ : BufTy).Contents (Elt F) → (⟨S_, .i32⟩ : BufTy).Contents (Elt F) → (⟨S_, .i32⟩ : BufTy).Contents (Elt F)),
    nullary main_c_1247 (constantI S_ 32 0#32),
    nullary main_c_1248 (constantI S_ 32 128#32),
    TRef.unary (TRef.of (T := ⟨S_, .i32⟩) main_c_1247) (TRef.of (T := ⟨S_, .i32⟩) main_call86_v0) id,
    TRef.binary (TRef.of (T := ⟨S_, .i32⟩) main_call86_v0) (TRef.of (T := ⟨S_, .i32⟩) main_v1464) (TRef.of (T := ⟨S_, .i32⟩) main_call86_v1) maxsi,
    TRef.unary (TRef.of (T := ⟨S_, .i32⟩) main_c_1248) (TRef.of (T := ⟨S_, .i32⟩) main_call86_v2) id,
    TRef.binary (TRef.of (T := ⟨S_, .i32⟩) main_call86_v2) (TRef.of (T := ⟨S_, .i32⟩) main_call86_v1) (TRef.of (T := ⟨S_, .i32⟩) main_v1465) minsi,
    unary main_arg2 main_v1466 ((extractStridedSlice S1x1x1 ![10, 3, 1] · slices_S16x4x2_S1x1x1_10_3_1) : (⟨S16x4x2, .i32⟩ : BufTy).Contents (Elt F) → (⟨S1x1x1, .i32⟩ : BufTy).Contents (Elt F)),
    reshape main_v1466 main_v1467 rfl shapeCasts_S1x1x1_S_,
    nullary main_c_1249 (constantI S_ 32 128#32),
    binary main_v1467 main_c_1249 main_v1468 (muli : (⟨S_, .i32⟩ : BufTy).Contents (Elt F) → (⟨S_, .i32⟩ : BufTy).Contents (Elt F) → (⟨S_, .i32⟩ : BufTy).Contents (Elt F)),
    nullary main_c_1250 (constantI S_ 32 0#32),
    nullary main_c_1251 (constantI S_ 32 128#32),
    TRef.unary (TRef.of (T := ⟨S_, .i32⟩) main_c_1250) (TRef.of (T := ⟨S_, .i32⟩) main_call87_v0) id,
    TRef.binary (TRef.of (T := ⟨S_, .i32⟩) main_call87_v0) (TRef.of (T := ⟨S_, .i32⟩) main_v1468) (TRef.of (T := ⟨S_, .i32⟩) main_call87_v1) maxsi,
    TRef.unary (TRef.of (T := ⟨S_, .i32⟩) main_c_1251) (TRef.of (T := ⟨S_, .i32⟩) main_call87_v2) id,
    TRef.binary (TRef.of (T := ⟨S_, .i32⟩) main_call87_v2) (TRef.of (T := ⟨S_, .i32⟩) main_call87_v1) (TRef.of (T := ⟨S_, .i32⟩) main_v1469) minsi,
    unary main_arg1 main_v1470 ((extractStridedSlice S1x1x1x512x512 ![10, 3, 0, 0, 0] · slices_S16x4x1x512x512_S1x1x1x512x512_10_3_0_0_0) : (⟨S16x4x1x512x512, .f32⟩ : BufTy).Contents (Elt F) → (⟨S1x1x1x512x512, .f32⟩ : BufTy).Contents (Elt F)),
    reshape main_v1470 main_v1471 rfl shapeCasts_S1x1x1x512x512_S1x512x512,
    nullary main_c_1252 (constantI S_ 32 0#32),
    nullary main_c_1253 (constantI S_ 32 0#32),
    binary main_c_1252 main_c_1253 main_v1472 (cmpi .slt : (⟨S_, .i32⟩ : BufTy).Contents (Elt F) → (⟨S_, .i32⟩ : BufTy).Contents (Elt F) → (⟨S_, .i1⟩ : BufTy).Contents (Elt F)),
    nullary main_c_1254 (constantI S_ 32 0#32),
    nullary main_c_1255 (constantI S_ 32 1#32),
    binary main_c_1254 main_c_1255 main_v1473 (addi : (⟨S_, .i32⟩ : BufTy).Contents (Elt F) → (⟨S_, .i32⟩ : BufTy).Contents (Elt F) → (⟨S_, .i32⟩ : BufTy).Contents (Elt F)),
    nullary main_c_1256 (constantI S_ 32 0#32),
    ternary main_v1472 main_v1473 main_c_1256 main_v1474 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1257 (constantI S_ 32 0#32),
    binary main_v1465 main_c_1257 main_v1475 (cmpi .slt : (⟨S_, .i32⟩ : BufTy).Contents (Elt F) → (⟨S_, .i32⟩ : BufTy).Contents (Elt F) → (⟨S_, .i1⟩ : BufTy).Contents (Elt F)),
    nullary main_c_1258 (constantI S_ 32 512#32),
    binary main_v1465 main_c_1258 main_v1476 (addi : (⟨S_, .i32⟩ : BufTy).Contents (Elt F) → (⟨S_, .i32⟩ : BufTy).Contents (Elt F) → (⟨S_, .i32⟩ : BufTy).Contents (Elt F)),
    ternary main_v1475 main_v1476 main_v1465 main_v1477 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1259 (constantI S_ 32 0#32),
    binary main_v1469 main_c_1259 main_v1478 (cmpi .slt : (⟨S_, .i32⟩ : BufTy).Contents (Elt F) → (⟨S_, .i32⟩ : BufTy).Contents (Elt F) → (⟨S_, .i1⟩ : BufTy).Contents (Elt F)),
    nullary main_c_1260 (constantI S_ 32 512#32),
    binary main_v1469 main_c_1260 main_v1479 (addi : (⟨S_, .i32⟩ : BufTy).Contents (Elt F) → (⟨S_, .i32⟩ : BufTy).Contents (Elt F) → (⟨S_, .i32⟩ : BufTy).Contents (Elt F)),
    ternary main_v1478 main_v1479 main_v1469 main_v1480 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1471 ![main_v1474, main_v1477, main_v1480] ⟨S_, .i32⟩ main_v1481 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1481 main_v1482 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1261 (constantI S_ 32 10#32),
    nullary main_c_1262 (constantI S_ 32 0#32),
    binary main_c_1261 main_c_1262 main_v1483 (cmpi .slt : (⟨S_, .i32⟩ : BufTy).Contents (Elt F) → (⟨S_, .i32⟩ : BufTy).Contents (Elt F) → (⟨S_, .i1⟩ : BufTy).Contents (Elt F)),
    nullary main_c_1263 (constantI S_ 32 10#32),
    nullary main_c_1264 (constantI S_ 32 16#32),
    binary main_c_1263 main_c_1264 main_v1484 (addi : (⟨S_, .i32⟩ : BufTy).Contents (Elt F) → (⟨S_, .i32⟩ : BufTy).Contents (Elt F) → (⟨S_, .i32⟩ : BufTy).Contents (Elt F)),
    nullary main_c_1265 (constantI S_ 32 10#32),
    ternary main_v1483 main_v1484 main_c_1265 main_v1485 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1266 (constantI S_ 32 0#32),
    nullary main_c_1267 (constantI S_ 32 0#32),
    binary main_c_1266 main_c_1267 main_v1486 (cmpi .slt : (⟨S_, .i32⟩ : BufTy).Contents (Elt F) → (⟨S_, .i32⟩ : BufTy).Contents (Elt F) → (⟨S_, .i1⟩ : BufTy).Contents (Elt F)),
    nullary main_c_1268 (constantI S_ 32 0#32),
    nullary main_c_1269 (constantI S_ 32 1#32),
    binary main_c_1268 main_c_1269 main_v1487 (addi : (⟨S_, .i32⟩ : BufTy).Contents (Elt F) → (⟨S_, .i32⟩ : BufTy).Contents (Elt F) → (⟨S_, .i32⟩ : BufTy).Contents (Elt F)),
    nullary main_c_1270 (constantI S_ 32 0#32) ]
theorem pc086_sub : (pc086 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub ..⟩
theorem pc086_fresh : ∀ op ∈ (pc086 (F := F)), op.fresh = ∅ := by
  intro _ h; (repeat (cases h with | head => rfl | tail _ h => ?_)); exact nomatch h

/-- Operations 3025 … 3036 of 4424. -/
noncomputable def pc087 : List (HloOp τ sig (Elt F)) :=
  [ ternary main_v1486 main_v1487 main_c_1270 main_v1488 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1271 (constantI S_ 32 0#32),
    binary main_v1465 main_c_1271 main_v1489 (cmpi .slt : (⟨S_, .i32⟩ : BufTy).Contents (Elt F) → (⟨S_, .i32⟩ : BufTy).Contents (Elt F) → (⟨S_, .i1⟩ : BufTy).Contents (Elt F)),
    nullary main_c_1272 (constantI S_ 32 512#32),
    binary main_v1465 main_c_1272 main_v1490 (addi : (⟨S_, .i32⟩ : BufTy).Contents (Elt F) → (⟨S_, .i32⟩ : BufTy).Contents (Elt F) → (⟨S_, .i32⟩ : BufTy).Contents (Elt F)),
    ternary main_v1489 main_v1490 main_v1465 main_v1491 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1273 (constantI S_ 32 0#32),
    binary main_v1469 main_c_1273 main_v1492 (cmpi .slt : (⟨S_, .i32⟩ : BufTy).Contents (Elt F) → (⟨S_, .i32⟩ : BufTy).Contents (Elt F) → (⟨S_, .i1⟩ : BufTy).Contents (Elt F)),
    nullary main_c_1274 (constantI S_ 32 512#32),
    binary main_v1469 main_c_1274 main_v1493 (addi : (⟨S_, .i32⟩ : BufTy).Contents (Elt F) → (⟨S_, .i32⟩ : BufTy).Contents (Elt F) → (⟨S_, .i32⟩ : BufTy).Contents (Elt F)),
    ternary main_v1492 main_v1493 main_v1469 main_v1494 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1461 main_v1482 ![main_v1485, main_v1488, main_v1491, main_v1494] ⟨S_, .i32⟩ main_v1495 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc087_sub : (pc087 (F := F)).Forall fun op => op.bufs ⊆ tcRefs τ sig :=
  ⟨ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc087_fresh : ∀ op ∈ (pc087 (F := F)), op.fresh = ∅ := by
  intro _ h; (repeat (cases h with | head => rfl | tail _ h => ?_)); exact nomatch h

/-- Operations 3037 … 3090 of 4424. -/
noncomputable def pc088 : List (HloOp τ sig (Elt F)) :=
  [ unary main_arg2 main_v1496 ((extractStridedSlice S1x1x1 ![11, 0, 0] · slices_S16x4x2_S1x1x1_11_0_0) : (⟨S16x4x2, .i32⟩ : BufTy).Contents (Elt F) → (⟨S1x1x1, .i32⟩ : BufTy).Contents (Elt F)),
    reshape main_v1496 main_v1497 rfl shapeCasts_S1x1x1_S_,
    nullary main_c_1275 (constantI S_ 32 128#32),
    binary main_v1497 main_c_1275 main_v1498 (muli : (⟨S_, .i32⟩ : BufTy).Contents (Elt F) → (⟨S_, .i32⟩ : BufTy).Contents (Elt F) → (⟨S_, .i32⟩ : BufTy).Contents (Elt F)),
    nullary main_c_1276 (constantI S_ 32 0#32),
    nullary main_c_1277 (constantI S_ 32 128#32),
    TRef.unary (TRef.of (T := ⟨S_, .i32⟩) main_c_1276) (TRef.of (T := ⟨S_, .i32⟩) main_call88_v0) id,
    TRef.binary (TRef.of (T := ⟨S_, .i32⟩) main_call88_v0) (TRef.of (T := ⟨S_, .i32⟩) main_v1498) (TRef.of (T := ⟨S_, .i32⟩) main_call88_v1) maxsi,
    TRef.unary (TRef.of (T := ⟨S_, .i32⟩) main_c_1277) (TRef.of (T := ⟨S_, .i32⟩) main_call88_v2) id,
    TRef.binary (TRef.of (T := ⟨S_, .i32⟩) main_call88_v2) (TRef.of (T := ⟨S_, .i32⟩) main_call88_v1) (TRef.of (T := ⟨S_, .i32⟩) main_v1499) minsi,
    unary main_arg2 main_v1500 ((extractStridedSlice S1x1x1 ![11, 0, 1] · slices_S16x4x2_S1x1x1_11_0_1) : (⟨S16x4x2, .i32⟩ : BufTy).Contents (Elt F) → (⟨S1x1x1, .i32⟩ : BufTy).Contents (Elt F)),
    reshape main_v1500 main_v1501 rfl shapeCasts_S1x1x1_S_,
    nullary main_c_1278 (constantI S_ 32 128#32),
    binary main_v1501 main_c_1278 main_v1502 (muli : (⟨S_, .i32⟩ : BufTy).Contents (Elt F) → (⟨S_, .i32⟩ : BufTy).Contents (Elt F) → (⟨S_, .i32⟩ : BufTy).Contents (Elt F)),
    nullary main_c_1279 (constantI S_ 32 0#32),
    nullary main_c_1280 (constantI S_ 32 128#32),
    TRef.unary (TRef.of (T := ⟨S_, .i32⟩) main_c_1279) (TRef.of (T := ⟨S_, .i32⟩) main_call89_v0) id,
    TRef.binary (TRef.of (T := ⟨S_, .i32⟩) main_call89_v0) (TRef.of (T := ⟨S_, .i32⟩) main_v1502) (TRef.of (T := ⟨S_, .i32⟩) main_call89_v1) maxsi,
    TRef.unary (TRef.of (T := ⟨S_, .i32⟩) main_c_1280) (TRef.of (T := ⟨S_, .i32⟩) main_call89_v2) id,
    TRef.binary (TRef.of (T := ⟨S_, .i32⟩) main_call89_v2) (TRef.of (T := ⟨S_, .i32⟩) main_call89_v1) (TRef.of (T := ⟨S_, .i32⟩) main_v1503) minsi,
    unary main_arg1 main_v1504 ((extractStridedSlice S1x1x1x512x512 ![11, 0, 0, 0, 0] · slices_S16x4x1x512x512_S1x1x1x512x512_11_0_0_0_0) : (⟨S16x4x1x512x512, .f32⟩ : BufTy).Contents (Elt F) → (⟨S1x1x1x512x512, .f32⟩ : BufTy).Contents (Elt F)),
    reshape main_v1504 main_v1505 rfl shapeCasts_S1x1x1x512x512_S1x512x512,
    nullary main_c_1281 (constantI S_ 32 0#32),
    nullary main_c_1282 (constantI S_ 32 0#32),
    binary main_c_1281 main_c_1282 main_v1506 (cmpi .slt : (⟨S_, .i32⟩ : BufTy).Contents (Elt F) → (⟨S_, .i32⟩ : BufTy).Contents (Elt F) → (⟨S_, .i1⟩ : BufTy).Contents (Elt F)),
    nullary main_c_1283 (constantI S_ 32 0#32),
    nullary main_c_1284 (constantI S_ 32 1#32),
    binary main_c_1283 main_c_1284 main_v1507 (addi : (⟨S_, .i32⟩ : BufTy).Contents (Elt F) → (⟨S_, .i32⟩ : BufTy).Contents (Elt F) → (⟨S_, .i32⟩ : BufTy).Contents (Elt F)),
    nullary main_c_1285 (constantI S_ 32 0#32),
    ternary main_v1506 main_v1507 main_c_1285 main_v1508 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1286 (constantI S_ 32 0#32),
    binary main_v1499 main_c_1286 main_v1509 (cmpi .slt : (⟨S_, .i32⟩ : BufTy).Contents (Elt F) → (⟨S_, .i32⟩ : BufTy).Contents (Elt F) → (⟨S_, .i1⟩ : BufTy).Contents (Elt F)),
    nullary main_c_1287 (constantI S_ 32 512#32),
    binary main_v1499 main_c_1287 main_v1510 (addi : (⟨S_, .i32⟩ : BufTy).Contents (Elt F) → (⟨S_, .i32⟩ : BufTy).Contents (Elt F) → (⟨S_, .i32⟩ : BufTy).Contents (Elt F)),
    ternary main_v1509 main_v1510 main_v1499 main_v1511 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1288 (constantI S_ 32 0#32),
    binary main_v1503 main_c_1288 main_v1512 (cmpi .slt : (⟨S_, .i32⟩ : BufTy).Contents (Elt F) → (⟨S_, .i32⟩ : BufTy).Contents (Elt F) → (⟨S_, .i1⟩ : BufTy).Contents (Elt F)),
    nullary main_c_1289 (constantI S_ 32 512#32),
    binary main_v1503 main_c_1289 main_v1513 (addi : (⟨S_, .i32⟩ : BufTy).Contents (Elt F) → (⟨S_, .i32⟩ : BufTy).Contents (Elt F) → (⟨S_, .i32⟩ : BufTy).Contents (Elt F)),
    ternary main_v1512 main_v1513 main_v1503 main_v1514 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1505 ![main_v1508, main_v1511, main_v1514] ⟨S_, .i32⟩ main_v1515 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1515 main_v1516 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1290 (constantI S_ 32 11#32),
    nullary main_c_1291 (constantI S_ 32 0#32),
    binary main_c_1290 main_c_1291 main_v1517 (cmpi .slt : (⟨S_, .i32⟩ : BufTy).Contents (Elt F) → (⟨S_, .i32⟩ : BufTy).Contents (Elt F) → (⟨S_, .i1⟩ : BufTy).Contents (Elt F)),
    nullary main_c_1292 (constantI S_ 32 11#32),
    nullary main_c_1293 (constantI S_ 32 16#32),
    binary main_c_1292 main_c_1293 main_v1518 (addi : (⟨S_, .i32⟩ : BufTy).Contents (Elt F) → (⟨S_, .i32⟩ : BufTy).Contents (Elt F) → (⟨S_, .i32⟩ : BufTy).Contents (Elt F)),
    nullary main_c_1294 (constantI S_ 32 11#32),
    ternary main_v1517 main_v1518 main_c_1294 main_v1519 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1295 (constantI S_ 32 0#32),
    nullary main_c_1296 (constantI S_ 32 0#32),
    binary main_c_1295 main_c_1296 main_v1520 (cmpi .slt : (⟨S_, .i32⟩ : BufTy).Contents (Elt F) → (⟨S_, .i32⟩ : BufTy).Contents (Elt F) → (⟨S_, .i1⟩ : BufTy).Contents (Elt F)),
    nullary main_c_1297 (constantI S_ 32 0#32) ]
theorem pc088_sub : (pc088 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub ..⟩
theorem pc088_fresh : ∀ op ∈ (pc088 (F := F)), op.fresh = ∅ := by
  intro _ h; (repeat (cases h with | head => rfl | tail _ h => ?_)); exact nomatch h

/-- Operations 3091 … 3105 of 4424. -/
noncomputable def pc089 : List (HloOp τ sig (Elt F)) :=
  [ nullary main_c_1298 (constantI S_ 32 1#32),
    binary main_c_1297 main_c_1298 main_v1521 (addi : (⟨S_, .i32⟩ : BufTy).Contents (Elt F) → (⟨S_, .i32⟩ : BufTy).Contents (Elt F) → (⟨S_, .i32⟩ : BufTy).Contents (Elt F)),
    nullary main_c_1299 (constantI S_ 32 0#32),
    ternary main_v1520 main_v1521 main_c_1299 main_v1522 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1300 (constantI S_ 32 0#32),
    binary main_v1499 main_c_1300 main_v1523 (cmpi .slt : (⟨S_, .i32⟩ : BufTy).Contents (Elt F) → (⟨S_, .i32⟩ : BufTy).Contents (Elt F) → (⟨S_, .i1⟩ : BufTy).Contents (Elt F)),
    nullary main_c_1301 (constantI S_ 32 512#32),
    binary main_v1499 main_c_1301 main_v1524 (addi : (⟨S_, .i32⟩ : BufTy).Contents (Elt F) → (⟨S_, .i32⟩ : BufTy).Contents (Elt F) → (⟨S_, .i32⟩ : BufTy).Contents (Elt F)),
    ternary main_v1523 main_v1524 main_v1499 main_v1525 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1302 (constantI S_ 32 0#32),
    binary main_v1503 main_c_1302 main_v1526 (cmpi .slt : (⟨S_, .i32⟩ : BufTy).Contents (Elt F) → (⟨S_, .i32⟩ : BufTy).Contents (Elt F) → (⟨S_, .i1⟩ : BufTy).Contents (Elt F)),
    nullary main_c_1303 (constantI S_ 32 512#32),
    binary main_v1503 main_c_1303 main_v1527 (addi : (⟨S_, .i32⟩ : BufTy).Contents (Elt F) → (⟨S_, .i32⟩ : BufTy).Contents (Elt F) → (⟨S_, .i32⟩ : BufTy).Contents (Elt F)),
    ternary main_v1526 main_v1527 main_v1503 main_v1528 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1495 main_v1516 ![main_v1519, main_v1522, main_v1525, main_v1528] ⟨S_, .i32⟩ main_v1529 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc089_sub : (pc089 (F := F)).Forall fun op => op.bufs ⊆ tcRefs τ sig :=
  ⟨nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc089_fresh : ∀ op ∈ (pc089 (F := F)), op.fresh = ∅ := by
  intro _ h; (repeat (cases h with | head => rfl | tail _ h => ?_)); exact nomatch h

/-- Operations 3106 … 3156 of 4424. -/
noncomputable def pc090 : List (HloOp τ sig (Elt F)) :=
  [ unary main_arg2 main_v1530 ((extractStridedSlice S1x1x1 ![11, 1, 0] · slices_S16x4x2_S1x1x1_11_1_0) : (⟨S16x4x2, .i32⟩ : BufTy).Contents (Elt F) → (⟨S1x1x1, .i32⟩ : BufTy).Contents (Elt F)),
    reshape main_v1530 main_v1531 rfl shapeCasts_S1x1x1_S_,
    nullary main_c_1304 (constantI S_ 32 128#32),
    binary main_v1531 main_c_1304 main_v1532 (muli : (⟨S_, .i32⟩ : BufTy).Contents (Elt F) → (⟨S_, .i32⟩ : BufTy).Contents (Elt F) → (⟨S_, .i32⟩ : BufTy).Contents (Elt F)),
    nullary main_c_1305 (constantI S_ 32 0#32),
    nullary main_c_1306 (constantI S_ 32 128#32),
    TRef.unary (TRef.of (T := ⟨S_, .i32⟩) main_c_1305) (TRef.of (T := ⟨S_, .i32⟩) main_call90_v0) id,
    TRef.binary (TRef.of (T := ⟨S_, .i32⟩) main_call90_v0) (TRef.of (T := ⟨S_, .i32⟩) main_v1532) (TRef.of (T := ⟨S_, .i32⟩) main_call90_v1) maxsi,
    TRef.unary (TRef.of (T := ⟨S_, .i32⟩) main_c_1306) (TRef.of (T := ⟨S_, .i32⟩) main_call90_v2) id,
    TRef.binary (TRef.of (T := ⟨S_, .i32⟩) main_call90_v2) (TRef.of (T := ⟨S_, .i32⟩) main_call90_v1) (TRef.of (T := ⟨S_, .i32⟩) main_v1533) minsi,
    unary main_arg2 main_v1534 ((extractStridedSlice S1x1x1 ![11, 1, 1] · slices_S16x4x2_S1x1x1_11_1_1) : (⟨S16x4x2, .i32⟩ : BufTy).Contents (Elt F) → (⟨S1x1x1, .i32⟩ : BufTy).Contents (Elt F)),
    reshape main_v1534 main_v1535 rfl shapeCasts_S1x1x1_S_,
    nullary main_c_1307 (constantI S_ 32 128#32),
    binary main_v1535 main_c_1307 main_v1536 (muli : (⟨S_, .i32⟩ : BufTy).Contents (Elt F) → (⟨S_, .i32⟩ : BufTy).Contents (Elt F) → (⟨S_, .i32⟩ : BufTy).Contents (Elt F)),
    nullary main_c_1308 (constantI S_ 32 0#32),
    nullary main_c_1309 (constantI S_ 32 128#32),
    TRef.unary (TRef.of (T := ⟨S_, .i32⟩) main_c_1308) (TRef.of (T := ⟨S_, .i32⟩) main_call91_v0) id,
    TRef.binary (TRef.of (T := ⟨S_, .i32⟩) main_call91_v0) (TRef.of (T := ⟨S_, .i32⟩) main_v1536) (TRef.of (T := ⟨S_, .i32⟩) main_call91_v1) maxsi,
    TRef.unary (TRef.of (T := ⟨S_, .i32⟩) main_c_1309) (TRef.of (T := ⟨S_, .i32⟩) main_call91_v2) id,
    TRef.binary (TRef.of (T := ⟨S_, .i32⟩) main_call91_v2) (TRef.of (T := ⟨S_, .i32⟩) main_call91_v1) (TRef.of (T := ⟨S_, .i32⟩) main_v1537) minsi,
    unary main_arg1 main_v1538 ((extractStridedSlice S1x1x1x512x512 ![11, 1, 0, 0, 0] · slices_S16x4x1x512x512_S1x1x1x512x512_11_1_0_0_0) : (⟨S16x4x1x512x512, .f32⟩ : BufTy).Contents (Elt F) → (⟨S1x1x1x512x512, .f32⟩ : BufTy).Contents (Elt F)),
    reshape main_v1538 main_v1539 rfl shapeCasts_S1x1x1x512x512_S1x512x512,
    nullary main_c_1310 (constantI S_ 32 0#32),
    nullary main_c_1311 (constantI S_ 32 0#32),
    binary main_c_1310 main_c_1311 main_v1540 (cmpi .slt : (⟨S_, .i32⟩ : BufTy).Contents (Elt F) → (⟨S_, .i32⟩ : BufTy).Contents (Elt F) → (⟨S_, .i1⟩ : BufTy).Contents (Elt F)),
    nullary main_c_1312 (constantI S_ 32 0#32),
    nullary main_c_1313 (constantI S_ 32 1#32),
    binary main_c_1312 main_c_1313 main_v1541 (addi : (⟨S_, .i32⟩ : BufTy).Contents (Elt F) → (⟨S_, .i32⟩ : BufTy).Contents (Elt F) → (⟨S_, .i32⟩ : BufTy).Contents (Elt F)),
    nullary main_c_1314 (constantI S_ 32 0#32),
    ternary main_v1540 main_v1541 main_c_1314 main_v1542 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1315 (constantI S_ 32 0#32),
    binary main_v1533 main_c_1315 main_v1543 (cmpi .slt : (⟨S_, .i32⟩ : BufTy).Contents (Elt F) → (⟨S_, .i32⟩ : BufTy).Contents (Elt F) → (⟨S_, .i1⟩ : BufTy).Contents (Elt F)),
    nullary main_c_1316 (constantI S_ 32 512#32),
    binary main_v1533 main_c_1316 main_v1544 (addi : (⟨S_, .i32⟩ : BufTy).Contents (Elt F) → (⟨S_, .i32⟩ : BufTy).Contents (Elt F) → (⟨S_, .i32⟩ : BufTy).Contents (Elt F)),
    ternary main_v1543 main_v1544 main_v1533 main_v1545 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1317 (constantI S_ 32 0#32),
    binary main_v1537 main_c_1317 main_v1546 (cmpi .slt : (⟨S_, .i32⟩ : BufTy).Contents (Elt F) → (⟨S_, .i32⟩ : BufTy).Contents (Elt F) → (⟨S_, .i1⟩ : BufTy).Contents (Elt F)),
    nullary main_c_1318 (constantI S_ 32 512#32),
    binary main_v1537 main_c_1318 main_v1547 (addi : (⟨S_, .i32⟩ : BufTy).Contents (Elt F) → (⟨S_, .i32⟩ : BufTy).Contents (Elt F) → (⟨S_, .i32⟩ : BufTy).Contents (Elt F)),
    ternary main_v1546 main_v1547 main_v1537 main_v1548 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1539 ![main_v1542, main_v1545, main_v1548] ⟨S_, .i32⟩ main_v1549 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1549 main_v1550 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1319 (constantI S_ 32 11#32),
    nullary main_c_1320 (constantI S_ 32 0#32),
    binary main_c_1319 main_c_1320 main_v1551 (cmpi .slt : (⟨S_, .i32⟩ : BufTy).Contents (Elt F) → (⟨S_, .i32⟩ : BufTy).Contents (Elt F) → (⟨S_, .i1⟩ : BufTy).Contents (Elt F)),
    nullary main_c_1321 (constantI S_ 32 11#32),
    nullary main_c_1322 (constantI S_ 32 16#32),
    binary main_c_1321 main_c_1322 main_v1552 (addi : (⟨S_, .i32⟩ : BufTy).Contents (Elt F) → (⟨S_, .i32⟩ : BufTy).Contents (Elt F) → (⟨S_, .i32⟩ : BufTy).Contents (Elt F)),
    nullary main_c_1323 (constantI S_ 32 11#32),
    ternary main_v1551 main_v1552 main_c_1323 main_v1553 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1324 (constantI S_ 32 0#32) ]
theorem pc090_sub : (pc090 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub ..⟩
theorem pc090_fresh : ∀ op ∈ (pc090 (F := F)), op.fresh = ∅ := by
  intro _ h; (repeat (cases h with | head => rfl | tail _ h => ?_)); exact nomatch h

/-- Operations 3157 … 3174 of 4424. -/
noncomputable def pc091 : List (HloOp τ sig (Elt F)) :=
  [ nullary main_c_1325 (constantI S_ 32 0#32),
    binary main_c_1324 main_c_1325 main_v1554 (cmpi .slt : (⟨S_, .i32⟩ : BufTy).Contents (Elt F) → (⟨S_, .i32⟩ : BufTy).Contents (Elt F) → (⟨S_, .i1⟩ : BufTy).Contents (Elt F)),
    nullary main_c_1326 (constantI S_ 32 0#32),
    nullary main_c_1327 (constantI S_ 32 1#32),
    binary main_c_1326 main_c_1327 main_v1555 (addi : (⟨S_, .i32⟩ : BufTy).Contents (Elt F) → (⟨S_, .i32⟩ : BufTy).Contents (Elt F) → (⟨S_, .i32⟩ : BufTy).Contents (Elt F)),
    nullary main_c_1328 (constantI S_ 32 0#32),
    ternary main_v1554 main_v1555 main_c_1328 main_v1556 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1329 (constantI S_ 32 0#32),
    binary main_v1533 main_c_1329 main_v1557 (cmpi .slt : (⟨S_, .i32⟩ : BufTy).Contents (Elt F) → (⟨S_, .i32⟩ : BufTy).Contents (Elt F) → (⟨S_, .i1⟩ : BufTy).Contents (Elt F)),
    nullary main_c_1330 (constantI S_ 32 512#32),
    binary main_v1533 main_c_1330 main_v1558 (addi : (⟨S_, .i32⟩ : BufTy).Contents (Elt F) → (⟨S_, .i32⟩ : BufTy).Contents (Elt F) → (⟨S_, .i32⟩ : BufTy).Contents (Elt F)),
    ternary main_v1557 main_v1558 main_v1533 main_v1559 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1331 (constantI S_ 32 0#32),
    binary main_v1537 main_c_1331 main_v1560 (cmpi .slt : (⟨S_, .i32⟩ : BufTy).Contents (Elt F) → (⟨S_, .i32⟩ : BufTy).Contents (Elt F) → (⟨S_, .i1⟩ : BufTy).Contents (Elt F)),
    nullary main_c_1332 (constantI S_ 32 512#32),
    binary main_v1537 main_c_1332 main_v1561 (addi : (⟨S_, .i32⟩ : BufTy).Contents (Elt F) → (⟨S_, .i32⟩ : BufTy).Contents (Elt F) → (⟨S_, .i32⟩ : BufTy).Contents (Elt F)),
    ternary main_v1560 main_v1561 main_v1537 main_v1562 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1529 main_v1550 ![main_v1553, main_v1556, main_v1559, main_v1562] ⟨S_, .i32⟩ main_v1563 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc091_sub : (pc091 (F := F)).Forall fun op => op.bufs ⊆ tcRefs τ sig :=
  ⟨nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc091_fresh : ∀ op ∈ (pc091 (F := F)), op.fresh = ∅ := by
  intro _ h; (repeat (cases h with | head => rfl | tail _ h => ?_)); exact nomatch h

/-- Operations 3175 … 3222 of 4424. -/
noncomputable def pc092 : List (HloOp τ sig (Elt F)) :=
  [ unary main_arg2 main_v1564 ((extractStridedSlice S1x1x1 ![11, 2, 0] · slices_S16x4x2_S1x1x1_11_2_0) : (⟨S16x4x2, .i32⟩ : BufTy).Contents (Elt F) → (⟨S1x1x1, .i32⟩ : BufTy).Contents (Elt F)),
    reshape main_v1564 main_v1565 rfl shapeCasts_S1x1x1_S_,
    nullary main_c_1333 (constantI S_ 32 128#32),
    binary main_v1565 main_c_1333 main_v1566 (muli : (⟨S_, .i32⟩ : BufTy).Contents (Elt F) → (⟨S_, .i32⟩ : BufTy).Contents (Elt F) → (⟨S_, .i32⟩ : BufTy).Contents (Elt F)),
    nullary main_c_1334 (constantI S_ 32 0#32),
    nullary main_c_1335 (constantI S_ 32 128#32),
    TRef.unary (TRef.of (T := ⟨S_, .i32⟩) main_c_1334) (TRef.of (T := ⟨S_, .i32⟩) main_call92_v0) id,
    TRef.binary (TRef.of (T := ⟨S_, .i32⟩) main_call92_v0) (TRef.of (T := ⟨S_, .i32⟩) main_v1566) (TRef.of (T := ⟨S_, .i32⟩) main_call92_v1) maxsi,
    TRef.unary (TRef.of (T := ⟨S_, .i32⟩) main_c_1335) (TRef.of (T := ⟨S_, .i32⟩) main_call92_v2) id,
    TRef.binary (TRef.of (T := ⟨S_, .i32⟩) main_call92_v2) (TRef.of (T := ⟨S_, .i32⟩) main_call92_v1) (TRef.of (T := ⟨S_, .i32⟩) main_v1567) minsi,
    unary main_arg2 main_v1568 ((extractStridedSlice S1x1x1 ![11, 2, 1] · slices_S16x4x2_S1x1x1_11_2_1) : (⟨S16x4x2, .i32⟩ : BufTy).Contents (Elt F) → (⟨S1x1x1, .i32⟩ : BufTy).Contents (Elt F)),
    reshape main_v1568 main_v1569 rfl shapeCasts_S1x1x1_S_,
    nullary main_c_1336 (constantI S_ 32 128#32),
    binary main_v1569 main_c_1336 main_v1570 (muli : (⟨S_, .i32⟩ : BufTy).Contents (Elt F) → (⟨S_, .i32⟩ : BufTy).Contents (Elt F) → (⟨S_, .i32⟩ : BufTy).Contents (Elt F)),
    nullary main_c_1337 (constantI S_ 32 0#32),
    nullary main_c_1338 (constantI S_ 32 128#32),
    TRef.unary (TRef.of (T := ⟨S_, .i32⟩) main_c_1337) (TRef.of (T := ⟨S_, .i32⟩) main_call93_v0) id,
    TRef.binary (TRef.of (T := ⟨S_, .i32⟩) main_call93_v0) (TRef.of (T := ⟨S_, .i32⟩) main_v1570) (TRef.of (T := ⟨S_, .i32⟩) main_call93_v1) maxsi,
    TRef.unary (TRef.of (T := ⟨S_, .i32⟩) main_c_1338) (TRef.of (T := ⟨S_, .i32⟩) main_call93_v2) id,
    TRef.binary (TRef.of (T := ⟨S_, .i32⟩) main_call93_v2) (TRef.of (T := ⟨S_, .i32⟩) main_call93_v1) (TRef.of (T := ⟨S_, .i32⟩) main_v1571) minsi,
    unary main_arg1 main_v1572 ((extractStridedSlice S1x1x1x512x512 ![11, 2, 0, 0, 0] · slices_S16x4x1x512x512_S1x1x1x512x512_11_2_0_0_0) : (⟨S16x4x1x512x512, .f32⟩ : BufTy).Contents (Elt F) → (⟨S1x1x1x512x512, .f32⟩ : BufTy).Contents (Elt F)),
    reshape main_v1572 main_v1573 rfl shapeCasts_S1x1x1x512x512_S1x512x512,
    nullary main_c_1339 (constantI S_ 32 0#32),
    nullary main_c_1340 (constantI S_ 32 0#32),
    binary main_c_1339 main_c_1340 main_v1574 (cmpi .slt : (⟨S_, .i32⟩ : BufTy).Contents (Elt F) → (⟨S_, .i32⟩ : BufTy).Contents (Elt F) → (⟨S_, .i1⟩ : BufTy).Contents (Elt F)),
    nullary main_c_1341 (constantI S_ 32 0#32),
    nullary main_c_1342 (constantI S_ 32 1#32),
    binary main_c_1341 main_c_1342 main_v1575 (addi : (⟨S_, .i32⟩ : BufTy).Contents (Elt F) → (⟨S_, .i32⟩ : BufTy).Contents (Elt F) → (⟨S_, .i32⟩ : BufTy).Contents (Elt F)),
    nullary main_c_1343 (constantI S_ 32 0#32),
    ternary main_v1574 main_v1575 main_c_1343 main_v1576 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1344 (constantI S_ 32 0#32),
    binary main_v1567 main_c_1344 main_v1577 (cmpi .slt : (⟨S_, .i32⟩ : BufTy).Contents (Elt F) → (⟨S_, .i32⟩ : BufTy).Contents (Elt F) → (⟨S_, .i1⟩ : BufTy).Contents (Elt F)),
    nullary main_c_1345 (constantI S_ 32 512#32),
    binary main_v1567 main_c_1345 main_v1578 (addi : (⟨S_, .i32⟩ : BufTy).Contents (Elt F) → (⟨S_, .i32⟩ : BufTy).Contents (Elt F) → (⟨S_, .i32⟩ : BufTy).Contents (Elt F)),
    ternary main_v1577 main_v1578 main_v1567 main_v1579 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1346 (constantI S_ 32 0#32),
    binary main_v1571 main_c_1346 main_v1580 (cmpi .slt : (⟨S_, .i32⟩ : BufTy).Contents (Elt F) → (⟨S_, .i32⟩ : BufTy).Contents (Elt F) → (⟨S_, .i1⟩ : BufTy).Contents (Elt F)),
    nullary main_c_1347 (constantI S_ 32 512#32),
    binary main_v1571 main_c_1347 main_v1581 (addi : (⟨S_, .i32⟩ : BufTy).Contents (Elt F) → (⟨S_, .i32⟩ : BufTy).Contents (Elt F) → (⟨S_, .i32⟩ : BufTy).Contents (Elt F)),
    ternary main_v1580 main_v1581 main_v1571 main_v1582 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1573 ![main_v1576, main_v1579, main_v1582] ⟨S_, .i32⟩ main_v1583 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1583 main_v1584 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1348 (constantI S_ 32 11#32),
    nullary main_c_1349 (constantI S_ 32 0#32),
    binary main_c_1348 main_c_1349 main_v1585 (cmpi .slt : (⟨S_, .i32⟩ : BufTy).Contents (Elt F) → (⟨S_, .i32⟩ : BufTy).Contents (Elt F) → (⟨S_, .i1⟩ : BufTy).Contents (Elt F)),
    nullary main_c_1350 (constantI S_ 32 11#32),
    nullary main_c_1351 (constantI S_ 32 16#32),
    binary main_c_1350 main_c_1351 main_v1586 (addi : (⟨S_, .i32⟩ : BufTy).Contents (Elt F) → (⟨S_, .i32⟩ : BufTy).Contents (Elt F) → (⟨S_, .i32⟩ : BufTy).Contents (Elt F)) ]
theorem pc092_sub : (pc092 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub ..⟩
theorem pc092_fresh : ∀ op ∈ (pc092 (F := F)), op.fresh = ∅ := by
  intro _ h; (repeat (cases h with | head => rfl | tail _ h => ?_)); exact nomatch h

/-- Operations 3223 … 3243 of 4424. -/
noncomputable def pc093 : List (HloOp τ sig (Elt F)) :=
  [ nullary main_c_1352 (constantI S_ 32 11#32),
    ternary main_v1585 main_v1586 main_c_1352 main_v1587 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1353 (constantI S_ 32 0#32),
    nullary main_c_1354 (constantI S_ 32 0#32),
    binary main_c_1353 main_c_1354 main_v1588 (cmpi .slt : (⟨S_, .i32⟩ : BufTy).Contents (Elt F) → (⟨S_, .i32⟩ : BufTy).Contents (Elt F) → (⟨S_, .i1⟩ : BufTy).Contents (Elt F)),
    nullary main_c_1355 (constantI S_ 32 0#32),
    nullary main_c_1356 (constantI S_ 32 1#32),
    binary main_c_1355 main_c_1356 main_v1589 (addi : (⟨S_, .i32⟩ : BufTy).Contents (Elt F) → (⟨S_, .i32⟩ : BufTy).Contents (Elt F) → (⟨S_, .i32⟩ : BufTy).Contents (Elt F)),
    nullary main_c_1357 (constantI S_ 32 0#32),
    ternary main_v1588 main_v1589 main_c_1357 main_v1590 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1358 (constantI S_ 32 0#32),
    binary main_v1567 main_c_1358 main_v1591 (cmpi .slt : (⟨S_, .i32⟩ : BufTy).Contents (Elt F) → (⟨S_, .i32⟩ : BufTy).Contents (Elt F) → (⟨S_, .i1⟩ : BufTy).Contents (Elt F)),
    nullary main_c_1359 (constantI S_ 32 512#32),
    binary main_v1567 main_c_1359 main_v1592 (addi : (⟨S_, .i32⟩ : BufTy).Contents (Elt F) → (⟨S_, .i32⟩ : BufTy).Contents (Elt F) → (⟨S_, .i32⟩ : BufTy).Contents (Elt F)),
    ternary main_v1591 main_v1592 main_v1567 main_v1593 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1360 (constantI S_ 32 0#32),
    binary main_v1571 main_c_1360 main_v1594 (cmpi .slt : (⟨S_, .i32⟩ : BufTy).Contents (Elt F) → (⟨S_, .i32⟩ : BufTy).Contents (Elt F) → (⟨S_, .i1⟩ : BufTy).Contents (Elt F)),
    nullary main_c_1361 (constantI S_ 32 512#32),
    binary main_v1571 main_c_1361 main_v1595 (addi : (⟨S_, .i32⟩ : BufTy).Contents (Elt F) → (⟨S_, .i32⟩ : BufTy).Contents (Elt F) → (⟨S_, .i32⟩ : BufTy).Contents (Elt F)),
    ternary main_v1594 main_v1595 main_v1571 main_v1596 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1563 main_v1584 ![main_v1587, main_v1590, main_v1593, main_v1596] ⟨S_, .i32⟩ main_v1597 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc093_sub : (pc093 (F := F)).Forall fun op => op.bufs ⊆ tcRefs τ sig :=
  ⟨nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc093_fresh : ∀ op ∈ (pc093 (F := F)), op.fresh = ∅ := by
  intro _ h; (repeat (cases h with | head => rfl | tail _ h => ?_)); exact nomatch h

/-- Operations 3244 … 3288 of 4424. -/
noncomputable def pc094 : List (HloOp τ sig (Elt F)) :=
  [ unary main_arg2 main_v1598 ((extractStridedSlice S1x1x1 ![11, 3, 0] · slices_S16x4x2_S1x1x1_11_3_0) : (⟨S16x4x2, .i32⟩ : BufTy).Contents (Elt F) → (⟨S1x1x1, .i32⟩ : BufTy).Contents (Elt F)),
    reshape main_v1598 main_v1599 rfl shapeCasts_S1x1x1_S_,
    nullary main_c_1362 (constantI S_ 32 128#32),
    binary main_v1599 main_c_1362 main_v1600 (muli : (⟨S_, .i32⟩ : BufTy).Contents (Elt F) → (⟨S_, .i32⟩ : BufTy).Contents (Elt F) → (⟨S_, .i32⟩ : BufTy).Contents (Elt F)),
    nullary main_c_1363 (constantI S_ 32 0#32),
    nullary main_c_1364 (constantI S_ 32 128#32),
    TRef.unary (TRef.of (T := ⟨S_, .i32⟩) main_c_1363) (TRef.of (T := ⟨S_, .i32⟩) main_call94_v0) id,
    TRef.binary (TRef.of (T := ⟨S_, .i32⟩) main_call94_v0) (TRef.of (T := ⟨S_, .i32⟩) main_v1600) (TRef.of (T := ⟨S_, .i32⟩) main_call94_v1) maxsi,
    TRef.unary (TRef.of (T := ⟨S_, .i32⟩) main_c_1364) (TRef.of (T := ⟨S_, .i32⟩) main_call94_v2) id,
    TRef.binary (TRef.of (T := ⟨S_, .i32⟩) main_call94_v2) (TRef.of (T := ⟨S_, .i32⟩) main_call94_v1) (TRef.of (T := ⟨S_, .i32⟩) main_v1601) minsi,
    unary main_arg2 main_v1602 ((extractStridedSlice S1x1x1 ![11, 3, 1] · slices_S16x4x2_S1x1x1_11_3_1) : (⟨S16x4x2, .i32⟩ : BufTy).Contents (Elt F) → (⟨S1x1x1, .i32⟩ : BufTy).Contents (Elt F)),
    reshape main_v1602 main_v1603 rfl shapeCasts_S1x1x1_S_,
    nullary main_c_1365 (constantI S_ 32 128#32),
    binary main_v1603 main_c_1365 main_v1604 (muli : (⟨S_, .i32⟩ : BufTy).Contents (Elt F) → (⟨S_, .i32⟩ : BufTy).Contents (Elt F) → (⟨S_, .i32⟩ : BufTy).Contents (Elt F)),
    nullary main_c_1366 (constantI S_ 32 0#32),
    nullary main_c_1367 (constantI S_ 32 128#32),
    TRef.unary (TRef.of (T := ⟨S_, .i32⟩) main_c_1366) (TRef.of (T := ⟨S_, .i32⟩) main_call95_v0) id,
    TRef.binary (TRef.of (T := ⟨S_, .i32⟩) main_call95_v0) (TRef.of (T := ⟨S_, .i32⟩) main_v1604) (TRef.of (T := ⟨S_, .i32⟩) main_call95_v1) maxsi,
    TRef.unary (TRef.of (T := ⟨S_, .i32⟩) main_c_1367) (TRef.of (T := ⟨S_, .i32⟩) main_call95_v2) id,
    TRef.binary (TRef.of (T := ⟨S_, .i32⟩) main_call95_v2) (TRef.of (T := ⟨S_, .i32⟩) main_call95_v1) (TRef.of (T := ⟨S_, .i32⟩) main_v1605) minsi,
    unary main_arg1 main_v1606 ((extractStridedSlice S1x1x1x512x512 ![11, 3, 0, 0, 0] · slices_S16x4x1x512x512_S1x1x1x512x512_11_3_0_0_0) : (⟨S16x4x1x512x512, .f32⟩ : BufTy).Contents (Elt F) → (⟨S1x1x1x512x512, .f32⟩ : BufTy).Contents (Elt F)),
    reshape main_v1606 main_v1607 rfl shapeCasts_S1x1x1x512x512_S1x512x512,
    nullary main_c_1368 (constantI S_ 32 0#32),
    nullary main_c_1369 (constantI S_ 32 0#32),
    binary main_c_1368 main_c_1369 main_v1608 (cmpi .slt : (⟨S_, .i32⟩ : BufTy).Contents (Elt F) → (⟨S_, .i32⟩ : BufTy).Contents (Elt F) → (⟨S_, .i1⟩ : BufTy).Contents (Elt F)),
    nullary main_c_1370 (constantI S_ 32 0#32),
    nullary main_c_1371 (constantI S_ 32 1#32),
    binary main_c_1370 main_c_1371 main_v1609 (addi : (⟨S_, .i32⟩ : BufTy).Contents (Elt F) → (⟨S_, .i32⟩ : BufTy).Contents (Elt F) → (⟨S_, .i32⟩ : BufTy).Contents (Elt F)),
    nullary main_c_1372 (constantI S_ 32 0#32),
    ternary main_v1608 main_v1609 main_c_1372 main_v1610 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1373 (constantI S_ 32 0#32),
    binary main_v1601 main_c_1373 main_v1611 (cmpi .slt : (⟨S_, .i32⟩ : BufTy).Contents (Elt F) → (⟨S_, .i32⟩ : BufTy).Contents (Elt F) → (⟨S_, .i1⟩ : BufTy).Contents (Elt F)),
    nullary main_c_1374 (constantI S_ 32 512#32),
    binary main_v1601 main_c_1374 main_v1612 (addi : (⟨S_, .i32⟩ : BufTy).Contents (Elt F) → (⟨S_, .i32⟩ : BufTy).Contents (Elt F) → (⟨S_, .i32⟩ : BufTy).Contents (Elt F)),
    ternary main_v1611 main_v1612 main_v1601 main_v1613 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1375 (constantI S_ 32 0#32),
    binary main_v1605 main_c_1375 main_v1614 (cmpi .slt : (⟨S_, .i32⟩ : BufTy).Contents (Elt F) → (⟨S_, .i32⟩ : BufTy).Contents (Elt F) → (⟨S_, .i1⟩ : BufTy).Contents (Elt F)),
    nullary main_c_1376 (constantI S_ 32 512#32),
    binary main_v1605 main_c_1376 main_v1615 (addi : (⟨S_, .i32⟩ : BufTy).Contents (Elt F) → (⟨S_, .i32⟩ : BufTy).Contents (Elt F) → (⟨S_, .i32⟩ : BufTy).Contents (Elt F)),
    ternary main_v1614 main_v1615 main_v1605 main_v1616 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1607 ![main_v1610, main_v1613, main_v1616] ⟨S_, .i32⟩ main_v1617 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1617 main_v1618 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1377 (constantI S_ 32 11#32),
    nullary main_c_1378 (constantI S_ 32 0#32),
    binary main_c_1377 main_c_1378 main_v1619 (cmpi .slt : (⟨S_, .i32⟩ : BufTy).Contents (Elt F) → (⟨S_, .i32⟩ : BufTy).Contents (Elt F) → (⟨S_, .i1⟩ : BufTy).Contents (Elt F)) ]
theorem pc094_sub : (pc094 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub ..⟩
theorem pc094_fresh : ∀ op ∈ (pc094 (F := F)), op.fresh = ∅ := by
  intro _ h; (repeat (cases h with | head => rfl | tail _ h => ?_)); exact nomatch h

/-- Operations 3289 … 3312 of 4424. -/
noncomputable def pc095 : List (HloOp τ sig (Elt F)) :=
  [ nullary main_c_1379 (constantI S_ 32 11#32),
    nullary main_c_1380 (constantI S_ 32 16#32),
    binary main_c_1379 main_c_1380 main_v1620 (addi : (⟨S_, .i32⟩ : BufTy).Contents (Elt F) → (⟨S_, .i32⟩ : BufTy).Contents (Elt F) → (⟨S_, .i32⟩ : BufTy).Contents (Elt F)),
    nullary main_c_1381 (constantI S_ 32 11#32),
    ternary main_v1619 main_v1620 main_c_1381 main_v1621 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1382 (constantI S_ 32 0#32),
    nullary main_c_1383 (constantI S_ 32 0#32),
    binary main_c_1382 main_c_1383 main_v1622 (cmpi .slt : (⟨S_, .i32⟩ : BufTy).Contents (Elt F) → (⟨S_, .i32⟩ : BufTy).Contents (Elt F) → (⟨S_, .i1⟩ : BufTy).Contents (Elt F)),
    nullary main_c_1384 (constantI S_ 32 0#32),
    nullary main_c_1385 (constantI S_ 32 1#32),
    binary main_c_1384 main_c_1385 main_v1623 (addi : (⟨S_, .i32⟩ : BufTy).Contents (Elt F) → (⟨S_, .i32⟩ : BufTy).Contents (Elt F) → (⟨S_, .i32⟩ : BufTy).Contents (Elt F)),
    nullary main_c_1386 (constantI S_ 32 0#32),
    ternary main_v1622 main_v1623 main_c_1386 main_v1624 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1387 (constantI S_ 32 0#32),
    binary main_v1601 main_c_1387 main_v1625 (cmpi .slt : (⟨S_, .i32⟩ : BufTy).Contents (Elt F) → (⟨S_, .i32⟩ : BufTy).Contents (Elt F) → (⟨S_, .i1⟩ : BufTy).Contents (Elt F)),
    nullary main_c_1388 (constantI S_ 32 512#32),
    binary main_v1601 main_c_1388 main_v1626 (addi : (⟨S_, .i32⟩ : BufTy).Contents (Elt F) → (⟨S_, .i32⟩ : BufTy).Contents (Elt F) → (⟨S_, .i32⟩ : BufTy).Contents (Elt F)),
    ternary main_v1625 main_v1626 main_v1601 main_v1627 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1389 (constantI S_ 32 0#32),
    binary main_v1605 main_c_1389 main_v1628 (cmpi .slt : (⟨S_, .i32⟩ : BufTy).Contents (Elt F) → (⟨S_, .i32⟩ : BufTy).Contents (Elt F) → (⟨S_, .i1⟩ : BufTy).Contents (Elt F)),
    nullary main_c_1390 (constantI S_ 32 512#32),
    binary main_v1605 main_c_1390 main_v1629 (addi : (⟨S_, .i32⟩ : BufTy).Contents (Elt F) → (⟨S_, .i32⟩ : BufTy).Contents (Elt F) → (⟨S_, .i32⟩ : BufTy).Contents (Elt F)),
    ternary main_v1628 main_v1629 main_v1605 main_v1630 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1597 main_v1618 ![main_v1621, main_v1624, main_v1627, main_v1630] ⟨S_, .i32⟩ main_v1631 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc095_sub : (pc095 (F := F)).Forall fun op => op.bufs ⊆ tcRefs τ sig :=
  ⟨nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc095_fresh : ∀ op ∈ (pc095 (F := F)), op.fresh = ∅ := by
  intro _ h; (repeat (cases h with | head => rfl | tail _ h => ?_)); exact nomatch h

/-- Operations 3313 … 3354 of 4424. -/
noncomputable def pc096 : List (HloOp τ sig (Elt F)) :=
  [ unary main_arg2 main_v1632 ((extractStridedSlice S1x1x1 ![12, 0, 0] · slices_S16x4x2_S1x1x1_12_0_0) : (⟨S16x4x2, .i32⟩ : BufTy).Contents (Elt F) → (⟨S1x1x1, .i32⟩ : BufTy).Contents (Elt F)),
    reshape main_v1632 main_v1633 rfl shapeCasts_S1x1x1_S_,
    nullary main_c_1391 (constantI S_ 32 128#32),
    binary main_v1633 main_c_1391 main_v1634 (muli : (⟨S_, .i32⟩ : BufTy).Contents (Elt F) → (⟨S_, .i32⟩ : BufTy).Contents (Elt F) → (⟨S_, .i32⟩ : BufTy).Contents (Elt F)),
    nullary main_c_1392 (constantI S_ 32 0#32),
    nullary main_c_1393 (constantI S_ 32 128#32),
    TRef.unary (TRef.of (T := ⟨S_, .i32⟩) main_c_1392) (TRef.of (T := ⟨S_, .i32⟩) main_call96_v0) id,
    TRef.binary (TRef.of (T := ⟨S_, .i32⟩) main_call96_v0) (TRef.of (T := ⟨S_, .i32⟩) main_v1634) (TRef.of (T := ⟨S_, .i32⟩) main_call96_v1) maxsi,
    TRef.unary (TRef.of (T := ⟨S_, .i32⟩) main_c_1393) (TRef.of (T := ⟨S_, .i32⟩) main_call96_v2) id,
    TRef.binary (TRef.of (T := ⟨S_, .i32⟩) main_call96_v2) (TRef.of (T := ⟨S_, .i32⟩) main_call96_v1) (TRef.of (T := ⟨S_, .i32⟩) main_v1635) minsi,
    unary main_arg2 main_v1636 ((extractStridedSlice S1x1x1 ![12, 0, 1] · slices_S16x4x2_S1x1x1_12_0_1) : (⟨S16x4x2, .i32⟩ : BufTy).Contents (Elt F) → (⟨S1x1x1, .i32⟩ : BufTy).Contents (Elt F)),
    reshape main_v1636 main_v1637 rfl shapeCasts_S1x1x1_S_,
    nullary main_c_1394 (constantI S_ 32 128#32),
    binary main_v1637 main_c_1394 main_v1638 (muli : (⟨S_, .i32⟩ : BufTy).Contents (Elt F) → (⟨S_, .i32⟩ : BufTy).Contents (Elt F) → (⟨S_, .i32⟩ : BufTy).Contents (Elt F)),
    nullary main_c_1395 (constantI S_ 32 0#32),
    nullary main_c_1396 (constantI S_ 32 128#32),
    TRef.unary (TRef.of (T := ⟨S_, .i32⟩) main_c_1395) (TRef.of (T := ⟨S_, .i32⟩) main_call97_v0) id,
    TRef.binary (TRef.of (T := ⟨S_, .i32⟩) main_call97_v0) (TRef.of (T := ⟨S_, .i32⟩) main_v1638) (TRef.of (T := ⟨S_, .i32⟩) main_call97_v1) maxsi,
    TRef.unary (TRef.of (T := ⟨S_, .i32⟩) main_c_1396) (TRef.of (T := ⟨S_, .i32⟩) main_call97_v2) id,
    TRef.binary (TRef.of (T := ⟨S_, .i32⟩) main_call97_v2) (TRef.of (T := ⟨S_, .i32⟩) main_call97_v1) (TRef.of (T := ⟨S_, .i32⟩) main_v1639) minsi,
    unary main_arg1 main_v1640 ((extractStridedSlice S1x1x1x512x512 ![12, 0, 0, 0, 0] · slices_S16x4x1x512x512_S1x1x1x512x512_12_0_0_0_0) : (⟨S16x4x1x512x512, .f32⟩ : BufTy).Contents (Elt F) → (⟨S1x1x1x512x512, .f32⟩ : BufTy).Contents (Elt F)),
    reshape main_v1640 main_v1641 rfl shapeCasts_S1x1x1x512x512_S1x512x512,
    nullary main_c_1397 (constantI S_ 32 0#32),
    nullary main_c_1398 (constantI S_ 32 0#32),
    binary main_c_1397 main_c_1398 main_v1642 (cmpi .slt : (⟨S_, .i32⟩ : BufTy).Contents (Elt F) → (⟨S_, .i32⟩ : BufTy).Contents (Elt F) → (⟨S_, .i1⟩ : BufTy).Contents (Elt F)),
    nullary main_c_1399 (constantI S_ 32 0#32),
    nullary main_c_1400 (constantI S_ 32 1#32),
    binary main_c_1399 main_c_1400 main_v1643 (addi : (⟨S_, .i32⟩ : BufTy).Contents (Elt F) → (⟨S_, .i32⟩ : BufTy).Contents (Elt F) → (⟨S_, .i32⟩ : BufTy).Contents (Elt F)),
    nullary main_c_1401 (constantI S_ 32 0#32),
    ternary main_v1642 main_v1643 main_c_1401 main_v1644 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1402 (constantI S_ 32 0#32),
    binary main_v1635 main_c_1402 main_v1645 (cmpi .slt : (⟨S_, .i32⟩ : BufTy).Contents (Elt F) → (⟨S_, .i32⟩ : BufTy).Contents (Elt F) → (⟨S_, .i1⟩ : BufTy).Contents (Elt F)),
    nullary main_c_1403 (constantI S_ 32 512#32),
    binary main_v1635 main_c_1403 main_v1646 (addi : (⟨S_, .i32⟩ : BufTy).Contents (Elt F) → (⟨S_, .i32⟩ : BufTy).Contents (Elt F) → (⟨S_, .i32⟩ : BufTy).Contents (Elt F)),
    ternary main_v1645 main_v1646 main_v1635 main_v1647 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1404 (constantI S_ 32 0#32),
    binary main_v1639 main_c_1404 main_v1648 (cmpi .slt : (⟨S_, .i32⟩ : BufTy).Contents (Elt F) → (⟨S_, .i32⟩ : BufTy).Contents (Elt F) → (⟨S_, .i1⟩ : BufTy).Contents (Elt F)),
    nullary main_c_1405 (constantI S_ 32 512#32),
    binary main_v1639 main_c_1405 main_v1649 (addi : (⟨S_, .i32⟩ : BufTy).Contents (Elt F) → (⟨S_, .i32⟩ : BufTy).Contents (Elt F) → (⟨S_, .i32⟩ : BufTy).Contents (Elt F)),
    ternary main_v1648 main_v1649 main_v1639 main_v1650 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1641 ![main_v1644, main_v1647, main_v1650] ⟨S_, .i32⟩ main_v1651 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1651 main_v1652 (broadcastInDim S1x1x384x384 ![1, 2, 3] bcast_S1x384x384_S1x1x384x384_1_2_3 : (⟨S1x384x384, .f32⟩ : BufTy).Contents (Elt F) → (⟨S1x1x384x384, .f32⟩ : BufTy).Contents (Elt F)) ]
theorem pc096_sub : (pc096 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub ..⟩
theorem pc096_fresh : ∀ op ∈ (pc096 (F := F)), op.fresh = ∅ := by
  intro _ h; (repeat (cases h with | head => rfl | tail _ h => ?_)); exact nomatch h

/-- Operations 3355 … 3381 of 4424. -/
noncomputable def pc097 : List (HloOp τ sig (Elt F)) :=
  [ nullary main_c_1406 (constantI S_ 32 12#32),
    nullary main_c_1407 (constantI S_ 32 0#32),
    binary main_c_1406 main_c_1407 main_v1653 (cmpi .slt : (⟨S_, .i32⟩ : BufTy).Contents (Elt F) → (⟨S_, .i32⟩ : BufTy).Contents (Elt F) → (⟨S_, .i1⟩ : BufTy).Contents (Elt F)),
    nullary main_c_1408 (constantI S_ 32 12#32),
    nullary main_c_1409 (constantI S_ 32 16#32),
    binary main_c_1408 main_c_1409 main_v1654 (addi : (⟨S_, .i32⟩ : BufTy).Contents (Elt F) → (⟨S_, .i32⟩ : BufTy).Contents (Elt F) → (⟨S_, .i32⟩ : BufTy).Contents (Elt F)),
    nullary main_c_1410 (constantI S_ 32 12#32),
    ternary main_v1653 main_v1654 main_c_1410 main_v1655 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1411 (constantI S_ 32 0#32),
    nullary main_c_1412 (constantI S_ 32 0#32),
    binary main_c_1411 main_c_1412 main_v1656 (cmpi .slt : (⟨S_, .i32⟩ : BufTy).Contents (Elt F) → (⟨S_, .i32⟩ : BufTy).Contents (Elt F) → (⟨S_, .i1⟩ : BufTy).Contents (Elt F)),
    nullary main_c_1413 (constantI S_ 32 0#32),
    nullary main_c_1414 (constantI S_ 32 1#32),
    binary main_c_1413 main_c_1414 main_v1657 (addi : (⟨S_, .i32⟩ : BufTy).Contents (Elt F) → (⟨S_, .i32⟩ : BufTy).Contents (Elt F) → (⟨S_, .i32⟩ : BufTy).Contents (Elt F)),
    nullary main_c_1415 (constantI S_ 32 0#32),
    ternary main_v1656 main_v1657 main_c_1415 main_v1658 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1416 (constantI S_ 32 0#32),
    binary main_v1635 main_c_1416 main_v1659 (cmpi .slt : (⟨S_, .i32⟩ : BufTy).Contents (Elt F) → (⟨S_, .i32⟩ : BufTy).Contents (Elt F) → (⟨S_, .i1⟩ : BufTy).Contents (Elt F)),
    nullary main_c_1417 (constantI S_ 32 512#32),
    binary main_v1635 main_c_1417 main_v1660 (addi : (⟨S_, .i32⟩ : BufTy).Contents (Elt F) → (⟨S_, .i32⟩ : BufTy).Contents (Elt F) → (⟨S_, .i32⟩ : BufTy).Contents (Elt F)),
    ternary main_v1659 main_v1660 main_v1635 main_v1661 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1418 (constantI S_ 32 0#32),
    binary main_v1639 main_c_1418 main_v1662 (cmpi .slt : (⟨S_, .i32⟩ : BufTy).Contents (Elt F) → (⟨S_, .i32⟩ : BufTy).Contents (Elt F) → (⟨S_, .i1⟩ : BufTy).Contents (Elt F)),
    nullary main_c_1419 (constantI S_ 32 512#32),
    binary main_v1639 main_c_1419 main_v1663 (addi : (⟨S_, .i32⟩ : BufTy).Contents (Elt F) → (⟨S_, .i32⟩ : BufTy).Contents (Elt F) → (⟨S_, .i32⟩ : BufTy).Contents (Elt F)),
    ternary main_v1662 main_v1663 main_v1639 main_v1664 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1631 main_v1652 ![main_v1655, main_v1658, main_v1661, main_v1664] ⟨S_, .i32⟩ main_v1665 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc097_sub : (pc097 (F := F)).Forall fun op => op.bufs ⊆ tcRefs τ sig :=
  ⟨nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc097_fresh : ∀ op ∈ (pc097 (F := F)), op.fresh = ∅ := by
  intro _ h; (repeat (cases h with | head => rfl | tail _ h => ?_)); exact nomatch h

/-- Operations 3382 … 3420 of 4424. -/
noncomputable def pc098 : List (HloOp τ sig (Elt F)) :=
  [ unary main_arg2 main_v1666 ((extractStridedSlice S1x1x1 ![12, 1, 0] · slices_S16x4x2_S1x1x1_12_1_0) : (⟨S16x4x2, .i32⟩ : BufTy).Contents (Elt F) → (⟨S1x1x1, .i32⟩ : BufTy).Contents (Elt F)),
    reshape main_v1666 main_v1667 rfl shapeCasts_S1x1x1_S_,
    nullary main_c_1420 (constantI S_ 32 128#32),
    binary main_v1667 main_c_1420 main_v1668 (muli : (⟨S_, .i32⟩ : BufTy).Contents (Elt F) → (⟨S_, .i32⟩ : BufTy).Contents (Elt F) → (⟨S_, .i32⟩ : BufTy).Contents (Elt F)),
    nullary main_c_1421 (constantI S_ 32 0#32),
    nullary main_c_1422 (constantI S_ 32 128#32),
    TRef.unary (TRef.of (T := ⟨S_, .i32⟩) main_c_1421) (TRef.of (T := ⟨S_, .i32⟩) main_call98_v0) id,
    TRef.binary (TRef.of (T := ⟨S_, .i32⟩) main_call98_v0) (TRef.of (T := ⟨S_, .i32⟩) main_v1668) (TRef.of (T := ⟨S_, .i32⟩) main_call98_v1) maxsi,
    TRef.unary (TRef.of (T := ⟨S_, .i32⟩) main_c_1422) (TRef.of (T := ⟨S_, .i32⟩) main_call98_v2) id,
    TRef.binary (TRef.of (T := ⟨S_, .i32⟩) main_call98_v2) (TRef.of (T := ⟨S_, .i32⟩) main_call98_v1) (TRef.of (T := ⟨S_, .i32⟩) main_v1669) minsi,
    unary main_arg2 main_v1670 ((extractStridedSlice S1x1x1 ![12, 1, 1] · slices_S16x4x2_S1x1x1_12_1_1) : (⟨S16x4x2, .i32⟩ : BufTy).Contents (Elt F) → (⟨S1x1x1, .i32⟩ : BufTy).Contents (Elt F)),
    reshape main_v1670 main_v1671 rfl shapeCasts_S1x1x1_S_,
    nullary main_c_1423 (constantI S_ 32 128#32),
    binary main_v1671 main_c_1423 main_v1672 (muli : (⟨S_, .i32⟩ : BufTy).Contents (Elt F) → (⟨S_, .i32⟩ : BufTy).Contents (Elt F) → (⟨S_, .i32⟩ : BufTy).Contents (Elt F)),
    nullary main_c_1424 (constantI S_ 32 0#32),
    nullary main_c_1425 (constantI S_ 32 128#32),
    TRef.unary (TRef.of (T := ⟨S_, .i32⟩) main_c_1424) (TRef.of (T := ⟨S_, .i32⟩) main_call99_v0) id,
    TRef.binary (TRef.of (T := ⟨S_, .i32⟩) main_call99_v0) (TRef.of (T := ⟨S_, .i32⟩) main_v1672) (TRef.of (T := ⟨S_, .i32⟩) main_call99_v1) maxsi,
    TRef.unary (TRef.of (T := ⟨S_, .i32⟩) main_c_1425) (TRef.of (T := ⟨S_, .i32⟩) main_call99_v2) id,
    TRef.binary (TRef.of (T := ⟨S_, .i32⟩) main_call99_v2) (TRef.of (T := ⟨S_, .i32⟩) main_call99_v1) (TRef.of (T := ⟨S_, .i32⟩) main_v1673) minsi,
    unary main_arg1 main_v1674 ((extractStridedSlice S1x1x1x512x512 ![12, 1, 0, 0, 0] · slices_S16x4x1x512x512_S1x1x1x512x512_12_1_0_0_0) : (⟨S16x4x1x512x512, .f32⟩ : BufTy).Contents (Elt F) → (⟨S1x1x1x512x512, .f32⟩ : BufTy).Contents (Elt F)),
    reshape main_v1674 main_v1675 rfl shapeCasts_S1x1x1x512x512_S1x512x512,
    nullary main_c_1426 (constantI S_ 32 0#32),
    nullary main_c_1427 (constantI S_ 32 0#32),
    binary main_c_1426 main_c_1427 main_v1676 (cmpi .slt : (⟨S_, .i32⟩ : BufTy).Contents (Elt F) → (⟨S_, .i32⟩ : BufTy).Contents (Elt F) → (⟨S_, .i1⟩ : BufTy).Contents (Elt F)),
    nullary main_c_1428 (constantI S_ 32 0#32),
    nullary main_c_1429 (constantI S_ 32 1#32),
    binary main_c_1428 main_c_1429 main_v1677 (addi : (⟨S_, .i32⟩ : BufTy).Contents (Elt F) → (⟨S_, .i32⟩ : BufTy).Contents (Elt F) → (⟨S_, .i32⟩ : BufTy).Contents (Elt F)),
    nullary main_c_1430 (constantI S_ 32 0#32),
    ternary main_v1676 main_v1677 main_c_1430 main_v1678 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1431 (constantI S_ 32 0#32),
    binary main_v1669 main_c_1431 main_v1679 (cmpi .slt : (⟨S_, .i32⟩ : BufTy).Contents (Elt F) → (⟨S_, .i32⟩ : BufTy).Contents (Elt F) → (⟨S_, .i1⟩ : BufTy).Contents (Elt F)),
    nullary main_c_1432 (constantI S_ 32 512#32),
    binary main_v1669 main_c_1432 main_v1680 (addi : (⟨S_, .i32⟩ : BufTy).Contents (Elt F) → (⟨S_, .i32⟩ : BufTy).Contents (Elt F) → (⟨S_, .i32⟩ : BufTy).Contents (Elt F)),
    ternary main_v1679 main_v1680 main_v1669 main_v1681 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1433 (constantI S_ 32 0#32),
    binary main_v1673 main_c_1433 main_v1682 (cmpi .slt : (⟨S_, .i32⟩ : BufTy).Contents (Elt F) → (⟨S_, .i32⟩ : BufTy).Contents (Elt F) → (⟨S_, .i1⟩ : BufTy).Contents (Elt F)),
    nullary main_c_1434 (constantI S_ 32 512#32),
    binary main_v1673 main_c_1434 main_v1683 (addi : (⟨S_, .i32⟩ : BufTy).Contents (Elt F) → (⟨S_, .i32⟩ : BufTy).Contents (Elt F) → (⟨S_, .i32⟩ : BufTy).Contents (Elt F)) ]
theorem pc098_sub : (pc098 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub ..⟩
theorem pc098_fresh : ∀ op ∈ (pc098 (F := F)), op.fresh = ∅ := by
  intro _ h; (repeat (cases h with | head => rfl | tail _ h => ?_)); exact nomatch h

/-- Operations 3421 … 3450 of 4424. -/
noncomputable def pc099 : List (HloOp τ sig (Elt F)) :=
  [ ternary main_v1682 main_v1683 main_v1673 main_v1684 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1675 ![main_v1678, main_v1681, main_v1684] ⟨S_, .i32⟩ main_v1685 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1685 main_v1686 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1435 (constantI S_ 32 12#32),
    nullary main_c_1436 (constantI S_ 32 0#32),
    binary main_c_1435 main_c_1436 main_v1687 (cmpi .slt : (⟨S_, .i32⟩ : BufTy).Contents (Elt F) → (⟨S_, .i32⟩ : BufTy).Contents (Elt F) → (⟨S_, .i1⟩ : BufTy).Contents (Elt F)),
    nullary main_c_1437 (constantI S_ 32 12#32),
    nullary main_c_1438 (constantI S_ 32 16#32),
    binary main_c_1437 main_c_1438 main_v1688 (addi : (⟨S_, .i32⟩ : BufTy).Contents (Elt F) → (⟨S_, .i32⟩ : BufTy).Contents (Elt F) → (⟨S_, .i32⟩ : BufTy).Contents (Elt F)),
    nullary main_c_1439 (constantI S_ 32 12#32),
    ternary main_v1687 main_v1688 main_c_1439 main_v1689 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1440 (constantI S_ 32 0#32),
    nullary main_c_1441 (constantI S_ 32 0#32),
    binary main_c_1440 main_c_1441 main_v1690 (cmpi .slt : (⟨S_, .i32⟩ : BufTy).Contents (Elt F) → (⟨S_, .i32⟩ : BufTy).Contents (Elt F) → (⟨S_, .i1⟩ : BufTy).Contents (Elt F)),
    nullary main_c_1442 (constantI S_ 32 0#32),
    nullary main_c_1443 (constantI S_ 32 1#32),
    binary main_c_1442 main_c_1443 main_v1691 (addi : (⟨S_, .i32⟩ : BufTy).Contents (Elt F) → (⟨S_, .i32⟩ : BufTy).Contents (Elt F) → (⟨S_, .i32⟩ : BufTy).Contents (Elt F)),
    nullary main_c_1444 (constantI S_ 32 0#32),
    ternary main_v1690 main_v1691 main_c_1444 main_v1692 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1445 (constantI S_ 32 0#32),
    binary main_v1669 main_c_1445 main_v1693 (cmpi .slt : (⟨S_, .i32⟩ : BufTy).Contents (Elt F) → (⟨S_, .i32⟩ : BufTy).Contents (Elt F) → (⟨S_, .i1⟩ : BufTy).Contents (Elt F)),
    nullary main_c_1446 (constantI S_ 32 512#32),
    binary main_v1669 main_c_1446 main_v1694 (addi : (⟨S_, .i32⟩ : BufTy).Contents (Elt F) → (⟨S_, .i32⟩ : BufTy).Contents (Elt F) → (⟨S_, .i32⟩ : BufTy).Contents (Elt F)),
    ternary main_v1693 main_v1694 main_v1669 main_v1695 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1447 (constantI S_ 32 0#32),
    binary main_v1673 main_c_1447 main_v1696 (cmpi .slt : (⟨S_, .i32⟩ : BufTy).Contents (Elt F) → (⟨S_, .i32⟩ : BufTy).Contents (Elt F) → (⟨S_, .i1⟩ : BufTy).Contents (Elt F)),
    nullary main_c_1448 (constantI S_ 32 512#32),
    binary main_v1673 main_c_1448 main_v1697 (addi : (⟨S_, .i32⟩ : BufTy).Contents (Elt F) → (⟨S_, .i32⟩ : BufTy).Contents (Elt F) → (⟨S_, .i32⟩ : BufTy).Contents (Elt F)),
    ternary main_v1696 main_v1697 main_v1673 main_v1698 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1665 main_v1686 ![main_v1689, main_v1692, main_v1695, main_v1698] ⟨S_, .i32⟩ main_v1699 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc099_sub : (pc099 (F := F)).Forall fun op => op.bufs ⊆ tcRefs τ sig :=
  ⟨ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc099_fresh : ∀ op ∈ (pc099 (F := F)), op.fresh = ∅ := by
  intro _ h; (repeat (cases h with | head => rfl | tail _ h => ?_)); exact nomatch h

/-- Operations 3451 … 3486 of 4424. -/
noncomputable def pc100 : List (HloOp τ sig (Elt F)) :=
  [ unary main_arg2 main_v1700 ((extractStridedSlice S1x1x1 ![12, 2, 0] · slices_S16x4x2_S1x1x1_12_2_0) : (⟨S16x4x2, .i32⟩ : BufTy).Contents (Elt F) → (⟨S1x1x1, .i32⟩ : BufTy).Contents (Elt F)),
    reshape main_v1700 main_v1701 rfl shapeCasts_S1x1x1_S_,
    nullary main_c_1449 (constantI S_ 32 128#32),
    binary main_v1701 main_c_1449 main_v1702 (muli : (⟨S_, .i32⟩ : BufTy).Contents (Elt F) → (⟨S_, .i32⟩ : BufTy).Contents (Elt F) → (⟨S_, .i32⟩ : BufTy).Contents (Elt F)),
    nullary main_c_1450 (constantI S_ 32 0#32),
    nullary main_c_1451 (constantI S_ 32 128#32),
    TRef.unary (TRef.of (T := ⟨S_, .i32⟩) main_c_1450) (TRef.of (T := ⟨S_, .i32⟩) main_call100_v0) id,
    TRef.binary (TRef.of (T := ⟨S_, .i32⟩) main_call100_v0) (TRef.of (T := ⟨S_, .i32⟩) main_v1702) (TRef.of (T := ⟨S_, .i32⟩) main_call100_v1) maxsi,
    TRef.unary (TRef.of (T := ⟨S_, .i32⟩) main_c_1451) (TRef.of (T := ⟨S_, .i32⟩) main_call100_v2) id,
    TRef.binary (TRef.of (T := ⟨S_, .i32⟩) main_call100_v2) (TRef.of (T := ⟨S_, .i32⟩) main_call100_v1) (TRef.of (T := ⟨S_, .i32⟩) main_v1703) minsi,
    unary main_arg2 main_v1704 ((extractStridedSlice S1x1x1 ![12, 2, 1] · slices_S16x4x2_S1x1x1_12_2_1) : (⟨S16x4x2, .i32⟩ : BufTy).Contents (Elt F) → (⟨S1x1x1, .i32⟩ : BufTy).Contents (Elt F)),
    reshape main_v1704 main_v1705 rfl shapeCasts_S1x1x1_S_,
    nullary main_c_1452 (constantI S_ 32 128#32),
    binary main_v1705 main_c_1452 main_v1706 (muli : (⟨S_, .i32⟩ : BufTy).Contents (Elt F) → (⟨S_, .i32⟩ : BufTy).Contents (Elt F) → (⟨S_, .i32⟩ : BufTy).Contents (Elt F)),
    nullary main_c_1453 (constantI S_ 32 0#32),
    nullary main_c_1454 (constantI S_ 32 128#32),
    TRef.unary (TRef.of (T := ⟨S_, .i32⟩) main_c_1453) (TRef.of (T := ⟨S_, .i32⟩) main_call101_v0) id,
    TRef.binary (TRef.of (T := ⟨S_, .i32⟩) main_call101_v0) (TRef.of (T := ⟨S_, .i32⟩) main_v1706) (TRef.of (T := ⟨S_, .i32⟩) main_call101_v1) maxsi,
    TRef.unary (TRef.of (T := ⟨S_, .i32⟩) main_c_1454) (TRef.of (T := ⟨S_, .i32⟩) main_call101_v2) id,
    TRef.binary (TRef.of (T := ⟨S_, .i32⟩) main_call101_v2) (TRef.of (T := ⟨S_, .i32⟩) main_call101_v1) (TRef.of (T := ⟨S_, .i32⟩) main_v1707) minsi,
    unary main_arg1 main_v1708 ((extractStridedSlice S1x1x1x512x512 ![12, 2, 0, 0, 0] · slices_S16x4x1x512x512_S1x1x1x512x512_12_2_0_0_0) : (⟨S16x4x1x512x512, .f32⟩ : BufTy).Contents (Elt F) → (⟨S1x1x1x512x512, .f32⟩ : BufTy).Contents (Elt F)),
    reshape main_v1708 main_v1709 rfl shapeCasts_S1x1x1x512x512_S1x512x512,
    nullary main_c_1455 (constantI S_ 32 0#32),
    nullary main_c_1456 (constantI S_ 32 0#32),
    binary main_c_1455 main_c_1456 main_v1710 (cmpi .slt : (⟨S_, .i32⟩ : BufTy).Contents (Elt F) → (⟨S_, .i32⟩ : BufTy).Contents (Elt F) → (⟨S_, .i1⟩ : BufTy).Contents (Elt F)),
    nullary main_c_1457 (constantI S_ 32 0#32),
    nullary main_c_1458 (constantI S_ 32 1#32),
    binary main_c_1457 main_c_1458 main_v1711 (addi : (⟨S_, .i32⟩ : BufTy).Contents (Elt F) → (⟨S_, .i32⟩ : BufTy).Contents (Elt F) → (⟨S_, .i32⟩ : BufTy).Contents (Elt F)),
    nullary main_c_1459 (constantI S_ 32 0#32),
    ternary main_v1710 main_v1711 main_c_1459 main_v1712 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1460 (constantI S_ 32 0#32),
    binary main_v1703 main_c_1460 main_v1713 (cmpi .slt : (⟨S_, .i32⟩ : BufTy).Contents (Elt F) → (⟨S_, .i32⟩ : BufTy).Contents (Elt F) → (⟨S_, .i1⟩ : BufTy).Contents (Elt F)),
    nullary main_c_1461 (constantI S_ 32 512#32),
    binary main_v1703 main_c_1461 main_v1714 (addi : (⟨S_, .i32⟩ : BufTy).Contents (Elt F) → (⟨S_, .i32⟩ : BufTy).Contents (Elt F) → (⟨S_, .i32⟩ : BufTy).Contents (Elt F)),
    ternary main_v1713 main_v1714 main_v1703 main_v1715 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1462 (constantI S_ 32 0#32) ]
theorem pc100_sub : (pc100 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub ..⟩
theorem pc100_fresh : ∀ op ∈ (pc100 (F := F)), op.fresh = ∅ := by
  intro _ h; (repeat (cases h with | head => rfl | tail _ h => ?_)); exact nomatch h

/-- Operations 3487 … 3519 of 4424. -/
noncomputable def pc101 : List (HloOp τ sig (Elt F)) :=
  [ binary main_v1707 main_c_1462 main_v1716 (cmpi .slt : (⟨S_, .i32⟩ : BufTy).Contents (Elt F) → (⟨S_, .i32⟩ : BufTy).Contents (Elt F) → (⟨S_, .i1⟩ : BufTy).Contents (Elt F)),
    nullary main_c_1463 (constantI S_ 32 512#32),
    binary main_v1707 main_c_1463 main_v1717 (addi : (⟨S_, .i32⟩ : BufTy).Contents (Elt F) → (⟨S_, .i32⟩ : BufTy).Contents (Elt F) → (⟨S_, .i32⟩ : BufTy).Contents (Elt F)),
    ternary main_v1716 main_v1717 main_v1707 main_v1718 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1709 ![main_v1712, main_v1715, main_v1718] ⟨S_, .i32⟩ main_v1719 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1719 main_v1720 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1464 (constantI S_ 32 12#32),
    nullary main_c_1465 (constantI S_ 32 0#32),
    binary main_c_1464 main_c_1465 main_v1721 (cmpi .slt : (⟨S_, .i32⟩ : BufTy).Contents (Elt F) → (⟨S_, .i32⟩ : BufTy).Contents (Elt F) → (⟨S_, .i1⟩ : BufTy).Contents (Elt F)),
    nullary main_c_1466 (constantI S_ 32 12#32),
    nullary main_c_1467 (constantI S_ 32 16#32),
    binary main_c_1466 main_c_1467 main_v1722 (addi : (⟨S_, .i32⟩ : BufTy).Contents (Elt F) → (⟨S_, .i32⟩ : BufTy).Contents (Elt F) → (⟨S_, .i32⟩ : BufTy).Contents (Elt F)),
    nullary main_c_1468 (constantI S_ 32 12#32),
    ternary main_v1721 main_v1722 main_c_1468 main_v1723 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1469 (constantI S_ 32 0#32),
    nullary main_c_1470 (constantI S_ 32 0#32),
    binary main_c_1469 main_c_1470 main_v1724 (cmpi .slt : (⟨S_, .i32⟩ : BufTy).Contents (Elt F) → (⟨S_, .i32⟩ : BufTy).Contents (Elt F) → (⟨S_, .i1⟩ : BufTy).Contents (Elt F)),
    nullary main_c_1471 (constantI S_ 32 0#32),
    nullary main_c_1472 (constantI S_ 32 1#32),
    binary main_c_1471 main_c_1472 main_v1725 (addi : (⟨S_, .i32⟩ : BufTy).Contents (Elt F) → (⟨S_, .i32⟩ : BufTy).Contents (Elt F) → (⟨S_, .i32⟩ : BufTy).Contents (Elt F)),
    nullary main_c_1473 (constantI S_ 32 0#32),
    ternary main_v1724 main_v1725 main_c_1473 main_v1726 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1474 (constantI S_ 32 0#32),
    binary main_v1703 main_c_1474 main_v1727 (cmpi .slt : (⟨S_, .i32⟩ : BufTy).Contents (Elt F) → (⟨S_, .i32⟩ : BufTy).Contents (Elt F) → (⟨S_, .i1⟩ : BufTy).Contents (Elt F)),
    nullary main_c_1475 (constantI S_ 32 512#32),
    binary main_v1703 main_c_1475 main_v1728 (addi : (⟨S_, .i32⟩ : BufTy).Contents (Elt F) → (⟨S_, .i32⟩ : BufTy).Contents (Elt F) → (⟨S_, .i32⟩ : BufTy).Contents (Elt F)),
    ternary main_v1727 main_v1728 main_v1703 main_v1729 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1476 (constantI S_ 32 0#32),
    binary main_v1707 main_c_1476 main_v1730 (cmpi .slt : (⟨S_, .i32⟩ : BufTy).Contents (Elt F) → (⟨S_, .i32⟩ : BufTy).Contents (Elt F) → (⟨S_, .i1⟩ : BufTy).Contents (Elt F)),
    nullary main_c_1477 (constantI S_ 32 512#32),
    binary main_v1707 main_c_1477 main_v1731 (addi : (⟨S_, .i32⟩ : BufTy).Contents (Elt F) → (⟨S_, .i32⟩ : BufTy).Contents (Elt F) → (⟨S_, .i32⟩ : BufTy).Contents (Elt F)),
    ternary main_v1730 main_v1731 main_v1707 main_v1732 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1699 main_v1720 ![main_v1723, main_v1726, main_v1729, main_v1732] ⟨S_, .i32⟩ main_v1733 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc101_sub : (pc101 (F := F)).Forall fun op => op.bufs ⊆ tcRefs τ sig :=
  ⟨binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc101_fresh : ∀ op ∈ (pc101 (F := F)), op.fresh = ∅ := by
  intro _ h; (repeat (cases h with | head => rfl | tail _ h => ?_)); exact nomatch h

/-- Operations 3520 … 3552 of 4424. -/
noncomputable def pc102 : List (HloOp τ sig (Elt F)) :=
  [ unary main_arg2 main_v1734 ((extractStridedSlice S1x1x1 ![12, 3, 0] · slices_S16x4x2_S1x1x1_12_3_0) : (⟨S16x4x2, .i32⟩ : BufTy).Contents (Elt F) → (⟨S1x1x1, .i32⟩ : BufTy).Contents (Elt F)),
    reshape main_v1734 main_v1735 rfl shapeCasts_S1x1x1_S_,
    nullary main_c_1478 (constantI S_ 32 128#32),
    binary main_v1735 main_c_1478 main_v1736 (muli : (⟨S_, .i32⟩ : BufTy).Contents (Elt F) → (⟨S_, .i32⟩ : BufTy).Contents (Elt F) → (⟨S_, .i32⟩ : BufTy).Contents (Elt F)),
    nullary main_c_1479 (constantI S_ 32 0#32),
    nullary main_c_1480 (constantI S_ 32 128#32),
    TRef.unary (TRef.of (T := ⟨S_, .i32⟩) main_c_1479) (TRef.of (T := ⟨S_, .i32⟩) main_call102_v0) id,
    TRef.binary (TRef.of (T := ⟨S_, .i32⟩) main_call102_v0) (TRef.of (T := ⟨S_, .i32⟩) main_v1736) (TRef.of (T := ⟨S_, .i32⟩) main_call102_v1) maxsi,
    TRef.unary (TRef.of (T := ⟨S_, .i32⟩) main_c_1480) (TRef.of (T := ⟨S_, .i32⟩) main_call102_v2) id,
    TRef.binary (TRef.of (T := ⟨S_, .i32⟩) main_call102_v2) (TRef.of (T := ⟨S_, .i32⟩) main_call102_v1) (TRef.of (T := ⟨S_, .i32⟩) main_v1737) minsi,
    unary main_arg2 main_v1738 ((extractStridedSlice S1x1x1 ![12, 3, 1] · slices_S16x4x2_S1x1x1_12_3_1) : (⟨S16x4x2, .i32⟩ : BufTy).Contents (Elt F) → (⟨S1x1x1, .i32⟩ : BufTy).Contents (Elt F)),
    reshape main_v1738 main_v1739 rfl shapeCasts_S1x1x1_S_,
    nullary main_c_1481 (constantI S_ 32 128#32),
    binary main_v1739 main_c_1481 main_v1740 (muli : (⟨S_, .i32⟩ : BufTy).Contents (Elt F) → (⟨S_, .i32⟩ : BufTy).Contents (Elt F) → (⟨S_, .i32⟩ : BufTy).Contents (Elt F)),
    nullary main_c_1482 (constantI S_ 32 0#32),
    nullary main_c_1483 (constantI S_ 32 128#32),
    TRef.unary (TRef.of (T := ⟨S_, .i32⟩) main_c_1482) (TRef.of (T := ⟨S_, .i32⟩) main_call103_v0) id,
    TRef.binary (TRef.of (T := ⟨S_, .i32⟩) main_call103_v0) (TRef.of (T := ⟨S_, .i32⟩) main_v1740) (TRef.of (T := ⟨S_, .i32⟩) main_call103_v1) maxsi,
    TRef.unary (TRef.of (T := ⟨S_, .i32⟩) main_c_1483) (TRef.of (T := ⟨S_, .i32⟩) main_call103_v2) id,
    TRef.binary (TRef.of (T := ⟨S_, .i32⟩) main_call103_v2) (TRef.of (T := ⟨S_, .i32⟩) main_call103_v1) (TRef.of (T := ⟨S_, .i32⟩) main_v1741) minsi,
    unary main_arg1 main_v1742 ((extractStridedSlice S1x1x1x512x512 ![12, 3, 0, 0, 0] · slices_S16x4x1x512x512_S1x1x1x512x512_12_3_0_0_0) : (⟨S16x4x1x512x512, .f32⟩ : BufTy).Contents (Elt F) → (⟨S1x1x1x512x512, .f32⟩ : BufTy).Contents (Elt F)),
    reshape main_v1742 main_v1743 rfl shapeCasts_S1x1x1x512x512_S1x512x512,
    nullary main_c_1484 (constantI S_ 32 0#32),
    nullary main_c_1485 (constantI S_ 32 0#32),
    binary main_c_1484 main_c_1485 main_v1744 (cmpi .slt : (⟨S_, .i32⟩ : BufTy).Contents (Elt F) → (⟨S_, .i32⟩ : BufTy).Contents (Elt F) → (⟨S_, .i1⟩ : BufTy).Contents (Elt F)),
    nullary main_c_1486 (constantI S_ 32 0#32),
    nullary main_c_1487 (constantI S_ 32 1#32),
    binary main_c_1486 main_c_1487 main_v1745 (addi : (⟨S_, .i32⟩ : BufTy).Contents (Elt F) → (⟨S_, .i32⟩ : BufTy).Contents (Elt F) → (⟨S_, .i32⟩ : BufTy).Contents (Elt F)),
    nullary main_c_1488 (constantI S_ 32 0#32),
    ternary main_v1744 main_v1745 main_c_1488 main_v1746 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1489 (constantI S_ 32 0#32),
    binary main_v1737 main_c_1489 main_v1747 (cmpi .slt : (⟨S_, .i32⟩ : BufTy).Contents (Elt F) → (⟨S_, .i32⟩ : BufTy).Contents (Elt F) → (⟨S_, .i1⟩ : BufTy).Contents (Elt F)),
    nullary main_c_1490 (constantI S_ 32 512#32) ]
theorem pc102_sub : (pc102 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub ..⟩
theorem pc102_fresh : ∀ op ∈ (pc102 (F := F)), op.fresh = ∅ := by
  intro _ h; (repeat (cases h with | head => rfl | tail _ h => ?_)); exact nomatch h

/-- Operations 3553 … 3588 of 4424. -/
noncomputable def pc103 : List (HloOp τ sig (Elt F)) :=
  [ binary main_v1737 main_c_1490 main_v1748 (addi : (⟨S_, .i32⟩ : BufTy).Contents (Elt F) → (⟨S_, .i32⟩ : BufTy).Contents (Elt F) → (⟨S_, .i32⟩ : BufTy).Contents (Elt F)),
    ternary main_v1747 main_v1748 main_v1737 main_v1749 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1491 (constantI S_ 32 0#32),
    binary main_v1741 main_c_1491 main_v1750 (cmpi .slt : (⟨S_, .i32⟩ : BufTy).Contents (Elt F) → (⟨S_, .i32⟩ : BufTy).Contents (Elt F) → (⟨S_, .i1⟩ : BufTy).Contents (Elt F)),
    nullary main_c_1492 (constantI S_ 32 512#32),
    binary main_v1741 main_c_1492 main_v1751 (addi : (⟨S_, .i32⟩ : BufTy).Contents (Elt F) → (⟨S_, .i32⟩ : BufTy).Contents (Elt F) → (⟨S_, .i32⟩ : BufTy).Contents (Elt F)),
    ternary main_v1750 main_v1751 main_v1741 main_v1752 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1743 ![main_v1746, main_v1749, main_v1752] ⟨S_, .i32⟩ main_v1753 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1753 main_v1754 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1493 (constantI S_ 32 12#32),
    nullary main_c_1494 (constantI S_ 32 0#32),
    binary main_c_1493 main_c_1494 main_v1755 (cmpi .slt : (⟨S_, .i32⟩ : BufTy).Contents (Elt F) → (⟨S_, .i32⟩ : BufTy).Contents (Elt F) → (⟨S_, .i1⟩ : BufTy).Contents (Elt F)),
    nullary main_c_1495 (constantI S_ 32 12#32),
    nullary main_c_1496 (constantI S_ 32 16#32),
    binary main_c_1495 main_c_1496 main_v1756 (addi : (⟨S_, .i32⟩ : BufTy).Contents (Elt F) → (⟨S_, .i32⟩ : BufTy).Contents (Elt F) → (⟨S_, .i32⟩ : BufTy).Contents (Elt F)),
    nullary main_c_1497 (constantI S_ 32 12#32),
    ternary main_v1755 main_v1756 main_c_1497 main_v1757 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1498 (constantI S_ 32 0#32),
    nullary main_c_1499 (constantI S_ 32 0#32),
    binary main_c_1498 main_c_1499 main_v1758 (cmpi .slt : (⟨S_, .i32⟩ : BufTy).Contents (Elt F) → (⟨S_, .i32⟩ : BufTy).Contents (Elt F) → (⟨S_, .i1⟩ : BufTy).Contents (Elt F)),
    nullary main_c_1500 (constantI S_ 32 0#32),
    nullary main_c_1501 (constantI S_ 32 1#32),
    binary main_c_1500 main_c_1501 main_v1759 (addi : (⟨S_, .i32⟩ : BufTy).Contents (Elt F) → (⟨S_, .i32⟩ : BufTy).Contents (Elt F) → (⟨S_, .i32⟩ : BufTy).Contents (Elt F)),
    nullary main_c_1502 (constantI S_ 32 0#32),
    ternary main_v1758 main_v1759 main_c_1502 main_v1760 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1503 (constantI S_ 32 0#32),
    binary main_v1737 main_c_1503 main_v1761 (cmpi .slt : (⟨S_, .i32⟩ : BufTy).Contents (Elt F) → (⟨S_, .i32⟩ : BufTy).Contents (Elt F) → (⟨S_, .i1⟩ : BufTy).Contents (Elt F)),
    nullary main_c_1504 (constantI S_ 32 512#32),
    binary main_v1737 main_c_1504 main_v1762 (addi : (⟨S_, .i32⟩ : BufTy).Contents (Elt F) → (⟨S_, .i32⟩ : BufTy).Contents (Elt F) → (⟨S_, .i32⟩ : BufTy).Contents (Elt F)),
    ternary main_v1761 main_v1762 main_v1737 main_v1763 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1505 (constantI S_ 32 0#32),
    binary main_v1741 main_c_1505 main_v1764 (cmpi .slt : (⟨S_, .i32⟩ : BufTy).Contents (Elt F) → (⟨S_, .i32⟩ : BufTy).Contents (Elt F) → (⟨S_, .i1⟩ : BufTy).Contents (Elt F)),
    nullary main_c_1506 (constantI S_ 32 512#32),
    binary main_v1741 main_c_1506 main_v1765 (addi : (⟨S_, .i32⟩ : BufTy).Contents (Elt F) → (⟨S_, .i32⟩ : BufTy).Contents (Elt F) → (⟨S_, .i32⟩ : BufTy).Contents (Elt F)),
    ternary main_v1764 main_v1765 main_v1741 main_v1766 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1733 main_v1754 ![main_v1757, main_v1760, main_v1763, main_v1766] ⟨S_, .i32⟩ main_v1767 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc103_sub : (pc103 (F := F)).Forall fun op => op.bufs ⊆ tcRefs τ sig :=
  ⟨binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc103_fresh : ∀ op ∈ (pc103 (F := F)), op.fresh = ∅ := by
  intro _ h; (repeat (cases h with | head => rfl | tail _ h => ?_)); exact nomatch h

/-- Operations 3589 … 3618 of 4424. -/
noncomputable def pc104 : List (HloOp τ sig (Elt F)) :=
  [ unary main_arg2 main_v1768 ((extractStridedSlice S1x1x1 ![13, 0, 0] · slices_S16x4x2_S1x1x1_13_0_0) : (⟨S16x4x2, .i32⟩ : BufTy).Contents (Elt F) → (⟨S1x1x1, .i32⟩ : BufTy).Contents (Elt F)),
    reshape main_v1768 main_v1769 rfl shapeCasts_S1x1x1_S_,
    nullary main_c_1507 (constantI S_ 32 128#32),
    binary main_v1769 main_c_1507 main_v1770 (muli : (⟨S_, .i32⟩ : BufTy).Contents (Elt F) → (⟨S_, .i32⟩ : BufTy).Contents (Elt F) → (⟨S_, .i32⟩ : BufTy).Contents (Elt F)),
    nullary main_c_1508 (constantI S_ 32 0#32),
    nullary main_c_1509 (constantI S_ 32 128#32),
    TRef.unary (TRef.of (T := ⟨S_, .i32⟩) main_c_1508) (TRef.of (T := ⟨S_, .i32⟩) main_call104_v0) id,
    TRef.binary (TRef.of (T := ⟨S_, .i32⟩) main_call104_v0) (TRef.of (T := ⟨S_, .i32⟩) main_v1770) (TRef.of (T := ⟨S_, .i32⟩) main_call104_v1) maxsi,
    TRef.unary (TRef.of (T := ⟨S_, .i32⟩) main_c_1509) (TRef.of (T := ⟨S_, .i32⟩) main_call104_v2) id,
    TRef.binary (TRef.of (T := ⟨S_, .i32⟩) main_call104_v2) (TRef.of (T := ⟨S_, .i32⟩) main_call104_v1) (TRef.of (T := ⟨S_, .i32⟩) main_v1771) minsi,
    unary main_arg2 main_v1772 ((extractStridedSlice S1x1x1 ![13, 0, 1] · slices_S16x4x2_S1x1x1_13_0_1) : (⟨S16x4x2, .i32⟩ : BufTy).Contents (Elt F) → (⟨S1x1x1, .i32⟩ : BufTy).Contents (Elt F)),
    reshape main_v1772 main_v1773 rfl shapeCasts_S1x1x1_S_,
    nullary main_c_1510 (constantI S_ 32 128#32),
    binary main_v1773 main_c_1510 main_v1774 (muli : (⟨S_, .i32⟩ : BufTy).Contents (Elt F) → (⟨S_, .i32⟩ : BufTy).Contents (Elt F) → (⟨S_, .i32⟩ : BufTy).Contents (Elt F)),
    nullary main_c_1511 (constantI S_ 32 0#32),
    nullary main_c_1512 (constantI S_ 32 128#32),
    TRef.unary (TRef.of (T := ⟨S_, .i32⟩) main_c_1511) (TRef.of (T := ⟨S_, .i32⟩) main_call105_v0) id,
    TRef.binary (TRef.of (T := ⟨S_, .i32⟩) main_call105_v0) (TRef.of (T := ⟨S_, .i32⟩) main_v1774) (TRef.of (T := ⟨S_, .i32⟩) main_call105_v1) maxsi,
    TRef.unary (TRef.of (T := ⟨S_, .i32⟩) main_c_1512) (TRef.of (T := ⟨S_, .i32⟩) main_call105_v2) id,
    TRef.binary (TRef.of (T := ⟨S_, .i32⟩) main_call105_v2) (TRef.of (T := ⟨S_, .i32⟩) main_call105_v1) (TRef.of (T := ⟨S_, .i32⟩) main_v1775) minsi,
    unary main_arg1 main_v1776 ((extractStridedSlice S1x1x1x512x512 ![13, 0, 0, 0, 0] · slices_S16x4x1x512x512_S1x1x1x512x512_13_0_0_0_0) : (⟨S16x4x1x512x512, .f32⟩ : BufTy).Contents (Elt F) → (⟨S1x1x1x512x512, .f32⟩ : BufTy).Contents (Elt F)),
    reshape main_v1776 main_v1777 rfl shapeCasts_S1x1x1x512x512_S1x512x512,
    nullary main_c_1513 (constantI S_ 32 0#32),
    nullary main_c_1514 (constantI S_ 32 0#32),
    binary main_c_1513 main_c_1514 main_v1778 (cmpi .slt : (⟨S_, .i32⟩ : BufTy).Contents (Elt F) → (⟨S_, .i32⟩ : BufTy).Contents (Elt F) → (⟨S_, .i1⟩ : BufTy).Contents (Elt F)),
    nullary main_c_1515 (constantI S_ 32 0#32),
    nullary main_c_1516 (constantI S_ 32 1#32),
    binary main_c_1515 main_c_1516 main_v1779 (addi : (⟨S_, .i32⟩ : BufTy).Contents (Elt F) → (⟨S_, .i32⟩ : BufTy).Contents (Elt F) → (⟨S_, .i32⟩ : BufTy).Contents (Elt F)),
    nullary main_c_1517 (constantI S_ 32 0#32),
    ternary main_v1778 main_v1779 main_c_1517 main_v1780 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem pc104_sub : (pc104 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub ..⟩
theorem pc104_fresh : ∀ op ∈ (pc104 (F := F)), op.fresh = ∅ := by
  intro _ h; (repeat (cases h with | head => rfl | tail _ h => ?_)); exact nomatch h

/-- Operations 3619 … 3657 of 4424. -/
noncomputable def pc105 : List (HloOp τ sig (Elt F)) :=
  [ nullary main_c_1518 (constantI S_ 32 0#32),
    binary main_v1771 main_c_1518 main_v1781 (cmpi .slt : (⟨S_, .i32⟩ : BufTy).Contents (Elt F) → (⟨S_, .i32⟩ : BufTy).Contents (Elt F) → (⟨S_, .i1⟩ : BufTy).Contents (Elt F)),
    nullary main_c_1519 (constantI S_ 32 512#32),
    binary main_v1771 main_c_1519 main_v1782 (addi : (⟨S_, .i32⟩ : BufTy).Contents (Elt F) → (⟨S_, .i32⟩ : BufTy).Contents (Elt F) → (⟨S_, .i32⟩ : BufTy).Contents (Elt F)),
    ternary main_v1781 main_v1782 main_v1771 main_v1783 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1520 (constantI S_ 32 0#32),
    binary main_v1775 main_c_1520 main_v1784 (cmpi .slt : (⟨S_, .i32⟩ : BufTy).Contents (Elt F) → (⟨S_, .i32⟩ : BufTy).Contents (Elt F) → (⟨S_, .i1⟩ : BufTy).Contents (Elt F)),
    nullary main_c_1521 (constantI S_ 32 512#32),
    binary main_v1775 main_c_1521 main_v1785 (addi : (⟨S_, .i32⟩ : BufTy).Contents (Elt F) → (⟨S_, .i32⟩ : BufTy).Contents (Elt F) → (⟨S_, .i32⟩ : BufTy).Contents (Elt F)),
    ternary main_v1784 main_v1785 main_v1775 main_v1786 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1777 ![main_v1780, main_v1783, main_v1786] ⟨S_, .i32⟩ main_v1787 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1787 main_v1788 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1522 (constantI S_ 32 13#32),
    nullary main_c_1523 (constantI S_ 32 0#32),
    binary main_c_1522 main_c_1523 main_v1789 (cmpi .slt : (⟨S_, .i32⟩ : BufTy).Contents (Elt F) → (⟨S_, .i32⟩ : BufTy).Contents (Elt F) → (⟨S_, .i1⟩ : BufTy).Contents (Elt F)),
    nullary main_c_1524 (constantI S_ 32 13#32),
    nullary main_c_1525 (constantI S_ 32 16#32),
    binary main_c_1524 main_c_1525 main_v1790 (addi : (⟨S_, .i32⟩ : BufTy).Contents (Elt F) → (⟨S_, .i32⟩ : BufTy).Contents (Elt F) → (⟨S_, .i32⟩ : BufTy).Contents (Elt F)),
    nullary main_c_1526 (constantI S_ 32 13#32),
    ternary main_v1789 main_v1790 main_c_1526 main_v1791 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1527 (constantI S_ 32 0#32),
    nullary main_c_1528 (constantI S_ 32 0#32),
    binary main_c_1527 main_c_1528 main_v1792 (cmpi .slt : (⟨S_, .i32⟩ : BufTy).Contents (Elt F) → (⟨S_, .i32⟩ : BufTy).Contents (Elt F) → (⟨S_, .i1⟩ : BufTy).Contents (Elt F)),
    nullary main_c_1529 (constantI S_ 32 0#32),
    nullary main_c_1530 (constantI S_ 32 1#32),
    binary main_c_1529 main_c_1530 main_v1793 (addi : (⟨S_, .i32⟩ : BufTy).Contents (Elt F) → (⟨S_, .i32⟩ : BufTy).Contents (Elt F) → (⟨S_, .i32⟩ : BufTy).Contents (Elt F)),
    nullary main_c_1531 (constantI S_ 32 0#32),
    ternary main_v1792 main_v1793 main_c_1531 main_v1794 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1532 (constantI S_ 32 0#32),
    binary main_v1771 main_c_1532 main_v1795 (cmpi .slt : (⟨S_, .i32⟩ : BufTy).Contents (Elt F) → (⟨S_, .i32⟩ : BufTy).Contents (Elt F) → (⟨S_, .i1⟩ : BufTy).Contents (Elt F)),
    nullary main_c_1533 (constantI S_ 32 512#32),
    binary main_v1771 main_c_1533 main_v1796 (addi : (⟨S_, .i32⟩ : BufTy).Contents (Elt F) → (⟨S_, .i32⟩ : BufTy).Contents (Elt F) → (⟨S_, .i32⟩ : BufTy).Contents (Elt F)),
    ternary main_v1795 main_v1796 main_v1771 main_v1797 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1534 (constantI S_ 32 0#32),
    binary main_v1775 main_c_1534 main_v1798 (cmpi .slt : (⟨S_, .i32⟩ : BufTy).Contents (Elt F) → (⟨S_, .i32⟩ : BufTy).Contents (Elt F) → (⟨S_, .i1⟩ : BufTy).Contents (Elt F)),
    nullary main_c_1535 (constantI S_ 32 512#32),
    binary main_v1775 main_c_1535 main_v1799 (addi : (⟨S_, .i32⟩ : BufTy).Contents (Elt F) → (⟨S_, .i32⟩ : BufTy).Contents (Elt F) → (⟨S_, .i32⟩ : BufTy).Contents (Elt F)),
    ternary main_v1798 main_v1799 main_v1775 main_v1800 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1767 main_v1788 ![main_v1791, main_v1794, main_v1797, main_v1800] ⟨S_, .i32⟩ main_v1801 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc105_sub : (pc105 (F := F)).Forall fun op => op.bufs ⊆ tcRefs τ sig :=
  ⟨nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc105_fresh : ∀ op ∈ (pc105 (F := F)), op.fresh = ∅ := by
  intro _ h; (repeat (cases h with | head => rfl | tail _ h => ?_)); exact nomatch h

/-- Operations 3658 … 3684 of 4424. -/
noncomputable def pc106 : List (HloOp τ sig (Elt F)) :=
  [ unary main_arg2 main_v1802 ((extractStridedSlice S1x1x1 ![13, 1, 0] · slices_S16x4x2_S1x1x1_13_1_0) : (⟨S16x4x2, .i32⟩ : BufTy).Contents (Elt F) → (⟨S1x1x1, .i32⟩ : BufTy).Contents (Elt F)),
    reshape main_v1802 main_v1803 rfl shapeCasts_S1x1x1_S_,
    nullary main_c_1536 (constantI S_ 32 128#32),
    binary main_v1803 main_c_1536 main_v1804 (muli : (⟨S_, .i32⟩ : BufTy).Contents (Elt F) → (⟨S_, .i32⟩ : BufTy).Contents (Elt F) → (⟨S_, .i32⟩ : BufTy).Contents (Elt F)),
    nullary main_c_1537 (constantI S_ 32 0#32),
    nullary main_c_1538 (constantI S_ 32 128#32),
    TRef.unary (TRef.of (T := ⟨S_, .i32⟩) main_c_1537) (TRef.of (T := ⟨S_, .i32⟩) main_call106_v0) id,
    TRef.binary (TRef.of (T := ⟨S_, .i32⟩) main_call106_v0) (TRef.of (T := ⟨S_, .i32⟩) main_v1804) (TRef.of (T := ⟨S_, .i32⟩) main_call106_v1) maxsi,
    TRef.unary (TRef.of (T := ⟨S_, .i32⟩) main_c_1538) (TRef.of (T := ⟨S_, .i32⟩) main_call106_v2) id,
    TRef.binary (TRef.of (T := ⟨S_, .i32⟩) main_call106_v2) (TRef.of (T := ⟨S_, .i32⟩) main_call106_v1) (TRef.of (T := ⟨S_, .i32⟩) main_v1805) minsi,
    unary main_arg2 main_v1806 ((extractStridedSlice S1x1x1 ![13, 1, 1] · slices_S16x4x2_S1x1x1_13_1_1) : (⟨S16x4x2, .i32⟩ : BufTy).Contents (Elt F) → (⟨S1x1x1, .i32⟩ : BufTy).Contents (Elt F)),
    reshape main_v1806 main_v1807 rfl shapeCasts_S1x1x1_S_,
    nullary main_c_1539 (constantI S_ 32 128#32),
    binary main_v1807 main_c_1539 main_v1808 (muli : (⟨S_, .i32⟩ : BufTy).Contents (Elt F) → (⟨S_, .i32⟩ : BufTy).Contents (Elt F) → (⟨S_, .i32⟩ : BufTy).Contents (Elt F)),
    nullary main_c_1540 (constantI S_ 32 0#32),
    nullary main_c_1541 (constantI S_ 32 128#32),
    TRef.unary (TRef.of (T := ⟨S_, .i32⟩) main_c_1540) (TRef.of (T := ⟨S_, .i32⟩) main_call107_v0) id,
    TRef.binary (TRef.of (T := ⟨S_, .i32⟩) main_call107_v0) (TRef.of (T := ⟨S_, .i32⟩) main_v1808) (TRef.of (T := ⟨S_, .i32⟩) main_call107_v1) maxsi,
    TRef.unary (TRef.of (T := ⟨S_, .i32⟩) main_c_1541) (TRef.of (T := ⟨S_, .i32⟩) main_call107_v2) id,
    TRef.binary (TRef.of (T := ⟨S_, .i32⟩) main_call107_v2) (TRef.of (T := ⟨S_, .i32⟩) main_call107_v1) (TRef.of (T := ⟨S_, .i32⟩) main_v1809) minsi,
    unary main_arg1 main_v1810 ((extractStridedSlice S1x1x1x512x512 ![13, 1, 0, 0, 0] · slices_S16x4x1x512x512_S1x1x1x512x512_13_1_0_0_0) : (⟨S16x4x1x512x512, .f32⟩ : BufTy).Contents (Elt F) → (⟨S1x1x1x512x512, .f32⟩ : BufTy).Contents (Elt F)),
    reshape main_v1810 main_v1811 rfl shapeCasts_S1x1x1x512x512_S1x512x512,
    nullary main_c_1542 (constantI S_ 32 0#32),
    nullary main_c_1543 (constantI S_ 32 0#32),
    binary main_c_1542 main_c_1543 main_v1812 (cmpi .slt : (⟨S_, .i32⟩ : BufTy).Contents (Elt F) → (⟨S_, .i32⟩ : BufTy).Contents (Elt F) → (⟨S_, .i1⟩ : BufTy).Contents (Elt F)),
    nullary main_c_1544 (constantI S_ 32 0#32),
    nullary main_c_1545 (constantI S_ 32 1#32) ]
theorem pc106_sub : (pc106 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub ..⟩
theorem pc106_fresh : ∀ op ∈ (pc106 (F := F)), op.fresh = ∅ := by
  intro _ h; (repeat (cases h with | head => rfl | tail _ h => ?_)); exact nomatch h

/-- Operations 3685 … 3726 of 4424. -/
noncomputable def pc107 : List (HloOp τ sig (Elt F)) :=
  [ binary main_c_1544 main_c_1545 main_v1813 (addi : (⟨S_, .i32⟩ : BufTy).Contents (Elt F) → (⟨S_, .i32⟩ : BufTy).Contents (Elt F) → (⟨S_, .i32⟩ : BufTy).Contents (Elt F)),
    nullary main_c_1546 (constantI S_ 32 0#32),
    ternary main_v1812 main_v1813 main_c_1546 main_v1814 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1547 (constantI S_ 32 0#32),
    binary main_v1805 main_c_1547 main_v1815 (cmpi .slt : (⟨S_, .i32⟩ : BufTy).Contents (Elt F) → (⟨S_, .i32⟩ : BufTy).Contents (Elt F) → (⟨S_, .i1⟩ : BufTy).Contents (Elt F)),
    nullary main_c_1548 (constantI S_ 32 512#32),
    binary main_v1805 main_c_1548 main_v1816 (addi : (⟨S_, .i32⟩ : BufTy).Contents (Elt F) → (⟨S_, .i32⟩ : BufTy).Contents (Elt F) → (⟨S_, .i32⟩ : BufTy).Contents (Elt F)),
    ternary main_v1815 main_v1816 main_v1805 main_v1817 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1549 (constantI S_ 32 0#32),
    binary main_v1809 main_c_1549 main_v1818 (cmpi .slt : (⟨S_, .i32⟩ : BufTy).Contents (Elt F) → (⟨S_, .i32⟩ : BufTy).Contents (Elt F) → (⟨S_, .i1⟩ : BufTy).Contents (Elt F)),
    nullary main_c_1550 (constantI S_ 32 512#32),
    binary main_v1809 main_c_1550 main_v1819 (addi : (⟨S_, .i32⟩ : BufTy).Contents (Elt F) → (⟨S_, .i32⟩ : BufTy).Contents (Elt F) → (⟨S_, .i32⟩ : BufTy).Contents (Elt F)),
    ternary main_v1818 main_v1819 main_v1809 main_v1820 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1811 ![main_v1814, main_v1817, main_v1820] ⟨S_, .i32⟩ main_v1821 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1821 main_v1822 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1551 (constantI S_ 32 13#32),
    nullary main_c_1552 (constantI S_ 32 0#32),
    binary main_c_1551 main_c_1552 main_v1823 (cmpi .slt : (⟨S_, .i32⟩ : BufTy).Contents (Elt F) → (⟨S_, .i32⟩ : BufTy).Contents (Elt F) → (⟨S_, .i1⟩ : BufTy).Contents (Elt F)),
    nullary main_c_1553 (constantI S_ 32 13#32),
    nullary main_c_1554 (constantI S_ 32 16#32),
    binary main_c_1553 main_c_1554 main_v1824 (addi : (⟨S_, .i32⟩ : BufTy).Contents (Elt F) → (⟨S_, .i32⟩ : BufTy).Contents (Elt F) → (⟨S_, .i32⟩ : BufTy).Contents (Elt F)),
    nullary main_c_1555 (constantI S_ 32 13#32),
    ternary main_v1823 main_v1824 main_c_1555 main_v1825 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1556 (constantI S_ 32 0#32),
    nullary main_c_1557 (constantI S_ 32 0#32),
    binary main_c_1556 main_c_1557 main_v1826 (cmpi .slt : (⟨S_, .i32⟩ : BufTy).Contents (Elt F) → (⟨S_, .i32⟩ : BufTy).Contents (Elt F) → (⟨S_, .i1⟩ : BufTy).Contents (Elt F)),
    nullary main_c_1558 (constantI S_ 32 0#32),
    nullary main_c_1559 (constantI S_ 32 1#32),
    binary main_c_1558 main_c_1559 main_v1827 (addi : (⟨S_, .i32⟩ : BufTy).Contents (Elt F) → (⟨S_, .i32⟩ : BufTy).Contents (Elt F) → (⟨S_, .i32⟩ : BufTy).Contents (Elt F)),
    nullary main_c_1560 (constantI S_ 32 0#32),
    ternary main_v1826 main_v1827 main_c_1560 main_v1828 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1561 (constantI S_ 32 0#32),
    binary main_v1805 main_c_1561 main_v1829 (cmpi .slt : (⟨S_, .i32⟩ : BufTy).Contents (Elt F) → (⟨S_, .i32⟩ : BufTy).Contents (Elt F) → (⟨S_, .i1⟩ : BufTy).Contents (Elt F)),
    nullary main_c_1562 (constantI S_ 32 512#32),
    binary main_v1805 main_c_1562 main_v1830 (addi : (⟨S_, .i32⟩ : BufTy).Contents (Elt F) → (⟨S_, .i32⟩ : BufTy).Contents (Elt F) → (⟨S_, .i32⟩ : BufTy).Contents (Elt F)),
    ternary main_v1829 main_v1830 main_v1805 main_v1831 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1563 (constantI S_ 32 0#32),
    binary main_v1809 main_c_1563 main_v1832 (cmpi .slt : (⟨S_, .i32⟩ : BufTy).Contents (Elt F) → (⟨S_, .i32⟩ : BufTy).Contents (Elt F) → (⟨S_, .i1⟩ : BufTy).Contents (Elt F)),
    nullary main_c_1564 (constantI S_ 32 512#32),
    binary main_v1809 main_c_1564 main_v1833 (addi : (⟨S_, .i32⟩ : BufTy).Contents (Elt F) → (⟨S_, .i32⟩ : BufTy).Contents (Elt F) → (⟨S_, .i32⟩ : BufTy).Contents (Elt F)),
    ternary main_v1832 main_v1833 main_v1809 main_v1834 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1801 main_v1822 ![main_v1825, main_v1828, main_v1831, main_v1834] ⟨S_, .i32⟩ main_v1835 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc107_sub : (pc107 (F := F)).Forall fun op => op.bufs ⊆ tcRefs τ sig :=
  ⟨binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc107_fresh : ∀ op ∈ (pc107 (F := F)), op.fresh = ∅ := by
  intro _ h; (repeat (cases h with | head => rfl | tail _ h => ?_)); exact nomatch h

/-- Operations 3727 … 3750 of 4424. -/
noncomputable def pc108 : List (HloOp τ sig (Elt F)) :=
  [ unary main_arg2 main_v1836 ((extractStridedSlice S1x1x1 ![13, 2, 0] · slices_S16x4x2_S1x1x1_13_2_0) : (⟨S16x4x2, .i32⟩ : BufTy).Contents (Elt F) → (⟨S1x1x1, .i32⟩ : BufTy).Contents (Elt F)),
    reshape main_v1836 main_v1837 rfl shapeCasts_S1x1x1_S_,
    nullary main_c_1565 (constantI S_ 32 128#32),
    binary main_v1837 main_c_1565 main_v1838 (muli : (⟨S_, .i32⟩ : BufTy).Contents (Elt F) → (⟨S_, .i32⟩ : BufTy).Contents (Elt F) → (⟨S_, .i32⟩ : BufTy).Contents (Elt F)),
    nullary main_c_1566 (constantI S_ 32 0#32),
    nullary main_c_1567 (constantI S_ 32 128#32),
    TRef.unary (TRef.of (T := ⟨S_, .i32⟩) main_c_1566) (TRef.of (T := ⟨S_, .i32⟩) main_call108_v0) id,
    TRef.binary (TRef.of (T := ⟨S_, .i32⟩) main_call108_v0) (TRef.of (T := ⟨S_, .i32⟩) main_v1838) (TRef.of (T := ⟨S_, .i32⟩) main_call108_v1) maxsi,
    TRef.unary (TRef.of (T := ⟨S_, .i32⟩) main_c_1567) (TRef.of (T := ⟨S_, .i32⟩) main_call108_v2) id,
    TRef.binary (TRef.of (T := ⟨S_, .i32⟩) main_call108_v2) (TRef.of (T := ⟨S_, .i32⟩) main_call108_v1) (TRef.of (T := ⟨S_, .i32⟩) main_v1839) minsi,
    unary main_arg2 main_v1840 ((extractStridedSlice S1x1x1 ![13, 2, 1] · slices_S16x4x2_S1x1x1_13_2_1) : (⟨S16x4x2, .i32⟩ : BufTy).Contents (Elt F) → (⟨S1x1x1, .i32⟩ : BufTy).Contents (Elt F)),
    reshape main_v1840 main_v1841 rfl shapeCasts_S1x1x1_S_,
    nullary main_c_1568 (constantI S_ 32 128#32),
    binary main_v1841 main_c_1568 main_v1842 (muli : (⟨S_, .i32⟩ : BufTy).Contents (Elt F) → (⟨S_, .i32⟩ : BufTy).Contents (Elt F) → (⟨S_, .i32⟩ : BufTy).Contents (Elt F)),
    nullary main_c_1569 (constantI S_ 32 0#32),
    nullary main_c_1570 (constantI S_ 32 128#32),
    TRef.unary (TRef.of (T := ⟨S_, .i32⟩) main_c_1569) (TRef.of (T := ⟨S_, .i32⟩) main_call109_v0) id,
    TRef.binary (TRef.of (T := ⟨S_, .i32⟩) main_call109_v0) (TRef.of (T := ⟨S_, .i32⟩) main_v1842) (TRef.of (T := ⟨S_, .i32⟩) main_call109_v1) maxsi,
    TRef.unary (TRef.of (T := ⟨S_, .i32⟩) main_c_1570) (TRef.of (T := ⟨S_, .i32⟩) main_call109_v2) id,
    TRef.binary (TRef.of (T := ⟨S_, .i32⟩) main_call109_v2) (TRef.of (T := ⟨S_, .i32⟩) main_call109_v1) (TRef.of (T := ⟨S_, .i32⟩) main_v1843) minsi,
    unary main_arg1 main_v1844 ((extractStridedSlice S1x1x1x512x512 ![13, 2, 0, 0, 0] · slices_S16x4x1x512x512_S1x1x1x512x512_13_2_0_0_0) : (⟨S16x4x1x512x512, .f32⟩ : BufTy).Contents (Elt F) → (⟨S1x1x1x512x512, .f32⟩ : BufTy).Contents (Elt F)),
    reshape main_v1844 main_v1845 rfl shapeCasts_S1x1x1x512x512_S1x512x512,
    nullary main_c_1571 (constantI S_ 32 0#32),
    nullary main_c_1572 (constantI S_ 32 0#32) ]
theorem pc108_sub : (pc108 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub ..⟩
theorem pc108_fresh : ∀ op ∈ (pc108 (F := F)), op.fresh = ∅ := by
  intro _ h; (repeat (cases h with | head => rfl | tail _ h => ?_)); exact nomatch h

/-- Operations 3751 … 3795 of 4424. -/
noncomputable def pc109 : List (HloOp τ sig (Elt F)) :=
  [ binary main_c_1571 main_c_1572 main_v1846 (cmpi .slt : (⟨S_, .i32⟩ : BufTy).Contents (Elt F) → (⟨S_, .i32⟩ : BufTy).Contents (Elt F) → (⟨S_, .i1⟩ : BufTy).Contents (Elt F)),
    nullary main_c_1573 (constantI S_ 32 0#32),
    nullary main_c_1574 (constantI S_ 32 1#32),
    binary main_c_1573 main_c_1574 main_v1847 (addi : (⟨S_, .i32⟩ : BufTy).Contents (Elt F) → (⟨S_, .i32⟩ : BufTy).Contents (Elt F) → (⟨S_, .i32⟩ : BufTy).Contents (Elt F)),
    nullary main_c_1575 (constantI S_ 32 0#32),
    ternary main_v1846 main_v1847 main_c_1575 main_v1848 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1576 (constantI S_ 32 0#32),
    binary main_v1839 main_c_1576 main_v1849 (cmpi .slt : (⟨S_, .i32⟩ : BufTy).Contents (Elt F) → (⟨S_, .i32⟩ : BufTy).Contents (Elt F) → (⟨S_, .i1⟩ : BufTy).Contents (Elt F)),
    nullary main_c_1577 (constantI S_ 32 512#32),
    binary main_v1839 main_c_1577 main_v1850 (addi : (⟨S_, .i32⟩ : BufTy).Contents (Elt F) → (⟨S_, .i32⟩ : BufTy).Contents (Elt F) → (⟨S_, .i32⟩ : BufTy).Contents (Elt F)),
    ternary main_v1849 main_v1850 main_v1839 main_v1851 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1578 (constantI S_ 32 0#32),
    binary main_v1843 main_c_1578 main_v1852 (cmpi .slt : (⟨S_, .i32⟩ : BufTy).Contents (Elt F) → (⟨S_, .i32⟩ : BufTy).Contents (Elt F) → (⟨S_, .i1⟩ : BufTy).Contents (Elt F)),
    nullary main_c_1579 (constantI S_ 32 512#32),
    binary main_v1843 main_c_1579 main_v1853 (addi : (⟨S_, .i32⟩ : BufTy).Contents (Elt F) → (⟨S_, .i32⟩ : BufTy).Contents (Elt F) → (⟨S_, .i32⟩ : BufTy).Contents (Elt F)),
    ternary main_v1852 main_v1853 main_v1843 main_v1854 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1845 ![main_v1848, main_v1851, main_v1854] ⟨S_, .i32⟩ main_v1855 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1855 main_v1856 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1580 (constantI S_ 32 13#32),
    nullary main_c_1581 (constantI S_ 32 0#32),
    binary main_c_1580 main_c_1581 main_v1857 (cmpi .slt : (⟨S_, .i32⟩ : BufTy).Contents (Elt F) → (⟨S_, .i32⟩ : BufTy).Contents (Elt F) → (⟨S_, .i1⟩ : BufTy).Contents (Elt F)),
    nullary main_c_1582 (constantI S_ 32 13#32),
    nullary main_c_1583 (constantI S_ 32 16#32),
    binary main_c_1582 main_c_1583 main_v1858 (addi : (⟨S_, .i32⟩ : BufTy).Contents (Elt F) → (⟨S_, .i32⟩ : BufTy).Contents (Elt F) → (⟨S_, .i32⟩ : BufTy).Contents (Elt F)),
    nullary main_c_1584 (constantI S_ 32 13#32),
    ternary main_v1857 main_v1858 main_c_1584 main_v1859 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1585 (constantI S_ 32 0#32),
    nullary main_c_1586 (constantI S_ 32 0#32),
    binary main_c_1585 main_c_1586 main_v1860 (cmpi .slt : (⟨S_, .i32⟩ : BufTy).Contents (Elt F) → (⟨S_, .i32⟩ : BufTy).Contents (Elt F) → (⟨S_, .i1⟩ : BufTy).Contents (Elt F)),
    nullary main_c_1587 (constantI S_ 32 0#32),
    nullary main_c_1588 (constantI S_ 32 1#32),
    binary main_c_1587 main_c_1588 main_v1861 (addi : (⟨S_, .i32⟩ : BufTy).Contents (Elt F) → (⟨S_, .i32⟩ : BufTy).Contents (Elt F) → (⟨S_, .i32⟩ : BufTy).Contents (Elt F)),
    nullary main_c_1589 (constantI S_ 32 0#32),
    ternary main_v1860 main_v1861 main_c_1589 main_v1862 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1590 (constantI S_ 32 0#32),
    binary main_v1839 main_c_1590 main_v1863 (cmpi .slt : (⟨S_, .i32⟩ : BufTy).Contents (Elt F) → (⟨S_, .i32⟩ : BufTy).Contents (Elt F) → (⟨S_, .i1⟩ : BufTy).Contents (Elt F)),
    nullary main_c_1591 (constantI S_ 32 512#32),
    binary main_v1839 main_c_1591 main_v1864 (addi : (⟨S_, .i32⟩ : BufTy).Contents (Elt F) → (⟨S_, .i32⟩ : BufTy).Contents (Elt F) → (⟨S_, .i32⟩ : BufTy).Contents (Elt F)),
    ternary main_v1863 main_v1864 main_v1839 main_v1865 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1592 (constantI S_ 32 0#32),
    binary main_v1843 main_c_1592 main_v1866 (cmpi .slt : (⟨S_, .i32⟩ : BufTy).Contents (Elt F) → (⟨S_, .i32⟩ : BufTy).Contents (Elt F) → (⟨S_, .i1⟩ : BufTy).Contents (Elt F)),
    nullary main_c_1593 (constantI S_ 32 512#32),
    binary main_v1843 main_c_1593 main_v1867 (addi : (⟨S_, .i32⟩ : BufTy).Contents (Elt F) → (⟨S_, .i32⟩ : BufTy).Contents (Elt F) → (⟨S_, .i32⟩ : BufTy).Contents (Elt F)),
    ternary main_v1866 main_v1867 main_v1843 main_v1868 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1835 main_v1856 ![main_v1859, main_v1862, main_v1865, main_v1868] ⟨S_, .i32⟩ main_v1869 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc109_sub : (pc109 (F := F)).Forall fun op => op.bufs ⊆ tcRefs τ sig :=
  ⟨binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc109_fresh : ∀ op ∈ (pc109 (F := F)), op.fresh = ∅ := by
  intro _ h; (repeat (cases h with | head => rfl | tail _ h => ?_)); exact nomatch h

/-- Operations 3796 … 3816 of 4424. -/
noncomputable def pc110 : List (HloOp τ sig (Elt F)) :=
  [ unary main_arg2 main_v1870 ((extractStridedSlice S1x1x1 ![13, 3, 0] · slices_S16x4x2_S1x1x1_13_3_0) : (⟨S16x4x2, .i32⟩ : BufTy).Contents (Elt F) → (⟨S1x1x1, .i32⟩ : BufTy).Contents (Elt F)),
    reshape main_v1870 main_v1871 rfl shapeCasts_S1x1x1_S_,
    nullary main_c_1594 (constantI S_ 32 128#32),
    binary main_v1871 main_c_1594 main_v1872 (muli : (⟨S_, .i32⟩ : BufTy).Contents (Elt F) → (⟨S_, .i32⟩ : BufTy).Contents (Elt F) → (⟨S_, .i32⟩ : BufTy).Contents (Elt F)),
    nullary main_c_1595 (constantI S_ 32 0#32),
    nullary main_c_1596 (constantI S_ 32 128#32),
    TRef.unary (TRef.of (T := ⟨S_, .i32⟩) main_c_1595) (TRef.of (T := ⟨S_, .i32⟩) main_call110_v0) id,
    TRef.binary (TRef.of (T := ⟨S_, .i32⟩) main_call110_v0) (TRef.of (T := ⟨S_, .i32⟩) main_v1872) (TRef.of (T := ⟨S_, .i32⟩) main_call110_v1) maxsi,
    TRef.unary (TRef.of (T := ⟨S_, .i32⟩) main_c_1596) (TRef.of (T := ⟨S_, .i32⟩) main_call110_v2) id,
    TRef.binary (TRef.of (T := ⟨S_, .i32⟩) main_call110_v2) (TRef.of (T := ⟨S_, .i32⟩) main_call110_v1) (TRef.of (T := ⟨S_, .i32⟩) main_v1873) minsi,
    unary main_arg2 main_v1874 ((extractStridedSlice S1x1x1 ![13, 3, 1] · slices_S16x4x2_S1x1x1_13_3_1) : (⟨S16x4x2, .i32⟩ : BufTy).Contents (Elt F) → (⟨S1x1x1, .i32⟩ : BufTy).Contents (Elt F)),
    reshape main_v1874 main_v1875 rfl shapeCasts_S1x1x1_S_,
    nullary main_c_1597 (constantI S_ 32 128#32),
    binary main_v1875 main_c_1597 main_v1876 (muli : (⟨S_, .i32⟩ : BufTy).Contents (Elt F) → (⟨S_, .i32⟩ : BufTy).Contents (Elt F) → (⟨S_, .i32⟩ : BufTy).Contents (Elt F)),
    nullary main_c_1598 (constantI S_ 32 0#32),
    nullary main_c_1599 (constantI S_ 32 128#32),
    TRef.unary (TRef.of (T := ⟨S_, .i32⟩) main_c_1598) (TRef.of (T := ⟨S_, .i32⟩) main_call111_v0) id,
    TRef.binary (TRef.of (T := ⟨S_, .i32⟩) main_call111_v0) (TRef.of (T := ⟨S_, .i32⟩) main_v1876) (TRef.of (T := ⟨S_, .i32⟩) main_call111_v1) maxsi,
    TRef.unary (TRef.of (T := ⟨S_, .i32⟩) main_c_1599) (TRef.of (T := ⟨S_, .i32⟩) main_call111_v2) id,
    TRef.binary (TRef.of (T := ⟨S_, .i32⟩) main_call111_v2) (TRef.of (T := ⟨S_, .i32⟩) main_call111_v1) (TRef.of (T := ⟨S_, .i32⟩) main_v1877) minsi,
    unary main_arg1 main_v1878 ((extractStridedSlice S1x1x1x512x512 ![13, 3, 0, 0, 0] · slices_S16x4x1x512x512_S1x1x1x512x512_13_3_0_0_0) : (⟨S16x4x1x512x512, .f32⟩ : BufTy).Contents (Elt F) → (⟨S1x1x1x512x512, .f32⟩ : BufTy).Contents (Elt F)) ]
theorem pc110_sub : (pc110 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub ..⟩
theorem pc110_fresh : ∀ op ∈ (pc110 (F := F)), op.fresh = ∅ := by
  intro _ h; (repeat (cases h with | head => rfl | tail _ h => ?_)); exact nomatch h

/-- Operations 3817 … 3864 of 4424. -/
noncomputable def pc111 : List (HloOp τ sig (Elt F)) :=
  [ reshape main_v1878 main_v1879 rfl shapeCasts_S1x1x1x512x512_S1x512x512,
    nullary main_c_1600 (constantI S_ 32 0#32),
    nullary main_c_1601 (constantI S_ 32 0#32),
    binary main_c_1600 main_c_1601 main_v1880 (cmpi .slt : (⟨S_, .i32⟩ : BufTy).Contents (Elt F) → (⟨S_, .i32⟩ : BufTy).Contents (Elt F) → (⟨S_, .i1⟩ : BufTy).Contents (Elt F)),
    nullary main_c_1602 (constantI S_ 32 0#32),
    nullary main_c_1603 (constantI S_ 32 1#32),
    binary main_c_1602 main_c_1603 main_v1881 (addi : (⟨S_, .i32⟩ : BufTy).Contents (Elt F) → (⟨S_, .i32⟩ : BufTy).Contents (Elt F) → (⟨S_, .i32⟩ : BufTy).Contents (Elt F)),
    nullary main_c_1604 (constantI S_ 32 0#32),
    ternary main_v1880 main_v1881 main_c_1604 main_v1882 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1605 (constantI S_ 32 0#32),
    binary main_v1873 main_c_1605 main_v1883 (cmpi .slt : (⟨S_, .i32⟩ : BufTy).Contents (Elt F) → (⟨S_, .i32⟩ : BufTy).Contents (Elt F) → (⟨S_, .i1⟩ : BufTy).Contents (Elt F)),
    nullary main_c_1606 (constantI S_ 32 512#32),
    binary main_v1873 main_c_1606 main_v1884 (addi : (⟨S_, .i32⟩ : BufTy).Contents (Elt F) → (⟨S_, .i32⟩ : BufTy).Contents (Elt F) → (⟨S_, .i32⟩ : BufTy).Contents (Elt F)),
    ternary main_v1883 main_v1884 main_v1873 main_v1885 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1607 (constantI S_ 32 0#32),
    binary main_v1877 main_c_1607 main_v1886 (cmpi .slt : (⟨S_, .i32⟩ : BufTy).Contents (Elt F) → (⟨S_, .i32⟩ : BufTy).Contents (Elt F) → (⟨S_, .i1⟩ : BufTy).Contents (Elt F)),
    nullary main_c_1608 (constantI S_ 32 512#32),
    binary main_v1877 main_c_1608 main_v1887 (addi : (⟨S_, .i32⟩ : BufTy).Contents (Elt F) → (⟨S_, .i32⟩ : BufTy).Contents (Elt F) → (⟨S_, .i32⟩ : BufTy).Contents (Elt F)),
    ternary main_v1886 main_v1887 main_v1877 main_v1888 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1879 ![main_v1882, main_v1885, main_v1888] ⟨S_, .i32⟩ main_v1889 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1889 main_v1890 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1609 (constantI S_ 32 13#32),
    nullary main_c_1610 (constantI S_ 32 0#32),
    binary main_c_1609 main_c_1610 main_v1891 (cmpi .slt : (⟨S_, .i32⟩ : BufTy).Contents (Elt F) → (⟨S_, .i32⟩ : BufTy).Contents (Elt F) → (⟨S_, .i1⟩ : BufTy).Contents (Elt F)),
    nullary main_c_1611 (constantI S_ 32 13#32),
    nullary main_c_1612 (constantI S_ 32 16#32),
    binary main_c_1611 main_c_1612 main_v1892 (addi : (⟨S_, .i32⟩ : BufTy).Contents (Elt F) → (⟨S_, .i32⟩ : BufTy).Contents (Elt F) → (⟨S_, .i32⟩ : BufTy).Contents (Elt F)),
    nullary main_c_1613 (constantI S_ 32 13#32),
    ternary main_v1891 main_v1892 main_c_1613 main_v1893 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1614 (constantI S_ 32 0#32),
    nullary main_c_1615 (constantI S_ 32 0#32),
    binary main_c_1614 main_c_1615 main_v1894 (cmpi .slt : (⟨S_, .i32⟩ : BufTy).Contents (Elt F) → (⟨S_, .i32⟩ : BufTy).Contents (Elt F) → (⟨S_, .i1⟩ : BufTy).Contents (Elt F)),
    nullary main_c_1616 (constantI S_ 32 0#32),
    nullary main_c_1617 (constantI S_ 32 1#32),
    binary main_c_1616 main_c_1617 main_v1895 (addi : (⟨S_, .i32⟩ : BufTy).Contents (Elt F) → (⟨S_, .i32⟩ : BufTy).Contents (Elt F) → (⟨S_, .i32⟩ : BufTy).Contents (Elt F)),
    nullary main_c_1618 (constantI S_ 32 0#32),
    ternary main_v1894 main_v1895 main_c_1618 main_v1896 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1619 (constantI S_ 32 0#32),
    binary main_v1873 main_c_1619 main_v1897 (cmpi .slt : (⟨S_, .i32⟩ : BufTy).Contents (Elt F) → (⟨S_, .i32⟩ : BufTy).Contents (Elt F) → (⟨S_, .i1⟩ : BufTy).Contents (Elt F)),
    nullary main_c_1620 (constantI S_ 32 512#32),
    binary main_v1873 main_c_1620 main_v1898 (addi : (⟨S_, .i32⟩ : BufTy).Contents (Elt F) → (⟨S_, .i32⟩ : BufTy).Contents (Elt F) → (⟨S_, .i32⟩ : BufTy).Contents (Elt F)),
    ternary main_v1897 main_v1898 main_v1873 main_v1899 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1621 (constantI S_ 32 0#32),
    binary main_v1877 main_c_1621 main_v1900 (cmpi .slt : (⟨S_, .i32⟩ : BufTy).Contents (Elt F) → (⟨S_, .i32⟩ : BufTy).Contents (Elt F) → (⟨S_, .i1⟩ : BufTy).Contents (Elt F)),
    nullary main_c_1622 (constantI S_ 32 512#32),
    binary main_v1877 main_c_1622 main_v1901 (addi : (⟨S_, .i32⟩ : BufTy).Contents (Elt F) → (⟨S_, .i32⟩ : BufTy).Contents (Elt F) → (⟨S_, .i32⟩ : BufTy).Contents (Elt F)),
    ternary main_v1900 main_v1901 main_v1877 main_v1902 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1869 main_v1890 ![main_v1893, main_v1896, main_v1899, main_v1902] ⟨S_, .i32⟩ main_v1903 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc111_sub : (pc111 (F := F)).Forall fun op => op.bufs ⊆ tcRefs τ sig :=
  ⟨reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc111_fresh : ∀ op ∈ (pc111 (F := F)), op.fresh = ∅ := by
  intro _ h; (repeat (cases h with | head => rfl | tail _ h => ?_)); exact nomatch h

/-- Operations 3865 … 3879 of 4424. -/
noncomputable def pc112 : List (HloOp τ sig (Elt F)) :=
  [ unary main_arg2 main_v1904 ((extractStridedSlice S1x1x1 ![14, 0, 0] · slices_S16x4x2_S1x1x1_14_0_0) : (⟨S16x4x2, .i32⟩ : BufTy).Contents (Elt F) → (⟨S1x1x1, .i32⟩ : BufTy).Contents (Elt F)),
    reshape main_v1904 main_v1905 rfl shapeCasts_S1x1x1_S_,
    nullary main_c_1623 (constantI S_ 32 128#32),
    binary main_v1905 main_c_1623 main_v1906 (muli : (⟨S_, .i32⟩ : BufTy).Contents (Elt F) → (⟨S_, .i32⟩ : BufTy).Contents (Elt F) → (⟨S_, .i32⟩ : BufTy).Contents (Elt F)),
    nullary main_c_1624 (constantI S_ 32 0#32),
    nullary main_c_1625 (constantI S_ 32 128#32),
    TRef.unary (TRef.of (T := ⟨S_, .i32⟩) main_c_1624) (TRef.of (T := ⟨S_, .i32⟩) main_call112_v0) id,
    TRef.binary (TRef.of (T := ⟨S_, .i32⟩) main_call112_v0) (TRef.of (T := ⟨S_, .i32⟩) main_v1906) (TRef.of (T := ⟨S_, .i32⟩) main_call112_v1) maxsi,
    TRef.unary (TRef.of (T := ⟨S_, .i32⟩) main_c_1625) (TRef.of (T := ⟨S_, .i32⟩) main_call112_v2) id,
    TRef.binary (TRef.of (T := ⟨S_, .i32⟩) main_call112_v2) (TRef.of (T := ⟨S_, .i32⟩) main_call112_v1) (TRef.of (T := ⟨S_, .i32⟩) main_v1907) minsi,
    unary main_arg2 main_v1908 ((extractStridedSlice S1x1x1 ![14, 0, 1] · slices_S16x4x2_S1x1x1_14_0_1) : (⟨S16x4x2, .i32⟩ : BufTy).Contents (Elt F) → (⟨S1x1x1, .i32⟩ : BufTy).Contents (Elt F)),
    reshape main_v1908 main_v1909 rfl shapeCasts_S1x1x1_S_,
    nullary main_c_1626 (constantI S_ 32 128#32),
    binary main_v1909 main_c_1626 main_v1910 (muli : (⟨S_, .i32⟩ : BufTy).Contents (Elt F) → (⟨S_, .i32⟩ : BufTy).Contents (Elt F) → (⟨S_, .i32⟩ : BufTy).Contents (Elt F)),
    nullary main_c_1627 (constantI S_ 32 0#32) ]
theorem pc112_sub : (pc112 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub ..⟩
theorem pc112_fresh : ∀ op ∈ (pc112 (F := F)), op.fresh = ∅ := by
  intro _ h; (repeat (cases h with | head => rfl | tail _ h => ?_)); exact nomatch h

/-- Operations 3880 … 3933 of 4424. -/
noncomputable def pc113 : List (HloOp τ sig (Elt F)) :=
  [ nullary main_c_1628 (constantI S_ 32 128#32),
    TRef.unary (TRef.of (T := ⟨S_, .i32⟩) main_c_1627) (TRef.of (T := ⟨S_, .i32⟩) main_call113_v0) id,
    TRef.binary (TRef.of (T := ⟨S_, .i32⟩) main_call113_v0) (TRef.of (T := ⟨S_, .i32⟩) main_v1910) (TRef.of (T := ⟨S_, .i32⟩) main_call113_v1) maxsi,
    TRef.unary (TRef.of (T := ⟨S_, .i32⟩) main_c_1628) (TRef.of (T := ⟨S_, .i32⟩) main_call113_v2) id,
    TRef.binary (TRef.of (T := ⟨S_, .i32⟩) main_call113_v2) (TRef.of (T := ⟨S_, .i32⟩) main_call113_v1) (TRef.of (T := ⟨S_, .i32⟩) main_v1911) minsi,
    unary main_arg1 main_v1912 ((extractStridedSlice S1x1x1x512x512 ![14, 0, 0, 0, 0] · slices_S16x4x1x512x512_S1x1x1x512x512_14_0_0_0_0) : (⟨S16x4x1x512x512, .f32⟩ : BufTy).Contents (Elt F) → (⟨S1x1x1x512x512, .f32⟩ : BufTy).Contents (Elt F)),
    reshape main_v1912 main_v1913 rfl shapeCasts_S1x1x1x512x512_S1x512x512,
    nullary main_c_1629 (constantI S_ 32 0#32),
    nullary main_c_1630 (constantI S_ 32 0#32),
    binary main_c_1629 main_c_1630 main_v1914 (cmpi .slt : (⟨S_, .i32⟩ : BufTy).Contents (Elt F) → (⟨S_, .i32⟩ : BufTy).Contents (Elt F) → (⟨S_, .i1⟩ : BufTy).Contents (Elt F)),
    nullary main_c_1631 (constantI S_ 32 0#32),
    nullary main_c_1632 (constantI S_ 32 1#32),
    binary main_c_1631 main_c_1632 main_v1915 (addi : (⟨S_, .i32⟩ : BufTy).Contents (Elt F) → (⟨S_, .i32⟩ : BufTy).Contents (Elt F) → (⟨S_, .i32⟩ : BufTy).Contents (Elt F)),
    nullary main_c_1633 (constantI S_ 32 0#32),
    ternary main_v1914 main_v1915 main_c_1633 main_v1916 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1634 (constantI S_ 32 0#32),
    binary main_v1907 main_c_1634 main_v1917 (cmpi .slt : (⟨S_, .i32⟩ : BufTy).Contents (Elt F) → (⟨S_, .i32⟩ : BufTy).Contents (Elt F) → (⟨S_, .i1⟩ : BufTy).Contents (Elt F)),
    nullary main_c_1635 (constantI S_ 32 512#32),
    binary main_v1907 main_c_1635 main_v1918 (addi : (⟨S_, .i32⟩ : BufTy).Contents (Elt F) → (⟨S_, .i32⟩ : BufTy).Contents (Elt F) → (⟨S_, .i32⟩ : BufTy).Contents (Elt F)),
    ternary main_v1917 main_v1918 main_v1907 main_v1919 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1636 (constantI S_ 32 0#32),
    binary main_v1911 main_c_1636 main_v1920 (cmpi .slt : (⟨S_, .i32⟩ : BufTy).Contents (Elt F) → (⟨S_, .i32⟩ : BufTy).Contents (Elt F) → (⟨S_, .i1⟩ : BufTy).Contents (Elt F)),
    nullary main_c_1637 (constantI S_ 32 512#32),
    binary main_v1911 main_c_1637 main_v1921 (addi : (⟨S_, .i32⟩ : BufTy).Contents (Elt F) → (⟨S_, .i32⟩ : BufTy).Contents (Elt F) → (⟨S_, .i32⟩ : BufTy).Contents (Elt F)),
    ternary main_v1920 main_v1921 main_v1911 main_v1922 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1913 ![main_v1916, main_v1919, main_v1922] ⟨S_, .i32⟩ main_v1923 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1923 main_v1924 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1638 (constantI S_ 32 14#32),
    nullary main_c_1639 (constantI S_ 32 0#32),
    binary main_c_1638 main_c_1639 main_v1925 (cmpi .slt : (⟨S_, .i32⟩ : BufTy).Contents (Elt F) → (⟨S_, .i32⟩ : BufTy).Contents (Elt F) → (⟨S_, .i1⟩ : BufTy).Contents (Elt F)),
    nullary main_c_1640 (constantI S_ 32 14#32),
    nullary main_c_1641 (constantI S_ 32 16#32),
    binary main_c_1640 main_c_1641 main_v1926 (addi : (⟨S_, .i32⟩ : BufTy).Contents (Elt F) → (⟨S_, .i32⟩ : BufTy).Contents (Elt F) → (⟨S_, .i32⟩ : BufTy).Contents (Elt F)),
    nullary main_c_1642 (constantI S_ 32 14#32),
    ternary main_v1925 main_v1926 main_c_1642 main_v1927 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1643 (constantI S_ 32 0#32),
    nullary main_c_1644 (constantI S_ 32 0#32),
    binary main_c_1643 main_c_1644 main_v1928 (cmpi .slt : (⟨S_, .i32⟩ : BufTy).Contents (Elt F) → (⟨S_, .i32⟩ : BufTy).Contents (Elt F) → (⟨S_, .i1⟩ : BufTy).Contents (Elt F)),
    nullary main_c_1645 (constantI S_ 32 0#32),
    nullary main_c_1646 (constantI S_ 32 1#32),
    binary main_c_1645 main_c_1646 main_v1929 (addi : (⟨S_, .i32⟩ : BufTy).Contents (Elt F) → (⟨S_, .i32⟩ : BufTy).Contents (Elt F) → (⟨S_, .i32⟩ : BufTy).Contents (Elt F)),
    nullary main_c_1647 (constantI S_ 32 0#32),
    ternary main_v1928 main_v1929 main_c_1647 main_v1930 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1648 (constantI S_ 32 0#32),
    binary main_v1907 main_c_1648 main_v1931 (cmpi .slt : (⟨S_, .i32⟩ : BufTy).Contents (Elt F) → (⟨S_, .i32⟩ : BufTy).Contents (Elt F) → (⟨S_, .i1⟩ : BufTy).Contents (Elt F)),
    nullary main_c_1649 (constantI S_ 32 512#32),
    binary main_v1907 main_c_1649 main_v1932 (addi : (⟨S_, .i32⟩ : BufTy).Contents (Elt F) → (⟨S_, .i32⟩ : BufTy).Contents (Elt F) → (⟨S_, .i32⟩ : BufTy).Contents (Elt F)),
    ternary main_v1931 main_v1932 main_v1907 main_v1933 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1650 (constantI S_ 32 0#32),
    binary main_v1911 main_c_1650 main_v1934 (cmpi .slt : (⟨S_, .i32⟩ : BufTy).Contents (Elt F) → (⟨S_, .i32⟩ : BufTy).Contents (Elt F) → (⟨S_, .i1⟩ : BufTy).Contents (Elt F)),
    nullary main_c_1651 (constantI S_ 32 512#32),
    binary main_v1911 main_c_1651 main_v1935 (addi : (⟨S_, .i32⟩ : BufTy).Contents (Elt F) → (⟨S_, .i32⟩ : BufTy).Contents (Elt F) → (⟨S_, .i32⟩ : BufTy).Contents (Elt F)),
    ternary main_v1934 main_v1935 main_v1911 main_v1936 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1903 main_v1924 ![main_v1927, main_v1930, main_v1933, main_v1936] ⟨S_, .i32⟩ main_v1937 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc113_sub : (pc113 (F := F)).Forall fun op => op.bufs ⊆ tcRefs τ sig :=
  ⟨nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc113_fresh : ∀ op ∈ (pc113 (F := F)), op.fresh = ∅ := by
  intro _ h; (repeat (cases h with | head => rfl | tail _ h => ?_)); exact nomatch h

/-- Operations 3934 … 3945 of 4424. -/
noncomputable def pc114 : List (HloOp τ sig (Elt F)) :=
  [ unary main_arg2 main_v1938 ((extractStridedSlice S1x1x1 ![14, 1, 0] · slices_S16x4x2_S1x1x1_14_1_0) : (⟨S16x4x2, .i32⟩ : BufTy).Contents (Elt F) → (⟨S1x1x1, .i32⟩ : BufTy).Contents (Elt F)),
    reshape main_v1938 main_v1939 rfl shapeCasts_S1x1x1_S_,
    nullary main_c_1652 (constantI S_ 32 128#32),
    binary main_v1939 main_c_1652 main_v1940 (muli : (⟨S_, .i32⟩ : BufTy).Contents (Elt F) → (⟨S_, .i32⟩ : BufTy).Contents (Elt F) → (⟨S_, .i32⟩ : BufTy).Contents (Elt F)),
    nullary main_c_1653 (constantI S_ 32 0#32),
    nullary main_c_1654 (constantI S_ 32 128#32),
    TRef.unary (TRef.of (T := ⟨S_, .i32⟩) main_c_1653) (TRef.of (T := ⟨S_, .i32⟩) main_call114_v0) id,
    TRef.binary (TRef.of (T := ⟨S_, .i32⟩) main_call114_v0) (TRef.of (T := ⟨S_, .i32⟩) main_v1940) (TRef.of (T := ⟨S_, .i32⟩) main_call114_v1) maxsi,
    TRef.unary (TRef.of (T := ⟨S_, .i32⟩) main_c_1654) (TRef.of (T := ⟨S_, .i32⟩) main_call114_v2) id,
    TRef.binary (TRef.of (T := ⟨S_, .i32⟩) main_call114_v2) (TRef.of (T := ⟨S_, .i32⟩) main_call114_v1) (TRef.of (T := ⟨S_, .i32⟩) main_v1941) minsi,
    unary main_arg2 main_v1942 ((extractStridedSlice S1x1x1 ![14, 1, 1] · slices_S16x4x2_S1x1x1_14_1_1) : (⟨S16x4x2, .i32⟩ : BufTy).Contents (Elt F) → (⟨S1x1x1, .i32⟩ : BufTy).Contents (Elt F)),
    reshape main_v1942 main_v1943 rfl shapeCasts_S1x1x1_S_ ]
theorem pc114_sub : (pc114 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub ..⟩
theorem pc114_fresh : ∀ op ∈ (pc114 (F := F)), op.fresh = ∅ := by
  intro _ h; (repeat (cases h with | head => rfl | tail _ h => ?_)); exact nomatch h

/-- Operations 3946 … 4002 of 4424. -/
noncomputable def pc115 : List (HloOp τ sig (Elt F)) :=
  [ nullary main_c_1655 (constantI S_ 32 128#32),
    binary main_v1943 main_c_1655 main_v1944 (muli : (⟨S_, .i32⟩ : BufTy).Contents (Elt F) → (⟨S_, .i32⟩ : BufTy).Contents (Elt F) → (⟨S_, .i32⟩ : BufTy).Contents (Elt F)),
    nullary main_c_1656 (constantI S_ 32 0#32),
    nullary main_c_1657 (constantI S_ 32 128#32),
    TRef.unary (TRef.of (T := ⟨S_, .i32⟩) main_c_1656) (TRef.of (T := ⟨S_, .i32⟩) main_call115_v0) id,
    TRef.binary (TRef.of (T := ⟨S_, .i32⟩) main_call115_v0) (TRef.of (T := ⟨S_, .i32⟩) main_v1944) (TRef.of (T := ⟨S_, .i32⟩) main_call115_v1) maxsi,
    TRef.unary (TRef.of (T := ⟨S_, .i32⟩) main_c_1657) (TRef.of (T := ⟨S_, .i32⟩) main_call115_v2) id,
    TRef.binary (TRef.of (T := ⟨S_, .i32⟩) main_call115_v2) (TRef.of (T := ⟨S_, .i32⟩) main_call115_v1) (TRef.of (T := ⟨S_, .i32⟩) main_v1945) minsi,
    unary main_arg1 main_v1946 ((extractStridedSlice S1x1x1x512x512 ![14, 1, 0, 0, 0] · slices_S16x4x1x512x512_S1x1x1x512x512_14_1_0_0_0) : (⟨S16x4x1x512x512, .f32⟩ : BufTy).Contents (Elt F) → (⟨S1x1x1x512x512, .f32⟩ : BufTy).Contents (Elt F)),
    reshape main_v1946 main_v1947 rfl shapeCasts_S1x1x1x512x512_S1x512x512,
    nullary main_c_1658 (constantI S_ 32 0#32),
    nullary main_c_1659 (constantI S_ 32 0#32),
    binary main_c_1658 main_c_1659 main_v1948 (cmpi .slt : (⟨S_, .i32⟩ : BufTy).Contents (Elt F) → (⟨S_, .i32⟩ : BufTy).Contents (Elt F) → (⟨S_, .i1⟩ : BufTy).Contents (Elt F)),
    nullary main_c_1660 (constantI S_ 32 0#32),
    nullary main_c_1661 (constantI S_ 32 1#32),
    binary main_c_1660 main_c_1661 main_v1949 (addi : (⟨S_, .i32⟩ : BufTy).Contents (Elt F) → (⟨S_, .i32⟩ : BufTy).Contents (Elt F) → (⟨S_, .i32⟩ : BufTy).Contents (Elt F)),
    nullary main_c_1662 (constantI S_ 32 0#32),
    ternary main_v1948 main_v1949 main_c_1662 main_v1950 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1663 (constantI S_ 32 0#32),
    binary main_v1941 main_c_1663 main_v1951 (cmpi .slt : (⟨S_, .i32⟩ : BufTy).Contents (Elt F) → (⟨S_, .i32⟩ : BufTy).Contents (Elt F) → (⟨S_, .i1⟩ : BufTy).Contents (Elt F)),
    nullary main_c_1664 (constantI S_ 32 512#32),
    binary main_v1941 main_c_1664 main_v1952 (addi : (⟨S_, .i32⟩ : BufTy).Contents (Elt F) → (⟨S_, .i32⟩ : BufTy).Contents (Elt F) → (⟨S_, .i32⟩ : BufTy).Contents (Elt F)),
    ternary main_v1951 main_v1952 main_v1941 main_v1953 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1665 (constantI S_ 32 0#32),
    binary main_v1945 main_c_1665 main_v1954 (cmpi .slt : (⟨S_, .i32⟩ : BufTy).Contents (Elt F) → (⟨S_, .i32⟩ : BufTy).Contents (Elt F) → (⟨S_, .i1⟩ : BufTy).Contents (Elt F)),
    nullary main_c_1666 (constantI S_ 32 512#32),
    binary main_v1945 main_c_1666 main_v1955 (addi : (⟨S_, .i32⟩ : BufTy).Contents (Elt F) → (⟨S_, .i32⟩ : BufTy).Contents (Elt F) → (⟨S_, .i32⟩ : BufTy).Contents (Elt F)),
    ternary main_v1954 main_v1955 main_v1945 main_v1956 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1947 ![main_v1950, main_v1953, main_v1956] ⟨S_, .i32⟩ main_v1957 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1957 main_v1958 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1667 (constantI S_ 32 14#32),
    nullary main_c_1668 (constantI S_ 32 0#32),
    binary main_c_1667 main_c_1668 main_v1959 (cmpi .slt : (⟨S_, .i32⟩ : BufTy).Contents (Elt F) → (⟨S_, .i32⟩ : BufTy).Contents (Elt F) → (⟨S_, .i1⟩ : BufTy).Contents (Elt F)),
    nullary main_c_1669 (constantI S_ 32 14#32),
    nullary main_c_1670 (constantI S_ 32 16#32),
    binary main_c_1669 main_c_1670 main_v1960 (addi : (⟨S_, .i32⟩ : BufTy).Contents (Elt F) → (⟨S_, .i32⟩ : BufTy).Contents (Elt F) → (⟨S_, .i32⟩ : BufTy).Contents (Elt F)),
    nullary main_c_1671 (constantI S_ 32 14#32),
    ternary main_v1959 main_v1960 main_c_1671 main_v1961 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1672 (constantI S_ 32 0#32),
    nullary main_c_1673 (constantI S_ 32 0#32),
    binary main_c_1672 main_c_1673 main_v1962 (cmpi .slt : (⟨S_, .i32⟩ : BufTy).Contents (Elt F) → (⟨S_, .i32⟩ : BufTy).Contents (Elt F) → (⟨S_, .i1⟩ : BufTy).Contents (Elt F)),
    nullary main_c_1674 (constantI S_ 32 0#32),
    nullary main_c_1675 (constantI S_ 32 1#32),
    binary main_c_1674 main_c_1675 main_v1963 (addi : (⟨S_, .i32⟩ : BufTy).Contents (Elt F) → (⟨S_, .i32⟩ : BufTy).Contents (Elt F) → (⟨S_, .i32⟩ : BufTy).Contents (Elt F)),
    nullary main_c_1676 (constantI S_ 32 0#32),
    ternary main_v1962 main_v1963 main_c_1676 main_v1964 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1677 (constantI S_ 32 0#32),
    binary main_v1941 main_c_1677 main_v1965 (cmpi .slt : (⟨S_, .i32⟩ : BufTy).Contents (Elt F) → (⟨S_, .i32⟩ : BufTy).Contents (Elt F) → (⟨S_, .i1⟩ : BufTy).Contents (Elt F)),
    nullary main_c_1678 (constantI S_ 32 512#32),
    binary main_v1941 main_c_1678 main_v1966 (addi : (⟨S_, .i32⟩ : BufTy).Contents (Elt F) → (⟨S_, .i32⟩ : BufTy).Contents (Elt F) → (⟨S_, .i32⟩ : BufTy).Contents (Elt F)),
    ternary main_v1965 main_v1966 main_v1941 main_v1967 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1679 (constantI S_ 32 0#32),
    binary main_v1945 main_c_1679 main_v1968 (cmpi .slt : (⟨S_, .i32⟩ : BufTy).Contents (Elt F) → (⟨S_, .i32⟩ : BufTy).Contents (Elt F) → (⟨S_, .i1⟩ : BufTy).Contents (Elt F)),
    nullary main_c_1680 (constantI S_ 32 512#32),
    binary main_v1945 main_c_1680 main_v1969 (addi : (⟨S_, .i32⟩ : BufTy).Contents (Elt F) → (⟨S_, .i32⟩ : BufTy).Contents (Elt F) → (⟨S_, .i32⟩ : BufTy).Contents (Elt F)),
    ternary main_v1968 main_v1969 main_v1945 main_v1970 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1937 main_v1958 ![main_v1961, main_v1964, main_v1967, main_v1970] ⟨S_, .i32⟩ main_v1971 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc115_sub : (pc115 (F := F)).Forall fun op => op.bufs ⊆ tcRefs τ sig :=
  ⟨nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc115_fresh : ∀ op ∈ (pc115 (F := F)), op.fresh = ∅ := by
  intro _ h; (repeat (cases h with | head => rfl | tail _ h => ?_)); exact nomatch h

/-- Operations 4003 … 4008 of 4424. -/
noncomputable def pc116 : List (HloOp τ sig (Elt F)) :=
  [ unary main_arg2 main_v1972 ((extractStridedSlice S1x1x1 ![14, 2, 0] · slices_S16x4x2_S1x1x1_14_2_0) : (⟨S16x4x2, .i32⟩ : BufTy).Contents (Elt F) → (⟨S1x1x1, .i32⟩ : BufTy).Contents (Elt F)),
    reshape main_v1972 main_v1973 rfl shapeCasts_S1x1x1_S_,
    nullary main_c_1681 (constantI S_ 32 128#32),
    binary main_v1973 main_c_1681 main_v1974 (muli : (⟨S_, .i32⟩ : BufTy).Contents (Elt F) → (⟨S_, .i32⟩ : BufTy).Contents (Elt F) → (⟨S_, .i32⟩ : BufTy).Contents (Elt F)),
    nullary main_c_1682 (constantI S_ 32 0#32),
    nullary main_c_1683 (constantI S_ 32 128#32) ]
theorem pc116_sub : (pc116 (F := F)).Forall fun op => op.bufs ⊆ tcRefs τ sig :=
  ⟨unary_bufs_sub .., reshape_bufs_sub .., nullary_bufs_sub .., binary_bufs_sub .., nullary_bufs_sub .., nullary_bufs_sub ..⟩
theorem pc116_fresh : ∀ op ∈ (pc116 (F := F)), op.fresh = ∅ := by
  intro _ h; (repeat (cases h with | head => rfl | tail _ h => ?_)); exact nomatch h

/-- Operations 4009 … 4071 of 4424. -/
noncomputable def pc117 : List (HloOp τ sig (Elt F)) :=
  [ TRef.unary (TRef.of (T := ⟨S_, .i32⟩) main_c_1682) (TRef.of (T := ⟨S_, .i32⟩) main_call116_v0) id,
    TRef.binary (TRef.of (T := ⟨S_, .i32⟩) main_call116_v0) (TRef.of (T := ⟨S_, .i32⟩) main_v1974) (TRef.of (T := ⟨S_, .i32⟩) main_call116_v1) maxsi,
    TRef.unary (TRef.of (T := ⟨S_, .i32⟩) main_c_1683) (TRef.of (T := ⟨S_, .i32⟩) main_call116_v2) id,
    TRef.binary (TRef.of (T := ⟨S_, .i32⟩) main_call116_v2) (TRef.of (T := ⟨S_, .i32⟩) main_call116_v1) (TRef.of (T := ⟨S_, .i32⟩) main_v1975) minsi,
    unary main_arg2 main_v1976 ((extractStridedSlice S1x1x1 ![14, 2, 1] · slices_S16x4x2_S1x1x1_14_2_1) : (⟨S16x4x2, .i32⟩ : BufTy).Contents (Elt F) → (⟨S1x1x1, .i32⟩ : BufTy).Contents (Elt F)),
    reshape main_v1976 main_v1977 rfl shapeCasts_S1x1x1_S_,
    nullary main_c_1684 (constantI S_ 32 128#32),
    binary main_v1977 main_c_1684 main_v1978 (muli : (⟨S_, .i32⟩ : BufTy).Contents (Elt F) → (⟨S_, .i32⟩ : BufTy).Contents (Elt F) → (⟨S_, .i32⟩ : BufTy).Contents (Elt F)),
    nullary main_c_1685 (constantI S_ 32 0#32),
    nullary main_c_1686 (constantI S_ 32 128#32),
    TRef.unary (TRef.of (T := ⟨S_, .i32⟩) main_c_1685) (TRef.of (T := ⟨S_, .i32⟩) main_call117_v0) id,
    TRef.binary (TRef.of (T := ⟨S_, .i32⟩) main_call117_v0) (TRef.of (T := ⟨S_, .i32⟩) main_v1978) (TRef.of (T := ⟨S_, .i32⟩) main_call117_v1) maxsi,
    TRef.unary (TRef.of (T := ⟨S_, .i32⟩) main_c_1686) (TRef.of (T := ⟨S_, .i32⟩) main_call117_v2) id,
    TRef.binary (TRef.of (T := ⟨S_, .i32⟩) main_call117_v2) (TRef.of (T := ⟨S_, .i32⟩) main_call117_v1) (TRef.of (T := ⟨S_, .i32⟩) main_v1979) minsi,
    unary main_arg1 main_v1980 ((extractStridedSlice S1x1x1x512x512 ![14, 2, 0, 0, 0] · slices_S16x4x1x512x512_S1x1x1x512x512_14_2_0_0_0) : (⟨S16x4x1x512x512, .f32⟩ : BufTy).Contents (Elt F) → (⟨S1x1x1x512x512, .f32⟩ : BufTy).Contents (Elt F)),
    reshape main_v1980 main_v1981 rfl shapeCasts_S1x1x1x512x512_S1x512x512,
    nullary main_c_1687 (constantI S_ 32 0#32),
    nullary main_c_1688 (constantI S_ 32 0#32),
    binary main_c_1687 main_c_1688 main_v1982 (cmpi .slt : (⟨S_, .i32⟩ : BufTy).Contents (Elt F) → (⟨S_, .i32⟩ : BufTy).Contents (Elt F) → (⟨S_, .i1⟩ : BufTy).Contents (Elt F)),
    nullary main_c_1689 (constantI S_ 32 0#32),
    nullary main_c_1690 (constantI S_ 32 1#32),
    binary main_c_1689 main_c_1690 main_v1983 (addi : (⟨S_, .i32⟩ : BufTy).Contents (Elt F) → (⟨S_, .i32⟩ : BufTy).Contents (Elt F) → (⟨S_, .i32⟩ : BufTy).Contents (Elt F)),
    nullary main_c_1691 (constantI S_ 32 0#32),
    ternary main_v1982 main_v1983 main_c_1691 main_v1984 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1692 (constantI S_ 32 0#32),
    binary main_v1975 main_c_1692 main_v1985 (cmpi .slt : (⟨S_, .i32⟩ : BufTy).Contents (Elt F) → (⟨S_, .i32⟩ : BufTy).Contents (Elt F) → (⟨S_, .i1⟩ : BufTy).Contents (Elt F)),
    nullary main_c_1693 (constantI S_ 32 512#32),
    binary main_v1975 main_c_1693 main_v1986 (addi : (⟨S_, .i32⟩ : BufTy).Contents (Elt F) → (⟨S_, .i32⟩ : BufTy).Contents (Elt F) → (⟨S_, .i32⟩ : BufTy).Contents (Elt F)),
    ternary main_v1985 main_v1986 main_v1975 main_v1987 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1694 (constantI S_ 32 0#32),
    binary main_v1979 main_c_1694 main_v1988 (cmpi .slt : (⟨S_, .i32⟩ : BufTy).Contents (Elt F) → (⟨S_, .i32⟩ : BufTy).Contents (Elt F) → (⟨S_, .i1⟩ : BufTy).Contents (Elt F)),
    nullary main_c_1695 (constantI S_ 32 512#32),
    binary main_v1979 main_c_1695 main_v1989 (addi : (⟨S_, .i32⟩ : BufTy).Contents (Elt F) → (⟨S_, .i32⟩ : BufTy).Contents (Elt F) → (⟨S_, .i32⟩ : BufTy).Contents (Elt F)),
    ternary main_v1988 main_v1989 main_v1979 main_v1990 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v1981 ![main_v1984, main_v1987, main_v1990] ⟨S_, .i32⟩ main_v1991 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v1991 main_v1992 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1696 (constantI S_ 32 14#32),
    nullary main_c_1697 (constantI S_ 32 0#32),
    binary main_c_1696 main_c_1697 main_v1993 (cmpi .slt : (⟨S_, .i32⟩ : BufTy).Contents (Elt F) → (⟨S_, .i32⟩ : BufTy).Contents (Elt F) → (⟨S_, .i1⟩ : BufTy).Contents (Elt F)),
    nullary main_c_1698 (constantI S_ 32 14#32),
    nullary main_c_1699 (constantI S_ 32 16#32),
    binary main_c_1698 main_c_1699 main_v1994 (addi : (⟨S_, .i32⟩ : BufTy).Contents (Elt F) → (⟨S_, .i32⟩ : BufTy).Contents (Elt F) → (⟨S_, .i32⟩ : BufTy).Contents (Elt F)),
    nullary main_c_1700 (constantI S_ 32 14#32),
    ternary main_v1993 main_v1994 main_c_1700 main_v1995 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1701 (constantI S_ 32 0#32),
    nullary main_c_1702 (constantI S_ 32 0#32),
    binary main_c_1701 main_c_1702 main_v1996 (cmpi .slt : (⟨S_, .i32⟩ : BufTy).Contents (Elt F) → (⟨S_, .i32⟩ : BufTy).Contents (Elt F) → (⟨S_, .i1⟩ : BufTy).Contents (Elt F)),
    nullary main_c_1703 (constantI S_ 32 0#32),
    nullary main_c_1704 (constantI S_ 32 1#32),
    binary main_c_1703 main_c_1704 main_v1997 (addi : (⟨S_, .i32⟩ : BufTy).Contents (Elt F) → (⟨S_, .i32⟩ : BufTy).Contents (Elt F) → (⟨S_, .i32⟩ : BufTy).Contents (Elt F)),
    nullary main_c_1705 (constantI S_ 32 0#32),
    ternary main_v1996 main_v1997 main_c_1705 main_v1998 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1706 (constantI S_ 32 0#32),
    binary main_v1975 main_c_1706 main_v1999 (cmpi .slt : (⟨S_, .i32⟩ : BufTy).Contents (Elt F) → (⟨S_, .i32⟩ : BufTy).Contents (Elt F) → (⟨S_, .i1⟩ : BufTy).Contents (Elt F)),
    nullary main_c_1707 (constantI S_ 32 512#32),
    binary main_v1975 main_c_1707 main_v2000 (addi : (⟨S_, .i32⟩ : BufTy).Contents (Elt F) → (⟨S_, .i32⟩ : BufTy).Contents (Elt F) → (⟨S_, .i32⟩ : BufTy).Contents (Elt F)),
    ternary main_v1999 main_v2000 main_v1975 main_v2001 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1708 (constantI S_ 32 0#32),
    binary main_v1979 main_c_1708 main_v2002 (cmpi .slt : (⟨S_, .i32⟩ : BufTy).Contents (Elt F) → (⟨S_, .i32⟩ : BufTy).Contents (Elt F) → (⟨S_, .i1⟩ : BufTy).Contents (Elt F)),
    nullary main_c_1709 (constantI S_ 32 512#32),
    binary main_v1979 main_c_1709 main_v2003 (addi : (⟨S_, .i32⟩ : BufTy).Contents (Elt F) → (⟨S_, .i32⟩ : BufTy).Contents (Elt F) → (⟨S_, .i32⟩ : BufTy).Contents (Elt F)),
    ternary main_v2002 main_v2003 main_v1979 main_v2004 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v1971 main_v1992 ![main_v1995, main_v1998, main_v2001, main_v2004] ⟨S_, .i32⟩ main_v2005 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc117_sub : (pc117 (F := F)).Forall fun op => op.bufs ⊆ tcRefs τ sig :=
  ⟨unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc117_fresh : ∀ op ∈ (pc117 (F := F)), op.fresh = ∅ := by
  intro _ h; (repeat (cases h with | head => rfl | tail _ h => ?_)); exact nomatch h

/-- Operations 4072 … 4074 of 4424. -/
noncomputable def pc118 : List (HloOp τ sig (Elt F)) :=
  [ unary main_arg2 main_v2006 ((extractStridedSlice S1x1x1 ![14, 3, 0] · slices_S16x4x2_S1x1x1_14_3_0) : (⟨S16x4x2, .i32⟩ : BufTy).Contents (Elt F) → (⟨S1x1x1, .i32⟩ : BufTy).Contents (Elt F)),
    reshape main_v2006 main_v2007 rfl shapeCasts_S1x1x1_S_,
    nullary main_c_1710 (constantI S_ 32 128#32) ]
theorem pc118_sub : (pc118 (F := F)).Forall fun op => op.bufs ⊆ tcRefs τ sig :=
  ⟨unary_bufs_sub .., reshape_bufs_sub .., nullary_bufs_sub ..⟩
theorem pc118_fresh : ∀ op ∈ (pc118 (F := F)), op.fresh = ∅ := by
  intro _ h; (repeat (cases h with | head => rfl | tail _ h => ?_)); exact nomatch h

/-- Operations 4075 … 4140 of 4424. -/
noncomputable def pc119 : List (HloOp τ sig (Elt F)) :=
  [ binary main_v2007 main_c_1710 main_v2008 (muli : (⟨S_, .i32⟩ : BufTy).Contents (Elt F) → (⟨S_, .i32⟩ : BufTy).Contents (Elt F) → (⟨S_, .i32⟩ : BufTy).Contents (Elt F)),
    nullary main_c_1711 (constantI S_ 32 0#32),
    nullary main_c_1712 (constantI S_ 32 128#32),
    TRef.unary (TRef.of (T := ⟨S_, .i32⟩) main_c_1711) (TRef.of (T := ⟨S_, .i32⟩) main_call118_v0) id,
    TRef.binary (TRef.of (T := ⟨S_, .i32⟩) main_call118_v0) (TRef.of (T := ⟨S_, .i32⟩) main_v2008) (TRef.of (T := ⟨S_, .i32⟩) main_call118_v1) maxsi,
    TRef.unary (TRef.of (T := ⟨S_, .i32⟩) main_c_1712) (TRef.of (T := ⟨S_, .i32⟩) main_call118_v2) id,
    TRef.binary (TRef.of (T := ⟨S_, .i32⟩) main_call118_v2) (TRef.of (T := ⟨S_, .i32⟩) main_call118_v1) (TRef.of (T := ⟨S_, .i32⟩) main_v2009) minsi,
    unary main_arg2 main_v2010 ((extractStridedSlice S1x1x1 ![14, 3, 1] · slices_S16x4x2_S1x1x1_14_3_1) : (⟨S16x4x2, .i32⟩ : BufTy).Contents (Elt F) → (⟨S1x1x1, .i32⟩ : BufTy).Contents (Elt F)),
    reshape main_v2010 main_v2011 rfl shapeCasts_S1x1x1_S_,
    nullary main_c_1713 (constantI S_ 32 128#32),
    binary main_v2011 main_c_1713 main_v2012 (muli : (⟨S_, .i32⟩ : BufTy).Contents (Elt F) → (⟨S_, .i32⟩ : BufTy).Contents (Elt F) → (⟨S_, .i32⟩ : BufTy).Contents (Elt F)),
    nullary main_c_1714 (constantI S_ 32 0#32),
    nullary main_c_1715 (constantI S_ 32 128#32),
    TRef.unary (TRef.of (T := ⟨S_, .i32⟩) main_c_1714) (TRef.of (T := ⟨S_, .i32⟩) main_call119_v0) id,
    TRef.binary (TRef.of (T := ⟨S_, .i32⟩) main_call119_v0) (TRef.of (T := ⟨S_, .i32⟩) main_v2012) (TRef.of (T := ⟨S_, .i32⟩) main_call119_v1) maxsi,
    TRef.unary (TRef.of (T := ⟨S_, .i32⟩) main_c_1715) (TRef.of (T := ⟨S_, .i32⟩) main_call119_v2) id,
    TRef.binary (TRef.of (T := ⟨S_, .i32⟩) main_call119_v2) (TRef.of (T := ⟨S_, .i32⟩) main_call119_v1) (TRef.of (T := ⟨S_, .i32⟩) main_v2013) minsi,
    unary main_arg1 main_v2014 ((extractStridedSlice S1x1x1x512x512 ![14, 3, 0, 0, 0] · slices_S16x4x1x512x512_S1x1x1x512x512_14_3_0_0_0) : (⟨S16x4x1x512x512, .f32⟩ : BufTy).Contents (Elt F) → (⟨S1x1x1x512x512, .f32⟩ : BufTy).Contents (Elt F)),
    reshape main_v2014 main_v2015 rfl shapeCasts_S1x1x1x512x512_S1x512x512,
    nullary main_c_1716 (constantI S_ 32 0#32),
    nullary main_c_1717 (constantI S_ 32 0#32),
    binary main_c_1716 main_c_1717 main_v2016 (cmpi .slt : (⟨S_, .i32⟩ : BufTy).Contents (Elt F) → (⟨S_, .i32⟩ : BufTy).Contents (Elt F) → (⟨S_, .i1⟩ : BufTy).Contents (Elt F)),
    nullary main_c_1718 (constantI S_ 32 0#32),
    nullary main_c_1719 (constantI S_ 32 1#32),
    binary main_c_1718 main_c_1719 main_v2017 (addi : (⟨S_, .i32⟩ : BufTy).Contents (Elt F) → (⟨S_, .i32⟩ : BufTy).Contents (Elt F) → (⟨S_, .i32⟩ : BufTy).Contents (Elt F)),
    nullary main_c_1720 (constantI S_ 32 0#32),
    ternary main_v2016 main_v2017 main_c_1720 main_v2018 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1721 (constantI S_ 32 0#32),
    binary main_v2009 main_c_1721 main_v2019 (cmpi .slt : (⟨S_, .i32⟩ : BufTy).Contents (Elt F) → (⟨S_, .i32⟩ : BufTy).Contents (Elt F) → (⟨S_, .i1⟩ : BufTy).Contents (Elt F)),
    nullary main_c_1722 (constantI S_ 32 512#32),
    binary main_v2009 main_c_1722 main_v2020 (addi : (⟨S_, .i32⟩ : BufTy).Contents (Elt F) → (⟨S_, .i32⟩ : BufTy).Contents (Elt F) → (⟨S_, .i32⟩ : BufTy).Contents (Elt F)),
    ternary main_v2019 main_v2020 main_v2009 main_v2021 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1723 (constantI S_ 32 0#32),
    binary main_v2013 main_c_1723 main_v2022 (cmpi .slt : (⟨S_, .i32⟩ : BufTy).Contents (Elt F) → (⟨S_, .i32⟩ : BufTy).Contents (Elt F) → (⟨S_, .i1⟩ : BufTy).Contents (Elt F)),
    nullary main_c_1724 (constantI S_ 32 512#32),
    binary main_v2013 main_c_1724 main_v2023 (addi : (⟨S_, .i32⟩ : BufTy).Contents (Elt F) → (⟨S_, .i32⟩ : BufTy).Contents (Elt F) → (⟨S_, .i32⟩ : BufTy).Contents (Elt F)),
    ternary main_v2022 main_v2023 main_v2013 main_v2024 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2015 ![main_v2018, main_v2021, main_v2024] ⟨S_, .i32⟩ main_v2025 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v2025 main_v2026 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1725 (constantI S_ 32 14#32),
    nullary main_c_1726 (constantI S_ 32 0#32),
    binary main_c_1725 main_c_1726 main_v2027 (cmpi .slt : (⟨S_, .i32⟩ : BufTy).Contents (Elt F) → (⟨S_, .i32⟩ : BufTy).Contents (Elt F) → (⟨S_, .i1⟩ : BufTy).Contents (Elt F)),
    nullary main_c_1727 (constantI S_ 32 14#32),
    nullary main_c_1728 (constantI S_ 32 16#32),
    binary main_c_1727 main_c_1728 main_v2028 (addi : (⟨S_, .i32⟩ : BufTy).Contents (Elt F) → (⟨S_, .i32⟩ : BufTy).Contents (Elt F) → (⟨S_, .i32⟩ : BufTy).Contents (Elt F)),
    nullary main_c_1729 (constantI S_ 32 14#32),
    ternary main_v2027 main_v2028 main_c_1729 main_v2029 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1730 (constantI S_ 32 0#32),
    nullary main_c_1731 (constantI S_ 32 0#32),
    binary main_c_1730 main_c_1731 main_v2030 (cmpi .slt : (⟨S_, .i32⟩ : BufTy).Contents (Elt F) → (⟨S_, .i32⟩ : BufTy).Contents (Elt F) → (⟨S_, .i1⟩ : BufTy).Contents (Elt F)),
    nullary main_c_1732 (constantI S_ 32 0#32),
    nullary main_c_1733 (constantI S_ 32 1#32),
    binary main_c_1732 main_c_1733 main_v2031 (addi : (⟨S_, .i32⟩ : BufTy).Contents (Elt F) → (⟨S_, .i32⟩ : BufTy).Contents (Elt F) → (⟨S_, .i32⟩ : BufTy).Contents (Elt F)),
    nullary main_c_1734 (constantI S_ 32 0#32),
    ternary main_v2030 main_v2031 main_c_1734 main_v2032 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1735 (constantI S_ 32 0#32),
    binary main_v2009 main_c_1735 main_v2033 (cmpi .slt : (⟨S_, .i32⟩ : BufTy).Contents (Elt F) → (⟨S_, .i32⟩ : BufTy).Contents (Elt F) → (⟨S_, .i1⟩ : BufTy).Contents (Elt F)),
    nullary main_c_1736 (constantI S_ 32 512#32),
    binary main_v2009 main_c_1736 main_v2034 (addi : (⟨S_, .i32⟩ : BufTy).Contents (Elt F) → (⟨S_, .i32⟩ : BufTy).Contents (Elt F) → (⟨S_, .i32⟩ : BufTy).Contents (Elt F)),
    ternary main_v2033 main_v2034 main_v2009 main_v2035 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1737 (constantI S_ 32 0#32),
    binary main_v2013 main_c_1737 main_v2036 (cmpi .slt : (⟨S_, .i32⟩ : BufTy).Contents (Elt F) → (⟨S_, .i32⟩ : BufTy).Contents (Elt F) → (⟨S_, .i1⟩ : BufTy).Contents (Elt F)),
    nullary main_c_1738 (constantI S_ 32 512#32),
    binary main_v2013 main_c_1738 main_v2037 (addi : (⟨S_, .i32⟩ : BufTy).Contents (Elt F) → (⟨S_, .i32⟩ : BufTy).Contents (Elt F) → (⟨S_, .i32⟩ : BufTy).Contents (Elt F)),
    ternary main_v2036 main_v2037 main_v2013 main_v2038 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v2005 main_v2026 ![main_v2029, main_v2032, main_v2035, main_v2038] ⟨S_, .i32⟩ main_v2039 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc119_sub : (pc119 (F := F)).Forall fun op => op.bufs ⊆ tcRefs τ sig :=
  ⟨binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc119_fresh : ∀ op ∈ (pc119 (F := F)), op.fresh = ∅ := by
  intro _ h; (repeat (cases h with | head => rfl | tail _ h => ?_)); exact nomatch h

set_option maxRecDepth 8192 in
set_option maxHeartbeats 4000000 in
/-- Window 42 of the printed program is the run of its lists. -/
theorem part42_eq (c : Dev nD) : main_part42 (F := F) c = seq (pc080) := rfl

set_option maxRecDepth 8192 in
set_option maxHeartbeats 4000000 in
/-- Window 43 of the printed program is the run of its lists. -/
theorem part43_eq (c : Dev nD) : main_part43 (F := F) c = seq (pc081 ++ (pc082)) := rfl

set_option maxRecDepth 8192 in
set_option maxHeartbeats 4000000 in
/-- Window 44 of the printed program is the run of its lists. -/
theorem part44_eq (c : Dev nD) : main_part44 (F := F) c = seq (pc083 ++ (pc084)) := rfl

set_option maxRecDepth 8192 in
set_option maxHeartbeats 4000000 in
/-- Window 45 of the printed program is the run of its lists. -/
theorem part45_eq (c : Dev nD) : main_part45 (F := F) c = seq (pc085 ++ (pc086)) := rfl

set_option maxRecDepth 8192 in
set_option maxHeartbeats 4000000 in
/-- Window 46 of the printed program is the run of its lists. -/
theorem part46_eq (c : Dev nD) : main_part46 (F := F) c = seq (pc087 ++ (pc088)) := rfl

set_option maxRecDepth 8192 in
set_option maxHeartbeats 4000000 in
/-- Window 47 of the printed program is the run of its lists. -/
theorem part47_eq (c : Dev nD) : main_part47 (F := F) c = seq (pc089 ++ (pc090)) := rfl

set_option maxRecDepth 8192 in
set_option maxHeartbeats 4000000 in
/-- Window 48 of the printed program is the run of its lists. -/
theorem part48_eq (c : Dev nD) : main_part48 (F := F) c = seq (pc091 ++ (pc092)) := rfl

set_option maxRecDepth 8192 in
set_option maxHeartbeats 4000000 in
/-- Window 49 of the printed program is the run of its lists. -/
theorem part49_eq (c : Dev nD) : main_part49 (F := F) c = seq (pc093 ++ (pc094)) := rfl

set_option maxRecDepth 8192 in
set_option maxHeartbeats 4000000 in
/-- Window 50 of the printed program is the run of its lists. -/
theorem part50_eq (c : Dev nD) : main_part50 (F := F) c = seq (pc095 ++ (pc096)) := rfl

set_option maxRecDepth 8192 in
set_option maxHeartbeats 4000000 in
/-- Window 51 of the printed program is the run of its lists. -/
theorem part51_eq (c : Dev nD) : main_part51 (F := F) c = seq (pc097 ++ (pc098)) := rfl

set_option maxRecDepth 8192 in
set_option maxHeartbeats 4000000 in
/-- Window 52 of the printed program is the run of its lists. -/
theorem part52_eq (c : Dev nD) : main_part52 (F := F) c = seq (pc099 ++ (pc100)) := rfl

set_option maxRecDepth 8192 in
set_option maxHeartbeats 4000000 in
/-- Window 53 of the printed program is the run of its lists. -/
theorem part53_eq (c : Dev nD) : main_part53 (F := F) c = seq (pc101 ++ (pc102)) := rfl

set_option maxRecDepth 8192 in
set_option maxHeartbeats 4000000 in
/-- Window 54 of the printed program is the run of its lists. -/
theorem part54_eq (c : Dev nD) : main_part54 (F := F) c = seq (pc103 ++ (pc104)) := rfl

set_option maxRecDepth 8192 in
set_option maxHeartbeats 4000000 in
/-- Window 55 of the printed program is the run of its lists. -/
theorem part55_eq (c : Dev nD) : main_part55 (F := F) c = seq (pc105 ++ (pc106)) := rfl

set_option maxRecDepth 8192 in
set_option maxHeartbeats 4000000 in
/-- Window 56 of the printed program is the run of its lists. -/
theorem part56_eq (c : Dev nD) : main_part56 (F := F) c = seq (pc107 ++ (pc108)) := rfl

set_option maxRecDepth 8192 in
set_option maxHeartbeats 4000000 in
/-- Window 57 of the printed program is the run of its lists. -/
theorem part57_eq (c : Dev nD) : main_part57 (F := F) c = seq (pc109 ++ (pc110)) := rfl

set_option maxRecDepth 8192 in
set_option maxHeartbeats 4000000 in
/-- Window 58 of the printed program is the run of its lists. -/
theorem part58_eq (c : Dev nD) : main_part58 (F := F) c = seq (pc111 ++ (pc112)) := rfl

set_option maxRecDepth 8192 in
set_option maxHeartbeats 4000000 in
/-- Window 59 of the printed program is the run of its lists. -/
theorem part59_eq (c : Dev nD) : main_part59 (F := F) c = seq (pc113 ++ (pc114)) := rfl

set_option maxRecDepth 8192 in
set_option maxHeartbeats 4000000 in
/-- Window 60 of the printed program is the run of its lists. -/
theorem part60_eq (c : Dev nD) : main_part60 (F := F) c = seq (pc115 ++ (pc116)) := rfl

set_option maxRecDepth 8192 in
set_option maxHeartbeats 4000000 in
/-- Window 61 of the printed program is the run of its lists. -/
theorem part61_eq (c : Dev nD) : main_part61 (F := F) c = seq (pc117 ++ (pc118)) := rfl

set_option maxRecDepth 8192 in
set_option maxHeartbeats 4000000 in
/-- Window 62 of the printed program is the run of its lists. -/
theorem part62_eq (c : Dev nD) : main_part62 (F := F) c = seq (pc119) := rfl

end Cert.ReferenceIdeal.RefRun

end
-- ==== Proof.RefRun.StepsC.lean ====
/- Steps of the reference over the operations 2761 … 4140 of 4424: each step, from any contents, leaves the running map with one more
   overwrite, spelt as the program spells it, and the three arguments as they were. -/
import proofs.«207346_g72533407695360_cont_9to1_m_270_11_alg».proof.Proof.RefRun.OpsC
import proofs.«207346_g72533407695360_cont_9to1_m_270_11_alg».proof.Proof.RefRunBase
import proofs.«207346_g72533407695360_cont_9to1_m_270_11_alg».proof.Proof.RefNest

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Step 40 (image 10, window 0). -/
theorem inv40 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1359) = X ∧ W (Proc.devRef .tc main_arg0) = A0 ∧ W (Proc.devRef .tc main_arg1) = A1 ∧ W (Proc.devRef .tc main_arg2) = A2) :
    (after pc081 (after pc080 W)) (Proc.devRef .tc main_v1393) = Cert.Fuse.Ref.stepAt 10 0 (by decide) (by decide) X A1 A2
      ∧ (after pc081 (after pc080 W)) (Proc.devRef .tc main_arg0) = A0 ∧ (after pc081 (after pc080 W)) (Proc.devRef .tc main_arg1) = A1 ∧ (after pc081 (after pc080 W)) (Proc.devRef .tc main_arg2) = A2 := by
  obtain ⟨rfl, rfl, rfl, rfl⟩ := h
  simp only [pc080, pc081]
  after_steps
  rfl

set_option maxHeartbeats 40000000 in
/-- Step 41 (image 10, window 1). -/
theorem inv41 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1393) = X ∧ W (Proc.devRef .tc main_arg0) = A0 ∧ W (Proc.devRef .tc main_arg1) = A1 ∧ W (Proc.devRef .tc main_arg2) = A2) :
    (after pc083 (after pc082 W)) (Proc.devRef .tc main_v1427) = Cert.Fuse.Ref.stepAt 10 1 (by decide) (by decide) X A1 A2
      ∧ (after pc083 (after pc082 W)) (Proc.devRef .tc main_arg0) = A0 ∧ (after pc083 (after pc082 W)) (Proc.devRef .tc main_arg1) = A1 ∧ (after pc083 (after pc082 W)) (Proc.devRef .tc main_arg2) = A2 := by
  obtain ⟨rfl, rfl, rfl, rfl⟩ := h
  simp only [pc082, pc083]
  after_steps
  rfl

set_option maxHeartbeats 40000000 in
/-- Step 42 (image 10, window 2). -/
theorem inv42 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1427) = X ∧ W (Proc.devRef .tc main_arg0) = A0 ∧ W (Proc.devRef .tc main_arg1) = A1 ∧ W (Proc.devRef .tc main_arg2) = A2) :
    (after pc085 (after pc084 W)) (Proc.devRef .tc main_v1461) = Cert.Fuse.Ref.stepAt 10 2 (by decide) (by decide) X A1 A2
      ∧ (after pc085 (after pc084 W)) (Proc.devRef .tc main_arg0) = A0 ∧ (after pc085 (after pc084 W)) (Proc.devRef .tc main_arg1) = A1 ∧ (after pc085 (after pc084 W)) (Proc.devRef .tc main_arg2) = A2 := by
  obtain ⟨rfl, rfl, rfl, rfl⟩ := h
  simp only [pc084, pc085]
  after_steps
  rfl

set_option maxHeartbeats 40000000 in
/-- Step 43 (image 10, window 3). -/
theorem inv43 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1461) = X ∧ W (Proc.devRef .tc main_arg0) = A0 ∧ W (Proc.devRef .tc main_arg1) = A1 ∧ W (Proc.devRef .tc main_arg2) = A2) :
    (after pc087 (after pc086 W)) (Proc.devRef .tc main_v1495) = Cert.Fuse.Ref.stepAt 10 3 (by decide) (by decide) X A1 A2
      ∧ (after pc087 (after pc086 W)) (Proc.devRef .tc main_arg0) = A0 ∧ (after pc087 (after pc086 W)) (Proc.devRef .tc main_arg1) = A1 ∧ (after pc087 (after pc086 W)) (Proc.devRef .tc main_arg2) = A2 := by
  obtain ⟨rfl, rfl, rfl, rfl⟩ := h
  simp only [pc086, pc087]
  after_steps
  rfl

set_option maxHeartbeats 40000000 in
/-- Step 44 (image 11, window 0). -/
theorem inv44 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1495) = X ∧ W (Proc.devRef .tc main_arg0) = A0 ∧ W (Proc.devRef .tc main_arg1) = A1 ∧ W (Proc.devRef .tc main_arg2) = A2) :
    (after pc089 (after pc088 W)) (Proc.devRef .tc main_v1529) = Cert.Fuse.Ref.stepAt 11 0 (by decide) (by decide) X A1 A2
      ∧ (after pc089 (after pc088 W)) (Proc.devRef .tc main_arg0) = A0 ∧ (after pc089 (after pc088 W)) (Proc.devRef .tc main_arg1) = A1 ∧ (after pc089 (after pc088 W)) (Proc.devRef .tc main_arg2) = A2 := by
  obtain ⟨rfl, rfl, rfl, rfl⟩ := h
  simp only [pc088, pc089]
  after_steps
  rfl

set_option maxHeartbeats 40000000 in
/-- Step 45 (image 11, window 1). -/
theorem inv45 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1529) = X ∧ W (Proc.devRef .tc main_arg0) = A0 ∧ W (Proc.devRef .tc main_arg1) = A1 ∧ W (Proc.devRef .tc main_arg2) = A2) :
    (after pc091 (after pc090 W)) (Proc.devRef .tc main_v1563) = Cert.Fuse.Ref.stepAt 11 1 (by decide) (by decide) X A1 A2
      ∧ (after pc091 (after pc090 W)) (Proc.devRef .tc main_arg0) = A0 ∧ (after pc091 (after pc090 W)) (Proc.devRef .tc main_arg1) = A1 ∧ (after pc091 (after pc090 W)) (Proc.devRef .tc main_arg2) = A2 := by
  obtain ⟨rfl, rfl, rfl, rfl⟩ := h
  simp only [pc090, pc091]
  after_steps
  rfl

set_option maxHeartbeats 40000000 in
/-- Step 46 (image 11, window 2). -/
theorem inv46 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1563) = X ∧ W (Proc.devRef .tc main_arg0) = A0 ∧ W (Proc.devRef .tc main_arg1) = A1 ∧ W (Proc.devRef .tc main_arg2) = A2) :
    (after pc093 (after pc092 W)) (Proc.devRef .tc main_v1597) = Cert.Fuse.Ref.stepAt 11 2 (by decide) (by decide) X A1 A2
      ∧ (after pc093 (after pc092 W)) (Proc.devRef .tc main_arg0) = A0 ∧ (after pc093 (after pc092 W)) (Proc.devRef .tc main_arg1) = A1 ∧ (after pc093 (after pc092 W)) (Proc.devRef .tc main_arg2) = A2 := by
  obtain ⟨rfl, rfl, rfl, rfl⟩ := h
  simp only [pc092, pc093]
  after_steps
  rfl

set_option maxHeartbeats 40000000 in
/-- Step 47 (image 11, window 3). -/
theorem inv47 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1597) = X ∧ W (Proc.devRef .tc main_arg0) = A0 ∧ W (Proc.devRef .tc main_arg1) = A1 ∧ W (Proc.devRef .tc main_arg2) = A2) :
    (after pc095 (after pc094 W)) (Proc.devRef .tc main_v1631) = Cert.Fuse.Ref.stepAt 11 3 (by decide) (by decide) X A1 A2
      ∧ (after pc095 (after pc094 W)) (Proc.devRef .tc main_arg0) = A0 ∧ (after pc095 (after pc094 W)) (Proc.devRef .tc main_arg1) = A1 ∧ (after pc095 (after pc094 W)) (Proc.devRef .tc main_arg2) = A2 := by
  obtain ⟨rfl, rfl, rfl, rfl⟩ := h
  simp only [pc094, pc095]
  after_steps
  rfl

set_option maxHeartbeats 40000000 in
/-- Step 48 (image 12, window 0). -/
theorem inv48 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1631) = X ∧ W (Proc.devRef .tc main_arg0) = A0 ∧ W (Proc.devRef .tc main_arg1) = A1 ∧ W (Proc.devRef .tc main_arg2) = A2) :
    (after pc097 (after pc096 W)) (Proc.devRef .tc main_v1665) = Cert.Fuse.Ref.stepAt 12 0 (by decide) (by decide) X A1 A2
      ∧ (after pc097 (after pc096 W)) (Proc.devRef .tc main_arg0) = A0 ∧ (after pc097 (after pc096 W)) (Proc.devRef .tc main_arg1) = A1 ∧ (after pc097 (after pc096 W)) (Proc.devRef .tc main_arg2) = A2 := by
  obtain ⟨rfl, rfl, rfl, rfl⟩ := h
  simp only [pc096, pc097]
  after_steps
  rfl

set_option maxHeartbeats 40000000 in
/-- Step 49 (image 12, window 1). -/
theorem inv49 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1665) = X ∧ W (Proc.devRef .tc main_arg0) = A0 ∧ W (Proc.devRef .tc main_arg1) = A1 ∧ W (Proc.devRef .tc main_arg2) = A2) :
    (after pc099 (after pc098 W)) (Proc.devRef .tc main_v1699) = Cert.Fuse.Ref.stepAt 12 1 (by decide) (by decide) X A1 A2
      ∧ (after pc099 (after pc098 W)) (Proc.devRef .tc main_arg0) = A0 ∧ (after pc099 (after pc098 W)) (Proc.devRef .tc main_arg1) = A1 ∧ (after pc099 (after pc098 W)) (Proc.devRef .tc main_arg2) = A2 := by
  obtain ⟨rfl, rfl, rfl, rfl⟩ := h
  simp only [pc098, pc099]
  after_steps
  rfl

set_option maxHeartbeats 40000000 in
/-- Step 50 (image 12, window 2). -/
theorem inv50 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1699) = X ∧ W (Proc.devRef .tc main_arg0) = A0 ∧ W (Proc.devRef .tc main_arg1) = A1 ∧ W (Proc.devRef .tc main_arg2) = A2) :
    (after pc101 (after pc100 W)) (Proc.devRef .tc main_v1733) = Cert.Fuse.Ref.stepAt 12 2 (by decide) (by decide) X A1 A2
      ∧ (after pc101 (after pc100 W)) (Proc.devRef .tc main_arg0) = A0 ∧ (after pc101 (after pc100 W)) (Proc.devRef .tc main_arg1) = A1 ∧ (after pc101 (after pc100 W)) (Proc.devRef .tc main_arg2) = A2 := by
  obtain ⟨rfl, rfl, rfl, rfl⟩ := h
  simp only [pc100, pc101]
  after_steps
  rfl

set_option maxHeartbeats 40000000 in
/-- Step 51 (image 12, window 3). -/
theorem inv51 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1733) = X ∧ W (Proc.devRef .tc main_arg0) = A0 ∧ W (Proc.devRef .tc main_arg1) = A1 ∧ W (Proc.devRef .tc main_arg2) = A2) :
    (after pc103 (after pc102 W)) (Proc.devRef .tc main_v1767) = Cert.Fuse.Ref.stepAt 12 3 (by decide) (by decide) X A1 A2
      ∧ (after pc103 (after pc102 W)) (Proc.devRef .tc main_arg0) = A0 ∧ (after pc103 (after pc102 W)) (Proc.devRef .tc main_arg1) = A1 ∧ (after pc103 (after pc102 W)) (Proc.devRef .tc main_arg2) = A2 := by
  obtain ⟨rfl, rfl, rfl, rfl⟩ := h
  simp only [pc102, pc103]
  after_steps
  rfl

set_option maxHeartbeats 40000000 in
/-- Step 52 (image 13, window 0). -/
theorem inv52 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1767) = X ∧ W (Proc.devRef .tc main_arg0) = A0 ∧ W (Proc.devRef .tc main_arg1) = A1 ∧ W (Proc.devRef .tc main_arg2) = A2) :
    (after pc105 (after pc104 W)) (Proc.devRef .tc main_v1801) = Cert.Fuse.Ref.stepAt 13 0 (by decide) (by decide) X A1 A2
      ∧ (after pc105 (after pc104 W)) (Proc.devRef .tc main_arg0) = A0 ∧ (after pc105 (after pc104 W)) (Proc.devRef .tc main_arg1) = A1 ∧ (after pc105 (after pc104 W)) (Proc.devRef .tc main_arg2) = A2 := by
  obtain ⟨rfl, rfl, rfl, rfl⟩ := h
  simp only [pc104, pc105]
  after_steps
  rfl

set_option maxHeartbeats 40000000 in
/-- Step 53 (image 13, window 1). -/
theorem inv53 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1801) = X ∧ W (Proc.devRef .tc main_arg0) = A0 ∧ W (Proc.devRef .tc main_arg1) = A1 ∧ W (Proc.devRef .tc main_arg2) = A2) :
    (after pc107 (after pc106 W)) (Proc.devRef .tc main_v1835) = Cert.Fuse.Ref.stepAt 13 1 (by decide) (by decide) X A1 A2
      ∧ (after pc107 (after pc106 W)) (Proc.devRef .tc main_arg0) = A0 ∧ (after pc107 (after pc106 W)) (Proc.devRef .tc main_arg1) = A1 ∧ (after pc107 (after pc106 W)) (Proc.devRef .tc main_arg2) = A2 := by
  obtain ⟨rfl, rfl, rfl, rfl⟩ := h
  simp only [pc106, pc107]
  after_steps
  rfl

set_option maxHeartbeats 40000000 in
/-- Step 54 (image 13, window 2). -/
theorem inv54 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1835) = X ∧ W (Proc.devRef .tc main_arg0) = A0 ∧ W (Proc.devRef .tc main_arg1) = A1 ∧ W (Proc.devRef .tc main_arg2) = A2) :
    (after pc109 (after pc108 W)) (Proc.devRef .tc main_v1869) = Cert.Fuse.Ref.stepAt 13 2 (by decide) (by decide) X A1 A2
      ∧ (after pc109 (after pc108 W)) (Proc.devRef .tc main_arg0) = A0 ∧ (after pc109 (after pc108 W)) (Proc.devRef .tc main_arg1) = A1 ∧ (after pc109 (after pc108 W)) (Proc.devRef .tc main_arg2) = A2 := by
  obtain ⟨rfl, rfl, rfl, rfl⟩ := h
  simp only [pc108, pc109]
  after_steps
  rfl

set_option maxHeartbeats 40000000 in
/-- Step 55 (image 13, window 3). -/
theorem inv55 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1869) = X ∧ W (Proc.devRef .tc main_arg0) = A0 ∧ W (Proc.devRef .tc main_arg1) = A1 ∧ W (Proc.devRef .tc main_arg2) = A2) :
    (after pc111 (after pc110 W)) (Proc.devRef .tc main_v1903) = Cert.Fuse.Ref.stepAt 13 3 (by decide) (by decide) X A1 A2
      ∧ (after pc111 (after pc110 W)) (Proc.devRef .tc main_arg0) = A0 ∧ (after pc111 (after pc110 W)) (Proc.devRef .tc main_arg1) = A1 ∧ (after pc111 (after pc110 W)) (Proc.devRef .tc main_arg2) = A2 := by
  obtain ⟨rfl, rfl, rfl, rfl⟩ := h
  simp only [pc110, pc111]
  after_steps
  rfl

set_option maxHeartbeats 40000000 in
/-- Step 56 (image 14, window 0). -/
theorem inv56 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1903) = X ∧ W (Proc.devRef .tc main_arg0) = A0 ∧ W (Proc.devRef .tc main_arg1) = A1 ∧ W (Proc.devRef .tc main_arg2) = A2) :
    (after pc113 (after pc112 W)) (Proc.devRef .tc main_v1937) = Cert.Fuse.Ref.stepAt 14 0 (by decide) (by decide) X A1 A2
      ∧ (after pc113 (after pc112 W)) (Proc.devRef .tc main_arg0) = A0 ∧ (after pc113 (after pc112 W)) (Proc.devRef .tc main_arg1) = A1 ∧ (after pc113 (after pc112 W)) (Proc.devRef .tc main_arg2) = A2 := by
  obtain ⟨rfl, rfl, rfl, rfl⟩ := h
  simp only [pc112, pc113]
  after_steps
  rfl

set_option maxHeartbeats 40000000 in
/-- Step 57 (image 14, window 1). -/
theorem inv57 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1937) = X ∧ W (Proc.devRef .tc main_arg0) = A0 ∧ W (Proc.devRef .tc main_arg1) = A1 ∧ W (Proc.devRef .tc main_arg2) = A2) :
    (after pc115 (after pc114 W)) (Proc.devRef .tc main_v1971) = Cert.Fuse.Ref.stepAt 14 1 (by decide) (by decide) X A1 A2
      ∧ (after pc115 (after pc114 W)) (Proc.devRef .tc main_arg0) = A0 ∧ (after pc115 (after pc114 W)) (Proc.devRef .tc main_arg1) = A1 ∧ (after pc115 (after pc114 W)) (Proc.devRef .tc main_arg2) = A2 := by
  obtain ⟨rfl, rfl, rfl, rfl⟩ := h
  simp only [pc114, pc115]
  after_steps
  rfl

set_option maxHeartbeats 40000000 in
/-- Step 58 (image 14, window 2). -/
theorem inv58 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v1971) = X ∧ W (Proc.devRef .tc main_arg0) = A0 ∧ W (Proc.devRef .tc main_arg1) = A1 ∧ W (Proc.devRef .tc main_arg2) = A2) :
    (after pc117 (after pc116 W)) (Proc.devRef .tc main_v2005) = Cert.Fuse.Ref.stepAt 14 2 (by decide) (by decide) X A1 A2
      ∧ (after pc117 (after pc116 W)) (Proc.devRef .tc main_arg0) = A0 ∧ (after pc117 (after pc116 W)) (Proc.devRef .tc main_arg1) = A1 ∧ (after pc117 (after pc116 W)) (Proc.devRef .tc main_arg2) = A2 := by
  obtain ⟨rfl, rfl, rfl, rfl⟩ := h
  simp only [pc116, pc117]
  after_steps
  rfl

set_option maxHeartbeats 40000000 in
/-- Step 59 (image 14, window 3). -/
theorem inv59 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v2005) = X ∧ W (Proc.devRef .tc main_arg0) = A0 ∧ W (Proc.devRef .tc main_arg1) = A1 ∧ W (Proc.devRef .tc main_arg2) = A2) :
    (after pc119 (after pc118 W)) (Proc.devRef .tc main_v2039) = Cert.Fuse.Ref.stepAt 14 3 (by decide) (by decide) X A1 A2
      ∧ (after pc119 (after pc118 W)) (Proc.devRef .tc main_arg0) = A0 ∧ (after pc119 (after pc118 W)) (Proc.devRef .tc main_arg1) = A1 ∧ (after pc119 (after pc118 W)) (Proc.devRef .tc main_arg2) = A2 := by
  obtain ⟨rfl, rfl, rfl, rfl⟩ := h
  simp only [pc118, pc119]
  after_steps
  rfl

end Cert.ReferenceIdeal.RefRun

end
-- ==== Proof.RefRun.OpsD.lean ====
/- The reference's operations 4141 … 4424 of 4424, in order, as short lists: cut where a window of the printed program
   ends and where a step (one window of one image) ends. Of each list: its operations touch TensorCore buffers only, and
   each determines its result. Of each window of the printed program in this range: it runs its lists, one after the other. -/
import proofs.«207346_g72533407695360_cont_9to1_m_270_11_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 4141 … 4206 of 4424. -/
noncomputable def pc120 : List (HloOp τ sig (Elt F)) :=
  [ unary main_arg2 main_v2040 ((extractStridedSlice S1x1x1 ![15, 0, 0] · slices_S16x4x2_S1x1x1_15_0_0) : (⟨S16x4x2, .i32⟩ : BufTy).Contents (Elt F) → (⟨S1x1x1, .i32⟩ : BufTy).Contents (Elt F)),
    reshape main_v2040 main_v2041 rfl shapeCasts_S1x1x1_S_,
    nullary main_c_1739 (constantI S_ 32 128#32),
    binary main_v2041 main_c_1739 main_v2042 (muli : (⟨S_, .i32⟩ : BufTy).Contents (Elt F) → (⟨S_, .i32⟩ : BufTy).Contents (Elt F) → (⟨S_, .i32⟩ : BufTy).Contents (Elt F)),
    nullary main_c_1740 (constantI S_ 32 0#32),
    nullary main_c_1741 (constantI S_ 32 128#32),
    TRef.unary (TRef.of (T := ⟨S_, .i32⟩) main_c_1740) (TRef.of (T := ⟨S_, .i32⟩) main_call120_v0) id,
    TRef.binary (TRef.of (T := ⟨S_, .i32⟩) main_call120_v0) (TRef.of (T := ⟨S_, .i32⟩) main_v2042) (TRef.of (T := ⟨S_, .i32⟩) main_call120_v1) maxsi,
    TRef.unary (TRef.of (T := ⟨S_, .i32⟩) main_c_1741) (TRef.of (T := ⟨S_, .i32⟩) main_call120_v2) id,
    TRef.binary (TRef.of (T := ⟨S_, .i32⟩) main_call120_v2) (TRef.of (T := ⟨S_, .i32⟩) main_call120_v1) (TRef.of (T := ⟨S_, .i32⟩) main_v2043) minsi,
    unary main_arg2 main_v2044 ((extractStridedSlice S1x1x1 ![15, 0, 1] · slices_S16x4x2_S1x1x1_15_0_1) : (⟨S16x4x2, .i32⟩ : BufTy).Contents (Elt F) → (⟨S1x1x1, .i32⟩ : BufTy).Contents (Elt F)),
    reshape main_v2044 main_v2045 rfl shapeCasts_S1x1x1_S_,
    nullary main_c_1742 (constantI S_ 32 128#32),
    binary main_v2045 main_c_1742 main_v2046 (muli : (⟨S_, .i32⟩ : BufTy).Contents (Elt F) → (⟨S_, .i32⟩ : BufTy).Contents (Elt F) → (⟨S_, .i32⟩ : BufTy).Contents (Elt F)),
    nullary main_c_1743 (constantI S_ 32 0#32),
    nullary main_c_1744 (constantI S_ 32 128#32),
    TRef.unary (TRef.of (T := ⟨S_, .i32⟩) main_c_1743) (TRef.of (T := ⟨S_, .i32⟩) main_call121_v0) id,
    TRef.binary (TRef.of (T := ⟨S_, .i32⟩) main_call121_v0) (TRef.of (T := ⟨S_, .i32⟩) main_v2046) (TRef.of (T := ⟨S_, .i32⟩) main_call121_v1) maxsi,
    TRef.unary (TRef.of (T := ⟨S_, .i32⟩) main_c_1744) (TRef.of (T := ⟨S_, .i32⟩) main_call121_v2) id,
    TRef.binary (TRef.of (T := ⟨S_, .i32⟩) main_call121_v2) (TRef.of (T := ⟨S_, .i32⟩) main_call121_v1) (TRef.of (T := ⟨S_, .i32⟩) main_v2047) minsi,
    unary main_arg1 main_v2048 ((extractStridedSlice S1x1x1x512x512 ![15, 0, 0, 0, 0] · slices_S16x4x1x512x512_S1x1x1x512x512_15_0_0_0_0) : (⟨S16x4x1x512x512, .f32⟩ : BufTy).Contents (Elt F) → (⟨S1x1x1x512x512, .f32⟩ : BufTy).Contents (Elt F)),
    reshape main_v2048 main_v2049 rfl shapeCasts_S1x1x1x512x512_S1x512x512,
    nullary main_c_1745 (constantI S_ 32 0#32),
    nullary main_c_1746 (constantI S_ 32 0#32),
    binary main_c_1745 main_c_1746 main_v2050 (cmpi .slt : (⟨S_, .i32⟩ : BufTy).Contents (Elt F) → (⟨S_, .i32⟩ : BufTy).Contents (Elt F) → (⟨S_, .i1⟩ : BufTy).Contents (Elt F)),
    nullary main_c_1747 (constantI S_ 32 0#32),
    nullary main_c_1748 (constantI S_ 32 1#32),
    binary main_c_1747 main_c_1748 main_v2051 (addi : (⟨S_, .i32⟩ : BufTy).Contents (Elt F) → (⟨S_, .i32⟩ : BufTy).Contents (Elt F) → (⟨S_, .i32⟩ : BufTy).Contents (Elt F)),
    nullary main_c_1749 (constantI S_ 32 0#32),
    ternary main_v2050 main_v2051 main_c_1749 main_v2052 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1750 (constantI S_ 32 0#32),
    binary main_v2043 main_c_1750 main_v2053 (cmpi .slt : (⟨S_, .i32⟩ : BufTy).Contents (Elt F) → (⟨S_, .i32⟩ : BufTy).Contents (Elt F) → (⟨S_, .i1⟩ : BufTy).Contents (Elt F)),
    nullary main_c_1751 (constantI S_ 32 512#32),
    binary main_v2043 main_c_1751 main_v2054 (addi : (⟨S_, .i32⟩ : BufTy).Contents (Elt F) → (⟨S_, .i32⟩ : BufTy).Contents (Elt F) → (⟨S_, .i32⟩ : BufTy).Contents (Elt F)),
    ternary main_v2053 main_v2054 main_v2043 main_v2055 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1752 (constantI S_ 32 0#32),
    binary main_v2047 main_c_1752 main_v2056 (cmpi .slt : (⟨S_, .i32⟩ : BufTy).Contents (Elt F) → (⟨S_, .i32⟩ : BufTy).Contents (Elt F) → (⟨S_, .i1⟩ : BufTy).Contents (Elt F)),
    nullary main_c_1753 (constantI S_ 32 512#32),
    binary main_v2047 main_c_1753 main_v2057 (addi : (⟨S_, .i32⟩ : BufTy).Contents (Elt F) → (⟨S_, .i32⟩ : BufTy).Contents (Elt F) → (⟨S_, .i32⟩ : BufTy).Contents (Elt F)),
    ternary main_v2056 main_v2057 main_v2047 main_v2058 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2049 ![main_v2052, main_v2055, main_v2058] ⟨S_, .i32⟩ main_v2059 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v2059 main_v2060 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1754 (constantI S_ 32 15#32),
    nullary main_c_1755 (constantI S_ 32 0#32),
    binary main_c_1754 main_c_1755 main_v2061 (cmpi .slt : (⟨S_, .i32⟩ : BufTy).Contents (Elt F) → (⟨S_, .i32⟩ : BufTy).Contents (Elt F) → (⟨S_, .i1⟩ : BufTy).Contents (Elt F)),
    nullary main_c_1756 (constantI S_ 32 15#32),
    nullary main_c_1757 (constantI S_ 32 16#32),
    binary main_c_1756 main_c_1757 main_v2062 (addi : (⟨S_, .i32⟩ : BufTy).Contents (Elt F) → (⟨S_, .i32⟩ : BufTy).Contents (Elt F) → (⟨S_, .i32⟩ : BufTy).Contents (Elt F)),
    nullary main_c_1758 (constantI S_ 32 15#32),
    ternary main_v2061 main_v2062 main_c_1758 main_v2063 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1759 (constantI S_ 32 0#32),
    nullary main_c_1760 (constantI S_ 32 0#32),
    binary main_c_1759 main_c_1760 main_v2064 (cmpi .slt : (⟨S_, .i32⟩ : BufTy).Contents (Elt F) → (⟨S_, .i32⟩ : BufTy).Contents (Elt F) → (⟨S_, .i1⟩ : BufTy).Contents (Elt F)),
    nullary main_c_1761 (constantI S_ 32 0#32),
    nullary main_c_1762 (constantI S_ 32 1#32),
    binary main_c_1761 main_c_1762 main_v2065 (addi : (⟨S_, .i32⟩ : BufTy).Contents (Elt F) → (⟨S_, .i32⟩ : BufTy).Contents (Elt F) → (⟨S_, .i32⟩ : BufTy).Contents (Elt F)),
    nullary main_c_1763 (constantI S_ 32 0#32),
    ternary main_v2064 main_v2065 main_c_1763 main_v2066 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1764 (constantI S_ 32 0#32),
    binary main_v2043 main_c_1764 main_v2067 (cmpi .slt : (⟨S_, .i32⟩ : BufTy).Contents (Elt F) → (⟨S_, .i32⟩ : BufTy).Contents (Elt F) → (⟨S_, .i1⟩ : BufTy).Contents (Elt F)),
    nullary main_c_1765 (constantI S_ 32 512#32),
    binary main_v2043 main_c_1765 main_v2068 (addi : (⟨S_, .i32⟩ : BufTy).Contents (Elt F) → (⟨S_, .i32⟩ : BufTy).Contents (Elt F) → (⟨S_, .i32⟩ : BufTy).Contents (Elt F)),
    ternary main_v2067 main_v2068 main_v2043 main_v2069 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1766 (constantI S_ 32 0#32),
    binary main_v2047 main_c_1766 main_v2070 (cmpi .slt : (⟨S_, .i32⟩ : BufTy).Contents (Elt F) → (⟨S_, .i32⟩ : BufTy).Contents (Elt F) → (⟨S_, .i1⟩ : BufTy).Contents (Elt F)),
    nullary main_c_1767 (constantI S_ 32 512#32) ]
theorem pc120_sub : (pc120 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub ..⟩
theorem pc120_fresh : ∀ op ∈ (pc120 (F := F)), op.fresh = ∅ := by
  intro _ h; (repeat (cases h with | head => rfl | tail _ h => ?_)); exact nomatch h

/-- Operations 4207 … 4209 of 4424. -/
noncomputable def pc121 : List (HloOp τ sig (Elt F)) :=
  [ binary main_v2047 main_c_1767 main_v2071 (addi : (⟨S_, .i32⟩ : BufTy).Contents (Elt F) → (⟨S_, .i32⟩ : BufTy).Contents (Elt F) → (⟨S_, .i32⟩ : BufTy).Contents (Elt F)),
    ternary main_v2070 main_v2071 main_v2047 main_v2072 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v2039 main_v2060 ![main_v2063, main_v2066, main_v2069, main_v2072] ⟨S_, .i32⟩ main_v2073 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc121_sub : (pc121 (F := F)).Forall fun op => op.bufs ⊆ tcRefs τ sig :=
  ⟨binary_bufs_sub .., ternary_bufs_sub .., binaryIndexed_bufs_sub ..⟩
theorem pc121_fresh : ∀ op ∈ (pc121 (F := F)), op.fresh = ∅ := by
  intro _ h; (repeat (cases h with | head => rfl | tail _ h => ?_)); exact nomatch h

/-- Operations 4210 … 4272 of 4424. -/
noncomputable def pc122 : List (HloOp τ sig (Elt F)) :=
  [ unary main_arg2 main_v2074 ((extractStridedSlice S1x1x1 ![15, 1, 0] · slices_S16x4x2_S1x1x1_15_1_0) : (⟨S16x4x2, .i32⟩ : BufTy).Contents (Elt F) → (⟨S1x1x1, .i32⟩ : BufTy).Contents (Elt F)),
    reshape main_v2074 main_v2075 rfl shapeCasts_S1x1x1_S_,
    nullary main_c_1768 (constantI S_ 32 128#32),
    binary main_v2075 main_c_1768 main_v2076 (muli : (⟨S_, .i32⟩ : BufTy).Contents (Elt F) → (⟨S_, .i32⟩ : BufTy).Contents (Elt F) → (⟨S_, .i32⟩ : BufTy).Contents (Elt F)),
    nullary main_c_1769 (constantI S_ 32 0#32),
    nullary main_c_1770 (constantI S_ 32 128#32),
    TRef.unary (TRef.of (T := ⟨S_, .i32⟩) main_c_1769) (TRef.of (T := ⟨S_, .i32⟩) main_call122_v0) id,
    TRef.binary (TRef.of (T := ⟨S_, .i32⟩) main_call122_v0) (TRef.of (T := ⟨S_, .i32⟩) main_v2076) (TRef.of (T := ⟨S_, .i32⟩) main_call122_v1) maxsi,
    TRef.unary (TRef.of (T := ⟨S_, .i32⟩) main_c_1770) (TRef.of (T := ⟨S_, .i32⟩) main_call122_v2) id,
    TRef.binary (TRef.of (T := ⟨S_, .i32⟩) main_call122_v2) (TRef.of (T := ⟨S_, .i32⟩) main_call122_v1) (TRef.of (T := ⟨S_, .i32⟩) main_v2077) minsi,
    unary main_arg2 main_v2078 ((extractStridedSlice S1x1x1 ![15, 1, 1] · slices_S16x4x2_S1x1x1_15_1_1) : (⟨S16x4x2, .i32⟩ : BufTy).Contents (Elt F) → (⟨S1x1x1, .i32⟩ : BufTy).Contents (Elt F)),
    reshape main_v2078 main_v2079 rfl shapeCasts_S1x1x1_S_,
    nullary main_c_1771 (constantI S_ 32 128#32),
    binary main_v2079 main_c_1771 main_v2080 (muli : (⟨S_, .i32⟩ : BufTy).Contents (Elt F) → (⟨S_, .i32⟩ : BufTy).Contents (Elt F) → (⟨S_, .i32⟩ : BufTy).Contents (Elt F)),
    nullary main_c_1772 (constantI S_ 32 0#32),
    nullary main_c_1773 (constantI S_ 32 128#32),
    TRef.unary (TRef.of (T := ⟨S_, .i32⟩) main_c_1772) (TRef.of (T := ⟨S_, .i32⟩) main_call123_v0) id,
    TRef.binary (TRef.of (T := ⟨S_, .i32⟩) main_call123_v0) (TRef.of (T := ⟨S_, .i32⟩) main_v2080) (TRef.of (T := ⟨S_, .i32⟩) main_call123_v1) maxsi,
    TRef.unary (TRef.of (T := ⟨S_, .i32⟩) main_c_1773) (TRef.of (T := ⟨S_, .i32⟩) main_call123_v2) id,
    TRef.binary (TRef.of (T := ⟨S_, .i32⟩) main_call123_v2) (TRef.of (T := ⟨S_, .i32⟩) main_call123_v1) (TRef.of (T := ⟨S_, .i32⟩) main_v2081) minsi,
    unary main_arg1 main_v2082 ((extractStridedSlice S1x1x1x512x512 ![15, 1, 0, 0, 0] · slices_S16x4x1x512x512_S1x1x1x512x512_15_1_0_0_0) : (⟨S16x4x1x512x512, .f32⟩ : BufTy).Contents (Elt F) → (⟨S1x1x1x512x512, .f32⟩ : BufTy).Contents (Elt F)),
    reshape main_v2082 main_v2083 rfl shapeCasts_S1x1x1x512x512_S1x512x512,
    nullary main_c_1774 (constantI S_ 32 0#32),
    nullary main_c_1775 (constantI S_ 32 0#32),
    binary main_c_1774 main_c_1775 main_v2084 (cmpi .slt : (⟨S_, .i32⟩ : BufTy).Contents (Elt F) → (⟨S_, .i32⟩ : BufTy).Contents (Elt F) → (⟨S_, .i1⟩ : BufTy).Contents (Elt F)),
    nullary main_c_1776 (constantI S_ 32 0#32),
    nullary main_c_1777 (constantI S_ 32 1#32),
    binary main_c_1776 main_c_1777 main_v2085 (addi : (⟨S_, .i32⟩ : BufTy).Contents (Elt F) → (⟨S_, .i32⟩ : BufTy).Contents (Elt F) → (⟨S_, .i32⟩ : BufTy).Contents (Elt F)),
    nullary main_c_1778 (constantI S_ 32 0#32),
    ternary main_v2084 main_v2085 main_c_1778 main_v2086 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1779 (constantI S_ 32 0#32),
    binary main_v2077 main_c_1779 main_v2087 (cmpi .slt : (⟨S_, .i32⟩ : BufTy).Contents (Elt F) → (⟨S_, .i32⟩ : BufTy).Contents (Elt F) → (⟨S_, .i1⟩ : BufTy).Contents (Elt F)),
    nullary main_c_1780 (constantI S_ 32 512#32),
    binary main_v2077 main_c_1780 main_v2088 (addi : (⟨S_, .i32⟩ : BufTy).Contents (Elt F) → (⟨S_, .i32⟩ : BufTy).Contents (Elt F) → (⟨S_, .i32⟩ : BufTy).Contents (Elt F)),
    ternary main_v2087 main_v2088 main_v2077 main_v2089 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1781 (constantI S_ 32 0#32),
    binary main_v2081 main_c_1781 main_v2090 (cmpi .slt : (⟨S_, .i32⟩ : BufTy).Contents (Elt F) → (⟨S_, .i32⟩ : BufTy).Contents (Elt F) → (⟨S_, .i1⟩ : BufTy).Contents (Elt F)),
    nullary main_c_1782 (constantI S_ 32 512#32),
    binary main_v2081 main_c_1782 main_v2091 (addi : (⟨S_, .i32⟩ : BufTy).Contents (Elt F) → (⟨S_, .i32⟩ : BufTy).Contents (Elt F) → (⟨S_, .i32⟩ : BufTy).Contents (Elt F)),
    ternary main_v2090 main_v2091 main_v2081 main_v2092 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2083 ![main_v2086, main_v2089, main_v2092] ⟨S_, .i32⟩ main_v2093 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v2093 main_v2094 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1783 (constantI S_ 32 15#32),
    nullary main_c_1784 (constantI S_ 32 0#32),
    binary main_c_1783 main_c_1784 main_v2095 (cmpi .slt : (⟨S_, .i32⟩ : BufTy).Contents (Elt F) → (⟨S_, .i32⟩ : BufTy).Contents (Elt F) → (⟨S_, .i1⟩ : BufTy).Contents (Elt F)),
    nullary main_c_1785 (constantI S_ 32 15#32),
    nullary main_c_1786 (constantI S_ 32 16#32),
    binary main_c_1785 main_c_1786 main_v2096 (addi : (⟨S_, .i32⟩ : BufTy).Contents (Elt F) → (⟨S_, .i32⟩ : BufTy).Contents (Elt F) → (⟨S_, .i32⟩ : BufTy).Contents (Elt F)),
    nullary main_c_1787 (constantI S_ 32 15#32),
    ternary main_v2095 main_v2096 main_c_1787 main_v2097 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1788 (constantI S_ 32 0#32),
    nullary main_c_1789 (constantI S_ 32 0#32),
    binary main_c_1788 main_c_1789 main_v2098 (cmpi .slt : (⟨S_, .i32⟩ : BufTy).Contents (Elt F) → (⟨S_, .i32⟩ : BufTy).Contents (Elt F) → (⟨S_, .i1⟩ : BufTy).Contents (Elt F)),
    nullary main_c_1790 (constantI S_ 32 0#32),
    nullary main_c_1791 (constantI S_ 32 1#32),
    binary main_c_1790 main_c_1791 main_v2099 (addi : (⟨S_, .i32⟩ : BufTy).Contents (Elt F) → (⟨S_, .i32⟩ : BufTy).Contents (Elt F) → (⟨S_, .i32⟩ : BufTy).Contents (Elt F)),
    nullary main_c_1792 (constantI S_ 32 0#32),
    ternary main_v2098 main_v2099 main_c_1792 main_v2100 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1793 (constantI S_ 32 0#32),
    binary main_v2077 main_c_1793 main_v2101 (cmpi .slt : (⟨S_, .i32⟩ : BufTy).Contents (Elt F) → (⟨S_, .i32⟩ : BufTy).Contents (Elt F) → (⟨S_, .i1⟩ : BufTy).Contents (Elt F)),
    nullary main_c_1794 (constantI S_ 32 512#32),
    binary main_v2077 main_c_1794 main_v2102 (addi : (⟨S_, .i32⟩ : BufTy).Contents (Elt F) → (⟨S_, .i32⟩ : BufTy).Contents (Elt F) → (⟨S_, .i32⟩ : BufTy).Contents (Elt F)),
    ternary main_v2101 main_v2102 main_v2077 main_v2103 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
theorem pc122_sub : (pc122 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub ..⟩
theorem pc122_fresh : ∀ op ∈ (pc122 (F := F)), op.fresh = ∅ := by
  intro _ h; (repeat (cases h with | head => rfl | tail _ h => ?_)); exact nomatch h

/-- Operations 4273 … 4278 of 4424. -/
noncomputable def pc123 : List (HloOp τ sig (Elt F)) :=
  [ nullary main_c_1795 (constantI S_ 32 0#32),
    binary main_v2081 main_c_1795 main_v2104 (cmpi .slt : (⟨S_, .i32⟩ : BufTy).Contents (Elt F) → (⟨S_, .i32⟩ : BufTy).Contents (Elt F) → (⟨S_, .i1⟩ : BufTy).Contents (Elt F)),
    nullary main_c_1796 (constantI S_ 32 512#32),
    binary main_v2081 main_c_1796 main_v2105 (addi : (⟨S_, .i32⟩ : BufTy).Contents (Elt F) → (⟨S_, .i32⟩ : BufTy).Contents (Elt F) → (⟨S_, .i32⟩ : BufTy).Contents (Elt F)),
    ternary main_v2104 main_v2105 main_v2081 main_v2106 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v2073 main_v2094 ![main_v2097, main_v2100, main_v2103, main_v2106] ⟨S_, .i32⟩ main_v2107 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc123_sub : (pc123 (F := F)).Forall fun op => op.bufs ⊆ tcRefs τ sig :=
  ⟨nullary_bufs_sub .., binary_bufs_sub .., nullary_bufs_sub .., binary_bufs_sub .., ternary_bufs_sub .., binaryIndexed_bufs_sub ..⟩
theorem pc123_fresh : ∀ op ∈ (pc123 (F := F)), op.fresh = ∅ := by
  intro _ h; (repeat (cases h with | head => rfl | tail _ h => ?_)); exact nomatch h

/-- Operations 4279 … 4338 of 4424. -/
noncomputable def pc124 : List (HloOp τ sig (Elt F)) :=
  [ unary main_arg2 main_v2108 ((extractStridedSlice S1x1x1 ![15, 2, 0] · slices_S16x4x2_S1x1x1_15_2_0) : (⟨S16x4x2, .i32⟩ : BufTy).Contents (Elt F) → (⟨S1x1x1, .i32⟩ : BufTy).Contents (Elt F)),
    reshape main_v2108 main_v2109 rfl shapeCasts_S1x1x1_S_,
    nullary main_c_1797 (constantI S_ 32 128#32),
    binary main_v2109 main_c_1797 main_v2110 (muli : (⟨S_, .i32⟩ : BufTy).Contents (Elt F) → (⟨S_, .i32⟩ : BufTy).Contents (Elt F) → (⟨S_, .i32⟩ : BufTy).Contents (Elt F)),
    nullary main_c_1798 (constantI S_ 32 0#32),
    nullary main_c_1799 (constantI S_ 32 128#32),
    TRef.unary (TRef.of (T := ⟨S_, .i32⟩) main_c_1798) (TRef.of (T := ⟨S_, .i32⟩) main_call124_v0) id,
    TRef.binary (TRef.of (T := ⟨S_, .i32⟩) main_call124_v0) (TRef.of (T := ⟨S_, .i32⟩) main_v2110) (TRef.of (T := ⟨S_, .i32⟩) main_call124_v1) maxsi,
    TRef.unary (TRef.of (T := ⟨S_, .i32⟩) main_c_1799) (TRef.of (T := ⟨S_, .i32⟩) main_call124_v2) id,
    TRef.binary (TRef.of (T := ⟨S_, .i32⟩) main_call124_v2) (TRef.of (T := ⟨S_, .i32⟩) main_call124_v1) (TRef.of (T := ⟨S_, .i32⟩) main_v2111) minsi,
    unary main_arg2 main_v2112 ((extractStridedSlice S1x1x1 ![15, 2, 1] · slices_S16x4x2_S1x1x1_15_2_1) : (⟨S16x4x2, .i32⟩ : BufTy).Contents (Elt F) → (⟨S1x1x1, .i32⟩ : BufTy).Contents (Elt F)),
    reshape main_v2112 main_v2113 rfl shapeCasts_S1x1x1_S_,
    nullary main_c_1800 (constantI S_ 32 128#32),
    binary main_v2113 main_c_1800 main_v2114 (muli : (⟨S_, .i32⟩ : BufTy).Contents (Elt F) → (⟨S_, .i32⟩ : BufTy).Contents (Elt F) → (⟨S_, .i32⟩ : BufTy).Contents (Elt F)),
    nullary main_c_1801 (constantI S_ 32 0#32),
    nullary main_c_1802 (constantI S_ 32 128#32),
    TRef.unary (TRef.of (T := ⟨S_, .i32⟩) main_c_1801) (TRef.of (T := ⟨S_, .i32⟩) main_call125_v0) id,
    TRef.binary (TRef.of (T := ⟨S_, .i32⟩) main_call125_v0) (TRef.of (T := ⟨S_, .i32⟩) main_v2114) (TRef.of (T := ⟨S_, .i32⟩) main_call125_v1) maxsi,
    TRef.unary (TRef.of (T := ⟨S_, .i32⟩) main_c_1802) (TRef.of (T := ⟨S_, .i32⟩) main_call125_v2) id,
    TRef.binary (TRef.of (T := ⟨S_, .i32⟩) main_call125_v2) (TRef.of (T := ⟨S_, .i32⟩) main_call125_v1) (TRef.of (T := ⟨S_, .i32⟩) main_v2115) minsi,
    unary main_arg1 main_v2116 ((extractStridedSlice S1x1x1x512x512 ![15, 2, 0, 0, 0] · slices_S16x4x1x512x512_S1x1x1x512x512_15_2_0_0_0) : (⟨S16x4x1x512x512, .f32⟩ : BufTy).Contents (Elt F) → (⟨S1x1x1x512x512, .f32⟩ : BufTy).Contents (Elt F)),
    reshape main_v2116 main_v2117 rfl shapeCasts_S1x1x1x512x512_S1x512x512,
    nullary main_c_1803 (constantI S_ 32 0#32),
    nullary main_c_1804 (constantI S_ 32 0#32),
    binary main_c_1803 main_c_1804 main_v2118 (cmpi .slt : (⟨S_, .i32⟩ : BufTy).Contents (Elt F) → (⟨S_, .i32⟩ : BufTy).Contents (Elt F) → (⟨S_, .i1⟩ : BufTy).Contents (Elt F)),
    nullary main_c_1805 (constantI S_ 32 0#32),
    nullary main_c_1806 (constantI S_ 32 1#32),
    binary main_c_1805 main_c_1806 main_v2119 (addi : (⟨S_, .i32⟩ : BufTy).Contents (Elt F) → (⟨S_, .i32⟩ : BufTy).Contents (Elt F) → (⟨S_, .i32⟩ : BufTy).Contents (Elt F)),
    nullary main_c_1807 (constantI S_ 32 0#32),
    ternary main_v2118 main_v2119 main_c_1807 main_v2120 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1808 (constantI S_ 32 0#32),
    binary main_v2111 main_c_1808 main_v2121 (cmpi .slt : (⟨S_, .i32⟩ : BufTy).Contents (Elt F) → (⟨S_, .i32⟩ : BufTy).Contents (Elt F) → (⟨S_, .i1⟩ : BufTy).Contents (Elt F)),
    nullary main_c_1809 (constantI S_ 32 512#32),
    binary main_v2111 main_c_1809 main_v2122 (addi : (⟨S_, .i32⟩ : BufTy).Contents (Elt F) → (⟨S_, .i32⟩ : BufTy).Contents (Elt F) → (⟨S_, .i32⟩ : BufTy).Contents (Elt F)),
    ternary main_v2121 main_v2122 main_v2111 main_v2123 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1810 (constantI S_ 32 0#32),
    binary main_v2115 main_c_1810 main_v2124 (cmpi .slt : (⟨S_, .i32⟩ : BufTy).Contents (Elt F) → (⟨S_, .i32⟩ : BufTy).Contents (Elt F) → (⟨S_, .i1⟩ : BufTy).Contents (Elt F)),
    nullary main_c_1811 (constantI S_ 32 512#32),
    binary main_v2115 main_c_1811 main_v2125 (addi : (⟨S_, .i32⟩ : BufTy).Contents (Elt F) → (⟨S_, .i32⟩ : BufTy).Contents (Elt F) → (⟨S_, .i32⟩ : BufTy).Contents (Elt F)),
    ternary main_v2124 main_v2125 main_v2115 main_v2126 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2117 ![main_v2120, main_v2123, main_v2126] ⟨S_, .i32⟩ main_v2127 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v2127 main_v2128 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1812 (constantI S_ 32 15#32),
    nullary main_c_1813 (constantI S_ 32 0#32),
    binary main_c_1812 main_c_1813 main_v2129 (cmpi .slt : (⟨S_, .i32⟩ : BufTy).Contents (Elt F) → (⟨S_, .i32⟩ : BufTy).Contents (Elt F) → (⟨S_, .i1⟩ : BufTy).Contents (Elt F)),
    nullary main_c_1814 (constantI S_ 32 15#32),
    nullary main_c_1815 (constantI S_ 32 16#32),
    binary main_c_1814 main_c_1815 main_v2130 (addi : (⟨S_, .i32⟩ : BufTy).Contents (Elt F) → (⟨S_, .i32⟩ : BufTy).Contents (Elt F) → (⟨S_, .i32⟩ : BufTy).Contents (Elt F)),
    nullary main_c_1816 (constantI S_ 32 15#32),
    ternary main_v2129 main_v2130 main_c_1816 main_v2131 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1817 (constantI S_ 32 0#32),
    nullary main_c_1818 (constantI S_ 32 0#32),
    binary main_c_1817 main_c_1818 main_v2132 (cmpi .slt : (⟨S_, .i32⟩ : BufTy).Contents (Elt F) → (⟨S_, .i32⟩ : BufTy).Contents (Elt F) → (⟨S_, .i1⟩ : BufTy).Contents (Elt F)),
    nullary main_c_1819 (constantI S_ 32 0#32),
    nullary main_c_1820 (constantI S_ 32 1#32),
    binary main_c_1819 main_c_1820 main_v2133 (addi : (⟨S_, .i32⟩ : BufTy).Contents (Elt F) → (⟨S_, .i32⟩ : BufTy).Contents (Elt F) → (⟨S_, .i32⟩ : BufTy).Contents (Elt F)),
    nullary main_c_1821 (constantI S_ 32 0#32),
    ternary main_v2132 main_v2133 main_c_1821 main_v2134 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1822 (constantI S_ 32 0#32),
    binary main_v2111 main_c_1822 main_v2135 (cmpi .slt : (⟨S_, .i32⟩ : BufTy).Contents (Elt F) → (⟨S_, .i32⟩ : BufTy).Contents (Elt F) → (⟨S_, .i1⟩ : BufTy).Contents (Elt F)) ]
theorem pc124_sub : (pc124 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., binary_bufs_sub ..⟩
theorem pc124_fresh : ∀ op ∈ (pc124 (F := F)), op.fresh = ∅ := by
  intro _ h; (repeat (cases h with | head => rfl | tail _ h => ?_)); exact nomatch h

/-- Operations 4339 … 4347 of 4424. -/
noncomputable def pc125 : List (HloOp τ sig (Elt F)) :=
  [ nullary main_c_1823 (constantI S_ 32 512#32),
    binary main_v2111 main_c_1823 main_v2136 (addi : (⟨S_, .i32⟩ : BufTy).Contents (Elt F) → (⟨S_, .i32⟩ : BufTy).Contents (Elt F) → (⟨S_, .i32⟩ : BufTy).Contents (Elt F)),
    ternary main_v2135 main_v2136 main_v2111 main_v2137 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1824 (constantI S_ 32 0#32),
    binary main_v2115 main_c_1824 main_v2138 (cmpi .slt : (⟨S_, .i32⟩ : BufTy).Contents (Elt F) → (⟨S_, .i32⟩ : BufTy).Contents (Elt F) → (⟨S_, .i1⟩ : BufTy).Contents (Elt F)),
    nullary main_c_1825 (constantI S_ 32 512#32),
    binary main_v2115 main_c_1825 main_v2139 (addi : (⟨S_, .i32⟩ : BufTy).Contents (Elt F) → (⟨S_, .i32⟩ : BufTy).Contents (Elt F) → (⟨S_, .i32⟩ : BufTy).Contents (Elt F)),
    ternary main_v2138 main_v2139 main_v2115 main_v2140 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v2107 main_v2128 ![main_v2131, main_v2134, main_v2137, main_v2140] ⟨S_, .i32⟩ main_v2141 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc125_sub : (pc125 (F := F)).Forall fun op => op.bufs ⊆ tcRefs τ sig :=
  ⟨nullary_bufs_sub .., binary_bufs_sub .., ternary_bufs_sub .., nullary_bufs_sub .., binary_bufs_sub .., nullary_bufs_sub .., binary_bufs_sub .., ternary_bufs_sub .., binaryIndexed_bufs_sub ..⟩
theorem pc125_fresh : ∀ op ∈ (pc125 (F := F)), op.fresh = ∅ := by
  intro _ h; (repeat (cases h with | head => rfl | tail _ h => ?_)); exact nomatch h

/-- Operations 4348 … 4404 of 4424. -/
noncomputable def pc126 : List (HloOp τ sig (Elt F)) :=
  [ unary main_arg2 main_v2142 ((extractStridedSlice S1x1x1 ![15, 3, 0] · slices_S16x4x2_S1x1x1_15_3_0) : (⟨S16x4x2, .i32⟩ : BufTy).Contents (Elt F) → (⟨S1x1x1, .i32⟩ : BufTy).Contents (Elt F)),
    reshape main_v2142 main_v2143 rfl shapeCasts_S1x1x1_S_,
    nullary main_c_1826 (constantI S_ 32 128#32),
    binary main_v2143 main_c_1826 main_v2144 (muli : (⟨S_, .i32⟩ : BufTy).Contents (Elt F) → (⟨S_, .i32⟩ : BufTy).Contents (Elt F) → (⟨S_, .i32⟩ : BufTy).Contents (Elt F)),
    nullary main_c_1827 (constantI S_ 32 0#32),
    nullary main_c_1828 (constantI S_ 32 128#32),
    TRef.unary (TRef.of (T := ⟨S_, .i32⟩) main_c_1827) (TRef.of (T := ⟨S_, .i32⟩) main_call126_v0) id,
    TRef.binary (TRef.of (T := ⟨S_, .i32⟩) main_call126_v0) (TRef.of (T := ⟨S_, .i32⟩) main_v2144) (TRef.of (T := ⟨S_, .i32⟩) main_call126_v1) maxsi,
    TRef.unary (TRef.of (T := ⟨S_, .i32⟩) main_c_1828) (TRef.of (T := ⟨S_, .i32⟩) main_call126_v2) id,
    TRef.binary (TRef.of (T := ⟨S_, .i32⟩) main_call126_v2) (TRef.of (T := ⟨S_, .i32⟩) main_call126_v1) (TRef.of (T := ⟨S_, .i32⟩) main_v2145) minsi,
    unary main_arg2 main_v2146 ((extractStridedSlice S1x1x1 ![15, 3, 1] · slices_S16x4x2_S1x1x1_15_3_1) : (⟨S16x4x2, .i32⟩ : BufTy).Contents (Elt F) → (⟨S1x1x1, .i32⟩ : BufTy).Contents (Elt F)),
    reshape main_v2146 main_v2147 rfl shapeCasts_S1x1x1_S_,
    nullary main_c_1829 (constantI S_ 32 128#32),
    binary main_v2147 main_c_1829 main_v2148 (muli : (⟨S_, .i32⟩ : BufTy).Contents (Elt F) → (⟨S_, .i32⟩ : BufTy).Contents (Elt F) → (⟨S_, .i32⟩ : BufTy).Contents (Elt F)),
    nullary main_c_1830 (constantI S_ 32 0#32),
    nullary main_c_1831 (constantI S_ 32 128#32),
    TRef.unary (TRef.of (T := ⟨S_, .i32⟩) main_c_1830) (TRef.of (T := ⟨S_, .i32⟩) main_call127_v0) id,
    TRef.binary (TRef.of (T := ⟨S_, .i32⟩) main_call127_v0) (TRef.of (T := ⟨S_, .i32⟩) main_v2148) (TRef.of (T := ⟨S_, .i32⟩) main_call127_v1) maxsi,
    TRef.unary (TRef.of (T := ⟨S_, .i32⟩) main_c_1831) (TRef.of (T := ⟨S_, .i32⟩) main_call127_v2) id,
    TRef.binary (TRef.of (T := ⟨S_, .i32⟩) main_call127_v2) (TRef.of (T := ⟨S_, .i32⟩) main_call127_v1) (TRef.of (T := ⟨S_, .i32⟩) main_v2149) minsi,
    unary main_arg1 main_v2150 ((extractStridedSlice S1x1x1x512x512 ![15, 3, 0, 0, 0] · slices_S16x4x1x512x512_S1x1x1x512x512_15_3_0_0_0) : (⟨S16x4x1x512x512, .f32⟩ : BufTy).Contents (Elt F) → (⟨S1x1x1x512x512, .f32⟩ : BufTy).Contents (Elt F)),
    reshape main_v2150 main_v2151 rfl shapeCasts_S1x1x1x512x512_S1x512x512,
    nullary main_c_1832 (constantI S_ 32 0#32),
    nullary main_c_1833 (constantI S_ 32 0#32),
    binary main_c_1832 main_c_1833 main_v2152 (cmpi .slt : (⟨S_, .i32⟩ : BufTy).Contents (Elt F) → (⟨S_, .i32⟩ : BufTy).Contents (Elt F) → (⟨S_, .i1⟩ : BufTy).Contents (Elt F)),
    nullary main_c_1834 (constantI S_ 32 0#32),
    nullary main_c_1835 (constantI S_ 32 1#32),
    binary main_c_1834 main_c_1835 main_v2153 (addi : (⟨S_, .i32⟩ : BufTy).Contents (Elt F) → (⟨S_, .i32⟩ : BufTy).Contents (Elt F) → (⟨S_, .i32⟩ : BufTy).Contents (Elt F)),
    nullary main_c_1836 (constantI S_ 32 0#32),
    ternary main_v2152 main_v2153 main_c_1836 main_v2154 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1837 (constantI S_ 32 0#32),
    binary main_v2145 main_c_1837 main_v2155 (cmpi .slt : (⟨S_, .i32⟩ : BufTy).Contents (Elt F) → (⟨S_, .i32⟩ : BufTy).Contents (Elt F) → (⟨S_, .i1⟩ : BufTy).Contents (Elt F)),
    nullary main_c_1838 (constantI S_ 32 512#32),
    binary main_v2145 main_c_1838 main_v2156 (addi : (⟨S_, .i32⟩ : BufTy).Contents (Elt F) → (⟨S_, .i32⟩ : BufTy).Contents (Elt F) → (⟨S_, .i32⟩ : BufTy).Contents (Elt F)),
    ternary main_v2155 main_v2156 main_v2145 main_v2157 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1839 (constantI S_ 32 0#32),
    binary main_v2149 main_c_1839 main_v2158 (cmpi .slt : (⟨S_, .i32⟩ : BufTy).Contents (Elt F) → (⟨S_, .i32⟩ : BufTy).Contents (Elt F) → (⟨S_, .i1⟩ : BufTy).Contents (Elt F)),
    nullary main_c_1840 (constantI S_ 32 512#32),
    binary main_v2149 main_c_1840 main_v2159 (addi : (⟨S_, .i32⟩ : BufTy).Contents (Elt F) → (⟨S_, .i32⟩ : BufTy).Contents (Elt F) → (⟨S_, .i32⟩ : BufTy).Contents (Elt F)),
    ternary main_v2158 main_v2159 main_v2149 main_v2160 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v2151 ![main_v2154, main_v2157, main_v2160] ⟨S_, .i32⟩ main_v2161 ((fun x i => Host.dynamicSlice S1x384x384 x (fun k => (i k (Shape.Idx.first h_S_)).toInt) sliceFits_S1x512x512_S1x384x384) : (⟨S1x512x512, .f32⟩ : BufTy).Contents (Elt F) → (Fin 3 → (⟨S_, .i32⟩ : BufTy).Contents (Elt F)) → (⟨S1x384x384, .f32⟩ : BufTy).Contents (Elt F)),
    unary main_v2161 main_v2162 (broadcastInDim S1x1x384x384 ![1, 2, 3] bcast_S1x384x384_S1x1x384x384_1_2_3 : (⟨S1x384x384, .f32⟩ : BufTy).Contents (Elt F) → (⟨S1x1x384x384, .f32⟩ : BufTy).Contents (Elt F)),
    nullary main_c_1841 (constantI S_ 32 15#32),
    nullary main_c_1842 (constantI S_ 32 0#32),
    binary main_c_1841 main_c_1842 main_v2163 (cmpi .slt : (⟨S_, .i32⟩ : BufTy).Contents (Elt F) → (⟨S_, .i32⟩ : BufTy).Contents (Elt F) → (⟨S_, .i1⟩ : BufTy).Contents (Elt F)),
    nullary main_c_1843 (constantI S_ 32 15#32),
    nullary main_c_1844 (constantI S_ 32 16#32),
    binary main_c_1843 main_c_1844 main_v2164 (addi : (⟨S_, .i32⟩ : BufTy).Contents (Elt F) → (⟨S_, .i32⟩ : BufTy).Contents (Elt F) → (⟨S_, .i32⟩ : BufTy).Contents (Elt F)),
    nullary main_c_1845 (constantI S_ 32 15#32),
    ternary main_v2163 main_v2164 main_c_1845 main_v2165 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1846 (constantI S_ 32 0#32),
    nullary main_c_1847 (constantI S_ 32 0#32),
    binary main_c_1846 main_c_1847 main_v2166 (cmpi .slt : (⟨S_, .i32⟩ : BufTy).Contents (Elt F) → (⟨S_, .i32⟩ : BufTy).Contents (Elt F) → (⟨S_, .i1⟩ : BufTy).Contents (Elt F)),
    nullary main_c_1848 (constantI S_ 32 0#32),
    nullary main_c_1849 (constantI S_ 32 1#32),
    binary main_c_1848 main_c_1849 main_v2167 (addi : (⟨S_, .i32⟩ : BufTy).Contents (Elt F) → (⟨S_, .i32⟩ : BufTy).Contents (Elt F) → (⟨S_, .i32⟩ : BufTy).Contents (Elt F)),
    nullary main_c_1850 (constantI S_ 32 0#32) ]
theorem pc126_sub : (pc126 (F := F)).Forall fun op => op.bufs ⊆ tcRefs τ sig :=
  ⟨unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., binary_bufs_sub .., nullary_bufs_sub .., nullary_bufs_sub .., unary_bufs_sub .., binary_bufs_sub .., unary_bufs_sub .., binary_bufs_sub .., unary_bufs_sub .., reshape_bufs_sub .., nullary_bufs_sub .., nullary_bufs_sub .., binary_bufs_sub .., nullary_bufs_sub .., nullary_bufs_sub .., binary_bufs_sub .., nullary_bufs_sub .., ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., unary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub ..⟩
theorem pc126_fresh : ∀ op ∈ (pc126 (F := F)), op.fresh = ∅ := by
  intro _ h; (repeat (cases h with | head => rfl | tail _ h => ?_)); exact nomatch h

/-- Operations 4405 … 4416 of 4424. -/
noncomputable def pc127 : List (HloOp τ sig (Elt F)) :=
  [ ternary main_v2166 main_v2167 main_c_1850 main_v2168 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1851 (constantI S_ 32 0#32),
    binary main_v2145 main_c_1851 main_v2169 (cmpi .slt : (⟨S_, .i32⟩ : BufTy).Contents (Elt F) → (⟨S_, .i32⟩ : BufTy).Contents (Elt F) → (⟨S_, .i1⟩ : BufTy).Contents (Elt F)),
    nullary main_c_1852 (constantI S_ 32 512#32),
    binary main_v2145 main_c_1852 main_v2170 (addi : (⟨S_, .i32⟩ : BufTy).Contents (Elt F) → (⟨S_, .i32⟩ : BufTy).Contents (Elt F) → (⟨S_, .i32⟩ : BufTy).Contents (Elt F)),
    ternary main_v2169 main_v2170 main_v2145 main_v2171 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_1853 (constantI S_ 32 0#32),
    binary main_v2149 main_c_1853 main_v2172 (cmpi .slt : (⟨S_, .i32⟩ : BufTy).Contents (Elt F) → (⟨S_, .i32⟩ : BufTy).Contents (Elt F) → (⟨S_, .i1⟩ : BufTy).Contents (Elt F)),
    nullary main_c_1854 (constantI S_ 32 512#32),
    binary main_v2149 main_c_1854 main_v2173 (addi : (⟨S_, .i32⟩ : BufTy).Contents (Elt F) → (⟨S_, .i32⟩ : BufTy).Contents (Elt F) → (⟨S_, .i32⟩ : BufTy).Contents (Elt F)),
    ternary main_v2172 main_v2173 main_v2149 main_v2174 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    binaryIndexed main_v2141 main_v2162 ![main_v2165, main_v2168, main_v2171, main_v2174] ⟨S_, .i32⟩ main_v2175 ((fun x u i => Host.dynamicUpdateSlice x u (fun k => (i k (Shape.Idx.first h_S_)).toInt) updateFits_S16x1x512x512_S1x1x384x384) : (⟨S16x1x512x512, .f32⟩ : BufTy).Contents (Elt F) → (⟨S1x1x384x384, .f32⟩ : BufTy).Contents (Elt F) → (Fin 4 → (⟨S_, .i32⟩ : BufTy).Contents (Elt F)) → (⟨S16x1x512x512, .f32⟩ : BufTy).Contents (Elt F)) ]
theorem pc127_sub : (pc127 (F := F)).Forall fun op => op.bufs ⊆ tcRefs τ sig :=
  ⟨ternary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., binaryIndexed_bufs_sub ..⟩
theorem pc127_fresh : ∀ op ∈ (pc127 (F := F)), op.fresh = ∅ := by
  intro _ h; (repeat (cases h with | head => rfl | tail _ h => ?_)); exact nomatch h

/-- Operations 4417 … 4424 of 4424. -/
noncomputable def pc128 : List (HloOp τ sig (Elt F)) :=
  [ unary main_v2175 main_v2176 (Host.negf : (⟨S16x1x512x512, .f32⟩ : BufTy).Contents (Elt F) → (⟨S16x1x512x512, .f32⟩ : BufTy).Contents (Elt F)),
    unary main_v2176 main_v2177 (Host.exp : (⟨S16x1x512x512, .f32⟩ : BufTy).Contents (Elt F) → (⟨S16x1x512x512, .f32⟩ : BufTy).Contents (Elt F)),
    nullary main_cst (constant S_ .f32 0x3F800000#32),
    unary main_cst main_v2178 (broadcastInDim S16x1x512x512 ![] bcast_S_S16x1x512x512 : (⟨S_, .f32⟩ : BufTy).Contents (Elt F) → (⟨S16x1x512x512, .f32⟩ : BufTy).Contents (Elt F)),
    binary main_v2178 main_v2177 main_v2179 (addf : (⟨S16x1x512x512, .f32⟩ : BufTy).Contents (Elt F) → (⟨S16x1x512x512, .f32⟩ : BufTy).Contents (Elt F) → (⟨S16x1x512x512, .f32⟩ : BufTy).Contents (Elt F)),
    nullary main_cst_1855 (constant S_ .f32 0x3F800000#32),
    unary main_cst_1855 main_v2180 (broadcastInDim S16x1x512x512 ![] bcast_S_S16x1x512x512 : (⟨S_, .f32⟩ : BufTy).Contents (Elt F) → (⟨S16x1x512x512, .f32⟩ : BufTy).Contents (Elt F)),
    binary main_v2180 main_v2179 main_v2181 (Host.divf : (⟨S16x1x512x512, .f32⟩ : BufTy).Contents (Elt F) → (⟨S16x1x512x512, .f32⟩ : BufTy).Contents (Elt F) → (⟨S16x1x512x512, .f32⟩ : BufTy).Contents (Elt F)) ]
theorem pc128_sub : (pc128 (F := F)).Forall fun op => op.bufs ⊆ tcRefs τ sig :=
  ⟨unary_bufs_sub .., unary_bufs_sub .., nullary_bufs_sub .., unary_bufs_sub .., binary_bufs_sub .., nullary_bufs_sub .., unary_bufs_sub .., binary_bufs_sub ..⟩
theorem pc128_fresh : ∀ op ∈ (pc128 (F := F)), op.fresh = ∅ := by
  intro _ h; (repeat (cases h with | head => rfl | tail _ h => ?_)); exact nomatch h

set_option maxRecDepth 8192 in
set_option maxHeartbeats 4000000 in
/-- Window 63 of the printed program is the run of its lists. -/
theorem part63_eq (c : Dev nD) : main_part63 (F := F) c = seq (pc120) := rfl

set_option maxRecDepth 8192 in
set_option maxHeartbeats 4000000 in
/-- Window 64 of the printed program is the run of its lists. -/
theorem part64_eq (c : Dev nD) : main_part64 (F := F) c = seq (pc121 ++ (pc122)) := rfl

set_option maxRecDepth 8192 in
set_option maxHeartbeats 4000000 in
/-- Window 65 of the printed program is the run of its lists. -/
theorem part65_eq (c : Dev nD) : main_part65 (F := F) c = seq (pc123 ++ (pc124)) := rfl

set_option maxRecDepth 8192 in
set_option maxHeartbeats 4000000 in
/-- Window 66 of the printed program is the run of its lists. -/
theorem part66_eq (c : Dev nD) : main_part66 (F := F) c = seq (pc125 ++ (pc126)) := rfl

set_option maxRecDepth 8192 in
set_option maxHeartbeats 4000000 in
/-- Window 67 of the printed program is the run of its lists. -/
theorem part67_eq (c : Dev nD) : main_part67 (F := F) c = seq (pc127 ++ (pc128)) := rfl

end Cert.ReferenceIdeal.RefRun

end
-- ==== Proof.RefRun.StepsD.lean ====
/- Steps of the reference over the operations 4141 … 4424 of 4424: each step, from any contents, leaves the running map with one more
   overwrite, spelt as the program spells it, and the three arguments as they were. Last, the final four operations. -/
import proofs.«207346_g72533407695360_cont_9to1_m_270_11_alg».proof.Proof.RefRun.OpsD
import proofs.«207346_g72533407695360_cont_9to1_m_270_11_alg».proof.Proof.RefRunBase
import proofs.«207346_g72533407695360_cont_9to1_m_270_11_alg».proof.Proof.RefNest

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- Step 60 (image 15, window 0). -/
theorem inv60 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v2039) = X ∧ W (Proc.devRef .tc main_arg0) = A0 ∧ W (Proc.devRef .tc main_arg1) = A1 ∧ W (Proc.devRef .tc main_arg2) = A2) :
    (after pc121 (after pc120 W)) (Proc.devRef .tc main_v2073) = Cert.Fuse.Ref.stepAt 15 0 (by decide) (by decide) X A1 A2
      ∧ (after pc121 (after pc120 W)) (Proc.devRef .tc main_arg0) = A0 ∧ (after pc121 (after pc120 W)) (Proc.devRef .tc main_arg1) = A1 ∧ (after pc121 (after pc120 W)) (Proc.devRef .tc main_arg2) = A2 := by
  obtain ⟨rfl, rfl, rfl, rfl⟩ := h
  simp only [pc120, pc121]
  after_steps
  rfl

set_option maxHeartbeats 40000000 in
/-- Step 61 (image 15, window 1). -/
theorem inv61 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v2073) = X ∧ W (Proc.devRef .tc main_arg0) = A0 ∧ W (Proc.devRef .tc main_arg1) = A1 ∧ W (Proc.devRef .tc main_arg2) = A2) :
    (after pc123 (after pc122 W)) (Proc.devRef .tc main_v2107) = Cert.Fuse.Ref.stepAt 15 1 (by decide) (by decide) X A1 A2
      ∧ (after pc123 (after pc122 W)) (Proc.devRef .tc main_arg0) = A0 ∧ (after pc123 (after pc122 W)) (Proc.devRef .tc main_arg1) = A1 ∧ (after pc123 (after pc122 W)) (Proc.devRef .tc main_arg2) = A2 := by
  obtain ⟨rfl, rfl, rfl, rfl⟩ := h
  simp only [pc122, pc123]
  after_steps
  rfl

set_option maxHeartbeats 40000000 in
/-- Step 62 (image 15, window 2). -/
theorem inv62 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v2107) = X ∧ W (Proc.devRef .tc main_arg0) = A0 ∧ W (Proc.devRef .tc main_arg1) = A1 ∧ W (Proc.devRef .tc main_arg2) = A2) :
    (after pc125 (after pc124 W)) (Proc.devRef .tc main_v2141) = Cert.Fuse.Ref.stepAt 15 2 (by decide) (by decide) X A1 A2
      ∧ (after pc125 (after pc124 W)) (Proc.devRef .tc main_arg0) = A0 ∧ (after pc125 (after pc124 W)) (Proc.devRef .tc main_arg1) = A1 ∧ (after pc125 (after pc124 W)) (Proc.devRef .tc main_arg2) = A2 := by
  obtain ⟨rfl, rfl, rfl, rfl⟩ := h
  simp only [pc124, pc125]
  after_steps
  rfl

set_option maxHeartbeats 40000000 in
/-- Step 63 (image 15, window 3). -/
theorem inv63 (W : Valuation τ sig (Elt F)) (X : (⟨S16x1x512x512, .f32⟩ : BufTy).Contents (Elt F)) (A0 : (⟨S16x1x512x512, .f32⟩ : BufTy).Contents (Elt F)) (A1 : (⟨S16x4x1x512x512, .f32⟩ : BufTy).Contents (Elt F)) (A2 : (⟨S16x4x2, .i32⟩ : BufTy).Contents (Elt F))
    (h : W (Proc.devRef .tc main_v2141) = X ∧ W (Proc.devRef .tc main_arg0) = A0 ∧ W (Proc.devRef .tc main_arg1) = A1 ∧ W (Proc.devRef .tc main_arg2) = A2) :
    (after pc127 (after pc126 W)) (Proc.devRef .tc main_v2175) = Cert.Fuse.Ref.stepAt 15 3 (by decide) (by decide) X A1 A2
      ∧ (after pc127 (after pc126 W)) (Proc.devRef .tc main_arg0) = A0 ∧ (after pc127 (after pc126 W)) (Proc.devRef .tc main_arg1) = A1 ∧ (after pc127 (after pc126 W)) (Proc.devRef .tc main_arg2) = A2 := by
  obtain ⟨rfl, rfl, rfl, rfl⟩ := h
  simp only [pc126, pc127]
  after_steps
  rfl

set_option maxHeartbeats 40000000 in
/-- The final four operations, at the extended reals. -/
theorem invTail (W : Valuation τ sig (Elt Ideal)) (X : (⟨S16x1x512x512, .f32⟩ : BufTy).Contents (Elt Ideal)) (A0 : (⟨S16x1x512x512, .f32⟩ : BufTy).Contents (Elt Ideal)) (A1 : (⟨S16x4x1x512x512, .f32⟩ : BufTy).Contents (Elt Ideal)) (A2 : (⟨S16x4x2, .i32⟩ : BufTy).Contents (Elt Ideal))
    (h : W (Proc.devRef .tc main_v2175) = X ∧ W (Proc.devRef .tc main_arg0) = A0 ∧ W (Proc.devRef .tc main_arg1) = A1 ∧ W (Proc.devRef .tc main_arg2) = A2) :
    (after pc128 W) (Proc.devRef .tc main_v2181) = Cert.Fuse.Ref.refTail X
      ∧ (after pc128 W) (Proc.devRef .tc main_arg0) = A0 ∧ (after pc128 W) (Proc.devRef .tc main_arg1) = A1 ∧ (after pc128 W) (Proc.devRef .tc main_arg2) = A2 := by
  obtain ⟨rfl, rfl, rfl, rfl⟩ := h
  simp only [pc128]
  after_steps
  rfl

end Cert.ReferenceIdeal.RefRun

end
-- ==== Proof.RefRun.All.lean ====
/- The reference's 4424 operations as one list, the lists above in order; the printed program runs it; its operations touch
   TensorCore buffers only and each determines its result; and from any contents it leaves the result buffer at the final four
   operations of the sixty-four steps of the first argument, and the three arguments as they were. -/
import proofs.«207346_g72533407695360_cont_9to1_m_270_11_alg».proof.Proof.RefRun.StepsA
import proofs.«207346_g72533407695360_cont_9to1_m_270_11_alg».proof.Proof.RefRun.StepsB
import proofs.«207346_g72533407695360_cont_9to1_m_270_11_alg».proof.Proof.RefRun.StepsC
import proofs.«207346_g72533407695360_cont_9to1_m_270_11_alg».proof.Proof.RefRun.StepsD

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The whole program's operations. -/
noncomputable def all : List (HloOp τ sig (Elt F)) :=
  pc000 ++ (pc001 ++ (pc002 ++ (pc003 ++ (pc004 ++ (pc005 ++ (pc006 ++ (pc007 ++ (pc008 ++ (pc009 ++ (pc010 ++ (pc011 ++ (pc012 ++ (pc013 ++ (pc014 ++ (pc015 ++ (pc016 ++ (pc017 ++ (pc018 ++ (pc019 ++ (pc020 ++ (pc021 ++ (pc022 ++ (pc023 ++ (pc024 ++ (pc025 ++ (pc026 ++ (pc027 ++ (pc028 ++ (pc029 ++ (pc030 ++ (pc031 ++ (pc032 ++ (pc033 ++ (pc034 ++ (pc035 ++ (pc036 ++ (pc037 ++ (pc038 ++ (pc039 ++ (pc040 ++ (pc041 ++ (pc042 ++ (pc043 ++ (pc044 ++ (pc045 ++ (pc046 ++ (pc047 ++ (pc048 ++ (pc049 ++ (pc050 ++ (pc051 ++ (pc052 ++ (pc053 ++ (pc054 ++ (pc055 ++ (pc056 ++ (pc057 ++ (pc058 ++ (pc059 ++ (pc060 ++ (pc061 ++ (pc062 ++ (pc063 ++ (pc064 ++ (pc065 ++ (pc066 ++ (pc067 ++ (pc068 ++ (pc069 ++ (pc070 ++ (pc071 ++ (pc072 ++ (pc073 ++ (pc074 ++ (pc075 ++ (pc076 ++ (pc077 ++ (pc078 ++ (pc079 ++ (pc080 ++ (pc081 ++ (pc082 ++ (pc083 ++ (pc084 ++ (pc085 ++ (pc086 ++ (pc087 ++ (pc088 ++ (pc089 ++ (pc090 ++ (pc091 ++ (pc092 ++ (pc093 ++ (pc094 ++ (pc095 ++ (pc096 ++ (pc097 ++ (pc098 ++ (pc099 ++ (pc100 ++ (pc101 ++ (pc102 ++ (pc103 ++ (pc104 ++ (pc105 ++ (pc106 ++ (pc107 ++ (pc108 ++ (pc109 ++ (pc110 ++ (pc111 ++ (pc112 ++ (pc113 ++ (pc114 ++ (pc115 ++ (pc116 ++ (pc117 ++ (pc118 ++ (pc119 ++ (pc120 ++ (pc121 ++ (pc122 ++ (pc123 ++ (pc124 ++ (pc125 ++ (pc126 ++ (pc127 ++ (pc128))))))))))))))))))))))))))))))))))))))))))))))))))))))))))))))))))))))))))))))))))))))))))))))))))))))))))))))))))))))))))))))))

set_option maxHeartbeats 4000000 in
theorem main_all (c : Dev nD) : main (F := F) c = seq all := by
  unfold main all
  simp only [part0_eq, part1_eq, part2_eq, part3_eq, part4_eq, part5_eq, part6_eq, part7_eq, part8_eq, part9_eq, part10_eq, part11_eq, part12_eq, part13_eq, part14_eq, part15_eq, part16_eq, part17_eq, part18_eq, part19_eq, part20_eq, part21_eq, part22_eq, part23_eq, part24_eq, part25_eq, part26_eq, part27_eq, part28_eq, part29_eq, part30_eq, part31_eq, part32_eq, part33_eq, part34_eq, part35_eq, part36_eq, part37_eq, part38_eq, part39_eq, part40_eq, part41_eq, part42_eq, part43_eq, part44_eq, part45_eq, part46_eq, part47_eq, part48_eq, part49_eq, part50_eq, part51_eq, part52_eq, part53_eq, part54_eq, part55_eq, part56_eq, part57_eq, part58_eq, part59_eq, part60_eq, part61_eq, part62_eq, part63_eq, part64_eq, part65_eq, part66_eq, part67_eq, seq_append, bind_assoc]

theorem all_sub : (all (F := F)).Forall fun op => op.bufs ⊆ tcRefs τ sig := by
  unfold all
  exact forall_append pc000_sub (forall_append pc001_sub (forall_append pc002_sub (forall_append pc003_sub (forall_append pc004_sub (forall_append pc005_sub (forall_append pc006_sub (forall_append pc007_sub (forall_append pc008_sub (forall_append pc009_sub (forall_append pc010_sub (forall_append pc011_sub (forall_append pc012_sub (forall_append pc013_sub (forall_append pc014_sub (forall_append pc015_sub (forall_append pc016_sub (forall_append pc017_sub (forall_append pc018_sub (forall_append pc019_sub (forall_append pc020_sub (forall_append pc021_sub (forall_append pc022_sub (forall_append pc023_sub (forall_append pc024_sub (forall_append pc025_sub (forall_append pc026_sub (forall_append pc027_sub (forall_append pc028_sub (forall_append pc029_sub (forall_append pc030_sub (forall_append pc031_sub (forall_append pc032_sub (forall_append pc033_sub (forall_append pc034_sub (forall_append pc035_sub (forall_append pc036_sub (forall_append pc037_sub (forall_append pc038_sub (forall_append pc039_sub (forall_append pc040_sub (forall_append pc041_sub (forall_append pc042_sub (forall_append pc043_sub (forall_append pc044_sub (forall_append pc045_sub (forall_append pc046_sub (forall_append pc047_sub (forall_append pc048_sub (forall_append pc049_sub (forall_append pc050_sub (forall_append pc051_sub (forall_append pc052_sub (forall_append pc053_sub (forall_append pc054_sub (forall_append pc055_sub (forall_append pc056_sub (forall_append pc057_sub (forall_append pc058_sub (forall_append pc059_sub (forall_append pc060_sub (forall_append pc061_sub (forall_append pc062_sub (forall_append pc063_sub (forall_append pc064_sub (forall_append pc065_sub (forall_append pc066_sub (forall_append pc067_sub (forall_append pc068_sub (forall_append pc069_sub (forall_append pc070_sub (forall_append pc071_sub (forall_append pc072_sub (forall_append pc073_sub (forall_append pc074_sub (forall_append pc075_sub (forall_append pc076_sub (forall_append pc077_sub (forall_append pc078_sub (forall_append pc079_sub (forall_append pc080_sub (forall_append pc081_sub (forall_append pc082_sub (forall_append pc083_sub (forall_append pc084_sub (forall_append pc085_sub (forall_append pc086_sub (forall_append pc087_sub (forall_append pc088_sub (forall_append pc089_sub (forall_append pc090_sub (forall_append pc091_sub (forall_append pc092_sub (forall_append pc093_sub (forall_append pc094_sub (forall_append pc095_sub (forall_append pc096_sub (forall_append pc097_sub (forall_append pc098_sub (forall_append pc099_sub (forall_append pc100_sub (forall_append pc101_sub (forall_append pc102_sub (forall_append pc103_sub (forall_append pc104_sub (forall_append pc105_sub (forall_append pc106_sub (forall_append pc107_sub (forall_append pc108_sub (forall_append pc109_sub (forall_append pc110_sub (forall_append pc111_sub (forall_append pc112_sub (forall_append pc113_sub (forall_append pc114_sub (forall_append pc115_sub (forall_append pc116_sub (forall_append pc117_sub (forall_append pc118_sub (forall_append pc119_sub (forall_append pc120_sub (forall_append pc121_sub (forall_append pc122_sub (forall_append pc123_sub (forall_append pc124_sub (forall_append pc125_sub (forall_append pc126_sub (forall_append pc127_sub (pc128_sub))))))))))))))))))))))))))))))))))))))))))))))))))))))))))))))))))))))))))))))))))))))))))))))))))))))))))))))))))))))))))))))))

theorem all_fresh : ∀ op ∈ (all (F := F)), op.fresh = ∅ := by
  unfold all
  exact forall_mem_append pc000_fresh (forall_mem_append pc001_fresh (forall_mem_append pc002_fresh (forall_mem_append pc003_fresh (forall_mem_append pc004_fresh (forall_mem_append pc005_fresh (forall_mem_append pc006_fresh (forall_mem_append pc007_fresh (forall_mem_append pc008_fresh (forall_mem_append pc009_fresh (forall_mem_append pc010_fresh (forall_mem_append pc011_fresh (forall_mem_append pc012_fresh (forall_mem_append pc013_fresh (forall_mem_append pc014_fresh (forall_mem_append pc015_fresh (forall_mem_append pc016_fresh (forall_mem_append pc017_fresh (forall_mem_append pc018_fresh (forall_mem_append pc019_fresh (forall_mem_append pc020_fresh (forall_mem_append pc021_fresh (forall_mem_append pc022_fresh (forall_mem_append pc023_fresh (forall_mem_append pc024_fresh (forall_mem_append pc025_fresh (forall_mem_append pc026_fresh (forall_mem_append pc027_fresh (forall_mem_append pc028_fresh (forall_mem_append pc029_fresh (forall_mem_append pc030_fresh (forall_mem_append pc031_fresh (forall_mem_append pc032_fresh (forall_mem_append pc033_fresh (forall_mem_append pc034_fresh (forall_mem_append pc035_fresh (forall_mem_append pc036_fresh (forall_mem_append pc037_fresh (forall_mem_append pc038_fresh (forall_mem_append pc039_fresh (forall_mem_append pc040_fresh (forall_mem_append pc041_fresh (forall_mem_append pc042_fresh (forall_mem_append pc043_fresh (forall_mem_append pc044_fresh (forall_mem_append pc045_fresh (forall_mem_append pc046_fresh (forall_mem_append pc047_fresh (forall_mem_append pc048_fresh (forall_mem_append pc049_fresh (forall_mem_append pc050_fresh (forall_mem_append pc051_fresh (forall_mem_append pc052_fresh (forall_mem_append pc053_fresh (forall_mem_append pc054_fresh (forall_mem_append pc055_fresh (forall_mem_append pc056_fresh (forall_mem_append pc057_fresh (forall_mem_append pc058_fresh (forall_mem_append pc059_fresh (forall_mem_append pc060_fresh (forall_mem_append pc061_fresh (forall_mem_append pc062_fresh (forall_mem_append pc063_fresh (forall_mem_append pc064_fresh (forall_mem_append pc065_fresh (forall_mem_append pc066_fresh (forall_mem_append pc067_fresh (forall_mem_append pc068_fresh (forall_mem_append pc069_fresh (forall_mem_append pc070_fresh (forall_mem_append pc071_fresh (forall_mem_append pc072_fresh (forall_mem_append pc073_fresh (forall_mem_append pc074_fresh (forall_mem_append pc075_fresh (forall_mem_append pc076_fresh (forall_mem_append pc077_fresh (forall_mem_append pc078_fresh (forall_mem_append pc079_fresh (forall_mem_append pc080_fresh (forall_mem_append pc081_fresh (forall_mem_append pc082_fresh (forall_mem_append pc083_fresh (forall_mem_append pc084_fresh (forall_mem_append pc085_fresh (forall_mem_append pc086_fresh (forall_mem_append pc087_fresh (forall_mem_append pc088_fresh (forall_mem_append pc089_fresh (forall_mem_append pc090_fresh (forall_mem_append pc091_fresh (forall_mem_append pc092_fresh (forall_mem_append pc093_fresh (forall_mem_append pc094_fresh (forall_mem_append pc095_fresh (forall_mem_append pc096_fresh (forall_mem_append pc097_fresh (forall_mem_append pc098_fresh (forall_mem_append pc099_fresh (forall_mem_append pc100_fresh (forall_mem_append pc101_fresh (forall_mem_append pc102_fresh (forall_mem_append pc103_fresh (forall_mem_append pc104_fresh (forall_mem_append pc105_fresh (forall_mem_append pc106_fresh (forall_mem_append pc107_fresh (forall_mem_append pc108_fresh (forall_mem_append pc109_fresh (forall_mem_append pc110_fresh (forall_mem_append pc111_fresh (forall_mem_append pc112_fresh (forall_mem_append pc113_fresh (forall_mem_append pc114_fresh (forall_mem_append pc115_fresh (forall_mem_append pc116_fresh (forall_mem_append pc117_fresh (forall_mem_append pc118_fresh (forall_mem_append pc119_fresh (forall_mem_append pc120_fresh (forall_mem_append pc121_fresh (forall_mem_append pc122_fresh (forall_mem_append pc123_fresh (forall_mem_append pc124_fresh (forall_mem_append pc125_fresh (forall_mem_append pc126_fresh (forall_mem_append pc127_fresh (pc128_fresh))))))))))))))))))))))))))))))))))))))))))))))))))))))))))))))))))))))))))))))))))))))))))))))))))))))))))))))))))))))))))))))))

set_option maxHeartbeats 4000000 in
theorem after_all (V : Valuation τ sig (Elt Ideal)) :
    after all V (Proc.devRef .tc main_v2181) = Cert.Fuse.Ref.refTail (Cert.Fuse.Ref.nestAll (V (Proc.devRef .tc main_arg0)) (V (Proc.devRef .tc main_arg1)) (V (Proc.devRef .tc main_arg2)))
      ∧ after all V (Proc.devRef .tc main_arg0) = V (Proc.devRef .tc main_arg0) ∧ after all V (Proc.devRef .tc main_arg1) = V (Proc.devRef .tc main_arg1) ∧ after all V (Proc.devRef .tc main_arg2) = V (Proc.devRef .tc main_arg2) := by
  have I0 := inv0 (F := Ideal) V _ _ _ _ ⟨rfl, rfl, rfl, rfl⟩
  have I1 := inv1 (F := Ideal) _ _ _ _ _ I0
  have I2 := inv2 (F := Ideal) _ _ _ _ _ I1
  have I3 := inv3 (F := Ideal) _ _ _ _ _ I2
  have I4 := inv4 (F := Ideal) _ _ _ _ _ I3
  have I5 := inv5 (F := Ideal) _ _ _ _ _ I4
  have I6 := inv6 (F := Ideal) _ _ _ _ _ I5
  have I7 := inv7 (F := Ideal) _ _ _ _ _ I6
  have I8 := inv8 (F := Ideal) _ _ _ _ _ I7
  have I9 := inv9 (F := Ideal) _ _ _ _ _ I8
  have I10 := inv10 (F := Ideal) _ _ _ _ _ I9
  have I11 := inv11 (F := Ideal) _ _ _ _ _ I10
  have I12 := inv12 (F := Ideal) _ _ _ _ _ I11
  have I13 := inv13 (F := Ideal) _ _ _ _ _ I12
  have I14 := inv14 (F := Ideal) _ _ _ _ _ I13
  have I15 := inv15 (F := Ideal) _ _ _ _ _ I14
  have I16 := inv16 (F := Ideal) _ _ _ _ _ I15
  have I17 := inv17 (F := Ideal) _ _ _ _ _ I16
  have I18 := inv18 (F := Ideal) _ _ _ _ _ I17
  have I19 := inv19 (F := Ideal) _ _ _ _ _ I18
  have I20 := inv20 (F := Ideal) _ _ _ _ _ I19
  have I21 := inv21 (F := Ideal) _ _ _ _ _ I20
  have I22 := inv22 (F := Ideal) _ _ _ _ _ I21
  have I23 := inv23 (F := Ideal) _ _ _ _ _ I22
  have I24 := inv24 (F := Ideal) _ _ _ _ _ I23
  have I25 := inv25 (F := Ideal) _ _ _ _ _ I24
  have I26 := inv26 (F := Ideal) _ _ _ _ _ I25
  have I27 := inv27 (F := Ideal) _ _ _ _ _ I26
  have I28 := inv28 (F := Ideal) _ _ _ _ _ I27
  have I29 := inv29 (F := Ideal) _ _ _ _ _ I28
  have I30 := inv30 (F := Ideal) _ _ _ _ _ I29
  have I31 := inv31 (F := Ideal) _ _ _ _ _ I30
  have I32 := inv32 (F := Ideal) _ _ _ _ _ I31
  have I33 := inv33 (F := Ideal) _ _ _ _ _ I32
  have I34 := inv34 (F := Ideal) _ _ _ _ _ I33
  have I35 := inv35 (F := Ideal) _ _ _ _ _ I34
  have I36 := inv36 (F := Ideal) _ _ _ _ _ I35
  have I37 := inv37 (F := Ideal) _ _ _ _ _ I36
  have I38 := inv38 (F := Ideal) _ _ _ _ _ I37
  have I39 := inv39 (F := Ideal) _ _ _ _ _ I38
  have I40 := inv40 (F := Ideal) _ _ _ _ _ I39
  have I41 := inv41 (F := Ideal) _ _ _ _ _ I40
  have I42 := inv42 (F := Ideal) _ _ _ _ _ I41
  have I43 := inv43 (F := Ideal) _ _ _ _ _ I42
  have I44 := inv44 (F := Ideal) _ _ _ _ _ I43
  have I45 := inv45 (F := Ideal) _ _ _ _ _ I44
  have I46 := inv46 (F := Ideal) _ _ _ _ _ I45
  have I47 := inv47 (F := Ideal) _ _ _ _ _ I46
  have I48 := inv48 (F := Ideal) _ _ _ _ _ I47
  have I49 := inv49 (F := Ideal) _ _ _ _ _ I48
  have I50 := inv50 (F := Ideal) _ _ _ _ _ I49
  have I51 := inv51 (F := Ideal) _ _ _ _ _ I50
  have I52 := inv52 (F := Ideal) _ _ _ _ _ I51
  have I53 := inv53 (F := Ideal) _ _ _ _ _ I52
  have I54 := inv54 (F := Ideal) _ _ _ _ _ I53
  have I55 := inv55 (F := Ideal) _ _ _ _ _ I54
  have I56 := inv56 (F := Ideal) _ _ _ _ _ I55
  have I57 := inv57 (F := Ideal) _ _ _ _ _ I56
  have I58 := inv58 (F := Ideal) _ _ _ _ _ I57
  have I59 := inv59 (F := Ideal) _ _ _ _ _ I58
  have I60 := inv60 (F := Ideal) _ _ _ _ _ I59
  have I61 := inv61 (F := Ideal) _ _ _ _ _ I60
  have I62 := inv62 (F := Ideal) _ _ _ _ _ I61
  have I63 := inv63 (F := Ideal) _ _ _ _ _ I62
  have IT := invTail _ _ _ _ _ I63
  unfold all
  simp only [after_append']
  exact IT

end Cert.ReferenceIdeal.RefRun

end
-- ==== Proof.RefValue.lean ====
/-
  The reference's run ends with the result buffer holding the specified fusion of its arguments.

  The printed program is a straight line of host operations, so every execution ends with each buffer at the fold of the
  operations over the launch contents. Read step by step, that fold leaves the result buffer at the logistic function of the
  sixty-four overwrites of the sampling map, and the three arguments as they were; with every selection word 0 or 1 the
  sixty-four overwrites are the specified choice, element by element.
-/
import proofs.«207346_g72533407695360_cont_9to1_m_270_11_alg».proof.Defs
import proofs.«207346_g72533407695360_cont_9to1_m_270_11_alg».proof.Proof.Spec
import proofs.«207346_g72533407695360_cont_9to1_m_270_11_alg».proof.Proof.RefRun.All

noncomputable section

namespace Cert.ReferenceIdeal.RefValue

open Idealize.ShloMosaic Idealize.ShloMosaic.TcCoe Idealize.SL.Sem Idealize.ShloMosaic.StableHlo

theorem run_fused [hR : Cert.ReferenceIdeal.Facts]
    (m : (ℓ : Loc Cert.ReferenceIdeal.nD Cert.ReferenceIdeal.τ Cert.ReferenceIdeal.sig) → Buf (Elt Ideal) ℓ) (g : Dev Cert.ReferenceIdeal.nD → PrngReg)
    (hsel : ∀ (c : Dev Cert.ReferenceIdeal.nD) j, ((m ((c.tc : Thread Cert.ReferenceIdeal.nD Cert.ReferenceIdeal.τ).loc Cert.ReferenceIdeal.main_arg2)) j).toNat ≤ 1) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread _ Cert.ReferenceIdeal.τ).loc Cert.ReferenceIdeal.main_v2181)
            = Cert.Fuse.fused (F := Ideal) (m ((c.tc : Thread _ Cert.ReferenceIdeal.τ).loc Cert.ReferenceIdeal.main_arg0)) (m ((c.tc : Thread _ Cert.ReferenceIdeal.τ).loc Cert.ReferenceIdeal.main_arg1)) (m ((c.tc : Thread _ Cert.ReferenceIdeal.τ).loc Cert.ReferenceIdeal.main_arg2))
          ∧ r.2.mem ((c.tc : Thread _ Cert.ReferenceIdeal.τ).loc Cert.ReferenceIdeal.main_arg0) = m ((c.tc : Thread _ Cert.ReferenceIdeal.τ).loc Cert.ReferenceIdeal.main_arg0)
          ∧ r.2.mem ((c.tc : Thread _ Cert.ReferenceIdeal.τ).loc Cert.ReferenceIdeal.main_arg1) = m ((c.tc : Thread _ Cert.ReferenceIdeal.τ).loc Cert.ReferenceIdeal.main_arg1)
          ∧ r.2.mem ((c.tc : Thread _ Cert.ReferenceIdeal.τ).loc Cert.ReferenceIdeal.main_arg2) = m ((c.tc : Thread _ Cert.ReferenceIdeal.τ).loc Cert.ReferenceIdeal.main_arg2)) := by
  refine (θ_run _ _ _).mono (fun r h c => ?_)
    (run_seq Cert.ReferenceIdeal.RefRun.scopedRefs_eq Cert.ReferenceIdeal.RefRun.scopedSems_eq (Cert.ReferenceIdeal.defs (F := Ideal))
      (Cert.ReferenceIdeal.main (F := Ideal)) (fun _ => Cert.ReferenceIdeal.RefRun.all) Cert.ReferenceIdeal.RefRun.main_all
      (fun _ => Cert.ReferenceIdeal.RefRun.all_sub) m g (fun _ => Cert.ReferenceIdeal.RefRun.all_fresh))
  have hv := Cert.ReferenceIdeal.RefRun.after_all (launchContents m c)
  refine ⟨(h c Cert.ReferenceIdeal.main_v2181).trans (hv.1.trans ?_), (h c Cert.ReferenceIdeal.main_arg0).trans hv.2.1,
    (h c Cert.ReferenceIdeal.main_arg1).trans hv.2.2.1, (h c Cert.ReferenceIdeal.main_arg2).trans hv.2.2.2⟩
  exact Cert.Fuse.Ref.refValue_eq _ _ _ (hsel c)

end Cert.ReferenceIdeal.RefValue

end
-- ==== Proof.lean ====
/-
  The proof of the certificate's claim: both printed kernels and the reference run, leave their arguments unchanged, and
  the idealized kernel and the idealized reference end with the same result.

  WHAT IS COMPUTED. The map is sixteen images of 512 × 512, each cut into a 4 × 4 grid of tiles of 128 × 128. For each
  image and each of four windows the selection holds a start tile row and a start tile column, each 0 or 1; the window is
  the 3 × 3 block of tiles that starts there. An element takes its input from the refined map of the LAST window whose
  block covers it, and from the sampling map when no window does; the result is `1 / (1 + exp (0 - x))` of that input.
  That is one function of the three arguments, `Cert.Fuse.fused` (Proof/Spec.lean). Whether a window covers an element
  depends only on the element's tile, so a program that decides the source once per tile and a program that overwrites
  element by element compute the same array.

  THE KERNEL deals the 256 tiles to thirty-two vector subcores, eight tiles of one image to each. A subcore fetches the
  selection words of its image and, tile by tile, finds the last covering window from them, copies the tile in from that
  window's refined map or from the sampling map, takes the logistic function of it two rows a trip, and copies the tile
  out. The body's run is proved once, for the subcore at a symbolic place (the tile obligation, Proof/KIBody.lean): the
  words it extracts are the selection's (Proof/KIWords.lean), its choice of source is the specification's
  (Proof/KIPick.lean), each trip extends the finished rows by two (Proof/KILoops.lean), and so what a copy-out carries is
  the specification's result on the tile (Proof/KIValue.lean). The launch turns the one obligation into the run of all
  thirty-two subcores beside the host's flattening of the selection (Proof/KILaunch.lean): the three arguments go out as
  read shares of the whole arrays and come back unchanged, the result goes out as its 256 pairwise disjoint tiles, which
  cover it (Proof/KIPart.lean), and comes back with every tile at the specification's values. The Proof/KB… modules are
  the same text over the kernel as printed.

  THE REFERENCE starts from the sampling map and, image by image and window by window, overwrites the window's block with
  the refined map's, a later window over an earlier one, then takes the logistic function of the whole. Its run is
  followed operation by operation (Proof/RefValue.lean) and ends at the same function of its arguments.

  THE CLAIM (Proof/Assemble.lean). The precondition says that every selection word is 0 or 1, which is all the three runs
  ask of the input. Each frame is a run with the result's value dropped; the idealization rewrote no operation; and from
  memories that agree on the arguments the two idealized programs end at the same `Cert.Fuse.fused` of them.
-/
import proofs.«207346_g72533407695360_cont_9to1_m_270_11_alg».proof.Defs
import proofs.«207346_g72533407695360_cont_9to1_m_270_11_alg».proof.Proof.Assemble
import proofs.«207346_g72533407695360_cont_9to1_m_270_11_alg».proof.Proof.KIBody
import proofs.«207346_g72533407695360_cont_9to1_m_270_11_alg».proof.Proof.KBBody
import proofs.«207346_g72533407695360_cont_9to1_m_270_11_alg».proof.Proof.RefValue

noncomputable section

namespace Cert.Proof

theorem claim : Cert.Claim :=
  Cert.Proof.Assemble.claim_of
    (fun m hsel => Cert.Proof.KI.tileObl m Cert.Proof.KI.facts hsel)
    (fun m hsel => Cert.Proof.KB.tileObl m Cert.Proof.KB.facts hsel)
    (fun m g hsel => Cert.ReferenceIdeal.RefValue.run_fused m g hsel)

end Cert.Proof

end
